-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v125)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v125) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x16 : Shape := ⟨2, ![2048, 16]⟩
abbrev S16384x16384 : Shape := ⟨2, ![16384, 16384]⟩
abbrev S15x128x32 : Shape := ⟨3, ![15, 128, 32]⟩
abbrev S32 : Shape := ⟨1, ![32]⟩
abbrev S_ : Shape := ⟨0, ![]⟩

class Facts : Prop where
  bcast_S_S2048x16 : S_.BroadcastsInDim S2048x16 (![] : Fin 0 → Fin S2048x16.rank)
  reducesTo_S2048x16_S_d0_1 : S2048x16.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S15x128x32 : S_.BroadcastsInDim S15x128x32 (![] : Fin 0 → Fin S15x128x32.rank)
  reducesTo_S15x128x32_S_d0_1_2 : S15x128x32.ReducesTo [0, 1, 2] S_
  bcast_S_S32 : S_.BroadcastsInDim S32 (![] : Fin 0 → Fin S32.rank)
  reducesTo_S32_S_d0 : S32.ReducesTo [0] S_

variable [Facts]

def fn_part1 {F : FTy → Type} [FloatOps F] (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  main_v18

def fn {F : FTy → Type} [FloatOps F] (main_arg0 : FVec F S2048x16 .f32) (main_arg1 : FVec F S16384x16384 .f32) (main_arg2 : FVec F S15x128x32 .f32) (main_arg3 : FVec F S32 .f32) : IVec S_ 1 :=
  let main_v0 : FVec F S2048x16 .f32 := Host.absf main_arg0
  let main_cst : FVec F S_ .f32 := constant S_ .f32 0x7F800000#32
  let main_v1 : FVec F S2048x16 .f32 := broadcastInDim S2048x16 ![] bcast_S_S2048x16 main_cst
  let main_v2 : IVec S2048x16 1 := cmpf .olt main_v0 main_v1
  let main_c : IVec S_ 1 := constantI S_ 1 1#1
  let main_v3 : IVec S_ 1 := (fun x v => Host.reduce IntOp.andi x v reducesTo_S2048x16_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S15x128x32 .f32 := Host.absf main_arg2
  let main_cst_2 : FVec F S_ .f32 := constant S_ .f32 0x7F800000#32
  let main_v10 : FVec F S15x128x32 .f32 := broadcastInDim S15x128x32 ![] bcast_S_S15x128x32 main_cst_2
  let main_v11 : IVec S15x128x32 1 := cmpf .olt main_v9 main_v10
  let main_c_3 : IVec S_ 1 := constantI S_ 1 1#1
  let main_v12 : IVec S_ 1 := (fun x v => Host.reduce IntOp.andi x v reducesTo_S15x128x32_S_d0_1_2 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_v13 main_v16
-- ==== Kernel.lean ====
abbrev S2048x16 : Shape := ⟨2, ![2048, 16]⟩
abbrev S16384x16384 : Shape := ⟨2, ![16384, 16384]⟩
abbrev S15x128x32 : Shape := ⟨3, ![15, 128, 32]⟩
abbrev S32 : Shape := ⟨1, ![32]⟩
abbrev S1x2048x1x16 : Shape := ⟨4, ![1, 2048, 1, 16]⟩
abbrev S8x2048x1x16 : Shape := ⟨4, ![8, 2048, 1, 16]⟩
abbrev S16384x16 : Shape := ⟨2, ![16384, 16]⟩
abbrev S1x128x32 : Shape := ⟨3, ![1, 128, 32]⟩
abbrev S128x32 : Shape := ⟨2, ![128, 32]⟩
abbrev S8x2048x16 : Shape := ⟨3, ![8, 2048, 16]⟩
abbrev S2048x8x16 : Shape := ⟨3, ![2048, 8, 16]⟩
abbrev S2048x128 : Shape := ⟨2, ![2048, 128]⟩
abbrev S2048x32 : Shape := ⟨2, ![2048, 32]⟩
abbrev S2048x2048 : Shape := ⟨2, ![2048, 2048]⟩
abbrev S1x32 : Shape := ⟨2, ![1, 32]⟩

abbrev nBuf : Space → Nat
  | .hbm => 144
  | .vmem => 154
  | .smem => 0
  | _ => 0

abbrev hbmTy0_0 (i : Nat) : BufTy := match i % 128 with
  | 0 => ⟨S2048x16, .f32⟩
  | 1 => ⟨S16384x16384, .f32⟩
  | 2 => ⟨S15x128x32, .f32⟩
  | 3 => ⟨S32, .f32⟩
  | 4 => ⟨S16384x16384, .bf16⟩
  | 5 => ⟨S1x2048x1x16, .f32⟩
  | 6 => ⟨S8x2048x1x16, .f32⟩
  | 7 => ⟨S16384x16, .f32⟩
  | 8 => ⟨S1x128x32, .f32⟩
  | 9 => ⟨S128x32, .f32⟩
  | 10 => ⟨S8x2048x16, .f32⟩
  | 11 => ⟨S2048x8x16, .f32⟩
  | 12 => ⟨S2048x128, .f32⟩
  | 13 => ⟨S2048x32, .f32⟩
  | 14 => ⟨S16384x16, .bf16⟩
  | 15 => ⟨S16384x16, .f32⟩
  | 16 => ⟨S16384x16, .bf16⟩
  | 17 => ⟨S1x128x32, .f32⟩
  | 18 => ⟨S128x32, .f32⟩
  | 19 => ⟨S8x2048x16, .f32⟩
  | 20 => ⟨S2048x8x16, .f32⟩
  | 21 => ⟨S2048x128, .f32⟩
  | 22 => ⟨S2048x32, .f32⟩
  | 23 => ⟨S2048x32, .f32⟩
  | 24 => ⟨S16384x16, .f32⟩
  | 25 => ⟨S16384x16, .bf16⟩
  | 26 => ⟨S1x128x32, .f32⟩
  | 27 => ⟨S128x32, .f32⟩
  | 28 => ⟨S8x2048x16, .f32⟩
  | 29 => ⟨S2048x8x16, .f32⟩
  | 30 => ⟨S2048x128, .f32⟩
  | 31 => ⟨S2048x32, .f32⟩
  | 32 => ⟨S2048x32, .f32⟩
  | 33 => ⟨S16384x16, .f32⟩
  | 34 => ⟨S16384x16, .bf16⟩
  | 35 => ⟨S1x128x32, .f32⟩
  | 36 => ⟨S128x32, .f32⟩
  | 37 => ⟨S8x2048x16, .f32⟩
  | 38 => ⟨S2048x8x16, .f32⟩
  | 39 => ⟨S2048x128, .f32⟩
  | 40 => ⟨S2048x32, .f32⟩
  | 41 => ⟨S2048x32, .f32⟩
  | 42 => ⟨S16384x16, .f32⟩
  | 43 => ⟨S16384x16, .bf16⟩
  | 44 => ⟨S1x128x32, .f32⟩
  | 45 => ⟨S128x32, .f32⟩
  | 46 => ⟨S8x2048x16, .f32⟩
  | 47 => ⟨S2048x8x16, .f32⟩
  | 48 => ⟨S2048x128, .f32⟩
  | 49 => ⟨S2048x32, .f32⟩
  | 50 => ⟨S2048x32, .f32⟩
  | 51 => ⟨S16384x16, .f32⟩
  | 52 => ⟨S16384x16, .bf16⟩
  | 53 => ⟨S1x128x32, .f32⟩
  | 54 => ⟨S128x32, .f32⟩
  | 55 => ⟨S8x2048x16, .f32⟩
  | 56 => ⟨S2048x8x16, .f32⟩
  | 57 => ⟨S2048x128, .f32⟩
  | 58 => ⟨S2048x32, .f32⟩
  | 59 => ⟨S2048x32, .f32⟩
  | 60 => ⟨S16384x16, .f32⟩
  | 61 => ⟨S16384x16, .bf16⟩
  | 62 => ⟨S1x128x32, .f32⟩
  | 63 => ⟨S128x32, .f32⟩
  | 64 => ⟨S8x2048x16, .f32⟩
  | 65 => ⟨S2048x8x16, .f32⟩
  | 66 => ⟨S2048x128, .f32⟩
  | 67 => ⟨S2048x32, .f32⟩
  | 68 => ⟨S2048x32, .f32⟩
  | 69 => ⟨S16384x16, .f32⟩
  | 70 => ⟨S16384x16, .bf16⟩
  | 71 => ⟨S1x128x32, .f32⟩
  | 72 => ⟨S128x32, .f32⟩
  | 73 => ⟨S8x2048x16, .f32⟩
  | 74 => ⟨S2048x8x16, .f32⟩
  | 75 => ⟨S2048x128, .f32⟩
  | 76 => ⟨S2048x32, .f32⟩
  | 77 => ⟨S2048x32, .f32⟩
  | 78 => ⟨S16384x16, .f32⟩
  | 79 => ⟨S16384x16, .bf16⟩
  | 80 => ⟨S1x128x32, .f32⟩
  | 81 => ⟨S128x32, .f32⟩
  | 82 => ⟨S8x2048x16, .f32⟩
  | 83 => ⟨S2048x8x16, .f32⟩
  | 84 => ⟨S2048x128, .f32⟩
  | 85 => ⟨S2048x32, .f32⟩
  | 86 => ⟨S2048x32, .f32⟩
  | 87 => ⟨S16384x16, .f32⟩
  | 88 => ⟨S16384x16, .bf16⟩
  | 89 => ⟨S1x128x32, .f32⟩
  | 90 => ⟨S128x32, .f32⟩
  | 91 => ⟨S8x2048x16, .f32⟩
  | 92 => ⟨S2048x8x16, .f32⟩
  | 93 => ⟨S2048x128, .f32⟩
  | 94 => ⟨S2048x32, .f32⟩
  | 95 => ⟨S2048x32, .f32⟩
  | 96 => ⟨S16384x16, .f32⟩
  | 97 => ⟨S16384x16, .bf16⟩
  | 98 => ⟨S1x128x32, .f32⟩
  | 99 => ⟨S128x32, .f32⟩
  | 100 => ⟨S8x2048x16, .f32⟩
  | 101 => ⟨S2048x8x16, .f32⟩
  | 102 => ⟨S2048x128, .f32⟩
  | 103 => ⟨S2048x32, .f32⟩
  | 104 => ⟨S2048x32, .f32⟩
  | 105 => ⟨S16384x16, .f32⟩
  | 106 => ⟨S16384x16, .bf16⟩
  | 107 => ⟨S1x128x32, .f32⟩
  | 108 => ⟨S128x32, .f32⟩
  | 109 => ⟨S8x2048x16, .f32⟩
  | 110 => ⟨S2048x8x16, .f32⟩
  | 111 => ⟨S2048x128, .f32⟩
  | 112 => ⟨S2048x32, .f32⟩
  | 113 => ⟨S2048x32, .f32⟩
  | 114 => ⟨S16384x16, .f32⟩
  | 115 => ⟨S16384x16, .bf16⟩
  | 116 => ⟨S1x128x32, .f32⟩
  | 117 => ⟨S128x32, .f32⟩
  | 118 => ⟨S8x2048x16, .f32⟩
  | 119 => ⟨S2048x8x16, .f32⟩
  | 120 => ⟨S2048x128, .f32⟩
  | 121 => ⟨S2048x32, .f32⟩
  | 122 => ⟨S2048x32, .f32⟩
  | 123 => ⟨S16384x16, .f32⟩
  | 124 => ⟨S16384x16, .bf16⟩
  | 125 => ⟨S1x128x32, .f32⟩
  | 126 => ⟨S128x32, .f32⟩
  | 127 => ⟨S8x2048x16, .f32⟩
  | _ => ⟨S2048x16, .f32⟩

abbrev hbmTy0_1 (i : Nat) : BufTy := match i % 128 with
  | 0 => ⟨S2048x8x16, .f32⟩
  | 1 => ⟨S2048x128, .f32⟩
  | 2 => ⟨S2048x32, .f32⟩
  | 3 => ⟨S2048x32, .f32⟩
  | 4 => ⟨S16384x16, .f32⟩
  | 5 => ⟨S16384x16, .bf16⟩
  | 6 => ⟨S1x128x32, .f32⟩
  | 7 => ⟨S128x32, .f32⟩
  | 8 => ⟨S8x2048x16, .f32⟩
  | 9 => ⟨S2048x8x16, .f32⟩
  | 10 => ⟨S2048x128, .f32⟩
  | 11 => ⟨S2048x32, .f32⟩
  | 12 => ⟨S2048x32, .f32⟩
  | 13 => ⟨S1x32, .f32⟩
  | 14 => ⟨S2048x32, .f32⟩
  | 15 => ⟨S2048x32, .f32⟩
  | _ => ⟨S2048x16, .f32⟩

abbrev hbmTy (i : Nat) : BufTy := match i / 128 with
  | 0 => hbmTy0_0 i
  | 1 => hbmTy0_1 i
  | _ => ⟨S2048x16, .f32⟩

abbrev vmemTy0_0 (i : Nat) : BufTy := match i % 128 with
  | 0 => ⟨S2048x2048, .bf16⟩
  | 1 => ⟨S2048x2048, .bf16⟩
  | 2 => ⟨S2048x16, .bf16⟩
  | 3 => ⟨S2048x16, .bf16⟩
  | 4 => ⟨S2048x16, .f32⟩
  | 5 => ⟨S2048x16, .f32⟩
  | 6 => ⟨S2048x16, .f32⟩
  | 7 => ⟨S2048x16, .f32⟩
  | 8 => ⟨S2048x16, .bf16⟩
  | 9 => ⟨S2048x16, .bf16⟩
  | 10 => ⟨S2048x16, .f32⟩
  | 11 => ⟨S2048x2048, .bf16⟩
  | 12 => ⟨S2048x2048, .bf16⟩
  | 13 => ⟨S2048x16, .bf16⟩
  | 14 => ⟨S2048x16, .bf16⟩
  | 15 => ⟨S2048x16, .f32⟩
  | 16 => ⟨S2048x16, .f32⟩
  | 17 => ⟨S2048x16, .f32⟩
  | 18 => ⟨S2048x16, .f32⟩
  | 19 => ⟨S2048x16, .bf16⟩
  | 20 => ⟨S2048x16, .bf16⟩
  | 21 => ⟨S2048x16, .f32⟩
  | 22 => ⟨S2048x2048, .bf16⟩
  | 23 => ⟨S2048x2048, .bf16⟩
  | 24 => ⟨S2048x16, .bf16⟩
  | 25 => ⟨S2048x16, .bf16⟩
  | 26 => ⟨S2048x16, .f32⟩
  | 27 => ⟨S2048x16, .f32⟩
  | 28 => ⟨S2048x16, .f32⟩
  | 29 => ⟨S2048x16, .f32⟩
  | 30 => ⟨S2048x16, .bf16⟩
  | 31 => ⟨S2048x16, .bf16⟩
  | 32 => ⟨S2048x16, .f32⟩
  | 33 => ⟨S2048x2048, .bf16⟩
  | 34 => ⟨S2048x2048, .bf16⟩
  | 35 => ⟨S2048x16, .bf16⟩
  | 36 => ⟨S2048x16, .bf16⟩
  | 37 => ⟨S2048x16, .f32⟩
  | 38 => ⟨S2048x16, .f32⟩
  | 39 => ⟨S2048x16, .f32⟩
  | 40 => ⟨S2048x16, .f32⟩
  | 41 => ⟨S2048x16, .bf16⟩
  | 42 => ⟨S2048x16, .bf16⟩
  | 43 => ⟨S2048x16, .f32⟩
  | 44 => ⟨S2048x2048, .bf16⟩
  | 45 => ⟨S2048x2048, .bf16⟩
  | 46 => ⟨S2048x16, .bf16⟩
  | 47 => ⟨S2048x16, .bf16⟩
  | 48 => ⟨S2048x16, .f32⟩
  | 49 => ⟨S2048x16, .f32⟩
  | 50 => ⟨S2048x16, .f32⟩
  | 51 => ⟨S2048x16, .f32⟩
  | 52 => ⟨S2048x16, .bf16⟩
  | 53 => ⟨S2048x16, .bf16⟩
  | 54 => ⟨S2048x16, .f32⟩
  | 55 => ⟨S2048x2048, .bf16⟩
  | 56 => ⟨S2048x2048, .bf16⟩
  | 57 => ⟨S2048x16, .bf16⟩
  | 58 => ⟨S2048x16, .bf16⟩
  | 59 => ⟨S2048x16, .f32⟩
  | 60 => ⟨S2048x16, .f32⟩
  | 61 => ⟨S2048x16, .f32⟩
  | 62 => ⟨S2048x16, .f32⟩
  | 63 => ⟨S2048x16, .bf16⟩
  | 64 => ⟨S2048x16, .bf16⟩
  | 65 => ⟨S2048x16, .f32⟩
  | 66 => ⟨S2048x2048, .bf16⟩
  | 67 => ⟨S2048x2048, .bf16⟩
  | 68 => ⟨S2048x16, .bf16⟩
  | 69 => ⟨S2048x16, .bf16⟩
  | 70 => ⟨S2048x16, .f32⟩
  | 71 => ⟨S2048x16, .f32⟩
  | 72 => ⟨S2048x16, .f32⟩
  | 73 => ⟨S2048x16, .f32⟩
  | 74 => ⟨S2048x16, .bf16⟩
  | 75 => ⟨S2048x16, .bf16⟩
  | 76 => ⟨S2048x16, .f32⟩
  | 77 => ⟨S2048x2048, .bf16⟩
  | 78 => ⟨S2048x2048, .bf16⟩
  | 79 => ⟨S2048x16, .bf16⟩
  | 80 => ⟨S2048x16, .bf16⟩
  | 81 => ⟨S2048x16, .f32⟩
  | 82 => ⟨S2048x16, .f32⟩
  | 83 => ⟨S2048x16, .f32⟩
  | 84 => ⟨S2048x16, .f32⟩
  | 85 => ⟨S2048x16, .bf16⟩
  | 86 => ⟨S2048x16, .bf16⟩
  | 87 => ⟨S2048x16, .f32⟩
  | 88 => ⟨S2048x2048, .bf16⟩
  | 89 => ⟨S2048x2048, .bf16⟩
  | 90 => ⟨S2048x16, .bf16⟩
  | 91 => ⟨S2048x16, .bf16⟩
  | 92 => ⟨S2048x16, .f32⟩
  | 93 => ⟨S2048x16, .f32⟩
  | 94 => ⟨S2048x16, .f32⟩
  | 95 => ⟨S2048x16, .f32⟩
  | 96 => ⟨S2048x16, .bf16⟩
  | 97 => ⟨S2048x16, .bf16⟩
  | 98 => ⟨S2048x16, .f32⟩
  | 99 => ⟨S2048x2048, .bf16⟩
  | 100 => ⟨S2048x2048, .bf16⟩
  | 101 => ⟨S2048x16, .bf16⟩
  | 102 => ⟨S2048x16, .bf16⟩
  | 103 => ⟨S2048x16, .f32⟩
  | 104 => ⟨S2048x16, .f32⟩
  | 105 => ⟨S2048x16, .f32⟩
  | 106 => ⟨S2048x16, .f32⟩
  | 107 => ⟨S2048x16, .bf16⟩
  | 108 => ⟨S2048x16, .bf16⟩
  | 109 => ⟨S2048x16, .f32⟩
  | 110 => ⟨S2048x2048, .bf16⟩
  | 111 => ⟨S2048x2048, .bf16⟩
  | 112 => ⟨S2048x16, .bf16⟩
  | 113 => ⟨S2048x16, .bf16⟩
  | 114 => ⟨S2048x16, .f32⟩
  | 115 => ⟨S2048x16, .f32⟩
  | 116 => ⟨S2048x16, .f32⟩
  | 117 => ⟨S2048x16, .f32⟩
  | 118 => ⟨S2048x16, .bf16⟩
  | 119 => ⟨S2048x16, .bf16⟩
  | 120 => ⟨S2048x16, .f32⟩
  | 121 => ⟨S2048x2048, .bf16⟩
  | 122 => ⟨S2048x2048, .bf16⟩
  | 123 => ⟨S2048x16, .bf16⟩
  | 124 => ⟨S2048x16, .bf16⟩
  | 125 => ⟨S2048x16, .f32⟩
  | 126 => ⟨S2048x16, .f32⟩
  | 127 => ⟨S2048x16, .f32⟩
  | _ => ⟨S2048x16, .f32⟩

abbrev vmemTy0_1 (i : Nat) : BufTy := match i % 128 with
  | 0 => ⟨S2048x16, .f32⟩
  | 1 => ⟨S2048x16, .bf16⟩
  | 2 => ⟨S2048x16, .bf16⟩
  | 3 => ⟨S2048x16, .f32⟩
  | 4 => ⟨S2048x2048, .bf16⟩
  | 5 => ⟨S2048x2048, .bf16⟩
  | 6 => ⟨S2048x16, .bf16⟩
  | 7 => ⟨S2048x16, .bf16⟩
  | 8 => ⟨S2048x16, .f32⟩
  | 9 => ⟨S2048x16, .f32⟩
  | 10 => ⟨S2048x16, .f32⟩
  | 11 => ⟨S2048x16, .f32⟩
  | 12 => ⟨S2048x16, .bf16⟩
  | 13 => ⟨S2048x16, .bf16⟩
  | 14 => ⟨S2048x16, .f32⟩
  | 15 => ⟨S2048x2048, .bf16⟩
  | 16 => ⟨S2048x2048, .bf16⟩
  | 17 => ⟨S2048x16, .bf16⟩
  | 18 => ⟨S2048x16, .bf16⟩
  | 19 => ⟨S2048x16, .f32⟩
  | 20 => ⟨S2048x16, .f32⟩
  | 21 => ⟨S2048x16, .f32⟩
  | 22 => ⟨S2048x16, .f32⟩
  | 23 => ⟨S2048x16, .bf16⟩
  | 24 => ⟨S2048x16, .bf16⟩
  | 25 => ⟨S2048x16, .f32⟩
  | _ => ⟨S2048x16, .f32⟩

abbrev vmemTy (i : Nat) : BufTy := match i / 128 with
  | 0 => vmemTy0_0 i
  | 1 => vmemTy0_1 i
  | _ => ⟨S2048x16, .f32⟩

abbrev bufTy : (tb : Table) → Fin (tcTables nBuf tb) → BufTy
  | .hbm, ⟨i, _⟩ => hbmTy i
  | .local _ .vmem, ⟨i, _⟩ => vmemTy i
  | _, _ => ⟨S2048x16, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 140 → Bool
  | ⟨i, _⟩ => dmaSemScopedAt i

abbrev sig : RefSig :=
  ofTc nBuf bufTy 0 140 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19_0 : Ref sig .tc := ⟨.hbm, 24, rfl⟩
abbrev main_v19_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27_0 : Ref sig .tc := ⟨.hbm, 33, rfl⟩
abbrev main_v27_1 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35_0 : Ref sig .tc := ⟨.hbm, 42, rfl⟩
abbrev main_v35_1 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43_0 : Ref sig .tc := ⟨.hbm, 51, rfl⟩
abbrev main_v43_1 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51_0 : Ref sig .tc := ⟨.hbm, 60, rfl⟩
abbrev main_v51_1 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59_0 : Ref sig .tc := ⟨.hbm, 69, rfl⟩
abbrev main_v59_1 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67_0 : Ref sig .tc := ⟨.hbm, 78, rfl⟩
abbrev main_v67_1 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75_0 : Ref sig .tc := ⟨.hbm, 87, rfl⟩
abbrev main_v75_1 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83_0 : Ref sig .tc := ⟨.hbm, 96, rfl⟩
abbrev main_v83_1 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91_0 : Ref sig .tc := ⟨.hbm, 105, rfl⟩
abbrev main_v91_1 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99_0 : Ref sig .tc := ⟨.hbm, 114, rfl⟩
abbrev main_v99_1 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107_0 : Ref sig .tc := ⟨.hbm, 123, rfl⟩
abbrev main_v107_1 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115_0 : Ref sig .tc := ⟨.hbm, 132, rfl⟩
abbrev main_v115_1 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_scratch0 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg4_1 : Ref sig .tc := ⟨.vmem, 31, rfl⟩
abbrev cc2_scratch0 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg3_1 : Ref sig .tc := ⟨.vmem, 40, rfl⟩
abbrev cc3_stg4_0 : Ref sig .tc := ⟨.vmem, 41, rfl⟩
abbrev cc3_stg4_1 : Ref sig .tc := ⟨.vmem, 42, rfl⟩
abbrev cc3_scratch0 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg2_1 : Ref sig .tc := ⟨.vmem, 49, rfl⟩
abbrev cc4_stg3_0 : Ref sig .tc := ⟨.vmem, 50, rfl⟩
abbrev cc4_stg3_1 : Ref sig .tc := ⟨.vmem, 51, rfl⟩
abbrev cc4_stg4_0 : Ref sig .tc := ⟨.vmem, 52, rfl⟩
abbrev cc4_stg4_1 : Ref sig .tc := ⟨.vmem, 53, rfl⟩
abbrev cc4_scratch0 : Ref sig .tc := ⟨.vmem, 54, rfl⟩
abbrev cc5_stg0_0 : Ref sig .tc := ⟨.vmem, 55, rfl⟩
abbrev cc5_stg0_1 : Ref sig .tc := ⟨.vmem, 56, rfl⟩
abbrev cc5_stg1_0 : Ref sig .tc := ⟨.vmem, 57, rfl⟩
abbrev cc5_stg1_1 : Ref sig .tc := ⟨.vmem, 58, rfl⟩
abbrev cc5_stg2_0 : Ref sig .tc := ⟨.vmem, 59, rfl⟩
abbrev cc5_stg2_1 : Ref sig .tc := ⟨.vmem, 60, rfl⟩
abbrev cc5_stg3_0 : Ref sig .tc := ⟨.vmem, 61, rfl⟩
abbrev cc5_stg3_1 : Ref sig .tc := ⟨.vmem, 62, rfl⟩
abbrev cc5_stg4_0 : Ref sig .tc := ⟨.vmem, 63, rfl⟩
abbrev cc5_stg4_1 : Ref sig .tc := ⟨.vmem, 64, rfl⟩
abbrev cc5_scratch0 : Ref sig .tc := ⟨.vmem, 65, rfl⟩
abbrev cc6_stg0_0 : Ref sig .tc := ⟨.vmem, 66, rfl⟩
abbrev cc6_stg0_1 : Ref sig .tc := ⟨.vmem, 67, rfl⟩
abbrev cc6_stg1_0 : Ref sig .tc := ⟨.vmem, 68, rfl⟩
abbrev cc6_stg1_1 : Ref sig .tc := ⟨.vmem, 69, rfl⟩
abbrev cc6_stg2_0 : Ref sig .tc := ⟨.vmem, 70, rfl⟩
abbrev cc6_stg2_1 : Ref sig .tc := ⟨.vmem, 71, rfl⟩
abbrev cc6_stg3_0 : Ref sig .tc := ⟨.vmem, 72, rfl⟩
abbrev cc6_stg3_1 : Ref sig .tc := ⟨.vmem, 73, rfl⟩
abbrev cc6_stg4_0 : Ref sig .tc := ⟨.vmem, 74, rfl⟩
abbrev cc6_stg4_1 : Ref sig .tc := ⟨.vmem, 75, rfl⟩
abbrev cc6_scratch0 : Ref sig .tc := ⟨.vmem, 76, rfl⟩
abbrev cc7_stg0_0 : Ref sig .tc := ⟨.vmem, 77, rfl⟩
abbrev cc7_stg0_1 : Ref sig .tc := ⟨.vmem, 78, rfl⟩
abbrev cc7_stg1_0 : Ref sig .tc := ⟨.vmem, 79, rfl⟩
abbrev cc7_stg1_1 : Ref sig .tc := ⟨.vmem, 80, rfl⟩
abbrev cc7_stg2_0 : Ref sig .tc := ⟨.vmem, 81, rfl⟩
abbrev cc7_stg2_1 : Ref sig .tc := ⟨.vmem, 82, rfl⟩
abbrev cc7_stg3_0 : Ref sig .tc := ⟨.vmem, 83, rfl⟩
abbrev cc7_stg3_1 : Ref sig .tc := ⟨.vmem, 84, rfl⟩
abbrev cc7_stg4_0 : Ref sig .tc := ⟨.vmem, 85, rfl⟩
abbrev cc7_stg4_1 : Ref sig .tc := ⟨.vmem, 86, rfl⟩
abbrev cc7_scratch0 : Ref sig .tc := ⟨.vmem, 87, rfl⟩
abbrev cc8_stg0_0 : Ref sig .tc := ⟨.vmem, 88, rfl⟩
abbrev cc8_stg0_1 : Ref sig .tc := ⟨.vmem, 89, rfl⟩
abbrev cc8_stg1_0 : Ref sig .tc := ⟨.vmem, 90, rfl⟩
abbrev cc8_stg1_1 : Ref sig .tc := ⟨.vmem, 91, rfl⟩
abbrev cc8_stg2_0 : Ref sig .tc := ⟨.vmem, 92, rfl⟩
abbrev cc8_stg2_1 : Ref sig .tc := ⟨.vmem, 93, rfl⟩
abbrev cc8_stg3_0 : Ref sig .tc := ⟨.vmem, 94, rfl⟩
abbrev cc8_stg3_1 : Ref sig .tc := ⟨.vmem, 95, rfl⟩
abbrev cc8_stg4_0 : Ref sig .tc := ⟨.vmem, 96, rfl⟩
abbrev cc8_stg4_1 : Ref sig .tc := ⟨.vmem, 97, rfl⟩
abbrev cc8_scratch0 : Ref sig .tc := ⟨.vmem, 98, rfl⟩
abbrev cc9_stg0_0 : Ref sig .tc := ⟨.vmem, 99, rfl⟩
abbrev cc9_stg0_1 : Ref sig .tc := ⟨.vmem, 100, rfl⟩
abbrev cc9_stg1_0 : Ref sig .tc := ⟨.vmem, 101, rfl⟩
abbrev cc9_stg1_1 : Ref sig .tc := ⟨.vmem, 102, rfl⟩
abbrev cc9_stg2_0 : Ref sig .tc := ⟨.vmem, 103, rfl⟩
abbrev cc9_stg2_1 : Ref sig .tc := ⟨.vmem, 104, rfl⟩
abbrev cc9_stg3_0 : Ref sig .tc := ⟨.vmem, 105, rfl⟩
abbrev cc9_stg3_1 : Ref sig .tc := ⟨.vmem, 106, rfl⟩
abbrev cc9_stg4_0 : Ref sig .tc := ⟨.vmem, 107, rfl⟩
abbrev cc9_stg4_1 : Ref sig .tc := ⟨.vmem, 108, rfl⟩
abbrev cc9_scratch0 : Ref sig .tc := ⟨.vmem, 109, rfl⟩
abbrev cc10_stg0_0 : Ref sig .tc := ⟨.vmem, 110, rfl⟩
abbrev cc10_stg0_1 : Ref sig .tc := ⟨.vmem, 111, rfl⟩
abbrev cc10_stg1_0 : Ref sig .tc := ⟨.vmem, 112, rfl⟩
abbrev cc10_stg1_1 : Ref sig .tc := ⟨.vmem, 113, rfl⟩
abbrev cc10_stg2_0 : Ref sig .tc := ⟨.vmem, 114, rfl⟩
abbrev cc10_stg2_1 : Ref sig .tc := ⟨.vmem, 115, rfl⟩
abbrev cc10_stg3_0 : Ref sig .tc := ⟨.vmem, 116, rfl⟩
abbrev cc10_stg3_1 : Ref sig .tc := ⟨.vmem, 117, rfl⟩
abbrev cc10_stg4_0 : Ref sig .tc := ⟨.vmem, 118, rfl⟩
abbrev cc10_stg4_1 : Ref sig .tc := ⟨.vmem, 119, rfl⟩
abbrev cc10_scratch0 : Ref sig .tc := ⟨.vmem, 120, rfl⟩
abbrev cc11_stg0_0 : Ref sig .tc := ⟨.vmem, 121, rfl⟩
abbrev cc11_stg0_1 : Ref sig .tc := ⟨.vmem, 122, rfl⟩
abbrev cc11_stg1_0 : Ref sig .tc := ⟨.vmem, 123, rfl⟩
abbrev cc11_stg1_1 : Ref sig .tc := ⟨.vmem, 124, rfl⟩
abbrev cc11_stg2_0 : Ref sig .tc := ⟨.vmem, 125, rfl⟩
abbrev cc11_stg2_1 : Ref sig .tc := ⟨.vmem, 126, rfl⟩
abbrev cc11_stg3_0 : Ref sig .tc := ⟨.vmem, 127, rfl⟩
abbrev cc11_stg3_1 : Ref sig .tc := ⟨.vmem, 128, rfl⟩
abbrev cc11_stg4_0 : Ref sig .tc := ⟨.vmem, 129, rfl⟩
abbrev cc11_stg4_1 : Ref sig .tc := ⟨.vmem, 130, rfl⟩
abbrev cc11_scratch0 : Ref sig .tc := ⟨.vmem, 131, rfl⟩
abbrev cc12_stg0_0 : Ref sig .tc := ⟨.vmem, 132, rfl⟩
abbrev cc12_stg0_1 : Ref sig .tc := ⟨.vmem, 133, rfl⟩
abbrev cc12_stg1_0 : Ref sig .tc := ⟨.vmem, 134, rfl⟩
abbrev cc12_stg1_1 : Ref sig .tc := ⟨.vmem, 135, rfl⟩
abbrev cc12_stg2_0 : Ref sig .tc := ⟨.vmem, 136, rfl⟩
abbrev cc12_stg2_1 : Ref sig .tc := ⟨.vmem, 137, rfl⟩
abbrev cc12_stg3_0 : Ref sig .tc := ⟨.vmem, 138, rfl⟩
abbrev cc12_stg3_1 : Ref sig .tc := ⟨.vmem, 139, rfl⟩
abbrev cc12_stg4_0 : Ref sig .tc := ⟨.vmem, 140, rfl⟩
abbrev cc12_stg4_1 : Ref sig .tc := ⟨.vmem, 141, rfl⟩
abbrev cc12_scratch0 : Ref sig .tc := ⟨.vmem, 142, rfl⟩
abbrev cc13_stg0_0 : Ref sig .tc := ⟨.vmem, 143, rfl⟩
abbrev cc13_stg0_1 : Ref sig .tc := ⟨.vmem, 144, rfl⟩
abbrev cc13_stg1_0 : Ref sig .tc := ⟨.vmem, 145, rfl⟩
abbrev cc13_stg1_1 : Ref sig .tc := ⟨.vmem, 146, rfl⟩
abbrev cc13_stg2_0 : Ref sig .tc := ⟨.vmem, 147, rfl⟩
abbrev cc13_stg2_1 : Ref sig .tc := ⟨.vmem, 148, rfl⟩
abbrev cc13_stg3_0 : Ref sig .tc := ⟨.vmem, 149, rfl⟩
abbrev cc13_stg3_1 : Ref sig .tc := ⟨.vmem, 150, rfl⟩
abbrev cc13_stg4_0 : Ref sig .tc := ⟨.vmem, 151, rfl⟩
abbrev cc13_stg4_1 : Ref sig .tc := ⟨.vmem, 152, rfl⟩
abbrev cc13_scratch0 : Ref sig .tc := ⟨.vmem, 153, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem3_1 : DmaSem sig := 37
abbrev cc3_sem4_0 : DmaSem sig := 38
abbrev cc3_sem4_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem2_1 : DmaSem sig := 45
abbrev cc4_sem3_0 : DmaSem sig := 46
abbrev cc4_sem3_1 : DmaSem sig := 47
abbrev cc4_sem4_0 : DmaSem sig := 48
abbrev cc4_sem4_1 : DmaSem sig := 49
abbrev cc5_sem0_0 : DmaSem sig := 50
abbrev cc5_sem0_1 : DmaSem sig := 51
abbrev cc5_sem1_0 : DmaSem sig := 52
abbrev cc5_sem1_1 : DmaSem sig := 53
abbrev cc5_sem2_0 : DmaSem sig := 54
abbrev cc5_sem2_1 : DmaSem sig := 55
abbrev cc5_sem3_0 : DmaSem sig := 56
abbrev cc5_sem3_1 : DmaSem sig := 57
abbrev cc5_sem4_0 : DmaSem sig := 58
abbrev cc5_sem4_1 : DmaSem sig := 59
abbrev cc6_sem0_0 : DmaSem sig := 60
abbrev cc6_sem0_1 : DmaSem sig := 61
abbrev cc6_sem1_0 : DmaSem sig := 62
abbrev cc6_sem1_1 : DmaSem sig := 63
abbrev cc6_sem2_0 : DmaSem sig := 64
abbrev cc6_sem2_1 : DmaSem sig := 65
abbrev cc6_sem3_0 : DmaSem sig := 66
abbrev cc6_sem3_1 : DmaSem sig := 67
abbrev cc6_sem4_0 : DmaSem sig := 68
abbrev cc6_sem4_1 : DmaSem sig := 69
abbrev cc7_sem0_0 : DmaSem sig := 70
abbrev cc7_sem0_1 : DmaSem sig := 71
abbrev cc7_sem1_0 : DmaSem sig := 72
abbrev cc7_sem1_1 : DmaSem sig := 73
abbrev cc7_sem2_0 : DmaSem sig := 74
abbrev cc7_sem2_1 : DmaSem sig := 75
abbrev cc7_sem3_0 : DmaSem sig := 76
abbrev cc7_sem3_1 : DmaSem sig := 77
abbrev cc7_sem4_0 : DmaSem sig := 78
abbrev cc7_sem4_1 : DmaSem sig := 79
abbrev cc8_sem0_0 : DmaSem sig := 80
abbrev cc8_sem0_1 : DmaSem sig := 81
abbrev cc8_sem1_0 : DmaSem sig := 82
abbrev cc8_sem1_1 : DmaSem sig := 83
abbrev cc8_sem2_0 : DmaSem sig := 84
abbrev cc8_sem2_1 : DmaSem sig := 85
abbrev cc8_sem3_0 : DmaSem sig := 86
abbrev cc8_sem3_1 : DmaSem sig := 87
abbrev cc8_sem4_0 : DmaSem sig := 88
abbrev cc8_sem4_1 : DmaSem sig := 89
abbrev cc9_sem0_0 : DmaSem sig := 90
abbrev cc9_sem0_1 : DmaSem sig := 91
abbrev cc9_sem1_0 : DmaSem sig := 92
abbrev cc9_sem1_1 : DmaSem sig := 93
abbrev cc9_sem2_0 : DmaSem sig := 94
abbrev cc9_sem2_1 : DmaSem sig := 95
abbrev cc9_sem3_0 : DmaSem sig := 96
abbrev cc9_sem3_1 : DmaSem sig := 97
abbrev cc9_sem4_0 : DmaSem sig := 98
abbrev cc9_sem4_1 : DmaSem sig := 99
abbrev cc10_sem0_0 : DmaSem sig := 100
abbrev cc10_sem0_1 : DmaSem sig := 101
abbrev cc10_sem1_0 : DmaSem sig := 102
abbrev cc10_sem1_1 : DmaSem sig := 103
abbrev cc10_sem2_0 : DmaSem sig := 104
abbrev cc10_sem2_1 : DmaSem sig := 105
abbrev cc10_sem3_0 : DmaSem sig := 106
abbrev cc10_sem3_1 : DmaSem sig := 107
abbrev cc10_sem4_0 : DmaSem sig := 108
abbrev cc10_sem4_1 : DmaSem sig := 109
abbrev cc11_sem0_0 : DmaSem sig := 110
abbrev cc11_sem0_1 : DmaSem sig := 111
abbrev cc11_sem1_0 : DmaSem sig := 112
abbrev cc11_sem1_1 : DmaSem sig := 113
abbrev cc11_sem2_0 : DmaSem sig := 114
abbrev cc11_sem2_1 : DmaSem sig := 115
abbrev cc11_sem3_0 : DmaSem sig := 116
abbrev cc11_sem3_1 : DmaSem sig := 117
abbrev cc11_sem4_0 : DmaSem sig := 118
abbrev cc11_sem4_1 : DmaSem sig := 119
abbrev cc12_sem0_0 : DmaSem sig := 120
abbrev cc12_sem0_1 : DmaSem sig := 121
abbrev cc12_sem1_0 : DmaSem sig := 122
abbrev cc12_sem1_1 : DmaSem sig := 123
abbrev cc12_sem2_0 : DmaSem sig := 124
abbrev cc12_sem2_1 : DmaSem sig := 125
abbrev cc12_sem3_0 : DmaSem sig := 126
abbrev cc12_sem3_1 : DmaSem sig := 127
abbrev cc12_sem4_0 : DmaSem sig := 128
abbrev cc12_sem4_1 : DmaSem sig := 129
abbrev cc13_sem0_0 : DmaSem sig := 130
abbrev cc13_sem0_1 : DmaSem sig := 131
abbrev cc13_sem1_0 : DmaSem sig := 132
abbrev cc13_sem1_1 : DmaSem sig := 133
abbrev cc13_sem2_0 : DmaSem sig := 134
abbrev cc13_sem2_1 : DmaSem sig := 135
abbrev cc13_sem3_0 : DmaSem sig := 136
abbrev cc13_sem3_1 : DmaSem sig := 137
abbrev cc13_sem4_0 : DmaSem sig := 138
abbrev cc13_sem4_1 : DmaSem sig := 139

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x16 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x16 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x16 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2048x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S2048x16 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![8, 8], ![false, false]⟩

def k2_cond2 (i : grid2.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x16 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S2048x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S2048x16 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨2, ![8, 8], ![false, false]⟩

def k3_cond2 (i : grid3.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2048x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x16 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2048x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S2048x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S2048x16 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev grid4 : Pipeline.Grid := ⟨2, ![8, 8], ![false, false]⟩

def k4_cond2 (i : grid4.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S2048x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S2048x16 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S2048x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S2048x16 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev stage4_4 : Fin 2 → Memref sig .tc .vmem S2048x16 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false]

abbrev grid5 : Pipeline.Grid := ⟨2, ![8, 8], ![false, false]⟩

def k5_cond2 (i : grid5.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S2048x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S2048x16 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S2048x16 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 2 → Memref sig .tc .vmem S2048x16 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev stage5_4 : Fin 2 → Memref sig .tc .vmem S2048x16 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, false]

abbrev grid6 : Pipeline.Grid := ⟨2, ![8, 8], ![false, false]⟩

def k6_cond2 (i : grid6.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage6_0 : Fin 2 → Memref sig .tc .vmem S2048x2048 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S2048x16 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S2048x16 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false]

abbrev stage6_3 : Fin 2 → Memref sig .tc .vmem S2048x16 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, false]

abbrev stage6_4 : Fin 2 → Memref sig .tc .vmem S2048x16 .bf16 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, false]

abbrev grid7 : Pipeline.Grid := ⟨2, ![8, 8], ![false, false]⟩

def k7_cond2 (i : grid7.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S2048x2048 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S2048x16 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S2048x16 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, false]

abbrev stage7_3 : Fin 2 → Memref sig .tc .vmem S2048x16 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, false]

abbrev stage7_4 : Fin 2 → Memref sig .tc .vmem S2048x16 .bf16 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, false]

abbrev grid8 : Pipeline.Grid := ⟨2, ![8, 8], ![false, false]⟩

def k8_cond2 (i : grid8.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage8_0 : Fin 2 → Memref sig .tc .vmem S2048x2048 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true]

abbrev stage8_1 : Fin 2 → Memref sig .tc .vmem S2048x16 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S2048x16 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, false]

abbrev stage8_3 : Fin 2 → Memref sig .tc .vmem S2048x16 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true, false]

abbrev stage8_4 : Fin 2 → Memref sig .tc .vmem S2048x16 .bf16 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true, false]

abbrev grid9 : Pipeline.Grid := ⟨2, ![8, 8], ![false, false]⟩

def k9_cond2 (i : grid9.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage9_0 : Fin 2 → Memref sig .tc .vmem S2048x2048 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, true]

abbrev stage9_1 : Fin 2 → Memref sig .tc .vmem S2048x16 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true]

abbrev stage9_2 : Fin 2 → Memref sig .tc .vmem S2048x16 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, false]

abbrev stage9_3 : Fin 2 → Memref sig .tc .vmem S2048x16 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true, false]

abbrev stage9_4 : Fin 2 → Memref sig .tc .vmem S2048x16 .bf16 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true, false]

abbrev grid10 : Pipeline.Grid := ⟨2, ![8, 8], ![false, false]⟩

def k10_cond2 (i : grid10.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc10_transform_4 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage10_0 : Fin 2 → Memref sig .tc .vmem S2048x2048 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, true]

abbrev stage10_1 : Fin 2 → Memref sig .tc .vmem S2048x16 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true]

abbrev stage10_2 : Fin 2 → Memref sig .tc .vmem S2048x16 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, false]

abbrev stage10_3 : Fin 2 → Memref sig .tc .vmem S2048x16 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true, false]

abbrev stage10_4 : Fin 2 → Memref sig .tc .vmem S2048x16 .bf16 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true, false]

abbrev grid11 : Pipeline.Grid := ⟨2, ![8, 8], ![false, false]⟩

def k11_cond2 (i : grid11.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc11_transform_0 (i : grid11.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc11_transform_1 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc11_transform_2 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc11_transform_4 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage11_0 : Fin 2 → Memref sig .tc .vmem S2048x2048 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, true]

abbrev stage11_1 : Fin 2 → Memref sig .tc .vmem S2048x16 .bf16 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![false, true]

abbrev stage11_2 : Fin 2 → Memref sig .tc .vmem S2048x16 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, false]

abbrev stage11_3 : Fin 2 → Memref sig .tc .vmem S2048x16 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true, false]

abbrev stage11_4 : Fin 2 → Memref sig .tc .vmem S2048x16 .bf16 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true, false]

abbrev grid12 : Pipeline.Grid := ⟨2, ![8, 8], ![false, false]⟩

def k12_cond2 (i : grid12.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc12_transform_0 (i : grid12.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc12_transform_1 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc12_transform_2 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc12_transform_3 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc12_transform_4 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage12_0 : Fin 2 → Memref sig .tc .vmem S2048x2048 .bf16 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true, true]

abbrev stage12_1 : Fin 2 → Memref sig .tc .vmem S2048x16 .bf16 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![false, true]

abbrev stage12_2 : Fin 2 → Memref sig .tc .vmem S2048x16 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true, false]

abbrev stage12_3 : Fin 2 → Memref sig .tc .vmem S2048x16 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true, false]

abbrev stage12_4 : Fin 2 → Memref sig .tc .vmem S2048x16 .bf16 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true, false]

abbrev grid13 : Pipeline.Grid := ⟨2, ![8, 8], ![false, false]⟩

def k13_cond2 (i : grid13.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc13_transform_0 (i : grid13.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc13_transform_1 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc13_transform_2 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc13_transform_3 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc13_transform_4 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage13_0 : Fin 2 → Memref sig .tc .vmem S2048x2048 .bf16 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true, true]

abbrev stage13_1 : Fin 2 → Memref sig .tc .vmem S2048x16 .bf16 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![false, true]

abbrev stage13_2 : Fin 2 → Memref sig .tc .vmem S2048x16 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true, false]

abbrev stage13_3 : Fin 2 → Memref sig .tc .vmem S2048x16 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true, false]

abbrev stage13_4 : Fin 2 → Memref sig .tc .vmem S2048x16 .bf16 := fun | 0 => Memref.whole cc13_stg4_0 | 1 => Memref.whole cc13_stg4_1 | ⟨_ + 2, h⟩ => absurd h (Nat.not_lt.2 (Nat.le_add_left _ _))
abbrev sem13_4 : Fin 2 → DmaSem sig := fun | 0 => cc13_sem4_0 | 1 => cc13_sem4_1 | ⟨_ + 2, h⟩ => absurd h (Nat.not_lt.2 (Nat.le_add_left _ _))
abbrev reads13_4 : Fin grid13.rank → Bool := ![true, false]

class Facts₀ : Prop where
  bitsLt_bf16_f32 : FTy.bits .bf16 < FTy.bits .f32
  shapeCasts_S2048x16_S1x2048x1x16 : S2048x16.ShapeCasts S1x2048x1x16
  bcast_S1x2048x1x16_S8x2048x1x16_0_1_2_3 : S1x2048x1x16.BroadcastsInDim S8x2048x1x16 (![0, 1, 2, 3] : Fin 4 → Fin S8x2048x1x16.rank)
  shapeCasts_S8x2048x1x16_S16384x16 : S8x2048x1x16.ShapeCasts S16384x16
  slices_S15x128x32_S1x128x32_0_0_0 : S15x128x32.Slices ![0, 0, 0] S1x128x32
  shapeCasts_S1x128x32_S128x32 : S1x128x32.ShapeCasts S128x32
  shapeCasts_S16384x16_S8x2048x16 : S16384x16.ShapeCasts S8x2048x16
  transposes_S8x2048x16_S2048x8x16_1_0_2 : S8x2048x16.Transposes [1, 0, 2] S2048x8x16
  shapeCasts_S2048x8x16_S2048x128 : S2048x8x16.ShapeCasts S2048x128
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  packedbf16_S2048x16_S2048x16_0_0 : (Rect.unit (s := S2048x16) ![0, 0] S2048x16.size inb_S2048x16_S2048x16_0_0).PackedRows (EltTy.packing .bf16)
  slices_S15x128x32_S1x128x32_1_0_0 : S15x128x32.Slices ![1, 0, 0] S1x128x32
  slices_S15x128x32_S1x128x32_2_0_0 : S15x128x32.Slices ![2, 0, 0] S1x128x32
  slices_S15x128x32_S1x128x32_3_0_0 : S15x128x32.Slices ![3, 0, 0] S1x128x32
  slices_S15x128x32_S1x128x32_4_0_0 : S15x128x32.Slices ![4, 0, 0] S1x128x32
  slices_S15x128x32_S1x128x32_5_0_0 : S15x128x32.Slices ![5, 0, 0] S1x128x32
  slices_S15x128x32_S1x128x32_6_0_0 : S15x128x32.Slices ![6, 0, 0] S1x128x32
  slices_S15x128x32_S1x128x32_7_0_0 : S15x128x32.Slices ![7, 0, 0] S1x128x32
  slices_S15x128x32_S1x128x32_8_0_0 : S15x128x32.Slices ![8, 0, 0] S1x128x32
  slices_S15x128x32_S1x128x32_9_0_0 : S15x128x32.Slices ![9, 0, 0] S1x128x32
  slices_S15x128x32_S1x128x32_10_0_0 : S15x128x32.Slices ![10, 0, 0] S1x128x32
  slices_S15x128x32_S1x128x32_11_0_0 : S15x128x32.Slices ![11, 0, 0] S1x128x32
  slices_S15x128x32_S1x128x32_12_0_0 : S15x128x32.Slices ![12, 0, 0] S1x128x32
  slices_S15x128x32_S1x128x32_13_0_0 : S15x128x32.Slices ![13, 0, 0] S1x128x32
  slices_S15x128x32_S1x128x32_14_0_0 : S15x128x32.Slices ![14, 0, 0] S1x128x32
  bcast_S32_S1x32_1 : S32.BroadcastsInDim S1x32 (![1] : Fin 1 → Fin S1x32.rank)
  bcast_S1x32_S2048x32_0_1 : S1x32.BroadcastsInDim S2048x32 (![0, 1] : Fin 2 → Fin S2048x32.rank)
  dot_S2048x128_S128x32_S2048x32_1_0_0_1_n_n_wf : DotDims.WF S2048x128 S128x32 S2048x32 [1] [0] [0] [1] [] []
  dot_S2048x2048_S2048x16_S2048x16_1_0_0_1_n_n_wf : DotDims.WF S2048x2048 S2048x16 S2048x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S16384x16384.size a
  hwx0_0 : ∀ i : grid0.Coords, EltTy.bits .bf16 = 32 ∨ (Rect.block (s := S16384x16384) S2048x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x16.size a ≤ S16384x16.size a
  hwx0_1 : ∀ i : grid0.Coords, EltTy.bits .bf16 = 32 ∨ (Rect.block (s := S16384x16) S2048x16.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x16.size a ≤ S16384x16.size a
  hwx0_2 : ∀ i : grid0.Coords, EltTy.bits .f32 = 32 ∨ (Rect.block (s := S16384x16) S2048x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x16.size a ≤ S16384x16.size a
  hwx0_3 : ∀ i : grid0.Coords, EltTy.bits .f32 = 32 ∨ (Rect.block (s := S16384x16) S2048x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x16.size a ≤ S16384x16.size a
  hwx0_4 : ∀ i : grid0.Coords, EltTy.bits .bf16 = 32 ∨ (Rect.block (s := S16384x16) S2048x16.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S16384x16384.size a
  hwx1_0 : ∀ i : grid1.Coords, EltTy.bits .bf16 = 32 ∨ (Rect.block (s := S16384x16384) S2048x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x16.size a ≤ S16384x16.size a
  hwx1_1 : ∀ i : grid1.Coords, EltTy.bits .bf16 = 32 ∨ (Rect.block (s := S16384x16) S2048x16.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x16.size a ≤ S16384x16.size a
  hwx1_2 : ∀ i : grid1.Coords, EltTy.bits .f32 = 32 ∨ (Rect.block (s := S16384x16) S2048x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x16.size a ≤ S16384x16.size a
  hwx1_3 : ∀ i : grid1.Coords, EltTy.bits .f32 = 32 ∨ (Rect.block (s := S16384x16) S2048x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x16.size a ≤ S16384x16.size a
  hwx1_4 : ∀ i : grid1.Coords, EltTy.bits .bf16 = 32 ∨ (Rect.block (s := S16384x16) S2048x16.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x2048.size a ≤ S16384x16384.size a
  hwx2_0 : ∀ i : grid2.Coords, EltTy.bits .bf16 = 32 ∨ (Rect.block (s := S16384x16384) S2048x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x16.size a ≤ S16384x16.size a
  hwx2_1 : ∀ i : grid2.Coords, EltTy.bits .bf16 = 32 ∨ (Rect.block (s := S16384x16) S2048x16.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x16.size a ≤ S16384x16.size a
  hwx2_2 : ∀ i : grid2.Coords, EltTy.bits .f32 = 32 ∨ (Rect.block (s := S16384x16) S2048x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x16.size a ≤ S16384x16.size a
  hwx2_3 : ∀ i : grid2.Coords, EltTy.bits .f32 = 32 ∨ (Rect.block (s := S16384x16) S2048x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x16.size a ≤ S16384x16.size a
  hwx2_4 : ∀ i : grid2.Coords, EltTy.bits .bf16 = 32 ∨ (Rect.block (s := S16384x16) S2048x16.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x2048.size a ≤ S16384x16384.size a
  hwx3_0 : ∀ i : grid3.Coords, EltTy.bits .bf16 = 32 ∨ (Rect.block (s := S16384x16384) S2048x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x16.size a ≤ S16384x16.size a
  hwx3_1 : ∀ i : grid3.Coords, EltTy.bits .bf16 = 32 ∨ (Rect.block (s := S16384x16) S2048x16.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x16.size a ≤ S16384x16.size a
  hwx3_2 : ∀ i : grid3.Coords, EltTy.bits .f32 = 32 ∨ (Rect.block (s := S16384x16) S2048x16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x16.size a ≤ S16384x16.size a
  hwx3_3 : ∀ i : grid3.Coords, EltTy.bits .f32 = 32 ∨ (Rect.block (s := S16384x16) S2048x16.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2048x16.size a ≤ S16384x16.size a
  hwx3_4 : ∀ i : grid3.Coords, EltTy.bits .bf16 = 32 ∨ (Rect.block (s := S16384x16) S2048x16.size (cc3_transform_4 i) (hinb3_4 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x2048.size a ≤ S16384x16384.size a
  hwx4_0 : ∀ i : grid4.Coords, EltTy.bits .bf16 = 32 ∨ (Rect.block (s := S16384x16384) S2048x2048.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x16.size a ≤ S16384x16.size a
  hwx4_1 : ∀ i : grid4.Coords, EltTy.bits .bf16 = 32 ∨ (Rect.block (s := S16384x16) S2048x16.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x16.size a ≤ S16384x16.size a
  hwx4_2 : ∀ i : grid4.Coords, EltTy.bits .f32 = 32 ∨ (Rect.block (s := S16384x16) S2048x16.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2048x16.size a ≤ S16384x16.size a
  hwx4_3 : ∀ i : grid4.Coords, EltTy.bits .f32 = 32 ∨ (Rect.block (s := S16384x16) S2048x16.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2048x16.size a ≤ S16384x16.size a
  hwx4_4 : ∀ i : grid4.Coords, EltTy.bits .bf16 = 32 ∨ (Rect.block (s := S16384x16) S2048x16.size (cc4_transform_4 i) (hinb4_4 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x2048.size a ≤ S16384x16384.size a
  hwx5_0 : ∀ i : grid5.Coords, EltTy.bits .bf16 = 32 ∨ (Rect.block (s := S16384x16384) S2048x2048.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x16.size a ≤ S16384x16.size a
  hwx5_1 : ∀ i : grid5.Coords, EltTy.bits .bf16 = 32 ∨ (Rect.block (s := S16384x16) S2048x16.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2048x16.size a ≤ S16384x16.size a
  hwx5_2 : ∀ i : grid5.Coords, EltTy.bits .f32 = 32 ∨ (Rect.block (s := S16384x16) S2048x16.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2048x16.size a ≤ S16384x16.size a
  hwx5_3 : ∀ i : grid5.Coords, EltTy.bits .f32 = 32 ∨ (Rect.block (s := S16384x16) S2048x16.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2048x16.size a ≤ S16384x16.size a
  hwx5_4 : ∀ i : grid5.Coords, EltTy.bits .bf16 = 32 ∨ (Rect.block (s := S16384x16) S2048x16.size (cc5_transform_4 i) (hinb5_4 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2048x2048.size a ≤ S16384x16384.size a
  hwx6_0 : ∀ i : grid6.Coords, EltTy.bits .bf16 = 32 ∨ (Rect.block (s := S16384x16384) S2048x2048.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2048x16.size a ≤ S16384x16.size a
  hwx6_1 : ∀ i : grid6.Coords, EltTy.bits .bf16 = 32 ∨ (Rect.block (s := S16384x16) S2048x16.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2048x16.size a ≤ S16384x16.size a
  hwx6_2 : ∀ i : grid6.Coords, EltTy.bits .f32 = 32 ∨ (Rect.block (s := S16384x16) S2048x16.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2048x16.size a ≤ S16384x16.size a
  hwx6_3 : ∀ i : grid6.Coords, EltTy.bits .f32 = 32 ∨ (Rect.block (s := S16384x16) S2048x16.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2048x16.size a ≤ S16384x16.size a
  hwx6_4 : ∀ i : grid6.Coords, EltTy.bits .bf16 = 32 ∨ (Rect.block (s := S16384x16) S2048x16.size (cc6_transform_4 i) (hinb6_4 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2048x2048.size a ≤ S16384x16384.size a
  hwx7_0 : ∀ i : grid7.Coords, EltTy.bits .bf16 = 32 ∨ (Rect.block (s := S16384x16384) S2048x2048.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2048x16.size a ≤ S16384x16.size a
  hwx7_1 : ∀ i : grid7.Coords, EltTy.bits .bf16 = 32 ∨ (Rect.block (s := S16384x16) S2048x16.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2048x16.size a ≤ S16384x16.size a
  hwx7_2 : ∀ i : grid7.Coords, EltTy.bits .f32 = 32 ∨ (Rect.block (s := S16384x16) S2048x16.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2048x16.size a ≤ S16384x16.size a
  hwx7_3 : ∀ i : grid7.Coords, EltTy.bits .f32 = 32 ∨ (Rect.block (s := S16384x16) S2048x16.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S2048x16.size a ≤ S16384x16.size a
  hwx7_4 : ∀ i : grid7.Coords, EltTy.bits .bf16 = 32 ∨ (Rect.block (s := S16384x16) S2048x16.size (cc7_transform_4 i) (hinb7_4 i)).WholeWords (EltTy.packing .bf16)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2048x2048.size a ≤ S16384x16384.size a
  hwx8_0 : ∀ i : grid8.Coords, EltTy.bits .bf16 = 32 ∨ (Rect.block (s := S16384x16384) S2048x2048.size (cc8_transform_0 i) (hinb8_0 i)).WholeWords (EltTy.packing .bf16)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2048x16.size a ≤ S16384x16.size a
  hwx8_1 : ∀ i : grid8.Coords, EltTy.bits .bf16 = 32 ∨ (Rect.block (s := S16384x16) S2048x16.size (cc8_transform_1 i) (hinb8_1 i)).WholeWords (EltTy.packing .bf16)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2048x16.size a ≤ S16384x16.size a
  hwx8_2 : ∀ i : grid8.Coords, EltTy.bits .f32 = 32 ∨ (Rect.block (s := S16384x16) S2048x16.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S2048x16.size a ≤ S16384x16.size a
  hwx8_3 : ∀ i : grid8.Coords, EltTy.bits .f32 = 32 ∨ (Rect.block (s := S16384x16) S2048x16.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S2048x16.size a ≤ S16384x16.size a
  hwx8_4 : ∀ i : grid8.Coords, EltTy.bits .bf16 = 32 ∨ (Rect.block (s := S16384x16) S2048x16.size (cc8_transform_4 i) (hinb8_4 i)).WholeWords (EltTy.packing .bf16)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2048x2048.size a ≤ S16384x16384.size a
  hwx9_0 : ∀ i : grid9.Coords, EltTy.bits .bf16 = 32 ∨ (Rect.block (s := S16384x16384) S2048x2048.size (cc9_transform_0 i) (hinb9_0 i)).WholeWords (EltTy.packing .bf16)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2048x16.size a ≤ S16384x16.size a
  hwx9_1 : ∀ i : grid9.Coords, EltTy.bits .bf16 = 32 ∨ (Rect.block (s := S16384x16) S2048x16.size (cc9_transform_1 i) (hinb9_1 i)).WholeWords (EltTy.packing .bf16)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S2048x16.size a ≤ S16384x16.size a
  hwx9_2 : ∀ i : grid9.Coords, EltTy.bits .f32 = 32 ∨ (Rect.block (s := S16384x16) S2048x16.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S2048x16.size a ≤ S16384x16.size a
  hwx9_3 : ∀ i : grid9.Coords, EltTy.bits .f32 = 32 ∨ (Rect.block (s := S16384x16) S2048x16.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S2048x16.size a ≤ S16384x16.size a
  hwx9_4 : ∀ i : grid9.Coords, EltTy.bits .bf16 = 32 ∨ (Rect.block (s := S16384x16) S2048x16.size (cc9_transform_4 i) (hinb9_4 i)).WholeWords (EltTy.packing .bf16)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2048x2048.size a ≤ S16384x16384.size a
  hwx10_0 : ∀ i : grid10.Coords, EltTy.bits .bf16 = 32 ∨ (Rect.block (s := S16384x16384) S2048x2048.size (cc10_transform_0 i) (hinb10_0 i)).WholeWords (EltTy.packing .bf16)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S2048x16.size a ≤ S16384x16.size a
  hwx10_1 : ∀ i : grid10.Coords, EltTy.bits .bf16 = 32 ∨ (Rect.block (s := S16384x16) S2048x16.size (cc10_transform_1 i) (hinb10_1 i)).WholeWords (EltTy.packing .bf16)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S2048x16.size a ≤ S16384x16.size a
  hwx10_2 : ∀ i : grid10.Coords, EltTy.bits .f32 = 32 ∨ (Rect.block (s := S16384x16) S2048x16.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S2048x16.size a ≤ S16384x16.size a
  hwx10_3 : ∀ i : grid10.Coords, EltTy.bits .f32 = 32 ∨ (Rect.block (s := S16384x16) S2048x16.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S2048x16.size a ≤ S16384x16.size a
  hwx10_4 : ∀ i : grid10.Coords, EltTy.bits .bf16 = 32 ∨ (Rect.block (s := S16384x16) S2048x16.size (cc10_transform_4 i) (hinb10_4 i)).WholeWords (EltTy.packing .bf16)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2048x2048.size a ≤ S16384x16384.size a
  hwx11_0 : ∀ i : grid11.Coords, EltTy.bits .bf16 = 32 ∨ (Rect.block (s := S16384x16384) S2048x2048.size (cc11_transform_0 i) (hinb11_0 i)).WholeWords (EltTy.packing .bf16)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S2048x16.size a ≤ S16384x16.size a
  hwx11_1 : ∀ i : grid11.Coords, EltTy.bits .bf16 = 32 ∨ (Rect.block (s := S16384x16) S2048x16.size (cc11_transform_1 i) (hinb11_1 i)).WholeWords (EltTy.packing .bf16)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S2048x16.size a ≤ S16384x16.size a
  hwx11_2 : ∀ i : grid11.Coords, EltTy.bits .f32 = 32 ∨ (Rect.block (s := S16384x16) S2048x16.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S2048x16.size a ≤ S16384x16.size a
  hwx11_3 : ∀ i : grid11.Coords, EltTy.bits .f32 = 32 ∨ (Rect.block (s := S16384x16) S2048x16.size (cc11_transform_3 i) (hinb11_3 i)).WholeWords (EltTy.packing .f32)
  hstage11_4 : ∀ j, (stage11_4 j).IsWhole
  nbuf11_4 : grid11.bufCount reads11_4 false = 2
  hreads11_4 : ∀ i i' : grid11.Coords, (∀ a, reads11_4 a = true → i a = i' a) → cc11_transform_4 i = cc11_transform_4 i'
  hinb11_4 : ∀ (i : grid11.Coords) a, (cc11_transform_4 i a + 1) * S2048x16.size a ≤ S16384x16.size a
  hwx11_4 : ∀ i : grid11.Coords, EltTy.bits .bf16 = 32 ∨ (Rect.block (s := S16384x16) S2048x16.size (cc11_transform_4 i) (hinb11_4 i)).WholeWords (EltTy.packing .bf16)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2048x2048.size a ≤ S16384x16384.size a
  hwx12_0 : ∀ i : grid12.Coords, EltTy.bits .bf16 = 32 ∨ (Rect.block (s := S16384x16384) S2048x2048.size (cc12_transform_0 i) (hinb12_0 i)).WholeWords (EltTy.packing .bf16)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S2048x16.size a ≤ S16384x16.size a
  hwx12_1 : ∀ i : grid12.Coords, EltTy.bits .bf16 = 32 ∨ (Rect.block (s := S16384x16) S2048x16.size (cc12_transform_1 i) (hinb12_1 i)).WholeWords (EltTy.packing .bf16)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S2048x16.size a ≤ S16384x16.size a
  hwx12_2 : ∀ i : grid12.Coords, EltTy.bits .f32 = 32 ∨ (Rect.block (s := S16384x16) S2048x16.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S2048x16.size a ≤ S16384x16.size a
  hwx12_3 : ∀ i : grid12.Coords, EltTy.bits .f32 = 32 ∨ (Rect.block (s := S16384x16) S2048x16.size (cc12_transform_3 i) (hinb12_3 i)).WholeWords (EltTy.packing .f32)
  hstage12_4 : ∀ j, (stage12_4 j).IsWhole
  nbuf12_4 : grid12.bufCount reads12_4 false = 2
  hreads12_4 : ∀ i i' : grid12.Coords, (∀ a, reads12_4 a = true → i a = i' a) → cc12_transform_4 i = cc12_transform_4 i'
  hinb12_4 : ∀ (i : grid12.Coords) a, (cc12_transform_4 i a + 1) * S2048x16.size a ≤ S16384x16.size a
  hwx12_4 : ∀ i : grid12.Coords, EltTy.bits .bf16 = 32 ∨ (Rect.block (s := S16384x16) S2048x16.size (cc12_transform_4 i) (hinb12_4 i)).WholeWords (EltTy.packing .bf16)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S2048x2048.size a ≤ S16384x16384.size a
  hwx13_0 : ∀ i : grid13.Coords, EltTy.bits .bf16 = 32 ∨ (Rect.block (s := S16384x16384) S2048x2048.size (cc13_transform_0 i) (hinb13_0 i)).WholeWords (EltTy.packing .bf16)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S2048x16.size a ≤ S16384x16.size a
  hwx13_1 : ∀ i : grid13.Coords, EltTy.bits .bf16 = 32 ∨ (Rect.block (s := S16384x16) S2048x16.size (cc13_transform_1 i) (hinb13_1 i)).WholeWords (EltTy.packing .bf16)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S2048x16.size a ≤ S16384x16.size a
  hwx13_2 : ∀ i : grid13.Coords, EltTy.bits .f32 = 32 ∨ (Rect.block (s := S16384x16) S2048x16.size (cc13_transform_2 i) (hinb13_2 i)).WholeWords (EltTy.packing .f32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S2048x16.size a ≤ S16384x16.size a
  hwx13_3 : ∀ i : grid13.Coords, EltTy.bits .f32 = 32 ∨ (Rect.block (s := S16384x16) S2048x16.size (cc13_transform_3 i) (hinb13_3 i)).WholeWords (EltTy.packing .f32)
  hstage13_4 : ∀ j, (stage13_4 j).IsWhole
  nbuf13_4 : grid13.bufCount reads13_4 false = 2
  hreads13_4 : ∀ i i' : grid13.Coords, (∀ a, reads13_4 a = true → i a = i' a) → cc13_transform_4 i = cc13_transform_4 i'
  hinb13_4 : ∀ (i : grid13.Coords) a, (cc13_transform_4 i a + 1) * S2048x16.size a ≤ S16384x16.size a
  hwx13_4 : ∀ i : grid13.Coords, EltTy.bits .bf16 = 32 ∨ (Rect.block (s := S16384x16) S2048x16.size (cc13_transform_4 i) (hinb13_4 i)).WholeWords (EltTy.packing .bf16)

variable [Facts₀]

def dot_S2048x128_S128x32_S2048x32_1_0_0_1_n_n : DotDims S2048x128 S128x32 S2048x32 where
  lhsContracting := [1]
  rhsContracting := [0]
  lhsNonContracting := [0]
  rhsNonContracting := [1]
  lhsBatch := []
  rhsBatch := []
  wf := dot_S2048x128_S128x32_S2048x32_1_0_0_1_n_n_wf
def dot_S2048x2048_S2048x16_S2048x16_1_0_0_1_n_n : DotDims S2048x2048 S2048x16 S2048x16 where
  lhsContracting := [1]
  rhsContracting := [0]
  lhsNonContracting := [0]
  rhsNonContracting := [1]
  lhsBatch := []
  rhsBatch := []
  wf := dot_S2048x2048_S2048x16_S2048x16_1_0_0_1_n_n_wf

abbrev win0_0 : Pipeline.Window sig grid0 :=
  Pipeline.Window.ofSpec (Memref.whole main_v0) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S2048x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11_0) S2048x16.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11_1) S2048x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v0) S2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11_1) S2048x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S2048x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19_0) S2048x16.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v19_1) S2048x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun i => !(k1_cond2 i == 1#1) | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v0) S2048x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19_1) S2048x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11_0) S2048x16.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v27_0) S2048x16.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v27_1) S2048x16.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun i => !(k2_cond2 i == 1#1) | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v0) S2048x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v27_1) S2048x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v19_0) S2048x16.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v35_0) S2048x16.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v35_1) S2048x16.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun i => !(k3_cond2 i == 1#1) | 4 => fun i => !(k3_cond2 i == 1#1) | ⟨_ + 5, h⟩ => absurd h (Nat.not_lt.2 (Nat.le_add_left _ _))

abbrev win4_0 : Pipeline.Window sig grid4 :=
  Pipeline.Window.ofSpec (Memref.whole main_v0) S2048x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v35_1) S2048x16.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v27_0) S2048x16.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v43_0) S2048x16.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v43_1) S2048x16.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun i => !(k4_cond2 i == 1#1) | 4 => fun i => !(k4_cond2 i == 1#1) | ⟨_ + 5, h⟩ => absurd h (Nat.not_lt.2 (Nat.le_add_left _ _))

abbrev win5_0 : Pipeline.Window sig grid5 :=
  Pipeline.Window.ofSpec (Memref.whole main_v0) S2048x2048.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v43_1) S2048x16.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v35_0) S2048x16.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v51_0) S2048x16.size cc5_transform_3 reads5_3 true false 2 stage5_3 sem5_3
    hrank5 hreads5_3 hinb5_3 nbuf5_3 (Memref.isWhole_whole _) hwx5_3 hstage5_3

abbrev win5_4 : Pipeline.Window sig grid5 :=
  Pipeline.Window.ofSpec (Memref.whole main_v51_1) S2048x16.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev idle5 : Fin 5 → grid5.Coords → Bool := fun | 0 => fun _ => false | 1 => fun _ => false | 2 => fun _ => false | 3 => fun i => !(k5_cond2 i == 1#1) | 4 => fun i => !(k5_cond2 i == 1#1) | ⟨_ + 5, h⟩ => absurd h (Nat.not_lt.2 (Nat.le_add_left _ _))

abbrev win6_0 : Pipeline.Window sig grid6 :=
  Pipeline.Window.ofSpec (Memref.whole main_v0) S2048x2048.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v51_1) S2048x16.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v43_0) S2048x16.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v59_0) S2048x16.size cc6_transform_3 reads6_3 true false 2 stage6_3 sem6_3
    hrank6 hreads6_3 hinb6_3 nbuf6_3 (Memref.isWhole_whole _) hwx6_3 hstage6_3

abbrev win6_4 : Pipeline.Window sig grid6 :=
  Pipeline.Window.ofSpec (Memref.whole main_v59_1) S2048x16.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev idle6 : Fin 5 → grid6.Coords → Bool := fun | 0 => fun _ => false | 1 => fun _ => false | 2 => fun _ => false | 3 => fun i => !(k6_cond2 i == 1#1) | 4 => fun i => !(k6_cond2 i == 1#1) | ⟨_ + 5, h⟩ => absurd h (Nat.not_lt.2 (Nat.le_add_left _ _))

abbrev win7_0 : Pipeline.Window sig grid7 :=
  Pipeline.Window.ofSpec (Memref.whole main_v0) S2048x2048.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v59_1) S2048x16.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v51_0) S2048x16.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v67_0) S2048x16.size cc7_transform_3 reads7_3 true false 2 stage7_3 sem7_3
    hrank7 hreads7_3 hinb7_3 nbuf7_3 (Memref.isWhole_whole _) hwx7_3 hstage7_3

abbrev win7_4 : Pipeline.Window sig grid7 :=
  Pipeline.Window.ofSpec (Memref.whole main_v67_1) S2048x16.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev idle7 : Fin 5 → grid7.Coords → Bool := fun | 0 => fun _ => false | 1 => fun _ => false | 2 => fun _ => false | 3 => fun i => !(k7_cond2 i == 1#1) | 4 => fun i => !(k7_cond2 i == 1#1) | ⟨_ + 5, h⟩ => absurd h (Nat.not_lt.2 (Nat.le_add_left _ _))

abbrev win8_0 : Pipeline.Window sig grid8 :=
  Pipeline.Window.ofSpec (Memref.whole main_v0) S2048x2048.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v67_1) S2048x16.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v59_0) S2048x16.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v75_0) S2048x16.size cc8_transform_3 reads8_3 true false 2 stage8_3 sem8_3
    hrank8 hreads8_3 hinb8_3 nbuf8_3 (Memref.isWhole_whole _) hwx8_3 hstage8_3

abbrev win8_4 : Pipeline.Window sig grid8 :=
  Pipeline.Window.ofSpec (Memref.whole main_v75_1) S2048x16.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev idle8 : Fin 5 → grid8.Coords → Bool := fun | 0 => fun _ => false | 1 => fun _ => false | 2 => fun _ => false | 3 => fun i => !(k8_cond2 i == 1#1) | 4 => fun i => !(k8_cond2 i == 1#1) | ⟨_ + 5, h⟩ => absurd h (Nat.not_lt.2 (Nat.le_add_left _ _))

abbrev win9_0 : Pipeline.Window sig grid9 :=
  Pipeline.Window.ofSpec (Memref.whole main_v0) S2048x2048.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v75_1) S2048x16.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v67_0) S2048x16.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v83_0) S2048x16.size cc9_transform_3 reads9_3 true false 2 stage9_3 sem9_3
    hrank9 hreads9_3 hinb9_3 nbuf9_3 (Memref.isWhole_whole _) hwx9_3 hstage9_3

abbrev win9_4 : Pipeline.Window sig grid9 :=
  Pipeline.Window.ofSpec (Memref.whole main_v83_1) S2048x16.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev idle9 : Fin 5 → grid9.Coords → Bool := fun | 0 => fun _ => false | 1 => fun _ => false | 2 => fun _ => false | 3 => fun i => !(k9_cond2 i == 1#1) | 4 => fun i => !(k9_cond2 i == 1#1) | ⟨_ + 5, h⟩ => absurd h (Nat.not_lt.2 (Nat.le_add_left _ _))

abbrev win10_0 : Pipeline.Window sig grid10 :=
  Pipeline.Window.ofSpec (Memref.whole main_v0) S2048x2048.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v83_1) S2048x16.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v75_0) S2048x16.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v91_0) S2048x16.size cc10_transform_3 reads10_3 true false 2 stage10_3 sem10_3
    hrank10 hreads10_3 hinb10_3 nbuf10_3 (Memref.isWhole_whole _) hwx10_3 hstage10_3

abbrev win10_4 : Pipeline.Window sig grid10 :=
  Pipeline.Window.ofSpec (Memref.whole main_v91_1) S2048x16.size cc10_transform_4 reads10_4 true false 2 stage10_4 sem10_4
    hrank10 hreads10_4 hinb10_4 nbuf10_4 (Memref.isWhole_whole _) hwx10_4 hstage10_4

abbrev win10 : Fin 5 → Pipeline.Window sig grid10 := fun | 0 => win10_0 | 1 => win10_1 | 2 => win10_2 | 3 => win10_3 | 4 => win10_4 | ⟨_ + 5, h⟩ => absurd h (Nat.not_lt.2 (Nat.le_add_left _ _))
abbrev spec10 : Fin 5 → Pipeline.WinSpec sig grid10.rank := fun w => (win10 w).toWinSpec

abbrev idle10 : Fin 5 → grid10.Coords → Bool := fun | 0 => fun _ => false | 1 => fun _ => false | 2 => fun _ => false | 3 => fun i => !(k10_cond2 i == 1#1) | 4 => fun i => !(k10_cond2 i == 1#1) | ⟨_ + 5, h⟩ => absurd h (Nat.not_lt.2 (Nat.le_add_left _ _))

abbrev win11_0 : Pipeline.Window sig grid11 :=
  Pipeline.Window.ofSpec (Memref.whole main_v0) S2048x2048.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v91_1) S2048x16.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v83_0) S2048x16.size cc11_transform_2 reads11_2 false false 2 stage11_2 sem11_2
    hrank11 hreads11_2 hinb11_2 nbuf11_2 (Memref.isWhole_whole _) hwx11_2 hstage11_2

abbrev win11_3 : Pipeline.Window sig grid11 :=
  Pipeline.Window.ofSpec (Memref.whole main_v99_0) S2048x16.size cc11_transform_3 reads11_3 true false 2 stage11_3 sem11_3
    hrank11 hreads11_3 hinb11_3 nbuf11_3 (Memref.isWhole_whole _) hwx11_3 hstage11_3

abbrev win11_4 : Pipeline.Window sig grid11 :=
  Pipeline.Window.ofSpec (Memref.whole main_v99_1) S2048x16.size cc11_transform_4 reads11_4 true false 2 stage11_4 sem11_4
    hrank11 hreads11_4 hinb11_4 nbuf11_4 (Memref.isWhole_whole _) hwx11_4 hstage11_4

abbrev win11 : Fin 5 → Pipeline.Window sig grid11 := fun | 0 => win11_0 | 1 => win11_1 | 2 => win11_2 | 3 => win11_3 | 4 => win11_4 | ⟨_ + 5, h⟩ => absurd h (Nat.not_lt.2 (Nat.le_add_left _ _))
abbrev spec11 : Fin 5 → Pipeline.WinSpec sig grid11.rank := fun w => (win11 w).toWinSpec

abbrev idle11 : Fin 5 → grid11.Coords → Bool := fun | 0 => fun _ => false | 1 => fun _ => false | 2 => fun _ => false | 3 => fun i => !(k11_cond2 i == 1#1) | 4 => fun i => !(k11_cond2 i == 1#1) | ⟨_ + 5, h⟩ => absurd h (Nat.not_lt.2 (Nat.le_add_left _ _))

abbrev win12_0 : Pipeline.Window sig grid12 :=
  Pipeline.Window.ofSpec (Memref.whole main_v0) S2048x2048.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v99_1) S2048x16.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v91_0) S2048x16.size cc12_transform_2 reads12_2 false false 2 stage12_2 sem12_2
    hrank12 hreads12_2 hinb12_2 nbuf12_2 (Memref.isWhole_whole _) hwx12_2 hstage12_2

abbrev win12_3 : Pipeline.Window sig grid12 :=
  Pipeline.Window.ofSpec (Memref.whole main_v107_0) S2048x16.size cc12_transform_3 reads12_3 true false 2 stage12_3 sem12_3
    hrank12 hreads12_3 hinb12_3 nbuf12_3 (Memref.isWhole_whole _) hwx12_3 hstage12_3

abbrev win12_4 : Pipeline.Window sig grid12 :=
  Pipeline.Window.ofSpec (Memref.whole main_v107_1) S2048x16.size cc12_transform_4 reads12_4 true false 2 stage12_4 sem12_4
    hrank12 hreads12_4 hinb12_4 nbuf12_4 (Memref.isWhole_whole _) hwx12_4 hstage12_4

abbrev win12 : Fin 5 → Pipeline.Window sig grid12 := fun | 0 => win12_0 | 1 => win12_1 | 2 => win12_2 | 3 => win12_3 | 4 => win12_4 | ⟨_ + 5, h⟩ => absurd h (Nat.not_lt.2 (Nat.le_add_left _ _))
abbrev spec12 : Fin 5 → Pipeline.WinSpec sig grid12.rank := fun w => (win12 w).toWinSpec

abbrev idle12 : Fin 5 → grid12.Coords → Bool := fun | 0 => fun _ => false | 1 => fun _ => false | 2 => fun _ => false | 3 => fun i => !(k12_cond2 i == 1#1) | 4 => fun i => !(k12_cond2 i == 1#1) | ⟨_ + 5, h⟩ => absurd h (Nat.not_lt.2 (Nat.le_add_left _ _))

abbrev win13_0 : Pipeline.Window sig grid13 :=
  Pipeline.Window.ofSpec (Memref.whole main_v0) S2048x2048.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v107_1) S2048x16.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v99_0) S2048x16.size cc13_transform_2 reads13_2 false false 2 stage13_2 sem13_2
    hrank13 hreads13_2 hinb13_2 nbuf13_2 (Memref.isWhole_whole _) hwx13_2 hstage13_2

abbrev win13_3 : Pipeline.Window sig grid13 :=
  Pipeline.Window.ofSpec (Memref.whole main_v115_0) S2048x16.size cc13_transform_3 reads13_3 true false 2 stage13_3 sem13_3
    hrank13 hreads13_3 hinb13_3 nbuf13_3 (Memref.isWhole_whole _) hwx13_3 hstage13_3

abbrev win13_4 : Pipeline.Window sig grid13 :=
  Pipeline.Window.ofSpec (Memref.whole main_v115_1) S2048x16.size cc13_transform_4 reads13_4 true false 2 stage13_4 sem13_4
    hrank13 hreads13_4 hinb13_4 nbuf13_4 (Memref.isWhole_whole _) hwx13_4 hstage13_4

abbrev win13 : Fin 5 → Pipeline.Window sig grid13 := fun | 0 => win13_0 | 1 => win13_1 | 2 => win13_2 | 3 => win13_3 | 4 => win13_4 | ⟨_ + 5, h⟩ => absurd h (Nat.not_lt.2 (Nat.le_add_left _ _))
abbrev spec13 : Fin 5 → Pipeline.WinSpec sig grid13.rank := fun w => (win13 w).toWinSpec

abbrev idle13 : Fin 5 → grid13.Coords → Bool := fun | 0 => fun _ => false | 1 => fun _ => false | 2 => fun _ => false | 3 => fun i => !(k13_cond2 i == 1#1) | 4 => fun i => !(k13_cond2 i == 1#1) | ⟨_ + 5, h⟩ => absurd h (Nat.not_lt.2 (Nat.le_add_left _ _))

class Facts : Prop extends Facts₀ where

variable [Facts]
-- ==== ReferenceIdeal.lean ====
abbrev S2048x16 : Shape := ⟨2, ![2048, 16]⟩
abbrev S16384x16384 : Shape := ⟨2, ![16384, 16384]⟩
abbrev S15x128x32 : Shape := ⟨3, ![15, 128, 32]⟩
abbrev S32 : Shape := ⟨1, ![32]⟩
abbrev S1x2048x1x16 : Shape := ⟨4, ![1, 2048, 1, 16]⟩
abbrev S8x2048x1x16 : Shape := ⟨4, ![8, 2048, 1, 16]⟩
abbrev S16384x16 : Shape := ⟨2, ![16384, 16]⟩
abbrev S1x128x32 : Shape := ⟨3, ![1, 128, 32]⟩
abbrev S128x32 : Shape := ⟨2, ![128, 32]⟩
abbrev S8x2048x16 : Shape := ⟨3, ![8, 2048, 16]⟩
abbrev S2048x8x16 : Shape := ⟨3, ![2048, 8, 16]⟩
abbrev S2048x128 : Shape := ⟨2, ![2048, 128]⟩
abbrev S2048x32 : Shape := ⟨2, ![2048, 32]⟩
abbrev S_ : Shape := ⟨0, ![]⟩
abbrev S1x32 : Shape := ⟨2, ![1, 32]⟩

abbrev nBuf : Space → Nat
  | .hbm => 180
  | .vmem => 0
  | .smem => 0
  | _ => 0

abbrev hbmTy0_0 (i : Nat) : BufTy := match i % 128 with
  | 0 => ⟨S2048x16, .f32⟩
  | 1 => ⟨S16384x16384, .f32⟩
  | 2 => ⟨S15x128x32, .f32⟩
  | 3 => ⟨S32, .f32⟩
  | 4 => ⟨S1x2048x1x16, .f32⟩
  | 5 => ⟨S8x2048x1x16, .f32⟩
  | 6 => ⟨S16384x16, .f32⟩
  | 7 => ⟨S1x128x32, .f32⟩
  | 8 => ⟨S128x32, .f32⟩
  | 9 => ⟨S8x2048x16, .f32⟩
  | 10 => ⟨S2048x8x16, .f32⟩
  | 11 => ⟨S2048x128, .f32⟩
  | 12 => ⟨S2048x32, .f32⟩
  | 13 => ⟨S16384x16, .f32⟩
  | 14 => ⟨S1x128x32, .f32⟩
  | 15 => ⟨S128x32, .f32⟩
  | 16 => ⟨S8x2048x16, .f32⟩
  | 17 => ⟨S2048x8x16, .f32⟩
  | 18 => ⟨S2048x128, .f32⟩
  | 19 => ⟨S2048x32, .f32⟩
  | 20 => ⟨S2048x32, .f32⟩
  | 21 => ⟨S16384x16, .f32⟩
  | 22 => ⟨S_, .f32⟩
  | 23 => ⟨S16384x16, .f32⟩
  | 24 => ⟨S16384x16, .f32⟩
  | 25 => ⟨S16384x16, .f32⟩
  | 26 => ⟨S1x128x32, .f32⟩
  | 27 => ⟨S128x32, .f32⟩
  | 28 => ⟨S8x2048x16, .f32⟩
  | 29 => ⟨S2048x8x16, .f32⟩
  | 30 => ⟨S2048x128, .f32⟩
  | 31 => ⟨S2048x32, .f32⟩
  | 32 => ⟨S2048x32, .f32⟩
  | 33 => ⟨S16384x16, .f32⟩
  | 34 => ⟨S_, .f32⟩
  | 35 => ⟨S16384x16, .f32⟩
  | 36 => ⟨S16384x16, .f32⟩
  | 37 => ⟨S16384x16, .f32⟩
  | 38 => ⟨S1x128x32, .f32⟩
  | 39 => ⟨S128x32, .f32⟩
  | 40 => ⟨S8x2048x16, .f32⟩
  | 41 => ⟨S2048x8x16, .f32⟩
  | 42 => ⟨S2048x128, .f32⟩
  | 43 => ⟨S2048x32, .f32⟩
  | 44 => ⟨S2048x32, .f32⟩
  | 45 => ⟨S16384x16, .f32⟩
  | 46 => ⟨S_, .f32⟩
  | 47 => ⟨S16384x16, .f32⟩
  | 48 => ⟨S16384x16, .f32⟩
  | 49 => ⟨S16384x16, .f32⟩
  | 50 => ⟨S1x128x32, .f32⟩
  | 51 => ⟨S128x32, .f32⟩
  | 52 => ⟨S8x2048x16, .f32⟩
  | 53 => ⟨S2048x8x16, .f32⟩
  | 54 => ⟨S2048x128, .f32⟩
  | 55 => ⟨S2048x32, .f32⟩
  | 56 => ⟨S2048x32, .f32⟩
  | 57 => ⟨S16384x16, .f32⟩
  | 58 => ⟨S_, .f32⟩
  | 59 => ⟨S16384x16, .f32⟩
  | 60 => ⟨S16384x16, .f32⟩
  | 61 => ⟨S16384x16, .f32⟩
  | 62 => ⟨S1x128x32, .f32⟩
  | 63 => ⟨S128x32, .f32⟩
  | 64 => ⟨S8x2048x16, .f32⟩
  | 65 => ⟨S2048x8x16, .f32⟩
  | 66 => ⟨S2048x128, .f32⟩
  | 67 => ⟨S2048x32, .f32⟩
  | 68 => ⟨S2048x32, .f32⟩
  | 69 => ⟨S16384x16, .f32⟩
  | 70 => ⟨S_, .f32⟩
  | 71 => ⟨S16384x16, .f32⟩
  | 72 => ⟨S16384x16, .f32⟩
  | 73 => ⟨S16384x16, .f32⟩
  | 74 => ⟨S1x128x32, .f32⟩
  | 75 => ⟨S128x32, .f32⟩
  | 76 => ⟨S8x2048x16, .f32⟩
  | 77 => ⟨S2048x8x16, .f32⟩
  | 78 => ⟨S2048x128, .f32⟩
  | 79 => ⟨S2048x32, .f32⟩
  | 80 => ⟨S2048x32, .f32⟩
  | 81 => ⟨S16384x16, .f32⟩
  | 82 => ⟨S_, .f32⟩
  | 83 => ⟨S16384x16, .f32⟩
  | 84 => ⟨S16384x16, .f32⟩
  | 85 => ⟨S16384x16, .f32⟩
  | 86 => ⟨S1x128x32, .f32⟩
  | 87 => ⟨S128x32, .f32⟩
  | 88 => ⟨S8x2048x16, .f32⟩
  | 89 => ⟨S2048x8x16, .f32⟩
  | 90 => ⟨S2048x128, .f32⟩
  | 91 => ⟨S2048x32, .f32⟩
  | 92 => ⟨S2048x32, .f32⟩
  | 93 => ⟨S16384x16, .f32⟩
  | 94 => ⟨S_, .f32⟩
  | 95 => ⟨S16384x16, .f32⟩
  | 96 => ⟨S16384x16, .f32⟩
  | 97 => ⟨S16384x16, .f32⟩
  | 98 => ⟨S1x128x32, .f32⟩
  | 99 => ⟨S128x32, .f32⟩
  | 100 => ⟨S8x2048x16, .f32⟩
  | 101 => ⟨S2048x8x16, .f32⟩
  | 102 => ⟨S2048x128, .f32⟩
  | 103 => ⟨S2048x32, .f32⟩
  | 104 => ⟨S2048x32, .f32⟩
  | 105 => ⟨S16384x16, .f32⟩
  | 106 => ⟨S_, .f32⟩
  | 107 => ⟨S16384x16, .f32⟩
  | 108 => ⟨S16384x16, .f32⟩
  | 109 => ⟨S16384x16, .f32⟩
  | 110 => ⟨S1x128x32, .f32⟩
  | 111 => ⟨S128x32, .f32⟩
  | 112 => ⟨S8x2048x16, .f32⟩
  | 113 => ⟨S2048x8x16, .f32⟩
  | 114 => ⟨S2048x128, .f32⟩
  | 115 => ⟨S2048x32, .f32⟩
  | 116 => ⟨S2048x32, .f32⟩
  | 117 => ⟨S16384x16, .f32⟩
  | 118 => ⟨S_, .f32⟩
  | 119 => ⟨S16384x16, .f32⟩
  | 120 => ⟨S16384x16, .f32⟩
  | 121 => ⟨S16384x16, .f32⟩
  | 122 => ⟨S1x128x32, .f32⟩
  | 123 => ⟨S128x32, .f32⟩
  | 124 => ⟨S8x2048x16, .f32⟩
  | 125 => ⟨S2048x8x16, .f32⟩
  | 126 => ⟨S2048x128, .f32⟩
  | 127 => ⟨S2048x32, .f32⟩
  | _ => ⟨S2048x16, .f32⟩

abbrev hbmTy0_1 (i : Nat) : BufTy := match i % 128 with
  | 0 => ⟨S2048x32, .f32⟩
  | 1 => ⟨S16384x16, .f32⟩
  | 2 => ⟨S_, .f32⟩
  | 3 => ⟨S16384x16, .f32⟩
  | 4 => ⟨S16384x16, .f32⟩
  | 5 => ⟨S16384x16, .f32⟩
  | 6 => ⟨S1x128x32, .f32⟩
  | 7 => ⟨S128x32, .f32⟩
  | 8 => ⟨S8x2048x16, .f32⟩
  | 9 => ⟨S2048x8x16, .f32⟩
  | 10 => ⟨S2048x128, .f32⟩
  | 11 => ⟨S2048x32, .f32⟩
  | 12 => ⟨S2048x32, .f32⟩
  | 13 => ⟨S16384x16, .f32⟩
  | 14 => ⟨S_, .f32⟩
  | 15 => ⟨S16384x16, .f32⟩
  | 16 => ⟨S16384x16, .f32⟩
  | 17 => ⟨S16384x16, .f32⟩
  | 18 => ⟨S1x128x32, .f32⟩
  | 19 => ⟨S128x32, .f32⟩
  | 20 => ⟨S8x2048x16, .f32⟩
  | 21 => ⟨S2048x8x16, .f32⟩
  | 22 => ⟨S2048x128, .f32⟩
  | 23 => ⟨S2048x32, .f32⟩
  | 24 => ⟨S2048x32, .f32⟩
  | 25 => ⟨S16384x16, .f32⟩
  | 26 => ⟨S_, .f32⟩
  | 27 => ⟨S16384x16, .f32⟩
  | 28 => ⟨S16384x16, .f32⟩
  | 29 => ⟨S16384x16, .f32⟩
  | 30 => ⟨S1x128x32, .f32⟩
  | 31 => ⟨S128x32, .f32⟩
  | 32 => ⟨S8x2048x16, .f32⟩
  | 33 => ⟨S2048x8x16, .f32⟩
  | 34 => ⟨S2048x128, .f32⟩
  | 35 => ⟨S2048x32, .f32⟩
  | 36 => ⟨S2048x32, .f32⟩
  | 37 => ⟨S16384x16, .f32⟩
  | 38 => ⟨S_, .f32⟩
  | 39 => ⟨S16384x16, .f32⟩
  | 40 => ⟨S16384x16, .f32⟩
  | 41 => ⟨S16384x16, .f32⟩
  | 42 => ⟨S1x128x32, .f32⟩
  | 43 => ⟨S128x32, .f32⟩
  | 44 => ⟨S8x2048x16, .f32⟩
  | 45 => ⟨S2048x8x16, .f32⟩
  | 46 => ⟨S2048x128, .f32⟩
  | 47 => ⟨S2048x32, .f32⟩
  | 48 => ⟨S2048x32, .f32⟩
  | 49 => ⟨S1x32, .f32⟩
  | 50 => ⟨S2048x32, .f32⟩
  | 51 => ⟨S2048x32, .f32⟩
  | _ => ⟨S2048x16, .f32⟩

abbrev hbmTy (i : Nat) : BufTy := match i / 128 with
  | 0 => hbmTy0_0 i
  | 1 => hbmTy0_1 i
  | _ => ⟨S2048x16, .f32⟩

abbrev bufTy : (tb : Table) → Fin (tcTables nBuf tb) → BufTy
  | .hbm, ⟨i, _⟩ => hbmTy i
  | _, _ => ⟨S2048x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst_0 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_cst_1 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_cst_2 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_cst_3 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_cst_4 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_cst_5 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_cst_6 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_cst_7 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_cst_8 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_cst_9 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_cst_10 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_cst_11 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩

abbrev nD : Nat := 1
abbrev τ : Topo := Topo.v7x

variable {F : FTy → Type} [FloatOps F]

class Facts₀ : Prop where
  shapeCasts_S2048x16_S1x2048x1x16 : S2048x16.ShapeCasts S1x2048x1x16
  bcast_S1x2048x1x16_S8x2048x1x16_0_1_2_3 : S1x2048x1x16.BroadcastsInDim S8x2048x1x16 (![0, 1, 2, 3] : Fin 4 → Fin S8x2048x1x16.rank)
  shapeCasts_S8x2048x1x16_S16384x16 : S8x2048x1x16.ShapeCasts S16384x16
  slices_S15x128x32_S1x128x32_0_0_0 : S15x128x32.Slices ![0, 0, 0] S1x128x32
  shapeCasts_S1x128x32_S128x32 : S1x128x32.ShapeCasts S128x32
  shapeCasts_S16384x16_S8x2048x16 : S16384x16.ShapeCasts S8x2048x16
  transposes_S8x2048x16_S2048x8x16_1_0_2 : S8x2048x16.Transposes [1, 0, 2] S2048x8x16
  shapeCasts_S2048x8x16_S2048x128 : S2048x8x16.ShapeCasts S2048x128
  slices_S15x128x32_S1x128x32_1_0_0 : S15x128x32.Slices ![1, 0, 0] S1x128x32
  bcast_S_S16384x16 : S_.BroadcastsInDim S16384x16 (![] : Fin 0 → Fin S16384x16.rank)
  slices_S15x128x32_S1x128x32_2_0_0 : S15x128x32.Slices ![2, 0, 0] S1x128x32
  slices_S15x128x32_S1x128x32_3_0_0 : S15x128x32.Slices ![3, 0, 0] S1x128x32
  slices_S15x128x32_S1x128x32_4_0_0 : S15x128x32.Slices ![4, 0, 0] S1x128x32
  slices_S15x128x32_S1x128x32_5_0_0 : S15x128x32.Slices ![5, 0, 0] S1x128x32
  slices_S15x128x32_S1x128x32_6_0_0 : S15x128x32.Slices ![6, 0, 0] S1x128x32
  slices_S15x128x32_S1x128x32_7_0_0 : S15x128x32.Slices ![7, 0, 0] S1x128x32
  slices_S15x128x32_S1x128x32_8_0_0 : S15x128x32.Slices ![8, 0, 0] S1x128x32
  slices_S15x128x32_S1x128x32_9_0_0 : S15x128x32.Slices ![9, 0, 0] S1x128x32
  slices_S15x128x32_S1x128x32_10_0_0 : S15x128x32.Slices ![10, 0, 0] S1x128x32
  slices_S15x128x32_S1x128x32_11_0_0 : S15x128x32.Slices ![11, 0, 0] S1x128x32
  slices_S15x128x32_S1x128x32_12_0_0 : S15x128x32.Slices ![12, 0, 0] S1x128x32
  slices_S15x128x32_S1x128x32_13_0_0 : S15x128x32.Slices ![13, 0, 0] S1x128x32
  slices_S15x128x32_S1x128x32_14_0_0 : S15x128x32.Slices ![14, 0, 0] S1x128x32
  bcast_S32_S1x32_1 : S32.BroadcastsInDim S1x32 (![1] : Fin 1 → Fin S1x32.rank)
  bcast_S1x32_S2048x32_0_1 : S1x32.BroadcastsInDim S2048x32 (![0, 1] : Fin 2 → Fin S2048x32.rank)
  dot_S2048x128_S128x32_S2048x32_1_0_0_1_n_n_wf : DotDims.WF S2048x128 S128x32 S2048x32 [1] [0] [0] [1] [] []
  dot_S16384x16384_S16384x16_S16384x16_1_0_0_1_n_n_wf : DotDims.WF S16384x16384 S16384x16 S16384x16 [1] [0] [0] [1] [] []

variable [Facts₀]

def dot_S2048x128_S128x32_S2048x32_1_0_0_1_n_n : DotDims S2048x128 S128x32 S2048x32 where
  lhsContracting := [1]
  rhsContracting := [0]
  lhsNonContracting := [0]
  rhsNonContracting := [1]
  lhsBatch := []
  rhsBatch := []
  wf := dot_S2048x128_S128x32_S2048x32_1_0_0_1_n_n_wf
def dot_S16384x16384_S16384x16_S16384x16_1_0_0_1_n_n : DotDims S16384x16384 S16384x16 S16384x16 where
  lhsContracting := [1]
  rhsContracting := [0]
  lhsNonContracting := [0]
  rhsNonContracting := [1]
  lhsBatch := []
  rhsBatch := []
  wf := dot_S16384x16384_S16384x16_S16384x16_1_0_0_1_n_n_wf

class Facts : Prop extends Facts₀ where

variable [Facts]
-- ==== Proof.RegB0Run.lean ====
/-
  Region 0 of the program (the first product Ls·T₀): the kernel body run once per control case.
  The grid is 8 × 8; a point t = 8·r + k handles row block r and column block k of Ls. The body zeroes the
  accumulator when k = 0 (case A), adds the block product Ls[r,k]·v[k] to it at every point, and when k = 7
  (case C) stores the combination of the accumulator and the block of the earlier vector into both result
  blocks; at 0 < k < 7 (case B) it only accumulates. Each run states what the body's stores leave in the
  accumulator and in the result blocks, as the list of stored pieces.
-/
import proofs.«108570_j29480655520371_2_alg».proof.Proof.Gen.Kernel.Launch
import proofs.«108570_j29480655520371_2_alg».proof.Proof.Gen.Kernel.Skeleton
import proofs.«108570_j29480655520371_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- k = 0: the accumulator is zeroed first. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- k = 7: the results are stored. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-- One staging buffer of each result window, through which its contents are stated. -/
abbrev VO0_3 : View sig .tc .vmem S2048x16 .f32 := (Memref.whole cc0_stg3_0 : Memref sig .tc .vmem S2048x16 .f32).view
abbrev VO0_4 : View sig .tc .vmem S2048x16 .bf16 := (Memref.whole cc0_stg4_0 : Memref sig .tc .vmem S2048x16 .bf16).view
abbrev ms0_0 (t : Fin cfg0.N) : Memref sig .tc .vmem S2048x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x16 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x16 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x16 .bf16 := win0_4.stage (cfg0.slots t 4)
abbrev hs0_4 (t : Fin cfg0.N) : (ms0_4 t).IsWhole := hstage0_4 ((cfg0.slots t 4).cast nbuf0_4)
/-- The accumulator: a whole scoped buffer of the kernel's own. -/
abbrev scM0_0 : Memref sig .tc .vmem S2048x16 .f32 := Memref.whole cc0_scratch0
abbrev VS0_0 : View sig .tc .vmem S2048x16 .f32 := scM0_0.view

set_option maxHeartbeats 4000000 in
/-- Case A (k = 0): the accumulator, at anything, is zeroed and then receives the first block product; the result
    blocks are handed back untouched. -/
noncomputable def kernelRun0_A (c : Dev nD) (i : grid0.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond0_0 i) (hc1 : ¬cond0_1 i)
    (x0 : Vec F S2048x2048 .bf16) (x1 : Vec F S2048x16 .bf16) (x2 : Vec F S2048x16 .f32) :
    Σ' (L3 : List (View.Piece (Elt F) S2048x16 .f32)) (L4 : List (View.Piece (Elt F) S2048x16 .bf16)), { LS0 : List (View.Piece (Elt F) S2048x16 .f32) //
      ∀ (xi3 : Vec F S2048x16 .f32) (xi4 : Vec F S2048x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__matmul_combine_kernel i arg2 harg2 arg3 harg3 arg4 harg4 arg5 harg5 arg6 harg6 arg7 harg7) K } := by
  refine ⟨[], [], ?_, fun xi3 xi4 E K => ?run⟩
  case run =>
    simp only [cc0__matmul_combine_kernel_eq_skeleton]; unfold cc0__matmul_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case B (0 < k < 7): the accumulator, at what the point before left, receives one more block product; the result
    blocks are handed back untouched. -/
noncomputable def kernelRun0_B (c : Dev nD) (i : grid0.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond0_0 i) (hc1 : ¬cond0_1 i)
    (x0 : Vec F S2048x2048 .bf16) (x1 : Vec F S2048x16 .bf16) (x2 : Vec F S2048x16 .f32) (xs0 : Vec F S2048x16 .f32) :
    Σ' (L3 : List (View.Piece (Elt F) S2048x16 .f32)) (L4 : List (View.Piece (Elt F) S2048x16 .bf16)), { LS0 : List (View.Piece (Elt F) S2048x16 .f32) //
      ∀ (xi3 : Vec F S2048x16 .f32) (xi4 : Vec F S2048x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__matmul_combine_kernel i arg2 harg2 arg3 harg3 arg4 harg4 arg5 harg5 arg6 harg6 arg7 harg7) K } := by
  refine ⟨[], [], ?_, fun xi3 xi4 E K => ?run⟩
  case run =>
    simp only [cc0__matmul_combine_kernel_eq_skeleton]; unfold cc0__matmul_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case C (k = 7): the accumulator receives the last block product, and both result blocks, at anything, are stored
    whole with the combination of the accumulator and the block of the earlier vector. -/
noncomputable def kernelRun0_C (c : Dev nD) (i : grid0.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond0_0 i) (hc1 : cond0_1 i)
    (x0 : Vec F S2048x2048 .bf16) (x1 : Vec F S2048x16 .bf16) (x2 : Vec F S2048x16 .f32) (xs0 : Vec F S2048x16 .f32) :
    Σ' (L3 : List (View.Piece (Elt F) S2048x16 .f32)) (L4 : List (View.Piece (Elt F) S2048x16 .bf16)), { LS0 : List (View.Piece (Elt F) S2048x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__matmul_combine_kernel i arg2 harg2 arg3 harg3 arg4 harg4 arg5 harg5 arg6 harg6 arg7 harg7) K } := by
  refine ⟨?_, ?_, ?_, fun E K => ?run⟩
  case run =>
    simp only [cc0__matmul_combine_kernel_eq_skeleton]; unfold cc0__matmul_combine_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.Kernel.Hand

end
-- ==== Proof.RegB0Frame.lean ====
/-
  Region 0: what its result blocks and its accumulator hold after every grid point, the proof data of its pipeline,
  and the body obligation. After point t = 8·r + k the accumulator holds the sum of the block products
  Ls[r,0]·v[0] + … + Ls[r,k]·v[k] (case A starts it from zero, cases B and C continue from what the point before
  left); the result blocks are written at k = 7 only and written back to their arrays right after that point, so at
  the other points their staging buffers are idle and what they hold is never consulted.
-/
import proofs.«108570_j29480655520371_2_alg».proof.Proof.RegB0Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's piece for the accumulator covers it. -/
theorem scover0_A_0 (c : Dev nD) (i : grid0.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond0_0 i) (hc1 : ¬cond0_1 i)
    (x0 : Vec F S2048x2048 .bf16) (x1 : Vec F S2048x16 .bf16) (x2 : Vec F S2048x16 .f32) (y : S2048x16.Idx) :
    ∃ pc ∈ (kernelRun0_A c i arg2 harg2 arg3 harg3 arg4 harg4 arg5 harg5 arg6 harg6 arg7 harg7 hc0 hc1 x0 x1 x2).2.2.1, y ∈ pc.1.set :=
  View.cover_of_tiledL (kernelRun0_A c i arg2 harg2 arg3 harg3 arg4 harg4 arg5 harg5 arg6 harg6 arg7 harg7 hc0 hc1 x0 x1 x2).2.2.1 S2048x16.size (by sl_kernel_rfl) y
/-- What case A leaves in the accumulator. -/
def sout0_A_0 (c : Dev nD) (i : grid0.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond0_0 i) (hc1 : ¬cond0_1 i)
    (x0 : Vec F S2048x2048 .bf16) (x1 : Vec F S2048x16 .bf16) (x2 : Vec F S2048x16 .f32) : Vec F S2048x16 .f32 :=
  VS0_0.read (Elt F) (VS0_0.writes (Elt F) VS0_0.junk (kernelRun0_A c i arg2 harg2 arg3 harg3 arg4 harg4 arg5 harg5 arg6 harg6 arg7 harg7 hc0 hc1 x0 x1 x2).2.2.1)

/-- Case B's piece for the accumulator covers it. -/
theorem scover0_B_0 (c : Dev nD) (i : grid0.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond0_0 i) (hc1 : ¬cond0_1 i)
    (x0 : Vec F S2048x2048 .bf16) (x1 : Vec F S2048x16 .bf16) (x2 : Vec F S2048x16 .f32) (xs0 : Vec F S2048x16 .f32) (y : S2048x16.Idx) :
    ∃ pc ∈ (kernelRun0_B c i arg2 harg2 arg3 harg3 arg4 harg4 arg5 harg5 arg6 harg6 arg7 harg7 hc0 hc1 x0 x1 x2 xs0).2.2.1, y ∈ pc.1.set :=
  View.cover_of_tiledL (kernelRun0_B c i arg2 harg2 arg3 harg3 arg4 harg4 arg5 harg5 arg6 harg6 arg7 harg7 hc0 hc1 x0 x1 x2 xs0).2.2.1 S2048x16.size (by sl_kernel_rfl) y
/-- What case B leaves in the accumulator. -/
def sout0_B_0 (c : Dev nD) (i : grid0.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond0_0 i) (hc1 : ¬cond0_1 i)
    (x0 : Vec F S2048x2048 .bf16) (x1 : Vec F S2048x16 .bf16) (x2 : Vec F S2048x16 .f32) (xs0 : Vec F S2048x16 .f32) : Vec F S2048x16 .f32 :=
  VS0_0.read (Elt F) (VS0_0.writes (Elt F) VS0_0.junk (kernelRun0_B c i arg2 harg2 arg3 harg3 arg4 harg4 arg5 harg5 arg6 harg6 arg7 harg7 hc0 hc1 x0 x1 x2 xs0).2.2.1)

/-- Case C's pieces cover the f32 result block, -/
theorem cover0_C_3 (c : Dev nD) (i : grid0.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond0_0 i) (hc1 : cond0_1 i)
    (x0 : Vec F S2048x2048 .bf16) (x1 : Vec F S2048x16 .bf16) (x2 : Vec F S2048x16 .f32) (xs0 : Vec F S2048x16 .f32) (y : S2048x16.Idx) :
    ∃ pc ∈ (kernelRun0_C c i arg2 harg2 arg3 harg3 arg4 harg4 arg5 harg5 arg6 harg6 arg7 harg7 hc0 hc1 x0 x1 x2 xs0).1, y ∈ pc.1.set :=
  View.cover_of_tiledL (kernelRun0_C c i arg2 harg2 arg3 harg3 arg4 harg4 arg5 harg5 arg6 harg6 arg7 harg7 hc0 hc1 x0 x1 x2 xs0).1 S2048x16.size (by sl_kernel_rfl) y
/-- the bf16 result block, -/
theorem cover0_C_4 (c : Dev nD) (i : grid0.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond0_0 i) (hc1 : cond0_1 i)
    (x0 : Vec F S2048x2048 .bf16) (x1 : Vec F S2048x16 .bf16) (x2 : Vec F S2048x16 .f32) (xs0 : Vec F S2048x16 .f32) (y : S2048x16.Idx) :
    ∃ pc ∈ (kernelRun0_C c i arg2 harg2 arg3 harg3 arg4 harg4 arg5 harg5 arg6 harg6 arg7 harg7 hc0 hc1 x0 x1 x2 xs0).2.1, y ∈ pc.1.set :=
  View.cover_of_tiledL (kernelRun0_C c i arg2 harg2 arg3 harg3 arg4 harg4 arg5 harg5 arg6 harg6 arg7 harg7 hc0 hc1 x0 x1 x2 xs0).2.1 S2048x16.size (by sl_kernel_rfl) y
/-- and the accumulator. -/
theorem scover0_C_0 (c : Dev nD) (i : grid0.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond0_0 i) (hc1 : cond0_1 i)
    (x0 : Vec F S2048x2048 .bf16) (x1 : Vec F S2048x16 .bf16) (x2 : Vec F S2048x16 .f32) (xs0 : Vec F S2048x16 .f32) (y : S2048x16.Idx) :
    ∃ pc ∈ (kernelRun0_C c i arg2 harg2 arg3 harg3 arg4 harg4 arg5 harg5 arg6 harg6 arg7 harg7 hc0 hc1 x0 x1 x2 xs0).2.2.1, y ∈ pc.1.set :=
  View.cover_of_tiledL (kernelRun0_C c i arg2 harg2 arg3 harg3 arg4 harg4 arg5 harg5 arg6 harg6 arg7 harg7 hc0 hc1 x0 x1 x2 xs0).2.2.1 S2048x16.size (by sl_kernel_rfl) y
/-- What case C leaves in the f32 result block, -/
def out0_C_3 (c : Dev nD) (i : grid0.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond0_0 i) (hc1 : cond0_1 i)
    (x0 : Vec F S2048x2048 .bf16) (x1 : Vec F S2048x16 .bf16) (x2 : Vec F S2048x16 .f32) (xs0 : Vec F S2048x16 .f32) : Vec F S2048x16 .f32 :=
  VO0_3.read (Elt F) (VO0_3.writes (Elt F) VO0_3.junk (kernelRun0_C c i arg2 harg2 arg3 harg3 arg4 harg4 arg5 harg5 arg6 harg6 arg7 harg7 hc0 hc1 x0 x1 x2 xs0).1)
/-- in the bf16 result block, -/
def out0_C_4 (c : Dev nD) (i : grid0.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond0_0 i) (hc1 : cond0_1 i)
    (x0 : Vec F S2048x2048 .bf16) (x1 : Vec F S2048x16 .bf16) (x2 : Vec F S2048x16 .f32) (xs0 : Vec F S2048x16 .f32) : Vec F S2048x16 .bf16 :=
  VO0_4.read (Elt F) (VO0_4.writes (Elt F) VO0_4.junk (kernelRun0_C c i arg2 harg2 arg3 harg3 arg4 harg4 arg5 harg5 arg6 harg6 arg7 harg7 hc0 hc1 x0 x1 x2 xs0).2.1)
/-- and in the accumulator. -/
def sout0_C_0 (c : Dev nD) (i : grid0.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond0_0 i) (hc1 : cond0_1 i)
    (x0 : Vec F S2048x2048 .bf16) (x1 : Vec F S2048x16 .bf16) (x2 : Vec F S2048x16 .f32) (xs0 : Vec F S2048x16 .f32) : Vec F S2048x16 .f32 :=
  VS0_0.read (Elt F) (VS0_0.writes (Elt F) VS0_0.junk (kernelRun0_C c i arg2 harg2 arg3 harg3 arg4 harg4 arg5 harg5 arg6 harg6 arg7 harg7 hc0 hc1 x0 x1 x2 xs0).2.2.1)

/-- What the two result blocks' staging buffers and the accumulator hold after the body at position `n`: the case
    the position selects, run at the point's blocks, cases B and C over the accumulator the point before left. -/
def outsAt0 (c : Dev nD) : (n : ℕ) → n < cfg0.N → Vec F S2048x16 .f32 × Vec F S2048x16 .bf16 × Vec F S2048x16 .f32
  | 0, hn => ((VO0_3.read (Elt F) VO0_3.junk), (VO0_4.read (Elt F) VO0_4.junk), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 8 = 0 then
      if h1 : (n + 1) % 8 = 7 then
        False.elim (by omega)
      else
        ((VO0_3.read (Elt F) VO0_3.junk), (VO0_4.read (Elt F) VO0_4.junk), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 8 = 7 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2)
      else
        ((VO0_3.read (Elt F) VO0_3.junk), (VO0_4.read (Elt F) VO0_4.junk), sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2)

theorem outsAt0_A (c : Dev nD) (t : Fin cfg0.N) (h0 : t.val % 8 = 0) (h1 : ¬t.val % 8 = 7) :
    outsAt0 V c t.val t.isLt = ((VO0_3.read (Elt F) VO0_3.junk), (VO0_4.read (Elt F) VO0_4.junk), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = ((VO0_3.read (Elt F) VO0_3.junk), (VO0_4.read (Elt F) VO0_4.junk), sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2, out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The scoped buffers of the program other than this region's staging buffers and its accumulator. -/
abbrev RB0 (c : Dev nD) : sProp 𝕄 :=
  Pipeline.scopedRestBut (Ix := Unit) (Name := ℕ) (U := UR sig nD τ) (Lvl := ℕ) (Val := Elt F) spec0 c [cc0_scratch0]

/-- The region invariant before position `n`: at the first point every scoped buffer outside the staging buffers at
    anything; afterwards the accumulator at what the point before left in it. -/
def PhiS0 (c : Dev nD) : (n : ℕ) → n ≤ cfg0.N → sProp 𝕄
  | 0, _ => Pipeline.ΦA spec0 c
  | n + 1, hn => iprop((iprop(owns (c : Thread nD τ) scM0_0 fullShare ((outsAt0 V c n hn).2.2)) ∗ RB0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((iprop(owns (c : Thread nD τ) scM0_0 fullShare ((outsAt0 V c n hn).2.2)) ∗ RB0 c) ∗ (∃ r, prngReg c r)) := rfl
theorem PhiS0_pos (c : Dev nD) (n : ℕ) (h : n ≤ cfg0.N) (hz : n ≠ 0) :
    PhiS0 V c n h = iprop((iprop(owns (c : Thread nD τ) scM0_0 fullShare ((outsAt0 V c (n - 1) (by omega)).2.2)) ∗ RB0 c) ∗ (∃ r, prngReg c r)) := by
  cases n with
  | zero => exact absurd rfl hz
  | succ n => rfl

/-- The first point's invariant with the accumulator split out, owned at some contents. -/
theorem PhiA0_eq (c : Dev nD) :
    (Pipeline.ΦA spec0 c : sProp 𝕄)
      = iprop((iprop((∃ d, owns (c : Thread nD τ) scM0_0 fullShare d)) ∗ RB0 c) ∗ (∃ r, prngReg c r)) := by
  unfold Pipeline.ΦA; rw [scopedRest0_split]; simp only [scM0_0, owns_whole]; try rfl

/-- The proof data of region 0's pipeline on core `c`: the arrays as the region finds them; after the body at
    point `t` each input's buffer at its block and the results' at `outsAt0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))
/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 8000000 in
/-- The body at any point: the inputs' buffers hold their blocks; the position says which case the point is in; the
    invariant hands the body the accumulator at what the point before left (at anything at the first point) and takes
    it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  by_cases h0 : t.val % 8 = 0
  · have h1 : ¬t.val % 8 = 7 := by omega
    rw [Dat.leavesExact_idle (dat0 V c) 3 t (idleAt0_3 t (fun h => h1 ((hcond0_1 t).mp h))) (noFlush0_3 t (fun h => h1 ((hcond0_1 t).mp h)))]
    rw [Dat.leavesExact_idle (dat0 V c) 4 t (idleAt0_4 t (fun h => h1 ((hcond0_1 t).mp h))) (noFlush0_4 t (fun h => h1 ((hcond0_1 t).mp h)))]
    rw [outsAt0_A V c t h0 h1]
    unfold sout0_A_0; (try dsimp only)
    by_cases hz : t.val = 0
    · rw [PhiS0_castSucc V c t, PhiS0_zero V c _ _ hz, PhiA0_eq]
      iintro ⟨⟨⟨HS0, HR⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t)).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
    · rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t)).2.2.2 _ _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun h => h0 (by rw [h])
    by_cases h1 : t.val % 8 = 7
    · rw [show (dat0 V c).leavesExact 3 t = owns (c : Thread nD τ) (ms0_3 t) fullShare ((dat0 V c).after 3 t) from by
        unfold Dat.leavesExact; rw [liveAt0_3 t ((hcond0_1 t).mpr h1)], after0_3]
      rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold out0_C_3 out0_C_4 sout0_C_0; (try dsimp only)
      rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_C_3 c _ _ _ _ _ _ _ _ _ _ _ _ _ _ _ _ _ _ _)
      unfold owns; iexists _; isplitr
      swap; · iexact H4
      ipureintro; exact View.read_writes_of_cover _ _ _ _ _ (cover0_C_4 c _ _ _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [Dat.leavesExact_idle (dat0 V c) 4 t (idleAt0_4 t (fun h => h1 ((hcond0_1 t).mp h))) (noFlush0_4 t (fun h => h1 ((hcond0_1 t).mp h)))]
      rw [outsAt0_B V c t h0 h1]
      unfold sout0_B_0; (try dsimp only)
      rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) _).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4

/-- The body obligation of region 0, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the scoped buffers back: what the accumulator holds is forgotten. -/
theorem hout0 (c : Dev nD) : (dat0 V c).Φ (Fin.last cfg0.N) ⊢ Pipeline.ΦA spec0 c := by
  have ht : (Fin.last cfg0.N).val ≠ 0 := by rw [Fin.val_last]; have : cfg0.N = 64 := N_0; omega
  rw [show (dat0 V c).Φ (Fin.last cfg0.N) = PhiS0 V c (Fin.last cfg0.N).val (Nat.le_of_lt_succ (Fin.last cfg0.N).isLt) from rfl,
    PhiS0_pos V c _ _ ht, PhiA0_eq]
  iintro ⟨⟨HS0, HR⟩, Hg⟩
  isplitl [HS0 HR]
  · isplitl [HS0]
    · iexists _; iexact HS0
    iexact HR
  iexact Hg

end Cert.Kernel.Hand

end
-- ==== Proof.RegB1Run.lean ====
/-
  Region 1 of the program (the recurrence step 2·(Ls·T) − T′): the kernel body run once per control case.
  The grid is 8 × 8; a point t = 8·r + k handles row block r and column block k of Ls. The body zeroes the
  accumulator when k = 0 (case A), adds the block product Ls[r,k]·v[k] to it at every point, and when k = 7
  (case C) stores the combination of the accumulator and the block of the earlier vector into both result
  blocks; at 0 < k < 7 (case B) it only accumulates. Each run states what the body's stores leave in the
  accumulator and in the result blocks, as the list of stored pieces.
-/
import proofs.«108570_j29480655520371_2_alg».proof.Proof.Gen.Kernel.Launch
import proofs.«108570_j29480655520371_2_alg».proof.Proof.Gen.Kernel.Skeleton
import proofs.«108570_j29480655520371_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- k = 0: the accumulator is zeroed first. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- k = 7: the results are stored. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-- One staging buffer of each result window, through which its contents are stated. -/
abbrev VO1_3 : View sig .tc .vmem S2048x16 .f32 := (Memref.whole cc1_stg3_0 : Memref sig .tc .vmem S2048x16 .f32).view
abbrev VO1_4 : View sig .tc .vmem S2048x16 .bf16 := (Memref.whole cc1_stg4_0 : Memref sig .tc .vmem S2048x16 .bf16).view
abbrev ms1_0 (t : Fin cfg1.N) : Memref sig .tc .vmem S2048x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x16 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x16 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x16 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x16 .bf16 := win1_4.stage (cfg1.slots t 4)
abbrev hs1_4 (t : Fin cfg1.N) : (ms1_4 t).IsWhole := hstage1_4 ((cfg1.slots t 4).cast nbuf1_4)
/-- The accumulator: a whole scoped buffer of the kernel's own. -/
abbrev scM1_0 : Memref sig .tc .vmem S2048x16 .f32 := Memref.whole cc1_scratch0
abbrev VS1_0 : View sig .tc .vmem S2048x16 .f32 := scM1_0.view

set_option maxHeartbeats 4000000 in
/-- Case A (k = 0): the accumulator, at anything, is zeroed and then receives the first block product; the result
    blocks are handed back untouched. -/
noncomputable def kernelRun1_A (c : Dev nD) (i : grid1.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond1_0 i) (hc1 : ¬cond1_1 i)
    (x0 : Vec F S2048x2048 .bf16) (x1 : Vec F S2048x16 .bf16) (x2 : Vec F S2048x16 .f32) :
    Σ' (L3 : List (View.Piece (Elt F) S2048x16 .f32)) (L4 : List (View.Piece (Elt F) S2048x16 .bf16)), { LS0 : List (View.Piece (Elt F) S2048x16 .f32) //
      ∀ (xi3 : Vec F S2048x16 .f32) (xi4 : Vec F S2048x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_combine_kernel i arg2 harg2 arg3 harg3 arg4 harg4 arg5 harg5 arg6 harg6 arg7 harg7) K } := by
  refine ⟨[], [], ?_, fun xi3 xi4 E K => ?run⟩
  case run =>
    simp only [cc1__matmul_combine_kernel_eq_skeleton]; unfold cc1__matmul_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case B (0 < k < 7): the accumulator, at what the point before left, receives one more block product; the result
    blocks are handed back untouched. -/
noncomputable def kernelRun1_B (c : Dev nD) (i : grid1.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond1_0 i) (hc1 : ¬cond1_1 i)
    (x0 : Vec F S2048x2048 .bf16) (x1 : Vec F S2048x16 .bf16) (x2 : Vec F S2048x16 .f32) (xs0 : Vec F S2048x16 .f32) :
    Σ' (L3 : List (View.Piece (Elt F) S2048x16 .f32)) (L4 : List (View.Piece (Elt F) S2048x16 .bf16)), { LS0 : List (View.Piece (Elt F) S2048x16 .f32) //
      ∀ (xi3 : Vec F S2048x16 .f32) (xi4 : Vec F S2048x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_combine_kernel i arg2 harg2 arg3 harg3 arg4 harg4 arg5 harg5 arg6 harg6 arg7 harg7) K } := by
  refine ⟨[], [], ?_, fun xi3 xi4 E K => ?run⟩
  case run =>
    simp only [cc1__matmul_combine_kernel_eq_skeleton]; unfold cc1__matmul_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case C (k = 7): the accumulator receives the last block product, and both result blocks, at anything, are stored
    whole with the combination of the accumulator and the block of the earlier vector. -/
noncomputable def kernelRun1_C (c : Dev nD) (i : grid1.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond1_0 i) (hc1 : cond1_1 i)
    (x0 : Vec F S2048x2048 .bf16) (x1 : Vec F S2048x16 .bf16) (x2 : Vec F S2048x16 .f32) (xs0 : Vec F S2048x16 .f32) :
    Σ' (L3 : List (View.Piece (Elt F) S2048x16 .f32)) (L4 : List (View.Piece (Elt F) S2048x16 .bf16)), { LS0 : List (View.Piece (Elt F) S2048x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_combine_kernel i arg2 harg2 arg3 harg3 arg4 harg4 arg5 harg5 arg6 harg6 arg7 harg7) K } := by
  refine ⟨?_, ?_, ?_, fun E K => ?run⟩
  case run =>
    simp only [cc1__matmul_combine_kernel_eq_skeleton]; unfold cc1__matmul_combine_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.Kernel.Hand

end
-- ==== Proof.RegB1Frame.lean ====
/-
  Region 1: what its result blocks and its accumulator hold after every grid point, the proof data of its pipeline,
  and the body obligation. After point t = 8·r + k the accumulator holds the sum of the block products
  Ls[r,0]·v[0] + … + Ls[r,k]·v[k] (case A starts it from zero, cases B and C continue from what the point before
  left); the result blocks are written at k = 7 only and written back to their arrays right after that point, so at
  the other points their staging buffers are idle and what they hold is never consulted.
-/
import proofs.«108570_j29480655520371_2_alg».proof.Proof.RegB1Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's piece for the accumulator covers it. -/
theorem scover1_A_0 (c : Dev nD) (i : grid1.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond1_0 i) (hc1 : ¬cond1_1 i)
    (x0 : Vec F S2048x2048 .bf16) (x1 : Vec F S2048x16 .bf16) (x2 : Vec F S2048x16 .f32) (y : S2048x16.Idx) :
    ∃ pc ∈ (kernelRun1_A c i arg2 harg2 arg3 harg3 arg4 harg4 arg5 harg5 arg6 harg6 arg7 harg7 hc0 hc1 x0 x1 x2).2.2.1, y ∈ pc.1.set :=
  View.cover_of_tiledL (kernelRun1_A c i arg2 harg2 arg3 harg3 arg4 harg4 arg5 harg5 arg6 harg6 arg7 harg7 hc0 hc1 x0 x1 x2).2.2.1 S2048x16.size (by sl_kernel_rfl) y
/-- What case A leaves in the accumulator. -/
def sout1_A_0 (c : Dev nD) (i : grid1.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond1_0 i) (hc1 : ¬cond1_1 i)
    (x0 : Vec F S2048x2048 .bf16) (x1 : Vec F S2048x16 .bf16) (x2 : Vec F S2048x16 .f32) : Vec F S2048x16 .f32 :=
  VS1_0.read (Elt F) (VS1_0.writes (Elt F) VS1_0.junk (kernelRun1_A c i arg2 harg2 arg3 harg3 arg4 harg4 arg5 harg5 arg6 harg6 arg7 harg7 hc0 hc1 x0 x1 x2).2.2.1)

/-- Case B's piece for the accumulator covers it. -/
theorem scover1_B_0 (c : Dev nD) (i : grid1.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond1_0 i) (hc1 : ¬cond1_1 i)
    (x0 : Vec F S2048x2048 .bf16) (x1 : Vec F S2048x16 .bf16) (x2 : Vec F S2048x16 .f32) (xs0 : Vec F S2048x16 .f32) (y : S2048x16.Idx) :
    ∃ pc ∈ (kernelRun1_B c i arg2 harg2 arg3 harg3 arg4 harg4 arg5 harg5 arg6 harg6 arg7 harg7 hc0 hc1 x0 x1 x2 xs0).2.2.1, y ∈ pc.1.set :=
  View.cover_of_tiledL (kernelRun1_B c i arg2 harg2 arg3 harg3 arg4 harg4 arg5 harg5 arg6 harg6 arg7 harg7 hc0 hc1 x0 x1 x2 xs0).2.2.1 S2048x16.size (by sl_kernel_rfl) y
/-- What case B leaves in the accumulator. -/
def sout1_B_0 (c : Dev nD) (i : grid1.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond1_0 i) (hc1 : ¬cond1_1 i)
    (x0 : Vec F S2048x2048 .bf16) (x1 : Vec F S2048x16 .bf16) (x2 : Vec F S2048x16 .f32) (xs0 : Vec F S2048x16 .f32) : Vec F S2048x16 .f32 :=
  VS1_0.read (Elt F) (VS1_0.writes (Elt F) VS1_0.junk (kernelRun1_B c i arg2 harg2 arg3 harg3 arg4 harg4 arg5 harg5 arg6 harg6 arg7 harg7 hc0 hc1 x0 x1 x2 xs0).2.2.1)

/-- Case C's pieces cover the f32 result block, -/
theorem cover1_C_3 (c : Dev nD) (i : grid1.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond1_0 i) (hc1 : cond1_1 i)
    (x0 : Vec F S2048x2048 .bf16) (x1 : Vec F S2048x16 .bf16) (x2 : Vec F S2048x16 .f32) (xs0 : Vec F S2048x16 .f32) (y : S2048x16.Idx) :
    ∃ pc ∈ (kernelRun1_C c i arg2 harg2 arg3 harg3 arg4 harg4 arg5 harg5 arg6 harg6 arg7 harg7 hc0 hc1 x0 x1 x2 xs0).1, y ∈ pc.1.set :=
  View.cover_of_tiledL (kernelRun1_C c i arg2 harg2 arg3 harg3 arg4 harg4 arg5 harg5 arg6 harg6 arg7 harg7 hc0 hc1 x0 x1 x2 xs0).1 S2048x16.size (by sl_kernel_rfl) y
/-- the bf16 result block, -/
theorem cover1_C_4 (c : Dev nD) (i : grid1.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond1_0 i) (hc1 : cond1_1 i)
    (x0 : Vec F S2048x2048 .bf16) (x1 : Vec F S2048x16 .bf16) (x2 : Vec F S2048x16 .f32) (xs0 : Vec F S2048x16 .f32) (y : S2048x16.Idx) :
    ∃ pc ∈ (kernelRun1_C c i arg2 harg2 arg3 harg3 arg4 harg4 arg5 harg5 arg6 harg6 arg7 harg7 hc0 hc1 x0 x1 x2 xs0).2.1, y ∈ pc.1.set :=
  View.cover_of_tiledL (kernelRun1_C c i arg2 harg2 arg3 harg3 arg4 harg4 arg5 harg5 arg6 harg6 arg7 harg7 hc0 hc1 x0 x1 x2 xs0).2.1 S2048x16.size (by sl_kernel_rfl) y
/-- and the accumulator. -/
theorem scover1_C_0 (c : Dev nD) (i : grid1.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond1_0 i) (hc1 : cond1_1 i)
    (x0 : Vec F S2048x2048 .bf16) (x1 : Vec F S2048x16 .bf16) (x2 : Vec F S2048x16 .f32) (xs0 : Vec F S2048x16 .f32) (y : S2048x16.Idx) :
    ∃ pc ∈ (kernelRun1_C c i arg2 harg2 arg3 harg3 arg4 harg4 arg5 harg5 arg6 harg6 arg7 harg7 hc0 hc1 x0 x1 x2 xs0).2.2.1, y ∈ pc.1.set :=
  View.cover_of_tiledL (kernelRun1_C c i arg2 harg2 arg3 harg3 arg4 harg4 arg5 harg5 arg6 harg6 arg7 harg7 hc0 hc1 x0 x1 x2 xs0).2.2.1 S2048x16.size (by sl_kernel_rfl) y
/-- What case C leaves in the f32 result block, -/
def out1_C_3 (c : Dev nD) (i : grid1.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond1_0 i) (hc1 : cond1_1 i)
    (x0 : Vec F S2048x2048 .bf16) (x1 : Vec F S2048x16 .bf16) (x2 : Vec F S2048x16 .f32) (xs0 : Vec F S2048x16 .f32) : Vec F S2048x16 .f32 :=
  VO1_3.read (Elt F) (VO1_3.writes (Elt F) VO1_3.junk (kernelRun1_C c i arg2 harg2 arg3 harg3 arg4 harg4 arg5 harg5 arg6 harg6 arg7 harg7 hc0 hc1 x0 x1 x2 xs0).1)
/-- in the bf16 result block, -/
def out1_C_4 (c : Dev nD) (i : grid1.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond1_0 i) (hc1 : cond1_1 i)
    (x0 : Vec F S2048x2048 .bf16) (x1 : Vec F S2048x16 .bf16) (x2 : Vec F S2048x16 .f32) (xs0 : Vec F S2048x16 .f32) : Vec F S2048x16 .bf16 :=
  VO1_4.read (Elt F) (VO1_4.writes (Elt F) VO1_4.junk (kernelRun1_C c i arg2 harg2 arg3 harg3 arg4 harg4 arg5 harg5 arg6 harg6 arg7 harg7 hc0 hc1 x0 x1 x2 xs0).2.1)
/-- and in the accumulator. -/
def sout1_C_0 (c : Dev nD) (i : grid1.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond1_0 i) (hc1 : cond1_1 i)
    (x0 : Vec F S2048x2048 .bf16) (x1 : Vec F S2048x16 .bf16) (x2 : Vec F S2048x16 .f32) (xs0 : Vec F S2048x16 .f32) : Vec F S2048x16 .f32 :=
  VS1_0.read (Elt F) (VS1_0.writes (Elt F) VS1_0.junk (kernelRun1_C c i arg2 harg2 arg3 harg3 arg4 harg4 arg5 harg5 arg6 harg6 arg7 harg7 hc0 hc1 x0 x1 x2 xs0).2.2.1)

/-- What the two result blocks' staging buffers and the accumulator hold after the body at position `n`: the case
    the position selects, run at the point's blocks, cases B and C over the accumulator the point before left. -/
def outsAt1 (c : Dev nD) : (n : ℕ) → n < cfg1.N → Vec F S2048x16 .f32 × Vec F S2048x16 .bf16 × Vec F S2048x16 .f32
  | 0, hn => ((VO1_3.read (Elt F) VO1_3.junk), (VO1_4.read (Elt F) VO1_4.junk), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        ((VO1_3.read (Elt F) VO1_3.junk), (VO1_4.read (Elt F) VO1_4.junk), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2, out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2)
      else
        ((VO1_3.read (Elt F) VO1_3.junk), (VO1_4.read (Elt F) VO1_4.junk), sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.2)

theorem outsAt1_A (c : Dev nD) (t : Fin cfg1.N) (h0 : t.val % 8 = 0) (h1 : ¬t.val % 8 = 7) :
    outsAt1 V c t.val t.isLt = ((VO1_3.read (Elt F) VO1_3.junk), (VO1_4.read (Elt F) VO1_4.junk), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = ((VO1_3.read (Elt F) VO1_3.junk), (VO1_4.read (Elt F) VO1_4.junk), sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2, out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The scoped buffers of the program other than this region's staging buffers and its accumulator. -/
abbrev RB1 (c : Dev nD) : sProp 𝕄 :=
  Pipeline.scopedRestBut (Ix := Unit) (Name := ℕ) (U := UR sig nD τ) (Lvl := ℕ) (Val := Elt F) spec1 c [cc1_scratch0]

/-- The region invariant before position `n`: at the first point every scoped buffer outside the staging buffers at
    anything; afterwards the accumulator at what the point before left in it. -/
def PhiS1 (c : Dev nD) : (n : ℕ) → n ≤ cfg1.N → sProp 𝕄
  | 0, _ => Pipeline.ΦA spec1 c
  | n + 1, hn => iprop((iprop(owns (c : Thread nD τ) scM1_0 fullShare ((outsAt1 V c n hn).2.2)) ∗ RB1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((iprop(owns (c : Thread nD τ) scM1_0 fullShare ((outsAt1 V c n hn).2.2)) ∗ RB1 c) ∗ (∃ r, prngReg c r)) := rfl
theorem PhiS1_pos (c : Dev nD) (n : ℕ) (h : n ≤ cfg1.N) (hz : n ≠ 0) :
    PhiS1 V c n h = iprop((iprop(owns (c : Thread nD τ) scM1_0 fullShare ((outsAt1 V c (n - 1) (by omega)).2.2)) ∗ RB1 c) ∗ (∃ r, prngReg c r)) := by
  cases n with
  | zero => exact absurd rfl hz
  | succ n => rfl

/-- The first point's invariant with the accumulator split out, owned at some contents. -/
theorem PhiA1_eq (c : Dev nD) :
    (Pipeline.ΦA spec1 c : sProp 𝕄)
      = iprop((iprop((∃ d, owns (c : Thread nD τ) scM1_0 fullShare d)) ∗ RB1 c) ∗ (∃ r, prngReg c r)) := by
  unfold Pipeline.ΦA; rw [scopedRest1_split]; simp only [scM1_0, owns_whole]; try rfl

/-- The proof data of region 1's pipeline on core `c`: the arrays as the region finds them; after the body at
    point `t` each input's buffer at its block and the results' at `outsAt1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2.1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))
/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point: the inputs' buffers hold their blocks; the position says which case the point is in; the
    invariant hands the body the accumulator at what the point before left (at anything at the first point) and takes
    it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  by_cases h0 : t.val % 8 = 0
  · have h1 : ¬t.val % 8 = 7 := by omega
    rw [Dat.leavesExact_idle (dat1 V c) 3 t (idleAt1_3 t (fun h => h1 ((hcond1_1 t).mp h))) (noFlush1_3 t (fun h => h1 ((hcond1_1 t).mp h)))]
    rw [Dat.leavesExact_idle (dat1 V c) 4 t (idleAt1_4 t (fun h => h1 ((hcond1_1 t).mp h))) (noFlush1_4 t (fun h => h1 ((hcond1_1 t).mp h)))]
    rw [outsAt1_A V c t h0 h1]
    unfold sout1_A_0; (try dsimp only)
    by_cases hz : t.val = 0
    · rw [PhiS1_castSucc V c t, PhiS1_zero V c _ _ hz, PhiA1_eq]
      iintro ⟨⟨⟨HS0, HR⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t)).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
    · rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t)).2.2.2 _ _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun h => h0 (by rw [h])
    by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold out1_C_3 out1_C_4 sout1_C_0; (try dsimp only)
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover1_C_3 c _ _ _ _ _ _ _ _ _ _ _ _ _ _ _ _ _ _ _)
      unfold owns; iexists _; isplitr
      swap; · iexact H4
      ipureintro; exact View.read_writes_of_cover _ _ _ _ _ (cover1_C_4 c _ _ _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [Dat.leavesExact_idle (dat1 V c) 4 t (idleAt1_4 t (fun h => h1 ((hcond1_1 t).mp h))) (noFlush1_4 t (fun h => h1 ((hcond1_1 t).mp h)))]
      rw [outsAt1_B V c t h0 h1]
      unfold sout1_B_0; (try dsimp only)
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) _).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4

/-- The body obligation of region 1, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped buffers back: what the accumulator holds is forgotten. -/
theorem hout1 (c : Dev nD) : (dat1 V c).Φ (Fin.last cfg1.N) ⊢ Pipeline.ΦA spec1 c := by
  have ht : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl,
    PhiS1_pos V c _ _ ht, PhiA1_eq]
  iintro ⟨⟨HS0, HR⟩, Hg⟩
  isplitl [HS0 HR]
  · isplitl [HS0]
    · iexists _; iexact HS0
    iexact HR
  iexact Hg

end Cert.Kernel.Hand

end
-- ==== Proof.RegB2Run.lean ====
/-
  Region 2 of the program (the recurrence step 2·(Ls·T) − T′): the kernel body run once per control case.
  The grid is 8 × 8; a point t = 8·r + k handles row block r and column block k of Ls. The body zeroes the
  accumulator when k = 0 (case A), adds the block product Ls[r,k]·v[k] to it at every point, and when k = 7
  (case C) stores the combination of the accumulator and the block of the earlier vector into both result
  blocks; at 0 < k < 7 (case B) it only accumulates. Each run states what the body's stores leave in the
  accumulator and in the result blocks, as the list of stored pieces.
-/
import proofs.«108570_j29480655520371_2_alg».proof.Proof.Gen.Kernel.Launch
import proofs.«108570_j29480655520371_2_alg».proof.Proof.Gen.Kernel.Skeleton
import proofs.«108570_j29480655520371_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- k = 0: the accumulator is zeroed first. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)
/-- k = 7: the results are stored. -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem liveAt2_3 : ∀ t : Fin cfg2.N, cond2_1 (grid2.coords t) → cfg2.idle 3 (grid2.coords t) = false := by decide +kernel
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel

/-- One staging buffer of each result window, through which its contents are stated. -/
abbrev VO2_3 : View sig .tc .vmem S2048x16 .f32 := (Memref.whole cc2_stg3_0 : Memref sig .tc .vmem S2048x16 .f32).view
abbrev VO2_4 : View sig .tc .vmem S2048x16 .bf16 := (Memref.whole cc2_stg4_0 : Memref sig .tc .vmem S2048x16 .bf16).view
abbrev ms2_0 (t : Fin cfg2.N) : Memref sig .tc .vmem S2048x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x16 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x16 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x16 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S2048x16 .bf16 := win2_4.stage (cfg2.slots t 4)
abbrev hs2_4 (t : Fin cfg2.N) : (ms2_4 t).IsWhole := hstage2_4 ((cfg2.slots t 4).cast nbuf2_4)
/-- The accumulator: a whole scoped buffer of the kernel's own. -/
abbrev scM2_0 : Memref sig .tc .vmem S2048x16 .f32 := Memref.whole cc2_scratch0
abbrev VS2_0 : View sig .tc .vmem S2048x16 .f32 := scM2_0.view

set_option maxHeartbeats 4000000 in
/-- Case A (k = 0): the accumulator, at anything, is zeroed and then receives the first block product; the result
    blocks are handed back untouched. -/
noncomputable def kernelRun2_A (c : Dev nD) (i : grid2.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond2_0 i) (hc1 : ¬cond2_1 i)
    (x0 : Vec F S2048x2048 .bf16) (x1 : Vec F S2048x16 .bf16) (x2 : Vec F S2048x16 .f32) :
    Σ' (L3 : List (View.Piece (Elt F) S2048x16 .f32)) (L4 : List (View.Piece (Elt F) S2048x16 .bf16)), { LS0 : List (View.Piece (Elt F) S2048x16 .f32) //
      ∀ (xi3 : Vec F S2048x16 .f32) (xi4 : Vec F S2048x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__matmul_combine_kernel i arg2 harg2 arg3 harg3 arg4 harg4 arg5 harg5 arg6 harg6 arg7 harg7) K } := by
  refine ⟨[], [], ?_, fun xi3 xi4 E K => ?run⟩
  case run =>
    simp only [cc2__matmul_combine_kernel_eq_skeleton]; unfold cc2__matmul_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case B (0 < k < 7): the accumulator, at what the point before left, receives one more block product; the result
    blocks are handed back untouched. -/
noncomputable def kernelRun2_B (c : Dev nD) (i : grid2.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond2_0 i) (hc1 : ¬cond2_1 i)
    (x0 : Vec F S2048x2048 .bf16) (x1 : Vec F S2048x16 .bf16) (x2 : Vec F S2048x16 .f32) (xs0 : Vec F S2048x16 .f32) :
    Σ' (L3 : List (View.Piece (Elt F) S2048x16 .f32)) (L4 : List (View.Piece (Elt F) S2048x16 .bf16)), { LS0 : List (View.Piece (Elt F) S2048x16 .f32) //
      ∀ (xi3 : Vec F S2048x16 .f32) (xi4 : Vec F S2048x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__matmul_combine_kernel i arg2 harg2 arg3 harg3 arg4 harg4 arg5 harg5 arg6 harg6 arg7 harg7) K } := by
  refine ⟨[], [], ?_, fun xi3 xi4 E K => ?run⟩
  case run =>
    simp only [cc2__matmul_combine_kernel_eq_skeleton]; unfold cc2__matmul_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case C (k = 7): the accumulator receives the last block product, and both result blocks, at anything, are stored
    whole with the combination of the accumulator and the block of the earlier vector. -/
noncomputable def kernelRun2_C (c : Dev nD) (i : grid2.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond2_0 i) (hc1 : cond2_1 i)
    (x0 : Vec F S2048x2048 .bf16) (x1 : Vec F S2048x16 .bf16) (x2 : Vec F S2048x16 .f32) (xs0 : Vec F S2048x16 .f32) :
    Σ' (L3 : List (View.Piece (Elt F) S2048x16 .f32)) (L4 : List (View.Piece (Elt F) S2048x16 .bf16)), { LS0 : List (View.Piece (Elt F) S2048x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc2__matmul_combine_kernel i arg2 harg2 arg3 harg3 arg4 harg4 arg5 harg5 arg6 harg6 arg7 harg7) K } := by
  refine ⟨?_, ?_, ?_, fun E K => ?run⟩
  case run =>
    simp only [cc2__matmul_combine_kernel_eq_skeleton]; unfold cc2__matmul_combine_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.Kernel.Hand

end
-- ==== Proof.RegB2Frame.lean ====
/-
  Region 2: what its result blocks and its accumulator hold after every grid point, the proof data of its pipeline,
  and the body obligation. After point t = 8·r + k the accumulator holds the sum of the block products
  Ls[r,0]·v[0] + … + Ls[r,k]·v[k] (case A starts it from zero, cases B and C continue from what the point before
  left); the result blocks are written at k = 7 only and written back to their arrays right after that point, so at
  the other points their staging buffers are idle and what they hold is never consulted.
-/
import proofs.«108570_j29480655520371_2_alg».proof.Proof.RegB2Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's piece for the accumulator covers it. -/
theorem scover2_A_0 (c : Dev nD) (i : grid2.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond2_0 i) (hc1 : ¬cond2_1 i)
    (x0 : Vec F S2048x2048 .bf16) (x1 : Vec F S2048x16 .bf16) (x2 : Vec F S2048x16 .f32) (y : S2048x16.Idx) :
    ∃ pc ∈ (kernelRun2_A c i arg2 harg2 arg3 harg3 arg4 harg4 arg5 harg5 arg6 harg6 arg7 harg7 hc0 hc1 x0 x1 x2).2.2.1, y ∈ pc.1.set :=
  View.cover_of_tiledL (kernelRun2_A c i arg2 harg2 arg3 harg3 arg4 harg4 arg5 harg5 arg6 harg6 arg7 harg7 hc0 hc1 x0 x1 x2).2.2.1 S2048x16.size (by sl_kernel_rfl) y
/-- What case A leaves in the accumulator. -/
def sout2_A_0 (c : Dev nD) (i : grid2.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond2_0 i) (hc1 : ¬cond2_1 i)
    (x0 : Vec F S2048x2048 .bf16) (x1 : Vec F S2048x16 .bf16) (x2 : Vec F S2048x16 .f32) : Vec F S2048x16 .f32 :=
  VS2_0.read (Elt F) (VS2_0.writes (Elt F) VS2_0.junk (kernelRun2_A c i arg2 harg2 arg3 harg3 arg4 harg4 arg5 harg5 arg6 harg6 arg7 harg7 hc0 hc1 x0 x1 x2).2.2.1)

/-- Case B's piece for the accumulator covers it. -/
theorem scover2_B_0 (c : Dev nD) (i : grid2.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond2_0 i) (hc1 : ¬cond2_1 i)
    (x0 : Vec F S2048x2048 .bf16) (x1 : Vec F S2048x16 .bf16) (x2 : Vec F S2048x16 .f32) (xs0 : Vec F S2048x16 .f32) (y : S2048x16.Idx) :
    ∃ pc ∈ (kernelRun2_B c i arg2 harg2 arg3 harg3 arg4 harg4 arg5 harg5 arg6 harg6 arg7 harg7 hc0 hc1 x0 x1 x2 xs0).2.2.1, y ∈ pc.1.set :=
  View.cover_of_tiledL (kernelRun2_B c i arg2 harg2 arg3 harg3 arg4 harg4 arg5 harg5 arg6 harg6 arg7 harg7 hc0 hc1 x0 x1 x2 xs0).2.2.1 S2048x16.size (by sl_kernel_rfl) y
/-- What case B leaves in the accumulator. -/
def sout2_B_0 (c : Dev nD) (i : grid2.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond2_0 i) (hc1 : ¬cond2_1 i)
    (x0 : Vec F S2048x2048 .bf16) (x1 : Vec F S2048x16 .bf16) (x2 : Vec F S2048x16 .f32) (xs0 : Vec F S2048x16 .f32) : Vec F S2048x16 .f32 :=
  VS2_0.read (Elt F) (VS2_0.writes (Elt F) VS2_0.junk (kernelRun2_B c i arg2 harg2 arg3 harg3 arg4 harg4 arg5 harg5 arg6 harg6 arg7 harg7 hc0 hc1 x0 x1 x2 xs0).2.2.1)

/-- Case C's pieces cover the f32 result block, -/
theorem cover2_C_3 (c : Dev nD) (i : grid2.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond2_0 i) (hc1 : cond2_1 i)
    (x0 : Vec F S2048x2048 .bf16) (x1 : Vec F S2048x16 .bf16) (x2 : Vec F S2048x16 .f32) (xs0 : Vec F S2048x16 .f32) (y : S2048x16.Idx) :
    ∃ pc ∈ (kernelRun2_C c i arg2 harg2 arg3 harg3 arg4 harg4 arg5 harg5 arg6 harg6 arg7 harg7 hc0 hc1 x0 x1 x2 xs0).1, y ∈ pc.1.set :=
  View.cover_of_tiledL (kernelRun2_C c i arg2 harg2 arg3 harg3 arg4 harg4 arg5 harg5 arg6 harg6 arg7 harg7 hc0 hc1 x0 x1 x2 xs0).1 S2048x16.size (by sl_kernel_rfl) y
/-- the bf16 result block, -/
theorem cover2_C_4 (c : Dev nD) (i : grid2.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond2_0 i) (hc1 : cond2_1 i)
    (x0 : Vec F S2048x2048 .bf16) (x1 : Vec F S2048x16 .bf16) (x2 : Vec F S2048x16 .f32) (xs0 : Vec F S2048x16 .f32) (y : S2048x16.Idx) :
    ∃ pc ∈ (kernelRun2_C c i arg2 harg2 arg3 harg3 arg4 harg4 arg5 harg5 arg6 harg6 arg7 harg7 hc0 hc1 x0 x1 x2 xs0).2.1, y ∈ pc.1.set :=
  View.cover_of_tiledL (kernelRun2_C c i arg2 harg2 arg3 harg3 arg4 harg4 arg5 harg5 arg6 harg6 arg7 harg7 hc0 hc1 x0 x1 x2 xs0).2.1 S2048x16.size (by sl_kernel_rfl) y
/-- and the accumulator. -/
theorem scover2_C_0 (c : Dev nD) (i : grid2.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond2_0 i) (hc1 : cond2_1 i)
    (x0 : Vec F S2048x2048 .bf16) (x1 : Vec F S2048x16 .bf16) (x2 : Vec F S2048x16 .f32) (xs0 : Vec F S2048x16 .f32) (y : S2048x16.Idx) :
    ∃ pc ∈ (kernelRun2_C c i arg2 harg2 arg3 harg3 arg4 harg4 arg5 harg5 arg6 harg6 arg7 harg7 hc0 hc1 x0 x1 x2 xs0).2.2.1, y ∈ pc.1.set :=
  View.cover_of_tiledL (kernelRun2_C c i arg2 harg2 arg3 harg3 arg4 harg4 arg5 harg5 arg6 harg6 arg7 harg7 hc0 hc1 x0 x1 x2 xs0).2.2.1 S2048x16.size (by sl_kernel_rfl) y
/-- What case C leaves in the f32 result block, -/
def out2_C_3 (c : Dev nD) (i : grid2.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond2_0 i) (hc1 : cond2_1 i)
    (x0 : Vec F S2048x2048 .bf16) (x1 : Vec F S2048x16 .bf16) (x2 : Vec F S2048x16 .f32) (xs0 : Vec F S2048x16 .f32) : Vec F S2048x16 .f32 :=
  VO2_3.read (Elt F) (VO2_3.writes (Elt F) VO2_3.junk (kernelRun2_C c i arg2 harg2 arg3 harg3 arg4 harg4 arg5 harg5 arg6 harg6 arg7 harg7 hc0 hc1 x0 x1 x2 xs0).1)
/-- in the bf16 result block, -/
def out2_C_4 (c : Dev nD) (i : grid2.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond2_0 i) (hc1 : cond2_1 i)
    (x0 : Vec F S2048x2048 .bf16) (x1 : Vec F S2048x16 .bf16) (x2 : Vec F S2048x16 .f32) (xs0 : Vec F S2048x16 .f32) : Vec F S2048x16 .bf16 :=
  VO2_4.read (Elt F) (VO2_4.writes (Elt F) VO2_4.junk (kernelRun2_C c i arg2 harg2 arg3 harg3 arg4 harg4 arg5 harg5 arg6 harg6 arg7 harg7 hc0 hc1 x0 x1 x2 xs0).2.1)
/-- and in the accumulator. -/
def sout2_C_0 (c : Dev nD) (i : grid2.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond2_0 i) (hc1 : cond2_1 i)
    (x0 : Vec F S2048x2048 .bf16) (x1 : Vec F S2048x16 .bf16) (x2 : Vec F S2048x16 .f32) (xs0 : Vec F S2048x16 .f32) : Vec F S2048x16 .f32 :=
  VS2_0.read (Elt F) (VS2_0.writes (Elt F) VS2_0.junk (kernelRun2_C c i arg2 harg2 arg3 harg3 arg4 harg4 arg5 harg5 arg6 harg6 arg7 harg7 hc0 hc1 x0 x1 x2 xs0).2.2.1)

/-- What the two result blocks' staging buffers and the accumulator hold after the body at position `n`: the case
    the position selects, run at the point's blocks, cases B and C over the accumulator the point before left. -/
def outsAt2 (c : Dev nD) : (n : ℕ) → n < cfg2.N → Vec F S2048x16 .f32 × Vec F S2048x16 .bf16 × Vec F S2048x16 .f32
  | 0, hn => ((VO2_3.read (Elt F) VO2_3.junk), (VO2_4.read (Elt F) VO2_4.junk), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 8 = 0 then
      if h1 : (n + 1) % 8 = 7 then
        False.elim (by omega)
      else
        ((VO2_3.read (Elt F) VO2_3.junk), (VO2_4.read (Elt F) VO2_4.junk), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 8 = 7 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2, out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2)
      else
        ((VO2_3.read (Elt F) VO2_3.junk), (VO2_4.read (Elt F) VO2_4.junk), sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.2)

theorem outsAt2_A (c : Dev nD) (t : Fin cfg2.N) (h0 : t.val % 8 = 0) (h1 : ¬t.val % 8 = 7) :
    outsAt2 V c t.val t.isLt = ((VO2_3.read (Elt F) VO2_3.junk), (VO2_4.read (Elt F) VO2_4.junk), sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

theorem outsAt2_B (c : Dev nD) (t : Fin cfg2.N) (h0 : ¬t.val % 8 = 0) (h1 : ¬t.val % 8 = 7) :
    outsAt2 V c t.val t.isLt = ((VO2_3.read (Elt F) VO2_3.junk), (VO2_4.read (Elt F) VO2_4.junk), sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 8 = 0) (h1 : t.val % 8 = 7) :
    outsAt2 V c t.val t.isLt = (out2_C_3 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2, out2_C_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2, sout2_C_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The scoped buffers of the program other than this region's staging buffers and its accumulator. -/
abbrev RB2 (c : Dev nD) : sProp 𝕄 :=
  Pipeline.scopedRestBut (Ix := Unit) (Name := ℕ) (U := UR sig nD τ) (Lvl := ℕ) (Val := Elt F) spec2 c [cc2_scratch0]

/-- The region invariant before position `n`: at the first point every scoped buffer outside the staging buffers at
    anything; afterwards the accumulator at what the point before left in it. -/
def PhiS2 (c : Dev nD) : (n : ℕ) → n ≤ cfg2.N → sProp 𝕄
  | 0, _ => Pipeline.ΦA spec2 c
  | n + 1, hn => iprop((iprop(owns (c : Thread nD τ) scM2_0 fullShare ((outsAt2 V c n hn).2.2)) ∗ RB2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop((iprop(owns (c : Thread nD τ) scM2_0 fullShare ((outsAt2 V c n hn).2.2)) ∗ RB2 c) ∗ (∃ r, prngReg c r)) := rfl
theorem PhiS2_pos (c : Dev nD) (n : ℕ) (h : n ≤ cfg2.N) (hz : n ≠ 0) :
    PhiS2 V c n h = iprop((iprop(owns (c : Thread nD τ) scM2_0 fullShare ((outsAt2 V c (n - 1) (by omega)).2.2)) ∗ RB2 c) ∗ (∃ r, prngReg c r)) := by
  cases n with
  | zero => exact absurd rfl hz
  | succ n => rfl

/-- The first point's invariant with the accumulator split out, owned at some contents. -/
theorem PhiA2_eq (c : Dev nD) :
    (Pipeline.ΦA spec2 c : sProp 𝕄)
      = iprop((iprop((∃ d, owns (c : Thread nD τ) scM2_0 fullShare d)) ∗ RB2 c) ∗ (∃ r, prngReg c r)) := by
  unfold Pipeline.ΦA; rw [scopedRest2_split]; simp only [scM2_0, owns_whole]; try rfl

/-- The proof data of region 2's pipeline on core `c`: the arrays as the region finds them; after the body at
    point `t` each input's buffer at its block and the results' at `outsAt2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
    | ⟨4, _⟩ => (outsAt2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem after2_4 (c : Dev nD) (t : Fin cfg2.N) : (dat2 V c).after 4 t = (outsAt2 V c t.val t.isLt).2.1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))
/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 8000000 in
/-- The body at any point: the inputs' buffers hold their blocks; the position says which case the point is in; the
    invariant hands the body the accumulator at what the point before left (at anything at the first point) and takes
    it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  rw [show (dat2 V c).leavesExact 0 t = owns (c : Thread nD τ) (ms2_0 t) fullShare ((dat2 V c).after 0 t) from by
      unfold Dat.leavesExact; rw [liveAt2_0 t], after2_0]
  rw [show (dat2 V c).leavesExact 1 t = owns (c : Thread nD τ) (ms2_1 t) fullShare ((dat2 V c).after 1 t) from by
      unfold Dat.leavesExact; rw [liveAt2_1 t], after2_1]
  rw [show (dat2 V c).leavesExact 2 t = owns (c : Thread nD τ) (ms2_2 t) fullShare ((dat2 V c).after 2 t) from by
      unfold Dat.leavesExact; rw [liveAt2_2 t], after2_2]
  by_cases h0 : t.val % 8 = 0
  · have h1 : ¬t.val % 8 = 7 := by omega
    rw [Dat.leavesExact_idle (dat2 V c) 3 t (idleAt2_3 t (fun h => h1 ((hcond2_1 t).mp h))) (noFlush2_3 t (fun h => h1 ((hcond2_1 t).mp h)))]
    rw [Dat.leavesExact_idle (dat2 V c) 4 t (idleAt2_4 t (fun h => h1 ((hcond2_1 t).mp h))) (noFlush2_4 t (fun h => h1 ((hcond2_1 t).mp h)))]
    rw [outsAt2_A V c t h0 h1]
    unfold sout2_A_0; (try dsimp only)
    by_cases hz : t.val = 0
    · rw [PhiS2_castSucc V c t, PhiS2_zero V c _ _ hz, PhiA2_eq]
      iintro ⟨⟨⟨HS0, HR⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t)).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
    · rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t)).2.2.2 _ _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun h => h0 (by rw [h])
    by_cases h1 : t.val % 8 = 7
    · rw [show (dat2 V c).leavesExact 3 t = owns (c : Thread nD τ) (ms2_3 t) fullShare ((dat2 V c).after 3 t) from by
        unfold Dat.leavesExact; rw [liveAt2_3 t ((hcond2_1 t).mpr h1)], after2_3]
      rw [show (dat2 V c).leavesExact 4 t = owns (c : Thread nD τ) (ms2_4 t) fullShare ((dat2 V c).after 4 t) from by
        unfold Dat.leavesExact; rw [liveAt2_4 t ((hcond2_1 t).mpr h1)], after2_4]
      rw [outsAt2_C V c t h0 h1]
      unfold out2_C_3 out2_C_4 sout2_C_0; (try dsimp only)
      rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun2_C c (grid2.coords t) _ _ _ _ _ _ _ _ _ _ _ _ (fun h => h0 ((hcond2_0 t).mp h)) ((hcond2_1 t).mpr h1) (iblk2 V c 0 t) (iblk2 V c 1 t) (iblk2 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_C_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover2_C_3 c _ _ _ _ _ _ _ _ _ _ _ _ _ _ _ _ _ _ _)
      unfold owns; iexists _; isplitr
      swap; · iexact H4
      ipureintro; exact View.read_writes_of_cover _ _ _ _ _ (cover2_C_4 c _ _ _ _ _ _ _ _ _ _ _ _ _ _ _ _ _ _ _)
    · rw [Dat.leavesExact_idle (dat2 V c) 3 t (idleAt2_3 t (fun h => h1 ((hcond2_1 t).mp h))) (noFlush2_3 t (fun h => h1 ((hcond2_1 t).mp h)))]
      rw [Dat.leavesExact_idle (dat2 V c) 4 t (idleAt2_4 t (fun h => h1 ((hcond2_1 t).mp h))) (noFlush2_4 t (fun h => h1 ((hcond2_1 t).mp h)))]
      rw [outsAt2_B V c t h0 h1]
      unfold sout2_B_0; (try dsimp only)
      rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun2_B c (grid2.coords t) _ _ _ _ _ _ _ _ _ _ _ _ (fun h => h0 ((hcond2_0 t).mp h)) (fun h => h1 ((hcond2_1 t).mp h)) (iblk2 V c 0 t) (iblk2 V c 1 t) (iblk2 V c 2 t) _).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_B_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4

/-- The body obligation of region 2, at every point. -/
theorem body_obligation2 (c : Dev nD) : BodyObligation (dat2 (F := F) V c) (defs₀ (F := F)) Variants.none () Set.univ := fun t => by
  rw [bigSep_W2, bigSep_W2]
  exact sound_body2 V c t

/-- What the region is entered with is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the scoped buffers back: what the accumulator holds is forgotten. -/
theorem hout2 (c : Dev nD) : (dat2 V c).Φ (Fin.last cfg2.N) ⊢ Pipeline.ΦA spec2 c := by
  have ht : (Fin.last cfg2.N).val ≠ 0 := by rw [Fin.val_last]; have : cfg2.N = 64 := N_2; omega
  rw [show (dat2 V c).Φ (Fin.last cfg2.N) = PhiS2 V c (Fin.last cfg2.N).val (Nat.le_of_lt_succ (Fin.last cfg2.N).isLt) from rfl,
    PhiS2_pos V c _ _ ht, PhiA2_eq]
  iintro ⟨⟨HS0, HR⟩, Hg⟩
  isplitl [HS0 HR]
  · isplitl [HS0]
    · iexists _; iexact HS0
    iexact HR
  iexact Hg

end Cert.Kernel.Hand

end
-- ==== Proof.RegB3Run.lean ====
/-
  Region 3 of the program (the recurrence step 2·(Ls·T) − T′): the kernel body run once per control case.
  The grid is 8 × 8; a point t = 8·r + k handles row block r and column block k of Ls. The body zeroes the
  accumulator when k = 0 (case A), adds the block product Ls[r,k]·v[k] to it at every point, and when k = 7
  (case C) stores the combination of the accumulator and the block of the earlier vector into both result
  blocks; at 0 < k < 7 (case B) it only accumulates. Each run states what the body's stores leave in the
  accumulator and in the result blocks, as the list of stored pieces.
-/
import proofs.«108570_j29480655520371_2_alg».proof.Proof.Gen.Kernel.Launch
import proofs.«108570_j29480655520371_2_alg».proof.Proof.Gen.Kernel.Skeleton
import proofs.«108570_j29480655520371_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- k = 0: the accumulator is zeroed first. -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 8 = 0 :=
  (by decide +kernel : ∀ t : Fin grid3.N, cond3_0 (grid3.coords t) ↔ t.val % 8 = 0)
/-- k = 7: the results are stored. -/
abbrev cond3_1 (i : grid3.Coords) : Prop := k3_cond2 i = 1#1
theorem hcond3_1 : ∀ t : Fin cfg3.N, cond3_1 (grid3.coords t) ↔ t.val % 8 = 7 :=
  (by decide +kernel : ∀ t : Fin grid3.N, cond3_1 (grid3.coords t) ↔ t.val % 8 = 7)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
theorem liveAt3_3 : ∀ t : Fin cfg3.N, cond3_1 (grid3.coords t) → cfg3.idle 3 (grid3.coords t) = false := by decide +kernel
theorem idleAt3_4 : ∀ t : Fin cfg3.N, ¬cond3_1 (grid3.coords t) → cfg3.idle 4 (grid3.coords t) = true := by decide +kernel
theorem noFlush3_4 : ∀ t : Fin cfg3.N, ¬cond3_1 (grid3.coords t) → (cfg3.win 4).flush t = false := by decide +kernel
theorem liveAt3_4 : ∀ t : Fin cfg3.N, cond3_1 (grid3.coords t) → cfg3.idle 4 (grid3.coords t) = false := by decide +kernel

/-- One staging buffer of each result window, through which its contents are stated. -/
abbrev VO3_3 : View sig .tc .vmem S2048x16 .f32 := (Memref.whole cc3_stg3_0 : Memref sig .tc .vmem S2048x16 .f32).view
abbrev VO3_4 : View sig .tc .vmem S2048x16 .bf16 := (Memref.whole cc3_stg4_0 : Memref sig .tc .vmem S2048x16 .bf16).view
abbrev ms3_0 (t : Fin cfg3.N) : Memref sig .tc .vmem S2048x2048 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x16 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2048x16 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2048x16 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S2048x16 .bf16 := win3_4.stage (cfg3.slots t 4)
abbrev hs3_4 (t : Fin cfg3.N) : (ms3_4 t).IsWhole := hstage3_4 ((cfg3.slots t 4).cast nbuf3_4)
/-- The accumulator: a whole scoped buffer of the kernel's own. -/
abbrev scM3_0 : Memref sig .tc .vmem S2048x16 .f32 := Memref.whole cc3_scratch0
abbrev VS3_0 : View sig .tc .vmem S2048x16 .f32 := scM3_0.view

set_option maxHeartbeats 4000000 in
/-- Case A (k = 0): the accumulator, at anything, is zeroed and then receives the first block product; the result
    blocks are handed back untouched. -/
noncomputable def kernelRun3_A (c : Dev nD) (i : grid3.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond3_0 i) (hc1 : ¬cond3_1 i)
    (x0 : Vec F S2048x2048 .bf16) (x1 : Vec F S2048x16 .bf16) (x2 : Vec F S2048x16 .f32) :
    Σ' (L3 : List (View.Piece (Elt F) S2048x16 .f32)) (L4 : List (View.Piece (Elt F) S2048x16 .bf16)), { LS0 : List (View.Piece (Elt F) S2048x16 .f32) //
      ∀ (xi3 : Vec F S2048x16 .f32) (xi4 : Vec F S2048x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc3__matmul_combine_kernel i arg2 harg2 arg3 harg3 arg4 harg4 arg5 harg5 arg6 harg6 arg7 harg7) K } := by
  refine ⟨[], [], ?_, fun xi3 xi4 E K => ?run⟩
  case run =>
    simp only [cc3__matmul_combine_kernel_eq_skeleton]; unfold cc3__matmul_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case B (0 < k < 7): the accumulator, at what the point before left, receives one more block product; the result
    blocks are handed back untouched. -/
noncomputable def kernelRun3_B (c : Dev nD) (i : grid3.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond3_0 i) (hc1 : ¬cond3_1 i)
    (x0 : Vec F S2048x2048 .bf16) (x1 : Vec F S2048x16 .bf16) (x2 : Vec F S2048x16 .f32) (xs0 : Vec F S2048x16 .f32) :
    Σ' (L3 : List (View.Piece (Elt F) S2048x16 .f32)) (L4 : List (View.Piece (Elt F) S2048x16 .bf16)), { LS0 : List (View.Piece (Elt F) S2048x16 .f32) //
      ∀ (xi3 : Vec F S2048x16 .f32) (xi4 : Vec F S2048x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc3__matmul_combine_kernel i arg2 harg2 arg3 harg3 arg4 harg4 arg5 harg5 arg6 harg6 arg7 harg7) K } := by
  refine ⟨[], [], ?_, fun xi3 xi4 E K => ?run⟩
  case run =>
    simp only [cc3__matmul_combine_kernel_eq_skeleton]; unfold cc3__matmul_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case C (k = 7): the accumulator receives the last block product, and both result blocks, at anything, are stored
    whole with the combination of the accumulator and the block of the earlier vector. -/
noncomputable def kernelRun3_C (c : Dev nD) (i : grid3.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond3_0 i) (hc1 : cond3_1 i)
    (x0 : Vec F S2048x2048 .bf16) (x1 : Vec F S2048x16 .bf16) (x2 : Vec F S2048x16 .f32) (xs0 : Vec F S2048x16 .f32) :
    Σ' (L3 : List (View.Piece (Elt F) S2048x16 .f32)) (L4 : List (View.Piece (Elt F) S2048x16 .bf16)), { LS0 : List (View.Piece (Elt F) S2048x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc3__matmul_combine_kernel i arg2 harg2 arg3 harg3 arg4 harg4 arg5 harg5 arg6 harg6 arg7 harg7) K } := by
  refine ⟨?_, ?_, ?_, fun E K => ?run⟩
  case run =>
    simp only [cc3__matmul_combine_kernel_eq_skeleton]; unfold cc3__matmul_combine_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.Kernel.Hand

end
-- ==== Proof.RegB3Frame.lean ====
/-
  Region 3: what its result blocks and its accumulator hold after every grid point, the proof data of its pipeline,
  and the body obligation. After point t = 8·r + k the accumulator holds the sum of the block products
  Ls[r,0]·v[0] + … + Ls[r,k]·v[k] (case A starts it from zero, cases B and C continue from what the point before
  left); the result blocks are written at k = 7 only and written back to their arrays right after that point, so at
  the other points their staging buffers are idle and what they hold is never consulted.
-/
import proofs.«108570_j29480655520371_2_alg».proof.Proof.RegB3Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's piece for the accumulator covers it. -/
theorem scover3_A_0 (c : Dev nD) (i : grid3.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond3_0 i) (hc1 : ¬cond3_1 i)
    (x0 : Vec F S2048x2048 .bf16) (x1 : Vec F S2048x16 .bf16) (x2 : Vec F S2048x16 .f32) (y : S2048x16.Idx) :
    ∃ pc ∈ (kernelRun3_A c i arg2 harg2 arg3 harg3 arg4 harg4 arg5 harg5 arg6 harg6 arg7 harg7 hc0 hc1 x0 x1 x2).2.2.1, y ∈ pc.1.set :=
  View.cover_of_tiledL (kernelRun3_A c i arg2 harg2 arg3 harg3 arg4 harg4 arg5 harg5 arg6 harg6 arg7 harg7 hc0 hc1 x0 x1 x2).2.2.1 S2048x16.size (by sl_kernel_rfl) y
/-- What case A leaves in the accumulator. -/
def sout3_A_0 (c : Dev nD) (i : grid3.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond3_0 i) (hc1 : ¬cond3_1 i)
    (x0 : Vec F S2048x2048 .bf16) (x1 : Vec F S2048x16 .bf16) (x2 : Vec F S2048x16 .f32) : Vec F S2048x16 .f32 :=
  VS3_0.read (Elt F) (VS3_0.writes (Elt F) VS3_0.junk (kernelRun3_A c i arg2 harg2 arg3 harg3 arg4 harg4 arg5 harg5 arg6 harg6 arg7 harg7 hc0 hc1 x0 x1 x2).2.2.1)

/-- Case B's piece for the accumulator covers it. -/
theorem scover3_B_0 (c : Dev nD) (i : grid3.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond3_0 i) (hc1 : ¬cond3_1 i)
    (x0 : Vec F S2048x2048 .bf16) (x1 : Vec F S2048x16 .bf16) (x2 : Vec F S2048x16 .f32) (xs0 : Vec F S2048x16 .f32) (y : S2048x16.Idx) :
    ∃ pc ∈ (kernelRun3_B c i arg2 harg2 arg3 harg3 arg4 harg4 arg5 harg5 arg6 harg6 arg7 harg7 hc0 hc1 x0 x1 x2 xs0).2.2.1, y ∈ pc.1.set :=
  View.cover_of_tiledL (kernelRun3_B c i arg2 harg2 arg3 harg3 arg4 harg4 arg5 harg5 arg6 harg6 arg7 harg7 hc0 hc1 x0 x1 x2 xs0).2.2.1 S2048x16.size (by sl_kernel_rfl) y
/-- What case B leaves in the accumulator. -/
def sout3_B_0 (c : Dev nD) (i : grid3.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond3_0 i) (hc1 : ¬cond3_1 i)
    (x0 : Vec F S2048x2048 .bf16) (x1 : Vec F S2048x16 .bf16) (x2 : Vec F S2048x16 .f32) (xs0 : Vec F S2048x16 .f32) : Vec F S2048x16 .f32 :=
  VS3_0.read (Elt F) (VS3_0.writes (Elt F) VS3_0.junk (kernelRun3_B c i arg2 harg2 arg3 harg3 arg4 harg4 arg5 harg5 arg6 harg6 arg7 harg7 hc0 hc1 x0 x1 x2 xs0).2.2.1)

/-- Case C's pieces cover the f32 result block, -/
theorem cover3_C_3 (c : Dev nD) (i : grid3.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond3_0 i) (hc1 : cond3_1 i)
    (x0 : Vec F S2048x2048 .bf16) (x1 : Vec F S2048x16 .bf16) (x2 : Vec F S2048x16 .f32) (xs0 : Vec F S2048x16 .f32) (y : S2048x16.Idx) :
    ∃ pc ∈ (kernelRun3_C c i arg2 harg2 arg3 harg3 arg4 harg4 arg5 harg5 arg6 harg6 arg7 harg7 hc0 hc1 x0 x1 x2 xs0).1, y ∈ pc.1.set :=
  View.cover_of_tiledL (kernelRun3_C c i arg2 harg2 arg3 harg3 arg4 harg4 arg5 harg5 arg6 harg6 arg7 harg7 hc0 hc1 x0 x1 x2 xs0).1 S2048x16.size (by sl_kernel_rfl) y
/-- the bf16 result block, -/
theorem cover3_C_4 (c : Dev nD) (i : grid3.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond3_0 i) (hc1 : cond3_1 i)
    (x0 : Vec F S2048x2048 .bf16) (x1 : Vec F S2048x16 .bf16) (x2 : Vec F S2048x16 .f32) (xs0 : Vec F S2048x16 .f32) (y : S2048x16.Idx) :
    ∃ pc ∈ (kernelRun3_C c i arg2 harg2 arg3 harg3 arg4 harg4 arg5 harg5 arg6 harg6 arg7 harg7 hc0 hc1 x0 x1 x2 xs0).2.1, y ∈ pc.1.set :=
  View.cover_of_tiledL (kernelRun3_C c i arg2 harg2 arg3 harg3 arg4 harg4 arg5 harg5 arg6 harg6 arg7 harg7 hc0 hc1 x0 x1 x2 xs0).2.1 S2048x16.size (by sl_kernel_rfl) y
/-- and the accumulator. -/
theorem scover3_C_0 (c : Dev nD) (i : grid3.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond3_0 i) (hc1 : cond3_1 i)
    (x0 : Vec F S2048x2048 .bf16) (x1 : Vec F S2048x16 .bf16) (x2 : Vec F S2048x16 .f32) (xs0 : Vec F S2048x16 .f32) (y : S2048x16.Idx) :
    ∃ pc ∈ (kernelRun3_C c i arg2 harg2 arg3 harg3 arg4 harg4 arg5 harg5 arg6 harg6 arg7 harg7 hc0 hc1 x0 x1 x2 xs0).2.2.1, y ∈ pc.1.set :=
  View.cover_of_tiledL (kernelRun3_C c i arg2 harg2 arg3 harg3 arg4 harg4 arg5 harg5 arg6 harg6 arg7 harg7 hc0 hc1 x0 x1 x2 xs0).2.2.1 S2048x16.size (by sl_kernel_rfl) y
/-- What case C leaves in the f32 result block, -/
def out3_C_3 (c : Dev nD) (i : grid3.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond3_0 i) (hc1 : cond3_1 i)
    (x0 : Vec F S2048x2048 .bf16) (x1 : Vec F S2048x16 .bf16) (x2 : Vec F S2048x16 .f32) (xs0 : Vec F S2048x16 .f32) : Vec F S2048x16 .f32 :=
  VO3_3.read (Elt F) (VO3_3.writes (Elt F) VO3_3.junk (kernelRun3_C c i arg2 harg2 arg3 harg3 arg4 harg4 arg5 harg5 arg6 harg6 arg7 harg7 hc0 hc1 x0 x1 x2 xs0).1)
/-- in the bf16 result block, -/
def out3_C_4 (c : Dev nD) (i : grid3.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond3_0 i) (hc1 : cond3_1 i)
    (x0 : Vec F S2048x2048 .bf16) (x1 : Vec F S2048x16 .bf16) (x2 : Vec F S2048x16 .f32) (xs0 : Vec F S2048x16 .f32) : Vec F S2048x16 .bf16 :=
  VO3_4.read (Elt F) (VO3_4.writes (Elt F) VO3_4.junk (kernelRun3_C c i arg2 harg2 arg3 harg3 arg4 harg4 arg5 harg5 arg6 harg6 arg7 harg7 hc0 hc1 x0 x1 x2 xs0).2.1)
/-- and in the accumulator. -/
def sout3_C_0 (c : Dev nD) (i : grid3.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond3_0 i) (hc1 : cond3_1 i)
    (x0 : Vec F S2048x2048 .bf16) (x1 : Vec F S2048x16 .bf16) (x2 : Vec F S2048x16 .f32) (xs0 : Vec F S2048x16 .f32) : Vec F S2048x16 .f32 :=
  VS3_0.read (Elt F) (VS3_0.writes (Elt F) VS3_0.junk (kernelRun3_C c i arg2 harg2 arg3 harg3 arg4 harg4 arg5 harg5 arg6 harg6 arg7 harg7 hc0 hc1 x0 x1 x2 xs0).2.2.1)

/-- What the two result blocks' staging buffers and the accumulator hold after the body at position `n`: the case
    the position selects, run at the point's blocks, cases B and C over the accumulator the point before left. -/
def outsAt3 (c : Dev nD) : (n : ℕ) → n < cfg3.N → Vec F S2048x16 .f32 × Vec F S2048x16 .bf16 × Vec F S2048x16 .f32
  | 0, hn => ((VO3_3.read (Elt F) VO3_3.junk), (VO3_4.read (Elt F) VO3_4.junk), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 8 = 0 then
      if h1 : (n + 1) % 8 = 7 then
        False.elim (by omega)
      else
        ((VO3_3.read (Elt F) VO3_3.junk), (VO3_4.read (Elt F) VO3_4.junk), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩))
    else
      if h1 : (n + 1) % 8 = 7 then
        (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2.2, out3_C_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2.2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2.2)
      else
        ((VO3_3.read (Elt F) VO3_3.junk), (VO3_4.read (Elt F) VO3_4.junk), sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2.2)

theorem outsAt3_A (c : Dev nD) (t : Fin cfg3.N) (h0 : t.val % 8 = 0) (h1 : ¬t.val % 8 = 7) :
    outsAt3 V c t.val t.isLt = ((VO3_3.read (Elt F) VO3_3.junk), (VO3_4.read (Elt F) VO3_4.junk), sout3_A_0 c (grid3.coords t) (ms3_0 t) (hs3_0 t) (ms3_1 t) (hs3_1 t) (ms3_2 t) (hs3_2 t) (ms3_3 t) (hs3_3 t) (ms3_4 t) (hs3_4 t) scM3_0 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_pos h0).trans ((dif_neg h1).trans rfl)

theorem outsAt3_B (c : Dev nD) (t : Fin cfg3.N) (h0 : ¬t.val % 8 = 0) (h1 : ¬t.val % 8 = 7) :
    outsAt3 V c t.val t.isLt = ((VO3_3.read (Elt F) VO3_3.junk), (VO3_4.read (Elt F) VO3_4.junk), sout3_B_0 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 8 = 0) (h1 : t.val % 8 = 7) :
    outsAt3 V c t.val t.isLt = (out3_C_3 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2.2, out3_C_4 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2.2, sout3_C_0 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The scoped buffers of the program other than this region's staging buffers and its accumulator. -/
abbrev RB3 (c : Dev nD) : sProp 𝕄 :=
  Pipeline.scopedRestBut (Ix := Unit) (Name := ℕ) (U := UR sig nD τ) (Lvl := ℕ) (Val := Elt F) spec3 c [cc3_scratch0]

/-- The region invariant before position `n`: at the first point every scoped buffer outside the staging buffers at
    anything; afterwards the accumulator at what the point before left in it. -/
def PhiS3 (c : Dev nD) : (n : ℕ) → n ≤ cfg3.N → sProp 𝕄
  | 0, _ => Pipeline.ΦA spec3 c
  | n + 1, hn => iprop((iprop(owns (c : Thread nD τ) scM3_0 fullShare ((outsAt3 V c n hn).2.2)) ∗ RB3 c) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop((iprop(owns (c : Thread nD τ) scM3_0 fullShare ((outsAt3 V c n hn).2.2)) ∗ RB3 c) ∗ (∃ r, prngReg c r)) := rfl
theorem PhiS3_pos (c : Dev nD) (n : ℕ) (h : n ≤ cfg3.N) (hz : n ≠ 0) :
    PhiS3 V c n h = iprop((iprop(owns (c : Thread nD τ) scM3_0 fullShare ((outsAt3 V c (n - 1) (by omega)).2.2)) ∗ RB3 c) ∗ (∃ r, prngReg c r)) := by
  cases n with
  | zero => exact absurd rfl hz
  | succ n => rfl

/-- The first point's invariant with the accumulator split out, owned at some contents. -/
theorem PhiA3_eq (c : Dev nD) :
    (Pipeline.ΦA spec3 c : sProp 𝕄)
      = iprop((iprop((∃ d, owns (c : Thread nD τ) scM3_0 fullShare d)) ∗ RB3 c) ∗ (∃ r, prngReg c r)) := by
  unfold Pipeline.ΦA; rw [scopedRest3_split]; simp only [scM3_0, owns_whole]; try rfl

/-- The proof data of region 3's pipeline on core `c`: the arrays as the region finds them; after the body at
    point `t` each input's buffer at its block and the results' at `outsAt3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
    | ⟨4, _⟩ => (outsAt3 V c t.val t.isLt).2.1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]
theorem after3_4 (c : Dev nD) (t : Fin cfg3.N) : (dat3 V c).after 4 t = (outsAt3 V c t.val t.isLt).2.1 := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))
/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 8000000 in
/-- The body at any point: the inputs' buffers hold their blocks; the position says which case the point is in; the
    invariant hands the body the accumulator at what the point before left (at anything at the first point) and takes
    it back at this point's contents; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 64 := lt_of_lt_of_eq t.isLt (show cfg3.N = 64 from N_3)
  rw [show (dat3 V c).leavesExact 0 t = owns (c : Thread nD τ) (ms3_0 t) fullShare ((dat3 V c).after 0 t) from by
      unfold Dat.leavesExact; rw [liveAt3_0 t], after3_0]
  rw [show (dat3 V c).leavesExact 1 t = owns (c : Thread nD τ) (ms3_1 t) fullShare ((dat3 V c).after 1 t) from by
      unfold Dat.leavesExact; rw [liveAt3_1 t], after3_1]
  rw [show (dat3 V c).leavesExact 2 t = owns (c : Thread nD τ) (ms3_2 t) fullShare ((dat3 V c).after 2 t) from by
      unfold Dat.leavesExact; rw [liveAt3_2 t], after3_2]
  by_cases h0 : t.val % 8 = 0
  · have h1 : ¬t.val % 8 = 7 := by omega
    rw [Dat.leavesExact_idle (dat3 V c) 3 t (idleAt3_3 t (fun h => h1 ((hcond3_1 t).mp h))) (noFlush3_3 t (fun h => h1 ((hcond3_1 t).mp h)))]
    rw [Dat.leavesExact_idle (dat3 V c) 4 t (idleAt3_4 t (fun h => h1 ((hcond3_1 t).mp h))) (noFlush3_4 t (fun h => h1 ((hcond3_1 t).mp h)))]
    rw [outsAt3_A V c t h0 h1]
    unfold sout3_A_0; (try dsimp only)
    by_cases hz : t.val = 0
    · rw [PhiS3_castSucc V c t, PhiS3_zero V c _ _ hz, PhiA3_eq]
      iintro ⟨⟨⟨HS0, HR⟩, Hg⟩, Ho, ⟨%d0, H0⟩, ⟨%d1, H1⟩, ⟨%d2, H2⟩, ⟨%d3, H3⟩, ⟨%d4, H4⟩⟩
      iapply ((kernelRun3_A c (grid3.coords t) _ _ _ _ _ _ _ _ _ _ _ _ ((hcond3_0 t).mpr h0) (fun h => h1 ((hcond3_1 t).mp h)) (iblk3 V c 0 t) (iblk3 V c 1 t) (iblk3 V c 2 t)).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover3_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
    · rw [PhiS3_castSucc V c t, PhiS3_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun3_A c (grid3.coords t) _ _ _ _ _ _ _ _ _ _ _ _ ((hcond3_0 t).mpr h0) (fun h => h1 ((hcond3_1 t).mp h)) (iblk3 V c 0 t) (iblk3 V c 1 t) (iblk3 V c 2 t)).2.2.2 _ _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover3_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun h => h0 (by rw [h])
    by_cases h1 : t.val % 8 = 7
    · rw [show (dat3 V c).leavesExact 3 t = owns (c : Thread nD τ) (ms3_3 t) fullShare ((dat3 V c).after 3 t) from by
        unfold Dat.leavesExact; rw [liveAt3_3 t ((hcond3_1 t).mpr h1)], after3_3]
      rw [show (dat3 V c).leavesExact 4 t = owns (c : Thread nD τ) (ms3_4 t) fullShare ((dat3 V c).after 4 t) from by
        unfold Dat.leavesExact; rw [liveAt3_4 t ((hcond3_1 t).mpr h1)], after3_4]
      rw [outsAt3_C V c t h0 h1]
      unfold out3_C_3 out3_C_4 sout3_C_0; (try dsimp only)
      rw [PhiS3_castSucc V c t, PhiS3_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun3_C c (grid3.coords t) _ _ _ _ _ _ _ _ _ _ _ _ (fun h => h0 ((hcond3_0 t).mp h)) ((hcond3_1 t).mpr h1) (iblk3 V c 0 t) (iblk3 V c 1 t) (iblk3 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover3_C_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover3_C_3 c _ _ _ _ _ _ _ _ _ _ _ _ _ _ _ _ _ _ _)
      unfold owns; iexists _; isplitr
      swap; · iexact H4
      ipureintro; exact View.read_writes_of_cover _ _ _ _ _ (cover3_C_4 c _ _ _ _ _ _ _ _ _ _ _ _ _ _ _ _ _ _ _)
    · rw [Dat.leavesExact_idle (dat3 V c) 3 t (idleAt3_3 t (fun h => h1 ((hcond3_1 t).mp h))) (noFlush3_3 t (fun h => h1 ((hcond3_1 t).mp h)))]
      rw [Dat.leavesExact_idle (dat3 V c) 4 t (idleAt3_4 t (fun h => h1 ((hcond3_1 t).mp h))) (noFlush3_4 t (fun h => h1 ((hcond3_1 t).mp h)))]
      rw [outsAt3_B V c t h0 h1]
      unfold sout3_B_0; (try dsimp only)
      rw [PhiS3_castSucc V c t, PhiS3_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun3_B c (grid3.coords t) _ _ _ _ _ _ _ _ _ _ _ _ (fun h => h0 ((hcond3_0 t).mp h)) (fun h => h1 ((hcond3_1 t).mp h)) (iblk3 V c 0 t) (iblk3 V c 1 t) (iblk3 V c 2 t) _).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover3_B_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4

/-- The body obligation of region 3, at every point. -/
theorem body_obligation3 (c : Dev nD) : BodyObligation (dat3 (F := F) V c) (defs₀ (F := F)) Variants.none () Set.univ := fun t => by
  rw [bigSep_W3, bigSep_W3]
  exact sound_body3 V c t

/-- What the region is entered with is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the scoped buffers back: what the accumulator holds is forgotten. -/
theorem hout3 (c : Dev nD) : (dat3 V c).Φ (Fin.last cfg3.N) ⊢ Pipeline.ΦA spec3 c := by
  have ht : (Fin.last cfg3.N).val ≠ 0 := by rw [Fin.val_last]; have : cfg3.N = 64 := N_3; omega
  rw [show (dat3 V c).Φ (Fin.last cfg3.N) = PhiS3 V c (Fin.last cfg3.N).val (Nat.le_of_lt_succ (Fin.last cfg3.N).isLt) from rfl,
    PhiS3_pos V c _ _ ht, PhiA3_eq]
  iintro ⟨⟨HS0, HR⟩, Hg⟩
  isplitl [HS0 HR]
  · isplitl [HS0]
    · iexists _; iexact HS0
    iexact HR
  iexact Hg

end Cert.Kernel.Hand

end
-- ==== Proof.RegB4Run.lean ====
/-
  Region 4 of the program (the recurrence step 2·(Ls·T) − T′): the kernel body run once per control case.
  The grid is 8 × 8; a point t = 8·r + k handles row block r and column block k of Ls. The body zeroes the
  accumulator when k = 0 (case A), adds the block product Ls[r,k]·v[k] to it at every point, and when k = 7
  (case C) stores the combination of the accumulator and the block of the earlier vector into both result
  blocks; at 0 < k < 7 (case B) it only accumulates. Each run states what the body's stores leave in the
  accumulator and in the result blocks, as the list of stored pieces.
-/
import proofs.«108570_j29480655520371_2_alg».proof.Proof.Gen.Kernel.Launch
import proofs.«108570_j29480655520371_2_alg».proof.Proof.Gen.Kernel.Skeleton
import proofs.«108570_j29480655520371_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's current staging buffer holds its block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- k = 0: the accumulator is zeroed first. -/
abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 8 = 0 :=
  (by decide +kernel : ∀ t : Fin grid4.N, cond4_0 (grid4.coords t) ↔ t.val % 8 = 0)
/-- k = 7: the results are stored. -/
abbrev cond4_1 (i : grid4.Coords) : Prop := k4_cond2 i = 1#1
theorem hcond4_1 : ∀ t : Fin cfg4.N, cond4_1 (grid4.coords t) ↔ t.val % 8 = 7 :=
  (by decide +kernel : ∀ t : Fin grid4.N, cond4_1 (grid4.coords t) ↔ t.val % 8 = 7)

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem idleAt4_3 : ∀ t : Fin cfg4.N, ¬cond4_1 (grid4.coords t) → cfg4.idle 3 (grid4.coords t) = true := by decide +kernel
theorem noFlush4_3 : ∀ t : Fin cfg4.N, ¬cond4_1 (grid4.coords t) → (cfg4.win 3).flush t = false := by decide +kernel
theorem liveAt4_3 : ∀ t : Fin cfg4.N, cond4_1 (grid4.coords t) → cfg4.idle 3 (grid4.coords t) = false := by decide +kernel
theorem idleAt4_4 : ∀ t : Fin cfg4.N, ¬cond4_1 (grid4.coords t) → cfg4.idle 4 (grid4.coords t) = true := by decide +kernel
theorem noFlush4_4 : ∀ t : Fin cfg4.N, ¬cond4_1 (grid4.coords t) → (cfg4.win 4).flush t = false := by decide +kernel
theorem liveAt4_4 : ∀ t : Fin cfg4.N, cond4_1 (grid4.coords t) → cfg4.idle 4 (grid4.coords t) = false := by decide +kernel

/-- One staging buffer of each result window, through which its contents are stated. -/
abbrev VO4_3 : View sig .tc .vmem S2048x16 .f32 := (Memref.whole cc4_stg3_0 : Memref sig .tc .vmem S2048x16 .f32).view
abbrev VO4_4 : View sig .tc .vmem S2048x16 .bf16 := (Memref.whole cc4_stg4_0 : Memref sig .tc .vmem S2048x16 .bf16).view
abbrev ms4_0 (t : Fin cfg4.N) : Memref sig .tc .vmem S2048x2048 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2048x16 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2048x16 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S2048x16 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S2048x16 .bf16 := win4_4.stage (cfg4.slots t 4)
abbrev hs4_4 (t : Fin cfg4.N) : (ms4_4 t).IsWhole := hstage4_4 ((cfg4.slots t 4).cast nbuf4_4)
/-- The accumulator: a whole scoped buffer of the kernel's own. -/
abbrev scM4_0 : Memref sig .tc .vmem S2048x16 .f32 := Memref.whole cc4_scratch0
abbrev VS4_0 : View sig .tc .vmem S2048x16 .f32 := scM4_0.view

set_option maxHeartbeats 4000000 in
/-- Case A (k = 0): the accumulator, at anything, is zeroed and then receives the first block product; the result
    blocks are handed back untouched. -/
noncomputable def kernelRun4_A (c : Dev nD) (i : grid4.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond4_0 i) (hc1 : ¬cond4_1 i)
    (x0 : Vec F S2048x2048 .bf16) (x1 : Vec F S2048x16 .bf16) (x2 : Vec F S2048x16 .f32) :
    Σ' (L3 : List (View.Piece (Elt F) S2048x16 .f32)) (L4 : List (View.Piece (Elt F) S2048x16 .bf16)), { LS0 : List (View.Piece (Elt F) S2048x16 .f32) //
      ∀ (xi3 : Vec F S2048x16 .f32) (xi4 : Vec F S2048x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc4__matmul_combine_kernel i arg2 harg2 arg3 harg3 arg4 harg4 arg5 harg5 arg6 harg6 arg7 harg7) K } := by
  refine ⟨[], [], ?_, fun xi3 xi4 E K => ?run⟩
  case run =>
    simp only [cc4__matmul_combine_kernel_eq_skeleton]; unfold cc4__matmul_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case B (0 < k < 7): the accumulator, at what the point before left, receives one more block product; the result
    blocks are handed back untouched. -/
noncomputable def kernelRun4_B (c : Dev nD) (i : grid4.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond4_0 i) (hc1 : ¬cond4_1 i)
    (x0 : Vec F S2048x2048 .bf16) (x1 : Vec F S2048x16 .bf16) (x2 : Vec F S2048x16 .f32) (xs0 : Vec F S2048x16 .f32) :
    Σ' (L3 : List (View.Piece (Elt F) S2048x16 .f32)) (L4 : List (View.Piece (Elt F) S2048x16 .bf16)), { LS0 : List (View.Piece (Elt F) S2048x16 .f32) //
      ∀ (xi3 : Vec F S2048x16 .f32) (xi4 : Vec F S2048x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc4__matmul_combine_kernel i arg2 harg2 arg3 harg3 arg4 harg4 arg5 harg5 arg6 harg6 arg7 harg7) K } := by
  refine ⟨[], [], ?_, fun xi3 xi4 E K => ?run⟩
  case run =>
    simp only [cc4__matmul_combine_kernel_eq_skeleton]; unfold cc4__matmul_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case C (k = 7): the accumulator receives the last block product, and both result blocks, at anything, are stored
    whole with the combination of the accumulator and the block of the earlier vector. -/
noncomputable def kernelRun4_C (c : Dev nD) (i : grid4.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond4_0 i) (hc1 : cond4_1 i)
    (x0 : Vec F S2048x2048 .bf16) (x1 : Vec F S2048x16 .bf16) (x2 : Vec F S2048x16 .f32) (xs0 : Vec F S2048x16 .f32) :
    Σ' (L3 : List (View.Piece (Elt F) S2048x16 .f32)) (L4 : List (View.Piece (Elt F) S2048x16 .bf16)), { LS0 : List (View.Piece (Elt F) S2048x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc4__matmul_combine_kernel i arg2 harg2 arg3 harg3 arg4 harg4 arg5 harg5 arg6 harg6 arg7 harg7) K } := by
  refine ⟨?_, ?_, ?_, fun E K => ?run⟩
  case run =>
    simp only [cc4__matmul_combine_kernel_eq_skeleton]; unfold cc4__matmul_combine_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.Kernel.Hand

end
-- ==== Proof.RegB4Frame.lean ====
/-
  Region 4: what its result blocks and its accumulator hold after every grid point, the proof data of its pipeline,
  and the body obligation. After point t = 8·r + k the accumulator holds the sum of the block products
  Ls[r,0]·v[0] + … + Ls[r,k]·v[k] (case A starts it from zero, cases B and C continue from what the point before
  left); the result blocks are written at k = 7 only and written back to their arrays right after that point, so at
  the other points their staging buffers are idle and what they hold is never consulted.
-/
import proofs.«108570_j29480655520371_2_alg».proof.Proof.RegB4Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's piece for the accumulator covers it. -/
theorem scover4_A_0 (c : Dev nD) (i : grid4.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond4_0 i) (hc1 : ¬cond4_1 i)
    (x0 : Vec F S2048x2048 .bf16) (x1 : Vec F S2048x16 .bf16) (x2 : Vec F S2048x16 .f32) (y : S2048x16.Idx) :
    ∃ pc ∈ (kernelRun4_A c i arg2 harg2 arg3 harg3 arg4 harg4 arg5 harg5 arg6 harg6 arg7 harg7 hc0 hc1 x0 x1 x2).2.2.1, y ∈ pc.1.set :=
  View.cover_of_tiledL (kernelRun4_A c i arg2 harg2 arg3 harg3 arg4 harg4 arg5 harg5 arg6 harg6 arg7 harg7 hc0 hc1 x0 x1 x2).2.2.1 S2048x16.size (by sl_kernel_rfl) y
/-- What case A leaves in the accumulator. -/
def sout4_A_0 (c : Dev nD) (i : grid4.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond4_0 i) (hc1 : ¬cond4_1 i)
    (x0 : Vec F S2048x2048 .bf16) (x1 : Vec F S2048x16 .bf16) (x2 : Vec F S2048x16 .f32) : Vec F S2048x16 .f32 :=
  VS4_0.read (Elt F) (VS4_0.writes (Elt F) VS4_0.junk (kernelRun4_A c i arg2 harg2 arg3 harg3 arg4 harg4 arg5 harg5 arg6 harg6 arg7 harg7 hc0 hc1 x0 x1 x2).2.2.1)

/-- Case B's piece for the accumulator covers it. -/
theorem scover4_B_0 (c : Dev nD) (i : grid4.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond4_0 i) (hc1 : ¬cond4_1 i)
    (x0 : Vec F S2048x2048 .bf16) (x1 : Vec F S2048x16 .bf16) (x2 : Vec F S2048x16 .f32) (xs0 : Vec F S2048x16 .f32) (y : S2048x16.Idx) :
    ∃ pc ∈ (kernelRun4_B c i arg2 harg2 arg3 harg3 arg4 harg4 arg5 harg5 arg6 harg6 arg7 harg7 hc0 hc1 x0 x1 x2 xs0).2.2.1, y ∈ pc.1.set :=
  View.cover_of_tiledL (kernelRun4_B c i arg2 harg2 arg3 harg3 arg4 harg4 arg5 harg5 arg6 harg6 arg7 harg7 hc0 hc1 x0 x1 x2 xs0).2.2.1 S2048x16.size (by sl_kernel_rfl) y
/-- What case B leaves in the accumulator. -/
def sout4_B_0 (c : Dev nD) (i : grid4.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond4_0 i) (hc1 : ¬cond4_1 i)
    (x0 : Vec F S2048x2048 .bf16) (x1 : Vec F S2048x16 .bf16) (x2 : Vec F S2048x16 .f32) (xs0 : Vec F S2048x16 .f32) : Vec F S2048x16 .f32 :=
  VS4_0.read (Elt F) (VS4_0.writes (Elt F) VS4_0.junk (kernelRun4_B c i arg2 harg2 arg3 harg3 arg4 harg4 arg5 harg5 arg6 harg6 arg7 harg7 hc0 hc1 x0 x1 x2 xs0).2.2.1)

/-- Case C's pieces cover the f32 result block, -/
theorem cover4_C_3 (c : Dev nD) (i : grid4.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond4_0 i) (hc1 : cond4_1 i)
    (x0 : Vec F S2048x2048 .bf16) (x1 : Vec F S2048x16 .bf16) (x2 : Vec F S2048x16 .f32) (xs0 : Vec F S2048x16 .f32) (y : S2048x16.Idx) :
    ∃ pc ∈ (kernelRun4_C c i arg2 harg2 arg3 harg3 arg4 harg4 arg5 harg5 arg6 harg6 arg7 harg7 hc0 hc1 x0 x1 x2 xs0).1, y ∈ pc.1.set :=
  View.cover_of_tiledL (kernelRun4_C c i arg2 harg2 arg3 harg3 arg4 harg4 arg5 harg5 arg6 harg6 arg7 harg7 hc0 hc1 x0 x1 x2 xs0).1 S2048x16.size (by sl_kernel_rfl) y
/-- the bf16 result block, -/
theorem cover4_C_4 (c : Dev nD) (i : grid4.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond4_0 i) (hc1 : cond4_1 i)
    (x0 : Vec F S2048x2048 .bf16) (x1 : Vec F S2048x16 .bf16) (x2 : Vec F S2048x16 .f32) (xs0 : Vec F S2048x16 .f32) (y : S2048x16.Idx) :
    ∃ pc ∈ (kernelRun4_C c i arg2 harg2 arg3 harg3 arg4 harg4 arg5 harg5 arg6 harg6 arg7 harg7 hc0 hc1 x0 x1 x2 xs0).2.1, y ∈ pc.1.set :=
  View.cover_of_tiledL (kernelRun4_C c i arg2 harg2 arg3 harg3 arg4 harg4 arg5 harg5 arg6 harg6 arg7 harg7 hc0 hc1 x0 x1 x2 xs0).2.1 S2048x16.size (by sl_kernel_rfl) y
/-- and the accumulator. -/
theorem scover4_C_0 (c : Dev nD) (i : grid4.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond4_0 i) (hc1 : cond4_1 i)
    (x0 : Vec F S2048x2048 .bf16) (x1 : Vec F S2048x16 .bf16) (x2 : Vec F S2048x16 .f32) (xs0 : Vec F S2048x16 .f32) (y : S2048x16.Idx) :
    ∃ pc ∈ (kernelRun4_C c i arg2 harg2 arg3 harg3 arg4 harg4 arg5 harg5 arg6 harg6 arg7 harg7 hc0 hc1 x0 x1 x2 xs0).2.2.1, y ∈ pc.1.set :=
  View.cover_of_tiledL (kernelRun4_C c i arg2 harg2 arg3 harg3 arg4 harg4 arg5 harg5 arg6 harg6 arg7 harg7 hc0 hc1 x0 x1 x2 xs0).2.2.1 S2048x16.size (by sl_kernel_rfl) y
/-- What case C leaves in the f32 result block, -/
def out4_C_3 (c : Dev nD) (i : grid4.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond4_0 i) (hc1 : cond4_1 i)
    (x0 : Vec F S2048x2048 .bf16) (x1 : Vec F S2048x16 .bf16) (x2 : Vec F S2048x16 .f32) (xs0 : Vec F S2048x16 .f32) : Vec F S2048x16 .f32 :=
  VO4_3.read (Elt F) (VO4_3.writes (Elt F) VO4_3.junk (kernelRun4_C c i arg2 harg2 arg3 harg3 arg4 harg4 arg5 harg5 arg6 harg6 arg7 harg7 hc0 hc1 x0 x1 x2 xs0).1)
/-- in the bf16 result block, -/
def out4_C_4 (c : Dev nD) (i : grid4.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond4_0 i) (hc1 : cond4_1 i)
    (x0 : Vec F S2048x2048 .bf16) (x1 : Vec F S2048x16 .bf16) (x2 : Vec F S2048x16 .f32) (xs0 : Vec F S2048x16 .f32) : Vec F S2048x16 .bf16 :=
  VO4_4.read (Elt F) (VO4_4.writes (Elt F) VO4_4.junk (kernelRun4_C c i arg2 harg2 arg3 harg3 arg4 harg4 arg5 harg5 arg6 harg6 arg7 harg7 hc0 hc1 x0 x1 x2 xs0).2.1)
/-- and in the accumulator. -/
def sout4_C_0 (c : Dev nD) (i : grid4.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond4_0 i) (hc1 : cond4_1 i)
    (x0 : Vec F S2048x2048 .bf16) (x1 : Vec F S2048x16 .bf16) (x2 : Vec F S2048x16 .f32) (xs0 : Vec F S2048x16 .f32) : Vec F S2048x16 .f32 :=
  VS4_0.read (Elt F) (VS4_0.writes (Elt F) VS4_0.junk (kernelRun4_C c i arg2 harg2 arg3 harg3 arg4 harg4 arg5 harg5 arg6 harg6 arg7 harg7 hc0 hc1 x0 x1 x2 xs0).2.2.1)

/-- What the two result blocks' staging buffers and the accumulator hold after the body at position `n`: the case
    the position selects, run at the point's blocks, cases B and C over the accumulator the point before left. -/
def outsAt4 (c : Dev nD) : (n : ℕ) → n < cfg4.N → Vec F S2048x16 .f32 × Vec F S2048x16 .bf16 × Vec F S2048x16 .f32
  | 0, hn => ((VO4_3.read (Elt F) VO4_3.junk), (VO4_4.read (Elt F) VO4_4.junk), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩))
  | n + 1, hn =>
    if h0 : (n + 1) % 8 = 0 then
      if h1 : (n + 1) % 8 = 7 then
        False.elim (by omega)
      else
        ((VO4_3.read (Elt F) VO4_3.junk), (VO4_4.read (Elt F) VO4_4.junk), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩))
    else
      if h1 : (n + 1) % 8 = 7 then
        (out4_C_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2, out4_C_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2)
      else
        ((VO4_3.read (Elt F) VO4_3.junk), (VO4_4.read (Elt F) VO4_4.junk), sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2.2)

theorem outsAt4_A (c : Dev nD) (t : Fin cfg4.N) (h0 : t.val % 8 = 0) (h1 : ¬t.val % 8 = 7) :
    outsAt4 V c t.val t.isLt = ((VO4_3.read (Elt F) VO4_3.junk), (VO4_4.read (Elt F) VO4_4.junk), sout4_A_0 c (grid4.coords t) (ms4_0 t) (hs4_0 t) (ms4_1 t) (hs4_1 t) (ms4_2 t) (hs4_2 t) (ms4_3 t) (hs4_3 t) (ms4_4 t) (hs4_4 t) scM4_0 (Memref.isWhole_whole _) ((hcond4_0 t).mpr h0) (fun h => h1 ((hcond4_1 t).mp h)) (iblk4 V c 0 t) (iblk4 V c 1 t) (iblk4 V c 2 t)) := by
  obtain ⟨n, hn⟩ := t
  cases n with
  | zero => exact rfl
  | succ n => exact (dif_pos h0).trans ((dif_neg h1).trans rfl)

theorem outsAt4_B (c : Dev nD) (t : Fin cfg4.N) (h0 : ¬t.val % 8 = 0) (h1 : ¬t.val % 8 = 7) :
    outsAt4 V c t.val t.isLt = ((VO4_3.read (Elt F) VO4_3.junk), (VO4_4.read (Elt F) VO4_4.junk), sout4_B_0 c (grid4.coords t) (ms4_0 t) (hs4_0 t) (ms4_1 t) (hs4_1 t) (ms4_2 t) (hs4_2 t) (ms4_3 t) (hs4_3 t) (ms4_4 t) (hs4_4 t) scM4_0 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt4_C (c : Dev nD) (t : Fin cfg4.N) (h0 : ¬t.val % 8 = 0) (h1 : t.val % 8 = 7) :
    outsAt4 V c t.val t.isLt = (out4_C_3 c (grid4.coords t) (ms4_0 t) (hs4_0 t) (ms4_1 t) (hs4_1 t) (ms4_2 t) (hs4_2 t) (ms4_3 t) (hs4_3 t) (ms4_4 t) (hs4_4 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2, out4_C_4 c (grid4.coords t) (ms4_0 t) (hs4_0 t) (ms4_1 t) (hs4_1 t) (ms4_2 t) (hs4_2 t) (ms4_3 t) (hs4_3 t) (ms4_4 t) (hs4_4 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2, sout4_C_0 c (grid4.coords t) (ms4_0 t) (hs4_0 t) (ms4_1 t) (hs4_1 t) (ms4_2 t) (hs4_2 t) (ms4_3 t) (hs4_3 t) (ms4_4 t) (hs4_4 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The scoped buffers of the program other than this region's staging buffers and its accumulator. -/
abbrev RB4 (c : Dev nD) : sProp 𝕄 :=
  Pipeline.scopedRestBut (Ix := Unit) (Name := ℕ) (U := UR sig nD τ) (Lvl := ℕ) (Val := Elt F) spec4 c [cc4_scratch0]

/-- The region invariant before position `n`: at the first point every scoped buffer outside the staging buffers at
    anything; afterwards the accumulator at what the point before left in it. -/
def PhiS4 (c : Dev nD) : (n : ℕ) → n ≤ cfg4.N → sProp 𝕄
  | 0, _ => Pipeline.ΦA spec4 c
  | n + 1, hn => iprop((iprop(owns (c : Thread nD τ) scM4_0 fullShare ((outsAt4 V c n hn).2.2)) ∗ RB4 c) ∗ (∃ r, prngReg c r))

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop((iprop(owns (c : Thread nD τ) scM4_0 fullShare ((outsAt4 V c n hn).2.2)) ∗ RB4 c) ∗ (∃ r, prngReg c r)) := rfl
theorem PhiS4_pos (c : Dev nD) (n : ℕ) (h : n ≤ cfg4.N) (hz : n ≠ 0) :
    PhiS4 V c n h = iprop((iprop(owns (c : Thread nD τ) scM4_0 fullShare ((outsAt4 V c (n - 1) (by omega)).2.2)) ∗ RB4 c) ∗ (∃ r, prngReg c r)) := by
  cases n with
  | zero => exact absurd rfl hz
  | succ n => rfl

/-- The first point's invariant with the accumulator split out, owned at some contents. -/
theorem PhiA4_eq (c : Dev nD) :
    (Pipeline.ΦA spec4 c : sProp 𝕄)
      = iprop((iprop((∃ d, owns (c : Thread nD τ) scM4_0 fullShare d)) ∗ RB4 c) ∗ (∃ r, prngReg c r)) := by
  unfold Pipeline.ΦA; rw [scopedRest4_split]; simp only [scM4_0, owns_whole]; try rfl

/-- The proof data of region 4's pipeline on core `c`: the arrays as the region finds them; after the body at
    point `t` each input's buffer at its block and the results' at `outsAt4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
    | ⟨4, _⟩ => (outsAt4 V c t.val t.isLt).2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]
theorem after4_4 (c : Dev nD) (t : Fin cfg4.N) : (dat4 V c).after 4 t = (outsAt4 V c t.val t.isLt).2.1 := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))
/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 8000000 in
/-- The body at any point: the inputs' buffers hold their blocks; the position says which case the point is in; the
    invariant hands the body the accumulator at what the point before left (at anything at the first point) and takes
    it back at this point's contents; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  have hN : t.val < 64 := lt_of_lt_of_eq t.isLt (show cfg4.N = 64 from N_4)
  rw [show (dat4 V c).leavesExact 0 t = owns (c : Thread nD τ) (ms4_0 t) fullShare ((dat4 V c).after 0 t) from by
      unfold Dat.leavesExact; rw [liveAt4_0 t], after4_0]
  rw [show (dat4 V c).leavesExact 1 t = owns (c : Thread nD τ) (ms4_1 t) fullShare ((dat4 V c).after 1 t) from by
      unfold Dat.leavesExact; rw [liveAt4_1 t], after4_1]
  rw [show (dat4 V c).leavesExact 2 t = owns (c : Thread nD τ) (ms4_2 t) fullShare ((dat4 V c).after 2 t) from by
      unfold Dat.leavesExact; rw [liveAt4_2 t], after4_2]
  by_cases h0 : t.val % 8 = 0
  · have h1 : ¬t.val % 8 = 7 := by omega
    rw [Dat.leavesExact_idle (dat4 V c) 3 t (idleAt4_3 t (fun h => h1 ((hcond4_1 t).mp h))) (noFlush4_3 t (fun h => h1 ((hcond4_1 t).mp h)))]
    rw [Dat.leavesExact_idle (dat4 V c) 4 t (idleAt4_4 t (fun h => h1 ((hcond4_1 t).mp h))) (noFlush4_4 t (fun h => h1 ((hcond4_1 t).mp h)))]
    rw [outsAt4_A V c t h0 h1]
    unfold sout4_A_0; (try dsimp only)
    by_cases hz : t.val = 0
    · rw [PhiS4_castSucc V c t, PhiS4_zero V c _ _ hz, PhiA4_eq]
      iintro ⟨⟨⟨HS0, HR⟩, Hg⟩, Ho, ⟨%d0, H0⟩, ⟨%d1, H1⟩, ⟨%d2, H2⟩, ⟨%d3, H3⟩, ⟨%d4, H4⟩⟩
      iapply ((kernelRun4_A c (grid4.coords t) _ _ _ _ _ _ _ _ _ _ _ _ ((hcond4_0 t).mpr h0) (fun h => h1 ((hcond4_1 t).mp h)) (iblk4 V c 0 t) (iblk4 V c 1 t) (iblk4 V c 2 t)).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
    · rw [PhiS4_castSucc V c t, PhiS4_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun4_A c (grid4.coords t) _ _ _ _ _ _ _ _ _ _ _ _ ((hcond4_0 t).mpr h0) (fun h => h1 ((hcond4_1 t).mp h)) (iblk4 V c 0 t) (iblk4 V c 1 t) (iblk4 V c 2 t)).2.2.2 _ _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun h => h0 (by rw [h])
    by_cases h1 : t.val % 8 = 7
    · rw [show (dat4 V c).leavesExact 3 t = owns (c : Thread nD τ) (ms4_3 t) fullShare ((dat4 V c).after 3 t) from by
        unfold Dat.leavesExact; rw [liveAt4_3 t ((hcond4_1 t).mpr h1)], after4_3]
      rw [show (dat4 V c).leavesExact 4 t = owns (c : Thread nD τ) (ms4_4 t) fullShare ((dat4 V c).after 4 t) from by
        unfold Dat.leavesExact; rw [liveAt4_4 t ((hcond4_1 t).mpr h1)], after4_4]
      rw [outsAt4_C V c t h0 h1]
      unfold out4_C_3 out4_C_4 sout4_C_0; (try dsimp only)
      rw [PhiS4_castSucc V c t, PhiS4_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun4_C c (grid4.coords t) _ _ _ _ _ _ _ _ _ _ _ _ (fun h => h0 ((hcond4_0 t).mp h)) ((hcond4_1 t).mpr h1) (iblk4 V c 0 t) (iblk4 V c 1 t) (iblk4 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_C_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover4_C_3 c _ _ _ _ _ _ _ _ _ _ _ _ _ _ _ _ _ _ _)
      unfold owns; iexists _; isplitr
      swap; · iexact H4
      ipureintro; exact View.read_writes_of_cover _ _ _ _ _ (cover4_C_4 c _ _ _ _ _ _ _ _ _ _ _ _ _ _ _ _ _ _ _)
    · rw [Dat.leavesExact_idle (dat4 V c) 3 t (idleAt4_3 t (fun h => h1 ((hcond4_1 t).mp h))) (noFlush4_3 t (fun h => h1 ((hcond4_1 t).mp h)))]
      rw [Dat.leavesExact_idle (dat4 V c) 4 t (idleAt4_4 t (fun h => h1 ((hcond4_1 t).mp h))) (noFlush4_4 t (fun h => h1 ((hcond4_1 t).mp h)))]
      rw [outsAt4_B V c t h0 h1]
      unfold sout4_B_0; (try dsimp only)
      rw [PhiS4_castSucc V c t, PhiS4_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun4_B c (grid4.coords t) _ _ _ _ _ _ _ _ _ _ _ _ (fun h => h0 ((hcond4_0 t).mp h)) (fun h => h1 ((hcond4_1 t).mp h)) (iblk4 V c 0 t) (iblk4 V c 1 t) (iblk4 V c 2 t) _).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_B_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4

/-- The body obligation of region 4, at every point. -/
theorem body_obligation4 (c : Dev nD) : BodyObligation (dat4 (F := F) V c) (defs₀ (F := F)) Variants.none () Set.univ := fun t => by
  rw [bigSep_W4, bigSep_W4]
  exact sound_body4 V c t

/-- What the region is entered with is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the scoped buffers back: what the accumulator holds is forgotten. -/
theorem hout4 (c : Dev nD) : (dat4 V c).Φ (Fin.last cfg4.N) ⊢ Pipeline.ΦA spec4 c := by
  have ht : (Fin.last cfg4.N).val ≠ 0 := by rw [Fin.val_last]; have : cfg4.N = 64 := N_4; omega
  rw [show (dat4 V c).Φ (Fin.last cfg4.N) = PhiS4 V c (Fin.last cfg4.N).val (Nat.le_of_lt_succ (Fin.last cfg4.N).isLt) from rfl,
    PhiS4_pos V c _ _ ht, PhiA4_eq]
  iintro ⟨⟨HS0, HR⟩, Hg⟩
  isplitl [HS0 HR]
  · isplitl [HS0]
    · iexists _; iexact HS0
    iexact HR
  iexact Hg

end Cert.Kernel.Hand

end
-- ==== Proof.RegB5Run.lean ====
/-
  Region 5 of the program (the recurrence step 2·(Ls·T) − T′): the kernel body run once per control case.
  The grid is 8 × 8; a point t = 8·r + k handles row block r and column block k of Ls. The body zeroes the
  accumulator when k = 0 (case A), adds the block product Ls[r,k]·v[k] to it at every point, and when k = 7
  (case C) stores the combination of the accumulator and the block of the earlier vector into both result
  blocks; at 0 < k < 7 (case B) it only accumulates. Each run states what the body's stores leave in the
  accumulator and in the result blocks, as the list of stored pieces.
-/
import proofs.«108570_j29480655520371_2_alg».proof.Proof.Gen.Kernel.Launch
import proofs.«108570_j29480655520371_2_alg».proof.Proof.Gen.Kernel.Skeleton
import proofs.«108570_j29480655520371_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, fetched there or not. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block at every point, fetched there or not. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- k = 0: the accumulator is zeroed first. -/
abbrev cond5_0 (i : grid5.Coords) : Prop := (Scalar.cmpi .ne (Scalar.extui (Scalar.cmpi .eq (BitVec.ofNat 32 (i 1).val) 0#32)) 0#32) = 1#1
theorem hcond5_0 : ∀ t : Fin cfg5.N, cond5_0 (grid5.coords t) ↔ t.val % 8 = 0 :=
  (by decide +kernel : ∀ t : Fin grid5.N, cond5_0 (grid5.coords t) ↔ t.val % 8 = 0)
/-- k = 7: the results are stored. -/
abbrev cond5_1 (i : grid5.Coords) : Prop := k5_cond2 i = 1#1
theorem hcond5_1 : ∀ t : Fin cfg5.N, cond5_1 (grid5.coords t) ↔ t.val % 8 = 7 :=
  (by decide +kernel : ∀ t : Fin grid5.N, cond5_1 (grid5.coords t) ↔ t.val % 8 = 7)

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
theorem idleAt5_3 : ∀ t : Fin cfg5.N, ¬cond5_1 (grid5.coords t) → cfg5.idle 3 (grid5.coords t) = true := by decide +kernel
theorem noFlush5_3 : ∀ t : Fin cfg5.N, ¬cond5_1 (grid5.coords t) → (cfg5.win 3).flush t = false := by decide +kernel
theorem liveAt5_3 : ∀ t : Fin cfg5.N, cond5_1 (grid5.coords t) → cfg5.idle 3 (grid5.coords t) = false := by decide +kernel
theorem idleAt5_4 : ∀ t : Fin cfg5.N, ¬cond5_1 (grid5.coords t) → cfg5.idle 4 (grid5.coords t) = true := by decide +kernel
theorem noFlush5_4 : ∀ t : Fin cfg5.N, ¬cond5_1 (grid5.coords t) → (cfg5.win 4).flush t = false := by decide +kernel
theorem liveAt5_4 : ∀ t : Fin cfg5.N, cond5_1 (grid5.coords t) → cfg5.idle 4 (grid5.coords t) = false := by decide +kernel

/-- One staging buffer of each result window, through which its contents are stated. -/
abbrev VO5_3 : View sig .tc .vmem S2048x16 .f32 := (Memref.whole cc5_stg3_0 : Memref sig .tc .vmem S2048x16 .f32).view
abbrev VO5_4 : View sig .tc .vmem S2048x16 .bf16 := (Memref.whole cc5_stg4_0 : Memref sig .tc .vmem S2048x16 .bf16).view
abbrev ms5_0 (t : Fin cfg5.N) : Memref sig .tc .vmem S2048x2048 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S2048x16 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S2048x16 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S2048x16 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S2048x16 .bf16 := win5_4.stage (cfg5.slots t 4)
abbrev hs5_4 (t : Fin cfg5.N) : (ms5_4 t).IsWhole := hstage5_4 ((cfg5.slots t 4).cast nbuf5_4)
/-- The accumulator: a whole scoped buffer of the kernel's own. -/
abbrev scM5_0 : Memref sig .tc .vmem S2048x16 .f32 := Memref.whole cc5_scratch0
abbrev VS5_0 : View sig .tc .vmem S2048x16 .f32 := scM5_0.view

set_option maxHeartbeats 4000000 in
/-- Case A (k = 0): the accumulator, at anything, is zeroed and then receives the first block product; the result
    blocks are handed back untouched. -/
noncomputable def kernelRun5_A (c : Dev nD) (i : grid5.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond5_0 i) (hc1 : ¬cond5_1 i)
    (x0 : Vec F S2048x2048 .bf16) (x1 : Vec F S2048x16 .bf16) (x2 : Vec F S2048x16 .f32) :
    Σ' (L3 : List (View.Piece (Elt F) S2048x16 .f32)) (L4 : List (View.Piece (Elt F) S2048x16 .bf16)), { LS0 : List (View.Piece (Elt F) S2048x16 .f32) //
      ∀ (xi3 : Vec F S2048x16 .f32) (xi4 : Vec F S2048x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc5__matmul_combine_kernel i arg2 harg2 arg3 harg3 arg4 harg4 arg5 harg5 arg6 harg6 arg7 harg7) K } := by
  refine ⟨[], [], ?_, fun xi3 xi4 E K => ?run⟩
  case run =>
    simp only [cc5__matmul_combine_kernel_eq_skeleton]; unfold cc5__matmul_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case B (0 < k < 7): the accumulator, at what the point before left, receives one more block product; the result
    blocks are handed back untouched. -/
noncomputable def kernelRun5_B (c : Dev nD) (i : grid5.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond5_0 i) (hc1 : ¬cond5_1 i)
    (x0 : Vec F S2048x2048 .bf16) (x1 : Vec F S2048x16 .bf16) (x2 : Vec F S2048x16 .f32) (xs0 : Vec F S2048x16 .f32) :
    Σ' (L3 : List (View.Piece (Elt F) S2048x16 .f32)) (L4 : List (View.Piece (Elt F) S2048x16 .bf16)), { LS0 : List (View.Piece (Elt F) S2048x16 .f32) //
      ∀ (xi3 : Vec F S2048x16 .f32) (xi4 : Vec F S2048x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc5__matmul_combine_kernel i arg2 harg2 arg3 harg3 arg4 harg4 arg5 harg5 arg6 harg6 arg7 harg7) K } := by
  refine ⟨[], [], ?_, fun xi3 xi4 E K => ?run⟩
  case run =>
    simp only [cc5__matmul_combine_kernel_eq_skeleton]; unfold cc5__matmul_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case C (k = 7): the accumulator receives the last block product, and both result blocks, at anything, are stored
    whole with the combination of the accumulator and the block of the earlier vector. -/
noncomputable def kernelRun5_C (c : Dev nD) (i : grid5.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond5_0 i) (hc1 : cond5_1 i)
    (x0 : Vec F S2048x2048 .bf16) (x1 : Vec F S2048x16 .bf16) (x2 : Vec F S2048x16 .f32) (xs0 : Vec F S2048x16 .f32) :
    Σ' (L3 : List (View.Piece (Elt F) S2048x16 .f32)) (L4 : List (View.Piece (Elt F) S2048x16 .bf16)), { LS0 : List (View.Piece (Elt F) S2048x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc5__matmul_combine_kernel i arg2 harg2 arg3 harg3 arg4 harg4 arg5 harg5 arg6 harg6 arg7 harg7) K } := by
  refine ⟨?_, ?_, ?_, fun E K => ?run⟩
  case run =>
    simp only [cc5__matmul_combine_kernel_eq_skeleton]; unfold cc5__matmul_combine_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.Kernel.Hand

end
-- ==== Proof.RegB5Frame.lean ====
/-
  Region 5: what its result blocks and its accumulator hold after every grid point, the proof data of its pipeline,
  and the body obligation. After point t = 8·r + k the accumulator holds the sum of the block products
  Ls[r,0]·v[0] + … + Ls[r,k]·v[k] (case A starts it from zero, cases B and C continue from what the point before
  left); the result blocks are written at k = 7 only and written back to their arrays right after that point, so at
  the other points their staging buffers are idle and what they hold is never consulted.
-/
import proofs.«108570_j29480655520371_2_alg».proof.Proof.RegB5Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's piece for the accumulator covers it. -/
theorem scover5_A_0 (c : Dev nD) (i : grid5.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond5_0 i) (hc1 : ¬cond5_1 i)
    (x0 : Vec F S2048x2048 .bf16) (x1 : Vec F S2048x16 .bf16) (x2 : Vec F S2048x16 .f32) (y : S2048x16.Idx) :
    ∃ pc ∈ (kernelRun5_A c i arg2 harg2 arg3 harg3 arg4 harg4 arg5 harg5 arg6 harg6 arg7 harg7 hc0 hc1 x0 x1 x2).2.2.1, y ∈ pc.1.set :=
  View.cover_of_tiledL (kernelRun5_A c i arg2 harg2 arg3 harg3 arg4 harg4 arg5 harg5 arg6 harg6 arg7 harg7 hc0 hc1 x0 x1 x2).2.2.1 S2048x16.size (by sl_kernel_rfl) y
/-- What case A leaves in the accumulator. -/
def sout5_A_0 (c : Dev nD) (i : grid5.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond5_0 i) (hc1 : ¬cond5_1 i)
    (x0 : Vec F S2048x2048 .bf16) (x1 : Vec F S2048x16 .bf16) (x2 : Vec F S2048x16 .f32) : Vec F S2048x16 .f32 :=
  VS5_0.read (Elt F) (VS5_0.writes (Elt F) VS5_0.junk (kernelRun5_A c i arg2 harg2 arg3 harg3 arg4 harg4 arg5 harg5 arg6 harg6 arg7 harg7 hc0 hc1 x0 x1 x2).2.2.1)

/-- Case B's piece for the accumulator covers it. -/
theorem scover5_B_0 (c : Dev nD) (i : grid5.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond5_0 i) (hc1 : ¬cond5_1 i)
    (x0 : Vec F S2048x2048 .bf16) (x1 : Vec F S2048x16 .bf16) (x2 : Vec F S2048x16 .f32) (xs0 : Vec F S2048x16 .f32) (y : S2048x16.Idx) :
    ∃ pc ∈ (kernelRun5_B c i arg2 harg2 arg3 harg3 arg4 harg4 arg5 harg5 arg6 harg6 arg7 harg7 hc0 hc1 x0 x1 x2 xs0).2.2.1, y ∈ pc.1.set :=
  View.cover_of_tiledL (kernelRun5_B c i arg2 harg2 arg3 harg3 arg4 harg4 arg5 harg5 arg6 harg6 arg7 harg7 hc0 hc1 x0 x1 x2 xs0).2.2.1 S2048x16.size (by sl_kernel_rfl) y
/-- What case B leaves in the accumulator. -/
def sout5_B_0 (c : Dev nD) (i : grid5.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond5_0 i) (hc1 : ¬cond5_1 i)
    (x0 : Vec F S2048x2048 .bf16) (x1 : Vec F S2048x16 .bf16) (x2 : Vec F S2048x16 .f32) (xs0 : Vec F S2048x16 .f32) : Vec F S2048x16 .f32 :=
  VS5_0.read (Elt F) (VS5_0.writes (Elt F) VS5_0.junk (kernelRun5_B c i arg2 harg2 arg3 harg3 arg4 harg4 arg5 harg5 arg6 harg6 arg7 harg7 hc0 hc1 x0 x1 x2 xs0).2.2.1)

/-- Case C's pieces cover the f32 result block, -/
theorem cover5_C_3 (c : Dev nD) (i : grid5.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond5_0 i) (hc1 : cond5_1 i)
    (x0 : Vec F S2048x2048 .bf16) (x1 : Vec F S2048x16 .bf16) (x2 : Vec F S2048x16 .f32) (xs0 : Vec F S2048x16 .f32) (y : S2048x16.Idx) :
    ∃ pc ∈ (kernelRun5_C c i arg2 harg2 arg3 harg3 arg4 harg4 arg5 harg5 arg6 harg6 arg7 harg7 hc0 hc1 x0 x1 x2 xs0).1, y ∈ pc.1.set :=
  View.cover_of_tiledL (kernelRun5_C c i arg2 harg2 arg3 harg3 arg4 harg4 arg5 harg5 arg6 harg6 arg7 harg7 hc0 hc1 x0 x1 x2 xs0).1 S2048x16.size (by sl_kernel_rfl) y
/-- the bf16 result block, -/
theorem cover5_C_4 (c : Dev nD) (i : grid5.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond5_0 i) (hc1 : cond5_1 i)
    (x0 : Vec F S2048x2048 .bf16) (x1 : Vec F S2048x16 .bf16) (x2 : Vec F S2048x16 .f32) (xs0 : Vec F S2048x16 .f32) (y : S2048x16.Idx) :
    ∃ pc ∈ (kernelRun5_C c i arg2 harg2 arg3 harg3 arg4 harg4 arg5 harg5 arg6 harg6 arg7 harg7 hc0 hc1 x0 x1 x2 xs0).2.1, y ∈ pc.1.set :=
  View.cover_of_tiledL (kernelRun5_C c i arg2 harg2 arg3 harg3 arg4 harg4 arg5 harg5 arg6 harg6 arg7 harg7 hc0 hc1 x0 x1 x2 xs0).2.1 S2048x16.size (by sl_kernel_rfl) y
/-- and the accumulator. -/
theorem scover5_C_0 (c : Dev nD) (i : grid5.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond5_0 i) (hc1 : cond5_1 i)
    (x0 : Vec F S2048x2048 .bf16) (x1 : Vec F S2048x16 .bf16) (x2 : Vec F S2048x16 .f32) (xs0 : Vec F S2048x16 .f32) (y : S2048x16.Idx) :
    ∃ pc ∈ (kernelRun5_C c i arg2 harg2 arg3 harg3 arg4 harg4 arg5 harg5 arg6 harg6 arg7 harg7 hc0 hc1 x0 x1 x2 xs0).2.2.1, y ∈ pc.1.set :=
  View.cover_of_tiledL (kernelRun5_C c i arg2 harg2 arg3 harg3 arg4 harg4 arg5 harg5 arg6 harg6 arg7 harg7 hc0 hc1 x0 x1 x2 xs0).2.2.1 S2048x16.size (by sl_kernel_rfl) y
/-- What case C leaves in the f32 result block, -/
def out5_C_3 (c : Dev nD) (i : grid5.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond5_0 i) (hc1 : cond5_1 i)
    (x0 : Vec F S2048x2048 .bf16) (x1 : Vec F S2048x16 .bf16) (x2 : Vec F S2048x16 .f32) (xs0 : Vec F S2048x16 .f32) : Vec F S2048x16 .f32 :=
  VO5_3.read (Elt F) (VO5_3.writes (Elt F) VO5_3.junk (kernelRun5_C c i arg2 harg2 arg3 harg3 arg4 harg4 arg5 harg5 arg6 harg6 arg7 harg7 hc0 hc1 x0 x1 x2 xs0).1)
/-- in the bf16 result block, -/
def out5_C_4 (c : Dev nD) (i : grid5.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond5_0 i) (hc1 : cond5_1 i)
    (x0 : Vec F S2048x2048 .bf16) (x1 : Vec F S2048x16 .bf16) (x2 : Vec F S2048x16 .f32) (xs0 : Vec F S2048x16 .f32) : Vec F S2048x16 .bf16 :=
  VO5_4.read (Elt F) (VO5_4.writes (Elt F) VO5_4.junk (kernelRun5_C c i arg2 harg2 arg3 harg3 arg4 harg4 arg5 harg5 arg6 harg6 arg7 harg7 hc0 hc1 x0 x1 x2 xs0).2.1)
/-- and in the accumulator. -/
def sout5_C_0 (c : Dev nD) (i : grid5.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond5_0 i) (hc1 : cond5_1 i)
    (x0 : Vec F S2048x2048 .bf16) (x1 : Vec F S2048x16 .bf16) (x2 : Vec F S2048x16 .f32) (xs0 : Vec F S2048x16 .f32) : Vec F S2048x16 .f32 :=
  VS5_0.read (Elt F) (VS5_0.writes (Elt F) VS5_0.junk (kernelRun5_C c i arg2 harg2 arg3 harg3 arg4 harg4 arg5 harg5 arg6 harg6 arg7 harg7 hc0 hc1 x0 x1 x2 xs0).2.2.1)

/-- What the two result blocks' staging buffers and the accumulator hold after the body at position `n`: the case
    the position selects, run at the point's blocks, cases B and C over the accumulator the point before left. -/
def outsAt5 (c : Dev nD) : (n : ℕ) → n < cfg5.N → Vec F S2048x16 .f32 × Vec F S2048x16 .bf16 × Vec F S2048x16 .f32
  | 0, hn => ((VO5_3.read (Elt F) VO5_3.junk), (VO5_4.read (Elt F) VO5_4.junk), sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩))
  | n + 1, hn =>
    if h0 : (n + 1) % 8 = 0 then
      if h1 : (n + 1) % 8 = 7 then
        False.elim (by omega)
      else
        ((VO5_3.read (Elt F) VO5_3.junk), (VO5_4.read (Elt F) VO5_4.junk), sout5_A_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩))
    else
      if h1 : (n + 1) % 8 = 7 then
        (out5_C_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (outsAt5 c n (Nat.lt_of_succ_lt hn)).2.2, out5_C_4 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (outsAt5 c n (Nat.lt_of_succ_lt hn)).2.2, sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (outsAt5 c n (Nat.lt_of_succ_lt hn)).2.2)
      else
        ((VO5_3.read (Elt F) VO5_3.junk), (VO5_4.read (Elt F) VO5_4.junk), sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (outsAt5 c n (Nat.lt_of_succ_lt hn)).2.2)

theorem outsAt5_A (c : Dev nD) (t : Fin cfg5.N) (h0 : t.val % 8 = 0) (h1 : ¬t.val % 8 = 7) :
    outsAt5 V c t.val t.isLt = ((VO5_3.read (Elt F) VO5_3.junk), (VO5_4.read (Elt F) VO5_4.junk), sout5_A_0 c (grid5.coords t) (ms5_0 t) (hs5_0 t) (ms5_1 t) (hs5_1 t) (ms5_2 t) (hs5_2 t) (ms5_3 t) (hs5_3 t) (ms5_4 t) (hs5_4 t) scM5_0 (Memref.isWhole_whole _) ((hcond5_0 t).mpr h0) (fun h => h1 ((hcond5_1 t).mp h)) (iblk5 V c 0 t) (iblk5 V c 1 t) (iblk5 V c 2 t)) := by
  obtain ⟨n, hn⟩ := t
  cases n with
  | zero => exact rfl
  | succ n => exact (dif_pos h0).trans ((dif_neg h1).trans rfl)

theorem outsAt5_B (c : Dev nD) (t : Fin cfg5.N) (h0 : ¬t.val % 8 = 0) (h1 : ¬t.val % 8 = 7) :
    outsAt5 V c t.val t.isLt = ((VO5_3.read (Elt F) VO5_3.junk), (VO5_4.read (Elt F) VO5_4.junk), sout5_B_0 c (grid5.coords t) (ms5_0 t) (hs5_0 t) (ms5_1 t) (hs5_1 t) (ms5_2 t) (hs5_2 t) (ms5_3 t) (hs5_3 t) (ms5_4 t) (hs5_4 t) scM5_0 (Memref.isWhole_whole _) (fun h => h0 ((hcond5_0 t).mp h)) (fun h => h1 ((hcond5_1 t).mp h)) (iblk5 V c 0 t) (iblk5 V c 1 t) (iblk5 V c 2 t) (outsAt5 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt5_C (c : Dev nD) (t : Fin cfg5.N) (h0 : ¬t.val % 8 = 0) (h1 : t.val % 8 = 7) :
    outsAt5 V c t.val t.isLt = (out5_C_3 c (grid5.coords t) (ms5_0 t) (hs5_0 t) (ms5_1 t) (hs5_1 t) (ms5_2 t) (hs5_2 t) (ms5_3 t) (hs5_3 t) (ms5_4 t) (hs5_4 t) scM5_0 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2.2, out5_C_4 c (grid5.coords t) (ms5_0 t) (hs5_0 t) (ms5_1 t) (hs5_1 t) (ms5_2 t) (hs5_2 t) (ms5_3 t) (hs5_3 t) (ms5_4 t) (hs5_4 t) scM5_0 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2.2, sout5_C_0 c (grid5.coords t) (ms5_0 t) (hs5_0 t) (ms5_1 t) (hs5_1 t) (ms5_2 t) (hs5_2 t) (ms5_3 t) (hs5_3 t) (ms5_4 t) (hs5_4 t) scM5_0 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The scoped buffers of the program other than this region's staging buffers and its accumulator. -/
abbrev RB5 (c : Dev nD) : sProp 𝕄 :=
  Pipeline.scopedRestBut (Ix := Unit) (Name := ℕ) (U := UR sig nD τ) (Lvl := ℕ) (Val := Elt F) spec5 c [cc5_scratch0]

/-- The region invariant before position `n`: at the first point every scoped buffer outside the staging buffers at
    anything; afterwards the accumulator at what the point before left in it. -/
def PhiS5 (c : Dev nD) : (n : ℕ) → n ≤ cfg5.N → sProp 𝕄
  | 0, _ => Pipeline.ΦA spec5 c
  | n + 1, hn => iprop((iprop(owns (c : Thread nD τ) scM5_0 fullShare ((outsAt5 V c n hn).2.2)) ∗ RB5 c) ∗ (∃ r, prngReg c r))

theorem PhiS5_zero (c : Dev nD) (n : ℕ) (h : n ≤ cfg5.N) (hz : n = 0) : PhiS5 V c n h = Pipeline.ΦA spec5 c := by
  subst hz; rfl
theorem PhiS5_succ (c : Dev nD) (n : ℕ) (hn : n < cfg5.N) :
    PhiS5 V c (n + 1) hn = iprop((iprop(owns (c : Thread nD τ) scM5_0 fullShare ((outsAt5 V c n hn).2.2)) ∗ RB5 c) ∗ (∃ r, prngReg c r)) := rfl
theorem PhiS5_pos (c : Dev nD) (n : ℕ) (h : n ≤ cfg5.N) (hz : n ≠ 0) :
    PhiS5 V c n h = iprop((iprop(owns (c : Thread nD τ) scM5_0 fullShare ((outsAt5 V c (n - 1) (by omega)).2.2)) ∗ RB5 c) ∗ (∃ r, prngReg c r)) := by
  cases n with
  | zero => exact absurd rfl hz
  | succ n => rfl

/-- The first point's invariant with the accumulator split out, owned at some contents. -/
theorem PhiA5_eq (c : Dev nD) :
    (Pipeline.ΦA spec5 c : sProp 𝕄)
      = iprop((iprop((∃ d, owns (c : Thread nD τ) scM5_0 fullShare d)) ∗ RB5 c) ∗ (∃ r, prngReg c r)) := by
  unfold Pipeline.ΦA; rw [scopedRest5_split]; simp only [scM5_0, owns_whole]; try rfl

/-- The proof data of region 5's pipeline on core `c`: the arrays as the region finds them; after the body at
    point `t` each input's buffer at its block and the results' at `outsAt5`; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
    | ⟨4, _⟩ => (outsAt5 V c t.val t.isLt).2.1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]
theorem PhiS5_castSucc (c : Dev nD) (t : Fin cfg5.N) :
    (dat5 V c).Φ t.castSucc = PhiS5 V c t.val (Nat.le_of_lt t.isLt) := by
  dsimp only [dat5]; simp only [Fin.coe_castSucc]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = (outsAt5 V c t.val t.isLt).1 := by dsimp only [dat5]
theorem after5_4 (c : Dev nD) (t : Fin cfg5.N) : (dat5 V c).after 4 t = (outsAt5 V c t.val t.isLt).2.1 := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d)))
/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t)

set_option maxHeartbeats 8000000 in
/-- The body at any point: the inputs' buffers hold their blocks; the position says which case the point is in; the
    invariant hands the body the accumulator at what the point before left (at anything at the first point) and takes
    it back at this point's contents; the core owes nothing throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = PhiS5 V c (t.val + 1) t.isLt from rfl, PhiS5_succ]
  have hN : t.val < 64 := lt_of_lt_of_eq t.isLt (show cfg5.N = 64 from N_5)
  rw [show (dat5 V c).leavesExact 0 t = owns (c : Thread nD τ) (ms5_0 t) fullShare ((dat5 V c).after 0 t) from by
      unfold Dat.leavesExact; rw [liveAt5_0 t], after5_0]
  rw [show (dat5 V c).leavesExact 1 t = owns (c : Thread nD τ) (ms5_1 t) fullShare ((dat5 V c).after 1 t) from by
      unfold Dat.leavesExact; rw [liveAt5_1 t], after5_1]
  rw [show (dat5 V c).leavesExact 2 t = owns (c : Thread nD τ) (ms5_2 t) fullShare ((dat5 V c).after 2 t) from by
      unfold Dat.leavesExact; rw [liveAt5_2 t], after5_2]
  by_cases h0 : t.val % 8 = 0
  · have h1 : ¬t.val % 8 = 7 := by omega
    rw [Dat.leavesExact_idle (dat5 V c) 3 t (idleAt5_3 t (fun h => h1 ((hcond5_1 t).mp h))) (noFlush5_3 t (fun h => h1 ((hcond5_1 t).mp h)))]
    rw [Dat.leavesExact_idle (dat5 V c) 4 t (idleAt5_4 t (fun h => h1 ((hcond5_1 t).mp h))) (noFlush5_4 t (fun h => h1 ((hcond5_1 t).mp h)))]
    rw [outsAt5_A V c t h0 h1]
    unfold sout5_A_0; (try dsimp only)
    by_cases hz : t.val = 0
    · rw [PhiS5_castSucc V c t, PhiS5_zero V c _ _ hz, PhiA5_eq]
      iintro ⟨⟨⟨HS0, HR⟩, Hg⟩, Ho, ⟨%d0, H0⟩, ⟨%d1, H1⟩, ⟨%d2, H2⟩, ⟨%d3, H3⟩, ⟨%d4, H4⟩⟩
      iapply ((kernelRun5_A c (grid5.coords t) _ _ _ _ _ _ _ _ _ _ _ _ ((hcond5_0 t).mpr h0) (fun h => h1 ((hcond5_1 t).mp h)) (iblk5 V c 0 t) (iblk5 V c 1 t) (iblk5 V c 2 t)).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover5_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
    · rw [PhiS5_castSucc V c t, PhiS5_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun5_A c (grid5.coords t) _ _ _ _ _ _ _ _ _ _ _ _ ((hcond5_0 t).mpr h0) (fun h => h1 ((hcond5_1 t).mp h)) (iblk5 V c 0 t) (iblk5 V c 1 t) (iblk5 V c 2 t)).2.2.2 _ _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover5_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun h => h0 (by rw [h])
    by_cases h1 : t.val % 8 = 7
    · rw [show (dat5 V c).leavesExact 3 t = owns (c : Thread nD τ) (ms5_3 t) fullShare ((dat5 V c).after 3 t) from by
        unfold Dat.leavesExact; rw [liveAt5_3 t ((hcond5_1 t).mpr h1)], after5_3]
      rw [show (dat5 V c).leavesExact 4 t = owns (c : Thread nD τ) (ms5_4 t) fullShare ((dat5 V c).after 4 t) from by
        unfold Dat.leavesExact; rw [liveAt5_4 t ((hcond5_1 t).mpr h1)], after5_4]
      rw [outsAt5_C V c t h0 h1]
      unfold out5_C_3 out5_C_4 sout5_C_0; (try dsimp only)
      rw [PhiS5_castSucc V c t, PhiS5_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun5_C c (grid5.coords t) _ _ _ _ _ _ _ _ _ _ _ _ (fun h => h0 ((hcond5_0 t).mp h)) ((hcond5_1 t).mpr h1) (iblk5 V c 0 t) (iblk5 V c 1 t) (iblk5 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover5_C_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover5_C_3 c _ _ _ _ _ _ _ _ _ _ _ _ _ _ _ _ _ _ _)
      unfold owns; iexists _; isplitr
      swap; · iexact H4
      ipureintro; exact View.read_writes_of_cover _ _ _ _ _ (cover5_C_4 c _ _ _ _ _ _ _ _ _ _ _ _ _ _ _ _ _ _ _)
    · rw [Dat.leavesExact_idle (dat5 V c) 3 t (idleAt5_3 t (fun h => h1 ((hcond5_1 t).mp h))) (noFlush5_3 t (fun h => h1 ((hcond5_1 t).mp h)))]
      rw [Dat.leavesExact_idle (dat5 V c) 4 t (idleAt5_4 t (fun h => h1 ((hcond5_1 t).mp h))) (noFlush5_4 t (fun h => h1 ((hcond5_1 t).mp h)))]
      rw [outsAt5_B V c t h0 h1]
      unfold sout5_B_0; (try dsimp only)
      rw [PhiS5_castSucc V c t, PhiS5_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun5_B c (grid5.coords t) _ _ _ _ _ _ _ _ _ _ _ _ (fun h => h0 ((hcond5_0 t).mp h)) (fun h => h1 ((hcond5_1 t).mp h)) (iblk5 V c 0 t) (iblk5 V c 1 t) (iblk5 V c 2 t) _).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover5_B_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4

/-- The body obligation of region 5, at every point. -/
theorem body_obligation5 (c : Dev nD) : BodyObligation (dat5 (F := F) V c) (defs₀ (F := F)) Variants.none () Set.univ := fun t => by
  rw [bigSep_W5, bigSep_W5]
  exact sound_body5 V c t

/-- What the region is entered with is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After the last point the invariant gives the scoped buffers back: what the accumulator holds is forgotten. -/
theorem hout5 (c : Dev nD) : (dat5 V c).Φ (Fin.last cfg5.N) ⊢ Pipeline.ΦA spec5 c := by
  have ht : (Fin.last cfg5.N).val ≠ 0 := by rw [Fin.val_last]; have : cfg5.N = 64 := N_5; omega
  rw [show (dat5 V c).Φ (Fin.last cfg5.N) = PhiS5 V c (Fin.last cfg5.N).val (Nat.le_of_lt_succ (Fin.last cfg5.N).isLt) from rfl,
    PhiS5_pos V c _ _ ht, PhiA5_eq]
  iintro ⟨⟨HS0, HR⟩, Hg⟩
  isplitl [HS0 HR]
  · isplitl [HS0]
    · iexists _; iexact HS0
    iexact HR
  iexact Hg

end Cert.Kernel.Hand

end
-- ==== Proof.RegB6Run.lean ====
/-
  Region 6 of the program (the recurrence step 2·(Ls·T) − T′): the kernel body run once per control case.
  The grid is 8 × 8; a point t = 8·r + k handles row block r and column block k of Ls. The body zeroes the
  accumulator when k = 0 (case A), adds the block product Ls[r,k]·v[k] to it at every point, and when k = 7
  (case C) stores the combination of the accumulator and the block of the earlier vector into both result
  blocks; at 0 < k < 7 (case B) it only accumulates. Each run states what the body's stores leave in the
  accumulator and in the result blocks, as the list of stored pieces.
-/
import proofs.«108570_j29480655520371_2_alg».proof.Proof.Gen.Kernel.Launch
import proofs.«108570_j29480655520371_2_alg».proof.Proof.Gen.Kernel.Skeleton
import proofs.«108570_j29480655520371_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1's current staging buffer holds its block at every point, fetched there or not. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- Input window 2's current staging buffer holds its block at every point, fetched there or not. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- k = 0: the accumulator is zeroed first. -/
abbrev cond6_0 (i : grid6.Coords) : Prop := (Scalar.cmpi .ne (Scalar.extui (Scalar.cmpi .eq (BitVec.ofNat 32 (i 1).val) 0#32)) 0#32) = 1#1
theorem hcond6_0 : ∀ t : Fin cfg6.N, cond6_0 (grid6.coords t) ↔ t.val % 8 = 0 :=
  (by decide +kernel : ∀ t : Fin grid6.N, cond6_0 (grid6.coords t) ↔ t.val % 8 = 0)
/-- k = 7: the results are stored. -/
abbrev cond6_1 (i : grid6.Coords) : Prop := k6_cond2 i = 1#1
theorem hcond6_1 : ∀ t : Fin cfg6.N, cond6_1 (grid6.coords t) ↔ t.val % 8 = 7 :=
  (by decide +kernel : ∀ t : Fin grid6.N, cond6_1 (grid6.coords t) ↔ t.val % 8 = 7)

theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
theorem idleAt6_3 : ∀ t : Fin cfg6.N, ¬cond6_1 (grid6.coords t) → cfg6.idle 3 (grid6.coords t) = true := by decide +kernel
theorem noFlush6_3 : ∀ t : Fin cfg6.N, ¬cond6_1 (grid6.coords t) → (cfg6.win 3).flush t = false := by decide +kernel
theorem liveAt6_3 : ∀ t : Fin cfg6.N, cond6_1 (grid6.coords t) → cfg6.idle 3 (grid6.coords t) = false := by decide +kernel
theorem idleAt6_4 : ∀ t : Fin cfg6.N, ¬cond6_1 (grid6.coords t) → cfg6.idle 4 (grid6.coords t) = true := by decide +kernel
theorem noFlush6_4 : ∀ t : Fin cfg6.N, ¬cond6_1 (grid6.coords t) → (cfg6.win 4).flush t = false := by decide +kernel
theorem liveAt6_4 : ∀ t : Fin cfg6.N, cond6_1 (grid6.coords t) → cfg6.idle 4 (grid6.coords t) = false := by decide +kernel

/-- One staging buffer of each result window, through which its contents are stated. -/
abbrev VO6_3 : View sig .tc .vmem S2048x16 .f32 := (Memref.whole cc6_stg3_0 : Memref sig .tc .vmem S2048x16 .f32).view
abbrev VO6_4 : View sig .tc .vmem S2048x16 .bf16 := (Memref.whole cc6_stg4_0 : Memref sig .tc .vmem S2048x16 .bf16).view
abbrev ms6_0 (t : Fin cfg6.N) : Memref sig .tc .vmem S2048x2048 .bf16 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S2048x16 .bf16 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S2048x16 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S2048x16 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S2048x16 .bf16 := win6_4.stage (cfg6.slots t 4)
abbrev hs6_4 (t : Fin cfg6.N) : (ms6_4 t).IsWhole := hstage6_4 ((cfg6.slots t 4).cast nbuf6_4)
/-- The accumulator: a whole scoped buffer of the kernel's own. -/
abbrev scM6_0 : Memref sig .tc .vmem S2048x16 .f32 := Memref.whole cc6_scratch0
abbrev VS6_0 : View sig .tc .vmem S2048x16 .f32 := scM6_0.view

set_option maxHeartbeats 4000000 in
/-- Case A (k = 0): the accumulator, at anything, is zeroed and then receives the first block product; the result
    blocks are handed back untouched. -/
noncomputable def kernelRun6_A (c : Dev nD) (i : grid6.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond6_0 i) (hc1 : ¬cond6_1 i)
    (x0 : Vec F S2048x2048 .bf16) (x1 : Vec F S2048x16 .bf16) (x2 : Vec F S2048x16 .f32) :
    Σ' (L3 : List (View.Piece (Elt F) S2048x16 .f32)) (L4 : List (View.Piece (Elt F) S2048x16 .bf16)), { LS0 : List (View.Piece (Elt F) S2048x16 .f32) //
      ∀ (xi3 : Vec F S2048x16 .f32) (xi4 : Vec F S2048x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc6__matmul_combine_kernel i arg2 harg2 arg3 harg3 arg4 harg4 arg5 harg5 arg6 harg6 arg7 harg7) K } := by
  refine ⟨[], [], ?_, fun xi3 xi4 E K => ?run⟩
  case run =>
    simp only [cc6__matmul_combine_kernel_eq_skeleton]; unfold cc6__matmul_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case B (0 < k < 7): the accumulator, at what the point before left, receives one more block product; the result
    blocks are handed back untouched. -/
noncomputable def kernelRun6_B (c : Dev nD) (i : grid6.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond6_0 i) (hc1 : ¬cond6_1 i)
    (x0 : Vec F S2048x2048 .bf16) (x1 : Vec F S2048x16 .bf16) (x2 : Vec F S2048x16 .f32) (xs0 : Vec F S2048x16 .f32) :
    Σ' (L3 : List (View.Piece (Elt F) S2048x16 .f32)) (L4 : List (View.Piece (Elt F) S2048x16 .bf16)), { LS0 : List (View.Piece (Elt F) S2048x16 .f32) //
      ∀ (xi3 : Vec F S2048x16 .f32) (xi4 : Vec F S2048x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc6__matmul_combine_kernel i arg2 harg2 arg3 harg3 arg4 harg4 arg5 harg5 arg6 harg6 arg7 harg7) K } := by
  refine ⟨[], [], ?_, fun xi3 xi4 E K => ?run⟩
  case run =>
    simp only [cc6__matmul_combine_kernel_eq_skeleton]; unfold cc6__matmul_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case C (k = 7): the accumulator receives the last block product, and both result blocks, at anything, are stored
    whole with the combination of the accumulator and the block of the earlier vector. -/
noncomputable def kernelRun6_C (c : Dev nD) (i : grid6.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond6_0 i) (hc1 : cond6_1 i)
    (x0 : Vec F S2048x2048 .bf16) (x1 : Vec F S2048x16 .bf16) (x2 : Vec F S2048x16 .f32) (xs0 : Vec F S2048x16 .f32) :
    Σ' (L3 : List (View.Piece (Elt F) S2048x16 .f32)) (L4 : List (View.Piece (Elt F) S2048x16 .bf16)), { LS0 : List (View.Piece (Elt F) S2048x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc6__matmul_combine_kernel i arg2 harg2 arg3 harg3 arg4 harg4 arg5 harg5 arg6 harg6 arg7 harg7) K } := by
  refine ⟨?_, ?_, ?_, fun E K => ?run⟩
  case run =>
    simp only [cc6__matmul_combine_kernel_eq_skeleton]; unfold cc6__matmul_combine_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.Kernel.Hand

end
-- ==== Proof.RegB6Frame.lean ====
/-
  Region 6: what its result blocks and its accumulator hold after every grid point, the proof data of its pipeline,
  and the body obligation. After point t = 8·r + k the accumulator holds the sum of the block products
  Ls[r,0]·v[0] + … + Ls[r,k]·v[k] (case A starts it from zero, cases B and C continue from what the point before
  left); the result blocks are written at k = 7 only and written back to their arrays right after that point, so at
  the other points their staging buffers are idle and what they hold is never consulted.
-/
import proofs.«108570_j29480655520371_2_alg».proof.Proof.RegB6Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's piece for the accumulator covers it. -/
theorem scover6_A_0 (c : Dev nD) (i : grid6.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond6_0 i) (hc1 : ¬cond6_1 i)
    (x0 : Vec F S2048x2048 .bf16) (x1 : Vec F S2048x16 .bf16) (x2 : Vec F S2048x16 .f32) (y : S2048x16.Idx) :
    ∃ pc ∈ (kernelRun6_A c i arg2 harg2 arg3 harg3 arg4 harg4 arg5 harg5 arg6 harg6 arg7 harg7 hc0 hc1 x0 x1 x2).2.2.1, y ∈ pc.1.set :=
  View.cover_of_tiledL (kernelRun6_A c i arg2 harg2 arg3 harg3 arg4 harg4 arg5 harg5 arg6 harg6 arg7 harg7 hc0 hc1 x0 x1 x2).2.2.1 S2048x16.size (by sl_kernel_rfl) y
/-- What case A leaves in the accumulator. -/
def sout6_A_0 (c : Dev nD) (i : grid6.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond6_0 i) (hc1 : ¬cond6_1 i)
    (x0 : Vec F S2048x2048 .bf16) (x1 : Vec F S2048x16 .bf16) (x2 : Vec F S2048x16 .f32) : Vec F S2048x16 .f32 :=
  VS6_0.read (Elt F) (VS6_0.writes (Elt F) VS6_0.junk (kernelRun6_A c i arg2 harg2 arg3 harg3 arg4 harg4 arg5 harg5 arg6 harg6 arg7 harg7 hc0 hc1 x0 x1 x2).2.2.1)

/-- Case B's piece for the accumulator covers it. -/
theorem scover6_B_0 (c : Dev nD) (i : grid6.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond6_0 i) (hc1 : ¬cond6_1 i)
    (x0 : Vec F S2048x2048 .bf16) (x1 : Vec F S2048x16 .bf16) (x2 : Vec F S2048x16 .f32) (xs0 : Vec F S2048x16 .f32) (y : S2048x16.Idx) :
    ∃ pc ∈ (kernelRun6_B c i arg2 harg2 arg3 harg3 arg4 harg4 arg5 harg5 arg6 harg6 arg7 harg7 hc0 hc1 x0 x1 x2 xs0).2.2.1, y ∈ pc.1.set :=
  View.cover_of_tiledL (kernelRun6_B c i arg2 harg2 arg3 harg3 arg4 harg4 arg5 harg5 arg6 harg6 arg7 harg7 hc0 hc1 x0 x1 x2 xs0).2.2.1 S2048x16.size (by sl_kernel_rfl) y
/-- What case B leaves in the accumulator. -/
def sout6_B_0 (c : Dev nD) (i : grid6.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond6_0 i) (hc1 : ¬cond6_1 i)
    (x0 : Vec F S2048x2048 .bf16) (x1 : Vec F S2048x16 .bf16) (x2 : Vec F S2048x16 .f32) (xs0 : Vec F S2048x16 .f32) : Vec F S2048x16 .f32 :=
  VS6_0.read (Elt F) (VS6_0.writes (Elt F) VS6_0.junk (kernelRun6_B c i arg2 harg2 arg3 harg3 arg4 harg4 arg5 harg5 arg6 harg6 arg7 harg7 hc0 hc1 x0 x1 x2 xs0).2.2.1)

/-- Case C's pieces cover the f32 result block, -/
theorem cover6_C_3 (c : Dev nD) (i : grid6.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond6_0 i) (hc1 : cond6_1 i)
    (x0 : Vec F S2048x2048 .bf16) (x1 : Vec F S2048x16 .bf16) (x2 : Vec F S2048x16 .f32) (xs0 : Vec F S2048x16 .f32) (y : S2048x16.Idx) :
    ∃ pc ∈ (kernelRun6_C c i arg2 harg2 arg3 harg3 arg4 harg4 arg5 harg5 arg6 harg6 arg7 harg7 hc0 hc1 x0 x1 x2 xs0).1, y ∈ pc.1.set :=
  View.cover_of_tiledL (kernelRun6_C c i arg2 harg2 arg3 harg3 arg4 harg4 arg5 harg5 arg6 harg6 arg7 harg7 hc0 hc1 x0 x1 x2 xs0).1 S2048x16.size (by sl_kernel_rfl) y
/-- the bf16 result block, -/
theorem cover6_C_4 (c : Dev nD) (i : grid6.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond6_0 i) (hc1 : cond6_1 i)
    (x0 : Vec F S2048x2048 .bf16) (x1 : Vec F S2048x16 .bf16) (x2 : Vec F S2048x16 .f32) (xs0 : Vec F S2048x16 .f32) (y : S2048x16.Idx) :
    ∃ pc ∈ (kernelRun6_C c i arg2 harg2 arg3 harg3 arg4 harg4 arg5 harg5 arg6 harg6 arg7 harg7 hc0 hc1 x0 x1 x2 xs0).2.1, y ∈ pc.1.set :=
  View.cover_of_tiledL (kernelRun6_C c i arg2 harg2 arg3 harg3 arg4 harg4 arg5 harg5 arg6 harg6 arg7 harg7 hc0 hc1 x0 x1 x2 xs0).2.1 S2048x16.size (by sl_kernel_rfl) y
/-- and the accumulator. -/
theorem scover6_C_0 (c : Dev nD) (i : grid6.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond6_0 i) (hc1 : cond6_1 i)
    (x0 : Vec F S2048x2048 .bf16) (x1 : Vec F S2048x16 .bf16) (x2 : Vec F S2048x16 .f32) (xs0 : Vec F S2048x16 .f32) (y : S2048x16.Idx) :
    ∃ pc ∈ (kernelRun6_C c i arg2 harg2 arg3 harg3 arg4 harg4 arg5 harg5 arg6 harg6 arg7 harg7 hc0 hc1 x0 x1 x2 xs0).2.2.1, y ∈ pc.1.set :=
  View.cover_of_tiledL (kernelRun6_C c i arg2 harg2 arg3 harg3 arg4 harg4 arg5 harg5 arg6 harg6 arg7 harg7 hc0 hc1 x0 x1 x2 xs0).2.2.1 S2048x16.size (by sl_kernel_rfl) y
/-- What case C leaves in the f32 result block, -/
def out6_C_3 (c : Dev nD) (i : grid6.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond6_0 i) (hc1 : cond6_1 i)
    (x0 : Vec F S2048x2048 .bf16) (x1 : Vec F S2048x16 .bf16) (x2 : Vec F S2048x16 .f32) (xs0 : Vec F S2048x16 .f32) : Vec F S2048x16 .f32 :=
  VO6_3.read (Elt F) (VO6_3.writes (Elt F) VO6_3.junk (kernelRun6_C c i arg2 harg2 arg3 harg3 arg4 harg4 arg5 harg5 arg6 harg6 arg7 harg7 hc0 hc1 x0 x1 x2 xs0).1)
/-- in the bf16 result block, -/
def out6_C_4 (c : Dev nD) (i : grid6.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond6_0 i) (hc1 : cond6_1 i)
    (x0 : Vec F S2048x2048 .bf16) (x1 : Vec F S2048x16 .bf16) (x2 : Vec F S2048x16 .f32) (xs0 : Vec F S2048x16 .f32) : Vec F S2048x16 .bf16 :=
  VO6_4.read (Elt F) (VO6_4.writes (Elt F) VO6_4.junk (kernelRun6_C c i arg2 harg2 arg3 harg3 arg4 harg4 arg5 harg5 arg6 harg6 arg7 harg7 hc0 hc1 x0 x1 x2 xs0).2.1)
/-- and in the accumulator. -/
def sout6_C_0 (c : Dev nD) (i : grid6.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond6_0 i) (hc1 : cond6_1 i)
    (x0 : Vec F S2048x2048 .bf16) (x1 : Vec F S2048x16 .bf16) (x2 : Vec F S2048x16 .f32) (xs0 : Vec F S2048x16 .f32) : Vec F S2048x16 .f32 :=
  VS6_0.read (Elt F) (VS6_0.writes (Elt F) VS6_0.junk (kernelRun6_C c i arg2 harg2 arg3 harg3 arg4 harg4 arg5 harg5 arg6 harg6 arg7 harg7 hc0 hc1 x0 x1 x2 xs0).2.2.1)

/-- What the two result blocks' staging buffers and the accumulator hold after the body at position `n`: the case
    the position selects, run at the point's blocks, cases B and C over the accumulator the point before left. -/
def outsAt6 (c : Dev nD) : (n : ℕ) → n < cfg6.N → Vec F S2048x16 .f32 × Vec F S2048x16 .bf16 × Vec F S2048x16 .f32
  | 0, hn => ((VO6_3.read (Elt F) VO6_3.junk), (VO6_4.read (Elt F) VO6_4.junk), sout6_A_0 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) scM6_0 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩))
  | n + 1, hn =>
    if h0 : (n + 1) % 8 = 0 then
      if h1 : (n + 1) % 8 = 7 then
        False.elim (by omega)
      else
        ((VO6_3.read (Elt F) VO6_3.junk), (VO6_4.read (Elt F) VO6_4.junk), sout6_A_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) scM6_0 (Memref.isWhole_whole _) ((hcond6_0 ⟨n + 1, hn⟩).mpr h0) (fun h => h1 ((hcond6_1 ⟨n + 1, hn⟩).mp h)) (iblk6 V c 0 ⟨n + 1, hn⟩) (iblk6 V c 1 ⟨n + 1, hn⟩) (iblk6 V c 2 ⟨n + 1, hn⟩))
    else
      if h1 : (n + 1) % 8 = 7 then
        (out6_C_3 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) scM6_0 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (outsAt6 c n (Nat.lt_of_succ_lt hn)).2.2, out6_C_4 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) scM6_0 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (outsAt6 c n (Nat.lt_of_succ_lt hn)).2.2, sout6_C_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) scM6_0 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (outsAt6 c n (Nat.lt_of_succ_lt hn)).2.2)
      else
        ((VO6_3.read (Elt F) VO6_3.junk), (VO6_4.read (Elt F) VO6_4.junk), sout6_B_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) scM6_0 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (outsAt6 c n (Nat.lt_of_succ_lt hn)).2.2)

theorem outsAt6_A (c : Dev nD) (t : Fin cfg6.N) (h0 : t.val % 8 = 0) (h1 : ¬t.val % 8 = 7) :
    outsAt6 V c t.val t.isLt = ((VO6_3.read (Elt F) VO6_3.junk), (VO6_4.read (Elt F) VO6_4.junk), sout6_A_0 c (grid6.coords t) (ms6_0 t) (hs6_0 t) (ms6_1 t) (hs6_1 t) (ms6_2 t) (hs6_2 t) (ms6_3 t) (hs6_3 t) (ms6_4 t) (hs6_4 t) scM6_0 (Memref.isWhole_whole _) ((hcond6_0 t).mpr h0) (fun h => h1 ((hcond6_1 t).mp h)) (iblk6 V c 0 t) (iblk6 V c 1 t) (iblk6 V c 2 t)) := by
  obtain ⟨n, hn⟩ := t
  cases n with
  | zero => exact rfl
  | succ n => exact (dif_pos h0).trans ((dif_neg h1).trans rfl)

theorem outsAt6_B (c : Dev nD) (t : Fin cfg6.N) (h0 : ¬t.val % 8 = 0) (h1 : ¬t.val % 8 = 7) :
    outsAt6 V c t.val t.isLt = ((VO6_3.read (Elt F) VO6_3.junk), (VO6_4.read (Elt F) VO6_4.junk), sout6_B_0 c (grid6.coords t) (ms6_0 t) (hs6_0 t) (ms6_1 t) (hs6_1 t) (ms6_2 t) (hs6_2 t) (ms6_3 t) (hs6_3 t) (ms6_4 t) (hs6_4 t) scM6_0 (Memref.isWhole_whole _) (fun h => h0 ((hcond6_0 t).mp h)) (fun h => h1 ((hcond6_1 t).mp h)) (iblk6 V c 0 t) (iblk6 V c 1 t) (iblk6 V c 2 t) (outsAt6 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt6_C (c : Dev nD) (t : Fin cfg6.N) (h0 : ¬t.val % 8 = 0) (h1 : t.val % 8 = 7) :
    outsAt6 V c t.val t.isLt = (out6_C_3 c (grid6.coords t) (ms6_0 t) (hs6_0 t) (ms6_1 t) (hs6_1 t) (ms6_2 t) (hs6_2 t) (ms6_3 t) (hs6_3 t) (ms6_4 t) (hs6_4 t) scM6_0 (Memref.isWhole_whole _) (fun h => h0 ((hcond6_0 t).mp h)) ((hcond6_1 t).mpr h1) (iblk6 V c 0 t) (iblk6 V c 1 t) (iblk6 V c 2 t) (outsAt6 V c (t.val - 1) (Nat.lt_of_le_of_lt (Nat.sub_le _ _) t.isLt)).2.2, out6_C_4 c (grid6.coords t) (ms6_0 t) (hs6_0 t) (ms6_1 t) (hs6_1 t) (ms6_2 t) (hs6_2 t) (ms6_3 t) (hs6_3 t) (ms6_4 t) (hs6_4 t) scM6_0 (Memref.isWhole_whole _) (fun h => h0 ((hcond6_0 t).mp h)) ((hcond6_1 t).mpr h1) (iblk6 V c 0 t) (iblk6 V c 1 t) (iblk6 V c 2 t) (outsAt6 V c (t.val - 1) (Nat.lt_of_le_of_lt (Nat.sub_le _ _) t.isLt)).2.2, sout6_C_0 c (grid6.coords t) (ms6_0 t) (hs6_0 t) (ms6_1 t) (hs6_1 t) (ms6_2 t) (hs6_2 t) (ms6_3 t) (hs6_3 t) (ms6_4 t) (hs6_4 t) scM6_0 (Memref.isWhole_whole _) (fun h => h0 ((hcond6_0 t).mp h)) ((hcond6_1 t).mpr h1) (iblk6 V c 0 t) (iblk6 V c 1 t) (iblk6 V c 2 t) (outsAt6 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The scoped buffers of the program other than this region's staging buffers and its accumulator. -/
abbrev RB6 (c : Dev nD) : sProp 𝕄 :=
  Pipeline.scopedRestBut (Ix := Unit) (Name := ℕ) (U := UR sig nD τ) (Lvl := ℕ) (Val := Elt F) spec6 c [cc6_scratch0]

/-- The region invariant before position `n`: at the first point every scoped buffer outside the staging buffers at
    anything; afterwards the accumulator at what the point before left in it. -/
def PhiS6 (c : Dev nD) : (n : ℕ) → n ≤ cfg6.N → sProp 𝕄
  | 0, _ => Pipeline.ΦA spec6 c
  | n + 1, hn => iprop((iprop(owns (c : Thread nD τ) scM6_0 fullShare ((outsAt6 V c n hn).2.2)) ∗ RB6 c) ∗ (∃ r, prngReg c r))

theorem PhiS6_zero (c : Dev nD) (n : ℕ) (h : n ≤ cfg6.N) (hz : n = 0) : PhiS6 V c n h = Pipeline.ΦA spec6 c := by
  subst hz; rfl
theorem PhiS6_succ (c : Dev nD) (n : ℕ) (hn : n < cfg6.N) :
    PhiS6 V c (n + 1) hn = iprop((iprop(owns (c : Thread nD τ) scM6_0 fullShare ((outsAt6 V c n hn).2.2)) ∗ RB6 c) ∗ (∃ r, prngReg c r)) := rfl
theorem PhiS6_pos (c : Dev nD) (n : ℕ) (h : n ≤ cfg6.N) (hz : n ≠ 0) :
    PhiS6 V c n h = iprop((iprop(owns (c : Thread nD τ) scM6_0 fullShare ((outsAt6 V c (n - 1) (by omega)).2.2)) ∗ RB6 c) ∗ (∃ r, prngReg c r)) := by
  cases n with
  | zero => exact absurd rfl hz
  | succ n => rfl

/-- The first point's invariant with the accumulator split out, owned at some contents. -/
theorem PhiA6_eq (c : Dev nD) :
    (Pipeline.ΦA spec6 c : sProp 𝕄)
      = iprop((iprop((∃ d, owns (c : Thread nD τ) scM6_0 fullShare d)) ∗ RB6 c) ∗ (∃ r, prngReg c r)) := by
  unfold Pipeline.ΦA; rw [scopedRest6_split]; simp only [scM6_0, owns_whole]; try rfl

/-- The proof data of region 6's pipeline on core `c`: the arrays as the region finds them; after the body at
    point `t` each input's buffer at its block and the results' at `outsAt6`; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => (outsAt6 V c t.val t.isLt).1
    | ⟨4, _⟩ => (outsAt6 V c t.val t.isLt).2.1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]
theorem PhiS6_castSucc (c : Dev nD) (t : Fin cfg6.N) :
    (dat6 V c).Φ t.castSucc = PhiS6 V c t.val (Nat.le_of_lt t.isLt) := by
  dsimp only [dat6]; simp only [Fin.coe_castSucc]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = (outsAt6 V c t.val t.isLt).1 := by dsimp only [dat6]
theorem after6_4 (c : Dev nD) (t : Fin cfg6.N) : (dat6 V c).after 4 t = (outsAt6 V c t.val t.isLt).2.1 := by dsimp only [dat6]
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d)))
/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t)

set_option maxHeartbeats 8000000 in
/-- The body at any point: the inputs' buffers hold their blocks; the position says which case the point is in; the
    invariant hands the body the accumulator at what the point before left (at anything at the first point) and takes
    it back at this point's contents; the core owes nothing throughout. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).owesAt () t.succ = (dat6 V c).owesAt () t.castSucc from rfl]
  rw [show (dat6 V c).Φ t.succ = PhiS6 V c (t.val + 1) t.isLt from rfl, PhiS6_succ]
  have hN : t.val < 64 := lt_of_lt_of_eq t.isLt (show cfg6.N = 64 from N_6)
  rw [show (dat6 V c).leavesExact 0 t = owns (c : Thread nD τ) (ms6_0 t) fullShare ((dat6 V c).after 0 t) from by
      unfold Dat.leavesExact; rw [liveAt6_0 t], after6_0]
  rw [show (dat6 V c).leavesExact 1 t = owns (c : Thread nD τ) (ms6_1 t) fullShare ((dat6 V c).after 1 t) from by
      unfold Dat.leavesExact; rw [liveAt6_1 t], after6_1]
  rw [show (dat6 V c).leavesExact 2 t = owns (c : Thread nD τ) (ms6_2 t) fullShare ((dat6 V c).after 2 t) from by
      unfold Dat.leavesExact; rw [liveAt6_2 t], after6_2]
  by_cases h0 : t.val % 8 = 0
  · have h1 : ¬t.val % 8 = 7 := by omega
    rw [Dat.leavesExact_idle (dat6 V c) 3 t (idleAt6_3 t (fun h => h1 ((hcond6_1 t).mp h))) (noFlush6_3 t (fun h => h1 ((hcond6_1 t).mp h)))]
    rw [Dat.leavesExact_idle (dat6 V c) 4 t (idleAt6_4 t (fun h => h1 ((hcond6_1 t).mp h))) (noFlush6_4 t (fun h => h1 ((hcond6_1 t).mp h)))]
    rw [outsAt6_A V c t h0 h1]
    unfold sout6_A_0; (try dsimp only)
    by_cases hz : t.val = 0
    · rw [PhiS6_castSucc V c t, PhiS6_zero V c _ _ hz, PhiA6_eq]
      iintro ⟨⟨⟨HS0, HR⟩, Hg⟩, Ho, ⟨%d0, H0⟩, ⟨%d1, H1⟩, ⟨%d2, H2⟩, ⟨%d3, H3⟩, ⟨%d4, H4⟩⟩
      iapply ((kernelRun6_A c (grid6.coords t) _ _ _ _ _ _ _ _ _ _ _ _ ((hcond6_0 t).mpr h0) (fun h => h1 ((hcond6_1 t).mp h)) (iblk6 V c 0 t) (iblk6 V c 1 t) (iblk6 V c 2 t)).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover6_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
    · rw [PhiS6_castSucc V c t, PhiS6_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun6_A c (grid6.coords t) _ _ _ _ _ _ _ _ _ _ _ _ ((hcond6_0 t).mpr h0) (fun h => h1 ((hcond6_1 t).mp h)) (iblk6 V c 0 t) (iblk6 V c 1 t) (iblk6 V c 2 t)).2.2.2 _ _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover6_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun h => h0 (by rw [h])
    by_cases h1 : t.val % 8 = 7
    · rw [show (dat6 V c).leavesExact 3 t = owns (c : Thread nD τ) (ms6_3 t) fullShare ((dat6 V c).after 3 t) from by
        unfold Dat.leavesExact; rw [liveAt6_3 t ((hcond6_1 t).mpr h1)], after6_3]
      rw [show (dat6 V c).leavesExact 4 t = owns (c : Thread nD τ) (ms6_4 t) fullShare ((dat6 V c).after 4 t) from by
        unfold Dat.leavesExact; rw [liveAt6_4 t ((hcond6_1 t).mpr h1)], after6_4]
      rw [outsAt6_C V c t h0 h1]
      unfold out6_C_3 out6_C_4 sout6_C_0; (try dsimp only)
      rw [PhiS6_castSucc V c t, PhiS6_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun6_C c (grid6.coords t) _ _ _ _ _ _ _ _ _ _ _ _ (fun h => h0 ((hcond6_0 t).mp h)) ((hcond6_1 t).mpr h1) (iblk6 V c 0 t) (iblk6 V c 1 t) (iblk6 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover6_C_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover6_C_3 c _ _ _ _ _ _ _ _ _ _ _ _ _ _ _ _ _ _ _)
      unfold owns; iexists _; isplitr
      swap; · iexact H4
      ipureintro; exact View.read_writes_of_cover _ _ _ _ _ (cover6_C_4 c _ _ _ _ _ _ _ _ _ _ _ _ _ _ _ _ _ _ _)
    · rw [Dat.leavesExact_idle (dat6 V c) 3 t (idleAt6_3 t (fun h => h1 ((hcond6_1 t).mp h))) (noFlush6_3 t (fun h => h1 ((hcond6_1 t).mp h)))]
      rw [Dat.leavesExact_idle (dat6 V c) 4 t (idleAt6_4 t (fun h => h1 ((hcond6_1 t).mp h))) (noFlush6_4 t (fun h => h1 ((hcond6_1 t).mp h)))]
      rw [outsAt6_B V c t h0 h1]
      unfold sout6_B_0; (try dsimp only)
      rw [PhiS6_castSucc V c t, PhiS6_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun6_B c (grid6.coords t) _ _ _ _ _ _ _ _ _ _ _ _ (fun h => h0 ((hcond6_0 t).mp h)) (fun h => h1 ((hcond6_1 t).mp h)) (iblk6 V c 0 t) (iblk6 V c 1 t) (iblk6 V c 2 t) _).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover6_B_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4

/-- The body obligation of region 6, at every point. -/
theorem body_obligation6 (c : Dev nD) : BodyObligation (dat6 (F := F) V c) (defs₀ (F := F)) Variants.none () Set.univ := fun t => by
  rw [bigSep_W6, bigSep_W6]
  exact sound_body6 V c t

/-- What the region is entered with is the invariant before the first point. -/
theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

/-- After the last point the invariant gives the scoped buffers back: what the accumulator holds is forgotten. -/
theorem hout6 (c : Dev nD) : (dat6 V c).Φ (Fin.last cfg6.N) ⊢ Pipeline.ΦA spec6 c := by
  have ht : (Fin.last cfg6.N).val ≠ 0 := by rw [Fin.val_last]; have : cfg6.N = 64 := N_6; omega
  rw [show (dat6 V c).Φ (Fin.last cfg6.N) = PhiS6 V c (Fin.last cfg6.N).val (Nat.le_of_lt_succ (Fin.last cfg6.N).isLt) from rfl,
    PhiS6_pos V c _ _ ht, PhiA6_eq]
  iintro ⟨⟨HS0, HR⟩, Hg⟩
  isplitl [HS0 HR]
  · isplitl [HS0]
    · iexists _; iexact HS0
    iexact HR
  iexact Hg

end Cert.Kernel.Hand

end
-- ==== Proof.RegB7Run.lean ====
/-
  Region 7 of the program (the recurrence step 2·(Ls·T) − T′): the kernel body run once per control case.
  The grid is 8 × 8; a point t = 8·r + k handles row block r and column block k of Ls. The body zeroes the
  accumulator when k = 0 (case A), adds the block product Ls[r,k]·v[k] to it at every point, and when k = 7
  (case C) stores the combination of the accumulator and the block of the earlier vector into both result
  blocks; at 0 < k < 7 (case B) it only accumulates. Each run states what the body's stores leave in the
  accumulator and in the result blocks, as the list of stored pieces.
-/
import proofs.«108570_j29480655520371_2_alg».proof.Proof.Gen.Kernel.Launch
import proofs.«108570_j29480655520371_2_alg».proof.Proof.Gen.Kernel.Skeleton
import proofs.«108570_j29480655520371_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- Input window 1's current staging buffer holds its block at every point, fetched there or not. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- Input window 2's current staging buffer holds its block at every point, fetched there or not. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- k = 0: the accumulator is zeroed first. -/
abbrev cond7_0 (i : grid7.Coords) : Prop := (Scalar.cmpi .ne (Scalar.extui (Scalar.cmpi .eq (BitVec.ofNat 32 (i 1).val) 0#32)) 0#32) = 1#1
theorem hcond7_0 : ∀ t : Fin cfg7.N, cond7_0 (grid7.coords t) ↔ t.val % 8 = 0 :=
  (by decide +kernel : ∀ t : Fin grid7.N, cond7_0 (grid7.coords t) ↔ t.val % 8 = 0)
/-- k = 7: the results are stored. -/
abbrev cond7_1 (i : grid7.Coords) : Prop := k7_cond2 i = 1#1
theorem hcond7_1 : ∀ t : Fin cfg7.N, cond7_1 (grid7.coords t) ↔ t.val % 8 = 7 :=
  (by decide +kernel : ∀ t : Fin grid7.N, cond7_1 (grid7.coords t) ↔ t.val % 8 = 7)

theorem liveAt7_0 : ∀ t : Fin cfg7.N, cfg7.idle 0 (grid7.coords t) = false := by decide +kernel
theorem liveAt7_1 : ∀ t : Fin cfg7.N, cfg7.idle 1 (grid7.coords t) = false := by decide +kernel
theorem liveAt7_2 : ∀ t : Fin cfg7.N, cfg7.idle 2 (grid7.coords t) = false := by decide +kernel
theorem idleAt7_3 : ∀ t : Fin cfg7.N, ¬cond7_1 (grid7.coords t) → cfg7.idle 3 (grid7.coords t) = true := by decide +kernel
theorem noFlush7_3 : ∀ t : Fin cfg7.N, ¬cond7_1 (grid7.coords t) → (cfg7.win 3).flush t = false := by decide +kernel
theorem liveAt7_3 : ∀ t : Fin cfg7.N, cond7_1 (grid7.coords t) → cfg7.idle 3 (grid7.coords t) = false := by decide +kernel
theorem idleAt7_4 : ∀ t : Fin cfg7.N, ¬cond7_1 (grid7.coords t) → cfg7.idle 4 (grid7.coords t) = true := by decide +kernel
theorem noFlush7_4 : ∀ t : Fin cfg7.N, ¬cond7_1 (grid7.coords t) → (cfg7.win 4).flush t = false := by decide +kernel
theorem liveAt7_4 : ∀ t : Fin cfg7.N, cond7_1 (grid7.coords t) → cfg7.idle 4 (grid7.coords t) = false := by decide +kernel

/-- One staging buffer of each result window, through which its contents are stated. -/
abbrev VO7_3 : View sig .tc .vmem S2048x16 .f32 := (Memref.whole cc7_stg3_0 : Memref sig .tc .vmem S2048x16 .f32).view
abbrev VO7_4 : View sig .tc .vmem S2048x16 .bf16 := (Memref.whole cc7_stg4_0 : Memref sig .tc .vmem S2048x16 .bf16).view
abbrev ms7_0 (t : Fin cfg7.N) : Memref sig .tc .vmem S2048x2048 .bf16 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S2048x16 .bf16 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S2048x16 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S2048x16 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S2048x16 .bf16 := win7_4.stage (cfg7.slots t 4)
abbrev hs7_4 (t : Fin cfg7.N) : (ms7_4 t).IsWhole := hstage7_4 ((cfg7.slots t 4).cast nbuf7_4)
/-- The accumulator: a whole scoped buffer of the kernel's own. -/
abbrev scM7_0 : Memref sig .tc .vmem S2048x16 .f32 := Memref.whole cc7_scratch0
abbrev VS7_0 : View sig .tc .vmem S2048x16 .f32 := scM7_0.view

set_option maxHeartbeats 4000000 in
/-- Case A (k = 0): the accumulator, at anything, is zeroed and then receives the first block product; the result
    blocks are handed back untouched. -/
noncomputable def kernelRun7_A (c : Dev nD) (i : grid7.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond7_0 i) (hc1 : ¬cond7_1 i)
    (x0 : Vec F S2048x2048 .bf16) (x1 : Vec F S2048x16 .bf16) (x2 : Vec F S2048x16 .f32) :
    Σ' (L3 : List (View.Piece (Elt F) S2048x16 .f32)) (L4 : List (View.Piece (Elt F) S2048x16 .bf16)), { LS0 : List (View.Piece (Elt F) S2048x16 .f32) //
      ∀ (xi3 : Vec F S2048x16 .f32) (xi4 : Vec F S2048x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc7__matmul_combine_kernel i arg2 harg2 arg3 harg3 arg4 harg4 arg5 harg5 arg6 harg6 arg7 harg7) K } := by
  refine ⟨[], [], ?_, fun xi3 xi4 E K => ?run⟩
  case run =>
    simp only [cc7__matmul_combine_kernel_eq_skeleton]; unfold cc7__matmul_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case B (0 < k < 7): the accumulator, at what the point before left, receives one more block product; the result
    blocks are handed back untouched. -/
noncomputable def kernelRun7_B (c : Dev nD) (i : grid7.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond7_0 i) (hc1 : ¬cond7_1 i)
    (x0 : Vec F S2048x2048 .bf16) (x1 : Vec F S2048x16 .bf16) (x2 : Vec F S2048x16 .f32) (xs0 : Vec F S2048x16 .f32) :
    Σ' (L3 : List (View.Piece (Elt F) S2048x16 .f32)) (L4 : List (View.Piece (Elt F) S2048x16 .bf16)), { LS0 : List (View.Piece (Elt F) S2048x16 .f32) //
      ∀ (xi3 : Vec F S2048x16 .f32) (xi4 : Vec F S2048x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc7__matmul_combine_kernel i arg2 harg2 arg3 harg3 arg4 harg4 arg5 harg5 arg6 harg6 arg7 harg7) K } := by
  refine ⟨[], [], ?_, fun xi3 xi4 E K => ?run⟩
  case run =>
    simp only [cc7__matmul_combine_kernel_eq_skeleton]; unfold cc7__matmul_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case C (k = 7): the accumulator receives the last block product, and both result blocks, at anything, are stored
    whole with the combination of the accumulator and the block of the earlier vector. -/
noncomputable def kernelRun7_C (c : Dev nD) (i : grid7.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond7_0 i) (hc1 : cond7_1 i)
    (x0 : Vec F S2048x2048 .bf16) (x1 : Vec F S2048x16 .bf16) (x2 : Vec F S2048x16 .f32) (xs0 : Vec F S2048x16 .f32) :
    Σ' (L3 : List (View.Piece (Elt F) S2048x16 .f32)) (L4 : List (View.Piece (Elt F) S2048x16 .bf16)), { LS0 : List (View.Piece (Elt F) S2048x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc7__matmul_combine_kernel i arg2 harg2 arg3 harg3 arg4 harg4 arg5 harg5 arg6 harg6 arg7 harg7) K } := by
  refine ⟨?_, ?_, ?_, fun E K => ?run⟩
  case run =>
    simp only [cc7__matmul_combine_kernel_eq_skeleton]; unfold cc7__matmul_combine_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.Kernel.Hand

end
-- ==== Proof.RegB7Frame.lean ====
/-
  Region 7: what its result blocks and its accumulator hold after every grid point, the proof data of its pipeline,
  and the body obligation. After point t = 8·r + k the accumulator holds the sum of the block products
  Ls[r,0]·v[0] + … + Ls[r,k]·v[k] (case A starts it from zero, cases B and C continue from what the point before
  left); the result blocks are written at k = 7 only and written back to their arrays right after that point, so at
  the other points their staging buffers are idle and what they hold is never consulted.
-/
import proofs.«108570_j29480655520371_2_alg».proof.Proof.RegB7Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's piece for the accumulator covers it. -/
theorem scover7_A_0 (c : Dev nD) (i : grid7.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond7_0 i) (hc1 : ¬cond7_1 i)
    (x0 : Vec F S2048x2048 .bf16) (x1 : Vec F S2048x16 .bf16) (x2 : Vec F S2048x16 .f32) (y : S2048x16.Idx) :
    ∃ pc ∈ (kernelRun7_A c i arg2 harg2 arg3 harg3 arg4 harg4 arg5 harg5 arg6 harg6 arg7 harg7 hc0 hc1 x0 x1 x2).2.2.1, y ∈ pc.1.set :=
  View.cover_of_tiledL (kernelRun7_A c i arg2 harg2 arg3 harg3 arg4 harg4 arg5 harg5 arg6 harg6 arg7 harg7 hc0 hc1 x0 x1 x2).2.2.1 S2048x16.size (by sl_kernel_rfl) y
/-- What case A leaves in the accumulator. -/
def sout7_A_0 (c : Dev nD) (i : grid7.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond7_0 i) (hc1 : ¬cond7_1 i)
    (x0 : Vec F S2048x2048 .bf16) (x1 : Vec F S2048x16 .bf16) (x2 : Vec F S2048x16 .f32) : Vec F S2048x16 .f32 :=
  VS7_0.read (Elt F) (VS7_0.writes (Elt F) VS7_0.junk (kernelRun7_A c i arg2 harg2 arg3 harg3 arg4 harg4 arg5 harg5 arg6 harg6 arg7 harg7 hc0 hc1 x0 x1 x2).2.2.1)

/-- Case B's piece for the accumulator covers it. -/
theorem scover7_B_0 (c : Dev nD) (i : grid7.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond7_0 i) (hc1 : ¬cond7_1 i)
    (x0 : Vec F S2048x2048 .bf16) (x1 : Vec F S2048x16 .bf16) (x2 : Vec F S2048x16 .f32) (xs0 : Vec F S2048x16 .f32) (y : S2048x16.Idx) :
    ∃ pc ∈ (kernelRun7_B c i arg2 harg2 arg3 harg3 arg4 harg4 arg5 harg5 arg6 harg6 arg7 harg7 hc0 hc1 x0 x1 x2 xs0).2.2.1, y ∈ pc.1.set :=
  View.cover_of_tiledL (kernelRun7_B c i arg2 harg2 arg3 harg3 arg4 harg4 arg5 harg5 arg6 harg6 arg7 harg7 hc0 hc1 x0 x1 x2 xs0).2.2.1 S2048x16.size (by sl_kernel_rfl) y
/-- What case B leaves in the accumulator. -/
def sout7_B_0 (c : Dev nD) (i : grid7.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond7_0 i) (hc1 : ¬cond7_1 i)
    (x0 : Vec F S2048x2048 .bf16) (x1 : Vec F S2048x16 .bf16) (x2 : Vec F S2048x16 .f32) (xs0 : Vec F S2048x16 .f32) : Vec F S2048x16 .f32 :=
  VS7_0.read (Elt F) (VS7_0.writes (Elt F) VS7_0.junk (kernelRun7_B c i arg2 harg2 arg3 harg3 arg4 harg4 arg5 harg5 arg6 harg6 arg7 harg7 hc0 hc1 x0 x1 x2 xs0).2.2.1)

/-- Case C's pieces cover the f32 result block, -/
theorem cover7_C_3 (c : Dev nD) (i : grid7.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond7_0 i) (hc1 : cond7_1 i)
    (x0 : Vec F S2048x2048 .bf16) (x1 : Vec F S2048x16 .bf16) (x2 : Vec F S2048x16 .f32) (xs0 : Vec F S2048x16 .f32) (y : S2048x16.Idx) :
    ∃ pc ∈ (kernelRun7_C c i arg2 harg2 arg3 harg3 arg4 harg4 arg5 harg5 arg6 harg6 arg7 harg7 hc0 hc1 x0 x1 x2 xs0).1, y ∈ pc.1.set :=
  View.cover_of_tiledL (kernelRun7_C c i arg2 harg2 arg3 harg3 arg4 harg4 arg5 harg5 arg6 harg6 arg7 harg7 hc0 hc1 x0 x1 x2 xs0).1 S2048x16.size (by sl_kernel_rfl) y
/-- the bf16 result block, -/
theorem cover7_C_4 (c : Dev nD) (i : grid7.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond7_0 i) (hc1 : cond7_1 i)
    (x0 : Vec F S2048x2048 .bf16) (x1 : Vec F S2048x16 .bf16) (x2 : Vec F S2048x16 .f32) (xs0 : Vec F S2048x16 .f32) (y : S2048x16.Idx) :
    ∃ pc ∈ (kernelRun7_C c i arg2 harg2 arg3 harg3 arg4 harg4 arg5 harg5 arg6 harg6 arg7 harg7 hc0 hc1 x0 x1 x2 xs0).2.1, y ∈ pc.1.set :=
  View.cover_of_tiledL (kernelRun7_C c i arg2 harg2 arg3 harg3 arg4 harg4 arg5 harg5 arg6 harg6 arg7 harg7 hc0 hc1 x0 x1 x2 xs0).2.1 S2048x16.size (by sl_kernel_rfl) y
/-- and the accumulator. -/
theorem scover7_C_0 (c : Dev nD) (i : grid7.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond7_0 i) (hc1 : cond7_1 i)
    (x0 : Vec F S2048x2048 .bf16) (x1 : Vec F S2048x16 .bf16) (x2 : Vec F S2048x16 .f32) (xs0 : Vec F S2048x16 .f32) (y : S2048x16.Idx) :
    ∃ pc ∈ (kernelRun7_C c i arg2 harg2 arg3 harg3 arg4 harg4 arg5 harg5 arg6 harg6 arg7 harg7 hc0 hc1 x0 x1 x2 xs0).2.2.1, y ∈ pc.1.set :=
  View.cover_of_tiledL (kernelRun7_C c i arg2 harg2 arg3 harg3 arg4 harg4 arg5 harg5 arg6 harg6 arg7 harg7 hc0 hc1 x0 x1 x2 xs0).2.2.1 S2048x16.size (by sl_kernel_rfl) y
/-- What case C leaves in the f32 result block, -/
def out7_C_3 (c : Dev nD) (i : grid7.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond7_0 i) (hc1 : cond7_1 i)
    (x0 : Vec F S2048x2048 .bf16) (x1 : Vec F S2048x16 .bf16) (x2 : Vec F S2048x16 .f32) (xs0 : Vec F S2048x16 .f32) : Vec F S2048x16 .f32 :=
  VO7_3.read (Elt F) (VO7_3.writes (Elt F) VO7_3.junk (kernelRun7_C c i arg2 harg2 arg3 harg3 arg4 harg4 arg5 harg5 arg6 harg6 arg7 harg7 hc0 hc1 x0 x1 x2 xs0).1)
/-- in the bf16 result block, -/
def out7_C_4 (c : Dev nD) (i : grid7.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond7_0 i) (hc1 : cond7_1 i)
    (x0 : Vec F S2048x2048 .bf16) (x1 : Vec F S2048x16 .bf16) (x2 : Vec F S2048x16 .f32) (xs0 : Vec F S2048x16 .f32) : Vec F S2048x16 .bf16 :=
  VO7_4.read (Elt F) (VO7_4.writes (Elt F) VO7_4.junk (kernelRun7_C c i arg2 harg2 arg3 harg3 arg4 harg4 arg5 harg5 arg6 harg6 arg7 harg7 hc0 hc1 x0 x1 x2 xs0).2.1)
/-- and in the accumulator. -/
def sout7_C_0 (c : Dev nD) (i : grid7.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond7_0 i) (hc1 : cond7_1 i)
    (x0 : Vec F S2048x2048 .bf16) (x1 : Vec F S2048x16 .bf16) (x2 : Vec F S2048x16 .f32) (xs0 : Vec F S2048x16 .f32) : Vec F S2048x16 .f32 :=
  VS7_0.read (Elt F) (VS7_0.writes (Elt F) VS7_0.junk (kernelRun7_C c i arg2 harg2 arg3 harg3 arg4 harg4 arg5 harg5 arg6 harg6 arg7 harg7 hc0 hc1 x0 x1 x2 xs0).2.2.1)

/-- What the two result blocks' staging buffers and the accumulator hold after the body at position `n`: the case
    the position selects, run at the point's blocks, cases B and C over the accumulator the point before left. -/
def outsAt7 (c : Dev nD) : (n : ℕ) → n < cfg7.N → Vec F S2048x16 .f32 × Vec F S2048x16 .bf16 × Vec F S2048x16 .f32
  | 0, hn => ((VO7_3.read (Elt F) VO7_3.junk), (VO7_4.read (Elt F) VO7_4.junk), sout7_A_0 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) scM7_0 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩) (iblk7 V c 2 ⟨0, hn⟩))
  | n + 1, hn =>
    if h0 : (n + 1) % 8 = 0 then
      if h1 : (n + 1) % 8 = 7 then
        False.elim (by omega)
      else
        ((VO7_3.read (Elt F) VO7_3.junk), (VO7_4.read (Elt F) VO7_4.junk), sout7_A_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) scM7_0 (Memref.isWhole_whole _) ((hcond7_0 ⟨n + 1, hn⟩).mpr h0) (fun h => h1 ((hcond7_1 ⟨n + 1, hn⟩).mp h)) (iblk7 V c 0 ⟨n + 1, hn⟩) (iblk7 V c 1 ⟨n + 1, hn⟩) (iblk7 V c 2 ⟨n + 1, hn⟩))
    else
      if h1 : (n + 1) % 8 = 7 then
        (out7_C_3 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) scM7_0 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (outsAt7 c n (Nat.lt_of_succ_lt hn)).2.2, out7_C_4 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) scM7_0 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (outsAt7 c n (Nat.lt_of_succ_lt hn)).2.2, sout7_C_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) scM7_0 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (outsAt7 c n (Nat.lt_of_succ_lt hn)).2.2)
      else
        ((VO7_3.read (Elt F) VO7_3.junk), (VO7_4.read (Elt F) VO7_4.junk), sout7_B_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) scM7_0 (Memref.isWhole_whole _) (fun h => h0 ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (outsAt7 c n (Nat.lt_of_succ_lt hn)).2.2)

theorem outsAt7_A (c : Dev nD) (t : Fin cfg7.N) (h0 : t.val % 8 = 0) (h1 : ¬t.val % 8 = 7) :
    outsAt7 V c t.val t.isLt = ((VO7_3.read (Elt F) VO7_3.junk), (VO7_4.read (Elt F) VO7_4.junk), sout7_A_0 c (grid7.coords t) (ms7_0 t) (hs7_0 t) (ms7_1 t) (hs7_1 t) (ms7_2 t) (hs7_2 t) (ms7_3 t) (hs7_3 t) (ms7_4 t) (hs7_4 t) scM7_0 (Memref.isWhole_whole _) ((hcond7_0 t).mpr h0) (fun h => h1 ((hcond7_1 t).mp h)) (iblk7 V c 0 t) (iblk7 V c 1 t) (iblk7 V c 2 t)) := by
  obtain ⟨n, hn⟩ := t
  cases n with
  | zero => exact rfl
  | succ n => exact (dif_pos h0).trans ((dif_neg h1).trans rfl)

theorem outsAt7_B (c : Dev nD) (t : Fin cfg7.N) (h0 : ¬t.val % 8 = 0) (h1 : ¬t.val % 8 = 7) :
    outsAt7 V c t.val t.isLt = ((VO7_3.read (Elt F) VO7_3.junk), (VO7_4.read (Elt F) VO7_4.junk), sout7_B_0 c (grid7.coords t) (ms7_0 t) (hs7_0 t) (ms7_1 t) (hs7_1 t) (ms7_2 t) (hs7_2 t) (ms7_3 t) (hs7_3 t) (ms7_4 t) (hs7_4 t) scM7_0 (Memref.isWhole_whole _) (fun h => h0 ((hcond7_0 t).mp h)) (fun h => h1 ((hcond7_1 t).mp h)) (iblk7 V c 0 t) (iblk7 V c 1 t) (iblk7 V c 2 t) (outsAt7 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt7_C (c : Dev nD) (t : Fin cfg7.N) (h0 : ¬t.val % 8 = 0) (h1 : t.val % 8 = 7) :
    outsAt7 V c t.val t.isLt = (out7_C_3 c (grid7.coords t) (ms7_0 t) (hs7_0 t) (ms7_1 t) (hs7_1 t) (ms7_2 t) (hs7_2 t) (ms7_3 t) (hs7_3 t) (ms7_4 t) (hs7_4 t) scM7_0 (Memref.isWhole_whole _) (fun h => h0 ((hcond7_0 t).mp h)) ((hcond7_1 t).mpr h1) (iblk7 V c 0 t) (iblk7 V c 1 t) (iblk7 V c 2 t) (outsAt7 V c (t.val - 1) (Nat.lt_of_le_of_lt (Nat.sub_le _ _) t.isLt)).2.2, out7_C_4 c (grid7.coords t) (ms7_0 t) (hs7_0 t) (ms7_1 t) (hs7_1 t) (ms7_2 t) (hs7_2 t) (ms7_3 t) (hs7_3 t) (ms7_4 t) (hs7_4 t) scM7_0 (Memref.isWhole_whole _) (fun h => h0 ((hcond7_0 t).mp h)) ((hcond7_1 t).mpr h1) (iblk7 V c 0 t) (iblk7 V c 1 t) (iblk7 V c 2 t) (outsAt7 V c (t.val - 1) (Nat.lt_of_le_of_lt (Nat.sub_le _ _) t.isLt)).2.2, sout7_C_0 c (grid7.coords t) (ms7_0 t) (hs7_0 t) (ms7_1 t) (hs7_1 t) (ms7_2 t) (hs7_2 t) (ms7_3 t) (hs7_3 t) (ms7_4 t) (hs7_4 t) scM7_0 (Memref.isWhole_whole _) (fun h => h0 ((hcond7_0 t).mp h)) ((hcond7_1 t).mpr h1) (iblk7 V c 0 t) (iblk7 V c 1 t) (iblk7 V c 2 t) (outsAt7 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The scoped buffers of the program other than this region's staging buffers and its accumulator. -/
abbrev RB7 (c : Dev nD) : sProp 𝕄 :=
  Pipeline.scopedRestBut (Ix := Unit) (Name := ℕ) (U := UR sig nD τ) (Lvl := ℕ) (Val := Elt F) spec7 c [cc7_scratch0]

/-- The region invariant before position `n`: at the first point every scoped buffer outside the staging buffers at
    anything; afterwards the accumulator at what the point before left in it. -/
def PhiS7 (c : Dev nD) : (n : ℕ) → n ≤ cfg7.N → sProp 𝕄
  | 0, _ => Pipeline.ΦA spec7 c
  | n + 1, hn => iprop((iprop(owns (c : Thread nD τ) scM7_0 fullShare ((outsAt7 V c n hn).2.2)) ∗ RB7 c) ∗ (∃ r, prngReg c r))

theorem PhiS7_zero (c : Dev nD) (n : ℕ) (h : n ≤ cfg7.N) (hz : n = 0) : PhiS7 V c n h = Pipeline.ΦA spec7 c := by
  subst hz; rfl
theorem PhiS7_succ (c : Dev nD) (n : ℕ) (hn : n < cfg7.N) :
    PhiS7 V c (n + 1) hn = iprop((iprop(owns (c : Thread nD τ) scM7_0 fullShare ((outsAt7 V c n hn).2.2)) ∗ RB7 c) ∗ (∃ r, prngReg c r)) := rfl
theorem PhiS7_pos (c : Dev nD) (n : ℕ) (h : n ≤ cfg7.N) (hz : n ≠ 0) :
    PhiS7 V c n h = iprop((iprop(owns (c : Thread nD τ) scM7_0 fullShare ((outsAt7 V c (n - 1) (by omega)).2.2)) ∗ RB7 c) ∗ (∃ r, prngReg c r)) := by
  cases n with
  | zero => exact absurd rfl hz
  | succ n => rfl

/-- The first point's invariant with the accumulator split out, owned at some contents. -/
theorem PhiA7_eq (c : Dev nD) :
    (Pipeline.ΦA spec7 c : sProp 𝕄)
      = iprop((iprop((∃ d, owns (c : Thread nD τ) scM7_0 fullShare d)) ∗ RB7 c) ∗ (∃ r, prngReg c r)) := by
  unfold Pipeline.ΦA; rw [scopedRest7_split]; simp only [scM7_0, owns_whole]; try rfl

/-- The proof data of region 7's pipeline on core `c`: the arrays as the region finds them; after the body at
    point `t` each input's buffer at its block and the results' at `outsAt7`; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => (outsAt7 V c t.val t.isLt).1
    | ⟨4, _⟩ => (outsAt7 V c t.val t.isLt).2.1
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]
theorem PhiS7_castSucc (c : Dev nD) (t : Fin cfg7.N) :
    (dat7 V c).Φ t.castSucc = PhiS7 V c t.val (Nat.le_of_lt t.isLt) := by
  dsimp only [dat7]; simp only [Fin.coe_castSucc]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = (outsAt7 V c t.val t.isLt).1 := by dsimp only [dat7]
theorem after7_4 (c : Dev nD) (t : Fin cfg7.N) : (dat7 V c).after 4 t = (outsAt7 V c t.val t.isLt).2.1 := by dsimp only [dat7]
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-- What the body is called with at point `t`, -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d)))
/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t)

set_option maxHeartbeats 8000000 in
/-- The body at any point: the inputs' buffers hold their blocks; the position says which case the point is in; the
    invariant hands the body the accumulator at what the point before left (at anything at the first point) and takes
    it back at this point's contents; the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).owesAt () t.succ = (dat7 V c).owesAt () t.castSucc from rfl]
  rw [show (dat7 V c).Φ t.succ = PhiS7 V c (t.val + 1) t.isLt from rfl, PhiS7_succ]
  have hN : t.val < 64 := lt_of_lt_of_eq t.isLt (show cfg7.N = 64 from N_7)
  rw [show (dat7 V c).leavesExact 0 t = owns (c : Thread nD τ) (ms7_0 t) fullShare ((dat7 V c).after 0 t) from by
      unfold Dat.leavesExact; rw [liveAt7_0 t], after7_0]
  rw [show (dat7 V c).leavesExact 1 t = owns (c : Thread nD τ) (ms7_1 t) fullShare ((dat7 V c).after 1 t) from by
      unfold Dat.leavesExact; rw [liveAt7_1 t], after7_1]
  rw [show (dat7 V c).leavesExact 2 t = owns (c : Thread nD τ) (ms7_2 t) fullShare ((dat7 V c).after 2 t) from by
      unfold Dat.leavesExact; rw [liveAt7_2 t], after7_2]
  by_cases h0 : t.val % 8 = 0
  · have h1 : ¬t.val % 8 = 7 := by omega
    rw [Dat.leavesExact_idle (dat7 V c) 3 t (idleAt7_3 t (fun h => h1 ((hcond7_1 t).mp h))) (noFlush7_3 t (fun h => h1 ((hcond7_1 t).mp h)))]
    rw [Dat.leavesExact_idle (dat7 V c) 4 t (idleAt7_4 t (fun h => h1 ((hcond7_1 t).mp h))) (noFlush7_4 t (fun h => h1 ((hcond7_1 t).mp h)))]
    rw [outsAt7_A V c t h0 h1]
    unfold sout7_A_0; (try dsimp only)
    by_cases hz : t.val = 0
    · rw [PhiS7_castSucc V c t, PhiS7_zero V c _ _ hz, PhiA7_eq]
      iintro ⟨⟨⟨HS0, HR⟩, Hg⟩, Ho, ⟨%d0, H0⟩, ⟨%d1, H1⟩, ⟨%d2, H2⟩, ⟨%d3, H3⟩, ⟨%d4, H4⟩⟩
      iapply ((kernelRun7_A c (grid7.coords t) _ _ _ _ _ _ _ _ _ _ _ _ ((hcond7_0 t).mpr h0) (fun h => h1 ((hcond7_1 t).mp h)) (iblk7 V c 0 t) (iblk7 V c 1 t) (iblk7 V c 2 t)).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover7_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
    · rw [PhiS7_castSucc V c t, PhiS7_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun7_A c (grid7.coords t) _ _ _ _ _ _ _ _ _ _ _ _ ((hcond7_0 t).mpr h0) (fun h => h1 ((hcond7_1 t).mp h)) (iblk7 V c 0 t) (iblk7 V c 1 t) (iblk7 V c 2 t)).2.2.2 _ _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover7_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun h => h0 (by rw [h])
    by_cases h1 : t.val % 8 = 7
    · rw [show (dat7 V c).leavesExact 3 t = owns (c : Thread nD τ) (ms7_3 t) fullShare ((dat7 V c).after 3 t) from by
        unfold Dat.leavesExact; rw [liveAt7_3 t ((hcond7_1 t).mpr h1)], after7_3]
      rw [show (dat7 V c).leavesExact 4 t = owns (c : Thread nD τ) (ms7_4 t) fullShare ((dat7 V c).after 4 t) from by
        unfold Dat.leavesExact; rw [liveAt7_4 t ((hcond7_1 t).mpr h1)], after7_4]
      rw [outsAt7_C V c t h0 h1]
      unfold out7_C_3 out7_C_4 sout7_C_0; (try dsimp only)
      rw [PhiS7_castSucc V c t, PhiS7_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun7_C c (grid7.coords t) _ _ _ _ _ _ _ _ _ _ _ _ (fun h => h0 ((hcond7_0 t).mp h)) ((hcond7_1 t).mpr h1) (iblk7 V c 0 t) (iblk7 V c 1 t) (iblk7 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover7_C_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover7_C_3 c _ _ _ _ _ _ _ _ _ _ _ _ _ _ _ _ _ _ _)
      unfold owns; iexists _; isplitr
      swap; · iexact H4
      ipureintro; exact View.read_writes_of_cover _ _ _ _ _ (cover7_C_4 c _ _ _ _ _ _ _ _ _ _ _ _ _ _ _ _ _ _ _)
    · rw [Dat.leavesExact_idle (dat7 V c) 3 t (idleAt7_3 t (fun h => h1 ((hcond7_1 t).mp h))) (noFlush7_3 t (fun h => h1 ((hcond7_1 t).mp h)))]
      rw [Dat.leavesExact_idle (dat7 V c) 4 t (idleAt7_4 t (fun h => h1 ((hcond7_1 t).mp h))) (noFlush7_4 t (fun h => h1 ((hcond7_1 t).mp h)))]
      rw [outsAt7_B V c t h0 h1]
      unfold sout7_B_0; (try dsimp only)
      rw [PhiS7_castSucc V c t, PhiS7_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun7_B c (grid7.coords t) _ _ _ _ _ _ _ _ _ _ _ _ (fun h => h0 ((hcond7_0 t).mp h)) (fun h => h1 ((hcond7_1 t).mp h)) (iblk7 V c 0 t) (iblk7 V c 1 t) (iblk7 V c 2 t) _).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover7_B_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4

/-- The body obligation of region 7, at every point. -/
theorem body_obligation7 (c : Dev nD) : BodyObligation (dat7 (F := F) V c) (defs₀ (F := F)) Variants.none () Set.univ := fun t => by
  rw [bigSep_W7, bigSep_W7]
  exact sound_body7 V c t

/-- What the region is entered with is the invariant before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After the last point the invariant gives the scoped buffers back: what the accumulator holds is forgotten. -/
theorem hout7 (c : Dev nD) : (dat7 V c).Φ (Fin.last cfg7.N) ⊢ Pipeline.ΦA spec7 c := by
  have ht : (Fin.last cfg7.N).val ≠ 0 := by rw [Fin.val_last]; have : cfg7.N = 64 := N_7; omega
  rw [show (dat7 V c).Φ (Fin.last cfg7.N) = PhiS7 V c (Fin.last cfg7.N).val (Nat.le_of_lt_succ (Fin.last cfg7.N).isLt) from rfl,
    PhiS7_pos V c _ _ ht, PhiA7_eq]
  iintro ⟨⟨HS0, HR⟩, Hg⟩
  isplitl [HS0 HR]
  · isplitl [HS0]
    · iexists _; iexact HS0
    iexact HR
  iexact Hg

end Cert.Kernel.Hand

end
-- ==== Proof.RegB8Run.lean ====
/-
  Region 8 of the program (the recurrence step 2·(Ls·T) − T′): the kernel body run once per control case.
  The grid is 8 × 8; a point t = 8·r + k handles row block r and column block k of Ls. The body zeroes the
  accumulator when k = 0 (case A), adds the block product Ls[r,k]·v[k] to it at every point, and when k = 7
  (case C) stores the combination of the accumulator and the block of the earlier vector into both result
  blocks; at 0 < k < 7 (case B) it only accumulates. Each run states what the body's stores leave in the
  accumulator and in the result blocks, as the list of stored pieces.
-/
import proofs.«108570_j29480655520371_2_alg».proof.Proof.Gen.Kernel.Launch
import proofs.«108570_j29480655520371_2_alg».proof.Proof.Gen.Kernel.Skeleton
import proofs.«108570_j29480655520371_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- Input window 1's current staging buffer holds its block at every point, fetched there or not. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
/-- Input window 2's current staging buffer holds its block at every point, fetched there or not. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- k = 0: the accumulator is zeroed first. -/
abbrev cond8_0 (i : grid8.Coords) : Prop := (Scalar.cmpi .ne (Scalar.extui (Scalar.cmpi .eq (BitVec.ofNat 32 (i 1).val) 0#32)) 0#32) = 1#1
theorem hcond8_0 : ∀ t : Fin cfg8.N, cond8_0 (grid8.coords t) ↔ t.val % 8 = 0 :=
  (by decide +kernel : ∀ t : Fin grid8.N, cond8_0 (grid8.coords t) ↔ t.val % 8 = 0)
/-- k = 7: the results are stored. -/
abbrev cond8_1 (i : grid8.Coords) : Prop := k8_cond2 i = 1#1
theorem hcond8_1 : ∀ t : Fin cfg8.N, cond8_1 (grid8.coords t) ↔ t.val % 8 = 7 :=
  (by decide +kernel : ∀ t : Fin grid8.N, cond8_1 (grid8.coords t) ↔ t.val % 8 = 7)

theorem liveAt8_0 : ∀ t : Fin cfg8.N, cfg8.idle 0 (grid8.coords t) = false := by decide +kernel
theorem liveAt8_1 : ∀ t : Fin cfg8.N, cfg8.idle 1 (grid8.coords t) = false := by decide +kernel
theorem liveAt8_2 : ∀ t : Fin cfg8.N, cfg8.idle 2 (grid8.coords t) = false := by decide +kernel
theorem idleAt8_3 : ∀ t : Fin cfg8.N, ¬cond8_1 (grid8.coords t) → cfg8.idle 3 (grid8.coords t) = true := by decide +kernel
theorem noFlush8_3 : ∀ t : Fin cfg8.N, ¬cond8_1 (grid8.coords t) → (cfg8.win 3).flush t = false := by decide +kernel
theorem liveAt8_3 : ∀ t : Fin cfg8.N, cond8_1 (grid8.coords t) → cfg8.idle 3 (grid8.coords t) = false := by decide +kernel
theorem idleAt8_4 : ∀ t : Fin cfg8.N, ¬cond8_1 (grid8.coords t) → cfg8.idle 4 (grid8.coords t) = true := by decide +kernel
theorem noFlush8_4 : ∀ t : Fin cfg8.N, ¬cond8_1 (grid8.coords t) → (cfg8.win 4).flush t = false := by decide +kernel
theorem liveAt8_4 : ∀ t : Fin cfg8.N, cond8_1 (grid8.coords t) → cfg8.idle 4 (grid8.coords t) = false := by decide +kernel

/-- One staging buffer of each result window, through which its contents are stated. -/
abbrev VO8_3 : View sig .tc .vmem S2048x16 .f32 := (Memref.whole cc8_stg3_0 : Memref sig .tc .vmem S2048x16 .f32).view
abbrev VO8_4 : View sig .tc .vmem S2048x16 .bf16 := (Memref.whole cc8_stg4_0 : Memref sig .tc .vmem S2048x16 .bf16).view
abbrev ms8_0 (t : Fin cfg8.N) : Memref sig .tc .vmem S2048x2048 .bf16 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S2048x16 .bf16 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S2048x16 .f32 := win8_2.stage (cfg8.slots t 2)
abbrev hs8_2 (t : Fin cfg8.N) : (ms8_2 t).IsWhole := hstage8_2 ((cfg8.slots t 2).cast nbuf8_2)
abbrev ms8_3 (t : Fin cfg8.N) : Memref sig .tc .vmem S2048x16 .f32 := win8_3.stage (cfg8.slots t 3)
abbrev hs8_3 (t : Fin cfg8.N) : (ms8_3 t).IsWhole := hstage8_3 ((cfg8.slots t 3).cast nbuf8_3)
abbrev ms8_4 (t : Fin cfg8.N) : Memref sig .tc .vmem S2048x16 .bf16 := win8_4.stage (cfg8.slots t 4)
abbrev hs8_4 (t : Fin cfg8.N) : (ms8_4 t).IsWhole := hstage8_4 ((cfg8.slots t 4).cast nbuf8_4)
/-- The accumulator: a whole scoped buffer of the kernel's own. -/
abbrev scM8_0 : Memref sig .tc .vmem S2048x16 .f32 := Memref.whole cc8_scratch0
abbrev VS8_0 : View sig .tc .vmem S2048x16 .f32 := scM8_0.view

set_option maxHeartbeats 4000000 in
/-- Case A (k = 0): the accumulator, at anything, is zeroed and then receives the first block product; the result
    blocks are handed back untouched. -/
noncomputable def kernelRun8_A (c : Dev nD) (i : grid8.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond8_0 i) (hc1 : ¬cond8_1 i)
    (x0 : Vec F S2048x2048 .bf16) (x1 : Vec F S2048x16 .bf16) (x2 : Vec F S2048x16 .f32) :
    Σ' (L3 : List (View.Piece (Elt F) S2048x16 .f32)) (L4 : List (View.Piece (Elt F) S2048x16 .bf16)), { LS0 : List (View.Piece (Elt F) S2048x16 .f32) //
      ∀ (xi3 : Vec F S2048x16 .f32) (xi4 : Vec F S2048x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc8__matmul_combine_kernel i arg2 harg2 arg3 harg3 arg4 harg4 arg5 harg5 arg6 harg6 arg7 harg7) K } := by
  refine ⟨[], [], ?_, fun xi3 xi4 E K => ?run⟩
  case run =>
    simp only [cc8__matmul_combine_kernel_eq_skeleton]; unfold cc8__matmul_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case B (0 < k < 7): the accumulator, at what the point before left, receives one more block product; the result
    blocks are handed back untouched. -/
noncomputable def kernelRun8_B (c : Dev nD) (i : grid8.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond8_0 i) (hc1 : ¬cond8_1 i)
    (x0 : Vec F S2048x2048 .bf16) (x1 : Vec F S2048x16 .bf16) (x2 : Vec F S2048x16 .f32) (xs0 : Vec F S2048x16 .f32) :
    Σ' (L3 : List (View.Piece (Elt F) S2048x16 .f32)) (L4 : List (View.Piece (Elt F) S2048x16 .bf16)), { LS0 : List (View.Piece (Elt F) S2048x16 .f32) //
      ∀ (xi3 : Vec F S2048x16 .f32) (xi4 : Vec F S2048x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc8__matmul_combine_kernel i arg2 harg2 arg3 harg3 arg4 harg4 arg5 harg5 arg6 harg6 arg7 harg7) K } := by
  refine ⟨[], [], ?_, fun xi3 xi4 E K => ?run⟩
  case run =>
    simp only [cc8__matmul_combine_kernel_eq_skeleton]; unfold cc8__matmul_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case C (k = 7): the accumulator receives the last block product, and both result blocks, at anything, are stored
    whole with the combination of the accumulator and the block of the earlier vector. -/
noncomputable def kernelRun8_C (c : Dev nD) (i : grid8.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond8_0 i) (hc1 : cond8_1 i)
    (x0 : Vec F S2048x2048 .bf16) (x1 : Vec F S2048x16 .bf16) (x2 : Vec F S2048x16 .f32) (xs0 : Vec F S2048x16 .f32) :
    Σ' (L3 : List (View.Piece (Elt F) S2048x16 .f32)) (L4 : List (View.Piece (Elt F) S2048x16 .bf16)), { LS0 : List (View.Piece (Elt F) S2048x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc8__matmul_combine_kernel i arg2 harg2 arg3 harg3 arg4 harg4 arg5 harg5 arg6 harg6 arg7 harg7) K } := by
  refine ⟨?_, ?_, ?_, fun E K => ?run⟩
  case run =>
    simp only [cc8__matmul_combine_kernel_eq_skeleton]; unfold cc8__matmul_combine_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.Kernel.Hand

end
-- ==== Proof.RegB8Frame.lean ====
/-
  Region 8: what its result blocks and its accumulator hold after every grid point, the proof data of its pipeline,
  and the body obligation. After point t = 8·r + k the accumulator holds the sum of the block products
  Ls[r,0]·v[0] + … + Ls[r,k]·v[k] (case A starts it from zero, cases B and C continue from what the point before
  left); the result blocks are written at k = 7 only and written back to their arrays right after that point, so at
  the other points their staging buffers are idle and what they hold is never consulted.
-/
import proofs.«108570_j29480655520371_2_alg».proof.Proof.RegB8Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's piece for the accumulator covers it. -/
theorem scover8_A_0 (c : Dev nD) (i : grid8.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond8_0 i) (hc1 : ¬cond8_1 i)
    (x0 : Vec F S2048x2048 .bf16) (x1 : Vec F S2048x16 .bf16) (x2 : Vec F S2048x16 .f32) (y : S2048x16.Idx) :
    ∃ pc ∈ (kernelRun8_A c i arg2 harg2 arg3 harg3 arg4 harg4 arg5 harg5 arg6 harg6 arg7 harg7 hc0 hc1 x0 x1 x2).2.2.1, y ∈ pc.1.set :=
  View.cover_of_tiledL (kernelRun8_A c i arg2 harg2 arg3 harg3 arg4 harg4 arg5 harg5 arg6 harg6 arg7 harg7 hc0 hc1 x0 x1 x2).2.2.1 S2048x16.size (by sl_kernel_rfl) y
/-- What case A leaves in the accumulator. -/
def sout8_A_0 (c : Dev nD) (i : grid8.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond8_0 i) (hc1 : ¬cond8_1 i)
    (x0 : Vec F S2048x2048 .bf16) (x1 : Vec F S2048x16 .bf16) (x2 : Vec F S2048x16 .f32) : Vec F S2048x16 .f32 :=
  VS8_0.read (Elt F) (VS8_0.writes (Elt F) VS8_0.junk (kernelRun8_A c i arg2 harg2 arg3 harg3 arg4 harg4 arg5 harg5 arg6 harg6 arg7 harg7 hc0 hc1 x0 x1 x2).2.2.1)

/-- Case B's piece for the accumulator covers it. -/
theorem scover8_B_0 (c : Dev nD) (i : grid8.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond8_0 i) (hc1 : ¬cond8_1 i)
    (x0 : Vec F S2048x2048 .bf16) (x1 : Vec F S2048x16 .bf16) (x2 : Vec F S2048x16 .f32) (xs0 : Vec F S2048x16 .f32) (y : S2048x16.Idx) :
    ∃ pc ∈ (kernelRun8_B c i arg2 harg2 arg3 harg3 arg4 harg4 arg5 harg5 arg6 harg6 arg7 harg7 hc0 hc1 x0 x1 x2 xs0).2.2.1, y ∈ pc.1.set :=
  View.cover_of_tiledL (kernelRun8_B c i arg2 harg2 arg3 harg3 arg4 harg4 arg5 harg5 arg6 harg6 arg7 harg7 hc0 hc1 x0 x1 x2 xs0).2.2.1 S2048x16.size (by sl_kernel_rfl) y
/-- What case B leaves in the accumulator. -/
def sout8_B_0 (c : Dev nD) (i : grid8.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond8_0 i) (hc1 : ¬cond8_1 i)
    (x0 : Vec F S2048x2048 .bf16) (x1 : Vec F S2048x16 .bf16) (x2 : Vec F S2048x16 .f32) (xs0 : Vec F S2048x16 .f32) : Vec F S2048x16 .f32 :=
  VS8_0.read (Elt F) (VS8_0.writes (Elt F) VS8_0.junk (kernelRun8_B c i arg2 harg2 arg3 harg3 arg4 harg4 arg5 harg5 arg6 harg6 arg7 harg7 hc0 hc1 x0 x1 x2 xs0).2.2.1)

/-- Case C's pieces cover the f32 result block, -/
theorem cover8_C_3 (c : Dev nD) (i : grid8.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond8_0 i) (hc1 : cond8_1 i)
    (x0 : Vec F S2048x2048 .bf16) (x1 : Vec F S2048x16 .bf16) (x2 : Vec F S2048x16 .f32) (xs0 : Vec F S2048x16 .f32) (y : S2048x16.Idx) :
    ∃ pc ∈ (kernelRun8_C c i arg2 harg2 arg3 harg3 arg4 harg4 arg5 harg5 arg6 harg6 arg7 harg7 hc0 hc1 x0 x1 x2 xs0).1, y ∈ pc.1.set :=
  View.cover_of_tiledL (kernelRun8_C c i arg2 harg2 arg3 harg3 arg4 harg4 arg5 harg5 arg6 harg6 arg7 harg7 hc0 hc1 x0 x1 x2 xs0).1 S2048x16.size (by sl_kernel_rfl) y
/-- the bf16 result block, -/
theorem cover8_C_4 (c : Dev nD) (i : grid8.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond8_0 i) (hc1 : cond8_1 i)
    (x0 : Vec F S2048x2048 .bf16) (x1 : Vec F S2048x16 .bf16) (x2 : Vec F S2048x16 .f32) (xs0 : Vec F S2048x16 .f32) (y : S2048x16.Idx) :
    ∃ pc ∈ (kernelRun8_C c i arg2 harg2 arg3 harg3 arg4 harg4 arg5 harg5 arg6 harg6 arg7 harg7 hc0 hc1 x0 x1 x2 xs0).2.1, y ∈ pc.1.set :=
  View.cover_of_tiledL (kernelRun8_C c i arg2 harg2 arg3 harg3 arg4 harg4 arg5 harg5 arg6 harg6 arg7 harg7 hc0 hc1 x0 x1 x2 xs0).2.1 S2048x16.size (by sl_kernel_rfl) y
/-- and the accumulator. -/
theorem scover8_C_0 (c : Dev nD) (i : grid8.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond8_0 i) (hc1 : cond8_1 i)
    (x0 : Vec F S2048x2048 .bf16) (x1 : Vec F S2048x16 .bf16) (x2 : Vec F S2048x16 .f32) (xs0 : Vec F S2048x16 .f32) (y : S2048x16.Idx) :
    ∃ pc ∈ (kernelRun8_C c i arg2 harg2 arg3 harg3 arg4 harg4 arg5 harg5 arg6 harg6 arg7 harg7 hc0 hc1 x0 x1 x2 xs0).2.2.1, y ∈ pc.1.set :=
  View.cover_of_tiledL (kernelRun8_C c i arg2 harg2 arg3 harg3 arg4 harg4 arg5 harg5 arg6 harg6 arg7 harg7 hc0 hc1 x0 x1 x2 xs0).2.2.1 S2048x16.size (by sl_kernel_rfl) y
/-- What case C leaves in the f32 result block, -/
def out8_C_3 (c : Dev nD) (i : grid8.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond8_0 i) (hc1 : cond8_1 i)
    (x0 : Vec F S2048x2048 .bf16) (x1 : Vec F S2048x16 .bf16) (x2 : Vec F S2048x16 .f32) (xs0 : Vec F S2048x16 .f32) : Vec F S2048x16 .f32 :=
  VO8_3.read (Elt F) (VO8_3.writes (Elt F) VO8_3.junk (kernelRun8_C c i arg2 harg2 arg3 harg3 arg4 harg4 arg5 harg5 arg6 harg6 arg7 harg7 hc0 hc1 x0 x1 x2 xs0).1)
/-- in the bf16 result block, -/
def out8_C_4 (c : Dev nD) (i : grid8.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond8_0 i) (hc1 : cond8_1 i)
    (x0 : Vec F S2048x2048 .bf16) (x1 : Vec F S2048x16 .bf16) (x2 : Vec F S2048x16 .f32) (xs0 : Vec F S2048x16 .f32) : Vec F S2048x16 .bf16 :=
  VO8_4.read (Elt F) (VO8_4.writes (Elt F) VO8_4.junk (kernelRun8_C c i arg2 harg2 arg3 harg3 arg4 harg4 arg5 harg5 arg6 harg6 arg7 harg7 hc0 hc1 x0 x1 x2 xs0).2.1)
/-- and in the accumulator. -/
def sout8_C_0 (c : Dev nD) (i : grid8.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond8_0 i) (hc1 : cond8_1 i)
    (x0 : Vec F S2048x2048 .bf16) (x1 : Vec F S2048x16 .bf16) (x2 : Vec F S2048x16 .f32) (xs0 : Vec F S2048x16 .f32) : Vec F S2048x16 .f32 :=
  VS8_0.read (Elt F) (VS8_0.writes (Elt F) VS8_0.junk (kernelRun8_C c i arg2 harg2 arg3 harg3 arg4 harg4 arg5 harg5 arg6 harg6 arg7 harg7 hc0 hc1 x0 x1 x2 xs0).2.2.1)

/-- What the two result blocks' staging buffers and the accumulator hold after the body at position `n`: the case
    the position selects, run at the point's blocks, cases B and C over the accumulator the point before left. -/
def outsAt8 (c : Dev nD) : (n : ℕ) → n < cfg8.N → Vec F S2048x16 .f32 × Vec F S2048x16 .bf16 × Vec F S2048x16 .f32
  | 0, hn => ((VO8_3.read (Elt F) VO8_3.junk), (VO8_4.read (Elt F) VO8_4.junk), sout8_A_0 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) (ms8_4 ⟨0, hn⟩) (hs8_4 ⟨0, hn⟩) scM8_0 (Memref.isWhole_whole _) ((hcond8_0 ⟨0, hn⟩).mpr (Nat.zero_mod _)) (fun h => (fun h => by (try dsimp only at h); omega) ((hcond8_1 ⟨0, hn⟩).mp h)) (iblk8 V c 0 ⟨0, hn⟩) (iblk8 V c 1 ⟨0, hn⟩) (iblk8 V c 2 ⟨0, hn⟩))
  | n + 1, hn =>
    if h0 : (n + 1) % 8 = 0 then
      if h1 : (n + 1) % 8 = 7 then
        False.elim (by omega)
      else
        ((VO8_3.read (Elt F) VO8_3.junk), (VO8_4.read (Elt F) VO8_4.junk), sout8_A_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) scM8_0 (Memref.isWhole_whole _) ((hcond8_0 ⟨n + 1, hn⟩).mpr h0) (fun h => h1 ((hcond8_1 ⟨n + 1, hn⟩).mp h)) (iblk8 V c 0 ⟨n + 1, hn⟩) (iblk8 V c 1 ⟨n + 1, hn⟩) (iblk8 V c 2 ⟨n + 1, hn⟩))
    else
      if h1 : (n + 1) % 8 = 7 then
        (out8_C_3 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) scM8_0 (Memref.isWhole_whole _) (fun h => h0 ((hcond8_0 ⟨n + 1, hn⟩).mp h)) ((hcond8_1 ⟨n + 1, hn⟩).mpr h1) (iblk8 V c 0 ⟨n + 1, hn⟩) (iblk8 V c 1 ⟨n + 1, hn⟩) (iblk8 V c 2 ⟨n + 1, hn⟩) (outsAt8 c n (Nat.lt_of_succ_lt hn)).2.2, out8_C_4 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) scM8_0 (Memref.isWhole_whole _) (fun h => h0 ((hcond8_0 ⟨n + 1, hn⟩).mp h)) ((hcond8_1 ⟨n + 1, hn⟩).mpr h1) (iblk8 V c 0 ⟨n + 1, hn⟩) (iblk8 V c 1 ⟨n + 1, hn⟩) (iblk8 V c 2 ⟨n + 1, hn⟩) (outsAt8 c n (Nat.lt_of_succ_lt hn)).2.2, sout8_C_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) scM8_0 (Memref.isWhole_whole _) (fun h => h0 ((hcond8_0 ⟨n + 1, hn⟩).mp h)) ((hcond8_1 ⟨n + 1, hn⟩).mpr h1) (iblk8 V c 0 ⟨n + 1, hn⟩) (iblk8 V c 1 ⟨n + 1, hn⟩) (iblk8 V c 2 ⟨n + 1, hn⟩) (outsAt8 c n (Nat.lt_of_succ_lt hn)).2.2)
      else
        ((VO8_3.read (Elt F) VO8_3.junk), (VO8_4.read (Elt F) VO8_4.junk), sout8_B_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) scM8_0 (Memref.isWhole_whole _) (fun h => h0 ((hcond8_0 ⟨n + 1, hn⟩).mp h)) (fun h => h1 ((hcond8_1 ⟨n + 1, hn⟩).mp h)) (iblk8 V c 0 ⟨n + 1, hn⟩) (iblk8 V c 1 ⟨n + 1, hn⟩) (iblk8 V c 2 ⟨n + 1, hn⟩) (outsAt8 c n (Nat.lt_of_succ_lt hn)).2.2)

theorem outsAt8_A (c : Dev nD) (t : Fin cfg8.N) (h0 : t.val % 8 = 0) (h1 : ¬t.val % 8 = 7) :
    outsAt8 V c t.val t.isLt = ((VO8_3.read (Elt F) VO8_3.junk), (VO8_4.read (Elt F) VO8_4.junk), sout8_A_0 c (grid8.coords t) (ms8_0 t) (hs8_0 t) (ms8_1 t) (hs8_1 t) (ms8_2 t) (hs8_2 t) (ms8_3 t) (hs8_3 t) (ms8_4 t) (hs8_4 t) scM8_0 (Memref.isWhole_whole _) ((hcond8_0 t).mpr h0) (fun h => h1 ((hcond8_1 t).mp h)) (iblk8 V c 0 t) (iblk8 V c 1 t) (iblk8 V c 2 t)) := by
  obtain ⟨n, hn⟩ := t
  cases n with
  | zero => exact rfl
  | succ n => exact (dif_pos h0).trans ((dif_neg h1).trans rfl)

theorem outsAt8_B (c : Dev nD) (t : Fin cfg8.N) (h0 : ¬t.val % 8 = 0) (h1 : ¬t.val % 8 = 7) :
    outsAt8 V c t.val t.isLt = ((VO8_3.read (Elt F) VO8_3.junk), (VO8_4.read (Elt F) VO8_4.junk), sout8_B_0 c (grid8.coords t) (ms8_0 t) (hs8_0 t) (ms8_1 t) (hs8_1 t) (ms8_2 t) (hs8_2 t) (ms8_3 t) (hs8_3 t) (ms8_4 t) (hs8_4 t) scM8_0 (Memref.isWhole_whole _) (fun h => h0 ((hcond8_0 t).mp h)) (fun h => h1 ((hcond8_1 t).mp h)) (iblk8 V c 0 t) (iblk8 V c 1 t) (iblk8 V c 2 t) (outsAt8 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt8_C (c : Dev nD) (t : Fin cfg8.N) (h0 : ¬t.val % 8 = 0) (h1 : t.val % 8 = 7) :
    outsAt8 V c t.val t.isLt = (out8_C_3 c (grid8.coords t) (ms8_0 t) (hs8_0 t) (ms8_1 t) (hs8_1 t) (ms8_2 t) (hs8_2 t) (ms8_3 t) (hs8_3 t) (ms8_4 t) (hs8_4 t) scM8_0 (Memref.isWhole_whole _) (fun h => h0 ((hcond8_0 t).mp h)) ((hcond8_1 t).mpr h1) (iblk8 V c 0 t) (iblk8 V c 1 t) (iblk8 V c 2 t) (outsAt8 V c (t.val - 1) (Nat.lt_of_le_of_lt (Nat.sub_le _ _) t.isLt)).2.2, out8_C_4 c (grid8.coords t) (ms8_0 t) (hs8_0 t) (ms8_1 t) (hs8_1 t) (ms8_2 t) (hs8_2 t) (ms8_3 t) (hs8_3 t) (ms8_4 t) (hs8_4 t) scM8_0 (Memref.isWhole_whole _) (fun h => h0 ((hcond8_0 t).mp h)) ((hcond8_1 t).mpr h1) (iblk8 V c 0 t) (iblk8 V c 1 t) (iblk8 V c 2 t) (outsAt8 V c (t.val - 1) (Nat.lt_of_le_of_lt (Nat.sub_le _ _) t.isLt)).2.2, sout8_C_0 c (grid8.coords t) (ms8_0 t) (hs8_0 t) (ms8_1 t) (hs8_1 t) (ms8_2 t) (hs8_2 t) (ms8_3 t) (hs8_3 t) (ms8_4 t) (hs8_4 t) scM8_0 (Memref.isWhole_whole _) (fun h => h0 ((hcond8_0 t).mp h)) ((hcond8_1 t).mpr h1) (iblk8 V c 0 t) (iblk8 V c 1 t) (iblk8 V c 2 t) (outsAt8 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The scoped buffers of the program other than this region's staging buffers and its accumulator. -/
abbrev RB8 (c : Dev nD) : sProp 𝕄 :=
  Pipeline.scopedRestBut (Ix := Unit) (Name := ℕ) (U := UR sig nD τ) (Lvl := ℕ) (Val := Elt F) spec8 c [cc8_scratch0]

/-- The region invariant before position `n`: at the first point every scoped buffer outside the staging buffers at
    anything; afterwards the accumulator at what the point before left in it. -/
def PhiS8 (c : Dev nD) : (n : ℕ) → n ≤ cfg8.N → sProp 𝕄
  | 0, _ => Pipeline.ΦA spec8 c
  | n + 1, hn => iprop((iprop(owns (c : Thread nD τ) scM8_0 fullShare ((outsAt8 V c n hn).2.2)) ∗ RB8 c) ∗ (∃ r, prngReg c r))

theorem PhiS8_zero (c : Dev nD) (n : ℕ) (h : n ≤ cfg8.N) (hz : n = 0) : PhiS8 V c n h = Pipeline.ΦA spec8 c := by
  subst hz; rfl
theorem PhiS8_succ (c : Dev nD) (n : ℕ) (hn : n < cfg8.N) :
    PhiS8 V c (n + 1) hn = iprop((iprop(owns (c : Thread nD τ) scM8_0 fullShare ((outsAt8 V c n hn).2.2)) ∗ RB8 c) ∗ (∃ r, prngReg c r)) := rfl
theorem PhiS8_pos (c : Dev nD) (n : ℕ) (h : n ≤ cfg8.N) (hz : n ≠ 0) :
    PhiS8 V c n h = iprop((iprop(owns (c : Thread nD τ) scM8_0 fullShare ((outsAt8 V c (n - 1) (by omega)).2.2)) ∗ RB8 c) ∗ (∃ r, prngReg c r)) := by
  cases n with
  | zero => exact absurd rfl hz
  | succ n => rfl

/-- The first point's invariant with the accumulator split out, owned at some contents. -/
theorem PhiA8_eq (c : Dev nD) :
    (Pipeline.ΦA spec8 c : sProp 𝕄)
      = iprop((iprop((∃ d, owns (c : Thread nD τ) scM8_0 fullShare d)) ∗ RB8 c) ∗ (∃ r, prngReg c r)) := by
  unfold Pipeline.ΦA; rw [scopedRest8_split]; simp only [scM8_0, owns_whole]; try rfl

/-- The proof data of region 8's pipeline on core `c`: the arrays as the region finds them; after the body at
    point `t` each input's buffer at its block and the results' at `outsAt8`; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => (outsAt8 V c t.val t.isLt).1
    | ⟨4, _⟩ => (outsAt8 V c t.val t.isLt).2.1
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]
theorem PhiS8_castSucc (c : Dev nD) (t : Fin cfg8.N) :
    (dat8 V c).Φ t.castSucc = PhiS8 V c t.val (Nat.le_of_lt t.isLt) := by
  dsimp only [dat8]; simp only [Fin.coe_castSucc]
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = (outsAt8 V c t.val t.isLt).1 := by dsimp only [dat8]
theorem after8_4 (c : Dev nD) (t : Fin cfg8.N) : (dat8 V c).after 4 t = (outsAt8 V c t.val t.isLt).2.1 := by dsimp only [dat8]
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-- What the body is called with at point `t`, -/
def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d))
    ∗ (∃ d, owns (c : Thread nD τ) (ms8_4 t) fullShare ((dat8 V c).before 4 t d)))
/-- and what it returns. -/
def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t
    ∗ (dat8 V c).leavesExact 4 t)

set_option maxHeartbeats 8000000 in
/-- The body at any point: the inputs' buffers hold their blocks; the position says which case the point is in; the
    invariant hands the body the accumulator at what the point before left (at anything at the first point) and takes
    it back at this point's contents; the core owes nothing throughout. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).owesAt () t.succ = (dat8 V c).owesAt () t.castSucc from rfl]
  rw [show (dat8 V c).Φ t.succ = PhiS8 V c (t.val + 1) t.isLt from rfl, PhiS8_succ]
  have hN : t.val < 64 := lt_of_lt_of_eq t.isLt (show cfg8.N = 64 from N_8)
  rw [show (dat8 V c).leavesExact 0 t = owns (c : Thread nD τ) (ms8_0 t) fullShare ((dat8 V c).after 0 t) from by
      unfold Dat.leavesExact; rw [liveAt8_0 t], after8_0]
  rw [show (dat8 V c).leavesExact 1 t = owns (c : Thread nD τ) (ms8_1 t) fullShare ((dat8 V c).after 1 t) from by
      unfold Dat.leavesExact; rw [liveAt8_1 t], after8_1]
  rw [show (dat8 V c).leavesExact 2 t = owns (c : Thread nD τ) (ms8_2 t) fullShare ((dat8 V c).after 2 t) from by
      unfold Dat.leavesExact; rw [liveAt8_2 t], after8_2]
  by_cases h0 : t.val % 8 = 0
  · have h1 : ¬t.val % 8 = 7 := by omega
    rw [Dat.leavesExact_idle (dat8 V c) 3 t (idleAt8_3 t (fun h => h1 ((hcond8_1 t).mp h))) (noFlush8_3 t (fun h => h1 ((hcond8_1 t).mp h)))]
    rw [Dat.leavesExact_idle (dat8 V c) 4 t (idleAt8_4 t (fun h => h1 ((hcond8_1 t).mp h))) (noFlush8_4 t (fun h => h1 ((hcond8_1 t).mp h)))]
    rw [outsAt8_A V c t h0 h1]
    unfold sout8_A_0; (try dsimp only)
    by_cases hz : t.val = 0
    · rw [PhiS8_castSucc V c t, PhiS8_zero V c _ _ hz, PhiA8_eq]
      iintro ⟨⟨⟨HS0, HR⟩, Hg⟩, Ho, ⟨%d0, H0⟩, ⟨%d1, H1⟩, ⟨%d2, H2⟩, ⟨%d3, H3⟩, ⟨%d4, H4⟩⟩
      iapply ((kernelRun8_A c (grid8.coords t) _ _ _ _ _ _ _ _ _ _ _ _ ((hcond8_0 t).mpr h0) (fun h => h1 ((hcond8_1 t).mp h)) (iblk8 V c 0 t) (iblk8 V c 1 t) (iblk8 V c 2 t)).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover8_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
    · rw [PhiS8_castSucc V c t, PhiS8_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun8_A c (grid8.coords t) _ _ _ _ _ _ _ _ _ _ _ _ ((hcond8_0 t).mpr h0) (fun h => h1 ((hcond8_1 t).mp h)) (iblk8 V c 0 t) (iblk8 V c 1 t) (iblk8 V c 2 t)).2.2.2 _ _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover8_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun h => h0 (by rw [h])
    by_cases h1 : t.val % 8 = 7
    · rw [show (dat8 V c).leavesExact 3 t = owns (c : Thread nD τ) (ms8_3 t) fullShare ((dat8 V c).after 3 t) from by
        unfold Dat.leavesExact; rw [liveAt8_3 t ((hcond8_1 t).mpr h1)], after8_3]
      rw [show (dat8 V c).leavesExact 4 t = owns (c : Thread nD τ) (ms8_4 t) fullShare ((dat8 V c).after 4 t) from by
        unfold Dat.leavesExact; rw [liveAt8_4 t ((hcond8_1 t).mpr h1)], after8_4]
      rw [outsAt8_C V c t h0 h1]
      unfold out8_C_3 out8_C_4 sout8_C_0; (try dsimp only)
      rw [PhiS8_castSucc V c t, PhiS8_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun8_C c (grid8.coords t) _ _ _ _ _ _ _ _ _ _ _ _ (fun h => h0 ((hcond8_0 t).mp h)) ((hcond8_1 t).mpr h1) (iblk8 V c 0 t) (iblk8 V c 1 t) (iblk8 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover8_C_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover8_C_3 c _ _ _ _ _ _ _ _ _ _ _ _ _ _ _ _ _ _ _)
      unfold owns; iexists _; isplitr
      swap; · iexact H4
      ipureintro; exact View.read_writes_of_cover _ _ _ _ _ (cover8_C_4 c _ _ _ _ _ _ _ _ _ _ _ _ _ _ _ _ _ _ _)
    · rw [Dat.leavesExact_idle (dat8 V c) 3 t (idleAt8_3 t (fun h => h1 ((hcond8_1 t).mp h))) (noFlush8_3 t (fun h => h1 ((hcond8_1 t).mp h)))]
      rw [Dat.leavesExact_idle (dat8 V c) 4 t (idleAt8_4 t (fun h => h1 ((hcond8_1 t).mp h))) (noFlush8_4 t (fun h => h1 ((hcond8_1 t).mp h)))]
      rw [outsAt8_B V c t h0 h1]
      unfold sout8_B_0; (try dsimp only)
      rw [PhiS8_castSucc V c t, PhiS8_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun8_B c (grid8.coords t) _ _ _ _ _ _ _ _ _ _ _ _ (fun h => h0 ((hcond8_0 t).mp h)) (fun h => h1 ((hcond8_1 t).mp h)) (iblk8 V c 0 t) (iblk8 V c 1 t) (iblk8 V c 2 t) _).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover8_B_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4

/-- The body obligation of region 8, at every point. -/
theorem body_obligation8 (c : Dev nD) : BodyObligation (dat8 (F := F) V c) (defs₀ (F := F)) Variants.none () Set.univ := fun t => by
  rw [bigSep_W8, bigSep_W8]
  exact sound_body8 V c t

/-- What the region is entered with is the invariant before the first point. -/
theorem hin8 (c : Dev nD) : Pipeline.ΦA spec8 c ⊢ (dat8 V c).Φ 0 := by
  rw [show (dat8 V c).Φ 0 = PhiS8 V c 0 (Nat.zero_le _) from rfl, PhiS8_zero V c 0 _ rfl]
  try exact Idealize.SL.BI.Entails.refl _

/-- After the last point the invariant gives the scoped buffers back: what the accumulator holds is forgotten. -/
theorem hout8 (c : Dev nD) : (dat8 V c).Φ (Fin.last cfg8.N) ⊢ Pipeline.ΦA spec8 c := by
  have ht : (Fin.last cfg8.N).val ≠ 0 := by rw [Fin.val_last]; have : cfg8.N = 64 := N_8; omega
  rw [show (dat8 V c).Φ (Fin.last cfg8.N) = PhiS8 V c (Fin.last cfg8.N).val (Nat.le_of_lt_succ (Fin.last cfg8.N).isLt) from rfl,
    PhiS8_pos V c _ _ ht, PhiA8_eq]
  iintro ⟨⟨HS0, HR⟩, Hg⟩
  isplitl [HS0 HR]
  · isplitl [HS0]
    · iexists _; iexact HS0
    iexact HR
  iexact Hg

end Cert.Kernel.Hand

end
-- ==== Proof.RegB9Run.lean ====
/-
  Region 9 of the program (the recurrence step 2·(Ls·T) − T′): the kernel body run once per control case.
  The grid is 8 × 8; a point t = 8·r + k handles row block r and column block k of Ls. The body zeroes the
  accumulator when k = 0 (case A), adds the block product Ls[r,k]·v[k] to it at every point, and when k = 7
  (case C) stores the combination of the accumulator and the block of the earlier vector into both result
  blocks; at 0 < k < 7 (case B) it only accumulates. Each run states what the body's stores leave in the
  accumulator and in the result blocks, as the list of stored pieces.
-/
import proofs.«108570_j29480655520371_2_alg».proof.Proof.Gen.Kernel.Launch
import proofs.«108570_j29480655520371_2_alg».proof.Proof.Gen.Kernel.Skeleton
import proofs.«108570_j29480655520371_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
/-- Input window 1's current staging buffer holds its block at every point, fetched there or not. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
/-- Input window 2's current staging buffer holds its block at every point, fetched there or not. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- k = 0: the accumulator is zeroed first. -/
abbrev cond9_0 (i : grid9.Coords) : Prop := (Scalar.cmpi .ne (Scalar.extui (Scalar.cmpi .eq (BitVec.ofNat 32 (i 1).val) 0#32)) 0#32) = 1#1
theorem hcond9_0 : ∀ t : Fin cfg9.N, cond9_0 (grid9.coords t) ↔ t.val % 8 = 0 :=
  (by decide +kernel : ∀ t : Fin grid9.N, cond9_0 (grid9.coords t) ↔ t.val % 8 = 0)
/-- k = 7: the results are stored. -/
abbrev cond9_1 (i : grid9.Coords) : Prop := k9_cond2 i = 1#1
theorem hcond9_1 : ∀ t : Fin cfg9.N, cond9_1 (grid9.coords t) ↔ t.val % 8 = 7 :=
  (by decide +kernel : ∀ t : Fin grid9.N, cond9_1 (grid9.coords t) ↔ t.val % 8 = 7)

theorem liveAt9_0 : ∀ t : Fin cfg9.N, cfg9.idle 0 (grid9.coords t) = false := by decide +kernel
theorem liveAt9_1 : ∀ t : Fin cfg9.N, cfg9.idle 1 (grid9.coords t) = false := by decide +kernel
theorem liveAt9_2 : ∀ t : Fin cfg9.N, cfg9.idle 2 (grid9.coords t) = false := by decide +kernel
theorem idleAt9_3 : ∀ t : Fin cfg9.N, ¬cond9_1 (grid9.coords t) → cfg9.idle 3 (grid9.coords t) = true := by decide +kernel
theorem noFlush9_3 : ∀ t : Fin cfg9.N, ¬cond9_1 (grid9.coords t) → (cfg9.win 3).flush t = false := by decide +kernel
theorem liveAt9_3 : ∀ t : Fin cfg9.N, cond9_1 (grid9.coords t) → cfg9.idle 3 (grid9.coords t) = false := by decide +kernel
theorem idleAt9_4 : ∀ t : Fin cfg9.N, ¬cond9_1 (grid9.coords t) → cfg9.idle 4 (grid9.coords t) = true := by decide +kernel
theorem noFlush9_4 : ∀ t : Fin cfg9.N, ¬cond9_1 (grid9.coords t) → (cfg9.win 4).flush t = false := by decide +kernel
theorem liveAt9_4 : ∀ t : Fin cfg9.N, cond9_1 (grid9.coords t) → cfg9.idle 4 (grid9.coords t) = false := by decide +kernel

/-- One staging buffer of each result window, through which its contents are stated. -/
abbrev VO9_3 : View sig .tc .vmem S2048x16 .f32 := (Memref.whole cc9_stg3_0 : Memref sig .tc .vmem S2048x16 .f32).view
abbrev VO9_4 : View sig .tc .vmem S2048x16 .bf16 := (Memref.whole cc9_stg4_0 : Memref sig .tc .vmem S2048x16 .bf16).view
abbrev ms9_0 (t : Fin cfg9.N) : Memref sig .tc .vmem S2048x2048 .bf16 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S2048x16 .bf16 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem S2048x16 .f32 := win9_2.stage (cfg9.slots t 2)
abbrev hs9_2 (t : Fin cfg9.N) : (ms9_2 t).IsWhole := hstage9_2 ((cfg9.slots t 2).cast nbuf9_2)
abbrev ms9_3 (t : Fin cfg9.N) : Memref sig .tc .vmem S2048x16 .f32 := win9_3.stage (cfg9.slots t 3)
abbrev hs9_3 (t : Fin cfg9.N) : (ms9_3 t).IsWhole := hstage9_3 ((cfg9.slots t 3).cast nbuf9_3)
abbrev ms9_4 (t : Fin cfg9.N) : Memref sig .tc .vmem S2048x16 .bf16 := win9_4.stage (cfg9.slots t 4)
abbrev hs9_4 (t : Fin cfg9.N) : (ms9_4 t).IsWhole := hstage9_4 ((cfg9.slots t 4).cast nbuf9_4)
/-- The accumulator: a whole scoped buffer of the kernel's own. -/
abbrev scM9_0 : Memref sig .tc .vmem S2048x16 .f32 := Memref.whole cc9_scratch0
abbrev VS9_0 : View sig .tc .vmem S2048x16 .f32 := scM9_0.view

set_option maxHeartbeats 4000000 in
/-- Case A (k = 0): the accumulator, at anything, is zeroed and then receives the first block product; the result
    blocks are handed back untouched. -/
noncomputable def kernelRun9_A (c : Dev nD) (i : grid9.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond9_0 i) (hc1 : ¬cond9_1 i)
    (x0 : Vec F S2048x2048 .bf16) (x1 : Vec F S2048x16 .bf16) (x2 : Vec F S2048x16 .f32) :
    Σ' (L3 : List (View.Piece (Elt F) S2048x16 .f32)) (L4 : List (View.Piece (Elt F) S2048x16 .bf16)), { LS0 : List (View.Piece (Elt F) S2048x16 .f32) //
      ∀ (xi3 : Vec F S2048x16 .f32) (xi4 : Vec F S2048x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc9__matmul_combine_kernel i arg2 harg2 arg3 harg3 arg4 harg4 arg5 harg5 arg6 harg6 arg7 harg7) K } := by
  refine ⟨[], [], ?_, fun xi3 xi4 E K => ?run⟩
  case run =>
    simp only [cc9__matmul_combine_kernel_eq_skeleton]; unfold cc9__matmul_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case B (0 < k < 7): the accumulator, at what the point before left, receives one more block product; the result
    blocks are handed back untouched. -/
noncomputable def kernelRun9_B (c : Dev nD) (i : grid9.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond9_0 i) (hc1 : ¬cond9_1 i)
    (x0 : Vec F S2048x2048 .bf16) (x1 : Vec F S2048x16 .bf16) (x2 : Vec F S2048x16 .f32) (xs0 : Vec F S2048x16 .f32) :
    Σ' (L3 : List (View.Piece (Elt F) S2048x16 .f32)) (L4 : List (View.Piece (Elt F) S2048x16 .bf16)), { LS0 : List (View.Piece (Elt F) S2048x16 .f32) //
      ∀ (xi3 : Vec F S2048x16 .f32) (xi4 : Vec F S2048x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc9__matmul_combine_kernel i arg2 harg2 arg3 harg3 arg4 harg4 arg5 harg5 arg6 harg6 arg7 harg7) K } := by
  refine ⟨[], [], ?_, fun xi3 xi4 E K => ?run⟩
  case run =>
    simp only [cc9__matmul_combine_kernel_eq_skeleton]; unfold cc9__matmul_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case C (k = 7): the accumulator receives the last block product, and both result blocks, at anything, are stored
    whole with the combination of the accumulator and the block of the earlier vector. -/
noncomputable def kernelRun9_C (c : Dev nD) (i : grid9.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond9_0 i) (hc1 : cond9_1 i)
    (x0 : Vec F S2048x2048 .bf16) (x1 : Vec F S2048x16 .bf16) (x2 : Vec F S2048x16 .f32) (xs0 : Vec F S2048x16 .f32) :
    Σ' (L3 : List (View.Piece (Elt F) S2048x16 .f32)) (L4 : List (View.Piece (Elt F) S2048x16 .bf16)), { LS0 : List (View.Piece (Elt F) S2048x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc9__matmul_combine_kernel i arg2 harg2 arg3 harg3 arg4 harg4 arg5 harg5 arg6 harg6 arg7 harg7) K } := by
  refine ⟨?_, ?_, ?_, fun E K => ?run⟩
  case run =>
    simp only [cc9__matmul_combine_kernel_eq_skeleton]; unfold cc9__matmul_combine_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.Kernel.Hand

end
-- ==== Proof.RegB9Frame.lean ====
/-
  Region 9: what its result blocks and its accumulator hold after every grid point, the proof data of its pipeline,
  and the body obligation. After point t = 8·r + k the accumulator holds the sum of the block products
  Ls[r,0]·v[0] + … + Ls[r,k]·v[k] (case A starts it from zero, cases B and C continue from what the point before
  left); the result blocks are written at k = 7 only and written back to their arrays right after that point, so at
  the other points their staging buffers are idle and what they hold is never consulted.
-/
import proofs.«108570_j29480655520371_2_alg».proof.Proof.RegB9Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's piece for the accumulator covers it. -/
theorem scover9_A_0 (c : Dev nD) (i : grid9.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond9_0 i) (hc1 : ¬cond9_1 i)
    (x0 : Vec F S2048x2048 .bf16) (x1 : Vec F S2048x16 .bf16) (x2 : Vec F S2048x16 .f32) (y : S2048x16.Idx) :
    ∃ pc ∈ (kernelRun9_A c i arg2 harg2 arg3 harg3 arg4 harg4 arg5 harg5 arg6 harg6 arg7 harg7 hc0 hc1 x0 x1 x2).2.2.1, y ∈ pc.1.set :=
  View.cover_of_tiledL (kernelRun9_A c i arg2 harg2 arg3 harg3 arg4 harg4 arg5 harg5 arg6 harg6 arg7 harg7 hc0 hc1 x0 x1 x2).2.2.1 S2048x16.size (by sl_kernel_rfl) y
/-- What case A leaves in the accumulator. -/
def sout9_A_0 (c : Dev nD) (i : grid9.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond9_0 i) (hc1 : ¬cond9_1 i)
    (x0 : Vec F S2048x2048 .bf16) (x1 : Vec F S2048x16 .bf16) (x2 : Vec F S2048x16 .f32) : Vec F S2048x16 .f32 :=
  VS9_0.read (Elt F) (VS9_0.writes (Elt F) VS9_0.junk (kernelRun9_A c i arg2 harg2 arg3 harg3 arg4 harg4 arg5 harg5 arg6 harg6 arg7 harg7 hc0 hc1 x0 x1 x2).2.2.1)

/-- Case B's piece for the accumulator covers it. -/
theorem scover9_B_0 (c : Dev nD) (i : grid9.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond9_0 i) (hc1 : ¬cond9_1 i)
    (x0 : Vec F S2048x2048 .bf16) (x1 : Vec F S2048x16 .bf16) (x2 : Vec F S2048x16 .f32) (xs0 : Vec F S2048x16 .f32) (y : S2048x16.Idx) :
    ∃ pc ∈ (kernelRun9_B c i arg2 harg2 arg3 harg3 arg4 harg4 arg5 harg5 arg6 harg6 arg7 harg7 hc0 hc1 x0 x1 x2 xs0).2.2.1, y ∈ pc.1.set :=
  View.cover_of_tiledL (kernelRun9_B c i arg2 harg2 arg3 harg3 arg4 harg4 arg5 harg5 arg6 harg6 arg7 harg7 hc0 hc1 x0 x1 x2 xs0).2.2.1 S2048x16.size (by sl_kernel_rfl) y
/-- What case B leaves in the accumulator. -/
def sout9_B_0 (c : Dev nD) (i : grid9.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond9_0 i) (hc1 : ¬cond9_1 i)
    (x0 : Vec F S2048x2048 .bf16) (x1 : Vec F S2048x16 .bf16) (x2 : Vec F S2048x16 .f32) (xs0 : Vec F S2048x16 .f32) : Vec F S2048x16 .f32 :=
  VS9_0.read (Elt F) (VS9_0.writes (Elt F) VS9_0.junk (kernelRun9_B c i arg2 harg2 arg3 harg3 arg4 harg4 arg5 harg5 arg6 harg6 arg7 harg7 hc0 hc1 x0 x1 x2 xs0).2.2.1)

/-- Case C's pieces cover the f32 result block, -/
theorem cover9_C_3 (c : Dev nD) (i : grid9.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond9_0 i) (hc1 : cond9_1 i)
    (x0 : Vec F S2048x2048 .bf16) (x1 : Vec F S2048x16 .bf16) (x2 : Vec F S2048x16 .f32) (xs0 : Vec F S2048x16 .f32) (y : S2048x16.Idx) :
    ∃ pc ∈ (kernelRun9_C c i arg2 harg2 arg3 harg3 arg4 harg4 arg5 harg5 arg6 harg6 arg7 harg7 hc0 hc1 x0 x1 x2 xs0).1, y ∈ pc.1.set :=
  View.cover_of_tiledL (kernelRun9_C c i arg2 harg2 arg3 harg3 arg4 harg4 arg5 harg5 arg6 harg6 arg7 harg7 hc0 hc1 x0 x1 x2 xs0).1 S2048x16.size (by sl_kernel_rfl) y
/-- the bf16 result block, -/
theorem cover9_C_4 (c : Dev nD) (i : grid9.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond9_0 i) (hc1 : cond9_1 i)
    (x0 : Vec F S2048x2048 .bf16) (x1 : Vec F S2048x16 .bf16) (x2 : Vec F S2048x16 .f32) (xs0 : Vec F S2048x16 .f32) (y : S2048x16.Idx) :
    ∃ pc ∈ (kernelRun9_C c i arg2 harg2 arg3 harg3 arg4 harg4 arg5 harg5 arg6 harg6 arg7 harg7 hc0 hc1 x0 x1 x2 xs0).2.1, y ∈ pc.1.set :=
  View.cover_of_tiledL (kernelRun9_C c i arg2 harg2 arg3 harg3 arg4 harg4 arg5 harg5 arg6 harg6 arg7 harg7 hc0 hc1 x0 x1 x2 xs0).2.1 S2048x16.size (by sl_kernel_rfl) y
/-- and the accumulator. -/
theorem scover9_C_0 (c : Dev nD) (i : grid9.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond9_0 i) (hc1 : cond9_1 i)
    (x0 : Vec F S2048x2048 .bf16) (x1 : Vec F S2048x16 .bf16) (x2 : Vec F S2048x16 .f32) (xs0 : Vec F S2048x16 .f32) (y : S2048x16.Idx) :
    ∃ pc ∈ (kernelRun9_C c i arg2 harg2 arg3 harg3 arg4 harg4 arg5 harg5 arg6 harg6 arg7 harg7 hc0 hc1 x0 x1 x2 xs0).2.2.1, y ∈ pc.1.set :=
  View.cover_of_tiledL (kernelRun9_C c i arg2 harg2 arg3 harg3 arg4 harg4 arg5 harg5 arg6 harg6 arg7 harg7 hc0 hc1 x0 x1 x2 xs0).2.2.1 S2048x16.size (by sl_kernel_rfl) y
/-- What case C leaves in the f32 result block, -/
def out9_C_3 (c : Dev nD) (i : grid9.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond9_0 i) (hc1 : cond9_1 i)
    (x0 : Vec F S2048x2048 .bf16) (x1 : Vec F S2048x16 .bf16) (x2 : Vec F S2048x16 .f32) (xs0 : Vec F S2048x16 .f32) : Vec F S2048x16 .f32 :=
  VO9_3.read (Elt F) (VO9_3.writes (Elt F) VO9_3.junk (kernelRun9_C c i arg2 harg2 arg3 harg3 arg4 harg4 arg5 harg5 arg6 harg6 arg7 harg7 hc0 hc1 x0 x1 x2 xs0).1)
/-- in the bf16 result block, -/
def out9_C_4 (c : Dev nD) (i : grid9.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond9_0 i) (hc1 : cond9_1 i)
    (x0 : Vec F S2048x2048 .bf16) (x1 : Vec F S2048x16 .bf16) (x2 : Vec F S2048x16 .f32) (xs0 : Vec F S2048x16 .f32) : Vec F S2048x16 .bf16 :=
  VO9_4.read (Elt F) (VO9_4.writes (Elt F) VO9_4.junk (kernelRun9_C c i arg2 harg2 arg3 harg3 arg4 harg4 arg5 harg5 arg6 harg6 arg7 harg7 hc0 hc1 x0 x1 x2 xs0).2.1)
/-- and in the accumulator. -/
def sout9_C_0 (c : Dev nD) (i : grid9.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond9_0 i) (hc1 : cond9_1 i)
    (x0 : Vec F S2048x2048 .bf16) (x1 : Vec F S2048x16 .bf16) (x2 : Vec F S2048x16 .f32) (xs0 : Vec F S2048x16 .f32) : Vec F S2048x16 .f32 :=
  VS9_0.read (Elt F) (VS9_0.writes (Elt F) VS9_0.junk (kernelRun9_C c i arg2 harg2 arg3 harg3 arg4 harg4 arg5 harg5 arg6 harg6 arg7 harg7 hc0 hc1 x0 x1 x2 xs0).2.2.1)

/-- What the two result blocks' staging buffers and the accumulator hold after the body at position `n`: the case
    the position selects, run at the point's blocks, cases B and C over the accumulator the point before left. -/
def outsAt9 (c : Dev nD) : (n : ℕ) → n < cfg9.N → Vec F S2048x16 .f32 × Vec F S2048x16 .bf16 × Vec F S2048x16 .f32
  | 0, hn => ((VO9_3.read (Elt F) VO9_3.junk), (VO9_4.read (Elt F) VO9_4.junk), sout9_A_0 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) (ms9_4 ⟨0, hn⟩) (hs9_4 ⟨0, hn⟩) scM9_0 (Memref.isWhole_whole _) ((hcond9_0 ⟨0, hn⟩).mpr (Nat.zero_mod _)) (fun h => (fun h => by (try dsimp only at h); omega) ((hcond9_1 ⟨0, hn⟩).mp h)) (iblk9 V c 0 ⟨0, hn⟩) (iblk9 V c 1 ⟨0, hn⟩) (iblk9 V c 2 ⟨0, hn⟩))
  | n + 1, hn =>
    if h0 : (n + 1) % 8 = 0 then
      if h1 : (n + 1) % 8 = 7 then
        False.elim (by omega)
      else
        ((VO9_3.read (Elt F) VO9_3.junk), (VO9_4.read (Elt F) VO9_4.junk), sout9_A_0 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) scM9_0 (Memref.isWhole_whole _) ((hcond9_0 ⟨n + 1, hn⟩).mpr h0) (fun h => h1 ((hcond9_1 ⟨n + 1, hn⟩).mp h)) (iblk9 V c 0 ⟨n + 1, hn⟩) (iblk9 V c 1 ⟨n + 1, hn⟩) (iblk9 V c 2 ⟨n + 1, hn⟩))
    else
      if h1 : (n + 1) % 8 = 7 then
        (out9_C_3 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) scM9_0 (Memref.isWhole_whole _) (fun h => h0 ((hcond9_0 ⟨n + 1, hn⟩).mp h)) ((hcond9_1 ⟨n + 1, hn⟩).mpr h1) (iblk9 V c 0 ⟨n + 1, hn⟩) (iblk9 V c 1 ⟨n + 1, hn⟩) (iblk9 V c 2 ⟨n + 1, hn⟩) (outsAt9 c n (Nat.lt_of_succ_lt hn)).2.2, out9_C_4 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) scM9_0 (Memref.isWhole_whole _) (fun h => h0 ((hcond9_0 ⟨n + 1, hn⟩).mp h)) ((hcond9_1 ⟨n + 1, hn⟩).mpr h1) (iblk9 V c 0 ⟨n + 1, hn⟩) (iblk9 V c 1 ⟨n + 1, hn⟩) (iblk9 V c 2 ⟨n + 1, hn⟩) (outsAt9 c n (Nat.lt_of_succ_lt hn)).2.2, sout9_C_0 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) scM9_0 (Memref.isWhole_whole _) (fun h => h0 ((hcond9_0 ⟨n + 1, hn⟩).mp h)) ((hcond9_1 ⟨n + 1, hn⟩).mpr h1) (iblk9 V c 0 ⟨n + 1, hn⟩) (iblk9 V c 1 ⟨n + 1, hn⟩) (iblk9 V c 2 ⟨n + 1, hn⟩) (outsAt9 c n (Nat.lt_of_succ_lt hn)).2.2)
      else
        ((VO9_3.read (Elt F) VO9_3.junk), (VO9_4.read (Elt F) VO9_4.junk), sout9_B_0 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) scM9_0 (Memref.isWhole_whole _) (fun h => h0 ((hcond9_0 ⟨n + 1, hn⟩).mp h)) (fun h => h1 ((hcond9_1 ⟨n + 1, hn⟩).mp h)) (iblk9 V c 0 ⟨n + 1, hn⟩) (iblk9 V c 1 ⟨n + 1, hn⟩) (iblk9 V c 2 ⟨n + 1, hn⟩) (outsAt9 c n (Nat.lt_of_succ_lt hn)).2.2)

theorem outsAt9_A (c : Dev nD) (t : Fin cfg9.N) (h0 : t.val % 8 = 0) (h1 : ¬t.val % 8 = 7) :
    outsAt9 V c t.val t.isLt = ((VO9_3.read (Elt F) VO9_3.junk), (VO9_4.read (Elt F) VO9_4.junk), sout9_A_0 c (grid9.coords t) (ms9_0 t) (hs9_0 t) (ms9_1 t) (hs9_1 t) (ms9_2 t) (hs9_2 t) (ms9_3 t) (hs9_3 t) (ms9_4 t) (hs9_4 t) scM9_0 (Memref.isWhole_whole _) ((hcond9_0 t).mpr h0) (fun h => h1 ((hcond9_1 t).mp h)) (iblk9 V c 0 t) (iblk9 V c 1 t) (iblk9 V c 2 t)) := by
  obtain ⟨n, hn⟩ := t
  cases n with
  | zero => exact rfl
  | succ n => exact (dif_pos h0).trans ((dif_neg h1).trans rfl)

theorem outsAt9_B (c : Dev nD) (t : Fin cfg9.N) (h0 : ¬t.val % 8 = 0) (h1 : ¬t.val % 8 = 7) :
    outsAt9 V c t.val t.isLt = ((VO9_3.read (Elt F) VO9_3.junk), (VO9_4.read (Elt F) VO9_4.junk), sout9_B_0 c (grid9.coords t) (ms9_0 t) (hs9_0 t) (ms9_1 t) (hs9_1 t) (ms9_2 t) (hs9_2 t) (ms9_3 t) (hs9_3 t) (ms9_4 t) (hs9_4 t) scM9_0 (Memref.isWhole_whole _) (fun h => h0 ((hcond9_0 t).mp h)) (fun h => h1 ((hcond9_1 t).mp h)) (iblk9 V c 0 t) (iblk9 V c 1 t) (iblk9 V c 2 t) (outsAt9 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt9_C (c : Dev nD) (t : Fin cfg9.N) (h0 : ¬t.val % 8 = 0) (h1 : t.val % 8 = 7) :
    outsAt9 V c t.val t.isLt = (out9_C_3 c (grid9.coords t) (ms9_0 t) (hs9_0 t) (ms9_1 t) (hs9_1 t) (ms9_2 t) (hs9_2 t) (ms9_3 t) (hs9_3 t) (ms9_4 t) (hs9_4 t) scM9_0 (Memref.isWhole_whole _) (fun h => h0 ((hcond9_0 t).mp h)) ((hcond9_1 t).mpr h1) (iblk9 V c 0 t) (iblk9 V c 1 t) (iblk9 V c 2 t) (outsAt9 V c (t.val - 1) (Nat.lt_of_le_of_lt (Nat.sub_le _ _) t.isLt)).2.2, out9_C_4 c (grid9.coords t) (ms9_0 t) (hs9_0 t) (ms9_1 t) (hs9_1 t) (ms9_2 t) (hs9_2 t) (ms9_3 t) (hs9_3 t) (ms9_4 t) (hs9_4 t) scM9_0 (Memref.isWhole_whole _) (fun h => h0 ((hcond9_0 t).mp h)) ((hcond9_1 t).mpr h1) (iblk9 V c 0 t) (iblk9 V c 1 t) (iblk9 V c 2 t) (outsAt9 V c (t.val - 1) (Nat.lt_of_le_of_lt (Nat.sub_le _ _) t.isLt)).2.2, sout9_C_0 c (grid9.coords t) (ms9_0 t) (hs9_0 t) (ms9_1 t) (hs9_1 t) (ms9_2 t) (hs9_2 t) (ms9_3 t) (hs9_3 t) (ms9_4 t) (hs9_4 t) scM9_0 (Memref.isWhole_whole _) (fun h => h0 ((hcond9_0 t).mp h)) ((hcond9_1 t).mpr h1) (iblk9 V c 0 t) (iblk9 V c 1 t) (iblk9 V c 2 t) (outsAt9 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The scoped buffers of the program other than this region's staging buffers and its accumulator. -/
abbrev RB9 (c : Dev nD) : sProp 𝕄 :=
  Pipeline.scopedRestBut (Ix := Unit) (Name := ℕ) (U := UR sig nD τ) (Lvl := ℕ) (Val := Elt F) spec9 c [cc9_scratch0]

/-- The region invariant before position `n`: at the first point every scoped buffer outside the staging buffers at
    anything; afterwards the accumulator at what the point before left in it. -/
def PhiS9 (c : Dev nD) : (n : ℕ) → n ≤ cfg9.N → sProp 𝕄
  | 0, _ => Pipeline.ΦA spec9 c
  | n + 1, hn => iprop((iprop(owns (c : Thread nD τ) scM9_0 fullShare ((outsAt9 V c n hn).2.2)) ∗ RB9 c) ∗ (∃ r, prngReg c r))

theorem PhiS9_zero (c : Dev nD) (n : ℕ) (h : n ≤ cfg9.N) (hz : n = 0) : PhiS9 V c n h = Pipeline.ΦA spec9 c := by
  subst hz; rfl
theorem PhiS9_succ (c : Dev nD) (n : ℕ) (hn : n < cfg9.N) :
    PhiS9 V c (n + 1) hn = iprop((iprop(owns (c : Thread nD τ) scM9_0 fullShare ((outsAt9 V c n hn).2.2)) ∗ RB9 c) ∗ (∃ r, prngReg c r)) := rfl
theorem PhiS9_pos (c : Dev nD) (n : ℕ) (h : n ≤ cfg9.N) (hz : n ≠ 0) :
    PhiS9 V c n h = iprop((iprop(owns (c : Thread nD τ) scM9_0 fullShare ((outsAt9 V c (n - 1) (by omega)).2.2)) ∗ RB9 c) ∗ (∃ r, prngReg c r)) := by
  cases n with
  | zero => exact absurd rfl hz
  | succ n => rfl

/-- The first point's invariant with the accumulator split out, owned at some contents. -/
theorem PhiA9_eq (c : Dev nD) :
    (Pipeline.ΦA spec9 c : sProp 𝕄)
      = iprop((iprop((∃ d, owns (c : Thread nD τ) scM9_0 fullShare d)) ∗ RB9 c) ∗ (∃ r, prngReg c r)) := by
  unfold Pipeline.ΦA; rw [scopedRest9_split]; simp only [scM9_0, owns_whole]; try rfl

/-- The proof data of region 9's pipeline on core `c`: the arrays as the region finds them; after the body at
    point `t` each input's buffer at its block and the results' at `outsAt9`; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => (outsAt9 V c t.val t.isLt).1
    | ⟨4, _⟩ => (outsAt9 V c t.val t.isLt).2.1
  Φ t := PhiS9 V c t.val (Nat.le_of_lt_succ t.isLt)
  q _ := fullShare
  owed _ := 0

theorem A_eq9 (c : Dev nD) (w : Fin cfg9.W) : (dat9 V c).A w = V c (Pipeline.arrRef spec9 w) := by
  dsimp only [dat9]
theorem PhiS9_castSucc (c : Dev nD) (t : Fin cfg9.N) :
    (dat9 V c).Φ t.castSucc = PhiS9 V c t.val (Nat.le_of_lt t.isLt) := by
  dsimp only [dat9]; simp only [Fin.coe_castSucc]
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = (outsAt9 V c t.val t.isLt).1 := by dsimp only [dat9]
theorem after9_4 (c : Dev nD) (t : Fin cfg9.N) : (dat9 V c).after 4 t = (outsAt9 V c t.val t.isLt).2.1 := by dsimp only [dat9]
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-- What the body is called with at point `t`, -/
def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d))
    ∗ (∃ d, owns (c : Thread nD τ) (ms9_3 t) fullShare ((dat9 V c).before 3 t d))
    ∗ (∃ d, owns (c : Thread nD τ) (ms9_4 t) fullShare ((dat9 V c).before 4 t d)))
/-- and what it returns. -/
def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t
    ∗ (dat9 V c).leavesExact 3 t
    ∗ (dat9 V c).leavesExact 4 t)

set_option maxHeartbeats 8000000 in
/-- The body at any point: the inputs' buffers hold their blocks; the position says which case the point is in; the
    invariant hands the body the accumulator at what the point before left (at anything at the first point) and takes
    it back at this point's contents; the core owes nothing throughout. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).owesAt () t.succ = (dat9 V c).owesAt () t.castSucc from rfl]
  rw [show (dat9 V c).Φ t.succ = PhiS9 V c (t.val + 1) t.isLt from rfl, PhiS9_succ]
  have hN : t.val < 64 := lt_of_lt_of_eq t.isLt (show cfg9.N = 64 from N_9)
  rw [show (dat9 V c).leavesExact 0 t = owns (c : Thread nD τ) (ms9_0 t) fullShare ((dat9 V c).after 0 t) from by
      unfold Dat.leavesExact; rw [liveAt9_0 t], after9_0]
  rw [show (dat9 V c).leavesExact 1 t = owns (c : Thread nD τ) (ms9_1 t) fullShare ((dat9 V c).after 1 t) from by
      unfold Dat.leavesExact; rw [liveAt9_1 t], after9_1]
  rw [show (dat9 V c).leavesExact 2 t = owns (c : Thread nD τ) (ms9_2 t) fullShare ((dat9 V c).after 2 t) from by
      unfold Dat.leavesExact; rw [liveAt9_2 t], after9_2]
  by_cases h0 : t.val % 8 = 0
  · have h1 : ¬t.val % 8 = 7 := by omega
    rw [Dat.leavesExact_idle (dat9 V c) 3 t (idleAt9_3 t (fun h => h1 ((hcond9_1 t).mp h))) (noFlush9_3 t (fun h => h1 ((hcond9_1 t).mp h)))]
    rw [Dat.leavesExact_idle (dat9 V c) 4 t (idleAt9_4 t (fun h => h1 ((hcond9_1 t).mp h))) (noFlush9_4 t (fun h => h1 ((hcond9_1 t).mp h)))]
    rw [outsAt9_A V c t h0 h1]
    unfold sout9_A_0; (try dsimp only)
    by_cases hz : t.val = 0
    · rw [PhiS9_castSucc V c t, PhiS9_zero V c _ _ hz, PhiA9_eq]
      iintro ⟨⟨⟨HS0, HR⟩, Hg⟩, Ho, ⟨%d0, H0⟩, ⟨%d1, H1⟩, ⟨%d2, H2⟩, ⟨%d3, H3⟩, ⟨%d4, H4⟩⟩
      iapply ((kernelRun9_A c (grid9.coords t) _ _ _ _ _ _ _ _ _ _ _ _ ((hcond9_0 t).mpr h0) (fun h => h1 ((hcond9_1 t).mp h)) (iblk9 V c 0 t) (iblk9 V c 1 t) (iblk9 V c 2 t)).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover9_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
    · rw [PhiS9_castSucc V c t, PhiS9_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun9_A c (grid9.coords t) _ _ _ _ _ _ _ _ _ _ _ _ ((hcond9_0 t).mpr h0) (fun h => h1 ((hcond9_1 t).mp h)) (iblk9 V c 0 t) (iblk9 V c 1 t) (iblk9 V c 2 t)).2.2.2 _ _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover9_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun h => h0 (by rw [h])
    by_cases h1 : t.val % 8 = 7
    · rw [show (dat9 V c).leavesExact 3 t = owns (c : Thread nD τ) (ms9_3 t) fullShare ((dat9 V c).after 3 t) from by
        unfold Dat.leavesExact; rw [liveAt9_3 t ((hcond9_1 t).mpr h1)], after9_3]
      rw [show (dat9 V c).leavesExact 4 t = owns (c : Thread nD τ) (ms9_4 t) fullShare ((dat9 V c).after 4 t) from by
        unfold Dat.leavesExact; rw [liveAt9_4 t ((hcond9_1 t).mpr h1)], after9_4]
      rw [outsAt9_C V c t h0 h1]
      unfold out9_C_3 out9_C_4 sout9_C_0; (try dsimp only)
      rw [PhiS9_castSucc V c t, PhiS9_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun9_C c (grid9.coords t) _ _ _ _ _ _ _ _ _ _ _ _ (fun h => h0 ((hcond9_0 t).mp h)) ((hcond9_1 t).mpr h1) (iblk9 V c 0 t) (iblk9 V c 1 t) (iblk9 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover9_C_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover9_C_3 c _ _ _ _ _ _ _ _ _ _ _ _ _ _ _ _ _ _ _)
      unfold owns; iexists _; isplitr
      swap; · iexact H4
      ipureintro; exact View.read_writes_of_cover _ _ _ _ _ (cover9_C_4 c _ _ _ _ _ _ _ _ _ _ _ _ _ _ _ _ _ _ _)
    · rw [Dat.leavesExact_idle (dat9 V c) 3 t (idleAt9_3 t (fun h => h1 ((hcond9_1 t).mp h))) (noFlush9_3 t (fun h => h1 ((hcond9_1 t).mp h)))]
      rw [Dat.leavesExact_idle (dat9 V c) 4 t (idleAt9_4 t (fun h => h1 ((hcond9_1 t).mp h))) (noFlush9_4 t (fun h => h1 ((hcond9_1 t).mp h)))]
      rw [outsAt9_B V c t h0 h1]
      unfold sout9_B_0; (try dsimp only)
      rw [PhiS9_castSucc V c t, PhiS9_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun9_B c (grid9.coords t) _ _ _ _ _ _ _ _ _ _ _ _ (fun h => h0 ((hcond9_0 t).mp h)) (fun h => h1 ((hcond9_1 t).mp h)) (iblk9 V c 0 t) (iblk9 V c 1 t) (iblk9 V c 2 t) _).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover9_B_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4

/-- The body obligation of region 9, at every point. -/
theorem body_obligation9 (c : Dev nD) : BodyObligation (dat9 (F := F) V c) (defs₀ (F := F)) Variants.none () Set.univ := fun t => by
  rw [bigSep_W9, bigSep_W9]
  exact sound_body9 V c t

/-- What the region is entered with is the invariant before the first point. -/
theorem hin9 (c : Dev nD) : Pipeline.ΦA spec9 c ⊢ (dat9 V c).Φ 0 := by
  rw [show (dat9 V c).Φ 0 = PhiS9 V c 0 (Nat.zero_le _) from rfl, PhiS9_zero V c 0 _ rfl]
  try exact Idealize.SL.BI.Entails.refl _

/-- After the last point the invariant gives the scoped buffers back: what the accumulator holds is forgotten. -/
theorem hout9 (c : Dev nD) : (dat9 V c).Φ (Fin.last cfg9.N) ⊢ Pipeline.ΦA spec9 c := by
  have ht : (Fin.last cfg9.N).val ≠ 0 := by rw [Fin.val_last]; have : cfg9.N = 64 := N_9; omega
  rw [show (dat9 V c).Φ (Fin.last cfg9.N) = PhiS9 V c (Fin.last cfg9.N).val (Nat.le_of_lt_succ (Fin.last cfg9.N).isLt) from rfl,
    PhiS9_pos V c _ _ ht, PhiA9_eq]
  iintro ⟨⟨HS0, HR⟩, Hg⟩
  isplitl [HS0 HR]
  · isplitl [HS0]
    · iexists _; iexact HS0
    iexact HR
  iexact Hg

end Cert.Kernel.Hand

end
-- ==== Proof.RegB10Run.lean ====
/-
  Region 10 of the program (the recurrence step 2·(Ls·T) − T′): the kernel body run once per control case.
  The grid is 8 × 8; a point t = 8·r + k handles row block r and column block k of Ls. The body zeroes the
  accumulator when k = 0 (case A), adds the block product Ls[r,k]·v[k] to it at every point, and when k = 7
  (case C) stores the combination of the accumulator and the block of the earlier vector into both result
  blocks; at 0 < k < 7 (case B) it only accumulates. Each run states what the body's stores leave in the
  accumulator and in the result blocks, as the list of stored pieces.
-/
import proofs.«108570_j29480655520371_2_alg».proof.Proof.Gen.Kernel.Launch
import proofs.«108570_j29480655520371_2_alg».proof.Proof.Gen.Kernel.Skeleton
import proofs.«108570_j29480655520371_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, fetched there or not. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
/-- Input window 1's current staging buffer holds its block at every point, fetched there or not. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
/-- Input window 2's current staging buffer holds its block at every point, fetched there or not. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- k = 0: the accumulator is zeroed first. -/
abbrev cond10_0 (i : grid10.Coords) : Prop := (Scalar.cmpi .ne (Scalar.extui (Scalar.cmpi .eq (BitVec.ofNat 32 (i 1).val) 0#32)) 0#32) = 1#1
theorem hcond10_0 : ∀ t : Fin cfg10.N, cond10_0 (grid10.coords t) ↔ t.val % 8 = 0 :=
  (by decide +kernel : ∀ t : Fin grid10.N, cond10_0 (grid10.coords t) ↔ t.val % 8 = 0)
/-- k = 7: the results are stored. -/
abbrev cond10_1 (i : grid10.Coords) : Prop := k10_cond2 i = 1#1
theorem hcond10_1 : ∀ t : Fin cfg10.N, cond10_1 (grid10.coords t) ↔ t.val % 8 = 7 :=
  (by decide +kernel : ∀ t : Fin grid10.N, cond10_1 (grid10.coords t) ↔ t.val % 8 = 7)

theorem liveAt10_0 : ∀ t : Fin cfg10.N, cfg10.idle 0 (grid10.coords t) = false := by decide +kernel
theorem liveAt10_1 : ∀ t : Fin cfg10.N, cfg10.idle 1 (grid10.coords t) = false := by decide +kernel
theorem liveAt10_2 : ∀ t : Fin cfg10.N, cfg10.idle 2 (grid10.coords t) = false := by decide +kernel
theorem idleAt10_3 : ∀ t : Fin cfg10.N, ¬cond10_1 (grid10.coords t) → cfg10.idle 3 (grid10.coords t) = true := by decide +kernel
theorem noFlush10_3 : ∀ t : Fin cfg10.N, ¬cond10_1 (grid10.coords t) → (cfg10.win 3).flush t = false := by decide +kernel
theorem liveAt10_3 : ∀ t : Fin cfg10.N, cond10_1 (grid10.coords t) → cfg10.idle 3 (grid10.coords t) = false := by decide +kernel
theorem idleAt10_4 : ∀ t : Fin cfg10.N, ¬cond10_1 (grid10.coords t) → cfg10.idle 4 (grid10.coords t) = true := by decide +kernel
theorem noFlush10_4 : ∀ t : Fin cfg10.N, ¬cond10_1 (grid10.coords t) → (cfg10.win 4).flush t = false := by decide +kernel
theorem liveAt10_4 : ∀ t : Fin cfg10.N, cond10_1 (grid10.coords t) → cfg10.idle 4 (grid10.coords t) = false := by decide +kernel

/-- One staging buffer of each result window, through which its contents are stated. -/
abbrev VO10_3 : View sig .tc .vmem S2048x16 .f32 := (Memref.whole cc10_stg3_0 : Memref sig .tc .vmem S2048x16 .f32).view
abbrev VO10_4 : View sig .tc .vmem S2048x16 .bf16 := (Memref.whole cc10_stg4_0 : Memref sig .tc .vmem S2048x16 .bf16).view
abbrev ms10_0 (t : Fin cfg10.N) : Memref sig .tc .vmem S2048x2048 .bf16 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S2048x16 .bf16 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S2048x16 .f32 := win10_2.stage (cfg10.slots t 2)
abbrev hs10_2 (t : Fin cfg10.N) : (ms10_2 t).IsWhole := hstage10_2 ((cfg10.slots t 2).cast nbuf10_2)
abbrev ms10_3 (t : Fin cfg10.N) : Memref sig .tc .vmem S2048x16 .f32 := win10_3.stage (cfg10.slots t 3)
abbrev hs10_3 (t : Fin cfg10.N) : (ms10_3 t).IsWhole := hstage10_3 ((cfg10.slots t 3).cast nbuf10_3)
abbrev ms10_4 (t : Fin cfg10.N) : Memref sig .tc .vmem S2048x16 .bf16 := win10_4.stage (cfg10.slots t 4)
abbrev hs10_4 (t : Fin cfg10.N) : (ms10_4 t).IsWhole := hstage10_4 ((cfg10.slots t 4).cast nbuf10_4)
/-- The accumulator: a whole scoped buffer of the kernel's own. -/
abbrev scM10_0 : Memref sig .tc .vmem S2048x16 .f32 := Memref.whole cc10_scratch0
abbrev VS10_0 : View sig .tc .vmem S2048x16 .f32 := scM10_0.view

set_option maxHeartbeats 4000000 in
/-- Case A (k = 0): the accumulator, at anything, is zeroed and then receives the first block product; the result
    blocks are handed back untouched. -/
noncomputable def kernelRun10_A (c : Dev nD) (i : grid10.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond10_0 i) (hc1 : ¬cond10_1 i)
    (x0 : Vec F S2048x2048 .bf16) (x1 : Vec F S2048x16 .bf16) (x2 : Vec F S2048x16 .f32) :
    Σ' (L3 : List (View.Piece (Elt F) S2048x16 .f32)) (L4 : List (View.Piece (Elt F) S2048x16 .bf16)), { LS0 : List (View.Piece (Elt F) S2048x16 .f32) //
      ∀ (xi3 : Vec F S2048x16 .f32) (xi4 : Vec F S2048x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc10__matmul_combine_kernel i arg2 harg2 arg3 harg3 arg4 harg4 arg5 harg5 arg6 harg6 arg7 harg7) K } := by
  refine ⟨[], [], ?_, fun xi3 xi4 E K => ?run⟩
  case run =>
    simp only [cc10__matmul_combine_kernel_eq_skeleton]; unfold cc10__matmul_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case B (0 < k < 7): the accumulator, at what the point before left, receives one more block product; the result
    blocks are handed back untouched. -/
noncomputable def kernelRun10_B (c : Dev nD) (i : grid10.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond10_0 i) (hc1 : ¬cond10_1 i)
    (x0 : Vec F S2048x2048 .bf16) (x1 : Vec F S2048x16 .bf16) (x2 : Vec F S2048x16 .f32) (xs0 : Vec F S2048x16 .f32) :
    Σ' (L3 : List (View.Piece (Elt F) S2048x16 .f32)) (L4 : List (View.Piece (Elt F) S2048x16 .bf16)), { LS0 : List (View.Piece (Elt F) S2048x16 .f32) //
      ∀ (xi3 : Vec F S2048x16 .f32) (xi4 : Vec F S2048x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc10__matmul_combine_kernel i arg2 harg2 arg3 harg3 arg4 harg4 arg5 harg5 arg6 harg6 arg7 harg7) K } := by
  refine ⟨[], [], ?_, fun xi3 xi4 E K => ?run⟩
  case run =>
    simp only [cc10__matmul_combine_kernel_eq_skeleton]; unfold cc10__matmul_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case C (k = 7): the accumulator receives the last block product, and both result blocks, at anything, are stored
    whole with the combination of the accumulator and the block of the earlier vector. -/
noncomputable def kernelRun10_C (c : Dev nD) (i : grid10.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond10_0 i) (hc1 : cond10_1 i)
    (x0 : Vec F S2048x2048 .bf16) (x1 : Vec F S2048x16 .bf16) (x2 : Vec F S2048x16 .f32) (xs0 : Vec F S2048x16 .f32) :
    Σ' (L3 : List (View.Piece (Elt F) S2048x16 .f32)) (L4 : List (View.Piece (Elt F) S2048x16 .bf16)), { LS0 : List (View.Piece (Elt F) S2048x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc10__matmul_combine_kernel i arg2 harg2 arg3 harg3 arg4 harg4 arg5 harg5 arg6 harg6 arg7 harg7) K } := by
  refine ⟨?_, ?_, ?_, fun E K => ?run⟩
  case run =>
    simp only [cc10__matmul_combine_kernel_eq_skeleton]; unfold cc10__matmul_combine_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.Kernel.Hand

end
-- ==== Proof.RegB10Frame.lean ====
/-
  Region 10: what its result blocks and its accumulator hold after every grid point, the proof data of its pipeline,
  and the body obligation. After point t = 8·r + k the accumulator holds the sum of the block products
  Ls[r,0]·v[0] + … + Ls[r,k]·v[k] (case A starts it from zero, cases B and C continue from what the point before
  left); the result blocks are written at k = 7 only and written back to their arrays right after that point, so at
  the other points their staging buffers are idle and what they hold is never consulted.
-/
import proofs.«108570_j29480655520371_2_alg».proof.Proof.RegB10Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's piece for the accumulator covers it. -/
theorem scover10_A_0 (c : Dev nD) (i : grid10.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond10_0 i) (hc1 : ¬cond10_1 i)
    (x0 : Vec F S2048x2048 .bf16) (x1 : Vec F S2048x16 .bf16) (x2 : Vec F S2048x16 .f32) (y : S2048x16.Idx) :
    ∃ pc ∈ (kernelRun10_A c i arg2 harg2 arg3 harg3 arg4 harg4 arg5 harg5 arg6 harg6 arg7 harg7 hc0 hc1 x0 x1 x2).2.2.1, y ∈ pc.1.set :=
  View.cover_of_tiledL (kernelRun10_A c i arg2 harg2 arg3 harg3 arg4 harg4 arg5 harg5 arg6 harg6 arg7 harg7 hc0 hc1 x0 x1 x2).2.2.1 S2048x16.size (by sl_kernel_rfl) y
/-- What case A leaves in the accumulator. -/
def sout10_A_0 (c : Dev nD) (i : grid10.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond10_0 i) (hc1 : ¬cond10_1 i)
    (x0 : Vec F S2048x2048 .bf16) (x1 : Vec F S2048x16 .bf16) (x2 : Vec F S2048x16 .f32) : Vec F S2048x16 .f32 :=
  VS10_0.read (Elt F) (VS10_0.writes (Elt F) VS10_0.junk (kernelRun10_A c i arg2 harg2 arg3 harg3 arg4 harg4 arg5 harg5 arg6 harg6 arg7 harg7 hc0 hc1 x0 x1 x2).2.2.1)

/-- Case B's piece for the accumulator covers it. -/
theorem scover10_B_0 (c : Dev nD) (i : grid10.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond10_0 i) (hc1 : ¬cond10_1 i)
    (x0 : Vec F S2048x2048 .bf16) (x1 : Vec F S2048x16 .bf16) (x2 : Vec F S2048x16 .f32) (xs0 : Vec F S2048x16 .f32) (y : S2048x16.Idx) :
    ∃ pc ∈ (kernelRun10_B c i arg2 harg2 arg3 harg3 arg4 harg4 arg5 harg5 arg6 harg6 arg7 harg7 hc0 hc1 x0 x1 x2 xs0).2.2.1, y ∈ pc.1.set :=
  View.cover_of_tiledL (kernelRun10_B c i arg2 harg2 arg3 harg3 arg4 harg4 arg5 harg5 arg6 harg6 arg7 harg7 hc0 hc1 x0 x1 x2 xs0).2.2.1 S2048x16.size (by sl_kernel_rfl) y
/-- What case B leaves in the accumulator. -/
def sout10_B_0 (c : Dev nD) (i : grid10.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond10_0 i) (hc1 : ¬cond10_1 i)
    (x0 : Vec F S2048x2048 .bf16) (x1 : Vec F S2048x16 .bf16) (x2 : Vec F S2048x16 .f32) (xs0 : Vec F S2048x16 .f32) : Vec F S2048x16 .f32 :=
  VS10_0.read (Elt F) (VS10_0.writes (Elt F) VS10_0.junk (kernelRun10_B c i arg2 harg2 arg3 harg3 arg4 harg4 arg5 harg5 arg6 harg6 arg7 harg7 hc0 hc1 x0 x1 x2 xs0).2.2.1)

/-- Case C's pieces cover the f32 result block, -/
theorem cover10_C_3 (c : Dev nD) (i : grid10.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond10_0 i) (hc1 : cond10_1 i)
    (x0 : Vec F S2048x2048 .bf16) (x1 : Vec F S2048x16 .bf16) (x2 : Vec F S2048x16 .f32) (xs0 : Vec F S2048x16 .f32) (y : S2048x16.Idx) :
    ∃ pc ∈ (kernelRun10_C c i arg2 harg2 arg3 harg3 arg4 harg4 arg5 harg5 arg6 harg6 arg7 harg7 hc0 hc1 x0 x1 x2 xs0).1, y ∈ pc.1.set :=
  View.cover_of_tiledL (kernelRun10_C c i arg2 harg2 arg3 harg3 arg4 harg4 arg5 harg5 arg6 harg6 arg7 harg7 hc0 hc1 x0 x1 x2 xs0).1 S2048x16.size (by sl_kernel_rfl) y
/-- the bf16 result block, -/
theorem cover10_C_4 (c : Dev nD) (i : grid10.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond10_0 i) (hc1 : cond10_1 i)
    (x0 : Vec F S2048x2048 .bf16) (x1 : Vec F S2048x16 .bf16) (x2 : Vec F S2048x16 .f32) (xs0 : Vec F S2048x16 .f32) (y : S2048x16.Idx) :
    ∃ pc ∈ (kernelRun10_C c i arg2 harg2 arg3 harg3 arg4 harg4 arg5 harg5 arg6 harg6 arg7 harg7 hc0 hc1 x0 x1 x2 xs0).2.1, y ∈ pc.1.set :=
  View.cover_of_tiledL (kernelRun10_C c i arg2 harg2 arg3 harg3 arg4 harg4 arg5 harg5 arg6 harg6 arg7 harg7 hc0 hc1 x0 x1 x2 xs0).2.1 S2048x16.size (by sl_kernel_rfl) y
/-- and the accumulator. -/
theorem scover10_C_0 (c : Dev nD) (i : grid10.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond10_0 i) (hc1 : cond10_1 i)
    (x0 : Vec F S2048x2048 .bf16) (x1 : Vec F S2048x16 .bf16) (x2 : Vec F S2048x16 .f32) (xs0 : Vec F S2048x16 .f32) (y : S2048x16.Idx) :
    ∃ pc ∈ (kernelRun10_C c i arg2 harg2 arg3 harg3 arg4 harg4 arg5 harg5 arg6 harg6 arg7 harg7 hc0 hc1 x0 x1 x2 xs0).2.2.1, y ∈ pc.1.set :=
  View.cover_of_tiledL (kernelRun10_C c i arg2 harg2 arg3 harg3 arg4 harg4 arg5 harg5 arg6 harg6 arg7 harg7 hc0 hc1 x0 x1 x2 xs0).2.2.1 S2048x16.size (by sl_kernel_rfl) y
/-- What case C leaves in the f32 result block, -/
def out10_C_3 (c : Dev nD) (i : grid10.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond10_0 i) (hc1 : cond10_1 i)
    (x0 : Vec F S2048x2048 .bf16) (x1 : Vec F S2048x16 .bf16) (x2 : Vec F S2048x16 .f32) (xs0 : Vec F S2048x16 .f32) : Vec F S2048x16 .f32 :=
  VO10_3.read (Elt F) (VO10_3.writes (Elt F) VO10_3.junk (kernelRun10_C c i arg2 harg2 arg3 harg3 arg4 harg4 arg5 harg5 arg6 harg6 arg7 harg7 hc0 hc1 x0 x1 x2 xs0).1)
/-- in the bf16 result block, -/
def out10_C_4 (c : Dev nD) (i : grid10.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond10_0 i) (hc1 : cond10_1 i)
    (x0 : Vec F S2048x2048 .bf16) (x1 : Vec F S2048x16 .bf16) (x2 : Vec F S2048x16 .f32) (xs0 : Vec F S2048x16 .f32) : Vec F S2048x16 .bf16 :=
  VO10_4.read (Elt F) (VO10_4.writes (Elt F) VO10_4.junk (kernelRun10_C c i arg2 harg2 arg3 harg3 arg4 harg4 arg5 harg5 arg6 harg6 arg7 harg7 hc0 hc1 x0 x1 x2 xs0).2.1)
/-- and in the accumulator. -/
def sout10_C_0 (c : Dev nD) (i : grid10.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond10_0 i) (hc1 : cond10_1 i)
    (x0 : Vec F S2048x2048 .bf16) (x1 : Vec F S2048x16 .bf16) (x2 : Vec F S2048x16 .f32) (xs0 : Vec F S2048x16 .f32) : Vec F S2048x16 .f32 :=
  VS10_0.read (Elt F) (VS10_0.writes (Elt F) VS10_0.junk (kernelRun10_C c i arg2 harg2 arg3 harg3 arg4 harg4 arg5 harg5 arg6 harg6 arg7 harg7 hc0 hc1 x0 x1 x2 xs0).2.2.1)

/-- What the two result blocks' staging buffers and the accumulator hold after the body at position `n`: the case
    the position selects, run at the point's blocks, cases B and C over the accumulator the point before left. -/
def outsAt10 (c : Dev nD) : (n : ℕ) → n < cfg10.N → Vec F S2048x16 .f32 × Vec F S2048x16 .bf16 × Vec F S2048x16 .f32
  | 0, hn => ((VO10_3.read (Elt F) VO10_3.junk), (VO10_4.read (Elt F) VO10_4.junk), sout10_A_0 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) (ms10_3 ⟨0, hn⟩) (hs10_3 ⟨0, hn⟩) (ms10_4 ⟨0, hn⟩) (hs10_4 ⟨0, hn⟩) scM10_0 (Memref.isWhole_whole _) ((hcond10_0 ⟨0, hn⟩).mpr (Nat.zero_mod _)) (fun h => (fun h => by (try dsimp only at h); omega) ((hcond10_1 ⟨0, hn⟩).mp h)) (iblk10 V c 0 ⟨0, hn⟩) (iblk10 V c 1 ⟨0, hn⟩) (iblk10 V c 2 ⟨0, hn⟩))
  | n + 1, hn =>
    if h0 : (n + 1) % 8 = 0 then
      if h1 : (n + 1) % 8 = 7 then
        False.elim (by omega)
      else
        ((VO10_3.read (Elt F) VO10_3.junk), (VO10_4.read (Elt F) VO10_4.junk), sout10_A_0 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) scM10_0 (Memref.isWhole_whole _) ((hcond10_0 ⟨n + 1, hn⟩).mpr h0) (fun h => h1 ((hcond10_1 ⟨n + 1, hn⟩).mp h)) (iblk10 V c 0 ⟨n + 1, hn⟩) (iblk10 V c 1 ⟨n + 1, hn⟩) (iblk10 V c 2 ⟨n + 1, hn⟩))
    else
      if h1 : (n + 1) % 8 = 7 then
        (out10_C_3 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) scM10_0 (Memref.isWhole_whole _) (fun h => h0 ((hcond10_0 ⟨n + 1, hn⟩).mp h)) ((hcond10_1 ⟨n + 1, hn⟩).mpr h1) (iblk10 V c 0 ⟨n + 1, hn⟩) (iblk10 V c 1 ⟨n + 1, hn⟩) (iblk10 V c 2 ⟨n + 1, hn⟩) (outsAt10 c n (Nat.lt_of_succ_lt hn)).2.2, out10_C_4 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) scM10_0 (Memref.isWhole_whole _) (fun h => h0 ((hcond10_0 ⟨n + 1, hn⟩).mp h)) ((hcond10_1 ⟨n + 1, hn⟩).mpr h1) (iblk10 V c 0 ⟨n + 1, hn⟩) (iblk10 V c 1 ⟨n + 1, hn⟩) (iblk10 V c 2 ⟨n + 1, hn⟩) (outsAt10 c n (Nat.lt_of_succ_lt hn)).2.2, sout10_C_0 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) scM10_0 (Memref.isWhole_whole _) (fun h => h0 ((hcond10_0 ⟨n + 1, hn⟩).mp h)) ((hcond10_1 ⟨n + 1, hn⟩).mpr h1) (iblk10 V c 0 ⟨n + 1, hn⟩) (iblk10 V c 1 ⟨n + 1, hn⟩) (iblk10 V c 2 ⟨n + 1, hn⟩) (outsAt10 c n (Nat.lt_of_succ_lt hn)).2.2)
      else
        ((VO10_3.read (Elt F) VO10_3.junk), (VO10_4.read (Elt F) VO10_4.junk), sout10_B_0 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) scM10_0 (Memref.isWhole_whole _) (fun h => h0 ((hcond10_0 ⟨n + 1, hn⟩).mp h)) (fun h => h1 ((hcond10_1 ⟨n + 1, hn⟩).mp h)) (iblk10 V c 0 ⟨n + 1, hn⟩) (iblk10 V c 1 ⟨n + 1, hn⟩) (iblk10 V c 2 ⟨n + 1, hn⟩) (outsAt10 c n (Nat.lt_of_succ_lt hn)).2.2)

theorem outsAt10_A (c : Dev nD) (t : Fin cfg10.N) (h0 : t.val % 8 = 0) (h1 : ¬t.val % 8 = 7) :
    outsAt10 V c t.val t.isLt = ((VO10_3.read (Elt F) VO10_3.junk), (VO10_4.read (Elt F) VO10_4.junk), sout10_A_0 c (grid10.coords t) (ms10_0 t) (hs10_0 t) (ms10_1 t) (hs10_1 t) (ms10_2 t) (hs10_2 t) (ms10_3 t) (hs10_3 t) (ms10_4 t) (hs10_4 t) scM10_0 (Memref.isWhole_whole _) ((hcond10_0 t).mpr h0) (fun h => h1 ((hcond10_1 t).mp h)) (iblk10 V c 0 t) (iblk10 V c 1 t) (iblk10 V c 2 t)) := by
  obtain ⟨n, hn⟩ := t
  cases n with
  | zero => exact rfl
  | succ n => exact (dif_pos h0).trans ((dif_neg h1).trans rfl)

theorem outsAt10_B (c : Dev nD) (t : Fin cfg10.N) (h0 : ¬t.val % 8 = 0) (h1 : ¬t.val % 8 = 7) :
    outsAt10 V c t.val t.isLt = ((VO10_3.read (Elt F) VO10_3.junk), (VO10_4.read (Elt F) VO10_4.junk), sout10_B_0 c (grid10.coords t) (ms10_0 t) (hs10_0 t) (ms10_1 t) (hs10_1 t) (ms10_2 t) (hs10_2 t) (ms10_3 t) (hs10_3 t) (ms10_4 t) (hs10_4 t) scM10_0 (Memref.isWhole_whole _) (fun h => h0 ((hcond10_0 t).mp h)) (fun h => h1 ((hcond10_1 t).mp h)) (iblk10 V c 0 t) (iblk10 V c 1 t) (iblk10 V c 2 t) (outsAt10 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt10_C (c : Dev nD) (t : Fin cfg10.N) (h0 : ¬t.val % 8 = 0) (h1 : t.val % 8 = 7) :
    outsAt10 V c t.val t.isLt = (out10_C_3 c (grid10.coords t) (ms10_0 t) (hs10_0 t) (ms10_1 t) (hs10_1 t) (ms10_2 t) (hs10_2 t) (ms10_3 t) (hs10_3 t) (ms10_4 t) (hs10_4 t) scM10_0 (Memref.isWhole_whole _) (fun h => h0 ((hcond10_0 t).mp h)) ((hcond10_1 t).mpr h1) (iblk10 V c 0 t) (iblk10 V c 1 t) (iblk10 V c 2 t) (outsAt10 V c (t.val - 1) (Nat.lt_of_le_of_lt (Nat.sub_le _ _) t.isLt)).2.2, out10_C_4 c (grid10.coords t) (ms10_0 t) (hs10_0 t) (ms10_1 t) (hs10_1 t) (ms10_2 t) (hs10_2 t) (ms10_3 t) (hs10_3 t) (ms10_4 t) (hs10_4 t) scM10_0 (Memref.isWhole_whole _) (fun h => h0 ((hcond10_0 t).mp h)) ((hcond10_1 t).mpr h1) (iblk10 V c 0 t) (iblk10 V c 1 t) (iblk10 V c 2 t) (outsAt10 V c (t.val - 1) (Nat.lt_of_le_of_lt (Nat.sub_le _ _) t.isLt)).2.2, sout10_C_0 c (grid10.coords t) (ms10_0 t) (hs10_0 t) (ms10_1 t) (hs10_1 t) (ms10_2 t) (hs10_2 t) (ms10_3 t) (hs10_3 t) (ms10_4 t) (hs10_4 t) scM10_0 (Memref.isWhole_whole _) (fun h => h0 ((hcond10_0 t).mp h)) ((hcond10_1 t).mpr h1) (iblk10 V c 0 t) (iblk10 V c 1 t) (iblk10 V c 2 t) (outsAt10 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The scoped buffers of the program other than this region's staging buffers and its accumulator. -/
abbrev RB10 (c : Dev nD) : sProp 𝕄 :=
  Pipeline.scopedRestBut (Ix := Unit) (Name := ℕ) (U := UR sig nD τ) (Lvl := ℕ) (Val := Elt F) spec10 c [cc10_scratch0]

/-- The region invariant before position `n`: at the first point every scoped buffer outside the staging buffers at
    anything; afterwards the accumulator at what the point before left in it. -/
def PhiS10 (c : Dev nD) : (n : ℕ) → n ≤ cfg10.N → sProp 𝕄
  | 0, _ => Pipeline.ΦA spec10 c
  | n + 1, hn => iprop((iprop(owns (c : Thread nD τ) scM10_0 fullShare ((outsAt10 V c n hn).2.2)) ∗ RB10 c) ∗ (∃ r, prngReg c r))

theorem PhiS10_zero (c : Dev nD) (n : ℕ) (h : n ≤ cfg10.N) (hz : n = 0) : PhiS10 V c n h = Pipeline.ΦA spec10 c := by
  subst hz; rfl
theorem PhiS10_succ (c : Dev nD) (n : ℕ) (hn : n < cfg10.N) :
    PhiS10 V c (n + 1) hn = iprop((iprop(owns (c : Thread nD τ) scM10_0 fullShare ((outsAt10 V c n hn).2.2)) ∗ RB10 c) ∗ (∃ r, prngReg c r)) := rfl
theorem PhiS10_pos (c : Dev nD) (n : ℕ) (h : n ≤ cfg10.N) (hz : n ≠ 0) :
    PhiS10 V c n h = iprop((iprop(owns (c : Thread nD τ) scM10_0 fullShare ((outsAt10 V c (n - 1) (by omega)).2.2)) ∗ RB10 c) ∗ (∃ r, prngReg c r)) := by
  cases n with
  | zero => exact absurd rfl hz
  | succ n => rfl

/-- The first point's invariant with the accumulator split out, owned at some contents. -/
theorem PhiA10_eq (c : Dev nD) :
    (Pipeline.ΦA spec10 c : sProp 𝕄)
      = iprop((iprop((∃ d, owns (c : Thread nD τ) scM10_0 fullShare d)) ∗ RB10 c) ∗ (∃ r, prngReg c r)) := by
  unfold Pipeline.ΦA; rw [scopedRest10_split]; simp only [scM10_0, owns_whole]; try rfl

/-- The proof data of region 10's pipeline on core `c`: the arrays as the region finds them; after the body at
    point `t` each input's buffer at its block and the results' at `outsAt10`; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => (outsAt10 V c t.val t.isLt).1
    | ⟨4, _⟩ => (outsAt10 V c t.val t.isLt).2.1
  Φ t := PhiS10 V c t.val (Nat.le_of_lt_succ t.isLt)
  q _ := fullShare
  owed _ := 0

theorem A_eq10 (c : Dev nD) (w : Fin cfg10.W) : (dat10 V c).A w = V c (Pipeline.arrRef spec10 w) := by
  dsimp only [dat10]
theorem PhiS10_castSucc (c : Dev nD) (t : Fin cfg10.N) :
    (dat10 V c).Φ t.castSucc = PhiS10 V c t.val (Nat.le_of_lt t.isLt) := by
  dsimp only [dat10]; simp only [Fin.coe_castSucc]
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = (outsAt10 V c t.val t.isLt).1 := by dsimp only [dat10]
theorem after10_4 (c : Dev nD) (t : Fin cfg10.N) : (dat10 V c).after 4 t = (outsAt10 V c t.val t.isLt).2.1 := by dsimp only [dat10]
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d

/-- What the body is called with at point `t`, -/
def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d))
    ∗ (∃ d, owns (c : Thread nD τ) (ms10_3 t) fullShare ((dat10 V c).before 3 t d))
    ∗ (∃ d, owns (c : Thread nD τ) (ms10_4 t) fullShare ((dat10 V c).before 4 t d)))
/-- and what it returns. -/
def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t
    ∗ (dat10 V c).leavesExact 3 t
    ∗ (dat10 V c).leavesExact 4 t)

set_option maxHeartbeats 8000000 in
/-- The body at any point: the inputs' buffers hold their blocks; the position says which case the point is in; the
    invariant hands the body the accumulator at what the point before left (at anything at the first point) and takes
    it back at this point's contents; the core owes nothing throughout. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2]
  rw [show (dat10 V c).owesAt () t.succ = (dat10 V c).owesAt () t.castSucc from rfl]
  rw [show (dat10 V c).Φ t.succ = PhiS10 V c (t.val + 1) t.isLt from rfl, PhiS10_succ]
  have hN : t.val < 64 := lt_of_lt_of_eq t.isLt (show cfg10.N = 64 from N_10)
  rw [show (dat10 V c).leavesExact 0 t = owns (c : Thread nD τ) (ms10_0 t) fullShare ((dat10 V c).after 0 t) from by
      unfold Dat.leavesExact; rw [liveAt10_0 t], after10_0]
  rw [show (dat10 V c).leavesExact 1 t = owns (c : Thread nD τ) (ms10_1 t) fullShare ((dat10 V c).after 1 t) from by
      unfold Dat.leavesExact; rw [liveAt10_1 t], after10_1]
  rw [show (dat10 V c).leavesExact 2 t = owns (c : Thread nD τ) (ms10_2 t) fullShare ((dat10 V c).after 2 t) from by
      unfold Dat.leavesExact; rw [liveAt10_2 t], after10_2]
  by_cases h0 : t.val % 8 = 0
  · have h1 : ¬t.val % 8 = 7 := by omega
    rw [Dat.leavesExact_idle (dat10 V c) 3 t (idleAt10_3 t (fun h => h1 ((hcond10_1 t).mp h))) (noFlush10_3 t (fun h => h1 ((hcond10_1 t).mp h)))]
    rw [Dat.leavesExact_idle (dat10 V c) 4 t (idleAt10_4 t (fun h => h1 ((hcond10_1 t).mp h))) (noFlush10_4 t (fun h => h1 ((hcond10_1 t).mp h)))]
    rw [outsAt10_A V c t h0 h1]
    unfold sout10_A_0; (try dsimp only)
    by_cases hz : t.val = 0
    · rw [PhiS10_castSucc V c t, PhiS10_zero V c _ _ hz, PhiA10_eq]
      iintro ⟨⟨⟨HS0, HR⟩, Hg⟩, Ho, ⟨%d0, H0⟩, ⟨%d1, H1⟩, ⟨%d2, H2⟩, ⟨%d3, H3⟩, ⟨%d4, H4⟩⟩
      iapply ((kernelRun10_A c (grid10.coords t) _ _ _ _ _ _ _ _ _ _ _ _ ((hcond10_0 t).mpr h0) (fun h => h1 ((hcond10_1 t).mp h)) (iblk10 V c 0 t) (iblk10 V c 1 t) (iblk10 V c 2 t)).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover10_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
    · rw [PhiS10_castSucc V c t, PhiS10_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun10_A c (grid10.coords t) _ _ _ _ _ _ _ _ _ _ _ _ ((hcond10_0 t).mpr h0) (fun h => h1 ((hcond10_1 t).mp h)) (iblk10 V c 0 t) (iblk10 V c 1 t) (iblk10 V c 2 t)).2.2.2 _ _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover10_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun h => h0 (by rw [h])
    by_cases h1 : t.val % 8 = 7
    · rw [show (dat10 V c).leavesExact 3 t = owns (c : Thread nD τ) (ms10_3 t) fullShare ((dat10 V c).after 3 t) from by
        unfold Dat.leavesExact; rw [liveAt10_3 t ((hcond10_1 t).mpr h1)], after10_3]
      rw [show (dat10 V c).leavesExact 4 t = owns (c : Thread nD τ) (ms10_4 t) fullShare ((dat10 V c).after 4 t) from by
        unfold Dat.leavesExact; rw [liveAt10_4 t ((hcond10_1 t).mpr h1)], after10_4]
      rw [outsAt10_C V c t h0 h1]
      unfold out10_C_3 out10_C_4 sout10_C_0; (try dsimp only)
      rw [PhiS10_castSucc V c t, PhiS10_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun10_C c (grid10.coords t) _ _ _ _ _ _ _ _ _ _ _ _ (fun h => h0 ((hcond10_0 t).mp h)) ((hcond10_1 t).mpr h1) (iblk10 V c 0 t) (iblk10 V c 1 t) (iblk10 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover10_C_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover10_C_3 c _ _ _ _ _ _ _ _ _ _ _ _ _ _ _ _ _ _ _)
      unfold owns; iexists _; isplitr
      swap; · iexact H4
      ipureintro; exact View.read_writes_of_cover _ _ _ _ _ (cover10_C_4 c _ _ _ _ _ _ _ _ _ _ _ _ _ _ _ _ _ _ _)
    · rw [Dat.leavesExact_idle (dat10 V c) 3 t (idleAt10_3 t (fun h => h1 ((hcond10_1 t).mp h))) (noFlush10_3 t (fun h => h1 ((hcond10_1 t).mp h)))]
      rw [Dat.leavesExact_idle (dat10 V c) 4 t (idleAt10_4 t (fun h => h1 ((hcond10_1 t).mp h))) (noFlush10_4 t (fun h => h1 ((hcond10_1 t).mp h)))]
      rw [outsAt10_B V c t h0 h1]
      unfold sout10_B_0; (try dsimp only)
      rw [PhiS10_castSucc V c t, PhiS10_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun10_B c (grid10.coords t) _ _ _ _ _ _ _ _ _ _ _ _ (fun h => h0 ((hcond10_0 t).mp h)) (fun h => h1 ((hcond10_1 t).mp h)) (iblk10 V c 0 t) (iblk10 V c 1 t) (iblk10 V c 2 t) _).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover10_B_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4

/-- The body obligation of region 10, at every point. -/
theorem body_obligation10 (c : Dev nD) : BodyObligation (dat10 (F := F) V c) (defs₀ (F := F)) Variants.none () Set.univ := fun t => by
  rw [bigSep_W10, bigSep_W10]
  exact sound_body10 V c t

/-- What the region is entered with is the invariant before the first point. -/
theorem hin10 (c : Dev nD) : Pipeline.ΦA spec10 c ⊢ (dat10 V c).Φ 0 := by
  rw [show (dat10 V c).Φ 0 = PhiS10 V c 0 (Nat.zero_le _) from rfl, PhiS10_zero V c 0 _ rfl]
  try exact Idealize.SL.BI.Entails.refl _

/-- After the last point the invariant gives the scoped buffers back: what the accumulator holds is forgotten. -/
theorem hout10 (c : Dev nD) : (dat10 V c).Φ (Fin.last cfg10.N) ⊢ Pipeline.ΦA spec10 c := by
  have ht : (Fin.last cfg10.N).val ≠ 0 := by rw [Fin.val_last]; have : cfg10.N = 64 := N_10; omega
  rw [show (dat10 V c).Φ (Fin.last cfg10.N) = PhiS10 V c (Fin.last cfg10.N).val (Nat.le_of_lt_succ (Fin.last cfg10.N).isLt) from rfl,
    PhiS10_pos V c _ _ ht, PhiA10_eq]
  iintro ⟨⟨HS0, HR⟩, Hg⟩
  isplitl [HS0 HR]
  · isplitl [HS0]
    · iexists _; iexact HS0
    iexact HR
  iexact Hg

end Cert.Kernel.Hand

end
-- ==== Proof.RegB11Run.lean ====
/-
  Region 11 of the program (the recurrence step 2·(Ls·T) − T′): the kernel body run once per control case.
  The grid is 8 × 8; a point t = 8·r + k handles row block r and column block k of Ls. The body zeroes the
  accumulator when k = 0 (case A), adds the block product Ls[r,k]·v[k] to it at every point, and when k = 7
  (case C) stores the combination of the accumulator and the block of the earlier vector into both result
  blocks; at 0 < k < 7 (case B) it only accumulates. Each run states what the body's stores leave in the
  accumulator and in the result blocks, as the list of stored pieces.
-/
import proofs.«108570_j29480655520371_2_alg».proof.Proof.Gen.Kernel.Launch
import proofs.«108570_j29480655520371_2_alg».proof.Proof.Gen.Kernel.Skeleton
import proofs.«108570_j29480655520371_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's current staging buffer holds its block at every point, fetched there or not. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
/-- Input window 1's current staging buffer holds its block at every point, fetched there or not. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
/-- Input window 2's current staging buffer holds its block at every point, fetched there or not. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-- k = 0: the accumulator is zeroed first. -/
abbrev cond11_0 (i : grid11.Coords) : Prop := (Scalar.cmpi .ne (Scalar.extui (Scalar.cmpi .eq (BitVec.ofNat 32 (i 1).val) 0#32)) 0#32) = 1#1
theorem hcond11_0 : ∀ t : Fin cfg11.N, cond11_0 (grid11.coords t) ↔ t.val % 8 = 0 :=
  (by decide +kernel : ∀ t : Fin grid11.N, cond11_0 (grid11.coords t) ↔ t.val % 8 = 0)
/-- k = 7: the results are stored. -/
abbrev cond11_1 (i : grid11.Coords) : Prop := k11_cond2 i = 1#1
theorem hcond11_1 : ∀ t : Fin cfg11.N, cond11_1 (grid11.coords t) ↔ t.val % 8 = 7 :=
  (by decide +kernel : ∀ t : Fin grid11.N, cond11_1 (grid11.coords t) ↔ t.val % 8 = 7)

theorem liveAt11_0 : ∀ t : Fin cfg11.N, cfg11.idle 0 (grid11.coords t) = false := by decide +kernel
theorem liveAt11_1 : ∀ t : Fin cfg11.N, cfg11.idle 1 (grid11.coords t) = false := by decide +kernel
theorem liveAt11_2 : ∀ t : Fin cfg11.N, cfg11.idle 2 (grid11.coords t) = false := by decide +kernel
theorem idleAt11_3 : ∀ t : Fin cfg11.N, ¬cond11_1 (grid11.coords t) → cfg11.idle 3 (grid11.coords t) = true := by decide +kernel
theorem noFlush11_3 : ∀ t : Fin cfg11.N, ¬cond11_1 (grid11.coords t) → (cfg11.win 3).flush t = false := by decide +kernel
theorem liveAt11_3 : ∀ t : Fin cfg11.N, cond11_1 (grid11.coords t) → cfg11.idle 3 (grid11.coords t) = false := by decide +kernel
theorem idleAt11_4 : ∀ t : Fin cfg11.N, ¬cond11_1 (grid11.coords t) → cfg11.idle 4 (grid11.coords t) = true := by decide +kernel
theorem noFlush11_4 : ∀ t : Fin cfg11.N, ¬cond11_1 (grid11.coords t) → (cfg11.win 4).flush t = false := by decide +kernel
theorem liveAt11_4 : ∀ t : Fin cfg11.N, cond11_1 (grid11.coords t) → cfg11.idle 4 (grid11.coords t) = false := by decide +kernel

/-- One staging buffer of each result window, through which its contents are stated. -/
abbrev VO11_3 : View sig .tc .vmem S2048x16 .f32 := (Memref.whole cc11_stg3_0 : Memref sig .tc .vmem S2048x16 .f32).view
abbrev VO11_4 : View sig .tc .vmem S2048x16 .bf16 := (Memref.whole cc11_stg4_0 : Memref sig .tc .vmem S2048x16 .bf16).view
abbrev ms11_0 (t : Fin cfg11.N) : Memref sig .tc .vmem S2048x2048 .bf16 := win11_0.stage (cfg11.slots t 0)
abbrev hs11_0 (t : Fin cfg11.N) : (ms11_0 t).IsWhole := hstage11_0 ((cfg11.slots t 0).cast nbuf11_0)
abbrev ms11_1 (t : Fin cfg11.N) : Memref sig .tc .vmem S2048x16 .bf16 := win11_1.stage (cfg11.slots t 1)
abbrev hs11_1 (t : Fin cfg11.N) : (ms11_1 t).IsWhole := hstage11_1 ((cfg11.slots t 1).cast nbuf11_1)
abbrev ms11_2 (t : Fin cfg11.N) : Memref sig .tc .vmem S2048x16 .f32 := win11_2.stage (cfg11.slots t 2)
abbrev hs11_2 (t : Fin cfg11.N) : (ms11_2 t).IsWhole := hstage11_2 ((cfg11.slots t 2).cast nbuf11_2)
abbrev ms11_3 (t : Fin cfg11.N) : Memref sig .tc .vmem S2048x16 .f32 := win11_3.stage (cfg11.slots t 3)
abbrev hs11_3 (t : Fin cfg11.N) : (ms11_3 t).IsWhole := hstage11_3 ((cfg11.slots t 3).cast nbuf11_3)
abbrev ms11_4 (t : Fin cfg11.N) : Memref sig .tc .vmem S2048x16 .bf16 := win11_4.stage (cfg11.slots t 4)
abbrev hs11_4 (t : Fin cfg11.N) : (ms11_4 t).IsWhole := hstage11_4 ((cfg11.slots t 4).cast nbuf11_4)
/-- The accumulator: a whole scoped buffer of the kernel's own. -/
abbrev scM11_0 : Memref sig .tc .vmem S2048x16 .f32 := Memref.whole cc11_scratch0
abbrev VS11_0 : View sig .tc .vmem S2048x16 .f32 := scM11_0.view

set_option maxHeartbeats 4000000 in
/-- Case A (k = 0): the accumulator, at anything, is zeroed and then receives the first block product; the result
    blocks are handed back untouched. -/
noncomputable def kernelRun11_A (c : Dev nD) (i : grid11.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond11_0 i) (hc1 : ¬cond11_1 i)
    (x0 : Vec F S2048x2048 .bf16) (x1 : Vec F S2048x16 .bf16) (x2 : Vec F S2048x16 .f32) :
    Σ' (L3 : List (View.Piece (Elt F) S2048x16 .f32)) (L4 : List (View.Piece (Elt F) S2048x16 .bf16)), { LS0 : List (View.Piece (Elt F) S2048x16 .f32) //
      ∀ (xi3 : Vec F S2048x16 .f32) (xi4 : Vec F S2048x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc11__matmul_combine_kernel i arg2 harg2 arg3 harg3 arg4 harg4 arg5 harg5 arg6 harg6 arg7 harg7) K } := by
  refine ⟨[], [], ?_, fun xi3 xi4 E K => ?run⟩
  case run =>
    simp only [cc11__matmul_combine_kernel_eq_skeleton]; unfold cc11__matmul_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case B (0 < k < 7): the accumulator, at what the point before left, receives one more block product; the result
    blocks are handed back untouched. -/
noncomputable def kernelRun11_B (c : Dev nD) (i : grid11.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond11_0 i) (hc1 : ¬cond11_1 i)
    (x0 : Vec F S2048x2048 .bf16) (x1 : Vec F S2048x16 .bf16) (x2 : Vec F S2048x16 .f32) (xs0 : Vec F S2048x16 .f32) :
    Σ' (L3 : List (View.Piece (Elt F) S2048x16 .f32)) (L4 : List (View.Piece (Elt F) S2048x16 .bf16)), { LS0 : List (View.Piece (Elt F) S2048x16 .f32) //
      ∀ (xi3 : Vec F S2048x16 .f32) (xi4 : Vec F S2048x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc11__matmul_combine_kernel i arg2 harg2 arg3 harg3 arg4 harg4 arg5 harg5 arg6 harg6 arg7 harg7) K } := by
  refine ⟨[], [], ?_, fun xi3 xi4 E K => ?run⟩
  case run =>
    simp only [cc11__matmul_combine_kernel_eq_skeleton]; unfold cc11__matmul_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case C (k = 7): the accumulator receives the last block product, and both result blocks, at anything, are stored
    whole with the combination of the accumulator and the block of the earlier vector. -/
noncomputable def kernelRun11_C (c : Dev nD) (i : grid11.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond11_0 i) (hc1 : cond11_1 i)
    (x0 : Vec F S2048x2048 .bf16) (x1 : Vec F S2048x16 .bf16) (x2 : Vec F S2048x16 .f32) (xs0 : Vec F S2048x16 .f32) :
    Σ' (L3 : List (View.Piece (Elt F) S2048x16 .f32)) (L4 : List (View.Piece (Elt F) S2048x16 .bf16)), { LS0 : List (View.Piece (Elt F) S2048x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc11__matmul_combine_kernel i arg2 harg2 arg3 harg3 arg4 harg4 arg5 harg5 arg6 harg6 arg7 harg7) K } := by
  refine ⟨?_, ?_, ?_, fun E K => ?run⟩
  case run =>
    simp only [cc11__matmul_combine_kernel_eq_skeleton]; unfold cc11__matmul_combine_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.Kernel.Hand

end
-- ==== Proof.RegB11Frame.lean ====
/-
  Region 11: what its result blocks and its accumulator hold after every grid point, the proof data of its pipeline,
  and the body obligation. After point t = 8·r + k the accumulator holds the sum of the block products
  Ls[r,0]·v[0] + … + Ls[r,k]·v[k] (case A starts it from zero, cases B and C continue from what the point before
  left); the result blocks are written at k = 7 only and written back to their arrays right after that point, so at
  the other points their staging buffers are idle and what they hold is never consulted.
-/
import proofs.«108570_j29480655520371_2_alg».proof.Proof.RegB11Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's piece for the accumulator covers it. -/
theorem scover11_A_0 (c : Dev nD) (i : grid11.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond11_0 i) (hc1 : ¬cond11_1 i)
    (x0 : Vec F S2048x2048 .bf16) (x1 : Vec F S2048x16 .bf16) (x2 : Vec F S2048x16 .f32) (y : S2048x16.Idx) :
    ∃ pc ∈ (kernelRun11_A c i arg2 harg2 arg3 harg3 arg4 harg4 arg5 harg5 arg6 harg6 arg7 harg7 hc0 hc1 x0 x1 x2).2.2.1, y ∈ pc.1.set :=
  View.cover_of_tiledL (kernelRun11_A c i arg2 harg2 arg3 harg3 arg4 harg4 arg5 harg5 arg6 harg6 arg7 harg7 hc0 hc1 x0 x1 x2).2.2.1 S2048x16.size (by sl_kernel_rfl) y
/-- What case A leaves in the accumulator. -/
def sout11_A_0 (c : Dev nD) (i : grid11.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond11_0 i) (hc1 : ¬cond11_1 i)
    (x0 : Vec F S2048x2048 .bf16) (x1 : Vec F S2048x16 .bf16) (x2 : Vec F S2048x16 .f32) : Vec F S2048x16 .f32 :=
  VS11_0.read (Elt F) (VS11_0.writes (Elt F) VS11_0.junk (kernelRun11_A c i arg2 harg2 arg3 harg3 arg4 harg4 arg5 harg5 arg6 harg6 arg7 harg7 hc0 hc1 x0 x1 x2).2.2.1)

/-- Case B's piece for the accumulator covers it. -/
theorem scover11_B_0 (c : Dev nD) (i : grid11.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond11_0 i) (hc1 : ¬cond11_1 i)
    (x0 : Vec F S2048x2048 .bf16) (x1 : Vec F S2048x16 .bf16) (x2 : Vec F S2048x16 .f32) (xs0 : Vec F S2048x16 .f32) (y : S2048x16.Idx) :
    ∃ pc ∈ (kernelRun11_B c i arg2 harg2 arg3 harg3 arg4 harg4 arg5 harg5 arg6 harg6 arg7 harg7 hc0 hc1 x0 x1 x2 xs0).2.2.1, y ∈ pc.1.set :=
  View.cover_of_tiledL (kernelRun11_B c i arg2 harg2 arg3 harg3 arg4 harg4 arg5 harg5 arg6 harg6 arg7 harg7 hc0 hc1 x0 x1 x2 xs0).2.2.1 S2048x16.size (by sl_kernel_rfl) y
/-- What case B leaves in the accumulator. -/
def sout11_B_0 (c : Dev nD) (i : grid11.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond11_0 i) (hc1 : ¬cond11_1 i)
    (x0 : Vec F S2048x2048 .bf16) (x1 : Vec F S2048x16 .bf16) (x2 : Vec F S2048x16 .f32) (xs0 : Vec F S2048x16 .f32) : Vec F S2048x16 .f32 :=
  VS11_0.read (Elt F) (VS11_0.writes (Elt F) VS11_0.junk (kernelRun11_B c i arg2 harg2 arg3 harg3 arg4 harg4 arg5 harg5 arg6 harg6 arg7 harg7 hc0 hc1 x0 x1 x2 xs0).2.2.1)

/-- Case C's pieces cover the f32 result block, -/
theorem cover11_C_3 (c : Dev nD) (i : grid11.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond11_0 i) (hc1 : cond11_1 i)
    (x0 : Vec F S2048x2048 .bf16) (x1 : Vec F S2048x16 .bf16) (x2 : Vec F S2048x16 .f32) (xs0 : Vec F S2048x16 .f32) (y : S2048x16.Idx) :
    ∃ pc ∈ (kernelRun11_C c i arg2 harg2 arg3 harg3 arg4 harg4 arg5 harg5 arg6 harg6 arg7 harg7 hc0 hc1 x0 x1 x2 xs0).1, y ∈ pc.1.set :=
  View.cover_of_tiledL (kernelRun11_C c i arg2 harg2 arg3 harg3 arg4 harg4 arg5 harg5 arg6 harg6 arg7 harg7 hc0 hc1 x0 x1 x2 xs0).1 S2048x16.size (by sl_kernel_rfl) y
/-- the bf16 result block, -/
theorem cover11_C_4 (c : Dev nD) (i : grid11.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond11_0 i) (hc1 : cond11_1 i)
    (x0 : Vec F S2048x2048 .bf16) (x1 : Vec F S2048x16 .bf16) (x2 : Vec F S2048x16 .f32) (xs0 : Vec F S2048x16 .f32) (y : S2048x16.Idx) :
    ∃ pc ∈ (kernelRun11_C c i arg2 harg2 arg3 harg3 arg4 harg4 arg5 harg5 arg6 harg6 arg7 harg7 hc0 hc1 x0 x1 x2 xs0).2.1, y ∈ pc.1.set :=
  View.cover_of_tiledL (kernelRun11_C c i arg2 harg2 arg3 harg3 arg4 harg4 arg5 harg5 arg6 harg6 arg7 harg7 hc0 hc1 x0 x1 x2 xs0).2.1 S2048x16.size (by sl_kernel_rfl) y
/-- and the accumulator. -/
theorem scover11_C_0 (c : Dev nD) (i : grid11.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond11_0 i) (hc1 : cond11_1 i)
    (x0 : Vec F S2048x2048 .bf16) (x1 : Vec F S2048x16 .bf16) (x2 : Vec F S2048x16 .f32) (xs0 : Vec F S2048x16 .f32) (y : S2048x16.Idx) :
    ∃ pc ∈ (kernelRun11_C c i arg2 harg2 arg3 harg3 arg4 harg4 arg5 harg5 arg6 harg6 arg7 harg7 hc0 hc1 x0 x1 x2 xs0).2.2.1, y ∈ pc.1.set :=
  View.cover_of_tiledL (kernelRun11_C c i arg2 harg2 arg3 harg3 arg4 harg4 arg5 harg5 arg6 harg6 arg7 harg7 hc0 hc1 x0 x1 x2 xs0).2.2.1 S2048x16.size (by sl_kernel_rfl) y
/-- What case C leaves in the f32 result block, -/
def out11_C_3 (c : Dev nD) (i : grid11.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond11_0 i) (hc1 : cond11_1 i)
    (x0 : Vec F S2048x2048 .bf16) (x1 : Vec F S2048x16 .bf16) (x2 : Vec F S2048x16 .f32) (xs0 : Vec F S2048x16 .f32) : Vec F S2048x16 .f32 :=
  VO11_3.read (Elt F) (VO11_3.writes (Elt F) VO11_3.junk (kernelRun11_C c i arg2 harg2 arg3 harg3 arg4 harg4 arg5 harg5 arg6 harg6 arg7 harg7 hc0 hc1 x0 x1 x2 xs0).1)
/-- in the bf16 result block, -/
def out11_C_4 (c : Dev nD) (i : grid11.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond11_0 i) (hc1 : cond11_1 i)
    (x0 : Vec F S2048x2048 .bf16) (x1 : Vec F S2048x16 .bf16) (x2 : Vec F S2048x16 .f32) (xs0 : Vec F S2048x16 .f32) : Vec F S2048x16 .bf16 :=
  VO11_4.read (Elt F) (VO11_4.writes (Elt F) VO11_4.junk (kernelRun11_C c i arg2 harg2 arg3 harg3 arg4 harg4 arg5 harg5 arg6 harg6 arg7 harg7 hc0 hc1 x0 x1 x2 xs0).2.1)
/-- and in the accumulator. -/
def sout11_C_0 (c : Dev nD) (i : grid11.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond11_0 i) (hc1 : cond11_1 i)
    (x0 : Vec F S2048x2048 .bf16) (x1 : Vec F S2048x16 .bf16) (x2 : Vec F S2048x16 .f32) (xs0 : Vec F S2048x16 .f32) : Vec F S2048x16 .f32 :=
  VS11_0.read (Elt F) (VS11_0.writes (Elt F) VS11_0.junk (kernelRun11_C c i arg2 harg2 arg3 harg3 arg4 harg4 arg5 harg5 arg6 harg6 arg7 harg7 hc0 hc1 x0 x1 x2 xs0).2.2.1)

/-- What the two result blocks' staging buffers and the accumulator hold after the body at position `n`: the case
    the position selects, run at the point's blocks, cases B and C over the accumulator the point before left. -/
def outsAt11 (c : Dev nD) : (n : ℕ) → n < cfg11.N → Vec F S2048x16 .f32 × Vec F S2048x16 .bf16 × Vec F S2048x16 .f32
  | 0, hn => ((VO11_3.read (Elt F) VO11_3.junk), (VO11_4.read (Elt F) VO11_4.junk), sout11_A_0 c (grid11.coords ⟨0, hn⟩) (ms11_0 ⟨0, hn⟩) (hs11_0 ⟨0, hn⟩) (ms11_1 ⟨0, hn⟩) (hs11_1 ⟨0, hn⟩) (ms11_2 ⟨0, hn⟩) (hs11_2 ⟨0, hn⟩) (ms11_3 ⟨0, hn⟩) (hs11_3 ⟨0, hn⟩) (ms11_4 ⟨0, hn⟩) (hs11_4 ⟨0, hn⟩) scM11_0 (Memref.isWhole_whole _) ((hcond11_0 ⟨0, hn⟩).mpr (Nat.zero_mod _)) (fun h => (fun h => by (try dsimp only at h); omega) ((hcond11_1 ⟨0, hn⟩).mp h)) (iblk11 V c 0 ⟨0, hn⟩) (iblk11 V c 1 ⟨0, hn⟩) (iblk11 V c 2 ⟨0, hn⟩))
  | n + 1, hn =>
    if h0 : (n + 1) % 8 = 0 then
      if h1 : (n + 1) % 8 = 7 then
        False.elim (by omega)
      else
        ((VO11_3.read (Elt F) VO11_3.junk), (VO11_4.read (Elt F) VO11_4.junk), sout11_A_0 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) (ms11_4 ⟨n + 1, hn⟩) (hs11_4 ⟨n + 1, hn⟩) scM11_0 (Memref.isWhole_whole _) ((hcond11_0 ⟨n + 1, hn⟩).mpr h0) (fun h => h1 ((hcond11_1 ⟨n + 1, hn⟩).mp h)) (iblk11 V c 0 ⟨n + 1, hn⟩) (iblk11 V c 1 ⟨n + 1, hn⟩) (iblk11 V c 2 ⟨n + 1, hn⟩))
    else
      if h1 : (n + 1) % 8 = 7 then
        (out11_C_3 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) (ms11_4 ⟨n + 1, hn⟩) (hs11_4 ⟨n + 1, hn⟩) scM11_0 (Memref.isWhole_whole _) (fun h => h0 ((hcond11_0 ⟨n + 1, hn⟩).mp h)) ((hcond11_1 ⟨n + 1, hn⟩).mpr h1) (iblk11 V c 0 ⟨n + 1, hn⟩) (iblk11 V c 1 ⟨n + 1, hn⟩) (iblk11 V c 2 ⟨n + 1, hn⟩) (outsAt11 c n (Nat.lt_of_succ_lt hn)).2.2, out11_C_4 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) (ms11_4 ⟨n + 1, hn⟩) (hs11_4 ⟨n + 1, hn⟩) scM11_0 (Memref.isWhole_whole _) (fun h => h0 ((hcond11_0 ⟨n + 1, hn⟩).mp h)) ((hcond11_1 ⟨n + 1, hn⟩).mpr h1) (iblk11 V c 0 ⟨n + 1, hn⟩) (iblk11 V c 1 ⟨n + 1, hn⟩) (iblk11 V c 2 ⟨n + 1, hn⟩) (outsAt11 c n (Nat.lt_of_succ_lt hn)).2.2, sout11_C_0 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) (ms11_4 ⟨n + 1, hn⟩) (hs11_4 ⟨n + 1, hn⟩) scM11_0 (Memref.isWhole_whole _) (fun h => h0 ((hcond11_0 ⟨n + 1, hn⟩).mp h)) ((hcond11_1 ⟨n + 1, hn⟩).mpr h1) (iblk11 V c 0 ⟨n + 1, hn⟩) (iblk11 V c 1 ⟨n + 1, hn⟩) (iblk11 V c 2 ⟨n + 1, hn⟩) (outsAt11 c n (Nat.lt_of_succ_lt hn)).2.2)
      else
        ((VO11_3.read (Elt F) VO11_3.junk), (VO11_4.read (Elt F) VO11_4.junk), sout11_B_0 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) (ms11_4 ⟨n + 1, hn⟩) (hs11_4 ⟨n + 1, hn⟩) scM11_0 (Memref.isWhole_whole _) (fun h => h0 ((hcond11_0 ⟨n + 1, hn⟩).mp h)) (fun h => h1 ((hcond11_1 ⟨n + 1, hn⟩).mp h)) (iblk11 V c 0 ⟨n + 1, hn⟩) (iblk11 V c 1 ⟨n + 1, hn⟩) (iblk11 V c 2 ⟨n + 1, hn⟩) (outsAt11 c n (Nat.lt_of_succ_lt hn)).2.2)

theorem outsAt11_A (c : Dev nD) (t : Fin cfg11.N) (h0 : t.val % 8 = 0) (h1 : ¬t.val % 8 = 7) :
    outsAt11 V c t.val t.isLt = ((VO11_3.read (Elt F) VO11_3.junk), (VO11_4.read (Elt F) VO11_4.junk), sout11_A_0 c (grid11.coords t) (ms11_0 t) (hs11_0 t) (ms11_1 t) (hs11_1 t) (ms11_2 t) (hs11_2 t) (ms11_3 t) (hs11_3 t) (ms11_4 t) (hs11_4 t) scM11_0 (Memref.isWhole_whole _) ((hcond11_0 t).mpr h0) (fun h => h1 ((hcond11_1 t).mp h)) (iblk11 V c 0 t) (iblk11 V c 1 t) (iblk11 V c 2 t)) := by
  obtain ⟨n, hn⟩ := t
  cases n with
  | zero => exact rfl
  | succ n => exact (dif_pos h0).trans ((dif_neg h1).trans rfl)

theorem outsAt11_B (c : Dev nD) (t : Fin cfg11.N) (h0 : ¬t.val % 8 = 0) (h1 : ¬t.val % 8 = 7) :
    outsAt11 V c t.val t.isLt = ((VO11_3.read (Elt F) VO11_3.junk), (VO11_4.read (Elt F) VO11_4.junk), sout11_B_0 c (grid11.coords t) (ms11_0 t) (hs11_0 t) (ms11_1 t) (hs11_1 t) (ms11_2 t) (hs11_2 t) (ms11_3 t) (hs11_3 t) (ms11_4 t) (hs11_4 t) scM11_0 (Memref.isWhole_whole _) (fun h => h0 ((hcond11_0 t).mp h)) (fun h => h1 ((hcond11_1 t).mp h)) (iblk11 V c 0 t) (iblk11 V c 1 t) (iblk11 V c 2 t) (outsAt11 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt11_C (c : Dev nD) (t : Fin cfg11.N) (h0 : ¬t.val % 8 = 0) (h1 : t.val % 8 = 7) :
    outsAt11 V c t.val t.isLt = (out11_C_3 c (grid11.coords t) (ms11_0 t) (hs11_0 t) (ms11_1 t) (hs11_1 t) (ms11_2 t) (hs11_2 t) (ms11_3 t) (hs11_3 t) (ms11_4 t) (hs11_4 t) scM11_0 (Memref.isWhole_whole _) (fun h => h0 ((hcond11_0 t).mp h)) ((hcond11_1 t).mpr h1) (iblk11 V c 0 t) (iblk11 V c 1 t) (iblk11 V c 2 t) (outsAt11 V c (t.val - 1) (Nat.lt_of_le_of_lt (Nat.sub_le _ _) t.isLt)).2.2, out11_C_4 c (grid11.coords t) (ms11_0 t) (hs11_0 t) (ms11_1 t) (hs11_1 t) (ms11_2 t) (hs11_2 t) (ms11_3 t) (hs11_3 t) (ms11_4 t) (hs11_4 t) scM11_0 (Memref.isWhole_whole _) (fun h => h0 ((hcond11_0 t).mp h)) ((hcond11_1 t).mpr h1) (iblk11 V c 0 t) (iblk11 V c 1 t) (iblk11 V c 2 t) (outsAt11 V c (t.val - 1) (Nat.lt_of_le_of_lt (Nat.sub_le _ _) t.isLt)).2.2, sout11_C_0 c (grid11.coords t) (ms11_0 t) (hs11_0 t) (ms11_1 t) (hs11_1 t) (ms11_2 t) (hs11_2 t) (ms11_3 t) (hs11_3 t) (ms11_4 t) (hs11_4 t) scM11_0 (Memref.isWhole_whole _) (fun h => h0 ((hcond11_0 t).mp h)) ((hcond11_1 t).mpr h1) (iblk11 V c 0 t) (iblk11 V c 1 t) (iblk11 V c 2 t) (outsAt11 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The scoped buffers of the program other than this region's staging buffers and its accumulator. -/
abbrev RB11 (c : Dev nD) : sProp 𝕄 :=
  Pipeline.scopedRestBut (Ix := Unit) (Name := ℕ) (U := UR sig nD τ) (Lvl := ℕ) (Val := Elt F) spec11 c [cc11_scratch0]

/-- The region invariant before position `n`: at the first point every scoped buffer outside the staging buffers at
    anything; afterwards the accumulator at what the point before left in it. -/
def PhiS11 (c : Dev nD) : (n : ℕ) → n ≤ cfg11.N → sProp 𝕄
  | 0, _ => Pipeline.ΦA spec11 c
  | n + 1, hn => iprop((iprop(owns (c : Thread nD τ) scM11_0 fullShare ((outsAt11 V c n hn).2.2)) ∗ RB11 c) ∗ (∃ r, prngReg c r))

theorem PhiS11_zero (c : Dev nD) (n : ℕ) (h : n ≤ cfg11.N) (hz : n = 0) : PhiS11 V c n h = Pipeline.ΦA spec11 c := by
  subst hz; rfl
theorem PhiS11_succ (c : Dev nD) (n : ℕ) (hn : n < cfg11.N) :
    PhiS11 V c (n + 1) hn = iprop((iprop(owns (c : Thread nD τ) scM11_0 fullShare ((outsAt11 V c n hn).2.2)) ∗ RB11 c) ∗ (∃ r, prngReg c r)) := rfl
theorem PhiS11_pos (c : Dev nD) (n : ℕ) (h : n ≤ cfg11.N) (hz : n ≠ 0) :
    PhiS11 V c n h = iprop((iprop(owns (c : Thread nD τ) scM11_0 fullShare ((outsAt11 V c (n - 1) (by omega)).2.2)) ∗ RB11 c) ∗ (∃ r, prngReg c r)) := by
  cases n with
  | zero => exact absurd rfl hz
  | succ n => rfl

/-- The first point's invariant with the accumulator split out, owned at some contents. -/
theorem PhiA11_eq (c : Dev nD) :
    (Pipeline.ΦA spec11 c : sProp 𝕄)
      = iprop((iprop((∃ d, owns (c : Thread nD τ) scM11_0 fullShare d)) ∗ RB11 c) ∗ (∃ r, prngReg c r)) := by
  unfold Pipeline.ΦA; rw [scopedRest11_split]; simp only [scM11_0, owns_whole]; try rfl

/-- The proof data of region 11's pipeline on core `c`: the arrays as the region finds them; after the body at
    point `t` each input's buffer at its block and the results' at `outsAt11`; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => (outsAt11 V c t.val t.isLt).1
    | ⟨4, _⟩ => (outsAt11 V c t.val t.isLt).2.1
  Φ t := PhiS11 V c t.val (Nat.le_of_lt_succ t.isLt)
  q _ := fullShare
  owed _ := 0

theorem A_eq11 (c : Dev nD) (w : Fin cfg11.W) : (dat11 V c).A w = V c (Pipeline.arrRef spec11 w) := by
  dsimp only [dat11]
theorem PhiS11_castSucc (c : Dev nD) (t : Fin cfg11.N) :
    (dat11 V c).Φ t.castSucc = PhiS11 V c t.val (Nat.le_of_lt t.isLt) := by
  dsimp only [dat11]; simp only [Fin.coe_castSucc]
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = (outsAt11 V c t.val t.isLt).1 := by dsimp only [dat11]
theorem after11_4 (c : Dev nD) (t : Fin cfg11.N) : (dat11 V c).after 4 t = (outsAt11 V c t.val t.isLt).2.1 := by dsimp only [dat11]
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d

/-- What the body is called with at point `t`, -/
def bodyPre11 (c : Dev nD) (t : Fin cfg11.N) : sProp 𝕄 :=
  iprop((dat11 V c).Φ t.castSucc ∗ (dat11 V c).owesAt () t.castSucc
    ∗ (∃ d, owns (c : Thread nD τ) (ms11_0 t) fullShare ((dat11 V c).before 0 t d))
    ∗ (∃ d, owns (c : Thread nD τ) (ms11_1 t) fullShare ((dat11 V c).before 1 t d))
    ∗ (∃ d, owns (c : Thread nD τ) (ms11_2 t) fullShare ((dat11 V c).before 2 t d))
    ∗ (∃ d, owns (c : Thread nD τ) (ms11_3 t) fullShare ((dat11 V c).before 3 t d))
    ∗ (∃ d, owns (c : Thread nD τ) (ms11_4 t) fullShare ((dat11 V c).before 4 t d)))
/-- and what it returns. -/
def bodyPost11 (c : Dev nD) (t : Fin cfg11.N) : sProp 𝕄 :=
  iprop((dat11 V c).Φ t.succ ∗ (dat11 V c).owesAt () t.succ
    ∗ (dat11 V c).leavesExact 0 t
    ∗ (dat11 V c).leavesExact 1 t
    ∗ (dat11 V c).leavesExact 2 t
    ∗ (dat11 V c).leavesExact 3 t
    ∗ (dat11 V c).leavesExact 4 t)

set_option maxHeartbeats 8000000 in
/-- The body at any point: the inputs' buffers hold their blocks; the position says which case the point is in; the
    invariant hands the body the accumulator at what the point before left (at anything at the first point) and takes
    it back at this point's contents; the core owes nothing throughout. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2]
  rw [show (dat11 V c).owesAt () t.succ = (dat11 V c).owesAt () t.castSucc from rfl]
  rw [show (dat11 V c).Φ t.succ = PhiS11 V c (t.val + 1) t.isLt from rfl, PhiS11_succ]
  have hN : t.val < 64 := lt_of_lt_of_eq t.isLt (show cfg11.N = 64 from N_11)
  rw [show (dat11 V c).leavesExact 0 t = owns (c : Thread nD τ) (ms11_0 t) fullShare ((dat11 V c).after 0 t) from by
      unfold Dat.leavesExact; rw [liveAt11_0 t], after11_0]
  rw [show (dat11 V c).leavesExact 1 t = owns (c : Thread nD τ) (ms11_1 t) fullShare ((dat11 V c).after 1 t) from by
      unfold Dat.leavesExact; rw [liveAt11_1 t], after11_1]
  rw [show (dat11 V c).leavesExact 2 t = owns (c : Thread nD τ) (ms11_2 t) fullShare ((dat11 V c).after 2 t) from by
      unfold Dat.leavesExact; rw [liveAt11_2 t], after11_2]
  by_cases h0 : t.val % 8 = 0
  · have h1 : ¬t.val % 8 = 7 := by omega
    rw [Dat.leavesExact_idle (dat11 V c) 3 t (idleAt11_3 t (fun h => h1 ((hcond11_1 t).mp h))) (noFlush11_3 t (fun h => h1 ((hcond11_1 t).mp h)))]
    rw [Dat.leavesExact_idle (dat11 V c) 4 t (idleAt11_4 t (fun h => h1 ((hcond11_1 t).mp h))) (noFlush11_4 t (fun h => h1 ((hcond11_1 t).mp h)))]
    rw [outsAt11_A V c t h0 h1]
    unfold sout11_A_0; (try dsimp only)
    by_cases hz : t.val = 0
    · rw [PhiS11_castSucc V c t, PhiS11_zero V c _ _ hz, PhiA11_eq]
      iintro ⟨⟨⟨HS0, HR⟩, Hg⟩, Ho, ⟨%d0, H0⟩, ⟨%d1, H1⟩, ⟨%d2, H2⟩, ⟨%d3, H3⟩, ⟨%d4, H4⟩⟩
      iapply ((kernelRun11_A c (grid11.coords t) _ _ _ _ _ _ _ _ _ _ _ _ ((hcond11_0 t).mpr h0) (fun h => h1 ((hcond11_1 t).mp h)) (iblk11 V c 0 t) (iblk11 V c 1 t) (iblk11 V c 2 t)).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover11_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
    · rw [PhiS11_castSucc V c t, PhiS11_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun11_A c (grid11.coords t) _ _ _ _ _ _ _ _ _ _ _ _ ((hcond11_0 t).mpr h0) (fun h => h1 ((hcond11_1 t).mp h)) (iblk11 V c 0 t) (iblk11 V c 1 t) (iblk11 V c 2 t)).2.2.2 _ _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover11_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun h => h0 (by rw [h])
    by_cases h1 : t.val % 8 = 7
    · rw [show (dat11 V c).leavesExact 3 t = owns (c : Thread nD τ) (ms11_3 t) fullShare ((dat11 V c).after 3 t) from by
        unfold Dat.leavesExact; rw [liveAt11_3 t ((hcond11_1 t).mpr h1)], after11_3]
      rw [show (dat11 V c).leavesExact 4 t = owns (c : Thread nD τ) (ms11_4 t) fullShare ((dat11 V c).after 4 t) from by
        unfold Dat.leavesExact; rw [liveAt11_4 t ((hcond11_1 t).mpr h1)], after11_4]
      rw [outsAt11_C V c t h0 h1]
      unfold out11_C_3 out11_C_4 sout11_C_0; (try dsimp only)
      rw [PhiS11_castSucc V c t, PhiS11_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun11_C c (grid11.coords t) _ _ _ _ _ _ _ _ _ _ _ _ (fun h => h0 ((hcond11_0 t).mp h)) ((hcond11_1 t).mpr h1) (iblk11 V c 0 t) (iblk11 V c 1 t) (iblk11 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover11_C_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover11_C_3 c _ _ _ _ _ _ _ _ _ _ _ _ _ _ _ _ _ _ _)
      unfold owns; iexists _; isplitr
      swap; · iexact H4
      ipureintro; exact View.read_writes_of_cover _ _ _ _ _ (cover11_C_4 c _ _ _ _ _ _ _ _ _ _ _ _ _ _ _ _ _ _ _)
    · rw [Dat.leavesExact_idle (dat11 V c) 3 t (idleAt11_3 t (fun h => h1 ((hcond11_1 t).mp h))) (noFlush11_3 t (fun h => h1 ((hcond11_1 t).mp h)))]
      rw [Dat.leavesExact_idle (dat11 V c) 4 t (idleAt11_4 t (fun h => h1 ((hcond11_1 t).mp h))) (noFlush11_4 t (fun h => h1 ((hcond11_1 t).mp h)))]
      rw [outsAt11_B V c t h0 h1]
      unfold sout11_B_0; (try dsimp only)
      rw [PhiS11_castSucc V c t, PhiS11_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun11_B c (grid11.coords t) _ _ _ _ _ _ _ _ _ _ _ _ (fun h => h0 ((hcond11_0 t).mp h)) (fun h => h1 ((hcond11_1 t).mp h)) (iblk11 V c 0 t) (iblk11 V c 1 t) (iblk11 V c 2 t) _).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover11_B_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4

/-- The body obligation of region 11, at every point. -/
theorem body_obligation11 (c : Dev nD) : BodyObligation (dat11 (F := F) V c) (defs₀ (F := F)) Variants.none () Set.univ := fun t => by
  rw [bigSep_W11, bigSep_W11]
  exact sound_body11 V c t

/-- What the region is entered with is the invariant before the first point. -/
theorem hin11 (c : Dev nD) : Pipeline.ΦA spec11 c ⊢ (dat11 V c).Φ 0 := by
  rw [show (dat11 V c).Φ 0 = PhiS11 V c 0 (Nat.zero_le _) from rfl, PhiS11_zero V c 0 _ rfl]
  try exact Idealize.SL.BI.Entails.refl _

/-- After the last point the invariant gives the scoped buffers back: what the accumulator holds is forgotten. -/
theorem hout11 (c : Dev nD) : (dat11 V c).Φ (Fin.last cfg11.N) ⊢ Pipeline.ΦA spec11 c := by
  have ht : (Fin.last cfg11.N).val ≠ 0 := by rw [Fin.val_last]; have : cfg11.N = 64 := N_11; omega
  rw [show (dat11 V c).Φ (Fin.last cfg11.N) = PhiS11 V c (Fin.last cfg11.N).val (Nat.le_of_lt_succ (Fin.last cfg11.N).isLt) from rfl,
    PhiS11_pos V c _ _ ht, PhiA11_eq]
  iintro ⟨⟨HS0, HR⟩, Hg⟩
  isplitl [HS0 HR]
  · isplitl [HS0]
    · iexists _; iexact HS0
    iexact HR
  iexact Hg

end Cert.Kernel.Hand

end
-- ==== Proof.RegB12Run.lean ====
/-
  Region 12 of the program (the recurrence step 2·(Ls·T) − T′): the kernel body run once per control case.
  The grid is 8 × 8; a point t = 8·r + k handles row block r and column block k of Ls. The body zeroes the
  accumulator when k = 0 (case A), adds the block product Ls[r,k]·v[k] to it at every point, and when k = 7
  (case C) stores the combination of the accumulator and the block of the earlier vector into both result
  blocks; at 0 < k < 7 (case B) it only accumulates. Each run states what the body's stores leave in the
  accumulator and in the result blocks, as the list of stored pieces.
-/
import proofs.«108570_j29480655520371_2_alg».proof.Proof.Gen.Kernel.Launch
import proofs.«108570_j29480655520371_2_alg».proof.Proof.Gen.Kernel.Skeleton
import proofs.«108570_j29480655520371_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0's current staging buffer holds its block at every point, fetched there or not. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
/-- Input window 1's current staging buffer holds its block at every point, fetched there or not. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)
/-- Input window 2's current staging buffer holds its block at every point, fetched there or not. -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-- k = 0: the accumulator is zeroed first. -/
abbrev cond12_0 (i : grid12.Coords) : Prop := (Scalar.cmpi .ne (Scalar.extui (Scalar.cmpi .eq (BitVec.ofNat 32 (i 1).val) 0#32)) 0#32) = 1#1
theorem hcond12_0 : ∀ t : Fin cfg12.N, cond12_0 (grid12.coords t) ↔ t.val % 8 = 0 :=
  (by decide +kernel : ∀ t : Fin grid12.N, cond12_0 (grid12.coords t) ↔ t.val % 8 = 0)
/-- k = 7: the results are stored. -/
abbrev cond12_1 (i : grid12.Coords) : Prop := k12_cond2 i = 1#1
theorem hcond12_1 : ∀ t : Fin cfg12.N, cond12_1 (grid12.coords t) ↔ t.val % 8 = 7 :=
  (by decide +kernel : ∀ t : Fin grid12.N, cond12_1 (grid12.coords t) ↔ t.val % 8 = 7)

theorem liveAt12_0 : ∀ t : Fin cfg12.N, cfg12.idle 0 (grid12.coords t) = false := by decide +kernel
theorem liveAt12_1 : ∀ t : Fin cfg12.N, cfg12.idle 1 (grid12.coords t) = false := by decide +kernel
theorem liveAt12_2 : ∀ t : Fin cfg12.N, cfg12.idle 2 (grid12.coords t) = false := by decide +kernel
theorem idleAt12_3 : ∀ t : Fin cfg12.N, ¬cond12_1 (grid12.coords t) → cfg12.idle 3 (grid12.coords t) = true := by decide +kernel
theorem noFlush12_3 : ∀ t : Fin cfg12.N, ¬cond12_1 (grid12.coords t) → (cfg12.win 3).flush t = false := by decide +kernel
theorem liveAt12_3 : ∀ t : Fin cfg12.N, cond12_1 (grid12.coords t) → cfg12.idle 3 (grid12.coords t) = false := by decide +kernel
theorem idleAt12_4 : ∀ t : Fin cfg12.N, ¬cond12_1 (grid12.coords t) → cfg12.idle 4 (grid12.coords t) = true := by decide +kernel
theorem noFlush12_4 : ∀ t : Fin cfg12.N, ¬cond12_1 (grid12.coords t) → (cfg12.win 4).flush t = false := by decide +kernel
theorem liveAt12_4 : ∀ t : Fin cfg12.N, cond12_1 (grid12.coords t) → cfg12.idle 4 (grid12.coords t) = false := by decide +kernel

/-- One staging buffer of each result window, through which its contents are stated. -/
abbrev VO12_3 : View sig .tc .vmem S2048x16 .f32 := (Memref.whole cc12_stg3_0 : Memref sig .tc .vmem S2048x16 .f32).view
abbrev VO12_4 : View sig .tc .vmem S2048x16 .bf16 := (Memref.whole cc12_stg4_0 : Memref sig .tc .vmem S2048x16 .bf16).view
abbrev ms12_0 (t : Fin cfg12.N) : Memref sig .tc .vmem S2048x2048 .bf16 := win12_0.stage (cfg12.slots t 0)
abbrev hs12_0 (t : Fin cfg12.N) : (ms12_0 t).IsWhole := hstage12_0 ((cfg12.slots t 0).cast nbuf12_0)
abbrev ms12_1 (t : Fin cfg12.N) : Memref sig .tc .vmem S2048x16 .bf16 := win12_1.stage (cfg12.slots t 1)
abbrev hs12_1 (t : Fin cfg12.N) : (ms12_1 t).IsWhole := hstage12_1 ((cfg12.slots t 1).cast nbuf12_1)
abbrev ms12_2 (t : Fin cfg12.N) : Memref sig .tc .vmem S2048x16 .f32 := win12_2.stage (cfg12.slots t 2)
abbrev hs12_2 (t : Fin cfg12.N) : (ms12_2 t).IsWhole := hstage12_2 ((cfg12.slots t 2).cast nbuf12_2)
abbrev ms12_3 (t : Fin cfg12.N) : Memref sig .tc .vmem S2048x16 .f32 := win12_3.stage (cfg12.slots t 3)
abbrev hs12_3 (t : Fin cfg12.N) : (ms12_3 t).IsWhole := hstage12_3 ((cfg12.slots t 3).cast nbuf12_3)
abbrev ms12_4 (t : Fin cfg12.N) : Memref sig .tc .vmem S2048x16 .bf16 := win12_4.stage (cfg12.slots t 4)
abbrev hs12_4 (t : Fin cfg12.N) : (ms12_4 t).IsWhole := hstage12_4 ((cfg12.slots t 4).cast nbuf12_4)
/-- The accumulator: a whole scoped buffer of the kernel's own. -/
abbrev scM12_0 : Memref sig .tc .vmem S2048x16 .f32 := Memref.whole cc12_scratch0
abbrev VS12_0 : View sig .tc .vmem S2048x16 .f32 := scM12_0.view

set_option maxHeartbeats 4000000 in
/-- Case A (k = 0): the accumulator, at anything, is zeroed and then receives the first block product; the result
    blocks are handed back untouched. -/
noncomputable def kernelRun12_A (c : Dev nD) (i : grid12.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond12_0 i) (hc1 : ¬cond12_1 i)
    (x0 : Vec F S2048x2048 .bf16) (x1 : Vec F S2048x16 .bf16) (x2 : Vec F S2048x16 .f32) :
    Σ' (L3 : List (View.Piece (Elt F) S2048x16 .f32)) (L4 : List (View.Piece (Elt F) S2048x16 .bf16)), { LS0 : List (View.Piece (Elt F) S2048x16 .f32) //
      ∀ (xi3 : Vec F S2048x16 .f32) (xi4 : Vec F S2048x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc12__matmul_combine_kernel i arg2 harg2 arg3 harg3 arg4 harg4 arg5 harg5 arg6 harg6 arg7 harg7) K } := by
  refine ⟨[], [], ?_, fun xi3 xi4 E K => ?run⟩
  case run =>
    simp only [cc12__matmul_combine_kernel_eq_skeleton]; unfold cc12__matmul_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case B (0 < k < 7): the accumulator, at what the point before left, receives one more block product; the result
    blocks are handed back untouched. -/
noncomputable def kernelRun12_B (c : Dev nD) (i : grid12.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond12_0 i) (hc1 : ¬cond12_1 i)
    (x0 : Vec F S2048x2048 .bf16) (x1 : Vec F S2048x16 .bf16) (x2 : Vec F S2048x16 .f32) (xs0 : Vec F S2048x16 .f32) :
    Σ' (L3 : List (View.Piece (Elt F) S2048x16 .f32)) (L4 : List (View.Piece (Elt F) S2048x16 .bf16)), { LS0 : List (View.Piece (Elt F) S2048x16 .f32) //
      ∀ (xi3 : Vec F S2048x16 .f32) (xi4 : Vec F S2048x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc12__matmul_combine_kernel i arg2 harg2 arg3 harg3 arg4 harg4 arg5 harg5 arg6 harg6 arg7 harg7) K } := by
  refine ⟨[], [], ?_, fun xi3 xi4 E K => ?run⟩
  case run =>
    simp only [cc12__matmul_combine_kernel_eq_skeleton]; unfold cc12__matmul_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case C (k = 7): the accumulator receives the last block product, and both result blocks, at anything, are stored
    whole with the combination of the accumulator and the block of the earlier vector. -/
noncomputable def kernelRun12_C (c : Dev nD) (i : grid12.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond12_0 i) (hc1 : cond12_1 i)
    (x0 : Vec F S2048x2048 .bf16) (x1 : Vec F S2048x16 .bf16) (x2 : Vec F S2048x16 .f32) (xs0 : Vec F S2048x16 .f32) :
    Σ' (L3 : List (View.Piece (Elt F) S2048x16 .f32)) (L4 : List (View.Piece (Elt F) S2048x16 .bf16)), { LS0 : List (View.Piece (Elt F) S2048x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc12__matmul_combine_kernel i arg2 harg2 arg3 harg3 arg4 harg4 arg5 harg5 arg6 harg6 arg7 harg7) K } := by
  refine ⟨?_, ?_, ?_, fun E K => ?run⟩
  case run =>
    simp only [cc12__matmul_combine_kernel_eq_skeleton]; unfold cc12__matmul_combine_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.Kernel.Hand

end
-- ==== Proof.RegB12Frame.lean ====
/-
  Region 12: what its result blocks and its accumulator hold after every grid point, the proof data of its pipeline,
  and the body obligation. After point t = 8·r + k the accumulator holds the sum of the block products
  Ls[r,0]·v[0] + … + Ls[r,k]·v[k] (case A starts it from zero, cases B and C continue from what the point before
  left); the result blocks are written at k = 7 only and written back to their arrays right after that point, so at
  the other points their staging buffers are idle and what they hold is never consulted.
-/
import proofs.«108570_j29480655520371_2_alg».proof.Proof.RegB12Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's piece for the accumulator covers it. -/
theorem scover12_A_0 (c : Dev nD) (i : grid12.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond12_0 i) (hc1 : ¬cond12_1 i)
    (x0 : Vec F S2048x2048 .bf16) (x1 : Vec F S2048x16 .bf16) (x2 : Vec F S2048x16 .f32) (y : S2048x16.Idx) :
    ∃ pc ∈ (kernelRun12_A c i arg2 harg2 arg3 harg3 arg4 harg4 arg5 harg5 arg6 harg6 arg7 harg7 hc0 hc1 x0 x1 x2).2.2.1, y ∈ pc.1.set :=
  View.cover_of_tiledL (kernelRun12_A c i arg2 harg2 arg3 harg3 arg4 harg4 arg5 harg5 arg6 harg6 arg7 harg7 hc0 hc1 x0 x1 x2).2.2.1 S2048x16.size (by sl_kernel_rfl) y
/-- What case A leaves in the accumulator. -/
def sout12_A_0 (c : Dev nD) (i : grid12.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond12_0 i) (hc1 : ¬cond12_1 i)
    (x0 : Vec F S2048x2048 .bf16) (x1 : Vec F S2048x16 .bf16) (x2 : Vec F S2048x16 .f32) : Vec F S2048x16 .f32 :=
  VS12_0.read (Elt F) (VS12_0.writes (Elt F) VS12_0.junk (kernelRun12_A c i arg2 harg2 arg3 harg3 arg4 harg4 arg5 harg5 arg6 harg6 arg7 harg7 hc0 hc1 x0 x1 x2).2.2.1)

/-- Case B's piece for the accumulator covers it. -/
theorem scover12_B_0 (c : Dev nD) (i : grid12.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond12_0 i) (hc1 : ¬cond12_1 i)
    (x0 : Vec F S2048x2048 .bf16) (x1 : Vec F S2048x16 .bf16) (x2 : Vec F S2048x16 .f32) (xs0 : Vec F S2048x16 .f32) (y : S2048x16.Idx) :
    ∃ pc ∈ (kernelRun12_B c i arg2 harg2 arg3 harg3 arg4 harg4 arg5 harg5 arg6 harg6 arg7 harg7 hc0 hc1 x0 x1 x2 xs0).2.2.1, y ∈ pc.1.set :=
  View.cover_of_tiledL (kernelRun12_B c i arg2 harg2 arg3 harg3 arg4 harg4 arg5 harg5 arg6 harg6 arg7 harg7 hc0 hc1 x0 x1 x2 xs0).2.2.1 S2048x16.size (by sl_kernel_rfl) y
/-- What case B leaves in the accumulator. -/
def sout12_B_0 (c : Dev nD) (i : grid12.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond12_0 i) (hc1 : ¬cond12_1 i)
    (x0 : Vec F S2048x2048 .bf16) (x1 : Vec F S2048x16 .bf16) (x2 : Vec F S2048x16 .f32) (xs0 : Vec F S2048x16 .f32) : Vec F S2048x16 .f32 :=
  VS12_0.read (Elt F) (VS12_0.writes (Elt F) VS12_0.junk (kernelRun12_B c i arg2 harg2 arg3 harg3 arg4 harg4 arg5 harg5 arg6 harg6 arg7 harg7 hc0 hc1 x0 x1 x2 xs0).2.2.1)

/-- Case C's pieces cover the f32 result block, -/
theorem cover12_C_3 (c : Dev nD) (i : grid12.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond12_0 i) (hc1 : cond12_1 i)
    (x0 : Vec F S2048x2048 .bf16) (x1 : Vec F S2048x16 .bf16) (x2 : Vec F S2048x16 .f32) (xs0 : Vec F S2048x16 .f32) (y : S2048x16.Idx) :
    ∃ pc ∈ (kernelRun12_C c i arg2 harg2 arg3 harg3 arg4 harg4 arg5 harg5 arg6 harg6 arg7 harg7 hc0 hc1 x0 x1 x2 xs0).1, y ∈ pc.1.set :=
  View.cover_of_tiledL (kernelRun12_C c i arg2 harg2 arg3 harg3 arg4 harg4 arg5 harg5 arg6 harg6 arg7 harg7 hc0 hc1 x0 x1 x2 xs0).1 S2048x16.size (by sl_kernel_rfl) y
/-- the bf16 result block, -/
theorem cover12_C_4 (c : Dev nD) (i : grid12.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond12_0 i) (hc1 : cond12_1 i)
    (x0 : Vec F S2048x2048 .bf16) (x1 : Vec F S2048x16 .bf16) (x2 : Vec F S2048x16 .f32) (xs0 : Vec F S2048x16 .f32) (y : S2048x16.Idx) :
    ∃ pc ∈ (kernelRun12_C c i arg2 harg2 arg3 harg3 arg4 harg4 arg5 harg5 arg6 harg6 arg7 harg7 hc0 hc1 x0 x1 x2 xs0).2.1, y ∈ pc.1.set :=
  View.cover_of_tiledL (kernelRun12_C c i arg2 harg2 arg3 harg3 arg4 harg4 arg5 harg5 arg6 harg6 arg7 harg7 hc0 hc1 x0 x1 x2 xs0).2.1 S2048x16.size (by sl_kernel_rfl) y
/-- and the accumulator. -/
theorem scover12_C_0 (c : Dev nD) (i : grid12.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond12_0 i) (hc1 : cond12_1 i)
    (x0 : Vec F S2048x2048 .bf16) (x1 : Vec F S2048x16 .bf16) (x2 : Vec F S2048x16 .f32) (xs0 : Vec F S2048x16 .f32) (y : S2048x16.Idx) :
    ∃ pc ∈ (kernelRun12_C c i arg2 harg2 arg3 harg3 arg4 harg4 arg5 harg5 arg6 harg6 arg7 harg7 hc0 hc1 x0 x1 x2 xs0).2.2.1, y ∈ pc.1.set :=
  View.cover_of_tiledL (kernelRun12_C c i arg2 harg2 arg3 harg3 arg4 harg4 arg5 harg5 arg6 harg6 arg7 harg7 hc0 hc1 x0 x1 x2 xs0).2.2.1 S2048x16.size (by sl_kernel_rfl) y
/-- What case C leaves in the f32 result block, -/
def out12_C_3 (c : Dev nD) (i : grid12.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond12_0 i) (hc1 : cond12_1 i)
    (x0 : Vec F S2048x2048 .bf16) (x1 : Vec F S2048x16 .bf16) (x2 : Vec F S2048x16 .f32) (xs0 : Vec F S2048x16 .f32) : Vec F S2048x16 .f32 :=
  VO12_3.read (Elt F) (VO12_3.writes (Elt F) VO12_3.junk (kernelRun12_C c i arg2 harg2 arg3 harg3 arg4 harg4 arg5 harg5 arg6 harg6 arg7 harg7 hc0 hc1 x0 x1 x2 xs0).1)
/-- in the bf16 result block, -/
def out12_C_4 (c : Dev nD) (i : grid12.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond12_0 i) (hc1 : cond12_1 i)
    (x0 : Vec F S2048x2048 .bf16) (x1 : Vec F S2048x16 .bf16) (x2 : Vec F S2048x16 .f32) (xs0 : Vec F S2048x16 .f32) : Vec F S2048x16 .bf16 :=
  VO12_4.read (Elt F) (VO12_4.writes (Elt F) VO12_4.junk (kernelRun12_C c i arg2 harg2 arg3 harg3 arg4 harg4 arg5 harg5 arg6 harg6 arg7 harg7 hc0 hc1 x0 x1 x2 xs0).2.1)
/-- and in the accumulator. -/
def sout12_C_0 (c : Dev nD) (i : grid12.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond12_0 i) (hc1 : cond12_1 i)
    (x0 : Vec F S2048x2048 .bf16) (x1 : Vec F S2048x16 .bf16) (x2 : Vec F S2048x16 .f32) (xs0 : Vec F S2048x16 .f32) : Vec F S2048x16 .f32 :=
  VS12_0.read (Elt F) (VS12_0.writes (Elt F) VS12_0.junk (kernelRun12_C c i arg2 harg2 arg3 harg3 arg4 harg4 arg5 harg5 arg6 harg6 arg7 harg7 hc0 hc1 x0 x1 x2 xs0).2.2.1)

/-- What the two result blocks' staging buffers and the accumulator hold after the body at position `n`: the case
    the position selects, run at the point's blocks, cases B and C over the accumulator the point before left. -/
def outsAt12 (c : Dev nD) : (n : ℕ) → n < cfg12.N → Vec F S2048x16 .f32 × Vec F S2048x16 .bf16 × Vec F S2048x16 .f32
  | 0, hn => ((VO12_3.read (Elt F) VO12_3.junk), (VO12_4.read (Elt F) VO12_4.junk), sout12_A_0 c (grid12.coords ⟨0, hn⟩) (ms12_0 ⟨0, hn⟩) (hs12_0 ⟨0, hn⟩) (ms12_1 ⟨0, hn⟩) (hs12_1 ⟨0, hn⟩) (ms12_2 ⟨0, hn⟩) (hs12_2 ⟨0, hn⟩) (ms12_3 ⟨0, hn⟩) (hs12_3 ⟨0, hn⟩) (ms12_4 ⟨0, hn⟩) (hs12_4 ⟨0, hn⟩) scM12_0 (Memref.isWhole_whole _) ((hcond12_0 ⟨0, hn⟩).mpr (Nat.zero_mod _)) (fun h => (fun h => by (try dsimp only at h); omega) ((hcond12_1 ⟨0, hn⟩).mp h)) (iblk12 V c 0 ⟨0, hn⟩) (iblk12 V c 1 ⟨0, hn⟩) (iblk12 V c 2 ⟨0, hn⟩))
  | n + 1, hn =>
    if h0 : (n + 1) % 8 = 0 then
      if h1 : (n + 1) % 8 = 7 then
        False.elim (by omega)
      else
        ((VO12_3.read (Elt F) VO12_3.junk), (VO12_4.read (Elt F) VO12_4.junk), sout12_A_0 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) (ms12_3 ⟨n + 1, hn⟩) (hs12_3 ⟨n + 1, hn⟩) (ms12_4 ⟨n + 1, hn⟩) (hs12_4 ⟨n + 1, hn⟩) scM12_0 (Memref.isWhole_whole _) ((hcond12_0 ⟨n + 1, hn⟩).mpr h0) (fun h => h1 ((hcond12_1 ⟨n + 1, hn⟩).mp h)) (iblk12 V c 0 ⟨n + 1, hn⟩) (iblk12 V c 1 ⟨n + 1, hn⟩) (iblk12 V c 2 ⟨n + 1, hn⟩))
    else
      if h1 : (n + 1) % 8 = 7 then
        (out12_C_3 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) (ms12_3 ⟨n + 1, hn⟩) (hs12_3 ⟨n + 1, hn⟩) (ms12_4 ⟨n + 1, hn⟩) (hs12_4 ⟨n + 1, hn⟩) scM12_0 (Memref.isWhole_whole _) (fun h => h0 ((hcond12_0 ⟨n + 1, hn⟩).mp h)) ((hcond12_1 ⟨n + 1, hn⟩).mpr h1) (iblk12 V c 0 ⟨n + 1, hn⟩) (iblk12 V c 1 ⟨n + 1, hn⟩) (iblk12 V c 2 ⟨n + 1, hn⟩) (outsAt12 c n (Nat.lt_of_succ_lt hn)).2.2, out12_C_4 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) (ms12_3 ⟨n + 1, hn⟩) (hs12_3 ⟨n + 1, hn⟩) (ms12_4 ⟨n + 1, hn⟩) (hs12_4 ⟨n + 1, hn⟩) scM12_0 (Memref.isWhole_whole _) (fun h => h0 ((hcond12_0 ⟨n + 1, hn⟩).mp h)) ((hcond12_1 ⟨n + 1, hn⟩).mpr h1) (iblk12 V c 0 ⟨n + 1, hn⟩) (iblk12 V c 1 ⟨n + 1, hn⟩) (iblk12 V c 2 ⟨n + 1, hn⟩) (outsAt12 c n (Nat.lt_of_succ_lt hn)).2.2, sout12_C_0 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) (ms12_3 ⟨n + 1, hn⟩) (hs12_3 ⟨n + 1, hn⟩) (ms12_4 ⟨n + 1, hn⟩) (hs12_4 ⟨n + 1, hn⟩) scM12_0 (Memref.isWhole_whole _) (fun h => h0 ((hcond12_0 ⟨n + 1, hn⟩).mp h)) ((hcond12_1 ⟨n + 1, hn⟩).mpr h1) (iblk12 V c 0 ⟨n + 1, hn⟩) (iblk12 V c 1 ⟨n + 1, hn⟩) (iblk12 V c 2 ⟨n + 1, hn⟩) (outsAt12 c n (Nat.lt_of_succ_lt hn)).2.2)
      else
        ((VO12_3.read (Elt F) VO12_3.junk), (VO12_4.read (Elt F) VO12_4.junk), sout12_B_0 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) (ms12_3 ⟨n + 1, hn⟩) (hs12_3 ⟨n + 1, hn⟩) (ms12_4 ⟨n + 1, hn⟩) (hs12_4 ⟨n + 1, hn⟩) scM12_0 (Memref.isWhole_whole _) (fun h => h0 ((hcond12_0 ⟨n + 1, hn⟩).mp h)) (fun h => h1 ((hcond12_1 ⟨n + 1, hn⟩).mp h)) (iblk12 V c 0 ⟨n + 1, hn⟩) (iblk12 V c 1 ⟨n + 1, hn⟩) (iblk12 V c 2 ⟨n + 1, hn⟩) (outsAt12 c n (Nat.lt_of_succ_lt hn)).2.2)

theorem outsAt12_A (c : Dev nD) (t : Fin cfg12.N) (h0 : t.val % 8 = 0) (h1 : ¬t.val % 8 = 7) :
    outsAt12 V c t.val t.isLt = ((VO12_3.read (Elt F) VO12_3.junk), (VO12_4.read (Elt F) VO12_4.junk), sout12_A_0 c (grid12.coords t) (ms12_0 t) (hs12_0 t) (ms12_1 t) (hs12_1 t) (ms12_2 t) (hs12_2 t) (ms12_3 t) (hs12_3 t) (ms12_4 t) (hs12_4 t) scM12_0 (Memref.isWhole_whole _) ((hcond12_0 t).mpr h0) (fun h => h1 ((hcond12_1 t).mp h)) (iblk12 V c 0 t) (iblk12 V c 1 t) (iblk12 V c 2 t)) := by
  obtain ⟨n, hn⟩ := t
  cases n with
  | zero => exact rfl
  | succ n => exact (dif_pos h0).trans ((dif_neg h1).trans rfl)

theorem outsAt12_B (c : Dev nD) (t : Fin cfg12.N) (h0 : ¬t.val % 8 = 0) (h1 : ¬t.val % 8 = 7) :
    outsAt12 V c t.val t.isLt = ((VO12_3.read (Elt F) VO12_3.junk), (VO12_4.read (Elt F) VO12_4.junk), sout12_B_0 c (grid12.coords t) (ms12_0 t) (hs12_0 t) (ms12_1 t) (hs12_1 t) (ms12_2 t) (hs12_2 t) (ms12_3 t) (hs12_3 t) (ms12_4 t) (hs12_4 t) scM12_0 (Memref.isWhole_whole _) (fun h => h0 ((hcond12_0 t).mp h)) (fun h => h1 ((hcond12_1 t).mp h)) (iblk12 V c 0 t) (iblk12 V c 1 t) (iblk12 V c 2 t) (outsAt12 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt12_C (c : Dev nD) (t : Fin cfg12.N) (h0 : ¬t.val % 8 = 0) (h1 : t.val % 8 = 7) :
    outsAt12 V c t.val t.isLt = (out12_C_3 c (grid12.coords t) (ms12_0 t) (hs12_0 t) (ms12_1 t) (hs12_1 t) (ms12_2 t) (hs12_2 t) (ms12_3 t) (hs12_3 t) (ms12_4 t) (hs12_4 t) scM12_0 (Memref.isWhole_whole _) (fun h => h0 ((hcond12_0 t).mp h)) ((hcond12_1 t).mpr h1) (iblk12 V c 0 t) (iblk12 V c 1 t) (iblk12 V c 2 t) (outsAt12 V c (t.val - 1) (Nat.lt_of_le_of_lt (Nat.sub_le _ _) t.isLt)).2.2, out12_C_4 c (grid12.coords t) (ms12_0 t) (hs12_0 t) (ms12_1 t) (hs12_1 t) (ms12_2 t) (hs12_2 t) (ms12_3 t) (hs12_3 t) (ms12_4 t) (hs12_4 t) scM12_0 (Memref.isWhole_whole _) (fun h => h0 ((hcond12_0 t).mp h)) ((hcond12_1 t).mpr h1) (iblk12 V c 0 t) (iblk12 V c 1 t) (iblk12 V c 2 t) (outsAt12 V c (t.val - 1) (Nat.lt_of_le_of_lt (Nat.sub_le _ _) t.isLt)).2.2, sout12_C_0 c (grid12.coords t) (ms12_0 t) (hs12_0 t) (ms12_1 t) (hs12_1 t) (ms12_2 t) (hs12_2 t) (ms12_3 t) (hs12_3 t) (ms12_4 t) (hs12_4 t) scM12_0 (Memref.isWhole_whole _) (fun h => h0 ((hcond12_0 t).mp h)) ((hcond12_1 t).mpr h1) (iblk12 V c 0 t) (iblk12 V c 1 t) (iblk12 V c 2 t) (outsAt12 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The scoped buffers of the program other than this region's staging buffers and its accumulator. -/
abbrev RB12 (c : Dev nD) : sProp 𝕄 :=
  Pipeline.scopedRestBut (Ix := Unit) (Name := ℕ) (U := UR sig nD τ) (Lvl := ℕ) (Val := Elt F) spec12 c [cc12_scratch0]

/-- The region invariant before position `n`: at the first point every scoped buffer outside the staging buffers at
    anything; afterwards the accumulator at what the point before left in it. -/
def PhiS12 (c : Dev nD) : (n : ℕ) → n ≤ cfg12.N → sProp 𝕄
  | 0, _ => Pipeline.ΦA spec12 c
  | n + 1, hn => iprop((iprop(owns (c : Thread nD τ) scM12_0 fullShare ((outsAt12 V c n hn).2.2)) ∗ RB12 c) ∗ (∃ r, prngReg c r))

theorem PhiS12_zero (c : Dev nD) (n : ℕ) (h : n ≤ cfg12.N) (hz : n = 0) : PhiS12 V c n h = Pipeline.ΦA spec12 c := by
  subst hz; rfl
theorem PhiS12_succ (c : Dev nD) (n : ℕ) (hn : n < cfg12.N) :
    PhiS12 V c (n + 1) hn = iprop((iprop(owns (c : Thread nD τ) scM12_0 fullShare ((outsAt12 V c n hn).2.2)) ∗ RB12 c) ∗ (∃ r, prngReg c r)) := rfl
theorem PhiS12_pos (c : Dev nD) (n : ℕ) (h : n ≤ cfg12.N) (hz : n ≠ 0) :
    PhiS12 V c n h = iprop((iprop(owns (c : Thread nD τ) scM12_0 fullShare ((outsAt12 V c (n - 1) (by omega)).2.2)) ∗ RB12 c) ∗ (∃ r, prngReg c r)) := by
  cases n with
  | zero => exact absurd rfl hz
  | succ n => rfl

/-- The first point's invariant with the accumulator split out, owned at some contents. -/
theorem PhiA12_eq (c : Dev nD) :
    (Pipeline.ΦA spec12 c : sProp 𝕄)
      = iprop((iprop((∃ d, owns (c : Thread nD τ) scM12_0 fullShare d)) ∗ RB12 c) ∗ (∃ r, prngReg c r)) := by
  unfold Pipeline.ΦA; rw [scopedRest12_split]; simp only [scM12_0, owns_whole]; try rfl

/-- The proof data of region 12's pipeline on core `c`: the arrays as the region finds them; after the body at
    point `t` each input's buffer at its block and the results' at `outsAt12`; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => (outsAt12 V c t.val t.isLt).1
    | ⟨4, _⟩ => (outsAt12 V c t.val t.isLt).2.1
  Φ t := PhiS12 V c t.val (Nat.le_of_lt_succ t.isLt)
  q _ := fullShare
  owed _ := 0

theorem A_eq12 (c : Dev nD) (w : Fin cfg12.W) : (dat12 V c).A w = V c (Pipeline.arrRef spec12 w) := by
  dsimp only [dat12]
theorem PhiS12_castSucc (c : Dev nD) (t : Fin cfg12.N) :
    (dat12 V c).Φ t.castSucc = PhiS12 V c t.val (Nat.le_of_lt t.isLt) := by
  dsimp only [dat12]; simp only [Fin.coe_castSucc]
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = (outsAt12 V c t.val t.isLt).1 := by dsimp only [dat12]
theorem after12_4 (c : Dev nD) (t : Fin cfg12.N) : (dat12 V c).after 4 t = (outsAt12 V c t.val t.isLt).2.1 := by dsimp only [dat12]
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d

/-- What the body is called with at point `t`, -/
def bodyPre12 (c : Dev nD) (t : Fin cfg12.N) : sProp 𝕄 :=
  iprop((dat12 V c).Φ t.castSucc ∗ (dat12 V c).owesAt () t.castSucc
    ∗ (∃ d, owns (c : Thread nD τ) (ms12_0 t) fullShare ((dat12 V c).before 0 t d))
    ∗ (∃ d, owns (c : Thread nD τ) (ms12_1 t) fullShare ((dat12 V c).before 1 t d))
    ∗ (∃ d, owns (c : Thread nD τ) (ms12_2 t) fullShare ((dat12 V c).before 2 t d))
    ∗ (∃ d, owns (c : Thread nD τ) (ms12_3 t) fullShare ((dat12 V c).before 3 t d))
    ∗ (∃ d, owns (c : Thread nD τ) (ms12_4 t) fullShare ((dat12 V c).before 4 t d)))
/-- and what it returns. -/
def bodyPost12 (c : Dev nD) (t : Fin cfg12.N) : sProp 𝕄 :=
  iprop((dat12 V c).Φ t.succ ∗ (dat12 V c).owesAt () t.succ
    ∗ (dat12 V c).leavesExact 0 t
    ∗ (dat12 V c).leavesExact 1 t
    ∗ (dat12 V c).leavesExact 2 t
    ∗ (dat12 V c).leavesExact 3 t
    ∗ (dat12 V c).leavesExact 4 t)

set_option maxHeartbeats 8000000 in
/-- The body at any point: the inputs' buffers hold their blocks; the position says which case the point is in; the
    invariant hands the body the accumulator at what the point before left (at anything at the first point) and takes
    it back at this point's contents; the core owes nothing throughout. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2]
  rw [show (dat12 V c).owesAt () t.succ = (dat12 V c).owesAt () t.castSucc from rfl]
  rw [show (dat12 V c).Φ t.succ = PhiS12 V c (t.val + 1) t.isLt from rfl, PhiS12_succ]
  have hN : t.val < 64 := lt_of_lt_of_eq t.isLt (show cfg12.N = 64 from N_12)
  rw [show (dat12 V c).leavesExact 0 t = owns (c : Thread nD τ) (ms12_0 t) fullShare ((dat12 V c).after 0 t) from by
      unfold Dat.leavesExact; rw [liveAt12_0 t], after12_0]
  rw [show (dat12 V c).leavesExact 1 t = owns (c : Thread nD τ) (ms12_1 t) fullShare ((dat12 V c).after 1 t) from by
      unfold Dat.leavesExact; rw [liveAt12_1 t], after12_1]
  rw [show (dat12 V c).leavesExact 2 t = owns (c : Thread nD τ) (ms12_2 t) fullShare ((dat12 V c).after 2 t) from by
      unfold Dat.leavesExact; rw [liveAt12_2 t], after12_2]
  by_cases h0 : t.val % 8 = 0
  · have h1 : ¬t.val % 8 = 7 := by omega
    rw [Dat.leavesExact_idle (dat12 V c) 3 t (idleAt12_3 t (fun h => h1 ((hcond12_1 t).mp h))) (noFlush12_3 t (fun h => h1 ((hcond12_1 t).mp h)))]
    rw [Dat.leavesExact_idle (dat12 V c) 4 t (idleAt12_4 t (fun h => h1 ((hcond12_1 t).mp h))) (noFlush12_4 t (fun h => h1 ((hcond12_1 t).mp h)))]
    rw [outsAt12_A V c t h0 h1]
    unfold sout12_A_0; (try dsimp only)
    by_cases hz : t.val = 0
    · rw [PhiS12_castSucc V c t, PhiS12_zero V c _ _ hz, PhiA12_eq]
      iintro ⟨⟨⟨HS0, HR⟩, Hg⟩, Ho, ⟨%d0, H0⟩, ⟨%d1, H1⟩, ⟨%d2, H2⟩, ⟨%d3, H3⟩, ⟨%d4, H4⟩⟩
      iapply ((kernelRun12_A c (grid12.coords t) _ _ _ _ _ _ _ _ _ _ _ _ ((hcond12_0 t).mpr h0) (fun h => h1 ((hcond12_1 t).mp h)) (iblk12 V c 0 t) (iblk12 V c 1 t) (iblk12 V c 2 t)).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover12_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
    · rw [PhiS12_castSucc V c t, PhiS12_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun12_A c (grid12.coords t) _ _ _ _ _ _ _ _ _ _ _ _ ((hcond12_0 t).mpr h0) (fun h => h1 ((hcond12_1 t).mp h)) (iblk12 V c 0 t) (iblk12 V c 1 t) (iblk12 V c 2 t)).2.2.2 _ _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover12_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun h => h0 (by rw [h])
    by_cases h1 : t.val % 8 = 7
    · rw [show (dat12 V c).leavesExact 3 t = owns (c : Thread nD τ) (ms12_3 t) fullShare ((dat12 V c).after 3 t) from by
        unfold Dat.leavesExact; rw [liveAt12_3 t ((hcond12_1 t).mpr h1)], after12_3]
      rw [show (dat12 V c).leavesExact 4 t = owns (c : Thread nD τ) (ms12_4 t) fullShare ((dat12 V c).after 4 t) from by
        unfold Dat.leavesExact; rw [liveAt12_4 t ((hcond12_1 t).mpr h1)], after12_4]
      rw [outsAt12_C V c t h0 h1]
      unfold out12_C_3 out12_C_4 sout12_C_0; (try dsimp only)
      rw [PhiS12_castSucc V c t, PhiS12_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun12_C c (grid12.coords t) _ _ _ _ _ _ _ _ _ _ _ _ (fun h => h0 ((hcond12_0 t).mp h)) ((hcond12_1 t).mpr h1) (iblk12 V c 0 t) (iblk12 V c 1 t) (iblk12 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover12_C_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover12_C_3 c _ _ _ _ _ _ _ _ _ _ _ _ _ _ _ _ _ _ _)
      unfold owns; iexists _; isplitr
      swap; · iexact H4
      ipureintro; exact View.read_writes_of_cover _ _ _ _ _ (cover12_C_4 c _ _ _ _ _ _ _ _ _ _ _ _ _ _ _ _ _ _ _)
    · rw [Dat.leavesExact_idle (dat12 V c) 3 t (idleAt12_3 t (fun h => h1 ((hcond12_1 t).mp h))) (noFlush12_3 t (fun h => h1 ((hcond12_1 t).mp h)))]
      rw [Dat.leavesExact_idle (dat12 V c) 4 t (idleAt12_4 t (fun h => h1 ((hcond12_1 t).mp h))) (noFlush12_4 t (fun h => h1 ((hcond12_1 t).mp h)))]
      rw [outsAt12_B V c t h0 h1]
      unfold sout12_B_0; (try dsimp only)
      rw [PhiS12_castSucc V c t, PhiS12_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun12_B c (grid12.coords t) _ _ _ _ _ _ _ _ _ _ _ _ (fun h => h0 ((hcond12_0 t).mp h)) (fun h => h1 ((hcond12_1 t).mp h)) (iblk12 V c 0 t) (iblk12 V c 1 t) (iblk12 V c 2 t) _).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover12_B_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4

/-- The body obligation of region 12, at every point. -/
theorem body_obligation12 (c : Dev nD) : BodyObligation (dat12 (F := F) V c) (defs₀ (F := F)) Variants.none () Set.univ := fun t => by
  rw [bigSep_W12, bigSep_W12]
  exact sound_body12 V c t

/-- What the region is entered with is the invariant before the first point. -/
theorem hin12 (c : Dev nD) : Pipeline.ΦA spec12 c ⊢ (dat12 V c).Φ 0 := by
  rw [show (dat12 V c).Φ 0 = PhiS12 V c 0 (Nat.zero_le _) from rfl, PhiS12_zero V c 0 _ rfl]
  try exact Idealize.SL.BI.Entails.refl _

/-- After the last point the invariant gives the scoped buffers back: what the accumulator holds is forgotten. -/
theorem hout12 (c : Dev nD) : (dat12 V c).Φ (Fin.last cfg12.N) ⊢ Pipeline.ΦA spec12 c := by
  have ht : (Fin.last cfg12.N).val ≠ 0 := by rw [Fin.val_last]; have : cfg12.N = 64 := N_12; omega
  rw [show (dat12 V c).Φ (Fin.last cfg12.N) = PhiS12 V c (Fin.last cfg12.N).val (Nat.le_of_lt_succ (Fin.last cfg12.N).isLt) from rfl,
    PhiS12_pos V c _ _ ht, PhiA12_eq]
  iintro ⟨⟨HS0, HR⟩, Hg⟩
  isplitl [HS0 HR]
  · isplitl [HS0]
    · iexists _; iexact HS0
    iexact HR
  iexact Hg

end Cert.Kernel.Hand

end
-- ==== Proof.RegB13Run.lean ====
/-
  Region 13 of the program (the recurrence step 2·(Ls·T) − T′): the kernel body run once per control case.
  The grid is 8 × 8; a point t = 8·r + k handles row block r and column block k of Ls. The body zeroes the
  accumulator when k = 0 (case A), adds the block product Ls[r,k]·v[k] to it at every point, and when k = 7
  (case C) stores the combination of the accumulator and the block of the earlier vector into both result
  blocks; at 0 < k < 7 (case B) it only accumulates. Each run states what the body's stores leave in the
  accumulator and in the result blocks, as the list of stored pieces.
-/
import proofs.«108570_j29480655520371_2_alg».proof.Proof.Gen.Kernel.Launch
import proofs.«108570_j29480655520371_2_alg».proof.Proof.Gen.Kernel.Skeleton
import proofs.«108570_j29480655520371_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- Input window 0's current staging buffer holds its block at every point, fetched there or not. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)
/-- Input window 1's current staging buffer holds its block at every point, fetched there or not. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)
/-- Input window 2's current staging buffer holds its block at every point, fetched there or not. -/
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

/-- k = 0: the accumulator is zeroed first. -/
abbrev cond13_0 (i : grid13.Coords) : Prop := (Scalar.cmpi .ne (Scalar.extui (Scalar.cmpi .eq (BitVec.ofNat 32 (i 1).val) 0#32)) 0#32) = 1#1
theorem hcond13_0 : ∀ t : Fin cfg13.N, cond13_0 (grid13.coords t) ↔ t.val % 8 = 0 :=
  (by decide +kernel : ∀ t : Fin grid13.N, cond13_0 (grid13.coords t) ↔ t.val % 8 = 0)
/-- k = 7: the results are stored. -/
abbrev cond13_1 (i : grid13.Coords) : Prop := k13_cond2 i = 1#1
theorem hcond13_1 : ∀ t : Fin cfg13.N, cond13_1 (grid13.coords t) ↔ t.val % 8 = 7 :=
  (by decide +kernel : ∀ t : Fin grid13.N, cond13_1 (grid13.coords t) ↔ t.val % 8 = 7)

theorem liveAt13_0 : ∀ t : Fin cfg13.N, cfg13.idle 0 (grid13.coords t) = false := by decide +kernel
theorem liveAt13_1 : ∀ t : Fin cfg13.N, cfg13.idle 1 (grid13.coords t) = false := by decide +kernel
theorem liveAt13_2 : ∀ t : Fin cfg13.N, cfg13.idle 2 (grid13.coords t) = false := by decide +kernel
theorem idleAt13_3 : ∀ t : Fin cfg13.N, ¬cond13_1 (grid13.coords t) → cfg13.idle 3 (grid13.coords t) = true := by decide +kernel
theorem noFlush13_3 : ∀ t : Fin cfg13.N, ¬cond13_1 (grid13.coords t) → (cfg13.win 3).flush t = false := by decide +kernel
theorem liveAt13_3 : ∀ t : Fin cfg13.N, cond13_1 (grid13.coords t) → cfg13.idle 3 (grid13.coords t) = false := by decide +kernel
theorem idleAt13_4 : ∀ t : Fin cfg13.N, ¬cond13_1 (grid13.coords t) → cfg13.idle 4 (grid13.coords t) = true := by decide +kernel
theorem noFlush13_4 : ∀ t : Fin cfg13.N, ¬cond13_1 (grid13.coords t) → (cfg13.win 4).flush t = false := by decide +kernel
theorem liveAt13_4 : ∀ t : Fin cfg13.N, cond13_1 (grid13.coords t) → cfg13.idle 4 (grid13.coords t) = false := by decide +kernel

/-- One staging buffer of each result window, through which its contents are stated. -/
abbrev VO13_3 : View sig .tc .vmem S2048x16 .f32 := (Memref.whole cc13_stg3_0 : Memref sig .tc .vmem S2048x16 .f32).view
abbrev VO13_4 : View sig .tc .vmem S2048x16 .bf16 := (Memref.whole cc13_stg4_0 : Memref sig .tc .vmem S2048x16 .bf16).view
abbrev ms13_0 (t : Fin cfg13.N) : Memref sig .tc .vmem S2048x2048 .bf16 := win13_0.stage (cfg13.slots t 0)
abbrev hs13_0 (t : Fin cfg13.N) : (ms13_0 t).IsWhole := hstage13_0 ((cfg13.slots t 0).cast nbuf13_0)
abbrev ms13_1 (t : Fin cfg13.N) : Memref sig .tc .vmem S2048x16 .bf16 := win13_1.stage (cfg13.slots t 1)
abbrev hs13_1 (t : Fin cfg13.N) : (ms13_1 t).IsWhole := hstage13_1 ((cfg13.slots t 1).cast nbuf13_1)
abbrev ms13_2 (t : Fin cfg13.N) : Memref sig .tc .vmem S2048x16 .f32 := win13_2.stage (cfg13.slots t 2)
abbrev hs13_2 (t : Fin cfg13.N) : (ms13_2 t).IsWhole := hstage13_2 ((cfg13.slots t 2).cast nbuf13_2)
abbrev ms13_3 (t : Fin cfg13.N) : Memref sig .tc .vmem S2048x16 .f32 := win13_3.stage (cfg13.slots t 3)
abbrev hs13_3 (t : Fin cfg13.N) : (ms13_3 t).IsWhole := hstage13_3 ((cfg13.slots t 3).cast nbuf13_3)
abbrev ms13_4 (t : Fin cfg13.N) : Memref sig .tc .vmem S2048x16 .bf16 := win13_4.stage (cfg13.slots t 4)
abbrev hs13_4 (t : Fin cfg13.N) : (ms13_4 t).IsWhole := hstage13_4 ((cfg13.slots t 4).cast nbuf13_4)
/-- The accumulator: a whole scoped buffer of the kernel's own. -/
abbrev scM13_0 : Memref sig .tc .vmem S2048x16 .f32 := Memref.whole cc13_scratch0
abbrev VS13_0 : View sig .tc .vmem S2048x16 .f32 := scM13_0.view

set_option maxHeartbeats 4000000 in
/-- Case A (k = 0): the accumulator, at anything, is zeroed and then receives the first block product; the result
    blocks are handed back untouched. -/
noncomputable def kernelRun13_A (c : Dev nD) (i : grid13.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond13_0 i) (hc1 : ¬cond13_1 i)
    (x0 : Vec F S2048x2048 .bf16) (x1 : Vec F S2048x16 .bf16) (x2 : Vec F S2048x16 .f32) :
    Σ' (L3 : List (View.Piece (Elt F) S2048x16 .f32)) (L4 : List (View.Piece (Elt F) S2048x16 .bf16)), { LS0 : List (View.Piece (Elt F) S2048x16 .f32) //
      ∀ (xi3 : Vec F S2048x16 .f32) (xi4 : Vec F S2048x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc13__matmul_combine_kernel i arg2 harg2 arg3 harg3 arg4 harg4 arg5 harg5 arg6 harg6 arg7 harg7) K } := by
  refine ⟨[], [], ?_, fun xi3 xi4 E K => ?run⟩
  case run =>
    simp only [cc13__matmul_combine_kernel_eq_skeleton]; unfold cc13__matmul_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case B (0 < k < 7): the accumulator, at what the point before left, receives one more block product; the result
    blocks are handed back untouched. -/
noncomputable def kernelRun13_B (c : Dev nD) (i : grid13.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond13_0 i) (hc1 : ¬cond13_1 i)
    (x0 : Vec F S2048x2048 .bf16) (x1 : Vec F S2048x16 .bf16) (x2 : Vec F S2048x16 .f32) (xs0 : Vec F S2048x16 .f32) :
    Σ' (L3 : List (View.Piece (Elt F) S2048x16 .f32)) (L4 : List (View.Piece (Elt F) S2048x16 .bf16)), { LS0 : List (View.Piece (Elt F) S2048x16 .f32) //
      ∀ (xi3 : Vec F S2048x16 .f32) (xi4 : Vec F S2048x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc13__matmul_combine_kernel i arg2 harg2 arg3 harg3 arg4 harg4 arg5 harg5 arg6 harg6 arg7 harg7) K } := by
  refine ⟨[], [], ?_, fun xi3 xi4 E K => ?run⟩
  case run =>
    simp only [cc13__matmul_combine_kernel_eq_skeleton]; unfold cc13__matmul_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case C (k = 7): the accumulator receives the last block product, and both result blocks, at anything, are stored
    whole with the combination of the accumulator and the block of the earlier vector. -/
noncomputable def kernelRun13_C (c : Dev nD) (i : grid13.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond13_0 i) (hc1 : cond13_1 i)
    (x0 : Vec F S2048x2048 .bf16) (x1 : Vec F S2048x16 .bf16) (x2 : Vec F S2048x16 .f32) (xs0 : Vec F S2048x16 .f32) :
    Σ' (L3 : List (View.Piece (Elt F) S2048x16 .f32)) (L4 : List (View.Piece (Elt F) S2048x16 .bf16)), { LS0 : List (View.Piece (Elt F) S2048x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc13__matmul_combine_kernel i arg2 harg2 arg3 harg3 arg4 harg4 arg5 harg5 arg6 harg6 arg7 harg7) K } := by
  refine ⟨?_, ?_, ?_, fun E K => ?run⟩
  case run =>
    simp only [cc13__matmul_combine_kernel_eq_skeleton]; unfold cc13__matmul_combine_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.Kernel.Hand

end
-- ==== Proof.RegB13Frame.lean ====
/-
  Region 13: what its result blocks and its accumulator hold after every grid point, the proof data of its pipeline,
  and the body obligation. After point t = 8·r + k the accumulator holds the sum of the block products
  Ls[r,0]·v[0] + … + Ls[r,k]·v[k] (case A starts it from zero, cases B and C continue from what the point before
  left); the result blocks are written at k = 7 only and written back to their arrays right after that point, so at
  the other points their staging buffers are idle and what they hold is never consulted.
-/
import proofs.«108570_j29480655520371_2_alg».proof.Proof.RegB13Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's piece for the accumulator covers it. -/
theorem scover13_A_0 (c : Dev nD) (i : grid13.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond13_0 i) (hc1 : ¬cond13_1 i)
    (x0 : Vec F S2048x2048 .bf16) (x1 : Vec F S2048x16 .bf16) (x2 : Vec F S2048x16 .f32) (y : S2048x16.Idx) :
    ∃ pc ∈ (kernelRun13_A c i arg2 harg2 arg3 harg3 arg4 harg4 arg5 harg5 arg6 harg6 arg7 harg7 hc0 hc1 x0 x1 x2).2.2.1, y ∈ pc.1.set :=
  View.cover_of_tiledL (kernelRun13_A c i arg2 harg2 arg3 harg3 arg4 harg4 arg5 harg5 arg6 harg6 arg7 harg7 hc0 hc1 x0 x1 x2).2.2.1 S2048x16.size (by sl_kernel_rfl) y
/-- What case A leaves in the accumulator. -/
def sout13_A_0 (c : Dev nD) (i : grid13.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond13_0 i) (hc1 : ¬cond13_1 i)
    (x0 : Vec F S2048x2048 .bf16) (x1 : Vec F S2048x16 .bf16) (x2 : Vec F S2048x16 .f32) : Vec F S2048x16 .f32 :=
  VS13_0.read (Elt F) (VS13_0.writes (Elt F) VS13_0.junk (kernelRun13_A c i arg2 harg2 arg3 harg3 arg4 harg4 arg5 harg5 arg6 harg6 arg7 harg7 hc0 hc1 x0 x1 x2).2.2.1)

/-- Case B's piece for the accumulator covers it. -/
theorem scover13_B_0 (c : Dev nD) (i : grid13.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond13_0 i) (hc1 : ¬cond13_1 i)
    (x0 : Vec F S2048x2048 .bf16) (x1 : Vec F S2048x16 .bf16) (x2 : Vec F S2048x16 .f32) (xs0 : Vec F S2048x16 .f32) (y : S2048x16.Idx) :
    ∃ pc ∈ (kernelRun13_B c i arg2 harg2 arg3 harg3 arg4 harg4 arg5 harg5 arg6 harg6 arg7 harg7 hc0 hc1 x0 x1 x2 xs0).2.2.1, y ∈ pc.1.set :=
  View.cover_of_tiledL (kernelRun13_B c i arg2 harg2 arg3 harg3 arg4 harg4 arg5 harg5 arg6 harg6 arg7 harg7 hc0 hc1 x0 x1 x2 xs0).2.2.1 S2048x16.size (by sl_kernel_rfl) y
/-- What case B leaves in the accumulator. -/
def sout13_B_0 (c : Dev nD) (i : grid13.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond13_0 i) (hc1 : ¬cond13_1 i)
    (x0 : Vec F S2048x2048 .bf16) (x1 : Vec F S2048x16 .bf16) (x2 : Vec F S2048x16 .f32) (xs0 : Vec F S2048x16 .f32) : Vec F S2048x16 .f32 :=
  VS13_0.read (Elt F) (VS13_0.writes (Elt F) VS13_0.junk (kernelRun13_B c i arg2 harg2 arg3 harg3 arg4 harg4 arg5 harg5 arg6 harg6 arg7 harg7 hc0 hc1 x0 x1 x2 xs0).2.2.1)

/-- Case C's pieces cover the f32 result block, -/
theorem cover13_C_3 (c : Dev nD) (i : grid13.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond13_0 i) (hc1 : cond13_1 i)
    (x0 : Vec F S2048x2048 .bf16) (x1 : Vec F S2048x16 .bf16) (x2 : Vec F S2048x16 .f32) (xs0 : Vec F S2048x16 .f32) (y : S2048x16.Idx) :
    ∃ pc ∈ (kernelRun13_C c i arg2 harg2 arg3 harg3 arg4 harg4 arg5 harg5 arg6 harg6 arg7 harg7 hc0 hc1 x0 x1 x2 xs0).1, y ∈ pc.1.set :=
  View.cover_of_tiledL (kernelRun13_C c i arg2 harg2 arg3 harg3 arg4 harg4 arg5 harg5 arg6 harg6 arg7 harg7 hc0 hc1 x0 x1 x2 xs0).1 S2048x16.size (by sl_kernel_rfl) y
/-- the bf16 result block, -/
theorem cover13_C_4 (c : Dev nD) (i : grid13.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond13_0 i) (hc1 : cond13_1 i)
    (x0 : Vec F S2048x2048 .bf16) (x1 : Vec F S2048x16 .bf16) (x2 : Vec F S2048x16 .f32) (xs0 : Vec F S2048x16 .f32) (y : S2048x16.Idx) :
    ∃ pc ∈ (kernelRun13_C c i arg2 harg2 arg3 harg3 arg4 harg4 arg5 harg5 arg6 harg6 arg7 harg7 hc0 hc1 x0 x1 x2 xs0).2.1, y ∈ pc.1.set :=
  View.cover_of_tiledL (kernelRun13_C c i arg2 harg2 arg3 harg3 arg4 harg4 arg5 harg5 arg6 harg6 arg7 harg7 hc0 hc1 x0 x1 x2 xs0).2.1 S2048x16.size (by sl_kernel_rfl) y
/-- and the accumulator. -/
theorem scover13_C_0 (c : Dev nD) (i : grid13.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond13_0 i) (hc1 : cond13_1 i)
    (x0 : Vec F S2048x2048 .bf16) (x1 : Vec F S2048x16 .bf16) (x2 : Vec F S2048x16 .f32) (xs0 : Vec F S2048x16 .f32) (y : S2048x16.Idx) :
    ∃ pc ∈ (kernelRun13_C c i arg2 harg2 arg3 harg3 arg4 harg4 arg5 harg5 arg6 harg6 arg7 harg7 hc0 hc1 x0 x1 x2 xs0).2.2.1, y ∈ pc.1.set :=
  View.cover_of_tiledL (kernelRun13_C c i arg2 harg2 arg3 harg3 arg4 harg4 arg5 harg5 arg6 harg6 arg7 harg7 hc0 hc1 x0 x1 x2 xs0).2.2.1 S2048x16.size (by sl_kernel_rfl) y
/-- What case C leaves in the f32 result block, -/
def out13_C_3 (c : Dev nD) (i : grid13.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond13_0 i) (hc1 : cond13_1 i)
    (x0 : Vec F S2048x2048 .bf16) (x1 : Vec F S2048x16 .bf16) (x2 : Vec F S2048x16 .f32) (xs0 : Vec F S2048x16 .f32) : Vec F S2048x16 .f32 :=
  VO13_3.read (Elt F) (VO13_3.writes (Elt F) VO13_3.junk (kernelRun13_C c i arg2 harg2 arg3 harg3 arg4 harg4 arg5 harg5 arg6 harg6 arg7 harg7 hc0 hc1 x0 x1 x2 xs0).1)
/-- in the bf16 result block, -/
def out13_C_4 (c : Dev nD) (i : grid13.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond13_0 i) (hc1 : cond13_1 i)
    (x0 : Vec F S2048x2048 .bf16) (x1 : Vec F S2048x16 .bf16) (x2 : Vec F S2048x16 .f32) (xs0 : Vec F S2048x16 .f32) : Vec F S2048x16 .bf16 :=
  VO13_4.read (Elt F) (VO13_4.writes (Elt F) VO13_4.junk (kernelRun13_C c i arg2 harg2 arg3 harg3 arg4 harg4 arg5 harg5 arg6 harg6 arg7 harg7 hc0 hc1 x0 x1 x2 xs0).2.1)
/-- and in the accumulator. -/
def sout13_C_0 (c : Dev nD) (i : grid13.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond13_0 i) (hc1 : cond13_1 i)
    (x0 : Vec F S2048x2048 .bf16) (x1 : Vec F S2048x16 .bf16) (x2 : Vec F S2048x16 .f32) (xs0 : Vec F S2048x16 .f32) : Vec F S2048x16 .f32 :=
  VS13_0.read (Elt F) (VS13_0.writes (Elt F) VS13_0.junk (kernelRun13_C c i arg2 harg2 arg3 harg3 arg4 harg4 arg5 harg5 arg6 harg6 arg7 harg7 hc0 hc1 x0 x1 x2 xs0).2.2.1)

/-- What the two result blocks' staging buffers and the accumulator hold after the body at position `n`: the case
    the position selects, run at the point's blocks, cases B and C over the accumulator the point before left. -/
def outsAt13 (c : Dev nD) : (n : ℕ) → n < cfg13.N → Vec F S2048x16 .f32 × Vec F S2048x16 .bf16 × Vec F S2048x16 .f32
  | 0, hn => ((VO13_3.read (Elt F) VO13_3.junk), (VO13_4.read (Elt F) VO13_4.junk), sout13_A_0 c (grid13.coords ⟨0, hn⟩) (ms13_0 ⟨0, hn⟩) (hs13_0 ⟨0, hn⟩) (ms13_1 ⟨0, hn⟩) (hs13_1 ⟨0, hn⟩) (ms13_2 ⟨0, hn⟩) (hs13_2 ⟨0, hn⟩) (ms13_3 ⟨0, hn⟩) (hs13_3 ⟨0, hn⟩) (ms13_4 ⟨0, hn⟩) (hs13_4 ⟨0, hn⟩) scM13_0 (Memref.isWhole_whole _) ((hcond13_0 ⟨0, hn⟩).mpr (Nat.zero_mod _)) (fun h => (fun h => by (try dsimp only at h); omega) ((hcond13_1 ⟨0, hn⟩).mp h)) (iblk13 V c 0 ⟨0, hn⟩) (iblk13 V c 1 ⟨0, hn⟩) (iblk13 V c 2 ⟨0, hn⟩))
  | n + 1, hn =>
    if h0 : (n + 1) % 8 = 0 then
      if h1 : (n + 1) % 8 = 7 then
        False.elim (by omega)
      else
        ((VO13_3.read (Elt F) VO13_3.junk), (VO13_4.read (Elt F) VO13_4.junk), sout13_A_0 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) (ms13_4 ⟨n + 1, hn⟩) (hs13_4 ⟨n + 1, hn⟩) scM13_0 (Memref.isWhole_whole _) ((hcond13_0 ⟨n + 1, hn⟩).mpr h0) (fun h => h1 ((hcond13_1 ⟨n + 1, hn⟩).mp h)) (iblk13 V c 0 ⟨n + 1, hn⟩) (iblk13 V c 1 ⟨n + 1, hn⟩) (iblk13 V c 2 ⟨n + 1, hn⟩))
    else
      if h1 : (n + 1) % 8 = 7 then
        (out13_C_3 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) (ms13_4 ⟨n + 1, hn⟩) (hs13_4 ⟨n + 1, hn⟩) scM13_0 (Memref.isWhole_whole _) (fun h => h0 ((hcond13_0 ⟨n + 1, hn⟩).mp h)) ((hcond13_1 ⟨n + 1, hn⟩).mpr h1) (iblk13 V c 0 ⟨n + 1, hn⟩) (iblk13 V c 1 ⟨n + 1, hn⟩) (iblk13 V c 2 ⟨n + 1, hn⟩) (outsAt13 c n (Nat.lt_of_succ_lt hn)).2.2, out13_C_4 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) (ms13_4 ⟨n + 1, hn⟩) (hs13_4 ⟨n + 1, hn⟩) scM13_0 (Memref.isWhole_whole _) (fun h => h0 ((hcond13_0 ⟨n + 1, hn⟩).mp h)) ((hcond13_1 ⟨n + 1, hn⟩).mpr h1) (iblk13 V c 0 ⟨n + 1, hn⟩) (iblk13 V c 1 ⟨n + 1, hn⟩) (iblk13 V c 2 ⟨n + 1, hn⟩) (outsAt13 c n (Nat.lt_of_succ_lt hn)).2.2, sout13_C_0 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) (ms13_4 ⟨n + 1, hn⟩) (hs13_4 ⟨n + 1, hn⟩) scM13_0 (Memref.isWhole_whole _) (fun h => h0 ((hcond13_0 ⟨n + 1, hn⟩).mp h)) ((hcond13_1 ⟨n + 1, hn⟩).mpr h1) (iblk13 V c 0 ⟨n + 1, hn⟩) (iblk13 V c 1 ⟨n + 1, hn⟩) (iblk13 V c 2 ⟨n + 1, hn⟩) (outsAt13 c n (Nat.lt_of_succ_lt hn)).2.2)
      else
        ((VO13_3.read (Elt F) VO13_3.junk), (VO13_4.read (Elt F) VO13_4.junk), sout13_B_0 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) (ms13_4 ⟨n + 1, hn⟩) (hs13_4 ⟨n + 1, hn⟩) scM13_0 (Memref.isWhole_whole _) (fun h => h0 ((hcond13_0 ⟨n + 1, hn⟩).mp h)) (fun h => h1 ((hcond13_1 ⟨n + 1, hn⟩).mp h)) (iblk13 V c 0 ⟨n + 1, hn⟩) (iblk13 V c 1 ⟨n + 1, hn⟩) (iblk13 V c 2 ⟨n + 1, hn⟩) (outsAt13 c n (Nat.lt_of_succ_lt hn)).2.2)

theorem outsAt13_A (c : Dev nD) (t : Fin cfg13.N) (h0 : t.val % 8 = 0) (h1 : ¬t.val % 8 = 7) :
    outsAt13 V c t.val t.isLt = ((VO13_3.read (Elt F) VO13_3.junk), (VO13_4.read (Elt F) VO13_4.junk), sout13_A_0 c (grid13.coords t) (ms13_0 t) (hs13_0 t) (ms13_1 t) (hs13_1 t) (ms13_2 t) (hs13_2 t) (ms13_3 t) (hs13_3 t) (ms13_4 t) (hs13_4 t) scM13_0 (Memref.isWhole_whole _) ((hcond13_0 t).mpr h0) (fun h => h1 ((hcond13_1 t).mp h)) (iblk13 V c 0 t) (iblk13 V c 1 t) (iblk13 V c 2 t)) := by
  obtain ⟨n, hn⟩ := t
  cases n with
  | zero => exact rfl
  | succ n => exact (dif_pos h0).trans ((dif_neg h1).trans rfl)

theorem outsAt13_B (c : Dev nD) (t : Fin cfg13.N) (h0 : ¬t.val % 8 = 0) (h1 : ¬t.val % 8 = 7) :
    outsAt13 V c t.val t.isLt = ((VO13_3.read (Elt F) VO13_3.junk), (VO13_4.read (Elt F) VO13_4.junk), sout13_B_0 c (grid13.coords t) (ms13_0 t) (hs13_0 t) (ms13_1 t) (hs13_1 t) (ms13_2 t) (hs13_2 t) (ms13_3 t) (hs13_3 t) (ms13_4 t) (hs13_4 t) scM13_0 (Memref.isWhole_whole _) (fun h => h0 ((hcond13_0 t).mp h)) (fun h => h1 ((hcond13_1 t).mp h)) (iblk13 V c 0 t) (iblk13 V c 1 t) (iblk13 V c 2 t) (outsAt13 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt13_C (c : Dev nD) (t : Fin cfg13.N) (h0 : ¬t.val % 8 = 0) (h1 : t.val % 8 = 7) :
    outsAt13 V c t.val t.isLt = (out13_C_3 c (grid13.coords t) (ms13_0 t) (hs13_0 t) (ms13_1 t) (hs13_1 t) (ms13_2 t) (hs13_2 t) (ms13_3 t) (hs13_3 t) (ms13_4 t) (hs13_4 t) scM13_0 (Memref.isWhole_whole _) (fun h => h0 ((hcond13_0 t).mp h)) ((hcond13_1 t).mpr h1) (iblk13 V c 0 t) (iblk13 V c 1 t) (iblk13 V c 2 t) (outsAt13 V c (t.val - 1) (Nat.lt_of_le_of_lt (Nat.sub_le _ _) t.isLt)).2.2, out13_C_4 c (grid13.coords t) (ms13_0 t) (hs13_0 t) (ms13_1 t) (hs13_1 t) (ms13_2 t) (hs13_2 t) (ms13_3 t) (hs13_3 t) (ms13_4 t) (hs13_4 t) scM13_0 (Memref.isWhole_whole _) (fun h => h0 ((hcond13_0 t).mp h)) ((hcond13_1 t).mpr h1) (iblk13 V c 0 t) (iblk13 V c 1 t) (iblk13 V c 2 t) (outsAt13 V c (t.val - 1) (Nat.lt_of_le_of_lt (Nat.sub_le _ _) t.isLt)).2.2, sout13_C_0 c (grid13.coords t) (ms13_0 t) (hs13_0 t) (ms13_1 t) (hs13_1 t) (ms13_2 t) (hs13_2 t) (ms13_3 t) (hs13_3 t) (ms13_4 t) (hs13_4 t) scM13_0 (Memref.isWhole_whole _) (fun h => h0 ((hcond13_0 t).mp h)) ((hcond13_1 t).mpr h1) (iblk13 V c 0 t) (iblk13 V c 1 t) (iblk13 V c 2 t) (outsAt13 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The scoped buffers of the program other than this region's staging buffers and its accumulator. -/
abbrev RB13 (c : Dev nD) : sProp 𝕄 :=
  Pipeline.scopedRestBut (Ix := Unit) (Name := ℕ) (U := UR sig nD τ) (Lvl := ℕ) (Val := Elt F) spec13 c [cc13_scratch0]

/-- The region invariant before position `n`: at the first point every scoped buffer outside the staging buffers at
    anything; afterwards the accumulator at what the point before left in it. -/
def PhiS13 (c : Dev nD) : (n : ℕ) → n ≤ cfg13.N → sProp 𝕄
  | 0, _ => Pipeline.ΦA spec13 c
  | n + 1, hn => iprop((iprop(owns (c : Thread nD τ) scM13_0 fullShare ((outsAt13 V c n hn).2.2)) ∗ RB13 c) ∗ (∃ r, prngReg c r))

theorem PhiS13_zero (c : Dev nD) (n : ℕ) (h : n ≤ cfg13.N) (hz : n = 0) : PhiS13 V c n h = Pipeline.ΦA spec13 c := by
  subst hz; rfl
theorem PhiS13_succ (c : Dev nD) (n : ℕ) (hn : n < cfg13.N) :
    PhiS13 V c (n + 1) hn = iprop((iprop(owns (c : Thread nD τ) scM13_0 fullShare ((outsAt13 V c n hn).2.2)) ∗ RB13 c) ∗ (∃ r, prngReg c r)) := rfl
theorem PhiS13_pos (c : Dev nD) (n : ℕ) (h : n ≤ cfg13.N) (hz : n ≠ 0) :
    PhiS13 V c n h = iprop((iprop(owns (c : Thread nD τ) scM13_0 fullShare ((outsAt13 V c (n - 1) (by omega)).2.2)) ∗ RB13 c) ∗ (∃ r, prngReg c r)) := by
  cases n with
  | zero => exact absurd rfl hz
  | succ n => rfl

/-- The first point's invariant with the accumulator split out, owned at some contents. -/
theorem PhiA13_eq (c : Dev nD) :
    (Pipeline.ΦA spec13 c : sProp 𝕄)
      = iprop((iprop((∃ d, owns (c : Thread nD τ) scM13_0 fullShare d)) ∗ RB13 c) ∗ (∃ r, prngReg c r)) := by
  unfold Pipeline.ΦA; rw [scopedRest13_split]; simp only [scM13_0, owns_whole]; try rfl

/-- The proof data of region 13's pipeline on core `c`: the arrays as the region finds them; after the body at
    point `t` each input's buffer at its block and the results' at `outsAt13`; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => (outsAt13 V c t.val t.isLt).1
    | ⟨4, _⟩ => (outsAt13 V c t.val t.isLt).2.1
  Φ t := PhiS13 V c t.val (Nat.le_of_lt_succ t.isLt)
  q _ := fullShare
  owed _ := 0

theorem A_eq13 (c : Dev nD) (w : Fin cfg13.W) : (dat13 V c).A w = V c (Pipeline.arrRef spec13 w) := by
  dsimp only [dat13]
theorem PhiS13_castSucc (c : Dev nD) (t : Fin cfg13.N) :
    (dat13 V c).Φ t.castSucc = PhiS13 V c t.val (Nat.le_of_lt t.isLt) := by
  dsimp only [dat13]; simp only [Fin.coe_castSucc]
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = (outsAt13 V c t.val t.isLt).1 := by dsimp only [dat13]
theorem after13_4 (c : Dev nD) (t : Fin cfg13.N) : (dat13 V c).after 4 t = (outsAt13 V c t.val t.isLt).2.1 := by dsimp only [dat13]
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d

/-- What the body is called with at point `t`, -/
def bodyPre13 (c : Dev nD) (t : Fin cfg13.N) : sProp 𝕄 :=
  iprop((dat13 V c).Φ t.castSucc ∗ (dat13 V c).owesAt () t.castSucc
    ∗ (∃ d, owns (c : Thread nD τ) (ms13_0 t) fullShare ((dat13 V c).before 0 t d))
    ∗ (∃ d, owns (c : Thread nD τ) (ms13_1 t) fullShare ((dat13 V c).before 1 t d))
    ∗ (∃ d, owns (c : Thread nD τ) (ms13_2 t) fullShare ((dat13 V c).before 2 t d))
    ∗ (∃ d, owns (c : Thread nD τ) (ms13_3 t) fullShare ((dat13 V c).before 3 t d))
    ∗ (∃ d, owns (c : Thread nD τ) (ms13_4 t) fullShare ((dat13 V c).before 4 t d)))
/-- and what it returns. -/
def bodyPost13 (c : Dev nD) (t : Fin cfg13.N) : sProp 𝕄 :=
  iprop((dat13 V c).Φ t.succ ∗ (dat13 V c).owesAt () t.succ
    ∗ (dat13 V c).leavesExact 0 t
    ∗ (dat13 V c).leavesExact 1 t
    ∗ (dat13 V c).leavesExact 2 t
    ∗ (dat13 V c).leavesExact 3 t
    ∗ (dat13 V c).leavesExact 4 t)

set_option maxHeartbeats 8000000 in
/-- The body at any point: the inputs' buffers hold their blocks; the position says which case the point is in; the
    invariant hands the body the accumulator at what the point before left (at anything at the first point) and takes
    it back at this point's contents; the core owes nothing throughout. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2]
  rw [show (dat13 V c).owesAt () t.succ = (dat13 V c).owesAt () t.castSucc from rfl]
  rw [show (dat13 V c).Φ t.succ = PhiS13 V c (t.val + 1) t.isLt from rfl, PhiS13_succ]
  have hN : t.val < 64 := lt_of_lt_of_eq t.isLt (show cfg13.N = 64 from N_13)
  rw [show (dat13 V c).leavesExact 0 t = owns (c : Thread nD τ) (ms13_0 t) fullShare ((dat13 V c).after 0 t) from by
      unfold Dat.leavesExact; rw [liveAt13_0 t], after13_0]
  rw [show (dat13 V c).leavesExact 1 t = owns (c : Thread nD τ) (ms13_1 t) fullShare ((dat13 V c).after 1 t) from by
      unfold Dat.leavesExact; rw [liveAt13_1 t], after13_1]
  rw [show (dat13 V c).leavesExact 2 t = owns (c : Thread nD τ) (ms13_2 t) fullShare ((dat13 V c).after 2 t) from by
      unfold Dat.leavesExact; rw [liveAt13_2 t], after13_2]
  by_cases h0 : t.val % 8 = 0
  · have h1 : ¬t.val % 8 = 7 := by omega
    rw [Dat.leavesExact_idle (dat13 V c) 3 t (idleAt13_3 t (fun h => h1 ((hcond13_1 t).mp h))) (noFlush13_3 t (fun h => h1 ((hcond13_1 t).mp h)))]
    rw [Dat.leavesExact_idle (dat13 V c) 4 t (idleAt13_4 t (fun h => h1 ((hcond13_1 t).mp h))) (noFlush13_4 t (fun h => h1 ((hcond13_1 t).mp h)))]
    rw [outsAt13_A V c t h0 h1]
    unfold sout13_A_0; (try dsimp only)
    by_cases hz : t.val = 0
    · rw [PhiS13_castSucc V c t, PhiS13_zero V c _ _ hz, PhiA13_eq]
      iintro ⟨⟨⟨HS0, HR⟩, Hg⟩, Ho, ⟨%d0, H0⟩, ⟨%d1, H1⟩, ⟨%d2, H2⟩, ⟨%d3, H3⟩, ⟨%d4, H4⟩⟩
      iapply ((kernelRun13_A c (grid13.coords t) _ _ _ _ _ _ _ _ _ _ _ _ ((hcond13_0 t).mpr h0) (fun h => h1 ((hcond13_1 t).mp h)) (iblk13 V c 0 t) (iblk13 V c 1 t) (iblk13 V c 2 t)).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover13_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
    · rw [PhiS13_castSucc V c t, PhiS13_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun13_A c (grid13.coords t) _ _ _ _ _ _ _ _ _ _ _ _ ((hcond13_0 t).mpr h0) (fun h => h1 ((hcond13_1 t).mp h)) (iblk13 V c 0 t) (iblk13 V c 1 t) (iblk13 V c 2 t)).2.2.2 _ _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover13_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun h => h0 (by rw [h])
    by_cases h1 : t.val % 8 = 7
    · rw [show (dat13 V c).leavesExact 3 t = owns (c : Thread nD τ) (ms13_3 t) fullShare ((dat13 V c).after 3 t) from by
        unfold Dat.leavesExact; rw [liveAt13_3 t ((hcond13_1 t).mpr h1)], after13_3]
      rw [show (dat13 V c).leavesExact 4 t = owns (c : Thread nD τ) (ms13_4 t) fullShare ((dat13 V c).after 4 t) from by
        unfold Dat.leavesExact; rw [liveAt13_4 t ((hcond13_1 t).mpr h1)], after13_4]
      rw [outsAt13_C V c t h0 h1]
      unfold out13_C_3 out13_C_4 sout13_C_0; (try dsimp only)
      rw [PhiS13_castSucc V c t, PhiS13_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun13_C c (grid13.coords t) _ _ _ _ _ _ _ _ _ _ _ _ (fun h => h0 ((hcond13_0 t).mp h)) ((hcond13_1 t).mpr h1) (iblk13 V c 0 t) (iblk13 V c 1 t) (iblk13 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover13_C_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover13_C_3 c _ _ _ _ _ _ _ _ _ _ _ _ _ _ _ _ _ _ _)
      unfold owns; iexists _; isplitr
      swap; · iexact H4
      ipureintro; exact View.read_writes_of_cover _ _ _ _ _ (cover13_C_4 c _ _ _ _ _ _ _ _ _ _ _ _ _ _ _ _ _ _ _)
    · rw [Dat.leavesExact_idle (dat13 V c) 3 t (idleAt13_3 t (fun h => h1 ((hcond13_1 t).mp h))) (noFlush13_3 t (fun h => h1 ((hcond13_1 t).mp h)))]
      rw [Dat.leavesExact_idle (dat13 V c) 4 t (idleAt13_4 t (fun h => h1 ((hcond13_1 t).mp h))) (noFlush13_4 t (fun h => h1 ((hcond13_1 t).mp h)))]
      rw [outsAt13_B V c t h0 h1]
      unfold sout13_B_0; (try dsimp only)
      rw [PhiS13_castSucc V c t, PhiS13_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun13_B c (grid13.coords t) _ _ _ _ _ _ _ _ _ _ _ _ (fun h => h0 ((hcond13_0 t).mp h)) (fun h => h1 ((hcond13_1 t).mp h)) (iblk13 V c 0 t) (iblk13 V c 1 t) (iblk13 V c 2 t) _).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover13_B_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4

/-- The body obligation of region 13, at every point. -/
theorem body_obligation13 (c : Dev nD) : BodyObligation (dat13 (F := F) V c) (defs₀ (F := F)) Variants.none () Set.univ := fun t => by
  rw [bigSep_W13, bigSep_W13]
  exact sound_body13 V c t

/-- What the region is entered with is the invariant before the first point. -/
theorem hin13 (c : Dev nD) : Pipeline.ΦA spec13 c ⊢ (dat13 V c).Φ 0 := by
  rw [show (dat13 V c).Φ 0 = PhiS13 V c 0 (Nat.zero_le _) from rfl, PhiS13_zero V c 0 _ rfl]
  try exact Idealize.SL.BI.Entails.refl _

/-- After the last point the invariant gives the scoped buffers back: what the accumulator holds is forgotten. -/
theorem hout13 (c : Dev nD) : (dat13 V c).Φ (Fin.last cfg13.N) ⊢ Pipeline.ΦA spec13 c := by
  have ht : (Fin.last cfg13.N).val ≠ 0 := by rw [Fin.val_last]; have : cfg13.N = 64 := N_13; omega
  rw [show (dat13 V c).Φ (Fin.last cfg13.N) = PhiS13 V c (Fin.last cfg13.N).val (Nat.le_of_lt_succ (Fin.last cfg13.N).isLt) from rfl,
    PhiS13_pos V c _ _ ht, PhiA13_eq]
  iintro ⟨⟨HS0, HR⟩, Hg⟩
  isplitl [HS0 HR]
  · isplitl [HS0]
    · iexists _; iexact HS0
    iexact HR
  iexact Hg

end Cert.Kernel.Hand

end
-- ==== Proof.SegsB.lean ====
/-
  The three claims about the program's run that do not compare values: every weakly fair execution of the program
  terminates without a fault and leaves the four argument arrays as launched. The program is fifteen stretches of
  host operations with fourteen kernel regions between them. Between two items core `c` holds every unscoped
  buffer whole: at launch the launch contents, after a host stretch what its operations compute, after region K the
  same contents with the region's two result arrays at what its pipeline wrote back (its inputs unchanged). Each
  region is entered from that state and left at the next: its arrays are split out of the unscoped buffers and put
  back, the accumulator goes through the invariant, nothing is owed. No item writes an argument array.
-/
import proofs.«108570_j29480655520371_2_alg».proof.Proof.RegB0Frame
import proofs.«108570_j29480655520371_2_alg».proof.Proof.RegB1Frame
import proofs.«108570_j29480655520371_2_alg».proof.Proof.RegB2Frame
import proofs.«108570_j29480655520371_2_alg».proof.Proof.RegB3Frame
import proofs.«108570_j29480655520371_2_alg».proof.Proof.RegB4Frame
import proofs.«108570_j29480655520371_2_alg».proof.Proof.RegB5Frame
import proofs.«108570_j29480655520371_2_alg».proof.Proof.RegB6Frame
import proofs.«108570_j29480655520371_2_alg».proof.Proof.RegB7Frame
import proofs.«108570_j29480655520371_2_alg».proof.Proof.RegB8Frame
import proofs.«108570_j29480655520371_2_alg».proof.Proof.RegB9Frame
import proofs.«108570_j29480655520371_2_alg».proof.Proof.RegB10Frame
import proofs.«108570_j29480655520371_2_alg».proof.Proof.RegB11Frame
import proofs.«108570_j29480655520371_2_alg».proof.Proof.RegB12Frame
import proofs.«108570_j29480655520371_2_alg».proof.Proof.RegB13Frame
import proofs.«108570_j29480655520371_2_alg».proof.Proof.Gen.Kernel.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Writing, at two distinct points, the values a doubly updated function already has there gives it back. -/
theorem upd2_fix {ι : Type} [DecidableEq ι] {β : ι → Type} (f : ∀ i, β i) (a b : ι) (hab : a ≠ b) (A : β a) (B : β b) :
    Function.update (Function.update f a ((Function.update (Function.update f a A) b B) a)) b ((Function.update (Function.update f a A) b B) b)
      = Function.update (Function.update f a A) b B := by
  rw [Function.update_self, Function.update_of_ne hab, Function.update_self]

/-! ## The buffers' contents between items -/

/-- Core `c`'s unscoped buffers when region 0 is entered: the launch contents after the first host stretch. -/
def We0 (c : Dev nD) : Valuation τ sig (Elt F) := Gen.V1 m c
/-- When region 0 is left: its two result arrays at what its pipeline wrote back, everything else as entered. -/
def Wl0 (c : Dev nD) : Valuation τ sig (Elt F) :=
  Function.update (Function.update (We0 m c) main_v11_0 ((dat0 (fun c b => We0 m c b) c).arrAt 3 cfg0.N)) main_v11_1 ((dat0 (fun c b => We0 m c b) c).arrAt 4 cfg0.N)
/-- After the host stretch that follows region 0 (when region 1 is entered). -/
def We1 (c : Dev nD) : Valuation τ sig (Elt F) := StableHlo.after hostOps1 (Wl0 m c)
/-- When region 1 is left: its two result arrays at what its pipeline wrote back, everything else as entered. -/
def Wl1 (c : Dev nD) : Valuation τ sig (Elt F) :=
  Function.update (Function.update (We1 m c) main_v19_0 ((dat1 (fun c b => We1 m c b) c).arrAt 3 cfg1.N)) main_v19_1 ((dat1 (fun c b => We1 m c b) c).arrAt 4 cfg1.N)
/-- After the host stretch that follows region 1 (when region 2 is entered). -/
def We2 (c : Dev nD) : Valuation τ sig (Elt F) := StableHlo.after hostOps2 (Wl1 m c)
/-- When region 2 is left: its two result arrays at what its pipeline wrote back, everything else as entered. -/
def Wl2 (c : Dev nD) : Valuation τ sig (Elt F) :=
  Function.update (Function.update (We2 m c) main_v27_0 ((dat2 (fun c b => We2 m c b) c).arrAt 3 cfg2.N)) main_v27_1 ((dat2 (fun c b => We2 m c b) c).arrAt 4 cfg2.N)
/-- After the host stretch that follows region 2 (when region 3 is entered). -/
def We3 (c : Dev nD) : Valuation τ sig (Elt F) := StableHlo.after hostOps3 (Wl2 m c)
/-- When region 3 is left: its two result arrays at what its pipeline wrote back, everything else as entered. -/
def Wl3 (c : Dev nD) : Valuation τ sig (Elt F) :=
  Function.update (Function.update (We3 m c) main_v35_0 ((dat3 (fun c b => We3 m c b) c).arrAt 3 cfg3.N)) main_v35_1 ((dat3 (fun c b => We3 m c b) c).arrAt 4 cfg3.N)
/-- After the host stretch that follows region 3 (when region 4 is entered). -/
def We4 (c : Dev nD) : Valuation τ sig (Elt F) := StableHlo.after hostOps4 (Wl3 m c)
/-- When region 4 is left: its two result arrays at what its pipeline wrote back, everything else as entered. -/
def Wl4 (c : Dev nD) : Valuation τ sig (Elt F) :=
  Function.update (Function.update (We4 m c) main_v43_0 ((dat4 (fun c b => We4 m c b) c).arrAt 3 cfg4.N)) main_v43_1 ((dat4 (fun c b => We4 m c b) c).arrAt 4 cfg4.N)
/-- After the host stretch that follows region 4 (when region 5 is entered). -/
def We5 (c : Dev nD) : Valuation τ sig (Elt F) := StableHlo.after hostOps5 (Wl4 m c)
/-- When region 5 is left: its two result arrays at what its pipeline wrote back, everything else as entered. -/
def Wl5 (c : Dev nD) : Valuation τ sig (Elt F) :=
  Function.update (Function.update (We5 m c) main_v51_0 ((dat5 (fun c b => We5 m c b) c).arrAt 3 cfg5.N)) main_v51_1 ((dat5 (fun c b => We5 m c b) c).arrAt 4 cfg5.N)
/-- After the host stretch that follows region 5 (when region 6 is entered). -/
def We6 (c : Dev nD) : Valuation τ sig (Elt F) := StableHlo.after hostOps6 (Wl5 m c)
/-- When region 6 is left: its two result arrays at what its pipeline wrote back, everything else as entered. -/
def Wl6 (c : Dev nD) : Valuation τ sig (Elt F) :=
  Function.update (Function.update (We6 m c) main_v59_0 ((dat6 (fun c b => We6 m c b) c).arrAt 3 cfg6.N)) main_v59_1 ((dat6 (fun c b => We6 m c b) c).arrAt 4 cfg6.N)
/-- After the host stretch that follows region 6 (when region 7 is entered). -/
def We7 (c : Dev nD) : Valuation τ sig (Elt F) := StableHlo.after hostOps7 (Wl6 m c)
/-- When region 7 is left: its two result arrays at what its pipeline wrote back, everything else as entered. -/
def Wl7 (c : Dev nD) : Valuation τ sig (Elt F) :=
  Function.update (Function.update (We7 m c) main_v67_0 ((dat7 (fun c b => We7 m c b) c).arrAt 3 cfg7.N)) main_v67_1 ((dat7 (fun c b => We7 m c b) c).arrAt 4 cfg7.N)
/-- After the host stretch that follows region 7 (when region 8 is entered). -/
def We8 (c : Dev nD) : Valuation τ sig (Elt F) := StableHlo.after hostOps8 (Wl7 m c)
/-- When region 8 is left: its two result arrays at what its pipeline wrote back, everything else as entered. -/
def Wl8 (c : Dev nD) : Valuation τ sig (Elt F) :=
  Function.update (Function.update (We8 m c) main_v75_0 ((dat8 (fun c b => We8 m c b) c).arrAt 3 cfg8.N)) main_v75_1 ((dat8 (fun c b => We8 m c b) c).arrAt 4 cfg8.N)
/-- After the host stretch that follows region 8 (when region 9 is entered). -/
def We9 (c : Dev nD) : Valuation τ sig (Elt F) := StableHlo.after hostOps9 (Wl8 m c)
/-- When region 9 is left: its two result arrays at what its pipeline wrote back, everything else as entered. -/
def Wl9 (c : Dev nD) : Valuation τ sig (Elt F) :=
  Function.update (Function.update (We9 m c) main_v83_0 ((dat9 (fun c b => We9 m c b) c).arrAt 3 cfg9.N)) main_v83_1 ((dat9 (fun c b => We9 m c b) c).arrAt 4 cfg9.N)
/-- After the host stretch that follows region 9 (when region 10 is entered). -/
def We10 (c : Dev nD) : Valuation τ sig (Elt F) := StableHlo.after hostOps10 (Wl9 m c)
/-- When region 10 is left: its two result arrays at what its pipeline wrote back, everything else as entered. -/
def Wl10 (c : Dev nD) : Valuation τ sig (Elt F) :=
  Function.update (Function.update (We10 m c) main_v91_0 ((dat10 (fun c b => We10 m c b) c).arrAt 3 cfg10.N)) main_v91_1 ((dat10 (fun c b => We10 m c b) c).arrAt 4 cfg10.N)
/-- After the host stretch that follows region 10 (when region 11 is entered). -/
def We11 (c : Dev nD) : Valuation τ sig (Elt F) := StableHlo.after hostOps11 (Wl10 m c)
/-- When region 11 is left: its two result arrays at what its pipeline wrote back, everything else as entered. -/
def Wl11 (c : Dev nD) : Valuation τ sig (Elt F) :=
  Function.update (Function.update (We11 m c) main_v99_0 ((dat11 (fun c b => We11 m c b) c).arrAt 3 cfg11.N)) main_v99_1 ((dat11 (fun c b => We11 m c b) c).arrAt 4 cfg11.N)
/-- After the host stretch that follows region 11 (when region 12 is entered). -/
def We12 (c : Dev nD) : Valuation τ sig (Elt F) := StableHlo.after hostOps12 (Wl11 m c)
/-- When region 12 is left: its two result arrays at what its pipeline wrote back, everything else as entered. -/
def Wl12 (c : Dev nD) : Valuation τ sig (Elt F) :=
  Function.update (Function.update (We12 m c) main_v107_0 ((dat12 (fun c b => We12 m c b) c).arrAt 3 cfg12.N)) main_v107_1 ((dat12 (fun c b => We12 m c b) c).arrAt 4 cfg12.N)
/-- After the host stretch that follows region 12 (when region 13 is entered). -/
def We13 (c : Dev nD) : Valuation τ sig (Elt F) := StableHlo.after hostOps13 (Wl12 m c)
/-- When region 13 is left: its two result arrays at what its pipeline wrote back, everything else as entered. -/
def Wl13 (c : Dev nD) : Valuation τ sig (Elt F) :=
  Function.update (Function.update (We13 m c) main_v115_0 ((dat13 (fun c b => We13 m c b) c).arrAt 3 cfg13.N)) main_v115_1 ((dat13 (fun c b => We13 m c b) c).arrAt 4 cfg13.N)
/-- After the host stretch that follows region 13 (at the end). -/
def We14 (c : Dev nD) : Valuation τ sig (Elt F) := StableHlo.after hostOps14 (Wl13 m c)

/-- What the regions leave in the buffers they may change, read off the contents above. -/
def outs : Gen.Outs (F := F) := fun J r c => match J with
  | 2 => Wl0 m c r
  | 4 => Wl1 m c r
  | 6 => Wl2 m c r
  | 8 => Wl3 m c r
  | 10 => Wl4 m c r
  | 12 => Wl5 m c r
  | 14 => Wl6 m c r
  | 16 => Wl7 m c r
  | 18 => Wl8 m c r
  | 20 => Wl9 m c r
  | 22 => Wl10 m c r
  | 24 => Wl11 m c r
  | 26 => Wl12 m c r
  | 28 => Wl13 m c r
  | _ => m ((c : Thread nD τ).loc r)

theorem V1_eq (c : Dev nD) : Gen.V1 m c = We0 m c := rfl
theorem V2_eq (c : Dev nD) : Gen.V2 m (outs m) c = Wl0 m c := by
  show Function.update (Function.update (Gen.V1 m c) main_v11_0 (Wl0 m c main_v11_0)) main_v11_1 (Wl0 m c main_v11_1) = Wl0 m c
  rw [V1_eq]
  exact upd2_fix (We0 m c) _ _ (StableHlo.devRef_ne_of_ne (by decide)) _ _
theorem V3_eq (c : Dev nD) : Gen.V3 m (outs m) c = We1 m c := by
  show StableHlo.after hostOps1 (Gen.V2 m (outs m) c) = StableHlo.after hostOps1 (Wl0 m c)
  rw [V2_eq]
theorem V4_eq (c : Dev nD) : Gen.V4 m (outs m) c = Wl1 m c := by
  show Function.update (Function.update (Gen.V3 m (outs m) c) main_v19_0 (Wl1 m c main_v19_0)) main_v19_1 (Wl1 m c main_v19_1) = Wl1 m c
  rw [V3_eq]
  exact upd2_fix (We1 m c) _ _ (StableHlo.devRef_ne_of_ne (by decide)) _ _
theorem V5_eq (c : Dev nD) : Gen.V5 m (outs m) c = We2 m c := by
  show StableHlo.after hostOps2 (Gen.V4 m (outs m) c) = StableHlo.after hostOps2 (Wl1 m c)
  rw [V4_eq]
theorem V6_eq (c : Dev nD) : Gen.V6 m (outs m) c = Wl2 m c := by
  show Function.update (Function.update (Gen.V5 m (outs m) c) main_v27_0 (Wl2 m c main_v27_0)) main_v27_1 (Wl2 m c main_v27_1) = Wl2 m c
  rw [V5_eq]
  exact upd2_fix (We2 m c) _ _ (StableHlo.devRef_ne_of_ne (by decide)) _ _
theorem V7_eq (c : Dev nD) : Gen.V7 m (outs m) c = We3 m c := by
  show StableHlo.after hostOps3 (Gen.V6 m (outs m) c) = StableHlo.after hostOps3 (Wl2 m c)
  rw [V6_eq]
theorem V8_eq (c : Dev nD) : Gen.V8 m (outs m) c = Wl3 m c := by
  show Function.update (Function.update (Gen.V7 m (outs m) c) main_v35_0 (Wl3 m c main_v35_0)) main_v35_1 (Wl3 m c main_v35_1) = Wl3 m c
  rw [V7_eq]
  exact upd2_fix (We3 m c) _ _ (StableHlo.devRef_ne_of_ne (by decide)) _ _
theorem V9_eq (c : Dev nD) : Gen.V9 m (outs m) c = We4 m c := by
  show StableHlo.after hostOps4 (Gen.V8 m (outs m) c) = StableHlo.after hostOps4 (Wl3 m c)
  rw [V8_eq]
theorem V10_eq (c : Dev nD) : Gen.V10 m (outs m) c = Wl4 m c := by
  show Function.update (Function.update (Gen.V9 m (outs m) c) main_v43_0 (Wl4 m c main_v43_0)) main_v43_1 (Wl4 m c main_v43_1) = Wl4 m c
  rw [V9_eq]
  exact upd2_fix (We4 m c) _ _ (StableHlo.devRef_ne_of_ne (by decide)) _ _
theorem V11_eq (c : Dev nD) : Gen.V11 m (outs m) c = We5 m c := by
  show StableHlo.after hostOps5 (Gen.V10 m (outs m) c) = StableHlo.after hostOps5 (Wl4 m c)
  rw [V10_eq]
theorem V12_eq (c : Dev nD) : Gen.V12 m (outs m) c = Wl5 m c := by
  show Function.update (Function.update (Gen.V11 m (outs m) c) main_v51_0 (Wl5 m c main_v51_0)) main_v51_1 (Wl5 m c main_v51_1) = Wl5 m c
  rw [V11_eq]
  exact upd2_fix (We5 m c) _ _ (StableHlo.devRef_ne_of_ne (by decide)) _ _
theorem V13_eq (c : Dev nD) : Gen.V13 m (outs m) c = We6 m c := by
  show StableHlo.after hostOps6 (Gen.V12 m (outs m) c) = StableHlo.after hostOps6 (Wl5 m c)
  rw [V12_eq]
theorem V14_eq (c : Dev nD) : Gen.V14 m (outs m) c = Wl6 m c := by
  show Function.update (Function.update (Gen.V13 m (outs m) c) main_v59_0 (Wl6 m c main_v59_0)) main_v59_1 (Wl6 m c main_v59_1) = Wl6 m c
  rw [V13_eq]
  exact upd2_fix (We6 m c) _ _ (StableHlo.devRef_ne_of_ne (by decide)) _ _
theorem V15_eq (c : Dev nD) : Gen.V15 m (outs m) c = We7 m c := by
  show StableHlo.after hostOps7 (Gen.V14 m (outs m) c) = StableHlo.after hostOps7 (Wl6 m c)
  rw [V14_eq]
theorem V16_eq (c : Dev nD) : Gen.V16 m (outs m) c = Wl7 m c := by
  show Function.update (Function.update (Gen.V15 m (outs m) c) main_v67_0 (Wl7 m c main_v67_0)) main_v67_1 (Wl7 m c main_v67_1) = Wl7 m c
  rw [V15_eq]
  exact upd2_fix (We7 m c) _ _ (StableHlo.devRef_ne_of_ne (by decide)) _ _
theorem V17_eq (c : Dev nD) : Gen.V17 m (outs m) c = We8 m c := by
  show StableHlo.after hostOps8 (Gen.V16 m (outs m) c) = StableHlo.after hostOps8 (Wl7 m c)
  rw [V16_eq]
theorem V18_eq (c : Dev nD) : Gen.V18 m (outs m) c = Wl8 m c := by
  show Function.update (Function.update (Gen.V17 m (outs m) c) main_v75_0 (Wl8 m c main_v75_0)) main_v75_1 (Wl8 m c main_v75_1) = Wl8 m c
  rw [V17_eq]
  exact upd2_fix (We8 m c) _ _ (StableHlo.devRef_ne_of_ne (by decide)) _ _
theorem V19_eq (c : Dev nD) : Gen.V19 m (outs m) c = We9 m c := by
  show StableHlo.after hostOps9 (Gen.V18 m (outs m) c) = StableHlo.after hostOps9 (Wl8 m c)
  rw [V18_eq]
theorem V20_eq (c : Dev nD) : Gen.V20 m (outs m) c = Wl9 m c := by
  show Function.update (Function.update (Gen.V19 m (outs m) c) main_v83_0 (Wl9 m c main_v83_0)) main_v83_1 (Wl9 m c main_v83_1) = Wl9 m c
  rw [V19_eq]
  exact upd2_fix (We9 m c) _ _ (StableHlo.devRef_ne_of_ne (by decide)) _ _
theorem V21_eq (c : Dev nD) : Gen.V21 m (outs m) c = We10 m c := by
  show StableHlo.after hostOps10 (Gen.V20 m (outs m) c) = StableHlo.after hostOps10 (Wl9 m c)
  rw [V20_eq]
theorem V22_eq (c : Dev nD) : Gen.V22 m (outs m) c = Wl10 m c := by
  show Function.update (Function.update (Gen.V21 m (outs m) c) main_v91_0 (Wl10 m c main_v91_0)) main_v91_1 (Wl10 m c main_v91_1) = Wl10 m c
  rw [V21_eq]
  exact upd2_fix (We10 m c) _ _ (StableHlo.devRef_ne_of_ne (by decide)) _ _
theorem V23_eq (c : Dev nD) : Gen.V23 m (outs m) c = We11 m c := by
  show StableHlo.after hostOps11 (Gen.V22 m (outs m) c) = StableHlo.after hostOps11 (Wl10 m c)
  rw [V22_eq]
theorem V24_eq (c : Dev nD) : Gen.V24 m (outs m) c = Wl11 m c := by
  show Function.update (Function.update (Gen.V23 m (outs m) c) main_v99_0 (Wl11 m c main_v99_0)) main_v99_1 (Wl11 m c main_v99_1) = Wl11 m c
  rw [V23_eq]
  exact upd2_fix (We11 m c) _ _ (StableHlo.devRef_ne_of_ne (by decide)) _ _
theorem V25_eq (c : Dev nD) : Gen.V25 m (outs m) c = We12 m c := by
  show StableHlo.after hostOps12 (Gen.V24 m (outs m) c) = StableHlo.after hostOps12 (Wl11 m c)
  rw [V24_eq]
theorem V26_eq (c : Dev nD) : Gen.V26 m (outs m) c = Wl12 m c := by
  show Function.update (Function.update (Gen.V25 m (outs m) c) main_v107_0 (Wl12 m c main_v107_0)) main_v107_1 (Wl12 m c main_v107_1) = Wl12 m c
  rw [V25_eq]
  exact upd2_fix (We12 m c) _ _ (StableHlo.devRef_ne_of_ne (by decide)) _ _
theorem V27_eq (c : Dev nD) : Gen.V27 m (outs m) c = We13 m c := by
  show StableHlo.after hostOps13 (Gen.V26 m (outs m) c) = StableHlo.after hostOps13 (Wl12 m c)
  rw [V26_eq]
theorem V28_eq (c : Dev nD) : Gen.V28 m (outs m) c = Wl13 m c := by
  show Function.update (Function.update (Gen.V27 m (outs m) c) main_v115_0 (Wl13 m c main_v115_0)) main_v115_1 (Wl13 m c main_v115_1) = Wl13 m c
  rw [V27_eq]
  exact upd2_fix (We13 m c) _ _ (StableHlo.devRef_ne_of_ne (by decide)) _ _
theorem V29_eq (c : Dev nD) : Gen.V29 m (outs m) c = We14 m c := by
  show StableHlo.after hostOps14 (Gen.V28 m (outs m) c) = StableHlo.after hostOps14 (Wl13 m c)
  rw [V28_eq]

/-! ## The proof data family and the thread state -/

/-- Every pipeline's proof data, each at its region's entry contents. -/
def pdats : (p : Fin 14) → (c : Dev nD) → Dat τ (Elt F) Unit ℕ (UR sig nD τ) ℕ (cfgs p) c
  | ⟨0, _⟩ => fun c => dat0 (fun c b => We0 m c b) c
  | ⟨1, _⟩ => fun c => dat1 (fun c b => We1 m c b) c
  | ⟨2, _⟩ => fun c => dat2 (fun c b => We2 m c b) c
  | ⟨3, _⟩ => fun c => dat3 (fun c b => We3 m c b) c
  | ⟨4, _⟩ => fun c => dat4 (fun c b => We4 m c b) c
  | ⟨5, _⟩ => fun c => dat5 (fun c b => We5 m c b) c
  | ⟨6, _⟩ => fun c => dat6 (fun c b => We6 m c b) c
  | ⟨7, _⟩ => fun c => dat7 (fun c b => We7 m c b) c
  | ⟨8, _⟩ => fun c => dat8 (fun c b => We8 m c b) c
  | ⟨9, _⟩ => fun c => dat9 (fun c b => We9 m c b) c
  | ⟨10, _⟩ => fun c => dat10 (fun c b => We10 m c b) c
  | ⟨11, _⟩ => fun c => dat11 (fun c b => We11 m c b) c
  | ⟨12, _⟩ => fun c => dat12 (fun c b => We12 m c b) c
  | ⟨13, _⟩ => fun c => dat13 (fun c b => We13 m c b) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)

/-! ## The regions as segments -/

theorem hF0 (c : Dev nD) : ∀ w : Fin cfg0.W, (dat0 (fun c b => We0 m c b) c).arrAt w cfg0.N = Wl0 m c (Pipeline.arrRef spec0 w)
  | 0 => (((dat0 (fun c b => We0 m c b) c).arrAt_in 0 rfl _).trans (A_eq0 (fun c b => We0 m c b) c 0)).trans (by unfold Wl0; rw [Function.update_of_ne (StableHlo.devRef_ne_of_ne (by decide)), Function.update_of_ne (StableHlo.devRef_ne_of_ne (by decide))])
  | 1 => (((dat0 (fun c b => We0 m c b) c).arrAt_in 1 rfl _).trans (A_eq0 (fun c b => We0 m c b) c 1)).trans (by unfold Wl0; rw [Function.update_of_ne (StableHlo.devRef_ne_of_ne (by decide)), Function.update_of_ne (StableHlo.devRef_ne_of_ne (by decide))])
  | 2 => (((dat0 (fun c b => We0 m c b) c).arrAt_in 2 rfl _).trans (A_eq0 (fun c b => We0 m c b) c 2)).trans (by unfold Wl0; rw [Function.update_of_ne (StableHlo.devRef_ne_of_ne (by decide)), Function.update_of_ne (StableHlo.devRef_ne_of_ne (by decide))])
  | 3 => by
    show _ = Function.update (Function.update (We0 m c) main_v11_0 _) main_v11_1 _ main_v11_0
    rw [Function.update_of_ne (StableHlo.devRef_ne_of_ne (by decide)), Function.update_self]
  | 4 => by
    show _ = Function.update (Function.update (We0 m c) main_v11_0 _) main_v11_1 _ main_v11_1
    rw [Function.update_self]
  | ⟨_ + 5, h⟩ => absurd h (Nat.not_lt.2 (Nat.le_add_left _ _))
theorem hrest0 (c : Dev nD) : ∀ b, b ∉ Finset.univ.image (Pipeline.arrRef spec0) → Wl0 m c b = We0 m c b := fun b hb => by
  have h3 : b ≠ main_v11_0 := fun e => hb (Finset.mem_image.mpr ⟨3, Finset.mem_univ _, e.symm⟩)
  have h4 : b ≠ main_v11_1 := fun e => hb (Finset.mem_image.mpr ⟨4, Finset.mem_univ _, e.symm⟩)
  unfold Wl0
  rw [Function.update_of_ne (StableHlo.devRef_ne_of_ne h4), Function.update_of_ne (StableHlo.devRef_ne_of_ne h3)]

set_option backward.isDefEq.respectTransparency.types false in
/-- REGION 0 over the thread state: entered from every unscoped buffer at `We0`, left at `Wl0`. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (fun c b => We0 m c b) c).loose
  hwaits := Pipeline.hwaits_of_owed_zero _ _ _ _ L lv 0 fun _ _ => rfl
  pre c := iprop(StableHlo.held (c : Thread nD τ) (Pipeline.ucRefs τ sig) (We0 m c) ∗ R c)
  post c := iprop(StableHlo.held (c : Thread nD τ) (Pipeline.ucRefs τ sig) (Wl0 m c) ∗ R c)
  X c := iprop(∃ r, prngReg c r)
  Y c := iprop(∃ r, prngReg c r)
  Z c := Pipeline.unscopedRest (Ix := Unit) (Name := ℕ) (U := UR sig nD τ) (Lvl := ℕ) spec0 c (fun b => We0 m c b)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (fun b => We0 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (fun c b => We0 m c b) c)
    unfold Pipeline.ΦA
    iintro ⟨Hp, -, Hr⟩
    isplitl [Hr]; · iexact Hr
    iexact Hp
  hout c := by
    rw [Pipeline.ownSems0_none]
    refine (hout0 (fun c b => We0 m c b) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (fun b => We0 m c b) (fun b => Wl0 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF1 (c : Dev nD) : ∀ w : Fin cfg1.W, (dat1 (fun c b => We1 m c b) c).arrAt w cfg1.N = Wl1 m c (Pipeline.arrRef spec1 w)
  | 0 => (((dat1 (fun c b => We1 m c b) c).arrAt_in 0 rfl _).trans (A_eq1 (fun c b => We1 m c b) c 0)).trans (by unfold Wl1; rw [Function.update_of_ne (StableHlo.devRef_ne_of_ne (by decide)), Function.update_of_ne (StableHlo.devRef_ne_of_ne (by decide))])
  | 1 => (((dat1 (fun c b => We1 m c b) c).arrAt_in 1 rfl _).trans (A_eq1 (fun c b => We1 m c b) c 1)).trans (by unfold Wl1; rw [Function.update_of_ne (StableHlo.devRef_ne_of_ne (by decide)), Function.update_of_ne (StableHlo.devRef_ne_of_ne (by decide))])
  | 2 => (((dat1 (fun c b => We1 m c b) c).arrAt_in 2 rfl _).trans (A_eq1 (fun c b => We1 m c b) c 2)).trans (by unfold Wl1; rw [Function.update_of_ne (StableHlo.devRef_ne_of_ne (by decide)), Function.update_of_ne (StableHlo.devRef_ne_of_ne (by decide))])
  | 3 => by
    show _ = Function.update (Function.update (We1 m c) main_v19_0 _) main_v19_1 _ main_v19_0
    rw [Function.update_of_ne (StableHlo.devRef_ne_of_ne (by decide)), Function.update_self]
  | 4 => by
    show _ = Function.update (Function.update (We1 m c) main_v19_0 _) main_v19_1 _ main_v19_1
    rw [Function.update_self]
  | ⟨_ + 5, h⟩ => absurd h (Nat.not_lt.2 (Nat.le_add_left _ _))
theorem hrest1 (c : Dev nD) : ∀ b, b ∉ Finset.univ.image (Pipeline.arrRef spec1) → Wl1 m c b = We1 m c b := fun b hb => by
  have h3 : b ≠ main_v19_0 := fun e => hb (Finset.mem_image.mpr ⟨3, Finset.mem_univ _, e.symm⟩)
  have h4 : b ≠ main_v19_1 := fun e => hb (Finset.mem_image.mpr ⟨4, Finset.mem_univ _, e.symm⟩)
  unfold Wl1
  rw [Function.update_of_ne (StableHlo.devRef_ne_of_ne h4), Function.update_of_ne (StableHlo.devRef_ne_of_ne h3)]

set_option backward.isDefEq.respectTransparency.types false in
/-- REGION 1 over the thread state: entered from every unscoped buffer at `We1`, left at `Wl1`. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (fun c b => We1 m c b) c).loose
  hwaits := Pipeline.hwaits_of_owed_zero _ _ _ _ L lv 1 fun _ _ => rfl
  pre c := iprop(StableHlo.held (c : Thread nD τ) (Pipeline.ucRefs τ sig) (We1 m c) ∗ R c)
  post c := iprop(StableHlo.held (c : Thread nD τ) (Pipeline.ucRefs τ sig) (Wl1 m c) ∗ R c)
  X c := iprop(∃ r, prngReg c r)
  Y c := iprop(∃ r, prngReg c r)
  Z c := Pipeline.unscopedRest (Ix := Unit) (Name := ℕ) (U := UR sig nD τ) (Lvl := ℕ) spec1 c (fun b => We1 m c b)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (fun b => We1 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (fun c b => We1 m c b) c)
    unfold Pipeline.ΦA
    iintro ⟨Hp, -, Hr⟩
    isplitl [Hr]; · iexact Hr
    iexact Hp
  hout c := by
    rw [Pipeline.ownSems0_none]
    refine (hout1 (fun c b => We1 m c b) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (fun b => We1 m c b) (fun b => Wl1 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF2 (c : Dev nD) : ∀ w : Fin cfg2.W, (dat2 (fun c b => We2 m c b) c).arrAt w cfg2.N = Wl2 m c (Pipeline.arrRef spec2 w)
  | 0 => (((dat2 (fun c b => We2 m c b) c).arrAt_in 0 rfl _).trans (A_eq2 (fun c b => We2 m c b) c 0)).trans (by unfold Wl2; rw [Function.update_of_ne (StableHlo.devRef_ne_of_ne (by decide)), Function.update_of_ne (StableHlo.devRef_ne_of_ne (by decide))])
  | 1 => (((dat2 (fun c b => We2 m c b) c).arrAt_in 1 rfl _).trans (A_eq2 (fun c b => We2 m c b) c 1)).trans (by unfold Wl2; rw [Function.update_of_ne (StableHlo.devRef_ne_of_ne (by decide)), Function.update_of_ne (StableHlo.devRef_ne_of_ne (by decide))])
  | 2 => (((dat2 (fun c b => We2 m c b) c).arrAt_in 2 rfl _).trans (A_eq2 (fun c b => We2 m c b) c 2)).trans (by unfold Wl2; rw [Function.update_of_ne (StableHlo.devRef_ne_of_ne (by decide)), Function.update_of_ne (StableHlo.devRef_ne_of_ne (by decide))])
  | 3 => by
    show _ = Function.update (Function.update (We2 m c) main_v27_0 _) main_v27_1 _ main_v27_0
    rw [Function.update_of_ne (StableHlo.devRef_ne_of_ne (by decide)), Function.update_self]
  | 4 => by
    show _ = Function.update (Function.update (We2 m c) main_v27_0 _) main_v27_1 _ main_v27_1
    rw [Function.update_self]
  | ⟨_ + 5, h⟩ => absurd h (Nat.not_lt.2 (Nat.le_add_left _ _))
theorem hrest2 (c : Dev nD) : ∀ b, b ∉ Finset.univ.image (Pipeline.arrRef spec2) → Wl2 m c b = We2 m c b := fun b hb => by
  have h3 : b ≠ main_v27_0 := fun e => hb (Finset.mem_image.mpr ⟨3, Finset.mem_univ _, e.symm⟩)
  have h4 : b ≠ main_v27_1 := fun e => hb (Finset.mem_image.mpr ⟨4, Finset.mem_univ _, e.symm⟩)
  unfold Wl2
  rw [Function.update_of_ne (StableHlo.devRef_ne_of_ne h4), Function.update_of_ne (StableHlo.devRef_ne_of_ne h3)]

set_option backward.isDefEq.respectTransparency.types false in
/-- REGION 2 over the thread state: entered from every unscoped buffer at `We2`, left at `Wl2`. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (fun c b => We2 m c b) c).loose
  hwaits := Pipeline.hwaits_of_owed_zero _ _ _ _ L lv 2 fun _ _ => rfl
  pre c := iprop(StableHlo.held (c : Thread nD τ) (Pipeline.ucRefs τ sig) (We2 m c) ∗ R c)
  post c := iprop(StableHlo.held (c : Thread nD τ) (Pipeline.ucRefs τ sig) (Wl2 m c) ∗ R c)
  X c := iprop(∃ r, prngReg c r)
  Y c := iprop(∃ r, prngReg c r)
  Z c := Pipeline.unscopedRest (Ix := Unit) (Name := ℕ) (U := UR sig nD τ) (Lvl := ℕ) spec2 c (fun b => We2 m c b)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (fun b => We2 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (fun c b => We2 m c b) c)
    unfold Pipeline.ΦA
    iintro ⟨Hp, -, Hr⟩
    isplitl [Hr]; · iexact Hr
    iexact Hp
  hout c := by
    rw [Pipeline.ownSems0_none]
    refine (hout2 (fun c b => We2 m c b) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (fun b => We2 m c b) (fun b => Wl2 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF3 (c : Dev nD) : ∀ w : Fin cfg3.W, (dat3 (fun c b => We3 m c b) c).arrAt w cfg3.N = Wl3 m c (Pipeline.arrRef spec3 w)
  | 0 => (((dat3 (fun c b => We3 m c b) c).arrAt_in 0 rfl _).trans (A_eq3 (fun c b => We3 m c b) c 0)).trans (by unfold Wl3; rw [Function.update_of_ne (StableHlo.devRef_ne_of_ne (by decide)), Function.update_of_ne (StableHlo.devRef_ne_of_ne (by decide))])
  | 1 => (((dat3 (fun c b => We3 m c b) c).arrAt_in 1 rfl _).trans (A_eq3 (fun c b => We3 m c b) c 1)).trans (by unfold Wl3; rw [Function.update_of_ne (StableHlo.devRef_ne_of_ne (by decide)), Function.update_of_ne (StableHlo.devRef_ne_of_ne (by decide))])
  | 2 => (((dat3 (fun c b => We3 m c b) c).arrAt_in 2 rfl _).trans (A_eq3 (fun c b => We3 m c b) c 2)).trans (by unfold Wl3; rw [Function.update_of_ne (StableHlo.devRef_ne_of_ne (by decide)), Function.update_of_ne (StableHlo.devRef_ne_of_ne (by decide))])
  | 3 => by
    show _ = Function.update (Function.update (We3 m c) main_v35_0 _) main_v35_1 _ main_v35_0
    rw [Function.update_of_ne (StableHlo.devRef_ne_of_ne (by decide)), Function.update_self]
  | 4 => by
    show _ = Function.update (Function.update (We3 m c) main_v35_0 _) main_v35_1 _ main_v35_1
    rw [Function.update_self]
  | ⟨_ + 5, h⟩ => absurd h (Nat.not_lt.2 (Nat.le_add_left _ _))
theorem hrest3 (c : Dev nD) : ∀ b, b ∉ Finset.univ.image (Pipeline.arrRef spec3) → Wl3 m c b = We3 m c b := fun b hb => by
  have h3 : b ≠ main_v35_0 := fun e => hb (Finset.mem_image.mpr ⟨3, Finset.mem_univ _, e.symm⟩)
  have h4 : b ≠ main_v35_1 := fun e => hb (Finset.mem_image.mpr ⟨4, Finset.mem_univ _, e.symm⟩)
  unfold Wl3
  rw [Function.update_of_ne (StableHlo.devRef_ne_of_ne h4), Function.update_of_ne (StableHlo.devRef_ne_of_ne h3)]

set_option backward.isDefEq.respectTransparency.types false in
/-- REGION 3 over the thread state: entered from every unscoped buffer at `We3`, left at `Wl3`. -/
def reg3 : Pipeline.RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (fun c b => We3 m c b) c).loose
  hwaits := Pipeline.hwaits_of_owed_zero _ _ _ _ L lv 3 fun _ _ => rfl
  pre c := iprop(StableHlo.held (c : Thread nD τ) (Pipeline.ucRefs τ sig) (We3 m c) ∗ R c)
  post c := iprop(StableHlo.held (c : Thread nD τ) (Pipeline.ucRefs τ sig) (Wl3 m c) ∗ R c)
  X c := iprop(∃ r, prngReg c r)
  Y c := iprop(∃ r, prngReg c r)
  Z c := Pipeline.unscopedRest (Ix := Unit) (Name := ℕ) (U := UR sig nD τ) (Lvl := ℕ) spec3 c (fun b => We3 m c b)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (fun b => We3 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin3 (fun c b => We3 m c b) c)
    unfold Pipeline.ΦA
    iintro ⟨Hp, -, Hr⟩
    isplitl [Hr]; · iexact Hr
    iexact Hp
  hout c := by
    rw [Pipeline.ownSems0_none]
    refine (hout3 (fun c b => We3 m c b) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (fun b => We3 m c b) (fun b => Wl3 m c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF4 (c : Dev nD) : ∀ w : Fin cfg4.W, (dat4 (fun c b => We4 m c b) c).arrAt w cfg4.N = Wl4 m c (Pipeline.arrRef spec4 w)
  | 0 => (((dat4 (fun c b => We4 m c b) c).arrAt_in 0 rfl _).trans (A_eq4 (fun c b => We4 m c b) c 0)).trans (by unfold Wl4; rw [Function.update_of_ne (StableHlo.devRef_ne_of_ne (by decide)), Function.update_of_ne (StableHlo.devRef_ne_of_ne (by decide))])
  | 1 => (((dat4 (fun c b => We4 m c b) c).arrAt_in 1 rfl _).trans (A_eq4 (fun c b => We4 m c b) c 1)).trans (by unfold Wl4; rw [Function.update_of_ne (StableHlo.devRef_ne_of_ne (by decide)), Function.update_of_ne (StableHlo.devRef_ne_of_ne (by decide))])
  | 2 => (((dat4 (fun c b => We4 m c b) c).arrAt_in 2 rfl _).trans (A_eq4 (fun c b => We4 m c b) c 2)).trans (by unfold Wl4; rw [Function.update_of_ne (StableHlo.devRef_ne_of_ne (by decide)), Function.update_of_ne (StableHlo.devRef_ne_of_ne (by decide))])
  | 3 => by
    show _ = Function.update (Function.update (We4 m c) main_v43_0 _) main_v43_1 _ main_v43_0
    rw [Function.update_of_ne (StableHlo.devRef_ne_of_ne (by decide)), Function.update_self]
  | 4 => by
    show _ = Function.update (Function.update (We4 m c) main_v43_0 _) main_v43_1 _ main_v43_1
    rw [Function.update_self]
  | ⟨_ + 5, h⟩ => absurd h (Nat.not_lt.2 (Nat.le_add_left _ _))
theorem hrest4 (c : Dev nD) : ∀ b, b ∉ Finset.univ.image (Pipeline.arrRef spec4) → Wl4 m c b = We4 m c b := fun b hb => by
  have h3 : b ≠ main_v43_0 := fun e => hb (Finset.mem_image.mpr ⟨3, Finset.mem_univ _, e.symm⟩)
  have h4 : b ≠ main_v43_1 := fun e => hb (Finset.mem_image.mpr ⟨4, Finset.mem_univ _, e.symm⟩)
  unfold Wl4
  rw [Function.update_of_ne (StableHlo.devRef_ne_of_ne h4), Function.update_of_ne (StableHlo.devRef_ne_of_ne h3)]

set_option backward.isDefEq.respectTransparency.types false in
/-- REGION 4 over the thread state: entered from every unscoped buffer at `We4`, left at `Wl4`. -/
def reg4 : Pipeline.RegionSeg (pcfgs (F := F)) Gen.adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (fun c b => We4 m c b) c).loose
  hwaits := Pipeline.hwaits_of_owed_zero _ _ _ _ L lv 4 fun _ _ => rfl
  pre c := iprop(StableHlo.held (c : Thread nD τ) (Pipeline.ucRefs τ sig) (We4 m c) ∗ R c)
  post c := iprop(StableHlo.held (c : Thread nD τ) (Pipeline.ucRefs τ sig) (Wl4 m c) ∗ R c)
  X c := iprop(∃ r, prngReg c r)
  Y c := iprop(∃ r, prngReg c r)
  Z c := Pipeline.unscopedRest (Ix := Unit) (Name := ℕ) (U := UR sig nD τ) (Lvl := ℕ) spec4 c (fun b => We4 m c b)
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (fun b => We4 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin4 (fun c b => We4 m c b) c)
    unfold Pipeline.ΦA
    iintro ⟨Hp, -, Hr⟩
    isplitl [Hr]; · iexact Hr
    iexact Hp
  hout c := by
    rw [Pipeline.ownSems0_none]
    refine (hout4 (fun c b => We4 m c b) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (pdats m) ((pdats m 4 c).share_full fun _ => rfl)
      (fun b => We4 m c b) (fun b => Wl4 m c b) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF5 (c : Dev nD) : ∀ w : Fin cfg5.W, (dat5 (fun c b => We5 m c b) c).arrAt w cfg5.N = Wl5 m c (Pipeline.arrRef spec5 w)
  | 0 => (((dat5 (fun c b => We5 m c b) c).arrAt_in 0 rfl _).trans (A_eq5 (fun c b => We5 m c b) c 0)).trans (by unfold Wl5; rw [Function.update_of_ne (StableHlo.devRef_ne_of_ne (by decide)), Function.update_of_ne (StableHlo.devRef_ne_of_ne (by decide))])
  | 1 => (((dat5 (fun c b => We5 m c b) c).arrAt_in 1 rfl _).trans (A_eq5 (fun c b => We5 m c b) c 1)).trans (by unfold Wl5; rw [Function.update_of_ne (StableHlo.devRef_ne_of_ne (by decide)), Function.update_of_ne (StableHlo.devRef_ne_of_ne (by decide))])
  | 2 => (((dat5 (fun c b => We5 m c b) c).arrAt_in 2 rfl _).trans (A_eq5 (fun c b => We5 m c b) c 2)).trans (by unfold Wl5; rw [Function.update_of_ne (StableHlo.devRef_ne_of_ne (by decide)), Function.update_of_ne (StableHlo.devRef_ne_of_ne (by decide))])
  | 3 => by
    show _ = Function.update (Function.update (We5 m c) main_v51_0 _) main_v51_1 _ main_v51_0
    rw [Function.update_of_ne (StableHlo.devRef_ne_of_ne (by decide)), Function.update_self]
  | 4 => by
    show _ = Function.update (Function.update (We5 m c) main_v51_0 _) main_v51_1 _ main_v51_1
    rw [Function.update_self]
  | ⟨_ + 5, h⟩ => absurd h (Nat.not_lt.2 (Nat.le_add_left _ _))
theorem hrest5 (c : Dev nD) : ∀ b, b ∉ Finset.univ.image (Pipeline.arrRef spec5) → Wl5 m c b = We5 m c b := fun b hb => by
  have h3 : b ≠ main_v51_0 := fun e => hb (Finset.mem_image.mpr ⟨3, Finset.mem_univ _, e.symm⟩)
  have h4 : b ≠ main_v51_1 := fun e => hb (Finset.mem_image.mpr ⟨4, Finset.mem_univ _, e.symm⟩)
  unfold Wl5
  rw [Function.update_of_ne (StableHlo.devRef_ne_of_ne h4), Function.update_of_ne (StableHlo.devRef_ne_of_ne h3)]

set_option backward.isDefEq.respectTransparency.types false in
/-- REGION 5 over the thread state: entered from every unscoped buffer at `We5`, left at `Wl5`. -/
def reg5 : Pipeline.RegionSeg (pcfgs (F := F)) Gen.adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (fun c b => We5 m c b) c).loose
  hwaits := Pipeline.hwaits_of_owed_zero _ _ _ _ L lv 5 fun _ _ => rfl
  pre c := iprop(StableHlo.held (c : Thread nD τ) (Pipeline.ucRefs τ sig) (We5 m c) ∗ R c)
  post c := iprop(StableHlo.held (c : Thread nD τ) (Pipeline.ucRefs τ sig) (Wl5 m c) ∗ R c)
  X c := iprop(∃ r, prngReg c r)
  Y c := iprop(∃ r, prngReg c r)
  Z c := Pipeline.unscopedRest (Ix := Unit) (Name := ℕ) (U := UR sig nD τ) (Lvl := ℕ) spec5 c (fun b => We5 m c b)
  hentry c := by
    rw [Pipeline.ownSems0_none]
    have hsplit := Pipeline.arrays_of_unscopedBufs (p := 5) (pcfgs (F := F)) Gen.adm (pdats m) launch5.win launch5.arr_whole c
      ((pdats m 5 c).share_full fun _ => rfl) (fun b => We5 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin5 (fun c b => We5 m c b) c)
    unfold Pipeline.ΦA
    iintro ⟨Hp, -, Hr⟩
    isplitl [Hr]; · iexact Hr
    iexact Hp
  hout c := by
    rw [Pipeline.ownSems0_none]
    refine (hout5 (fun c b => We5 m c b) c).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) Gen.adm (Ix := Unit) (Name := ℕ) (U := UR sig nD τ) (Lvl := ℕ)
      launch5.win launch5.arr_whole c (pdats m) ((pdats m 5 c).share_full fun _ => rfl)
      (fun b => We5 m c b) (fun b => Wl5 m c b) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF6 (c : Dev nD) : ∀ w : Fin cfg6.W, (dat6 (fun c b => We6 m c b) c).arrAt w cfg6.N = Wl6 m c (Pipeline.arrRef spec6 w)
  | 0 => (((dat6 (fun c b => We6 m c b) c).arrAt_in 0 rfl _).trans (A_eq6 (fun c b => We6 m c b) c 0)).trans (by unfold Wl6; rw [Function.update_of_ne (StableHlo.devRef_ne_of_ne (by decide)), Function.update_of_ne (StableHlo.devRef_ne_of_ne (by decide))])
  | 1 => (((dat6 (fun c b => We6 m c b) c).arrAt_in 1 rfl _).trans (A_eq6 (fun c b => We6 m c b) c 1)).trans (by unfold Wl6; rw [Function.update_of_ne (StableHlo.devRef_ne_of_ne (by decide)), Function.update_of_ne (StableHlo.devRef_ne_of_ne (by decide))])
  | 2 => (((dat6 (fun c b => We6 m c b) c).arrAt_in 2 rfl _).trans (A_eq6 (fun c b => We6 m c b) c 2)).trans (by unfold Wl6; rw [Function.update_of_ne (StableHlo.devRef_ne_of_ne (by decide)), Function.update_of_ne (StableHlo.devRef_ne_of_ne (by decide))])
  | 3 => by
    show _ = Function.update (Function.update (We6 m c) main_v59_0 _) main_v59_1 _ main_v59_0
    rw [Function.update_of_ne (StableHlo.devRef_ne_of_ne (by decide)), Function.update_self]
  | 4 => by
    show _ = Function.update (Function.update (We6 m c) main_v59_0 _) main_v59_1 _ main_v59_1
    rw [Function.update_self]
  | ⟨_ + 5, h⟩ => absurd h (Nat.not_lt.2 (Nat.le_add_left _ _))
theorem hrest6 (c : Dev nD) : ∀ b, b ∉ Finset.univ.image (Pipeline.arrRef spec6) → Wl6 m c b = We6 m c b := fun b hb => by
  have h3 : b ≠ main_v59_0 := fun e => hb (Finset.mem_image.mpr ⟨3, Finset.mem_univ _, e.symm⟩)
  have h4 : b ≠ main_v59_1 := fun e => hb (Finset.mem_image.mpr ⟨4, Finset.mem_univ _, e.symm⟩)
  unfold Wl6
  rw [Function.update_of_ne (StableHlo.devRef_ne_of_ne h4), Function.update_of_ne (StableHlo.devRef_ne_of_ne h3)]

set_option backward.isDefEq.respectTransparency.types false in
/-- REGION 6 over the thread state: entered from every unscoped buffer at `We6`, left at `Wl6`. -/
def reg6 : Pipeline.RegionSeg (pcfgs (F := F)) Gen.adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (fun c b => We6 m c b) c).loose
  hwaits := Pipeline.hwaits_of_owed_zero _ _ _ _ L lv 6 fun _ _ => rfl
  pre c := iprop(StableHlo.held (c : Thread nD τ) (Pipeline.ucRefs τ sig) (We6 m c) ∗ R c)
  post c := iprop(StableHlo.held (c : Thread nD τ) (Pipeline.ucRefs τ sig) (Wl6 m c) ∗ R c)
  X c := iprop(∃ r, prngReg c r)
  Y c := iprop(∃ r, prngReg c r)
  Z c := Pipeline.unscopedRest (Ix := Unit) (Name := ℕ) (U := UR sig nD τ) (Lvl := ℕ) spec6 c (fun b => We6 m c b)
  hentry c := by
    rw [Pipeline.ownSems0_none]
    have hsplit := Pipeline.arrays_of_unscopedBufs (p := 6) (pcfgs (F := F)) Gen.adm (pdats m) launch6.win launch6.arr_whole c
      ((pdats m 6 c).share_full fun _ => rfl) (fun b => We6 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin6 (fun c b => We6 m c b) c)
    unfold Pipeline.ΦA
    iintro ⟨Hp, -, Hr⟩
    isplitl [Hr]; · iexact Hr
    iexact Hp
  hout c := by
    rw [Pipeline.ownSems0_none]
    refine (hout6 (fun c b => We6 m c b) c).trans ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) Gen.adm (Ix := Unit) (Name := ℕ) (U := UR sig nD τ) (Lvl := ℕ)
      launch6.win launch6.arr_whole c (pdats m) ((pdats m 6 c).share_full fun _ => rfl)
      (fun b => We6 m c b) (fun b => Wl6 m c b) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF7 (c : Dev nD) : ∀ w : Fin cfg7.W, (dat7 (fun c b => We7 m c b) c).arrAt w cfg7.N = Wl7 m c (Pipeline.arrRef spec7 w)
  | 0 => (((dat7 (fun c b => We7 m c b) c).arrAt_in 0 rfl _).trans (A_eq7 (fun c b => We7 m c b) c 0)).trans (by unfold Wl7; rw [Function.update_of_ne (StableHlo.devRef_ne_of_ne (by decide)), Function.update_of_ne (StableHlo.devRef_ne_of_ne (by decide))])
  | 1 => (((dat7 (fun c b => We7 m c b) c).arrAt_in 1 rfl _).trans (A_eq7 (fun c b => We7 m c b) c 1)).trans (by unfold Wl7; rw [Function.update_of_ne (StableHlo.devRef_ne_of_ne (by decide)), Function.update_of_ne (StableHlo.devRef_ne_of_ne (by decide))])
  | 2 => (((dat7 (fun c b => We7 m c b) c).arrAt_in 2 rfl _).trans (A_eq7 (fun c b => We7 m c b) c 2)).trans (by unfold Wl7; rw [Function.update_of_ne (StableHlo.devRef_ne_of_ne (by decide)), Function.update_of_ne (StableHlo.devRef_ne_of_ne (by decide))])
  | 3 => by
    show _ = Function.update (Function.update (We7 m c) main_v67_0 _) main_v67_1 _ main_v67_0
    rw [Function.update_of_ne (StableHlo.devRef_ne_of_ne (by decide)), Function.update_self]
  | 4 => by
    show _ = Function.update (Function.update (We7 m c) main_v67_0 _) main_v67_1 _ main_v67_1
    rw [Function.update_self]
  | ⟨_ + 5, h⟩ => absurd h (Nat.not_lt.2 (Nat.le_add_left _ _))
theorem hrest7 (c : Dev nD) : ∀ b, b ∉ Finset.univ.image (Pipeline.arrRef spec7) → Wl7 m c b = We7 m c b := fun b hb => by
  have h3 : b ≠ main_v67_0 := fun e => hb (Finset.mem_image.mpr ⟨3, Finset.mem_univ _, e.symm⟩)
  have h4 : b ≠ main_v67_1 := fun e => hb (Finset.mem_image.mpr ⟨4, Finset.mem_univ _, e.symm⟩)
  unfold Wl7
  rw [Function.update_of_ne (StableHlo.devRef_ne_of_ne h4), Function.update_of_ne (StableHlo.devRef_ne_of_ne h3)]

set_option backward.isDefEq.respectTransparency.types false in
/-- REGION 7 over the thread state: entered from every unscoped buffer at `We7`, left at `Wl7`. -/
def reg7 : Pipeline.RegionSeg (pcfgs (F := F)) Gen.adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (fun c b => We7 m c b) c).loose
  hwaits := Pipeline.hwaits_of_owed_zero _ _ _ _ L lv 7 fun _ _ => rfl
  pre c := iprop(StableHlo.held (c : Thread nD τ) (Pipeline.ucRefs τ sig) (We7 m c) ∗ R c)
  post c := iprop(StableHlo.held (c : Thread nD τ) (Pipeline.ucRefs τ sig) (Wl7 m c) ∗ R c)
  X c := iprop(∃ r, prngReg c r)
  Y c := iprop(∃ r, prngReg c r)
  Z c := Pipeline.unscopedRest (Ix := Unit) (Name := ℕ) (U := UR sig nD τ) (Lvl := ℕ) spec7 c (fun b => We7 m c b)
  hentry c := by
    rw [Pipeline.ownSems0_none]
    have hsplit := Pipeline.arrays_of_unscopedBufs (p := 7) (pcfgs (F := F)) Gen.adm (pdats m) launch7.win launch7.arr_whole c
      ((pdats m 7 c).share_full fun _ => rfl) (fun b => We7 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin7 (fun c b => We7 m c b) c)
    unfold Pipeline.ΦA
    iintro ⟨Hp, -, Hr⟩
    isplitl [Hr]; · iexact Hr
    iexact Hp
  hout c := by
    rw [Pipeline.ownSems0_none]
    refine (hout7 (fun c b => We7 m c b) c).trans ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) Gen.adm (Ix := Unit) (Name := ℕ) (U := UR sig nD τ) (Lvl := ℕ)
      launch7.win launch7.arr_whole c (pdats m) ((pdats m 7 c).share_full fun _ => rfl)
      (fun b => We7 m c b) (fun b => Wl7 m c b) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF8 (c : Dev nD) : ∀ w : Fin cfg8.W, (dat8 (fun c b => We8 m c b) c).arrAt w cfg8.N = Wl8 m c (Pipeline.arrRef spec8 w)
  | 0 => (((dat8 (fun c b => We8 m c b) c).arrAt_in 0 rfl _).trans (A_eq8 (fun c b => We8 m c b) c 0)).trans (by unfold Wl8; rw [Function.update_of_ne (StableHlo.devRef_ne_of_ne (by decide)), Function.update_of_ne (StableHlo.devRef_ne_of_ne (by decide))])
  | 1 => (((dat8 (fun c b => We8 m c b) c).arrAt_in 1 rfl _).trans (A_eq8 (fun c b => We8 m c b) c 1)).trans (by unfold Wl8; rw [Function.update_of_ne (StableHlo.devRef_ne_of_ne (by decide)), Function.update_of_ne (StableHlo.devRef_ne_of_ne (by decide))])
  | 2 => (((dat8 (fun c b => We8 m c b) c).arrAt_in 2 rfl _).trans (A_eq8 (fun c b => We8 m c b) c 2)).trans (by unfold Wl8; rw [Function.update_of_ne (StableHlo.devRef_ne_of_ne (by decide)), Function.update_of_ne (StableHlo.devRef_ne_of_ne (by decide))])
  | 3 => by
    show _ = Function.update (Function.update (We8 m c) main_v75_0 _) main_v75_1 _ main_v75_0
    rw [Function.update_of_ne (StableHlo.devRef_ne_of_ne (by decide)), Function.update_self]
  | 4 => by
    show _ = Function.update (Function.update (We8 m c) main_v75_0 _) main_v75_1 _ main_v75_1
    rw [Function.update_self]
  | ⟨_ + 5, h⟩ => absurd h (Nat.not_lt.2 (Nat.le_add_left _ _))
theorem hrest8 (c : Dev nD) : ∀ b, b ∉ Finset.univ.image (Pipeline.arrRef spec8) → Wl8 m c b = We8 m c b := fun b hb => by
  have h3 : b ≠ main_v75_0 := fun e => hb (Finset.mem_image.mpr ⟨3, Finset.mem_univ _, e.symm⟩)
  have h4 : b ≠ main_v75_1 := fun e => hb (Finset.mem_image.mpr ⟨4, Finset.mem_univ _, e.symm⟩)
  unfold Wl8
  rw [Function.update_of_ne (StableHlo.devRef_ne_of_ne h4), Function.update_of_ne (StableHlo.devRef_ne_of_ne h3)]

set_option backward.isDefEq.respectTransparency.types false in
/-- REGION 8 over the thread state: entered from every unscoped buffer at `We8`, left at `Wl8`. -/
def reg8 : Pipeline.RegionSeg (pcfgs (F := F)) Gen.adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (fun c b => We8 m c b) c).loose
  hwaits := Pipeline.hwaits_of_owed_zero _ _ _ _ L lv 8 fun _ _ => rfl
  pre c := iprop(StableHlo.held (c : Thread nD τ) (Pipeline.ucRefs τ sig) (We8 m c) ∗ R c)
  post c := iprop(StableHlo.held (c : Thread nD τ) (Pipeline.ucRefs τ sig) (Wl8 m c) ∗ R c)
  X c := iprop(∃ r, prngReg c r)
  Y c := iprop(∃ r, prngReg c r)
  Z c := Pipeline.unscopedRest (Ix := Unit) (Name := ℕ) (U := UR sig nD τ) (Lvl := ℕ) spec8 c (fun b => We8 m c b)
  hentry c := by
    rw [Pipeline.ownSems0_none]
    have hsplit := Pipeline.arrays_of_unscopedBufs (p := 8) (pcfgs (F := F)) Gen.adm (pdats m) launch8.win launch8.arr_whole c
      ((pdats m 8 c).share_full fun _ => rfl) (fun b => We8 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin8 (fun c b => We8 m c b) c)
    unfold Pipeline.ΦA
    iintro ⟨Hp, -, Hr⟩
    isplitl [Hr]; · iexact Hr
    iexact Hp
  hout c := by
    rw [Pipeline.ownSems0_none]
    refine (hout8 (fun c b => We8 m c b) c).trans ?_
    unfold Pipeline.ΦA
    iintro ⟨Hr, Hp⟩
    isplitl [Hp]; · iexact Hp
    isplitr; · iempintro
    iexact Hr
  hexit c := by
    have hjoin := Pipeline.unscopedBufs_of_arrays (p := 8) (pcfgs (F := F)) Gen.adm (Ix := Unit) (Name := ℕ) (U := UR sig nD τ) (Lvl := ℕ)
      launch8.win launch8.arr_whole c (pdats m) ((pdats m 8 c).share_full fun _ => rfl)
      (fun b => We8 m c b) (fun b => Wl8 m c b) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF9 (c : Dev nD) : ∀ w : Fin cfg9.W, (dat9 (fun c b => We9 m c b) c).arrAt w cfg9.N = Wl9 m c (Pipeline.arrRef spec9 w)
  | 0 => (((dat9 (fun c b => We9 m c b) c).arrAt_in 0 rfl _).trans (A_eq9 (fun c b => We9 m c b) c 0)).trans (by unfold Wl9; rw [Function.update_of_ne (StableHlo.devRef_ne_of_ne (by decide)), Function.update_of_ne (StableHlo.devRef_ne_of_ne (by decide))])
  | 1 => (((dat9 (fun c b => We9 m c b) c).arrAt_in 1 rfl _).trans (A_eq9 (fun c b => We9 m c b) c 1)).trans (by unfold Wl9; rw [Function.update_of_ne (StableHlo.devRef_ne_of_ne (by decide)), Function.update_of_ne (StableHlo.devRef_ne_of_ne (by decide))])
  | 2 => (((dat9 (fun c b => We9 m c b) c).arrAt_in 2 rfl _).trans (A_eq9 (fun c b => We9 m c b) c 2)).trans (by unfold Wl9; rw [Function.update_of_ne (StableHlo.devRef_ne_of_ne (by decide)), Function.update_of_ne (StableHlo.devRef_ne_of_ne (by decide))])
  | 3 => by
    show _ = Function.update (Function.update (We9 m c) main_v83_0 _) main_v83_1 _ main_v83_0
    rw [Function.update_of_ne (StableHlo.devRef_ne_of_ne (by decide)), Function.update_self]
  | 4 => by
    show _ = Function.update (Function.update (We9 m c) main_v83_0 _) main_v83_1 _ main_v83_1
    rw [Function.update_self]
  | ⟨_ + 5, h⟩ => absurd h (Nat.not_lt.2 (Nat.le_add_left _ _))
theorem hrest9 (c : Dev nD) : ∀ b, b ∉ Finset.univ.image (Pipeline.arrRef spec9) → Wl9 m c b = We9 m c b := fun b hb => by
  have h3 : b ≠ main_v83_0 := fun e => hb (Finset.mem_image.mpr ⟨3, Finset.mem_univ _, e.symm⟩)
  have h4 : b ≠ main_v83_1 := fun e => hb (Finset.mem_image.mpr ⟨4, Finset.mem_univ _, e.symm⟩)
  unfold Wl9
  rw [Function.update_of_ne (StableHlo.devRef_ne_of_ne h4), Function.update_of_ne (StableHlo.devRef_ne_of_ne h3)]

set_option backward.isDefEq.respectTransparency.types false in
/-- REGION 9 over the thread state: entered from every unscoped buffer at `We9`, left at `Wl9`. -/
def reg9 : Pipeline.RegionSeg (pcfgs (F := F)) Gen.adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (fun c b => We9 m c b) c).loose
  hwaits := Pipeline.hwaits_of_owed_zero _ _ _ _ L lv 9 fun _ _ => rfl
  pre c := iprop(StableHlo.held (c : Thread nD τ) (Pipeline.ucRefs τ sig) (We9 m c) ∗ R c)
  post c := iprop(StableHlo.held (c : Thread nD τ) (Pipeline.ucRefs τ sig) (Wl9 m c) ∗ R c)
  X c := iprop(∃ r, prngReg c r)
  Y c := iprop(∃ r, prngReg c r)
  Z c := Pipeline.unscopedRest (Ix := Unit) (Name := ℕ) (U := UR sig nD τ) (Lvl := ℕ) spec9 c (fun b => We9 m c b)
  hentry c := by
    rw [Pipeline.ownSems0_none]
    have hsplit := Pipeline.arrays_of_unscopedBufs (p := 9) (pcfgs (F := F)) Gen.adm (pdats m) launch9.win launch9.arr_whole c
      ((pdats m 9 c).share_full fun _ => rfl) (fun b => We9 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin9 (fun c b => We9 m c b) c)
    unfold Pipeline.ΦA
    iintro ⟨Hp, -, Hr⟩
    isplitl [Hr]; · iexact Hr
    iexact Hp
  hout c := by
    rw [Pipeline.ownSems0_none]
    refine (hout9 (fun c b => We9 m c b) c).trans ?_
    unfold Pipeline.ΦA
    iintro ⟨Hr, Hp⟩
    isplitl [Hp]; · iexact Hp
    isplitr; · iempintro
    iexact Hr
  hexit c := by
    have hjoin := Pipeline.unscopedBufs_of_arrays (p := 9) (pcfgs (F := F)) Gen.adm (Ix := Unit) (Name := ℕ) (U := UR sig nD τ) (Lvl := ℕ)
      launch9.win launch9.arr_whole c (pdats m) ((pdats m 9 c).share_full fun _ => rfl)
      (fun b => We9 m c b) (fun b => Wl9 m c b) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF10 (c : Dev nD) : ∀ w : Fin cfg10.W, (dat10 (fun c b => We10 m c b) c).arrAt w cfg10.N = Wl10 m c (Pipeline.arrRef spec10 w)
  | 0 => (((dat10 (fun c b => We10 m c b) c).arrAt_in 0 rfl _).trans (A_eq10 (fun c b => We10 m c b) c 0)).trans (by unfold Wl10; rw [Function.update_of_ne (StableHlo.devRef_ne_of_ne (by decide)), Function.update_of_ne (StableHlo.devRef_ne_of_ne (by decide))])
  | 1 => (((dat10 (fun c b => We10 m c b) c).arrAt_in 1 rfl _).trans (A_eq10 (fun c b => We10 m c b) c 1)).trans (by unfold Wl10; rw [Function.update_of_ne (StableHlo.devRef_ne_of_ne (by decide)), Function.update_of_ne (StableHlo.devRef_ne_of_ne (by decide))])
  | 2 => (((dat10 (fun c b => We10 m c b) c).arrAt_in 2 rfl _).trans (A_eq10 (fun c b => We10 m c b) c 2)).trans (by unfold Wl10; rw [Function.update_of_ne (StableHlo.devRef_ne_of_ne (by decide)), Function.update_of_ne (StableHlo.devRef_ne_of_ne (by decide))])
  | 3 => by
    show _ = Function.update (Function.update (We10 m c) main_v91_0 _) main_v91_1 _ main_v91_0
    rw [Function.update_of_ne (StableHlo.devRef_ne_of_ne (by decide)), Function.update_self]
  | 4 => by
    show _ = Function.update (Function.update (We10 m c) main_v91_0 _) main_v91_1 _ main_v91_1
    rw [Function.update_self]
  | ⟨_ + 5, h⟩ => absurd h (Nat.not_lt.2 (Nat.le_add_left _ _))
theorem hrest10 (c : Dev nD) : ∀ b, b ∉ Finset.univ.image (Pipeline.arrRef spec10) → Wl10 m c b = We10 m c b := fun b hb => by
  have h3 : b ≠ main_v91_0 := fun e => hb (Finset.mem_image.mpr ⟨3, Finset.mem_univ _, e.symm⟩)
  have h4 : b ≠ main_v91_1 := fun e => hb (Finset.mem_image.mpr ⟨4, Finset.mem_univ _, e.symm⟩)
  unfold Wl10
  rw [Function.update_of_ne (StableHlo.devRef_ne_of_ne h4), Function.update_of_ne (StableHlo.devRef_ne_of_ne h3)]

set_option backward.isDefEq.respectTransparency.types false in
/-- REGION 10 over the thread state: entered from every unscoped buffer at `We10`, left at `Wl10`. -/
def reg10 : Pipeline.RegionSeg (pcfgs (F := F)) Gen.adm (pdats m) () defs₀ 𝒱₀ L lv 10 where
  win := launch10.win.to₀
  block_pos := launch10.block_pos
  stage_whole := launch10.stage_whole
  K := PEmpty
  osem k := k.elim
  ho := Pipeline.OwnSemFacts.none _
  hbody c := (body_obligation10 (fun c b => We10 m c b) c).loose
  hwaits := Pipeline.hwaits_of_owed_zero _ _ _ _ L lv 10 fun _ _ => rfl
  pre c := iprop(StableHlo.held (c : Thread nD τ) (Pipeline.ucRefs τ sig) (We10 m c) ∗ R c)
  post c := iprop(StableHlo.held (c : Thread nD τ) (Pipeline.ucRefs τ sig) (Wl10 m c) ∗ R c)
  X c := iprop(∃ r, prngReg c r)
  Y c := iprop(∃ r, prngReg c r)
  Z c := Pipeline.unscopedRest (Ix := Unit) (Name := ℕ) (U := UR sig nD τ) (Lvl := ℕ) spec10 c (fun b => We10 m c b)
  hentry c := by
    rw [Pipeline.ownSems0_none]
    have hsplit := Pipeline.arrays_of_unscopedBufs (p := 10) (pcfgs (F := F)) Gen.adm (pdats m) launch10.win launch10.arr_whole c
      ((pdats m 10 c).share_full fun _ => rfl) (fun b => We10 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin10 (fun c b => We10 m c b) c)
    unfold Pipeline.ΦA
    iintro ⟨Hp, -, Hr⟩
    isplitl [Hr]; · iexact Hr
    iexact Hp
  hout c := by
    rw [Pipeline.ownSems0_none]
    refine (hout10 (fun c b => We10 m c b) c).trans ?_
    unfold Pipeline.ΦA
    iintro ⟨Hr, Hp⟩
    isplitl [Hp]; · iexact Hp
    isplitr; · iempintro
    iexact Hr
  hexit c := by
    have hjoin := Pipeline.unscopedBufs_of_arrays (p := 10) (pcfgs (F := F)) Gen.adm (Ix := Unit) (Name := ℕ) (U := UR sig nD τ) (Lvl := ℕ)
      launch10.win launch10.arr_whole c (pdats m) ((pdats m 10 c).share_full fun _ => rfl)
      (fun b => We10 m c b) (fun b => Wl10 m c b) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF11 (c : Dev nD) : ∀ w : Fin cfg11.W, (dat11 (fun c b => We11 m c b) c).arrAt w cfg11.N = Wl11 m c (Pipeline.arrRef spec11 w)
  | 0 => (((dat11 (fun c b => We11 m c b) c).arrAt_in 0 rfl _).trans (A_eq11 (fun c b => We11 m c b) c 0)).trans (by unfold Wl11; rw [Function.update_of_ne (StableHlo.devRef_ne_of_ne (by decide)), Function.update_of_ne (StableHlo.devRef_ne_of_ne (by decide))])
  | 1 => (((dat11 (fun c b => We11 m c b) c).arrAt_in 1 rfl _).trans (A_eq11 (fun c b => We11 m c b) c 1)).trans (by unfold Wl11; rw [Function.update_of_ne (StableHlo.devRef_ne_of_ne (by decide)), Function.update_of_ne (StableHlo.devRef_ne_of_ne (by decide))])
  | 2 => (((dat11 (fun c b => We11 m c b) c).arrAt_in 2 rfl _).trans (A_eq11 (fun c b => We11 m c b) c 2)).trans (by unfold Wl11; rw [Function.update_of_ne (StableHlo.devRef_ne_of_ne (by decide)), Function.update_of_ne (StableHlo.devRef_ne_of_ne (by decide))])
  | 3 => by
    show _ = Function.update (Function.update (We11 m c) main_v99_0 _) main_v99_1 _ main_v99_0
    rw [Function.update_of_ne (StableHlo.devRef_ne_of_ne (by decide)), Function.update_self]
  | 4 => by
    show _ = Function.update (Function.update (We11 m c) main_v99_0 _) main_v99_1 _ main_v99_1
    rw [Function.update_self]
  | ⟨_ + 5, h⟩ => absurd h (Nat.not_lt.2 (Nat.le_add_left _ _))
theorem hrest11 (c : Dev nD) : ∀ b, b ∉ Finset.univ.image (Pipeline.arrRef spec11) → Wl11 m c b = We11 m c b := fun b hb => by
  have h3 : b ≠ main_v99_0 := fun e => hb (Finset.mem_image.mpr ⟨3, Finset.mem_univ _, e.symm⟩)
  have h4 : b ≠ main_v99_1 := fun e => hb (Finset.mem_image.mpr ⟨4, Finset.mem_univ _, e.symm⟩)
  unfold Wl11
  rw [Function.update_of_ne (StableHlo.devRef_ne_of_ne h4), Function.update_of_ne (StableHlo.devRef_ne_of_ne h3)]

set_option backward.isDefEq.respectTransparency.types false in
/-- REGION 11 over the thread state: entered from every unscoped buffer at `We11`, left at `Wl11`. -/
def reg11 : Pipeline.RegionSeg (pcfgs (F := F)) Gen.adm (pdats m) () defs₀ 𝒱₀ L lv 11 where
  win := launch11.win.to₀
  block_pos := launch11.block_pos
  stage_whole := launch11.stage_whole
  K := PEmpty
  osem k := k.elim
  ho := Pipeline.OwnSemFacts.none _
  hbody c := (body_obligation11 (fun c b => We11 m c b) c).loose
  hwaits := Pipeline.hwaits_of_owed_zero _ _ _ _ L lv 11 fun _ _ => rfl
  pre c := iprop(StableHlo.held (c : Thread nD τ) (Pipeline.ucRefs τ sig) (We11 m c) ∗ R c)
  post c := iprop(StableHlo.held (c : Thread nD τ) (Pipeline.ucRefs τ sig) (Wl11 m c) ∗ R c)
  X c := iprop(∃ r, prngReg c r)
  Y c := iprop(∃ r, prngReg c r)
  Z c := Pipeline.unscopedRest (Ix := Unit) (Name := ℕ) (U := UR sig nD τ) (Lvl := ℕ) spec11 c (fun b => We11 m c b)
  hentry c := by
    rw [Pipeline.ownSems0_none]
    have hsplit := Pipeline.arrays_of_unscopedBufs (p := 11) (pcfgs (F := F)) Gen.adm (pdats m) launch11.win launch11.arr_whole c
      ((pdats m 11 c).share_full fun _ => rfl) (fun b => We11 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin11 (fun c b => We11 m c b) c)
    unfold Pipeline.ΦA
    iintro ⟨Hp, -, Hr⟩
    isplitl [Hr]; · iexact Hr
    iexact Hp
  hout c := by
    rw [Pipeline.ownSems0_none]
    refine (hout11 (fun c b => We11 m c b) c).trans ?_
    unfold Pipeline.ΦA
    iintro ⟨Hr, Hp⟩
    isplitl [Hp]; · iexact Hp
    isplitr; · iempintro
    iexact Hr
  hexit c := by
    have hjoin := Pipeline.unscopedBufs_of_arrays (p := 11) (pcfgs (F := F)) Gen.adm (Ix := Unit) (Name := ℕ) (U := UR sig nD τ) (Lvl := ℕ)
      launch11.win launch11.arr_whole c (pdats m) ((pdats m 11 c).share_full fun _ => rfl)
      (fun b => We11 m c b) (fun b => Wl11 m c b) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF12 (c : Dev nD) : ∀ w : Fin cfg12.W, (dat12 (fun c b => We12 m c b) c).arrAt w cfg12.N = Wl12 m c (Pipeline.arrRef spec12 w)
  | 0 => (((dat12 (fun c b => We12 m c b) c).arrAt_in 0 rfl _).trans (A_eq12 (fun c b => We12 m c b) c 0)).trans (by unfold Wl12; rw [Function.update_of_ne (StableHlo.devRef_ne_of_ne (by decide)), Function.update_of_ne (StableHlo.devRef_ne_of_ne (by decide))])
  | 1 => (((dat12 (fun c b => We12 m c b) c).arrAt_in 1 rfl _).trans (A_eq12 (fun c b => We12 m c b) c 1)).trans (by unfold Wl12; rw [Function.update_of_ne (StableHlo.devRef_ne_of_ne (by decide)), Function.update_of_ne (StableHlo.devRef_ne_of_ne (by decide))])
  | 2 => (((dat12 (fun c b => We12 m c b) c).arrAt_in 2 rfl _).trans (A_eq12 (fun c b => We12 m c b) c 2)).trans (by unfold Wl12; rw [Function.update_of_ne (StableHlo.devRef_ne_of_ne (by decide)), Function.update_of_ne (StableHlo.devRef_ne_of_ne (by decide))])
  | 3 => by
    show _ = Function.update (Function.update (We12 m c) main_v107_0 _) main_v107_1 _ main_v107_0
    rw [Function.update_of_ne (StableHlo.devRef_ne_of_ne (by decide)), Function.update_self]
  | 4 => by
    show _ = Function.update (Function.update (We12 m c) main_v107_0 _) main_v107_1 _ main_v107_1
    rw [Function.update_self]
  | ⟨_ + 5, h⟩ => absurd h (Nat.not_lt.2 (Nat.le_add_left _ _))
theorem hrest12 (c : Dev nD) : ∀ b, b ∉ Finset.univ.image (Pipeline.arrRef spec12) → Wl12 m c b = We12 m c b := fun b hb => by
  have h3 : b ≠ main_v107_0 := fun e => hb (Finset.mem_image.mpr ⟨3, Finset.mem_univ _, e.symm⟩)
  have h4 : b ≠ main_v107_1 := fun e => hb (Finset.mem_image.mpr ⟨4, Finset.mem_univ _, e.symm⟩)
  unfold Wl12
  rw [Function.update_of_ne (StableHlo.devRef_ne_of_ne h4), Function.update_of_ne (StableHlo.devRef_ne_of_ne h3)]

set_option backward.isDefEq.respectTransparency.types false in
/-- REGION 12 over the thread state: entered from every unscoped buffer at `We12`, left at `Wl12`. -/
def reg12 : Pipeline.RegionSeg (pcfgs (F := F)) Gen.adm (pdats m) () defs₀ 𝒱₀ L lv 12 where
  win := launch12.win.to₀
  block_pos := launch12.block_pos
  stage_whole := launch12.stage_whole
  K := PEmpty
  osem k := k.elim
  ho := Pipeline.OwnSemFacts.none _
  hbody c := (body_obligation12 (fun c b => We12 m c b) c).loose
  hwaits := Pipeline.hwaits_of_owed_zero _ _ _ _ L lv 12 fun _ _ => rfl
  pre c := iprop(StableHlo.held (c : Thread nD τ) (Pipeline.ucRefs τ sig) (We12 m c) ∗ R c)
  post c := iprop(StableHlo.held (c : Thread nD τ) (Pipeline.ucRefs τ sig) (Wl12 m c) ∗ R c)
  X c := iprop(∃ r, prngReg c r)
  Y c := iprop(∃ r, prngReg c r)
  Z c := Pipeline.unscopedRest (Ix := Unit) (Name := ℕ) (U := UR sig nD τ) (Lvl := ℕ) spec12 c (fun b => We12 m c b)
  hentry c := by
    rw [Pipeline.ownSems0_none]
    have hsplit := Pipeline.arrays_of_unscopedBufs (p := 12) (pcfgs (F := F)) Gen.adm (pdats m) launch12.win launch12.arr_whole c
      ((pdats m 12 c).share_full fun _ => rfl) (fun b => We12 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin12 (fun c b => We12 m c b) c)
    unfold Pipeline.ΦA
    iintro ⟨Hp, -, Hr⟩
    isplitl [Hr]; · iexact Hr
    iexact Hp
  hout c := by
    rw [Pipeline.ownSems0_none]
    refine (hout12 (fun c b => We12 m c b) c).trans ?_
    unfold Pipeline.ΦA
    iintro ⟨Hr, Hp⟩
    isplitl [Hp]; · iexact Hp
    isplitr; · iempintro
    iexact Hr
  hexit c := by
    have hjoin := Pipeline.unscopedBufs_of_arrays (p := 12) (pcfgs (F := F)) Gen.adm (Ix := Unit) (Name := ℕ) (U := UR sig nD τ) (Lvl := ℕ)
      launch12.win launch12.arr_whole c (pdats m) ((pdats m 12 c).share_full fun _ => rfl)
      (fun b => We12 m c b) (fun b => Wl12 m c b) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF13 (c : Dev nD) : ∀ w : Fin cfg13.W, (dat13 (fun c b => We13 m c b) c).arrAt w cfg13.N = Wl13 m c (Pipeline.arrRef spec13 w)
  | 0 => (((dat13 (fun c b => We13 m c b) c).arrAt_in 0 rfl _).trans (A_eq13 (fun c b => We13 m c b) c 0)).trans (by unfold Wl13; rw [Function.update_of_ne (StableHlo.devRef_ne_of_ne (by decide)), Function.update_of_ne (StableHlo.devRef_ne_of_ne (by decide))])
  | 1 => (((dat13 (fun c b => We13 m c b) c).arrAt_in 1 rfl _).trans (A_eq13 (fun c b => We13 m c b) c 1)).trans (by unfold Wl13; rw [Function.update_of_ne (StableHlo.devRef_ne_of_ne (by decide)), Function.update_of_ne (StableHlo.devRef_ne_of_ne (by decide))])
  | 2 => (((dat13 (fun c b => We13 m c b) c).arrAt_in 2 rfl _).trans (A_eq13 (fun c b => We13 m c b) c 2)).trans (by unfold Wl13; rw [Function.update_of_ne (StableHlo.devRef_ne_of_ne (by decide)), Function.update_of_ne (StableHlo.devRef_ne_of_ne (by decide))])
  | 3 => by
    show _ = Function.update (Function.update (We13 m c) main_v115_0 _) main_v115_1 _ main_v115_0
    rw [Function.update_of_ne (StableHlo.devRef_ne_of_ne (by decide)), Function.update_self]
  | 4 => by
    show _ = Function.update (Function.update (We13 m c) main_v115_0 _) main_v115_1 _ main_v115_1
    rw [Function.update_self]
  | ⟨_ + 5, h⟩ => absurd h (Nat.not_lt.2 (Nat.le_add_left _ _))
theorem hrest13 (c : Dev nD) : ∀ b, b ∉ Finset.univ.image (Pipeline.arrRef spec13) → Wl13 m c b = We13 m c b := fun b hb => by
  have h3 : b ≠ main_v115_0 := fun e => hb (Finset.mem_image.mpr ⟨3, Finset.mem_univ _, e.symm⟩)
  have h4 : b ≠ main_v115_1 := fun e => hb (Finset.mem_image.mpr ⟨4, Finset.mem_univ _, e.symm⟩)
  unfold Wl13
  rw [Function.update_of_ne (StableHlo.devRef_ne_of_ne h4), Function.update_of_ne (StableHlo.devRef_ne_of_ne h3)]

set_option backward.isDefEq.respectTransparency.types false in
/-- REGION 13 over the thread state: entered from every unscoped buffer at `We13`, left at `Wl13`. -/
def reg13 : Pipeline.RegionSeg (pcfgs (F := F)) Gen.adm (pdats m) () defs₀ 𝒱₀ L lv 13 where
  win := launch13.win.to₀
  block_pos := launch13.block_pos
  stage_whole := launch13.stage_whole
  K := PEmpty
  osem k := k.elim
  ho := Pipeline.OwnSemFacts.none _
  hbody c := (body_obligation13 (fun c b => We13 m c b) c).loose
  hwaits := Pipeline.hwaits_of_owed_zero _ _ _ _ L lv 13 fun _ _ => rfl
  pre c := iprop(StableHlo.held (c : Thread nD τ) (Pipeline.ucRefs τ sig) (We13 m c) ∗ R c)
  post c := iprop(StableHlo.held (c : Thread nD τ) (Pipeline.ucRefs τ sig) (Wl13 m c) ∗ R c)
  X c := iprop(∃ r, prngReg c r)
  Y c := iprop(∃ r, prngReg c r)
  Z c := Pipeline.unscopedRest (Ix := Unit) (Name := ℕ) (U := UR sig nD τ) (Lvl := ℕ) spec13 c (fun b => We13 m c b)
  hentry c := by
    rw [Pipeline.ownSems0_none]
    have hsplit := Pipeline.arrays_of_unscopedBufs (p := 13) (pcfgs (F := F)) Gen.adm (pdats m) launch13.win launch13.arr_whole c
      ((pdats m 13 c).share_full fun _ => rfl) (fun b => We13 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin13 (fun c b => We13 m c b) c)
    unfold Pipeline.ΦA
    iintro ⟨Hp, -, Hr⟩
    isplitl [Hr]; · iexact Hr
    iexact Hp
  hout c := by
    rw [Pipeline.ownSems0_none]
    refine (hout13 (fun c b => We13 m c b) c).trans ?_
    unfold Pipeline.ΦA
    iintro ⟨Hr, Hp⟩
    isplitl [Hp]; · iexact Hp
    isplitr; · iempintro
    iexact Hr
  hexit c := by
    have hjoin := Pipeline.unscopedBufs_of_arrays (p := 13) (pcfgs (F := F)) Gen.adm (Ix := Unit) (Name := ℕ) (U := UR sig nD τ) (Lvl := ℕ)
      launch13.win launch13.arr_whole c (pdats m) ((pdats m 13 c).share_full fun _ => rfl)
      (fun b => We13 m c b) (fun b => Wl13 m c b) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.FrameB.lean ====
/-
  The frame of the program: the fifteen host stretches and the fourteen region segments chained from the launch to the
  return; at the launch every core's generator register and dues make the state that rides beside the buffers, at the
  end nothing is owed, and no item has written an argument array.
-/
import proofs.«108570_j29480655520371_2_alg».proof.Proof.SegsB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The run -/

variable (ρ : Dev nD → PrngReg)

set_option backward.isDefEq.respectTransparency.types false in
/-- THE FRAME, at any float instance: from any memory with zero counters every weakly fair execution of the program
    terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Gen.frame_cond (F := F) m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      have hpt : ∀ c : Dev nD, (iprop(unscopedSems0 c ∗ owes (c : Thread nD τ) ((0 : Dev nD → CellTallies nD τ sig Unit) c) ∅
            ∗ Pipeline.launchCred (0 : Dev nD → CellTallies nD τ sig Unit) c ∗ prngReg c (ρ c) ∗ (BI.emp : sProp 𝕄)) : sProp 𝕄) ⊢ R c := fun c => by
        iintro ⟨-, HO, -, Hp, -⟩
        isplitl [Hp]; · iexists _; iexact Hp
        iexists ∅; iexact HO
      have hm : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ (BI.emp : sProp 𝕄)))
          ⊢ (bigSep Finset.univ (fun c : Dev nD => R c) : sProp 𝕄) := bigSep_mono fun c _ => hpt c
      iintro ⟨H, -⟩
      imodintro
      iapply hm
      iexact H)
    (fun c => by
      iintro ⟨-, HO⟩
      iexact HO)
    (reg0 m) (fun c => by rw [V1_eq]; exact .rfl) (fun c => by rw [V2_eq]; exact .rfl)
    (reg1 m) (fun c => by rw [V3_eq]; exact .rfl) (fun c => by rw [V4_eq]; exact .rfl)
    (reg2 m) (fun c => by rw [V5_eq]; exact .rfl) (fun c => by rw [V6_eq]; exact .rfl)
    (reg3 m) (fun c => by rw [V7_eq]; exact .rfl) (fun c => by rw [V8_eq]; exact .rfl)
    (reg4 m) (fun c => by rw [V9_eq]; exact .rfl) (fun c => by rw [V10_eq]; exact .rfl)
    (reg5 m) (fun c => by rw [V11_eq]; exact .rfl) (fun c => by rw [V12_eq]; exact .rfl)
    (reg6 m) (fun c => by rw [V13_eq]; exact .rfl) (fun c => by rw [V14_eq]; exact .rfl)
    (reg7 m) (fun c => by rw [V15_eq]; exact .rfl) (fun c => by rw [V16_eq]; exact .rfl)
    (reg8 m) (fun c => by rw [V17_eq]; exact .rfl) (fun c => by rw [V18_eq]; exact .rfl)
    (reg9 m) (fun c => by rw [V19_eq]; exact .rfl) (fun c => by rw [V20_eq]; exact .rfl)
    (reg10 m) (fun c => by rw [V21_eq]; exact .rfl) (fun c => by rw [V22_eq]; exact .rfl)
    (reg11 m) (fun c => by rw [V23_eq]; exact .rfl) (fun c => by rw [V24_eq]; exact .rfl)
    (reg12 m) (fun c => by rw [V25_eq]; exact .rfl) (fun c => by rw [V26_eq]; exact .rfl)
    (reg13 m) (fun c => by rw [V27_eq]; exact .rfl) (fun c => by rw [V28_eq]; exact .rfl)

end Cert.Kernel.Hand

end
-- ==== Proof.RegI0Run.lean ====
/-
  Region 0 of the program (the first product Ls·T₀): the kernel body run once per control case.
  The grid is 8 × 8; a point t = 8·r + k handles row block r and column block k of Ls. The body zeroes the
  accumulator when k = 0 (case A), adds the block product Ls[r,k]·v[k] to it at every point, and when k = 7
  (case C) stores the combination of the accumulator and the block of the earlier vector into both result
  blocks; at 0 < k < 7 (case B) it only accumulates. Each run states what the body's stores leave in the
  accumulator and in the result blocks, as the list of stored pieces.
-/
import proofs.«108570_j29480655520371_2_alg».proof.Proof.Gen.KernelIdeal.Launch
import proofs.«108570_j29480655520371_2_alg».proof.Proof.Gen.KernelIdeal.Skeleton
import proofs.«108570_j29480655520371_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- k = 0: the accumulator is zeroed first. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- k = 7: the results are stored. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-- One staging buffer of each result window, through which its contents are stated. -/
abbrev VO0_3 : View sig .tc .vmem S2048x16 .f32 := (Memref.whole cc0_stg3_0 : Memref sig .tc .vmem S2048x16 .f32).view
abbrev VO0_4 : View sig .tc .vmem S2048x16 .bf16 := (Memref.whole cc0_stg4_0 : Memref sig .tc .vmem S2048x16 .bf16).view
abbrev ms0_0 (t : Fin cfg0.N) : Memref sig .tc .vmem S2048x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x16 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x16 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x16 .bf16 := win0_4.stage (cfg0.slots t 4)
abbrev hs0_4 (t : Fin cfg0.N) : (ms0_4 t).IsWhole := hstage0_4 ((cfg0.slots t 4).cast nbuf0_4)
/-- The accumulator: a whole scoped buffer of the kernel's own. -/
abbrev scM0_0 : Memref sig .tc .vmem S2048x16 .f32 := Memref.whole cc0_scratch0
abbrev VS0_0 : View sig .tc .vmem S2048x16 .f32 := scM0_0.view

set_option maxHeartbeats 4000000 in
/-- Case A (k = 0): the accumulator, at anything, is zeroed and then receives the first block product; the result
    blocks are handed back untouched. -/
noncomputable def kernelRun0_A (c : Dev nD) (i : grid0.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond0_0 i) (hc1 : ¬cond0_1 i)
    (x0 : Vec F S2048x2048 .bf16) (x1 : Vec F S2048x16 .bf16) (x2 : Vec F S2048x16 .f32) :
    Σ' (L3 : List (View.Piece (Elt F) S2048x16 .f32)) (L4 : List (View.Piece (Elt F) S2048x16 .bf16)), { LS0 : List (View.Piece (Elt F) S2048x16 .f32) //
      ∀ (xi3 : Vec F S2048x16 .f32) (xi4 : Vec F S2048x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__matmul_combine_kernel i arg2 harg2 arg3 harg3 arg4 harg4 arg5 harg5 arg6 harg6 arg7 harg7) K } := by
  refine ⟨[], [], ?_, fun xi3 xi4 E K => ?run⟩
  case run =>
    simp only [cc0__matmul_combine_kernel_eq_skeleton]; unfold cc0__matmul_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case B (0 < k < 7): the accumulator, at what the point before left, receives one more block product; the result
    blocks are handed back untouched. -/
noncomputable def kernelRun0_B (c : Dev nD) (i : grid0.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond0_0 i) (hc1 : ¬cond0_1 i)
    (x0 : Vec F S2048x2048 .bf16) (x1 : Vec F S2048x16 .bf16) (x2 : Vec F S2048x16 .f32) (xs0 : Vec F S2048x16 .f32) :
    Σ' (L3 : List (View.Piece (Elt F) S2048x16 .f32)) (L4 : List (View.Piece (Elt F) S2048x16 .bf16)), { LS0 : List (View.Piece (Elt F) S2048x16 .f32) //
      ∀ (xi3 : Vec F S2048x16 .f32) (xi4 : Vec F S2048x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__matmul_combine_kernel i arg2 harg2 arg3 harg3 arg4 harg4 arg5 harg5 arg6 harg6 arg7 harg7) K } := by
  refine ⟨[], [], ?_, fun xi3 xi4 E K => ?run⟩
  case run =>
    simp only [cc0__matmul_combine_kernel_eq_skeleton]; unfold cc0__matmul_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case C (k = 7): the accumulator receives the last block product, and both result blocks, at anything, are stored
    whole with the combination of the accumulator and the block of the earlier vector. -/
noncomputable def kernelRun0_C (c : Dev nD) (i : grid0.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond0_0 i) (hc1 : cond0_1 i)
    (x0 : Vec F S2048x2048 .bf16) (x1 : Vec F S2048x16 .bf16) (x2 : Vec F S2048x16 .f32) (xs0 : Vec F S2048x16 .f32) :
    Σ' (L3 : List (View.Piece (Elt F) S2048x16 .f32)) (L4 : List (View.Piece (Elt F) S2048x16 .bf16)), { LS0 : List (View.Piece (Elt F) S2048x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__matmul_combine_kernel i arg2 harg2 arg3 harg3 arg4 harg4 arg5 harg5 arg6 harg6 arg7 harg7) K } := by
  refine ⟨?_, ?_, ?_, fun E K => ?run⟩
  case run =>
    simp only [cc0__matmul_combine_kernel_eq_skeleton]; unfold cc0__matmul_combine_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.KernelIdeal.Hand

end
-- ==== Proof.RegI0Frame.lean ====
/-
  Region 0: what its result blocks and its accumulator hold after every grid point, the proof data of its pipeline,
  and the body obligation. After point t = 8·r + k the accumulator holds the sum of the block products
  Ls[r,0]·v[0] + … + Ls[r,k]·v[k] (case A starts it from zero, cases B and C continue from what the point before
  left); the result blocks are written at k = 7 only and written back to their arrays right after that point, so at
  the other points their staging buffers are idle and what they hold is never consulted.
-/
import proofs.«108570_j29480655520371_2_alg».proof.Proof.RegI0Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's piece for the accumulator covers it. -/
theorem scover0_A_0 (c : Dev nD) (i : grid0.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond0_0 i) (hc1 : ¬cond0_1 i)
    (x0 : Vec F S2048x2048 .bf16) (x1 : Vec F S2048x16 .bf16) (x2 : Vec F S2048x16 .f32) (y : S2048x16.Idx) :
    ∃ pc ∈ (kernelRun0_A c i arg2 harg2 arg3 harg3 arg4 harg4 arg5 harg5 arg6 harg6 arg7 harg7 hc0 hc1 x0 x1 x2).2.2.1, y ∈ pc.1.set :=
  View.cover_of_tiledL (kernelRun0_A c i arg2 harg2 arg3 harg3 arg4 harg4 arg5 harg5 arg6 harg6 arg7 harg7 hc0 hc1 x0 x1 x2).2.2.1 S2048x16.size (by sl_kernel_rfl) y
/-- What case A leaves in the accumulator. -/
def sout0_A_0 (c : Dev nD) (i : grid0.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond0_0 i) (hc1 : ¬cond0_1 i)
    (x0 : Vec F S2048x2048 .bf16) (x1 : Vec F S2048x16 .bf16) (x2 : Vec F S2048x16 .f32) : Vec F S2048x16 .f32 :=
  VS0_0.read (Elt F) (VS0_0.writes (Elt F) VS0_0.junk (kernelRun0_A c i arg2 harg2 arg3 harg3 arg4 harg4 arg5 harg5 arg6 harg6 arg7 harg7 hc0 hc1 x0 x1 x2).2.2.1)

/-- Case B's piece for the accumulator covers it. -/
theorem scover0_B_0 (c : Dev nD) (i : grid0.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond0_0 i) (hc1 : ¬cond0_1 i)
    (x0 : Vec F S2048x2048 .bf16) (x1 : Vec F S2048x16 .bf16) (x2 : Vec F S2048x16 .f32) (xs0 : Vec F S2048x16 .f32) (y : S2048x16.Idx) :
    ∃ pc ∈ (kernelRun0_B c i arg2 harg2 arg3 harg3 arg4 harg4 arg5 harg5 arg6 harg6 arg7 harg7 hc0 hc1 x0 x1 x2 xs0).2.2.1, y ∈ pc.1.set :=
  View.cover_of_tiledL (kernelRun0_B c i arg2 harg2 arg3 harg3 arg4 harg4 arg5 harg5 arg6 harg6 arg7 harg7 hc0 hc1 x0 x1 x2 xs0).2.2.1 S2048x16.size (by sl_kernel_rfl) y
/-- What case B leaves in the accumulator. -/
def sout0_B_0 (c : Dev nD) (i : grid0.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond0_0 i) (hc1 : ¬cond0_1 i)
    (x0 : Vec F S2048x2048 .bf16) (x1 : Vec F S2048x16 .bf16) (x2 : Vec F S2048x16 .f32) (xs0 : Vec F S2048x16 .f32) : Vec F S2048x16 .f32 :=
  VS0_0.read (Elt F) (VS0_0.writes (Elt F) VS0_0.junk (kernelRun0_B c i arg2 harg2 arg3 harg3 arg4 harg4 arg5 harg5 arg6 harg6 arg7 harg7 hc0 hc1 x0 x1 x2 xs0).2.2.1)

/-- Case C's pieces cover the f32 result block, -/
theorem cover0_C_3 (c : Dev nD) (i : grid0.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond0_0 i) (hc1 : cond0_1 i)
    (x0 : Vec F S2048x2048 .bf16) (x1 : Vec F S2048x16 .bf16) (x2 : Vec F S2048x16 .f32) (xs0 : Vec F S2048x16 .f32) (y : S2048x16.Idx) :
    ∃ pc ∈ (kernelRun0_C c i arg2 harg2 arg3 harg3 arg4 harg4 arg5 harg5 arg6 harg6 arg7 harg7 hc0 hc1 x0 x1 x2 xs0).1, y ∈ pc.1.set :=
  View.cover_of_tiledL (kernelRun0_C c i arg2 harg2 arg3 harg3 arg4 harg4 arg5 harg5 arg6 harg6 arg7 harg7 hc0 hc1 x0 x1 x2 xs0).1 S2048x16.size (by sl_kernel_rfl) y
/-- the bf16 result block, -/
theorem cover0_C_4 (c : Dev nD) (i : grid0.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond0_0 i) (hc1 : cond0_1 i)
    (x0 : Vec F S2048x2048 .bf16) (x1 : Vec F S2048x16 .bf16) (x2 : Vec F S2048x16 .f32) (xs0 : Vec F S2048x16 .f32) (y : S2048x16.Idx) :
    ∃ pc ∈ (kernelRun0_C c i arg2 harg2 arg3 harg3 arg4 harg4 arg5 harg5 arg6 harg6 arg7 harg7 hc0 hc1 x0 x1 x2 xs0).2.1, y ∈ pc.1.set :=
  View.cover_of_tiledL (kernelRun0_C c i arg2 harg2 arg3 harg3 arg4 harg4 arg5 harg5 arg6 harg6 arg7 harg7 hc0 hc1 x0 x1 x2 xs0).2.1 S2048x16.size (by sl_kernel_rfl) y
/-- and the accumulator. -/
theorem scover0_C_0 (c : Dev nD) (i : grid0.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond0_0 i) (hc1 : cond0_1 i)
    (x0 : Vec F S2048x2048 .bf16) (x1 : Vec F S2048x16 .bf16) (x2 : Vec F S2048x16 .f32) (xs0 : Vec F S2048x16 .f32) (y : S2048x16.Idx) :
    ∃ pc ∈ (kernelRun0_C c i arg2 harg2 arg3 harg3 arg4 harg4 arg5 harg5 arg6 harg6 arg7 harg7 hc0 hc1 x0 x1 x2 xs0).2.2.1, y ∈ pc.1.set :=
  View.cover_of_tiledL (kernelRun0_C c i arg2 harg2 arg3 harg3 arg4 harg4 arg5 harg5 arg6 harg6 arg7 harg7 hc0 hc1 x0 x1 x2 xs0).2.2.1 S2048x16.size (by sl_kernel_rfl) y
/-- What case C leaves in the f32 result block, -/
def out0_C_3 (c : Dev nD) (i : grid0.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond0_0 i) (hc1 : cond0_1 i)
    (x0 : Vec F S2048x2048 .bf16) (x1 : Vec F S2048x16 .bf16) (x2 : Vec F S2048x16 .f32) (xs0 : Vec F S2048x16 .f32) : Vec F S2048x16 .f32 :=
  VO0_3.read (Elt F) (VO0_3.writes (Elt F) VO0_3.junk (kernelRun0_C c i arg2 harg2 arg3 harg3 arg4 harg4 arg5 harg5 arg6 harg6 arg7 harg7 hc0 hc1 x0 x1 x2 xs0).1)
/-- in the bf16 result block, -/
def out0_C_4 (c : Dev nD) (i : grid0.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond0_0 i) (hc1 : cond0_1 i)
    (x0 : Vec F S2048x2048 .bf16) (x1 : Vec F S2048x16 .bf16) (x2 : Vec F S2048x16 .f32) (xs0 : Vec F S2048x16 .f32) : Vec F S2048x16 .bf16 :=
  VO0_4.read (Elt F) (VO0_4.writes (Elt F) VO0_4.junk (kernelRun0_C c i arg2 harg2 arg3 harg3 arg4 harg4 arg5 harg5 arg6 harg6 arg7 harg7 hc0 hc1 x0 x1 x2 xs0).2.1)
/-- and in the accumulator. -/
def sout0_C_0 (c : Dev nD) (i : grid0.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond0_0 i) (hc1 : cond0_1 i)
    (x0 : Vec F S2048x2048 .bf16) (x1 : Vec F S2048x16 .bf16) (x2 : Vec F S2048x16 .f32) (xs0 : Vec F S2048x16 .f32) : Vec F S2048x16 .f32 :=
  VS0_0.read (Elt F) (VS0_0.writes (Elt F) VS0_0.junk (kernelRun0_C c i arg2 harg2 arg3 harg3 arg4 harg4 arg5 harg5 arg6 harg6 arg7 harg7 hc0 hc1 x0 x1 x2 xs0).2.2.1)

/-- What the two result blocks' staging buffers and the accumulator hold after the body at position `n`: the case
    the position selects, run at the point's blocks, cases B and C over the accumulator the point before left. -/
def outsAt0 (c : Dev nD) : (n : ℕ) → n < cfg0.N → Vec F S2048x16 .f32 × Vec F S2048x16 .bf16 × Vec F S2048x16 .f32
  | 0, hn => ((VO0_3.read (Elt F) VO0_3.junk), (VO0_4.read (Elt F) VO0_4.junk), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 8 = 0 then
      if h1 : (n + 1) % 8 = 7 then
        False.elim (by omega)
      else
        ((VO0_3.read (Elt F) VO0_3.junk), (VO0_4.read (Elt F) VO0_4.junk), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 8 = 7 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2)
      else
        ((VO0_3.read (Elt F) VO0_3.junk), (VO0_4.read (Elt F) VO0_4.junk), sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2)

theorem outsAt0_A (c : Dev nD) (t : Fin cfg0.N) (h0 : t.val % 8 = 0) (h1 : ¬t.val % 8 = 7) :
    outsAt0 V c t.val t.isLt = ((VO0_3.read (Elt F) VO0_3.junk), (VO0_4.read (Elt F) VO0_4.junk), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = ((VO0_3.read (Elt F) VO0_3.junk), (VO0_4.read (Elt F) VO0_4.junk), sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2, out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The scoped buffers of the program other than this region's staging buffers and its accumulator. -/
abbrev RB0 (c : Dev nD) : sProp 𝕄 :=
  Pipeline.scopedRestBut (Ix := Unit) (Name := ℕ) (U := UR sig nD τ) (Lvl := ℕ) (Val := Elt F) spec0 c [cc0_scratch0]

/-- The region invariant before position `n`: at the first point every scoped buffer outside the staging buffers at
    anything; afterwards the accumulator at what the point before left in it. -/
def PhiS0 (c : Dev nD) : (n : ℕ) → n ≤ cfg0.N → sProp 𝕄
  | 0, _ => Pipeline.ΦA spec0 c
  | n + 1, hn => iprop((iprop(owns (c : Thread nD τ) scM0_0 fullShare ((outsAt0 V c n hn).2.2)) ∗ RB0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((iprop(owns (c : Thread nD τ) scM0_0 fullShare ((outsAt0 V c n hn).2.2)) ∗ RB0 c) ∗ (∃ r, prngReg c r)) := rfl
theorem PhiS0_pos (c : Dev nD) (n : ℕ) (h : n ≤ cfg0.N) (hz : n ≠ 0) :
    PhiS0 V c n h = iprop((iprop(owns (c : Thread nD τ) scM0_0 fullShare ((outsAt0 V c (n - 1) (by omega)).2.2)) ∗ RB0 c) ∗ (∃ r, prngReg c r)) := by
  cases n with
  | zero => exact absurd rfl hz
  | succ n => rfl

/-- The first point's invariant with the accumulator split out, owned at some contents. -/
theorem PhiA0_eq (c : Dev nD) :
    (Pipeline.ΦA spec0 c : sProp 𝕄)
      = iprop((iprop((∃ d, owns (c : Thread nD τ) scM0_0 fullShare d)) ∗ RB0 c) ∗ (∃ r, prngReg c r)) := by
  unfold Pipeline.ΦA; rw [scopedRest0_split]; simp only [scM0_0, owns_whole]; try rfl

/-- The proof data of region 0's pipeline on core `c`: the arrays as the region finds them; after the body at
    point `t` each input's buffer at its block and the results' at `outsAt0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))
/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 8000000 in
/-- The body at any point: the inputs' buffers hold their blocks; the position says which case the point is in; the
    invariant hands the body the accumulator at what the point before left (at anything at the first point) and takes
    it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  by_cases h0 : t.val % 8 = 0
  · have h1 : ¬t.val % 8 = 7 := by omega
    rw [Dat.leavesExact_idle (dat0 V c) 3 t (idleAt0_3 t (fun h => h1 ((hcond0_1 t).mp h))) (noFlush0_3 t (fun h => h1 ((hcond0_1 t).mp h)))]
    rw [Dat.leavesExact_idle (dat0 V c) 4 t (idleAt0_4 t (fun h => h1 ((hcond0_1 t).mp h))) (noFlush0_4 t (fun h => h1 ((hcond0_1 t).mp h)))]
    rw [outsAt0_A V c t h0 h1]
    unfold sout0_A_0; (try dsimp only)
    by_cases hz : t.val = 0
    · rw [PhiS0_castSucc V c t, PhiS0_zero V c _ _ hz, PhiA0_eq]
      iintro ⟨⟨⟨HS0, HR⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t)).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
    · rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t)).2.2.2 _ _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun h => h0 (by rw [h])
    by_cases h1 : t.val % 8 = 7
    · rw [show (dat0 V c).leavesExact 3 t = owns (c : Thread nD τ) (ms0_3 t) fullShare ((dat0 V c).after 3 t) from by
        unfold Dat.leavesExact; rw [liveAt0_3 t ((hcond0_1 t).mpr h1)], after0_3]
      rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold out0_C_3 out0_C_4 sout0_C_0; (try dsimp only)
      rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_C_3 c _ _ _ _ _ _ _ _ _ _ _ _ _ _ _ _ _ _ _)
      unfold owns; iexists _; isplitr
      swap; · iexact H4
      ipureintro; exact View.read_writes_of_cover _ _ _ _ _ (cover0_C_4 c _ _ _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [Dat.leavesExact_idle (dat0 V c) 4 t (idleAt0_4 t (fun h => h1 ((hcond0_1 t).mp h))) (noFlush0_4 t (fun h => h1 ((hcond0_1 t).mp h)))]
      rw [outsAt0_B V c t h0 h1]
      unfold sout0_B_0; (try dsimp only)
      rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) _).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4

/-- The body obligation of region 0, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the scoped buffers back: what the accumulator holds is forgotten. -/
theorem hout0 (c : Dev nD) : (dat0 V c).Φ (Fin.last cfg0.N) ⊢ Pipeline.ΦA spec0 c := by
  have ht : (Fin.last cfg0.N).val ≠ 0 := by rw [Fin.val_last]; have : cfg0.N = 64 := N_0; omega
  rw [show (dat0 V c).Φ (Fin.last cfg0.N) = PhiS0 V c (Fin.last cfg0.N).val (Nat.le_of_lt_succ (Fin.last cfg0.N).isLt) from rfl,
    PhiS0_pos V c _ _ ht, PhiA0_eq]
  iintro ⟨⟨HS0, HR⟩, Hg⟩
  isplitl [HS0 HR]
  · isplitl [HS0]
    · iexists _; iexact HS0
    iexact HR
  iexact Hg

end Cert.KernelIdeal.Hand

end
-- ==== Proof.RegI1Run.lean ====
/-
  Region 1 of the program (the recurrence step 2·(Ls·T) − T′): the kernel body run once per control case.
  The grid is 8 × 8; a point t = 8·r + k handles row block r and column block k of Ls. The body zeroes the
  accumulator when k = 0 (case A), adds the block product Ls[r,k]·v[k] to it at every point, and when k = 7
  (case C) stores the combination of the accumulator and the block of the earlier vector into both result
  blocks; at 0 < k < 7 (case B) it only accumulates. Each run states what the body's stores leave in the
  accumulator and in the result blocks, as the list of stored pieces.
-/
import proofs.«108570_j29480655520371_2_alg».proof.Proof.Gen.KernelIdeal.Launch
import proofs.«108570_j29480655520371_2_alg».proof.Proof.Gen.KernelIdeal.Skeleton
import proofs.«108570_j29480655520371_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- k = 0: the accumulator is zeroed first. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- k = 7: the results are stored. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-- One staging buffer of each result window, through which its contents are stated. -/
abbrev VO1_3 : View sig .tc .vmem S2048x16 .f32 := (Memref.whole cc1_stg3_0 : Memref sig .tc .vmem S2048x16 .f32).view
abbrev VO1_4 : View sig .tc .vmem S2048x16 .bf16 := (Memref.whole cc1_stg4_0 : Memref sig .tc .vmem S2048x16 .bf16).view
abbrev ms1_0 (t : Fin cfg1.N) : Memref sig .tc .vmem S2048x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x16 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x16 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x16 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x16 .bf16 := win1_4.stage (cfg1.slots t 4)
abbrev hs1_4 (t : Fin cfg1.N) : (ms1_4 t).IsWhole := hstage1_4 ((cfg1.slots t 4).cast nbuf1_4)
/-- The accumulator: a whole scoped buffer of the kernel's own. -/
abbrev scM1_0 : Memref sig .tc .vmem S2048x16 .f32 := Memref.whole cc1_scratch0
abbrev VS1_0 : View sig .tc .vmem S2048x16 .f32 := scM1_0.view

set_option maxHeartbeats 4000000 in
/-- Case A (k = 0): the accumulator, at anything, is zeroed and then receives the first block product; the result
    blocks are handed back untouched. -/
noncomputable def kernelRun1_A (c : Dev nD) (i : grid1.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond1_0 i) (hc1 : ¬cond1_1 i)
    (x0 : Vec F S2048x2048 .bf16) (x1 : Vec F S2048x16 .bf16) (x2 : Vec F S2048x16 .f32) :
    Σ' (L3 : List (View.Piece (Elt F) S2048x16 .f32)) (L4 : List (View.Piece (Elt F) S2048x16 .bf16)), { LS0 : List (View.Piece (Elt F) S2048x16 .f32) //
      ∀ (xi3 : Vec F S2048x16 .f32) (xi4 : Vec F S2048x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_combine_kernel i arg2 harg2 arg3 harg3 arg4 harg4 arg5 harg5 arg6 harg6 arg7 harg7) K } := by
  refine ⟨[], [], ?_, fun xi3 xi4 E K => ?run⟩
  case run =>
    simp only [cc1__matmul_combine_kernel_eq_skeleton]; unfold cc1__matmul_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case B (0 < k < 7): the accumulator, at what the point before left, receives one more block product; the result
    blocks are handed back untouched. -/
noncomputable def kernelRun1_B (c : Dev nD) (i : grid1.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond1_0 i) (hc1 : ¬cond1_1 i)
    (x0 : Vec F S2048x2048 .bf16) (x1 : Vec F S2048x16 .bf16) (x2 : Vec F S2048x16 .f32) (xs0 : Vec F S2048x16 .f32) :
    Σ' (L3 : List (View.Piece (Elt F) S2048x16 .f32)) (L4 : List (View.Piece (Elt F) S2048x16 .bf16)), { LS0 : List (View.Piece (Elt F) S2048x16 .f32) //
      ∀ (xi3 : Vec F S2048x16 .f32) (xi4 : Vec F S2048x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_combine_kernel i arg2 harg2 arg3 harg3 arg4 harg4 arg5 harg5 arg6 harg6 arg7 harg7) K } := by
  refine ⟨[], [], ?_, fun xi3 xi4 E K => ?run⟩
  case run =>
    simp only [cc1__matmul_combine_kernel_eq_skeleton]; unfold cc1__matmul_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case C (k = 7): the accumulator receives the last block product, and both result blocks, at anything, are stored
    whole with the combination of the accumulator and the block of the earlier vector. -/
noncomputable def kernelRun1_C (c : Dev nD) (i : grid1.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond1_0 i) (hc1 : cond1_1 i)
    (x0 : Vec F S2048x2048 .bf16) (x1 : Vec F S2048x16 .bf16) (x2 : Vec F S2048x16 .f32) (xs0 : Vec F S2048x16 .f32) :
    Σ' (L3 : List (View.Piece (Elt F) S2048x16 .f32)) (L4 : List (View.Piece (Elt F) S2048x16 .bf16)), { LS0 : List (View.Piece (Elt F) S2048x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_combine_kernel i arg2 harg2 arg3 harg3 arg4 harg4 arg5 harg5 arg6 harg6 arg7 harg7) K } := by
  refine ⟨?_, ?_, ?_, fun E K => ?run⟩
  case run =>
    simp only [cc1__matmul_combine_kernel_eq_skeleton]; unfold cc1__matmul_combine_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.KernelIdeal.Hand

end
-- ==== Proof.RegI1Frame.lean ====
/-
  Region 1: what its result blocks and its accumulator hold after every grid point, the proof data of its pipeline,
  and the body obligation. After point t = 8·r + k the accumulator holds the sum of the block products
  Ls[r,0]·v[0] + … + Ls[r,k]·v[k] (case A starts it from zero, cases B and C continue from what the point before
  left); the result blocks are written at k = 7 only and written back to their arrays right after that point, so at
  the other points their staging buffers are idle and what they hold is never consulted.
-/
import proofs.«108570_j29480655520371_2_alg».proof.Proof.RegI1Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's piece for the accumulator covers it. -/
theorem scover1_A_0 (c : Dev nD) (i : grid1.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond1_0 i) (hc1 : ¬cond1_1 i)
    (x0 : Vec F S2048x2048 .bf16) (x1 : Vec F S2048x16 .bf16) (x2 : Vec F S2048x16 .f32) (y : S2048x16.Idx) :
    ∃ pc ∈ (kernelRun1_A c i arg2 harg2 arg3 harg3 arg4 harg4 arg5 harg5 arg6 harg6 arg7 harg7 hc0 hc1 x0 x1 x2).2.2.1, y ∈ pc.1.set :=
  View.cover_of_tiledL (kernelRun1_A c i arg2 harg2 arg3 harg3 arg4 harg4 arg5 harg5 arg6 harg6 arg7 harg7 hc0 hc1 x0 x1 x2).2.2.1 S2048x16.size (by sl_kernel_rfl) y
/-- What case A leaves in the accumulator. -/
def sout1_A_0 (c : Dev nD) (i : grid1.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond1_0 i) (hc1 : ¬cond1_1 i)
    (x0 : Vec F S2048x2048 .bf16) (x1 : Vec F S2048x16 .bf16) (x2 : Vec F S2048x16 .f32) : Vec F S2048x16 .f32 :=
  VS1_0.read (Elt F) (VS1_0.writes (Elt F) VS1_0.junk (kernelRun1_A c i arg2 harg2 arg3 harg3 arg4 harg4 arg5 harg5 arg6 harg6 arg7 harg7 hc0 hc1 x0 x1 x2).2.2.1)

/-- Case B's piece for the accumulator covers it. -/
theorem scover1_B_0 (c : Dev nD) (i : grid1.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond1_0 i) (hc1 : ¬cond1_1 i)
    (x0 : Vec F S2048x2048 .bf16) (x1 : Vec F S2048x16 .bf16) (x2 : Vec F S2048x16 .f32) (xs0 : Vec F S2048x16 .f32) (y : S2048x16.Idx) :
    ∃ pc ∈ (kernelRun1_B c i arg2 harg2 arg3 harg3 arg4 harg4 arg5 harg5 arg6 harg6 arg7 harg7 hc0 hc1 x0 x1 x2 xs0).2.2.1, y ∈ pc.1.set :=
  View.cover_of_tiledL (kernelRun1_B c i arg2 harg2 arg3 harg3 arg4 harg4 arg5 harg5 arg6 harg6 arg7 harg7 hc0 hc1 x0 x1 x2 xs0).2.2.1 S2048x16.size (by sl_kernel_rfl) y
/-- What case B leaves in the accumulator. -/
def sout1_B_0 (c : Dev nD) (i : grid1.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond1_0 i) (hc1 : ¬cond1_1 i)
    (x0 : Vec F S2048x2048 .bf16) (x1 : Vec F S2048x16 .bf16) (x2 : Vec F S2048x16 .f32) (xs0 : Vec F S2048x16 .f32) : Vec F S2048x16 .f32 :=
  VS1_0.read (Elt F) (VS1_0.writes (Elt F) VS1_0.junk (kernelRun1_B c i arg2 harg2 arg3 harg3 arg4 harg4 arg5 harg5 arg6 harg6 arg7 harg7 hc0 hc1 x0 x1 x2 xs0).2.2.1)

/-- Case C's pieces cover the f32 result block, -/
theorem cover1_C_3 (c : Dev nD) (i : grid1.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond1_0 i) (hc1 : cond1_1 i)
    (x0 : Vec F S2048x2048 .bf16) (x1 : Vec F S2048x16 .bf16) (x2 : Vec F S2048x16 .f32) (xs0 : Vec F S2048x16 .f32) (y : S2048x16.Idx) :
    ∃ pc ∈ (kernelRun1_C c i arg2 harg2 arg3 harg3 arg4 harg4 arg5 harg5 arg6 harg6 arg7 harg7 hc0 hc1 x0 x1 x2 xs0).1, y ∈ pc.1.set :=
  View.cover_of_tiledL (kernelRun1_C c i arg2 harg2 arg3 harg3 arg4 harg4 arg5 harg5 arg6 harg6 arg7 harg7 hc0 hc1 x0 x1 x2 xs0).1 S2048x16.size (by sl_kernel_rfl) y
/-- the bf16 result block, -/
theorem cover1_C_4 (c : Dev nD) (i : grid1.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond1_0 i) (hc1 : cond1_1 i)
    (x0 : Vec F S2048x2048 .bf16) (x1 : Vec F S2048x16 .bf16) (x2 : Vec F S2048x16 .f32) (xs0 : Vec F S2048x16 .f32) (y : S2048x16.Idx) :
    ∃ pc ∈ (kernelRun1_C c i arg2 harg2 arg3 harg3 arg4 harg4 arg5 harg5 arg6 harg6 arg7 harg7 hc0 hc1 x0 x1 x2 xs0).2.1, y ∈ pc.1.set :=
  View.cover_of_tiledL (kernelRun1_C c i arg2 harg2 arg3 harg3 arg4 harg4 arg5 harg5 arg6 harg6 arg7 harg7 hc0 hc1 x0 x1 x2 xs0).2.1 S2048x16.size (by sl_kernel_rfl) y
/-- and the accumulator. -/
theorem scover1_C_0 (c : Dev nD) (i : grid1.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond1_0 i) (hc1 : cond1_1 i)
    (x0 : Vec F S2048x2048 .bf16) (x1 : Vec F S2048x16 .bf16) (x2 : Vec F S2048x16 .f32) (xs0 : Vec F S2048x16 .f32) (y : S2048x16.Idx) :
    ∃ pc ∈ (kernelRun1_C c i arg2 harg2 arg3 harg3 arg4 harg4 arg5 harg5 arg6 harg6 arg7 harg7 hc0 hc1 x0 x1 x2 xs0).2.2.1, y ∈ pc.1.set :=
  View.cover_of_tiledL (kernelRun1_C c i arg2 harg2 arg3 harg3 arg4 harg4 arg5 harg5 arg6 harg6 arg7 harg7 hc0 hc1 x0 x1 x2 xs0).2.2.1 S2048x16.size (by sl_kernel_rfl) y
/-- What case C leaves in the f32 result block, -/
def out1_C_3 (c : Dev nD) (i : grid1.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond1_0 i) (hc1 : cond1_1 i)
    (x0 : Vec F S2048x2048 .bf16) (x1 : Vec F S2048x16 .bf16) (x2 : Vec F S2048x16 .f32) (xs0 : Vec F S2048x16 .f32) : Vec F S2048x16 .f32 :=
  VO1_3.read (Elt F) (VO1_3.writes (Elt F) VO1_3.junk (kernelRun1_C c i arg2 harg2 arg3 harg3 arg4 harg4 arg5 harg5 arg6 harg6 arg7 harg7 hc0 hc1 x0 x1 x2 xs0).1)
/-- in the bf16 result block, -/
def out1_C_4 (c : Dev nD) (i : grid1.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond1_0 i) (hc1 : cond1_1 i)
    (x0 : Vec F S2048x2048 .bf16) (x1 : Vec F S2048x16 .bf16) (x2 : Vec F S2048x16 .f32) (xs0 : Vec F S2048x16 .f32) : Vec F S2048x16 .bf16 :=
  VO1_4.read (Elt F) (VO1_4.writes (Elt F) VO1_4.junk (kernelRun1_C c i arg2 harg2 arg3 harg3 arg4 harg4 arg5 harg5 arg6 harg6 arg7 harg7 hc0 hc1 x0 x1 x2 xs0).2.1)
/-- and in the accumulator. -/
def sout1_C_0 (c : Dev nD) (i : grid1.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond1_0 i) (hc1 : cond1_1 i)
    (x0 : Vec F S2048x2048 .bf16) (x1 : Vec F S2048x16 .bf16) (x2 : Vec F S2048x16 .f32) (xs0 : Vec F S2048x16 .f32) : Vec F S2048x16 .f32 :=
  VS1_0.read (Elt F) (VS1_0.writes (Elt F) VS1_0.junk (kernelRun1_C c i arg2 harg2 arg3 harg3 arg4 harg4 arg5 harg5 arg6 harg6 arg7 harg7 hc0 hc1 x0 x1 x2 xs0).2.2.1)

/-- What the two result blocks' staging buffers and the accumulator hold after the body at position `n`: the case
    the position selects, run at the point's blocks, cases B and C over the accumulator the point before left. -/
def outsAt1 (c : Dev nD) : (n : ℕ) → n < cfg1.N → Vec F S2048x16 .f32 × Vec F S2048x16 .bf16 × Vec F S2048x16 .f32
  | 0, hn => ((VO1_3.read (Elt F) VO1_3.junk), (VO1_4.read (Elt F) VO1_4.junk), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        ((VO1_3.read (Elt F) VO1_3.junk), (VO1_4.read (Elt F) VO1_4.junk), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2, out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2)
      else
        ((VO1_3.read (Elt F) VO1_3.junk), (VO1_4.read (Elt F) VO1_4.junk), sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.2)

theorem outsAt1_A (c : Dev nD) (t : Fin cfg1.N) (h0 : t.val % 8 = 0) (h1 : ¬t.val % 8 = 7) :
    outsAt1 V c t.val t.isLt = ((VO1_3.read (Elt F) VO1_3.junk), (VO1_4.read (Elt F) VO1_4.junk), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = ((VO1_3.read (Elt F) VO1_3.junk), (VO1_4.read (Elt F) VO1_4.junk), sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2, out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The scoped buffers of the program other than this region's staging buffers and its accumulator. -/
abbrev RB1 (c : Dev nD) : sProp 𝕄 :=
  Pipeline.scopedRestBut (Ix := Unit) (Name := ℕ) (U := UR sig nD τ) (Lvl := ℕ) (Val := Elt F) spec1 c [cc1_scratch0]

/-- The region invariant before position `n`: at the first point every scoped buffer outside the staging buffers at
    anything; afterwards the accumulator at what the point before left in it. -/
def PhiS1 (c : Dev nD) : (n : ℕ) → n ≤ cfg1.N → sProp 𝕄
  | 0, _ => Pipeline.ΦA spec1 c
  | n + 1, hn => iprop((iprop(owns (c : Thread nD τ) scM1_0 fullShare ((outsAt1 V c n hn).2.2)) ∗ RB1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((iprop(owns (c : Thread nD τ) scM1_0 fullShare ((outsAt1 V c n hn).2.2)) ∗ RB1 c) ∗ (∃ r, prngReg c r)) := rfl
theorem PhiS1_pos (c : Dev nD) (n : ℕ) (h : n ≤ cfg1.N) (hz : n ≠ 0) :
    PhiS1 V c n h = iprop((iprop(owns (c : Thread nD τ) scM1_0 fullShare ((outsAt1 V c (n - 1) (by omega)).2.2)) ∗ RB1 c) ∗ (∃ r, prngReg c r)) := by
  cases n with
  | zero => exact absurd rfl hz
  | succ n => rfl

/-- The first point's invariant with the accumulator split out, owned at some contents. -/
theorem PhiA1_eq (c : Dev nD) :
    (Pipeline.ΦA spec1 c : sProp 𝕄)
      = iprop((iprop((∃ d, owns (c : Thread nD τ) scM1_0 fullShare d)) ∗ RB1 c) ∗ (∃ r, prngReg c r)) := by
  unfold Pipeline.ΦA; rw [scopedRest1_split]; simp only [scM1_0, owns_whole]; try rfl

/-- The proof data of region 1's pipeline on core `c`: the arrays as the region finds them; after the body at
    point `t` each input's buffer at its block and the results' at `outsAt1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2.1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))
/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point: the inputs' buffers hold their blocks; the position says which case the point is in; the
    invariant hands the body the accumulator at what the point before left (at anything at the first point) and takes
    it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  by_cases h0 : t.val % 8 = 0
  · have h1 : ¬t.val % 8 = 7 := by omega
    rw [Dat.leavesExact_idle (dat1 V c) 3 t (idleAt1_3 t (fun h => h1 ((hcond1_1 t).mp h))) (noFlush1_3 t (fun h => h1 ((hcond1_1 t).mp h)))]
    rw [Dat.leavesExact_idle (dat1 V c) 4 t (idleAt1_4 t (fun h => h1 ((hcond1_1 t).mp h))) (noFlush1_4 t (fun h => h1 ((hcond1_1 t).mp h)))]
    rw [outsAt1_A V c t h0 h1]
    unfold sout1_A_0; (try dsimp only)
    by_cases hz : t.val = 0
    · rw [PhiS1_castSucc V c t, PhiS1_zero V c _ _ hz, PhiA1_eq]
      iintro ⟨⟨⟨HS0, HR⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t)).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
    · rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t)).2.2.2 _ _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun h => h0 (by rw [h])
    by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold out1_C_3 out1_C_4 sout1_C_0; (try dsimp only)
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover1_C_3 c _ _ _ _ _ _ _ _ _ _ _ _ _ _ _ _ _ _ _)
      unfold owns; iexists _; isplitr
      swap; · iexact H4
      ipureintro; exact View.read_writes_of_cover _ _ _ _ _ (cover1_C_4 c _ _ _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [Dat.leavesExact_idle (dat1 V c) 4 t (idleAt1_4 t (fun h => h1 ((hcond1_1 t).mp h))) (noFlush1_4 t (fun h => h1 ((hcond1_1 t).mp h)))]
      rw [outsAt1_B V c t h0 h1]
      unfold sout1_B_0; (try dsimp only)
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) _).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4

/-- The body obligation of region 1, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped buffers back: what the accumulator holds is forgotten. -/
theorem hout1 (c : Dev nD) : (dat1 V c).Φ (Fin.last cfg1.N) ⊢ Pipeline.ΦA spec1 c := by
  have ht : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl,
    PhiS1_pos V c _ _ ht, PhiA1_eq]
  iintro ⟨⟨HS0, HR⟩, Hg⟩
  isplitl [HS0 HR]
  · isplitl [HS0]
    · iexists _; iexact HS0
    iexact HR
  iexact Hg

end Cert.KernelIdeal.Hand

end
-- ==== Proof.RegI2Run.lean ====
/-
  Region 2 of the program (the recurrence step 2·(Ls·T) − T′): the kernel body run once per control case.
  The grid is 8 × 8; a point t = 8·r + k handles row block r and column block k of Ls. The body zeroes the
  accumulator when k = 0 (case A), adds the block product Ls[r,k]·v[k] to it at every point, and when k = 7
  (case C) stores the combination of the accumulator and the block of the earlier vector into both result
  blocks; at 0 < k < 7 (case B) it only accumulates. Each run states what the body's stores leave in the
  accumulator and in the result blocks, as the list of stored pieces.
-/
import proofs.«108570_j29480655520371_2_alg».proof.Proof.Gen.KernelIdeal.Launch
import proofs.«108570_j29480655520371_2_alg».proof.Proof.Gen.KernelIdeal.Skeleton
import proofs.«108570_j29480655520371_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- k = 0: the accumulator is zeroed first. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)
/-- k = 7: the results are stored. -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem liveAt2_3 : ∀ t : Fin cfg2.N, cond2_1 (grid2.coords t) → cfg2.idle 3 (grid2.coords t) = false := by decide +kernel
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel

/-- One staging buffer of each result window, through which its contents are stated. -/
abbrev VO2_3 : View sig .tc .vmem S2048x16 .f32 := (Memref.whole cc2_stg3_0 : Memref sig .tc .vmem S2048x16 .f32).view
abbrev VO2_4 : View sig .tc .vmem S2048x16 .bf16 := (Memref.whole cc2_stg4_0 : Memref sig .tc .vmem S2048x16 .bf16).view
abbrev ms2_0 (t : Fin cfg2.N) : Memref sig .tc .vmem S2048x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x16 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x16 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x16 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S2048x16 .bf16 := win2_4.stage (cfg2.slots t 4)
abbrev hs2_4 (t : Fin cfg2.N) : (ms2_4 t).IsWhole := hstage2_4 ((cfg2.slots t 4).cast nbuf2_4)
/-- The accumulator: a whole scoped buffer of the kernel's own. -/
abbrev scM2_0 : Memref sig .tc .vmem S2048x16 .f32 := Memref.whole cc2_scratch0
abbrev VS2_0 : View sig .tc .vmem S2048x16 .f32 := scM2_0.view

set_option maxHeartbeats 4000000 in
/-- Case A (k = 0): the accumulator, at anything, is zeroed and then receives the first block product; the result
    blocks are handed back untouched. -/
noncomputable def kernelRun2_A (c : Dev nD) (i : grid2.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond2_0 i) (hc1 : ¬cond2_1 i)
    (x0 : Vec F S2048x2048 .bf16) (x1 : Vec F S2048x16 .bf16) (x2 : Vec F S2048x16 .f32) :
    Σ' (L3 : List (View.Piece (Elt F) S2048x16 .f32)) (L4 : List (View.Piece (Elt F) S2048x16 .bf16)), { LS0 : List (View.Piece (Elt F) S2048x16 .f32) //
      ∀ (xi3 : Vec F S2048x16 .f32) (xi4 : Vec F S2048x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__matmul_combine_kernel i arg2 harg2 arg3 harg3 arg4 harg4 arg5 harg5 arg6 harg6 arg7 harg7) K } := by
  refine ⟨[], [], ?_, fun xi3 xi4 E K => ?run⟩
  case run =>
    simp only [cc2__matmul_combine_kernel_eq_skeleton]; unfold cc2__matmul_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case B (0 < k < 7): the accumulator, at what the point before left, receives one more block product; the result
    blocks are handed back untouched. -/
noncomputable def kernelRun2_B (c : Dev nD) (i : grid2.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond2_0 i) (hc1 : ¬cond2_1 i)
    (x0 : Vec F S2048x2048 .bf16) (x1 : Vec F S2048x16 .bf16) (x2 : Vec F S2048x16 .f32) (xs0 : Vec F S2048x16 .f32) :
    Σ' (L3 : List (View.Piece (Elt F) S2048x16 .f32)) (L4 : List (View.Piece (Elt F) S2048x16 .bf16)), { LS0 : List (View.Piece (Elt F) S2048x16 .f32) //
      ∀ (xi3 : Vec F S2048x16 .f32) (xi4 : Vec F S2048x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__matmul_combine_kernel i arg2 harg2 arg3 harg3 arg4 harg4 arg5 harg5 arg6 harg6 arg7 harg7) K } := by
  refine ⟨[], [], ?_, fun xi3 xi4 E K => ?run⟩
  case run =>
    simp only [cc2__matmul_combine_kernel_eq_skeleton]; unfold cc2__matmul_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case C (k = 7): the accumulator receives the last block product, and both result blocks, at anything, are stored
    whole with the combination of the accumulator and the block of the earlier vector. -/
noncomputable def kernelRun2_C (c : Dev nD) (i : grid2.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond2_0 i) (hc1 : cond2_1 i)
    (x0 : Vec F S2048x2048 .bf16) (x1 : Vec F S2048x16 .bf16) (x2 : Vec F S2048x16 .f32) (xs0 : Vec F S2048x16 .f32) :
    Σ' (L3 : List (View.Piece (Elt F) S2048x16 .f32)) (L4 : List (View.Piece (Elt F) S2048x16 .bf16)), { LS0 : List (View.Piece (Elt F) S2048x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc2__matmul_combine_kernel i arg2 harg2 arg3 harg3 arg4 harg4 arg5 harg5 arg6 harg6 arg7 harg7) K } := by
  refine ⟨?_, ?_, ?_, fun E K => ?run⟩
  case run =>
    simp only [cc2__matmul_combine_kernel_eq_skeleton]; unfold cc2__matmul_combine_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.KernelIdeal.Hand

end
-- ==== Proof.RegI2Frame.lean ====
/-
  Region 2: what its result blocks and its accumulator hold after every grid point, the proof data of its pipeline,
  and the body obligation. After point t = 8·r + k the accumulator holds the sum of the block products
  Ls[r,0]·v[0] + … + Ls[r,k]·v[k] (case A starts it from zero, cases B and C continue from what the point before
  left); the result blocks are written at k = 7 only and written back to their arrays right after that point, so at
  the other points their staging buffers are idle and what they hold is never consulted.
-/
import proofs.«108570_j29480655520371_2_alg».proof.Proof.RegI2Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's piece for the accumulator covers it. -/
theorem scover2_A_0 (c : Dev nD) (i : grid2.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond2_0 i) (hc1 : ¬cond2_1 i)
    (x0 : Vec F S2048x2048 .bf16) (x1 : Vec F S2048x16 .bf16) (x2 : Vec F S2048x16 .f32) (y : S2048x16.Idx) :
    ∃ pc ∈ (kernelRun2_A c i arg2 harg2 arg3 harg3 arg4 harg4 arg5 harg5 arg6 harg6 arg7 harg7 hc0 hc1 x0 x1 x2).2.2.1, y ∈ pc.1.set :=
  View.cover_of_tiledL (kernelRun2_A c i arg2 harg2 arg3 harg3 arg4 harg4 arg5 harg5 arg6 harg6 arg7 harg7 hc0 hc1 x0 x1 x2).2.2.1 S2048x16.size (by sl_kernel_rfl) y
/-- What case A leaves in the accumulator. -/
def sout2_A_0 (c : Dev nD) (i : grid2.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond2_0 i) (hc1 : ¬cond2_1 i)
    (x0 : Vec F S2048x2048 .bf16) (x1 : Vec F S2048x16 .bf16) (x2 : Vec F S2048x16 .f32) : Vec F S2048x16 .f32 :=
  VS2_0.read (Elt F) (VS2_0.writes (Elt F) VS2_0.junk (kernelRun2_A c i arg2 harg2 arg3 harg3 arg4 harg4 arg5 harg5 arg6 harg6 arg7 harg7 hc0 hc1 x0 x1 x2).2.2.1)

/-- Case B's piece for the accumulator covers it. -/
theorem scover2_B_0 (c : Dev nD) (i : grid2.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond2_0 i) (hc1 : ¬cond2_1 i)
    (x0 : Vec F S2048x2048 .bf16) (x1 : Vec F S2048x16 .bf16) (x2 : Vec F S2048x16 .f32) (xs0 : Vec F S2048x16 .f32) (y : S2048x16.Idx) :
    ∃ pc ∈ (kernelRun2_B c i arg2 harg2 arg3 harg3 arg4 harg4 arg5 harg5 arg6 harg6 arg7 harg7 hc0 hc1 x0 x1 x2 xs0).2.2.1, y ∈ pc.1.set :=
  View.cover_of_tiledL (kernelRun2_B c i arg2 harg2 arg3 harg3 arg4 harg4 arg5 harg5 arg6 harg6 arg7 harg7 hc0 hc1 x0 x1 x2 xs0).2.2.1 S2048x16.size (by sl_kernel_rfl) y
/-- What case B leaves in the accumulator. -/
def sout2_B_0 (c : Dev nD) (i : grid2.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond2_0 i) (hc1 : ¬cond2_1 i)
    (x0 : Vec F S2048x2048 .bf16) (x1 : Vec F S2048x16 .bf16) (x2 : Vec F S2048x16 .f32) (xs0 : Vec F S2048x16 .f32) : Vec F S2048x16 .f32 :=
  VS2_0.read (Elt F) (VS2_0.writes (Elt F) VS2_0.junk (kernelRun2_B c i arg2 harg2 arg3 harg3 arg4 harg4 arg5 harg5 arg6 harg6 arg7 harg7 hc0 hc1 x0 x1 x2 xs0).2.2.1)

/-- Case C's pieces cover the f32 result block, -/
theorem cover2_C_3 (c : Dev nD) (i : grid2.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond2_0 i) (hc1 : cond2_1 i)
    (x0 : Vec F S2048x2048 .bf16) (x1 : Vec F S2048x16 .bf16) (x2 : Vec F S2048x16 .f32) (xs0 : Vec F S2048x16 .f32) (y : S2048x16.Idx) :
    ∃ pc ∈ (kernelRun2_C c i arg2 harg2 arg3 harg3 arg4 harg4 arg5 harg5 arg6 harg6 arg7 harg7 hc0 hc1 x0 x1 x2 xs0).1, y ∈ pc.1.set :=
  View.cover_of_tiledL (kernelRun2_C c i arg2 harg2 arg3 harg3 arg4 harg4 arg5 harg5 arg6 harg6 arg7 harg7 hc0 hc1 x0 x1 x2 xs0).1 S2048x16.size (by sl_kernel_rfl) y
/-- the bf16 result block, -/
theorem cover2_C_4 (c : Dev nD) (i : grid2.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond2_0 i) (hc1 : cond2_1 i)
    (x0 : Vec F S2048x2048 .bf16) (x1 : Vec F S2048x16 .bf16) (x2 : Vec F S2048x16 .f32) (xs0 : Vec F S2048x16 .f32) (y : S2048x16.Idx) :
    ∃ pc ∈ (kernelRun2_C c i arg2 harg2 arg3 harg3 arg4 harg4 arg5 harg5 arg6 harg6 arg7 harg7 hc0 hc1 x0 x1 x2 xs0).2.1, y ∈ pc.1.set :=
  View.cover_of_tiledL (kernelRun2_C c i arg2 harg2 arg3 harg3 arg4 harg4 arg5 harg5 arg6 harg6 arg7 harg7 hc0 hc1 x0 x1 x2 xs0).2.1 S2048x16.size (by sl_kernel_rfl) y
/-- and the accumulator. -/
theorem scover2_C_0 (c : Dev nD) (i : grid2.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond2_0 i) (hc1 : cond2_1 i)
    (x0 : Vec F S2048x2048 .bf16) (x1 : Vec F S2048x16 .bf16) (x2 : Vec F S2048x16 .f32) (xs0 : Vec F S2048x16 .f32) (y : S2048x16.Idx) :
    ∃ pc ∈ (kernelRun2_C c i arg2 harg2 arg3 harg3 arg4 harg4 arg5 harg5 arg6 harg6 arg7 harg7 hc0 hc1 x0 x1 x2 xs0).2.2.1, y ∈ pc.1.set :=
  View.cover_of_tiledL (kernelRun2_C c i arg2 harg2 arg3 harg3 arg4 harg4 arg5 harg5 arg6 harg6 arg7 harg7 hc0 hc1 x0 x1 x2 xs0).2.2.1 S2048x16.size (by sl_kernel_rfl) y
/-- What case C leaves in the f32 result block, -/
def out2_C_3 (c : Dev nD) (i : grid2.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond2_0 i) (hc1 : cond2_1 i)
    (x0 : Vec F S2048x2048 .bf16) (x1 : Vec F S2048x16 .bf16) (x2 : Vec F S2048x16 .f32) (xs0 : Vec F S2048x16 .f32) : Vec F S2048x16 .f32 :=
  VO2_3.read (Elt F) (VO2_3.writes (Elt F) VO2_3.junk (kernelRun2_C c i arg2 harg2 arg3 harg3 arg4 harg4 arg5 harg5 arg6 harg6 arg7 harg7 hc0 hc1 x0 x1 x2 xs0).1)
/-- in the bf16 result block, -/
def out2_C_4 (c : Dev nD) (i : grid2.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond2_0 i) (hc1 : cond2_1 i)
    (x0 : Vec F S2048x2048 .bf16) (x1 : Vec F S2048x16 .bf16) (x2 : Vec F S2048x16 .f32) (xs0 : Vec F S2048x16 .f32) : Vec F S2048x16 .bf16 :=
  VO2_4.read (Elt F) (VO2_4.writes (Elt F) VO2_4.junk (kernelRun2_C c i arg2 harg2 arg3 harg3 arg4 harg4 arg5 harg5 arg6 harg6 arg7 harg7 hc0 hc1 x0 x1 x2 xs0).2.1)
/-- and in the accumulator. -/
def sout2_C_0 (c : Dev nD) (i : grid2.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond2_0 i) (hc1 : cond2_1 i)
    (x0 : Vec F S2048x2048 .bf16) (x1 : Vec F S2048x16 .bf16) (x2 : Vec F S2048x16 .f32) (xs0 : Vec F S2048x16 .f32) : Vec F S2048x16 .f32 :=
  VS2_0.read (Elt F) (VS2_0.writes (Elt F) VS2_0.junk (kernelRun2_C c i arg2 harg2 arg3 harg3 arg4 harg4 arg5 harg5 arg6 harg6 arg7 harg7 hc0 hc1 x0 x1 x2 xs0).2.2.1)

/-- What the two result blocks' staging buffers and the accumulator hold after the body at position `n`: the case
    the position selects, run at the point's blocks, cases B and C over the accumulator the point before left. -/
def outsAt2 (c : Dev nD) : (n : ℕ) → n < cfg2.N → Vec F S2048x16 .f32 × Vec F S2048x16 .bf16 × Vec F S2048x16 .f32
  | 0, hn => ((VO2_3.read (Elt F) VO2_3.junk), (VO2_4.read (Elt F) VO2_4.junk), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 8 = 0 then
      if h1 : (n + 1) % 8 = 7 then
        False.elim (by omega)
      else
        ((VO2_3.read (Elt F) VO2_3.junk), (VO2_4.read (Elt F) VO2_4.junk), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 8 = 7 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2, out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2)
      else
        ((VO2_3.read (Elt F) VO2_3.junk), (VO2_4.read (Elt F) VO2_4.junk), sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.2)

theorem outsAt2_A (c : Dev nD) (t : Fin cfg2.N) (h0 : t.val % 8 = 0) (h1 : ¬t.val % 8 = 7) :
    outsAt2 V c t.val t.isLt = ((VO2_3.read (Elt F) VO2_3.junk), (VO2_4.read (Elt F) VO2_4.junk), sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

theorem outsAt2_B (c : Dev nD) (t : Fin cfg2.N) (h0 : ¬t.val % 8 = 0) (h1 : ¬t.val % 8 = 7) :
    outsAt2 V c t.val t.isLt = ((VO2_3.read (Elt F) VO2_3.junk), (VO2_4.read (Elt F) VO2_4.junk), sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 8 = 0) (h1 : t.val % 8 = 7) :
    outsAt2 V c t.val t.isLt = (out2_C_3 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2, out2_C_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2, sout2_C_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The scoped buffers of the program other than this region's staging buffers and its accumulator. -/
abbrev RB2 (c : Dev nD) : sProp 𝕄 :=
  Pipeline.scopedRestBut (Ix := Unit) (Name := ℕ) (U := UR sig nD τ) (Lvl := ℕ) (Val := Elt F) spec2 c [cc2_scratch0]

/-- The region invariant before position `n`: at the first point every scoped buffer outside the staging buffers at
    anything; afterwards the accumulator at what the point before left in it. -/
def PhiS2 (c : Dev nD) : (n : ℕ) → n ≤ cfg2.N → sProp 𝕄
  | 0, _ => Pipeline.ΦA spec2 c
  | n + 1, hn => iprop((iprop(owns (c : Thread nD τ) scM2_0 fullShare ((outsAt2 V c n hn).2.2)) ∗ RB2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop((iprop(owns (c : Thread nD τ) scM2_0 fullShare ((outsAt2 V c n hn).2.2)) ∗ RB2 c) ∗ (∃ r, prngReg c r)) := rfl
theorem PhiS2_pos (c : Dev nD) (n : ℕ) (h : n ≤ cfg2.N) (hz : n ≠ 0) :
    PhiS2 V c n h = iprop((iprop(owns (c : Thread nD τ) scM2_0 fullShare ((outsAt2 V c (n - 1) (by omega)).2.2)) ∗ RB2 c) ∗ (∃ r, prngReg c r)) := by
  cases n with
  | zero => exact absurd rfl hz
  | succ n => rfl

/-- The first point's invariant with the accumulator split out, owned at some contents. -/
theorem PhiA2_eq (c : Dev nD) :
    (Pipeline.ΦA spec2 c : sProp 𝕄)
      = iprop((iprop((∃ d, owns (c : Thread nD τ) scM2_0 fullShare d)) ∗ RB2 c) ∗ (∃ r, prngReg c r)) := by
  unfold Pipeline.ΦA; rw [scopedRest2_split]; simp only [scM2_0, owns_whole]; try rfl

/-- The proof data of region 2's pipeline on core `c`: the arrays as the region finds them; after the body at
    point `t` each input's buffer at its block and the results' at `outsAt2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
    | ⟨4, _⟩ => (outsAt2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem after2_4 (c : Dev nD) (t : Fin cfg2.N) : (dat2 V c).after 4 t = (outsAt2 V c t.val t.isLt).2.1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))
/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 8000000 in
/-- The body at any point: the inputs' buffers hold their blocks; the position says which case the point is in; the
    invariant hands the body the accumulator at what the point before left (at anything at the first point) and takes
    it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  rw [show (dat2 V c).leavesExact 0 t = owns (c : Thread nD τ) (ms2_0 t) fullShare ((dat2 V c).after 0 t) from by
      unfold Dat.leavesExact; rw [liveAt2_0 t], after2_0]
  rw [show (dat2 V c).leavesExact 1 t = owns (c : Thread nD τ) (ms2_1 t) fullShare ((dat2 V c).after 1 t) from by
      unfold Dat.leavesExact; rw [liveAt2_1 t], after2_1]
  rw [show (dat2 V c).leavesExact 2 t = owns (c : Thread nD τ) (ms2_2 t) fullShare ((dat2 V c).after 2 t) from by
      unfold Dat.leavesExact; rw [liveAt2_2 t], after2_2]
  by_cases h0 : t.val % 8 = 0
  · have h1 : ¬t.val % 8 = 7 := by omega
    rw [Dat.leavesExact_idle (dat2 V c) 3 t (idleAt2_3 t (fun h => h1 ((hcond2_1 t).mp h))) (noFlush2_3 t (fun h => h1 ((hcond2_1 t).mp h)))]
    rw [Dat.leavesExact_idle (dat2 V c) 4 t (idleAt2_4 t (fun h => h1 ((hcond2_1 t).mp h))) (noFlush2_4 t (fun h => h1 ((hcond2_1 t).mp h)))]
    rw [outsAt2_A V c t h0 h1]
    unfold sout2_A_0; (try dsimp only)
    by_cases hz : t.val = 0
    · rw [PhiS2_castSucc V c t, PhiS2_zero V c _ _ hz, PhiA2_eq]
      iintro ⟨⟨⟨HS0, HR⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t)).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
    · rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t)).2.2.2 _ _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun h => h0 (by rw [h])
    by_cases h1 : t.val % 8 = 7
    · rw [show (dat2 V c).leavesExact 3 t = owns (c : Thread nD τ) (ms2_3 t) fullShare ((dat2 V c).after 3 t) from by
        unfold Dat.leavesExact; rw [liveAt2_3 t ((hcond2_1 t).mpr h1)], after2_3]
      rw [show (dat2 V c).leavesExact 4 t = owns (c : Thread nD τ) (ms2_4 t) fullShare ((dat2 V c).after 4 t) from by
        unfold Dat.leavesExact; rw [liveAt2_4 t ((hcond2_1 t).mpr h1)], after2_4]
      rw [outsAt2_C V c t h0 h1]
      unfold out2_C_3 out2_C_4 sout2_C_0; (try dsimp only)
      rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun2_C c (grid2.coords t) _ _ _ _ _ _ _ _ _ _ _ _ (fun h => h0 ((hcond2_0 t).mp h)) ((hcond2_1 t).mpr h1) (iblk2 V c 0 t) (iblk2 V c 1 t) (iblk2 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_C_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover2_C_3 c _ _ _ _ _ _ _ _ _ _ _ _ _ _ _ _ _ _ _)
      unfold owns; iexists _; isplitr
      swap; · iexact H4
      ipureintro; exact View.read_writes_of_cover _ _ _ _ _ (cover2_C_4 c _ _ _ _ _ _ _ _ _ _ _ _ _ _ _ _ _ _ _)
    · rw [Dat.leavesExact_idle (dat2 V c) 3 t (idleAt2_3 t (fun h => h1 ((hcond2_1 t).mp h))) (noFlush2_3 t (fun h => h1 ((hcond2_1 t).mp h)))]
      rw [Dat.leavesExact_idle (dat2 V c) 4 t (idleAt2_4 t (fun h => h1 ((hcond2_1 t).mp h))) (noFlush2_4 t (fun h => h1 ((hcond2_1 t).mp h)))]
      rw [outsAt2_B V c t h0 h1]
      unfold sout2_B_0; (try dsimp only)
      rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun2_B c (grid2.coords t) _ _ _ _ _ _ _ _ _ _ _ _ (fun h => h0 ((hcond2_0 t).mp h)) (fun h => h1 ((hcond2_1 t).mp h)) (iblk2 V c 0 t) (iblk2 V c 1 t) (iblk2 V c 2 t) _).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_B_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4

/-- The body obligation of region 2, at every point. -/
theorem body_obligation2 (c : Dev nD) : BodyObligation (dat2 (F := F) V c) (defs₀ (F := F)) Variants.none () Set.univ := fun t => by
  rw [bigSep_W2, bigSep_W2]
  exact sound_body2 V c t

/-- What the region is entered with is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the scoped buffers back: what the accumulator holds is forgotten. -/
theorem hout2 (c : Dev nD) : (dat2 V c).Φ (Fin.last cfg2.N) ⊢ Pipeline.ΦA spec2 c := by
  have ht : (Fin.last cfg2.N).val ≠ 0 := by rw [Fin.val_last]; have : cfg2.N = 64 := N_2; omega
  rw [show (dat2 V c).Φ (Fin.last cfg2.N) = PhiS2 V c (Fin.last cfg2.N).val (Nat.le_of_lt_succ (Fin.last cfg2.N).isLt) from rfl,
    PhiS2_pos V c _ _ ht, PhiA2_eq]
  iintro ⟨⟨HS0, HR⟩, Hg⟩
  isplitl [HS0 HR]
  · isplitl [HS0]
    · iexists _; iexact HS0
    iexact HR
  iexact Hg

end Cert.KernelIdeal.Hand

end
-- ==== Proof.RegI3Run.lean ====
/-
  Region 3 of the program (the recurrence step 2·(Ls·T) − T′): the kernel body run once per control case.
  The grid is 8 × 8; a point t = 8·r + k handles row block r and column block k of Ls. The body zeroes the
  accumulator when k = 0 (case A), adds the block product Ls[r,k]·v[k] to it at every point, and when k = 7
  (case C) stores the combination of the accumulator and the block of the earlier vector into both result
  blocks; at 0 < k < 7 (case B) it only accumulates. Each run states what the body's stores leave in the
  accumulator and in the result blocks, as the list of stored pieces.
-/
import proofs.«108570_j29480655520371_2_alg».proof.Proof.Gen.KernelIdeal.Launch
import proofs.«108570_j29480655520371_2_alg».proof.Proof.Gen.KernelIdeal.Skeleton
import proofs.«108570_j29480655520371_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- k = 0: the accumulator is zeroed first. -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 8 = 0 :=
  (by decide +kernel : ∀ t : Fin grid3.N, cond3_0 (grid3.coords t) ↔ t.val % 8 = 0)
/-- k = 7: the results are stored. -/
abbrev cond3_1 (i : grid3.Coords) : Prop := k3_cond2 i = 1#1
theorem hcond3_1 : ∀ t : Fin cfg3.N, cond3_1 (grid3.coords t) ↔ t.val % 8 = 7 :=
  (by decide +kernel : ∀ t : Fin grid3.N, cond3_1 (grid3.coords t) ↔ t.val % 8 = 7)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
theorem liveAt3_3 : ∀ t : Fin cfg3.N, cond3_1 (grid3.coords t) → cfg3.idle 3 (grid3.coords t) = false := by decide +kernel
theorem idleAt3_4 : ∀ t : Fin cfg3.N, ¬cond3_1 (grid3.coords t) → cfg3.idle 4 (grid3.coords t) = true := by decide +kernel
theorem noFlush3_4 : ∀ t : Fin cfg3.N, ¬cond3_1 (grid3.coords t) → (cfg3.win 4).flush t = false := by decide +kernel
theorem liveAt3_4 : ∀ t : Fin cfg3.N, cond3_1 (grid3.coords t) → cfg3.idle 4 (grid3.coords t) = false := by decide +kernel

/-- One staging buffer of each result window, through which its contents are stated. -/
abbrev VO3_3 : View sig .tc .vmem S2048x16 .f32 := (Memref.whole cc3_stg3_0 : Memref sig .tc .vmem S2048x16 .f32).view
abbrev VO3_4 : View sig .tc .vmem S2048x16 .bf16 := (Memref.whole cc3_stg4_0 : Memref sig .tc .vmem S2048x16 .bf16).view
abbrev ms3_0 (t : Fin cfg3.N) : Memref sig .tc .vmem S2048x2048 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x16 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2048x16 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2048x16 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S2048x16 .bf16 := win3_4.stage (cfg3.slots t 4)
abbrev hs3_4 (t : Fin cfg3.N) : (ms3_4 t).IsWhole := hstage3_4 ((cfg3.slots t 4).cast nbuf3_4)
/-- The accumulator: a whole scoped buffer of the kernel's own. -/
abbrev scM3_0 : Memref sig .tc .vmem S2048x16 .f32 := Memref.whole cc3_scratch0
abbrev VS3_0 : View sig .tc .vmem S2048x16 .f32 := scM3_0.view

set_option maxHeartbeats 4000000 in
/-- Case A (k = 0): the accumulator, at anything, is zeroed and then receives the first block product; the result
    blocks are handed back untouched. -/
noncomputable def kernelRun3_A (c : Dev nD) (i : grid3.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond3_0 i) (hc1 : ¬cond3_1 i)
    (x0 : Vec F S2048x2048 .bf16) (x1 : Vec F S2048x16 .bf16) (x2 : Vec F S2048x16 .f32) :
    Σ' (L3 : List (View.Piece (Elt F) S2048x16 .f32)) (L4 : List (View.Piece (Elt F) S2048x16 .bf16)), { LS0 : List (View.Piece (Elt F) S2048x16 .f32) //
      ∀ (xi3 : Vec F S2048x16 .f32) (xi4 : Vec F S2048x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc3__matmul_combine_kernel i arg2 harg2 arg3 harg3 arg4 harg4 arg5 harg5 arg6 harg6 arg7 harg7) K } := by
  refine ⟨[], [], ?_, fun xi3 xi4 E K => ?run⟩
  case run =>
    simp only [cc3__matmul_combine_kernel_eq_skeleton]; unfold cc3__matmul_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case B (0 < k < 7): the accumulator, at what the point before left, receives one more block product; the result
    blocks are handed back untouched. -/
noncomputable def kernelRun3_B (c : Dev nD) (i : grid3.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond3_0 i) (hc1 : ¬cond3_1 i)
    (x0 : Vec F S2048x2048 .bf16) (x1 : Vec F S2048x16 .bf16) (x2 : Vec F S2048x16 .f32) (xs0 : Vec F S2048x16 .f32) :
    Σ' (L3 : List (View.Piece (Elt F) S2048x16 .f32)) (L4 : List (View.Piece (Elt F) S2048x16 .bf16)), { LS0 : List (View.Piece (Elt F) S2048x16 .f32) //
      ∀ (xi3 : Vec F S2048x16 .f32) (xi4 : Vec F S2048x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc3__matmul_combine_kernel i arg2 harg2 arg3 harg3 arg4 harg4 arg5 harg5 arg6 harg6 arg7 harg7) K } := by
  refine ⟨[], [], ?_, fun xi3 xi4 E K => ?run⟩
  case run =>
    simp only [cc3__matmul_combine_kernel_eq_skeleton]; unfold cc3__matmul_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case C (k = 7): the accumulator receives the last block product, and both result blocks, at anything, are stored
    whole with the combination of the accumulator and the block of the earlier vector. -/
noncomputable def kernelRun3_C (c : Dev nD) (i : grid3.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond3_0 i) (hc1 : cond3_1 i)
    (x0 : Vec F S2048x2048 .bf16) (x1 : Vec F S2048x16 .bf16) (x2 : Vec F S2048x16 .f32) (xs0 : Vec F S2048x16 .f32) :
    Σ' (L3 : List (View.Piece (Elt F) S2048x16 .f32)) (L4 : List (View.Piece (Elt F) S2048x16 .bf16)), { LS0 : List (View.Piece (Elt F) S2048x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc3__matmul_combine_kernel i arg2 harg2 arg3 harg3 arg4 harg4 arg5 harg5 arg6 harg6 arg7 harg7) K } := by
  refine ⟨?_, ?_, ?_, fun E K => ?run⟩
  case run =>
    simp only [cc3__matmul_combine_kernel_eq_skeleton]; unfold cc3__matmul_combine_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.KernelIdeal.Hand

end
-- ==== Proof.RegI3Frame.lean ====
/-
  Region 3: what its result blocks and its accumulator hold after every grid point, the proof data of its pipeline,
  and the body obligation. After point t = 8·r + k the accumulator holds the sum of the block products
  Ls[r,0]·v[0] + … + Ls[r,k]·v[k] (case A starts it from zero, cases B and C continue from what the point before
  left); the result blocks are written at k = 7 only and written back to their arrays right after that point, so at
  the other points their staging buffers are idle and what they hold is never consulted.
-/
import proofs.«108570_j29480655520371_2_alg».proof.Proof.RegI3Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's piece for the accumulator covers it. -/
theorem scover3_A_0 (c : Dev nD) (i : grid3.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond3_0 i) (hc1 : ¬cond3_1 i)
    (x0 : Vec F S2048x2048 .bf16) (x1 : Vec F S2048x16 .bf16) (x2 : Vec F S2048x16 .f32) (y : S2048x16.Idx) :
    ∃ pc ∈ (kernelRun3_A c i arg2 harg2 arg3 harg3 arg4 harg4 arg5 harg5 arg6 harg6 arg7 harg7 hc0 hc1 x0 x1 x2).2.2.1, y ∈ pc.1.set :=
  View.cover_of_tiledL (kernelRun3_A c i arg2 harg2 arg3 harg3 arg4 harg4 arg5 harg5 arg6 harg6 arg7 harg7 hc0 hc1 x0 x1 x2).2.2.1 S2048x16.size (by sl_kernel_rfl) y
/-- What case A leaves in the accumulator. -/
def sout3_A_0 (c : Dev nD) (i : grid3.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond3_0 i) (hc1 : ¬cond3_1 i)
    (x0 : Vec F S2048x2048 .bf16) (x1 : Vec F S2048x16 .bf16) (x2 : Vec F S2048x16 .f32) : Vec F S2048x16 .f32 :=
  VS3_0.read (Elt F) (VS3_0.writes (Elt F) VS3_0.junk (kernelRun3_A c i arg2 harg2 arg3 harg3 arg4 harg4 arg5 harg5 arg6 harg6 arg7 harg7 hc0 hc1 x0 x1 x2).2.2.1)

/-- Case B's piece for the accumulator covers it. -/
theorem scover3_B_0 (c : Dev nD) (i : grid3.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond3_0 i) (hc1 : ¬cond3_1 i)
    (x0 : Vec F S2048x2048 .bf16) (x1 : Vec F S2048x16 .bf16) (x2 : Vec F S2048x16 .f32) (xs0 : Vec F S2048x16 .f32) (y : S2048x16.Idx) :
    ∃ pc ∈ (kernelRun3_B c i arg2 harg2 arg3 harg3 arg4 harg4 arg5 harg5 arg6 harg6 arg7 harg7 hc0 hc1 x0 x1 x2 xs0).2.2.1, y ∈ pc.1.set :=
  View.cover_of_tiledL (kernelRun3_B c i arg2 harg2 arg3 harg3 arg4 harg4 arg5 harg5 arg6 harg6 arg7 harg7 hc0 hc1 x0 x1 x2 xs0).2.2.1 S2048x16.size (by sl_kernel_rfl) y
/-- What case B leaves in the accumulator. -/
def sout3_B_0 (c : Dev nD) (i : grid3.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond3_0 i) (hc1 : ¬cond3_1 i)
    (x0 : Vec F S2048x2048 .bf16) (x1 : Vec F S2048x16 .bf16) (x2 : Vec F S2048x16 .f32) (xs0 : Vec F S2048x16 .f32) : Vec F S2048x16 .f32 :=
  VS3_0.read (Elt F) (VS3_0.writes (Elt F) VS3_0.junk (kernelRun3_B c i arg2 harg2 arg3 harg3 arg4 harg4 arg5 harg5 arg6 harg6 arg7 harg7 hc0 hc1 x0 x1 x2 xs0).2.2.1)

/-- Case C's pieces cover the f32 result block, -/
theorem cover3_C_3 (c : Dev nD) (i : grid3.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond3_0 i) (hc1 : cond3_1 i)
    (x0 : Vec F S2048x2048 .bf16) (x1 : Vec F S2048x16 .bf16) (x2 : Vec F S2048x16 .f32) (xs0 : Vec F S2048x16 .f32) (y : S2048x16.Idx) :
    ∃ pc ∈ (kernelRun3_C c i arg2 harg2 arg3 harg3 arg4 harg4 arg5 harg5 arg6 harg6 arg7 harg7 hc0 hc1 x0 x1 x2 xs0).1, y ∈ pc.1.set :=
  View.cover_of_tiledL (kernelRun3_C c i arg2 harg2 arg3 harg3 arg4 harg4 arg5 harg5 arg6 harg6 arg7 harg7 hc0 hc1 x0 x1 x2 xs0).1 S2048x16.size (by sl_kernel_rfl) y
/-- the bf16 result block, -/
theorem cover3_C_4 (c : Dev nD) (i : grid3.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond3_0 i) (hc1 : cond3_1 i)
    (x0 : Vec F S2048x2048 .bf16) (x1 : Vec F S2048x16 .bf16) (x2 : Vec F S2048x16 .f32) (xs0 : Vec F S2048x16 .f32) (y : S2048x16.Idx) :
    ∃ pc ∈ (kernelRun3_C c i arg2 harg2 arg3 harg3 arg4 harg4 arg5 harg5 arg6 harg6 arg7 harg7 hc0 hc1 x0 x1 x2 xs0).2.1, y ∈ pc.1.set :=
  View.cover_of_tiledL (kernelRun3_C c i arg2 harg2 arg3 harg3 arg4 harg4 arg5 harg5 arg6 harg6 arg7 harg7 hc0 hc1 x0 x1 x2 xs0).2.1 S2048x16.size (by sl_kernel_rfl) y
/-- and the accumulator. -/
theorem scover3_C_0 (c : Dev nD) (i : grid3.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond3_0 i) (hc1 : cond3_1 i)
    (x0 : Vec F S2048x2048 .bf16) (x1 : Vec F S2048x16 .bf16) (x2 : Vec F S2048x16 .f32) (xs0 : Vec F S2048x16 .f32) (y : S2048x16.Idx) :
    ∃ pc ∈ (kernelRun3_C c i arg2 harg2 arg3 harg3 arg4 harg4 arg5 harg5 arg6 harg6 arg7 harg7 hc0 hc1 x0 x1 x2 xs0).2.2.1, y ∈ pc.1.set :=
  View.cover_of_tiledL (kernelRun3_C c i arg2 harg2 arg3 harg3 arg4 harg4 arg5 harg5 arg6 harg6 arg7 harg7 hc0 hc1 x0 x1 x2 xs0).2.2.1 S2048x16.size (by sl_kernel_rfl) y
/-- What case C leaves in the f32 result block, -/
def out3_C_3 (c : Dev nD) (i : grid3.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond3_0 i) (hc1 : cond3_1 i)
    (x0 : Vec F S2048x2048 .bf16) (x1 : Vec F S2048x16 .bf16) (x2 : Vec F S2048x16 .f32) (xs0 : Vec F S2048x16 .f32) : Vec F S2048x16 .f32 :=
  VO3_3.read (Elt F) (VO3_3.writes (Elt F) VO3_3.junk (kernelRun3_C c i arg2 harg2 arg3 harg3 arg4 harg4 arg5 harg5 arg6 harg6 arg7 harg7 hc0 hc1 x0 x1 x2 xs0).1)
/-- in the bf16 result block, -/
def out3_C_4 (c : Dev nD) (i : grid3.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond3_0 i) (hc1 : cond3_1 i)
    (x0 : Vec F S2048x2048 .bf16) (x1 : Vec F S2048x16 .bf16) (x2 : Vec F S2048x16 .f32) (xs0 : Vec F S2048x16 .f32) : Vec F S2048x16 .bf16 :=
  VO3_4.read (Elt F) (VO3_4.writes (Elt F) VO3_4.junk (kernelRun3_C c i arg2 harg2 arg3 harg3 arg4 harg4 arg5 harg5 arg6 harg6 arg7 harg7 hc0 hc1 x0 x1 x2 xs0).2.1)
/-- and in the accumulator. -/
def sout3_C_0 (c : Dev nD) (i : grid3.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond3_0 i) (hc1 : cond3_1 i)
    (x0 : Vec F S2048x2048 .bf16) (x1 : Vec F S2048x16 .bf16) (x2 : Vec F S2048x16 .f32) (xs0 : Vec F S2048x16 .f32) : Vec F S2048x16 .f32 :=
  VS3_0.read (Elt F) (VS3_0.writes (Elt F) VS3_0.junk (kernelRun3_C c i arg2 harg2 arg3 harg3 arg4 harg4 arg5 harg5 arg6 harg6 arg7 harg7 hc0 hc1 x0 x1 x2 xs0).2.2.1)

/-- What the two result blocks' staging buffers and the accumulator hold after the body at position `n`: the case
    the position selects, run at the point's blocks, cases B and C over the accumulator the point before left. -/
def outsAt3 (c : Dev nD) : (n : ℕ) → n < cfg3.N → Vec F S2048x16 .f32 × Vec F S2048x16 .bf16 × Vec F S2048x16 .f32
  | 0, hn => ((VO3_3.read (Elt F) VO3_3.junk), (VO3_4.read (Elt F) VO3_4.junk), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 8 = 0 then
      if h1 : (n + 1) % 8 = 7 then
        False.elim (by omega)
      else
        ((VO3_3.read (Elt F) VO3_3.junk), (VO3_4.read (Elt F) VO3_4.junk), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩))
    else
      if h1 : (n + 1) % 8 = 7 then
        (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2.2, out3_C_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2.2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2.2)
      else
        ((VO3_3.read (Elt F) VO3_3.junk), (VO3_4.read (Elt F) VO3_4.junk), sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2.2)

theorem outsAt3_A (c : Dev nD) (t : Fin cfg3.N) (h0 : t.val % 8 = 0) (h1 : ¬t.val % 8 = 7) :
    outsAt3 V c t.val t.isLt = ((VO3_3.read (Elt F) VO3_3.junk), (VO3_4.read (Elt F) VO3_4.junk), sout3_A_0 c (grid3.coords t) (ms3_0 t) (hs3_0 t) (ms3_1 t) (hs3_1 t) (ms3_2 t) (hs3_2 t) (ms3_3 t) (hs3_3 t) (ms3_4 t) (hs3_4 t) scM3_0 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_pos h0).trans ((dif_neg h1).trans rfl)

theorem outsAt3_B (c : Dev nD) (t : Fin cfg3.N) (h0 : ¬t.val % 8 = 0) (h1 : ¬t.val % 8 = 7) :
    outsAt3 V c t.val t.isLt = ((VO3_3.read (Elt F) VO3_3.junk), (VO3_4.read (Elt F) VO3_4.junk), sout3_B_0 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 8 = 0) (h1 : t.val % 8 = 7) :
    outsAt3 V c t.val t.isLt = (out3_C_3 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2.2, out3_C_4 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2.2, sout3_C_0 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The scoped buffers of the program other than this region's staging buffers and its accumulator. -/
abbrev RB3 (c : Dev nD) : sProp 𝕄 :=
  Pipeline.scopedRestBut (Ix := Unit) (Name := ℕ) (U := UR sig nD τ) (Lvl := ℕ) (Val := Elt F) spec3 c [cc3_scratch0]

/-- The region invariant before position `n`: at the first point every scoped buffer outside the staging buffers at
    anything; afterwards the accumulator at what the point before left in it. -/
def PhiS3 (c : Dev nD) : (n : ℕ) → n ≤ cfg3.N → sProp 𝕄
  | 0, _ => Pipeline.ΦA spec3 c
  | n + 1, hn => iprop((iprop(owns (c : Thread nD τ) scM3_0 fullShare ((outsAt3 V c n hn).2.2)) ∗ RB3 c) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop((iprop(owns (c : Thread nD τ) scM3_0 fullShare ((outsAt3 V c n hn).2.2)) ∗ RB3 c) ∗ (∃ r, prngReg c r)) := rfl
theorem PhiS3_pos (c : Dev nD) (n : ℕ) (h : n ≤ cfg3.N) (hz : n ≠ 0) :
    PhiS3 V c n h = iprop((iprop(owns (c : Thread nD τ) scM3_0 fullShare ((outsAt3 V c (n - 1) (by omega)).2.2)) ∗ RB3 c) ∗ (∃ r, prngReg c r)) := by
  cases n with
  | zero => exact absurd rfl hz
  | succ n => rfl

/-- The first point's invariant with the accumulator split out, owned at some contents. -/
theorem PhiA3_eq (c : Dev nD) :
    (Pipeline.ΦA spec3 c : sProp 𝕄)
      = iprop((iprop((∃ d, owns (c : Thread nD τ) scM3_0 fullShare d)) ∗ RB3 c) ∗ (∃ r, prngReg c r)) := by
  unfold Pipeline.ΦA; rw [scopedRest3_split]; simp only [scM3_0, owns_whole]; try rfl

/-- The proof data of region 3's pipeline on core `c`: the arrays as the region finds them; after the body at
    point `t` each input's buffer at its block and the results' at `outsAt3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
    | ⟨4, _⟩ => (outsAt3 V c t.val t.isLt).2.1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]
theorem after3_4 (c : Dev nD) (t : Fin cfg3.N) : (dat3 V c).after 4 t = (outsAt3 V c t.val t.isLt).2.1 := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))
/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 8000000 in
/-- The body at any point: the inputs' buffers hold their blocks; the position says which case the point is in; the
    invariant hands the body the accumulator at what the point before left (at anything at the first point) and takes
    it back at this point's contents; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 64 := lt_of_lt_of_eq t.isLt (show cfg3.N = 64 from N_3)
  rw [show (dat3 V c).leavesExact 0 t = owns (c : Thread nD τ) (ms3_0 t) fullShare ((dat3 V c).after 0 t) from by
      unfold Dat.leavesExact; rw [liveAt3_0 t], after3_0]
  rw [show (dat3 V c).leavesExact 1 t = owns (c : Thread nD τ) (ms3_1 t) fullShare ((dat3 V c).after 1 t) from by
      unfold Dat.leavesExact; rw [liveAt3_1 t], after3_1]
  rw [show (dat3 V c).leavesExact 2 t = owns (c : Thread nD τ) (ms3_2 t) fullShare ((dat3 V c).after 2 t) from by
      unfold Dat.leavesExact; rw [liveAt3_2 t], after3_2]
  by_cases h0 : t.val % 8 = 0
  · have h1 : ¬t.val % 8 = 7 := by omega
    rw [Dat.leavesExact_idle (dat3 V c) 3 t (idleAt3_3 t (fun h => h1 ((hcond3_1 t).mp h))) (noFlush3_3 t (fun h => h1 ((hcond3_1 t).mp h)))]
    rw [Dat.leavesExact_idle (dat3 V c) 4 t (idleAt3_4 t (fun h => h1 ((hcond3_1 t).mp h))) (noFlush3_4 t (fun h => h1 ((hcond3_1 t).mp h)))]
    rw [outsAt3_A V c t h0 h1]
    unfold sout3_A_0; (try dsimp only)
    by_cases hz : t.val = 0
    · rw [PhiS3_castSucc V c t, PhiS3_zero V c _ _ hz, PhiA3_eq]
      iintro ⟨⟨⟨HS0, HR⟩, Hg⟩, Ho, ⟨%d0, H0⟩, ⟨%d1, H1⟩, ⟨%d2, H2⟩, ⟨%d3, H3⟩, ⟨%d4, H4⟩⟩
      iapply ((kernelRun3_A c (grid3.coords t) _ _ _ _ _ _ _ _ _ _ _ _ ((hcond3_0 t).mpr h0) (fun h => h1 ((hcond3_1 t).mp h)) (iblk3 V c 0 t) (iblk3 V c 1 t) (iblk3 V c 2 t)).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover3_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
    · rw [PhiS3_castSucc V c t, PhiS3_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun3_A c (grid3.coords t) _ _ _ _ _ _ _ _ _ _ _ _ ((hcond3_0 t).mpr h0) (fun h => h1 ((hcond3_1 t).mp h)) (iblk3 V c 0 t) (iblk3 V c 1 t) (iblk3 V c 2 t)).2.2.2 _ _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover3_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun h => h0 (by rw [h])
    by_cases h1 : t.val % 8 = 7
    · rw [show (dat3 V c).leavesExact 3 t = owns (c : Thread nD τ) (ms3_3 t) fullShare ((dat3 V c).after 3 t) from by
        unfold Dat.leavesExact; rw [liveAt3_3 t ((hcond3_1 t).mpr h1)], after3_3]
      rw [show (dat3 V c).leavesExact 4 t = owns (c : Thread nD τ) (ms3_4 t) fullShare ((dat3 V c).after 4 t) from by
        unfold Dat.leavesExact; rw [liveAt3_4 t ((hcond3_1 t).mpr h1)], after3_4]
      rw [outsAt3_C V c t h0 h1]
      unfold out3_C_3 out3_C_4 sout3_C_0; (try dsimp only)
      rw [PhiS3_castSucc V c t, PhiS3_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun3_C c (grid3.coords t) _ _ _ _ _ _ _ _ _ _ _ _ (fun h => h0 ((hcond3_0 t).mp h)) ((hcond3_1 t).mpr h1) (iblk3 V c 0 t) (iblk3 V c 1 t) (iblk3 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover3_C_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover3_C_3 c _ _ _ _ _ _ _ _ _ _ _ _ _ _ _ _ _ _ _)
      unfold owns; iexists _; isplitr
      swap; · iexact H4
      ipureintro; exact View.read_writes_of_cover _ _ _ _ _ (cover3_C_4 c _ _ _ _ _ _ _ _ _ _ _ _ _ _ _ _ _ _ _)
    · rw [Dat.leavesExact_idle (dat3 V c) 3 t (idleAt3_3 t (fun h => h1 ((hcond3_1 t).mp h))) (noFlush3_3 t (fun h => h1 ((hcond3_1 t).mp h)))]
      rw [Dat.leavesExact_idle (dat3 V c) 4 t (idleAt3_4 t (fun h => h1 ((hcond3_1 t).mp h))) (noFlush3_4 t (fun h => h1 ((hcond3_1 t).mp h)))]
      rw [outsAt3_B V c t h0 h1]
      unfold sout3_B_0; (try dsimp only)
      rw [PhiS3_castSucc V c t, PhiS3_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun3_B c (grid3.coords t) _ _ _ _ _ _ _ _ _ _ _ _ (fun h => h0 ((hcond3_0 t).mp h)) (fun h => h1 ((hcond3_1 t).mp h)) (iblk3 V c 0 t) (iblk3 V c 1 t) (iblk3 V c 2 t) _).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover3_B_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4

/-- The body obligation of region 3, at every point. -/
theorem body_obligation3 (c : Dev nD) : BodyObligation (dat3 (F := F) V c) (defs₀ (F := F)) Variants.none () Set.univ := fun t => by
  rw [bigSep_W3, bigSep_W3]
  exact sound_body3 V c t

/-- What the region is entered with is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the scoped buffers back: what the accumulator holds is forgotten. -/
theorem hout3 (c : Dev nD) : (dat3 V c).Φ (Fin.last cfg3.N) ⊢ Pipeline.ΦA spec3 c := by
  have ht : (Fin.last cfg3.N).val ≠ 0 := by rw [Fin.val_last]; have : cfg3.N = 64 := N_3; omega
  rw [show (dat3 V c).Φ (Fin.last cfg3.N) = PhiS3 V c (Fin.last cfg3.N).val (Nat.le_of_lt_succ (Fin.last cfg3.N).isLt) from rfl,
    PhiS3_pos V c _ _ ht, PhiA3_eq]
  iintro ⟨⟨HS0, HR⟩, Hg⟩
  isplitl [HS0 HR]
  · isplitl [HS0]
    · iexists _; iexact HS0
    iexact HR
  iexact Hg

end Cert.KernelIdeal.Hand

end
-- ==== Proof.RegI4Run.lean ====
/-
  Region 4 of the program (the recurrence step 2·(Ls·T) − T′): the kernel body run once per control case.
  The grid is 8 × 8; a point t = 8·r + k handles row block r and column block k of Ls. The body zeroes the
  accumulator when k = 0 (case A), adds the block product Ls[r,k]·v[k] to it at every point, and when k = 7
  (case C) stores the combination of the accumulator and the block of the earlier vector into both result
  blocks; at 0 < k < 7 (case B) it only accumulates. Each run states what the body's stores leave in the
  accumulator and in the result blocks, as the list of stored pieces.
-/
import proofs.«108570_j29480655520371_2_alg».proof.Proof.Gen.KernelIdeal.Launch
import proofs.«108570_j29480655520371_2_alg».proof.Proof.Gen.KernelIdeal.Skeleton
import proofs.«108570_j29480655520371_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's current staging buffer holds its block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- k = 0: the accumulator is zeroed first. -/
abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 8 = 0 :=
  (by decide +kernel : ∀ t : Fin grid4.N, cond4_0 (grid4.coords t) ↔ t.val % 8 = 0)
/-- k = 7: the results are stored. -/
abbrev cond4_1 (i : grid4.Coords) : Prop := k4_cond2 i = 1#1
theorem hcond4_1 : ∀ t : Fin cfg4.N, cond4_1 (grid4.coords t) ↔ t.val % 8 = 7 :=
  (by decide +kernel : ∀ t : Fin grid4.N, cond4_1 (grid4.coords t) ↔ t.val % 8 = 7)

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem idleAt4_3 : ∀ t : Fin cfg4.N, ¬cond4_1 (grid4.coords t) → cfg4.idle 3 (grid4.coords t) = true := by decide +kernel
theorem noFlush4_3 : ∀ t : Fin cfg4.N, ¬cond4_1 (grid4.coords t) → (cfg4.win 3).flush t = false := by decide +kernel
theorem liveAt4_3 : ∀ t : Fin cfg4.N, cond4_1 (grid4.coords t) → cfg4.idle 3 (grid4.coords t) = false := by decide +kernel
theorem idleAt4_4 : ∀ t : Fin cfg4.N, ¬cond4_1 (grid4.coords t) → cfg4.idle 4 (grid4.coords t) = true := by decide +kernel
theorem noFlush4_4 : ∀ t : Fin cfg4.N, ¬cond4_1 (grid4.coords t) → (cfg4.win 4).flush t = false := by decide +kernel
theorem liveAt4_4 : ∀ t : Fin cfg4.N, cond4_1 (grid4.coords t) → cfg4.idle 4 (grid4.coords t) = false := by decide +kernel

/-- One staging buffer of each result window, through which its contents are stated. -/
abbrev VO4_3 : View sig .tc .vmem S2048x16 .f32 := (Memref.whole cc4_stg3_0 : Memref sig .tc .vmem S2048x16 .f32).view
abbrev VO4_4 : View sig .tc .vmem S2048x16 .bf16 := (Memref.whole cc4_stg4_0 : Memref sig .tc .vmem S2048x16 .bf16).view
abbrev ms4_0 (t : Fin cfg4.N) : Memref sig .tc .vmem S2048x2048 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2048x16 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2048x16 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S2048x16 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S2048x16 .bf16 := win4_4.stage (cfg4.slots t 4)
abbrev hs4_4 (t : Fin cfg4.N) : (ms4_4 t).IsWhole := hstage4_4 ((cfg4.slots t 4).cast nbuf4_4)
/-- The accumulator: a whole scoped buffer of the kernel's own. -/
abbrev scM4_0 : Memref sig .tc .vmem S2048x16 .f32 := Memref.whole cc4_scratch0
abbrev VS4_0 : View sig .tc .vmem S2048x16 .f32 := scM4_0.view

set_option maxHeartbeats 4000000 in
/-- Case A (k = 0): the accumulator, at anything, is zeroed and then receives the first block product; the result
    blocks are handed back untouched. -/
noncomputable def kernelRun4_A (c : Dev nD) (i : grid4.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond4_0 i) (hc1 : ¬cond4_1 i)
    (x0 : Vec F S2048x2048 .bf16) (x1 : Vec F S2048x16 .bf16) (x2 : Vec F S2048x16 .f32) :
    Σ' (L3 : List (View.Piece (Elt F) S2048x16 .f32)) (L4 : List (View.Piece (Elt F) S2048x16 .bf16)), { LS0 : List (View.Piece (Elt F) S2048x16 .f32) //
      ∀ (xi3 : Vec F S2048x16 .f32) (xi4 : Vec F S2048x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc4__matmul_combine_kernel i arg2 harg2 arg3 harg3 arg4 harg4 arg5 harg5 arg6 harg6 arg7 harg7) K } := by
  refine ⟨[], [], ?_, fun xi3 xi4 E K => ?run⟩
  case run =>
    simp only [cc4__matmul_combine_kernel_eq_skeleton]; unfold cc4__matmul_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case B (0 < k < 7): the accumulator, at what the point before left, receives one more block product; the result
    blocks are handed back untouched. -/
noncomputable def kernelRun4_B (c : Dev nD) (i : grid4.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond4_0 i) (hc1 : ¬cond4_1 i)
    (x0 : Vec F S2048x2048 .bf16) (x1 : Vec F S2048x16 .bf16) (x2 : Vec F S2048x16 .f32) (xs0 : Vec F S2048x16 .f32) :
    Σ' (L3 : List (View.Piece (Elt F) S2048x16 .f32)) (L4 : List (View.Piece (Elt F) S2048x16 .bf16)), { LS0 : List (View.Piece (Elt F) S2048x16 .f32) //
      ∀ (xi3 : Vec F S2048x16 .f32) (xi4 : Vec F S2048x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc4__matmul_combine_kernel i arg2 harg2 arg3 harg3 arg4 harg4 arg5 harg5 arg6 harg6 arg7 harg7) K } := by
  refine ⟨[], [], ?_, fun xi3 xi4 E K => ?run⟩
  case run =>
    simp only [cc4__matmul_combine_kernel_eq_skeleton]; unfold cc4__matmul_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case C (k = 7): the accumulator receives the last block product, and both result blocks, at anything, are stored
    whole with the combination of the accumulator and the block of the earlier vector. -/
noncomputable def kernelRun4_C (c : Dev nD) (i : grid4.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond4_0 i) (hc1 : cond4_1 i)
    (x0 : Vec F S2048x2048 .bf16) (x1 : Vec F S2048x16 .bf16) (x2 : Vec F S2048x16 .f32) (xs0 : Vec F S2048x16 .f32) :
    Σ' (L3 : List (View.Piece (Elt F) S2048x16 .f32)) (L4 : List (View.Piece (Elt F) S2048x16 .bf16)), { LS0 : List (View.Piece (Elt F) S2048x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc4__matmul_combine_kernel i arg2 harg2 arg3 harg3 arg4 harg4 arg5 harg5 arg6 harg6 arg7 harg7) K } := by
  refine ⟨?_, ?_, ?_, fun E K => ?run⟩
  case run =>
    simp only [cc4__matmul_combine_kernel_eq_skeleton]; unfold cc4__matmul_combine_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.KernelIdeal.Hand

end
-- ==== Proof.RegI4Frame.lean ====
/-
  Region 4: what its result blocks and its accumulator hold after every grid point, the proof data of its pipeline,
  and the body obligation. After point t = 8·r + k the accumulator holds the sum of the block products
  Ls[r,0]·v[0] + … + Ls[r,k]·v[k] (case A starts it from zero, cases B and C continue from what the point before
  left); the result blocks are written at k = 7 only and written back to their arrays right after that point, so at
  the other points their staging buffers are idle and what they hold is never consulted.
-/
import proofs.«108570_j29480655520371_2_alg».proof.Proof.RegI4Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's piece for the accumulator covers it. -/
theorem scover4_A_0 (c : Dev nD) (i : grid4.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond4_0 i) (hc1 : ¬cond4_1 i)
    (x0 : Vec F S2048x2048 .bf16) (x1 : Vec F S2048x16 .bf16) (x2 : Vec F S2048x16 .f32) (y : S2048x16.Idx) :
    ∃ pc ∈ (kernelRun4_A c i arg2 harg2 arg3 harg3 arg4 harg4 arg5 harg5 arg6 harg6 arg7 harg7 hc0 hc1 x0 x1 x2).2.2.1, y ∈ pc.1.set :=
  View.cover_of_tiledL (kernelRun4_A c i arg2 harg2 arg3 harg3 arg4 harg4 arg5 harg5 arg6 harg6 arg7 harg7 hc0 hc1 x0 x1 x2).2.2.1 S2048x16.size (by sl_kernel_rfl) y
/-- What case A leaves in the accumulator. -/
def sout4_A_0 (c : Dev nD) (i : grid4.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond4_0 i) (hc1 : ¬cond4_1 i)
    (x0 : Vec F S2048x2048 .bf16) (x1 : Vec F S2048x16 .bf16) (x2 : Vec F S2048x16 .f32) : Vec F S2048x16 .f32 :=
  VS4_0.read (Elt F) (VS4_0.writes (Elt F) VS4_0.junk (kernelRun4_A c i arg2 harg2 arg3 harg3 arg4 harg4 arg5 harg5 arg6 harg6 arg7 harg7 hc0 hc1 x0 x1 x2).2.2.1)

/-- Case B's piece for the accumulator covers it. -/
theorem scover4_B_0 (c : Dev nD) (i : grid4.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond4_0 i) (hc1 : ¬cond4_1 i)
    (x0 : Vec F S2048x2048 .bf16) (x1 : Vec F S2048x16 .bf16) (x2 : Vec F S2048x16 .f32) (xs0 : Vec F S2048x16 .f32) (y : S2048x16.Idx) :
    ∃ pc ∈ (kernelRun4_B c i arg2 harg2 arg3 harg3 arg4 harg4 arg5 harg5 arg6 harg6 arg7 harg7 hc0 hc1 x0 x1 x2 xs0).2.2.1, y ∈ pc.1.set :=
  View.cover_of_tiledL (kernelRun4_B c i arg2 harg2 arg3 harg3 arg4 harg4 arg5 harg5 arg6 harg6 arg7 harg7 hc0 hc1 x0 x1 x2 xs0).2.2.1 S2048x16.size (by sl_kernel_rfl) y
/-- What case B leaves in the accumulator. -/
def sout4_B_0 (c : Dev nD) (i : grid4.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond4_0 i) (hc1 : ¬cond4_1 i)
    (x0 : Vec F S2048x2048 .bf16) (x1 : Vec F S2048x16 .bf16) (x2 : Vec F S2048x16 .f32) (xs0 : Vec F S2048x16 .f32) : Vec F S2048x16 .f32 :=
  VS4_0.read (Elt F) (VS4_0.writes (Elt F) VS4_0.junk (kernelRun4_B c i arg2 harg2 arg3 harg3 arg4 harg4 arg5 harg5 arg6 harg6 arg7 harg7 hc0 hc1 x0 x1 x2 xs0).2.2.1)

/-- Case C's pieces cover the f32 result block, -/
theorem cover4_C_3 (c : Dev nD) (i : grid4.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond4_0 i) (hc1 : cond4_1 i)
    (x0 : Vec F S2048x2048 .bf16) (x1 : Vec F S2048x16 .bf16) (x2 : Vec F S2048x16 .f32) (xs0 : Vec F S2048x16 .f32) (y : S2048x16.Idx) :
    ∃ pc ∈ (kernelRun4_C c i arg2 harg2 arg3 harg3 arg4 harg4 arg5 harg5 arg6 harg6 arg7 harg7 hc0 hc1 x0 x1 x2 xs0).1, y ∈ pc.1.set :=
  View.cover_of_tiledL (kernelRun4_C c i arg2 harg2 arg3 harg3 arg4 harg4 arg5 harg5 arg6 harg6 arg7 harg7 hc0 hc1 x0 x1 x2 xs0).1 S2048x16.size (by sl_kernel_rfl) y
/-- the bf16 result block, -/
theorem cover4_C_4 (c : Dev nD) (i : grid4.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond4_0 i) (hc1 : cond4_1 i)
    (x0 : Vec F S2048x2048 .bf16) (x1 : Vec F S2048x16 .bf16) (x2 : Vec F S2048x16 .f32) (xs0 : Vec F S2048x16 .f32) (y : S2048x16.Idx) :
    ∃ pc ∈ (kernelRun4_C c i arg2 harg2 arg3 harg3 arg4 harg4 arg5 harg5 arg6 harg6 arg7 harg7 hc0 hc1 x0 x1 x2 xs0).2.1, y ∈ pc.1.set :=
  View.cover_of_tiledL (kernelRun4_C c i arg2 harg2 arg3 harg3 arg4 harg4 arg5 harg5 arg6 harg6 arg7 harg7 hc0 hc1 x0 x1 x2 xs0).2.1 S2048x16.size (by sl_kernel_rfl) y
/-- and the accumulator. -/
theorem scover4_C_0 (c : Dev nD) (i : grid4.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond4_0 i) (hc1 : cond4_1 i)
    (x0 : Vec F S2048x2048 .bf16) (x1 : Vec F S2048x16 .bf16) (x2 : Vec F S2048x16 .f32) (xs0 : Vec F S2048x16 .f32) (y : S2048x16.Idx) :
    ∃ pc ∈ (kernelRun4_C c i arg2 harg2 arg3 harg3 arg4 harg4 arg5 harg5 arg6 harg6 arg7 harg7 hc0 hc1 x0 x1 x2 xs0).2.2.1, y ∈ pc.1.set :=
  View.cover_of_tiledL (kernelRun4_C c i arg2 harg2 arg3 harg3 arg4 harg4 arg5 harg5 arg6 harg6 arg7 harg7 hc0 hc1 x0 x1 x2 xs0).2.2.1 S2048x16.size (by sl_kernel_rfl) y
/-- What case C leaves in the f32 result block, -/
def out4_C_3 (c : Dev nD) (i : grid4.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond4_0 i) (hc1 : cond4_1 i)
    (x0 : Vec F S2048x2048 .bf16) (x1 : Vec F S2048x16 .bf16) (x2 : Vec F S2048x16 .f32) (xs0 : Vec F S2048x16 .f32) : Vec F S2048x16 .f32 :=
  VO4_3.read (Elt F) (VO4_3.writes (Elt F) VO4_3.junk (kernelRun4_C c i arg2 harg2 arg3 harg3 arg4 harg4 arg5 harg5 arg6 harg6 arg7 harg7 hc0 hc1 x0 x1 x2 xs0).1)
/-- in the bf16 result block, -/
def out4_C_4 (c : Dev nD) (i : grid4.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond4_0 i) (hc1 : cond4_1 i)
    (x0 : Vec F S2048x2048 .bf16) (x1 : Vec F S2048x16 .bf16) (x2 : Vec F S2048x16 .f32) (xs0 : Vec F S2048x16 .f32) : Vec F S2048x16 .bf16 :=
  VO4_4.read (Elt F) (VO4_4.writes (Elt F) VO4_4.junk (kernelRun4_C c i arg2 harg2 arg3 harg3 arg4 harg4 arg5 harg5 arg6 harg6 arg7 harg7 hc0 hc1 x0 x1 x2 xs0).2.1)
/-- and in the accumulator. -/
def sout4_C_0 (c : Dev nD) (i : grid4.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond4_0 i) (hc1 : cond4_1 i)
    (x0 : Vec F S2048x2048 .bf16) (x1 : Vec F S2048x16 .bf16) (x2 : Vec F S2048x16 .f32) (xs0 : Vec F S2048x16 .f32) : Vec F S2048x16 .f32 :=
  VS4_0.read (Elt F) (VS4_0.writes (Elt F) VS4_0.junk (kernelRun4_C c i arg2 harg2 arg3 harg3 arg4 harg4 arg5 harg5 arg6 harg6 arg7 harg7 hc0 hc1 x0 x1 x2 xs0).2.2.1)

/-- What the two result blocks' staging buffers and the accumulator hold after the body at position `n`: the case
    the position selects, run at the point's blocks, cases B and C over the accumulator the point before left. -/
def outsAt4 (c : Dev nD) : (n : ℕ) → n < cfg4.N → Vec F S2048x16 .f32 × Vec F S2048x16 .bf16 × Vec F S2048x16 .f32
  | 0, hn => ((VO4_3.read (Elt F) VO4_3.junk), (VO4_4.read (Elt F) VO4_4.junk), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩))
  | n + 1, hn =>
    if h0 : (n + 1) % 8 = 0 then
      if h1 : (n + 1) % 8 = 7 then
        False.elim (by omega)
      else
        ((VO4_3.read (Elt F) VO4_3.junk), (VO4_4.read (Elt F) VO4_4.junk), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩))
    else
      if h1 : (n + 1) % 8 = 7 then
        (out4_C_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2, out4_C_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2)
      else
        ((VO4_3.read (Elt F) VO4_3.junk), (VO4_4.read (Elt F) VO4_4.junk), sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2.2)

theorem outsAt4_A (c : Dev nD) (t : Fin cfg4.N) (h0 : t.val % 8 = 0) (h1 : ¬t.val % 8 = 7) :
    outsAt4 V c t.val t.isLt = ((VO4_3.read (Elt F) VO4_3.junk), (VO4_4.read (Elt F) VO4_4.junk), sout4_A_0 c (grid4.coords t) (ms4_0 t) (hs4_0 t) (ms4_1 t) (hs4_1 t) (ms4_2 t) (hs4_2 t) (ms4_3 t) (hs4_3 t) (ms4_4 t) (hs4_4 t) scM4_0 (Memref.isWhole_whole _) ((hcond4_0 t).mpr h0) (fun h => h1 ((hcond4_1 t).mp h)) (iblk4 V c 0 t) (iblk4 V c 1 t) (iblk4 V c 2 t)) := by
  obtain ⟨n, hn⟩ := t
  cases n with
  | zero => exact rfl
  | succ n => exact (dif_pos h0).trans ((dif_neg h1).trans rfl)

theorem outsAt4_B (c : Dev nD) (t : Fin cfg4.N) (h0 : ¬t.val % 8 = 0) (h1 : ¬t.val % 8 = 7) :
    outsAt4 V c t.val t.isLt = ((VO4_3.read (Elt F) VO4_3.junk), (VO4_4.read (Elt F) VO4_4.junk), sout4_B_0 c (grid4.coords t) (ms4_0 t) (hs4_0 t) (ms4_1 t) (hs4_1 t) (ms4_2 t) (hs4_2 t) (ms4_3 t) (hs4_3 t) (ms4_4 t) (hs4_4 t) scM4_0 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt4_C (c : Dev nD) (t : Fin cfg4.N) (h0 : ¬t.val % 8 = 0) (h1 : t.val % 8 = 7) :
    outsAt4 V c t.val t.isLt = (out4_C_3 c (grid4.coords t) (ms4_0 t) (hs4_0 t) (ms4_1 t) (hs4_1 t) (ms4_2 t) (hs4_2 t) (ms4_3 t) (hs4_3 t) (ms4_4 t) (hs4_4 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2, out4_C_4 c (grid4.coords t) (ms4_0 t) (hs4_0 t) (ms4_1 t) (hs4_1 t) (ms4_2 t) (hs4_2 t) (ms4_3 t) (hs4_3 t) (ms4_4 t) (hs4_4 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2, sout4_C_0 c (grid4.coords t) (ms4_0 t) (hs4_0 t) (ms4_1 t) (hs4_1 t) (ms4_2 t) (hs4_2 t) (ms4_3 t) (hs4_3 t) (ms4_4 t) (hs4_4 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The scoped buffers of the program other than this region's staging buffers and its accumulator. -/
abbrev RB4 (c : Dev nD) : sProp 𝕄 :=
  Pipeline.scopedRestBut (Ix := Unit) (Name := ℕ) (U := UR sig nD τ) (Lvl := ℕ) (Val := Elt F) spec4 c [cc4_scratch0]

/-- The region invariant before position `n`: at the first point every scoped buffer outside the staging buffers at
    anything; afterwards the accumulator at what the point before left in it. -/
def PhiS4 (c : Dev nD) : (n : ℕ) → n ≤ cfg4.N → sProp 𝕄
  | 0, _ => Pipeline.ΦA spec4 c
  | n + 1, hn => iprop((iprop(owns (c : Thread nD τ) scM4_0 fullShare ((outsAt4 V c n hn).2.2)) ∗ RB4 c) ∗ (∃ r, prngReg c r))

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop((iprop(owns (c : Thread nD τ) scM4_0 fullShare ((outsAt4 V c n hn).2.2)) ∗ RB4 c) ∗ (∃ r, prngReg c r)) := rfl
theorem PhiS4_pos (c : Dev nD) (n : ℕ) (h : n ≤ cfg4.N) (hz : n ≠ 0) :
    PhiS4 V c n h = iprop((iprop(owns (c : Thread nD τ) scM4_0 fullShare ((outsAt4 V c (n - 1) (by omega)).2.2)) ∗ RB4 c) ∗ (∃ r, prngReg c r)) := by
  cases n with
  | zero => exact absurd rfl hz
  | succ n => rfl

/-- The first point's invariant with the accumulator split out, owned at some contents. -/
theorem PhiA4_eq (c : Dev nD) :
    (Pipeline.ΦA spec4 c : sProp 𝕄)
      = iprop((iprop((∃ d, owns (c : Thread nD τ) scM4_0 fullShare d)) ∗ RB4 c) ∗ (∃ r, prngReg c r)) := by
  unfold Pipeline.ΦA; rw [scopedRest4_split]; simp only [scM4_0, owns_whole]; try rfl

/-- The proof data of region 4's pipeline on core `c`: the arrays as the region finds them; after the body at
    point `t` each input's buffer at its block and the results' at `outsAt4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
    | ⟨4, _⟩ => (outsAt4 V c t.val t.isLt).2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]
theorem after4_4 (c : Dev nD) (t : Fin cfg4.N) : (dat4 V c).after 4 t = (outsAt4 V c t.val t.isLt).2.1 := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))
/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 8000000 in
/-- The body at any point: the inputs' buffers hold their blocks; the position says which case the point is in; the
    invariant hands the body the accumulator at what the point before left (at anything at the first point) and takes
    it back at this point's contents; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  have hN : t.val < 64 := lt_of_lt_of_eq t.isLt (show cfg4.N = 64 from N_4)
  rw [show (dat4 V c).leavesExact 0 t = owns (c : Thread nD τ) (ms4_0 t) fullShare ((dat4 V c).after 0 t) from by
      unfold Dat.leavesExact; rw [liveAt4_0 t], after4_0]
  rw [show (dat4 V c).leavesExact 1 t = owns (c : Thread nD τ) (ms4_1 t) fullShare ((dat4 V c).after 1 t) from by
      unfold Dat.leavesExact; rw [liveAt4_1 t], after4_1]
  rw [show (dat4 V c).leavesExact 2 t = owns (c : Thread nD τ) (ms4_2 t) fullShare ((dat4 V c).after 2 t) from by
      unfold Dat.leavesExact; rw [liveAt4_2 t], after4_2]
  by_cases h0 : t.val % 8 = 0
  · have h1 : ¬t.val % 8 = 7 := by omega
    rw [Dat.leavesExact_idle (dat4 V c) 3 t (idleAt4_3 t (fun h => h1 ((hcond4_1 t).mp h))) (noFlush4_3 t (fun h => h1 ((hcond4_1 t).mp h)))]
    rw [Dat.leavesExact_idle (dat4 V c) 4 t (idleAt4_4 t (fun h => h1 ((hcond4_1 t).mp h))) (noFlush4_4 t (fun h => h1 ((hcond4_1 t).mp h)))]
    rw [outsAt4_A V c t h0 h1]
    unfold sout4_A_0; (try dsimp only)
    by_cases hz : t.val = 0
    · rw [PhiS4_castSucc V c t, PhiS4_zero V c _ _ hz, PhiA4_eq]
      iintro ⟨⟨⟨HS0, HR⟩, Hg⟩, Ho, ⟨%d0, H0⟩, ⟨%d1, H1⟩, ⟨%d2, H2⟩, ⟨%d3, H3⟩, ⟨%d4, H4⟩⟩
      iapply ((kernelRun4_A c (grid4.coords t) _ _ _ _ _ _ _ _ _ _ _ _ ((hcond4_0 t).mpr h0) (fun h => h1 ((hcond4_1 t).mp h)) (iblk4 V c 0 t) (iblk4 V c 1 t) (iblk4 V c 2 t)).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
    · rw [PhiS4_castSucc V c t, PhiS4_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun4_A c (grid4.coords t) _ _ _ _ _ _ _ _ _ _ _ _ ((hcond4_0 t).mpr h0) (fun h => h1 ((hcond4_1 t).mp h)) (iblk4 V c 0 t) (iblk4 V c 1 t) (iblk4 V c 2 t)).2.2.2 _ _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun h => h0 (by rw [h])
    by_cases h1 : t.val % 8 = 7
    · rw [show (dat4 V c).leavesExact 3 t = owns (c : Thread nD τ) (ms4_3 t) fullShare ((dat4 V c).after 3 t) from by
        unfold Dat.leavesExact; rw [liveAt4_3 t ((hcond4_1 t).mpr h1)], after4_3]
      rw [show (dat4 V c).leavesExact 4 t = owns (c : Thread nD τ) (ms4_4 t) fullShare ((dat4 V c).after 4 t) from by
        unfold Dat.leavesExact; rw [liveAt4_4 t ((hcond4_1 t).mpr h1)], after4_4]
      rw [outsAt4_C V c t h0 h1]
      unfold out4_C_3 out4_C_4 sout4_C_0; (try dsimp only)
      rw [PhiS4_castSucc V c t, PhiS4_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun4_C c (grid4.coords t) _ _ _ _ _ _ _ _ _ _ _ _ (fun h => h0 ((hcond4_0 t).mp h)) ((hcond4_1 t).mpr h1) (iblk4 V c 0 t) (iblk4 V c 1 t) (iblk4 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_C_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover4_C_3 c _ _ _ _ _ _ _ _ _ _ _ _ _ _ _ _ _ _ _)
      unfold owns; iexists _; isplitr
      swap; · iexact H4
      ipureintro; exact View.read_writes_of_cover _ _ _ _ _ (cover4_C_4 c _ _ _ _ _ _ _ _ _ _ _ _ _ _ _ _ _ _ _)
    · rw [Dat.leavesExact_idle (dat4 V c) 3 t (idleAt4_3 t (fun h => h1 ((hcond4_1 t).mp h))) (noFlush4_3 t (fun h => h1 ((hcond4_1 t).mp h)))]
      rw [Dat.leavesExact_idle (dat4 V c) 4 t (idleAt4_4 t (fun h => h1 ((hcond4_1 t).mp h))) (noFlush4_4 t (fun h => h1 ((hcond4_1 t).mp h)))]
      rw [outsAt4_B V c t h0 h1]
      unfold sout4_B_0; (try dsimp only)
      rw [PhiS4_castSucc V c t, PhiS4_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun4_B c (grid4.coords t) _ _ _ _ _ _ _ _ _ _ _ _ (fun h => h0 ((hcond4_0 t).mp h)) (fun h => h1 ((hcond4_1 t).mp h)) (iblk4 V c 0 t) (iblk4 V c 1 t) (iblk4 V c 2 t) _).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_B_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4

/-- The body obligation of region 4, at every point. -/
theorem body_obligation4 (c : Dev nD) : BodyObligation (dat4 (F := F) V c) (defs₀ (F := F)) Variants.none () Set.univ := fun t => by
  rw [bigSep_W4, bigSep_W4]
  exact sound_body4 V c t

/-- What the region is entered with is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the scoped buffers back: what the accumulator holds is forgotten. -/
theorem hout4 (c : Dev nD) : (dat4 V c).Φ (Fin.last cfg4.N) ⊢ Pipeline.ΦA spec4 c := by
  have ht : (Fin.last cfg4.N).val ≠ 0 := by rw [Fin.val_last]; have : cfg4.N = 64 := N_4; omega
  rw [show (dat4 V c).Φ (Fin.last cfg4.N) = PhiS4 V c (Fin.last cfg4.N).val (Nat.le_of_lt_succ (Fin.last cfg4.N).isLt) from rfl,
    PhiS4_pos V c _ _ ht, PhiA4_eq]
  iintro ⟨⟨HS0, HR⟩, Hg⟩
  isplitl [HS0 HR]
  · isplitl [HS0]
    · iexists _; iexact HS0
    iexact HR
  iexact Hg

end Cert.KernelIdeal.Hand

end
-- ==== Proof.RegI5Run.lean ====
/-
  Region 5 of the program (the recurrence step 2·(Ls·T) − T′): the kernel body run once per control case.
  The grid is 8 × 8; a point t = 8·r + k handles row block r and column block k of Ls. The body zeroes the
  accumulator when k = 0 (case A), adds the block product Ls[r,k]·v[k] to it at every point, and when k = 7
  (case C) stores the combination of the accumulator and the block of the earlier vector into both result
  blocks; at 0 < k < 7 (case B) it only accumulates. Each run states what the body's stores leave in the
  accumulator and in the result blocks, as the list of stored pieces.
-/
import proofs.«108570_j29480655520371_2_alg».proof.Proof.Gen.KernelIdeal.Launch
import proofs.«108570_j29480655520371_2_alg».proof.Proof.Gen.KernelIdeal.Skeleton
import proofs.«108570_j29480655520371_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, fetched there or not. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block at every point, fetched there or not. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- k = 0: the accumulator is zeroed first. -/
abbrev cond5_0 (i : grid5.Coords) : Prop := (Scalar.cmpi .ne (Scalar.extui (Scalar.cmpi .eq (BitVec.ofNat 32 (i 1).val) 0#32)) 0#32) = 1#1
theorem hcond5_0 : ∀ t : Fin cfg5.N, cond5_0 (grid5.coords t) ↔ t.val % 8 = 0 :=
  (by decide +kernel : ∀ t : Fin grid5.N, cond5_0 (grid5.coords t) ↔ t.val % 8 = 0)
/-- k = 7: the results are stored. -/
abbrev cond5_1 (i : grid5.Coords) : Prop := k5_cond2 i = 1#1
theorem hcond5_1 : ∀ t : Fin cfg5.N, cond5_1 (grid5.coords t) ↔ t.val % 8 = 7 :=
  (by decide +kernel : ∀ t : Fin grid5.N, cond5_1 (grid5.coords t) ↔ t.val % 8 = 7)

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
theorem idleAt5_3 : ∀ t : Fin cfg5.N, ¬cond5_1 (grid5.coords t) → cfg5.idle 3 (grid5.coords t) = true := by decide +kernel
theorem noFlush5_3 : ∀ t : Fin cfg5.N, ¬cond5_1 (grid5.coords t) → (cfg5.win 3).flush t = false := by decide +kernel
theorem liveAt5_3 : ∀ t : Fin cfg5.N, cond5_1 (grid5.coords t) → cfg5.idle 3 (grid5.coords t) = false := by decide +kernel
theorem idleAt5_4 : ∀ t : Fin cfg5.N, ¬cond5_1 (grid5.coords t) → cfg5.idle 4 (grid5.coords t) = true := by decide +kernel
theorem noFlush5_4 : ∀ t : Fin cfg5.N, ¬cond5_1 (grid5.coords t) → (cfg5.win 4).flush t = false := by decide +kernel
theorem liveAt5_4 : ∀ t : Fin cfg5.N, cond5_1 (grid5.coords t) → cfg5.idle 4 (grid5.coords t) = false := by decide +kernel

/-- One staging buffer of each result window, through which its contents are stated. -/
abbrev VO5_3 : View sig .tc .vmem S2048x16 .f32 := (Memref.whole cc5_stg3_0 : Memref sig .tc .vmem S2048x16 .f32).view
abbrev VO5_4 : View sig .tc .vmem S2048x16 .bf16 := (Memref.whole cc5_stg4_0 : Memref sig .tc .vmem S2048x16 .bf16).view
abbrev ms5_0 (t : Fin cfg5.N) : Memref sig .tc .vmem S2048x2048 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S2048x16 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S2048x16 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S2048x16 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S2048x16 .bf16 := win5_4.stage (cfg5.slots t 4)
abbrev hs5_4 (t : Fin cfg5.N) : (ms5_4 t).IsWhole := hstage5_4 ((cfg5.slots t 4).cast nbuf5_4)
/-- The accumulator: a whole scoped buffer of the kernel's own. -/
abbrev scM5_0 : Memref sig .tc .vmem S2048x16 .f32 := Memref.whole cc5_scratch0
abbrev VS5_0 : View sig .tc .vmem S2048x16 .f32 := scM5_0.view

set_option maxHeartbeats 4000000 in
/-- Case A (k = 0): the accumulator, at anything, is zeroed and then receives the first block product; the result
    blocks are handed back untouched. -/
noncomputable def kernelRun5_A (c : Dev nD) (i : grid5.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond5_0 i) (hc1 : ¬cond5_1 i)
    (x0 : Vec F S2048x2048 .bf16) (x1 : Vec F S2048x16 .bf16) (x2 : Vec F S2048x16 .f32) :
    Σ' (L3 : List (View.Piece (Elt F) S2048x16 .f32)) (L4 : List (View.Piece (Elt F) S2048x16 .bf16)), { LS0 : List (View.Piece (Elt F) S2048x16 .f32) //
      ∀ (xi3 : Vec F S2048x16 .f32) (xi4 : Vec F S2048x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc5__matmul_combine_kernel i arg2 harg2 arg3 harg3 arg4 harg4 arg5 harg5 arg6 harg6 arg7 harg7) K } := by
  refine ⟨[], [], ?_, fun xi3 xi4 E K => ?run⟩
  case run =>
    simp only [cc5__matmul_combine_kernel_eq_skeleton]; unfold cc5__matmul_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case B (0 < k < 7): the accumulator, at what the point before left, receives one more block product; the result
    blocks are handed back untouched. -/
noncomputable def kernelRun5_B (c : Dev nD) (i : grid5.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond5_0 i) (hc1 : ¬cond5_1 i)
    (x0 : Vec F S2048x2048 .bf16) (x1 : Vec F S2048x16 .bf16) (x2 : Vec F S2048x16 .f32) (xs0 : Vec F S2048x16 .f32) :
    Σ' (L3 : List (View.Piece (Elt F) S2048x16 .f32)) (L4 : List (View.Piece (Elt F) S2048x16 .bf16)), { LS0 : List (View.Piece (Elt F) S2048x16 .f32) //
      ∀ (xi3 : Vec F S2048x16 .f32) (xi4 : Vec F S2048x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc5__matmul_combine_kernel i arg2 harg2 arg3 harg3 arg4 harg4 arg5 harg5 arg6 harg6 arg7 harg7) K } := by
  refine ⟨[], [], ?_, fun xi3 xi4 E K => ?run⟩
  case run =>
    simp only [cc5__matmul_combine_kernel_eq_skeleton]; unfold cc5__matmul_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case C (k = 7): the accumulator receives the last block product, and both result blocks, at anything, are stored
    whole with the combination of the accumulator and the block of the earlier vector. -/
noncomputable def kernelRun5_C (c : Dev nD) (i : grid5.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond5_0 i) (hc1 : cond5_1 i)
    (x0 : Vec F S2048x2048 .bf16) (x1 : Vec F S2048x16 .bf16) (x2 : Vec F S2048x16 .f32) (xs0 : Vec F S2048x16 .f32) :
    Σ' (L3 : List (View.Piece (Elt F) S2048x16 .f32)) (L4 : List (View.Piece (Elt F) S2048x16 .bf16)), { LS0 : List (View.Piece (Elt F) S2048x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc5__matmul_combine_kernel i arg2 harg2 arg3 harg3 arg4 harg4 arg5 harg5 arg6 harg6 arg7 harg7) K } := by
  refine ⟨?_, ?_, ?_, fun E K => ?run⟩
  case run =>
    simp only [cc5__matmul_combine_kernel_eq_skeleton]; unfold cc5__matmul_combine_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.KernelIdeal.Hand

end
-- ==== Proof.RegI5Frame.lean ====
/-
  Region 5: what its result blocks and its accumulator hold after every grid point, the proof data of its pipeline,
  and the body obligation. After point t = 8·r + k the accumulator holds the sum of the block products
  Ls[r,0]·v[0] + … + Ls[r,k]·v[k] (case A starts it from zero, cases B and C continue from what the point before
  left); the result blocks are written at k = 7 only and written back to their arrays right after that point, so at
  the other points their staging buffers are idle and what they hold is never consulted.
-/
import proofs.«108570_j29480655520371_2_alg».proof.Proof.RegI5Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's piece for the accumulator covers it. -/
theorem scover5_A_0 (c : Dev nD) (i : grid5.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond5_0 i) (hc1 : ¬cond5_1 i)
    (x0 : Vec F S2048x2048 .bf16) (x1 : Vec F S2048x16 .bf16) (x2 : Vec F S2048x16 .f32) (y : S2048x16.Idx) :
    ∃ pc ∈ (kernelRun5_A c i arg2 harg2 arg3 harg3 arg4 harg4 arg5 harg5 arg6 harg6 arg7 harg7 hc0 hc1 x0 x1 x2).2.2.1, y ∈ pc.1.set :=
  View.cover_of_tiledL (kernelRun5_A c i arg2 harg2 arg3 harg3 arg4 harg4 arg5 harg5 arg6 harg6 arg7 harg7 hc0 hc1 x0 x1 x2).2.2.1 S2048x16.size (by sl_kernel_rfl) y
/-- What case A leaves in the accumulator. -/
def sout5_A_0 (c : Dev nD) (i : grid5.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond5_0 i) (hc1 : ¬cond5_1 i)
    (x0 : Vec F S2048x2048 .bf16) (x1 : Vec F S2048x16 .bf16) (x2 : Vec F S2048x16 .f32) : Vec F S2048x16 .f32 :=
  VS5_0.read (Elt F) (VS5_0.writes (Elt F) VS5_0.junk (kernelRun5_A c i arg2 harg2 arg3 harg3 arg4 harg4 arg5 harg5 arg6 harg6 arg7 harg7 hc0 hc1 x0 x1 x2).2.2.1)

/-- Case B's piece for the accumulator covers it. -/
theorem scover5_B_0 (c : Dev nD) (i : grid5.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond5_0 i) (hc1 : ¬cond5_1 i)
    (x0 : Vec F S2048x2048 .bf16) (x1 : Vec F S2048x16 .bf16) (x2 : Vec F S2048x16 .f32) (xs0 : Vec F S2048x16 .f32) (y : S2048x16.Idx) :
    ∃ pc ∈ (kernelRun5_B c i arg2 harg2 arg3 harg3 arg4 harg4 arg5 harg5 arg6 harg6 arg7 harg7 hc0 hc1 x0 x1 x2 xs0).2.2.1, y ∈ pc.1.set :=
  View.cover_of_tiledL (kernelRun5_B c i arg2 harg2 arg3 harg3 arg4 harg4 arg5 harg5 arg6 harg6 arg7 harg7 hc0 hc1 x0 x1 x2 xs0).2.2.1 S2048x16.size (by sl_kernel_rfl) y
/-- What case B leaves in the accumulator. -/
def sout5_B_0 (c : Dev nD) (i : grid5.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond5_0 i) (hc1 : ¬cond5_1 i)
    (x0 : Vec F S2048x2048 .bf16) (x1 : Vec F S2048x16 .bf16) (x2 : Vec F S2048x16 .f32) (xs0 : Vec F S2048x16 .f32) : Vec F S2048x16 .f32 :=
  VS5_0.read (Elt F) (VS5_0.writes (Elt F) VS5_0.junk (kernelRun5_B c i arg2 harg2 arg3 harg3 arg4 harg4 arg5 harg5 arg6 harg6 arg7 harg7 hc0 hc1 x0 x1 x2 xs0).2.2.1)

/-- Case C's pieces cover the f32 result block, -/
theorem cover5_C_3 (c : Dev nD) (i : grid5.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond5_0 i) (hc1 : cond5_1 i)
    (x0 : Vec F S2048x2048 .bf16) (x1 : Vec F S2048x16 .bf16) (x2 : Vec F S2048x16 .f32) (xs0 : Vec F S2048x16 .f32) (y : S2048x16.Idx) :
    ∃ pc ∈ (kernelRun5_C c i arg2 harg2 arg3 harg3 arg4 harg4 arg5 harg5 arg6 harg6 arg7 harg7 hc0 hc1 x0 x1 x2 xs0).1, y ∈ pc.1.set :=
  View.cover_of_tiledL (kernelRun5_C c i arg2 harg2 arg3 harg3 arg4 harg4 arg5 harg5 arg6 harg6 arg7 harg7 hc0 hc1 x0 x1 x2 xs0).1 S2048x16.size (by sl_kernel_rfl) y
/-- the bf16 result block, -/
theorem cover5_C_4 (c : Dev nD) (i : grid5.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond5_0 i) (hc1 : cond5_1 i)
    (x0 : Vec F S2048x2048 .bf16) (x1 : Vec F S2048x16 .bf16) (x2 : Vec F S2048x16 .f32) (xs0 : Vec F S2048x16 .f32) (y : S2048x16.Idx) :
    ∃ pc ∈ (kernelRun5_C c i arg2 harg2 arg3 harg3 arg4 harg4 arg5 harg5 arg6 harg6 arg7 harg7 hc0 hc1 x0 x1 x2 xs0).2.1, y ∈ pc.1.set :=
  View.cover_of_tiledL (kernelRun5_C c i arg2 harg2 arg3 harg3 arg4 harg4 arg5 harg5 arg6 harg6 arg7 harg7 hc0 hc1 x0 x1 x2 xs0).2.1 S2048x16.size (by sl_kernel_rfl) y
/-- and the accumulator. -/
theorem scover5_C_0 (c : Dev nD) (i : grid5.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond5_0 i) (hc1 : cond5_1 i)
    (x0 : Vec F S2048x2048 .bf16) (x1 : Vec F S2048x16 .bf16) (x2 : Vec F S2048x16 .f32) (xs0 : Vec F S2048x16 .f32) (y : S2048x16.Idx) :
    ∃ pc ∈ (kernelRun5_C c i arg2 harg2 arg3 harg3 arg4 harg4 arg5 harg5 arg6 harg6 arg7 harg7 hc0 hc1 x0 x1 x2 xs0).2.2.1, y ∈ pc.1.set :=
  View.cover_of_tiledL (kernelRun5_C c i arg2 harg2 arg3 harg3 arg4 harg4 arg5 harg5 arg6 harg6 arg7 harg7 hc0 hc1 x0 x1 x2 xs0).2.2.1 S2048x16.size (by sl_kernel_rfl) y
/-- What case C leaves in the f32 result block, -/
def out5_C_3 (c : Dev nD) (i : grid5.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond5_0 i) (hc1 : cond5_1 i)
    (x0 : Vec F S2048x2048 .bf16) (x1 : Vec F S2048x16 .bf16) (x2 : Vec F S2048x16 .f32) (xs0 : Vec F S2048x16 .f32) : Vec F S2048x16 .f32 :=
  VO5_3.read (Elt F) (VO5_3.writes (Elt F) VO5_3.junk (kernelRun5_C c i arg2 harg2 arg3 harg3 arg4 harg4 arg5 harg5 arg6 harg6 arg7 harg7 hc0 hc1 x0 x1 x2 xs0).1)
/-- in the bf16 result block, -/
def out5_C_4 (c : Dev nD) (i : grid5.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond5_0 i) (hc1 : cond5_1 i)
    (x0 : Vec F S2048x2048 .bf16) (x1 : Vec F S2048x16 .bf16) (x2 : Vec F S2048x16 .f32) (xs0 : Vec F S2048x16 .f32) : Vec F S2048x16 .bf16 :=
  VO5_4.read (Elt F) (VO5_4.writes (Elt F) VO5_4.junk (kernelRun5_C c i arg2 harg2 arg3 harg3 arg4 harg4 arg5 harg5 arg6 harg6 arg7 harg7 hc0 hc1 x0 x1 x2 xs0).2.1)
/-- and in the accumulator. -/
def sout5_C_0 (c : Dev nD) (i : grid5.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond5_0 i) (hc1 : cond5_1 i)
    (x0 : Vec F S2048x2048 .bf16) (x1 : Vec F S2048x16 .bf16) (x2 : Vec F S2048x16 .f32) (xs0 : Vec F S2048x16 .f32) : Vec F S2048x16 .f32 :=
  VS5_0.read (Elt F) (VS5_0.writes (Elt F) VS5_0.junk (kernelRun5_C c i arg2 harg2 arg3 harg3 arg4 harg4 arg5 harg5 arg6 harg6 arg7 harg7 hc0 hc1 x0 x1 x2 xs0).2.2.1)

/-- What the two result blocks' staging buffers and the accumulator hold after the body at position `n`: the case
    the position selects, run at the point's blocks, cases B and C over the accumulator the point before left. -/
def outsAt5 (c : Dev nD) : (n : ℕ) → n < cfg5.N → Vec F S2048x16 .f32 × Vec F S2048x16 .bf16 × Vec F S2048x16 .f32
  | 0, hn => ((VO5_3.read (Elt F) VO5_3.junk), (VO5_4.read (Elt F) VO5_4.junk), sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩))
  | n + 1, hn =>
    if h0 : (n + 1) % 8 = 0 then
      if h1 : (n + 1) % 8 = 7 then
        False.elim (by omega)
      else
        ((VO5_3.read (Elt F) VO5_3.junk), (VO5_4.read (Elt F) VO5_4.junk), sout5_A_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩))
    else
      if h1 : (n + 1) % 8 = 7 then
        (out5_C_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (outsAt5 c n (Nat.lt_of_succ_lt hn)).2.2, out5_C_4 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (outsAt5 c n (Nat.lt_of_succ_lt hn)).2.2, sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (outsAt5 c n (Nat.lt_of_succ_lt hn)).2.2)
      else
        ((VO5_3.read (Elt F) VO5_3.junk), (VO5_4.read (Elt F) VO5_4.junk), sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (outsAt5 c n (Nat.lt_of_succ_lt hn)).2.2)

theorem outsAt5_A (c : Dev nD) (t : Fin cfg5.N) (h0 : t.val % 8 = 0) (h1 : ¬t.val % 8 = 7) :
    outsAt5 V c t.val t.isLt = ((VO5_3.read (Elt F) VO5_3.junk), (VO5_4.read (Elt F) VO5_4.junk), sout5_A_0 c (grid5.coords t) (ms5_0 t) (hs5_0 t) (ms5_1 t) (hs5_1 t) (ms5_2 t) (hs5_2 t) (ms5_3 t) (hs5_3 t) (ms5_4 t) (hs5_4 t) scM5_0 (Memref.isWhole_whole _) ((hcond5_0 t).mpr h0) (fun h => h1 ((hcond5_1 t).mp h)) (iblk5 V c 0 t) (iblk5 V c 1 t) (iblk5 V c 2 t)) := by
  obtain ⟨n, hn⟩ := t
  cases n with
  | zero => exact rfl
  | succ n => exact (dif_pos h0).trans ((dif_neg h1).trans rfl)

theorem outsAt5_B (c : Dev nD) (t : Fin cfg5.N) (h0 : ¬t.val % 8 = 0) (h1 : ¬t.val % 8 = 7) :
    outsAt5 V c t.val t.isLt = ((VO5_3.read (Elt F) VO5_3.junk), (VO5_4.read (Elt F) VO5_4.junk), sout5_B_0 c (grid5.coords t) (ms5_0 t) (hs5_0 t) (ms5_1 t) (hs5_1 t) (ms5_2 t) (hs5_2 t) (ms5_3 t) (hs5_3 t) (ms5_4 t) (hs5_4 t) scM5_0 (Memref.isWhole_whole _) (fun h => h0 ((hcond5_0 t).mp h)) (fun h => h1 ((hcond5_1 t).mp h)) (iblk5 V c 0 t) (iblk5 V c 1 t) (iblk5 V c 2 t) (outsAt5 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt5_C (c : Dev nD) (t : Fin cfg5.N) (h0 : ¬t.val % 8 = 0) (h1 : t.val % 8 = 7) :
    outsAt5 V c t.val t.isLt = (out5_C_3 c (grid5.coords t) (ms5_0 t) (hs5_0 t) (ms5_1 t) (hs5_1 t) (ms5_2 t) (hs5_2 t) (ms5_3 t) (hs5_3 t) (ms5_4 t) (hs5_4 t) scM5_0 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2.2, out5_C_4 c (grid5.coords t) (ms5_0 t) (hs5_0 t) (ms5_1 t) (hs5_1 t) (ms5_2 t) (hs5_2 t) (ms5_3 t) (hs5_3 t) (ms5_4 t) (hs5_4 t) scM5_0 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2.2, sout5_C_0 c (grid5.coords t) (ms5_0 t) (hs5_0 t) (ms5_1 t) (hs5_1 t) (ms5_2 t) (hs5_2 t) (ms5_3 t) (hs5_3 t) (ms5_4 t) (hs5_4 t) scM5_0 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The scoped buffers of the program other than this region's staging buffers and its accumulator. -/
abbrev RB5 (c : Dev nD) : sProp 𝕄 :=
  Pipeline.scopedRestBut (Ix := Unit) (Name := ℕ) (U := UR sig nD τ) (Lvl := ℕ) (Val := Elt F) spec5 c [cc5_scratch0]

/-- The region invariant before position `n`: at the first point every scoped buffer outside the staging buffers at
    anything; afterwards the accumulator at what the point before left in it. -/
def PhiS5 (c : Dev nD) : (n : ℕ) → n ≤ cfg5.N → sProp 𝕄
  | 0, _ => Pipeline.ΦA spec5 c
  | n + 1, hn => iprop((iprop(owns (c : Thread nD τ) scM5_0 fullShare ((outsAt5 V c n hn).2.2)) ∗ RB5 c) ∗ (∃ r, prngReg c r))

theorem PhiS5_zero (c : Dev nD) (n : ℕ) (h : n ≤ cfg5.N) (hz : n = 0) : PhiS5 V c n h = Pipeline.ΦA spec5 c := by
  subst hz; rfl
theorem PhiS5_succ (c : Dev nD) (n : ℕ) (hn : n < cfg5.N) :
    PhiS5 V c (n + 1) hn = iprop((iprop(owns (c : Thread nD τ) scM5_0 fullShare ((outsAt5 V c n hn).2.2)) ∗ RB5 c) ∗ (∃ r, prngReg c r)) := rfl
theorem PhiS5_pos (c : Dev nD) (n : ℕ) (h : n ≤ cfg5.N) (hz : n ≠ 0) :
    PhiS5 V c n h = iprop((iprop(owns (c : Thread nD τ) scM5_0 fullShare ((outsAt5 V c (n - 1) (by omega)).2.2)) ∗ RB5 c) ∗ (∃ r, prngReg c r)) := by
  cases n with
  | zero => exact absurd rfl hz
  | succ n => rfl

/-- The first point's invariant with the accumulator split out, owned at some contents. -/
theorem PhiA5_eq (c : Dev nD) :
    (Pipeline.ΦA spec5 c : sProp 𝕄)
      = iprop((iprop((∃ d, owns (c : Thread nD τ) scM5_0 fullShare d)) ∗ RB5 c) ∗ (∃ r, prngReg c r)) := by
  unfold Pipeline.ΦA; rw [scopedRest5_split]; simp only [scM5_0, owns_whole]; try rfl

/-- The proof data of region 5's pipeline on core `c`: the arrays as the region finds them; after the body at
    point `t` each input's buffer at its block and the results' at `outsAt5`; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
    | ⟨4, _⟩ => (outsAt5 V c t.val t.isLt).2.1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]
theorem PhiS5_castSucc (c : Dev nD) (t : Fin cfg5.N) :
    (dat5 V c).Φ t.castSucc = PhiS5 V c t.val (Nat.le_of_lt t.isLt) := by
  dsimp only [dat5]; simp only [Fin.coe_castSucc]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = (outsAt5 V c t.val t.isLt).1 := by dsimp only [dat5]
theorem after5_4 (c : Dev nD) (t : Fin cfg5.N) : (dat5 V c).after 4 t = (outsAt5 V c t.val t.isLt).2.1 := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d)))
/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t)

set_option maxHeartbeats 8000000 in
/-- The body at any point: the inputs' buffers hold their blocks; the position says which case the point is in; the
    invariant hands the body the accumulator at what the point before left (at anything at the first point) and takes
    it back at this point's contents; the core owes nothing throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = PhiS5 V c (t.val + 1) t.isLt from rfl, PhiS5_succ]
  have hN : t.val < 64 := lt_of_lt_of_eq t.isLt (show cfg5.N = 64 from N_5)
  rw [show (dat5 V c).leavesExact 0 t = owns (c : Thread nD τ) (ms5_0 t) fullShare ((dat5 V c).after 0 t) from by
      unfold Dat.leavesExact; rw [liveAt5_0 t], after5_0]
  rw [show (dat5 V c).leavesExact 1 t = owns (c : Thread nD τ) (ms5_1 t) fullShare ((dat5 V c).after 1 t) from by
      unfold Dat.leavesExact; rw [liveAt5_1 t], after5_1]
  rw [show (dat5 V c).leavesExact 2 t = owns (c : Thread nD τ) (ms5_2 t) fullShare ((dat5 V c).after 2 t) from by
      unfold Dat.leavesExact; rw [liveAt5_2 t], after5_2]
  by_cases h0 : t.val % 8 = 0
  · have h1 : ¬t.val % 8 = 7 := by omega
    rw [Dat.leavesExact_idle (dat5 V c) 3 t (idleAt5_3 t (fun h => h1 ((hcond5_1 t).mp h))) (noFlush5_3 t (fun h => h1 ((hcond5_1 t).mp h)))]
    rw [Dat.leavesExact_idle (dat5 V c) 4 t (idleAt5_4 t (fun h => h1 ((hcond5_1 t).mp h))) (noFlush5_4 t (fun h => h1 ((hcond5_1 t).mp h)))]
    rw [outsAt5_A V c t h0 h1]
    unfold sout5_A_0; (try dsimp only)
    by_cases hz : t.val = 0
    · rw [PhiS5_castSucc V c t, PhiS5_zero V c _ _ hz, PhiA5_eq]
      iintro ⟨⟨⟨HS0, HR⟩, Hg⟩, Ho, ⟨%d0, H0⟩, ⟨%d1, H1⟩, ⟨%d2, H2⟩, ⟨%d3, H3⟩, ⟨%d4, H4⟩⟩
      iapply ((kernelRun5_A c (grid5.coords t) _ _ _ _ _ _ _ _ _ _ _ _ ((hcond5_0 t).mpr h0) (fun h => h1 ((hcond5_1 t).mp h)) (iblk5 V c 0 t) (iblk5 V c 1 t) (iblk5 V c 2 t)).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover5_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
    · rw [PhiS5_castSucc V c t, PhiS5_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun5_A c (grid5.coords t) _ _ _ _ _ _ _ _ _ _ _ _ ((hcond5_0 t).mpr h0) (fun h => h1 ((hcond5_1 t).mp h)) (iblk5 V c 0 t) (iblk5 V c 1 t) (iblk5 V c 2 t)).2.2.2 _ _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover5_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun h => h0 (by rw [h])
    by_cases h1 : t.val % 8 = 7
    · rw [show (dat5 V c).leavesExact 3 t = owns (c : Thread nD τ) (ms5_3 t) fullShare ((dat5 V c).after 3 t) from by
        unfold Dat.leavesExact; rw [liveAt5_3 t ((hcond5_1 t).mpr h1)], after5_3]
      rw [show (dat5 V c).leavesExact 4 t = owns (c : Thread nD τ) (ms5_4 t) fullShare ((dat5 V c).after 4 t) from by
        unfold Dat.leavesExact; rw [liveAt5_4 t ((hcond5_1 t).mpr h1)], after5_4]
      rw [outsAt5_C V c t h0 h1]
      unfold out5_C_3 out5_C_4 sout5_C_0; (try dsimp only)
      rw [PhiS5_castSucc V c t, PhiS5_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun5_C c (grid5.coords t) _ _ _ _ _ _ _ _ _ _ _ _ (fun h => h0 ((hcond5_0 t).mp h)) ((hcond5_1 t).mpr h1) (iblk5 V c 0 t) (iblk5 V c 1 t) (iblk5 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover5_C_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover5_C_3 c _ _ _ _ _ _ _ _ _ _ _ _ _ _ _ _ _ _ _)
      unfold owns; iexists _; isplitr
      swap; · iexact H4
      ipureintro; exact View.read_writes_of_cover _ _ _ _ _ (cover5_C_4 c _ _ _ _ _ _ _ _ _ _ _ _ _ _ _ _ _ _ _)
    · rw [Dat.leavesExact_idle (dat5 V c) 3 t (idleAt5_3 t (fun h => h1 ((hcond5_1 t).mp h))) (noFlush5_3 t (fun h => h1 ((hcond5_1 t).mp h)))]
      rw [Dat.leavesExact_idle (dat5 V c) 4 t (idleAt5_4 t (fun h => h1 ((hcond5_1 t).mp h))) (noFlush5_4 t (fun h => h1 ((hcond5_1 t).mp h)))]
      rw [outsAt5_B V c t h0 h1]
      unfold sout5_B_0; (try dsimp only)
      rw [PhiS5_castSucc V c t, PhiS5_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun5_B c (grid5.coords t) _ _ _ _ _ _ _ _ _ _ _ _ (fun h => h0 ((hcond5_0 t).mp h)) (fun h => h1 ((hcond5_1 t).mp h)) (iblk5 V c 0 t) (iblk5 V c 1 t) (iblk5 V c 2 t) _).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover5_B_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4

/-- The body obligation of region 5, at every point. -/
theorem body_obligation5 (c : Dev nD) : BodyObligation (dat5 (F := F) V c) (defs₀ (F := F)) Variants.none () Set.univ := fun t => by
  rw [bigSep_W5, bigSep_W5]
  exact sound_body5 V c t

/-- What the region is entered with is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After the last point the invariant gives the scoped buffers back: what the accumulator holds is forgotten. -/
theorem hout5 (c : Dev nD) : (dat5 V c).Φ (Fin.last cfg5.N) ⊢ Pipeline.ΦA spec5 c := by
  have ht : (Fin.last cfg5.N).val ≠ 0 := by rw [Fin.val_last]; have : cfg5.N = 64 := N_5; omega
  rw [show (dat5 V c).Φ (Fin.last cfg5.N) = PhiS5 V c (Fin.last cfg5.N).val (Nat.le_of_lt_succ (Fin.last cfg5.N).isLt) from rfl,
    PhiS5_pos V c _ _ ht, PhiA5_eq]
  iintro ⟨⟨HS0, HR⟩, Hg⟩
  isplitl [HS0 HR]
  · isplitl [HS0]
    · iexists _; iexact HS0
    iexact HR
  iexact Hg

end Cert.KernelIdeal.Hand

end
-- ==== Proof.RegI6Run.lean ====
/-
  Region 6 of the program (the recurrence step 2·(Ls·T) − T′): the kernel body run once per control case.
  The grid is 8 × 8; a point t = 8·r + k handles row block r and column block k of Ls. The body zeroes the
  accumulator when k = 0 (case A), adds the block product Ls[r,k]·v[k] to it at every point, and when k = 7
  (case C) stores the combination of the accumulator and the block of the earlier vector into both result
  blocks; at 0 < k < 7 (case B) it only accumulates. Each run states what the body's stores leave in the
  accumulator and in the result blocks, as the list of stored pieces.
-/
import proofs.«108570_j29480655520371_2_alg».proof.Proof.Gen.KernelIdeal.Launch
import proofs.«108570_j29480655520371_2_alg».proof.Proof.Gen.KernelIdeal.Skeleton
import proofs.«108570_j29480655520371_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1's current staging buffer holds its block at every point, fetched there or not. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- Input window 2's current staging buffer holds its block at every point, fetched there or not. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- k = 0: the accumulator is zeroed first. -/
abbrev cond6_0 (i : grid6.Coords) : Prop := (Scalar.cmpi .ne (Scalar.extui (Scalar.cmpi .eq (BitVec.ofNat 32 (i 1).val) 0#32)) 0#32) = 1#1
theorem hcond6_0 : ∀ t : Fin cfg6.N, cond6_0 (grid6.coords t) ↔ t.val % 8 = 0 :=
  (by decide +kernel : ∀ t : Fin grid6.N, cond6_0 (grid6.coords t) ↔ t.val % 8 = 0)
/-- k = 7: the results are stored. -/
abbrev cond6_1 (i : grid6.Coords) : Prop := k6_cond2 i = 1#1
theorem hcond6_1 : ∀ t : Fin cfg6.N, cond6_1 (grid6.coords t) ↔ t.val % 8 = 7 :=
  (by decide +kernel : ∀ t : Fin grid6.N, cond6_1 (grid6.coords t) ↔ t.val % 8 = 7)

theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
theorem idleAt6_3 : ∀ t : Fin cfg6.N, ¬cond6_1 (grid6.coords t) → cfg6.idle 3 (grid6.coords t) = true := by decide +kernel
theorem noFlush6_3 : ∀ t : Fin cfg6.N, ¬cond6_1 (grid6.coords t) → (cfg6.win 3).flush t = false := by decide +kernel
theorem liveAt6_3 : ∀ t : Fin cfg6.N, cond6_1 (grid6.coords t) → cfg6.idle 3 (grid6.coords t) = false := by decide +kernel
theorem idleAt6_4 : ∀ t : Fin cfg6.N, ¬cond6_1 (grid6.coords t) → cfg6.idle 4 (grid6.coords t) = true := by decide +kernel
theorem noFlush6_4 : ∀ t : Fin cfg6.N, ¬cond6_1 (grid6.coords t) → (cfg6.win 4).flush t = false := by decide +kernel
theorem liveAt6_4 : ∀ t : Fin cfg6.N, cond6_1 (grid6.coords t) → cfg6.idle 4 (grid6.coords t) = false := by decide +kernel

/-- One staging buffer of each result window, through which its contents are stated. -/
abbrev VO6_3 : View sig .tc .vmem S2048x16 .f32 := (Memref.whole cc6_stg3_0 : Memref sig .tc .vmem S2048x16 .f32).view
abbrev VO6_4 : View sig .tc .vmem S2048x16 .bf16 := (Memref.whole cc6_stg4_0 : Memref sig .tc .vmem S2048x16 .bf16).view
abbrev ms6_0 (t : Fin cfg6.N) : Memref sig .tc .vmem S2048x2048 .bf16 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S2048x16 .bf16 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S2048x16 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S2048x16 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S2048x16 .bf16 := win6_4.stage (cfg6.slots t 4)
abbrev hs6_4 (t : Fin cfg6.N) : (ms6_4 t).IsWhole := hstage6_4 ((cfg6.slots t 4).cast nbuf6_4)
/-- The accumulator: a whole scoped buffer of the kernel's own. -/
abbrev scM6_0 : Memref sig .tc .vmem S2048x16 .f32 := Memref.whole cc6_scratch0
abbrev VS6_0 : View sig .tc .vmem S2048x16 .f32 := scM6_0.view

set_option maxHeartbeats 4000000 in
/-- Case A (k = 0): the accumulator, at anything, is zeroed and then receives the first block product; the result
    blocks are handed back untouched. -/
noncomputable def kernelRun6_A (c : Dev nD) (i : grid6.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond6_0 i) (hc1 : ¬cond6_1 i)
    (x0 : Vec F S2048x2048 .bf16) (x1 : Vec F S2048x16 .bf16) (x2 : Vec F S2048x16 .f32) :
    Σ' (L3 : List (View.Piece (Elt F) S2048x16 .f32)) (L4 : List (View.Piece (Elt F) S2048x16 .bf16)), { LS0 : List (View.Piece (Elt F) S2048x16 .f32) //
      ∀ (xi3 : Vec F S2048x16 .f32) (xi4 : Vec F S2048x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc6__matmul_combine_kernel i arg2 harg2 arg3 harg3 arg4 harg4 arg5 harg5 arg6 harg6 arg7 harg7) K } := by
  refine ⟨[], [], ?_, fun xi3 xi4 E K => ?run⟩
  case run =>
    simp only [cc6__matmul_combine_kernel_eq_skeleton]; unfold cc6__matmul_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case B (0 < k < 7): the accumulator, at what the point before left, receives one more block product; the result
    blocks are handed back untouched. -/
noncomputable def kernelRun6_B (c : Dev nD) (i : grid6.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond6_0 i) (hc1 : ¬cond6_1 i)
    (x0 : Vec F S2048x2048 .bf16) (x1 : Vec F S2048x16 .bf16) (x2 : Vec F S2048x16 .f32) (xs0 : Vec F S2048x16 .f32) :
    Σ' (L3 : List (View.Piece (Elt F) S2048x16 .f32)) (L4 : List (View.Piece (Elt F) S2048x16 .bf16)), { LS0 : List (View.Piece (Elt F) S2048x16 .f32) //
      ∀ (xi3 : Vec F S2048x16 .f32) (xi4 : Vec F S2048x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc6__matmul_combine_kernel i arg2 harg2 arg3 harg3 arg4 harg4 arg5 harg5 arg6 harg6 arg7 harg7) K } := by
  refine ⟨[], [], ?_, fun xi3 xi4 E K => ?run⟩
  case run =>
    simp only [cc6__matmul_combine_kernel_eq_skeleton]; unfold cc6__matmul_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case C (k = 7): the accumulator receives the last block product, and both result blocks, at anything, are stored
    whole with the combination of the accumulator and the block of the earlier vector. -/
noncomputable def kernelRun6_C (c : Dev nD) (i : grid6.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond6_0 i) (hc1 : cond6_1 i)
    (x0 : Vec F S2048x2048 .bf16) (x1 : Vec F S2048x16 .bf16) (x2 : Vec F S2048x16 .f32) (xs0 : Vec F S2048x16 .f32) :
    Σ' (L3 : List (View.Piece (Elt F) S2048x16 .f32)) (L4 : List (View.Piece (Elt F) S2048x16 .bf16)), { LS0 : List (View.Piece (Elt F) S2048x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc6__matmul_combine_kernel i arg2 harg2 arg3 harg3 arg4 harg4 arg5 harg5 arg6 harg6 arg7 harg7) K } := by
  refine ⟨?_, ?_, ?_, fun E K => ?run⟩
  case run =>
    simp only [cc6__matmul_combine_kernel_eq_skeleton]; unfold cc6__matmul_combine_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.KernelIdeal.Hand

end
-- ==== Proof.RegI6Frame.lean ====
/-
  Region 6: what its result blocks and its accumulator hold after every grid point, the proof data of its pipeline,
  and the body obligation. After point t = 8·r + k the accumulator holds the sum of the block products
  Ls[r,0]·v[0] + … + Ls[r,k]·v[k] (case A starts it from zero, cases B and C continue from what the point before
  left); the result blocks are written at k = 7 only and written back to their arrays right after that point, so at
  the other points their staging buffers are idle and what they hold is never consulted.
-/
import proofs.«108570_j29480655520371_2_alg».proof.Proof.RegI6Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's piece for the accumulator covers it. -/
theorem scover6_A_0 (c : Dev nD) (i : grid6.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond6_0 i) (hc1 : ¬cond6_1 i)
    (x0 : Vec F S2048x2048 .bf16) (x1 : Vec F S2048x16 .bf16) (x2 : Vec F S2048x16 .f32) (y : S2048x16.Idx) :
    ∃ pc ∈ (kernelRun6_A c i arg2 harg2 arg3 harg3 arg4 harg4 arg5 harg5 arg6 harg6 arg7 harg7 hc0 hc1 x0 x1 x2).2.2.1, y ∈ pc.1.set :=
  View.cover_of_tiledL (kernelRun6_A c i arg2 harg2 arg3 harg3 arg4 harg4 arg5 harg5 arg6 harg6 arg7 harg7 hc0 hc1 x0 x1 x2).2.2.1 S2048x16.size (by sl_kernel_rfl) y
/-- What case A leaves in the accumulator. -/
def sout6_A_0 (c : Dev nD) (i : grid6.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond6_0 i) (hc1 : ¬cond6_1 i)
    (x0 : Vec F S2048x2048 .bf16) (x1 : Vec F S2048x16 .bf16) (x2 : Vec F S2048x16 .f32) : Vec F S2048x16 .f32 :=
  VS6_0.read (Elt F) (VS6_0.writes (Elt F) VS6_0.junk (kernelRun6_A c i arg2 harg2 arg3 harg3 arg4 harg4 arg5 harg5 arg6 harg6 arg7 harg7 hc0 hc1 x0 x1 x2).2.2.1)

/-- Case B's piece for the accumulator covers it. -/
theorem scover6_B_0 (c : Dev nD) (i : grid6.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond6_0 i) (hc1 : ¬cond6_1 i)
    (x0 : Vec F S2048x2048 .bf16) (x1 : Vec F S2048x16 .bf16) (x2 : Vec F S2048x16 .f32) (xs0 : Vec F S2048x16 .f32) (y : S2048x16.Idx) :
    ∃ pc ∈ (kernelRun6_B c i arg2 harg2 arg3 harg3 arg4 harg4 arg5 harg5 arg6 harg6 arg7 harg7 hc0 hc1 x0 x1 x2 xs0).2.2.1, y ∈ pc.1.set :=
  View.cover_of_tiledL (kernelRun6_B c i arg2 harg2 arg3 harg3 arg4 harg4 arg5 harg5 arg6 harg6 arg7 harg7 hc0 hc1 x0 x1 x2 xs0).2.2.1 S2048x16.size (by sl_kernel_rfl) y
/-- What case B leaves in the accumulator. -/
def sout6_B_0 (c : Dev nD) (i : grid6.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond6_0 i) (hc1 : ¬cond6_1 i)
    (x0 : Vec F S2048x2048 .bf16) (x1 : Vec F S2048x16 .bf16) (x2 : Vec F S2048x16 .f32) (xs0 : Vec F S2048x16 .f32) : Vec F S2048x16 .f32 :=
  VS6_0.read (Elt F) (VS6_0.writes (Elt F) VS6_0.junk (kernelRun6_B c i arg2 harg2 arg3 harg3 arg4 harg4 arg5 harg5 arg6 harg6 arg7 harg7 hc0 hc1 x0 x1 x2 xs0).2.2.1)

/-- Case C's pieces cover the f32 result block, -/
theorem cover6_C_3 (c : Dev nD) (i : grid6.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond6_0 i) (hc1 : cond6_1 i)
    (x0 : Vec F S2048x2048 .bf16) (x1 : Vec F S2048x16 .bf16) (x2 : Vec F S2048x16 .f32) (xs0 : Vec F S2048x16 .f32) (y : S2048x16.Idx) :
    ∃ pc ∈ (kernelRun6_C c i arg2 harg2 arg3 harg3 arg4 harg4 arg5 harg5 arg6 harg6 arg7 harg7 hc0 hc1 x0 x1 x2 xs0).1, y ∈ pc.1.set :=
  View.cover_of_tiledL (kernelRun6_C c i arg2 harg2 arg3 harg3 arg4 harg4 arg5 harg5 arg6 harg6 arg7 harg7 hc0 hc1 x0 x1 x2 xs0).1 S2048x16.size (by sl_kernel_rfl) y
/-- the bf16 result block, -/
theorem cover6_C_4 (c : Dev nD) (i : grid6.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond6_0 i) (hc1 : cond6_1 i)
    (x0 : Vec F S2048x2048 .bf16) (x1 : Vec F S2048x16 .bf16) (x2 : Vec F S2048x16 .f32) (xs0 : Vec F S2048x16 .f32) (y : S2048x16.Idx) :
    ∃ pc ∈ (kernelRun6_C c i arg2 harg2 arg3 harg3 arg4 harg4 arg5 harg5 arg6 harg6 arg7 harg7 hc0 hc1 x0 x1 x2 xs0).2.1, y ∈ pc.1.set :=
  View.cover_of_tiledL (kernelRun6_C c i arg2 harg2 arg3 harg3 arg4 harg4 arg5 harg5 arg6 harg6 arg7 harg7 hc0 hc1 x0 x1 x2 xs0).2.1 S2048x16.size (by sl_kernel_rfl) y
/-- and the accumulator. -/
theorem scover6_C_0 (c : Dev nD) (i : grid6.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond6_0 i) (hc1 : cond6_1 i)
    (x0 : Vec F S2048x2048 .bf16) (x1 : Vec F S2048x16 .bf16) (x2 : Vec F S2048x16 .f32) (xs0 : Vec F S2048x16 .f32) (y : S2048x16.Idx) :
    ∃ pc ∈ (kernelRun6_C c i arg2 harg2 arg3 harg3 arg4 harg4 arg5 harg5 arg6 harg6 arg7 harg7 hc0 hc1 x0 x1 x2 xs0).2.2.1, y ∈ pc.1.set :=
  View.cover_of_tiledL (kernelRun6_C c i arg2 harg2 arg3 harg3 arg4 harg4 arg5 harg5 arg6 harg6 arg7 harg7 hc0 hc1 x0 x1 x2 xs0).2.2.1 S2048x16.size (by sl_kernel_rfl) y
/-- What case C leaves in the f32 result block, -/
def out6_C_3 (c : Dev nD) (i : grid6.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond6_0 i) (hc1 : cond6_1 i)
    (x0 : Vec F S2048x2048 .bf16) (x1 : Vec F S2048x16 .bf16) (x2 : Vec F S2048x16 .f32) (xs0 : Vec F S2048x16 .f32) : Vec F S2048x16 .f32 :=
  VO6_3.read (Elt F) (VO6_3.writes (Elt F) VO6_3.junk (kernelRun6_C c i arg2 harg2 arg3 harg3 arg4 harg4 arg5 harg5 arg6 harg6 arg7 harg7 hc0 hc1 x0 x1 x2 xs0).1)
/-- in the bf16 result block, -/
def out6_C_4 (c : Dev nD) (i : grid6.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond6_0 i) (hc1 : cond6_1 i)
    (x0 : Vec F S2048x2048 .bf16) (x1 : Vec F S2048x16 .bf16) (x2 : Vec F S2048x16 .f32) (xs0 : Vec F S2048x16 .f32) : Vec F S2048x16 .bf16 :=
  VO6_4.read (Elt F) (VO6_4.writes (Elt F) VO6_4.junk (kernelRun6_C c i arg2 harg2 arg3 harg3 arg4 harg4 arg5 harg5 arg6 harg6 arg7 harg7 hc0 hc1 x0 x1 x2 xs0).2.1)
/-- and in the accumulator. -/
def sout6_C_0 (c : Dev nD) (i : grid6.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond6_0 i) (hc1 : cond6_1 i)
    (x0 : Vec F S2048x2048 .bf16) (x1 : Vec F S2048x16 .bf16) (x2 : Vec F S2048x16 .f32) (xs0 : Vec F S2048x16 .f32) : Vec F S2048x16 .f32 :=
  VS6_0.read (Elt F) (VS6_0.writes (Elt F) VS6_0.junk (kernelRun6_C c i arg2 harg2 arg3 harg3 arg4 harg4 arg5 harg5 arg6 harg6 arg7 harg7 hc0 hc1 x0 x1 x2 xs0).2.2.1)

/-- What the two result blocks' staging buffers and the accumulator hold after the body at position `n`: the case
    the position selects, run at the point's blocks, cases B and C over the accumulator the point before left. -/
def outsAt6 (c : Dev nD) : (n : ℕ) → n < cfg6.N → Vec F S2048x16 .f32 × Vec F S2048x16 .bf16 × Vec F S2048x16 .f32
  | 0, hn => ((VO6_3.read (Elt F) VO6_3.junk), (VO6_4.read (Elt F) VO6_4.junk), sout6_A_0 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) scM6_0 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩))
  | n + 1, hn =>
    if h0 : (n + 1) % 8 = 0 then
      if h1 : (n + 1) % 8 = 7 then
        False.elim (by omega)
      else
        ((VO6_3.read (Elt F) VO6_3.junk), (VO6_4.read (Elt F) VO6_4.junk), sout6_A_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) scM6_0 (Memref.isWhole_whole _) ((hcond6_0 ⟨n + 1, hn⟩).mpr h0) (fun h => h1 ((hcond6_1 ⟨n + 1, hn⟩).mp h)) (iblk6 V c 0 ⟨n + 1, hn⟩) (iblk6 V c 1 ⟨n + 1, hn⟩) (iblk6 V c 2 ⟨n + 1, hn⟩))
    else
      if h1 : (n + 1) % 8 = 7 then
        (out6_C_3 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) scM6_0 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (outsAt6 c n (Nat.lt_of_succ_lt hn)).2.2, out6_C_4 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) scM6_0 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (outsAt6 c n (Nat.lt_of_succ_lt hn)).2.2, sout6_C_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) scM6_0 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (outsAt6 c n (Nat.lt_of_succ_lt hn)).2.2)
      else
        ((VO6_3.read (Elt F) VO6_3.junk), (VO6_4.read (Elt F) VO6_4.junk), sout6_B_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) scM6_0 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (outsAt6 c n (Nat.lt_of_succ_lt hn)).2.2)

theorem outsAt6_A (c : Dev nD) (t : Fin cfg6.N) (h0 : t.val % 8 = 0) (h1 : ¬t.val % 8 = 7) :
    outsAt6 V c t.val t.isLt = ((VO6_3.read (Elt F) VO6_3.junk), (VO6_4.read (Elt F) VO6_4.junk), sout6_A_0 c (grid6.coords t) (ms6_0 t) (hs6_0 t) (ms6_1 t) (hs6_1 t) (ms6_2 t) (hs6_2 t) (ms6_3 t) (hs6_3 t) (ms6_4 t) (hs6_4 t) scM6_0 (Memref.isWhole_whole _) ((hcond6_0 t).mpr h0) (fun h => h1 ((hcond6_1 t).mp h)) (iblk6 V c 0 t) (iblk6 V c 1 t) (iblk6 V c 2 t)) := by
  obtain ⟨n, hn⟩ := t
  cases n with
  | zero => exact rfl
  | succ n => exact (dif_pos h0).trans ((dif_neg h1).trans rfl)

theorem outsAt6_B (c : Dev nD) (t : Fin cfg6.N) (h0 : ¬t.val % 8 = 0) (h1 : ¬t.val % 8 = 7) :
    outsAt6 V c t.val t.isLt = ((VO6_3.read (Elt F) VO6_3.junk), (VO6_4.read (Elt F) VO6_4.junk), sout6_B_0 c (grid6.coords t) (ms6_0 t) (hs6_0 t) (ms6_1 t) (hs6_1 t) (ms6_2 t) (hs6_2 t) (ms6_3 t) (hs6_3 t) (ms6_4 t) (hs6_4 t) scM6_0 (Memref.isWhole_whole _) (fun h => h0 ((hcond6_0 t).mp h)) (fun h => h1 ((hcond6_1 t).mp h)) (iblk6 V c 0 t) (iblk6 V c 1 t) (iblk6 V c 2 t) (outsAt6 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt6_C (c : Dev nD) (t : Fin cfg6.N) (h0 : ¬t.val % 8 = 0) (h1 : t.val % 8 = 7) :
    outsAt6 V c t.val t.isLt = (out6_C_3 c (grid6.coords t) (ms6_0 t) (hs6_0 t) (ms6_1 t) (hs6_1 t) (ms6_2 t) (hs6_2 t) (ms6_3 t) (hs6_3 t) (ms6_4 t) (hs6_4 t) scM6_0 (Memref.isWhole_whole _) (fun h => h0 ((hcond6_0 t).mp h)) ((hcond6_1 t).mpr h1) (iblk6 V c 0 t) (iblk6 V c 1 t) (iblk6 V c 2 t) (outsAt6 V c (t.val - 1) (Nat.lt_of_le_of_lt (Nat.sub_le _ _) t.isLt)).2.2, out6_C_4 c (grid6.coords t) (ms6_0 t) (hs6_0 t) (ms6_1 t) (hs6_1 t) (ms6_2 t) (hs6_2 t) (ms6_3 t) (hs6_3 t) (ms6_4 t) (hs6_4 t) scM6_0 (Memref.isWhole_whole _) (fun h => h0 ((hcond6_0 t).mp h)) ((hcond6_1 t).mpr h1) (iblk6 V c 0 t) (iblk6 V c 1 t) (iblk6 V c 2 t) (outsAt6 V c (t.val - 1) (Nat.lt_of_le_of_lt (Nat.sub_le _ _) t.isLt)).2.2, sout6_C_0 c (grid6.coords t) (ms6_0 t) (hs6_0 t) (ms6_1 t) (hs6_1 t) (ms6_2 t) (hs6_2 t) (ms6_3 t) (hs6_3 t) (ms6_4 t) (hs6_4 t) scM6_0 (Memref.isWhole_whole _) (fun h => h0 ((hcond6_0 t).mp h)) ((hcond6_1 t).mpr h1) (iblk6 V c 0 t) (iblk6 V c 1 t) (iblk6 V c 2 t) (outsAt6 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The scoped buffers of the program other than this region's staging buffers and its accumulator. -/
abbrev RB6 (c : Dev nD) : sProp 𝕄 :=
  Pipeline.scopedRestBut (Ix := Unit) (Name := ℕ) (U := UR sig nD τ) (Lvl := ℕ) (Val := Elt F) spec6 c [cc6_scratch0]

/-- The region invariant before position `n`: at the first point every scoped buffer outside the staging buffers at
    anything; afterwards the accumulator at what the point before left in it. -/
def PhiS6 (c : Dev nD) : (n : ℕ) → n ≤ cfg6.N → sProp 𝕄
  | 0, _ => Pipeline.ΦA spec6 c
  | n + 1, hn => iprop((iprop(owns (c : Thread nD τ) scM6_0 fullShare ((outsAt6 V c n hn).2.2)) ∗ RB6 c) ∗ (∃ r, prngReg c r))

theorem PhiS6_zero (c : Dev nD) (n : ℕ) (h : n ≤ cfg6.N) (hz : n = 0) : PhiS6 V c n h = Pipeline.ΦA spec6 c := by
  subst hz; rfl
theorem PhiS6_succ (c : Dev nD) (n : ℕ) (hn : n < cfg6.N) :
    PhiS6 V c (n + 1) hn = iprop((iprop(owns (c : Thread nD τ) scM6_0 fullShare ((outsAt6 V c n hn).2.2)) ∗ RB6 c) ∗ (∃ r, prngReg c r)) := rfl
theorem PhiS6_pos (c : Dev nD) (n : ℕ) (h : n ≤ cfg6.N) (hz : n ≠ 0) :
    PhiS6 V c n h = iprop((iprop(owns (c : Thread nD τ) scM6_0 fullShare ((outsAt6 V c (n - 1) (by omega)).2.2)) ∗ RB6 c) ∗ (∃ r, prngReg c r)) := by
  cases n with
  | zero => exact absurd rfl hz
  | succ n => rfl

/-- The first point's invariant with the accumulator split out, owned at some contents. -/
theorem PhiA6_eq (c : Dev nD) :
    (Pipeline.ΦA spec6 c : sProp 𝕄)
      = iprop((iprop((∃ d, owns (c : Thread nD τ) scM6_0 fullShare d)) ∗ RB6 c) ∗ (∃ r, prngReg c r)) := by
  unfold Pipeline.ΦA; rw [scopedRest6_split]; simp only [scM6_0, owns_whole]; try rfl

/-- The proof data of region 6's pipeline on core `c`: the arrays as the region finds them; after the body at
    point `t` each input's buffer at its block and the results' at `outsAt6`; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => (outsAt6 V c t.val t.isLt).1
    | ⟨4, _⟩ => (outsAt6 V c t.val t.isLt).2.1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]
theorem PhiS6_castSucc (c : Dev nD) (t : Fin cfg6.N) :
    (dat6 V c).Φ t.castSucc = PhiS6 V c t.val (Nat.le_of_lt t.isLt) := by
  dsimp only [dat6]; simp only [Fin.coe_castSucc]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = (outsAt6 V c t.val t.isLt).1 := by dsimp only [dat6]
theorem after6_4 (c : Dev nD) (t : Fin cfg6.N) : (dat6 V c).after 4 t = (outsAt6 V c t.val t.isLt).2.1 := by dsimp only [dat6]
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d)))
/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t)

set_option maxHeartbeats 8000000 in
/-- The body at any point: the inputs' buffers hold their blocks; the position says which case the point is in; the
    invariant hands the body the accumulator at what the point before left (at anything at the first point) and takes
    it back at this point's contents; the core owes nothing throughout. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).owesAt () t.succ = (dat6 V c).owesAt () t.castSucc from rfl]
  rw [show (dat6 V c).Φ t.succ = PhiS6 V c (t.val + 1) t.isLt from rfl, PhiS6_succ]
  have hN : t.val < 64 := lt_of_lt_of_eq t.isLt (show cfg6.N = 64 from N_6)
  rw [show (dat6 V c).leavesExact 0 t = owns (c : Thread nD τ) (ms6_0 t) fullShare ((dat6 V c).after 0 t) from by
      unfold Dat.leavesExact; rw [liveAt6_0 t], after6_0]
  rw [show (dat6 V c).leavesExact 1 t = owns (c : Thread nD τ) (ms6_1 t) fullShare ((dat6 V c).after 1 t) from by
      unfold Dat.leavesExact; rw [liveAt6_1 t], after6_1]
  rw [show (dat6 V c).leavesExact 2 t = owns (c : Thread nD τ) (ms6_2 t) fullShare ((dat6 V c).after 2 t) from by
      unfold Dat.leavesExact; rw [liveAt6_2 t], after6_2]
  by_cases h0 : t.val % 8 = 0
  · have h1 : ¬t.val % 8 = 7 := by omega
    rw [Dat.leavesExact_idle (dat6 V c) 3 t (idleAt6_3 t (fun h => h1 ((hcond6_1 t).mp h))) (noFlush6_3 t (fun h => h1 ((hcond6_1 t).mp h)))]
    rw [Dat.leavesExact_idle (dat6 V c) 4 t (idleAt6_4 t (fun h => h1 ((hcond6_1 t).mp h))) (noFlush6_4 t (fun h => h1 ((hcond6_1 t).mp h)))]
    rw [outsAt6_A V c t h0 h1]
    unfold sout6_A_0; (try dsimp only)
    by_cases hz : t.val = 0
    · rw [PhiS6_castSucc V c t, PhiS6_zero V c _ _ hz, PhiA6_eq]
      iintro ⟨⟨⟨HS0, HR⟩, Hg⟩, Ho, ⟨%d0, H0⟩, ⟨%d1, H1⟩, ⟨%d2, H2⟩, ⟨%d3, H3⟩, ⟨%d4, H4⟩⟩
      iapply ((kernelRun6_A c (grid6.coords t) _ _ _ _ _ _ _ _ _ _ _ _ ((hcond6_0 t).mpr h0) (fun h => h1 ((hcond6_1 t).mp h)) (iblk6 V c 0 t) (iblk6 V c 1 t) (iblk6 V c 2 t)).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover6_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
    · rw [PhiS6_castSucc V c t, PhiS6_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun6_A c (grid6.coords t) _ _ _ _ _ _ _ _ _ _ _ _ ((hcond6_0 t).mpr h0) (fun h => h1 ((hcond6_1 t).mp h)) (iblk6 V c 0 t) (iblk6 V c 1 t) (iblk6 V c 2 t)).2.2.2 _ _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover6_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun h => h0 (by rw [h])
    by_cases h1 : t.val % 8 = 7
    · rw [show (dat6 V c).leavesExact 3 t = owns (c : Thread nD τ) (ms6_3 t) fullShare ((dat6 V c).after 3 t) from by
        unfold Dat.leavesExact; rw [liveAt6_3 t ((hcond6_1 t).mpr h1)], after6_3]
      rw [show (dat6 V c).leavesExact 4 t = owns (c : Thread nD τ) (ms6_4 t) fullShare ((dat6 V c).after 4 t) from by
        unfold Dat.leavesExact; rw [liveAt6_4 t ((hcond6_1 t).mpr h1)], after6_4]
      rw [outsAt6_C V c t h0 h1]
      unfold out6_C_3 out6_C_4 sout6_C_0; (try dsimp only)
      rw [PhiS6_castSucc V c t, PhiS6_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun6_C c (grid6.coords t) _ _ _ _ _ _ _ _ _ _ _ _ (fun h => h0 ((hcond6_0 t).mp h)) ((hcond6_1 t).mpr h1) (iblk6 V c 0 t) (iblk6 V c 1 t) (iblk6 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover6_C_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover6_C_3 c _ _ _ _ _ _ _ _ _ _ _ _ _ _ _ _ _ _ _)
      unfold owns; iexists _; isplitr
      swap; · iexact H4
      ipureintro; exact View.read_writes_of_cover _ _ _ _ _ (cover6_C_4 c _ _ _ _ _ _ _ _ _ _ _ _ _ _ _ _ _ _ _)
    · rw [Dat.leavesExact_idle (dat6 V c) 3 t (idleAt6_3 t (fun h => h1 ((hcond6_1 t).mp h))) (noFlush6_3 t (fun h => h1 ((hcond6_1 t).mp h)))]
      rw [Dat.leavesExact_idle (dat6 V c) 4 t (idleAt6_4 t (fun h => h1 ((hcond6_1 t).mp h))) (noFlush6_4 t (fun h => h1 ((hcond6_1 t).mp h)))]
      rw [outsAt6_B V c t h0 h1]
      unfold sout6_B_0; (try dsimp only)
      rw [PhiS6_castSucc V c t, PhiS6_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun6_B c (grid6.coords t) _ _ _ _ _ _ _ _ _ _ _ _ (fun h => h0 ((hcond6_0 t).mp h)) (fun h => h1 ((hcond6_1 t).mp h)) (iblk6 V c 0 t) (iblk6 V c 1 t) (iblk6 V c 2 t) _).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover6_B_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4

/-- The body obligation of region 6, at every point. -/
theorem body_obligation6 (c : Dev nD) : BodyObligation (dat6 (F := F) V c) (defs₀ (F := F)) Variants.none () Set.univ := fun t => by
  rw [bigSep_W6, bigSep_W6]
  exact sound_body6 V c t

/-- What the region is entered with is the invariant before the first point. -/
theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

/-- After the last point the invariant gives the scoped buffers back: what the accumulator holds is forgotten. -/
theorem hout6 (c : Dev nD) : (dat6 V c).Φ (Fin.last cfg6.N) ⊢ Pipeline.ΦA spec6 c := by
  have ht : (Fin.last cfg6.N).val ≠ 0 := by rw [Fin.val_last]; have : cfg6.N = 64 := N_6; omega
  rw [show (dat6 V c).Φ (Fin.last cfg6.N) = PhiS6 V c (Fin.last cfg6.N).val (Nat.le_of_lt_succ (Fin.last cfg6.N).isLt) from rfl,
    PhiS6_pos V c _ _ ht, PhiA6_eq]
  iintro ⟨⟨HS0, HR⟩, Hg⟩
  isplitl [HS0 HR]
  · isplitl [HS0]
    · iexists _; iexact HS0
    iexact HR
  iexact Hg

end Cert.KernelIdeal.Hand

end
-- ==== Proof.RegI7Run.lean ====
/-
  Region 7 of the program (the recurrence step 2·(Ls·T) − T′): the kernel body run once per control case.
  The grid is 8 × 8; a point t = 8·r + k handles row block r and column block k of Ls. The body zeroes the
  accumulator when k = 0 (case A), adds the block product Ls[r,k]·v[k] to it at every point, and when k = 7
  (case C) stores the combination of the accumulator and the block of the earlier vector into both result
  blocks; at 0 < k < 7 (case B) it only accumulates. Each run states what the body's stores leave in the
  accumulator and in the result blocks, as the list of stored pieces.
-/
import proofs.«108570_j29480655520371_2_alg».proof.Proof.Gen.KernelIdeal.Launch
import proofs.«108570_j29480655520371_2_alg».proof.Proof.Gen.KernelIdeal.Skeleton
import proofs.«108570_j29480655520371_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- Input window 1's current staging buffer holds its block at every point, fetched there or not. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- Input window 2's current staging buffer holds its block at every point, fetched there or not. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- k = 0: the accumulator is zeroed first. -/
abbrev cond7_0 (i : grid7.Coords) : Prop := (Scalar.cmpi .ne (Scalar.extui (Scalar.cmpi .eq (BitVec.ofNat 32 (i 1).val) 0#32)) 0#32) = 1#1
theorem hcond7_0 : ∀ t : Fin cfg7.N, cond7_0 (grid7.coords t) ↔ t.val % 8 = 0 :=
  (by decide +kernel : ∀ t : Fin grid7.N, cond7_0 (grid7.coords t) ↔ t.val % 8 = 0)
/-- k = 7: the results are stored. -/
abbrev cond7_1 (i : grid7.Coords) : Prop := k7_cond2 i = 1#1
theorem hcond7_1 : ∀ t : Fin cfg7.N, cond7_1 (grid7.coords t) ↔ t.val % 8 = 7 :=
  (by decide +kernel : ∀ t : Fin grid7.N, cond7_1 (grid7.coords t) ↔ t.val % 8 = 7)

theorem liveAt7_0 : ∀ t : Fin cfg7.N, cfg7.idle 0 (grid7.coords t) = false := by decide +kernel
theorem liveAt7_1 : ∀ t : Fin cfg7.N, cfg7.idle 1 (grid7.coords t) = false := by decide +kernel
theorem liveAt7_2 : ∀ t : Fin cfg7.N, cfg7.idle 2 (grid7.coords t) = false := by decide +kernel
theorem idleAt7_3 : ∀ t : Fin cfg7.N, ¬cond7_1 (grid7.coords t) → cfg7.idle 3 (grid7.coords t) = true := by decide +kernel
theorem noFlush7_3 : ∀ t : Fin cfg7.N, ¬cond7_1 (grid7.coords t) → (cfg7.win 3).flush t = false := by decide +kernel
theorem liveAt7_3 : ∀ t : Fin cfg7.N, cond7_1 (grid7.coords t) → cfg7.idle 3 (grid7.coords t) = false := by decide +kernel
theorem idleAt7_4 : ∀ t : Fin cfg7.N, ¬cond7_1 (grid7.coords t) → cfg7.idle 4 (grid7.coords t) = true := by decide +kernel
theorem noFlush7_4 : ∀ t : Fin cfg7.N, ¬cond7_1 (grid7.coords t) → (cfg7.win 4).flush t = false := by decide +kernel
theorem liveAt7_4 : ∀ t : Fin cfg7.N, cond7_1 (grid7.coords t) → cfg7.idle 4 (grid7.coords t) = false := by decide +kernel

/-- One staging buffer of each result window, through which its contents are stated. -/
abbrev VO7_3 : View sig .tc .vmem S2048x16 .f32 := (Memref.whole cc7_stg3_0 : Memref sig .tc .vmem S2048x16 .f32).view
abbrev VO7_4 : View sig .tc .vmem S2048x16 .bf16 := (Memref.whole cc7_stg4_0 : Memref sig .tc .vmem S2048x16 .bf16).view
abbrev ms7_0 (t : Fin cfg7.N) : Memref sig .tc .vmem S2048x2048 .bf16 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S2048x16 .bf16 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S2048x16 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S2048x16 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S2048x16 .bf16 := win7_4.stage (cfg7.slots t 4)
abbrev hs7_4 (t : Fin cfg7.N) : (ms7_4 t).IsWhole := hstage7_4 ((cfg7.slots t 4).cast nbuf7_4)
/-- The accumulator: a whole scoped buffer of the kernel's own. -/
abbrev scM7_0 : Memref sig .tc .vmem S2048x16 .f32 := Memref.whole cc7_scratch0
abbrev VS7_0 : View sig .tc .vmem S2048x16 .f32 := scM7_0.view

set_option maxHeartbeats 4000000 in
/-- Case A (k = 0): the accumulator, at anything, is zeroed and then receives the first block product; the result
    blocks are handed back untouched. -/
noncomputable def kernelRun7_A (c : Dev nD) (i : grid7.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond7_0 i) (hc1 : ¬cond7_1 i)
    (x0 : Vec F S2048x2048 .bf16) (x1 : Vec F S2048x16 .bf16) (x2 : Vec F S2048x16 .f32) :
    Σ' (L3 : List (View.Piece (Elt F) S2048x16 .f32)) (L4 : List (View.Piece (Elt F) S2048x16 .bf16)), { LS0 : List (View.Piece (Elt F) S2048x16 .f32) //
      ∀ (xi3 : Vec F S2048x16 .f32) (xi4 : Vec F S2048x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc7__matmul_combine_kernel i arg2 harg2 arg3 harg3 arg4 harg4 arg5 harg5 arg6 harg6 arg7 harg7) K } := by
  refine ⟨[], [], ?_, fun xi3 xi4 E K => ?run⟩
  case run =>
    simp only [cc7__matmul_combine_kernel_eq_skeleton]; unfold cc7__matmul_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case B (0 < k < 7): the accumulator, at what the point before left, receives one more block product; the result
    blocks are handed back untouched. -/
noncomputable def kernelRun7_B (c : Dev nD) (i : grid7.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond7_0 i) (hc1 : ¬cond7_1 i)
    (x0 : Vec F S2048x2048 .bf16) (x1 : Vec F S2048x16 .bf16) (x2 : Vec F S2048x16 .f32) (xs0 : Vec F S2048x16 .f32) :
    Σ' (L3 : List (View.Piece (Elt F) S2048x16 .f32)) (L4 : List (View.Piece (Elt F) S2048x16 .bf16)), { LS0 : List (View.Piece (Elt F) S2048x16 .f32) //
      ∀ (xi3 : Vec F S2048x16 .f32) (xi4 : Vec F S2048x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc7__matmul_combine_kernel i arg2 harg2 arg3 harg3 arg4 harg4 arg5 harg5 arg6 harg6 arg7 harg7) K } := by
  refine ⟨[], [], ?_, fun xi3 xi4 E K => ?run⟩
  case run =>
    simp only [cc7__matmul_combine_kernel_eq_skeleton]; unfold cc7__matmul_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case C (k = 7): the accumulator receives the last block product, and both result blocks, at anything, are stored
    whole with the combination of the accumulator and the block of the earlier vector. -/
noncomputable def kernelRun7_C (c : Dev nD) (i : grid7.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond7_0 i) (hc1 : cond7_1 i)
    (x0 : Vec F S2048x2048 .bf16) (x1 : Vec F S2048x16 .bf16) (x2 : Vec F S2048x16 .f32) (xs0 : Vec F S2048x16 .f32) :
    Σ' (L3 : List (View.Piece (Elt F) S2048x16 .f32)) (L4 : List (View.Piece (Elt F) S2048x16 .bf16)), { LS0 : List (View.Piece (Elt F) S2048x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc7__matmul_combine_kernel i arg2 harg2 arg3 harg3 arg4 harg4 arg5 harg5 arg6 harg6 arg7 harg7) K } := by
  refine ⟨?_, ?_, ?_, fun E K => ?run⟩
  case run =>
    simp only [cc7__matmul_combine_kernel_eq_skeleton]; unfold cc7__matmul_combine_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.KernelIdeal.Hand

end
-- ==== Proof.RegI7Frame.lean ====
/-
  Region 7: what its result blocks and its accumulator hold after every grid point, the proof data of its pipeline,
  and the body obligation. After point t = 8·r + k the accumulator holds the sum of the block products
  Ls[r,0]·v[0] + … + Ls[r,k]·v[k] (case A starts it from zero, cases B and C continue from what the point before
  left); the result blocks are written at k = 7 only and written back to their arrays right after that point, so at
  the other points their staging buffers are idle and what they hold is never consulted.
-/
import proofs.«108570_j29480655520371_2_alg».proof.Proof.RegI7Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's piece for the accumulator covers it. -/
theorem scover7_A_0 (c : Dev nD) (i : grid7.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond7_0 i) (hc1 : ¬cond7_1 i)
    (x0 : Vec F S2048x2048 .bf16) (x1 : Vec F S2048x16 .bf16) (x2 : Vec F S2048x16 .f32) (y : S2048x16.Idx) :
    ∃ pc ∈ (kernelRun7_A c i arg2 harg2 arg3 harg3 arg4 harg4 arg5 harg5 arg6 harg6 arg7 harg7 hc0 hc1 x0 x1 x2).2.2.1, y ∈ pc.1.set :=
  View.cover_of_tiledL (kernelRun7_A c i arg2 harg2 arg3 harg3 arg4 harg4 arg5 harg5 arg6 harg6 arg7 harg7 hc0 hc1 x0 x1 x2).2.2.1 S2048x16.size (by sl_kernel_rfl) y
/-- What case A leaves in the accumulator. -/
def sout7_A_0 (c : Dev nD) (i : grid7.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond7_0 i) (hc1 : ¬cond7_1 i)
    (x0 : Vec F S2048x2048 .bf16) (x1 : Vec F S2048x16 .bf16) (x2 : Vec F S2048x16 .f32) : Vec F S2048x16 .f32 :=
  VS7_0.read (Elt F) (VS7_0.writes (Elt F) VS7_0.junk (kernelRun7_A c i arg2 harg2 arg3 harg3 arg4 harg4 arg5 harg5 arg6 harg6 arg7 harg7 hc0 hc1 x0 x1 x2).2.2.1)

/-- Case B's piece for the accumulator covers it. -/
theorem scover7_B_0 (c : Dev nD) (i : grid7.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond7_0 i) (hc1 : ¬cond7_1 i)
    (x0 : Vec F S2048x2048 .bf16) (x1 : Vec F S2048x16 .bf16) (x2 : Vec F S2048x16 .f32) (xs0 : Vec F S2048x16 .f32) (y : S2048x16.Idx) :
    ∃ pc ∈ (kernelRun7_B c i arg2 harg2 arg3 harg3 arg4 harg4 arg5 harg5 arg6 harg6 arg7 harg7 hc0 hc1 x0 x1 x2 xs0).2.2.1, y ∈ pc.1.set :=
  View.cover_of_tiledL (kernelRun7_B c i arg2 harg2 arg3 harg3 arg4 harg4 arg5 harg5 arg6 harg6 arg7 harg7 hc0 hc1 x0 x1 x2 xs0).2.2.1 S2048x16.size (by sl_kernel_rfl) y
/-- What case B leaves in the accumulator. -/
def sout7_B_0 (c : Dev nD) (i : grid7.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond7_0 i) (hc1 : ¬cond7_1 i)
    (x0 : Vec F S2048x2048 .bf16) (x1 : Vec F S2048x16 .bf16) (x2 : Vec F S2048x16 .f32) (xs0 : Vec F S2048x16 .f32) : Vec F S2048x16 .f32 :=
  VS7_0.read (Elt F) (VS7_0.writes (Elt F) VS7_0.junk (kernelRun7_B c i arg2 harg2 arg3 harg3 arg4 harg4 arg5 harg5 arg6 harg6 arg7 harg7 hc0 hc1 x0 x1 x2 xs0).2.2.1)

/-- Case C's pieces cover the f32 result block, -/
theorem cover7_C_3 (c : Dev nD) (i : grid7.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond7_0 i) (hc1 : cond7_1 i)
    (x0 : Vec F S2048x2048 .bf16) (x1 : Vec F S2048x16 .bf16) (x2 : Vec F S2048x16 .f32) (xs0 : Vec F S2048x16 .f32) (y : S2048x16.Idx) :
    ∃ pc ∈ (kernelRun7_C c i arg2 harg2 arg3 harg3 arg4 harg4 arg5 harg5 arg6 harg6 arg7 harg7 hc0 hc1 x0 x1 x2 xs0).1, y ∈ pc.1.set :=
  View.cover_of_tiledL (kernelRun7_C c i arg2 harg2 arg3 harg3 arg4 harg4 arg5 harg5 arg6 harg6 arg7 harg7 hc0 hc1 x0 x1 x2 xs0).1 S2048x16.size (by sl_kernel_rfl) y
/-- the bf16 result block, -/
theorem cover7_C_4 (c : Dev nD) (i : grid7.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond7_0 i) (hc1 : cond7_1 i)
    (x0 : Vec F S2048x2048 .bf16) (x1 : Vec F S2048x16 .bf16) (x2 : Vec F S2048x16 .f32) (xs0 : Vec F S2048x16 .f32) (y : S2048x16.Idx) :
    ∃ pc ∈ (kernelRun7_C c i arg2 harg2 arg3 harg3 arg4 harg4 arg5 harg5 arg6 harg6 arg7 harg7 hc0 hc1 x0 x1 x2 xs0).2.1, y ∈ pc.1.set :=
  View.cover_of_tiledL (kernelRun7_C c i arg2 harg2 arg3 harg3 arg4 harg4 arg5 harg5 arg6 harg6 arg7 harg7 hc0 hc1 x0 x1 x2 xs0).2.1 S2048x16.size (by sl_kernel_rfl) y
/-- and the accumulator. -/
theorem scover7_C_0 (c : Dev nD) (i : grid7.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond7_0 i) (hc1 : cond7_1 i)
    (x0 : Vec F S2048x2048 .bf16) (x1 : Vec F S2048x16 .bf16) (x2 : Vec F S2048x16 .f32) (xs0 : Vec F S2048x16 .f32) (y : S2048x16.Idx) :
    ∃ pc ∈ (kernelRun7_C c i arg2 harg2 arg3 harg3 arg4 harg4 arg5 harg5 arg6 harg6 arg7 harg7 hc0 hc1 x0 x1 x2 xs0).2.2.1, y ∈ pc.1.set :=
  View.cover_of_tiledL (kernelRun7_C c i arg2 harg2 arg3 harg3 arg4 harg4 arg5 harg5 arg6 harg6 arg7 harg7 hc0 hc1 x0 x1 x2 xs0).2.2.1 S2048x16.size (by sl_kernel_rfl) y
/-- What case C leaves in the f32 result block, -/
def out7_C_3 (c : Dev nD) (i : grid7.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond7_0 i) (hc1 : cond7_1 i)
    (x0 : Vec F S2048x2048 .bf16) (x1 : Vec F S2048x16 .bf16) (x2 : Vec F S2048x16 .f32) (xs0 : Vec F S2048x16 .f32) : Vec F S2048x16 .f32 :=
  VO7_3.read (Elt F) (VO7_3.writes (Elt F) VO7_3.junk (kernelRun7_C c i arg2 harg2 arg3 harg3 arg4 harg4 arg5 harg5 arg6 harg6 arg7 harg7 hc0 hc1 x0 x1 x2 xs0).1)
/-- in the bf16 result block, -/
def out7_C_4 (c : Dev nD) (i : grid7.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond7_0 i) (hc1 : cond7_1 i)
    (x0 : Vec F S2048x2048 .bf16) (x1 : Vec F S2048x16 .bf16) (x2 : Vec F S2048x16 .f32) (xs0 : Vec F S2048x16 .f32) : Vec F S2048x16 .bf16 :=
  VO7_4.read (Elt F) (VO7_4.writes (Elt F) VO7_4.junk (kernelRun7_C c i arg2 harg2 arg3 harg3 arg4 harg4 arg5 harg5 arg6 harg6 arg7 harg7 hc0 hc1 x0 x1 x2 xs0).2.1)
/-- and in the accumulator. -/
def sout7_C_0 (c : Dev nD) (i : grid7.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond7_0 i) (hc1 : cond7_1 i)
    (x0 : Vec F S2048x2048 .bf16) (x1 : Vec F S2048x16 .bf16) (x2 : Vec F S2048x16 .f32) (xs0 : Vec F S2048x16 .f32) : Vec F S2048x16 .f32 :=
  VS7_0.read (Elt F) (VS7_0.writes (Elt F) VS7_0.junk (kernelRun7_C c i arg2 harg2 arg3 harg3 arg4 harg4 arg5 harg5 arg6 harg6 arg7 harg7 hc0 hc1 x0 x1 x2 xs0).2.2.1)

/-- What the two result blocks' staging buffers and the accumulator hold after the body at position `n`: the case
    the position selects, run at the point's blocks, cases B and C over the accumulator the point before left. -/
def outsAt7 (c : Dev nD) : (n : ℕ) → n < cfg7.N → Vec F S2048x16 .f32 × Vec F S2048x16 .bf16 × Vec F S2048x16 .f32
  | 0, hn => ((VO7_3.read (Elt F) VO7_3.junk), (VO7_4.read (Elt F) VO7_4.junk), sout7_A_0 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) scM7_0 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩) (iblk7 V c 2 ⟨0, hn⟩))
  | n + 1, hn =>
    if h0 : (n + 1) % 8 = 0 then
      if h1 : (n + 1) % 8 = 7 then
        False.elim (by omega)
      else
        ((VO7_3.read (Elt F) VO7_3.junk), (VO7_4.read (Elt F) VO7_4.junk), sout7_A_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) scM7_0 (Memref.isWhole_whole _) ((hcond7_0 ⟨n + 1, hn⟩).mpr h0) (fun h => h1 ((hcond7_1 ⟨n + 1, hn⟩).mp h)) (iblk7 V c 0 ⟨n + 1, hn⟩) (iblk7 V c 1 ⟨n + 1, hn⟩) (iblk7 V c 2 ⟨n + 1, hn⟩))
    else
      if h1 : (n + 1) % 8 = 7 then
        (out7_C_3 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) scM7_0 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (outsAt7 c n (Nat.lt_of_succ_lt hn)).2.2, out7_C_4 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) scM7_0 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (outsAt7 c n (Nat.lt_of_succ_lt hn)).2.2, sout7_C_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) scM7_0 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (outsAt7 c n (Nat.lt_of_succ_lt hn)).2.2)
      else
        ((VO7_3.read (Elt F) VO7_3.junk), (VO7_4.read (Elt F) VO7_4.junk), sout7_B_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) scM7_0 (Memref.isWhole_whole _) (fun h => h0 ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (outsAt7 c n (Nat.lt_of_succ_lt hn)).2.2)

theorem outsAt7_A (c : Dev nD) (t : Fin cfg7.N) (h0 : t.val % 8 = 0) (h1 : ¬t.val % 8 = 7) :
    outsAt7 V c t.val t.isLt = ((VO7_3.read (Elt F) VO7_3.junk), (VO7_4.read (Elt F) VO7_4.junk), sout7_A_0 c (grid7.coords t) (ms7_0 t) (hs7_0 t) (ms7_1 t) (hs7_1 t) (ms7_2 t) (hs7_2 t) (ms7_3 t) (hs7_3 t) (ms7_4 t) (hs7_4 t) scM7_0 (Memref.isWhole_whole _) ((hcond7_0 t).mpr h0) (fun h => h1 ((hcond7_1 t).mp h)) (iblk7 V c 0 t) (iblk7 V c 1 t) (iblk7 V c 2 t)) := by
  obtain ⟨n, hn⟩ := t
  cases n with
  | zero => exact rfl
  | succ n => exact (dif_pos h0).trans ((dif_neg h1).trans rfl)

theorem outsAt7_B (c : Dev nD) (t : Fin cfg7.N) (h0 : ¬t.val % 8 = 0) (h1 : ¬t.val % 8 = 7) :
    outsAt7 V c t.val t.isLt = ((VO7_3.read (Elt F) VO7_3.junk), (VO7_4.read (Elt F) VO7_4.junk), sout7_B_0 c (grid7.coords t) (ms7_0 t) (hs7_0 t) (ms7_1 t) (hs7_1 t) (ms7_2 t) (hs7_2 t) (ms7_3 t) (hs7_3 t) (ms7_4 t) (hs7_4 t) scM7_0 (Memref.isWhole_whole _) (fun h => h0 ((hcond7_0 t).mp h)) (fun h => h1 ((hcond7_1 t).mp h)) (iblk7 V c 0 t) (iblk7 V c 1 t) (iblk7 V c 2 t) (outsAt7 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt7_C (c : Dev nD) (t : Fin cfg7.N) (h0 : ¬t.val % 8 = 0) (h1 : t.val % 8 = 7) :
    outsAt7 V c t.val t.isLt = (out7_C_3 c (grid7.coords t) (ms7_0 t) (hs7_0 t) (ms7_1 t) (hs7_1 t) (ms7_2 t) (hs7_2 t) (ms7_3 t) (hs7_3 t) (ms7_4 t) (hs7_4 t) scM7_0 (Memref.isWhole_whole _) (fun h => h0 ((hcond7_0 t).mp h)) ((hcond7_1 t).mpr h1) (iblk7 V c 0 t) (iblk7 V c 1 t) (iblk7 V c 2 t) (outsAt7 V c (t.val - 1) (Nat.lt_of_le_of_lt (Nat.sub_le _ _) t.isLt)).2.2, out7_C_4 c (grid7.coords t) (ms7_0 t) (hs7_0 t) (ms7_1 t) (hs7_1 t) (ms7_2 t) (hs7_2 t) (ms7_3 t) (hs7_3 t) (ms7_4 t) (hs7_4 t) scM7_0 (Memref.isWhole_whole _) (fun h => h0 ((hcond7_0 t).mp h)) ((hcond7_1 t).mpr h1) (iblk7 V c 0 t) (iblk7 V c 1 t) (iblk7 V c 2 t) (outsAt7 V c (t.val - 1) (Nat.lt_of_le_of_lt (Nat.sub_le _ _) t.isLt)).2.2, sout7_C_0 c (grid7.coords t) (ms7_0 t) (hs7_0 t) (ms7_1 t) (hs7_1 t) (ms7_2 t) (hs7_2 t) (ms7_3 t) (hs7_3 t) (ms7_4 t) (hs7_4 t) scM7_0 (Memref.isWhole_whole _) (fun h => h0 ((hcond7_0 t).mp h)) ((hcond7_1 t).mpr h1) (iblk7 V c 0 t) (iblk7 V c 1 t) (iblk7 V c 2 t) (outsAt7 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The scoped buffers of the program other than this region's staging buffers and its accumulator. -/
abbrev RB7 (c : Dev nD) : sProp 𝕄 :=
  Pipeline.scopedRestBut (Ix := Unit) (Name := ℕ) (U := UR sig nD τ) (Lvl := ℕ) (Val := Elt F) spec7 c [cc7_scratch0]

/-- The region invariant before position `n`: at the first point every scoped buffer outside the staging buffers at
    anything; afterwards the accumulator at what the point before left in it. -/
def PhiS7 (c : Dev nD) : (n : ℕ) → n ≤ cfg7.N → sProp 𝕄
  | 0, _ => Pipeline.ΦA spec7 c
  | n + 1, hn => iprop((iprop(owns (c : Thread nD τ) scM7_0 fullShare ((outsAt7 V c n hn).2.2)) ∗ RB7 c) ∗ (∃ r, prngReg c r))

theorem PhiS7_zero (c : Dev nD) (n : ℕ) (h : n ≤ cfg7.N) (hz : n = 0) : PhiS7 V c n h = Pipeline.ΦA spec7 c := by
  subst hz; rfl
theorem PhiS7_succ (c : Dev nD) (n : ℕ) (hn : n < cfg7.N) :
    PhiS7 V c (n + 1) hn = iprop((iprop(owns (c : Thread nD τ) scM7_0 fullShare ((outsAt7 V c n hn).2.2)) ∗ RB7 c) ∗ (∃ r, prngReg c r)) := rfl
theorem PhiS7_pos (c : Dev nD) (n : ℕ) (h : n ≤ cfg7.N) (hz : n ≠ 0) :
    PhiS7 V c n h = iprop((iprop(owns (c : Thread nD τ) scM7_0 fullShare ((outsAt7 V c (n - 1) (by omega)).2.2)) ∗ RB7 c) ∗ (∃ r, prngReg c r)) := by
  cases n with
  | zero => exact absurd rfl hz
  | succ n => rfl

/-- The first point's invariant with the accumulator split out, owned at some contents. -/
theorem PhiA7_eq (c : Dev nD) :
    (Pipeline.ΦA spec7 c : sProp 𝕄)
      = iprop((iprop((∃ d, owns (c : Thread nD τ) scM7_0 fullShare d)) ∗ RB7 c) ∗ (∃ r, prngReg c r)) := by
  unfold Pipeline.ΦA; rw [scopedRest7_split]; simp only [scM7_0, owns_whole]; try rfl

/-- The proof data of region 7's pipeline on core `c`: the arrays as the region finds them; after the body at
    point `t` each input's buffer at its block and the results' at `outsAt7`; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => (outsAt7 V c t.val t.isLt).1
    | ⟨4, _⟩ => (outsAt7 V c t.val t.isLt).2.1
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]
theorem PhiS7_castSucc (c : Dev nD) (t : Fin cfg7.N) :
    (dat7 V c).Φ t.castSucc = PhiS7 V c t.val (Nat.le_of_lt t.isLt) := by
  dsimp only [dat7]; simp only [Fin.coe_castSucc]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = (outsAt7 V c t.val t.isLt).1 := by dsimp only [dat7]
theorem after7_4 (c : Dev nD) (t : Fin cfg7.N) : (dat7 V c).after 4 t = (outsAt7 V c t.val t.isLt).2.1 := by dsimp only [dat7]
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-- What the body is called with at point `t`, -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d)))
/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t)

set_option maxHeartbeats 8000000 in
/-- The body at any point: the inputs' buffers hold their blocks; the position says which case the point is in; the
    invariant hands the body the accumulator at what the point before left (at anything at the first point) and takes
    it back at this point's contents; the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).owesAt () t.succ = (dat7 V c).owesAt () t.castSucc from rfl]
  rw [show (dat7 V c).Φ t.succ = PhiS7 V c (t.val + 1) t.isLt from rfl, PhiS7_succ]
  have hN : t.val < 64 := lt_of_lt_of_eq t.isLt (show cfg7.N = 64 from N_7)
  rw [show (dat7 V c).leavesExact 0 t = owns (c : Thread nD τ) (ms7_0 t) fullShare ((dat7 V c).after 0 t) from by
      unfold Dat.leavesExact; rw [liveAt7_0 t], after7_0]
  rw [show (dat7 V c).leavesExact 1 t = owns (c : Thread nD τ) (ms7_1 t) fullShare ((dat7 V c).after 1 t) from by
      unfold Dat.leavesExact; rw [liveAt7_1 t], after7_1]
  rw [show (dat7 V c).leavesExact 2 t = owns (c : Thread nD τ) (ms7_2 t) fullShare ((dat7 V c).after 2 t) from by
      unfold Dat.leavesExact; rw [liveAt7_2 t], after7_2]
  by_cases h0 : t.val % 8 = 0
  · have h1 : ¬t.val % 8 = 7 := by omega
    rw [Dat.leavesExact_idle (dat7 V c) 3 t (idleAt7_3 t (fun h => h1 ((hcond7_1 t).mp h))) (noFlush7_3 t (fun h => h1 ((hcond7_1 t).mp h)))]
    rw [Dat.leavesExact_idle (dat7 V c) 4 t (idleAt7_4 t (fun h => h1 ((hcond7_1 t).mp h))) (noFlush7_4 t (fun h => h1 ((hcond7_1 t).mp h)))]
    rw [outsAt7_A V c t h0 h1]
    unfold sout7_A_0; (try dsimp only)
    by_cases hz : t.val = 0
    · rw [PhiS7_castSucc V c t, PhiS7_zero V c _ _ hz, PhiA7_eq]
      iintro ⟨⟨⟨HS0, HR⟩, Hg⟩, Ho, ⟨%d0, H0⟩, ⟨%d1, H1⟩, ⟨%d2, H2⟩, ⟨%d3, H3⟩, ⟨%d4, H4⟩⟩
      iapply ((kernelRun7_A c (grid7.coords t) _ _ _ _ _ _ _ _ _ _ _ _ ((hcond7_0 t).mpr h0) (fun h => h1 ((hcond7_1 t).mp h)) (iblk7 V c 0 t) (iblk7 V c 1 t) (iblk7 V c 2 t)).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover7_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
    · rw [PhiS7_castSucc V c t, PhiS7_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun7_A c (grid7.coords t) _ _ _ _ _ _ _ _ _ _ _ _ ((hcond7_0 t).mpr h0) (fun h => h1 ((hcond7_1 t).mp h)) (iblk7 V c 0 t) (iblk7 V c 1 t) (iblk7 V c 2 t)).2.2.2 _ _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover7_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun h => h0 (by rw [h])
    by_cases h1 : t.val % 8 = 7
    · rw [show (dat7 V c).leavesExact 3 t = owns (c : Thread nD τ) (ms7_3 t) fullShare ((dat7 V c).after 3 t) from by
        unfold Dat.leavesExact; rw [liveAt7_3 t ((hcond7_1 t).mpr h1)], after7_3]
      rw [show (dat7 V c).leavesExact 4 t = owns (c : Thread nD τ) (ms7_4 t) fullShare ((dat7 V c).after 4 t) from by
        unfold Dat.leavesExact; rw [liveAt7_4 t ((hcond7_1 t).mpr h1)], after7_4]
      rw [outsAt7_C V c t h0 h1]
      unfold out7_C_3 out7_C_4 sout7_C_0; (try dsimp only)
      rw [PhiS7_castSucc V c t, PhiS7_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun7_C c (grid7.coords t) _ _ _ _ _ _ _ _ _ _ _ _ (fun h => h0 ((hcond7_0 t).mp h)) ((hcond7_1 t).mpr h1) (iblk7 V c 0 t) (iblk7 V c 1 t) (iblk7 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover7_C_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover7_C_3 c _ _ _ _ _ _ _ _ _ _ _ _ _ _ _ _ _ _ _)
      unfold owns; iexists _; isplitr
      swap; · iexact H4
      ipureintro; exact View.read_writes_of_cover _ _ _ _ _ (cover7_C_4 c _ _ _ _ _ _ _ _ _ _ _ _ _ _ _ _ _ _ _)
    · rw [Dat.leavesExact_idle (dat7 V c) 3 t (idleAt7_3 t (fun h => h1 ((hcond7_1 t).mp h))) (noFlush7_3 t (fun h => h1 ((hcond7_1 t).mp h)))]
      rw [Dat.leavesExact_idle (dat7 V c) 4 t (idleAt7_4 t (fun h => h1 ((hcond7_1 t).mp h))) (noFlush7_4 t (fun h => h1 ((hcond7_1 t).mp h)))]
      rw [outsAt7_B V c t h0 h1]
      unfold sout7_B_0; (try dsimp only)
      rw [PhiS7_castSucc V c t, PhiS7_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun7_B c (grid7.coords t) _ _ _ _ _ _ _ _ _ _ _ _ (fun h => h0 ((hcond7_0 t).mp h)) (fun h => h1 ((hcond7_1 t).mp h)) (iblk7 V c 0 t) (iblk7 V c 1 t) (iblk7 V c 2 t) _).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover7_B_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4

/-- The body obligation of region 7, at every point. -/
theorem body_obligation7 (c : Dev nD) : BodyObligation (dat7 (F := F) V c) (defs₀ (F := F)) Variants.none () Set.univ := fun t => by
  rw [bigSep_W7, bigSep_W7]
  exact sound_body7 V c t

/-- What the region is entered with is the invariant before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After the last point the invariant gives the scoped buffers back: what the accumulator holds is forgotten. -/
theorem hout7 (c : Dev nD) : (dat7 V c).Φ (Fin.last cfg7.N) ⊢ Pipeline.ΦA spec7 c := by
  have ht : (Fin.last cfg7.N).val ≠ 0 := by rw [Fin.val_last]; have : cfg7.N = 64 := N_7; omega
  rw [show (dat7 V c).Φ (Fin.last cfg7.N) = PhiS7 V c (Fin.last cfg7.N).val (Nat.le_of_lt_succ (Fin.last cfg7.N).isLt) from rfl,
    PhiS7_pos V c _ _ ht, PhiA7_eq]
  iintro ⟨⟨HS0, HR⟩, Hg⟩
  isplitl [HS0 HR]
  · isplitl [HS0]
    · iexists _; iexact HS0
    iexact HR
  iexact Hg

end Cert.KernelIdeal.Hand

end
-- ==== Proof.RegI8Run.lean ====
/-
  Region 8 of the program (the recurrence step 2·(Ls·T) − T′): the kernel body run once per control case.
  The grid is 8 × 8; a point t = 8·r + k handles row block r and column block k of Ls. The body zeroes the
  accumulator when k = 0 (case A), adds the block product Ls[r,k]·v[k] to it at every point, and when k = 7
  (case C) stores the combination of the accumulator and the block of the earlier vector into both result
  blocks; at 0 < k < 7 (case B) it only accumulates. Each run states what the body's stores leave in the
  accumulator and in the result blocks, as the list of stored pieces.
-/
import proofs.«108570_j29480655520371_2_alg».proof.Proof.Gen.KernelIdeal.Launch
import proofs.«108570_j29480655520371_2_alg».proof.Proof.Gen.KernelIdeal.Skeleton
import proofs.«108570_j29480655520371_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- Input window 1's current staging buffer holds its block at every point, fetched there or not. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
/-- Input window 2's current staging buffer holds its block at every point, fetched there or not. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- k = 0: the accumulator is zeroed first. -/
abbrev cond8_0 (i : grid8.Coords) : Prop := (Scalar.cmpi .ne (Scalar.extui (Scalar.cmpi .eq (BitVec.ofNat 32 (i 1).val) 0#32)) 0#32) = 1#1
theorem hcond8_0 : ∀ t : Fin cfg8.N, cond8_0 (grid8.coords t) ↔ t.val % 8 = 0 :=
  (by decide +kernel : ∀ t : Fin grid8.N, cond8_0 (grid8.coords t) ↔ t.val % 8 = 0)
/-- k = 7: the results are stored. -/
abbrev cond8_1 (i : grid8.Coords) : Prop := k8_cond2 i = 1#1
theorem hcond8_1 : ∀ t : Fin cfg8.N, cond8_1 (grid8.coords t) ↔ t.val % 8 = 7 :=
  (by decide +kernel : ∀ t : Fin grid8.N, cond8_1 (grid8.coords t) ↔ t.val % 8 = 7)

theorem liveAt8_0 : ∀ t : Fin cfg8.N, cfg8.idle 0 (grid8.coords t) = false := by decide +kernel
theorem liveAt8_1 : ∀ t : Fin cfg8.N, cfg8.idle 1 (grid8.coords t) = false := by decide +kernel
theorem liveAt8_2 : ∀ t : Fin cfg8.N, cfg8.idle 2 (grid8.coords t) = false := by decide +kernel
theorem idleAt8_3 : ∀ t : Fin cfg8.N, ¬cond8_1 (grid8.coords t) → cfg8.idle 3 (grid8.coords t) = true := by decide +kernel
theorem noFlush8_3 : ∀ t : Fin cfg8.N, ¬cond8_1 (grid8.coords t) → (cfg8.win 3).flush t = false := by decide +kernel
theorem liveAt8_3 : ∀ t : Fin cfg8.N, cond8_1 (grid8.coords t) → cfg8.idle 3 (grid8.coords t) = false := by decide +kernel
theorem idleAt8_4 : ∀ t : Fin cfg8.N, ¬cond8_1 (grid8.coords t) → cfg8.idle 4 (grid8.coords t) = true := by decide +kernel
theorem noFlush8_4 : ∀ t : Fin cfg8.N, ¬cond8_1 (grid8.coords t) → (cfg8.win 4).flush t = false := by decide +kernel
theorem liveAt8_4 : ∀ t : Fin cfg8.N, cond8_1 (grid8.coords t) → cfg8.idle 4 (grid8.coords t) = false := by decide +kernel

/-- One staging buffer of each result window, through which its contents are stated. -/
abbrev VO8_3 : View sig .tc .vmem S2048x16 .f32 := (Memref.whole cc8_stg3_0 : Memref sig .tc .vmem S2048x16 .f32).view
abbrev VO8_4 : View sig .tc .vmem S2048x16 .bf16 := (Memref.whole cc8_stg4_0 : Memref sig .tc .vmem S2048x16 .bf16).view
abbrev ms8_0 (t : Fin cfg8.N) : Memref sig .tc .vmem S2048x2048 .bf16 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S2048x16 .bf16 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S2048x16 .f32 := win8_2.stage (cfg8.slots t 2)
abbrev hs8_2 (t : Fin cfg8.N) : (ms8_2 t).IsWhole := hstage8_2 ((cfg8.slots t 2).cast nbuf8_2)
abbrev ms8_3 (t : Fin cfg8.N) : Memref sig .tc .vmem S2048x16 .f32 := win8_3.stage (cfg8.slots t 3)
abbrev hs8_3 (t : Fin cfg8.N) : (ms8_3 t).IsWhole := hstage8_3 ((cfg8.slots t 3).cast nbuf8_3)
abbrev ms8_4 (t : Fin cfg8.N) : Memref sig .tc .vmem S2048x16 .bf16 := win8_4.stage (cfg8.slots t 4)
abbrev hs8_4 (t : Fin cfg8.N) : (ms8_4 t).IsWhole := hstage8_4 ((cfg8.slots t 4).cast nbuf8_4)
/-- The accumulator: a whole scoped buffer of the kernel's own. -/
abbrev scM8_0 : Memref sig .tc .vmem S2048x16 .f32 := Memref.whole cc8_scratch0
abbrev VS8_0 : View sig .tc .vmem S2048x16 .f32 := scM8_0.view

set_option maxHeartbeats 4000000 in
/-- Case A (k = 0): the accumulator, at anything, is zeroed and then receives the first block product; the result
    blocks are handed back untouched. -/
noncomputable def kernelRun8_A (c : Dev nD) (i : grid8.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond8_0 i) (hc1 : ¬cond8_1 i)
    (x0 : Vec F S2048x2048 .bf16) (x1 : Vec F S2048x16 .bf16) (x2 : Vec F S2048x16 .f32) :
    Σ' (L3 : List (View.Piece (Elt F) S2048x16 .f32)) (L4 : List (View.Piece (Elt F) S2048x16 .bf16)), { LS0 : List (View.Piece (Elt F) S2048x16 .f32) //
      ∀ (xi3 : Vec F S2048x16 .f32) (xi4 : Vec F S2048x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc8__matmul_combine_kernel i arg2 harg2 arg3 harg3 arg4 harg4 arg5 harg5 arg6 harg6 arg7 harg7) K } := by
  refine ⟨[], [], ?_, fun xi3 xi4 E K => ?run⟩
  case run =>
    simp only [cc8__matmul_combine_kernel_eq_skeleton]; unfold cc8__matmul_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case B (0 < k < 7): the accumulator, at what the point before left, receives one more block product; the result
    blocks are handed back untouched. -/
noncomputable def kernelRun8_B (c : Dev nD) (i : grid8.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond8_0 i) (hc1 : ¬cond8_1 i)
    (x0 : Vec F S2048x2048 .bf16) (x1 : Vec F S2048x16 .bf16) (x2 : Vec F S2048x16 .f32) (xs0 : Vec F S2048x16 .f32) :
    Σ' (L3 : List (View.Piece (Elt F) S2048x16 .f32)) (L4 : List (View.Piece (Elt F) S2048x16 .bf16)), { LS0 : List (View.Piece (Elt F) S2048x16 .f32) //
      ∀ (xi3 : Vec F S2048x16 .f32) (xi4 : Vec F S2048x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc8__matmul_combine_kernel i arg2 harg2 arg3 harg3 arg4 harg4 arg5 harg5 arg6 harg6 arg7 harg7) K } := by
  refine ⟨[], [], ?_, fun xi3 xi4 E K => ?run⟩
  case run =>
    simp only [cc8__matmul_combine_kernel_eq_skeleton]; unfold cc8__matmul_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case C (k = 7): the accumulator receives the last block product, and both result blocks, at anything, are stored
    whole with the combination of the accumulator and the block of the earlier vector. -/
noncomputable def kernelRun8_C (c : Dev nD) (i : grid8.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond8_0 i) (hc1 : cond8_1 i)
    (x0 : Vec F S2048x2048 .bf16) (x1 : Vec F S2048x16 .bf16) (x2 : Vec F S2048x16 .f32) (xs0 : Vec F S2048x16 .f32) :
    Σ' (L3 : List (View.Piece (Elt F) S2048x16 .f32)) (L4 : List (View.Piece (Elt F) S2048x16 .bf16)), { LS0 : List (View.Piece (Elt F) S2048x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc8__matmul_combine_kernel i arg2 harg2 arg3 harg3 arg4 harg4 arg5 harg5 arg6 harg6 arg7 harg7) K } := by
  refine ⟨?_, ?_, ?_, fun E K => ?run⟩
  case run =>
    simp only [cc8__matmul_combine_kernel_eq_skeleton]; unfold cc8__matmul_combine_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.KernelIdeal.Hand

end
-- ==== Proof.RegI8Frame.lean ====
/-
  Region 8: what its result blocks and its accumulator hold after every grid point, the proof data of its pipeline,
  and the body obligation. After point t = 8·r + k the accumulator holds the sum of the block products
  Ls[r,0]·v[0] + … + Ls[r,k]·v[k] (case A starts it from zero, cases B and C continue from what the point before
  left); the result blocks are written at k = 7 only and written back to their arrays right after that point, so at
  the other points their staging buffers are idle and what they hold is never consulted.
-/
import proofs.«108570_j29480655520371_2_alg».proof.Proof.RegI8Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's piece for the accumulator covers it. -/
theorem scover8_A_0 (c : Dev nD) (i : grid8.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond8_0 i) (hc1 : ¬cond8_1 i)
    (x0 : Vec F S2048x2048 .bf16) (x1 : Vec F S2048x16 .bf16) (x2 : Vec F S2048x16 .f32) (y : S2048x16.Idx) :
    ∃ pc ∈ (kernelRun8_A c i arg2 harg2 arg3 harg3 arg4 harg4 arg5 harg5 arg6 harg6 arg7 harg7 hc0 hc1 x0 x1 x2).2.2.1, y ∈ pc.1.set :=
  View.cover_of_tiledL (kernelRun8_A c i arg2 harg2 arg3 harg3 arg4 harg4 arg5 harg5 arg6 harg6 arg7 harg7 hc0 hc1 x0 x1 x2).2.2.1 S2048x16.size (by sl_kernel_rfl) y
/-- What case A leaves in the accumulator. -/
def sout8_A_0 (c : Dev nD) (i : grid8.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond8_0 i) (hc1 : ¬cond8_1 i)
    (x0 : Vec F S2048x2048 .bf16) (x1 : Vec F S2048x16 .bf16) (x2 : Vec F S2048x16 .f32) : Vec F S2048x16 .f32 :=
  VS8_0.read (Elt F) (VS8_0.writes (Elt F) VS8_0.junk (kernelRun8_A c i arg2 harg2 arg3 harg3 arg4 harg4 arg5 harg5 arg6 harg6 arg7 harg7 hc0 hc1 x0 x1 x2).2.2.1)

/-- Case B's piece for the accumulator covers it. -/
theorem scover8_B_0 (c : Dev nD) (i : grid8.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond8_0 i) (hc1 : ¬cond8_1 i)
    (x0 : Vec F S2048x2048 .bf16) (x1 : Vec F S2048x16 .bf16) (x2 : Vec F S2048x16 .f32) (xs0 : Vec F S2048x16 .f32) (y : S2048x16.Idx) :
    ∃ pc ∈ (kernelRun8_B c i arg2 harg2 arg3 harg3 arg4 harg4 arg5 harg5 arg6 harg6 arg7 harg7 hc0 hc1 x0 x1 x2 xs0).2.2.1, y ∈ pc.1.set :=
  View.cover_of_tiledL (kernelRun8_B c i arg2 harg2 arg3 harg3 arg4 harg4 arg5 harg5 arg6 harg6 arg7 harg7 hc0 hc1 x0 x1 x2 xs0).2.2.1 S2048x16.size (by sl_kernel_rfl) y
/-- What case B leaves in the accumulator. -/
def sout8_B_0 (c : Dev nD) (i : grid8.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond8_0 i) (hc1 : ¬cond8_1 i)
    (x0 : Vec F S2048x2048 .bf16) (x1 : Vec F S2048x16 .bf16) (x2 : Vec F S2048x16 .f32) (xs0 : Vec F S2048x16 .f32) : Vec F S2048x16 .f32 :=
  VS8_0.read (Elt F) (VS8_0.writes (Elt F) VS8_0.junk (kernelRun8_B c i arg2 harg2 arg3 harg3 arg4 harg4 arg5 harg5 arg6 harg6 arg7 harg7 hc0 hc1 x0 x1 x2 xs0).2.2.1)

/-- Case C's pieces cover the f32 result block, -/
theorem cover8_C_3 (c : Dev nD) (i : grid8.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond8_0 i) (hc1 : cond8_1 i)
    (x0 : Vec F S2048x2048 .bf16) (x1 : Vec F S2048x16 .bf16) (x2 : Vec F S2048x16 .f32) (xs0 : Vec F S2048x16 .f32) (y : S2048x16.Idx) :
    ∃ pc ∈ (kernelRun8_C c i arg2 harg2 arg3 harg3 arg4 harg4 arg5 harg5 arg6 harg6 arg7 harg7 hc0 hc1 x0 x1 x2 xs0).1, y ∈ pc.1.set :=
  View.cover_of_tiledL (kernelRun8_C c i arg2 harg2 arg3 harg3 arg4 harg4 arg5 harg5 arg6 harg6 arg7 harg7 hc0 hc1 x0 x1 x2 xs0).1 S2048x16.size (by sl_kernel_rfl) y
/-- the bf16 result block, -/
theorem cover8_C_4 (c : Dev nD) (i : grid8.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond8_0 i) (hc1 : cond8_1 i)
    (x0 : Vec F S2048x2048 .bf16) (x1 : Vec F S2048x16 .bf16) (x2 : Vec F S2048x16 .f32) (xs0 : Vec F S2048x16 .f32) (y : S2048x16.Idx) :
    ∃ pc ∈ (kernelRun8_C c i arg2 harg2 arg3 harg3 arg4 harg4 arg5 harg5 arg6 harg6 arg7 harg7 hc0 hc1 x0 x1 x2 xs0).2.1, y ∈ pc.1.set :=
  View.cover_of_tiledL (kernelRun8_C c i arg2 harg2 arg3 harg3 arg4 harg4 arg5 harg5 arg6 harg6 arg7 harg7 hc0 hc1 x0 x1 x2 xs0).2.1 S2048x16.size (by sl_kernel_rfl) y
/-- and the accumulator. -/
theorem scover8_C_0 (c : Dev nD) (i : grid8.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond8_0 i) (hc1 : cond8_1 i)
    (x0 : Vec F S2048x2048 .bf16) (x1 : Vec F S2048x16 .bf16) (x2 : Vec F S2048x16 .f32) (xs0 : Vec F S2048x16 .f32) (y : S2048x16.Idx) :
    ∃ pc ∈ (kernelRun8_C c i arg2 harg2 arg3 harg3 arg4 harg4 arg5 harg5 arg6 harg6 arg7 harg7 hc0 hc1 x0 x1 x2 xs0).2.2.1, y ∈ pc.1.set :=
  View.cover_of_tiledL (kernelRun8_C c i arg2 harg2 arg3 harg3 arg4 harg4 arg5 harg5 arg6 harg6 arg7 harg7 hc0 hc1 x0 x1 x2 xs0).2.2.1 S2048x16.size (by sl_kernel_rfl) y
/-- What case C leaves in the f32 result block, -/
def out8_C_3 (c : Dev nD) (i : grid8.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond8_0 i) (hc1 : cond8_1 i)
    (x0 : Vec F S2048x2048 .bf16) (x1 : Vec F S2048x16 .bf16) (x2 : Vec F S2048x16 .f32) (xs0 : Vec F S2048x16 .f32) : Vec F S2048x16 .f32 :=
  VO8_3.read (Elt F) (VO8_3.writes (Elt F) VO8_3.junk (kernelRun8_C c i arg2 harg2 arg3 harg3 arg4 harg4 arg5 harg5 arg6 harg6 arg7 harg7 hc0 hc1 x0 x1 x2 xs0).1)
/-- in the bf16 result block, -/
def out8_C_4 (c : Dev nD) (i : grid8.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond8_0 i) (hc1 : cond8_1 i)
    (x0 : Vec F S2048x2048 .bf16) (x1 : Vec F S2048x16 .bf16) (x2 : Vec F S2048x16 .f32) (xs0 : Vec F S2048x16 .f32) : Vec F S2048x16 .bf16 :=
  VO8_4.read (Elt F) (VO8_4.writes (Elt F) VO8_4.junk (kernelRun8_C c i arg2 harg2 arg3 harg3 arg4 harg4 arg5 harg5 arg6 harg6 arg7 harg7 hc0 hc1 x0 x1 x2 xs0).2.1)
/-- and in the accumulator. -/
def sout8_C_0 (c : Dev nD) (i : grid8.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond8_0 i) (hc1 : cond8_1 i)
    (x0 : Vec F S2048x2048 .bf16) (x1 : Vec F S2048x16 .bf16) (x2 : Vec F S2048x16 .f32) (xs0 : Vec F S2048x16 .f32) : Vec F S2048x16 .f32 :=
  VS8_0.read (Elt F) (VS8_0.writes (Elt F) VS8_0.junk (kernelRun8_C c i arg2 harg2 arg3 harg3 arg4 harg4 arg5 harg5 arg6 harg6 arg7 harg7 hc0 hc1 x0 x1 x2 xs0).2.2.1)

/-- What the two result blocks' staging buffers and the accumulator hold after the body at position `n`: the case
    the position selects, run at the point's blocks, cases B and C over the accumulator the point before left. -/
def outsAt8 (c : Dev nD) : (n : ℕ) → n < cfg8.N → Vec F S2048x16 .f32 × Vec F S2048x16 .bf16 × Vec F S2048x16 .f32
  | 0, hn => ((VO8_3.read (Elt F) VO8_3.junk), (VO8_4.read (Elt F) VO8_4.junk), sout8_A_0 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) (ms8_4 ⟨0, hn⟩) (hs8_4 ⟨0, hn⟩) scM8_0 (Memref.isWhole_whole _) ((hcond8_0 ⟨0, hn⟩).mpr (Nat.zero_mod _)) (fun h => (fun h => by (try dsimp only at h); omega) ((hcond8_1 ⟨0, hn⟩).mp h)) (iblk8 V c 0 ⟨0, hn⟩) (iblk8 V c 1 ⟨0, hn⟩) (iblk8 V c 2 ⟨0, hn⟩))
  | n + 1, hn =>
    if h0 : (n + 1) % 8 = 0 then
      if h1 : (n + 1) % 8 = 7 then
        False.elim (by omega)
      else
        ((VO8_3.read (Elt F) VO8_3.junk), (VO8_4.read (Elt F) VO8_4.junk), sout8_A_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) scM8_0 (Memref.isWhole_whole _) ((hcond8_0 ⟨n + 1, hn⟩).mpr h0) (fun h => h1 ((hcond8_1 ⟨n + 1, hn⟩).mp h)) (iblk8 V c 0 ⟨n + 1, hn⟩) (iblk8 V c 1 ⟨n + 1, hn⟩) (iblk8 V c 2 ⟨n + 1, hn⟩))
    else
      if h1 : (n + 1) % 8 = 7 then
        (out8_C_3 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) scM8_0 (Memref.isWhole_whole _) (fun h => h0 ((hcond8_0 ⟨n + 1, hn⟩).mp h)) ((hcond8_1 ⟨n + 1, hn⟩).mpr h1) (iblk8 V c 0 ⟨n + 1, hn⟩) (iblk8 V c 1 ⟨n + 1, hn⟩) (iblk8 V c 2 ⟨n + 1, hn⟩) (outsAt8 c n (Nat.lt_of_succ_lt hn)).2.2, out8_C_4 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) scM8_0 (Memref.isWhole_whole _) (fun h => h0 ((hcond8_0 ⟨n + 1, hn⟩).mp h)) ((hcond8_1 ⟨n + 1, hn⟩).mpr h1) (iblk8 V c 0 ⟨n + 1, hn⟩) (iblk8 V c 1 ⟨n + 1, hn⟩) (iblk8 V c 2 ⟨n + 1, hn⟩) (outsAt8 c n (Nat.lt_of_succ_lt hn)).2.2, sout8_C_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) scM8_0 (Memref.isWhole_whole _) (fun h => h0 ((hcond8_0 ⟨n + 1, hn⟩).mp h)) ((hcond8_1 ⟨n + 1, hn⟩).mpr h1) (iblk8 V c 0 ⟨n + 1, hn⟩) (iblk8 V c 1 ⟨n + 1, hn⟩) (iblk8 V c 2 ⟨n + 1, hn⟩) (outsAt8 c n (Nat.lt_of_succ_lt hn)).2.2)
      else
        ((VO8_3.read (Elt F) VO8_3.junk), (VO8_4.read (Elt F) VO8_4.junk), sout8_B_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) scM8_0 (Memref.isWhole_whole _) (fun h => h0 ((hcond8_0 ⟨n + 1, hn⟩).mp h)) (fun h => h1 ((hcond8_1 ⟨n + 1, hn⟩).mp h)) (iblk8 V c 0 ⟨n + 1, hn⟩) (iblk8 V c 1 ⟨n + 1, hn⟩) (iblk8 V c 2 ⟨n + 1, hn⟩) (outsAt8 c n (Nat.lt_of_succ_lt hn)).2.2)

theorem outsAt8_A (c : Dev nD) (t : Fin cfg8.N) (h0 : t.val % 8 = 0) (h1 : ¬t.val % 8 = 7) :
    outsAt8 V c t.val t.isLt = ((VO8_3.read (Elt F) VO8_3.junk), (VO8_4.read (Elt F) VO8_4.junk), sout8_A_0 c (grid8.coords t) (ms8_0 t) (hs8_0 t) (ms8_1 t) (hs8_1 t) (ms8_2 t) (hs8_2 t) (ms8_3 t) (hs8_3 t) (ms8_4 t) (hs8_4 t) scM8_0 (Memref.isWhole_whole _) ((hcond8_0 t).mpr h0) (fun h => h1 ((hcond8_1 t).mp h)) (iblk8 V c 0 t) (iblk8 V c 1 t) (iblk8 V c 2 t)) := by
  obtain ⟨n, hn⟩ := t
  cases n with
  | zero => exact rfl
  | succ n => exact (dif_pos h0).trans ((dif_neg h1).trans rfl)

theorem outsAt8_B (c : Dev nD) (t : Fin cfg8.N) (h0 : ¬t.val % 8 = 0) (h1 : ¬t.val % 8 = 7) :
    outsAt8 V c t.val t.isLt = ((VO8_3.read (Elt F) VO8_3.junk), (VO8_4.read (Elt F) VO8_4.junk), sout8_B_0 c (grid8.coords t) (ms8_0 t) (hs8_0 t) (ms8_1 t) (hs8_1 t) (ms8_2 t) (hs8_2 t) (ms8_3 t) (hs8_3 t) (ms8_4 t) (hs8_4 t) scM8_0 (Memref.isWhole_whole _) (fun h => h0 ((hcond8_0 t).mp h)) (fun h => h1 ((hcond8_1 t).mp h)) (iblk8 V c 0 t) (iblk8 V c 1 t) (iblk8 V c 2 t) (outsAt8 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt8_C (c : Dev nD) (t : Fin cfg8.N) (h0 : ¬t.val % 8 = 0) (h1 : t.val % 8 = 7) :
    outsAt8 V c t.val t.isLt = (out8_C_3 c (grid8.coords t) (ms8_0 t) (hs8_0 t) (ms8_1 t) (hs8_1 t) (ms8_2 t) (hs8_2 t) (ms8_3 t) (hs8_3 t) (ms8_4 t) (hs8_4 t) scM8_0 (Memref.isWhole_whole _) (fun h => h0 ((hcond8_0 t).mp h)) ((hcond8_1 t).mpr h1) (iblk8 V c 0 t) (iblk8 V c 1 t) (iblk8 V c 2 t) (outsAt8 V c (t.val - 1) (Nat.lt_of_le_of_lt (Nat.sub_le _ _) t.isLt)).2.2, out8_C_4 c (grid8.coords t) (ms8_0 t) (hs8_0 t) (ms8_1 t) (hs8_1 t) (ms8_2 t) (hs8_2 t) (ms8_3 t) (hs8_3 t) (ms8_4 t) (hs8_4 t) scM8_0 (Memref.isWhole_whole _) (fun h => h0 ((hcond8_0 t).mp h)) ((hcond8_1 t).mpr h1) (iblk8 V c 0 t) (iblk8 V c 1 t) (iblk8 V c 2 t) (outsAt8 V c (t.val - 1) (Nat.lt_of_le_of_lt (Nat.sub_le _ _) t.isLt)).2.2, sout8_C_0 c (grid8.coords t) (ms8_0 t) (hs8_0 t) (ms8_1 t) (hs8_1 t) (ms8_2 t) (hs8_2 t) (ms8_3 t) (hs8_3 t) (ms8_4 t) (hs8_4 t) scM8_0 (Memref.isWhole_whole _) (fun h => h0 ((hcond8_0 t).mp h)) ((hcond8_1 t).mpr h1) (iblk8 V c 0 t) (iblk8 V c 1 t) (iblk8 V c 2 t) (outsAt8 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The scoped buffers of the program other than this region's staging buffers and its accumulator. -/
abbrev RB8 (c : Dev nD) : sProp 𝕄 :=
  Pipeline.scopedRestBut (Ix := Unit) (Name := ℕ) (U := UR sig nD τ) (Lvl := ℕ) (Val := Elt F) spec8 c [cc8_scratch0]

/-- The region invariant before position `n`: at the first point every scoped buffer outside the staging buffers at
    anything; afterwards the accumulator at what the point before left in it. -/
def PhiS8 (c : Dev nD) : (n : ℕ) → n ≤ cfg8.N → sProp 𝕄
  | 0, _ => Pipeline.ΦA spec8 c
  | n + 1, hn => iprop((iprop(owns (c : Thread nD τ) scM8_0 fullShare ((outsAt8 V c n hn).2.2)) ∗ RB8 c) ∗ (∃ r, prngReg c r))

theorem PhiS8_zero (c : Dev nD) (n : ℕ) (h : n ≤ cfg8.N) (hz : n = 0) : PhiS8 V c n h = Pipeline.ΦA spec8 c := by
  subst hz; rfl
theorem PhiS8_succ (c : Dev nD) (n : ℕ) (hn : n < cfg8.N) :
    PhiS8 V c (n + 1) hn = iprop((iprop(owns (c : Thread nD τ) scM8_0 fullShare ((outsAt8 V c n hn).2.2)) ∗ RB8 c) ∗ (∃ r, prngReg c r)) := rfl
theorem PhiS8_pos (c : Dev nD) (n : ℕ) (h : n ≤ cfg8.N) (hz : n ≠ 0) :
    PhiS8 V c n h = iprop((iprop(owns (c : Thread nD τ) scM8_0 fullShare ((outsAt8 V c (n - 1) (by omega)).2.2)) ∗ RB8 c) ∗ (∃ r, prngReg c r)) := by
  cases n with
  | zero => exact absurd rfl hz
  | succ n => rfl

/-- The first point's invariant with the accumulator split out, owned at some contents. -/
theorem PhiA8_eq (c : Dev nD) :
    (Pipeline.ΦA spec8 c : sProp 𝕄)
      = iprop((iprop((∃ d, owns (c : Thread nD τ) scM8_0 fullShare d)) ∗ RB8 c) ∗ (∃ r, prngReg c r)) := by
  unfold Pipeline.ΦA; rw [scopedRest8_split]; simp only [scM8_0, owns_whole]; try rfl

/-- The proof data of region 8's pipeline on core `c`: the arrays as the region finds them; after the body at
    point `t` each input's buffer at its block and the results' at `outsAt8`; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => (outsAt8 V c t.val t.isLt).1
    | ⟨4, _⟩ => (outsAt8 V c t.val t.isLt).2.1
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]
theorem PhiS8_castSucc (c : Dev nD) (t : Fin cfg8.N) :
    (dat8 V c).Φ t.castSucc = PhiS8 V c t.val (Nat.le_of_lt t.isLt) := by
  dsimp only [dat8]; simp only [Fin.coe_castSucc]
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = (outsAt8 V c t.val t.isLt).1 := by dsimp only [dat8]
theorem after8_4 (c : Dev nD) (t : Fin cfg8.N) : (dat8 V c).after 4 t = (outsAt8 V c t.val t.isLt).2.1 := by dsimp only [dat8]
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-- What the body is called with at point `t`, -/
def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d))
    ∗ (∃ d, owns (c : Thread nD τ) (ms8_4 t) fullShare ((dat8 V c).before 4 t d)))
/-- and what it returns. -/
def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t
    ∗ (dat8 V c).leavesExact 4 t)

set_option maxHeartbeats 8000000 in
/-- The body at any point: the inputs' buffers hold their blocks; the position says which case the point is in; the
    invariant hands the body the accumulator at what the point before left (at anything at the first point) and takes
    it back at this point's contents; the core owes nothing throughout. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).owesAt () t.succ = (dat8 V c).owesAt () t.castSucc from rfl]
  rw [show (dat8 V c).Φ t.succ = PhiS8 V c (t.val + 1) t.isLt from rfl, PhiS8_succ]
  have hN : t.val < 64 := lt_of_lt_of_eq t.isLt (show cfg8.N = 64 from N_8)
  rw [show (dat8 V c).leavesExact 0 t = owns (c : Thread nD τ) (ms8_0 t) fullShare ((dat8 V c).after 0 t) from by
      unfold Dat.leavesExact; rw [liveAt8_0 t], after8_0]
  rw [show (dat8 V c).leavesExact 1 t = owns (c : Thread nD τ) (ms8_1 t) fullShare ((dat8 V c).after 1 t) from by
      unfold Dat.leavesExact; rw [liveAt8_1 t], after8_1]
  rw [show (dat8 V c).leavesExact 2 t = owns (c : Thread nD τ) (ms8_2 t) fullShare ((dat8 V c).after 2 t) from by
      unfold Dat.leavesExact; rw [liveAt8_2 t], after8_2]
  by_cases h0 : t.val % 8 = 0
  · have h1 : ¬t.val % 8 = 7 := by omega
    rw [Dat.leavesExact_idle (dat8 V c) 3 t (idleAt8_3 t (fun h => h1 ((hcond8_1 t).mp h))) (noFlush8_3 t (fun h => h1 ((hcond8_1 t).mp h)))]
    rw [Dat.leavesExact_idle (dat8 V c) 4 t (idleAt8_4 t (fun h => h1 ((hcond8_1 t).mp h))) (noFlush8_4 t (fun h => h1 ((hcond8_1 t).mp h)))]
    rw [outsAt8_A V c t h0 h1]
    unfold sout8_A_0; (try dsimp only)
    by_cases hz : t.val = 0
    · rw [PhiS8_castSucc V c t, PhiS8_zero V c _ _ hz, PhiA8_eq]
      iintro ⟨⟨⟨HS0, HR⟩, Hg⟩, Ho, ⟨%d0, H0⟩, ⟨%d1, H1⟩, ⟨%d2, H2⟩, ⟨%d3, H3⟩, ⟨%d4, H4⟩⟩
      iapply ((kernelRun8_A c (grid8.coords t) _ _ _ _ _ _ _ _ _ _ _ _ ((hcond8_0 t).mpr h0) (fun h => h1 ((hcond8_1 t).mp h)) (iblk8 V c 0 t) (iblk8 V c 1 t) (iblk8 V c 2 t)).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover8_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
    · rw [PhiS8_castSucc V c t, PhiS8_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun8_A c (grid8.coords t) _ _ _ _ _ _ _ _ _ _ _ _ ((hcond8_0 t).mpr h0) (fun h => h1 ((hcond8_1 t).mp h)) (iblk8 V c 0 t) (iblk8 V c 1 t) (iblk8 V c 2 t)).2.2.2 _ _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover8_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun h => h0 (by rw [h])
    by_cases h1 : t.val % 8 = 7
    · rw [show (dat8 V c).leavesExact 3 t = owns (c : Thread nD τ) (ms8_3 t) fullShare ((dat8 V c).after 3 t) from by
        unfold Dat.leavesExact; rw [liveAt8_3 t ((hcond8_1 t).mpr h1)], after8_3]
      rw [show (dat8 V c).leavesExact 4 t = owns (c : Thread nD τ) (ms8_4 t) fullShare ((dat8 V c).after 4 t) from by
        unfold Dat.leavesExact; rw [liveAt8_4 t ((hcond8_1 t).mpr h1)], after8_4]
      rw [outsAt8_C V c t h0 h1]
      unfold out8_C_3 out8_C_4 sout8_C_0; (try dsimp only)
      rw [PhiS8_castSucc V c t, PhiS8_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun8_C c (grid8.coords t) _ _ _ _ _ _ _ _ _ _ _ _ (fun h => h0 ((hcond8_0 t).mp h)) ((hcond8_1 t).mpr h1) (iblk8 V c 0 t) (iblk8 V c 1 t) (iblk8 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover8_C_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover8_C_3 c _ _ _ _ _ _ _ _ _ _ _ _ _ _ _ _ _ _ _)
      unfold owns; iexists _; isplitr
      swap; · iexact H4
      ipureintro; exact View.read_writes_of_cover _ _ _ _ _ (cover8_C_4 c _ _ _ _ _ _ _ _ _ _ _ _ _ _ _ _ _ _ _)
    · rw [Dat.leavesExact_idle (dat8 V c) 3 t (idleAt8_3 t (fun h => h1 ((hcond8_1 t).mp h))) (noFlush8_3 t (fun h => h1 ((hcond8_1 t).mp h)))]
      rw [Dat.leavesExact_idle (dat8 V c) 4 t (idleAt8_4 t (fun h => h1 ((hcond8_1 t).mp h))) (noFlush8_4 t (fun h => h1 ((hcond8_1 t).mp h)))]
      rw [outsAt8_B V c t h0 h1]
      unfold sout8_B_0; (try dsimp only)
      rw [PhiS8_castSucc V c t, PhiS8_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun8_B c (grid8.coords t) _ _ _ _ _ _ _ _ _ _ _ _ (fun h => h0 ((hcond8_0 t).mp h)) (fun h => h1 ((hcond8_1 t).mp h)) (iblk8 V c 0 t) (iblk8 V c 1 t) (iblk8 V c 2 t) _).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover8_B_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4

/-- The body obligation of region 8, at every point. -/
theorem body_obligation8 (c : Dev nD) : BodyObligation (dat8 (F := F) V c) (defs₀ (F := F)) Variants.none () Set.univ := fun t => by
  rw [bigSep_W8, bigSep_W8]
  exact sound_body8 V c t

/-- What the region is entered with is the invariant before the first point. -/
theorem hin8 (c : Dev nD) : Pipeline.ΦA spec8 c ⊢ (dat8 V c).Φ 0 := by
  rw [show (dat8 V c).Φ 0 = PhiS8 V c 0 (Nat.zero_le _) from rfl, PhiS8_zero V c 0 _ rfl]
  try exact Idealize.SL.BI.Entails.refl _

/-- After the last point the invariant gives the scoped buffers back: what the accumulator holds is forgotten. -/
theorem hout8 (c : Dev nD) : (dat8 V c).Φ (Fin.last cfg8.N) ⊢ Pipeline.ΦA spec8 c := by
  have ht : (Fin.last cfg8.N).val ≠ 0 := by rw [Fin.val_last]; have : cfg8.N = 64 := N_8; omega
  rw [show (dat8 V c).Φ (Fin.last cfg8.N) = PhiS8 V c (Fin.last cfg8.N).val (Nat.le_of_lt_succ (Fin.last cfg8.N).isLt) from rfl,
    PhiS8_pos V c _ _ ht, PhiA8_eq]
  iintro ⟨⟨HS0, HR⟩, Hg⟩
  isplitl [HS0 HR]
  · isplitl [HS0]
    · iexists _; iexact HS0
    iexact HR
  iexact Hg

end Cert.KernelIdeal.Hand

end
-- ==== Proof.RegI9Run.lean ====
/-
  Region 9 of the program (the recurrence step 2·(Ls·T) − T′): the kernel body run once per control case.
  The grid is 8 × 8; a point t = 8·r + k handles row block r and column block k of Ls. The body zeroes the
  accumulator when k = 0 (case A), adds the block product Ls[r,k]·v[k] to it at every point, and when k = 7
  (case C) stores the combination of the accumulator and the block of the earlier vector into both result
  blocks; at 0 < k < 7 (case B) it only accumulates. Each run states what the body's stores leave in the
  accumulator and in the result blocks, as the list of stored pieces.
-/
import proofs.«108570_j29480655520371_2_alg».proof.Proof.Gen.KernelIdeal.Launch
import proofs.«108570_j29480655520371_2_alg».proof.Proof.Gen.KernelIdeal.Skeleton
import proofs.«108570_j29480655520371_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
/-- Input window 1's current staging buffer holds its block at every point, fetched there or not. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
/-- Input window 2's current staging buffer holds its block at every point, fetched there or not. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- k = 0: the accumulator is zeroed first. -/
abbrev cond9_0 (i : grid9.Coords) : Prop := (Scalar.cmpi .ne (Scalar.extui (Scalar.cmpi .eq (BitVec.ofNat 32 (i 1).val) 0#32)) 0#32) = 1#1
theorem hcond9_0 : ∀ t : Fin cfg9.N, cond9_0 (grid9.coords t) ↔ t.val % 8 = 0 :=
  (by decide +kernel : ∀ t : Fin grid9.N, cond9_0 (grid9.coords t) ↔ t.val % 8 = 0)
/-- k = 7: the results are stored. -/
abbrev cond9_1 (i : grid9.Coords) : Prop := k9_cond2 i = 1#1
theorem hcond9_1 : ∀ t : Fin cfg9.N, cond9_1 (grid9.coords t) ↔ t.val % 8 = 7 :=
  (by decide +kernel : ∀ t : Fin grid9.N, cond9_1 (grid9.coords t) ↔ t.val % 8 = 7)

theorem liveAt9_0 : ∀ t : Fin cfg9.N, cfg9.idle 0 (grid9.coords t) = false := by decide +kernel
theorem liveAt9_1 : ∀ t : Fin cfg9.N, cfg9.idle 1 (grid9.coords t) = false := by decide +kernel
theorem liveAt9_2 : ∀ t : Fin cfg9.N, cfg9.idle 2 (grid9.coords t) = false := by decide +kernel
theorem idleAt9_3 : ∀ t : Fin cfg9.N, ¬cond9_1 (grid9.coords t) → cfg9.idle 3 (grid9.coords t) = true := by decide +kernel
theorem noFlush9_3 : ∀ t : Fin cfg9.N, ¬cond9_1 (grid9.coords t) → (cfg9.win 3).flush t = false := by decide +kernel
theorem liveAt9_3 : ∀ t : Fin cfg9.N, cond9_1 (grid9.coords t) → cfg9.idle 3 (grid9.coords t) = false := by decide +kernel
theorem idleAt9_4 : ∀ t : Fin cfg9.N, ¬cond9_1 (grid9.coords t) → cfg9.idle 4 (grid9.coords t) = true := by decide +kernel
theorem noFlush9_4 : ∀ t : Fin cfg9.N, ¬cond9_1 (grid9.coords t) → (cfg9.win 4).flush t = false := by decide +kernel
theorem liveAt9_4 : ∀ t : Fin cfg9.N, cond9_1 (grid9.coords t) → cfg9.idle 4 (grid9.coords t) = false := by decide +kernel

/-- One staging buffer of each result window, through which its contents are stated. -/
abbrev VO9_3 : View sig .tc .vmem S2048x16 .f32 := (Memref.whole cc9_stg3_0 : Memref sig .tc .vmem S2048x16 .f32).view
abbrev VO9_4 : View sig .tc .vmem S2048x16 .bf16 := (Memref.whole cc9_stg4_0 : Memref sig .tc .vmem S2048x16 .bf16).view
abbrev ms9_0 (t : Fin cfg9.N) : Memref sig .tc .vmem S2048x2048 .bf16 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S2048x16 .bf16 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem S2048x16 .f32 := win9_2.stage (cfg9.slots t 2)
abbrev hs9_2 (t : Fin cfg9.N) : (ms9_2 t).IsWhole := hstage9_2 ((cfg9.slots t 2).cast nbuf9_2)
abbrev ms9_3 (t : Fin cfg9.N) : Memref sig .tc .vmem S2048x16 .f32 := win9_3.stage (cfg9.slots t 3)
abbrev hs9_3 (t : Fin cfg9.N) : (ms9_3 t).IsWhole := hstage9_3 ((cfg9.slots t 3).cast nbuf9_3)
abbrev ms9_4 (t : Fin cfg9.N) : Memref sig .tc .vmem S2048x16 .bf16 := win9_4.stage (cfg9.slots t 4)
abbrev hs9_4 (t : Fin cfg9.N) : (ms9_4 t).IsWhole := hstage9_4 ((cfg9.slots t 4).cast nbuf9_4)
/-- The accumulator: a whole scoped buffer of the kernel's own. -/
abbrev scM9_0 : Memref sig .tc .vmem S2048x16 .f32 := Memref.whole cc9_scratch0
abbrev VS9_0 : View sig .tc .vmem S2048x16 .f32 := scM9_0.view

set_option maxHeartbeats 4000000 in
/-- Case A (k = 0): the accumulator, at anything, is zeroed and then receives the first block product; the result
    blocks are handed back untouched. -/
noncomputable def kernelRun9_A (c : Dev nD) (i : grid9.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond9_0 i) (hc1 : ¬cond9_1 i)
    (x0 : Vec F S2048x2048 .bf16) (x1 : Vec F S2048x16 .bf16) (x2 : Vec F S2048x16 .f32) :
    Σ' (L3 : List (View.Piece (Elt F) S2048x16 .f32)) (L4 : List (View.Piece (Elt F) S2048x16 .bf16)), { LS0 : List (View.Piece (Elt F) S2048x16 .f32) //
      ∀ (xi3 : Vec F S2048x16 .f32) (xi4 : Vec F S2048x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc9__matmul_combine_kernel i arg2 harg2 arg3 harg3 arg4 harg4 arg5 harg5 arg6 harg6 arg7 harg7) K } := by
  refine ⟨[], [], ?_, fun xi3 xi4 E K => ?run⟩
  case run =>
    simp only [cc9__matmul_combine_kernel_eq_skeleton]; unfold cc9__matmul_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case B (0 < k < 7): the accumulator, at what the point before left, receives one more block product; the result
    blocks are handed back untouched. -/
noncomputable def kernelRun9_B (c : Dev nD) (i : grid9.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond9_0 i) (hc1 : ¬cond9_1 i)
    (x0 : Vec F S2048x2048 .bf16) (x1 : Vec F S2048x16 .bf16) (x2 : Vec F S2048x16 .f32) (xs0 : Vec F S2048x16 .f32) :
    Σ' (L3 : List (View.Piece (Elt F) S2048x16 .f32)) (L4 : List (View.Piece (Elt F) S2048x16 .bf16)), { LS0 : List (View.Piece (Elt F) S2048x16 .f32) //
      ∀ (xi3 : Vec F S2048x16 .f32) (xi4 : Vec F S2048x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc9__matmul_combine_kernel i arg2 harg2 arg3 harg3 arg4 harg4 arg5 harg5 arg6 harg6 arg7 harg7) K } := by
  refine ⟨[], [], ?_, fun xi3 xi4 E K => ?run⟩
  case run =>
    simp only [cc9__matmul_combine_kernel_eq_skeleton]; unfold cc9__matmul_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case C (k = 7): the accumulator receives the last block product, and both result blocks, at anything, are stored
    whole with the combination of the accumulator and the block of the earlier vector. -/
noncomputable def kernelRun9_C (c : Dev nD) (i : grid9.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond9_0 i) (hc1 : cond9_1 i)
    (x0 : Vec F S2048x2048 .bf16) (x1 : Vec F S2048x16 .bf16) (x2 : Vec F S2048x16 .f32) (xs0 : Vec F S2048x16 .f32) :
    Σ' (L3 : List (View.Piece (Elt F) S2048x16 .f32)) (L4 : List (View.Piece (Elt F) S2048x16 .bf16)), { LS0 : List (View.Piece (Elt F) S2048x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc9__matmul_combine_kernel i arg2 harg2 arg3 harg3 arg4 harg4 arg5 harg5 arg6 harg6 arg7 harg7) K } := by
  refine ⟨?_, ?_, ?_, fun E K => ?run⟩
  case run =>
    simp only [cc9__matmul_combine_kernel_eq_skeleton]; unfold cc9__matmul_combine_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.KernelIdeal.Hand

end
-- ==== Proof.RegI9Frame.lean ====
/-
  Region 9: what its result blocks and its accumulator hold after every grid point, the proof data of its pipeline,
  and the body obligation. After point t = 8·r + k the accumulator holds the sum of the block products
  Ls[r,0]·v[0] + … + Ls[r,k]·v[k] (case A starts it from zero, cases B and C continue from what the point before
  left); the result blocks are written at k = 7 only and written back to their arrays right after that point, so at
  the other points their staging buffers are idle and what they hold is never consulted.
-/
import proofs.«108570_j29480655520371_2_alg».proof.Proof.RegI9Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's piece for the accumulator covers it. -/
theorem scover9_A_0 (c : Dev nD) (i : grid9.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond9_0 i) (hc1 : ¬cond9_1 i)
    (x0 : Vec F S2048x2048 .bf16) (x1 : Vec F S2048x16 .bf16) (x2 : Vec F S2048x16 .f32) (y : S2048x16.Idx) :
    ∃ pc ∈ (kernelRun9_A c i arg2 harg2 arg3 harg3 arg4 harg4 arg5 harg5 arg6 harg6 arg7 harg7 hc0 hc1 x0 x1 x2).2.2.1, y ∈ pc.1.set :=
  View.cover_of_tiledL (kernelRun9_A c i arg2 harg2 arg3 harg3 arg4 harg4 arg5 harg5 arg6 harg6 arg7 harg7 hc0 hc1 x0 x1 x2).2.2.1 S2048x16.size (by sl_kernel_rfl) y
/-- What case A leaves in the accumulator. -/
def sout9_A_0 (c : Dev nD) (i : grid9.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond9_0 i) (hc1 : ¬cond9_1 i)
    (x0 : Vec F S2048x2048 .bf16) (x1 : Vec F S2048x16 .bf16) (x2 : Vec F S2048x16 .f32) : Vec F S2048x16 .f32 :=
  VS9_0.read (Elt F) (VS9_0.writes (Elt F) VS9_0.junk (kernelRun9_A c i arg2 harg2 arg3 harg3 arg4 harg4 arg5 harg5 arg6 harg6 arg7 harg7 hc0 hc1 x0 x1 x2).2.2.1)

/-- Case B's piece for the accumulator covers it. -/
theorem scover9_B_0 (c : Dev nD) (i : grid9.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond9_0 i) (hc1 : ¬cond9_1 i)
    (x0 : Vec F S2048x2048 .bf16) (x1 : Vec F S2048x16 .bf16) (x2 : Vec F S2048x16 .f32) (xs0 : Vec F S2048x16 .f32) (y : S2048x16.Idx) :
    ∃ pc ∈ (kernelRun9_B c i arg2 harg2 arg3 harg3 arg4 harg4 arg5 harg5 arg6 harg6 arg7 harg7 hc0 hc1 x0 x1 x2 xs0).2.2.1, y ∈ pc.1.set :=
  View.cover_of_tiledL (kernelRun9_B c i arg2 harg2 arg3 harg3 arg4 harg4 arg5 harg5 arg6 harg6 arg7 harg7 hc0 hc1 x0 x1 x2 xs0).2.2.1 S2048x16.size (by sl_kernel_rfl) y
/-- What case B leaves in the accumulator. -/
def sout9_B_0 (c : Dev nD) (i : grid9.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond9_0 i) (hc1 : ¬cond9_1 i)
    (x0 : Vec F S2048x2048 .bf16) (x1 : Vec F S2048x16 .bf16) (x2 : Vec F S2048x16 .f32) (xs0 : Vec F S2048x16 .f32) : Vec F S2048x16 .f32 :=
  VS9_0.read (Elt F) (VS9_0.writes (Elt F) VS9_0.junk (kernelRun9_B c i arg2 harg2 arg3 harg3 arg4 harg4 arg5 harg5 arg6 harg6 arg7 harg7 hc0 hc1 x0 x1 x2 xs0).2.2.1)

/-- Case C's pieces cover the f32 result block, -/
theorem cover9_C_3 (c : Dev nD) (i : grid9.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond9_0 i) (hc1 : cond9_1 i)
    (x0 : Vec F S2048x2048 .bf16) (x1 : Vec F S2048x16 .bf16) (x2 : Vec F S2048x16 .f32) (xs0 : Vec F S2048x16 .f32) (y : S2048x16.Idx) :
    ∃ pc ∈ (kernelRun9_C c i arg2 harg2 arg3 harg3 arg4 harg4 arg5 harg5 arg6 harg6 arg7 harg7 hc0 hc1 x0 x1 x2 xs0).1, y ∈ pc.1.set :=
  View.cover_of_tiledL (kernelRun9_C c i arg2 harg2 arg3 harg3 arg4 harg4 arg5 harg5 arg6 harg6 arg7 harg7 hc0 hc1 x0 x1 x2 xs0).1 S2048x16.size (by sl_kernel_rfl) y
/-- the bf16 result block, -/
theorem cover9_C_4 (c : Dev nD) (i : grid9.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond9_0 i) (hc1 : cond9_1 i)
    (x0 : Vec F S2048x2048 .bf16) (x1 : Vec F S2048x16 .bf16) (x2 : Vec F S2048x16 .f32) (xs0 : Vec F S2048x16 .f32) (y : S2048x16.Idx) :
    ∃ pc ∈ (kernelRun9_C c i arg2 harg2 arg3 harg3 arg4 harg4 arg5 harg5 arg6 harg6 arg7 harg7 hc0 hc1 x0 x1 x2 xs0).2.1, y ∈ pc.1.set :=
  View.cover_of_tiledL (kernelRun9_C c i arg2 harg2 arg3 harg3 arg4 harg4 arg5 harg5 arg6 harg6 arg7 harg7 hc0 hc1 x0 x1 x2 xs0).2.1 S2048x16.size (by sl_kernel_rfl) y
/-- and the accumulator. -/
theorem scover9_C_0 (c : Dev nD) (i : grid9.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond9_0 i) (hc1 : cond9_1 i)
    (x0 : Vec F S2048x2048 .bf16) (x1 : Vec F S2048x16 .bf16) (x2 : Vec F S2048x16 .f32) (xs0 : Vec F S2048x16 .f32) (y : S2048x16.Idx) :
    ∃ pc ∈ (kernelRun9_C c i arg2 harg2 arg3 harg3 arg4 harg4 arg5 harg5 arg6 harg6 arg7 harg7 hc0 hc1 x0 x1 x2 xs0).2.2.1, y ∈ pc.1.set :=
  View.cover_of_tiledL (kernelRun9_C c i arg2 harg2 arg3 harg3 arg4 harg4 arg5 harg5 arg6 harg6 arg7 harg7 hc0 hc1 x0 x1 x2 xs0).2.2.1 S2048x16.size (by sl_kernel_rfl) y
/-- What case C leaves in the f32 result block, -/
def out9_C_3 (c : Dev nD) (i : grid9.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond9_0 i) (hc1 : cond9_1 i)
    (x0 : Vec F S2048x2048 .bf16) (x1 : Vec F S2048x16 .bf16) (x2 : Vec F S2048x16 .f32) (xs0 : Vec F S2048x16 .f32) : Vec F S2048x16 .f32 :=
  VO9_3.read (Elt F) (VO9_3.writes (Elt F) VO9_3.junk (kernelRun9_C c i arg2 harg2 arg3 harg3 arg4 harg4 arg5 harg5 arg6 harg6 arg7 harg7 hc0 hc1 x0 x1 x2 xs0).1)
/-- in the bf16 result block, -/
def out9_C_4 (c : Dev nD) (i : grid9.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond9_0 i) (hc1 : cond9_1 i)
    (x0 : Vec F S2048x2048 .bf16) (x1 : Vec F S2048x16 .bf16) (x2 : Vec F S2048x16 .f32) (xs0 : Vec F S2048x16 .f32) : Vec F S2048x16 .bf16 :=
  VO9_4.read (Elt F) (VO9_4.writes (Elt F) VO9_4.junk (kernelRun9_C c i arg2 harg2 arg3 harg3 arg4 harg4 arg5 harg5 arg6 harg6 arg7 harg7 hc0 hc1 x0 x1 x2 xs0).2.1)
/-- and in the accumulator. -/
def sout9_C_0 (c : Dev nD) (i : grid9.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond9_0 i) (hc1 : cond9_1 i)
    (x0 : Vec F S2048x2048 .bf16) (x1 : Vec F S2048x16 .bf16) (x2 : Vec F S2048x16 .f32) (xs0 : Vec F S2048x16 .f32) : Vec F S2048x16 .f32 :=
  VS9_0.read (Elt F) (VS9_0.writes (Elt F) VS9_0.junk (kernelRun9_C c i arg2 harg2 arg3 harg3 arg4 harg4 arg5 harg5 arg6 harg6 arg7 harg7 hc0 hc1 x0 x1 x2 xs0).2.2.1)

/-- What the two result blocks' staging buffers and the accumulator hold after the body at position `n`: the case
    the position selects, run at the point's blocks, cases B and C over the accumulator the point before left. -/
def outsAt9 (c : Dev nD) : (n : ℕ) → n < cfg9.N → Vec F S2048x16 .f32 × Vec F S2048x16 .bf16 × Vec F S2048x16 .f32
  | 0, hn => ((VO9_3.read (Elt F) VO9_3.junk), (VO9_4.read (Elt F) VO9_4.junk), sout9_A_0 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) (ms9_4 ⟨0, hn⟩) (hs9_4 ⟨0, hn⟩) scM9_0 (Memref.isWhole_whole _) ((hcond9_0 ⟨0, hn⟩).mpr (Nat.zero_mod _)) (fun h => (fun h => by (try dsimp only at h); omega) ((hcond9_1 ⟨0, hn⟩).mp h)) (iblk9 V c 0 ⟨0, hn⟩) (iblk9 V c 1 ⟨0, hn⟩) (iblk9 V c 2 ⟨0, hn⟩))
  | n + 1, hn =>
    if h0 : (n + 1) % 8 = 0 then
      if h1 : (n + 1) % 8 = 7 then
        False.elim (by omega)
      else
        ((VO9_3.read (Elt F) VO9_3.junk), (VO9_4.read (Elt F) VO9_4.junk), sout9_A_0 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) scM9_0 (Memref.isWhole_whole _) ((hcond9_0 ⟨n + 1, hn⟩).mpr h0) (fun h => h1 ((hcond9_1 ⟨n + 1, hn⟩).mp h)) (iblk9 V c 0 ⟨n + 1, hn⟩) (iblk9 V c 1 ⟨n + 1, hn⟩) (iblk9 V c 2 ⟨n + 1, hn⟩))
    else
      if h1 : (n + 1) % 8 = 7 then
        (out9_C_3 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) scM9_0 (Memref.isWhole_whole _) (fun h => h0 ((hcond9_0 ⟨n + 1, hn⟩).mp h)) ((hcond9_1 ⟨n + 1, hn⟩).mpr h1) (iblk9 V c 0 ⟨n + 1, hn⟩) (iblk9 V c 1 ⟨n + 1, hn⟩) (iblk9 V c 2 ⟨n + 1, hn⟩) (outsAt9 c n (Nat.lt_of_succ_lt hn)).2.2, out9_C_4 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) scM9_0 (Memref.isWhole_whole _) (fun h => h0 ((hcond9_0 ⟨n + 1, hn⟩).mp h)) ((hcond9_1 ⟨n + 1, hn⟩).mpr h1) (iblk9 V c 0 ⟨n + 1, hn⟩) (iblk9 V c 1 ⟨n + 1, hn⟩) (iblk9 V c 2 ⟨n + 1, hn⟩) (outsAt9 c n (Nat.lt_of_succ_lt hn)).2.2, sout9_C_0 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) scM9_0 (Memref.isWhole_whole _) (fun h => h0 ((hcond9_0 ⟨n + 1, hn⟩).mp h)) ((hcond9_1 ⟨n + 1, hn⟩).mpr h1) (iblk9 V c 0 ⟨n + 1, hn⟩) (iblk9 V c 1 ⟨n + 1, hn⟩) (iblk9 V c 2 ⟨n + 1, hn⟩) (outsAt9 c n (Nat.lt_of_succ_lt hn)).2.2)
      else
        ((VO9_3.read (Elt F) VO9_3.junk), (VO9_4.read (Elt F) VO9_4.junk), sout9_B_0 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) scM9_0 (Memref.isWhole_whole _) (fun h => h0 ((hcond9_0 ⟨n + 1, hn⟩).mp h)) (fun h => h1 ((hcond9_1 ⟨n + 1, hn⟩).mp h)) (iblk9 V c 0 ⟨n + 1, hn⟩) (iblk9 V c 1 ⟨n + 1, hn⟩) (iblk9 V c 2 ⟨n + 1, hn⟩) (outsAt9 c n (Nat.lt_of_succ_lt hn)).2.2)

theorem outsAt9_A (c : Dev nD) (t : Fin cfg9.N) (h0 : t.val % 8 = 0) (h1 : ¬t.val % 8 = 7) :
    outsAt9 V c t.val t.isLt = ((VO9_3.read (Elt F) VO9_3.junk), (VO9_4.read (Elt F) VO9_4.junk), sout9_A_0 c (grid9.coords t) (ms9_0 t) (hs9_0 t) (ms9_1 t) (hs9_1 t) (ms9_2 t) (hs9_2 t) (ms9_3 t) (hs9_3 t) (ms9_4 t) (hs9_4 t) scM9_0 (Memref.isWhole_whole _) ((hcond9_0 t).mpr h0) (fun h => h1 ((hcond9_1 t).mp h)) (iblk9 V c 0 t) (iblk9 V c 1 t) (iblk9 V c 2 t)) := by
  obtain ⟨n, hn⟩ := t
  cases n with
  | zero => exact rfl
  | succ n => exact (dif_pos h0).trans ((dif_neg h1).trans rfl)

theorem outsAt9_B (c : Dev nD) (t : Fin cfg9.N) (h0 : ¬t.val % 8 = 0) (h1 : ¬t.val % 8 = 7) :
    outsAt9 V c t.val t.isLt = ((VO9_3.read (Elt F) VO9_3.junk), (VO9_4.read (Elt F) VO9_4.junk), sout9_B_0 c (grid9.coords t) (ms9_0 t) (hs9_0 t) (ms9_1 t) (hs9_1 t) (ms9_2 t) (hs9_2 t) (ms9_3 t) (hs9_3 t) (ms9_4 t) (hs9_4 t) scM9_0 (Memref.isWhole_whole _) (fun h => h0 ((hcond9_0 t).mp h)) (fun h => h1 ((hcond9_1 t).mp h)) (iblk9 V c 0 t) (iblk9 V c 1 t) (iblk9 V c 2 t) (outsAt9 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt9_C (c : Dev nD) (t : Fin cfg9.N) (h0 : ¬t.val % 8 = 0) (h1 : t.val % 8 = 7) :
    outsAt9 V c t.val t.isLt = (out9_C_3 c (grid9.coords t) (ms9_0 t) (hs9_0 t) (ms9_1 t) (hs9_1 t) (ms9_2 t) (hs9_2 t) (ms9_3 t) (hs9_3 t) (ms9_4 t) (hs9_4 t) scM9_0 (Memref.isWhole_whole _) (fun h => h0 ((hcond9_0 t).mp h)) ((hcond9_1 t).mpr h1) (iblk9 V c 0 t) (iblk9 V c 1 t) (iblk9 V c 2 t) (outsAt9 V c (t.val - 1) (Nat.lt_of_le_of_lt (Nat.sub_le _ _) t.isLt)).2.2, out9_C_4 c (grid9.coords t) (ms9_0 t) (hs9_0 t) (ms9_1 t) (hs9_1 t) (ms9_2 t) (hs9_2 t) (ms9_3 t) (hs9_3 t) (ms9_4 t) (hs9_4 t) scM9_0 (Memref.isWhole_whole _) (fun h => h0 ((hcond9_0 t).mp h)) ((hcond9_1 t).mpr h1) (iblk9 V c 0 t) (iblk9 V c 1 t) (iblk9 V c 2 t) (outsAt9 V c (t.val - 1) (Nat.lt_of_le_of_lt (Nat.sub_le _ _) t.isLt)).2.2, sout9_C_0 c (grid9.coords t) (ms9_0 t) (hs9_0 t) (ms9_1 t) (hs9_1 t) (ms9_2 t) (hs9_2 t) (ms9_3 t) (hs9_3 t) (ms9_4 t) (hs9_4 t) scM9_0 (Memref.isWhole_whole _) (fun h => h0 ((hcond9_0 t).mp h)) ((hcond9_1 t).mpr h1) (iblk9 V c 0 t) (iblk9 V c 1 t) (iblk9 V c 2 t) (outsAt9 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The scoped buffers of the program other than this region's staging buffers and its accumulator. -/
abbrev RB9 (c : Dev nD) : sProp 𝕄 :=
  Pipeline.scopedRestBut (Ix := Unit) (Name := ℕ) (U := UR sig nD τ) (Lvl := ℕ) (Val := Elt F) spec9 c [cc9_scratch0]

/-- The region invariant before position `n`: at the first point every scoped buffer outside the staging buffers at
    anything; afterwards the accumulator at what the point before left in it. -/
def PhiS9 (c : Dev nD) : (n : ℕ) → n ≤ cfg9.N → sProp 𝕄
  | 0, _ => Pipeline.ΦA spec9 c
  | n + 1, hn => iprop((iprop(owns (c : Thread nD τ) scM9_0 fullShare ((outsAt9 V c n hn).2.2)) ∗ RB9 c) ∗ (∃ r, prngReg c r))

theorem PhiS9_zero (c : Dev nD) (n : ℕ) (h : n ≤ cfg9.N) (hz : n = 0) : PhiS9 V c n h = Pipeline.ΦA spec9 c := by
  subst hz; rfl
theorem PhiS9_succ (c : Dev nD) (n : ℕ) (hn : n < cfg9.N) :
    PhiS9 V c (n + 1) hn = iprop((iprop(owns (c : Thread nD τ) scM9_0 fullShare ((outsAt9 V c n hn).2.2)) ∗ RB9 c) ∗ (∃ r, prngReg c r)) := rfl
theorem PhiS9_pos (c : Dev nD) (n : ℕ) (h : n ≤ cfg9.N) (hz : n ≠ 0) :
    PhiS9 V c n h = iprop((iprop(owns (c : Thread nD τ) scM9_0 fullShare ((outsAt9 V c (n - 1) (by omega)).2.2)) ∗ RB9 c) ∗ (∃ r, prngReg c r)) := by
  cases n with
  | zero => exact absurd rfl hz
  | succ n => rfl

/-- The first point's invariant with the accumulator split out, owned at some contents. -/
theorem PhiA9_eq (c : Dev nD) :
    (Pipeline.ΦA spec9 c : sProp 𝕄)
      = iprop((iprop((∃ d, owns (c : Thread nD τ) scM9_0 fullShare d)) ∗ RB9 c) ∗ (∃ r, prngReg c r)) := by
  unfold Pipeline.ΦA; rw [scopedRest9_split]; simp only [scM9_0, owns_whole]; try rfl

/-- The proof data of region 9's pipeline on core `c`: the arrays as the region finds them; after the body at
    point `t` each input's buffer at its block and the results' at `outsAt9`; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => (outsAt9 V c t.val t.isLt).1
    | ⟨4, _⟩ => (outsAt9 V c t.val t.isLt).2.1
  Φ t := PhiS9 V c t.val (Nat.le_of_lt_succ t.isLt)
  q _ := fullShare
  owed _ := 0

theorem A_eq9 (c : Dev nD) (w : Fin cfg9.W) : (dat9 V c).A w = V c (Pipeline.arrRef spec9 w) := by
  dsimp only [dat9]
theorem PhiS9_castSucc (c : Dev nD) (t : Fin cfg9.N) :
    (dat9 V c).Φ t.castSucc = PhiS9 V c t.val (Nat.le_of_lt t.isLt) := by
  dsimp only [dat9]; simp only [Fin.coe_castSucc]
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = (outsAt9 V c t.val t.isLt).1 := by dsimp only [dat9]
theorem after9_4 (c : Dev nD) (t : Fin cfg9.N) : (dat9 V c).after 4 t = (outsAt9 V c t.val t.isLt).2.1 := by dsimp only [dat9]
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-- What the body is called with at point `t`, -/
def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d))
    ∗ (∃ d, owns (c : Thread nD τ) (ms9_3 t) fullShare ((dat9 V c).before 3 t d))
    ∗ (∃ d, owns (c : Thread nD τ) (ms9_4 t) fullShare ((dat9 V c).before 4 t d)))
/-- and what it returns. -/
def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t
    ∗ (dat9 V c).leavesExact 3 t
    ∗ (dat9 V c).leavesExact 4 t)

set_option maxHeartbeats 8000000 in
/-- The body at any point: the inputs' buffers hold their blocks; the position says which case the point is in; the
    invariant hands the body the accumulator at what the point before left (at anything at the first point) and takes
    it back at this point's contents; the core owes nothing throughout. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).owesAt () t.succ = (dat9 V c).owesAt () t.castSucc from rfl]
  rw [show (dat9 V c).Φ t.succ = PhiS9 V c (t.val + 1) t.isLt from rfl, PhiS9_succ]
  have hN : t.val < 64 := lt_of_lt_of_eq t.isLt (show cfg9.N = 64 from N_9)
  rw [show (dat9 V c).leavesExact 0 t = owns (c : Thread nD τ) (ms9_0 t) fullShare ((dat9 V c).after 0 t) from by
      unfold Dat.leavesExact; rw [liveAt9_0 t], after9_0]
  rw [show (dat9 V c).leavesExact 1 t = owns (c : Thread nD τ) (ms9_1 t) fullShare ((dat9 V c).after 1 t) from by
      unfold Dat.leavesExact; rw [liveAt9_1 t], after9_1]
  rw [show (dat9 V c).leavesExact 2 t = owns (c : Thread nD τ) (ms9_2 t) fullShare ((dat9 V c).after 2 t) from by
      unfold Dat.leavesExact; rw [liveAt9_2 t], after9_2]
  by_cases h0 : t.val % 8 = 0
  · have h1 : ¬t.val % 8 = 7 := by omega
    rw [Dat.leavesExact_idle (dat9 V c) 3 t (idleAt9_3 t (fun h => h1 ((hcond9_1 t).mp h))) (noFlush9_3 t (fun h => h1 ((hcond9_1 t).mp h)))]
    rw [Dat.leavesExact_idle (dat9 V c) 4 t (idleAt9_4 t (fun h => h1 ((hcond9_1 t).mp h))) (noFlush9_4 t (fun h => h1 ((hcond9_1 t).mp h)))]
    rw [outsAt9_A V c t h0 h1]
    unfold sout9_A_0; (try dsimp only)
    by_cases hz : t.val = 0
    · rw [PhiS9_castSucc V c t, PhiS9_zero V c _ _ hz, PhiA9_eq]
      iintro ⟨⟨⟨HS0, HR⟩, Hg⟩, Ho, ⟨%d0, H0⟩, ⟨%d1, H1⟩, ⟨%d2, H2⟩, ⟨%d3, H3⟩, ⟨%d4, H4⟩⟩
      iapply ((kernelRun9_A c (grid9.coords t) _ _ _ _ _ _ _ _ _ _ _ _ ((hcond9_0 t).mpr h0) (fun h => h1 ((hcond9_1 t).mp h)) (iblk9 V c 0 t) (iblk9 V c 1 t) (iblk9 V c 2 t)).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover9_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
    · rw [PhiS9_castSucc V c t, PhiS9_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun9_A c (grid9.coords t) _ _ _ _ _ _ _ _ _ _ _ _ ((hcond9_0 t).mpr h0) (fun h => h1 ((hcond9_1 t).mp h)) (iblk9 V c 0 t) (iblk9 V c 1 t) (iblk9 V c 2 t)).2.2.2 _ _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover9_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun h => h0 (by rw [h])
    by_cases h1 : t.val % 8 = 7
    · rw [show (dat9 V c).leavesExact 3 t = owns (c : Thread nD τ) (ms9_3 t) fullShare ((dat9 V c).after 3 t) from by
        unfold Dat.leavesExact; rw [liveAt9_3 t ((hcond9_1 t).mpr h1)], after9_3]
      rw [show (dat9 V c).leavesExact 4 t = owns (c : Thread nD τ) (ms9_4 t) fullShare ((dat9 V c).after 4 t) from by
        unfold Dat.leavesExact; rw [liveAt9_4 t ((hcond9_1 t).mpr h1)], after9_4]
      rw [outsAt9_C V c t h0 h1]
      unfold out9_C_3 out9_C_4 sout9_C_0; (try dsimp only)
      rw [PhiS9_castSucc V c t, PhiS9_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun9_C c (grid9.coords t) _ _ _ _ _ _ _ _ _ _ _ _ (fun h => h0 ((hcond9_0 t).mp h)) ((hcond9_1 t).mpr h1) (iblk9 V c 0 t) (iblk9 V c 1 t) (iblk9 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover9_C_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover9_C_3 c _ _ _ _ _ _ _ _ _ _ _ _ _ _ _ _ _ _ _)
      unfold owns; iexists _; isplitr
      swap; · iexact H4
      ipureintro; exact View.read_writes_of_cover _ _ _ _ _ (cover9_C_4 c _ _ _ _ _ _ _ _ _ _ _ _ _ _ _ _ _ _ _)
    · rw [Dat.leavesExact_idle (dat9 V c) 3 t (idleAt9_3 t (fun h => h1 ((hcond9_1 t).mp h))) (noFlush9_3 t (fun h => h1 ((hcond9_1 t).mp h)))]
      rw [Dat.leavesExact_idle (dat9 V c) 4 t (idleAt9_4 t (fun h => h1 ((hcond9_1 t).mp h))) (noFlush9_4 t (fun h => h1 ((hcond9_1 t).mp h)))]
      rw [outsAt9_B V c t h0 h1]
      unfold sout9_B_0; (try dsimp only)
      rw [PhiS9_castSucc V c t, PhiS9_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun9_B c (grid9.coords t) _ _ _ _ _ _ _ _ _ _ _ _ (fun h => h0 ((hcond9_0 t).mp h)) (fun h => h1 ((hcond9_1 t).mp h)) (iblk9 V c 0 t) (iblk9 V c 1 t) (iblk9 V c 2 t) _).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover9_B_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4

/-- The body obligation of region 9, at every point. -/
theorem body_obligation9 (c : Dev nD) : BodyObligation (dat9 (F := F) V c) (defs₀ (F := F)) Variants.none () Set.univ := fun t => by
  rw [bigSep_W9, bigSep_W9]
  exact sound_body9 V c t

/-- What the region is entered with is the invariant before the first point. -/
theorem hin9 (c : Dev nD) : Pipeline.ΦA spec9 c ⊢ (dat9 V c).Φ 0 := by
  rw [show (dat9 V c).Φ 0 = PhiS9 V c 0 (Nat.zero_le _) from rfl, PhiS9_zero V c 0 _ rfl]
  try exact Idealize.SL.BI.Entails.refl _

/-- After the last point the invariant gives the scoped buffers back: what the accumulator holds is forgotten. -/
theorem hout9 (c : Dev nD) : (dat9 V c).Φ (Fin.last cfg9.N) ⊢ Pipeline.ΦA spec9 c := by
  have ht : (Fin.last cfg9.N).val ≠ 0 := by rw [Fin.val_last]; have : cfg9.N = 64 := N_9; omega
  rw [show (dat9 V c).Φ (Fin.last cfg9.N) = PhiS9 V c (Fin.last cfg9.N).val (Nat.le_of_lt_succ (Fin.last cfg9.N).isLt) from rfl,
    PhiS9_pos V c _ _ ht, PhiA9_eq]
  iintro ⟨⟨HS0, HR⟩, Hg⟩
  isplitl [HS0 HR]
  · isplitl [HS0]
    · iexists _; iexact HS0
    iexact HR
  iexact Hg

end Cert.KernelIdeal.Hand

end
-- ==== Proof.RegI10Run.lean ====
/-
  Region 10 of the program (the recurrence step 2·(Ls·T) − T′): the kernel body run once per control case.
  The grid is 8 × 8; a point t = 8·r + k handles row block r and column block k of Ls. The body zeroes the
  accumulator when k = 0 (case A), adds the block product Ls[r,k]·v[k] to it at every point, and when k = 7
  (case C) stores the combination of the accumulator and the block of the earlier vector into both result
  blocks; at 0 < k < 7 (case B) it only accumulates. Each run states what the body's stores leave in the
  accumulator and in the result blocks, as the list of stored pieces.
-/
import proofs.«108570_j29480655520371_2_alg».proof.Proof.Gen.KernelIdeal.Launch
import proofs.«108570_j29480655520371_2_alg».proof.Proof.Gen.KernelIdeal.Skeleton
import proofs.«108570_j29480655520371_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, fetched there or not. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
/-- Input window 1's current staging buffer holds its block at every point, fetched there or not. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
/-- Input window 2's current staging buffer holds its block at every point, fetched there or not. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- k = 0: the accumulator is zeroed first. -/
abbrev cond10_0 (i : grid10.Coords) : Prop := (Scalar.cmpi .ne (Scalar.extui (Scalar.cmpi .eq (BitVec.ofNat 32 (i 1).val) 0#32)) 0#32) = 1#1
theorem hcond10_0 : ∀ t : Fin cfg10.N, cond10_0 (grid10.coords t) ↔ t.val % 8 = 0 :=
  (by decide +kernel : ∀ t : Fin grid10.N, cond10_0 (grid10.coords t) ↔ t.val % 8 = 0)
/-- k = 7: the results are stored. -/
abbrev cond10_1 (i : grid10.Coords) : Prop := k10_cond2 i = 1#1
theorem hcond10_1 : ∀ t : Fin cfg10.N, cond10_1 (grid10.coords t) ↔ t.val % 8 = 7 :=
  (by decide +kernel : ∀ t : Fin grid10.N, cond10_1 (grid10.coords t) ↔ t.val % 8 = 7)

theorem liveAt10_0 : ∀ t : Fin cfg10.N, cfg10.idle 0 (grid10.coords t) = false := by decide +kernel
theorem liveAt10_1 : ∀ t : Fin cfg10.N, cfg10.idle 1 (grid10.coords t) = false := by decide +kernel
theorem liveAt10_2 : ∀ t : Fin cfg10.N, cfg10.idle 2 (grid10.coords t) = false := by decide +kernel
theorem idleAt10_3 : ∀ t : Fin cfg10.N, ¬cond10_1 (grid10.coords t) → cfg10.idle 3 (grid10.coords t) = true := by decide +kernel
theorem noFlush10_3 : ∀ t : Fin cfg10.N, ¬cond10_1 (grid10.coords t) → (cfg10.win 3).flush t = false := by decide +kernel
theorem liveAt10_3 : ∀ t : Fin cfg10.N, cond10_1 (grid10.coords t) → cfg10.idle 3 (grid10.coords t) = false := by decide +kernel
theorem idleAt10_4 : ∀ t : Fin cfg10.N, ¬cond10_1 (grid10.coords t) → cfg10.idle 4 (grid10.coords t) = true := by decide +kernel
theorem noFlush10_4 : ∀ t : Fin cfg10.N, ¬cond10_1 (grid10.coords t) → (cfg10.win 4).flush t = false := by decide +kernel
theorem liveAt10_4 : ∀ t : Fin cfg10.N, cond10_1 (grid10.coords t) → cfg10.idle 4 (grid10.coords t) = false := by decide +kernel

/-- One staging buffer of each result window, through which its contents are stated. -/
abbrev VO10_3 : View sig .tc .vmem S2048x16 .f32 := (Memref.whole cc10_stg3_0 : Memref sig .tc .vmem S2048x16 .f32).view
abbrev VO10_4 : View sig .tc .vmem S2048x16 .bf16 := (Memref.whole cc10_stg4_0 : Memref sig .tc .vmem S2048x16 .bf16).view
abbrev ms10_0 (t : Fin cfg10.N) : Memref sig .tc .vmem S2048x2048 .bf16 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S2048x16 .bf16 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S2048x16 .f32 := win10_2.stage (cfg10.slots t 2)
abbrev hs10_2 (t : Fin cfg10.N) : (ms10_2 t).IsWhole := hstage10_2 ((cfg10.slots t 2).cast nbuf10_2)
abbrev ms10_3 (t : Fin cfg10.N) : Memref sig .tc .vmem S2048x16 .f32 := win10_3.stage (cfg10.slots t 3)
abbrev hs10_3 (t : Fin cfg10.N) : (ms10_3 t).IsWhole := hstage10_3 ((cfg10.slots t 3).cast nbuf10_3)
abbrev ms10_4 (t : Fin cfg10.N) : Memref sig .tc .vmem S2048x16 .bf16 := win10_4.stage (cfg10.slots t 4)
abbrev hs10_4 (t : Fin cfg10.N) : (ms10_4 t).IsWhole := hstage10_4 ((cfg10.slots t 4).cast nbuf10_4)
/-- The accumulator: a whole scoped buffer of the kernel's own. -/
abbrev scM10_0 : Memref sig .tc .vmem S2048x16 .f32 := Memref.whole cc10_scratch0
abbrev VS10_0 : View sig .tc .vmem S2048x16 .f32 := scM10_0.view

set_option maxHeartbeats 4000000 in
/-- Case A (k = 0): the accumulator, at anything, is zeroed and then receives the first block product; the result
    blocks are handed back untouched. -/
noncomputable def kernelRun10_A (c : Dev nD) (i : grid10.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond10_0 i) (hc1 : ¬cond10_1 i)
    (x0 : Vec F S2048x2048 .bf16) (x1 : Vec F S2048x16 .bf16) (x2 : Vec F S2048x16 .f32) :
    Σ' (L3 : List (View.Piece (Elt F) S2048x16 .f32)) (L4 : List (View.Piece (Elt F) S2048x16 .bf16)), { LS0 : List (View.Piece (Elt F) S2048x16 .f32) //
      ∀ (xi3 : Vec F S2048x16 .f32) (xi4 : Vec F S2048x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc10__matmul_combine_kernel i arg2 harg2 arg3 harg3 arg4 harg4 arg5 harg5 arg6 harg6 arg7 harg7) K } := by
  refine ⟨[], [], ?_, fun xi3 xi4 E K => ?run⟩
  case run =>
    simp only [cc10__matmul_combine_kernel_eq_skeleton]; unfold cc10__matmul_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case B (0 < k < 7): the accumulator, at what the point before left, receives one more block product; the result
    blocks are handed back untouched. -/
noncomputable def kernelRun10_B (c : Dev nD) (i : grid10.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond10_0 i) (hc1 : ¬cond10_1 i)
    (x0 : Vec F S2048x2048 .bf16) (x1 : Vec F S2048x16 .bf16) (x2 : Vec F S2048x16 .f32) (xs0 : Vec F S2048x16 .f32) :
    Σ' (L3 : List (View.Piece (Elt F) S2048x16 .f32)) (L4 : List (View.Piece (Elt F) S2048x16 .bf16)), { LS0 : List (View.Piece (Elt F) S2048x16 .f32) //
      ∀ (xi3 : Vec F S2048x16 .f32) (xi4 : Vec F S2048x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc10__matmul_combine_kernel i arg2 harg2 arg3 harg3 arg4 harg4 arg5 harg5 arg6 harg6 arg7 harg7) K } := by
  refine ⟨[], [], ?_, fun xi3 xi4 E K => ?run⟩
  case run =>
    simp only [cc10__matmul_combine_kernel_eq_skeleton]; unfold cc10__matmul_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case C (k = 7): the accumulator receives the last block product, and both result blocks, at anything, are stored
    whole with the combination of the accumulator and the block of the earlier vector. -/
noncomputable def kernelRun10_C (c : Dev nD) (i : grid10.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond10_0 i) (hc1 : cond10_1 i)
    (x0 : Vec F S2048x2048 .bf16) (x1 : Vec F S2048x16 .bf16) (x2 : Vec F S2048x16 .f32) (xs0 : Vec F S2048x16 .f32) :
    Σ' (L3 : List (View.Piece (Elt F) S2048x16 .f32)) (L4 : List (View.Piece (Elt F) S2048x16 .bf16)), { LS0 : List (View.Piece (Elt F) S2048x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc10__matmul_combine_kernel i arg2 harg2 arg3 harg3 arg4 harg4 arg5 harg5 arg6 harg6 arg7 harg7) K } := by
  refine ⟨?_, ?_, ?_, fun E K => ?run⟩
  case run =>
    simp only [cc10__matmul_combine_kernel_eq_skeleton]; unfold cc10__matmul_combine_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.KernelIdeal.Hand

end
-- ==== Proof.RegI10Frame.lean ====
/-
  Region 10: what its result blocks and its accumulator hold after every grid point, the proof data of its pipeline,
  and the body obligation. After point t = 8·r + k the accumulator holds the sum of the block products
  Ls[r,0]·v[0] + … + Ls[r,k]·v[k] (case A starts it from zero, cases B and C continue from what the point before
  left); the result blocks are written at k = 7 only and written back to their arrays right after that point, so at
  the other points their staging buffers are idle and what they hold is never consulted.
-/
import proofs.«108570_j29480655520371_2_alg».proof.Proof.RegI10Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's piece for the accumulator covers it. -/
theorem scover10_A_0 (c : Dev nD) (i : grid10.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond10_0 i) (hc1 : ¬cond10_1 i)
    (x0 : Vec F S2048x2048 .bf16) (x1 : Vec F S2048x16 .bf16) (x2 : Vec F S2048x16 .f32) (y : S2048x16.Idx) :
    ∃ pc ∈ (kernelRun10_A c i arg2 harg2 arg3 harg3 arg4 harg4 arg5 harg5 arg6 harg6 arg7 harg7 hc0 hc1 x0 x1 x2).2.2.1, y ∈ pc.1.set :=
  View.cover_of_tiledL (kernelRun10_A c i arg2 harg2 arg3 harg3 arg4 harg4 arg5 harg5 arg6 harg6 arg7 harg7 hc0 hc1 x0 x1 x2).2.2.1 S2048x16.size (by sl_kernel_rfl) y
/-- What case A leaves in the accumulator. -/
def sout10_A_0 (c : Dev nD) (i : grid10.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond10_0 i) (hc1 : ¬cond10_1 i)
    (x0 : Vec F S2048x2048 .bf16) (x1 : Vec F S2048x16 .bf16) (x2 : Vec F S2048x16 .f32) : Vec F S2048x16 .f32 :=
  VS10_0.read (Elt F) (VS10_0.writes (Elt F) VS10_0.junk (kernelRun10_A c i arg2 harg2 arg3 harg3 arg4 harg4 arg5 harg5 arg6 harg6 arg7 harg7 hc0 hc1 x0 x1 x2).2.2.1)

/-- Case B's piece for the accumulator covers it. -/
theorem scover10_B_0 (c : Dev nD) (i : grid10.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond10_0 i) (hc1 : ¬cond10_1 i)
    (x0 : Vec F S2048x2048 .bf16) (x1 : Vec F S2048x16 .bf16) (x2 : Vec F S2048x16 .f32) (xs0 : Vec F S2048x16 .f32) (y : S2048x16.Idx) :
    ∃ pc ∈ (kernelRun10_B c i arg2 harg2 arg3 harg3 arg4 harg4 arg5 harg5 arg6 harg6 arg7 harg7 hc0 hc1 x0 x1 x2 xs0).2.2.1, y ∈ pc.1.set :=
  View.cover_of_tiledL (kernelRun10_B c i arg2 harg2 arg3 harg3 arg4 harg4 arg5 harg5 arg6 harg6 arg7 harg7 hc0 hc1 x0 x1 x2 xs0).2.2.1 S2048x16.size (by sl_kernel_rfl) y
/-- What case B leaves in the accumulator. -/
def sout10_B_0 (c : Dev nD) (i : grid10.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond10_0 i) (hc1 : ¬cond10_1 i)
    (x0 : Vec F S2048x2048 .bf16) (x1 : Vec F S2048x16 .bf16) (x2 : Vec F S2048x16 .f32) (xs0 : Vec F S2048x16 .f32) : Vec F S2048x16 .f32 :=
  VS10_0.read (Elt F) (VS10_0.writes (Elt F) VS10_0.junk (kernelRun10_B c i arg2 harg2 arg3 harg3 arg4 harg4 arg5 harg5 arg6 harg6 arg7 harg7 hc0 hc1 x0 x1 x2 xs0).2.2.1)

/-- Case C's pieces cover the f32 result block, -/
theorem cover10_C_3 (c : Dev nD) (i : grid10.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond10_0 i) (hc1 : cond10_1 i)
    (x0 : Vec F S2048x2048 .bf16) (x1 : Vec F S2048x16 .bf16) (x2 : Vec F S2048x16 .f32) (xs0 : Vec F S2048x16 .f32) (y : S2048x16.Idx) :
    ∃ pc ∈ (kernelRun10_C c i arg2 harg2 arg3 harg3 arg4 harg4 arg5 harg5 arg6 harg6 arg7 harg7 hc0 hc1 x0 x1 x2 xs0).1, y ∈ pc.1.set :=
  View.cover_of_tiledL (kernelRun10_C c i arg2 harg2 arg3 harg3 arg4 harg4 arg5 harg5 arg6 harg6 arg7 harg7 hc0 hc1 x0 x1 x2 xs0).1 S2048x16.size (by sl_kernel_rfl) y
/-- the bf16 result block, -/
theorem cover10_C_4 (c : Dev nD) (i : grid10.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond10_0 i) (hc1 : cond10_1 i)
    (x0 : Vec F S2048x2048 .bf16) (x1 : Vec F S2048x16 .bf16) (x2 : Vec F S2048x16 .f32) (xs0 : Vec F S2048x16 .f32) (y : S2048x16.Idx) :
    ∃ pc ∈ (kernelRun10_C c i arg2 harg2 arg3 harg3 arg4 harg4 arg5 harg5 arg6 harg6 arg7 harg7 hc0 hc1 x0 x1 x2 xs0).2.1, y ∈ pc.1.set :=
  View.cover_of_tiledL (kernelRun10_C c i arg2 harg2 arg3 harg3 arg4 harg4 arg5 harg5 arg6 harg6 arg7 harg7 hc0 hc1 x0 x1 x2 xs0).2.1 S2048x16.size (by sl_kernel_rfl) y
/-- and the accumulator. -/
theorem scover10_C_0 (c : Dev nD) (i : grid10.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond10_0 i) (hc1 : cond10_1 i)
    (x0 : Vec F S2048x2048 .bf16) (x1 : Vec F S2048x16 .bf16) (x2 : Vec F S2048x16 .f32) (xs0 : Vec F S2048x16 .f32) (y : S2048x16.Idx) :
    ∃ pc ∈ (kernelRun10_C c i arg2 harg2 arg3 harg3 arg4 harg4 arg5 harg5 arg6 harg6 arg7 harg7 hc0 hc1 x0 x1 x2 xs0).2.2.1, y ∈ pc.1.set :=
  View.cover_of_tiledL (kernelRun10_C c i arg2 harg2 arg3 harg3 arg4 harg4 arg5 harg5 arg6 harg6 arg7 harg7 hc0 hc1 x0 x1 x2 xs0).2.2.1 S2048x16.size (by sl_kernel_rfl) y
/-- What case C leaves in the f32 result block, -/
def out10_C_3 (c : Dev nD) (i : grid10.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond10_0 i) (hc1 : cond10_1 i)
    (x0 : Vec F S2048x2048 .bf16) (x1 : Vec F S2048x16 .bf16) (x2 : Vec F S2048x16 .f32) (xs0 : Vec F S2048x16 .f32) : Vec F S2048x16 .f32 :=
  VO10_3.read (Elt F) (VO10_3.writes (Elt F) VO10_3.junk (kernelRun10_C c i arg2 harg2 arg3 harg3 arg4 harg4 arg5 harg5 arg6 harg6 arg7 harg7 hc0 hc1 x0 x1 x2 xs0).1)
/-- in the bf16 result block, -/
def out10_C_4 (c : Dev nD) (i : grid10.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond10_0 i) (hc1 : cond10_1 i)
    (x0 : Vec F S2048x2048 .bf16) (x1 : Vec F S2048x16 .bf16) (x2 : Vec F S2048x16 .f32) (xs0 : Vec F S2048x16 .f32) : Vec F S2048x16 .bf16 :=
  VO10_4.read (Elt F) (VO10_4.writes (Elt F) VO10_4.junk (kernelRun10_C c i arg2 harg2 arg3 harg3 arg4 harg4 arg5 harg5 arg6 harg6 arg7 harg7 hc0 hc1 x0 x1 x2 xs0).2.1)
/-- and in the accumulator. -/
def sout10_C_0 (c : Dev nD) (i : grid10.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond10_0 i) (hc1 : cond10_1 i)
    (x0 : Vec F S2048x2048 .bf16) (x1 : Vec F S2048x16 .bf16) (x2 : Vec F S2048x16 .f32) (xs0 : Vec F S2048x16 .f32) : Vec F S2048x16 .f32 :=
  VS10_0.read (Elt F) (VS10_0.writes (Elt F) VS10_0.junk (kernelRun10_C c i arg2 harg2 arg3 harg3 arg4 harg4 arg5 harg5 arg6 harg6 arg7 harg7 hc0 hc1 x0 x1 x2 xs0).2.2.1)

/-- What the two result blocks' staging buffers and the accumulator hold after the body at position `n`: the case
    the position selects, run at the point's blocks, cases B and C over the accumulator the point before left. -/
def outsAt10 (c : Dev nD) : (n : ℕ) → n < cfg10.N → Vec F S2048x16 .f32 × Vec F S2048x16 .bf16 × Vec F S2048x16 .f32
  | 0, hn => ((VO10_3.read (Elt F) VO10_3.junk), (VO10_4.read (Elt F) VO10_4.junk), sout10_A_0 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) (ms10_3 ⟨0, hn⟩) (hs10_3 ⟨0, hn⟩) (ms10_4 ⟨0, hn⟩) (hs10_4 ⟨0, hn⟩) scM10_0 (Memref.isWhole_whole _) ((hcond10_0 ⟨0, hn⟩).mpr (Nat.zero_mod _)) (fun h => (fun h => by (try dsimp only at h); omega) ((hcond10_1 ⟨0, hn⟩).mp h)) (iblk10 V c 0 ⟨0, hn⟩) (iblk10 V c 1 ⟨0, hn⟩) (iblk10 V c 2 ⟨0, hn⟩))
  | n + 1, hn =>
    if h0 : (n + 1) % 8 = 0 then
      if h1 : (n + 1) % 8 = 7 then
        False.elim (by omega)
      else
        ((VO10_3.read (Elt F) VO10_3.junk), (VO10_4.read (Elt F) VO10_4.junk), sout10_A_0 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) scM10_0 (Memref.isWhole_whole _) ((hcond10_0 ⟨n + 1, hn⟩).mpr h0) (fun h => h1 ((hcond10_1 ⟨n + 1, hn⟩).mp h)) (iblk10 V c 0 ⟨n + 1, hn⟩) (iblk10 V c 1 ⟨n + 1, hn⟩) (iblk10 V c 2 ⟨n + 1, hn⟩))
    else
      if h1 : (n + 1) % 8 = 7 then
        (out10_C_3 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) scM10_0 (Memref.isWhole_whole _) (fun h => h0 ((hcond10_0 ⟨n + 1, hn⟩).mp h)) ((hcond10_1 ⟨n + 1, hn⟩).mpr h1) (iblk10 V c 0 ⟨n + 1, hn⟩) (iblk10 V c 1 ⟨n + 1, hn⟩) (iblk10 V c 2 ⟨n + 1, hn⟩) (outsAt10 c n (Nat.lt_of_succ_lt hn)).2.2, out10_C_4 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) scM10_0 (Memref.isWhole_whole _) (fun h => h0 ((hcond10_0 ⟨n + 1, hn⟩).mp h)) ((hcond10_1 ⟨n + 1, hn⟩).mpr h1) (iblk10 V c 0 ⟨n + 1, hn⟩) (iblk10 V c 1 ⟨n + 1, hn⟩) (iblk10 V c 2 ⟨n + 1, hn⟩) (outsAt10 c n (Nat.lt_of_succ_lt hn)).2.2, sout10_C_0 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) scM10_0 (Memref.isWhole_whole _) (fun h => h0 ((hcond10_0 ⟨n + 1, hn⟩).mp h)) ((hcond10_1 ⟨n + 1, hn⟩).mpr h1) (iblk10 V c 0 ⟨n + 1, hn⟩) (iblk10 V c 1 ⟨n + 1, hn⟩) (iblk10 V c 2 ⟨n + 1, hn⟩) (outsAt10 c n (Nat.lt_of_succ_lt hn)).2.2)
      else
        ((VO10_3.read (Elt F) VO10_3.junk), (VO10_4.read (Elt F) VO10_4.junk), sout10_B_0 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) scM10_0 (Memref.isWhole_whole _) (fun h => h0 ((hcond10_0 ⟨n + 1, hn⟩).mp h)) (fun h => h1 ((hcond10_1 ⟨n + 1, hn⟩).mp h)) (iblk10 V c 0 ⟨n + 1, hn⟩) (iblk10 V c 1 ⟨n + 1, hn⟩) (iblk10 V c 2 ⟨n + 1, hn⟩) (outsAt10 c n (Nat.lt_of_succ_lt hn)).2.2)

theorem outsAt10_A (c : Dev nD) (t : Fin cfg10.N) (h0 : t.val % 8 = 0) (h1 : ¬t.val % 8 = 7) :
    outsAt10 V c t.val t.isLt = ((VO10_3.read (Elt F) VO10_3.junk), (VO10_4.read (Elt F) VO10_4.junk), sout10_A_0 c (grid10.coords t) (ms10_0 t) (hs10_0 t) (ms10_1 t) (hs10_1 t) (ms10_2 t) (hs10_2 t) (ms10_3 t) (hs10_3 t) (ms10_4 t) (hs10_4 t) scM10_0 (Memref.isWhole_whole _) ((hcond10_0 t).mpr h0) (fun h => h1 ((hcond10_1 t).mp h)) (iblk10 V c 0 t) (iblk10 V c 1 t) (iblk10 V c 2 t)) := by
  obtain ⟨n, hn⟩ := t
  cases n with
  | zero => exact rfl
  | succ n => exact (dif_pos h0).trans ((dif_neg h1).trans rfl)

theorem outsAt10_B (c : Dev nD) (t : Fin cfg10.N) (h0 : ¬t.val % 8 = 0) (h1 : ¬t.val % 8 = 7) :
    outsAt10 V c t.val t.isLt = ((VO10_3.read (Elt F) VO10_3.junk), (VO10_4.read (Elt F) VO10_4.junk), sout10_B_0 c (grid10.coords t) (ms10_0 t) (hs10_0 t) (ms10_1 t) (hs10_1 t) (ms10_2 t) (hs10_2 t) (ms10_3 t) (hs10_3 t) (ms10_4 t) (hs10_4 t) scM10_0 (Memref.isWhole_whole _) (fun h => h0 ((hcond10_0 t).mp h)) (fun h => h1 ((hcond10_1 t).mp h)) (iblk10 V c 0 t) (iblk10 V c 1 t) (iblk10 V c 2 t) (outsAt10 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt10_C (c : Dev nD) (t : Fin cfg10.N) (h0 : ¬t.val % 8 = 0) (h1 : t.val % 8 = 7) :
    outsAt10 V c t.val t.isLt = (out10_C_3 c (grid10.coords t) (ms10_0 t) (hs10_0 t) (ms10_1 t) (hs10_1 t) (ms10_2 t) (hs10_2 t) (ms10_3 t) (hs10_3 t) (ms10_4 t) (hs10_4 t) scM10_0 (Memref.isWhole_whole _) (fun h => h0 ((hcond10_0 t).mp h)) ((hcond10_1 t).mpr h1) (iblk10 V c 0 t) (iblk10 V c 1 t) (iblk10 V c 2 t) (outsAt10 V c (t.val - 1) (Nat.lt_of_le_of_lt (Nat.sub_le _ _) t.isLt)).2.2, out10_C_4 c (grid10.coords t) (ms10_0 t) (hs10_0 t) (ms10_1 t) (hs10_1 t) (ms10_2 t) (hs10_2 t) (ms10_3 t) (hs10_3 t) (ms10_4 t) (hs10_4 t) scM10_0 (Memref.isWhole_whole _) (fun h => h0 ((hcond10_0 t).mp h)) ((hcond10_1 t).mpr h1) (iblk10 V c 0 t) (iblk10 V c 1 t) (iblk10 V c 2 t) (outsAt10 V c (t.val - 1) (Nat.lt_of_le_of_lt (Nat.sub_le _ _) t.isLt)).2.2, sout10_C_0 c (grid10.coords t) (ms10_0 t) (hs10_0 t) (ms10_1 t) (hs10_1 t) (ms10_2 t) (hs10_2 t) (ms10_3 t) (hs10_3 t) (ms10_4 t) (hs10_4 t) scM10_0 (Memref.isWhole_whole _) (fun h => h0 ((hcond10_0 t).mp h)) ((hcond10_1 t).mpr h1) (iblk10 V c 0 t) (iblk10 V c 1 t) (iblk10 V c 2 t) (outsAt10 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The scoped buffers of the program other than this region's staging buffers and its accumulator. -/
abbrev RB10 (c : Dev nD) : sProp 𝕄 :=
  Pipeline.scopedRestBut (Ix := Unit) (Name := ℕ) (U := UR sig nD τ) (Lvl := ℕ) (Val := Elt F) spec10 c [cc10_scratch0]

/-- The region invariant before position `n`: at the first point every scoped buffer outside the staging buffers at
    anything; afterwards the accumulator at what the point before left in it. -/
def PhiS10 (c : Dev nD) : (n : ℕ) → n ≤ cfg10.N → sProp 𝕄
  | 0, _ => Pipeline.ΦA spec10 c
  | n + 1, hn => iprop((iprop(owns (c : Thread nD τ) scM10_0 fullShare ((outsAt10 V c n hn).2.2)) ∗ RB10 c) ∗ (∃ r, prngReg c r))

theorem PhiS10_zero (c : Dev nD) (n : ℕ) (h : n ≤ cfg10.N) (hz : n = 0) : PhiS10 V c n h = Pipeline.ΦA spec10 c := by
  subst hz; rfl
theorem PhiS10_succ (c : Dev nD) (n : ℕ) (hn : n < cfg10.N) :
    PhiS10 V c (n + 1) hn = iprop((iprop(owns (c : Thread nD τ) scM10_0 fullShare ((outsAt10 V c n hn).2.2)) ∗ RB10 c) ∗ (∃ r, prngReg c r)) := rfl
theorem PhiS10_pos (c : Dev nD) (n : ℕ) (h : n ≤ cfg10.N) (hz : n ≠ 0) :
    PhiS10 V c n h = iprop((iprop(owns (c : Thread nD τ) scM10_0 fullShare ((outsAt10 V c (n - 1) (by omega)).2.2)) ∗ RB10 c) ∗ (∃ r, prngReg c r)) := by
  cases n with
  | zero => exact absurd rfl hz
  | succ n => rfl

/-- The first point's invariant with the accumulator split out, owned at some contents. -/
theorem PhiA10_eq (c : Dev nD) :
    (Pipeline.ΦA spec10 c : sProp 𝕄)
      = iprop((iprop((∃ d, owns (c : Thread nD τ) scM10_0 fullShare d)) ∗ RB10 c) ∗ (∃ r, prngReg c r)) := by
  unfold Pipeline.ΦA; rw [scopedRest10_split]; simp only [scM10_0, owns_whole]; try rfl

/-- The proof data of region 10's pipeline on core `c`: the arrays as the region finds them; after the body at
    point `t` each input's buffer at its block and the results' at `outsAt10`; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => (outsAt10 V c t.val t.isLt).1
    | ⟨4, _⟩ => (outsAt10 V c t.val t.isLt).2.1
  Φ t := PhiS10 V c t.val (Nat.le_of_lt_succ t.isLt)
  q _ := fullShare
  owed _ := 0

theorem A_eq10 (c : Dev nD) (w : Fin cfg10.W) : (dat10 V c).A w = V c (Pipeline.arrRef spec10 w) := by
  dsimp only [dat10]
theorem PhiS10_castSucc (c : Dev nD) (t : Fin cfg10.N) :
    (dat10 V c).Φ t.castSucc = PhiS10 V c t.val (Nat.le_of_lt t.isLt) := by
  dsimp only [dat10]; simp only [Fin.coe_castSucc]
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = (outsAt10 V c t.val t.isLt).1 := by dsimp only [dat10]
theorem after10_4 (c : Dev nD) (t : Fin cfg10.N) : (dat10 V c).after 4 t = (outsAt10 V c t.val t.isLt).2.1 := by dsimp only [dat10]
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d

/-- What the body is called with at point `t`, -/
def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d))
    ∗ (∃ d, owns (c : Thread nD τ) (ms10_3 t) fullShare ((dat10 V c).before 3 t d))
    ∗ (∃ d, owns (c : Thread nD τ) (ms10_4 t) fullShare ((dat10 V c).before 4 t d)))
/-- and what it returns. -/
def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t
    ∗ (dat10 V c).leavesExact 3 t
    ∗ (dat10 V c).leavesExact 4 t)

set_option maxHeartbeats 8000000 in
/-- The body at any point: the inputs' buffers hold their blocks; the position says which case the point is in; the
    invariant hands the body the accumulator at what the point before left (at anything at the first point) and takes
    it back at this point's contents; the core owes nothing throughout. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2]
  rw [show (dat10 V c).owesAt () t.succ = (dat10 V c).owesAt () t.castSucc from rfl]
  rw [show (dat10 V c).Φ t.succ = PhiS10 V c (t.val + 1) t.isLt from rfl, PhiS10_succ]
  have hN : t.val < 64 := lt_of_lt_of_eq t.isLt (show cfg10.N = 64 from N_10)
  rw [show (dat10 V c).leavesExact 0 t = owns (c : Thread nD τ) (ms10_0 t) fullShare ((dat10 V c).after 0 t) from by
      unfold Dat.leavesExact; rw [liveAt10_0 t], after10_0]
  rw [show (dat10 V c).leavesExact 1 t = owns (c : Thread nD τ) (ms10_1 t) fullShare ((dat10 V c).after 1 t) from by
      unfold Dat.leavesExact; rw [liveAt10_1 t], after10_1]
  rw [show (dat10 V c).leavesExact 2 t = owns (c : Thread nD τ) (ms10_2 t) fullShare ((dat10 V c).after 2 t) from by
      unfold Dat.leavesExact; rw [liveAt10_2 t], after10_2]
  by_cases h0 : t.val % 8 = 0
  · have h1 : ¬t.val % 8 = 7 := by omega
    rw [Dat.leavesExact_idle (dat10 V c) 3 t (idleAt10_3 t (fun h => h1 ((hcond10_1 t).mp h))) (noFlush10_3 t (fun h => h1 ((hcond10_1 t).mp h)))]
    rw [Dat.leavesExact_idle (dat10 V c) 4 t (idleAt10_4 t (fun h => h1 ((hcond10_1 t).mp h))) (noFlush10_4 t (fun h => h1 ((hcond10_1 t).mp h)))]
    rw [outsAt10_A V c t h0 h1]
    unfold sout10_A_0; (try dsimp only)
    by_cases hz : t.val = 0
    · rw [PhiS10_castSucc V c t, PhiS10_zero V c _ _ hz, PhiA10_eq]
      iintro ⟨⟨⟨HS0, HR⟩, Hg⟩, Ho, ⟨%d0, H0⟩, ⟨%d1, H1⟩, ⟨%d2, H2⟩, ⟨%d3, H3⟩, ⟨%d4, H4⟩⟩
      iapply ((kernelRun10_A c (grid10.coords t) _ _ _ _ _ _ _ _ _ _ _ _ ((hcond10_0 t).mpr h0) (fun h => h1 ((hcond10_1 t).mp h)) (iblk10 V c 0 t) (iblk10 V c 1 t) (iblk10 V c 2 t)).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover10_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
    · rw [PhiS10_castSucc V c t, PhiS10_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun10_A c (grid10.coords t) _ _ _ _ _ _ _ _ _ _ _ _ ((hcond10_0 t).mpr h0) (fun h => h1 ((hcond10_1 t).mp h)) (iblk10 V c 0 t) (iblk10 V c 1 t) (iblk10 V c 2 t)).2.2.2 _ _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover10_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun h => h0 (by rw [h])
    by_cases h1 : t.val % 8 = 7
    · rw [show (dat10 V c).leavesExact 3 t = owns (c : Thread nD τ) (ms10_3 t) fullShare ((dat10 V c).after 3 t) from by
        unfold Dat.leavesExact; rw [liveAt10_3 t ((hcond10_1 t).mpr h1)], after10_3]
      rw [show (dat10 V c).leavesExact 4 t = owns (c : Thread nD τ) (ms10_4 t) fullShare ((dat10 V c).after 4 t) from by
        unfold Dat.leavesExact; rw [liveAt10_4 t ((hcond10_1 t).mpr h1)], after10_4]
      rw [outsAt10_C V c t h0 h1]
      unfold out10_C_3 out10_C_4 sout10_C_0; (try dsimp only)
      rw [PhiS10_castSucc V c t, PhiS10_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun10_C c (grid10.coords t) _ _ _ _ _ _ _ _ _ _ _ _ (fun h => h0 ((hcond10_0 t).mp h)) ((hcond10_1 t).mpr h1) (iblk10 V c 0 t) (iblk10 V c 1 t) (iblk10 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover10_C_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover10_C_3 c _ _ _ _ _ _ _ _ _ _ _ _ _ _ _ _ _ _ _)
      unfold owns; iexists _; isplitr
      swap; · iexact H4
      ipureintro; exact View.read_writes_of_cover _ _ _ _ _ (cover10_C_4 c _ _ _ _ _ _ _ _ _ _ _ _ _ _ _ _ _ _ _)
    · rw [Dat.leavesExact_idle (dat10 V c) 3 t (idleAt10_3 t (fun h => h1 ((hcond10_1 t).mp h))) (noFlush10_3 t (fun h => h1 ((hcond10_1 t).mp h)))]
      rw [Dat.leavesExact_idle (dat10 V c) 4 t (idleAt10_4 t (fun h => h1 ((hcond10_1 t).mp h))) (noFlush10_4 t (fun h => h1 ((hcond10_1 t).mp h)))]
      rw [outsAt10_B V c t h0 h1]
      unfold sout10_B_0; (try dsimp only)
      rw [PhiS10_castSucc V c t, PhiS10_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun10_B c (grid10.coords t) _ _ _ _ _ _ _ _ _ _ _ _ (fun h => h0 ((hcond10_0 t).mp h)) (fun h => h1 ((hcond10_1 t).mp h)) (iblk10 V c 0 t) (iblk10 V c 1 t) (iblk10 V c 2 t) _).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover10_B_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4

/-- The body obligation of region 10, at every point. -/
theorem body_obligation10 (c : Dev nD) : BodyObligation (dat10 (F := F) V c) (defs₀ (F := F)) Variants.none () Set.univ := fun t => by
  rw [bigSep_W10, bigSep_W10]
  exact sound_body10 V c t

/-- What the region is entered with is the invariant before the first point. -/
theorem hin10 (c : Dev nD) : Pipeline.ΦA spec10 c ⊢ (dat10 V c).Φ 0 := by
  rw [show (dat10 V c).Φ 0 = PhiS10 V c 0 (Nat.zero_le _) from rfl, PhiS10_zero V c 0 _ rfl]
  try exact Idealize.SL.BI.Entails.refl _

/-- After the last point the invariant gives the scoped buffers back: what the accumulator holds is forgotten. -/
theorem hout10 (c : Dev nD) : (dat10 V c).Φ (Fin.last cfg10.N) ⊢ Pipeline.ΦA spec10 c := by
  have ht : (Fin.last cfg10.N).val ≠ 0 := by rw [Fin.val_last]; have : cfg10.N = 64 := N_10; omega
  rw [show (dat10 V c).Φ (Fin.last cfg10.N) = PhiS10 V c (Fin.last cfg10.N).val (Nat.le_of_lt_succ (Fin.last cfg10.N).isLt) from rfl,
    PhiS10_pos V c _ _ ht, PhiA10_eq]
  iintro ⟨⟨HS0, HR⟩, Hg⟩
  isplitl [HS0 HR]
  · isplitl [HS0]
    · iexists _; iexact HS0
    iexact HR
  iexact Hg

end Cert.KernelIdeal.Hand

end
-- ==== Proof.RegI11Run.lean ====
/-
  Region 11 of the program (the recurrence step 2·(Ls·T) − T′): the kernel body run once per control case.
  The grid is 8 × 8; a point t = 8·r + k handles row block r and column block k of Ls. The body zeroes the
  accumulator when k = 0 (case A), adds the block product Ls[r,k]·v[k] to it at every point, and when k = 7
  (case C) stores the combination of the accumulator and the block of the earlier vector into both result
  blocks; at 0 < k < 7 (case B) it only accumulates. Each run states what the body's stores leave in the
  accumulator and in the result blocks, as the list of stored pieces.
-/
import proofs.«108570_j29480655520371_2_alg».proof.Proof.Gen.KernelIdeal.Launch
import proofs.«108570_j29480655520371_2_alg».proof.Proof.Gen.KernelIdeal.Skeleton
import proofs.«108570_j29480655520371_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's current staging buffer holds its block at every point, fetched there or not. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
/-- Input window 1's current staging buffer holds its block at every point, fetched there or not. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
/-- Input window 2's current staging buffer holds its block at every point, fetched there or not. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-- k = 0: the accumulator is zeroed first. -/
abbrev cond11_0 (i : grid11.Coords) : Prop := (Scalar.cmpi .ne (Scalar.extui (Scalar.cmpi .eq (BitVec.ofNat 32 (i 1).val) 0#32)) 0#32) = 1#1
theorem hcond11_0 : ∀ t : Fin cfg11.N, cond11_0 (grid11.coords t) ↔ t.val % 8 = 0 :=
  (by decide +kernel : ∀ t : Fin grid11.N, cond11_0 (grid11.coords t) ↔ t.val % 8 = 0)
/-- k = 7: the results are stored. -/
abbrev cond11_1 (i : grid11.Coords) : Prop := k11_cond2 i = 1#1
theorem hcond11_1 : ∀ t : Fin cfg11.N, cond11_1 (grid11.coords t) ↔ t.val % 8 = 7 :=
  (by decide +kernel : ∀ t : Fin grid11.N, cond11_1 (grid11.coords t) ↔ t.val % 8 = 7)

theorem liveAt11_0 : ∀ t : Fin cfg11.N, cfg11.idle 0 (grid11.coords t) = false := by decide +kernel
theorem liveAt11_1 : ∀ t : Fin cfg11.N, cfg11.idle 1 (grid11.coords t) = false := by decide +kernel
theorem liveAt11_2 : ∀ t : Fin cfg11.N, cfg11.idle 2 (grid11.coords t) = false := by decide +kernel
theorem idleAt11_3 : ∀ t : Fin cfg11.N, ¬cond11_1 (grid11.coords t) → cfg11.idle 3 (grid11.coords t) = true := by decide +kernel
theorem noFlush11_3 : ∀ t : Fin cfg11.N, ¬cond11_1 (grid11.coords t) → (cfg11.win 3).flush t = false := by decide +kernel
theorem liveAt11_3 : ∀ t : Fin cfg11.N, cond11_1 (grid11.coords t) → cfg11.idle 3 (grid11.coords t) = false := by decide +kernel
theorem idleAt11_4 : ∀ t : Fin cfg11.N, ¬cond11_1 (grid11.coords t) → cfg11.idle 4 (grid11.coords t) = true := by decide +kernel
theorem noFlush11_4 : ∀ t : Fin cfg11.N, ¬cond11_1 (grid11.coords t) → (cfg11.win 4).flush t = false := by decide +kernel
theorem liveAt11_4 : ∀ t : Fin cfg11.N, cond11_1 (grid11.coords t) → cfg11.idle 4 (grid11.coords t) = false := by decide +kernel

/-- One staging buffer of each result window, through which its contents are stated. -/
abbrev VO11_3 : View sig .tc .vmem S2048x16 .f32 := (Memref.whole cc11_stg3_0 : Memref sig .tc .vmem S2048x16 .f32).view
abbrev VO11_4 : View sig .tc .vmem S2048x16 .bf16 := (Memref.whole cc11_stg4_0 : Memref sig .tc .vmem S2048x16 .bf16).view
abbrev ms11_0 (t : Fin cfg11.N) : Memref sig .tc .vmem S2048x2048 .bf16 := win11_0.stage (cfg11.slots t 0)
abbrev hs11_0 (t : Fin cfg11.N) : (ms11_0 t).IsWhole := hstage11_0 ((cfg11.slots t 0).cast nbuf11_0)
abbrev ms11_1 (t : Fin cfg11.N) : Memref sig .tc .vmem S2048x16 .bf16 := win11_1.stage (cfg11.slots t 1)
abbrev hs11_1 (t : Fin cfg11.N) : (ms11_1 t).IsWhole := hstage11_1 ((cfg11.slots t 1).cast nbuf11_1)
abbrev ms11_2 (t : Fin cfg11.N) : Memref sig .tc .vmem S2048x16 .f32 := win11_2.stage (cfg11.slots t 2)
abbrev hs11_2 (t : Fin cfg11.N) : (ms11_2 t).IsWhole := hstage11_2 ((cfg11.slots t 2).cast nbuf11_2)
abbrev ms11_3 (t : Fin cfg11.N) : Memref sig .tc .vmem S2048x16 .f32 := win11_3.stage (cfg11.slots t 3)
abbrev hs11_3 (t : Fin cfg11.N) : (ms11_3 t).IsWhole := hstage11_3 ((cfg11.slots t 3).cast nbuf11_3)
abbrev ms11_4 (t : Fin cfg11.N) : Memref sig .tc .vmem S2048x16 .bf16 := win11_4.stage (cfg11.slots t 4)
abbrev hs11_4 (t : Fin cfg11.N) : (ms11_4 t).IsWhole := hstage11_4 ((cfg11.slots t 4).cast nbuf11_4)
/-- The accumulator: a whole scoped buffer of the kernel's own. -/
abbrev scM11_0 : Memref sig .tc .vmem S2048x16 .f32 := Memref.whole cc11_scratch0
abbrev VS11_0 : View sig .tc .vmem S2048x16 .f32 := scM11_0.view

set_option maxHeartbeats 4000000 in
/-- Case A (k = 0): the accumulator, at anything, is zeroed and then receives the first block product; the result
    blocks are handed back untouched. -/
noncomputable def kernelRun11_A (c : Dev nD) (i : grid11.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond11_0 i) (hc1 : ¬cond11_1 i)
    (x0 : Vec F S2048x2048 .bf16) (x1 : Vec F S2048x16 .bf16) (x2 : Vec F S2048x16 .f32) :
    Σ' (L3 : List (View.Piece (Elt F) S2048x16 .f32)) (L4 : List (View.Piece (Elt F) S2048x16 .bf16)), { LS0 : List (View.Piece (Elt F) S2048x16 .f32) //
      ∀ (xi3 : Vec F S2048x16 .f32) (xi4 : Vec F S2048x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc11__matmul_combine_kernel i arg2 harg2 arg3 harg3 arg4 harg4 arg5 harg5 arg6 harg6 arg7 harg7) K } := by
  refine ⟨[], [], ?_, fun xi3 xi4 E K => ?run⟩
  case run =>
    simp only [cc11__matmul_combine_kernel_eq_skeleton]; unfold cc11__matmul_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case B (0 < k < 7): the accumulator, at what the point before left, receives one more block product; the result
    blocks are handed back untouched. -/
noncomputable def kernelRun11_B (c : Dev nD) (i : grid11.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond11_0 i) (hc1 : ¬cond11_1 i)
    (x0 : Vec F S2048x2048 .bf16) (x1 : Vec F S2048x16 .bf16) (x2 : Vec F S2048x16 .f32) (xs0 : Vec F S2048x16 .f32) :
    Σ' (L3 : List (View.Piece (Elt F) S2048x16 .f32)) (L4 : List (View.Piece (Elt F) S2048x16 .bf16)), { LS0 : List (View.Piece (Elt F) S2048x16 .f32) //
      ∀ (xi3 : Vec F S2048x16 .f32) (xi4 : Vec F S2048x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc11__matmul_combine_kernel i arg2 harg2 arg3 harg3 arg4 harg4 arg5 harg5 arg6 harg6 arg7 harg7) K } := by
  refine ⟨[], [], ?_, fun xi3 xi4 E K => ?run⟩
  case run =>
    simp only [cc11__matmul_combine_kernel_eq_skeleton]; unfold cc11__matmul_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case C (k = 7): the accumulator receives the last block product, and both result blocks, at anything, are stored
    whole with the combination of the accumulator and the block of the earlier vector. -/
noncomputable def kernelRun11_C (c : Dev nD) (i : grid11.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond11_0 i) (hc1 : cond11_1 i)
    (x0 : Vec F S2048x2048 .bf16) (x1 : Vec F S2048x16 .bf16) (x2 : Vec F S2048x16 .f32) (xs0 : Vec F S2048x16 .f32) :
    Σ' (L3 : List (View.Piece (Elt F) S2048x16 .f32)) (L4 : List (View.Piece (Elt F) S2048x16 .bf16)), { LS0 : List (View.Piece (Elt F) S2048x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc11__matmul_combine_kernel i arg2 harg2 arg3 harg3 arg4 harg4 arg5 harg5 arg6 harg6 arg7 harg7) K } := by
  refine ⟨?_, ?_, ?_, fun E K => ?run⟩
  case run =>
    simp only [cc11__matmul_combine_kernel_eq_skeleton]; unfold cc11__matmul_combine_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.KernelIdeal.Hand

end
-- ==== Proof.RegI11Frame.lean ====
/-
  Region 11: what its result blocks and its accumulator hold after every grid point, the proof data of its pipeline,
  and the body obligation. After point t = 8·r + k the accumulator holds the sum of the block products
  Ls[r,0]·v[0] + … + Ls[r,k]·v[k] (case A starts it from zero, cases B and C continue from what the point before
  left); the result blocks are written at k = 7 only and written back to their arrays right after that point, so at
  the other points their staging buffers are idle and what they hold is never consulted.
-/
import proofs.«108570_j29480655520371_2_alg».proof.Proof.RegI11Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's piece for the accumulator covers it. -/
theorem scover11_A_0 (c : Dev nD) (i : grid11.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond11_0 i) (hc1 : ¬cond11_1 i)
    (x0 : Vec F S2048x2048 .bf16) (x1 : Vec F S2048x16 .bf16) (x2 : Vec F S2048x16 .f32) (y : S2048x16.Idx) :
    ∃ pc ∈ (kernelRun11_A c i arg2 harg2 arg3 harg3 arg4 harg4 arg5 harg5 arg6 harg6 arg7 harg7 hc0 hc1 x0 x1 x2).2.2.1, y ∈ pc.1.set :=
  View.cover_of_tiledL (kernelRun11_A c i arg2 harg2 arg3 harg3 arg4 harg4 arg5 harg5 arg6 harg6 arg7 harg7 hc0 hc1 x0 x1 x2).2.2.1 S2048x16.size (by sl_kernel_rfl) y
/-- What case A leaves in the accumulator. -/
def sout11_A_0 (c : Dev nD) (i : grid11.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond11_0 i) (hc1 : ¬cond11_1 i)
    (x0 : Vec F S2048x2048 .bf16) (x1 : Vec F S2048x16 .bf16) (x2 : Vec F S2048x16 .f32) : Vec F S2048x16 .f32 :=
  VS11_0.read (Elt F) (VS11_0.writes (Elt F) VS11_0.junk (kernelRun11_A c i arg2 harg2 arg3 harg3 arg4 harg4 arg5 harg5 arg6 harg6 arg7 harg7 hc0 hc1 x0 x1 x2).2.2.1)

/-- Case B's piece for the accumulator covers it. -/
theorem scover11_B_0 (c : Dev nD) (i : grid11.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond11_0 i) (hc1 : ¬cond11_1 i)
    (x0 : Vec F S2048x2048 .bf16) (x1 : Vec F S2048x16 .bf16) (x2 : Vec F S2048x16 .f32) (xs0 : Vec F S2048x16 .f32) (y : S2048x16.Idx) :
    ∃ pc ∈ (kernelRun11_B c i arg2 harg2 arg3 harg3 arg4 harg4 arg5 harg5 arg6 harg6 arg7 harg7 hc0 hc1 x0 x1 x2 xs0).2.2.1, y ∈ pc.1.set :=
  View.cover_of_tiledL (kernelRun11_B c i arg2 harg2 arg3 harg3 arg4 harg4 arg5 harg5 arg6 harg6 arg7 harg7 hc0 hc1 x0 x1 x2 xs0).2.2.1 S2048x16.size (by sl_kernel_rfl) y
/-- What case B leaves in the accumulator. -/
def sout11_B_0 (c : Dev nD) (i : grid11.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond11_0 i) (hc1 : ¬cond11_1 i)
    (x0 : Vec F S2048x2048 .bf16) (x1 : Vec F S2048x16 .bf16) (x2 : Vec F S2048x16 .f32) (xs0 : Vec F S2048x16 .f32) : Vec F S2048x16 .f32 :=
  VS11_0.read (Elt F) (VS11_0.writes (Elt F) VS11_0.junk (kernelRun11_B c i arg2 harg2 arg3 harg3 arg4 harg4 arg5 harg5 arg6 harg6 arg7 harg7 hc0 hc1 x0 x1 x2 xs0).2.2.1)

/-- Case C's pieces cover the f32 result block, -/
theorem cover11_C_3 (c : Dev nD) (i : grid11.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond11_0 i) (hc1 : cond11_1 i)
    (x0 : Vec F S2048x2048 .bf16) (x1 : Vec F S2048x16 .bf16) (x2 : Vec F S2048x16 .f32) (xs0 : Vec F S2048x16 .f32) (y : S2048x16.Idx) :
    ∃ pc ∈ (kernelRun11_C c i arg2 harg2 arg3 harg3 arg4 harg4 arg5 harg5 arg6 harg6 arg7 harg7 hc0 hc1 x0 x1 x2 xs0).1, y ∈ pc.1.set :=
  View.cover_of_tiledL (kernelRun11_C c i arg2 harg2 arg3 harg3 arg4 harg4 arg5 harg5 arg6 harg6 arg7 harg7 hc0 hc1 x0 x1 x2 xs0).1 S2048x16.size (by sl_kernel_rfl) y
/-- the bf16 result block, -/
theorem cover11_C_4 (c : Dev nD) (i : grid11.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond11_0 i) (hc1 : cond11_1 i)
    (x0 : Vec F S2048x2048 .bf16) (x1 : Vec F S2048x16 .bf16) (x2 : Vec F S2048x16 .f32) (xs0 : Vec F S2048x16 .f32) (y : S2048x16.Idx) :
    ∃ pc ∈ (kernelRun11_C c i arg2 harg2 arg3 harg3 arg4 harg4 arg5 harg5 arg6 harg6 arg7 harg7 hc0 hc1 x0 x1 x2 xs0).2.1, y ∈ pc.1.set :=
  View.cover_of_tiledL (kernelRun11_C c i arg2 harg2 arg3 harg3 arg4 harg4 arg5 harg5 arg6 harg6 arg7 harg7 hc0 hc1 x0 x1 x2 xs0).2.1 S2048x16.size (by sl_kernel_rfl) y
/-- and the accumulator. -/
theorem scover11_C_0 (c : Dev nD) (i : grid11.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond11_0 i) (hc1 : cond11_1 i)
    (x0 : Vec F S2048x2048 .bf16) (x1 : Vec F S2048x16 .bf16) (x2 : Vec F S2048x16 .f32) (xs0 : Vec F S2048x16 .f32) (y : S2048x16.Idx) :
    ∃ pc ∈ (kernelRun11_C c i arg2 harg2 arg3 harg3 arg4 harg4 arg5 harg5 arg6 harg6 arg7 harg7 hc0 hc1 x0 x1 x2 xs0).2.2.1, y ∈ pc.1.set :=
  View.cover_of_tiledL (kernelRun11_C c i arg2 harg2 arg3 harg3 arg4 harg4 arg5 harg5 arg6 harg6 arg7 harg7 hc0 hc1 x0 x1 x2 xs0).2.2.1 S2048x16.size (by sl_kernel_rfl) y
/-- What case C leaves in the f32 result block, -/
def out11_C_3 (c : Dev nD) (i : grid11.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond11_0 i) (hc1 : cond11_1 i)
    (x0 : Vec F S2048x2048 .bf16) (x1 : Vec F S2048x16 .bf16) (x2 : Vec F S2048x16 .f32) (xs0 : Vec F S2048x16 .f32) : Vec F S2048x16 .f32 :=
  VO11_3.read (Elt F) (VO11_3.writes (Elt F) VO11_3.junk (kernelRun11_C c i arg2 harg2 arg3 harg3 arg4 harg4 arg5 harg5 arg6 harg6 arg7 harg7 hc0 hc1 x0 x1 x2 xs0).1)
/-- in the bf16 result block, -/
def out11_C_4 (c : Dev nD) (i : grid11.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond11_0 i) (hc1 : cond11_1 i)
    (x0 : Vec F S2048x2048 .bf16) (x1 : Vec F S2048x16 .bf16) (x2 : Vec F S2048x16 .f32) (xs0 : Vec F S2048x16 .f32) : Vec F S2048x16 .bf16 :=
  VO11_4.read (Elt F) (VO11_4.writes (Elt F) VO11_4.junk (kernelRun11_C c i arg2 harg2 arg3 harg3 arg4 harg4 arg5 harg5 arg6 harg6 arg7 harg7 hc0 hc1 x0 x1 x2 xs0).2.1)
/-- and in the accumulator. -/
def sout11_C_0 (c : Dev nD) (i : grid11.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond11_0 i) (hc1 : cond11_1 i)
    (x0 : Vec F S2048x2048 .bf16) (x1 : Vec F S2048x16 .bf16) (x2 : Vec F S2048x16 .f32) (xs0 : Vec F S2048x16 .f32) : Vec F S2048x16 .f32 :=
  VS11_0.read (Elt F) (VS11_0.writes (Elt F) VS11_0.junk (kernelRun11_C c i arg2 harg2 arg3 harg3 arg4 harg4 arg5 harg5 arg6 harg6 arg7 harg7 hc0 hc1 x0 x1 x2 xs0).2.2.1)

/-- What the two result blocks' staging buffers and the accumulator hold after the body at position `n`: the case
    the position selects, run at the point's blocks, cases B and C over the accumulator the point before left. -/
def outsAt11 (c : Dev nD) : (n : ℕ) → n < cfg11.N → Vec F S2048x16 .f32 × Vec F S2048x16 .bf16 × Vec F S2048x16 .f32
  | 0, hn => ((VO11_3.read (Elt F) VO11_3.junk), (VO11_4.read (Elt F) VO11_4.junk), sout11_A_0 c (grid11.coords ⟨0, hn⟩) (ms11_0 ⟨0, hn⟩) (hs11_0 ⟨0, hn⟩) (ms11_1 ⟨0, hn⟩) (hs11_1 ⟨0, hn⟩) (ms11_2 ⟨0, hn⟩) (hs11_2 ⟨0, hn⟩) (ms11_3 ⟨0, hn⟩) (hs11_3 ⟨0, hn⟩) (ms11_4 ⟨0, hn⟩) (hs11_4 ⟨0, hn⟩) scM11_0 (Memref.isWhole_whole _) ((hcond11_0 ⟨0, hn⟩).mpr (Nat.zero_mod _)) (fun h => (fun h => by (try dsimp only at h); omega) ((hcond11_1 ⟨0, hn⟩).mp h)) (iblk11 V c 0 ⟨0, hn⟩) (iblk11 V c 1 ⟨0, hn⟩) (iblk11 V c 2 ⟨0, hn⟩))
  | n + 1, hn =>
    if h0 : (n + 1) % 8 = 0 then
      if h1 : (n + 1) % 8 = 7 then
        False.elim (by omega)
      else
        ((VO11_3.read (Elt F) VO11_3.junk), (VO11_4.read (Elt F) VO11_4.junk), sout11_A_0 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) (ms11_4 ⟨n + 1, hn⟩) (hs11_4 ⟨n + 1, hn⟩) scM11_0 (Memref.isWhole_whole _) ((hcond11_0 ⟨n + 1, hn⟩).mpr h0) (fun h => h1 ((hcond11_1 ⟨n + 1, hn⟩).mp h)) (iblk11 V c 0 ⟨n + 1, hn⟩) (iblk11 V c 1 ⟨n + 1, hn⟩) (iblk11 V c 2 ⟨n + 1, hn⟩))
    else
      if h1 : (n + 1) % 8 = 7 then
        (out11_C_3 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) (ms11_4 ⟨n + 1, hn⟩) (hs11_4 ⟨n + 1, hn⟩) scM11_0 (Memref.isWhole_whole _) (fun h => h0 ((hcond11_0 ⟨n + 1, hn⟩).mp h)) ((hcond11_1 ⟨n + 1, hn⟩).mpr h1) (iblk11 V c 0 ⟨n + 1, hn⟩) (iblk11 V c 1 ⟨n + 1, hn⟩) (iblk11 V c 2 ⟨n + 1, hn⟩) (outsAt11 c n (Nat.lt_of_succ_lt hn)).2.2, out11_C_4 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) (ms11_4 ⟨n + 1, hn⟩) (hs11_4 ⟨n + 1, hn⟩) scM11_0 (Memref.isWhole_whole _) (fun h => h0 ((hcond11_0 ⟨n + 1, hn⟩).mp h)) ((hcond11_1 ⟨n + 1, hn⟩).mpr h1) (iblk11 V c 0 ⟨n + 1, hn⟩) (iblk11 V c 1 ⟨n + 1, hn⟩) (iblk11 V c 2 ⟨n + 1, hn⟩) (outsAt11 c n (Nat.lt_of_succ_lt hn)).2.2, sout11_C_0 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) (ms11_4 ⟨n + 1, hn⟩) (hs11_4 ⟨n + 1, hn⟩) scM11_0 (Memref.isWhole_whole _) (fun h => h0 ((hcond11_0 ⟨n + 1, hn⟩).mp h)) ((hcond11_1 ⟨n + 1, hn⟩).mpr h1) (iblk11 V c 0 ⟨n + 1, hn⟩) (iblk11 V c 1 ⟨n + 1, hn⟩) (iblk11 V c 2 ⟨n + 1, hn⟩) (outsAt11 c n (Nat.lt_of_succ_lt hn)).2.2)
      else
        ((VO11_3.read (Elt F) VO11_3.junk), (VO11_4.read (Elt F) VO11_4.junk), sout11_B_0 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) (ms11_4 ⟨n + 1, hn⟩) (hs11_4 ⟨n + 1, hn⟩) scM11_0 (Memref.isWhole_whole _) (fun h => h0 ((hcond11_0 ⟨n + 1, hn⟩).mp h)) (fun h => h1 ((hcond11_1 ⟨n + 1, hn⟩).mp h)) (iblk11 V c 0 ⟨n + 1, hn⟩) (iblk11 V c 1 ⟨n + 1, hn⟩) (iblk11 V c 2 ⟨n + 1, hn⟩) (outsAt11 c n (Nat.lt_of_succ_lt hn)).2.2)

theorem outsAt11_A (c : Dev nD) (t : Fin cfg11.N) (h0 : t.val % 8 = 0) (h1 : ¬t.val % 8 = 7) :
    outsAt11 V c t.val t.isLt = ((VO11_3.read (Elt F) VO11_3.junk), (VO11_4.read (Elt F) VO11_4.junk), sout11_A_0 c (grid11.coords t) (ms11_0 t) (hs11_0 t) (ms11_1 t) (hs11_1 t) (ms11_2 t) (hs11_2 t) (ms11_3 t) (hs11_3 t) (ms11_4 t) (hs11_4 t) scM11_0 (Memref.isWhole_whole _) ((hcond11_0 t).mpr h0) (fun h => h1 ((hcond11_1 t).mp h)) (iblk11 V c 0 t) (iblk11 V c 1 t) (iblk11 V c 2 t)) := by
  obtain ⟨n, hn⟩ := t
  cases n with
  | zero => exact rfl
  | succ n => exact (dif_pos h0).trans ((dif_neg h1).trans rfl)

theorem outsAt11_B (c : Dev nD) (t : Fin cfg11.N) (h0 : ¬t.val % 8 = 0) (h1 : ¬t.val % 8 = 7) :
    outsAt11 V c t.val t.isLt = ((VO11_3.read (Elt F) VO11_3.junk), (VO11_4.read (Elt F) VO11_4.junk), sout11_B_0 c (grid11.coords t) (ms11_0 t) (hs11_0 t) (ms11_1 t) (hs11_1 t) (ms11_2 t) (hs11_2 t) (ms11_3 t) (hs11_3 t) (ms11_4 t) (hs11_4 t) scM11_0 (Memref.isWhole_whole _) (fun h => h0 ((hcond11_0 t).mp h)) (fun h => h1 ((hcond11_1 t).mp h)) (iblk11 V c 0 t) (iblk11 V c 1 t) (iblk11 V c 2 t) (outsAt11 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt11_C (c : Dev nD) (t : Fin cfg11.N) (h0 : ¬t.val % 8 = 0) (h1 : t.val % 8 = 7) :
    outsAt11 V c t.val t.isLt = (out11_C_3 c (grid11.coords t) (ms11_0 t) (hs11_0 t) (ms11_1 t) (hs11_1 t) (ms11_2 t) (hs11_2 t) (ms11_3 t) (hs11_3 t) (ms11_4 t) (hs11_4 t) scM11_0 (Memref.isWhole_whole _) (fun h => h0 ((hcond11_0 t).mp h)) ((hcond11_1 t).mpr h1) (iblk11 V c 0 t) (iblk11 V c 1 t) (iblk11 V c 2 t) (outsAt11 V c (t.val - 1) (Nat.lt_of_le_of_lt (Nat.sub_le _ _) t.isLt)).2.2, out11_C_4 c (grid11.coords t) (ms11_0 t) (hs11_0 t) (ms11_1 t) (hs11_1 t) (ms11_2 t) (hs11_2 t) (ms11_3 t) (hs11_3 t) (ms11_4 t) (hs11_4 t) scM11_0 (Memref.isWhole_whole _) (fun h => h0 ((hcond11_0 t).mp h)) ((hcond11_1 t).mpr h1) (iblk11 V c 0 t) (iblk11 V c 1 t) (iblk11 V c 2 t) (outsAt11 V c (t.val - 1) (Nat.lt_of_le_of_lt (Nat.sub_le _ _) t.isLt)).2.2, sout11_C_0 c (grid11.coords t) (ms11_0 t) (hs11_0 t) (ms11_1 t) (hs11_1 t) (ms11_2 t) (hs11_2 t) (ms11_3 t) (hs11_3 t) (ms11_4 t) (hs11_4 t) scM11_0 (Memref.isWhole_whole _) (fun h => h0 ((hcond11_0 t).mp h)) ((hcond11_1 t).mpr h1) (iblk11 V c 0 t) (iblk11 V c 1 t) (iblk11 V c 2 t) (outsAt11 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The scoped buffers of the program other than this region's staging buffers and its accumulator. -/
abbrev RB11 (c : Dev nD) : sProp 𝕄 :=
  Pipeline.scopedRestBut (Ix := Unit) (Name := ℕ) (U := UR sig nD τ) (Lvl := ℕ) (Val := Elt F) spec11 c [cc11_scratch0]

/-- The region invariant before position `n`: at the first point every scoped buffer outside the staging buffers at
    anything; afterwards the accumulator at what the point before left in it. -/
def PhiS11 (c : Dev nD) : (n : ℕ) → n ≤ cfg11.N → sProp 𝕄
  | 0, _ => Pipeline.ΦA spec11 c
  | n + 1, hn => iprop((iprop(owns (c : Thread nD τ) scM11_0 fullShare ((outsAt11 V c n hn).2.2)) ∗ RB11 c) ∗ (∃ r, prngReg c r))

theorem PhiS11_zero (c : Dev nD) (n : ℕ) (h : n ≤ cfg11.N) (hz : n = 0) : PhiS11 V c n h = Pipeline.ΦA spec11 c := by
  subst hz; rfl
theorem PhiS11_succ (c : Dev nD) (n : ℕ) (hn : n < cfg11.N) :
    PhiS11 V c (n + 1) hn = iprop((iprop(owns (c : Thread nD τ) scM11_0 fullShare ((outsAt11 V c n hn).2.2)) ∗ RB11 c) ∗ (∃ r, prngReg c r)) := rfl
theorem PhiS11_pos (c : Dev nD) (n : ℕ) (h : n ≤ cfg11.N) (hz : n ≠ 0) :
    PhiS11 V c n h = iprop((iprop(owns (c : Thread nD τ) scM11_0 fullShare ((outsAt11 V c (n - 1) (by omega)).2.2)) ∗ RB11 c) ∗ (∃ r, prngReg c r)) := by
  cases n with
  | zero => exact absurd rfl hz
  | succ n => rfl

/-- The first point's invariant with the accumulator split out, owned at some contents. -/
theorem PhiA11_eq (c : Dev nD) :
    (Pipeline.ΦA spec11 c : sProp 𝕄)
      = iprop((iprop((∃ d, owns (c : Thread nD τ) scM11_0 fullShare d)) ∗ RB11 c) ∗ (∃ r, prngReg c r)) := by
  unfold Pipeline.ΦA; rw [scopedRest11_split]; simp only [scM11_0, owns_whole]; try rfl

/-- The proof data of region 11's pipeline on core `c`: the arrays as the region finds them; after the body at
    point `t` each input's buffer at its block and the results' at `outsAt11`; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => (outsAt11 V c t.val t.isLt).1
    | ⟨4, _⟩ => (outsAt11 V c t.val t.isLt).2.1
  Φ t := PhiS11 V c t.val (Nat.le_of_lt_succ t.isLt)
  q _ := fullShare
  owed _ := 0

theorem A_eq11 (c : Dev nD) (w : Fin cfg11.W) : (dat11 V c).A w = V c (Pipeline.arrRef spec11 w) := by
  dsimp only [dat11]
theorem PhiS11_castSucc (c : Dev nD) (t : Fin cfg11.N) :
    (dat11 V c).Φ t.castSucc = PhiS11 V c t.val (Nat.le_of_lt t.isLt) := by
  dsimp only [dat11]; simp only [Fin.coe_castSucc]
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = (outsAt11 V c t.val t.isLt).1 := by dsimp only [dat11]
theorem after11_4 (c : Dev nD) (t : Fin cfg11.N) : (dat11 V c).after 4 t = (outsAt11 V c t.val t.isLt).2.1 := by dsimp only [dat11]
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d

/-- What the body is called with at point `t`, -/
def bodyPre11 (c : Dev nD) (t : Fin cfg11.N) : sProp 𝕄 :=
  iprop((dat11 V c).Φ t.castSucc ∗ (dat11 V c).owesAt () t.castSucc
    ∗ (∃ d, owns (c : Thread nD τ) (ms11_0 t) fullShare ((dat11 V c).before 0 t d))
    ∗ (∃ d, owns (c : Thread nD τ) (ms11_1 t) fullShare ((dat11 V c).before 1 t d))
    ∗ (∃ d, owns (c : Thread nD τ) (ms11_2 t) fullShare ((dat11 V c).before 2 t d))
    ∗ (∃ d, owns (c : Thread nD τ) (ms11_3 t) fullShare ((dat11 V c).before 3 t d))
    ∗ (∃ d, owns (c : Thread nD τ) (ms11_4 t) fullShare ((dat11 V c).before 4 t d)))
/-- and what it returns. -/
def bodyPost11 (c : Dev nD) (t : Fin cfg11.N) : sProp 𝕄 :=
  iprop((dat11 V c).Φ t.succ ∗ (dat11 V c).owesAt () t.succ
    ∗ (dat11 V c).leavesExact 0 t
    ∗ (dat11 V c).leavesExact 1 t
    ∗ (dat11 V c).leavesExact 2 t
    ∗ (dat11 V c).leavesExact 3 t
    ∗ (dat11 V c).leavesExact 4 t)

set_option maxHeartbeats 8000000 in
/-- The body at any point: the inputs' buffers hold their blocks; the position says which case the point is in; the
    invariant hands the body the accumulator at what the point before left (at anything at the first point) and takes
    it back at this point's contents; the core owes nothing throughout. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2]
  rw [show (dat11 V c).owesAt () t.succ = (dat11 V c).owesAt () t.castSucc from rfl]
  rw [show (dat11 V c).Φ t.succ = PhiS11 V c (t.val + 1) t.isLt from rfl, PhiS11_succ]
  have hN : t.val < 64 := lt_of_lt_of_eq t.isLt (show cfg11.N = 64 from N_11)
  rw [show (dat11 V c).leavesExact 0 t = owns (c : Thread nD τ) (ms11_0 t) fullShare ((dat11 V c).after 0 t) from by
      unfold Dat.leavesExact; rw [liveAt11_0 t], after11_0]
  rw [show (dat11 V c).leavesExact 1 t = owns (c : Thread nD τ) (ms11_1 t) fullShare ((dat11 V c).after 1 t) from by
      unfold Dat.leavesExact; rw [liveAt11_1 t], after11_1]
  rw [show (dat11 V c).leavesExact 2 t = owns (c : Thread nD τ) (ms11_2 t) fullShare ((dat11 V c).after 2 t) from by
      unfold Dat.leavesExact; rw [liveAt11_2 t], after11_2]
  by_cases h0 : t.val % 8 = 0
  · have h1 : ¬t.val % 8 = 7 := by omega
    rw [Dat.leavesExact_idle (dat11 V c) 3 t (idleAt11_3 t (fun h => h1 ((hcond11_1 t).mp h))) (noFlush11_3 t (fun h => h1 ((hcond11_1 t).mp h)))]
    rw [Dat.leavesExact_idle (dat11 V c) 4 t (idleAt11_4 t (fun h => h1 ((hcond11_1 t).mp h))) (noFlush11_4 t (fun h => h1 ((hcond11_1 t).mp h)))]
    rw [outsAt11_A V c t h0 h1]
    unfold sout11_A_0; (try dsimp only)
    by_cases hz : t.val = 0
    · rw [PhiS11_castSucc V c t, PhiS11_zero V c _ _ hz, PhiA11_eq]
      iintro ⟨⟨⟨HS0, HR⟩, Hg⟩, Ho, ⟨%d0, H0⟩, ⟨%d1, H1⟩, ⟨%d2, H2⟩, ⟨%d3, H3⟩, ⟨%d4, H4⟩⟩
      iapply ((kernelRun11_A c (grid11.coords t) _ _ _ _ _ _ _ _ _ _ _ _ ((hcond11_0 t).mpr h0) (fun h => h1 ((hcond11_1 t).mp h)) (iblk11 V c 0 t) (iblk11 V c 1 t) (iblk11 V c 2 t)).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover11_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
    · rw [PhiS11_castSucc V c t, PhiS11_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun11_A c (grid11.coords t) _ _ _ _ _ _ _ _ _ _ _ _ ((hcond11_0 t).mpr h0) (fun h => h1 ((hcond11_1 t).mp h)) (iblk11 V c 0 t) (iblk11 V c 1 t) (iblk11 V c 2 t)).2.2.2 _ _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover11_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun h => h0 (by rw [h])
    by_cases h1 : t.val % 8 = 7
    · rw [show (dat11 V c).leavesExact 3 t = owns (c : Thread nD τ) (ms11_3 t) fullShare ((dat11 V c).after 3 t) from by
        unfold Dat.leavesExact; rw [liveAt11_3 t ((hcond11_1 t).mpr h1)], after11_3]
      rw [show (dat11 V c).leavesExact 4 t = owns (c : Thread nD τ) (ms11_4 t) fullShare ((dat11 V c).after 4 t) from by
        unfold Dat.leavesExact; rw [liveAt11_4 t ((hcond11_1 t).mpr h1)], after11_4]
      rw [outsAt11_C V c t h0 h1]
      unfold out11_C_3 out11_C_4 sout11_C_0; (try dsimp only)
      rw [PhiS11_castSucc V c t, PhiS11_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun11_C c (grid11.coords t) _ _ _ _ _ _ _ _ _ _ _ _ (fun h => h0 ((hcond11_0 t).mp h)) ((hcond11_1 t).mpr h1) (iblk11 V c 0 t) (iblk11 V c 1 t) (iblk11 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover11_C_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover11_C_3 c _ _ _ _ _ _ _ _ _ _ _ _ _ _ _ _ _ _ _)
      unfold owns; iexists _; isplitr
      swap; · iexact H4
      ipureintro; exact View.read_writes_of_cover _ _ _ _ _ (cover11_C_4 c _ _ _ _ _ _ _ _ _ _ _ _ _ _ _ _ _ _ _)
    · rw [Dat.leavesExact_idle (dat11 V c) 3 t (idleAt11_3 t (fun h => h1 ((hcond11_1 t).mp h))) (noFlush11_3 t (fun h => h1 ((hcond11_1 t).mp h)))]
      rw [Dat.leavesExact_idle (dat11 V c) 4 t (idleAt11_4 t (fun h => h1 ((hcond11_1 t).mp h))) (noFlush11_4 t (fun h => h1 ((hcond11_1 t).mp h)))]
      rw [outsAt11_B V c t h0 h1]
      unfold sout11_B_0; (try dsimp only)
      rw [PhiS11_castSucc V c t, PhiS11_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun11_B c (grid11.coords t) _ _ _ _ _ _ _ _ _ _ _ _ (fun h => h0 ((hcond11_0 t).mp h)) (fun h => h1 ((hcond11_1 t).mp h)) (iblk11 V c 0 t) (iblk11 V c 1 t) (iblk11 V c 2 t) _).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover11_B_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4

/-- The body obligation of region 11, at every point. -/
theorem body_obligation11 (c : Dev nD) : BodyObligation (dat11 (F := F) V c) (defs₀ (F := F)) Variants.none () Set.univ := fun t => by
  rw [bigSep_W11, bigSep_W11]
  exact sound_body11 V c t

/-- What the region is entered with is the invariant before the first point. -/
theorem hin11 (c : Dev nD) : Pipeline.ΦA spec11 c ⊢ (dat11 V c).Φ 0 := by
  rw [show (dat11 V c).Φ 0 = PhiS11 V c 0 (Nat.zero_le _) from rfl, PhiS11_zero V c 0 _ rfl]
  try exact Idealize.SL.BI.Entails.refl _

/-- After the last point the invariant gives the scoped buffers back: what the accumulator holds is forgotten. -/
theorem hout11 (c : Dev nD) : (dat11 V c).Φ (Fin.last cfg11.N) ⊢ Pipeline.ΦA spec11 c := by
  have ht : (Fin.last cfg11.N).val ≠ 0 := by rw [Fin.val_last]; have : cfg11.N = 64 := N_11; omega
  rw [show (dat11 V c).Φ (Fin.last cfg11.N) = PhiS11 V c (Fin.last cfg11.N).val (Nat.le_of_lt_succ (Fin.last cfg11.N).isLt) from rfl,
    PhiS11_pos V c _ _ ht, PhiA11_eq]
  iintro ⟨⟨HS0, HR⟩, Hg⟩
  isplitl [HS0 HR]
  · isplitl [HS0]
    · iexists _; iexact HS0
    iexact HR
  iexact Hg

end Cert.KernelIdeal.Hand

end
-- ==== Proof.RegI12Run.lean ====
/-
  Region 12 of the program (the recurrence step 2·(Ls·T) − T′): the kernel body run once per control case.
  The grid is 8 × 8; a point t = 8·r + k handles row block r and column block k of Ls. The body zeroes the
  accumulator when k = 0 (case A), adds the block product Ls[r,k]·v[k] to it at every point, and when k = 7
  (case C) stores the combination of the accumulator and the block of the earlier vector into both result
  blocks; at 0 < k < 7 (case B) it only accumulates. Each run states what the body's stores leave in the
  accumulator and in the result blocks, as the list of stored pieces.
-/
import proofs.«108570_j29480655520371_2_alg».proof.Proof.Gen.KernelIdeal.Launch
import proofs.«108570_j29480655520371_2_alg».proof.Proof.Gen.KernelIdeal.Skeleton
import proofs.«108570_j29480655520371_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0's current staging buffer holds its block at every point, fetched there or not. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
/-- Input window 1's current staging buffer holds its block at every point, fetched there or not. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)
/-- Input window 2's current staging buffer holds its block at every point, fetched there or not. -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-- k = 0: the accumulator is zeroed first. -/
abbrev cond12_0 (i : grid12.Coords) : Prop := (Scalar.cmpi .ne (Scalar.extui (Scalar.cmpi .eq (BitVec.ofNat 32 (i 1).val) 0#32)) 0#32) = 1#1
theorem hcond12_0 : ∀ t : Fin cfg12.N, cond12_0 (grid12.coords t) ↔ t.val % 8 = 0 :=
  (by decide +kernel : ∀ t : Fin grid12.N, cond12_0 (grid12.coords t) ↔ t.val % 8 = 0)
/-- k = 7: the results are stored. -/
abbrev cond12_1 (i : grid12.Coords) : Prop := k12_cond2 i = 1#1
theorem hcond12_1 : ∀ t : Fin cfg12.N, cond12_1 (grid12.coords t) ↔ t.val % 8 = 7 :=
  (by decide +kernel : ∀ t : Fin grid12.N, cond12_1 (grid12.coords t) ↔ t.val % 8 = 7)

theorem liveAt12_0 : ∀ t : Fin cfg12.N, cfg12.idle 0 (grid12.coords t) = false := by decide +kernel
theorem liveAt12_1 : ∀ t : Fin cfg12.N, cfg12.idle 1 (grid12.coords t) = false := by decide +kernel
theorem liveAt12_2 : ∀ t : Fin cfg12.N, cfg12.idle 2 (grid12.coords t) = false := by decide +kernel
theorem idleAt12_3 : ∀ t : Fin cfg12.N, ¬cond12_1 (grid12.coords t) → cfg12.idle 3 (grid12.coords t) = true := by decide +kernel
theorem noFlush12_3 : ∀ t : Fin cfg12.N, ¬cond12_1 (grid12.coords t) → (cfg12.win 3).flush t = false := by decide +kernel
theorem liveAt12_3 : ∀ t : Fin cfg12.N, cond12_1 (grid12.coords t) → cfg12.idle 3 (grid12.coords t) = false := by decide +kernel
theorem idleAt12_4 : ∀ t : Fin cfg12.N, ¬cond12_1 (grid12.coords t) → cfg12.idle 4 (grid12.coords t) = true := by decide +kernel
theorem noFlush12_4 : ∀ t : Fin cfg12.N, ¬cond12_1 (grid12.coords t) → (cfg12.win 4).flush t = false := by decide +kernel
theorem liveAt12_4 : ∀ t : Fin cfg12.N, cond12_1 (grid12.coords t) → cfg12.idle 4 (grid12.coords t) = false := by decide +kernel

/-- One staging buffer of each result window, through which its contents are stated. -/
abbrev VO12_3 : View sig .tc .vmem S2048x16 .f32 := (Memref.whole cc12_stg3_0 : Memref sig .tc .vmem S2048x16 .f32).view
abbrev VO12_4 : View sig .tc .vmem S2048x16 .bf16 := (Memref.whole cc12_stg4_0 : Memref sig .tc .vmem S2048x16 .bf16).view
abbrev ms12_0 (t : Fin cfg12.N) : Memref sig .tc .vmem S2048x2048 .bf16 := win12_0.stage (cfg12.slots t 0)
abbrev hs12_0 (t : Fin cfg12.N) : (ms12_0 t).IsWhole := hstage12_0 ((cfg12.slots t 0).cast nbuf12_0)
abbrev ms12_1 (t : Fin cfg12.N) : Memref sig .tc .vmem S2048x16 .bf16 := win12_1.stage (cfg12.slots t 1)
abbrev hs12_1 (t : Fin cfg12.N) : (ms12_1 t).IsWhole := hstage12_1 ((cfg12.slots t 1).cast nbuf12_1)
abbrev ms12_2 (t : Fin cfg12.N) : Memref sig .tc .vmem S2048x16 .f32 := win12_2.stage (cfg12.slots t 2)
abbrev hs12_2 (t : Fin cfg12.N) : (ms12_2 t).IsWhole := hstage12_2 ((cfg12.slots t 2).cast nbuf12_2)
abbrev ms12_3 (t : Fin cfg12.N) : Memref sig .tc .vmem S2048x16 .f32 := win12_3.stage (cfg12.slots t 3)
abbrev hs12_3 (t : Fin cfg12.N) : (ms12_3 t).IsWhole := hstage12_3 ((cfg12.slots t 3).cast nbuf12_3)
abbrev ms12_4 (t : Fin cfg12.N) : Memref sig .tc .vmem S2048x16 .bf16 := win12_4.stage (cfg12.slots t 4)
abbrev hs12_4 (t : Fin cfg12.N) : (ms12_4 t).IsWhole := hstage12_4 ((cfg12.slots t 4).cast nbuf12_4)
/-- The accumulator: a whole scoped buffer of the kernel's own. -/
abbrev scM12_0 : Memref sig .tc .vmem S2048x16 .f32 := Memref.whole cc12_scratch0
abbrev VS12_0 : View sig .tc .vmem S2048x16 .f32 := scM12_0.view

set_option maxHeartbeats 4000000 in
/-- Case A (k = 0): the accumulator, at anything, is zeroed and then receives the first block product; the result
    blocks are handed back untouched. -/
noncomputable def kernelRun12_A (c : Dev nD) (i : grid12.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond12_0 i) (hc1 : ¬cond12_1 i)
    (x0 : Vec F S2048x2048 .bf16) (x1 : Vec F S2048x16 .bf16) (x2 : Vec F S2048x16 .f32) :
    Σ' (L3 : List (View.Piece (Elt F) S2048x16 .f32)) (L4 : List (View.Piece (Elt F) S2048x16 .bf16)), { LS0 : List (View.Piece (Elt F) S2048x16 .f32) //
      ∀ (xi3 : Vec F S2048x16 .f32) (xi4 : Vec F S2048x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc12__matmul_combine_kernel i arg2 harg2 arg3 harg3 arg4 harg4 arg5 harg5 arg6 harg6 arg7 harg7) K } := by
  refine ⟨[], [], ?_, fun xi3 xi4 E K => ?run⟩
  case run =>
    simp only [cc12__matmul_combine_kernel_eq_skeleton]; unfold cc12__matmul_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case B (0 < k < 7): the accumulator, at what the point before left, receives one more block product; the result
    blocks are handed back untouched. -/
noncomputable def kernelRun12_B (c : Dev nD) (i : grid12.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond12_0 i) (hc1 : ¬cond12_1 i)
    (x0 : Vec F S2048x2048 .bf16) (x1 : Vec F S2048x16 .bf16) (x2 : Vec F S2048x16 .f32) (xs0 : Vec F S2048x16 .f32) :
    Σ' (L3 : List (View.Piece (Elt F) S2048x16 .f32)) (L4 : List (View.Piece (Elt F) S2048x16 .bf16)), { LS0 : List (View.Piece (Elt F) S2048x16 .f32) //
      ∀ (xi3 : Vec F S2048x16 .f32) (xi4 : Vec F S2048x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc12__matmul_combine_kernel i arg2 harg2 arg3 harg3 arg4 harg4 arg5 harg5 arg6 harg6 arg7 harg7) K } := by
  refine ⟨[], [], ?_, fun xi3 xi4 E K => ?run⟩
  case run =>
    simp only [cc12__matmul_combine_kernel_eq_skeleton]; unfold cc12__matmul_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case C (k = 7): the accumulator receives the last block product, and both result blocks, at anything, are stored
    whole with the combination of the accumulator and the block of the earlier vector. -/
noncomputable def kernelRun12_C (c : Dev nD) (i : grid12.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond12_0 i) (hc1 : cond12_1 i)
    (x0 : Vec F S2048x2048 .bf16) (x1 : Vec F S2048x16 .bf16) (x2 : Vec F S2048x16 .f32) (xs0 : Vec F S2048x16 .f32) :
    Σ' (L3 : List (View.Piece (Elt F) S2048x16 .f32)) (L4 : List (View.Piece (Elt F) S2048x16 .bf16)), { LS0 : List (View.Piece (Elt F) S2048x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc12__matmul_combine_kernel i arg2 harg2 arg3 harg3 arg4 harg4 arg5 harg5 arg6 harg6 arg7 harg7) K } := by
  refine ⟨?_, ?_, ?_, fun E K => ?run⟩
  case run =>
    simp only [cc12__matmul_combine_kernel_eq_skeleton]; unfold cc12__matmul_combine_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.KernelIdeal.Hand

end
-- ==== Proof.RegI12Frame.lean ====
/-
  Region 12: what its result blocks and its accumulator hold after every grid point, the proof data of its pipeline,
  and the body obligation. After point t = 8·r + k the accumulator holds the sum of the block products
  Ls[r,0]·v[0] + … + Ls[r,k]·v[k] (case A starts it from zero, cases B and C continue from what the point before
  left); the result blocks are written at k = 7 only and written back to their arrays right after that point, so at
  the other points their staging buffers are idle and what they hold is never consulted.
-/
import proofs.«108570_j29480655520371_2_alg».proof.Proof.RegI12Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's piece for the accumulator covers it. -/
theorem scover12_A_0 (c : Dev nD) (i : grid12.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond12_0 i) (hc1 : ¬cond12_1 i)
    (x0 : Vec F S2048x2048 .bf16) (x1 : Vec F S2048x16 .bf16) (x2 : Vec F S2048x16 .f32) (y : S2048x16.Idx) :
    ∃ pc ∈ (kernelRun12_A c i arg2 harg2 arg3 harg3 arg4 harg4 arg5 harg5 arg6 harg6 arg7 harg7 hc0 hc1 x0 x1 x2).2.2.1, y ∈ pc.1.set :=
  View.cover_of_tiledL (kernelRun12_A c i arg2 harg2 arg3 harg3 arg4 harg4 arg5 harg5 arg6 harg6 arg7 harg7 hc0 hc1 x0 x1 x2).2.2.1 S2048x16.size (by sl_kernel_rfl) y
/-- What case A leaves in the accumulator. -/
def sout12_A_0 (c : Dev nD) (i : grid12.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond12_0 i) (hc1 : ¬cond12_1 i)
    (x0 : Vec F S2048x2048 .bf16) (x1 : Vec F S2048x16 .bf16) (x2 : Vec F S2048x16 .f32) : Vec F S2048x16 .f32 :=
  VS12_0.read (Elt F) (VS12_0.writes (Elt F) VS12_0.junk (kernelRun12_A c i arg2 harg2 arg3 harg3 arg4 harg4 arg5 harg5 arg6 harg6 arg7 harg7 hc0 hc1 x0 x1 x2).2.2.1)

/-- Case B's piece for the accumulator covers it. -/
theorem scover12_B_0 (c : Dev nD) (i : grid12.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond12_0 i) (hc1 : ¬cond12_1 i)
    (x0 : Vec F S2048x2048 .bf16) (x1 : Vec F S2048x16 .bf16) (x2 : Vec F S2048x16 .f32) (xs0 : Vec F S2048x16 .f32) (y : S2048x16.Idx) :
    ∃ pc ∈ (kernelRun12_B c i arg2 harg2 arg3 harg3 arg4 harg4 arg5 harg5 arg6 harg6 arg7 harg7 hc0 hc1 x0 x1 x2 xs0).2.2.1, y ∈ pc.1.set :=
  View.cover_of_tiledL (kernelRun12_B c i arg2 harg2 arg3 harg3 arg4 harg4 arg5 harg5 arg6 harg6 arg7 harg7 hc0 hc1 x0 x1 x2 xs0).2.2.1 S2048x16.size (by sl_kernel_rfl) y
/-- What case B leaves in the accumulator. -/
def sout12_B_0 (c : Dev nD) (i : grid12.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond12_0 i) (hc1 : ¬cond12_1 i)
    (x0 : Vec F S2048x2048 .bf16) (x1 : Vec F S2048x16 .bf16) (x2 : Vec F S2048x16 .f32) (xs0 : Vec F S2048x16 .f32) : Vec F S2048x16 .f32 :=
  VS12_0.read (Elt F) (VS12_0.writes (Elt F) VS12_0.junk (kernelRun12_B c i arg2 harg2 arg3 harg3 arg4 harg4 arg5 harg5 arg6 harg6 arg7 harg7 hc0 hc1 x0 x1 x2 xs0).2.2.1)

/-- Case C's pieces cover the f32 result block, -/
theorem cover12_C_3 (c : Dev nD) (i : grid12.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond12_0 i) (hc1 : cond12_1 i)
    (x0 : Vec F S2048x2048 .bf16) (x1 : Vec F S2048x16 .bf16) (x2 : Vec F S2048x16 .f32) (xs0 : Vec F S2048x16 .f32) (y : S2048x16.Idx) :
    ∃ pc ∈ (kernelRun12_C c i arg2 harg2 arg3 harg3 arg4 harg4 arg5 harg5 arg6 harg6 arg7 harg7 hc0 hc1 x0 x1 x2 xs0).1, y ∈ pc.1.set :=
  View.cover_of_tiledL (kernelRun12_C c i arg2 harg2 arg3 harg3 arg4 harg4 arg5 harg5 arg6 harg6 arg7 harg7 hc0 hc1 x0 x1 x2 xs0).1 S2048x16.size (by sl_kernel_rfl) y
/-- the bf16 result block, -/
theorem cover12_C_4 (c : Dev nD) (i : grid12.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond12_0 i) (hc1 : cond12_1 i)
    (x0 : Vec F S2048x2048 .bf16) (x1 : Vec F S2048x16 .bf16) (x2 : Vec F S2048x16 .f32) (xs0 : Vec F S2048x16 .f32) (y : S2048x16.Idx) :
    ∃ pc ∈ (kernelRun12_C c i arg2 harg2 arg3 harg3 arg4 harg4 arg5 harg5 arg6 harg6 arg7 harg7 hc0 hc1 x0 x1 x2 xs0).2.1, y ∈ pc.1.set :=
  View.cover_of_tiledL (kernelRun12_C c i arg2 harg2 arg3 harg3 arg4 harg4 arg5 harg5 arg6 harg6 arg7 harg7 hc0 hc1 x0 x1 x2 xs0).2.1 S2048x16.size (by sl_kernel_rfl) y
/-- and the accumulator. -/
theorem scover12_C_0 (c : Dev nD) (i : grid12.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond12_0 i) (hc1 : cond12_1 i)
    (x0 : Vec F S2048x2048 .bf16) (x1 : Vec F S2048x16 .bf16) (x2 : Vec F S2048x16 .f32) (xs0 : Vec F S2048x16 .f32) (y : S2048x16.Idx) :
    ∃ pc ∈ (kernelRun12_C c i arg2 harg2 arg3 harg3 arg4 harg4 arg5 harg5 arg6 harg6 arg7 harg7 hc0 hc1 x0 x1 x2 xs0).2.2.1, y ∈ pc.1.set :=
  View.cover_of_tiledL (kernelRun12_C c i arg2 harg2 arg3 harg3 arg4 harg4 arg5 harg5 arg6 harg6 arg7 harg7 hc0 hc1 x0 x1 x2 xs0).2.2.1 S2048x16.size (by sl_kernel_rfl) y
/-- What case C leaves in the f32 result block, -/
def out12_C_3 (c : Dev nD) (i : grid12.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond12_0 i) (hc1 : cond12_1 i)
    (x0 : Vec F S2048x2048 .bf16) (x1 : Vec F S2048x16 .bf16) (x2 : Vec F S2048x16 .f32) (xs0 : Vec F S2048x16 .f32) : Vec F S2048x16 .f32 :=
  VO12_3.read (Elt F) (VO12_3.writes (Elt F) VO12_3.junk (kernelRun12_C c i arg2 harg2 arg3 harg3 arg4 harg4 arg5 harg5 arg6 harg6 arg7 harg7 hc0 hc1 x0 x1 x2 xs0).1)
/-- in the bf16 result block, -/
def out12_C_4 (c : Dev nD) (i : grid12.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond12_0 i) (hc1 : cond12_1 i)
    (x0 : Vec F S2048x2048 .bf16) (x1 : Vec F S2048x16 .bf16) (x2 : Vec F S2048x16 .f32) (xs0 : Vec F S2048x16 .f32) : Vec F S2048x16 .bf16 :=
  VO12_4.read (Elt F) (VO12_4.writes (Elt F) VO12_4.junk (kernelRun12_C c i arg2 harg2 arg3 harg3 arg4 harg4 arg5 harg5 arg6 harg6 arg7 harg7 hc0 hc1 x0 x1 x2 xs0).2.1)
/-- and in the accumulator. -/
def sout12_C_0 (c : Dev nD) (i : grid12.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond12_0 i) (hc1 : cond12_1 i)
    (x0 : Vec F S2048x2048 .bf16) (x1 : Vec F S2048x16 .bf16) (x2 : Vec F S2048x16 .f32) (xs0 : Vec F S2048x16 .f32) : Vec F S2048x16 .f32 :=
  VS12_0.read (Elt F) (VS12_0.writes (Elt F) VS12_0.junk (kernelRun12_C c i arg2 harg2 arg3 harg3 arg4 harg4 arg5 harg5 arg6 harg6 arg7 harg7 hc0 hc1 x0 x1 x2 xs0).2.2.1)

/-- What the two result blocks' staging buffers and the accumulator hold after the body at position `n`: the case
    the position selects, run at the point's blocks, cases B and C over the accumulator the point before left. -/
def outsAt12 (c : Dev nD) : (n : ℕ) → n < cfg12.N → Vec F S2048x16 .f32 × Vec F S2048x16 .bf16 × Vec F S2048x16 .f32
  | 0, hn => ((VO12_3.read (Elt F) VO12_3.junk), (VO12_4.read (Elt F) VO12_4.junk), sout12_A_0 c (grid12.coords ⟨0, hn⟩) (ms12_0 ⟨0, hn⟩) (hs12_0 ⟨0, hn⟩) (ms12_1 ⟨0, hn⟩) (hs12_1 ⟨0, hn⟩) (ms12_2 ⟨0, hn⟩) (hs12_2 ⟨0, hn⟩) (ms12_3 ⟨0, hn⟩) (hs12_3 ⟨0, hn⟩) (ms12_4 ⟨0, hn⟩) (hs12_4 ⟨0, hn⟩) scM12_0 (Memref.isWhole_whole _) ((hcond12_0 ⟨0, hn⟩).mpr (Nat.zero_mod _)) (fun h => (fun h => by (try dsimp only at h); omega) ((hcond12_1 ⟨0, hn⟩).mp h)) (iblk12 V c 0 ⟨0, hn⟩) (iblk12 V c 1 ⟨0, hn⟩) (iblk12 V c 2 ⟨0, hn⟩))
  | n + 1, hn =>
    if h0 : (n + 1) % 8 = 0 then
      if h1 : (n + 1) % 8 = 7 then
        False.elim (by omega)
      else
        ((VO12_3.read (Elt F) VO12_3.junk), (VO12_4.read (Elt F) VO12_4.junk), sout12_A_0 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) (ms12_3 ⟨n + 1, hn⟩) (hs12_3 ⟨n + 1, hn⟩) (ms12_4 ⟨n + 1, hn⟩) (hs12_4 ⟨n + 1, hn⟩) scM12_0 (Memref.isWhole_whole _) ((hcond12_0 ⟨n + 1, hn⟩).mpr h0) (fun h => h1 ((hcond12_1 ⟨n + 1, hn⟩).mp h)) (iblk12 V c 0 ⟨n + 1, hn⟩) (iblk12 V c 1 ⟨n + 1, hn⟩) (iblk12 V c 2 ⟨n + 1, hn⟩))
    else
      if h1 : (n + 1) % 8 = 7 then
        (out12_C_3 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) (ms12_3 ⟨n + 1, hn⟩) (hs12_3 ⟨n + 1, hn⟩) (ms12_4 ⟨n + 1, hn⟩) (hs12_4 ⟨n + 1, hn⟩) scM12_0 (Memref.isWhole_whole _) (fun h => h0 ((hcond12_0 ⟨n + 1, hn⟩).mp h)) ((hcond12_1 ⟨n + 1, hn⟩).mpr h1) (iblk12 V c 0 ⟨n + 1, hn⟩) (iblk12 V c 1 ⟨n + 1, hn⟩) (iblk12 V c 2 ⟨n + 1, hn⟩) (outsAt12 c n (Nat.lt_of_succ_lt hn)).2.2, out12_C_4 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) (ms12_3 ⟨n + 1, hn⟩) (hs12_3 ⟨n + 1, hn⟩) (ms12_4 ⟨n + 1, hn⟩) (hs12_4 ⟨n + 1, hn⟩) scM12_0 (Memref.isWhole_whole _) (fun h => h0 ((hcond12_0 ⟨n + 1, hn⟩).mp h)) ((hcond12_1 ⟨n + 1, hn⟩).mpr h1) (iblk12 V c 0 ⟨n + 1, hn⟩) (iblk12 V c 1 ⟨n + 1, hn⟩) (iblk12 V c 2 ⟨n + 1, hn⟩) (outsAt12 c n (Nat.lt_of_succ_lt hn)).2.2, sout12_C_0 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) (ms12_3 ⟨n + 1, hn⟩) (hs12_3 ⟨n + 1, hn⟩) (ms12_4 ⟨n + 1, hn⟩) (hs12_4 ⟨n + 1, hn⟩) scM12_0 (Memref.isWhole_whole _) (fun h => h0 ((hcond12_0 ⟨n + 1, hn⟩).mp h)) ((hcond12_1 ⟨n + 1, hn⟩).mpr h1) (iblk12 V c 0 ⟨n + 1, hn⟩) (iblk12 V c 1 ⟨n + 1, hn⟩) (iblk12 V c 2 ⟨n + 1, hn⟩) (outsAt12 c n (Nat.lt_of_succ_lt hn)).2.2)
      else
        ((VO12_3.read (Elt F) VO12_3.junk), (VO12_4.read (Elt F) VO12_4.junk), sout12_B_0 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) (ms12_3 ⟨n + 1, hn⟩) (hs12_3 ⟨n + 1, hn⟩) (ms12_4 ⟨n + 1, hn⟩) (hs12_4 ⟨n + 1, hn⟩) scM12_0 (Memref.isWhole_whole _) (fun h => h0 ((hcond12_0 ⟨n + 1, hn⟩).mp h)) (fun h => h1 ((hcond12_1 ⟨n + 1, hn⟩).mp h)) (iblk12 V c 0 ⟨n + 1, hn⟩) (iblk12 V c 1 ⟨n + 1, hn⟩) (iblk12 V c 2 ⟨n + 1, hn⟩) (outsAt12 c n (Nat.lt_of_succ_lt hn)).2.2)

theorem outsAt12_A (c : Dev nD) (t : Fin cfg12.N) (h0 : t.val % 8 = 0) (h1 : ¬t.val % 8 = 7) :
    outsAt12 V c t.val t.isLt = ((VO12_3.read (Elt F) VO12_3.junk), (VO12_4.read (Elt F) VO12_4.junk), sout12_A_0 c (grid12.coords t) (ms12_0 t) (hs12_0 t) (ms12_1 t) (hs12_1 t) (ms12_2 t) (hs12_2 t) (ms12_3 t) (hs12_3 t) (ms12_4 t) (hs12_4 t) scM12_0 (Memref.isWhole_whole _) ((hcond12_0 t).mpr h0) (fun h => h1 ((hcond12_1 t).mp h)) (iblk12 V c 0 t) (iblk12 V c 1 t) (iblk12 V c 2 t)) := by
  obtain ⟨n, hn⟩ := t
  cases n with
  | zero => exact rfl
  | succ n => exact (dif_pos h0).trans ((dif_neg h1).trans rfl)

theorem outsAt12_B (c : Dev nD) (t : Fin cfg12.N) (h0 : ¬t.val % 8 = 0) (h1 : ¬t.val % 8 = 7) :
    outsAt12 V c t.val t.isLt = ((VO12_3.read (Elt F) VO12_3.junk), (VO12_4.read (Elt F) VO12_4.junk), sout12_B_0 c (grid12.coords t) (ms12_0 t) (hs12_0 t) (ms12_1 t) (hs12_1 t) (ms12_2 t) (hs12_2 t) (ms12_3 t) (hs12_3 t) (ms12_4 t) (hs12_4 t) scM12_0 (Memref.isWhole_whole _) (fun h => h0 ((hcond12_0 t).mp h)) (fun h => h1 ((hcond12_1 t).mp h)) (iblk12 V c 0 t) (iblk12 V c 1 t) (iblk12 V c 2 t) (outsAt12 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt12_C (c : Dev nD) (t : Fin cfg12.N) (h0 : ¬t.val % 8 = 0) (h1 : t.val % 8 = 7) :
    outsAt12 V c t.val t.isLt = (out12_C_3 c (grid12.coords t) (ms12_0 t) (hs12_0 t) (ms12_1 t) (hs12_1 t) (ms12_2 t) (hs12_2 t) (ms12_3 t) (hs12_3 t) (ms12_4 t) (hs12_4 t) scM12_0 (Memref.isWhole_whole _) (fun h => h0 ((hcond12_0 t).mp h)) ((hcond12_1 t).mpr h1) (iblk12 V c 0 t) (iblk12 V c 1 t) (iblk12 V c 2 t) (outsAt12 V c (t.val - 1) (Nat.lt_of_le_of_lt (Nat.sub_le _ _) t.isLt)).2.2, out12_C_4 c (grid12.coords t) (ms12_0 t) (hs12_0 t) (ms12_1 t) (hs12_1 t) (ms12_2 t) (hs12_2 t) (ms12_3 t) (hs12_3 t) (ms12_4 t) (hs12_4 t) scM12_0 (Memref.isWhole_whole _) (fun h => h0 ((hcond12_0 t).mp h)) ((hcond12_1 t).mpr h1) (iblk12 V c 0 t) (iblk12 V c 1 t) (iblk12 V c 2 t) (outsAt12 V c (t.val - 1) (Nat.lt_of_le_of_lt (Nat.sub_le _ _) t.isLt)).2.2, sout12_C_0 c (grid12.coords t) (ms12_0 t) (hs12_0 t) (ms12_1 t) (hs12_1 t) (ms12_2 t) (hs12_2 t) (ms12_3 t) (hs12_3 t) (ms12_4 t) (hs12_4 t) scM12_0 (Memref.isWhole_whole _) (fun h => h0 ((hcond12_0 t).mp h)) ((hcond12_1 t).mpr h1) (iblk12 V c 0 t) (iblk12 V c 1 t) (iblk12 V c 2 t) (outsAt12 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The scoped buffers of the program other than this region's staging buffers and its accumulator. -/
abbrev RB12 (c : Dev nD) : sProp 𝕄 :=
  Pipeline.scopedRestBut (Ix := Unit) (Name := ℕ) (U := UR sig nD τ) (Lvl := ℕ) (Val := Elt F) spec12 c [cc12_scratch0]

/-- The region invariant before position `n`: at the first point every scoped buffer outside the staging buffers at
    anything; afterwards the accumulator at what the point before left in it. -/
def PhiS12 (c : Dev nD) : (n : ℕ) → n ≤ cfg12.N → sProp 𝕄
  | 0, _ => Pipeline.ΦA spec12 c
  | n + 1, hn => iprop((iprop(owns (c : Thread nD τ) scM12_0 fullShare ((outsAt12 V c n hn).2.2)) ∗ RB12 c) ∗ (∃ r, prngReg c r))

theorem PhiS12_zero (c : Dev nD) (n : ℕ) (h : n ≤ cfg12.N) (hz : n = 0) : PhiS12 V c n h = Pipeline.ΦA spec12 c := by
  subst hz; rfl
theorem PhiS12_succ (c : Dev nD) (n : ℕ) (hn : n < cfg12.N) :
    PhiS12 V c (n + 1) hn = iprop((iprop(owns (c : Thread nD τ) scM12_0 fullShare ((outsAt12 V c n hn).2.2)) ∗ RB12 c) ∗ (∃ r, prngReg c r)) := rfl
theorem PhiS12_pos (c : Dev nD) (n : ℕ) (h : n ≤ cfg12.N) (hz : n ≠ 0) :
    PhiS12 V c n h = iprop((iprop(owns (c : Thread nD τ) scM12_0 fullShare ((outsAt12 V c (n - 1) (by omega)).2.2)) ∗ RB12 c) ∗ (∃ r, prngReg c r)) := by
  cases n with
  | zero => exact absurd rfl hz
  | succ n => rfl

/-- The first point's invariant with the accumulator split out, owned at some contents. -/
theorem PhiA12_eq (c : Dev nD) :
    (Pipeline.ΦA spec12 c : sProp 𝕄)
      = iprop((iprop((∃ d, owns (c : Thread nD τ) scM12_0 fullShare d)) ∗ RB12 c) ∗ (∃ r, prngReg c r)) := by
  unfold Pipeline.ΦA; rw [scopedRest12_split]; simp only [scM12_0, owns_whole]; try rfl

/-- The proof data of region 12's pipeline on core `c`: the arrays as the region finds them; after the body at
    point `t` each input's buffer at its block and the results' at `outsAt12`; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => (outsAt12 V c t.val t.isLt).1
    | ⟨4, _⟩ => (outsAt12 V c t.val t.isLt).2.1
  Φ t := PhiS12 V c t.val (Nat.le_of_lt_succ t.isLt)
  q _ := fullShare
  owed _ := 0

theorem A_eq12 (c : Dev nD) (w : Fin cfg12.W) : (dat12 V c).A w = V c (Pipeline.arrRef spec12 w) := by
  dsimp only [dat12]
theorem PhiS12_castSucc (c : Dev nD) (t : Fin cfg12.N) :
    (dat12 V c).Φ t.castSucc = PhiS12 V c t.val (Nat.le_of_lt t.isLt) := by
  dsimp only [dat12]; simp only [Fin.coe_castSucc]
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = (outsAt12 V c t.val t.isLt).1 := by dsimp only [dat12]
theorem after12_4 (c : Dev nD) (t : Fin cfg12.N) : (dat12 V c).after 4 t = (outsAt12 V c t.val t.isLt).2.1 := by dsimp only [dat12]
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d

/-- What the body is called with at point `t`, -/
def bodyPre12 (c : Dev nD) (t : Fin cfg12.N) : sProp 𝕄 :=
  iprop((dat12 V c).Φ t.castSucc ∗ (dat12 V c).owesAt () t.castSucc
    ∗ (∃ d, owns (c : Thread nD τ) (ms12_0 t) fullShare ((dat12 V c).before 0 t d))
    ∗ (∃ d, owns (c : Thread nD τ) (ms12_1 t) fullShare ((dat12 V c).before 1 t d))
    ∗ (∃ d, owns (c : Thread nD τ) (ms12_2 t) fullShare ((dat12 V c).before 2 t d))
    ∗ (∃ d, owns (c : Thread nD τ) (ms12_3 t) fullShare ((dat12 V c).before 3 t d))
    ∗ (∃ d, owns (c : Thread nD τ) (ms12_4 t) fullShare ((dat12 V c).before 4 t d)))
/-- and what it returns. -/
def bodyPost12 (c : Dev nD) (t : Fin cfg12.N) : sProp 𝕄 :=
  iprop((dat12 V c).Φ t.succ ∗ (dat12 V c).owesAt () t.succ
    ∗ (dat12 V c).leavesExact 0 t
    ∗ (dat12 V c).leavesExact 1 t
    ∗ (dat12 V c).leavesExact 2 t
    ∗ (dat12 V c).leavesExact 3 t
    ∗ (dat12 V c).leavesExact 4 t)

set_option maxHeartbeats 8000000 in
/-- The body at any point: the inputs' buffers hold their blocks; the position says which case the point is in; the
    invariant hands the body the accumulator at what the point before left (at anything at the first point) and takes
    it back at this point's contents; the core owes nothing throughout. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2]
  rw [show (dat12 V c).owesAt () t.succ = (dat12 V c).owesAt () t.castSucc from rfl]
  rw [show (dat12 V c).Φ t.succ = PhiS12 V c (t.val + 1) t.isLt from rfl, PhiS12_succ]
  have hN : t.val < 64 := lt_of_lt_of_eq t.isLt (show cfg12.N = 64 from N_12)
  rw [show (dat12 V c).leavesExact 0 t = owns (c : Thread nD τ) (ms12_0 t) fullShare ((dat12 V c).after 0 t) from by
      unfold Dat.leavesExact; rw [liveAt12_0 t], after12_0]
  rw [show (dat12 V c).leavesExact 1 t = owns (c : Thread nD τ) (ms12_1 t) fullShare ((dat12 V c).after 1 t) from by
      unfold Dat.leavesExact; rw [liveAt12_1 t], after12_1]
  rw [show (dat12 V c).leavesExact 2 t = owns (c : Thread nD τ) (ms12_2 t) fullShare ((dat12 V c).after 2 t) from by
      unfold Dat.leavesExact; rw [liveAt12_2 t], after12_2]
  by_cases h0 : t.val % 8 = 0
  · have h1 : ¬t.val % 8 = 7 := by omega
    rw [Dat.leavesExact_idle (dat12 V c) 3 t (idleAt12_3 t (fun h => h1 ((hcond12_1 t).mp h))) (noFlush12_3 t (fun h => h1 ((hcond12_1 t).mp h)))]
    rw [Dat.leavesExact_idle (dat12 V c) 4 t (idleAt12_4 t (fun h => h1 ((hcond12_1 t).mp h))) (noFlush12_4 t (fun h => h1 ((hcond12_1 t).mp h)))]
    rw [outsAt12_A V c t h0 h1]
    unfold sout12_A_0; (try dsimp only)
    by_cases hz : t.val = 0
    · rw [PhiS12_castSucc V c t, PhiS12_zero V c _ _ hz, PhiA12_eq]
      iintro ⟨⟨⟨HS0, HR⟩, Hg⟩, Ho, ⟨%d0, H0⟩, ⟨%d1, H1⟩, ⟨%d2, H2⟩, ⟨%d3, H3⟩, ⟨%d4, H4⟩⟩
      iapply ((kernelRun12_A c (grid12.coords t) _ _ _ _ _ _ _ _ _ _ _ _ ((hcond12_0 t).mpr h0) (fun h => h1 ((hcond12_1 t).mp h)) (iblk12 V c 0 t) (iblk12 V c 1 t) (iblk12 V c 2 t)).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover12_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
    · rw [PhiS12_castSucc V c t, PhiS12_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun12_A c (grid12.coords t) _ _ _ _ _ _ _ _ _ _ _ _ ((hcond12_0 t).mpr h0) (fun h => h1 ((hcond12_1 t).mp h)) (iblk12 V c 0 t) (iblk12 V c 1 t) (iblk12 V c 2 t)).2.2.2 _ _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover12_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun h => h0 (by rw [h])
    by_cases h1 : t.val % 8 = 7
    · rw [show (dat12 V c).leavesExact 3 t = owns (c : Thread nD τ) (ms12_3 t) fullShare ((dat12 V c).after 3 t) from by
        unfold Dat.leavesExact; rw [liveAt12_3 t ((hcond12_1 t).mpr h1)], after12_3]
      rw [show (dat12 V c).leavesExact 4 t = owns (c : Thread nD τ) (ms12_4 t) fullShare ((dat12 V c).after 4 t) from by
        unfold Dat.leavesExact; rw [liveAt12_4 t ((hcond12_1 t).mpr h1)], after12_4]
      rw [outsAt12_C V c t h0 h1]
      unfold out12_C_3 out12_C_4 sout12_C_0; (try dsimp only)
      rw [PhiS12_castSucc V c t, PhiS12_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun12_C c (grid12.coords t) _ _ _ _ _ _ _ _ _ _ _ _ (fun h => h0 ((hcond12_0 t).mp h)) ((hcond12_1 t).mpr h1) (iblk12 V c 0 t) (iblk12 V c 1 t) (iblk12 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover12_C_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover12_C_3 c _ _ _ _ _ _ _ _ _ _ _ _ _ _ _ _ _ _ _)
      unfold owns; iexists _; isplitr
      swap; · iexact H4
      ipureintro; exact View.read_writes_of_cover _ _ _ _ _ (cover12_C_4 c _ _ _ _ _ _ _ _ _ _ _ _ _ _ _ _ _ _ _)
    · rw [Dat.leavesExact_idle (dat12 V c) 3 t (idleAt12_3 t (fun h => h1 ((hcond12_1 t).mp h))) (noFlush12_3 t (fun h => h1 ((hcond12_1 t).mp h)))]
      rw [Dat.leavesExact_idle (dat12 V c) 4 t (idleAt12_4 t (fun h => h1 ((hcond12_1 t).mp h))) (noFlush12_4 t (fun h => h1 ((hcond12_1 t).mp h)))]
      rw [outsAt12_B V c t h0 h1]
      unfold sout12_B_0; (try dsimp only)
      rw [PhiS12_castSucc V c t, PhiS12_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun12_B c (grid12.coords t) _ _ _ _ _ _ _ _ _ _ _ _ (fun h => h0 ((hcond12_0 t).mp h)) (fun h => h1 ((hcond12_1 t).mp h)) (iblk12 V c 0 t) (iblk12 V c 1 t) (iblk12 V c 2 t) _).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover12_B_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4

/-- The body obligation of region 12, at every point. -/
theorem body_obligation12 (c : Dev nD) : BodyObligation (dat12 (F := F) V c) (defs₀ (F := F)) Variants.none () Set.univ := fun t => by
  rw [bigSep_W12, bigSep_W12]
  exact sound_body12 V c t

/-- What the region is entered with is the invariant before the first point. -/
theorem hin12 (c : Dev nD) : Pipeline.ΦA spec12 c ⊢ (dat12 V c).Φ 0 := by
  rw [show (dat12 V c).Φ 0 = PhiS12 V c 0 (Nat.zero_le _) from rfl, PhiS12_zero V c 0 _ rfl]
  try exact Idealize.SL.BI.Entails.refl _

/-- After the last point the invariant gives the scoped buffers back: what the accumulator holds is forgotten. -/
theorem hout12 (c : Dev nD) : (dat12 V c).Φ (Fin.last cfg12.N) ⊢ Pipeline.ΦA spec12 c := by
  have ht : (Fin.last cfg12.N).val ≠ 0 := by rw [Fin.val_last]; have : cfg12.N = 64 := N_12; omega
  rw [show (dat12 V c).Φ (Fin.last cfg12.N) = PhiS12 V c (Fin.last cfg12.N).val (Nat.le_of_lt_succ (Fin.last cfg12.N).isLt) from rfl,
    PhiS12_pos V c _ _ ht, PhiA12_eq]
  iintro ⟨⟨HS0, HR⟩, Hg⟩
  isplitl [HS0 HR]
  · isplitl [HS0]
    · iexists _; iexact HS0
    iexact HR
  iexact Hg

end Cert.KernelIdeal.Hand

end
-- ==== Proof.RegI13Run.lean ====
/-
  Region 13 of the program (the recurrence step 2·(Ls·T) − T′): the kernel body run once per control case.
  The grid is 8 × 8; a point t = 8·r + k handles row block r and column block k of Ls. The body zeroes the
  accumulator when k = 0 (case A), adds the block product Ls[r,k]·v[k] to it at every point, and when k = 7
  (case C) stores the combination of the accumulator and the block of the earlier vector into both result
  blocks; at 0 < k < 7 (case B) it only accumulates. Each run states what the body's stores leave in the
  accumulator and in the result blocks, as the list of stored pieces.
-/
import proofs.«108570_j29480655520371_2_alg».proof.Proof.Gen.KernelIdeal.Launch
import proofs.«108570_j29480655520371_2_alg».proof.Proof.Gen.KernelIdeal.Skeleton
import proofs.«108570_j29480655520371_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- Input window 0's current staging buffer holds its block at every point, fetched there or not. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)
/-- Input window 1's current staging buffer holds its block at every point, fetched there or not. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)
/-- Input window 2's current staging buffer holds its block at every point, fetched there or not. -/
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

/-- k = 0: the accumulator is zeroed first. -/
abbrev cond13_0 (i : grid13.Coords) : Prop := (Scalar.cmpi .ne (Scalar.extui (Scalar.cmpi .eq (BitVec.ofNat 32 (i 1).val) 0#32)) 0#32) = 1#1
theorem hcond13_0 : ∀ t : Fin cfg13.N, cond13_0 (grid13.coords t) ↔ t.val % 8 = 0 :=
  (by decide +kernel : ∀ t : Fin grid13.N, cond13_0 (grid13.coords t) ↔ t.val % 8 = 0)
/-- k = 7: the results are stored. -/
abbrev cond13_1 (i : grid13.Coords) : Prop := k13_cond2 i = 1#1
theorem hcond13_1 : ∀ t : Fin cfg13.N, cond13_1 (grid13.coords t) ↔ t.val % 8 = 7 :=
  (by decide +kernel : ∀ t : Fin grid13.N, cond13_1 (grid13.coords t) ↔ t.val % 8 = 7)

theorem liveAt13_0 : ∀ t : Fin cfg13.N, cfg13.idle 0 (grid13.coords t) = false := by decide +kernel
theorem liveAt13_1 : ∀ t : Fin cfg13.N, cfg13.idle 1 (grid13.coords t) = false := by decide +kernel
theorem liveAt13_2 : ∀ t : Fin cfg13.N, cfg13.idle 2 (grid13.coords t) = false := by decide +kernel
theorem idleAt13_3 : ∀ t : Fin cfg13.N, ¬cond13_1 (grid13.coords t) → cfg13.idle 3 (grid13.coords t) = true := by decide +kernel
theorem noFlush13_3 : ∀ t : Fin cfg13.N, ¬cond13_1 (grid13.coords t) → (cfg13.win 3).flush t = false := by decide +kernel
theorem liveAt13_3 : ∀ t : Fin cfg13.N, cond13_1 (grid13.coords t) → cfg13.idle 3 (grid13.coords t) = false := by decide +kernel
theorem idleAt13_4 : ∀ t : Fin cfg13.N, ¬cond13_1 (grid13.coords t) → cfg13.idle 4 (grid13.coords t) = true := by decide +kernel
theorem noFlush13_4 : ∀ t : Fin cfg13.N, ¬cond13_1 (grid13.coords t) → (cfg13.win 4).flush t = false := by decide +kernel
theorem liveAt13_4 : ∀ t : Fin cfg13.N, cond13_1 (grid13.coords t) → cfg13.idle 4 (grid13.coords t) = false := by decide +kernel

/-- One staging buffer of each result window, through which its contents are stated. -/
abbrev VO13_3 : View sig .tc .vmem S2048x16 .f32 := (Memref.whole cc13_stg3_0 : Memref sig .tc .vmem S2048x16 .f32).view
abbrev VO13_4 : View sig .tc .vmem S2048x16 .bf16 := (Memref.whole cc13_stg4_0 : Memref sig .tc .vmem S2048x16 .bf16).view
abbrev ms13_0 (t : Fin cfg13.N) : Memref sig .tc .vmem S2048x2048 .bf16 := win13_0.stage (cfg13.slots t 0)
abbrev hs13_0 (t : Fin cfg13.N) : (ms13_0 t).IsWhole := hstage13_0 ((cfg13.slots t 0).cast nbuf13_0)
abbrev ms13_1 (t : Fin cfg13.N) : Memref sig .tc .vmem S2048x16 .bf16 := win13_1.stage (cfg13.slots t 1)
abbrev hs13_1 (t : Fin cfg13.N) : (ms13_1 t).IsWhole := hstage13_1 ((cfg13.slots t 1).cast nbuf13_1)
abbrev ms13_2 (t : Fin cfg13.N) : Memref sig .tc .vmem S2048x16 .f32 := win13_2.stage (cfg13.slots t 2)
abbrev hs13_2 (t : Fin cfg13.N) : (ms13_2 t).IsWhole := hstage13_2 ((cfg13.slots t 2).cast nbuf13_2)
abbrev ms13_3 (t : Fin cfg13.N) : Memref sig .tc .vmem S2048x16 .f32 := win13_3.stage (cfg13.slots t 3)
abbrev hs13_3 (t : Fin cfg13.N) : (ms13_3 t).IsWhole := hstage13_3 ((cfg13.slots t 3).cast nbuf13_3)
abbrev ms13_4 (t : Fin cfg13.N) : Memref sig .tc .vmem S2048x16 .bf16 := win13_4.stage (cfg13.slots t 4)
abbrev hs13_4 (t : Fin cfg13.N) : (ms13_4 t).IsWhole := hstage13_4 ((cfg13.slots t 4).cast nbuf13_4)
/-- The accumulator: a whole scoped buffer of the kernel's own. -/
abbrev scM13_0 : Memref sig .tc .vmem S2048x16 .f32 := Memref.whole cc13_scratch0
abbrev VS13_0 : View sig .tc .vmem S2048x16 .f32 := scM13_0.view

set_option maxHeartbeats 4000000 in
/-- Case A (k = 0): the accumulator, at anything, is zeroed and then receives the first block product; the result
    blocks are handed back untouched. -/
noncomputable def kernelRun13_A (c : Dev nD) (i : grid13.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond13_0 i) (hc1 : ¬cond13_1 i)
    (x0 : Vec F S2048x2048 .bf16) (x1 : Vec F S2048x16 .bf16) (x2 : Vec F S2048x16 .f32) :
    Σ' (L3 : List (View.Piece (Elt F) S2048x16 .f32)) (L4 : List (View.Piece (Elt F) S2048x16 .bf16)), { LS0 : List (View.Piece (Elt F) S2048x16 .f32) //
      ∀ (xi3 : Vec F S2048x16 .f32) (xi4 : Vec F S2048x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc13__matmul_combine_kernel i arg2 harg2 arg3 harg3 arg4 harg4 arg5 harg5 arg6 harg6 arg7 harg7) K } := by
  refine ⟨[], [], ?_, fun xi3 xi4 E K => ?run⟩
  case run =>
    simp only [cc13__matmul_combine_kernel_eq_skeleton]; unfold cc13__matmul_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case B (0 < k < 7): the accumulator, at what the point before left, receives one more block product; the result
    blocks are handed back untouched. -/
noncomputable def kernelRun13_B (c : Dev nD) (i : grid13.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond13_0 i) (hc1 : ¬cond13_1 i)
    (x0 : Vec F S2048x2048 .bf16) (x1 : Vec F S2048x16 .bf16) (x2 : Vec F S2048x16 .f32) (xs0 : Vec F S2048x16 .f32) :
    Σ' (L3 : List (View.Piece (Elt F) S2048x16 .f32)) (L4 : List (View.Piece (Elt F) S2048x16 .bf16)), { LS0 : List (View.Piece (Elt F) S2048x16 .f32) //
      ∀ (xi3 : Vec F S2048x16 .f32) (xi4 : Vec F S2048x16 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc13__matmul_combine_kernel i arg2 harg2 arg3 harg3 arg4 harg4 arg5 harg5 arg6 harg6 arg7 harg7) K } := by
  refine ⟨[], [], ?_, fun xi3 xi4 E K => ?run⟩
  case run =>
    simp only [cc13__matmul_combine_kernel_eq_skeleton]; unfold cc13__matmul_combine_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case C (k = 7): the accumulator receives the last block product, and both result blocks, at anything, are stored
    whole with the combination of the accumulator and the block of the earlier vector. -/
noncomputable def kernelRun13_C (c : Dev nD) (i : grid13.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond13_0 i) (hc1 : cond13_1 i)
    (x0 : Vec F S2048x2048 .bf16) (x1 : Vec F S2048x16 .bf16) (x2 : Vec F S2048x16 .f32) (xs0 : Vec F S2048x16 .f32) :
    Σ' (L3 : List (View.Piece (Elt F) S2048x16 .f32)) (L4 : List (View.Piece (Elt F) S2048x16 .bf16)), { LS0 : List (View.Piece (Elt F) S2048x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc13__matmul_combine_kernel i arg2 harg2 arg3 harg3 arg4 harg4 arg5 harg5 arg6 harg6 arg7 harg7) K } := by
  refine ⟨?_, ?_, ?_, fun E K => ?run⟩
  case run =>
    simp only [cc13__matmul_combine_kernel_eq_skeleton]; unfold cc13__matmul_combine_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.KernelIdeal.Hand

end
-- ==== Proof.RegI13Frame.lean ====
/-
  Region 13: what its result blocks and its accumulator hold after every grid point, the proof data of its pipeline,
  and the body obligation. After point t = 8·r + k the accumulator holds the sum of the block products
  Ls[r,0]·v[0] + … + Ls[r,k]·v[k] (case A starts it from zero, cases B and C continue from what the point before
  left); the result blocks are written at k = 7 only and written back to their arrays right after that point, so at
  the other points their staging buffers are idle and what they hold is never consulted.
-/
import proofs.«108570_j29480655520371_2_alg».proof.Proof.RegI13Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's piece for the accumulator covers it. -/
theorem scover13_A_0 (c : Dev nD) (i : grid13.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond13_0 i) (hc1 : ¬cond13_1 i)
    (x0 : Vec F S2048x2048 .bf16) (x1 : Vec F S2048x16 .bf16) (x2 : Vec F S2048x16 .f32) (y : S2048x16.Idx) :
    ∃ pc ∈ (kernelRun13_A c i arg2 harg2 arg3 harg3 arg4 harg4 arg5 harg5 arg6 harg6 arg7 harg7 hc0 hc1 x0 x1 x2).2.2.1, y ∈ pc.1.set :=
  View.cover_of_tiledL (kernelRun13_A c i arg2 harg2 arg3 harg3 arg4 harg4 arg5 harg5 arg6 harg6 arg7 harg7 hc0 hc1 x0 x1 x2).2.2.1 S2048x16.size (by sl_kernel_rfl) y
/-- What case A leaves in the accumulator. -/
def sout13_A_0 (c : Dev nD) (i : grid13.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond13_0 i) (hc1 : ¬cond13_1 i)
    (x0 : Vec F S2048x2048 .bf16) (x1 : Vec F S2048x16 .bf16) (x2 : Vec F S2048x16 .f32) : Vec F S2048x16 .f32 :=
  VS13_0.read (Elt F) (VS13_0.writes (Elt F) VS13_0.junk (kernelRun13_A c i arg2 harg2 arg3 harg3 arg4 harg4 arg5 harg5 arg6 harg6 arg7 harg7 hc0 hc1 x0 x1 x2).2.2.1)

/-- Case B's piece for the accumulator covers it. -/
theorem scover13_B_0 (c : Dev nD) (i : grid13.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond13_0 i) (hc1 : ¬cond13_1 i)
    (x0 : Vec F S2048x2048 .bf16) (x1 : Vec F S2048x16 .bf16) (x2 : Vec F S2048x16 .f32) (xs0 : Vec F S2048x16 .f32) (y : S2048x16.Idx) :
    ∃ pc ∈ (kernelRun13_B c i arg2 harg2 arg3 harg3 arg4 harg4 arg5 harg5 arg6 harg6 arg7 harg7 hc0 hc1 x0 x1 x2 xs0).2.2.1, y ∈ pc.1.set :=
  View.cover_of_tiledL (kernelRun13_B c i arg2 harg2 arg3 harg3 arg4 harg4 arg5 harg5 arg6 harg6 arg7 harg7 hc0 hc1 x0 x1 x2 xs0).2.2.1 S2048x16.size (by sl_kernel_rfl) y
/-- What case B leaves in the accumulator. -/
def sout13_B_0 (c : Dev nD) (i : grid13.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond13_0 i) (hc1 : ¬cond13_1 i)
    (x0 : Vec F S2048x2048 .bf16) (x1 : Vec F S2048x16 .bf16) (x2 : Vec F S2048x16 .f32) (xs0 : Vec F S2048x16 .f32) : Vec F S2048x16 .f32 :=
  VS13_0.read (Elt F) (VS13_0.writes (Elt F) VS13_0.junk (kernelRun13_B c i arg2 harg2 arg3 harg3 arg4 harg4 arg5 harg5 arg6 harg6 arg7 harg7 hc0 hc1 x0 x1 x2 xs0).2.2.1)

/-- Case C's pieces cover the f32 result block, -/
theorem cover13_C_3 (c : Dev nD) (i : grid13.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond13_0 i) (hc1 : cond13_1 i)
    (x0 : Vec F S2048x2048 .bf16) (x1 : Vec F S2048x16 .bf16) (x2 : Vec F S2048x16 .f32) (xs0 : Vec F S2048x16 .f32) (y : S2048x16.Idx) :
    ∃ pc ∈ (kernelRun13_C c i arg2 harg2 arg3 harg3 arg4 harg4 arg5 harg5 arg6 harg6 arg7 harg7 hc0 hc1 x0 x1 x2 xs0).1, y ∈ pc.1.set :=
  View.cover_of_tiledL (kernelRun13_C c i arg2 harg2 arg3 harg3 arg4 harg4 arg5 harg5 arg6 harg6 arg7 harg7 hc0 hc1 x0 x1 x2 xs0).1 S2048x16.size (by sl_kernel_rfl) y
/-- the bf16 result block, -/
theorem cover13_C_4 (c : Dev nD) (i : grid13.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond13_0 i) (hc1 : cond13_1 i)
    (x0 : Vec F S2048x2048 .bf16) (x1 : Vec F S2048x16 .bf16) (x2 : Vec F S2048x16 .f32) (xs0 : Vec F S2048x16 .f32) (y : S2048x16.Idx) :
    ∃ pc ∈ (kernelRun13_C c i arg2 harg2 arg3 harg3 arg4 harg4 arg5 harg5 arg6 harg6 arg7 harg7 hc0 hc1 x0 x1 x2 xs0).2.1, y ∈ pc.1.set :=
  View.cover_of_tiledL (kernelRun13_C c i arg2 harg2 arg3 harg3 arg4 harg4 arg5 harg5 arg6 harg6 arg7 harg7 hc0 hc1 x0 x1 x2 xs0).2.1 S2048x16.size (by sl_kernel_rfl) y
/-- and the accumulator. -/
theorem scover13_C_0 (c : Dev nD) (i : grid13.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond13_0 i) (hc1 : cond13_1 i)
    (x0 : Vec F S2048x2048 .bf16) (x1 : Vec F S2048x16 .bf16) (x2 : Vec F S2048x16 .f32) (xs0 : Vec F S2048x16 .f32) (y : S2048x16.Idx) :
    ∃ pc ∈ (kernelRun13_C c i arg2 harg2 arg3 harg3 arg4 harg4 arg5 harg5 arg6 harg6 arg7 harg7 hc0 hc1 x0 x1 x2 xs0).2.2.1, y ∈ pc.1.set :=
  View.cover_of_tiledL (kernelRun13_C c i arg2 harg2 arg3 harg3 arg4 harg4 arg5 harg5 arg6 harg6 arg7 harg7 hc0 hc1 x0 x1 x2 xs0).2.2.1 S2048x16.size (by sl_kernel_rfl) y
/-- What case C leaves in the f32 result block, -/
def out13_C_3 (c : Dev nD) (i : grid13.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond13_0 i) (hc1 : cond13_1 i)
    (x0 : Vec F S2048x2048 .bf16) (x1 : Vec F S2048x16 .bf16) (x2 : Vec F S2048x16 .f32) (xs0 : Vec F S2048x16 .f32) : Vec F S2048x16 .f32 :=
  VO13_3.read (Elt F) (VO13_3.writes (Elt F) VO13_3.junk (kernelRun13_C c i arg2 harg2 arg3 harg3 arg4 harg4 arg5 harg5 arg6 harg6 arg7 harg7 hc0 hc1 x0 x1 x2 xs0).1)
/-- in the bf16 result block, -/
def out13_C_4 (c : Dev nD) (i : grid13.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond13_0 i) (hc1 : cond13_1 i)
    (x0 : Vec F S2048x2048 .bf16) (x1 : Vec F S2048x16 .bf16) (x2 : Vec F S2048x16 .f32) (xs0 : Vec F S2048x16 .f32) : Vec F S2048x16 .bf16 :=
  VO13_4.read (Elt F) (VO13_4.writes (Elt F) VO13_4.junk (kernelRun13_C c i arg2 harg2 arg3 harg3 arg4 harg4 arg5 harg5 arg6 harg6 arg7 harg7 hc0 hc1 x0 x1 x2 xs0).2.1)
/-- and in the accumulator. -/
def sout13_C_0 (c : Dev nD) (i : grid13.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond13_0 i) (hc1 : cond13_1 i)
    (x0 : Vec F S2048x2048 .bf16) (x1 : Vec F S2048x16 .bf16) (x2 : Vec F S2048x16 .f32) (xs0 : Vec F S2048x16 .f32) : Vec F S2048x16 .f32 :=
  VS13_0.read (Elt F) (VS13_0.writes (Elt F) VS13_0.junk (kernelRun13_C c i arg2 harg2 arg3 harg3 arg4 harg4 arg5 harg5 arg6 harg6 arg7 harg7 hc0 hc1 x0 x1 x2 xs0).2.2.1)

/-- What the two result blocks' staging buffers and the accumulator hold after the body at position `n`: the case
    the position selects, run at the point's blocks, cases B and C over the accumulator the point before left. -/
def outsAt13 (c : Dev nD) : (n : ℕ) → n < cfg13.N → Vec F S2048x16 .f32 × Vec F S2048x16 .bf16 × Vec F S2048x16 .f32
  | 0, hn => ((VO13_3.read (Elt F) VO13_3.junk), (VO13_4.read (Elt F) VO13_4.junk), sout13_A_0 c (grid13.coords ⟨0, hn⟩) (ms13_0 ⟨0, hn⟩) (hs13_0 ⟨0, hn⟩) (ms13_1 ⟨0, hn⟩) (hs13_1 ⟨0, hn⟩) (ms13_2 ⟨0, hn⟩) (hs13_2 ⟨0, hn⟩) (ms13_3 ⟨0, hn⟩) (hs13_3 ⟨0, hn⟩) (ms13_4 ⟨0, hn⟩) (hs13_4 ⟨0, hn⟩) scM13_0 (Memref.isWhole_whole _) ((hcond13_0 ⟨0, hn⟩).mpr (Nat.zero_mod _)) (fun h => (fun h => by (try dsimp only at h); omega) ((hcond13_1 ⟨0, hn⟩).mp h)) (iblk13 V c 0 ⟨0, hn⟩) (iblk13 V c 1 ⟨0, hn⟩) (iblk13 V c 2 ⟨0, hn⟩))
  | n + 1, hn =>
    if h0 : (n + 1) % 8 = 0 then
      if h1 : (n + 1) % 8 = 7 then
        False.elim (by omega)
      else
        ((VO13_3.read (Elt F) VO13_3.junk), (VO13_4.read (Elt F) VO13_4.junk), sout13_A_0 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) (ms13_4 ⟨n + 1, hn⟩) (hs13_4 ⟨n + 1, hn⟩) scM13_0 (Memref.isWhole_whole _) ((hcond13_0 ⟨n + 1, hn⟩).mpr h0) (fun h => h1 ((hcond13_1 ⟨n + 1, hn⟩).mp h)) (iblk13 V c 0 ⟨n + 1, hn⟩) (iblk13 V c 1 ⟨n + 1, hn⟩) (iblk13 V c 2 ⟨n + 1, hn⟩))
    else
      if h1 : (n + 1) % 8 = 7 then
        (out13_C_3 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) (ms13_4 ⟨n + 1, hn⟩) (hs13_4 ⟨n + 1, hn⟩) scM13_0 (Memref.isWhole_whole _) (fun h => h0 ((hcond13_0 ⟨n + 1, hn⟩).mp h)) ((hcond13_1 ⟨n + 1, hn⟩).mpr h1) (iblk13 V c 0 ⟨n + 1, hn⟩) (iblk13 V c 1 ⟨n + 1, hn⟩) (iblk13 V c 2 ⟨n + 1, hn⟩) (outsAt13 c n (Nat.lt_of_succ_lt hn)).2.2, out13_C_4 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) (ms13_4 ⟨n + 1, hn⟩) (hs13_4 ⟨n + 1, hn⟩) scM13_0 (Memref.isWhole_whole _) (fun h => h0 ((hcond13_0 ⟨n + 1, hn⟩).mp h)) ((hcond13_1 ⟨n + 1, hn⟩).mpr h1) (iblk13 V c 0 ⟨n + 1, hn⟩) (iblk13 V c 1 ⟨n + 1, hn⟩) (iblk13 V c 2 ⟨n + 1, hn⟩) (outsAt13 c n (Nat.lt_of_succ_lt hn)).2.2, sout13_C_0 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) (ms13_4 ⟨n + 1, hn⟩) (hs13_4 ⟨n + 1, hn⟩) scM13_0 (Memref.isWhole_whole _) (fun h => h0 ((hcond13_0 ⟨n + 1, hn⟩).mp h)) ((hcond13_1 ⟨n + 1, hn⟩).mpr h1) (iblk13 V c 0 ⟨n + 1, hn⟩) (iblk13 V c 1 ⟨n + 1, hn⟩) (iblk13 V c 2 ⟨n + 1, hn⟩) (outsAt13 c n (Nat.lt_of_succ_lt hn)).2.2)
      else
        ((VO13_3.read (Elt F) VO13_3.junk), (VO13_4.read (Elt F) VO13_4.junk), sout13_B_0 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) (ms13_4 ⟨n + 1, hn⟩) (hs13_4 ⟨n + 1, hn⟩) scM13_0 (Memref.isWhole_whole _) (fun h => h0 ((hcond13_0 ⟨n + 1, hn⟩).mp h)) (fun h => h1 ((hcond13_1 ⟨n + 1, hn⟩).mp h)) (iblk13 V c 0 ⟨n + 1, hn⟩) (iblk13 V c 1 ⟨n + 1, hn⟩) (iblk13 V c 2 ⟨n + 1, hn⟩) (outsAt13 c n (Nat.lt_of_succ_lt hn)).2.2)

theorem outsAt13_A (c : Dev nD) (t : Fin cfg13.N) (h0 : t.val % 8 = 0) (h1 : ¬t.val % 8 = 7) :
    outsAt13 V c t.val t.isLt = ((VO13_3.read (Elt F) VO13_3.junk), (VO13_4.read (Elt F) VO13_4.junk), sout13_A_0 c (grid13.coords t) (ms13_0 t) (hs13_0 t) (ms13_1 t) (hs13_1 t) (ms13_2 t) (hs13_2 t) (ms13_3 t) (hs13_3 t) (ms13_4 t) (hs13_4 t) scM13_0 (Memref.isWhole_whole _) ((hcond13_0 t).mpr h0) (fun h => h1 ((hcond13_1 t).mp h)) (iblk13 V c 0 t) (iblk13 V c 1 t) (iblk13 V c 2 t)) := by
  obtain ⟨n, hn⟩ := t
  cases n with
  | zero => exact rfl
  | succ n => exact (dif_pos h0).trans ((dif_neg h1).trans rfl)

theorem outsAt13_B (c : Dev nD) (t : Fin cfg13.N) (h0 : ¬t.val % 8 = 0) (h1 : ¬t.val % 8 = 7) :
    outsAt13 V c t.val t.isLt = ((VO13_3.read (Elt F) VO13_3.junk), (VO13_4.read (Elt F) VO13_4.junk), sout13_B_0 c (grid13.coords t) (ms13_0 t) (hs13_0 t) (ms13_1 t) (hs13_1 t) (ms13_2 t) (hs13_2 t) (ms13_3 t) (hs13_3 t) (ms13_4 t) (hs13_4 t) scM13_0 (Memref.isWhole_whole _) (fun h => h0 ((hcond13_0 t).mp h)) (fun h => h1 ((hcond13_1 t).mp h)) (iblk13 V c 0 t) (iblk13 V c 1 t) (iblk13 V c 2 t) (outsAt13 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt13_C (c : Dev nD) (t : Fin cfg13.N) (h0 : ¬t.val % 8 = 0) (h1 : t.val % 8 = 7) :
    outsAt13 V c t.val t.isLt = (out13_C_3 c (grid13.coords t) (ms13_0 t) (hs13_0 t) (ms13_1 t) (hs13_1 t) (ms13_2 t) (hs13_2 t) (ms13_3 t) (hs13_3 t) (ms13_4 t) (hs13_4 t) scM13_0 (Memref.isWhole_whole _) (fun h => h0 ((hcond13_0 t).mp h)) ((hcond13_1 t).mpr h1) (iblk13 V c 0 t) (iblk13 V c 1 t) (iblk13 V c 2 t) (outsAt13 V c (t.val - 1) (Nat.lt_of_le_of_lt (Nat.sub_le _ _) t.isLt)).2.2, out13_C_4 c (grid13.coords t) (ms13_0 t) (hs13_0 t) (ms13_1 t) (hs13_1 t) (ms13_2 t) (hs13_2 t) (ms13_3 t) (hs13_3 t) (ms13_4 t) (hs13_4 t) scM13_0 (Memref.isWhole_whole _) (fun h => h0 ((hcond13_0 t).mp h)) ((hcond13_1 t).mpr h1) (iblk13 V c 0 t) (iblk13 V c 1 t) (iblk13 V c 2 t) (outsAt13 V c (t.val - 1) (Nat.lt_of_le_of_lt (Nat.sub_le _ _) t.isLt)).2.2, sout13_C_0 c (grid13.coords t) (ms13_0 t) (hs13_0 t) (ms13_1 t) (hs13_1 t) (ms13_2 t) (hs13_2 t) (ms13_3 t) (hs13_3 t) (ms13_4 t) (hs13_4 t) scM13_0 (Memref.isWhole_whole _) (fun h => h0 ((hcond13_0 t).mp h)) ((hcond13_1 t).mpr h1) (iblk13 V c 0 t) (iblk13 V c 1 t) (iblk13 V c 2 t) (outsAt13 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The scoped buffers of the program other than this region's staging buffers and its accumulator. -/
abbrev RB13 (c : Dev nD) : sProp 𝕄 :=
  Pipeline.scopedRestBut (Ix := Unit) (Name := ℕ) (U := UR sig nD τ) (Lvl := ℕ) (Val := Elt F) spec13 c [cc13_scratch0]

/-- The region invariant before position `n`: at the first point every scoped buffer outside the staging buffers at
    anything; afterwards the accumulator at what the point before left in it. -/
def PhiS13 (c : Dev nD) : (n : ℕ) → n ≤ cfg13.N → sProp 𝕄
  | 0, _ => Pipeline.ΦA spec13 c
  | n + 1, hn => iprop((iprop(owns (c : Thread nD τ) scM13_0 fullShare ((outsAt13 V c n hn).2.2)) ∗ RB13 c) ∗ (∃ r, prngReg c r))

theorem PhiS13_zero (c : Dev nD) (n : ℕ) (h : n ≤ cfg13.N) (hz : n = 0) : PhiS13 V c n h = Pipeline.ΦA spec13 c := by
  subst hz; rfl
theorem PhiS13_succ (c : Dev nD) (n : ℕ) (hn : n < cfg13.N) :
    PhiS13 V c (n + 1) hn = iprop((iprop(owns (c : Thread nD τ) scM13_0 fullShare ((outsAt13 V c n hn).2.2)) ∗ RB13 c) ∗ (∃ r, prngReg c r)) := rfl
theorem PhiS13_pos (c : Dev nD) (n : ℕ) (h : n ≤ cfg13.N) (hz : n ≠ 0) :
    PhiS13 V c n h = iprop((iprop(owns (c : Thread nD τ) scM13_0 fullShare ((outsAt13 V c (n - 1) (by omega)).2.2)) ∗ RB13 c) ∗ (∃ r, prngReg c r)) := by
  cases n with
  | zero => exact absurd rfl hz
  | succ n => rfl

/-- The first point's invariant with the accumulator split out, owned at some contents. -/
theorem PhiA13_eq (c : Dev nD) :
    (Pipeline.ΦA spec13 c : sProp 𝕄)
      = iprop((iprop((∃ d, owns (c : Thread nD τ) scM13_0 fullShare d)) ∗ RB13 c) ∗ (∃ r, prngReg c r)) := by
  unfold Pipeline.ΦA; rw [scopedRest13_split]; simp only [scM13_0, owns_whole]; try rfl

/-- The proof data of region 13's pipeline on core `c`: the arrays as the region finds them; after the body at
    point `t` each input's buffer at its block and the results' at `outsAt13`; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => (outsAt13 V c t.val t.isLt).1
    | ⟨4, _⟩ => (outsAt13 V c t.val t.isLt).2.1
  Φ t := PhiS13 V c t.val (Nat.le_of_lt_succ t.isLt)
  q _ := fullShare
  owed _ := 0

theorem A_eq13 (c : Dev nD) (w : Fin cfg13.W) : (dat13 V c).A w = V c (Pipeline.arrRef spec13 w) := by
  dsimp only [dat13]
theorem PhiS13_castSucc (c : Dev nD) (t : Fin cfg13.N) :
    (dat13 V c).Φ t.castSucc = PhiS13 V c t.val (Nat.le_of_lt t.isLt) := by
  dsimp only [dat13]; simp only [Fin.coe_castSucc]
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = (outsAt13 V c t.val t.isLt).1 := by dsimp only [dat13]
theorem after13_4 (c : Dev nD) (t : Fin cfg13.N) : (dat13 V c).after 4 t = (outsAt13 V c t.val t.isLt).2.1 := by dsimp only [dat13]
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d

/-- What the body is called with at point `t`, -/
def bodyPre13 (c : Dev nD) (t : Fin cfg13.N) : sProp 𝕄 :=
  iprop((dat13 V c).Φ t.castSucc ∗ (dat13 V c).owesAt () t.castSucc
    ∗ (∃ d, owns (c : Thread nD τ) (ms13_0 t) fullShare ((dat13 V c).before 0 t d))
    ∗ (∃ d, owns (c : Thread nD τ) (ms13_1 t) fullShare ((dat13 V c).before 1 t d))
    ∗ (∃ d, owns (c : Thread nD τ) (ms13_2 t) fullShare ((dat13 V c).before 2 t d))
    ∗ (∃ d, owns (c : Thread nD τ) (ms13_3 t) fullShare ((dat13 V c).before 3 t d))
    ∗ (∃ d, owns (c : Thread nD τ) (ms13_4 t) fullShare ((dat13 V c).before 4 t d)))
/-- and what it returns. -/
def bodyPost13 (c : Dev nD) (t : Fin cfg13.N) : sProp 𝕄 :=
  iprop((dat13 V c).Φ t.succ ∗ (dat13 V c).owesAt () t.succ
    ∗ (dat13 V c).leavesExact 0 t
    ∗ (dat13 V c).leavesExact 1 t
    ∗ (dat13 V c).leavesExact 2 t
    ∗ (dat13 V c).leavesExact 3 t
    ∗ (dat13 V c).leavesExact 4 t)

set_option maxHeartbeats 8000000 in
/-- The body at any point: the inputs' buffers hold their blocks; the position says which case the point is in; the
    invariant hands the body the accumulator at what the point before left (at anything at the first point) and takes
    it back at this point's contents; the core owes nothing throughout. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2]
  rw [show (dat13 V c).owesAt () t.succ = (dat13 V c).owesAt () t.castSucc from rfl]
  rw [show (dat13 V c).Φ t.succ = PhiS13 V c (t.val + 1) t.isLt from rfl, PhiS13_succ]
  have hN : t.val < 64 := lt_of_lt_of_eq t.isLt (show cfg13.N = 64 from N_13)
  rw [show (dat13 V c).leavesExact 0 t = owns (c : Thread nD τ) (ms13_0 t) fullShare ((dat13 V c).after 0 t) from by
      unfold Dat.leavesExact; rw [liveAt13_0 t], after13_0]
  rw [show (dat13 V c).leavesExact 1 t = owns (c : Thread nD τ) (ms13_1 t) fullShare ((dat13 V c).after 1 t) from by
      unfold Dat.leavesExact; rw [liveAt13_1 t], after13_1]
  rw [show (dat13 V c).leavesExact 2 t = owns (c : Thread nD τ) (ms13_2 t) fullShare ((dat13 V c).after 2 t) from by
      unfold Dat.leavesExact; rw [liveAt13_2 t], after13_2]
  by_cases h0 : t.val % 8 = 0
  · have h1 : ¬t.val % 8 = 7 := by omega
    rw [Dat.leavesExact_idle (dat13 V c) 3 t (idleAt13_3 t (fun h => h1 ((hcond13_1 t).mp h))) (noFlush13_3 t (fun h => h1 ((hcond13_1 t).mp h)))]
    rw [Dat.leavesExact_idle (dat13 V c) 4 t (idleAt13_4 t (fun h => h1 ((hcond13_1 t).mp h))) (noFlush13_4 t (fun h => h1 ((hcond13_1 t).mp h)))]
    rw [outsAt13_A V c t h0 h1]
    unfold sout13_A_0; (try dsimp only)
    by_cases hz : t.val = 0
    · rw [PhiS13_castSucc V c t, PhiS13_zero V c _ _ hz, PhiA13_eq]
      iintro ⟨⟨⟨HS0, HR⟩, Hg⟩, Ho, ⟨%d0, H0⟩, ⟨%d1, H1⟩, ⟨%d2, H2⟩, ⟨%d3, H3⟩, ⟨%d4, H4⟩⟩
      iapply ((kernelRun13_A c (grid13.coords t) _ _ _ _ _ _ _ _ _ _ _ _ ((hcond13_0 t).mpr h0) (fun h => h1 ((hcond13_1 t).mp h)) (iblk13 V c 0 t) (iblk13 V c 1 t) (iblk13 V c 2 t)).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover13_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
    · rw [PhiS13_castSucc V c t, PhiS13_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun13_A c (grid13.coords t) _ _ _ _ _ _ _ _ _ _ _ _ ((hcond13_0 t).mpr h0) (fun h => h1 ((hcond13_1 t).mp h)) (iblk13 V c 0 t) (iblk13 V c 1 t) (iblk13 V c 2 t)).2.2.2 _ _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover13_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun h => h0 (by rw [h])
    by_cases h1 : t.val % 8 = 7
    · rw [show (dat13 V c).leavesExact 3 t = owns (c : Thread nD τ) (ms13_3 t) fullShare ((dat13 V c).after 3 t) from by
        unfold Dat.leavesExact; rw [liveAt13_3 t ((hcond13_1 t).mpr h1)], after13_3]
      rw [show (dat13 V c).leavesExact 4 t = owns (c : Thread nD τ) (ms13_4 t) fullShare ((dat13 V c).after 4 t) from by
        unfold Dat.leavesExact; rw [liveAt13_4 t ((hcond13_1 t).mpr h1)], after13_4]
      rw [outsAt13_C V c t h0 h1]
      unfold out13_C_3 out13_C_4 sout13_C_0; (try dsimp only)
      rw [PhiS13_castSucc V c t, PhiS13_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun13_C c (grid13.coords t) _ _ _ _ _ _ _ _ _ _ _ _ (fun h => h0 ((hcond13_0 t).mp h)) ((hcond13_1 t).mpr h1) (iblk13 V c 0 t) (iblk13 V c 1 t) (iblk13 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover13_C_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover13_C_3 c _ _ _ _ _ _ _ _ _ _ _ _ _ _ _ _ _ _ _)
      unfold owns; iexists _; isplitr
      swap; · iexact H4
      ipureintro; exact View.read_writes_of_cover _ _ _ _ _ (cover13_C_4 c _ _ _ _ _ _ _ _ _ _ _ _ _ _ _ _ _ _ _)
    · rw [Dat.leavesExact_idle (dat13 V c) 3 t (idleAt13_3 t (fun h => h1 ((hcond13_1 t).mp h))) (noFlush13_3 t (fun h => h1 ((hcond13_1 t).mp h)))]
      rw [Dat.leavesExact_idle (dat13 V c) 4 t (idleAt13_4 t (fun h => h1 ((hcond13_1 t).mp h))) (noFlush13_4 t (fun h => h1 ((hcond13_1 t).mp h)))]
      rw [outsAt13_B V c t h0 h1]
      unfold sout13_B_0; (try dsimp only)
      rw [PhiS13_castSucc V c t, PhiS13_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun13_B c (grid13.coords t) _ _ _ _ _ _ _ _ _ _ _ _ (fun h => h0 ((hcond13_0 t).mp h)) (fun h => h1 ((hcond13_1 t).mp h)) (iblk13 V c 0 t) (iblk13 V c 1 t) (iblk13 V c 2 t) _).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover13_B_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4

/-- The body obligation of region 13, at every point. -/
theorem body_obligation13 (c : Dev nD) : BodyObligation (dat13 (F := F) V c) (defs₀ (F := F)) Variants.none () Set.univ := fun t => by
  rw [bigSep_W13, bigSep_W13]
  exact sound_body13 V c t

/-- What the region is entered with is the invariant before the first point. -/
theorem hin13 (c : Dev nD) : Pipeline.ΦA spec13 c ⊢ (dat13 V c).Φ 0 := by
  rw [show (dat13 V c).Φ 0 = PhiS13 V c 0 (Nat.zero_le _) from rfl, PhiS13_zero V c 0 _ rfl]
  try exact Idealize.SL.BI.Entails.refl _

/-- After the last point the invariant gives the scoped buffers back: what the accumulator holds is forgotten. -/
theorem hout13 (c : Dev nD) : (dat13 V c).Φ (Fin.last cfg13.N) ⊢ Pipeline.ΦA spec13 c := by
  have ht : (Fin.last cfg13.N).val ≠ 0 := by rw [Fin.val_last]; have : cfg13.N = 64 := N_13; omega
  rw [show (dat13 V c).Φ (Fin.last cfg13.N) = PhiS13 V c (Fin.last cfg13.N).val (Nat.le_of_lt_succ (Fin.last cfg13.N).isLt) from rfl,
    PhiS13_pos V c _ _ ht, PhiA13_eq]
  iintro ⟨⟨HS0, HR⟩, Hg⟩
  isplitl [HS0 HR]
  · isplitl [HS0]
    · iexists _; iexact HS0
    iexact HR
  iexact Hg

end Cert.KernelIdeal.Hand

end
-- ==== Proof.SegsI.lean ====
/-
  The three claims about the program's run that do not compare values: every weakly fair execution of the program
  terminates without a fault and leaves the four argument arrays as launched. The program is fifteen stretches of
  host operations with fourteen kernel regions between them. Between two items core `c` holds every unscoped
  buffer whole: at launch the launch contents, after a host stretch what its operations compute, after region K the
  same contents with the region's two result arrays at what its pipeline wrote back (its inputs unchanged). Each
  region is entered from that state and left at the next: its arrays are split out of the unscoped buffers and put
  back, the accumulator goes through the invariant, nothing is owed. No item writes an argument array.
-/
import proofs.«108570_j29480655520371_2_alg».proof.Proof.RegI0Frame
import proofs.«108570_j29480655520371_2_alg».proof.Proof.RegI1Frame
import proofs.«108570_j29480655520371_2_alg».proof.Proof.RegI2Frame
import proofs.«108570_j29480655520371_2_alg».proof.Proof.RegI3Frame
import proofs.«108570_j29480655520371_2_alg».proof.Proof.RegI4Frame
import proofs.«108570_j29480655520371_2_alg».proof.Proof.RegI5Frame
import proofs.«108570_j29480655520371_2_alg».proof.Proof.RegI6Frame
import proofs.«108570_j29480655520371_2_alg».proof.Proof.RegI7Frame
import proofs.«108570_j29480655520371_2_alg».proof.Proof.RegI8Frame
import proofs.«108570_j29480655520371_2_alg».proof.Proof.RegI9Frame
import proofs.«108570_j29480655520371_2_alg».proof.Proof.RegI10Frame
import proofs.«108570_j29480655520371_2_alg».proof.Proof.RegI11Frame
import proofs.«108570_j29480655520371_2_alg».proof.Proof.RegI12Frame
import proofs.«108570_j29480655520371_2_alg».proof.Proof.RegI13Frame
import proofs.«108570_j29480655520371_2_alg».proof.Proof.Gen.KernelIdeal.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Writing, at two distinct points, the values a doubly updated function already has there gives it back. -/
theorem upd2_fix {ι : Type} [DecidableEq ι] {β : ι → Type} (f : ∀ i, β i) (a b : ι) (hab : a ≠ b) (A : β a) (B : β b) :
    Function.update (Function.update f a ((Function.update (Function.update f a A) b B) a)) b ((Function.update (Function.update f a A) b B) b)
      = Function.update (Function.update f a A) b B := by
  rw [Function.update_self, Function.update_of_ne hab, Function.update_self]

/-! ## The buffers' contents between items -/

/-- Core `c`'s unscoped buffers when region 0 is entered: the launch contents after the first host stretch. -/
def We0 (c : Dev nD) : Valuation τ sig (Elt F) := Gen.V1 m c
/-- When region 0 is left: its two result arrays at what its pipeline wrote back, everything else as entered. -/
def Wl0 (c : Dev nD) : Valuation τ sig (Elt F) :=
  Function.update (Function.update (We0 m c) main_v11_0 ((dat0 (fun c b => We0 m c b) c).arrAt 3 cfg0.N)) main_v11_1 ((dat0 (fun c b => We0 m c b) c).arrAt 4 cfg0.N)
/-- After the host stretch that follows region 0 (when region 1 is entered). -/
def We1 (c : Dev nD) : Valuation τ sig (Elt F) := StableHlo.after hostOps1 (Wl0 m c)
/-- When region 1 is left: its two result arrays at what its pipeline wrote back, everything else as entered. -/
def Wl1 (c : Dev nD) : Valuation τ sig (Elt F) :=
  Function.update (Function.update (We1 m c) main_v19_0 ((dat1 (fun c b => We1 m c b) c).arrAt 3 cfg1.N)) main_v19_1 ((dat1 (fun c b => We1 m c b) c).arrAt 4 cfg1.N)
/-- After the host stretch that follows region 1 (when region 2 is entered). -/
def We2 (c : Dev nD) : Valuation τ sig (Elt F) := StableHlo.after hostOps2 (Wl1 m c)
/-- When region 2 is left: its two result arrays at what its pipeline wrote back, everything else as entered. -/
def Wl2 (c : Dev nD) : Valuation τ sig (Elt F) :=
  Function.update (Function.update (We2 m c) main_v27_0 ((dat2 (fun c b => We2 m c b) c).arrAt 3 cfg2.N)) main_v27_1 ((dat2 (fun c b => We2 m c b) c).arrAt 4 cfg2.N)
/-- After the host stretch that follows region 2 (when region 3 is entered). -/
def We3 (c : Dev nD) : Valuation τ sig (Elt F) := StableHlo.after hostOps3 (Wl2 m c)
/-- When region 3 is left: its two result arrays at what its pipeline wrote back, everything else as entered. -/
def Wl3 (c : Dev nD) : Valuation τ sig (Elt F) :=
  Function.update (Function.update (We3 m c) main_v35_0 ((dat3 (fun c b => We3 m c b) c).arrAt 3 cfg3.N)) main_v35_1 ((dat3 (fun c b => We3 m c b) c).arrAt 4 cfg3.N)
/-- After the host stretch that follows region 3 (when region 4 is entered). -/
def We4 (c : Dev nD) : Valuation τ sig (Elt F) := StableHlo.after hostOps4 (Wl3 m c)
/-- When region 4 is left: its two result arrays at what its pipeline wrote back, everything else as entered. -/
def Wl4 (c : Dev nD) : Valuation τ sig (Elt F) :=
  Function.update (Function.update (We4 m c) main_v43_0 ((dat4 (fun c b => We4 m c b) c).arrAt 3 cfg4.N)) main_v43_1 ((dat4 (fun c b => We4 m c b) c).arrAt 4 cfg4.N)
/-- After the host stretch that follows region 4 (when region 5 is entered). -/
def We5 (c : Dev nD) : Valuation τ sig (Elt F) := StableHlo.after hostOps5 (Wl4 m c)
/-- When region 5 is left: its two result arrays at what its pipeline wrote back, everything else as entered. -/
def Wl5 (c : Dev nD) : Valuation τ sig (Elt F) :=
  Function.update (Function.update (We5 m c) main_v51_0 ((dat5 (fun c b => We5 m c b) c).arrAt 3 cfg5.N)) main_v51_1 ((dat5 (fun c b => We5 m c b) c).arrAt 4 cfg5.N)
/-- After the host stretch that follows region 5 (when region 6 is entered). -/
def We6 (c : Dev nD) : Valuation τ sig (Elt F) := StableHlo.after hostOps6 (Wl5 m c)
/-- When region 6 is left: its two result arrays at what its pipeline wrote back, everything else as entered. -/
def Wl6 (c : Dev nD) : Valuation τ sig (Elt F) :=
  Function.update (Function.update (We6 m c) main_v59_0 ((dat6 (fun c b => We6 m c b) c).arrAt 3 cfg6.N)) main_v59_1 ((dat6 (fun c b => We6 m c b) c).arrAt 4 cfg6.N)
/-- After the host stretch that follows region 6 (when region 7 is entered). -/
def We7 (c : Dev nD) : Valuation τ sig (Elt F) := StableHlo.after hostOps7 (Wl6 m c)
/-- When region 7 is left: its two result arrays at what its pipeline wrote back, everything else as entered. -/
def Wl7 (c : Dev nD) : Valuation τ sig (Elt F) :=
  Function.update (Function.update (We7 m c) main_v67_0 ((dat7 (fun c b => We7 m c b) c).arrAt 3 cfg7.N)) main_v67_1 ((dat7 (fun c b => We7 m c b) c).arrAt 4 cfg7.N)
/-- After the host stretch that follows region 7 (when region 8 is entered). -/
def We8 (c : Dev nD) : Valuation τ sig (Elt F) := StableHlo.after hostOps8 (Wl7 m c)
/-- When region 8 is left: its two result arrays at what its pipeline wrote back, everything else as entered. -/
def Wl8 (c : Dev nD) : Valuation τ sig (Elt F) :=
  Function.update (Function.update (We8 m c) main_v75_0 ((dat8 (fun c b => We8 m c b) c).arrAt 3 cfg8.N)) main_v75_1 ((dat8 (fun c b => We8 m c b) c).arrAt 4 cfg8.N)
/-- After the host stretch that follows region 8 (when region 9 is entered). -/
def We9 (c : Dev nD) : Valuation τ sig (Elt F) := StableHlo.after hostOps9 (Wl8 m c)
/-- When region 9 is left: its two result arrays at what its pipeline wrote back, everything else as entered. -/
def Wl9 (c : Dev nD) : Valuation τ sig (Elt F) :=
  Function.update (Function.update (We9 m c) main_v83_0 ((dat9 (fun c b => We9 m c b) c).arrAt 3 cfg9.N)) main_v83_1 ((dat9 (fun c b => We9 m c b) c).arrAt 4 cfg9.N)
/-- After the host stretch that follows region 9 (when region 10 is entered). -/
def We10 (c : Dev nD) : Valuation τ sig (Elt F) := StableHlo.after hostOps10 (Wl9 m c)
/-- When region 10 is left: its two result arrays at what its pipeline wrote back, everything else as entered. -/
def Wl10 (c : Dev nD) : Valuation τ sig (Elt F) :=
  Function.update (Function.update (We10 m c) main_v91_0 ((dat10 (fun c b => We10 m c b) c).arrAt 3 cfg10.N)) main_v91_1 ((dat10 (fun c b => We10 m c b) c).arrAt 4 cfg10.N)
/-- After the host stretch that follows region 10 (when region 11 is entered). -/
def We11 (c : Dev nD) : Valuation τ sig (Elt F) := StableHlo.after hostOps11 (Wl10 m c)
/-- When region 11 is left: its two result arrays at what its pipeline wrote back, everything else as entered. -/
def Wl11 (c : Dev nD) : Valuation τ sig (Elt F) :=
  Function.update (Function.update (We11 m c) main_v99_0 ((dat11 (fun c b => We11 m c b) c).arrAt 3 cfg11.N)) main_v99_1 ((dat11 (fun c b => We11 m c b) c).arrAt 4 cfg11.N)
/-- After the host stretch that follows region 11 (when region 12 is entered). -/
def We12 (c : Dev nD) : Valuation τ sig (Elt F) := StableHlo.after hostOps12 (Wl11 m c)
/-- When region 12 is left: its two result arrays at what its pipeline wrote back, everything else as entered. -/
def Wl12 (c : Dev nD) : Valuation τ sig (Elt F) :=
  Function.update (Function.update (We12 m c) main_v107_0 ((dat12 (fun c b => We12 m c b) c).arrAt 3 cfg12.N)) main_v107_1 ((dat12 (fun c b => We12 m c b) c).arrAt 4 cfg12.N)
/-- After the host stretch that follows region 12 (when region 13 is entered). -/
def We13 (c : Dev nD) : Valuation τ sig (Elt F) := StableHlo.after hostOps13 (Wl12 m c)
/-- When region 13 is left: its two result arrays at what its pipeline wrote back, everything else as entered. -/
def Wl13 (c : Dev nD) : Valuation τ sig (Elt F) :=
  Function.update (Function.update (We13 m c) main_v115_0 ((dat13 (fun c b => We13 m c b) c).arrAt 3 cfg13.N)) main_v115_1 ((dat13 (fun c b => We13 m c b) c).arrAt 4 cfg13.N)
/-- After the host stretch that follows region 13 (at the end). -/
def We14 (c : Dev nD) : Valuation τ sig (Elt F) := StableHlo.after hostOps14 (Wl13 m c)

/-- What the regions leave in the buffers they may change, read off the contents above. -/
def outs : Gen.Outs (F := F) := fun J r c => match J with
  | 2 => Wl0 m c r
  | 4 => Wl1 m c r
  | 6 => Wl2 m c r
  | 8 => Wl3 m c r
  | 10 => Wl4 m c r
  | 12 => Wl5 m c r
  | 14 => Wl6 m c r
  | 16 => Wl7 m c r
  | 18 => Wl8 m c r
  | 20 => Wl9 m c r
  | 22 => Wl10 m c r
  | 24 => Wl11 m c r
  | 26 => Wl12 m c r
  | 28 => Wl13 m c r
  | _ => m ((c : Thread nD τ).loc r)

theorem V1_eq (c : Dev nD) : Gen.V1 m c = We0 m c := rfl
theorem V2_eq (c : Dev nD) : Gen.V2 m (outs m) c = Wl0 m c := by
  show Function.update (Function.update (Gen.V1 m c) main_v11_0 (Wl0 m c main_v11_0)) main_v11_1 (Wl0 m c main_v11_1) = Wl0 m c
  rw [V1_eq]
  exact upd2_fix (We0 m c) _ _ (StableHlo.devRef_ne_of_ne (by decide)) _ _
theorem V3_eq (c : Dev nD) : Gen.V3 m (outs m) c = We1 m c := by
  show StableHlo.after hostOps1 (Gen.V2 m (outs m) c) = StableHlo.after hostOps1 (Wl0 m c)
  rw [V2_eq]
theorem V4_eq (c : Dev nD) : Gen.V4 m (outs m) c = Wl1 m c := by
  show Function.update (Function.update (Gen.V3 m (outs m) c) main_v19_0 (Wl1 m c main_v19_0)) main_v19_1 (Wl1 m c main_v19_1) = Wl1 m c
  rw [V3_eq]
  exact upd2_fix (We1 m c) _ _ (StableHlo.devRef_ne_of_ne (by decide)) _ _
theorem V5_eq (c : Dev nD) : Gen.V5 m (outs m) c = We2 m c := by
  show StableHlo.after hostOps2 (Gen.V4 m (outs m) c) = StableHlo.after hostOps2 (Wl1 m c)
  rw [V4_eq]
theorem V6_eq (c : Dev nD) : Gen.V6 m (outs m) c = Wl2 m c := by
  show Function.update (Function.update (Gen.V5 m (outs m) c) main_v27_0 (Wl2 m c main_v27_0)) main_v27_1 (Wl2 m c main_v27_1) = Wl2 m c
  rw [V5_eq]
  exact upd2_fix (We2 m c) _ _ (StableHlo.devRef_ne_of_ne (by decide)) _ _
theorem V7_eq (c : Dev nD) : Gen.V7 m (outs m) c = We3 m c := by
  show StableHlo.after hostOps3 (Gen.V6 m (outs m) c) = StableHlo.after hostOps3 (Wl2 m c)
  rw [V6_eq]
theorem V8_eq (c : Dev nD) : Gen.V8 m (outs m) c = Wl3 m c := by
  show Function.update (Function.update (Gen.V7 m (outs m) c) main_v35_0 (Wl3 m c main_v35_0)) main_v35_1 (Wl3 m c main_v35_1) = Wl3 m c
  rw [V7_eq]
  exact upd2_fix (We3 m c) _ _ (StableHlo.devRef_ne_of_ne (by decide)) _ _
theorem V9_eq (c : Dev nD) : Gen.V9 m (outs m) c = We4 m c := by
  show StableHlo.after hostOps4 (Gen.V8 m (outs m) c) = StableHlo.after hostOps4 (Wl3 m c)
  rw [V8_eq]
theorem V10_eq (c : Dev nD) : Gen.V10 m (outs m) c = Wl4 m c := by
  show Function.update (Function.update (Gen.V9 m (outs m) c) main_v43_0 (Wl4 m c main_v43_0)) main_v43_1 (Wl4 m c main_v43_1) = Wl4 m c
  rw [V9_eq]
  exact upd2_fix (We4 m c) _ _ (StableHlo.devRef_ne_of_ne (by decide)) _ _
theorem V11_eq (c : Dev nD) : Gen.V11 m (outs m) c = We5 m c := by
  show StableHlo.after hostOps5 (Gen.V10 m (outs m) c) = StableHlo.after hostOps5 (Wl4 m c)
  rw [V10_eq]
theorem V12_eq (c : Dev nD) : Gen.V12 m (outs m) c = Wl5 m c := by
  show Function.update (Function.update (Gen.V11 m (outs m) c) main_v51_0 (Wl5 m c main_v51_0)) main_v51_1 (Wl5 m c main_v51_1) = Wl5 m c
  rw [V11_eq]
  exact upd2_fix (We5 m c) _ _ (StableHlo.devRef_ne_of_ne (by decide)) _ _
theorem V13_eq (c : Dev nD) : Gen.V13 m (outs m) c = We6 m c := by
  show StableHlo.after hostOps6 (Gen.V12 m (outs m) c) = StableHlo.after hostOps6 (Wl5 m c)
  rw [V12_eq]
theorem V14_eq (c : Dev nD) : Gen.V14 m (outs m) c = Wl6 m c := by
  show Function.update (Function.update (Gen.V13 m (outs m) c) main_v59_0 (Wl6 m c main_v59_0)) main_v59_1 (Wl6 m c main_v59_1) = Wl6 m c
  rw [V13_eq]
  exact upd2_fix (We6 m c) _ _ (StableHlo.devRef_ne_of_ne (by decide)) _ _
theorem V15_eq (c : Dev nD) : Gen.V15 m (outs m) c = We7 m c := by
  show StableHlo.after hostOps7 (Gen.V14 m (outs m) c) = StableHlo.after hostOps7 (Wl6 m c)
  rw [V14_eq]
theorem V16_eq (c : Dev nD) : Gen.V16 m (outs m) c = Wl7 m c := by
  show Function.update (Function.update (Gen.V15 m (outs m) c) main_v67_0 (Wl7 m c main_v67_0)) main_v67_1 (Wl7 m c main_v67_1) = Wl7 m c
  rw [V15_eq]
  exact upd2_fix (We7 m c) _ _ (StableHlo.devRef_ne_of_ne (by decide)) _ _
theorem V17_eq (c : Dev nD) : Gen.V17 m (outs m) c = We8 m c := by
  show StableHlo.after hostOps8 (Gen.V16 m (outs m) c) = StableHlo.after hostOps8 (Wl7 m c)
  rw [V16_eq]
theorem V18_eq (c : Dev nD) : Gen.V18 m (outs m) c = Wl8 m c := by
  show Function.update (Function.update (Gen.V17 m (outs m) c) main_v75_0 (Wl8 m c main_v75_0)) main_v75_1 (Wl8 m c main_v75_1) = Wl8 m c
  rw [V17_eq]
  exact upd2_fix (We8 m c) _ _ (StableHlo.devRef_ne_of_ne (by decide)) _ _
theorem V19_eq (c : Dev nD) : Gen.V19 m (outs m) c = We9 m c := by
  show StableHlo.after hostOps9 (Gen.V18 m (outs m) c) = StableHlo.after hostOps9 (Wl8 m c)
  rw [V18_eq]
theorem V20_eq (c : Dev nD) : Gen.V20 m (outs m) c = Wl9 m c := by
  show Function.update (Function.update (Gen.V19 m (outs m) c) main_v83_0 (Wl9 m c main_v83_0)) main_v83_1 (Wl9 m c main_v83_1) = Wl9 m c
  rw [V19_eq]
  exact upd2_fix (We9 m c) _ _ (StableHlo.devRef_ne_of_ne (by decide)) _ _
theorem V21_eq (c : Dev nD) : Gen.V21 m (outs m) c = We10 m c := by
  show StableHlo.after hostOps10 (Gen.V20 m (outs m) c) = StableHlo.after hostOps10 (Wl9 m c)
  rw [V20_eq]
theorem V22_eq (c : Dev nD) : Gen.V22 m (outs m) c = Wl10 m c := by
  show Function.update (Function.update (Gen.V21 m (outs m) c) main_v91_0 (Wl10 m c main_v91_0)) main_v91_1 (Wl10 m c main_v91_1) = Wl10 m c
  rw [V21_eq]
  exact upd2_fix (We10 m c) _ _ (StableHlo.devRef_ne_of_ne (by decide)) _ _
theorem V23_eq (c : Dev nD) : Gen.V23 m (outs m) c = We11 m c := by
  show StableHlo.after hostOps11 (Gen.V22 m (outs m) c) = StableHlo.after hostOps11 (Wl10 m c)
  rw [V22_eq]
theorem V24_eq (c : Dev nD) : Gen.V24 m (outs m) c = Wl11 m c := by
  show Function.update (Function.update (Gen.V23 m (outs m) c) main_v99_0 (Wl11 m c main_v99_0)) main_v99_1 (Wl11 m c main_v99_1) = Wl11 m c
  rw [V23_eq]
  exact upd2_fix (We11 m c) _ _ (StableHlo.devRef_ne_of_ne (by decide)) _ _
theorem V25_eq (c : Dev nD) : Gen.V25 m (outs m) c = We12 m c := by
  show StableHlo.after hostOps12 (Gen.V24 m (outs m) c) = StableHlo.after hostOps12 (Wl11 m c)
  rw [V24_eq]
theorem V26_eq (c : Dev nD) : Gen.V26 m (outs m) c = Wl12 m c := by
  show Function.update (Function.update (Gen.V25 m (outs m) c) main_v107_0 (Wl12 m c main_v107_0)) main_v107_1 (Wl12 m c main_v107_1) = Wl12 m c
  rw [V25_eq]
  exact upd2_fix (We12 m c) _ _ (StableHlo.devRef_ne_of_ne (by decide)) _ _
theorem V27_eq (c : Dev nD) : Gen.V27 m (outs m) c = We13 m c := by
  show StableHlo.after hostOps13 (Gen.V26 m (outs m) c) = StableHlo.after hostOps13 (Wl12 m c)
  rw [V26_eq]
theorem V28_eq (c : Dev nD) : Gen.V28 m (outs m) c = Wl13 m c := by
  show Function.update (Function.update (Gen.V27 m (outs m) c) main_v115_0 (Wl13 m c main_v115_0)) main_v115_1 (Wl13 m c main_v115_1) = Wl13 m c
  rw [V27_eq]
  exact upd2_fix (We13 m c) _ _ (StableHlo.devRef_ne_of_ne (by decide)) _ _
theorem V29_eq (c : Dev nD) : Gen.V29 m (outs m) c = We14 m c := by
  show StableHlo.after hostOps14 (Gen.V28 m (outs m) c) = StableHlo.after hostOps14 (Wl13 m c)
  rw [V28_eq]

/-! ## The proof data family and the thread state -/

/-- Every pipeline's proof data, each at its region's entry contents. -/
def pdats : (p : Fin 14) → (c : Dev nD) → Dat τ (Elt F) Unit ℕ (UR sig nD τ) ℕ (cfgs p) c
  | ⟨0, _⟩ => fun c => dat0 (fun c b => We0 m c b) c
  | ⟨1, _⟩ => fun c => dat1 (fun c b => We1 m c b) c
  | ⟨2, _⟩ => fun c => dat2 (fun c b => We2 m c b) c
  | ⟨3, _⟩ => fun c => dat3 (fun c b => We3 m c b) c
  | ⟨4, _⟩ => fun c => dat4 (fun c b => We4 m c b) c
  | ⟨5, _⟩ => fun c => dat5 (fun c b => We5 m c b) c
  | ⟨6, _⟩ => fun c => dat6 (fun c b => We6 m c b) c
  | ⟨7, _⟩ => fun c => dat7 (fun c b => We7 m c b) c
  | ⟨8, _⟩ => fun c => dat8 (fun c b => We8 m c b) c
  | ⟨9, _⟩ => fun c => dat9 (fun c b => We9 m c b) c
  | ⟨10, _⟩ => fun c => dat10 (fun c b => We10 m c b) c
  | ⟨11, _⟩ => fun c => dat11 (fun c b => We11 m c b) c
  | ⟨12, _⟩ => fun c => dat12 (fun c b => We12 m c b) c
  | ⟨13, _⟩ => fun c => dat13 (fun c b => We13 m c b) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)

/-! ## The regions as segments -/

theorem hF0 (c : Dev nD) : ∀ w : Fin cfg0.W, (dat0 (fun c b => We0 m c b) c).arrAt w cfg0.N = Wl0 m c (Pipeline.arrRef spec0 w)
  | 0 => (((dat0 (fun c b => We0 m c b) c).arrAt_in 0 rfl _).trans (A_eq0 (fun c b => We0 m c b) c 0)).trans (by unfold Wl0; rw [Function.update_of_ne (StableHlo.devRef_ne_of_ne (by decide)), Function.update_of_ne (StableHlo.devRef_ne_of_ne (by decide))])
  | 1 => (((dat0 (fun c b => We0 m c b) c).arrAt_in 1 rfl _).trans (A_eq0 (fun c b => We0 m c b) c 1)).trans (by unfold Wl0; rw [Function.update_of_ne (StableHlo.devRef_ne_of_ne (by decide)), Function.update_of_ne (StableHlo.devRef_ne_of_ne (by decide))])
  | 2 => (((dat0 (fun c b => We0 m c b) c).arrAt_in 2 rfl _).trans (A_eq0 (fun c b => We0 m c b) c 2)).trans (by unfold Wl0; rw [Function.update_of_ne (StableHlo.devRef_ne_of_ne (by decide)), Function.update_of_ne (StableHlo.devRef_ne_of_ne (by decide))])
  | 3 => by
    show _ = Function.update (Function.update (We0 m c) main_v11_0 _) main_v11_1 _ main_v11_0
    rw [Function.update_of_ne (StableHlo.devRef_ne_of_ne (by decide)), Function.update_self]
  | 4 => by
    show _ = Function.update (Function.update (We0 m c) main_v11_0 _) main_v11_1 _ main_v11_1
    rw [Function.update_self]
  | ⟨_ + 5, h⟩ => absurd h (Nat.not_lt.2 (Nat.le_add_left _ _))
theorem hrest0 (c : Dev nD) : ∀ b, b ∉ Finset.univ.image (Pipeline.arrRef spec0) → Wl0 m c b = We0 m c b := fun b hb => by
  have h3 : b ≠ main_v11_0 := fun e => hb (Finset.mem_image.mpr ⟨3, Finset.mem_univ _, e.symm⟩)
  have h4 : b ≠ main_v11_1 := fun e => hb (Finset.mem_image.mpr ⟨4, Finset.mem_univ _, e.symm⟩)
  unfold Wl0
  rw [Function.update_of_ne (StableHlo.devRef_ne_of_ne h4), Function.update_of_ne (StableHlo.devRef_ne_of_ne h3)]

set_option backward.isDefEq.respectTransparency.types false in
/-- REGION 0 over the thread state: entered from every unscoped buffer at `We0`, left at `Wl0`. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (fun c b => We0 m c b) c).loose
  hwaits := Pipeline.hwaits_of_owed_zero _ _ _ _ L lv 0 fun _ _ => rfl
  pre c := iprop(StableHlo.held (c : Thread nD τ) (Pipeline.ucRefs τ sig) (We0 m c) ∗ R c)
  post c := iprop(StableHlo.held (c : Thread nD τ) (Pipeline.ucRefs τ sig) (Wl0 m c) ∗ R c)
  X c := iprop(∃ r, prngReg c r)
  Y c := iprop(∃ r, prngReg c r)
  Z c := Pipeline.unscopedRest (Ix := Unit) (Name := ℕ) (U := UR sig nD τ) (Lvl := ℕ) spec0 c (fun b => We0 m c b)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (fun b => We0 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (fun c b => We0 m c b) c)
    unfold Pipeline.ΦA
    iintro ⟨Hp, -, Hr⟩
    isplitl [Hr]; · iexact Hr
    iexact Hp
  hout c := by
    rw [Pipeline.ownSems0_none]
    refine (hout0 (fun c b => We0 m c b) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (fun b => We0 m c b) (fun b => Wl0 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF1 (c : Dev nD) : ∀ w : Fin cfg1.W, (dat1 (fun c b => We1 m c b) c).arrAt w cfg1.N = Wl1 m c (Pipeline.arrRef spec1 w)
  | 0 => (((dat1 (fun c b => We1 m c b) c).arrAt_in 0 rfl _).trans (A_eq1 (fun c b => We1 m c b) c 0)).trans (by unfold Wl1; rw [Function.update_of_ne (StableHlo.devRef_ne_of_ne (by decide)), Function.update_of_ne (StableHlo.devRef_ne_of_ne (by decide))])
  | 1 => (((dat1 (fun c b => We1 m c b) c).arrAt_in 1 rfl _).trans (A_eq1 (fun c b => We1 m c b) c 1)).trans (by unfold Wl1; rw [Function.update_of_ne (StableHlo.devRef_ne_of_ne (by decide)), Function.update_of_ne (StableHlo.devRef_ne_of_ne (by decide))])
  | 2 => (((dat1 (fun c b => We1 m c b) c).arrAt_in 2 rfl _).trans (A_eq1 (fun c b => We1 m c b) c 2)).trans (by unfold Wl1; rw [Function.update_of_ne (StableHlo.devRef_ne_of_ne (by decide)), Function.update_of_ne (StableHlo.devRef_ne_of_ne (by decide))])
  | 3 => by
    show _ = Function.update (Function.update (We1 m c) main_v19_0 _) main_v19_1 _ main_v19_0
    rw [Function.update_of_ne (StableHlo.devRef_ne_of_ne (by decide)), Function.update_self]
  | 4 => by
    show _ = Function.update (Function.update (We1 m c) main_v19_0 _) main_v19_1 _ main_v19_1
    rw [Function.update_self]
  | ⟨_ + 5, h⟩ => absurd h (Nat.not_lt.2 (Nat.le_add_left _ _))
theorem hrest1 (c : Dev nD) : ∀ b, b ∉ Finset.univ.image (Pipeline.arrRef spec1) → Wl1 m c b = We1 m c b := fun b hb => by
  have h3 : b ≠ main_v19_0 := fun e => hb (Finset.mem_image.mpr ⟨3, Finset.mem_univ _, e.symm⟩)
  have h4 : b ≠ main_v19_1 := fun e => hb (Finset.mem_image.mpr ⟨4, Finset.mem_univ _, e.symm⟩)
  unfold Wl1
  rw [Function.update_of_ne (StableHlo.devRef_ne_of_ne h4), Function.update_of_ne (StableHlo.devRef_ne_of_ne h3)]

set_option backward.isDefEq.respectTransparency.types false in
/-- REGION 1 over the thread state: entered from every unscoped buffer at `We1`, left at `Wl1`. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (fun c b => We1 m c b) c).loose
  hwaits := Pipeline.hwaits_of_owed_zero _ _ _ _ L lv 1 fun _ _ => rfl
  pre c := iprop(StableHlo.held (c : Thread nD τ) (Pipeline.ucRefs τ sig) (We1 m c) ∗ R c)
  post c := iprop(StableHlo.held (c : Thread nD τ) (Pipeline.ucRefs τ sig) (Wl1 m c) ∗ R c)
  X c := iprop(∃ r, prngReg c r)
  Y c := iprop(∃ r, prngReg c r)
  Z c := Pipeline.unscopedRest (Ix := Unit) (Name := ℕ) (U := UR sig nD τ) (Lvl := ℕ) spec1 c (fun b => We1 m c b)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (fun b => We1 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (fun c b => We1 m c b) c)
    unfold Pipeline.ΦA
    iintro ⟨Hp, -, Hr⟩
    isplitl [Hr]; · iexact Hr
    iexact Hp
  hout c := by
    rw [Pipeline.ownSems0_none]
    refine (hout1 (fun c b => We1 m c b) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (fun b => We1 m c b) (fun b => Wl1 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF2 (c : Dev nD) : ∀ w : Fin cfg2.W, (dat2 (fun c b => We2 m c b) c).arrAt w cfg2.N = Wl2 m c (Pipeline.arrRef spec2 w)
  | 0 => (((dat2 (fun c b => We2 m c b) c).arrAt_in 0 rfl _).trans (A_eq2 (fun c b => We2 m c b) c 0)).trans (by unfold Wl2; rw [Function.update_of_ne (StableHlo.devRef_ne_of_ne (by decide)), Function.update_of_ne (StableHlo.devRef_ne_of_ne (by decide))])
  | 1 => (((dat2 (fun c b => We2 m c b) c).arrAt_in 1 rfl _).trans (A_eq2 (fun c b => We2 m c b) c 1)).trans (by unfold Wl2; rw [Function.update_of_ne (StableHlo.devRef_ne_of_ne (by decide)), Function.update_of_ne (StableHlo.devRef_ne_of_ne (by decide))])
  | 2 => (((dat2 (fun c b => We2 m c b) c).arrAt_in 2 rfl _).trans (A_eq2 (fun c b => We2 m c b) c 2)).trans (by unfold Wl2; rw [Function.update_of_ne (StableHlo.devRef_ne_of_ne (by decide)), Function.update_of_ne (StableHlo.devRef_ne_of_ne (by decide))])
  | 3 => by
    show _ = Function.update (Function.update (We2 m c) main_v27_0 _) main_v27_1 _ main_v27_0
    rw [Function.update_of_ne (StableHlo.devRef_ne_of_ne (by decide)), Function.update_self]
  | 4 => by
    show _ = Function.update (Function.update (We2 m c) main_v27_0 _) main_v27_1 _ main_v27_1
    rw [Function.update_self]
  | ⟨_ + 5, h⟩ => absurd h (Nat.not_lt.2 (Nat.le_add_left _ _))
theorem hrest2 (c : Dev nD) : ∀ b, b ∉ Finset.univ.image (Pipeline.arrRef spec2) → Wl2 m c b = We2 m c b := fun b hb => by
  have h3 : b ≠ main_v27_0 := fun e => hb (Finset.mem_image.mpr ⟨3, Finset.mem_univ _, e.symm⟩)
  have h4 : b ≠ main_v27_1 := fun e => hb (Finset.mem_image.mpr ⟨4, Finset.mem_univ _, e.symm⟩)
  unfold Wl2
  rw [Function.update_of_ne (StableHlo.devRef_ne_of_ne h4), Function.update_of_ne (StableHlo.devRef_ne_of_ne h3)]

set_option backward.isDefEq.respectTransparency.types false in
/-- REGION 2 over the thread state: entered from every unscoped buffer at `We2`, left at `Wl2`. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (fun c b => We2 m c b) c).loose
  hwaits := Pipeline.hwaits_of_owed_zero _ _ _ _ L lv 2 fun _ _ => rfl
  pre c := iprop(StableHlo.held (c : Thread nD τ) (Pipeline.ucRefs τ sig) (We2 m c) ∗ R c)
  post c := iprop(StableHlo.held (c : Thread nD τ) (Pipeline.ucRefs τ sig) (Wl2 m c) ∗ R c)
  X c := iprop(∃ r, prngReg c r)
  Y c := iprop(∃ r, prngReg c r)
  Z c := Pipeline.unscopedRest (Ix := Unit) (Name := ℕ) (U := UR sig nD τ) (Lvl := ℕ) spec2 c (fun b => We2 m c b)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (fun b => We2 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (fun c b => We2 m c b) c)
    unfold Pipeline.ΦA
    iintro ⟨Hp, -, Hr⟩
    isplitl [Hr]; · iexact Hr
    iexact Hp
  hout c := by
    rw [Pipeline.ownSems0_none]
    refine (hout2 (fun c b => We2 m c b) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (fun b => We2 m c b) (fun b => Wl2 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF3 (c : Dev nD) : ∀ w : Fin cfg3.W, (dat3 (fun c b => We3 m c b) c).arrAt w cfg3.N = Wl3 m c (Pipeline.arrRef spec3 w)
  | 0 => (((dat3 (fun c b => We3 m c b) c).arrAt_in 0 rfl _).trans (A_eq3 (fun c b => We3 m c b) c 0)).trans (by unfold Wl3; rw [Function.update_of_ne (StableHlo.devRef_ne_of_ne (by decide)), Function.update_of_ne (StableHlo.devRef_ne_of_ne (by decide))])
  | 1 => (((dat3 (fun c b => We3 m c b) c).arrAt_in 1 rfl _).trans (A_eq3 (fun c b => We3 m c b) c 1)).trans (by unfold Wl3; rw [Function.update_of_ne (StableHlo.devRef_ne_of_ne (by decide)), Function.update_of_ne (StableHlo.devRef_ne_of_ne (by decide))])
  | 2 => (((dat3 (fun c b => We3 m c b) c).arrAt_in 2 rfl _).trans (A_eq3 (fun c b => We3 m c b) c 2)).trans (by unfold Wl3; rw [Function.update_of_ne (StableHlo.devRef_ne_of_ne (by decide)), Function.update_of_ne (StableHlo.devRef_ne_of_ne (by decide))])
  | 3 => by
    show _ = Function.update (Function.update (We3 m c) main_v35_0 _) main_v35_1 _ main_v35_0
    rw [Function.update_of_ne (StableHlo.devRef_ne_of_ne (by decide)), Function.update_self]
  | 4 => by
    show _ = Function.update (Function.update (We3 m c) main_v35_0 _) main_v35_1 _ main_v35_1
    rw [Function.update_self]
  | ⟨_ + 5, h⟩ => absurd h (Nat.not_lt.2 (Nat.le_add_left _ _))
theorem hrest3 (c : Dev nD) : ∀ b, b ∉ Finset.univ.image (Pipeline.arrRef spec3) → Wl3 m c b = We3 m c b := fun b hb => by
  have h3 : b ≠ main_v35_0 := fun e => hb (Finset.mem_image.mpr ⟨3, Finset.mem_univ _, e.symm⟩)
  have h4 : b ≠ main_v35_1 := fun e => hb (Finset.mem_image.mpr ⟨4, Finset.mem_univ _, e.symm⟩)
  unfold Wl3
  rw [Function.update_of_ne (StableHlo.devRef_ne_of_ne h4), Function.update_of_ne (StableHlo.devRef_ne_of_ne h3)]

set_option backward.isDefEq.respectTransparency.types false in
/-- REGION 3 over the thread state: entered from every unscoped buffer at `We3`, left at `Wl3`. -/
def reg3 : Pipeline.RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (fun c b => We3 m c b) c).loose
  hwaits := Pipeline.hwaits_of_owed_zero _ _ _ _ L lv 3 fun _ _ => rfl
  pre c := iprop(StableHlo.held (c : Thread nD τ) (Pipeline.ucRefs τ sig) (We3 m c) ∗ R c)
  post c := iprop(StableHlo.held (c : Thread nD τ) (Pipeline.ucRefs τ sig) (Wl3 m c) ∗ R c)
  X c := iprop(∃ r, prngReg c r)
  Y c := iprop(∃ r, prngReg c r)
  Z c := Pipeline.unscopedRest (Ix := Unit) (Name := ℕ) (U := UR sig nD τ) (Lvl := ℕ) spec3 c (fun b => We3 m c b)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (fun b => We3 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin3 (fun c b => We3 m c b) c)
    unfold Pipeline.ΦA
    iintro ⟨Hp, -, Hr⟩
    isplitl [Hr]; · iexact Hr
    iexact Hp
  hout c := by
    rw [Pipeline.ownSems0_none]
    refine (hout3 (fun c b => We3 m c b) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (fun b => We3 m c b) (fun b => Wl3 m c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF4 (c : Dev nD) : ∀ w : Fin cfg4.W, (dat4 (fun c b => We4 m c b) c).arrAt w cfg4.N = Wl4 m c (Pipeline.arrRef spec4 w)
  | 0 => (((dat4 (fun c b => We4 m c b) c).arrAt_in 0 rfl _).trans (A_eq4 (fun c b => We4 m c b) c 0)).trans (by unfold Wl4; rw [Function.update_of_ne (StableHlo.devRef_ne_of_ne (by decide)), Function.update_of_ne (StableHlo.devRef_ne_of_ne (by decide))])
  | 1 => (((dat4 (fun c b => We4 m c b) c).arrAt_in 1 rfl _).trans (A_eq4 (fun c b => We4 m c b) c 1)).trans (by unfold Wl4; rw [Function.update_of_ne (StableHlo.devRef_ne_of_ne (by decide)), Function.update_of_ne (StableHlo.devRef_ne_of_ne (by decide))])
  | 2 => (((dat4 (fun c b => We4 m c b) c).arrAt_in 2 rfl _).trans (A_eq4 (fun c b => We4 m c b) c 2)).trans (by unfold Wl4; rw [Function.update_of_ne (StableHlo.devRef_ne_of_ne (by decide)), Function.update_of_ne (StableHlo.devRef_ne_of_ne (by decide))])
  | 3 => by
    show _ = Function.update (Function.update (We4 m c) main_v43_0 _) main_v43_1 _ main_v43_0
    rw [Function.update_of_ne (StableHlo.devRef_ne_of_ne (by decide)), Function.update_self]
  | 4 => by
    show _ = Function.update (Function.update (We4 m c) main_v43_0 _) main_v43_1 _ main_v43_1
    rw [Function.update_self]
  | ⟨_ + 5, h⟩ => absurd h (Nat.not_lt.2 (Nat.le_add_left _ _))
theorem hrest4 (c : Dev nD) : ∀ b, b ∉ Finset.univ.image (Pipeline.arrRef spec4) → Wl4 m c b = We4 m c b := fun b hb => by
  have h3 : b ≠ main_v43_0 := fun e => hb (Finset.mem_image.mpr ⟨3, Finset.mem_univ _, e.symm⟩)
  have h4 : b ≠ main_v43_1 := fun e => hb (Finset.mem_image.mpr ⟨4, Finset.mem_univ _, e.symm⟩)
  unfold Wl4
  rw [Function.update_of_ne (StableHlo.devRef_ne_of_ne h4), Function.update_of_ne (StableHlo.devRef_ne_of_ne h3)]

set_option backward.isDefEq.respectTransparency.types false in
/-- REGION 4 over the thread state: entered from every unscoped buffer at `We4`, left at `Wl4`. -/
def reg4 : Pipeline.RegionSeg (pcfgs (F := F)) Gen.adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (fun c b => We4 m c b) c).loose
  hwaits := Pipeline.hwaits_of_owed_zero _ _ _ _ L lv 4 fun _ _ => rfl
  pre c := iprop(StableHlo.held (c : Thread nD τ) (Pipeline.ucRefs τ sig) (We4 m c) ∗ R c)
  post c := iprop(StableHlo.held (c : Thread nD τ) (Pipeline.ucRefs τ sig) (Wl4 m c) ∗ R c)
  X c := iprop(∃ r, prngReg c r)
  Y c := iprop(∃ r, prngReg c r)
  Z c := Pipeline.unscopedRest (Ix := Unit) (Name := ℕ) (U := UR sig nD τ) (Lvl := ℕ) spec4 c (fun b => We4 m c b)
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (fun b => We4 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin4 (fun c b => We4 m c b) c)
    unfold Pipeline.ΦA
    iintro ⟨Hp, -, Hr⟩
    isplitl [Hr]; · iexact Hr
    iexact Hp
  hout c := by
    rw [Pipeline.ownSems0_none]
    refine (hout4 (fun c b => We4 m c b) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (pdats m) ((pdats m 4 c).share_full fun _ => rfl)
      (fun b => We4 m c b) (fun b => Wl4 m c b) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF5 (c : Dev nD) : ∀ w : Fin cfg5.W, (dat5 (fun c b => We5 m c b) c).arrAt w cfg5.N = Wl5 m c (Pipeline.arrRef spec5 w)
  | 0 => (((dat5 (fun c b => We5 m c b) c).arrAt_in 0 rfl _).trans (A_eq5 (fun c b => We5 m c b) c 0)).trans (by unfold Wl5; rw [Function.update_of_ne (StableHlo.devRef_ne_of_ne (by decide)), Function.update_of_ne (StableHlo.devRef_ne_of_ne (by decide))])
  | 1 => (((dat5 (fun c b => We5 m c b) c).arrAt_in 1 rfl _).trans (A_eq5 (fun c b => We5 m c b) c 1)).trans (by unfold Wl5; rw [Function.update_of_ne (StableHlo.devRef_ne_of_ne (by decide)), Function.update_of_ne (StableHlo.devRef_ne_of_ne (by decide))])
  | 2 => (((dat5 (fun c b => We5 m c b) c).arrAt_in 2 rfl _).trans (A_eq5 (fun c b => We5 m c b) c 2)).trans (by unfold Wl5; rw [Function.update_of_ne (StableHlo.devRef_ne_of_ne (by decide)), Function.update_of_ne (StableHlo.devRef_ne_of_ne (by decide))])
  | 3 => by
    show _ = Function.update (Function.update (We5 m c) main_v51_0 _) main_v51_1 _ main_v51_0
    rw [Function.update_of_ne (StableHlo.devRef_ne_of_ne (by decide)), Function.update_self]
  | 4 => by
    show _ = Function.update (Function.update (We5 m c) main_v51_0 _) main_v51_1 _ main_v51_1
    rw [Function.update_self]
  | ⟨_ + 5, h⟩ => absurd h (Nat.not_lt.2 (Nat.le_add_left _ _))
theorem hrest5 (c : Dev nD) : ∀ b, b ∉ Finset.univ.image (Pipeline.arrRef spec5) → Wl5 m c b = We5 m c b := fun b hb => by
  have h3 : b ≠ main_v51_0 := fun e => hb (Finset.mem_image.mpr ⟨3, Finset.mem_univ _, e.symm⟩)
  have h4 : b ≠ main_v51_1 := fun e => hb (Finset.mem_image.mpr ⟨4, Finset.mem_univ _, e.symm⟩)
  unfold Wl5
  rw [Function.update_of_ne (StableHlo.devRef_ne_of_ne h4), Function.update_of_ne (StableHlo.devRef_ne_of_ne h3)]

set_option backward.isDefEq.respectTransparency.types false in
/-- REGION 5 over the thread state: entered from every unscoped buffer at `We5`, left at `Wl5`. -/
def reg5 : Pipeline.RegionSeg (pcfgs (F := F)) Gen.adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (fun c b => We5 m c b) c).loose
  hwaits := Pipeline.hwaits_of_owed_zero _ _ _ _ L lv 5 fun _ _ => rfl
  pre c := iprop(StableHlo.held (c : Thread nD τ) (Pipeline.ucRefs τ sig) (We5 m c) ∗ R c)
  post c := iprop(StableHlo.held (c : Thread nD τ) (Pipeline.ucRefs τ sig) (Wl5 m c) ∗ R c)
  X c := iprop(∃ r, prngReg c r)
  Y c := iprop(∃ r, prngReg c r)
  Z c := Pipeline.unscopedRest (Ix := Unit) (Name := ℕ) (U := UR sig nD τ) (Lvl := ℕ) spec5 c (fun b => We5 m c b)
  hentry c := by
    rw [Pipeline.ownSems0_none]
    have hsplit := Pipeline.arrays_of_unscopedBufs (p := 5) (pcfgs (F := F)) Gen.adm (pdats m) launch5.win launch5.arr_whole c
      ((pdats m 5 c).share_full fun _ => rfl) (fun b => We5 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin5 (fun c b => We5 m c b) c)
    unfold Pipeline.ΦA
    iintro ⟨Hp, -, Hr⟩
    isplitl [Hr]; · iexact Hr
    iexact Hp
  hout c := by
    rw [Pipeline.ownSems0_none]
    refine (hout5 (fun c b => We5 m c b) c).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) Gen.adm (Ix := Unit) (Name := ℕ) (U := UR sig nD τ) (Lvl := ℕ)
      launch5.win launch5.arr_whole c (pdats m) ((pdats m 5 c).share_full fun _ => rfl)
      (fun b => We5 m c b) (fun b => Wl5 m c b) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF6 (c : Dev nD) : ∀ w : Fin cfg6.W, (dat6 (fun c b => We6 m c b) c).arrAt w cfg6.N = Wl6 m c (Pipeline.arrRef spec6 w)
  | 0 => (((dat6 (fun c b => We6 m c b) c).arrAt_in 0 rfl _).trans (A_eq6 (fun c b => We6 m c b) c 0)).trans (by unfold Wl6; rw [Function.update_of_ne (StableHlo.devRef_ne_of_ne (by decide)), Function.update_of_ne (StableHlo.devRef_ne_of_ne (by decide))])
  | 1 => (((dat6 (fun c b => We6 m c b) c).arrAt_in 1 rfl _).trans (A_eq6 (fun c b => We6 m c b) c 1)).trans (by unfold Wl6; rw [Function.update_of_ne (StableHlo.devRef_ne_of_ne (by decide)), Function.update_of_ne (StableHlo.devRef_ne_of_ne (by decide))])
  | 2 => (((dat6 (fun c b => We6 m c b) c).arrAt_in 2 rfl _).trans (A_eq6 (fun c b => We6 m c b) c 2)).trans (by unfold Wl6; rw [Function.update_of_ne (StableHlo.devRef_ne_of_ne (by decide)), Function.update_of_ne (StableHlo.devRef_ne_of_ne (by decide))])
  | 3 => by
    show _ = Function.update (Function.update (We6 m c) main_v59_0 _) main_v59_1 _ main_v59_0
    rw [Function.update_of_ne (StableHlo.devRef_ne_of_ne (by decide)), Function.update_self]
  | 4 => by
    show _ = Function.update (Function.update (We6 m c) main_v59_0 _) main_v59_1 _ main_v59_1
    rw [Function.update_self]
  | ⟨_ + 5, h⟩ => absurd h (Nat.not_lt.2 (Nat.le_add_left _ _))
theorem hrest6 (c : Dev nD) : ∀ b, b ∉ Finset.univ.image (Pipeline.arrRef spec6) → Wl6 m c b = We6 m c b := fun b hb => by
  have h3 : b ≠ main_v59_0 := fun e => hb (Finset.mem_image.mpr ⟨3, Finset.mem_univ _, e.symm⟩)
  have h4 : b ≠ main_v59_1 := fun e => hb (Finset.mem_image.mpr ⟨4, Finset.mem_univ _, e.symm⟩)
  unfold Wl6
  rw [Function.update_of_ne (StableHlo.devRef_ne_of_ne h4), Function.update_of_ne (StableHlo.devRef_ne_of_ne h3)]

set_option backward.isDefEq.respectTransparency.types false in
/-- REGION 6 over the thread state: entered from every unscoped buffer at `We6`, left at `Wl6`. -/
def reg6 : Pipeline.RegionSeg (pcfgs (F := F)) Gen.adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (fun c b => We6 m c b) c).loose
  hwaits := Pipeline.hwaits_of_owed_zero _ _ _ _ L lv 6 fun _ _ => rfl
  pre c := iprop(StableHlo.held (c : Thread nD τ) (Pipeline.ucRefs τ sig) (We6 m c) ∗ R c)
  post c := iprop(StableHlo.held (c : Thread nD τ) (Pipeline.ucRefs τ sig) (Wl6 m c) ∗ R c)
  X c := iprop(∃ r, prngReg c r)
  Y c := iprop(∃ r, prngReg c r)
  Z c := Pipeline.unscopedRest (Ix := Unit) (Name := ℕ) (U := UR sig nD τ) (Lvl := ℕ) spec6 c (fun b => We6 m c b)
  hentry c := by
    rw [Pipeline.ownSems0_none]
    have hsplit := Pipeline.arrays_of_unscopedBufs (p := 6) (pcfgs (F := F)) Gen.adm (pdats m) launch6.win launch6.arr_whole c
      ((pdats m 6 c).share_full fun _ => rfl) (fun b => We6 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin6 (fun c b => We6 m c b) c)
    unfold Pipeline.ΦA
    iintro ⟨Hp, -, Hr⟩
    isplitl [Hr]; · iexact Hr
    iexact Hp
  hout c := by
    rw [Pipeline.ownSems0_none]
    refine (hout6 (fun c b => We6 m c b) c).trans ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) Gen.adm (Ix := Unit) (Name := ℕ) (U := UR sig nD τ) (Lvl := ℕ)
      launch6.win launch6.arr_whole c (pdats m) ((pdats m 6 c).share_full fun _ => rfl)
      (fun b => We6 m c b) (fun b => Wl6 m c b) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF7 (c : Dev nD) : ∀ w : Fin cfg7.W, (dat7 (fun c b => We7 m c b) c).arrAt w cfg7.N = Wl7 m c (Pipeline.arrRef spec7 w)
  | 0 => (((dat7 (fun c b => We7 m c b) c).arrAt_in 0 rfl _).trans (A_eq7 (fun c b => We7 m c b) c 0)).trans (by unfold Wl7; rw [Function.update_of_ne (StableHlo.devRef_ne_of_ne (by decide)), Function.update_of_ne (StableHlo.devRef_ne_of_ne (by decide))])
  | 1 => (((dat7 (fun c b => We7 m c b) c).arrAt_in 1 rfl _).trans (A_eq7 (fun c b => We7 m c b) c 1)).trans (by unfold Wl7; rw [Function.update_of_ne (StableHlo.devRef_ne_of_ne (by decide)), Function.update_of_ne (StableHlo.devRef_ne_of_ne (by decide))])
  | 2 => (((dat7 (fun c b => We7 m c b) c).arrAt_in 2 rfl _).trans (A_eq7 (fun c b => We7 m c b) c 2)).trans (by unfold Wl7; rw [Function.update_of_ne (StableHlo.devRef_ne_of_ne (by decide)), Function.update_of_ne (StableHlo.devRef_ne_of_ne (by decide))])
  | 3 => by
    show _ = Function.update (Function.update (We7 m c) main_v67_0 _) main_v67_1 _ main_v67_0
    rw [Function.update_of_ne (StableHlo.devRef_ne_of_ne (by decide)), Function.update_self]
  | 4 => by
    show _ = Function.update (Function.update (We7 m c) main_v67_0 _) main_v67_1 _ main_v67_1
    rw [Function.update_self]
  | ⟨_ + 5, h⟩ => absurd h (Nat.not_lt.2 (Nat.le_add_left _ _))
theorem hrest7 (c : Dev nD) : ∀ b, b ∉ Finset.univ.image (Pipeline.arrRef spec7) → Wl7 m c b = We7 m c b := fun b hb => by
  have h3 : b ≠ main_v67_0 := fun e => hb (Finset.mem_image.mpr ⟨3, Finset.mem_univ _, e.symm⟩)
  have h4 : b ≠ main_v67_1 := fun e => hb (Finset.mem_image.mpr ⟨4, Finset.mem_univ _, e.symm⟩)
  unfold Wl7
  rw [Function.update_of_ne (StableHlo.devRef_ne_of_ne h4), Function.update_of_ne (StableHlo.devRef_ne_of_ne h3)]

set_option backward.isDefEq.respectTransparency.types false in
/-- REGION 7 over the thread state: entered from every unscoped buffer at `We7`, left at `Wl7`. -/
def reg7 : Pipeline.RegionSeg (pcfgs (F := F)) Gen.adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (fun c b => We7 m c b) c).loose
  hwaits := Pipeline.hwaits_of_owed_zero _ _ _ _ L lv 7 fun _ _ => rfl
  pre c := iprop(StableHlo.held (c : Thread nD τ) (Pipeline.ucRefs τ sig) (We7 m c) ∗ R c)
  post c := iprop(StableHlo.held (c : Thread nD τ) (Pipeline.ucRefs τ sig) (Wl7 m c) ∗ R c)
  X c := iprop(∃ r, prngReg c r)
  Y c := iprop(∃ r, prngReg c r)
  Z c := Pipeline.unscopedRest (Ix := Unit) (Name := ℕ) (U := UR sig nD τ) (Lvl := ℕ) spec7 c (fun b => We7 m c b)
  hentry c := by
    rw [Pipeline.ownSems0_none]
    have hsplit := Pipeline.arrays_of_unscopedBufs (p := 7) (pcfgs (F := F)) Gen.adm (pdats m) launch7.win launch7.arr_whole c
      ((pdats m 7 c).share_full fun _ => rfl) (fun b => We7 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin7 (fun c b => We7 m c b) c)
    unfold Pipeline.ΦA
    iintro ⟨Hp, -, Hr⟩
    isplitl [Hr]; · iexact Hr
    iexact Hp
  hout c := by
    rw [Pipeline.ownSems0_none]
    refine (hout7 (fun c b => We7 m c b) c).trans ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) Gen.adm (Ix := Unit) (Name := ℕ) (U := UR sig nD τ) (Lvl := ℕ)
      launch7.win launch7.arr_whole c (pdats m) ((pdats m 7 c).share_full fun _ => rfl)
      (fun b => We7 m c b) (fun b => Wl7 m c b) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF8 (c : Dev nD) : ∀ w : Fin cfg8.W, (dat8 (fun c b => We8 m c b) c).arrAt w cfg8.N = Wl8 m c (Pipeline.arrRef spec8 w)
  | 0 => (((dat8 (fun c b => We8 m c b) c).arrAt_in 0 rfl _).trans (A_eq8 (fun c b => We8 m c b) c 0)).trans (by unfold Wl8; rw [Function.update_of_ne (StableHlo.devRef_ne_of_ne (by decide)), Function.update_of_ne (StableHlo.devRef_ne_of_ne (by decide))])
  | 1 => (((dat8 (fun c b => We8 m c b) c).arrAt_in 1 rfl _).trans (A_eq8 (fun c b => We8 m c b) c 1)).trans (by unfold Wl8; rw [Function.update_of_ne (StableHlo.devRef_ne_of_ne (by decide)), Function.update_of_ne (StableHlo.devRef_ne_of_ne (by decide))])
  | 2 => (((dat8 (fun c b => We8 m c b) c).arrAt_in 2 rfl _).trans (A_eq8 (fun c b => We8 m c b) c 2)).trans (by unfold Wl8; rw [Function.update_of_ne (StableHlo.devRef_ne_of_ne (by decide)), Function.update_of_ne (StableHlo.devRef_ne_of_ne (by decide))])
  | 3 => by
    show _ = Function.update (Function.update (We8 m c) main_v75_0 _) main_v75_1 _ main_v75_0
    rw [Function.update_of_ne (StableHlo.devRef_ne_of_ne (by decide)), Function.update_self]
  | 4 => by
    show _ = Function.update (Function.update (We8 m c) main_v75_0 _) main_v75_1 _ main_v75_1
    rw [Function.update_self]
  | ⟨_ + 5, h⟩ => absurd h (Nat.not_lt.2 (Nat.le_add_left _ _))
theorem hrest8 (c : Dev nD) : ∀ b, b ∉ Finset.univ.image (Pipeline.arrRef spec8) → Wl8 m c b = We8 m c b := fun b hb => by
  have h3 : b ≠ main_v75_0 := fun e => hb (Finset.mem_image.mpr ⟨3, Finset.mem_univ _, e.symm⟩)
  have h4 : b ≠ main_v75_1 := fun e => hb (Finset.mem_image.mpr ⟨4, Finset.mem_univ _, e.symm⟩)
  unfold Wl8
  rw [Function.update_of_ne (StableHlo.devRef_ne_of_ne h4), Function.update_of_ne (StableHlo.devRef_ne_of_ne h3)]

set_option backward.isDefEq.respectTransparency.types false in
/-- REGION 8 over the thread state: entered from every unscoped buffer at `We8`, left at `Wl8`. -/
def reg8 : Pipeline.RegionSeg (pcfgs (F := F)) Gen.adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (fun c b => We8 m c b) c).loose
  hwaits := Pipeline.hwaits_of_owed_zero _ _ _ _ L lv 8 fun _ _ => rfl
  pre c := iprop(StableHlo.held (c : Thread nD τ) (Pipeline.ucRefs τ sig) (We8 m c) ∗ R c)
  post c := iprop(StableHlo.held (c : Thread nD τ) (Pipeline.ucRefs τ sig) (Wl8 m c) ∗ R c)
  X c := iprop(∃ r, prngReg c r)
  Y c := iprop(∃ r, prngReg c r)
  Z c := Pipeline.unscopedRest (Ix := Unit) (Name := ℕ) (U := UR sig nD τ) (Lvl := ℕ) spec8 c (fun b => We8 m c b)
  hentry c := by
    rw [Pipeline.ownSems0_none]
    have hsplit := Pipeline.arrays_of_unscopedBufs (p := 8) (pcfgs (F := F)) Gen.adm (pdats m) launch8.win launch8.arr_whole c
      ((pdats m 8 c).share_full fun _ => rfl) (fun b => We8 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin8 (fun c b => We8 m c b) c)
    unfold Pipeline.ΦA
    iintro ⟨Hp, -, Hr⟩
    isplitl [Hr]; · iexact Hr
    iexact Hp
  hout c := by
    rw [Pipeline.ownSems0_none]
    refine (hout8 (fun c b => We8 m c b) c).trans ?_
    unfold Pipeline.ΦA
    iintro ⟨Hr, Hp⟩
    isplitl [Hp]; · iexact Hp
    isplitr; · iempintro
    iexact Hr
  hexit c := by
    have hjoin := Pipeline.unscopedBufs_of_arrays (p := 8) (pcfgs (F := F)) Gen.adm (Ix := Unit) (Name := ℕ) (U := UR sig nD τ) (Lvl := ℕ)
      launch8.win launch8.arr_whole c (pdats m) ((pdats m 8 c).share_full fun _ => rfl)
      (fun b => We8 m c b) (fun b => Wl8 m c b) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF9 (c : Dev nD) : ∀ w : Fin cfg9.W, (dat9 (fun c b => We9 m c b) c).arrAt w cfg9.N = Wl9 m c (Pipeline.arrRef spec9 w)
  | 0 => (((dat9 (fun c b => We9 m c b) c).arrAt_in 0 rfl _).trans (A_eq9 (fun c b => We9 m c b) c 0)).trans (by unfold Wl9; rw [Function.update_of_ne (StableHlo.devRef_ne_of_ne (by decide)), Function.update_of_ne (StableHlo.devRef_ne_of_ne (by decide))])
  | 1 => (((dat9 (fun c b => We9 m c b) c).arrAt_in 1 rfl _).trans (A_eq9 (fun c b => We9 m c b) c 1)).trans (by unfold Wl9; rw [Function.update_of_ne (StableHlo.devRef_ne_of_ne (by decide)), Function.update_of_ne (StableHlo.devRef_ne_of_ne (by decide))])
  | 2 => (((dat9 (fun c b => We9 m c b) c).arrAt_in 2 rfl _).trans (A_eq9 (fun c b => We9 m c b) c 2)).trans (by unfold Wl9; rw [Function.update_of_ne (StableHlo.devRef_ne_of_ne (by decide)), Function.update_of_ne (StableHlo.devRef_ne_of_ne (by decide))])
  | 3 => by
    show _ = Function.update (Function.update (We9 m c) main_v83_0 _) main_v83_1 _ main_v83_0
    rw [Function.update_of_ne (StableHlo.devRef_ne_of_ne (by decide)), Function.update_self]
  | 4 => by
    show _ = Function.update (Function.update (We9 m c) main_v83_0 _) main_v83_1 _ main_v83_1
    rw [Function.update_self]
  | ⟨_ + 5, h⟩ => absurd h (Nat.not_lt.2 (Nat.le_add_left _ _))
theorem hrest9 (c : Dev nD) : ∀ b, b ∉ Finset.univ.image (Pipeline.arrRef spec9) → Wl9 m c b = We9 m c b := fun b hb => by
  have h3 : b ≠ main_v83_0 := fun e => hb (Finset.mem_image.mpr ⟨3, Finset.mem_univ _, e.symm⟩)
  have h4 : b ≠ main_v83_1 := fun e => hb (Finset.mem_image.mpr ⟨4, Finset.mem_univ _, e.symm⟩)
  unfold Wl9
  rw [Function.update_of_ne (StableHlo.devRef_ne_of_ne h4), Function.update_of_ne (StableHlo.devRef_ne_of_ne h3)]

set_option backward.isDefEq.respectTransparency.types false in
/-- REGION 9 over the thread state: entered from every unscoped buffer at `We9`, left at `Wl9`. -/
def reg9 : Pipeline.RegionSeg (pcfgs (F := F)) Gen.adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (fun c b => We9 m c b) c).loose
  hwaits := Pipeline.hwaits_of_owed_zero _ _ _ _ L lv 9 fun _ _ => rfl
  pre c := iprop(StableHlo.held (c : Thread nD τ) (Pipeline.ucRefs τ sig) (We9 m c) ∗ R c)
  post c := iprop(StableHlo.held (c : Thread nD τ) (Pipeline.ucRefs τ sig) (Wl9 m c) ∗ R c)
  X c := iprop(∃ r, prngReg c r)
  Y c := iprop(∃ r, prngReg c r)
  Z c := Pipeline.unscopedRest (Ix := Unit) (Name := ℕ) (U := UR sig nD τ) (Lvl := ℕ) spec9 c (fun b => We9 m c b)
  hentry c := by
    rw [Pipeline.ownSems0_none]
    have hsplit := Pipeline.arrays_of_unscopedBufs (p := 9) (pcfgs (F := F)) Gen.adm (pdats m) launch9.win launch9.arr_whole c
      ((pdats m 9 c).share_full fun _ => rfl) (fun b => We9 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin9 (fun c b => We9 m c b) c)
    unfold Pipeline.ΦA
    iintro ⟨Hp, -, Hr⟩
    isplitl [Hr]; · iexact Hr
    iexact Hp
  hout c := by
    rw [Pipeline.ownSems0_none]
    refine (hout9 (fun c b => We9 m c b) c).trans ?_
    unfold Pipeline.ΦA
    iintro ⟨Hr, Hp⟩
    isplitl [Hp]; · iexact Hp
    isplitr; · iempintro
    iexact Hr
  hexit c := by
    have hjoin := Pipeline.unscopedBufs_of_arrays (p := 9) (pcfgs (F := F)) Gen.adm (Ix := Unit) (Name := ℕ) (U := UR sig nD τ) (Lvl := ℕ)
      launch9.win launch9.arr_whole c (pdats m) ((pdats m 9 c).share_full fun _ => rfl)
      (fun b => We9 m c b) (fun b => Wl9 m c b) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF10 (c : Dev nD) : ∀ w : Fin cfg10.W, (dat10 (fun c b => We10 m c b) c).arrAt w cfg10.N = Wl10 m c (Pipeline.arrRef spec10 w)
  | 0 => (((dat10 (fun c b => We10 m c b) c).arrAt_in 0 rfl _).trans (A_eq10 (fun c b => We10 m c b) c 0)).trans (by unfold Wl10; rw [Function.update_of_ne (StableHlo.devRef_ne_of_ne (by decide)), Function.update_of_ne (StableHlo.devRef_ne_of_ne (by decide))])
  | 1 => (((dat10 (fun c b => We10 m c b) c).arrAt_in 1 rfl _).trans (A_eq10 (fun c b => We10 m c b) c 1)).trans (by unfold Wl10; rw [Function.update_of_ne (StableHlo.devRef_ne_of_ne (by decide)), Function.update_of_ne (StableHlo.devRef_ne_of_ne (by decide))])
  | 2 => (((dat10 (fun c b => We10 m c b) c).arrAt_in 2 rfl _).trans (A_eq10 (fun c b => We10 m c b) c 2)).trans (by unfold Wl10; rw [Function.update_of_ne (StableHlo.devRef_ne_of_ne (by decide)), Function.update_of_ne (StableHlo.devRef_ne_of_ne (by decide))])
  | 3 => by
    show _ = Function.update (Function.update (We10 m c) main_v91_0 _) main_v91_1 _ main_v91_0
    rw [Function.update_of_ne (StableHlo.devRef_ne_of_ne (by decide)), Function.update_self]
  | 4 => by
    show _ = Function.update (Function.update (We10 m c) main_v91_0 _) main_v91_1 _ main_v91_1
    rw [Function.update_self]
  | ⟨_ + 5, h⟩ => absurd h (Nat.not_lt.2 (Nat.le_add_left _ _))
theorem hrest10 (c : Dev nD) : ∀ b, b ∉ Finset.univ.image (Pipeline.arrRef spec10) → Wl10 m c b = We10 m c b := fun b hb => by
  have h3 : b ≠ main_v91_0 := fun e => hb (Finset.mem_image.mpr ⟨3, Finset.mem_univ _, e.symm⟩)
  have h4 : b ≠ main_v91_1 := fun e => hb (Finset.mem_image.mpr ⟨4, Finset.mem_univ _, e.symm⟩)
  unfold Wl10
  rw [Function.update_of_ne (StableHlo.devRef_ne_of_ne h4), Function.update_of_ne (StableHlo.devRef_ne_of_ne h3)]

set_option backward.isDefEq.respectTransparency.types false in
/-- REGION 10 over the thread state: entered from every unscoped buffer at `We10`, left at `Wl10`. -/
def reg10 : Pipeline.RegionSeg (pcfgs (F := F)) Gen.adm (pdats m) () defs₀ 𝒱₀ L lv 10 where
  win := launch10.win.to₀
  block_pos := launch10.block_pos
  stage_whole := launch10.stage_whole
  K := PEmpty
  osem k := k.elim
  ho := Pipeline.OwnSemFacts.none _
  hbody c := (body_obligation10 (fun c b => We10 m c b) c).loose
  hwaits := Pipeline.hwaits_of_owed_zero _ _ _ _ L lv 10 fun _ _ => rfl
  pre c := iprop(StableHlo.held (c : Thread nD τ) (Pipeline.ucRefs τ sig) (We10 m c) ∗ R c)
  post c := iprop(StableHlo.held (c : Thread nD τ) (Pipeline.ucRefs τ sig) (Wl10 m c) ∗ R c)
  X c := iprop(∃ r, prngReg c r)
  Y c := iprop(∃ r, prngReg c r)
  Z c := Pipeline.unscopedRest (Ix := Unit) (Name := ℕ) (U := UR sig nD τ) (Lvl := ℕ) spec10 c (fun b => We10 m c b)
  hentry c := by
    rw [Pipeline.ownSems0_none]
    have hsplit := Pipeline.arrays_of_unscopedBufs (p := 10) (pcfgs (F := F)) Gen.adm (pdats m) launch10.win launch10.arr_whole c
      ((pdats m 10 c).share_full fun _ => rfl) (fun b => We10 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin10 (fun c b => We10 m c b) c)
    unfold Pipeline.ΦA
    iintro ⟨Hp, -, Hr⟩
    isplitl [Hr]; · iexact Hr
    iexact Hp
  hout c := by
    rw [Pipeline.ownSems0_none]
    refine (hout10 (fun c b => We10 m c b) c).trans ?_
    unfold Pipeline.ΦA
    iintro ⟨Hr, Hp⟩
    isplitl [Hp]; · iexact Hp
    isplitr; · iempintro
    iexact Hr
  hexit c := by
    have hjoin := Pipeline.unscopedBufs_of_arrays (p := 10) (pcfgs (F := F)) Gen.adm (Ix := Unit) (Name := ℕ) (U := UR sig nD τ) (Lvl := ℕ)
      launch10.win launch10.arr_whole c (pdats m) ((pdats m 10 c).share_full fun _ => rfl)
      (fun b => We10 m c b) (fun b => Wl10 m c b) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF11 (c : Dev nD) : ∀ w : Fin cfg11.W, (dat11 (fun c b => We11 m c b) c).arrAt w cfg11.N = Wl11 m c (Pipeline.arrRef spec11 w)
  | 0 => (((dat11 (fun c b => We11 m c b) c).arrAt_in 0 rfl _).trans (A_eq11 (fun c b => We11 m c b) c 0)).trans (by unfold Wl11; rw [Function.update_of_ne (StableHlo.devRef_ne_of_ne (by decide)), Function.update_of_ne (StableHlo.devRef_ne_of_ne (by decide))])
  | 1 => (((dat11 (fun c b => We11 m c b) c).arrAt_in 1 rfl _).trans (A_eq11 (fun c b => We11 m c b) c 1)).trans (by unfold Wl11; rw [Function.update_of_ne (StableHlo.devRef_ne_of_ne (by decide)), Function.update_of_ne (StableHlo.devRef_ne_of_ne (by decide))])
  | 2 => (((dat11 (fun c b => We11 m c b) c).arrAt_in 2 rfl _).trans (A_eq11 (fun c b => We11 m c b) c 2)).trans (by unfold Wl11; rw [Function.update_of_ne (StableHlo.devRef_ne_of_ne (by decide)), Function.update_of_ne (StableHlo.devRef_ne_of_ne (by decide))])
  | 3 => by
    show _ = Function.update (Function.update (We11 m c) main_v99_0 _) main_v99_1 _ main_v99_0
    rw [Function.update_of_ne (StableHlo.devRef_ne_of_ne (by decide)), Function.update_self]
  | 4 => by
    show _ = Function.update (Function.update (We11 m c) main_v99_0 _) main_v99_1 _ main_v99_1
    rw [Function.update_self]
  | ⟨_ + 5, h⟩ => absurd h (Nat.not_lt.2 (Nat.le_add_left _ _))
theorem hrest11 (c : Dev nD) : ∀ b, b ∉ Finset.univ.image (Pipeline.arrRef spec11) → Wl11 m c b = We11 m c b := fun b hb => by
  have h3 : b ≠ main_v99_0 := fun e => hb (Finset.mem_image.mpr ⟨3, Finset.mem_univ _, e.symm⟩)
  have h4 : b ≠ main_v99_1 := fun e => hb (Finset.mem_image.mpr ⟨4, Finset.mem_univ _, e.symm⟩)
  unfold Wl11
  rw [Function.update_of_ne (StableHlo.devRef_ne_of_ne h4), Function.update_of_ne (StableHlo.devRef_ne_of_ne h3)]

set_option backward.isDefEq.respectTransparency.types false in
/-- REGION 11 over the thread state: entered from every unscoped buffer at `We11`, left at `Wl11`. -/
def reg11 : Pipeline.RegionSeg (pcfgs (F := F)) Gen.adm (pdats m) () defs₀ 𝒱₀ L lv 11 where
  win := launch11.win.to₀
  block_pos := launch11.block_pos
  stage_whole := launch11.stage_whole
  K := PEmpty
  osem k := k.elim
  ho := Pipeline.OwnSemFacts.none _
  hbody c := (body_obligation11 (fun c b => We11 m c b) c).loose
  hwaits := Pipeline.hwaits_of_owed_zero _ _ _ _ L lv 11 fun _ _ => rfl
  pre c := iprop(StableHlo.held (c : Thread nD τ) (Pipeline.ucRefs τ sig) (We11 m c) ∗ R c)
  post c := iprop(StableHlo.held (c : Thread nD τ) (Pipeline.ucRefs τ sig) (Wl11 m c) ∗ R c)
  X c := iprop(∃ r, prngReg c r)
  Y c := iprop(∃ r, prngReg c r)
  Z c := Pipeline.unscopedRest (Ix := Unit) (Name := ℕ) (U := UR sig nD τ) (Lvl := ℕ) spec11 c (fun b => We11 m c b)
  hentry c := by
    rw [Pipeline.ownSems0_none]
    have hsplit := Pipeline.arrays_of_unscopedBufs (p := 11) (pcfgs (F := F)) Gen.adm (pdats m) launch11.win launch11.arr_whole c
      ((pdats m 11 c).share_full fun _ => rfl) (fun b => We11 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin11 (fun c b => We11 m c b) c)
    unfold Pipeline.ΦA
    iintro ⟨Hp, -, Hr⟩
    isplitl [Hr]; · iexact Hr
    iexact Hp
  hout c := by
    rw [Pipeline.ownSems0_none]
    refine (hout11 (fun c b => We11 m c b) c).trans ?_
    unfold Pipeline.ΦA
    iintro ⟨Hr, Hp⟩
    isplitl [Hp]; · iexact Hp
    isplitr; · iempintro
    iexact Hr
  hexit c := by
    have hjoin := Pipeline.unscopedBufs_of_arrays (p := 11) (pcfgs (F := F)) Gen.adm (Ix := Unit) (Name := ℕ) (U := UR sig nD τ) (Lvl := ℕ)
      launch11.win launch11.arr_whole c (pdats m) ((pdats m 11 c).share_full fun _ => rfl)
      (fun b => We11 m c b) (fun b => Wl11 m c b) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF12 (c : Dev nD) : ∀ w : Fin cfg12.W, (dat12 (fun c b => We12 m c b) c).arrAt w cfg12.N = Wl12 m c (Pipeline.arrRef spec12 w)
  | 0 => (((dat12 (fun c b => We12 m c b) c).arrAt_in 0 rfl _).trans (A_eq12 (fun c b => We12 m c b) c 0)).trans (by unfold Wl12; rw [Function.update_of_ne (StableHlo.devRef_ne_of_ne (by decide)), Function.update_of_ne (StableHlo.devRef_ne_of_ne (by decide))])
  | 1 => (((dat12 (fun c b => We12 m c b) c).arrAt_in 1 rfl _).trans (A_eq12 (fun c b => We12 m c b) c 1)).trans (by unfold Wl12; rw [Function.update_of_ne (StableHlo.devRef_ne_of_ne (by decide)), Function.update_of_ne (StableHlo.devRef_ne_of_ne (by decide))])
  | 2 => (((dat12 (fun c b => We12 m c b) c).arrAt_in 2 rfl _).trans (A_eq12 (fun c b => We12 m c b) c 2)).trans (by unfold Wl12; rw [Function.update_of_ne (StableHlo.devRef_ne_of_ne (by decide)), Function.update_of_ne (StableHlo.devRef_ne_of_ne (by decide))])
  | 3 => by
    show _ = Function.update (Function.update (We12 m c) main_v107_0 _) main_v107_1 _ main_v107_0
    rw [Function.update_of_ne (StableHlo.devRef_ne_of_ne (by decide)), Function.update_self]
  | 4 => by
    show _ = Function.update (Function.update (We12 m c) main_v107_0 _) main_v107_1 _ main_v107_1
    rw [Function.update_self]
  | ⟨_ + 5, h⟩ => absurd h (Nat.not_lt.2 (Nat.le_add_left _ _))
theorem hrest12 (c : Dev nD) : ∀ b, b ∉ Finset.univ.image (Pipeline.arrRef spec12) → Wl12 m c b = We12 m c b := fun b hb => by
  have h3 : b ≠ main_v107_0 := fun e => hb (Finset.mem_image.mpr ⟨3, Finset.mem_univ _, e.symm⟩)
  have h4 : b ≠ main_v107_1 := fun e => hb (Finset.mem_image.mpr ⟨4, Finset.mem_univ _, e.symm⟩)
  unfold Wl12
  rw [Function.update_of_ne (StableHlo.devRef_ne_of_ne h4), Function.update_of_ne (StableHlo.devRef_ne_of_ne h3)]

set_option backward.isDefEq.respectTransparency.types false in
/-- REGION 12 over the thread state: entered from every unscoped buffer at `We12`, left at `Wl12`. -/
def reg12 : Pipeline.RegionSeg (pcfgs (F := F)) Gen.adm (pdats m) () defs₀ 𝒱₀ L lv 12 where
  win := launch12.win.to₀
  block_pos := launch12.block_pos
  stage_whole := launch12.stage_whole
  K := PEmpty
  osem k := k.elim
  ho := Pipeline.OwnSemFacts.none _
  hbody c := (body_obligation12 (fun c b => We12 m c b) c).loose
  hwaits := Pipeline.hwaits_of_owed_zero _ _ _ _ L lv 12 fun _ _ => rfl
  pre c := iprop(StableHlo.held (c : Thread nD τ) (Pipeline.ucRefs τ sig) (We12 m c) ∗ R c)
  post c := iprop(StableHlo.held (c : Thread nD τ) (Pipeline.ucRefs τ sig) (Wl12 m c) ∗ R c)
  X c := iprop(∃ r, prngReg c r)
  Y c := iprop(∃ r, prngReg c r)
  Z c := Pipeline.unscopedRest (Ix := Unit) (Name := ℕ) (U := UR sig nD τ) (Lvl := ℕ) spec12 c (fun b => We12 m c b)
  hentry c := by
    rw [Pipeline.ownSems0_none]
    have hsplit := Pipeline.arrays_of_unscopedBufs (p := 12) (pcfgs (F := F)) Gen.adm (pdats m) launch12.win launch12.arr_whole c
      ((pdats m 12 c).share_full fun _ => rfl) (fun b => We12 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin12 (fun c b => We12 m c b) c)
    unfold Pipeline.ΦA
    iintro ⟨Hp, -, Hr⟩
    isplitl [Hr]; · iexact Hr
    iexact Hp
  hout c := by
    rw [Pipeline.ownSems0_none]
    refine (hout12 (fun c b => We12 m c b) c).trans ?_
    unfold Pipeline.ΦA
    iintro ⟨Hr, Hp⟩
    isplitl [Hp]; · iexact Hp
    isplitr; · iempintro
    iexact Hr
  hexit c := by
    have hjoin := Pipeline.unscopedBufs_of_arrays (p := 12) (pcfgs (F := F)) Gen.adm (Ix := Unit) (Name := ℕ) (U := UR sig nD τ) (Lvl := ℕ)
      launch12.win launch12.arr_whole c (pdats m) ((pdats m 12 c).share_full fun _ => rfl)
      (fun b => We12 m c b) (fun b => Wl12 m c b) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF13 (c : Dev nD) : ∀ w : Fin cfg13.W, (dat13 (fun c b => We13 m c b) c).arrAt w cfg13.N = Wl13 m c (Pipeline.arrRef spec13 w)
  | 0 => (((dat13 (fun c b => We13 m c b) c).arrAt_in 0 rfl _).trans (A_eq13 (fun c b => We13 m c b) c 0)).trans (by unfold Wl13; rw [Function.update_of_ne (StableHlo.devRef_ne_of_ne (by decide)), Function.update_of_ne (StableHlo.devRef_ne_of_ne (by decide))])
  | 1 => (((dat13 (fun c b => We13 m c b) c).arrAt_in 1 rfl _).trans (A_eq13 (fun c b => We13 m c b) c 1)).trans (by unfold Wl13; rw [Function.update_of_ne (StableHlo.devRef_ne_of_ne (by decide)), Function.update_of_ne (StableHlo.devRef_ne_of_ne (by decide))])
  | 2 => (((dat13 (fun c b => We13 m c b) c).arrAt_in 2 rfl _).trans (A_eq13 (fun c b => We13 m c b) c 2)).trans (by unfold Wl13; rw [Function.update_of_ne (StableHlo.devRef_ne_of_ne (by decide)), Function.update_of_ne (StableHlo.devRef_ne_of_ne (by decide))])
  | 3 => by
    show _ = Function.update (Function.update (We13 m c) main_v115_0 _) main_v115_1 _ main_v115_0
    rw [Function.update_of_ne (StableHlo.devRef_ne_of_ne (by decide)), Function.update_self]
  | 4 => by
    show _ = Function.update (Function.update (We13 m c) main_v115_0 _) main_v115_1 _ main_v115_1
    rw [Function.update_self]
  | ⟨_ + 5, h⟩ => absurd h (Nat.not_lt.2 (Nat.le_add_left _ _))
theorem hrest13 (c : Dev nD) : ∀ b, b ∉ Finset.univ.image (Pipeline.arrRef spec13) → Wl13 m c b = We13 m c b := fun b hb => by
  have h3 : b ≠ main_v115_0 := fun e => hb (Finset.mem_image.mpr ⟨3, Finset.mem_univ _, e.symm⟩)
  have h4 : b ≠ main_v115_1 := fun e => hb (Finset.mem_image.mpr ⟨4, Finset.mem_univ _, e.symm⟩)
  unfold Wl13
  rw [Function.update_of_ne (StableHlo.devRef_ne_of_ne h4), Function.update_of_ne (StableHlo.devRef_ne_of_ne h3)]

set_option backward.isDefEq.respectTransparency.types false in
/-- REGION 13 over the thread state: entered from every unscoped buffer at `We13`, left at `Wl13`. -/
def reg13 : Pipeline.RegionSeg (pcfgs (F := F)) Gen.adm (pdats m) () defs₀ 𝒱₀ L lv 13 where
  win := launch13.win.to₀
  block_pos := launch13.block_pos
  stage_whole := launch13.stage_whole
  K := PEmpty
  osem k := k.elim
  ho := Pipeline.OwnSemFacts.none _
  hbody c := (body_obligation13 (fun c b => We13 m c b) c).loose
  hwaits := Pipeline.hwaits_of_owed_zero _ _ _ _ L lv 13 fun _ _ => rfl
  pre c := iprop(StableHlo.held (c : Thread nD τ) (Pipeline.ucRefs τ sig) (We13 m c) ∗ R c)
  post c := iprop(StableHlo.held (c : Thread nD τ) (Pipeline.ucRefs τ sig) (Wl13 m c) ∗ R c)
  X c := iprop(∃ r, prngReg c r)
  Y c := iprop(∃ r, prngReg c r)
  Z c := Pipeline.unscopedRest (Ix := Unit) (Name := ℕ) (U := UR sig nD τ) (Lvl := ℕ) spec13 c (fun b => We13 m c b)
  hentry c := by
    rw [Pipeline.ownSems0_none]
    have hsplit := Pipeline.arrays_of_unscopedBufs (p := 13) (pcfgs (F := F)) Gen.adm (pdats m) launch13.win launch13.arr_whole c
      ((pdats m 13 c).share_full fun _ => rfl) (fun b => We13 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin13 (fun c b => We13 m c b) c)
    unfold Pipeline.ΦA
    iintro ⟨Hp, -, Hr⟩
    isplitl [Hr]; · iexact Hr
    iexact Hp
  hout c := by
    rw [Pipeline.ownSems0_none]
    refine (hout13 (fun c b => We13 m c b) c).trans ?_
    unfold Pipeline.ΦA
    iintro ⟨Hr, Hp⟩
    isplitl [Hp]; · iexact Hp
    isplitr; · iempintro
    iexact Hr
  hexit c := by
    have hjoin := Pipeline.unscopedBufs_of_arrays (p := 13) (pcfgs (F := F)) Gen.adm (Ix := Unit) (Name := ℕ) (U := UR sig nD τ) (Lvl := ℕ)
      launch13.win launch13.arr_whole c (pdats m) ((pdats m 13 c).share_full fun _ => rfl)
      (fun b => We13 m c b) (fun b => Wl13 m c b) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.FrameI.lean ====
/-
  The frame of the program: the fifteen host stretches and the fourteen region segments chained from the launch to the
  return; at the launch every core's generator register and dues make the state that rides beside the buffers, at the
  end nothing is owed, and no item has written an argument array.
-/
import proofs.«108570_j29480655520371_2_alg».proof.Proof.SegsI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The run -/

variable (ρ : Dev nD → PrngReg)

set_option backward.isDefEq.respectTransparency.types false in
/-- THE FRAME, at any float instance: from any memory with zero counters every weakly fair execution of the program
    terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Gen.frame_cond (F := F) m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      have hpt : ∀ c : Dev nD, (iprop(unscopedSems0 c ∗ owes (c : Thread nD τ) ((0 : Dev nD → CellTallies nD τ sig Unit) c) ∅
            ∗ Pipeline.launchCred (0 : Dev nD → CellTallies nD τ sig Unit) c ∗ prngReg c (ρ c) ∗ (BI.emp : sProp 𝕄)) : sProp 𝕄) ⊢ R c := fun c => by
        iintro ⟨-, HO, -, Hp, -⟩
        isplitl [Hp]; · iexists _; iexact Hp
        iexists ∅; iexact HO
      have hm : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ (BI.emp : sProp 𝕄)))
          ⊢ (bigSep Finset.univ (fun c : Dev nD => R c) : sProp 𝕄) := bigSep_mono fun c _ => hpt c
      iintro ⟨H, -⟩
      imodintro
      iapply hm
      iexact H)
    (fun c => by
      iintro ⟨-, HO⟩
      iexact HO)
    (reg0 m) (fun c => by rw [V1_eq]; exact .rfl) (fun c => by rw [V2_eq]; exact .rfl)
    (reg1 m) (fun c => by rw [V3_eq]; exact .rfl) (fun c => by rw [V4_eq]; exact .rfl)
    (reg2 m) (fun c => by rw [V5_eq]; exact .rfl) (fun c => by rw [V6_eq]; exact .rfl)
    (reg3 m) (fun c => by rw [V7_eq]; exact .rfl) (fun c => by rw [V8_eq]; exact .rfl)
    (reg4 m) (fun c => by rw [V9_eq]; exact .rfl) (fun c => by rw [V10_eq]; exact .rfl)
    (reg5 m) (fun c => by rw [V11_eq]; exact .rfl) (fun c => by rw [V12_eq]; exact .rfl)
    (reg6 m) (fun c => by rw [V13_eq]; exact .rfl) (fun c => by rw [V14_eq]; exact .rfl)
    (reg7 m) (fun c => by rw [V15_eq]; exact .rfl) (fun c => by rw [V16_eq]; exact .rfl)
    (reg8 m) (fun c => by rw [V17_eq]; exact .rfl) (fun c => by rw [V18_eq]; exact .rfl)
    (reg9 m) (fun c => by rw [V19_eq]; exact .rfl) (fun c => by rw [V20_eq]; exact .rfl)
    (reg10 m) (fun c => by rw [V21_eq]; exact .rfl) (fun c => by rw [V22_eq]; exact .rfl)
    (reg11 m) (fun c => by rw [V23_eq]; exact .rfl) (fun c => by rw [V24_eq]; exact .rfl)
    (reg12 m) (fun c => by rw [V25_eq]; exact .rfl) (fun c => by rw [V26_eq]; exact .rfl)
    (reg13 m) (fun c => by rw [V27_eq]; exact .rfl) (fun c => by rw [V28_eq]; exact .rfl)

end Cert.KernelIdeal.Hand

end
-- ==== Proof.RegI0Acc.lean ====
/-
  Region 0, its values for any float instance: what each case's stores read back as, in terms of the body's
  arithmetic; and the accumulator after every grid point as a recursion over the points (started afresh, from the
  zero vector, at the first column block of each row block, continued otherwise).
-/
import proofs.«108570_j29480655520371_2_alg».proof.Proof.RegI0Frame
import Idealize.ShloMosaic.Lib.Pipeline.Value
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

theorem hz2_0 : (![0, 0] : Fin 2 → Nat) = fun _ => 0 := funext fun a => by fin_cases a <;> rfl

/-- Case A leaves in the accumulator the first block product added to the zero vector. -/
theorem soutA_eq0 (c : Dev nD) (i : grid0.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond0_0 i) (hc1 : ¬cond0_1 i) (x0 : Vec F S2048x2048 .bf16) (x1 : Vec F S2048x16 .bf16) (x2 : Vec F S2048x16 .f32) :
    sout0_A_0 (F := F) c i arg2 harg2 arg3 harg3 arg4 harg4 arg5 harg5 arg6 harg6 arg7 harg7 hc0 hc1 x0 x1 x2 = k0_pay2 (k0_pay1) x0 x1 := by
  have hz2 := hz2_0
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  try sl_unfold_words
  rw [View.canon_cons_unit_zero hz2, View.readCov_unit_zero (S := S2048x16) _ hz2]
  simp only [View.readAt_eq_ld, harg2.read_unread, harg3.read_unread, harg4.read_unread, harg7.read_unread, View.ld_unit_zero (S := S2048x2048) hz2, View.ld_unit_zero (S := S2048x16) hz2]

/-- Case B leaves in the accumulator what it held plus this point's block product. -/
theorem soutB_eq0 (c : Dev nD) (i : grid0.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond0_0 i) (hc1 : ¬cond0_1 i) (x0 : Vec F S2048x2048 .bf16) (x1 : Vec F S2048x16 .bf16) (x2 : Vec F S2048x16 .f32) (xs0 : Vec F S2048x16 .f32) :
    sout0_B_0 (F := F) c i arg2 harg2 arg3 harg3 arg4 harg4 arg5 harg5 arg6 harg6 arg7 harg7 hc0 hc1 x0 x1 x2 xs0 = k0_pay2 xs0 x0 x1 := by
  have hz2 := hz2_0
  unfold sout0_B_0
  rw [View.read_writes_eq_canon _ _ _ (scover0_B_0 c i arg2 harg2 arg3 harg3 arg4 harg4 arg5 harg5 arg6 harg6 arg7 harg7 hc0 hc1 x0 x1 x2 xs0)]
  unfold kernelRun0_B
  dsimp only
  try sl_unfold_words
  rw [View.canon_unit_zero hz2]
  simp only [View.readAt_eq_ld, harg2.read_unread, harg3.read_unread, harg4.read_unread, harg7.read_unread, View.ld_unit_zero (S := S2048x2048) hz2, View.ld_unit_zero (S := S2048x16) hz2]

/-- Case C leaves in the accumulator what it held plus the last block product, -/
theorem soutC_eq0 (c : Dev nD) (i : grid0.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond0_0 i) (hc1 : cond0_1 i) (x0 : Vec F S2048x2048 .bf16) (x1 : Vec F S2048x16 .bf16) (x2 : Vec F S2048x16 .f32) (xs0 : Vec F S2048x16 .f32) :
    sout0_C_0 (F := F) c i arg2 harg2 arg3 harg3 arg4 harg4 arg5 harg5 arg6 harg6 arg7 harg7 hc0 hc1 x0 x1 x2 xs0 = k0_pay2 xs0 x0 x1 := by
  have hz2 := hz2_0
  unfold sout0_C_0
  rw [View.read_writes_eq_canon _ _ _ (scover0_C_0 c i arg2 harg2 arg3 harg3 arg4 harg4 arg5 harg5 arg6 harg6 arg7 harg7 hc0 hc1 x0 x1 x2 xs0)]
  unfold kernelRun0_C
  dsimp only
  try sl_unfold_words
  rw [View.canon_unit_zero hz2]
  simp only [View.readAt_eq_ld, harg2.read_unread, harg3.read_unread, harg4.read_unread, harg7.read_unread, View.ld_unit_zero (S := S2048x2048) hz2, View.ld_unit_zero (S := S2048x16) hz2]

/-- in the f32 result block the combination of that accumulator and the block of the earlier vector, -/
theorem outC3_eq0 (c : Dev nD) (i : grid0.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond0_0 i) (hc1 : cond0_1 i) (x0 : Vec F S2048x2048 .bf16) (x1 : Vec F S2048x16 .bf16) (x2 : Vec F S2048x16 .f32) (xs0 : Vec F S2048x16 .f32) :
    out0_C_3 (F := F) c i arg2 harg2 arg3 harg3 arg4 harg4 arg5 harg5 arg6 harg6 arg7 harg7 hc0 hc1 x0 x1 x2 xs0 = k0_pay3 (k0_pay2 xs0 x0 x1) x2 := by
  have hz2 := hz2_0
  unfold out0_C_3
  rw [View.read_writes_eq_canon _ _ _ (cover0_C_3 c i arg2 harg2 arg3 harg3 arg4 harg4 arg5 harg5 arg6 harg6 arg7 harg7 hc0 hc1 x0 x1 x2 xs0)]
  unfold kernelRun0_C
  dsimp only
  try sl_unfold_words
  rw [View.canon_unit_zero hz2, View.readCov_unit_zero (S := S2048x16) _ hz2]
  simp only [View.readAt_eq_ld, harg2.read_unread, harg3.read_unread, harg4.read_unread, harg7.read_unread, View.ld_unit_zero (S := S2048x2048) hz2, View.ld_unit_zero (S := S2048x16) hz2]

/-- and in the bf16 result block the same combination in the narrower format. -/
theorem outC4_eq0 (c : Dev nD) (i : grid0.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond0_0 i) (hc1 : cond0_1 i) (x0 : Vec F S2048x2048 .bf16) (x1 : Vec F S2048x16 .bf16) (x2 : Vec F S2048x16 .f32) (xs0 : Vec F S2048x16 .f32) :
    out0_C_4 (F := F) c i arg2 harg2 arg3 harg3 arg4 harg4 arg5 harg5 arg6 harg6 arg7 harg7 hc0 hc1 x0 x1 x2 xs0 = k0_pay4 (k0_pay2 xs0 x0 x1) x2 := by
  have hz2 := hz2_0
  unfold out0_C_4
  rw [View.read_writes_eq_canon _ _ _ (cover0_C_4 c i arg2 harg2 arg3 harg3 arg4 harg4 arg5 harg5 arg6 harg6 arg7 harg7 hc0 hc1 x0 x1 x2 xs0)]
  unfold kernelRun0_C
  dsimp only
  try sl_unfold_words
  rw [View.canon_unit_zero hz2, View.readCov_unit_zero (S := S2048x16) _ hz2]
  simp only [View.readAt_eq_ld, harg2.read_unread, harg3.read_unread, harg4.read_unread, harg7.read_unread, View.ld_unit_zero (S := S2048x2048) hz2, View.ld_unit_zero (S := S2048x16) hz2]

/-- The accumulator after the body at position `n`: started from the zero vector at the first column block of a
    row block, continued from the position before otherwise. -/
def acc0 (c : Dev nD) : (n : ℕ) → n < cfg0.N → Vec F S2048x16 .f32
  | 0, hn => k0_pay2 (k0_pay1) (iblk0 V c 0 ⟨0, hn⟩) (iblk0 V c 1 ⟨0, hn⟩)
  | n + 1, hn =>
    if (n + 1) % 8 = 0 then k0_pay2 (k0_pay1) (iblk0 V c 0 ⟨n + 1, hn⟩) (iblk0 V c 1 ⟨n + 1, hn⟩)
    else k0_pay2 (acc0 c n (Nat.lt_of_succ_lt hn)) (iblk0 V c 0 ⟨n + 1, hn⟩) (iblk0 V c 1 ⟨n + 1, hn⟩)

theorem acc0_zero (c : Dev nD) (hn : 0 < cfg0.N) :
    acc0 V c 0 hn = k0_pay2 (k0_pay1) (iblk0 V c 0 ⟨0, hn⟩) (iblk0 V c 1 ⟨0, hn⟩) := rfl
theorem acc0_succ (c : Dev nD) (n : ℕ) (hn : n + 1 < cfg0.N) :
    acc0 V c (n + 1) hn = if (n + 1) % 8 = 0 then k0_pay2 (k0_pay1) (iblk0 V c 0 ⟨n + 1, hn⟩) (iblk0 V c 1 ⟨n + 1, hn⟩)
      else k0_pay2 (acc0 V c n (Nat.lt_of_succ_lt hn)) (iblk0 V c 0 ⟨n + 1, hn⟩) (iblk0 V c 1 ⟨n + 1, hn⟩) := rfl

/-- The frame's point-by-point accumulator is that recursion. -/
theorem scr_eq0 (c : Dev nD) : ∀ (n : ℕ) (hn : n < cfg0.N), (outsAt0 V c n hn).2.2 = acc0 V c n hn
  | 0, hn => by
    have e := outsAt0_A V c ⟨0, hn⟩ (Nat.zero_mod _) (fun h => absurd (show (0 : ℕ) % 8 = 7 from h) (show ¬((0 : ℕ) % 8 = 7) by decide))
    rw [show outsAt0 V c 0 hn = _ from e, acc0_zero]
    dsimp only
    exact soutA_eq0 ..
  | n + 1, hn => by
    by_cases h0 : (n + 1) % 8 = 0
    · have h1 : ¬(n + 1) % 8 = 7 := by omega
      have e := outsAt0_A V c ⟨n + 1, hn⟩ h0 h1
      rw [show outsAt0 V c (n + 1) hn = _ from e]
      rw [acc0_succ, if_pos h0]
      dsimp only
      exact soutA_eq0 ..
    · by_cases h1 : (n + 1) % 8 = 7
      · have e := outsAt0_C V c ⟨n + 1, hn⟩ h0 h1
        rw [show outsAt0 V c (n + 1) hn = _ from e]
        rw [acc0_succ, if_neg h0]
        dsimp only
        rw [soutC_eq0]
        exact congrArg (fun a => k0_pay2 a _ _) (scr_eq0 c n (Nat.lt_of_succ_lt hn))
      · have e := outsAt0_B V c ⟨n + 1, hn⟩ h0 h1
        rw [show outsAt0 V c (n + 1) hn = _ from e]
        rw [acc0_succ, if_neg h0]
        dsimp only
        rw [soutB_eq0]
        exact congrArg (fun a => k0_pay2 a _ _) (scr_eq0 c n (Nat.lt_of_succ_lt hn))

/-- At a point that stores (k = 7) the f32 result block holds the combination of the accumulator and the block of
    the earlier vector, -/
theorem out3_eq0 (c : Dev nD) (t : Fin cfg0.N) (h1 : t.val % 8 = 7) :
    (outsAt0 V c t.val t.isLt).1 = k0_pay3 (acc0 V c t.val t.isLt) (iblk0 V c 2 t) := by
  have h0 : ¬t.val % 8 = 0 := by omega
  have hz : t.val ≠ 0 := fun h => by rw [h] at h1; exact absurd h1 (by decide)
  rw [outsAt0_C V c t h0 h1]
  dsimp only
  rw [outC3_eq0]
  obtain ⟨n, hn⟩ := t
  cases n with
  | zero => exact absurd rfl hz
  | succ n =>
    rw [acc0_succ, if_neg h0]
    exact congrArg (fun a => k0_pay3 (k0_pay2 a _ _) _) (scr_eq0 V c n (Nat.lt_of_succ_lt hn))

/-- and the bf16 result block the same in the narrower format. -/
theorem out4_eq0 (c : Dev nD) (t : Fin cfg0.N) (h1 : t.val % 8 = 7) :
    (outsAt0 V c t.val t.isLt).2.1 = k0_pay4 (acc0 V c t.val t.isLt) (iblk0 V c 2 t) := by
  have h0 : ¬t.val % 8 = 0 := by omega
  have hz : t.val ≠ 0 := fun h => by rw [h] at h1; exact absurd h1 (by decide)
  rw [outsAt0_C V c t h0 h1]
  dsimp only
  rw [outC4_eq0]
  obtain ⟨n, hn⟩ := t
  cases n with
  | zero => exact absurd rfl hz
  | succ n =>
    rw [acc0_succ, if_neg h0]
    exact congrArg (fun a => k0_pay4 (k0_pay2 a _ _) _) (scr_eq0 V c n (Nat.lt_of_succ_lt hn))

end Cert.KernelIdeal.Hand

end
-- ==== Proof.ChebBlock.lean ====
/-
  The arithmetic of one grid point of a region, at the extended reals, and the law that joins the kernel's blocked
  accumulation to one whole matrix product.
  One point adds to the accumulator, entry (p, q), the block product  Σ_j L(p, j) · v(j, q)  over the 2048 columns j of
  its block of the matrix. Eight consecutive points of a row block therefore leave, from zero,
  ((0 + S₀) + S₁) + … + S₇  with  S_k = Σ_j L(p, 2048·k + j) · v(2048·k + j, q),  which is the whole sum over the 16384
  columns: a finite sum of extended reals may be regrouped (addition is commutative and associative there).
  The stored combination is  α · a − β · b  entry by entry, with (α, β) = (1, 0) in the first region and (2, 1) in the others.
-/
import proofs.«108570_j29480655520371_2_alg».proof.Proof.Gen.KernelIdeal.Skeleton
import Idealize.ShloMosaic.PureOps.Ideal.Laws
import Idealize.ShloMosaic.Lib.ValueIdx
import Idealize.ShloMosaic.Lib.Pipeline.Value
import Mathlib.Algebra.BigOperators.Fin
import Mathlib.Algebra.BigOperators.Intervals

noncomputable section

namespace Cert.KernelIdeal.Hand

open Cert.KernelIdeal Cert.KernelIdeal.Gen Idealize.ShloMosaic Idealize.ShloMosaic.ValueIdx

/-- The word of 1.0 denotes the real one. -/
theorem ofBits_one : Ideal.ofBits .f32 0x3F800000#32 = 1 := by
  simp [Ideal.ofBits, Ideal.ieee, -EReal.coe_mul]; norm_num

/-- The block product's dimension numbers: rows of the left block against columns of the right one. -/
abbrev dotB : DotDims S2048x2048 S2048x16 S2048x16 := dot_S2048x2048_S2048x16_S2048x16_1_0_0_1_n_n

theorem dotB_lhs_0 (i : S2048x16.Idx) (q : dotB.contr.Idx) : (dotB.lhsIdx i q 0).val = (i 0).val := by
  unfold DotDims.lhsIdx
  rw [dif_neg (show ¬(0 : Fin S2048x2048.rank) ∈ dotB.lhsBatch by decide), dif_pos (show (0 : Fin S2048x2048.rank) ∈ dotB.lhsNonContracting by decide)]
  rfl
theorem dotB_lhs_1 (i : S2048x16.Idx) (q : dotB.contr.Idx) : (dotB.lhsIdx i q 1).val = (q ⟨0, by decide⟩).val :=
  dotB.lhsIdx_val_of_single rfl i q
theorem dotB_rhs_0 (i : S2048x16.Idx) (q : dotB.contr.Idx) : (dotB.rhsIdx i q 0).val = (q ⟨0, by decide⟩).val :=
  dotB.rhsIdx_val_of_single rfl i q
theorem dotB_rhs_1 (i : S2048x16.Idx) (q : dotB.contr.Idx) : (dotB.rhsIdx i q 1).val = (i 1).val := by
  unfold DotDims.rhsIdx
  rw [dif_neg (show ¬(1 : Fin S2048x16.rank) ∈ dotB.rhsBatch by decide), dif_pos (show (1 : Fin S2048x16.rank) ∈ dotB.rhsNonContracting by decide)]
  rfl

/-- The block product into a zero accumulator, read at an entry: the sum over the block's 2048 columns. -/
theorem blockProduct_apply (x0 : FVec Ideal S2048x2048 .bf16) (x1 : FVec Ideal S2048x16 .bf16) (p : Fin 2048) (q : Fin 16) :
    FloatOps.matmul dotB none x0 x1 (constant S2048x16 .f32 0x00000000#32) (ix2 p q)
      = ∑ j : Fin 2048, x0 (ix2 p j) * x1 (ix2 j q) := by
  rw [Ideal.matmul_constant_zero_apply, ← Equiv.sum_comp (contrEquiv1 dotB 2048 rfl rfl).symm]
  refine Finset.sum_congr rfl fun k _ => ?_
  have hk := contrEquiv1_symm_val dotB 2048 rfl rfl k
  have el : dotB.lhsIdx (ix2 p q) ((contrEquiv1 dotB 2048 rfl rfl).symm k) = ix2 p k := funext fun a => Fin.ext (by
    match a with
    | ⟨0, _⟩ => exact dotB_lhs_0 _ _
    | ⟨1, _⟩ => exact (dotB_lhs_1 _ _).trans hk)
  have er : dotB.rhsIdx (ix2 p q) ((contrEquiv1 dotB 2048 rfl rfl).symm k) = ix2 k q := funext fun a => Fin.ext (by
    match a with
    | ⟨0, _⟩ => exact (dotB_rhs_0 _ _).trans hk
    | ⟨1, _⟩ => exact dotB_rhs_1 _ _)
  rw [el, er]

/-- The zero the accumulator is started from. -/
theorem pay1_apply (i : S2048x16.Idx) : (k0_pay1 (F := Ideal)) i = 0 := by
  unfold k0_pay1
  simp only [shapeCast_self]
  exact Ideal.ofBits_zero_f32

/-- One point's accumulation at an entry: what the accumulator held plus the block product. -/
theorem pay2_apply (xs : Vec Ideal S2048x16 .f32) (x0 : Vec Ideal S2048x2048 .bf16) (x1 : Vec Ideal S2048x16 .bf16) (p : Fin 2048) (q : Fin 16) :
    k0_pay2 xs x0 x1 (ix2 p q) = xs (ix2 p q) + ∑ j : Fin 2048, x0 (ix2 p j) * x1 (ix2 j q) := by
  unfold k0_pay2
  simp only [shapeCast_self]
  show xs (ix2 p q) + FloatOps.matmul (F := Ideal) dotB none x0 x1 (constant (F := Ideal) S2048x16 .f32 0x00000000#32) (ix2 p q) = _
  rw [blockProduct_apply]

/-- The first region's stored combination is the accumulator itself: 1 · a − 0 · b. -/
theorem pay3_first_apply (a b : Vec Ideal S2048x16 .f32) (i : S2048x16.Idx) : k0_pay3 a b i = a i := by
  unfold k0_pay3
  show Ideal.ofBits .f32 0x3F800000#32 * a i - Ideal.ofBits .f32 0x00000000#32 * b i = a i
  rw [ofBits_one, Ideal.ofBits_zero_f32, one_mul, zero_mul, sub_zero]

/-- The other regions' stored combination: twice the accumulator less the earlier vector. -/
theorem pay3_step_apply (a b : Vec Ideal S2048x16 .f32) (i : S2048x16.Idx) :
    k1_pay3 a b i = Ideal.ofBits .f32 0x40000000#32 * a i - b i := by
  unfold k1_pay3
  show Ideal.ofBits .f32 0x40000000#32 * a i - Ideal.ofBits .f32 0x3F800000#32 * b i = _
  rw [ofBits_one, one_mul]

/-- Eight block sums added one after the other from zero are the sum over all 8 · 2048 columns. -/
theorem blocks_sum (f : ℕ → EReal) :
    (((((((((0 : EReal) + ∑ j : Fin 2048, f (2048 * 0 + j.val)) + ∑ j : Fin 2048, f (2048 * 1 + j.val)) + ∑ j : Fin 2048, f (2048 * 2 + j.val))
      + ∑ j : Fin 2048, f (2048 * 3 + j.val)) + ∑ j : Fin 2048, f (2048 * 4 + j.val)) + ∑ j : Fin 2048, f (2048 * 5 + j.val))
      + ∑ j : Fin 2048, f (2048 * 6 + j.val)) + ∑ j : Fin 2048, f (2048 * 7 + j.val))
      = ∑ j : Fin 16384, f j.val := by
  have h : ∀ k : ℕ, ∑ j : Fin 2048, f (2048 * k + j.val) = ∑ j ∈ Finset.range 2048, f (2048 * k + j) := fun k =>
    (Finset.sum_range (fun j => f (2048 * k + j))).symm
  have h16 : ∑ j : Fin 16384, f j.val = ∑ j ∈ Finset.range 16384, f j := (Finset.sum_range f).symm
  rw [h16]
  simp only [h, zero_add]
  rw [show (16384 : ℕ) = ((((((2048 + 2048) + 2048) + 2048) + 2048) + 2048) + 2048) + 2048 from rfl]
  simp only [Finset.sum_range_add]
  norm_num

theorem hz2 : (![0, 0] : Fin 2 → Nat) = fun _ => 0 := funext fun a => by fin_cases a <;> rfl

/-- An array of rank two read at natural-number coordinates (zero outside its extents: never consulted). -/
def at2 {n0 n1 : ℕ} (X : (⟨2, ![n0, n1]⟩ : Shape).Idx → EReal) (a b : ℕ) : EReal :=
  if h : a < n0 ∧ b < n1 then X (ix2 ⟨a, h.1⟩ ⟨b, h.2⟩) else 0

theorem at2_ix2 {n0 n1 : ℕ} (X : (⟨2, ![n0, n1]⟩ : Shape).Idx → EReal) (a : Fin n0) (b : Fin n1) :
    at2 X a.val b.val = X (ix2 a b) := by
  unfold at2; rw [dif_pos ⟨a.isLt, b.isLt⟩]

theorem at2_idx {n0 n1 : ℕ} (X : (⟨2, ![n0, n1]⟩ : Shape).Idx → EReal) (i : (⟨2, ![n0, n1]⟩ : Shape).Idx) :
    at2 X (i 0).val (i 1).val = X i := by
  rw [at2_ix2 X (i 0) (i 1)]
  exact congrArg X (eq_ix2 i).symm

/-- Terms added one after the other, from zero. -/
def psum (g : ℕ → EReal) : ℕ → EReal
  | 0 => 0 + g 0
  | k + 1 => psum g k + g (k + 1)

theorem psum_zero (g : ℕ → EReal) : psum g 0 = 0 + g 0 := rfl
theorem psum_succ (g : ℕ → EReal) (k : ℕ) : psum g (k + 1) = psum g k + g (k + 1) := rfl

/-- Entry (a, q) of the whole product of a 16384 × 16384 matrix and a 16384 × 16 one. -/
def prodAt (L : (⟨2, ![16384, 16384]⟩ : Shape).Idx → EReal) (v : (⟨2, ![16384, 16]⟩ : Shape).Idx → EReal) (a q : ℕ) : EReal :=
  ∑ j : Fin 16384, at2 L a j.val * at2 v j.val q

/-- The eight block products of a row, added in the grid's order from zero, are the whole product's entry. -/
theorem psum_blocks (L : (⟨2, ![16384, 16384]⟩ : Shape).Idx → EReal) (v : (⟨2, ![16384, 16]⟩ : Shape).Idx → EReal) (a q : ℕ) :
    psum (fun k => ∑ j : Fin 2048, at2 L a (2048 * k + j.val) * at2 v (2048 * k + j.val) q) 7 = prodAt L v a q :=
  blocks_sum (fun j => at2 L a j * at2 v j q)

end Cert.KernelIdeal.Hand

end
-- ==== Proof.RegI0Value.lean ====
/-
  Region 0 at the extended reals: its two result arrays end holding the product  Ls · v  of the arrays the
  region finds in its three input windows (Ls the matrix, v the vector).
  A point t = 8·r + k reads block (r, k) of the matrix, block k of the vector and block r of the earlier vector. After
  it the accumulator's entry (p, q) is the block products of row 2048·r + p for column blocks 0 … k added in order from
  zero; the point k = 7 stores 1 · a − 0 · b = a  of the accumulator a and the earlier vector's block b into both result
  blocks, which are then written back; the eight block products are the whole product's entry (`psum_blocks`), and the
  storing points' blocks cover the array.
-/
import proofs.«108570_j29480655520371_2_alg».proof.Proof.RegI0Acc
import proofs.«108570_j29480655520371_2_alg».proof.Proof.ChebBlock

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)

variable (V : (c : Dev nD) → (b : Ref sig .tc) → Buf (Elt Ideal) ((c : Thread nD τ).loc b))

/-- The matrix, the vector and the earlier vector as the region finds them in its input windows' arrays. -/
abbrev L0 (c : Dev nD) : S16384x16384.Idx → EReal := V c (Pipeline.arrRef spec0 0)
abbrev v0 (c : Dev nD) : S16384x16.Idx → EReal := V c (Pipeline.arrRef spec0 1)
abbrev p0 (c : Dev nD) : S16384x16.Idx → EReal := V c (Pipeline.arrRef spec0 2)

/-- The matrix block at point t = 8·r + k is rows 2048·r …, columns 2048·k … of the matrix. -/
theorem blk0_apply0 (c : Dev nD) (t : Fin cfg0.N) (p j : Fin 2048) :
    (iblk0 V c 0 t : Vec Ideal S2048x2048 .bf16) (ix2 p j) = at2 (L0 V c) (2048 * (t.val / 8) + p.val) (2048 * (t.val % 8) + j.val) := by
  have hi := (by decide +kernel : ∀ t : Fin grid0.N, win0_0.index t (0 : Fin 2) = t.val / 8 ∧ win0_0.index t (1 : Fin 2) = t.val % 8) t
  have hN : t.val < 64 := lt_of_lt_of_eq t.isLt N_0
  have hb : 2048 * (t.val / 8) + p.val < 16384 ∧ 2048 * (t.val % 8) + j.val < 16384 := ⟨by omega, by omega⟩
  unfold at2; rw [dif_pos hb]
  unfold iblk0
  rw [View.read_apply]
  show V c (Pipeline.arrRef spec0 0) _ = V c (Pipeline.arrRef spec0 0) _
  refine congrArg _ (funext fun a => Fin.ext ?_)
  match a with
  | ⟨0, _⟩ => show win0_0.index t (0 : Fin 2) * 2048 + 1 * p.val = 2048 * (t.val / 8) + p.val; rw [hi.1]; omega
  | ⟨1, _⟩ => show win0_0.index t (1 : Fin 2) * 2048 + 1 * j.val = 2048 * (t.val % 8) + j.val; rw [hi.2]; omega

/-- The vector block at point t = 8·r + k is rows 2048·k … of the vector. -/
theorem blk1_apply0 (c : Dev nD) (t : Fin cfg0.N) (j : Fin 2048) (q : Fin 16) :
    (iblk0 V c 1 t : Vec Ideal S2048x16 .bf16) (ix2 j q) = at2 (v0 V c) (2048 * (t.val % 8) + j.val) q.val := by
  have hi := (by decide +kernel : ∀ t : Fin grid0.N, win0_1.index t (0 : Fin 2) = t.val % 8 ∧ win0_1.index t (1 : Fin 2) = 0) t
  have hN : t.val < 64 := lt_of_lt_of_eq t.isLt N_0
  have hb : 2048 * (t.val % 8) + j.val < 16384 ∧ q.val < 16 := ⟨by omega, q.isLt⟩
  unfold at2; rw [dif_pos hb]
  unfold iblk0
  rw [View.read_apply]
  show V c (Pipeline.arrRef spec0 1) _ = V c (Pipeline.arrRef spec0 1) _
  refine congrArg _ (funext fun a => Fin.ext ?_)
  match a with
  | ⟨0, _⟩ => show win0_1.index t (0 : Fin 2) * 2048 + 1 * j.val = 2048 * (t.val % 8) + j.val; rw [hi.1]; omega
  | ⟨1, _⟩ => show win0_1.index t (1 : Fin 2) * 16 + 1 * q.val = q.val; rw [hi.2]; omega

/-- The earlier vector's block at point t = 8·r + k is its rows 2048·r …. -/
theorem blk2_apply0 (c : Dev nD) (t : Fin cfg0.N) (p : Fin 2048) (q : Fin 16) :
    (iblk0 V c 2 t : Vec Ideal S2048x16 .f32) (ix2 p q) = at2 (p0 V c) (2048 * (t.val / 8) + p.val) q.val := by
  have hi := (by decide +kernel : ∀ t : Fin grid0.N, win0_2.index t (0 : Fin 2) = t.val / 8 ∧ win0_2.index t (1 : Fin 2) = 0) t
  have hN : t.val < 64 := lt_of_lt_of_eq t.isLt N_0
  have hb : 2048 * (t.val / 8) + p.val < 16384 ∧ q.val < 16 := ⟨by omega, q.isLt⟩
  unfold at2; rw [dif_pos hb]
  unfold iblk0
  rw [View.read_apply]
  show V c (Pipeline.arrRef spec0 2) _ = V c (Pipeline.arrRef spec0 2) _
  refine congrArg _ (funext fun a => Fin.ext ?_)
  match a with
  | ⟨0, _⟩ => show win0_2.index t (0 : Fin 2) * 2048 + 1 * p.val = 2048 * (t.val / 8) + p.val; rw [hi.1]; omega
  | ⟨1, _⟩ => show win0_2.index t (1 : Fin 2) * 16 + 1 * q.val = q.val; rw [hi.2]; omega

/-- The block product of row `a` and column `q` over column block `k`. -/
abbrev g0 (c : Dev nD) (a q : ℕ) : ℕ → EReal :=
  fun k => ∑ j : Fin 2048, at2 (L0 V c) a (2048 * k + j.val) * at2 (v0 V c) (2048 * k + j.val) q

/-- One point's accumulation, at an entry. -/
theorem step_apply0 (c : Dev nD) (xs : Vec Ideal S2048x16 .f32) (t : Fin cfg0.N) (p : Fin 2048) (q : Fin 16) :
    k0_pay2 xs (iblk0 V c 0 t) (iblk0 V c 1 t) (ix2 p q)
      = xs (ix2 p q) + g0 V c (2048 * (t.val / 8) + p.val) q.val (t.val % 8) := by
  refine (pay2_apply xs (iblk0 V c 0 t) (iblk0 V c 1 t) p q).trans ?_
  refine congrArg (xs (ix2 p q) + ·) (Finset.sum_congr rfl fun j _ => ?_)
  rw [blk0_apply0 V c t p j, blk1_apply0 V c t j q]

/-- The accumulator after position `n` = 8·r + k, at an entry: the block products of its row for column blocks
    0 … k, added in order from zero. -/
theorem acc_apply0 (c : Dev nD) : ∀ (n : ℕ) (hn : n < cfg0.N) (p : Fin 2048) (q : Fin 16),
    acc0 V c n hn (ix2 p q) = psum (g0 V c (2048 * (n / 8) + p.val) q.val) (n % 8)
  | 0, hn, p, q => by
    rw [acc0_zero]
    refine (step_apply0 V c _ ⟨0, hn⟩ p q).trans ?_
    rw [show (k0_pay1 (F := Ideal)) (ix2 p q) = 0 from pay1_apply _]
    rfl
  | n + 1, hn, p, q => by
    rw [acc0_succ]
    by_cases h0 : (n + 1) % 8 = 0
    · rw [if_pos h0]
      refine (step_apply0 V c _ ⟨n + 1, hn⟩ p q).trans ?_
      rw [show (k0_pay1 (F := Ideal)) (ix2 p q) = 0 from pay1_apply _]
      show 0 + g0 V c (2048 * ((n + 1) / 8) + p.val) q.val ((n + 1) % 8) = psum _ ((n + 1) % 8)
      rw [h0]; rfl
    · rw [if_neg h0]
      refine (step_apply0 V c _ ⟨n + 1, hn⟩ p q).trans ?_
      rw [acc_apply0 c n (Nat.lt_of_succ_lt hn) p q]
      have e1 : (n + 1) % 8 = n % 8 + 1 := by omega
      have e2 : (n + 1) / 8 = n / 8 := by omega
      show psum _ (n % 8) + g0 V c (2048 * ((n + 1) / 8) + p.val) q.val ((n + 1) % 8) = psum _ ((n + 1) % 8)
      rw [e1, e2]; rfl

/-- The new vector: the product of the matrix and the vector. -/
def new0 (c : Dev nD) : S16384x16.Idx → EReal := fun i => prodAt (L0 V c) (v0 V c) (i 0).val (i 1).val

/-- What a storing point (k = 7) puts at entry (p, q) of the result blocks is the new vector at row 2048·r + p. -/
theorem out_apply0 (c : Dev nD) (t : Fin cfg0.N) (h1 : t.val % 8 = 7) (p : Fin 2048) (q : Fin 16) (a : Fin 16384)
    (ha : a.val = 2048 * (t.val / 8) + p.val) :
    k0_pay3 (acc0 V c t.val t.isLt) (iblk0 V c 2 t) (ix2 p q) = new0 V c (ix2 a q) := by
  rw [pay3_first_apply, acc_apply0 V c t.val t.isLt p q, h1, psum_blocks]
  show prodAt _ _ _ _ = prodAt _ _ a.val q.val
  rw [ha]

/-- What a storing point (k = 7) writes back through result window 3 is its block of the new vector. -/
theorem flushed0_3 (c : Dev nD) (t : Fin cfg0.N) (hf : (cfg0.win 3).flush t = true) :
    (dat0 V c).flushed 3 t = ((cfg0.win 3).blk t).view.read (Elt Ideal) (new0 V c) := by
  have h1 : t.val % 8 = 7 := (flush0_3 t).mp hf
  have hN : t.val < 64 := lt_of_lt_of_eq t.isLt N_0
  have hi := (by decide +kernel : ∀ t : Fin grid0.N, win0_3.index t (0 : Fin 2) = t.val / 8 ∧ win0_3.index t (1 : Fin 2) = 0) t
  show (cfg0.win 3).cut (grid0.coords t) ((dat0 V c).after 3 t) = _
  rw [after0_3, out3_eq0 V c t h1]
  funext y
  have hy0 : (y 0).val < 2048 := (y 0).isLt
  have hy1 : (y 1).val < 16 := (y 1).isLt
  show k0_pay3 (acc0 V c t.val t.isLt) (iblk0 V c 2 t) ((cfg0.win 3).xinj (grid0.coords t) y) = ((cfg0.win 3).blk t).view.read (Elt Ideal) (new0 V c) y
  rw [View.read_apply, cast_eq]
  obtain ⟨r, hr⟩ : ∃ r : Fin 16384, r.val = 2048 * (t.val / 8) + (y 0).val := ⟨⟨2048 * (t.val / 8) + (y 0).val, by omega⟩, rfl⟩
  have hemb : ((cfg0.win 3).blk t).view.emb y = ix2 r (⟨(y 1).val, hy1⟩ : Fin 16) :=
    funext fun a => Fin.ext (by
      match a with
      | ⟨0, _⟩ => show win0_3.index t (0 : Fin 2) * 2048 + 1 * (y 0).val = r.val; rw [hr, hi.1]; omega
      | ⟨1, _⟩ => show win0_3.index t (1 : Fin 2) * 16 + 1 * (y 1).val = (y 1).val; rw [hi.2]; omega)
  have hy : (cfg0.win 3).xinj (grid0.coords t) y = ix2 (⟨(y 0).val, hy0⟩ : Fin 2048) (⟨(y 1).val, hy1⟩ : Fin 16) :=
    funext fun a => by match a with | ⟨0, _⟩ => rfl | ⟨1, _⟩ => rfl
  rw [hemb, hy]
  exact out_apply0 V c t h1 ⟨(y 0).val, hy0⟩ ⟨(y 1).val, hy1⟩ r hr

/-- An index of the array is in point `t`'s block of result window 3 iff each coordinate is in the block's range. -/
theorem mem_blk0_3 (t : Fin cfg0.N) (i : S16384x16.Idx) :
    i ∈ ((cfg0.win 3).blk t).view.set ↔ ∀ a : Fin 2, win0_3.index t a * S2048x16.size a ≤ (i a).val ∧ (i a).val < win0_3.index t a * S2048x16.size a + S2048x16.size a := by
  show i ∈ ((View.whole main_v11_0).slice (win0_3.rect t)).set ↔ _
  rw [View.set_slice_whole, Rect.mem_set_unit]
  exact Iff.rfl

/-- So result array 0 ends holding the new vector: row i is covered by the storing point of its row block. -/
theorem final0_3 (c : Dev nD) : (dat0 V c).arrAt 3 cfg0.N = new0 V c :=
  (dat0 V c).arrAt_eq_of_cover 3 (new0 V c) (fun t hf => flushed0_3 V c t hf) fun i => by
    have hi0 : (i 0).val < 16384 := (i 0).isLt
    have hi1 : (i 1).val < 16 := (i 1).isLt
    have ht : 8 * ((i 0).val / 2048) + 7 < cfg0.N := by rw [show cfg0.N = 64 from N_0]; omega
    have hx := (by decide +kernel : ∀ t : Fin grid0.N, win0_3.index t (0 : Fin 2) = t.val / 8 ∧ win0_3.index t (1 : Fin 2) = 0) ⟨8 * ((i 0).val / 2048) + 7, ht⟩
    refine ⟨⟨8 * ((i 0).val / 2048) + 7, ht⟩, (flush0_3 _).mpr (by show (8 * ((i 0).val / 2048) + 7) % 8 = 7; omega), ?_⟩
    rw [mem_blk0_3]
    intro a
    match a with
    | ⟨0, _⟩ =>
      show win0_3.index _ (0 : Fin 2) * 2048 ≤ (i 0).val ∧ (i 0).val < win0_3.index _ (0 : Fin 2) * 2048 + 2048
      rw [hx.1]; show (8 * ((i 0).val / 2048) + 7) / 8 * 2048 ≤ (i 0).val ∧ (i 0).val < (8 * ((i 0).val / 2048) + 7) / 8 * 2048 + 2048; omega
    | ⟨1, _⟩ =>
      show win0_3.index _ (1 : Fin 2) * 16 ≤ (i 1).val ∧ (i 1).val < win0_3.index _ (1 : Fin 2) * 16 + 16
      rw [hx.2]; omega

/-- What a storing point (k = 7) writes back through result window 4 is its block of the new vector. -/
theorem flushed0_4 (c : Dev nD) (t : Fin cfg0.N) (hf : (cfg0.win 4).flush t = true) :
    (dat0 V c).flushed 4 t = ((cfg0.win 4).blk t).view.read (Elt Ideal) (new0 V c) := by
  have h1 : t.val % 8 = 7 := (flush0_4 t).mp hf
  have hN : t.val < 64 := lt_of_lt_of_eq t.isLt N_0
  have hi := (by decide +kernel : ∀ t : Fin grid0.N, win0_4.index t (0 : Fin 2) = t.val / 8 ∧ win0_4.index t (1 : Fin 2) = 0) t
  show (cfg0.win 4).cut (grid0.coords t) ((dat0 V c).after 4 t) = _
  rw [after0_4, out4_eq0 V c t h1]
  funext y
  have hy0 : (y 0).val < 2048 := (y 0).isLt
  have hy1 : (y 1).val < 16 := (y 1).isLt
  show k0_pay3 (acc0 V c t.val t.isLt) (iblk0 V c 2 t) ((cfg0.win 4).xinj (grid0.coords t) y) = ((cfg0.win 4).blk t).view.read (Elt Ideal) (new0 V c) y
  rw [View.read_apply, cast_eq]
  obtain ⟨r, hr⟩ : ∃ r : Fin 16384, r.val = 2048 * (t.val / 8) + (y 0).val := ⟨⟨2048 * (t.val / 8) + (y 0).val, by omega⟩, rfl⟩
  have hemb : ((cfg0.win 4).blk t).view.emb y = ix2 r (⟨(y 1).val, hy1⟩ : Fin 16) :=
    funext fun a => Fin.ext (by
      match a with
      | ⟨0, _⟩ => show win0_4.index t (0 : Fin 2) * 2048 + 1 * (y 0).val = r.val; rw [hr, hi.1]; omega
      | ⟨1, _⟩ => show win0_4.index t (1 : Fin 2) * 16 + 1 * (y 1).val = (y 1).val; rw [hi.2]; omega)
  have hy : (cfg0.win 4).xinj (grid0.coords t) y = ix2 (⟨(y 0).val, hy0⟩ : Fin 2048) (⟨(y 1).val, hy1⟩ : Fin 16) :=
    funext fun a => by match a with | ⟨0, _⟩ => rfl | ⟨1, _⟩ => rfl
  rw [hemb, hy]
  exact out_apply0 V c t h1 ⟨(y 0).val, hy0⟩ ⟨(y 1).val, hy1⟩ r hr

/-- An index of the array is in point `t`'s block of result window 4 iff each coordinate is in the block's range. -/
theorem mem_blk0_4 (t : Fin cfg0.N) (i : S16384x16.Idx) :
    i ∈ ((cfg0.win 4).blk t).view.set ↔ ∀ a : Fin 2, win0_4.index t a * S2048x16.size a ≤ (i a).val ∧ (i a).val < win0_4.index t a * S2048x16.size a + S2048x16.size a := by
  show i ∈ ((View.whole main_v11_1).slice (win0_4.rect t)).set ↔ _
  rw [View.set_slice_whole, Rect.mem_set_unit]
  exact Iff.rfl

/-- So result array 1 ends holding the new vector: row i is covered by the storing point of its row block. -/
theorem final0_4 (c : Dev nD) : (dat0 V c).arrAt 4 cfg0.N = new0 V c :=
  (dat0 V c).arrAt_eq_of_cover 4 (new0 V c) (fun t hf => flushed0_4 V c t hf) fun i => by
    have hi0 : (i 0).val < 16384 := (i 0).isLt
    have hi1 : (i 1).val < 16 := (i 1).isLt
    have ht : 8 * ((i 0).val / 2048) + 7 < cfg0.N := by rw [show cfg0.N = 64 from N_0]; omega
    have hx := (by decide +kernel : ∀ t : Fin grid0.N, win0_4.index t (0 : Fin 2) = t.val / 8 ∧ win0_4.index t (1 : Fin 2) = 0) ⟨8 * ((i 0).val / 2048) + 7, ht⟩
    refine ⟨⟨8 * ((i 0).val / 2048) + 7, ht⟩, (flush0_4 _).mpr (by show (8 * ((i 0).val / 2048) + 7) % 8 = 7; omega), ?_⟩
    rw [mem_blk0_4]
    intro a
    match a with
    | ⟨0, _⟩ =>
      show win0_4.index _ (0 : Fin 2) * 2048 ≤ (i 0).val ∧ (i 0).val < win0_4.index _ (0 : Fin 2) * 2048 + 2048
      rw [hx.1]; show (8 * ((i 0).val / 2048) + 7) / 8 * 2048 ≤ (i 0).val ∧ (i 0).val < (8 * ((i 0).val / 2048) + 7) / 8 * 2048 + 2048; omega
    | ⟨1, _⟩ =>
      show win0_4.index _ (1 : Fin 2) * 16 ≤ (i 1).val ∧ (i 1).val < win0_4.index _ (1 : Fin 2) * 16 + 16
      rw [hx.2]; omega

end Cert.KernelIdeal.Hand

end
-- ==== Proof.RegI1Acc.lean ====
/-
  Region 1, its values for any float instance: what each case's stores read back as, in terms of the body's
  arithmetic; and the accumulator after every grid point as a recursion over the points (started afresh, from the
  zero vector, at the first column block of each row block, continued otherwise).
-/
import proofs.«108570_j29480655520371_2_alg».proof.Proof.RegI1Frame
import Idealize.ShloMosaic.Lib.Pipeline.Value
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

theorem hz2_1 : (![0, 0] : Fin 2 → Nat) = fun _ => 0 := funext fun a => by fin_cases a <;> rfl

/-- Case A leaves in the accumulator the first block product added to the zero vector. -/
theorem soutA_eq1 (c : Dev nD) (i : grid1.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond1_0 i) (hc1 : ¬cond1_1 i) (x0 : Vec F S2048x2048 .bf16) (x1 : Vec F S2048x16 .bf16) (x2 : Vec F S2048x16 .f32) :
    sout1_A_0 (F := F) c i arg2 harg2 arg3 harg3 arg4 harg4 arg5 harg5 arg6 harg6 arg7 harg7 hc0 hc1 x0 x1 x2 = k1_pay2 (k1_pay1) x0 x1 := by
  have hz2 := hz2_1
  unfold sout1_A_0
  rw [View.read_writes_eq_canon _ _ _ (scover1_A_0 c i arg2 harg2 arg3 harg3 arg4 harg4 arg5 harg5 arg6 harg6 arg7 harg7 hc0 hc1 x0 x1 x2)]
  unfold kernelRun1_A
  dsimp only
  try sl_unfold_words
  rw [View.canon_cons_unit_zero hz2, View.readCov_unit_zero (S := S2048x16) _ hz2]
  simp only [View.readAt_eq_ld, harg2.read_unread, harg3.read_unread, harg4.read_unread, harg7.read_unread, View.ld_unit_zero (S := S2048x2048) hz2, View.ld_unit_zero (S := S2048x16) hz2]

/-- Case B leaves in the accumulator what it held plus this point's block product. -/
theorem soutB_eq1 (c : Dev nD) (i : grid1.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond1_0 i) (hc1 : ¬cond1_1 i) (x0 : Vec F S2048x2048 .bf16) (x1 : Vec F S2048x16 .bf16) (x2 : Vec F S2048x16 .f32) (xs0 : Vec F S2048x16 .f32) :
    sout1_B_0 (F := F) c i arg2 harg2 arg3 harg3 arg4 harg4 arg5 harg5 arg6 harg6 arg7 harg7 hc0 hc1 x0 x1 x2 xs0 = k1_pay2 xs0 x0 x1 := by
  have hz2 := hz2_1
  unfold sout1_B_0
  rw [View.read_writes_eq_canon _ _ _ (scover1_B_0 c i arg2 harg2 arg3 harg3 arg4 harg4 arg5 harg5 arg6 harg6 arg7 harg7 hc0 hc1 x0 x1 x2 xs0)]
  unfold kernelRun1_B
  dsimp only
  try sl_unfold_words
  rw [View.canon_unit_zero hz2]
  simp only [View.readAt_eq_ld, harg2.read_unread, harg3.read_unread, harg4.read_unread, harg7.read_unread, View.ld_unit_zero (S := S2048x2048) hz2, View.ld_unit_zero (S := S2048x16) hz2]

/-- Case C leaves in the accumulator what it held plus the last block product, -/
theorem soutC_eq1 (c : Dev nD) (i : grid1.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond1_0 i) (hc1 : cond1_1 i) (x0 : Vec F S2048x2048 .bf16) (x1 : Vec F S2048x16 .bf16) (x2 : Vec F S2048x16 .f32) (xs0 : Vec F S2048x16 .f32) :
    sout1_C_0 (F := F) c i arg2 harg2 arg3 harg3 arg4 harg4 arg5 harg5 arg6 harg6 arg7 harg7 hc0 hc1 x0 x1 x2 xs0 = k1_pay2 xs0 x0 x1 := by
  have hz2 := hz2_1
  unfold sout1_C_0
  rw [View.read_writes_eq_canon _ _ _ (scover1_C_0 c i arg2 harg2 arg3 harg3 arg4 harg4 arg5 harg5 arg6 harg6 arg7 harg7 hc0 hc1 x0 x1 x2 xs0)]
  unfold kernelRun1_C
  dsimp only
  try sl_unfold_words
  rw [View.canon_unit_zero hz2]
  simp only [View.readAt_eq_ld, harg2.read_unread, harg3.read_unread, harg4.read_unread, harg7.read_unread, View.ld_unit_zero (S := S2048x2048) hz2, View.ld_unit_zero (S := S2048x16) hz2]

/-- in the f32 result block the combination of that accumulator and the block of the earlier vector, -/
theorem outC3_eq1 (c : Dev nD) (i : grid1.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond1_0 i) (hc1 : cond1_1 i) (x0 : Vec F S2048x2048 .bf16) (x1 : Vec F S2048x16 .bf16) (x2 : Vec F S2048x16 .f32) (xs0 : Vec F S2048x16 .f32) :
    out1_C_3 (F := F) c i arg2 harg2 arg3 harg3 arg4 harg4 arg5 harg5 arg6 harg6 arg7 harg7 hc0 hc1 x0 x1 x2 xs0 = k1_pay3 (k1_pay2 xs0 x0 x1) x2 := by
  have hz2 := hz2_1
  unfold out1_C_3
  rw [View.read_writes_eq_canon _ _ _ (cover1_C_3 c i arg2 harg2 arg3 harg3 arg4 harg4 arg5 harg5 arg6 harg6 arg7 harg7 hc0 hc1 x0 x1 x2 xs0)]
  unfold kernelRun1_C
  dsimp only
  try sl_unfold_words
  rw [View.canon_unit_zero hz2, View.readCov_unit_zero (S := S2048x16) _ hz2]
  simp only [View.readAt_eq_ld, harg2.read_unread, harg3.read_unread, harg4.read_unread, harg7.read_unread, View.ld_unit_zero (S := S2048x2048) hz2, View.ld_unit_zero (S := S2048x16) hz2]

/-- and in the bf16 result block the same combination in the narrower format. -/
theorem outC4_eq1 (c : Dev nD) (i : grid1.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond1_0 i) (hc1 : cond1_1 i) (x0 : Vec F S2048x2048 .bf16) (x1 : Vec F S2048x16 .bf16) (x2 : Vec F S2048x16 .f32) (xs0 : Vec F S2048x16 .f32) :
    out1_C_4 (F := F) c i arg2 harg2 arg3 harg3 arg4 harg4 arg5 harg5 arg6 harg6 arg7 harg7 hc0 hc1 x0 x1 x2 xs0 = k1_pay4 (k1_pay2 xs0 x0 x1) x2 := by
  have hz2 := hz2_1
  unfold out1_C_4
  rw [View.read_writes_eq_canon _ _ _ (cover1_C_4 c i arg2 harg2 arg3 harg3 arg4 harg4 arg5 harg5 arg6 harg6 arg7 harg7 hc0 hc1 x0 x1 x2 xs0)]
  unfold kernelRun1_C
  dsimp only
  try sl_unfold_words
  rw [View.canon_unit_zero hz2, View.readCov_unit_zero (S := S2048x16) _ hz2]
  simp only [View.readAt_eq_ld, harg2.read_unread, harg3.read_unread, harg4.read_unread, harg7.read_unread, View.ld_unit_zero (S := S2048x2048) hz2, View.ld_unit_zero (S := S2048x16) hz2]

/-- The accumulator after the body at position `n`: started from the zero vector at the first column block of a
    row block, continued from the position before otherwise. -/
def acc1 (c : Dev nD) : (n : ℕ) → n < cfg1.N → Vec F S2048x16 .f32
  | 0, hn => k1_pay2 (k1_pay1) (iblk1 V c 0 ⟨0, hn⟩) (iblk1 V c 1 ⟨0, hn⟩)
  | n + 1, hn =>
    if (n + 1) % 8 = 0 then k1_pay2 (k1_pay1) (iblk1 V c 0 ⟨n + 1, hn⟩) (iblk1 V c 1 ⟨n + 1, hn⟩)
    else k1_pay2 (acc1 c n (Nat.lt_of_succ_lt hn)) (iblk1 V c 0 ⟨n + 1, hn⟩) (iblk1 V c 1 ⟨n + 1, hn⟩)

theorem acc1_zero (c : Dev nD) (hn : 0 < cfg1.N) :
    acc1 V c 0 hn = k1_pay2 (k1_pay1) (iblk1 V c 0 ⟨0, hn⟩) (iblk1 V c 1 ⟨0, hn⟩) := rfl
theorem acc1_succ (c : Dev nD) (n : ℕ) (hn : n + 1 < cfg1.N) :
    acc1 V c (n + 1) hn = if (n + 1) % 8 = 0 then k1_pay2 (k1_pay1) (iblk1 V c 0 ⟨n + 1, hn⟩) (iblk1 V c 1 ⟨n + 1, hn⟩)
      else k1_pay2 (acc1 V c n (Nat.lt_of_succ_lt hn)) (iblk1 V c 0 ⟨n + 1, hn⟩) (iblk1 V c 1 ⟨n + 1, hn⟩) := rfl

/-- The frame's point-by-point accumulator is that recursion. -/
theorem scr_eq1 (c : Dev nD) : ∀ (n : ℕ) (hn : n < cfg1.N), (outsAt1 V c n hn).2.2 = acc1 V c n hn
  | 0, hn => by
    have e := outsAt1_A V c ⟨0, hn⟩ (Nat.zero_mod _) (fun h => absurd (show (0 : ℕ) % 8 = 7 from h) (show ¬((0 : ℕ) % 8 = 7) by decide))
    rw [show outsAt1 V c 0 hn = _ from e, acc1_zero]
    dsimp only
    exact soutA_eq1 ..
  | n + 1, hn => by
    by_cases h0 : (n + 1) % 8 = 0
    · have h1 : ¬(n + 1) % 8 = 7 := by omega
      have e := outsAt1_A V c ⟨n + 1, hn⟩ h0 h1
      rw [show outsAt1 V c (n + 1) hn = _ from e]
      rw [acc1_succ, if_pos h0]
      dsimp only
      exact soutA_eq1 ..
    · by_cases h1 : (n + 1) % 8 = 7
      · have e := outsAt1_C V c ⟨n + 1, hn⟩ h0 h1
        rw [show outsAt1 V c (n + 1) hn = _ from e]
        rw [acc1_succ, if_neg h0]
        dsimp only
        rw [soutC_eq1]
        exact congrArg (fun a => k1_pay2 a _ _) (scr_eq1 c n (Nat.lt_of_succ_lt hn))
      · have e := outsAt1_B V c ⟨n + 1, hn⟩ h0 h1
        rw [show outsAt1 V c (n + 1) hn = _ from e]
        rw [acc1_succ, if_neg h0]
        dsimp only
        rw [soutB_eq1]
        exact congrArg (fun a => k1_pay2 a _ _) (scr_eq1 c n (Nat.lt_of_succ_lt hn))

/-- At a point that stores (k = 7) the f32 result block holds the combination of the accumulator and the block of
    the earlier vector, -/
theorem out3_eq1 (c : Dev nD) (t : Fin cfg1.N) (h1 : t.val % 8 = 7) :
    (outsAt1 V c t.val t.isLt).1 = k1_pay3 (acc1 V c t.val t.isLt) (iblk1 V c 2 t) := by
  have h0 : ¬t.val % 8 = 0 := by omega
  have hz : t.val ≠ 0 := fun h => by rw [h] at h1; exact absurd h1 (by decide)
  rw [outsAt1_C V c t h0 h1]
  dsimp only
  rw [outC3_eq1]
  obtain ⟨n, hn⟩ := t
  cases n with
  | zero => exact absurd rfl hz
  | succ n =>
    rw [acc1_succ, if_neg h0]
    exact congrArg (fun a => k1_pay3 (k1_pay2 a _ _) _) (scr_eq1 V c n (Nat.lt_of_succ_lt hn))

/-- and the bf16 result block the same in the narrower format. -/
theorem out4_eq1 (c : Dev nD) (t : Fin cfg1.N) (h1 : t.val % 8 = 7) :
    (outsAt1 V c t.val t.isLt).2.1 = k1_pay4 (acc1 V c t.val t.isLt) (iblk1 V c 2 t) := by
  have h0 : ¬t.val % 8 = 0 := by omega
  have hz : t.val ≠ 0 := fun h => by rw [h] at h1; exact absurd h1 (by decide)
  rw [outsAt1_C V c t h0 h1]
  dsimp only
  rw [outC4_eq1]
  obtain ⟨n, hn⟩ := t
  cases n with
  | zero => exact absurd rfl hz
  | succ n =>
    rw [acc1_succ, if_neg h0]
    exact congrArg (fun a => k1_pay4 (k1_pay2 a _ _) _) (scr_eq1 V c n (Nat.lt_of_succ_lt hn))

end Cert.KernelIdeal.Hand

end
-- ==== Proof.RegI1Value.lean ====
/-
  Region 1 at the extended reals: its two result arrays end holding 2 · (Ls · v) − v′  of the arrays the
  region finds in its three input windows (Ls the matrix, v the vector, v′ the earlier vector).
  A point t = 8·r + k reads block (r, k) of the matrix, block k of the vector and block r of the earlier vector. After
  it the accumulator's entry (p, q) is the block products of row 2048·r + p for column blocks 0 … k added in order from
  zero; the point k = 7 stores 2 · a − 1 · b  of the accumulator a and the earlier vector's block b into both result
  blocks, which are then written back; the eight block products are the whole product's entry (`psum_blocks`), and the
  storing points' blocks cover the array.
-/
import proofs.«108570_j29480655520371_2_alg».proof.Proof.RegI1Acc
import proofs.«108570_j29480655520371_2_alg».proof.Proof.ChebBlock

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)

variable (V : (c : Dev nD) → (b : Ref sig .tc) → Buf (Elt Ideal) ((c : Thread nD τ).loc b))

/-- The matrix, the vector and the earlier vector as the region finds them in its input windows' arrays. -/
abbrev L1 (c : Dev nD) : S16384x16384.Idx → EReal := V c (Pipeline.arrRef spec1 0)
abbrev v1 (c : Dev nD) : S16384x16.Idx → EReal := V c (Pipeline.arrRef spec1 1)
abbrev p1 (c : Dev nD) : S16384x16.Idx → EReal := V c (Pipeline.arrRef spec1 2)

/-- The matrix block at point t = 8·r + k is rows 2048·r …, columns 2048·k … of the matrix. -/
theorem blk0_apply1 (c : Dev nD) (t : Fin cfg1.N) (p j : Fin 2048) :
    (iblk1 V c 0 t : Vec Ideal S2048x2048 .bf16) (ix2 p j) = at2 (L1 V c) (2048 * (t.val / 8) + p.val) (2048 * (t.val % 8) + j.val) := by
  have hi := (by decide +kernel : ∀ t : Fin grid1.N, win1_0.index t (0 : Fin 2) = t.val / 8 ∧ win1_0.index t (1 : Fin 2) = t.val % 8) t
  have hN : t.val < 64 := lt_of_lt_of_eq t.isLt N_1
  have hb : 2048 * (t.val / 8) + p.val < 16384 ∧ 2048 * (t.val % 8) + j.val < 16384 := ⟨by omega, by omega⟩
  unfold at2; rw [dif_pos hb]
  unfold iblk1
  rw [View.read_apply]
  show V c (Pipeline.arrRef spec1 0) _ = V c (Pipeline.arrRef spec1 0) _
  refine congrArg _ (funext fun a => Fin.ext ?_)
  match a with
  | ⟨0, _⟩ => show win1_0.index t (0 : Fin 2) * 2048 + 1 * p.val = 2048 * (t.val / 8) + p.val; rw [hi.1]; omega
  | ⟨1, _⟩ => show win1_0.index t (1 : Fin 2) * 2048 + 1 * j.val = 2048 * (t.val % 8) + j.val; rw [hi.2]; omega

/-- The vector block at point t = 8·r + k is rows 2048·k … of the vector. -/
theorem blk1_apply1 (c : Dev nD) (t : Fin cfg1.N) (j : Fin 2048) (q : Fin 16) :
    (iblk1 V c 1 t : Vec Ideal S2048x16 .bf16) (ix2 j q) = at2 (v1 V c) (2048 * (t.val % 8) + j.val) q.val := by
  have hi := (by decide +kernel : ∀ t : Fin grid1.N, win1_1.index t (0 : Fin 2) = t.val % 8 ∧ win1_1.index t (1 : Fin 2) = 0) t
  have hN : t.val < 64 := lt_of_lt_of_eq t.isLt N_1
  have hb : 2048 * (t.val % 8) + j.val < 16384 ∧ q.val < 16 := ⟨by omega, q.isLt⟩
  unfold at2; rw [dif_pos hb]
  unfold iblk1
  rw [View.read_apply]
  show V c (Pipeline.arrRef spec1 1) _ = V c (Pipeline.arrRef spec1 1) _
  refine congrArg _ (funext fun a => Fin.ext ?_)
  match a with
  | ⟨0, _⟩ => show win1_1.index t (0 : Fin 2) * 2048 + 1 * j.val = 2048 * (t.val % 8) + j.val; rw [hi.1]; omega
  | ⟨1, _⟩ => show win1_1.index t (1 : Fin 2) * 16 + 1 * q.val = q.val; rw [hi.2]; omega

/-- The earlier vector's block at point t = 8·r + k is its rows 2048·r …. -/
theorem blk2_apply1 (c : Dev nD) (t : Fin cfg1.N) (p : Fin 2048) (q : Fin 16) :
    (iblk1 V c 2 t : Vec Ideal S2048x16 .f32) (ix2 p q) = at2 (p1 V c) (2048 * (t.val / 8) + p.val) q.val := by
  have hi := (by decide +kernel : ∀ t : Fin grid1.N, win1_2.index t (0 : Fin 2) = t.val / 8 ∧ win1_2.index t (1 : Fin 2) = 0) t
  have hN : t.val < 64 := lt_of_lt_of_eq t.isLt N_1
  have hb : 2048 * (t.val / 8) + p.val < 16384 ∧ q.val < 16 := ⟨by omega, q.isLt⟩
  unfold at2; rw [dif_pos hb]
  unfold iblk1
  rw [View.read_apply]
  show V c (Pipeline.arrRef spec1 2) _ = V c (Pipeline.arrRef spec1 2) _
  refine congrArg _ (funext fun a => Fin.ext ?_)
  match a with
  | ⟨0, _⟩ => show win1_2.index t (0 : Fin 2) * 2048 + 1 * p.val = 2048 * (t.val / 8) + p.val; rw [hi.1]; omega
  | ⟨1, _⟩ => show win1_2.index t (1 : Fin 2) * 16 + 1 * q.val = q.val; rw [hi.2]; omega

/-- The block product of row `a` and column `q` over column block `k`. -/
abbrev g1 (c : Dev nD) (a q : ℕ) : ℕ → EReal :=
  fun k => ∑ j : Fin 2048, at2 (L1 V c) a (2048 * k + j.val) * at2 (v1 V c) (2048 * k + j.val) q

/-- One point's accumulation, at an entry. -/
theorem step_apply1 (c : Dev nD) (xs : Vec Ideal S2048x16 .f32) (t : Fin cfg1.N) (p : Fin 2048) (q : Fin 16) :
    k1_pay2 xs (iblk1 V c 0 t) (iblk1 V c 1 t) (ix2 p q)
      = xs (ix2 p q) + g1 V c (2048 * (t.val / 8) + p.val) q.val (t.val % 8) := by
  refine (pay2_apply xs (iblk1 V c 0 t) (iblk1 V c 1 t) p q).trans ?_
  refine congrArg (xs (ix2 p q) + ·) (Finset.sum_congr rfl fun j _ => ?_)
  rw [blk0_apply1 V c t p j, blk1_apply1 V c t j q]

/-- The accumulator after position `n` = 8·r + k, at an entry: the block products of its row for column blocks
    0 … k, added in order from zero. -/
theorem acc_apply1 (c : Dev nD) : ∀ (n : ℕ) (hn : n < cfg1.N) (p : Fin 2048) (q : Fin 16),
    acc1 V c n hn (ix2 p q) = psum (g1 V c (2048 * (n / 8) + p.val) q.val) (n % 8)
  | 0, hn, p, q => by
    rw [acc1_zero]
    refine (step_apply1 V c _ ⟨0, hn⟩ p q).trans ?_
    rw [show (k1_pay1 (F := Ideal)) (ix2 p q) = 0 from pay1_apply _]
    rfl
  | n + 1, hn, p, q => by
    rw [acc1_succ]
    by_cases h0 : (n + 1) % 8 = 0
    · rw [if_pos h0]
      refine (step_apply1 V c _ ⟨n + 1, hn⟩ p q).trans ?_
      rw [show (k1_pay1 (F := Ideal)) (ix2 p q) = 0 from pay1_apply _]
      show 0 + g1 V c (2048 * ((n + 1) / 8) + p.val) q.val ((n + 1) % 8) = psum _ ((n + 1) % 8)
      rw [h0]; rfl
    · rw [if_neg h0]
      refine (step_apply1 V c _ ⟨n + 1, hn⟩ p q).trans ?_
      rw [acc_apply1 c n (Nat.lt_of_succ_lt hn) p q]
      have e1 : (n + 1) % 8 = n % 8 + 1 := by omega
      have e2 : (n + 1) / 8 = n / 8 := by omega
      show psum _ (n % 8) + g1 V c (2048 * ((n + 1) / 8) + p.val) q.val ((n + 1) % 8) = psum _ ((n + 1) % 8)
      rw [e1, e2]; rfl

/-- The new vector: twice the product of the matrix and the vector, less the earlier vector. -/
def new1 (c : Dev nD) : S16384x16.Idx → EReal := fun i => Ideal.ofBits .f32 0x40000000#32 * prodAt (L1 V c) (v1 V c) (i 0).val (i 1).val - p1 V c i

/-- What a storing point (k = 7) puts at entry (p, q) of the result blocks is the new vector at row 2048·r + p. -/
theorem out_apply1 (c : Dev nD) (t : Fin cfg1.N) (h1 : t.val % 8 = 7) (p : Fin 2048) (q : Fin 16) (a : Fin 16384)
    (ha : a.val = 2048 * (t.val / 8) + p.val) :
    k1_pay3 (acc1 V c t.val t.isLt) (iblk1 V c 2 t) (ix2 p q) = new1 V c (ix2 a q) := by
  refine (pay3_step_apply (acc1 V c t.val t.isLt) (iblk1 V c 2 t) (ix2 p q)).trans ?_
  rw [acc_apply1 V c t.val t.isLt p q, h1, psum_blocks, blk2_apply1 V c t p q]
  show _ = Ideal.ofBits .f32 0x40000000#32 * prodAt _ _ a.val q.val - p1 V c (ix2 a q)
  rw [ha, ← at2_ix2 (p1 V c) a q, ha]

/-- What a storing point (k = 7) writes back through result window 3 is its block of the new vector. -/
theorem flushed1_3 (c : Dev nD) (t : Fin cfg1.N) (hf : (cfg1.win 3).flush t = true) :
    (dat1 V c).flushed 3 t = ((cfg1.win 3).blk t).view.read (Elt Ideal) (new1 V c) := by
  have h1 : t.val % 8 = 7 := (flush1_3 t).mp hf
  have hN : t.val < 64 := lt_of_lt_of_eq t.isLt N_1
  have hi := (by decide +kernel : ∀ t : Fin grid1.N, win1_3.index t (0 : Fin 2) = t.val / 8 ∧ win1_3.index t (1 : Fin 2) = 0) t
  show (cfg1.win 3).cut (grid1.coords t) ((dat1 V c).after 3 t) = _
  rw [after1_3, out3_eq1 V c t h1]
  funext y
  have hy0 : (y 0).val < 2048 := (y 0).isLt
  have hy1 : (y 1).val < 16 := (y 1).isLt
  show k1_pay3 (acc1 V c t.val t.isLt) (iblk1 V c 2 t) ((cfg1.win 3).xinj (grid1.coords t) y) = ((cfg1.win 3).blk t).view.read (Elt Ideal) (new1 V c) y
  rw [View.read_apply, cast_eq]
  obtain ⟨r, hr⟩ : ∃ r : Fin 16384, r.val = 2048 * (t.val / 8) + (y 0).val := ⟨⟨2048 * (t.val / 8) + (y 0).val, by omega⟩, rfl⟩
  have hemb : ((cfg1.win 3).blk t).view.emb y = ix2 r (⟨(y 1).val, hy1⟩ : Fin 16) :=
    funext fun a => Fin.ext (by
      match a with
      | ⟨0, _⟩ => show win1_3.index t (0 : Fin 2) * 2048 + 1 * (y 0).val = r.val; rw [hr, hi.1]; omega
      | ⟨1, _⟩ => show win1_3.index t (1 : Fin 2) * 16 + 1 * (y 1).val = (y 1).val; rw [hi.2]; omega)
  have hy : (cfg1.win 3).xinj (grid1.coords t) y = ix2 (⟨(y 0).val, hy0⟩ : Fin 2048) (⟨(y 1).val, hy1⟩ : Fin 16) :=
    funext fun a => by match a with | ⟨0, _⟩ => rfl | ⟨1, _⟩ => rfl
  rw [hemb, hy]
  exact out_apply1 V c t h1 ⟨(y 0).val, hy0⟩ ⟨(y 1).val, hy1⟩ r hr

/-- An index of the array is in point `t`'s block of result window 3 iff each coordinate is in the block's range. -/
theorem mem_blk1_3 (t : Fin cfg1.N) (i : S16384x16.Idx) :
    i ∈ ((cfg1.win 3).blk t).view.set ↔ ∀ a : Fin 2, win1_3.index t a * S2048x16.size a ≤ (i a).val ∧ (i a).val < win1_3.index t a * S2048x16.size a + S2048x16.size a := by
  show i ∈ ((View.whole main_v19_0).slice (win1_3.rect t)).set ↔ _
  rw [View.set_slice_whole, Rect.mem_set_unit]
  exact Iff.rfl

/-- So result array 0 ends holding the new vector: row i is covered by the storing point of its row block. -/
theorem final1_3 (c : Dev nD) : (dat1 V c).arrAt 3 cfg1.N = new1 V c :=
  (dat1 V c).arrAt_eq_of_cover 3 (new1 V c) (fun t hf => flushed1_3 V c t hf) fun i => by
    have hi0 : (i 0).val < 16384 := (i 0).isLt
    have hi1 : (i 1).val < 16 := (i 1).isLt
    have ht : 8 * ((i 0).val / 2048) + 7 < cfg1.N := by rw [show cfg1.N = 64 from N_1]; omega
    have hx := (by decide +kernel : ∀ t : Fin grid1.N, win1_3.index t (0 : Fin 2) = t.val / 8 ∧ win1_3.index t (1 : Fin 2) = 0) ⟨8 * ((i 0).val / 2048) + 7, ht⟩
    refine ⟨⟨8 * ((i 0).val / 2048) + 7, ht⟩, (flush1_3 _).mpr (by show (8 * ((i 0).val / 2048) + 7) % 8 = 7; omega), ?_⟩
    rw [mem_blk1_3]
    intro a
    match a with
    | ⟨0, _⟩ =>
      show win1_3.index _ (0 : Fin 2) * 2048 ≤ (i 0).val ∧ (i 0).val < win1_3.index _ (0 : Fin 2) * 2048 + 2048
      rw [hx.1]; show (8 * ((i 0).val / 2048) + 7) / 8 * 2048 ≤ (i 0).val ∧ (i 0).val < (8 * ((i 0).val / 2048) + 7) / 8 * 2048 + 2048; omega
    | ⟨1, _⟩ =>
      show win1_3.index _ (1 : Fin 2) * 16 ≤ (i 1).val ∧ (i 1).val < win1_3.index _ (1 : Fin 2) * 16 + 16
      rw [hx.2]; omega

/-- What a storing point (k = 7) writes back through result window 4 is its block of the new vector. -/
theorem flushed1_4 (c : Dev nD) (t : Fin cfg1.N) (hf : (cfg1.win 4).flush t = true) :
    (dat1 V c).flushed 4 t = ((cfg1.win 4).blk t).view.read (Elt Ideal) (new1 V c) := by
  have h1 : t.val % 8 = 7 := (flush1_4 t).mp hf
  have hN : t.val < 64 := lt_of_lt_of_eq t.isLt N_1
  have hi := (by decide +kernel : ∀ t : Fin grid1.N, win1_4.index t (0 : Fin 2) = t.val / 8 ∧ win1_4.index t (1 : Fin 2) = 0) t
  show (cfg1.win 4).cut (grid1.coords t) ((dat1 V c).after 4 t) = _
  rw [after1_4, out4_eq1 V c t h1]
  funext y
  have hy0 : (y 0).val < 2048 := (y 0).isLt
  have hy1 : (y 1).val < 16 := (y 1).isLt
  show k1_pay3 (acc1 V c t.val t.isLt) (iblk1 V c 2 t) ((cfg1.win 4).xinj (grid1.coords t) y) = ((cfg1.win 4).blk t).view.read (Elt Ideal) (new1 V c) y
  rw [View.read_apply, cast_eq]
  obtain ⟨r, hr⟩ : ∃ r : Fin 16384, r.val = 2048 * (t.val / 8) + (y 0).val := ⟨⟨2048 * (t.val / 8) + (y 0).val, by omega⟩, rfl⟩
  have hemb : ((cfg1.win 4).blk t).view.emb y = ix2 r (⟨(y 1).val, hy1⟩ : Fin 16) :=
    funext fun a => Fin.ext (by
      match a with
      | ⟨0, _⟩ => show win1_4.index t (0 : Fin 2) * 2048 + 1 * (y 0).val = r.val; rw [hr, hi.1]; omega
      | ⟨1, _⟩ => show win1_4.index t (1 : Fin 2) * 16 + 1 * (y 1).val = (y 1).val; rw [hi.2]; omega)
  have hy : (cfg1.win 4).xinj (grid1.coords t) y = ix2 (⟨(y 0).val, hy0⟩ : Fin 2048) (⟨(y 1).val, hy1⟩ : Fin 16) :=
    funext fun a => by match a with | ⟨0, _⟩ => rfl | ⟨1, _⟩ => rfl
  rw [hemb, hy]
  exact out_apply1 V c t h1 ⟨(y 0).val, hy0⟩ ⟨(y 1).val, hy1⟩ r hr

/-- An index of the array is in point `t`'s block of result window 4 iff each coordinate is in the block's range. -/
theorem mem_blk1_4 (t : Fin cfg1.N) (i : S16384x16.Idx) :
    i ∈ ((cfg1.win 4).blk t).view.set ↔ ∀ a : Fin 2, win1_4.index t a * S2048x16.size a ≤ (i a).val ∧ (i a).val < win1_4.index t a * S2048x16.size a + S2048x16.size a := by
  show i ∈ ((View.whole main_v19_1).slice (win1_4.rect t)).set ↔ _
  rw [View.set_slice_whole, Rect.mem_set_unit]
  exact Iff.rfl

/-- So result array 1 ends holding the new vector: row i is covered by the storing point of its row block. -/
theorem final1_4 (c : Dev nD) : (dat1 V c).arrAt 4 cfg1.N = new1 V c :=
  (dat1 V c).arrAt_eq_of_cover 4 (new1 V c) (fun t hf => flushed1_4 V c t hf) fun i => by
    have hi0 : (i 0).val < 16384 := (i 0).isLt
    have hi1 : (i 1).val < 16 := (i 1).isLt
    have ht : 8 * ((i 0).val / 2048) + 7 < cfg1.N := by rw [show cfg1.N = 64 from N_1]; omega
    have hx := (by decide +kernel : ∀ t : Fin grid1.N, win1_4.index t (0 : Fin 2) = t.val / 8 ∧ win1_4.index t (1 : Fin 2) = 0) ⟨8 * ((i 0).val / 2048) + 7, ht⟩
    refine ⟨⟨8 * ((i 0).val / 2048) + 7, ht⟩, (flush1_4 _).mpr (by show (8 * ((i 0).val / 2048) + 7) % 8 = 7; omega), ?_⟩
    rw [mem_blk1_4]
    intro a
    match a with
    | ⟨0, _⟩ =>
      show win1_4.index _ (0 : Fin 2) * 2048 ≤ (i 0).val ∧ (i 0).val < win1_4.index _ (0 : Fin 2) * 2048 + 2048
      rw [hx.1]; show (8 * ((i 0).val / 2048) + 7) / 8 * 2048 ≤ (i 0).val ∧ (i 0).val < (8 * ((i 0).val / 2048) + 7) / 8 * 2048 + 2048; omega
    | ⟨1, _⟩ =>
      show win1_4.index _ (1 : Fin 2) * 16 ≤ (i 1).val ∧ (i 1).val < win1_4.index _ (1 : Fin 2) * 16 + 16
      rw [hx.2]; omega

end Cert.KernelIdeal.Hand

end
-- ==== Proof.RegI2Acc.lean ====
/-
  Region 2, its values for any float instance: what each case's stores read back as, in terms of the body's
  arithmetic; and the accumulator after every grid point as a recursion over the points (started afresh, from the
  zero vector, at the first column block of each row block, continued otherwise).
-/
import proofs.«108570_j29480655520371_2_alg».proof.Proof.RegI2Frame
import Idealize.ShloMosaic.Lib.Pipeline.Value
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

theorem hz2_2 : (![0, 0] : Fin 2 → Nat) = fun _ => 0 := funext fun a => by fin_cases a <;> rfl

/-- Case A leaves in the accumulator the first block product added to the zero vector. -/
theorem soutA_eq2 (c : Dev nD) (i : grid2.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond2_0 i) (hc1 : ¬cond2_1 i) (x0 : Vec F S2048x2048 .bf16) (x1 : Vec F S2048x16 .bf16) (x2 : Vec F S2048x16 .f32) :
    sout2_A_0 (F := F) c i arg2 harg2 arg3 harg3 arg4 harg4 arg5 harg5 arg6 harg6 arg7 harg7 hc0 hc1 x0 x1 x2 = k2_pay2 (k2_pay1) x0 x1 := by
  have hz2 := hz2_2
  unfold sout2_A_0
  rw [View.read_writes_eq_canon _ _ _ (scover2_A_0 c i arg2 harg2 arg3 harg3 arg4 harg4 arg5 harg5 arg6 harg6 arg7 harg7 hc0 hc1 x0 x1 x2)]
  unfold kernelRun2_A
  dsimp only
  try sl_unfold_words
  rw [View.canon_cons_unit_zero hz2, View.readCov_unit_zero (S := S2048x16) _ hz2]
  simp only [View.readAt_eq_ld, harg2.read_unread, harg3.read_unread, harg4.read_unread, harg7.read_unread, View.ld_unit_zero (S := S2048x2048) hz2, View.ld_unit_zero (S := S2048x16) hz2]

/-- Case B leaves in the accumulator what it held plus this point's block product. -/
theorem soutB_eq2 (c : Dev nD) (i : grid2.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond2_0 i) (hc1 : ¬cond2_1 i) (x0 : Vec F S2048x2048 .bf16) (x1 : Vec F S2048x16 .bf16) (x2 : Vec F S2048x16 .f32) (xs0 : Vec F S2048x16 .f32) :
    sout2_B_0 (F := F) c i arg2 harg2 arg3 harg3 arg4 harg4 arg5 harg5 arg6 harg6 arg7 harg7 hc0 hc1 x0 x1 x2 xs0 = k2_pay2 xs0 x0 x1 := by
  have hz2 := hz2_2
  unfold sout2_B_0
  rw [View.read_writes_eq_canon _ _ _ (scover2_B_0 c i arg2 harg2 arg3 harg3 arg4 harg4 arg5 harg5 arg6 harg6 arg7 harg7 hc0 hc1 x0 x1 x2 xs0)]
  unfold kernelRun2_B
  dsimp only
  try sl_unfold_words
  rw [View.canon_unit_zero hz2]
  simp only [View.readAt_eq_ld, harg2.read_unread, harg3.read_unread, harg4.read_unread, harg7.read_unread, View.ld_unit_zero (S := S2048x2048) hz2, View.ld_unit_zero (S := S2048x16) hz2]

/-- Case C leaves in the accumulator what it held plus the last block product, -/
theorem soutC_eq2 (c : Dev nD) (i : grid2.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond2_0 i) (hc1 : cond2_1 i) (x0 : Vec F S2048x2048 .bf16) (x1 : Vec F S2048x16 .bf16) (x2 : Vec F S2048x16 .f32) (xs0 : Vec F S2048x16 .f32) :
    sout2_C_0 (F := F) c i arg2 harg2 arg3 harg3 arg4 harg4 arg5 harg5 arg6 harg6 arg7 harg7 hc0 hc1 x0 x1 x2 xs0 = k2_pay2 xs0 x0 x1 := by
  have hz2 := hz2_2
  unfold sout2_C_0
  rw [View.read_writes_eq_canon _ _ _ (scover2_C_0 c i arg2 harg2 arg3 harg3 arg4 harg4 arg5 harg5 arg6 harg6 arg7 harg7 hc0 hc1 x0 x1 x2 xs0)]
  unfold kernelRun2_C
  dsimp only
  try sl_unfold_words
  rw [View.canon_unit_zero hz2]
  simp only [View.readAt_eq_ld, harg2.read_unread, harg3.read_unread, harg4.read_unread, harg7.read_unread, View.ld_unit_zero (S := S2048x2048) hz2, View.ld_unit_zero (S := S2048x16) hz2]

/-- in the f32 result block the combination of that accumulator and the block of the earlier vector, -/
theorem outC3_eq2 (c : Dev nD) (i : grid2.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond2_0 i) (hc1 : cond2_1 i) (x0 : Vec F S2048x2048 .bf16) (x1 : Vec F S2048x16 .bf16) (x2 : Vec F S2048x16 .f32) (xs0 : Vec F S2048x16 .f32) :
    out2_C_3 (F := F) c i arg2 harg2 arg3 harg3 arg4 harg4 arg5 harg5 arg6 harg6 arg7 harg7 hc0 hc1 x0 x1 x2 xs0 = k2_pay3 (k2_pay2 xs0 x0 x1) x2 := by
  have hz2 := hz2_2
  unfold out2_C_3
  rw [View.read_writes_eq_canon _ _ _ (cover2_C_3 c i arg2 harg2 arg3 harg3 arg4 harg4 arg5 harg5 arg6 harg6 arg7 harg7 hc0 hc1 x0 x1 x2 xs0)]
  unfold kernelRun2_C
  dsimp only
  try sl_unfold_words
  rw [View.canon_unit_zero hz2, View.readCov_unit_zero (S := S2048x16) _ hz2]
  simp only [View.readAt_eq_ld, harg2.read_unread, harg3.read_unread, harg4.read_unread, harg7.read_unread, View.ld_unit_zero (S := S2048x2048) hz2, View.ld_unit_zero (S := S2048x16) hz2]

/-- and in the bf16 result block the same combination in the narrower format. -/
theorem outC4_eq2 (c : Dev nD) (i : grid2.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond2_0 i) (hc1 : cond2_1 i) (x0 : Vec F S2048x2048 .bf16) (x1 : Vec F S2048x16 .bf16) (x2 : Vec F S2048x16 .f32) (xs0 : Vec F S2048x16 .f32) :
    out2_C_4 (F := F) c i arg2 harg2 arg3 harg3 arg4 harg4 arg5 harg5 arg6 harg6 arg7 harg7 hc0 hc1 x0 x1 x2 xs0 = k2_pay4 (k2_pay2 xs0 x0 x1) x2 := by
  have hz2 := hz2_2
  unfold out2_C_4
  rw [View.read_writes_eq_canon _ _ _ (cover2_C_4 c i arg2 harg2 arg3 harg3 arg4 harg4 arg5 harg5 arg6 harg6 arg7 harg7 hc0 hc1 x0 x1 x2 xs0)]
  unfold kernelRun2_C
  dsimp only
  try sl_unfold_words
  rw [View.canon_unit_zero hz2, View.readCov_unit_zero (S := S2048x16) _ hz2]
  simp only [View.readAt_eq_ld, harg2.read_unread, harg3.read_unread, harg4.read_unread, harg7.read_unread, View.ld_unit_zero (S := S2048x2048) hz2, View.ld_unit_zero (S := S2048x16) hz2]

/-- The accumulator after the body at position `n`: started from the zero vector at the first column block of a
    row block, continued from the position before otherwise. -/
def acc2 (c : Dev nD) : (n : ℕ) → n < cfg2.N → Vec F S2048x16 .f32
  | 0, hn => k2_pay2 (k2_pay1) (iblk2 V c 0 ⟨0, hn⟩) (iblk2 V c 1 ⟨0, hn⟩)
  | n + 1, hn =>
    if (n + 1) % 8 = 0 then k2_pay2 (k2_pay1) (iblk2 V c 0 ⟨n + 1, hn⟩) (iblk2 V c 1 ⟨n + 1, hn⟩)
    else k2_pay2 (acc2 c n (Nat.lt_of_succ_lt hn)) (iblk2 V c 0 ⟨n + 1, hn⟩) (iblk2 V c 1 ⟨n + 1, hn⟩)

theorem acc2_zero (c : Dev nD) (hn : 0 < cfg2.N) :
    acc2 V c 0 hn = k2_pay2 (k2_pay1) (iblk2 V c 0 ⟨0, hn⟩) (iblk2 V c 1 ⟨0, hn⟩) := rfl
theorem acc2_succ (c : Dev nD) (n : ℕ) (hn : n + 1 < cfg2.N) :
    acc2 V c (n + 1) hn = if (n + 1) % 8 = 0 then k2_pay2 (k2_pay1) (iblk2 V c 0 ⟨n + 1, hn⟩) (iblk2 V c 1 ⟨n + 1, hn⟩)
      else k2_pay2 (acc2 V c n (Nat.lt_of_succ_lt hn)) (iblk2 V c 0 ⟨n + 1, hn⟩) (iblk2 V c 1 ⟨n + 1, hn⟩) := rfl

/-- The frame's point-by-point accumulator is that recursion. -/
theorem scr_eq2 (c : Dev nD) : ∀ (n : ℕ) (hn : n < cfg2.N), (outsAt2 V c n hn).2.2 = acc2 V c n hn
  | 0, hn => by
    have e := outsAt2_A V c ⟨0, hn⟩ (Nat.zero_mod _) (fun h => absurd (show (0 : ℕ) % 8 = 7 from h) (show ¬((0 : ℕ) % 8 = 7) by decide))
    rw [show outsAt2 V c 0 hn = _ from e, acc2_zero]
    dsimp only
    exact soutA_eq2 ..
  | n + 1, hn => by
    by_cases h0 : (n + 1) % 8 = 0
    · have h1 : ¬(n + 1) % 8 = 7 := by omega
      have e := outsAt2_A V c ⟨n + 1, hn⟩ h0 h1
      rw [show outsAt2 V c (n + 1) hn = _ from e]
      rw [acc2_succ, if_pos h0]
      dsimp only
      exact soutA_eq2 ..
    · by_cases h1 : (n + 1) % 8 = 7
      · have e := outsAt2_C V c ⟨n + 1, hn⟩ h0 h1
        rw [show outsAt2 V c (n + 1) hn = _ from e]
        rw [acc2_succ, if_neg h0]
        dsimp only
        rw [soutC_eq2]
        exact congrArg (fun a => k2_pay2 a _ _) (scr_eq2 c n (Nat.lt_of_succ_lt hn))
      · have e := outsAt2_B V c ⟨n + 1, hn⟩ h0 h1
        rw [show outsAt2 V c (n + 1) hn = _ from e]
        rw [acc2_succ, if_neg h0]
        dsimp only
        rw [soutB_eq2]
        exact congrArg (fun a => k2_pay2 a _ _) (scr_eq2 c n (Nat.lt_of_succ_lt hn))

/-- At a point that stores (k = 7) the f32 result block holds the combination of the accumulator and the block of
    the earlier vector, -/
theorem out3_eq2 (c : Dev nD) (t : Fin cfg2.N) (h1 : t.val % 8 = 7) :
    (outsAt2 V c t.val t.isLt).1 = k2_pay3 (acc2 V c t.val t.isLt) (iblk2 V c 2 t) := by
  have h0 : ¬t.val % 8 = 0 := by omega
  have hz : t.val ≠ 0 := fun h => by rw [h] at h1; exact absurd h1 (by decide)
  rw [outsAt2_C V c t h0 h1]
  dsimp only
  rw [outC3_eq2]
  obtain ⟨n, hn⟩ := t
  cases n with
  | zero => exact absurd rfl hz
  | succ n =>
    rw [acc2_succ, if_neg h0]
    exact congrArg (fun a => k2_pay3 (k2_pay2 a _ _) _) (scr_eq2 V c n (Nat.lt_of_succ_lt hn))

/-- and the bf16 result block the same in the narrower format. -/
theorem out4_eq2 (c : Dev nD) (t : Fin cfg2.N) (h1 : t.val % 8 = 7) :
    (outsAt2 V c t.val t.isLt).2.1 = k2_pay4 (acc2 V c t.val t.isLt) (iblk2 V c 2 t) := by
  have h0 : ¬t.val % 8 = 0 := by omega
  have hz : t.val ≠ 0 := fun h => by rw [h] at h1; exact absurd h1 (by decide)
  rw [outsAt2_C V c t h0 h1]
  dsimp only
  rw [outC4_eq2]
  obtain ⟨n, hn⟩ := t
  cases n with
  | zero => exact absurd rfl hz
  | succ n =>
    rw [acc2_succ, if_neg h0]
    exact congrArg (fun a => k2_pay4 (k2_pay2 a _ _) _) (scr_eq2 V c n (Nat.lt_of_succ_lt hn))

end Cert.KernelIdeal.Hand

end
-- ==== Proof.RegI2Value.lean ====
/-
  Region 2 at the extended reals: its two result arrays end holding 2 · (Ls · v) − v′  of the arrays the
  region finds in its three input windows (Ls the matrix, v the vector, v′ the earlier vector).
  A point t = 8·r + k reads block (r, k) of the matrix, block k of the vector and block r of the earlier vector. After
  it the accumulator's entry (p, q) is the block products of row 2048·r + p for column blocks 0 … k added in order from
  zero; the point k = 7 stores 2 · a − 1 · b  of the accumulator a and the earlier vector's block b into both result
  blocks, which are then written back; the eight block products are the whole product's entry (`psum_blocks`), and the
  storing points' blocks cover the array.
-/
import proofs.«108570_j29480655520371_2_alg».proof.Proof.RegI2Acc
import proofs.«108570_j29480655520371_2_alg».proof.Proof.ChebBlock

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)

variable (V : (c : Dev nD) → (b : Ref sig .tc) → Buf (Elt Ideal) ((c : Thread nD τ).loc b))

/-- The matrix, the vector and the earlier vector as the region finds them in its input windows' arrays. -/
abbrev L2 (c : Dev nD) : S16384x16384.Idx → EReal := V c (Pipeline.arrRef spec2 0)
abbrev v2 (c : Dev nD) : S16384x16.Idx → EReal := V c (Pipeline.arrRef spec2 1)
abbrev p2 (c : Dev nD) : S16384x16.Idx → EReal := V c (Pipeline.arrRef spec2 2)

/-- The matrix block at point t = 8·r + k is rows 2048·r …, columns 2048·k … of the matrix. -/
theorem blk0_apply2 (c : Dev nD) (t : Fin cfg2.N) (p j : Fin 2048) :
    (iblk2 V c 0 t : Vec Ideal S2048x2048 .bf16) (ix2 p j) = at2 (L2 V c) (2048 * (t.val / 8) + p.val) (2048 * (t.val % 8) + j.val) := by
  have hi := (by decide +kernel : ∀ t : Fin grid2.N, win2_0.index t (0 : Fin 2) = t.val / 8 ∧ win2_0.index t (1 : Fin 2) = t.val % 8) t
  have hN : t.val < 64 := lt_of_lt_of_eq t.isLt N_2
  have hb : 2048 * (t.val / 8) + p.val < 16384 ∧ 2048 * (t.val % 8) + j.val < 16384 := ⟨by omega, by omega⟩
  unfold at2; rw [dif_pos hb]
  unfold iblk2
  rw [View.read_apply]
  show V c (Pipeline.arrRef spec2 0) _ = V c (Pipeline.arrRef spec2 0) _
  refine congrArg _ (funext fun a => Fin.ext ?_)
  match a with
  | ⟨0, _⟩ => show win2_0.index t (0 : Fin 2) * 2048 + 1 * p.val = 2048 * (t.val / 8) + p.val; rw [hi.1]; omega
  | ⟨1, _⟩ => show win2_0.index t (1 : Fin 2) * 2048 + 1 * j.val = 2048 * (t.val % 8) + j.val; rw [hi.2]; omega

/-- The vector block at point t = 8·r + k is rows 2048·k … of the vector. -/
theorem blk1_apply2 (c : Dev nD) (t : Fin cfg2.N) (j : Fin 2048) (q : Fin 16) :
    (iblk2 V c 1 t : Vec Ideal S2048x16 .bf16) (ix2 j q) = at2 (v2 V c) (2048 * (t.val % 8) + j.val) q.val := by
  have hi := (by decide +kernel : ∀ t : Fin grid2.N, win2_1.index t (0 : Fin 2) = t.val % 8 ∧ win2_1.index t (1 : Fin 2) = 0) t
  have hN : t.val < 64 := lt_of_lt_of_eq t.isLt N_2
  have hb : 2048 * (t.val % 8) + j.val < 16384 ∧ q.val < 16 := ⟨by omega, q.isLt⟩
  unfold at2; rw [dif_pos hb]
  unfold iblk2
  rw [View.read_apply]
  show V c (Pipeline.arrRef spec2 1) _ = V c (Pipeline.arrRef spec2 1) _
  refine congrArg _ (funext fun a => Fin.ext ?_)
  match a with
  | ⟨0, _⟩ => show win2_1.index t (0 : Fin 2) * 2048 + 1 * j.val = 2048 * (t.val % 8) + j.val; rw [hi.1]; omega
  | ⟨1, _⟩ => show win2_1.index t (1 : Fin 2) * 16 + 1 * q.val = q.val; rw [hi.2]; omega

/-- The earlier vector's block at point t = 8·r + k is its rows 2048·r …. -/
theorem blk2_apply2 (c : Dev nD) (t : Fin cfg2.N) (p : Fin 2048) (q : Fin 16) :
    (iblk2 V c 2 t : Vec Ideal S2048x16 .f32) (ix2 p q) = at2 (p2 V c) (2048 * (t.val / 8) + p.val) q.val := by
  have hi := (by decide +kernel : ∀ t : Fin grid2.N, win2_2.index t (0 : Fin 2) = t.val / 8 ∧ win2_2.index t (1 : Fin 2) = 0) t
  have hN : t.val < 64 := lt_of_lt_of_eq t.isLt N_2
  have hb : 2048 * (t.val / 8) + p.val < 16384 ∧ q.val < 16 := ⟨by omega, q.isLt⟩
  unfold at2; rw [dif_pos hb]
  unfold iblk2
  rw [View.read_apply]
  show V c (Pipeline.arrRef spec2 2) _ = V c (Pipeline.arrRef spec2 2) _
  refine congrArg _ (funext fun a => Fin.ext ?_)
  match a with
  | ⟨0, _⟩ => show win2_2.index t (0 : Fin 2) * 2048 + 1 * p.val = 2048 * (t.val / 8) + p.val; rw [hi.1]; omega
  | ⟨1, _⟩ => show win2_2.index t (1 : Fin 2) * 16 + 1 * q.val = q.val; rw [hi.2]; omega

/-- The block product of row `a` and column `q` over column block `k`. -/
abbrev g2 (c : Dev nD) (a q : ℕ) : ℕ → EReal :=
  fun k => ∑ j : Fin 2048, at2 (L2 V c) a (2048 * k + j.val) * at2 (v2 V c) (2048 * k + j.val) q

/-- One point's accumulation, at an entry. -/
theorem step_apply2 (c : Dev nD) (xs : Vec Ideal S2048x16 .f32) (t : Fin cfg2.N) (p : Fin 2048) (q : Fin 16) :
    k2_pay2 xs (iblk2 V c 0 t) (iblk2 V c 1 t) (ix2 p q)
      = xs (ix2 p q) + g2 V c (2048 * (t.val / 8) + p.val) q.val (t.val % 8) := by
  refine (pay2_apply xs (iblk2 V c 0 t) (iblk2 V c 1 t) p q).trans ?_
  refine congrArg (xs (ix2 p q) + ·) (Finset.sum_congr rfl fun j _ => ?_)
  rw [blk0_apply2 V c t p j, blk1_apply2 V c t j q]

/-- The accumulator after position `n` = 8·r + k, at an entry: the block products of its row for column blocks
    0 … k, added in order from zero. -/
theorem acc_apply2 (c : Dev nD) : ∀ (n : ℕ) (hn : n < cfg2.N) (p : Fin 2048) (q : Fin 16),
    acc2 V c n hn (ix2 p q) = psum (g2 V c (2048 * (n / 8) + p.val) q.val) (n % 8)
  | 0, hn, p, q => by
    rw [acc2_zero]
    refine (step_apply2 V c _ ⟨0, hn⟩ p q).trans ?_
    rw [show (k2_pay1 (F := Ideal)) (ix2 p q) = 0 from pay1_apply _]
    rfl
  | n + 1, hn, p, q => by
    rw [acc2_succ]
    by_cases h0 : (n + 1) % 8 = 0
    · rw [if_pos h0]
      refine (step_apply2 V c _ ⟨n + 1, hn⟩ p q).trans ?_
      rw [show (k2_pay1 (F := Ideal)) (ix2 p q) = 0 from pay1_apply _]
      show 0 + g2 V c (2048 * ((n + 1) / 8) + p.val) q.val ((n + 1) % 8) = psum _ ((n + 1) % 8)
      rw [h0]; rfl
    · rw [if_neg h0]
      refine (step_apply2 V c _ ⟨n + 1, hn⟩ p q).trans ?_
      rw [acc_apply2 c n (Nat.lt_of_succ_lt hn) p q]
      have e1 : (n + 1) % 8 = n % 8 + 1 := by omega
      have e2 : (n + 1) / 8 = n / 8 := by omega
      show psum _ (n % 8) + g2 V c (2048 * ((n + 1) / 8) + p.val) q.val ((n + 1) % 8) = psum _ ((n + 1) % 8)
      rw [e1, e2]; rfl

/-- The new vector: twice the product of the matrix and the vector, less the earlier vector. -/
def new2 (c : Dev nD) : S16384x16.Idx → EReal := fun i => Ideal.ofBits .f32 0x40000000#32 * prodAt (L2 V c) (v2 V c) (i 0).val (i 1).val - p2 V c i

/-- What a storing point (k = 7) puts at entry (p, q) of the result blocks is the new vector at row 2048·r + p. -/
theorem out_apply2 (c : Dev nD) (t : Fin cfg2.N) (h1 : t.val % 8 = 7) (p : Fin 2048) (q : Fin 16) (a : Fin 16384)
    (ha : a.val = 2048 * (t.val / 8) + p.val) :
    k2_pay3 (acc2 V c t.val t.isLt) (iblk2 V c 2 t) (ix2 p q) = new2 V c (ix2 a q) := by
  have hp3 : k2_pay3 (acc2 V c t.val t.isLt) (iblk2 V c 2 t) (ix2 p q)
      = Ideal.ofBits .f32 0x40000000#32 * acc2 V c t.val t.isLt (ix2 p q) - (iblk2 V c 2 t : Vec Ideal S2048x16 .f32) (ix2 p q) := by
    unfold k2_pay3
    try simp only [shapeCast_self]
    show Ideal.ofBits .f32 0x40000000#32 * _ - Ideal.ofBits .f32 0x3F800000#32 * _ = _
    rw [ofBits_one, one_mul]
  refine hp3.trans ?_
  rw [acc_apply2 V c t.val t.isLt p q, h1, psum_blocks, blk2_apply2 V c t p q]
  show _ = Ideal.ofBits .f32 0x40000000#32 * prodAt _ _ a.val q.val - p2 V c (ix2 a q)
  rw [ha, ← at2_ix2 (p2 V c) a q, ha]

/-- What a storing point (k = 7) writes back through result window 3 is its block of the new vector. -/
theorem flushed2_3 (c : Dev nD) (t : Fin cfg2.N) (hf : (cfg2.win 3).flush t = true) :
    (dat2 V c).flushed 3 t = ((cfg2.win 3).blk t).view.read (Elt Ideal) (new2 V c) := by
  have h1 : t.val % 8 = 7 := (flush2_3 t).mp hf
  have hN : t.val < 64 := lt_of_lt_of_eq t.isLt N_2
  have hi := (by decide +kernel : ∀ t : Fin grid2.N, win2_3.index t (0 : Fin 2) = t.val / 8 ∧ win2_3.index t (1 : Fin 2) = 0) t
  show (cfg2.win 3).cut (grid2.coords t) ((dat2 V c).after 3 t) = _
  rw [after2_3, out3_eq2 V c t h1]
  funext y
  have hy0 : (y 0).val < 2048 := (y 0).isLt
  have hy1 : (y 1).val < 16 := (y 1).isLt
  show k2_pay3 (acc2 V c t.val t.isLt) (iblk2 V c 2 t) ((cfg2.win 3).xinj (grid2.coords t) y) = ((cfg2.win 3).blk t).view.read (Elt Ideal) (new2 V c) y
  rw [View.read_apply, cast_eq]
  obtain ⟨r, hr⟩ : ∃ r : Fin 16384, r.val = 2048 * (t.val / 8) + (y 0).val := ⟨⟨2048 * (t.val / 8) + (y 0).val, by omega⟩, rfl⟩
  have hemb : ((cfg2.win 3).blk t).view.emb y = ix2 r (⟨(y 1).val, hy1⟩ : Fin 16) :=
    funext fun a => Fin.ext (by
      match a with
      | ⟨0, _⟩ => show win2_3.index t (0 : Fin 2) * 2048 + 1 * (y 0).val = r.val; rw [hr, hi.1]; omega
      | ⟨1, _⟩ => show win2_3.index t (1 : Fin 2) * 16 + 1 * (y 1).val = (y 1).val; rw [hi.2]; omega)
  have hy : (cfg2.win 3).xinj (grid2.coords t) y = ix2 (⟨(y 0).val, hy0⟩ : Fin 2048) (⟨(y 1).val, hy1⟩ : Fin 16) :=
    funext fun a => by match a with | ⟨0, _⟩ => rfl | ⟨1, _⟩ => rfl
  rw [hemb, hy]
  exact out_apply2 V c t h1 ⟨(y 0).val, hy0⟩ ⟨(y 1).val, hy1⟩ r hr

/-- An index of the array is in point `t`'s block of result window 3 iff each coordinate is in the block's range. -/
theorem mem_blk2_3 (t : Fin cfg2.N) (i : S16384x16.Idx) :
    i ∈ ((cfg2.win 3).blk t).view.set ↔ ∀ a : Fin 2, win2_3.index t a * S2048x16.size a ≤ (i a).val ∧ (i a).val < win2_3.index t a * S2048x16.size a + S2048x16.size a := by
  show i ∈ ((View.whole main_v27_0).slice (win2_3.rect t)).set ↔ _
  rw [View.set_slice_whole, Rect.mem_set_unit]
  exact Iff.rfl

/-- So result array 0 ends holding the new vector: row i is covered by the storing point of its row block. -/
theorem final2_3 (c : Dev nD) : (dat2 V c).arrAt 3 cfg2.N = new2 V c :=
  (dat2 V c).arrAt_eq_of_cover 3 (new2 V c) (fun t hf => flushed2_3 V c t hf) fun i => by
    have hi0 : (i 0).val < 16384 := (i 0).isLt
    have hi1 : (i 1).val < 16 := (i 1).isLt
    have ht : 8 * ((i 0).val / 2048) + 7 < cfg2.N := by rw [show cfg2.N = 64 from N_2]; omega
    have hx := (by decide +kernel : ∀ t : Fin grid2.N, win2_3.index t (0 : Fin 2) = t.val / 8 ∧ win2_3.index t (1 : Fin 2) = 0) ⟨8 * ((i 0).val / 2048) + 7, ht⟩
    refine ⟨⟨8 * ((i 0).val / 2048) + 7, ht⟩, (flush2_3 _).mpr (by show (8 * ((i 0).val / 2048) + 7) % 8 = 7; omega), ?_⟩
    rw [mem_blk2_3]
    intro a
    match a with
    | ⟨0, _⟩ =>
      show win2_3.index _ (0 : Fin 2) * 2048 ≤ (i 0).val ∧ (i 0).val < win2_3.index _ (0 : Fin 2) * 2048 + 2048
      rw [hx.1]; show (8 * ((i 0).val / 2048) + 7) / 8 * 2048 ≤ (i 0).val ∧ (i 0).val < (8 * ((i 0).val / 2048) + 7) / 8 * 2048 + 2048; omega
    | ⟨1, _⟩ =>
      show win2_3.index _ (1 : Fin 2) * 16 ≤ (i 1).val ∧ (i 1).val < win2_3.index _ (1 : Fin 2) * 16 + 16
      rw [hx.2]; omega

/-- What a storing point (k = 7) writes back through result window 4 is its block of the new vector. -/
theorem flushed2_4 (c : Dev nD) (t : Fin cfg2.N) (hf : (cfg2.win 4).flush t = true) :
    (dat2 V c).flushed 4 t = ((cfg2.win 4).blk t).view.read (Elt Ideal) (new2 V c) := by
  have h1 : t.val % 8 = 7 := (flush2_4 t).mp hf
  have hN : t.val < 64 := lt_of_lt_of_eq t.isLt N_2
  have hi := (by decide +kernel : ∀ t : Fin grid2.N, win2_4.index t (0 : Fin 2) = t.val / 8 ∧ win2_4.index t (1 : Fin 2) = 0) t
  show (cfg2.win 4).cut (grid2.coords t) ((dat2 V c).after 4 t) = _
  rw [after2_4, out4_eq2 V c t h1]
  funext y
  have hy0 : (y 0).val < 2048 := (y 0).isLt
  have hy1 : (y 1).val < 16 := (y 1).isLt
  show k2_pay3 (acc2 V c t.val t.isLt) (iblk2 V c 2 t) ((cfg2.win 4).xinj (grid2.coords t) y) = ((cfg2.win 4).blk t).view.read (Elt Ideal) (new2 V c) y
  rw [View.read_apply, cast_eq]
  obtain ⟨r, hr⟩ : ∃ r : Fin 16384, r.val = 2048 * (t.val / 8) + (y 0).val := ⟨⟨2048 * (t.val / 8) + (y 0).val, by omega⟩, rfl⟩
  have hemb : ((cfg2.win 4).blk t).view.emb y = ix2 r (⟨(y 1).val, hy1⟩ : Fin 16) :=
    funext fun a => Fin.ext (by
      match a with
      | ⟨0, _⟩ => show win2_4.index t (0 : Fin 2) * 2048 + 1 * (y 0).val = r.val; rw [hr, hi.1]; omega
      | ⟨1, _⟩ => show win2_4.index t (1 : Fin 2) * 16 + 1 * (y 1).val = (y 1).val; rw [hi.2]; omega)
  have hy : (cfg2.win 4).xinj (grid2.coords t) y = ix2 (⟨(y 0).val, hy0⟩ : Fin 2048) (⟨(y 1).val, hy1⟩ : Fin 16) :=
    funext fun a => by match a with | ⟨0, _⟩ => rfl | ⟨1, _⟩ => rfl
  rw [hemb, hy]
  exact out_apply2 V c t h1 ⟨(y 0).val, hy0⟩ ⟨(y 1).val, hy1⟩ r hr

/-- An index of the array is in point `t`'s block of result window 4 iff each coordinate is in the block's range. -/
theorem mem_blk2_4 (t : Fin cfg2.N) (i : S16384x16.Idx) :
    i ∈ ((cfg2.win 4).blk t).view.set ↔ ∀ a : Fin 2, win2_4.index t a * S2048x16.size a ≤ (i a).val ∧ (i a).val < win2_4.index t a * S2048x16.size a + S2048x16.size a := by
  show i ∈ ((View.whole main_v27_1).slice (win2_4.rect t)).set ↔ _
  rw [View.set_slice_whole, Rect.mem_set_unit]
  exact Iff.rfl

/-- So result array 1 ends holding the new vector: row i is covered by the storing point of its row block. -/
theorem final2_4 (c : Dev nD) : (dat2 V c).arrAt 4 cfg2.N = new2 V c :=
  (dat2 V c).arrAt_eq_of_cover 4 (new2 V c) (fun t hf => flushed2_4 V c t hf) fun i => by
    have hi0 : (i 0).val < 16384 := (i 0).isLt
    have hi1 : (i 1).val < 16 := (i 1).isLt
    have ht : 8 * ((i 0).val / 2048) + 7 < cfg2.N := by rw [show cfg2.N = 64 from N_2]; omega
    have hx := (by decide +kernel : ∀ t : Fin grid2.N, win2_4.index t (0 : Fin 2) = t.val / 8 ∧ win2_4.index t (1 : Fin 2) = 0) ⟨8 * ((i 0).val / 2048) + 7, ht⟩
    refine ⟨⟨8 * ((i 0).val / 2048) + 7, ht⟩, (flush2_4 _).mpr (by show (8 * ((i 0).val / 2048) + 7) % 8 = 7; omega), ?_⟩
    rw [mem_blk2_4]
    intro a
    match a with
    | ⟨0, _⟩ =>
      show win2_4.index _ (0 : Fin 2) * 2048 ≤ (i 0).val ∧ (i 0).val < win2_4.index _ (0 : Fin 2) * 2048 + 2048
      rw [hx.1]; show (8 * ((i 0).val / 2048) + 7) / 8 * 2048 ≤ (i 0).val ∧ (i 0).val < (8 * ((i 0).val / 2048) + 7) / 8 * 2048 + 2048; omega
    | ⟨1, _⟩ =>
      show win2_4.index _ (1 : Fin 2) * 16 ≤ (i 1).val ∧ (i 1).val < win2_4.index _ (1 : Fin 2) * 16 + 16
      rw [hx.2]; omega

end Cert.KernelIdeal.Hand

end
-- ==== Proof.RegI3Acc.lean ====
/-
  Region 3, its values for any float instance: what each case's stores read back as, in terms of the body's
  arithmetic; and the accumulator after every grid point as a recursion over the points (started afresh, from the
  zero vector, at the first column block of each row block, continued otherwise).
-/
import proofs.«108570_j29480655520371_2_alg».proof.Proof.RegI3Frame
import Idealize.ShloMosaic.Lib.Pipeline.Value
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

theorem hz2_3 : (![0, 0] : Fin 2 → Nat) = fun _ => 0 := funext fun a => by fin_cases a <;> rfl

/-- Case A leaves in the accumulator the first block product added to the zero vector. -/
theorem soutA_eq3 (c : Dev nD) (i : grid3.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond3_0 i) (hc1 : ¬cond3_1 i) (x0 : Vec F S2048x2048 .bf16) (x1 : Vec F S2048x16 .bf16) (x2 : Vec F S2048x16 .f32) :
    sout3_A_0 (F := F) c i arg2 harg2 arg3 harg3 arg4 harg4 arg5 harg5 arg6 harg6 arg7 harg7 hc0 hc1 x0 x1 x2 = k3_pay2 (k3_pay1) x0 x1 := by
  have hz2 := hz2_3
  unfold sout3_A_0
  rw [View.read_writes_eq_canon _ _ _ (scover3_A_0 c i arg2 harg2 arg3 harg3 arg4 harg4 arg5 harg5 arg6 harg6 arg7 harg7 hc0 hc1 x0 x1 x2)]
  unfold kernelRun3_A
  dsimp only
  try sl_unfold_words
  rw [View.canon_cons_unit_zero hz2, View.readCov_unit_zero (S := S2048x16) _ hz2]
  simp only [View.readAt_eq_ld, harg2.read_unread, harg3.read_unread, harg4.read_unread, harg7.read_unread, View.ld_unit_zero (S := S2048x2048) hz2, View.ld_unit_zero (S := S2048x16) hz2]

/-- Case B leaves in the accumulator what it held plus this point's block product. -/
theorem soutB_eq3 (c : Dev nD) (i : grid3.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond3_0 i) (hc1 : ¬cond3_1 i) (x0 : Vec F S2048x2048 .bf16) (x1 : Vec F S2048x16 .bf16) (x2 : Vec F S2048x16 .f32) (xs0 : Vec F S2048x16 .f32) :
    sout3_B_0 (F := F) c i arg2 harg2 arg3 harg3 arg4 harg4 arg5 harg5 arg6 harg6 arg7 harg7 hc0 hc1 x0 x1 x2 xs0 = k3_pay2 xs0 x0 x1 := by
  have hz2 := hz2_3
  unfold sout3_B_0
  rw [View.read_writes_eq_canon _ _ _ (scover3_B_0 c i arg2 harg2 arg3 harg3 arg4 harg4 arg5 harg5 arg6 harg6 arg7 harg7 hc0 hc1 x0 x1 x2 xs0)]
  unfold kernelRun3_B
  dsimp only
  try sl_unfold_words
  rw [View.canon_unit_zero hz2]
  simp only [View.readAt_eq_ld, harg2.read_unread, harg3.read_unread, harg4.read_unread, harg7.read_unread, View.ld_unit_zero (S := S2048x2048) hz2, View.ld_unit_zero (S := S2048x16) hz2]

/-- Case C leaves in the accumulator what it held plus the last block product, -/
theorem soutC_eq3 (c : Dev nD) (i : grid3.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond3_0 i) (hc1 : cond3_1 i) (x0 : Vec F S2048x2048 .bf16) (x1 : Vec F S2048x16 .bf16) (x2 : Vec F S2048x16 .f32) (xs0 : Vec F S2048x16 .f32) :
    sout3_C_0 (F := F) c i arg2 harg2 arg3 harg3 arg4 harg4 arg5 harg5 arg6 harg6 arg7 harg7 hc0 hc1 x0 x1 x2 xs0 = k3_pay2 xs0 x0 x1 := by
  have hz2 := hz2_3
  unfold sout3_C_0
  rw [View.read_writes_eq_canon _ _ _ (scover3_C_0 c i arg2 harg2 arg3 harg3 arg4 harg4 arg5 harg5 arg6 harg6 arg7 harg7 hc0 hc1 x0 x1 x2 xs0)]
  unfold kernelRun3_C
  dsimp only
  try sl_unfold_words
  rw [View.canon_unit_zero hz2]
  simp only [View.readAt_eq_ld, harg2.read_unread, harg3.read_unread, harg4.read_unread, harg7.read_unread, View.ld_unit_zero (S := S2048x2048) hz2, View.ld_unit_zero (S := S2048x16) hz2]

/-- in the f32 result block the combination of that accumulator and the block of the earlier vector, -/
theorem outC3_eq3 (c : Dev nD) (i : grid3.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond3_0 i) (hc1 : cond3_1 i) (x0 : Vec F S2048x2048 .bf16) (x1 : Vec F S2048x16 .bf16) (x2 : Vec F S2048x16 .f32) (xs0 : Vec F S2048x16 .f32) :
    out3_C_3 (F := F) c i arg2 harg2 arg3 harg3 arg4 harg4 arg5 harg5 arg6 harg6 arg7 harg7 hc0 hc1 x0 x1 x2 xs0 = k3_pay3 (k3_pay2 xs0 x0 x1) x2 := by
  have hz2 := hz2_3
  unfold out3_C_3
  rw [View.read_writes_eq_canon _ _ _ (cover3_C_3 c i arg2 harg2 arg3 harg3 arg4 harg4 arg5 harg5 arg6 harg6 arg7 harg7 hc0 hc1 x0 x1 x2 xs0)]
  unfold kernelRun3_C
  dsimp only
  try sl_unfold_words
  rw [View.canon_unit_zero hz2, View.readCov_unit_zero (S := S2048x16) _ hz2]
  simp only [View.readAt_eq_ld, harg2.read_unread, harg3.read_unread, harg4.read_unread, harg7.read_unread, View.ld_unit_zero (S := S2048x2048) hz2, View.ld_unit_zero (S := S2048x16) hz2]

/-- and in the bf16 result block the same combination in the narrower format. -/
theorem outC4_eq3 (c : Dev nD) (i : grid3.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond3_0 i) (hc1 : cond3_1 i) (x0 : Vec F S2048x2048 .bf16) (x1 : Vec F S2048x16 .bf16) (x2 : Vec F S2048x16 .f32) (xs0 : Vec F S2048x16 .f32) :
    out3_C_4 (F := F) c i arg2 harg2 arg3 harg3 arg4 harg4 arg5 harg5 arg6 harg6 arg7 harg7 hc0 hc1 x0 x1 x2 xs0 = k3_pay4 (k3_pay2 xs0 x0 x1) x2 := by
  have hz2 := hz2_3
  unfold out3_C_4
  rw [View.read_writes_eq_canon _ _ _ (cover3_C_4 c i arg2 harg2 arg3 harg3 arg4 harg4 arg5 harg5 arg6 harg6 arg7 harg7 hc0 hc1 x0 x1 x2 xs0)]
  unfold kernelRun3_C
  dsimp only
  try sl_unfold_words
  rw [View.canon_unit_zero hz2, View.readCov_unit_zero (S := S2048x16) _ hz2]
  simp only [View.readAt_eq_ld, harg2.read_unread, harg3.read_unread, harg4.read_unread, harg7.read_unread, View.ld_unit_zero (S := S2048x2048) hz2, View.ld_unit_zero (S := S2048x16) hz2]

/-- The accumulator after the body at position `n`: started from the zero vector at the first column block of a
    row block, continued from the position before otherwise. -/
def acc3 (c : Dev nD) : (n : ℕ) → n < cfg3.N → Vec F S2048x16 .f32
  | 0, hn => k3_pay2 (k3_pay1) (iblk3 V c 0 ⟨0, hn⟩) (iblk3 V c 1 ⟨0, hn⟩)
  | n + 1, hn =>
    if (n + 1) % 8 = 0 then k3_pay2 (k3_pay1) (iblk3 V c 0 ⟨n + 1, hn⟩) (iblk3 V c 1 ⟨n + 1, hn⟩)
    else k3_pay2 (acc3 c n (Nat.lt_of_succ_lt hn)) (iblk3 V c 0 ⟨n + 1, hn⟩) (iblk3 V c 1 ⟨n + 1, hn⟩)

theorem acc3_zero (c : Dev nD) (hn : 0 < cfg3.N) :
    acc3 V c 0 hn = k3_pay2 (k3_pay1) (iblk3 V c 0 ⟨0, hn⟩) (iblk3 V c 1 ⟨0, hn⟩) := rfl
theorem acc3_succ (c : Dev nD) (n : ℕ) (hn : n + 1 < cfg3.N) :
    acc3 V c (n + 1) hn = if (n + 1) % 8 = 0 then k3_pay2 (k3_pay1) (iblk3 V c 0 ⟨n + 1, hn⟩) (iblk3 V c 1 ⟨n + 1, hn⟩)
      else k3_pay2 (acc3 V c n (Nat.lt_of_succ_lt hn)) (iblk3 V c 0 ⟨n + 1, hn⟩) (iblk3 V c 1 ⟨n + 1, hn⟩) := rfl

/-- The frame's point-by-point accumulator is that recursion. -/
theorem scr_eq3 (c : Dev nD) : ∀ (n : ℕ) (hn : n < cfg3.N), (outsAt3 V c n hn).2.2 = acc3 V c n hn
  | 0, hn => by
    have e := outsAt3_A V c ⟨0, hn⟩ (Nat.zero_mod _) (fun h => absurd (show (0 : ℕ) % 8 = 7 from h) (show ¬((0 : ℕ) % 8 = 7) by decide))
    rw [show outsAt3 V c 0 hn = _ from e, acc3_zero]
    dsimp only
    exact soutA_eq3 ..
  | n + 1, hn => by
    by_cases h0 : (n + 1) % 8 = 0
    · have h1 : ¬(n + 1) % 8 = 7 := by omega
      have e := outsAt3_A V c ⟨n + 1, hn⟩ h0 h1
      rw [show outsAt3 V c (n + 1) hn = _ from e]
      rw [acc3_succ, if_pos h0]
      dsimp only
      exact soutA_eq3 ..
    · by_cases h1 : (n + 1) % 8 = 7
      · have e := outsAt3_C V c ⟨n + 1, hn⟩ h0 h1
        rw [show outsAt3 V c (n + 1) hn = _ from e]
        rw [acc3_succ, if_neg h0]
        dsimp only
        rw [soutC_eq3]
        exact congrArg (fun a => k3_pay2 a _ _) (scr_eq3 c n (Nat.lt_of_succ_lt hn))
      · have e := outsAt3_B V c ⟨n + 1, hn⟩ h0 h1
        rw [show outsAt3 V c (n + 1) hn = _ from e]
        rw [acc3_succ, if_neg h0]
        dsimp only
        rw [soutB_eq3]
        exact congrArg (fun a => k3_pay2 a _ _) (scr_eq3 c n (Nat.lt_of_succ_lt hn))

/-- At a point that stores (k = 7) the f32 result block holds the combination of the accumulator and the block of
    the earlier vector, -/
theorem out3_eq3 (c : Dev nD) (t : Fin cfg3.N) (h1 : t.val % 8 = 7) :
    (outsAt3 V c t.val t.isLt).1 = k3_pay3 (acc3 V c t.val t.isLt) (iblk3 V c 2 t) := by
  have h0 : ¬t.val % 8 = 0 := by omega
  have hz : t.val ≠ 0 := fun h => by rw [h] at h1; exact absurd h1 (by decide)
  rw [outsAt3_C V c t h0 h1]
  dsimp only
  rw [outC3_eq3]
  obtain ⟨n, hn⟩ := t
  cases n with
  | zero => exact absurd rfl hz
  | succ n =>
    rw [acc3_succ, if_neg h0]
    exact congrArg (fun a => k3_pay3 (k3_pay2 a _ _) _) (scr_eq3 V c n (Nat.lt_of_succ_lt hn))

/-- and the bf16 result block the same in the narrower format. -/
theorem out4_eq3 (c : Dev nD) (t : Fin cfg3.N) (h1 : t.val % 8 = 7) :
    (outsAt3 V c t.val t.isLt).2.1 = k3_pay4 (acc3 V c t.val t.isLt) (iblk3 V c 2 t) := by
  have h0 : ¬t.val % 8 = 0 := by omega
  have hz : t.val ≠ 0 := fun h => by rw [h] at h1; exact absurd h1 (by decide)
  rw [outsAt3_C V c t h0 h1]
  dsimp only
  rw [outC4_eq3]
  obtain ⟨n, hn⟩ := t
  cases n with
  | zero => exact absurd rfl hz
  | succ n =>
    rw [acc3_succ, if_neg h0]
    exact congrArg (fun a => k3_pay4 (k3_pay2 a _ _) _) (scr_eq3 V c n (Nat.lt_of_succ_lt hn))

end Cert.KernelIdeal.Hand

end
-- ==== Proof.RegI3Value.lean ====
/-
  Region 3 at the extended reals: its two result arrays end holding 2 · (Ls · v) − v′  of the arrays the
  region finds in its three input windows (Ls the matrix, v the vector, v′ the earlier vector).
  A point t = 8·r + k reads block (r, k) of the matrix, block k of the vector and block r of the earlier vector. After
  it the accumulator's entry (p, q) is the block products of row 2048·r + p for column blocks 0 … k added in order from
  zero; the point k = 7 stores 2 · a − 1 · b  of the accumulator a and the earlier vector's block b into both result
  blocks, which are then written back; the eight block products are the whole product's entry (`psum_blocks`), and the
  storing points' blocks cover the array.
-/
import proofs.«108570_j29480655520371_2_alg».proof.Proof.RegI3Acc
import proofs.«108570_j29480655520371_2_alg».proof.Proof.ChebBlock

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)

variable (V : (c : Dev nD) → (b : Ref sig .tc) → Buf (Elt Ideal) ((c : Thread nD τ).loc b))

/-- The matrix, the vector and the earlier vector as the region finds them in its input windows' arrays. -/
abbrev L3 (c : Dev nD) : S16384x16384.Idx → EReal := V c (Pipeline.arrRef spec3 0)
abbrev v3 (c : Dev nD) : S16384x16.Idx → EReal := V c (Pipeline.arrRef spec3 1)
abbrev p3 (c : Dev nD) : S16384x16.Idx → EReal := V c (Pipeline.arrRef spec3 2)

/-- The matrix block at point t = 8·r + k is rows 2048·r …, columns 2048·k … of the matrix. -/
theorem blk0_apply3 (c : Dev nD) (t : Fin cfg3.N) (p j : Fin 2048) :
    (iblk3 V c 0 t : Vec Ideal S2048x2048 .bf16) (ix2 p j) = at2 (L3 V c) (2048 * (t.val / 8) + p.val) (2048 * (t.val % 8) + j.val) := by
  have hi := (by decide +kernel : ∀ t : Fin grid3.N, win3_0.index t (0 : Fin 2) = t.val / 8 ∧ win3_0.index t (1 : Fin 2) = t.val % 8) t
  have hN : t.val < 64 := lt_of_lt_of_eq t.isLt N_3
  have hb : 2048 * (t.val / 8) + p.val < 16384 ∧ 2048 * (t.val % 8) + j.val < 16384 := ⟨by omega, by omega⟩
  unfold at2; rw [dif_pos hb]
  unfold iblk3
  rw [View.read_apply]
  show V c (Pipeline.arrRef spec3 0) _ = V c (Pipeline.arrRef spec3 0) _
  refine congrArg _ (funext fun a => Fin.ext ?_)
  match a with
  | ⟨0, _⟩ => show win3_0.index t (0 : Fin 2) * 2048 + 1 * p.val = 2048 * (t.val / 8) + p.val; rw [hi.1]; omega
  | ⟨1, _⟩ => show win3_0.index t (1 : Fin 2) * 2048 + 1 * j.val = 2048 * (t.val % 8) + j.val; rw [hi.2]; omega

/-- The vector block at point t = 8·r + k is rows 2048·k … of the vector. -/
theorem blk1_apply3 (c : Dev nD) (t : Fin cfg3.N) (j : Fin 2048) (q : Fin 16) :
    (iblk3 V c 1 t : Vec Ideal S2048x16 .bf16) (ix2 j q) = at2 (v3 V c) (2048 * (t.val % 8) + j.val) q.val := by
  have hi := (by decide +kernel : ∀ t : Fin grid3.N, win3_1.index t (0 : Fin 2) = t.val % 8 ∧ win3_1.index t (1 : Fin 2) = 0) t
  have hN : t.val < 64 := lt_of_lt_of_eq t.isLt N_3
  have hb : 2048 * (t.val % 8) + j.val < 16384 ∧ q.val < 16 := ⟨by omega, q.isLt⟩
  unfold at2; rw [dif_pos hb]
  unfold iblk3
  rw [View.read_apply]
  show V c (Pipeline.arrRef spec3 1) _ = V c (Pipeline.arrRef spec3 1) _
  refine congrArg _ (funext fun a => Fin.ext ?_)
  match a with
  | ⟨0, _⟩ => show win3_1.index t (0 : Fin 2) * 2048 + 1 * j.val = 2048 * (t.val % 8) + j.val; rw [hi.1]; omega
  | ⟨1, _⟩ => show win3_1.index t (1 : Fin 2) * 16 + 1 * q.val = q.val; rw [hi.2]; omega

/-- The earlier vector's block at point t = 8·r + k is its rows 2048·r …. -/
theorem blk2_apply3 (c : Dev nD) (t : Fin cfg3.N) (p : Fin 2048) (q : Fin 16) :
    (iblk3 V c 2 t : Vec Ideal S2048x16 .f32) (ix2 p q) = at2 (p3 V c) (2048 * (t.val / 8) + p.val) q.val := by
  have hi := (by decide +kernel : ∀ t : Fin grid3.N, win3_2.index t (0 : Fin 2) = t.val / 8 ∧ win3_2.index t (1 : Fin 2) = 0) t
  have hN : t.val < 64 := lt_of_lt_of_eq t.isLt N_3
  have hb : 2048 * (t.val / 8) + p.val < 16384 ∧ q.val < 16 := ⟨by omega, q.isLt⟩
  unfold at2; rw [dif_pos hb]
  unfold iblk3
  rw [View.read_apply]
  show V c (Pipeline.arrRef spec3 2) _ = V c (Pipeline.arrRef spec3 2) _
  refine congrArg _ (funext fun a => Fin.ext ?_)
  match a with
  | ⟨0, _⟩ => show win3_2.index t (0 : Fin 2) * 2048 + 1 * p.val = 2048 * (t.val / 8) + p.val; rw [hi.1]; omega
  | ⟨1, _⟩ => show win3_2.index t (1 : Fin 2) * 16 + 1 * q.val = q.val; rw [hi.2]; omega

/-- The block product of row `a` and column `q` over column block `k`. -/
abbrev g3 (c : Dev nD) (a q : ℕ) : ℕ → EReal :=
  fun k => ∑ j : Fin 2048, at2 (L3 V c) a (2048 * k + j.val) * at2 (v3 V c) (2048 * k + j.val) q

/-- One point's accumulation, at an entry. -/
theorem step_apply3 (c : Dev nD) (xs : Vec Ideal S2048x16 .f32) (t : Fin cfg3.N) (p : Fin 2048) (q : Fin 16) :
    k3_pay2 xs (iblk3 V c 0 t) (iblk3 V c 1 t) (ix2 p q)
      = xs (ix2 p q) + g3 V c (2048 * (t.val / 8) + p.val) q.val (t.val % 8) := by
  refine (pay2_apply xs (iblk3 V c 0 t) (iblk3 V c 1 t) p q).trans ?_
  refine congrArg (xs (ix2 p q) + ·) (Finset.sum_congr rfl fun j _ => ?_)
  rw [blk0_apply3 V c t p j, blk1_apply3 V c t j q]

/-- The accumulator after position `n` = 8·r + k, at an entry: the block products of its row for column blocks
    0 … k, added in order from zero. -/
theorem acc_apply3 (c : Dev nD) : ∀ (n : ℕ) (hn : n < cfg3.N) (p : Fin 2048) (q : Fin 16),
    acc3 V c n hn (ix2 p q) = psum (g3 V c (2048 * (n / 8) + p.val) q.val) (n % 8)
  | 0, hn, p, q => by
    rw [acc3_zero]
    refine (step_apply3 V c _ ⟨0, hn⟩ p q).trans ?_
    rw [show (k3_pay1 (F := Ideal)) (ix2 p q) = 0 from pay1_apply _]
    rfl
  | n + 1, hn, p, q => by
    rw [acc3_succ]
    by_cases h0 : (n + 1) % 8 = 0
    · rw [if_pos h0]
      refine (step_apply3 V c _ ⟨n + 1, hn⟩ p q).trans ?_
      rw [show (k3_pay1 (F := Ideal)) (ix2 p q) = 0 from pay1_apply _]
      show 0 + g3 V c (2048 * ((n + 1) / 8) + p.val) q.val ((n + 1) % 8) = psum _ ((n + 1) % 8)
      rw [h0]; rfl
    · rw [if_neg h0]
      refine (step_apply3 V c _ ⟨n + 1, hn⟩ p q).trans ?_
      rw [acc_apply3 c n (Nat.lt_of_succ_lt hn) p q]
      have e1 : (n + 1) % 8 = n % 8 + 1 := by omega
      have e2 : (n + 1) / 8 = n / 8 := by omega
      show psum _ (n % 8) + g3 V c (2048 * ((n + 1) / 8) + p.val) q.val ((n + 1) % 8) = psum _ ((n + 1) % 8)
      rw [e1, e2]; rfl

/-- The new vector: twice the product of the matrix and the vector, less the earlier vector. -/
def new3 (c : Dev nD) : S16384x16.Idx → EReal := fun i => Ideal.ofBits .f32 0x40000000#32 * prodAt (L3 V c) (v3 V c) (i 0).val (i 1).val - p3 V c i

/-- What a storing point (k = 7) puts at entry (p, q) of the result blocks is the new vector at row 2048·r + p. -/
theorem out_apply3 (c : Dev nD) (t : Fin cfg3.N) (h1 : t.val % 8 = 7) (p : Fin 2048) (q : Fin 16) (a : Fin 16384)
    (ha : a.val = 2048 * (t.val / 8) + p.val) :
    k3_pay3 (acc3 V c t.val t.isLt) (iblk3 V c 2 t) (ix2 p q) = new3 V c (ix2 a q) := by
  have hp3 : k3_pay3 (acc3 V c t.val t.isLt) (iblk3 V c 2 t) (ix2 p q)
      = Ideal.ofBits .f32 0x40000000#32 * acc3 V c t.val t.isLt (ix2 p q) - (iblk3 V c 2 t : Vec Ideal S2048x16 .f32) (ix2 p q) := by
    unfold k3_pay3
    try simp only [shapeCast_self]
    show Ideal.ofBits .f32 0x40000000#32 * _ - Ideal.ofBits .f32 0x3F800000#32 * _ = _
    rw [ofBits_one, one_mul]
  refine hp3.trans ?_
  rw [acc_apply3 V c t.val t.isLt p q, h1, psum_blocks, blk2_apply3 V c t p q]
  show _ = Ideal.ofBits .f32 0x40000000#32 * prodAt _ _ a.val q.val - p3 V c (ix2 a q)
  rw [ha, ← at2_ix2 (p3 V c) a q, ha]

/-- What a storing point (k = 7) writes back through result window 3 is its block of the new vector. -/
theorem flushed3_3 (c : Dev nD) (t : Fin cfg3.N) (hf : (cfg3.win 3).flush t = true) :
    (dat3 V c).flushed 3 t = ((cfg3.win 3).blk t).view.read (Elt Ideal) (new3 V c) := by
  have h1 : t.val % 8 = 7 := (flush3_3 t).mp hf
  have hN : t.val < 64 := lt_of_lt_of_eq t.isLt N_3
  have hi := (by decide +kernel : ∀ t : Fin grid3.N, win3_3.index t (0 : Fin 2) = t.val / 8 ∧ win3_3.index t (1 : Fin 2) = 0) t
  show (cfg3.win 3).cut (grid3.coords t) ((dat3 V c).after 3 t) = _
  rw [after3_3, out3_eq3 V c t h1]
  funext y
  have hy0 : (y 0).val < 2048 := (y 0).isLt
  have hy1 : (y 1).val < 16 := (y 1).isLt
  show k3_pay3 (acc3 V c t.val t.isLt) (iblk3 V c 2 t) ((cfg3.win 3).xinj (grid3.coords t) y) = ((cfg3.win 3).blk t).view.read (Elt Ideal) (new3 V c) y
  rw [View.read_apply, cast_eq]
  obtain ⟨r, hr⟩ : ∃ r : Fin 16384, r.val = 2048 * (t.val / 8) + (y 0).val := ⟨⟨2048 * (t.val / 8) + (y 0).val, by omega⟩, rfl⟩
  have hemb : ((cfg3.win 3).blk t).view.emb y = ix2 r (⟨(y 1).val, hy1⟩ : Fin 16) :=
    funext fun a => Fin.ext (by
      match a with
      | ⟨0, _⟩ => show win3_3.index t (0 : Fin 2) * 2048 + 1 * (y 0).val = r.val; rw [hr, hi.1]; omega
      | ⟨1, _⟩ => show win3_3.index t (1 : Fin 2) * 16 + 1 * (y 1).val = (y 1).val; rw [hi.2]; omega)
  have hy : (cfg3.win 3).xinj (grid3.coords t) y = ix2 (⟨(y 0).val, hy0⟩ : Fin 2048) (⟨(y 1).val, hy1⟩ : Fin 16) :=
    funext fun a => by match a with | ⟨0, _⟩ => rfl | ⟨1, _⟩ => rfl
  rw [hemb, hy]
  exact out_apply3 V c t h1 ⟨(y 0).val, hy0⟩ ⟨(y 1).val, hy1⟩ r hr

/-- An index of the array is in point `t`'s block of result window 3 iff each coordinate is in the block's range. -/
theorem mem_blk3_3 (t : Fin cfg3.N) (i : S16384x16.Idx) :
    i ∈ ((cfg3.win 3).blk t).view.set ↔ ∀ a : Fin 2, win3_3.index t a * S2048x16.size a ≤ (i a).val ∧ (i a).val < win3_3.index t a * S2048x16.size a + S2048x16.size a := by
  show i ∈ ((View.whole main_v35_0).slice (win3_3.rect t)).set ↔ _
  rw [View.set_slice_whole, Rect.mem_set_unit]
  exact Iff.rfl

/-- So result array 0 ends holding the new vector: row i is covered by the storing point of its row block. -/
theorem final3_3 (c : Dev nD) : (dat3 V c).arrAt 3 cfg3.N = new3 V c :=
  (dat3 V c).arrAt_eq_of_cover 3 (new3 V c) (fun t hf => flushed3_3 V c t hf) fun i => by
    have hi0 : (i 0).val < 16384 := (i 0).isLt
    have hi1 : (i 1).val < 16 := (i 1).isLt
    have ht : 8 * ((i 0).val / 2048) + 7 < cfg3.N := by rw [show cfg3.N = 64 from N_3]; omega
    have hx := (by decide +kernel : ∀ t : Fin grid3.N, win3_3.index t (0 : Fin 2) = t.val / 8 ∧ win3_3.index t (1 : Fin 2) = 0) ⟨8 * ((i 0).val / 2048) + 7, ht⟩
    refine ⟨⟨8 * ((i 0).val / 2048) + 7, ht⟩, (flush3_3 _).mpr (by show (8 * ((i 0).val / 2048) + 7) % 8 = 7; omega), ?_⟩
    rw [mem_blk3_3]
    intro a
    match a with
    | ⟨0, _⟩ =>
      show win3_3.index _ (0 : Fin 2) * 2048 ≤ (i 0).val ∧ (i 0).val < win3_3.index _ (0 : Fin 2) * 2048 + 2048
      rw [hx.1]; show (8 * ((i 0).val / 2048) + 7) / 8 * 2048 ≤ (i 0).val ∧ (i 0).val < (8 * ((i 0).val / 2048) + 7) / 8 * 2048 + 2048; omega
    | ⟨1, _⟩ =>
      show win3_3.index _ (1 : Fin 2) * 16 ≤ (i 1).val ∧ (i 1).val < win3_3.index _ (1 : Fin 2) * 16 + 16
      rw [hx.2]; omega

/-- What a storing point (k = 7) writes back through result window 4 is its block of the new vector. -/
theorem flushed3_4 (c : Dev nD) (t : Fin cfg3.N) (hf : (cfg3.win 4).flush t = true) :
    (dat3 V c).flushed 4 t = ((cfg3.win 4).blk t).view.read (Elt Ideal) (new3 V c) := by
  have h1 : t.val % 8 = 7 := (flush3_4 t).mp hf
  have hN : t.val < 64 := lt_of_lt_of_eq t.isLt N_3
  have hi := (by decide +kernel : ∀ t : Fin grid3.N, win3_4.index t (0 : Fin 2) = t.val / 8 ∧ win3_4.index t (1 : Fin 2) = 0) t
  show (cfg3.win 4).cut (grid3.coords t) ((dat3 V c).after 4 t) = _
  rw [after3_4, out4_eq3 V c t h1]
  funext y
  have hy0 : (y 0).val < 2048 := (y 0).isLt
  have hy1 : (y 1).val < 16 := (y 1).isLt
  show k3_pay3 (acc3 V c t.val t.isLt) (iblk3 V c 2 t) ((cfg3.win 4).xinj (grid3.coords t) y) = ((cfg3.win 4).blk t).view.read (Elt Ideal) (new3 V c) y
  rw [View.read_apply, cast_eq]
  obtain ⟨r, hr⟩ : ∃ r : Fin 16384, r.val = 2048 * (t.val / 8) + (y 0).val := ⟨⟨2048 * (t.val / 8) + (y 0).val, by omega⟩, rfl⟩
  have hemb : ((cfg3.win 4).blk t).view.emb y = ix2 r (⟨(y 1).val, hy1⟩ : Fin 16) :=
    funext fun a => Fin.ext (by
      match a with
      | ⟨0, _⟩ => show win3_4.index t (0 : Fin 2) * 2048 + 1 * (y 0).val = r.val; rw [hr, hi.1]; omega
      | ⟨1, _⟩ => show win3_4.index t (1 : Fin 2) * 16 + 1 * (y 1).val = (y 1).val; rw [hi.2]; omega)
  have hy : (cfg3.win 4).xinj (grid3.coords t) y = ix2 (⟨(y 0).val, hy0⟩ : Fin 2048) (⟨(y 1).val, hy1⟩ : Fin 16) :=
    funext fun a => by match a with | ⟨0, _⟩ => rfl | ⟨1, _⟩ => rfl
  rw [hemb, hy]
  exact out_apply3 V c t h1 ⟨(y 0).val, hy0⟩ ⟨(y 1).val, hy1⟩ r hr

/-- An index of the array is in point `t`'s block of result window 4 iff each coordinate is in the block's range. -/
theorem mem_blk3_4 (t : Fin cfg3.N) (i : S16384x16.Idx) :
    i ∈ ((cfg3.win 4).blk t).view.set ↔ ∀ a : Fin 2, win3_4.index t a * S2048x16.size a ≤ (i a).val ∧ (i a).val < win3_4.index t a * S2048x16.size a + S2048x16.size a := by
  show i ∈ ((View.whole main_v35_1).slice (win3_4.rect t)).set ↔ _
  rw [View.set_slice_whole, Rect.mem_set_unit]
  exact Iff.rfl

/-- So result array 1 ends holding the new vector: row i is covered by the storing point of its row block. -/
theorem final3_4 (c : Dev nD) : (dat3 V c).arrAt 4 cfg3.N = new3 V c :=
  (dat3 V c).arrAt_eq_of_cover 4 (new3 V c) (fun t hf => flushed3_4 V c t hf) fun i => by
    have hi0 : (i 0).val < 16384 := (i 0).isLt
    have hi1 : (i 1).val < 16 := (i 1).isLt
    have ht : 8 * ((i 0).val / 2048) + 7 < cfg3.N := by rw [show cfg3.N = 64 from N_3]; omega
    have hx := (by decide +kernel : ∀ t : Fin grid3.N, win3_4.index t (0 : Fin 2) = t.val / 8 ∧ win3_4.index t (1 : Fin 2) = 0) ⟨8 * ((i 0).val / 2048) + 7, ht⟩
    refine ⟨⟨8 * ((i 0).val / 2048) + 7, ht⟩, (flush3_4 _).mpr (by show (8 * ((i 0).val / 2048) + 7) % 8 = 7; omega), ?_⟩
    rw [mem_blk3_4]
    intro a
    match a with
    | ⟨0, _⟩ =>
      show win3_4.index _ (0 : Fin 2) * 2048 ≤ (i 0).val ∧ (i 0).val < win3_4.index _ (0 : Fin 2) * 2048 + 2048
      rw [hx.1]; show (8 * ((i 0).val / 2048) + 7) / 8 * 2048 ≤ (i 0).val ∧ (i 0).val < (8 * ((i 0).val / 2048) + 7) / 8 * 2048 + 2048; omega
    | ⟨1, _⟩ =>
      show win3_4.index _ (1 : Fin 2) * 16 ≤ (i 1).val ∧ (i 1).val < win3_4.index _ (1 : Fin 2) * 16 + 16
      rw [hx.2]; omega

end Cert.KernelIdeal.Hand

end
-- ==== Proof.RegI4Acc.lean ====
/-
  Region 4, its values for any float instance: what each case's stores read back as, in terms of the body's
  arithmetic; and the accumulator after every grid point as a recursion over the points (started afresh, from the
  zero vector, at the first column block of each row block, continued otherwise).
-/
import proofs.«108570_j29480655520371_2_alg».proof.Proof.RegI4Frame
import Idealize.ShloMosaic.Lib.Pipeline.Value
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

theorem hz2_4 : (![0, 0] : Fin 2 → Nat) = fun _ => 0 := funext fun a => by fin_cases a <;> rfl

/-- Case A leaves in the accumulator the first block product added to the zero vector. -/
theorem soutA_eq4 (c : Dev nD) (i : grid4.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond4_0 i) (hc1 : ¬cond4_1 i) (x0 : Vec F S2048x2048 .bf16) (x1 : Vec F S2048x16 .bf16) (x2 : Vec F S2048x16 .f32) :
    sout4_A_0 (F := F) c i arg2 harg2 arg3 harg3 arg4 harg4 arg5 harg5 arg6 harg6 arg7 harg7 hc0 hc1 x0 x1 x2 = k4_pay2 (k4_pay1) x0 x1 := by
  have hz2 := hz2_4
  unfold sout4_A_0
  rw [View.read_writes_eq_canon _ _ _ (scover4_A_0 c i arg2 harg2 arg3 harg3 arg4 harg4 arg5 harg5 arg6 harg6 arg7 harg7 hc0 hc1 x0 x1 x2)]
  unfold kernelRun4_A
  dsimp only
  try sl_unfold_words
  rw [View.canon_cons_unit_zero hz2, View.readCov_unit_zero (S := S2048x16) _ hz2]
  simp only [View.readAt_eq_ld, harg2.read_unread, harg3.read_unread, harg4.read_unread, harg7.read_unread, View.ld_unit_zero (S := S2048x2048) hz2, View.ld_unit_zero (S := S2048x16) hz2]

/-- Case B leaves in the accumulator what it held plus this point's block product. -/
theorem soutB_eq4 (c : Dev nD) (i : grid4.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond4_0 i) (hc1 : ¬cond4_1 i) (x0 : Vec F S2048x2048 .bf16) (x1 : Vec F S2048x16 .bf16) (x2 : Vec F S2048x16 .f32) (xs0 : Vec F S2048x16 .f32) :
    sout4_B_0 (F := F) c i arg2 harg2 arg3 harg3 arg4 harg4 arg5 harg5 arg6 harg6 arg7 harg7 hc0 hc1 x0 x1 x2 xs0 = k4_pay2 xs0 x0 x1 := by
  have hz2 := hz2_4
  unfold sout4_B_0
  rw [View.read_writes_eq_canon _ _ _ (scover4_B_0 c i arg2 harg2 arg3 harg3 arg4 harg4 arg5 harg5 arg6 harg6 arg7 harg7 hc0 hc1 x0 x1 x2 xs0)]
  unfold kernelRun4_B
  dsimp only
  try sl_unfold_words
  rw [View.canon_unit_zero hz2]
  simp only [View.readAt_eq_ld, harg2.read_unread, harg3.read_unread, harg4.read_unread, harg7.read_unread, View.ld_unit_zero (S := S2048x2048) hz2, View.ld_unit_zero (S := S2048x16) hz2]

/-- Case C leaves in the accumulator what it held plus the last block product, -/
theorem soutC_eq4 (c : Dev nD) (i : grid4.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond4_0 i) (hc1 : cond4_1 i) (x0 : Vec F S2048x2048 .bf16) (x1 : Vec F S2048x16 .bf16) (x2 : Vec F S2048x16 .f32) (xs0 : Vec F S2048x16 .f32) :
    sout4_C_0 (F := F) c i arg2 harg2 arg3 harg3 arg4 harg4 arg5 harg5 arg6 harg6 arg7 harg7 hc0 hc1 x0 x1 x2 xs0 = k4_pay2 xs0 x0 x1 := by
  have hz2 := hz2_4
  unfold sout4_C_0
  rw [View.read_writes_eq_canon _ _ _ (scover4_C_0 c i arg2 harg2 arg3 harg3 arg4 harg4 arg5 harg5 arg6 harg6 arg7 harg7 hc0 hc1 x0 x1 x2 xs0)]
  unfold kernelRun4_C
  dsimp only
  try sl_unfold_words
  rw [View.canon_unit_zero hz2]
  simp only [View.readAt_eq_ld, harg2.read_unread, harg3.read_unread, harg4.read_unread, harg7.read_unread, View.ld_unit_zero (S := S2048x2048) hz2, View.ld_unit_zero (S := S2048x16) hz2]

/-- in the f32 result block the combination of that accumulator and the block of the earlier vector, -/
theorem outC3_eq4 (c : Dev nD) (i : grid4.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond4_0 i) (hc1 : cond4_1 i) (x0 : Vec F S2048x2048 .bf16) (x1 : Vec F S2048x16 .bf16) (x2 : Vec F S2048x16 .f32) (xs0 : Vec F S2048x16 .f32) :
    out4_C_3 (F := F) c i arg2 harg2 arg3 harg3 arg4 harg4 arg5 harg5 arg6 harg6 arg7 harg7 hc0 hc1 x0 x1 x2 xs0 = k4_pay3 (k4_pay2 xs0 x0 x1) x2 := by
  have hz2 := hz2_4
  unfold out4_C_3
  rw [View.read_writes_eq_canon _ _ _ (cover4_C_3 c i arg2 harg2 arg3 harg3 arg4 harg4 arg5 harg5 arg6 harg6 arg7 harg7 hc0 hc1 x0 x1 x2 xs0)]
  unfold kernelRun4_C
  dsimp only
  try sl_unfold_words
  rw [View.canon_unit_zero hz2, View.readCov_unit_zero (S := S2048x16) _ hz2]
  simp only [View.readAt_eq_ld, harg2.read_unread, harg3.read_unread, harg4.read_unread, harg7.read_unread, View.ld_unit_zero (S := S2048x2048) hz2, View.ld_unit_zero (S := S2048x16) hz2]

/-- and in the bf16 result block the same combination in the narrower format. -/
theorem outC4_eq4 (c : Dev nD) (i : grid4.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond4_0 i) (hc1 : cond4_1 i) (x0 : Vec F S2048x2048 .bf16) (x1 : Vec F S2048x16 .bf16) (x2 : Vec F S2048x16 .f32) (xs0 : Vec F S2048x16 .f32) :
    out4_C_4 (F := F) c i arg2 harg2 arg3 harg3 arg4 harg4 arg5 harg5 arg6 harg6 arg7 harg7 hc0 hc1 x0 x1 x2 xs0 = k4_pay4 (k4_pay2 xs0 x0 x1) x2 := by
  have hz2 := hz2_4
  unfold out4_C_4
  rw [View.read_writes_eq_canon _ _ _ (cover4_C_4 c i arg2 harg2 arg3 harg3 arg4 harg4 arg5 harg5 arg6 harg6 arg7 harg7 hc0 hc1 x0 x1 x2 xs0)]
  unfold kernelRun4_C
  dsimp only
  try sl_unfold_words
  rw [View.canon_unit_zero hz2, View.readCov_unit_zero (S := S2048x16) _ hz2]
  simp only [View.readAt_eq_ld, harg2.read_unread, harg3.read_unread, harg4.read_unread, harg7.read_unread, View.ld_unit_zero (S := S2048x2048) hz2, View.ld_unit_zero (S := S2048x16) hz2]

/-- The accumulator after the body at position `n`: started from the zero vector at the first column block of a
    row block, continued from the position before otherwise. -/
def acc4 (c : Dev nD) : (n : ℕ) → n < cfg4.N → Vec F S2048x16 .f32
  | 0, hn => k4_pay2 (k4_pay1) (iblk4 V c 0 ⟨0, hn⟩) (iblk4 V c 1 ⟨0, hn⟩)
  | n + 1, hn =>
    if (n + 1) % 8 = 0 then k4_pay2 (k4_pay1) (iblk4 V c 0 ⟨n + 1, hn⟩) (iblk4 V c 1 ⟨n + 1, hn⟩)
    else k4_pay2 (acc4 c n (Nat.lt_of_succ_lt hn)) (iblk4 V c 0 ⟨n + 1, hn⟩) (iblk4 V c 1 ⟨n + 1, hn⟩)

theorem acc4_zero (c : Dev nD) (hn : 0 < cfg4.N) :
    acc4 V c 0 hn = k4_pay2 (k4_pay1) (iblk4 V c 0 ⟨0, hn⟩) (iblk4 V c 1 ⟨0, hn⟩) := rfl
theorem acc4_succ (c : Dev nD) (n : ℕ) (hn : n + 1 < cfg4.N) :
    acc4 V c (n + 1) hn = if (n + 1) % 8 = 0 then k4_pay2 (k4_pay1) (iblk4 V c 0 ⟨n + 1, hn⟩) (iblk4 V c 1 ⟨n + 1, hn⟩)
      else k4_pay2 (acc4 V c n (Nat.lt_of_succ_lt hn)) (iblk4 V c 0 ⟨n + 1, hn⟩) (iblk4 V c 1 ⟨n + 1, hn⟩) := rfl

/-- The frame's point-by-point accumulator is that recursion. -/
theorem scr_eq4 (c : Dev nD) : ∀ (n : ℕ) (hn : n < cfg4.N), (outsAt4 V c n hn).2.2 = acc4 V c n hn
  | 0, hn => by
    have e := outsAt4_A V c ⟨0, hn⟩ (Nat.zero_mod _) (fun h => absurd (show (0 : ℕ) % 8 = 7 from h) (show ¬((0 : ℕ) % 8 = 7) by decide))
    rw [show outsAt4 V c 0 hn = _ from e, acc4_zero]
    dsimp only
    exact soutA_eq4 ..
  | n + 1, hn => by
    by_cases h0 : (n + 1) % 8 = 0
    · have h1 : ¬(n + 1) % 8 = 7 := by omega
      have e := outsAt4_A V c ⟨n + 1, hn⟩ h0 h1
      rw [show outsAt4 V c (n + 1) hn = _ from e]
      rw [acc4_succ, if_pos h0]
      dsimp only
      exact soutA_eq4 ..
    · by_cases h1 : (n + 1) % 8 = 7
      · have e := outsAt4_C V c ⟨n + 1, hn⟩ h0 h1
        rw [show outsAt4 V c (n + 1) hn = _ from e]
        rw [acc4_succ, if_neg h0]
        dsimp only
        rw [soutC_eq4]
        exact congrArg (fun a => k4_pay2 a _ _) (scr_eq4 c n (Nat.lt_of_succ_lt hn))
      · have e := outsAt4_B V c ⟨n + 1, hn⟩ h0 h1
        rw [show outsAt4 V c (n + 1) hn = _ from e]
        rw [acc4_succ, if_neg h0]
        dsimp only
        rw [soutB_eq4]
        exact congrArg (fun a => k4_pay2 a _ _) (scr_eq4 c n (Nat.lt_of_succ_lt hn))

/-- At a point that stores (k = 7) the f32 result block holds the combination of the accumulator and the block of
    the earlier vector, -/
theorem out3_eq4 (c : Dev nD) (t : Fin cfg4.N) (h1 : t.val % 8 = 7) :
    (outsAt4 V c t.val t.isLt).1 = k4_pay3 (acc4 V c t.val t.isLt) (iblk4 V c 2 t) := by
  have h0 : ¬t.val % 8 = 0 := by omega
  have hz : t.val ≠ 0 := fun h => by rw [h] at h1; exact absurd h1 (by decide)
  rw [outsAt4_C V c t h0 h1]
  dsimp only
  rw [outC3_eq4]
  obtain ⟨n, hn⟩ := t
  cases n with
  | zero => exact absurd rfl hz
  | succ n =>
    rw [acc4_succ, if_neg h0]
    exact congrArg (fun a => k4_pay3 (k4_pay2 a _ _) _) (scr_eq4 V c n (Nat.lt_of_succ_lt hn))

/-- and the bf16 result block the same in the narrower format. -/
theorem out4_eq4 (c : Dev nD) (t : Fin cfg4.N) (h1 : t.val % 8 = 7) :
    (outsAt4 V c t.val t.isLt).2.1 = k4_pay4 (acc4 V c t.val t.isLt) (iblk4 V c 2 t) := by
  have h0 : ¬t.val % 8 = 0 := by omega
  have hz : t.val ≠ 0 := fun h => by rw [h] at h1; exact absurd h1 (by decide)
  rw [outsAt4_C V c t h0 h1]
  dsimp only
  rw [outC4_eq4]
  obtain ⟨n, hn⟩ := t
  cases n with
  | zero => exact absurd rfl hz
  | succ n =>
    rw [acc4_succ, if_neg h0]
    exact congrArg (fun a => k4_pay4 (k4_pay2 a _ _) _) (scr_eq4 V c n (Nat.lt_of_succ_lt hn))

end Cert.KernelIdeal.Hand

end
-- ==== Proof.RegI4Value.lean ====
/-
  Region 4 at the extended reals: its two result arrays end holding 2 · (Ls · v) − v′  of the arrays the
  region finds in its three input windows (Ls the matrix, v the vector, v′ the earlier vector).
  A point t = 8·r + k reads block (r, k) of the matrix, block k of the vector and block r of the earlier vector. After
  it the accumulator's entry (p, q) is the block products of row 2048·r + p for column blocks 0 … k added in order from
  zero; the point k = 7 stores 2 · a − 1 · b  of the accumulator a and the earlier vector's block b into both result
  blocks, which are then written back; the eight block products are the whole product's entry (`psum_blocks`), and the
  storing points' blocks cover the array.
-/
import proofs.«108570_j29480655520371_2_alg».proof.Proof.RegI4Acc
import proofs.«108570_j29480655520371_2_alg».proof.Proof.ChebBlock

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)

variable (V : (c : Dev nD) → (b : Ref sig .tc) → Buf (Elt Ideal) ((c : Thread nD τ).loc b))

/-- The matrix, the vector and the earlier vector as the region finds them in its input windows' arrays. -/
abbrev L4 (c : Dev nD) : S16384x16384.Idx → EReal := V c (Pipeline.arrRef spec4 0)
abbrev v4 (c : Dev nD) : S16384x16.Idx → EReal := V c (Pipeline.arrRef spec4 1)
abbrev p4 (c : Dev nD) : S16384x16.Idx → EReal := V c (Pipeline.arrRef spec4 2)

/-- The matrix block at point t = 8·r + k is rows 2048·r …, columns 2048·k … of the matrix. -/
theorem blk0_apply4 (c : Dev nD) (t : Fin cfg4.N) (p j : Fin 2048) :
    (iblk4 V c 0 t : Vec Ideal S2048x2048 .bf16) (ix2 p j) = at2 (L4 V c) (2048 * (t.val / 8) + p.val) (2048 * (t.val % 8) + j.val) := by
  have hi := (by decide +kernel : ∀ t : Fin grid4.N, win4_0.index t (0 : Fin 2) = t.val / 8 ∧ win4_0.index t (1 : Fin 2) = t.val % 8) t
  have hN : t.val < 64 := lt_of_lt_of_eq t.isLt N_4
  have hb : 2048 * (t.val / 8) + p.val < 16384 ∧ 2048 * (t.val % 8) + j.val < 16384 := ⟨by omega, by omega⟩
  unfold at2; rw [dif_pos hb]
  unfold iblk4
  rw [View.read_apply]
  show V c (Pipeline.arrRef spec4 0) _ = V c (Pipeline.arrRef spec4 0) _
  refine congrArg _ (funext fun a => Fin.ext ?_)
  match a with
  | ⟨0, _⟩ => show win4_0.index t (0 : Fin 2) * 2048 + 1 * p.val = 2048 * (t.val / 8) + p.val; rw [hi.1]; omega
  | ⟨1, _⟩ => show win4_0.index t (1 : Fin 2) * 2048 + 1 * j.val = 2048 * (t.val % 8) + j.val; rw [hi.2]; omega

/-- The vector block at point t = 8·r + k is rows 2048·k … of the vector. -/
theorem blk1_apply4 (c : Dev nD) (t : Fin cfg4.N) (j : Fin 2048) (q : Fin 16) :
    (iblk4 V c 1 t : Vec Ideal S2048x16 .bf16) (ix2 j q) = at2 (v4 V c) (2048 * (t.val % 8) + j.val) q.val := by
  have hi := (by decide +kernel : ∀ t : Fin grid4.N, win4_1.index t (0 : Fin 2) = t.val % 8 ∧ win4_1.index t (1 : Fin 2) = 0) t
  have hN : t.val < 64 := lt_of_lt_of_eq t.isLt N_4
  have hb : 2048 * (t.val % 8) + j.val < 16384 ∧ q.val < 16 := ⟨by omega, q.isLt⟩
  unfold at2; rw [dif_pos hb]
  unfold iblk4
  rw [View.read_apply]
  show V c (Pipeline.arrRef spec4 1) _ = V c (Pipeline.arrRef spec4 1) _
  refine congrArg _ (funext fun a => Fin.ext ?_)
  match a with
  | ⟨0, _⟩ => show win4_1.index t (0 : Fin 2) * 2048 + 1 * j.val = 2048 * (t.val % 8) + j.val; rw [hi.1]; omega
  | ⟨1, _⟩ => show win4_1.index t (1 : Fin 2) * 16 + 1 * q.val = q.val; rw [hi.2]; omega

/-- The earlier vector's block at point t = 8·r + k is its rows 2048·r …. -/
theorem blk2_apply4 (c : Dev nD) (t : Fin cfg4.N) (p : Fin 2048) (q : Fin 16) :
    (iblk4 V c 2 t : Vec Ideal S2048x16 .f32) (ix2 p q) = at2 (p4 V c) (2048 * (t.val / 8) + p.val) q.val := by
  have hi := (by decide +kernel : ∀ t : Fin grid4.N, win4_2.index t (0 : Fin 2) = t.val / 8 ∧ win4_2.index t (1 : Fin 2) = 0) t
  have hN : t.val < 64 := lt_of_lt_of_eq t.isLt N_4
  have hb : 2048 * (t.val / 8) + p.val < 16384 ∧ q.val < 16 := ⟨by omega, q.isLt⟩
  unfold at2; rw [dif_pos hb]
  unfold iblk4
  rw [View.read_apply]
  show V c (Pipeline.arrRef spec4 2) _ = V c (Pipeline.arrRef spec4 2) _
  refine congrArg _ (funext fun a => Fin.ext ?_)
  match a with
  | ⟨0, _⟩ => show win4_2.index t (0 : Fin 2) * 2048 + 1 * p.val = 2048 * (t.val / 8) + p.val; rw [hi.1]; omega
  | ⟨1, _⟩ => show win4_2.index t (1 : Fin 2) * 16 + 1 * q.val = q.val; rw [hi.2]; omega

/-- The block product of row `a` and column `q` over column block `k`. -/
abbrev g4 (c : Dev nD) (a q : ℕ) : ℕ → EReal :=
  fun k => ∑ j : Fin 2048, at2 (L4 V c) a (2048 * k + j.val) * at2 (v4 V c) (2048 * k + j.val) q

/-- One point's accumulation, at an entry. -/
theorem step_apply4 (c : Dev nD) (xs : Vec Ideal S2048x16 .f32) (t : Fin cfg4.N) (p : Fin 2048) (q : Fin 16) :
    k4_pay2 xs (iblk4 V c 0 t) (iblk4 V c 1 t) (ix2 p q)
      = xs (ix2 p q) + g4 V c (2048 * (t.val / 8) + p.val) q.val (t.val % 8) := by
  refine (pay2_apply xs (iblk4 V c 0 t) (iblk4 V c 1 t) p q).trans ?_
  refine congrArg (xs (ix2 p q) + ·) (Finset.sum_congr rfl fun j _ => ?_)
  rw [blk0_apply4 V c t p j, blk1_apply4 V c t j q]

/-- The accumulator after position `n` = 8·r + k, at an entry: the block products of its row for column blocks
    0 … k, added in order from zero. -/
theorem acc_apply4 (c : Dev nD) : ∀ (n : ℕ) (hn : n < cfg4.N) (p : Fin 2048) (q : Fin 16),
    acc4 V c n hn (ix2 p q) = psum (g4 V c (2048 * (n / 8) + p.val) q.val) (n % 8)
  | 0, hn, p, q => by
    rw [acc4_zero]
    refine (step_apply4 V c _ ⟨0, hn⟩ p q).trans ?_
    rw [show (k4_pay1 (F := Ideal)) (ix2 p q) = 0 from pay1_apply _]
    rfl
  | n + 1, hn, p, q => by
    rw [acc4_succ]
    by_cases h0 : (n + 1) % 8 = 0
    · rw [if_pos h0]
      refine (step_apply4 V c _ ⟨n + 1, hn⟩ p q).trans ?_
      rw [show (k4_pay1 (F := Ideal)) (ix2 p q) = 0 from pay1_apply _]
      show 0 + g4 V c (2048 * ((n + 1) / 8) + p.val) q.val ((n + 1) % 8) = psum _ ((n + 1) % 8)
      rw [h0]; rfl
    · rw [if_neg h0]
      refine (step_apply4 V c _ ⟨n + 1, hn⟩ p q).trans ?_
      rw [acc_apply4 c n (Nat.lt_of_succ_lt hn) p q]
      have e1 : (n + 1) % 8 = n % 8 + 1 := by omega
      have e2 : (n + 1) / 8 = n / 8 := by omega
      show psum _ (n % 8) + g4 V c (2048 * ((n + 1) / 8) + p.val) q.val ((n + 1) % 8) = psum _ ((n + 1) % 8)
      rw [e1, e2]; rfl

/-- The new vector: twice the product of the matrix and the vector, less the earlier vector. -/
def new4 (c : Dev nD) : S16384x16.Idx → EReal := fun i => Ideal.ofBits .f32 0x40000000#32 * prodAt (L4 V c) (v4 V c) (i 0).val (i 1).val - p4 V c i

/-- What a storing point (k = 7) puts at entry (p, q) of the result blocks is the new vector at row 2048·r + p. -/
theorem out_apply4 (c : Dev nD) (t : Fin cfg4.N) (h1 : t.val % 8 = 7) (p : Fin 2048) (q : Fin 16) (a : Fin 16384)
    (ha : a.val = 2048 * (t.val / 8) + p.val) :
    k4_pay3 (acc4 V c t.val t.isLt) (iblk4 V c 2 t) (ix2 p q) = new4 V c (ix2 a q) := by
  have hp3 : k4_pay3 (acc4 V c t.val t.isLt) (iblk4 V c 2 t) (ix2 p q)
      = Ideal.ofBits .f32 0x40000000#32 * acc4 V c t.val t.isLt (ix2 p q) - (iblk4 V c 2 t : Vec Ideal S2048x16 .f32) (ix2 p q) := by
    unfold k4_pay3
    try simp only [shapeCast_self]
    show Ideal.ofBits .f32 0x40000000#32 * _ - Ideal.ofBits .f32 0x3F800000#32 * _ = _
    rw [ofBits_one, one_mul]
  refine hp3.trans ?_
  rw [acc_apply4 V c t.val t.isLt p q, h1, psum_blocks, blk2_apply4 V c t p q]
  show _ = Ideal.ofBits .f32 0x40000000#32 * prodAt _ _ a.val q.val - p4 V c (ix2 a q)
  rw [ha, ← at2_ix2 (p4 V c) a q, ha]

/-- What a storing point (k = 7) writes back through result window 3 is its block of the new vector. -/
theorem flushed4_3 (c : Dev nD) (t : Fin cfg4.N) (hf : (cfg4.win 3).flush t = true) :
    (dat4 V c).flushed 3 t = ((cfg4.win 3).blk t).view.read (Elt Ideal) (new4 V c) := by
  have h1 : t.val % 8 = 7 := (flush4_3 t).mp hf
  have hN : t.val < 64 := lt_of_lt_of_eq t.isLt N_4
  have hi := (by decide +kernel : ∀ t : Fin grid4.N, win4_3.index t (0 : Fin 2) = t.val / 8 ∧ win4_3.index t (1 : Fin 2) = 0) t
  show (cfg4.win 3).cut (grid4.coords t) ((dat4 V c).after 3 t) = _
  rw [after4_3, out3_eq4 V c t h1]
  funext y
  have hy0 : (y 0).val < 2048 := (y 0).isLt
  have hy1 : (y 1).val < 16 := (y 1).isLt
  show k4_pay3 (acc4 V c t.val t.isLt) (iblk4 V c 2 t) ((cfg4.win 3).xinj (grid4.coords t) y) = ((cfg4.win 3).blk t).view.read (Elt Ideal) (new4 V c) y
  rw [View.read_apply, cast_eq]
  obtain ⟨r, hr⟩ : ∃ r : Fin 16384, r.val = 2048 * (t.val / 8) + (y 0).val := ⟨⟨2048 * (t.val / 8) + (y 0).val, by omega⟩, rfl⟩
  have hemb : ((cfg4.win 3).blk t).view.emb y = ix2 r (⟨(y 1).val, hy1⟩ : Fin 16) :=
    funext fun a => Fin.ext (by
      match a with
      | ⟨0, _⟩ => show win4_3.index t (0 : Fin 2) * 2048 + 1 * (y 0).val = r.val; rw [hr, hi.1]; omega
      | ⟨1, _⟩ => show win4_3.index t (1 : Fin 2) * 16 + 1 * (y 1).val = (y 1).val; rw [hi.2]; omega)
  have hy : (cfg4.win 3).xinj (grid4.coords t) y = ix2 (⟨(y 0).val, hy0⟩ : Fin 2048) (⟨(y 1).val, hy1⟩ : Fin 16) :=
    funext fun a => by match a with | ⟨0, _⟩ => rfl | ⟨1, _⟩ => rfl
  rw [hemb, hy]
  exact out_apply4 V c t h1 ⟨(y 0).val, hy0⟩ ⟨(y 1).val, hy1⟩ r hr

/-- An index of the array is in point `t`'s block of result window 3 iff each coordinate is in the block's range. -/
theorem mem_blk4_3 (t : Fin cfg4.N) (i : S16384x16.Idx) :
    i ∈ ((cfg4.win 3).blk t).view.set ↔ ∀ a : Fin 2, win4_3.index t a * S2048x16.size a ≤ (i a).val ∧ (i a).val < win4_3.index t a * S2048x16.size a + S2048x16.size a := by
  show i ∈ ((View.whole main_v43_0).slice (win4_3.rect t)).set ↔ _
  rw [View.set_slice_whole, Rect.mem_set_unit]
  exact Iff.rfl

/-- So result array 0 ends holding the new vector: row i is covered by the storing point of its row block. -/
theorem final4_3 (c : Dev nD) : (dat4 V c).arrAt 3 cfg4.N = new4 V c :=
  (dat4 V c).arrAt_eq_of_cover 3 (new4 V c) (fun t hf => flushed4_3 V c t hf) fun i => by
    have hi0 : (i 0).val < 16384 := (i 0).isLt
    have hi1 : (i 1).val < 16 := (i 1).isLt
    have ht : 8 * ((i 0).val / 2048) + 7 < cfg4.N := by rw [show cfg4.N = 64 from N_4]; omega
    have hx := (by decide +kernel : ∀ t : Fin grid4.N, win4_3.index t (0 : Fin 2) = t.val / 8 ∧ win4_3.index t (1 : Fin 2) = 0) ⟨8 * ((i 0).val / 2048) + 7, ht⟩
    refine ⟨⟨8 * ((i 0).val / 2048) + 7, ht⟩, (flush4_3 _).mpr (by show (8 * ((i 0).val / 2048) + 7) % 8 = 7; omega), ?_⟩
    rw [mem_blk4_3]
    intro a
    match a with
    | ⟨0, _⟩ =>
      show win4_3.index _ (0 : Fin 2) * 2048 ≤ (i 0).val ∧ (i 0).val < win4_3.index _ (0 : Fin 2) * 2048 + 2048
      rw [hx.1]; show (8 * ((i 0).val / 2048) + 7) / 8 * 2048 ≤ (i 0).val ∧ (i 0).val < (8 * ((i 0).val / 2048) + 7) / 8 * 2048 + 2048; omega
    | ⟨1, _⟩ =>
      show win4_3.index _ (1 : Fin 2) * 16 ≤ (i 1).val ∧ (i 1).val < win4_3.index _ (1 : Fin 2) * 16 + 16
      rw [hx.2]; omega

/-- What a storing point (k = 7) writes back through result window 4 is its block of the new vector. -/
theorem flushed4_4 (c : Dev nD) (t : Fin cfg4.N) (hf : (cfg4.win 4).flush t = true) :
    (dat4 V c).flushed 4 t = ((cfg4.win 4).blk t).view.read (Elt Ideal) (new4 V c) := by
  have h1 : t.val % 8 = 7 := (flush4_4 t).mp hf
  have hN : t.val < 64 := lt_of_lt_of_eq t.isLt N_4
  have hi := (by decide +kernel : ∀ t : Fin grid4.N, win4_4.index t (0 : Fin 2) = t.val / 8 ∧ win4_4.index t (1 : Fin 2) = 0) t
  show (cfg4.win 4).cut (grid4.coords t) ((dat4 V c).after 4 t) = _
  rw [after4_4, out4_eq4 V c t h1]
  funext y
  have hy0 : (y 0).val < 2048 := (y 0).isLt
  have hy1 : (y 1).val < 16 := (y 1).isLt
  show k4_pay3 (acc4 V c t.val t.isLt) (iblk4 V c 2 t) ((cfg4.win 4).xinj (grid4.coords t) y) = ((cfg4.win 4).blk t).view.read (Elt Ideal) (new4 V c) y
  rw [View.read_apply, cast_eq]
  obtain ⟨r, hr⟩ : ∃ r : Fin 16384, r.val = 2048 * (t.val / 8) + (y 0).val := ⟨⟨2048 * (t.val / 8) + (y 0).val, by omega⟩, rfl⟩
  have hemb : ((cfg4.win 4).blk t).view.emb y = ix2 r (⟨(y 1).val, hy1⟩ : Fin 16) :=
    funext fun a => Fin.ext (by
      match a with
      | ⟨0, _⟩ => show win4_4.index t (0 : Fin 2) * 2048 + 1 * (y 0).val = r.val; rw [hr, hi.1]; omega
      | ⟨1, _⟩ => show win4_4.index t (1 : Fin 2) * 16 + 1 * (y 1).val = (y 1).val; rw [hi.2]; omega)
  have hy : (cfg4.win 4).xinj (grid4.coords t) y = ix2 (⟨(y 0).val, hy0⟩ : Fin 2048) (⟨(y 1).val, hy1⟩ : Fin 16) :=
    funext fun a => by match a with | ⟨0, _⟩ => rfl | ⟨1, _⟩ => rfl
  rw [hemb, hy]
  exact out_apply4 V c t h1 ⟨(y 0).val, hy0⟩ ⟨(y 1).val, hy1⟩ r hr

/-- An index of the array is in point `t`'s block of result window 4 iff each coordinate is in the block's range. -/
theorem mem_blk4_4 (t : Fin cfg4.N) (i : S16384x16.Idx) :
    i ∈ ((cfg4.win 4).blk t).view.set ↔ ∀ a : Fin 2, win4_4.index t a * S2048x16.size a ≤ (i a).val ∧ (i a).val < win4_4.index t a * S2048x16.size a + S2048x16.size a := by
  show i ∈ ((View.whole main_v43_1).slice (win4_4.rect t)).set ↔ _
  rw [View.set_slice_whole, Rect.mem_set_unit]
  exact Iff.rfl

/-- So result array 1 ends holding the new vector: row i is covered by the storing point of its row block. -/
theorem final4_4 (c : Dev nD) : (dat4 V c).arrAt 4 cfg4.N = new4 V c :=
  (dat4 V c).arrAt_eq_of_cover 4 (new4 V c) (fun t hf => flushed4_4 V c t hf) fun i => by
    have hi0 : (i 0).val < 16384 := (i 0).isLt
    have hi1 : (i 1).val < 16 := (i 1).isLt
    have ht : 8 * ((i 0).val / 2048) + 7 < cfg4.N := by rw [show cfg4.N = 64 from N_4]; omega
    have hx := (by decide +kernel : ∀ t : Fin grid4.N, win4_4.index t (0 : Fin 2) = t.val / 8 ∧ win4_4.index t (1 : Fin 2) = 0) ⟨8 * ((i 0).val / 2048) + 7, ht⟩
    refine ⟨⟨8 * ((i 0).val / 2048) + 7, ht⟩, (flush4_4 _).mpr (by show (8 * ((i 0).val / 2048) + 7) % 8 = 7; omega), ?_⟩
    rw [mem_blk4_4]
    intro a
    match a with
    | ⟨0, _⟩ =>
      show win4_4.index _ (0 : Fin 2) * 2048 ≤ (i 0).val ∧ (i 0).val < win4_4.index _ (0 : Fin 2) * 2048 + 2048
      rw [hx.1]; show (8 * ((i 0).val / 2048) + 7) / 8 * 2048 ≤ (i 0).val ∧ (i 0).val < (8 * ((i 0).val / 2048) + 7) / 8 * 2048 + 2048; omega
    | ⟨1, _⟩ =>
      show win4_4.index _ (1 : Fin 2) * 16 ≤ (i 1).val ∧ (i 1).val < win4_4.index _ (1 : Fin 2) * 16 + 16
      rw [hx.2]; omega

end Cert.KernelIdeal.Hand

end
-- ==== Proof.RegI5Acc.lean ====
/-
  Region 5, its values for any float instance: what each case's stores read back as, in terms of the body's
  arithmetic; and the accumulator after every grid point as a recursion over the points (started afresh, from the
  zero vector, at the first column block of each row block, continued otherwise).
-/
import proofs.«108570_j29480655520371_2_alg».proof.Proof.RegI5Frame
import Idealize.ShloMosaic.Lib.Pipeline.Value
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

theorem hz2_5 : (![0, 0] : Fin 2 → Nat) = fun _ => 0 := funext fun a => by fin_cases a <;> rfl

/-- Case A leaves in the accumulator the first block product added to the zero vector. -/
theorem soutA_eq5 (c : Dev nD) (i : grid5.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond5_0 i) (hc1 : ¬cond5_1 i) (x0 : Vec F S2048x2048 .bf16) (x1 : Vec F S2048x16 .bf16) (x2 : Vec F S2048x16 .f32) :
    sout5_A_0 (F := F) c i arg2 harg2 arg3 harg3 arg4 harg4 arg5 harg5 arg6 harg6 arg7 harg7 hc0 hc1 x0 x1 x2 = k5_pay2 (k5_pay1) x0 x1 := by
  have hz2 := hz2_5
  unfold sout5_A_0
  rw [View.read_writes_eq_canon _ _ _ (scover5_A_0 c i arg2 harg2 arg3 harg3 arg4 harg4 arg5 harg5 arg6 harg6 arg7 harg7 hc0 hc1 x0 x1 x2)]
  unfold kernelRun5_A
  dsimp only
  try sl_unfold_words
  rw [View.canon_cons_unit_zero hz2, View.readCov_unit_zero (S := S2048x16) _ hz2]
  simp only [View.readAt_eq_ld, harg2.read_unread, harg3.read_unread, harg4.read_unread, harg7.read_unread, View.ld_unit_zero (S := S2048x2048) hz2, View.ld_unit_zero (S := S2048x16) hz2]

/-- Case B leaves in the accumulator what it held plus this point's block product. -/
theorem soutB_eq5 (c : Dev nD) (i : grid5.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond5_0 i) (hc1 : ¬cond5_1 i) (x0 : Vec F S2048x2048 .bf16) (x1 : Vec F S2048x16 .bf16) (x2 : Vec F S2048x16 .f32) (xs0 : Vec F S2048x16 .f32) :
    sout5_B_0 (F := F) c i arg2 harg2 arg3 harg3 arg4 harg4 arg5 harg5 arg6 harg6 arg7 harg7 hc0 hc1 x0 x1 x2 xs0 = k5_pay2 xs0 x0 x1 := by
  have hz2 := hz2_5
  unfold sout5_B_0
  rw [View.read_writes_eq_canon _ _ _ (scover5_B_0 c i arg2 harg2 arg3 harg3 arg4 harg4 arg5 harg5 arg6 harg6 arg7 harg7 hc0 hc1 x0 x1 x2 xs0)]
  unfold kernelRun5_B
  dsimp only
  try sl_unfold_words
  rw [View.canon_unit_zero hz2]
  simp only [View.readAt_eq_ld, harg2.read_unread, harg3.read_unread, harg4.read_unread, harg7.read_unread, View.ld_unit_zero (S := S2048x2048) hz2, View.ld_unit_zero (S := S2048x16) hz2]

/-- Case C leaves in the accumulator what it held plus the last block product, -/
theorem soutC_eq5 (c : Dev nD) (i : grid5.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond5_0 i) (hc1 : cond5_1 i) (x0 : Vec F S2048x2048 .bf16) (x1 : Vec F S2048x16 .bf16) (x2 : Vec F S2048x16 .f32) (xs0 : Vec F S2048x16 .f32) :
    sout5_C_0 (F := F) c i arg2 harg2 arg3 harg3 arg4 harg4 arg5 harg5 arg6 harg6 arg7 harg7 hc0 hc1 x0 x1 x2 xs0 = k5_pay2 xs0 x0 x1 := by
  have hz2 := hz2_5
  unfold sout5_C_0
  rw [View.read_writes_eq_canon _ _ _ (scover5_C_0 c i arg2 harg2 arg3 harg3 arg4 harg4 arg5 harg5 arg6 harg6 arg7 harg7 hc0 hc1 x0 x1 x2 xs0)]
  unfold kernelRun5_C
  dsimp only
  try sl_unfold_words
  rw [View.canon_unit_zero hz2]
  simp only [View.readAt_eq_ld, harg2.read_unread, harg3.read_unread, harg4.read_unread, harg7.read_unread, View.ld_unit_zero (S := S2048x2048) hz2, View.ld_unit_zero (S := S2048x16) hz2]

/-- in the f32 result block the combination of that accumulator and the block of the earlier vector, -/
theorem outC3_eq5 (c : Dev nD) (i : grid5.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond5_0 i) (hc1 : cond5_1 i) (x0 : Vec F S2048x2048 .bf16) (x1 : Vec F S2048x16 .bf16) (x2 : Vec F S2048x16 .f32) (xs0 : Vec F S2048x16 .f32) :
    out5_C_3 (F := F) c i arg2 harg2 arg3 harg3 arg4 harg4 arg5 harg5 arg6 harg6 arg7 harg7 hc0 hc1 x0 x1 x2 xs0 = k5_pay3 (k5_pay2 xs0 x0 x1) x2 := by
  have hz2 := hz2_5
  unfold out5_C_3
  rw [View.read_writes_eq_canon _ _ _ (cover5_C_3 c i arg2 harg2 arg3 harg3 arg4 harg4 arg5 harg5 arg6 harg6 arg7 harg7 hc0 hc1 x0 x1 x2 xs0)]
  unfold kernelRun5_C
  dsimp only
  try sl_unfold_words
  rw [View.canon_unit_zero hz2, View.readCov_unit_zero (S := S2048x16) _ hz2]
  simp only [View.readAt_eq_ld, harg2.read_unread, harg3.read_unread, harg4.read_unread, harg7.read_unread, View.ld_unit_zero (S := S2048x2048) hz2, View.ld_unit_zero (S := S2048x16) hz2]

/-- and in the bf16 result block the same combination in the narrower format. -/
theorem outC4_eq5 (c : Dev nD) (i : grid5.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond5_0 i) (hc1 : cond5_1 i) (x0 : Vec F S2048x2048 .bf16) (x1 : Vec F S2048x16 .bf16) (x2 : Vec F S2048x16 .f32) (xs0 : Vec F S2048x16 .f32) :
    out5_C_4 (F := F) c i arg2 harg2 arg3 harg3 arg4 harg4 arg5 harg5 arg6 harg6 arg7 harg7 hc0 hc1 x0 x1 x2 xs0 = k5_pay4 (k5_pay2 xs0 x0 x1) x2 := by
  have hz2 := hz2_5
  unfold out5_C_4
  rw [View.read_writes_eq_canon _ _ _ (cover5_C_4 c i arg2 harg2 arg3 harg3 arg4 harg4 arg5 harg5 arg6 harg6 arg7 harg7 hc0 hc1 x0 x1 x2 xs0)]
  unfold kernelRun5_C
  dsimp only
  try sl_unfold_words
  rw [View.canon_unit_zero hz2, View.readCov_unit_zero (S := S2048x16) _ hz2]
  simp only [View.readAt_eq_ld, harg2.read_unread, harg3.read_unread, harg4.read_unread, harg7.read_unread, View.ld_unit_zero (S := S2048x2048) hz2, View.ld_unit_zero (S := S2048x16) hz2]

/-- The accumulator after the body at position `n`: started from the zero vector at the first column block of a
    row block, continued from the position before otherwise. -/
def acc5 (c : Dev nD) : (n : ℕ) → n < cfg5.N → Vec F S2048x16 .f32
  | 0, hn => k5_pay2 (k5_pay1) (iblk5 V c 0 ⟨0, hn⟩) (iblk5 V c 1 ⟨0, hn⟩)
  | n + 1, hn =>
    if (n + 1) % 8 = 0 then k5_pay2 (k5_pay1) (iblk5 V c 0 ⟨n + 1, hn⟩) (iblk5 V c 1 ⟨n + 1, hn⟩)
    else k5_pay2 (acc5 c n (Nat.lt_of_succ_lt hn)) (iblk5 V c 0 ⟨n + 1, hn⟩) (iblk5 V c 1 ⟨n + 1, hn⟩)

theorem acc5_zero (c : Dev nD) (hn : 0 < cfg5.N) :
    acc5 V c 0 hn = k5_pay2 (k5_pay1) (iblk5 V c 0 ⟨0, hn⟩) (iblk5 V c 1 ⟨0, hn⟩) := rfl
theorem acc5_succ (c : Dev nD) (n : ℕ) (hn : n + 1 < cfg5.N) :
    acc5 V c (n + 1) hn = if (n + 1) % 8 = 0 then k5_pay2 (k5_pay1) (iblk5 V c 0 ⟨n + 1, hn⟩) (iblk5 V c 1 ⟨n + 1, hn⟩)
      else k5_pay2 (acc5 V c n (Nat.lt_of_succ_lt hn)) (iblk5 V c 0 ⟨n + 1, hn⟩) (iblk5 V c 1 ⟨n + 1, hn⟩) := rfl

/-- The frame's point-by-point accumulator is that recursion. -/
theorem scr_eq5 (c : Dev nD) : ∀ (n : ℕ) (hn : n < cfg5.N), (outsAt5 V c n hn).2.2 = acc5 V c n hn
  | 0, hn => by
    have e := outsAt5_A V c ⟨0, hn⟩ (Nat.zero_mod _) (fun h => absurd (show (0 : ℕ) % 8 = 7 from h) (show ¬((0 : ℕ) % 8 = 7) by decide))
    rw [show outsAt5 V c 0 hn = _ from e, acc5_zero]
    dsimp only
    exact soutA_eq5 ..
  | n + 1, hn => by
    by_cases h0 : (n + 1) % 8 = 0
    · have h1 : ¬(n + 1) % 8 = 7 := by omega
      have e := outsAt5_A V c ⟨n + 1, hn⟩ h0 h1
      rw [show outsAt5 V c (n + 1) hn = _ from e]
      rw [acc5_succ, if_pos h0]
      dsimp only
      exact soutA_eq5 ..
    · by_cases h1 : (n + 1) % 8 = 7
      · have e := outsAt5_C V c ⟨n + 1, hn⟩ h0 h1
        rw [show outsAt5 V c (n + 1) hn = _ from e]
        rw [acc5_succ, if_neg h0]
        dsimp only
        rw [soutC_eq5]
        exact congrArg (fun a => k5_pay2 a _ _) (scr_eq5 c n (Nat.lt_of_succ_lt hn))
      · have e := outsAt5_B V c ⟨n + 1, hn⟩ h0 h1
        rw [show outsAt5 V c (n + 1) hn = _ from e]
        rw [acc5_succ, if_neg h0]
        dsimp only
        rw [soutB_eq5]
        exact congrArg (fun a => k5_pay2 a _ _) (scr_eq5 c n (Nat.lt_of_succ_lt hn))

/-- At a point that stores (k = 7) the f32 result block holds the combination of the accumulator and the block of
    the earlier vector, -/
theorem out3_eq5 (c : Dev nD) (t : Fin cfg5.N) (h1 : t.val % 8 = 7) :
    (outsAt5 V c t.val t.isLt).1 = k5_pay3 (acc5 V c t.val t.isLt) (iblk5 V c 2 t) := by
  have h0 : ¬t.val % 8 = 0 := by omega
  have hz : t.val ≠ 0 := fun h => by rw [h] at h1; exact absurd h1 (by decide)
  rw [outsAt5_C V c t h0 h1]
  dsimp only
  rw [outC3_eq5]
  obtain ⟨n, hn⟩ := t
  cases n with
  | zero => exact absurd rfl hz
  | succ n =>
    rw [acc5_succ, if_neg h0]
    exact congrArg (fun a => k5_pay3 (k5_pay2 a _ _) _) (scr_eq5 V c n (Nat.lt_of_succ_lt hn))

/-- and the bf16 result block the same in the narrower format. -/
theorem out4_eq5 (c : Dev nD) (t : Fin cfg5.N) (h1 : t.val % 8 = 7) :
    (outsAt5 V c t.val t.isLt).2.1 = k5_pay4 (acc5 V c t.val t.isLt) (iblk5 V c 2 t) := by
  have h0 : ¬t.val % 8 = 0 := by omega
  have hz : t.val ≠ 0 := fun h => by rw [h] at h1; exact absurd h1 (by decide)
  rw [outsAt5_C V c t h0 h1]
  dsimp only
  rw [outC4_eq5]
  obtain ⟨n, hn⟩ := t
  cases n with
  | zero => exact absurd rfl hz
  | succ n =>
    rw [acc5_succ, if_neg h0]
    exact congrArg (fun a => k5_pay4 (k5_pay2 a _ _) _) (scr_eq5 V c n (Nat.lt_of_succ_lt hn))

end Cert.KernelIdeal.Hand

end
-- ==== Proof.RegI5Value.lean ====
/-
  Region 5 at the extended reals: its two result arrays end holding 2 · (Ls · v) − v′  of the arrays the
  region finds in its three input windows (Ls the matrix, v the vector, v′ the earlier vector).
  A point t = 8·r + k reads block (r, k) of the matrix, block k of the vector and block r of the earlier vector. After
  it the accumulator's entry (p, q) is the block products of row 2048·r + p for column blocks 0 … k added in order from
  zero; the point k = 7 stores 2 · a − 1 · b  of the accumulator a and the earlier vector's block b into both result
  blocks, which are then written back; the eight block products are the whole product's entry (`psum_blocks`), and the
  storing points' blocks cover the array.
-/
import proofs.«108570_j29480655520371_2_alg».proof.Proof.RegI5Acc
import proofs.«108570_j29480655520371_2_alg».proof.Proof.ChebBlock

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)

variable (V : (c : Dev nD) → (b : Ref sig .tc) → Buf (Elt Ideal) ((c : Thread nD τ).loc b))

/-- The matrix, the vector and the earlier vector as the region finds them in its input windows' arrays. -/
abbrev L5 (c : Dev nD) : S16384x16384.Idx → EReal := V c (Pipeline.arrRef spec5 0)
abbrev v5 (c : Dev nD) : S16384x16.Idx → EReal := V c (Pipeline.arrRef spec5 1)
abbrev p5 (c : Dev nD) : S16384x16.Idx → EReal := V c (Pipeline.arrRef spec5 2)

/-- The matrix block at point t = 8·r + k is rows 2048·r …, columns 2048·k … of the matrix. -/
theorem blk0_apply5 (c : Dev nD) (t : Fin cfg5.N) (p j : Fin 2048) :
    (iblk5 V c 0 t : Vec Ideal S2048x2048 .bf16) (ix2 p j) = at2 (L5 V c) (2048 * (t.val / 8) + p.val) (2048 * (t.val % 8) + j.val) := by
  have hi := (by decide +kernel : ∀ t : Fin grid5.N, win5_0.index t (0 : Fin 2) = t.val / 8 ∧ win5_0.index t (1 : Fin 2) = t.val % 8) t
  have hN : t.val < 64 := lt_of_lt_of_eq t.isLt N_5
  have hb : 2048 * (t.val / 8) + p.val < 16384 ∧ 2048 * (t.val % 8) + j.val < 16384 := ⟨by omega, by omega⟩
  unfold at2; rw [dif_pos hb]
  unfold iblk5
  rw [View.read_apply]
  show V c (Pipeline.arrRef spec5 0) _ = V c (Pipeline.arrRef spec5 0) _
  refine congrArg _ (funext fun a => Fin.ext ?_)
  match a with
  | ⟨0, _⟩ => show win5_0.index t (0 : Fin 2) * 2048 + 1 * p.val = 2048 * (t.val / 8) + p.val; rw [hi.1]; omega
  | ⟨1, _⟩ => show win5_0.index t (1 : Fin 2) * 2048 + 1 * j.val = 2048 * (t.val % 8) + j.val; rw [hi.2]; omega

/-- The vector block at point t = 8·r + k is rows 2048·k … of the vector. -/
theorem blk1_apply5 (c : Dev nD) (t : Fin cfg5.N) (j : Fin 2048) (q : Fin 16) :
    (iblk5 V c 1 t : Vec Ideal S2048x16 .bf16) (ix2 j q) = at2 (v5 V c) (2048 * (t.val % 8) + j.val) q.val := by
  have hi := (by decide +kernel : ∀ t : Fin grid5.N, win5_1.index t (0 : Fin 2) = t.val % 8 ∧ win5_1.index t (1 : Fin 2) = 0) t
  have hN : t.val < 64 := lt_of_lt_of_eq t.isLt N_5
  have hb : 2048 * (t.val % 8) + j.val < 16384 ∧ q.val < 16 := ⟨by omega, q.isLt⟩
  unfold at2; rw [dif_pos hb]
  unfold iblk5
  rw [View.read_apply]
  show V c (Pipeline.arrRef spec5 1) _ = V c (Pipeline.arrRef spec5 1) _
  refine congrArg _ (funext fun a => Fin.ext ?_)
  match a with
  | ⟨0, _⟩ => show win5_1.index t (0 : Fin 2) * 2048 + 1 * j.val = 2048 * (t.val % 8) + j.val; rw [hi.1]; omega
  | ⟨1, _⟩ => show win5_1.index t (1 : Fin 2) * 16 + 1 * q.val = q.val; rw [hi.2]; omega

/-- The earlier vector's block at point t = 8·r + k is its rows 2048·r …. -/
theorem blk2_apply5 (c : Dev nD) (t : Fin cfg5.N) (p : Fin 2048) (q : Fin 16) :
    (iblk5 V c 2 t : Vec Ideal S2048x16 .f32) (ix2 p q) = at2 (p5 V c) (2048 * (t.val / 8) + p.val) q.val := by
  have hi := (by decide +kernel : ∀ t : Fin grid5.N, win5_2.index t (0 : Fin 2) = t.val / 8 ∧ win5_2.index t (1 : Fin 2) = 0) t
  have hN : t.val < 64 := lt_of_lt_of_eq t.isLt N_5
  have hb : 2048 * (t.val / 8) + p.val < 16384 ∧ q.val < 16 := ⟨by omega, q.isLt⟩
  unfold at2; rw [dif_pos hb]
  unfold iblk5
  rw [View.read_apply]
  show V c (Pipeline.arrRef spec5 2) _ = V c (Pipeline.arrRef spec5 2) _
  refine congrArg _ (funext fun a => Fin.ext ?_)
  match a with
  | ⟨0, _⟩ => show win5_2.index t (0 : Fin 2) * 2048 + 1 * p.val = 2048 * (t.val / 8) + p.val; rw [hi.1]; omega
  | ⟨1, _⟩ => show win5_2.index t (1 : Fin 2) * 16 + 1 * q.val = q.val; rw [hi.2]; omega

/-- The block product of row `a` and column `q` over column block `k`. -/
abbrev g5 (c : Dev nD) (a q : ℕ) : ℕ → EReal :=
  fun k => ∑ j : Fin 2048, at2 (L5 V c) a (2048 * k + j.val) * at2 (v5 V c) (2048 * k + j.val) q

/-- One point's accumulation, at an entry. -/
theorem step_apply5 (c : Dev nD) (xs : Vec Ideal S2048x16 .f32) (t : Fin cfg5.N) (p : Fin 2048) (q : Fin 16) :
    k5_pay2 xs (iblk5 V c 0 t) (iblk5 V c 1 t) (ix2 p q)
      = xs (ix2 p q) + g5 V c (2048 * (t.val / 8) + p.val) q.val (t.val % 8) := by
  refine (pay2_apply xs (iblk5 V c 0 t) (iblk5 V c 1 t) p q).trans ?_
  refine congrArg (xs (ix2 p q) + ·) (Finset.sum_congr rfl fun j _ => ?_)
  rw [blk0_apply5 V c t p j, blk1_apply5 V c t j q]

/-- The accumulator after position `n` = 8·r + k, at an entry: the block products of its row for column blocks
    0 … k, added in order from zero. -/
theorem acc_apply5 (c : Dev nD) : ∀ (n : ℕ) (hn : n < cfg5.N) (p : Fin 2048) (q : Fin 16),
    acc5 V c n hn (ix2 p q) = psum (g5 V c (2048 * (n / 8) + p.val) q.val) (n % 8)
  | 0, hn, p, q => by
    rw [acc5_zero]
    refine (step_apply5 V c _ ⟨0, hn⟩ p q).trans ?_
    rw [show (k5_pay1 (F := Ideal)) (ix2 p q) = 0 from pay1_apply _]
    rfl
  | n + 1, hn, p, q => by
    rw [acc5_succ]
    by_cases h0 : (n + 1) % 8 = 0
    · rw [if_pos h0]
      refine (step_apply5 V c _ ⟨n + 1, hn⟩ p q).trans ?_
      rw [show (k5_pay1 (F := Ideal)) (ix2 p q) = 0 from pay1_apply _]
      show 0 + g5 V c (2048 * ((n + 1) / 8) + p.val) q.val ((n + 1) % 8) = psum _ ((n + 1) % 8)
      rw [h0]; rfl
    · rw [if_neg h0]
      refine (step_apply5 V c _ ⟨n + 1, hn⟩ p q).trans ?_
      rw [acc_apply5 c n (Nat.lt_of_succ_lt hn) p q]
      have e1 : (n + 1) % 8 = n % 8 + 1 := by omega
      have e2 : (n + 1) / 8 = n / 8 := by omega
      show psum _ (n % 8) + g5 V c (2048 * ((n + 1) / 8) + p.val) q.val ((n + 1) % 8) = psum _ ((n + 1) % 8)
      rw [e1, e2]; rfl

/-- The new vector: twice the product of the matrix and the vector, less the earlier vector. -/
def new5 (c : Dev nD) : S16384x16.Idx → EReal := fun i => Ideal.ofBits .f32 0x40000000#32 * prodAt (L5 V c) (v5 V c) (i 0).val (i 1).val - p5 V c i

/-- What a storing point (k = 7) puts at entry (p, q) of the result blocks is the new vector at row 2048·r + p. -/
theorem out_apply5 (c : Dev nD) (t : Fin cfg5.N) (h1 : t.val % 8 = 7) (p : Fin 2048) (q : Fin 16) (a : Fin 16384)
    (ha : a.val = 2048 * (t.val / 8) + p.val) :
    k5_pay3 (acc5 V c t.val t.isLt) (iblk5 V c 2 t) (ix2 p q) = new5 V c (ix2 a q) := by
  have hp3 : k5_pay3 (acc5 V c t.val t.isLt) (iblk5 V c 2 t) (ix2 p q)
      = Ideal.ofBits .f32 0x40000000#32 * acc5 V c t.val t.isLt (ix2 p q) - (iblk5 V c 2 t : Vec Ideal S2048x16 .f32) (ix2 p q) := by
    unfold k5_pay3
    try simp only [shapeCast_self]
    show Ideal.ofBits .f32 0x40000000#32 * _ - Ideal.ofBits .f32 0x3F800000#32 * _ = _
    rw [ofBits_one, one_mul]
  refine hp3.trans ?_
  rw [acc_apply5 V c t.val t.isLt p q, h1, psum_blocks, blk2_apply5 V c t p q]
  show _ = Ideal.ofBits .f32 0x40000000#32 * prodAt _ _ a.val q.val - p5 V c (ix2 a q)
  rw [ha, ← at2_ix2 (p5 V c) a q, ha]

/-- What a storing point (k = 7) writes back through result window 3 is its block of the new vector. -/
theorem flushed5_3 (c : Dev nD) (t : Fin cfg5.N) (hf : (cfg5.win 3).flush t = true) :
    (dat5 V c).flushed 3 t = ((cfg5.win 3).blk t).view.read (Elt Ideal) (new5 V c) := by
  have h1 : t.val % 8 = 7 := (flush5_3 t).mp hf
  have hN : t.val < 64 := lt_of_lt_of_eq t.isLt N_5
  have hi := (by decide +kernel : ∀ t : Fin grid5.N, win5_3.index t (0 : Fin 2) = t.val / 8 ∧ win5_3.index t (1 : Fin 2) = 0) t
  show (cfg5.win 3).cut (grid5.coords t) ((dat5 V c).after 3 t) = _
  rw [after5_3, out3_eq5 V c t h1]
  funext y
  have hy0 : (y 0).val < 2048 := (y 0).isLt
  have hy1 : (y 1).val < 16 := (y 1).isLt
  show k5_pay3 (acc5 V c t.val t.isLt) (iblk5 V c 2 t) ((cfg5.win 3).xinj (grid5.coords t) y) = ((cfg5.win 3).blk t).view.read (Elt Ideal) (new5 V c) y
  rw [View.read_apply, cast_eq]
  obtain ⟨r, hr⟩ : ∃ r : Fin 16384, r.val = 2048 * (t.val / 8) + (y 0).val := ⟨⟨2048 * (t.val / 8) + (y 0).val, by omega⟩, rfl⟩
  have hemb : ((cfg5.win 3).blk t).view.emb y = ix2 r (⟨(y 1).val, hy1⟩ : Fin 16) :=
    funext fun a => Fin.ext (by
      match a with
      | ⟨0, _⟩ => show win5_3.index t (0 : Fin 2) * 2048 + 1 * (y 0).val = r.val; rw [hr, hi.1]; omega
      | ⟨1, _⟩ => show win5_3.index t (1 : Fin 2) * 16 + 1 * (y 1).val = (y 1).val; rw [hi.2]; omega)
  have hy : (cfg5.win 3).xinj (grid5.coords t) y = ix2 (⟨(y 0).val, hy0⟩ : Fin 2048) (⟨(y 1).val, hy1⟩ : Fin 16) :=
    funext fun a => by match a with | ⟨0, _⟩ => rfl | ⟨1, _⟩ => rfl
  rw [hemb, hy]
  exact out_apply5 V c t h1 ⟨(y 0).val, hy0⟩ ⟨(y 1).val, hy1⟩ r hr

/-- An index of the array is in point `t`'s block of result window 3 iff each coordinate is in the block's range. -/
theorem mem_blk5_3 (t : Fin cfg5.N) (i : S16384x16.Idx) :
    i ∈ ((cfg5.win 3).blk t).view.set ↔ ∀ a : Fin 2, win5_3.index t a * S2048x16.size a ≤ (i a).val ∧ (i a).val < win5_3.index t a * S2048x16.size a + S2048x16.size a := by
  show i ∈ ((View.whole main_v51_0).slice (win5_3.rect t)).set ↔ _
  rw [View.set_slice_whole, Rect.mem_set_unit]
  exact Iff.rfl

/-- So result array 0 ends holding the new vector: row i is covered by the storing point of its row block. -/
theorem final5_3 (c : Dev nD) : (dat5 V c).arrAt 3 cfg5.N = new5 V c :=
  (dat5 V c).arrAt_eq_of_cover 3 (new5 V c) (fun t hf => flushed5_3 V c t hf) fun i => by
    have hi0 : (i 0).val < 16384 := (i 0).isLt
    have hi1 : (i 1).val < 16 := (i 1).isLt
    have ht : 8 * ((i 0).val / 2048) + 7 < cfg5.N := by rw [show cfg5.N = 64 from N_5]; omega
    have hx := (by decide +kernel : ∀ t : Fin grid5.N, win5_3.index t (0 : Fin 2) = t.val / 8 ∧ win5_3.index t (1 : Fin 2) = 0) ⟨8 * ((i 0).val / 2048) + 7, ht⟩
    refine ⟨⟨8 * ((i 0).val / 2048) + 7, ht⟩, (flush5_3 _).mpr (by show (8 * ((i 0).val / 2048) + 7) % 8 = 7; omega), ?_⟩
    rw [mem_blk5_3]
    intro a
    match a with
    | ⟨0, _⟩ =>
      show win5_3.index _ (0 : Fin 2) * 2048 ≤ (i 0).val ∧ (i 0).val < win5_3.index _ (0 : Fin 2) * 2048 + 2048
      rw [hx.1]; show (8 * ((i 0).val / 2048) + 7) / 8 * 2048 ≤ (i 0).val ∧ (i 0).val < (8 * ((i 0).val / 2048) + 7) / 8 * 2048 + 2048; omega
    | ⟨1, _⟩ =>
      show win5_3.index _ (1 : Fin 2) * 16 ≤ (i 1).val ∧ (i 1).val < win5_3.index _ (1 : Fin 2) * 16 + 16
      rw [hx.2]; omega

/-- What a storing point (k = 7) writes back through result window 4 is its block of the new vector. -/
theorem flushed5_4 (c : Dev nD) (t : Fin cfg5.N) (hf : (cfg5.win 4).flush t = true) :
    (dat5 V c).flushed 4 t = ((cfg5.win 4).blk t).view.read (Elt Ideal) (new5 V c) := by
  have h1 : t.val % 8 = 7 := (flush5_4 t).mp hf
  have hN : t.val < 64 := lt_of_lt_of_eq t.isLt N_5
  have hi := (by decide +kernel : ∀ t : Fin grid5.N, win5_4.index t (0 : Fin 2) = t.val / 8 ∧ win5_4.index t (1 : Fin 2) = 0) t
  show (cfg5.win 4).cut (grid5.coords t) ((dat5 V c).after 4 t) = _
  rw [after5_4, out4_eq5 V c t h1]
  funext y
  have hy0 : (y 0).val < 2048 := (y 0).isLt
  have hy1 : (y 1).val < 16 := (y 1).isLt
  show k5_pay3 (acc5 V c t.val t.isLt) (iblk5 V c 2 t) ((cfg5.win 4).xinj (grid5.coords t) y) = ((cfg5.win 4).blk t).view.read (Elt Ideal) (new5 V c) y
  rw [View.read_apply, cast_eq]
  obtain ⟨r, hr⟩ : ∃ r : Fin 16384, r.val = 2048 * (t.val / 8) + (y 0).val := ⟨⟨2048 * (t.val / 8) + (y 0).val, by omega⟩, rfl⟩
  have hemb : ((cfg5.win 4).blk t).view.emb y = ix2 r (⟨(y 1).val, hy1⟩ : Fin 16) :=
    funext fun a => Fin.ext (by
      match a with
      | ⟨0, _⟩ => show win5_4.index t (0 : Fin 2) * 2048 + 1 * (y 0).val = r.val; rw [hr, hi.1]; omega
      | ⟨1, _⟩ => show win5_4.index t (1 : Fin 2) * 16 + 1 * (y 1).val = (y 1).val; rw [hi.2]; omega)
  have hy : (cfg5.win 4).xinj (grid5.coords t) y = ix2 (⟨(y 0).val, hy0⟩ : Fin 2048) (⟨(y 1).val, hy1⟩ : Fin 16) :=
    funext fun a => by match a with | ⟨0, _⟩ => rfl | ⟨1, _⟩ => rfl
  rw [hemb, hy]
  exact out_apply5 V c t h1 ⟨(y 0).val, hy0⟩ ⟨(y 1).val, hy1⟩ r hr

/-- An index of the array is in point `t`'s block of result window 4 iff each coordinate is in the block's range. -/
theorem mem_blk5_4 (t : Fin cfg5.N) (i : S16384x16.Idx) :
    i ∈ ((cfg5.win 4).blk t).view.set ↔ ∀ a : Fin 2, win5_4.index t a * S2048x16.size a ≤ (i a).val ∧ (i a).val < win5_4.index t a * S2048x16.size a + S2048x16.size a := by
  show i ∈ ((View.whole main_v51_1).slice (win5_4.rect t)).set ↔ _
  rw [View.set_slice_whole, Rect.mem_set_unit]
  exact Iff.rfl

/-- So result array 1 ends holding the new vector: row i is covered by the storing point of its row block. -/
theorem final5_4 (c : Dev nD) : (dat5 V c).arrAt 4 cfg5.N = new5 V c :=
  (dat5 V c).arrAt_eq_of_cover 4 (new5 V c) (fun t hf => flushed5_4 V c t hf) fun i => by
    have hi0 : (i 0).val < 16384 := (i 0).isLt
    have hi1 : (i 1).val < 16 := (i 1).isLt
    have ht : 8 * ((i 0).val / 2048) + 7 < cfg5.N := by rw [show cfg5.N = 64 from N_5]; omega
    have hx := (by decide +kernel : ∀ t : Fin grid5.N, win5_4.index t (0 : Fin 2) = t.val / 8 ∧ win5_4.index t (1 : Fin 2) = 0) ⟨8 * ((i 0).val / 2048) + 7, ht⟩
    refine ⟨⟨8 * ((i 0).val / 2048) + 7, ht⟩, (flush5_4 _).mpr (by show (8 * ((i 0).val / 2048) + 7) % 8 = 7; omega), ?_⟩
    rw [mem_blk5_4]
    intro a
    match a with
    | ⟨0, _⟩ =>
      show win5_4.index _ (0 : Fin 2) * 2048 ≤ (i 0).val ∧ (i 0).val < win5_4.index _ (0 : Fin 2) * 2048 + 2048
      rw [hx.1]; show (8 * ((i 0).val / 2048) + 7) / 8 * 2048 ≤ (i 0).val ∧ (i 0).val < (8 * ((i 0).val / 2048) + 7) / 8 * 2048 + 2048; omega
    | ⟨1, _⟩ =>
      show win5_4.index _ (1 : Fin 2) * 16 ≤ (i 1).val ∧ (i 1).val < win5_4.index _ (1 : Fin 2) * 16 + 16
      rw [hx.2]; omega

end Cert.KernelIdeal.Hand

end
-- ==== Proof.RegI6Acc.lean ====
/-
  Region 6, its values for any float instance: what each case's stores read back as, in terms of the body's
  arithmetic; and the accumulator after every grid point as a recursion over the points (started afresh, from the
  zero vector, at the first column block of each row block, continued otherwise).
-/
import proofs.«108570_j29480655520371_2_alg».proof.Proof.RegI6Frame
import Idealize.ShloMosaic.Lib.Pipeline.Value
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

theorem hz2_6 : (![0, 0] : Fin 2 → Nat) = fun _ => 0 := funext fun a => by fin_cases a <;> rfl

/-- Case A leaves in the accumulator the first block product added to the zero vector. -/
theorem soutA_eq6 (c : Dev nD) (i : grid6.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond6_0 i) (hc1 : ¬cond6_1 i) (x0 : Vec F S2048x2048 .bf16) (x1 : Vec F S2048x16 .bf16) (x2 : Vec F S2048x16 .f32) :
    sout6_A_0 (F := F) c i arg2 harg2 arg3 harg3 arg4 harg4 arg5 harg5 arg6 harg6 arg7 harg7 hc0 hc1 x0 x1 x2 = k6_pay2 (k6_pay1) x0 x1 := by
  have hz2 := hz2_6
  unfold sout6_A_0
  rw [View.read_writes_eq_canon _ _ _ (scover6_A_0 c i arg2 harg2 arg3 harg3 arg4 harg4 arg5 harg5 arg6 harg6 arg7 harg7 hc0 hc1 x0 x1 x2)]
  unfold kernelRun6_A
  dsimp only
  try sl_unfold_words
  rw [View.canon_cons_unit_zero hz2, View.readCov_unit_zero (S := S2048x16) _ hz2]
  simp only [View.readAt_eq_ld, harg2.read_unread, harg3.read_unread, harg4.read_unread, harg7.read_unread, View.ld_unit_zero (S := S2048x2048) hz2, View.ld_unit_zero (S := S2048x16) hz2]

/-- Case B leaves in the accumulator what it held plus this point's block product. -/
theorem soutB_eq6 (c : Dev nD) (i : grid6.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond6_0 i) (hc1 : ¬cond6_1 i) (x0 : Vec F S2048x2048 .bf16) (x1 : Vec F S2048x16 .bf16) (x2 : Vec F S2048x16 .f32) (xs0 : Vec F S2048x16 .f32) :
    sout6_B_0 (F := F) c i arg2 harg2 arg3 harg3 arg4 harg4 arg5 harg5 arg6 harg6 arg7 harg7 hc0 hc1 x0 x1 x2 xs0 = k6_pay2 xs0 x0 x1 := by
  have hz2 := hz2_6
  unfold sout6_B_0
  rw [View.read_writes_eq_canon _ _ _ (scover6_B_0 c i arg2 harg2 arg3 harg3 arg4 harg4 arg5 harg5 arg6 harg6 arg7 harg7 hc0 hc1 x0 x1 x2 xs0)]
  unfold kernelRun6_B
  dsimp only
  try sl_unfold_words
  rw [View.canon_unit_zero hz2]
  simp only [View.readAt_eq_ld, harg2.read_unread, harg3.read_unread, harg4.read_unread, harg7.read_unread, View.ld_unit_zero (S := S2048x2048) hz2, View.ld_unit_zero (S := S2048x16) hz2]

/-- Case C leaves in the accumulator what it held plus the last block product, -/
theorem soutC_eq6 (c : Dev nD) (i : grid6.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond6_0 i) (hc1 : cond6_1 i) (x0 : Vec F S2048x2048 .bf16) (x1 : Vec F S2048x16 .bf16) (x2 : Vec F S2048x16 .f32) (xs0 : Vec F S2048x16 .f32) :
    sout6_C_0 (F := F) c i arg2 harg2 arg3 harg3 arg4 harg4 arg5 harg5 arg6 harg6 arg7 harg7 hc0 hc1 x0 x1 x2 xs0 = k6_pay2 xs0 x0 x1 := by
  have hz2 := hz2_6
  unfold sout6_C_0
  rw [View.read_writes_eq_canon _ _ _ (scover6_C_0 c i arg2 harg2 arg3 harg3 arg4 harg4 arg5 harg5 arg6 harg6 arg7 harg7 hc0 hc1 x0 x1 x2 xs0)]
  unfold kernelRun6_C
  dsimp only
  try sl_unfold_words
  rw [View.canon_unit_zero hz2]
  simp only [View.readAt_eq_ld, harg2.read_unread, harg3.read_unread, harg4.read_unread, harg7.read_unread, View.ld_unit_zero (S := S2048x2048) hz2, View.ld_unit_zero (S := S2048x16) hz2]

/-- in the f32 result block the combination of that accumulator and the block of the earlier vector, -/
theorem outC3_eq6 (c : Dev nD) (i : grid6.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond6_0 i) (hc1 : cond6_1 i) (x0 : Vec F S2048x2048 .bf16) (x1 : Vec F S2048x16 .bf16) (x2 : Vec F S2048x16 .f32) (xs0 : Vec F S2048x16 .f32) :
    out6_C_3 (F := F) c i arg2 harg2 arg3 harg3 arg4 harg4 arg5 harg5 arg6 harg6 arg7 harg7 hc0 hc1 x0 x1 x2 xs0 = k6_pay3 (k6_pay2 xs0 x0 x1) x2 := by
  have hz2 := hz2_6
  unfold out6_C_3
  rw [View.read_writes_eq_canon _ _ _ (cover6_C_3 c i arg2 harg2 arg3 harg3 arg4 harg4 arg5 harg5 arg6 harg6 arg7 harg7 hc0 hc1 x0 x1 x2 xs0)]
  unfold kernelRun6_C
  dsimp only
  try sl_unfold_words
  rw [View.canon_unit_zero hz2, View.readCov_unit_zero (S := S2048x16) _ hz2]
  simp only [View.readAt_eq_ld, harg2.read_unread, harg3.read_unread, harg4.read_unread, harg7.read_unread, View.ld_unit_zero (S := S2048x2048) hz2, View.ld_unit_zero (S := S2048x16) hz2]

/-- and in the bf16 result block the same combination in the narrower format. -/
theorem outC4_eq6 (c : Dev nD) (i : grid6.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond6_0 i) (hc1 : cond6_1 i) (x0 : Vec F S2048x2048 .bf16) (x1 : Vec F S2048x16 .bf16) (x2 : Vec F S2048x16 .f32) (xs0 : Vec F S2048x16 .f32) :
    out6_C_4 (F := F) c i arg2 harg2 arg3 harg3 arg4 harg4 arg5 harg5 arg6 harg6 arg7 harg7 hc0 hc1 x0 x1 x2 xs0 = k6_pay4 (k6_pay2 xs0 x0 x1) x2 := by
  have hz2 := hz2_6
  unfold out6_C_4
  rw [View.read_writes_eq_canon _ _ _ (cover6_C_4 c i arg2 harg2 arg3 harg3 arg4 harg4 arg5 harg5 arg6 harg6 arg7 harg7 hc0 hc1 x0 x1 x2 xs0)]
  unfold kernelRun6_C
  dsimp only
  try sl_unfold_words
  rw [View.canon_unit_zero hz2, View.readCov_unit_zero (S := S2048x16) _ hz2]
  simp only [View.readAt_eq_ld, harg2.read_unread, harg3.read_unread, harg4.read_unread, harg7.read_unread, View.ld_unit_zero (S := S2048x2048) hz2, View.ld_unit_zero (S := S2048x16) hz2]

/-- The accumulator after the body at position `n`: started from the zero vector at the first column block of a
    row block, continued from the position before otherwise. -/
def acc6 (c : Dev nD) : (n : ℕ) → n < cfg6.N → Vec F S2048x16 .f32
  | 0, hn => k6_pay2 (k6_pay1) (iblk6 V c 0 ⟨0, hn⟩) (iblk6 V c 1 ⟨0, hn⟩)
  | n + 1, hn =>
    if (n + 1) % 8 = 0 then k6_pay2 (k6_pay1) (iblk6 V c 0 ⟨n + 1, hn⟩) (iblk6 V c 1 ⟨n + 1, hn⟩)
    else k6_pay2 (acc6 c n (Nat.lt_of_succ_lt hn)) (iblk6 V c 0 ⟨n + 1, hn⟩) (iblk6 V c 1 ⟨n + 1, hn⟩)

theorem acc6_zero (c : Dev nD) (hn : 0 < cfg6.N) :
    acc6 V c 0 hn = k6_pay2 (k6_pay1) (iblk6 V c 0 ⟨0, hn⟩) (iblk6 V c 1 ⟨0, hn⟩) := rfl
theorem acc6_succ (c : Dev nD) (n : ℕ) (hn : n + 1 < cfg6.N) :
    acc6 V c (n + 1) hn = if (n + 1) % 8 = 0 then k6_pay2 (k6_pay1) (iblk6 V c 0 ⟨n + 1, hn⟩) (iblk6 V c 1 ⟨n + 1, hn⟩)
      else k6_pay2 (acc6 V c n (Nat.lt_of_succ_lt hn)) (iblk6 V c 0 ⟨n + 1, hn⟩) (iblk6 V c 1 ⟨n + 1, hn⟩) := rfl

/-- The frame's point-by-point accumulator is that recursion. -/
theorem scr_eq6 (c : Dev nD) : ∀ (n : ℕ) (hn : n < cfg6.N), (outsAt6 V c n hn).2.2 = acc6 V c n hn
  | 0, hn => by
    have e := outsAt6_A V c ⟨0, hn⟩ (Nat.zero_mod _) (fun h => absurd (show (0 : ℕ) % 8 = 7 from h) (show ¬((0 : ℕ) % 8 = 7) by decide))
    rw [show outsAt6 V c 0 hn = _ from e, acc6_zero]
    dsimp only
    exact soutA_eq6 ..
  | n + 1, hn => by
    by_cases h0 : (n + 1) % 8 = 0
    · have h1 : ¬(n + 1) % 8 = 7 := by omega
      have e := outsAt6_A V c ⟨n + 1, hn⟩ h0 h1
      rw [show outsAt6 V c (n + 1) hn = _ from e]
      rw [acc6_succ, if_pos h0]
      dsimp only
      exact soutA_eq6 ..
    · by_cases h1 : (n + 1) % 8 = 7
      · have e := outsAt6_C V c ⟨n + 1, hn⟩ h0 h1
        rw [show outsAt6 V c (n + 1) hn = _ from e]
        rw [acc6_succ, if_neg h0]
        dsimp only
        rw [soutC_eq6]
        exact congrArg (fun a => k6_pay2 a _ _) (scr_eq6 c n (Nat.lt_of_succ_lt hn))
      · have e := outsAt6_B V c ⟨n + 1, hn⟩ h0 h1
        rw [show outsAt6 V c (n + 1) hn = _ from e]
        rw [acc6_succ, if_neg h0]
        dsimp only
        rw [soutB_eq6]
        exact congrArg (fun a => k6_pay2 a _ _) (scr_eq6 c n (Nat.lt_of_succ_lt hn))

/-- At a point that stores (k = 7) the f32 result block holds the combination of the accumulator and the block of
    the earlier vector, -/
theorem out3_eq6 (c : Dev nD) (t : Fin cfg6.N) (h1 : t.val % 8 = 7) :
    (outsAt6 V c t.val t.isLt).1 = k6_pay3 (acc6 V c t.val t.isLt) (iblk6 V c 2 t) := by
  have h0 : ¬t.val % 8 = 0 := by omega
  have hz : t.val ≠ 0 := fun h => by rw [h] at h1; exact absurd h1 (by decide)
  rw [outsAt6_C V c t h0 h1]
  dsimp only
  rw [outC3_eq6]
  obtain ⟨n, hn⟩ := t
  cases n with
  | zero => exact absurd rfl hz
  | succ n =>
    rw [acc6_succ, if_neg h0]
    exact congrArg (fun a => k6_pay3 (k6_pay2 a _ _) _) (scr_eq6 V c n (Nat.lt_of_succ_lt hn))

/-- and the bf16 result block the same in the narrower format. -/
theorem out4_eq6 (c : Dev nD) (t : Fin cfg6.N) (h1 : t.val % 8 = 7) :
    (outsAt6 V c t.val t.isLt).2.1 = k6_pay4 (acc6 V c t.val t.isLt) (iblk6 V c 2 t) := by
  have h0 : ¬t.val % 8 = 0 := by omega
  have hz : t.val ≠ 0 := fun h => by rw [h] at h1; exact absurd h1 (by decide)
  rw [outsAt6_C V c t h0 h1]
  dsimp only
  rw [outC4_eq6]
  obtain ⟨n, hn⟩ := t
  cases n with
  | zero => exact absurd rfl hz
  | succ n =>
    rw [acc6_succ, if_neg h0]
    exact congrArg (fun a => k6_pay4 (k6_pay2 a _ _) _) (scr_eq6 V c n (Nat.lt_of_succ_lt hn))

end Cert.KernelIdeal.Hand

end
-- ==== Proof.RegI6Value.lean ====
/-
  Region 6 at the extended reals: its two result arrays end holding 2 · (Ls · v) − v′  of the arrays the
  region finds in its three input windows (Ls the matrix, v the vector, v′ the earlier vector).
  A point t = 8·r + k reads block (r, k) of the matrix, block k of the vector and block r of the earlier vector. After
  it the accumulator's entry (p, q) is the block products of row 2048·r + p for column blocks 0 … k added in order from
  zero; the point k = 7 stores 2 · a − 1 · b  of the accumulator a and the earlier vector's block b into both result
  blocks, which are then written back; the eight block products are the whole product's entry (`psum_blocks`), and the
  storing points' blocks cover the array.
-/
import proofs.«108570_j29480655520371_2_alg».proof.Proof.RegI6Acc
import proofs.«108570_j29480655520371_2_alg».proof.Proof.ChebBlock

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)

variable (V : (c : Dev nD) → (b : Ref sig .tc) → Buf (Elt Ideal) ((c : Thread nD τ).loc b))

/-- The matrix, the vector and the earlier vector as the region finds them in its input windows' arrays. -/
abbrev L6 (c : Dev nD) : S16384x16384.Idx → EReal := V c (Pipeline.arrRef spec6 0)
abbrev v6 (c : Dev nD) : S16384x16.Idx → EReal := V c (Pipeline.arrRef spec6 1)
abbrev p6 (c : Dev nD) : S16384x16.Idx → EReal := V c (Pipeline.arrRef spec6 2)

/-- The matrix block at point t = 8·r + k is rows 2048·r …, columns 2048·k … of the matrix. -/
theorem blk0_apply6 (c : Dev nD) (t : Fin cfg6.N) (p j : Fin 2048) :
    (iblk6 V c 0 t : Vec Ideal S2048x2048 .bf16) (ix2 p j) = at2 (L6 V c) (2048 * (t.val / 8) + p.val) (2048 * (t.val % 8) + j.val) := by
  have hi := (by decide +kernel : ∀ t : Fin grid6.N, win6_0.index t (0 : Fin 2) = t.val / 8 ∧ win6_0.index t (1 : Fin 2) = t.val % 8) t
  have hN : t.val < 64 := lt_of_lt_of_eq t.isLt N_6
  have hb : 2048 * (t.val / 8) + p.val < 16384 ∧ 2048 * (t.val % 8) + j.val < 16384 := ⟨by omega, by omega⟩
  unfold at2; rw [dif_pos hb]
  unfold iblk6
  rw [View.read_apply]
  show V c (Pipeline.arrRef spec6 0) _ = V c (Pipeline.arrRef spec6 0) _
  refine congrArg _ (funext fun a => Fin.ext ?_)
  match a with
  | ⟨0, _⟩ => show win6_0.index t (0 : Fin 2) * 2048 + 1 * p.val = 2048 * (t.val / 8) + p.val; rw [hi.1]; omega
  | ⟨1, _⟩ => show win6_0.index t (1 : Fin 2) * 2048 + 1 * j.val = 2048 * (t.val % 8) + j.val; rw [hi.2]; omega

/-- The vector block at point t = 8·r + k is rows 2048·k … of the vector. -/
theorem blk1_apply6 (c : Dev nD) (t : Fin cfg6.N) (j : Fin 2048) (q : Fin 16) :
    (iblk6 V c 1 t : Vec Ideal S2048x16 .bf16) (ix2 j q) = at2 (v6 V c) (2048 * (t.val % 8) + j.val) q.val := by
  have hi := (by decide +kernel : ∀ t : Fin grid6.N, win6_1.index t (0 : Fin 2) = t.val % 8 ∧ win6_1.index t (1 : Fin 2) = 0) t
  have hN : t.val < 64 := lt_of_lt_of_eq t.isLt N_6
  have hb : 2048 * (t.val % 8) + j.val < 16384 ∧ q.val < 16 := ⟨by omega, q.isLt⟩
  unfold at2; rw [dif_pos hb]
  unfold iblk6
  rw [View.read_apply]
  show V c (Pipeline.arrRef spec6 1) _ = V c (Pipeline.arrRef spec6 1) _
  refine congrArg _ (funext fun a => Fin.ext ?_)
  match a with
  | ⟨0, _⟩ => show win6_1.index t (0 : Fin 2) * 2048 + 1 * j.val = 2048 * (t.val % 8) + j.val; rw [hi.1]; omega
  | ⟨1, _⟩ => show win6_1.index t (1 : Fin 2) * 16 + 1 * q.val = q.val; rw [hi.2]; omega

/-- The earlier vector's block at point t = 8·r + k is its rows 2048·r …. -/
theorem blk2_apply6 (c : Dev nD) (t : Fin cfg6.N) (p : Fin 2048) (q : Fin 16) :
    (iblk6 V c 2 t : Vec Ideal S2048x16 .f32) (ix2 p q) = at2 (p6 V c) (2048 * (t.val / 8) + p.val) q.val := by
  have hi := (by decide +kernel : ∀ t : Fin grid6.N, win6_2.index t (0 : Fin 2) = t.val / 8 ∧ win6_2.index t (1 : Fin 2) = 0) t
  have hN : t.val < 64 := lt_of_lt_of_eq t.isLt N_6
  have hb : 2048 * (t.val / 8) + p.val < 16384 ∧ q.val < 16 := ⟨by omega, q.isLt⟩
  unfold at2; rw [dif_pos hb]
  unfold iblk6
  rw [View.read_apply]
  show V c (Pipeline.arrRef spec6 2) _ = V c (Pipeline.arrRef spec6 2) _
  refine congrArg _ (funext fun a => Fin.ext ?_)
  match a with
  | ⟨0, _⟩ => show win6_2.index t (0 : Fin 2) * 2048 + 1 * p.val = 2048 * (t.val / 8) + p.val; rw [hi.1]; omega
  | ⟨1, _⟩ => show win6_2.index t (1 : Fin 2) * 16 + 1 * q.val = q.val; rw [hi.2]; omega

/-- The block product of row `a` and column `q` over column block `k`. -/
abbrev g6 (c : Dev nD) (a q : ℕ) : ℕ → EReal :=
  fun k => ∑ j : Fin 2048, at2 (L6 V c) a (2048 * k + j.val) * at2 (v6 V c) (2048 * k + j.val) q

/-- One point's accumulation, at an entry. -/
theorem step_apply6 (c : Dev nD) (xs : Vec Ideal S2048x16 .f32) (t : Fin cfg6.N) (p : Fin 2048) (q : Fin 16) :
    k6_pay2 xs (iblk6 V c 0 t) (iblk6 V c 1 t) (ix2 p q)
      = xs (ix2 p q) + g6 V c (2048 * (t.val / 8) + p.val) q.val (t.val % 8) := by
  refine (pay2_apply xs (iblk6 V c 0 t) (iblk6 V c 1 t) p q).trans ?_
  refine congrArg (xs (ix2 p q) + ·) (Finset.sum_congr rfl fun j _ => ?_)
  rw [blk0_apply6 V c t p j, blk1_apply6 V c t j q]

/-- The accumulator after position `n` = 8·r + k, at an entry: the block products of its row for column blocks
    0 … k, added in order from zero. -/
theorem acc_apply6 (c : Dev nD) : ∀ (n : ℕ) (hn : n < cfg6.N) (p : Fin 2048) (q : Fin 16),
    acc6 V c n hn (ix2 p q) = psum (g6 V c (2048 * (n / 8) + p.val) q.val) (n % 8)
  | 0, hn, p, q => by
    rw [acc6_zero]
    refine (step_apply6 V c _ ⟨0, hn⟩ p q).trans ?_
    rw [show (k6_pay1 (F := Ideal)) (ix2 p q) = 0 from pay1_apply _]
    rfl
  | n + 1, hn, p, q => by
    rw [acc6_succ]
    by_cases h0 : (n + 1) % 8 = 0
    · rw [if_pos h0]
      refine (step_apply6 V c _ ⟨n + 1, hn⟩ p q).trans ?_
      rw [show (k6_pay1 (F := Ideal)) (ix2 p q) = 0 from pay1_apply _]
      show 0 + g6 V c (2048 * ((n + 1) / 8) + p.val) q.val ((n + 1) % 8) = psum _ ((n + 1) % 8)
      rw [h0]; rfl
    · rw [if_neg h0]
      refine (step_apply6 V c _ ⟨n + 1, hn⟩ p q).trans ?_
      rw [acc_apply6 c n (Nat.lt_of_succ_lt hn) p q]
      have e1 : (n + 1) % 8 = n % 8 + 1 := by omega
      have e2 : (n + 1) / 8 = n / 8 := by omega
      show psum _ (n % 8) + g6 V c (2048 * ((n + 1) / 8) + p.val) q.val ((n + 1) % 8) = psum _ ((n + 1) % 8)
      rw [e1, e2]; rfl

/-- The new vector: twice the product of the matrix and the vector, less the earlier vector. -/
def new6 (c : Dev nD) : S16384x16.Idx → EReal := fun i => Ideal.ofBits .f32 0x40000000#32 * prodAt (L6 V c) (v6 V c) (i 0).val (i 1).val - p6 V c i

/-- What a storing point (k = 7) puts at entry (p, q) of the result blocks is the new vector at row 2048·r + p. -/
theorem out_apply6 (c : Dev nD) (t : Fin cfg6.N) (h1 : t.val % 8 = 7) (p : Fin 2048) (q : Fin 16) (a : Fin 16384)
    (ha : a.val = 2048 * (t.val / 8) + p.val) :
    k6_pay3 (acc6 V c t.val t.isLt) (iblk6 V c 2 t) (ix2 p q) = new6 V c (ix2 a q) := by
  have hp3 : k6_pay3 (acc6 V c t.val t.isLt) (iblk6 V c 2 t) (ix2 p q)
      = Ideal.ofBits .f32 0x40000000#32 * acc6 V c t.val t.isLt (ix2 p q) - (iblk6 V c 2 t : Vec Ideal S2048x16 .f32) (ix2 p q) := by
    unfold k6_pay3
    try simp only [shapeCast_self]
    show Ideal.ofBits .f32 0x40000000#32 * _ - Ideal.ofBits .f32 0x3F800000#32 * _ = _
    rw [ofBits_one, one_mul]
  refine hp3.trans ?_
  rw [acc_apply6 V c t.val t.isLt p q, h1, psum_blocks, blk2_apply6 V c t p q]
  show _ = Ideal.ofBits .f32 0x40000000#32 * prodAt _ _ a.val q.val - p6 V c (ix2 a q)
  rw [ha, ← at2_ix2 (p6 V c) a q, ha]

/-- What a storing point (k = 7) writes back through result window 3 is its block of the new vector. -/
theorem flushed6_3 (c : Dev nD) (t : Fin cfg6.N) (hf : (cfg6.win 3).flush t = true) :
    (dat6 V c).flushed 3 t = ((cfg6.win 3).blk t).view.read (Elt Ideal) (new6 V c) := by
  have h1 : t.val % 8 = 7 := (flush6_3 t).mp hf
  have hN : t.val < 64 := lt_of_lt_of_eq t.isLt N_6
  have hi := (by decide +kernel : ∀ t : Fin grid6.N, win6_3.index t (0 : Fin 2) = t.val / 8 ∧ win6_3.index t (1 : Fin 2) = 0) t
  show (cfg6.win 3).cut (grid6.coords t) ((dat6 V c).after 3 t) = _
  rw [after6_3, out3_eq6 V c t h1]
  funext y
  have hy0 : (y 0).val < 2048 := (y 0).isLt
  have hy1 : (y 1).val < 16 := (y 1).isLt
  show k6_pay3 (acc6 V c t.val t.isLt) (iblk6 V c 2 t) ((cfg6.win 3).xinj (grid6.coords t) y) = ((cfg6.win 3).blk t).view.read (Elt Ideal) (new6 V c) y
  rw [View.read_apply, cast_eq]
  obtain ⟨r, hr⟩ : ∃ r : Fin 16384, r.val = 2048 * (t.val / 8) + (y 0).val := ⟨⟨2048 * (t.val / 8) + (y 0).val, by omega⟩, rfl⟩
  have hemb : ((cfg6.win 3).blk t).view.emb y = ix2 r (⟨(y 1).val, hy1⟩ : Fin 16) :=
    funext fun a => Fin.ext (by
      match a with
      | ⟨0, _⟩ => show win6_3.index t (0 : Fin 2) * 2048 + 1 * (y 0).val = r.val; rw [hr, hi.1]; omega
      | ⟨1, _⟩ => show win6_3.index t (1 : Fin 2) * 16 + 1 * (y 1).val = (y 1).val; rw [hi.2]; omega)
  have hy : (cfg6.win 3).xinj (grid6.coords t) y = ix2 (⟨(y 0).val, hy0⟩ : Fin 2048) (⟨(y 1).val, hy1⟩ : Fin 16) :=
    funext fun a => by match a with | ⟨0, _⟩ => rfl | ⟨1, _⟩ => rfl
  rw [hemb, hy]
  exact out_apply6 V c t h1 ⟨(y 0).val, hy0⟩ ⟨(y 1).val, hy1⟩ r hr

/-- An index of the array is in point `t`'s block of result window 3 iff each coordinate is in the block's range. -/
theorem mem_blk6_3 (t : Fin cfg6.N) (i : S16384x16.Idx) :
    i ∈ ((cfg6.win 3).blk t).view.set ↔ ∀ a : Fin 2, win6_3.index t a * S2048x16.size a ≤ (i a).val ∧ (i a).val < win6_3.index t a * S2048x16.size a + S2048x16.size a := by
  show i ∈ ((View.whole main_v59_0).slice (win6_3.rect t)).set ↔ _
  rw [View.set_slice_whole, Rect.mem_set_unit]
  exact Iff.rfl

/-- So result array 0 ends holding the new vector: row i is covered by the storing point of its row block. -/
theorem final6_3 (c : Dev nD) : (dat6 V c).arrAt 3 cfg6.N = new6 V c :=
  (dat6 V c).arrAt_eq_of_cover 3 (new6 V c) (fun t hf => flushed6_3 V c t hf) fun i => by
    have hi0 : (i 0).val < 16384 := (i 0).isLt
    have hi1 : (i 1).val < 16 := (i 1).isLt
    have ht : 8 * ((i 0).val / 2048) + 7 < cfg6.N := by rw [show cfg6.N = 64 from N_6]; omega
    have hx := (by decide +kernel : ∀ t : Fin grid6.N, win6_3.index t (0 : Fin 2) = t.val / 8 ∧ win6_3.index t (1 : Fin 2) = 0) ⟨8 * ((i 0).val / 2048) + 7, ht⟩
    refine ⟨⟨8 * ((i 0).val / 2048) + 7, ht⟩, (flush6_3 _).mpr (by show (8 * ((i 0).val / 2048) + 7) % 8 = 7; omega), ?_⟩
    rw [mem_blk6_3]
    intro a
    match a with
    | ⟨0, _⟩ =>
      show win6_3.index _ (0 : Fin 2) * 2048 ≤ (i 0).val ∧ (i 0).val < win6_3.index _ (0 : Fin 2) * 2048 + 2048
      rw [hx.1]; show (8 * ((i 0).val / 2048) + 7) / 8 * 2048 ≤ (i 0).val ∧ (i 0).val < (8 * ((i 0).val / 2048) + 7) / 8 * 2048 + 2048; omega
    | ⟨1, _⟩ =>
      show win6_3.index _ (1 : Fin 2) * 16 ≤ (i 1).val ∧ (i 1).val < win6_3.index _ (1 : Fin 2) * 16 + 16
      rw [hx.2]; omega

/-- What a storing point (k = 7) writes back through result window 4 is its block of the new vector. -/
theorem flushed6_4 (c : Dev nD) (t : Fin cfg6.N) (hf : (cfg6.win 4).flush t = true) :
    (dat6 V c).flushed 4 t = ((cfg6.win 4).blk t).view.read (Elt Ideal) (new6 V c) := by
  have h1 : t.val % 8 = 7 := (flush6_4 t).mp hf
  have hN : t.val < 64 := lt_of_lt_of_eq t.isLt N_6
  have hi := (by decide +kernel : ∀ t : Fin grid6.N, win6_4.index t (0 : Fin 2) = t.val / 8 ∧ win6_4.index t (1 : Fin 2) = 0) t
  show (cfg6.win 4).cut (grid6.coords t) ((dat6 V c).after 4 t) = _
  rw [after6_4, out4_eq6 V c t h1]
  funext y
  have hy0 : (y 0).val < 2048 := (y 0).isLt
  have hy1 : (y 1).val < 16 := (y 1).isLt
  show k6_pay3 (acc6 V c t.val t.isLt) (iblk6 V c 2 t) ((cfg6.win 4).xinj (grid6.coords t) y) = ((cfg6.win 4).blk t).view.read (Elt Ideal) (new6 V c) y
  rw [View.read_apply, cast_eq]
  obtain ⟨r, hr⟩ : ∃ r : Fin 16384, r.val = 2048 * (t.val / 8) + (y 0).val := ⟨⟨2048 * (t.val / 8) + (y 0).val, by omega⟩, rfl⟩
  have hemb : ((cfg6.win 4).blk t).view.emb y = ix2 r (⟨(y 1).val, hy1⟩ : Fin 16) :=
    funext fun a => Fin.ext (by
      match a with
      | ⟨0, _⟩ => show win6_4.index t (0 : Fin 2) * 2048 + 1 * (y 0).val = r.val; rw [hr, hi.1]; omega
      | ⟨1, _⟩ => show win6_4.index t (1 : Fin 2) * 16 + 1 * (y 1).val = (y 1).val; rw [hi.2]; omega)
  have hy : (cfg6.win 4).xinj (grid6.coords t) y = ix2 (⟨(y 0).val, hy0⟩ : Fin 2048) (⟨(y 1).val, hy1⟩ : Fin 16) :=
    funext fun a => by match a with | ⟨0, _⟩ => rfl | ⟨1, _⟩ => rfl
  rw [hemb, hy]
  exact out_apply6 V c t h1 ⟨(y 0).val, hy0⟩ ⟨(y 1).val, hy1⟩ r hr

/-- An index of the array is in point `t`'s block of result window 4 iff each coordinate is in the block's range. -/
theorem mem_blk6_4 (t : Fin cfg6.N) (i : S16384x16.Idx) :
    i ∈ ((cfg6.win 4).blk t).view.set ↔ ∀ a : Fin 2, win6_4.index t a * S2048x16.size a ≤ (i a).val ∧ (i a).val < win6_4.index t a * S2048x16.size a + S2048x16.size a := by
  show i ∈ ((View.whole main_v59_1).slice (win6_4.rect t)).set ↔ _
  rw [View.set_slice_whole, Rect.mem_set_unit]
  exact Iff.rfl

/-- So result array 1 ends holding the new vector: row i is covered by the storing point of its row block. -/
theorem final6_4 (c : Dev nD) : (dat6 V c).arrAt 4 cfg6.N = new6 V c :=
  (dat6 V c).arrAt_eq_of_cover 4 (new6 V c) (fun t hf => flushed6_4 V c t hf) fun i => by
    have hi0 : (i 0).val < 16384 := (i 0).isLt
    have hi1 : (i 1).val < 16 := (i 1).isLt
    have ht : 8 * ((i 0).val / 2048) + 7 < cfg6.N := by rw [show cfg6.N = 64 from N_6]; omega
    have hx := (by decide +kernel : ∀ t : Fin grid6.N, win6_4.index t (0 : Fin 2) = t.val / 8 ∧ win6_4.index t (1 : Fin 2) = 0) ⟨8 * ((i 0).val / 2048) + 7, ht⟩
    refine ⟨⟨8 * ((i 0).val / 2048) + 7, ht⟩, (flush6_4 _).mpr (by show (8 * ((i 0).val / 2048) + 7) % 8 = 7; omega), ?_⟩
    rw [mem_blk6_4]
    intro a
    match a with
    | ⟨0, _⟩ =>
      show win6_4.index _ (0 : Fin 2) * 2048 ≤ (i 0).val ∧ (i 0).val < win6_4.index _ (0 : Fin 2) * 2048 + 2048
      rw [hx.1]; show (8 * ((i 0).val / 2048) + 7) / 8 * 2048 ≤ (i 0).val ∧ (i 0).val < (8 * ((i 0).val / 2048) + 7) / 8 * 2048 + 2048; omega
    | ⟨1, _⟩ =>
      show win6_4.index _ (1 : Fin 2) * 16 ≤ (i 1).val ∧ (i 1).val < win6_4.index _ (1 : Fin 2) * 16 + 16
      rw [hx.2]; omega

end Cert.KernelIdeal.Hand

end
-- ==== Proof.RegI7Acc.lean ====
/-
  Region 7, its values for any float instance: what each case's stores read back as, in terms of the body's
  arithmetic; and the accumulator after every grid point as a recursion over the points (started afresh, from the
  zero vector, at the first column block of each row block, continued otherwise).
-/
import proofs.«108570_j29480655520371_2_alg».proof.Proof.RegI7Frame
import Idealize.ShloMosaic.Lib.Pipeline.Value
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

theorem hz2_7 : (![0, 0] : Fin 2 → Nat) = fun _ => 0 := funext fun a => by fin_cases a <;> rfl

/-- Case A leaves in the accumulator the first block product added to the zero vector. -/
theorem soutA_eq7 (c : Dev nD) (i : grid7.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond7_0 i) (hc1 : ¬cond7_1 i) (x0 : Vec F S2048x2048 .bf16) (x1 : Vec F S2048x16 .bf16) (x2 : Vec F S2048x16 .f32) :
    sout7_A_0 (F := F) c i arg2 harg2 arg3 harg3 arg4 harg4 arg5 harg5 arg6 harg6 arg7 harg7 hc0 hc1 x0 x1 x2 = k7_pay2 (k7_pay1) x0 x1 := by
  have hz2 := hz2_7
  unfold sout7_A_0
  rw [View.read_writes_eq_canon _ _ _ (scover7_A_0 c i arg2 harg2 arg3 harg3 arg4 harg4 arg5 harg5 arg6 harg6 arg7 harg7 hc0 hc1 x0 x1 x2)]
  unfold kernelRun7_A
  dsimp only
  try sl_unfold_words
  rw [View.canon_cons_unit_zero hz2, View.readCov_unit_zero (S := S2048x16) _ hz2]
  simp only [View.readAt_eq_ld, harg2.read_unread, harg3.read_unread, harg4.read_unread, harg7.read_unread, View.ld_unit_zero (S := S2048x2048) hz2, View.ld_unit_zero (S := S2048x16) hz2]

/-- Case B leaves in the accumulator what it held plus this point's block product. -/
theorem soutB_eq7 (c : Dev nD) (i : grid7.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond7_0 i) (hc1 : ¬cond7_1 i) (x0 : Vec F S2048x2048 .bf16) (x1 : Vec F S2048x16 .bf16) (x2 : Vec F S2048x16 .f32) (xs0 : Vec F S2048x16 .f32) :
    sout7_B_0 (F := F) c i arg2 harg2 arg3 harg3 arg4 harg4 arg5 harg5 arg6 harg6 arg7 harg7 hc0 hc1 x0 x1 x2 xs0 = k7_pay2 xs0 x0 x1 := by
  have hz2 := hz2_7
  unfold sout7_B_0
  rw [View.read_writes_eq_canon _ _ _ (scover7_B_0 c i arg2 harg2 arg3 harg3 arg4 harg4 arg5 harg5 arg6 harg6 arg7 harg7 hc0 hc1 x0 x1 x2 xs0)]
  unfold kernelRun7_B
  dsimp only
  try sl_unfold_words
  rw [View.canon_unit_zero hz2]
  simp only [View.readAt_eq_ld, harg2.read_unread, harg3.read_unread, harg4.read_unread, harg7.read_unread, View.ld_unit_zero (S := S2048x2048) hz2, View.ld_unit_zero (S := S2048x16) hz2]

/-- Case C leaves in the accumulator what it held plus the last block product, -/
theorem soutC_eq7 (c : Dev nD) (i : grid7.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond7_0 i) (hc1 : cond7_1 i) (x0 : Vec F S2048x2048 .bf16) (x1 : Vec F S2048x16 .bf16) (x2 : Vec F S2048x16 .f32) (xs0 : Vec F S2048x16 .f32) :
    sout7_C_0 (F := F) c i arg2 harg2 arg3 harg3 arg4 harg4 arg5 harg5 arg6 harg6 arg7 harg7 hc0 hc1 x0 x1 x2 xs0 = k7_pay2 xs0 x0 x1 := by
  have hz2 := hz2_7
  unfold sout7_C_0
  rw [View.read_writes_eq_canon _ _ _ (scover7_C_0 c i arg2 harg2 arg3 harg3 arg4 harg4 arg5 harg5 arg6 harg6 arg7 harg7 hc0 hc1 x0 x1 x2 xs0)]
  unfold kernelRun7_C
  dsimp only
  try sl_unfold_words
  rw [View.canon_unit_zero hz2]
  simp only [View.readAt_eq_ld, harg2.read_unread, harg3.read_unread, harg4.read_unread, harg7.read_unread, View.ld_unit_zero (S := S2048x2048) hz2, View.ld_unit_zero (S := S2048x16) hz2]

/-- in the f32 result block the combination of that accumulator and the block of the earlier vector, -/
theorem outC3_eq7 (c : Dev nD) (i : grid7.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond7_0 i) (hc1 : cond7_1 i) (x0 : Vec F S2048x2048 .bf16) (x1 : Vec F S2048x16 .bf16) (x2 : Vec F S2048x16 .f32) (xs0 : Vec F S2048x16 .f32) :
    out7_C_3 (F := F) c i arg2 harg2 arg3 harg3 arg4 harg4 arg5 harg5 arg6 harg6 arg7 harg7 hc0 hc1 x0 x1 x2 xs0 = k7_pay3 (k7_pay2 xs0 x0 x1) x2 := by
  have hz2 := hz2_7
  unfold out7_C_3
  rw [View.read_writes_eq_canon _ _ _ (cover7_C_3 c i arg2 harg2 arg3 harg3 arg4 harg4 arg5 harg5 arg6 harg6 arg7 harg7 hc0 hc1 x0 x1 x2 xs0)]
  unfold kernelRun7_C
  dsimp only
  try sl_unfold_words
  rw [View.canon_unit_zero hz2, View.readCov_unit_zero (S := S2048x16) _ hz2]
  simp only [View.readAt_eq_ld, harg2.read_unread, harg3.read_unread, harg4.read_unread, harg7.read_unread, View.ld_unit_zero (S := S2048x2048) hz2, View.ld_unit_zero (S := S2048x16) hz2]

/-- and in the bf16 result block the same combination in the narrower format. -/
theorem outC4_eq7 (c : Dev nD) (i : grid7.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond7_0 i) (hc1 : cond7_1 i) (x0 : Vec F S2048x2048 .bf16) (x1 : Vec F S2048x16 .bf16) (x2 : Vec F S2048x16 .f32) (xs0 : Vec F S2048x16 .f32) :
    out7_C_4 (F := F) c i arg2 harg2 arg3 harg3 arg4 harg4 arg5 harg5 arg6 harg6 arg7 harg7 hc0 hc1 x0 x1 x2 xs0 = k7_pay4 (k7_pay2 xs0 x0 x1) x2 := by
  have hz2 := hz2_7
  unfold out7_C_4
  rw [View.read_writes_eq_canon _ _ _ (cover7_C_4 c i arg2 harg2 arg3 harg3 arg4 harg4 arg5 harg5 arg6 harg6 arg7 harg7 hc0 hc1 x0 x1 x2 xs0)]
  unfold kernelRun7_C
  dsimp only
  try sl_unfold_words
  rw [View.canon_unit_zero hz2, View.readCov_unit_zero (S := S2048x16) _ hz2]
  simp only [View.readAt_eq_ld, harg2.read_unread, harg3.read_unread, harg4.read_unread, harg7.read_unread, View.ld_unit_zero (S := S2048x2048) hz2, View.ld_unit_zero (S := S2048x16) hz2]

/-- The accumulator after the body at position `n`: started from the zero vector at the first column block of a
    row block, continued from the position before otherwise. -/
def acc7 (c : Dev nD) : (n : ℕ) → n < cfg7.N → Vec F S2048x16 .f32
  | 0, hn => k7_pay2 (k7_pay1) (iblk7 V c 0 ⟨0, hn⟩) (iblk7 V c 1 ⟨0, hn⟩)
  | n + 1, hn =>
    if (n + 1) % 8 = 0 then k7_pay2 (k7_pay1) (iblk7 V c 0 ⟨n + 1, hn⟩) (iblk7 V c 1 ⟨n + 1, hn⟩)
    else k7_pay2 (acc7 c n (Nat.lt_of_succ_lt hn)) (iblk7 V c 0 ⟨n + 1, hn⟩) (iblk7 V c 1 ⟨n + 1, hn⟩)

theorem acc7_zero (c : Dev nD) (hn : 0 < cfg7.N) :
    acc7 V c 0 hn = k7_pay2 (k7_pay1) (iblk7 V c 0 ⟨0, hn⟩) (iblk7 V c 1 ⟨0, hn⟩) := rfl
theorem acc7_succ (c : Dev nD) (n : ℕ) (hn : n + 1 < cfg7.N) :
    acc7 V c (n + 1) hn = if (n + 1) % 8 = 0 then k7_pay2 (k7_pay1) (iblk7 V c 0 ⟨n + 1, hn⟩) (iblk7 V c 1 ⟨n + 1, hn⟩)
      else k7_pay2 (acc7 V c n (Nat.lt_of_succ_lt hn)) (iblk7 V c 0 ⟨n + 1, hn⟩) (iblk7 V c 1 ⟨n + 1, hn⟩) := rfl

/-- The frame's point-by-point accumulator is that recursion. -/
theorem scr_eq7 (c : Dev nD) : ∀ (n : ℕ) (hn : n < cfg7.N), (outsAt7 V c n hn).2.2 = acc7 V c n hn
  | 0, hn => by
    have e := outsAt7_A V c ⟨0, hn⟩ (Nat.zero_mod _) (fun h => absurd (show (0 : ℕ) % 8 = 7 from h) (show ¬((0 : ℕ) % 8 = 7) by decide))
    rw [show outsAt7 V c 0 hn = _ from e, acc7_zero]
    dsimp only
    exact soutA_eq7 ..
  | n + 1, hn => by
    by_cases h0 : (n + 1) % 8 = 0
    · have h1 : ¬(n + 1) % 8 = 7 := by omega
      have e := outsAt7_A V c ⟨n + 1, hn⟩ h0 h1
      rw [show outsAt7 V c (n + 1) hn = _ from e]
      rw [acc7_succ, if_pos h0]
      dsimp only
      exact soutA_eq7 ..
    · by_cases h1 : (n + 1) % 8 = 7
      · have e := outsAt7_C V c ⟨n + 1, hn⟩ h0 h1
        rw [show outsAt7 V c (n + 1) hn = _ from e]
        rw [acc7_succ, if_neg h0]
        dsimp only
        rw [soutC_eq7]
        exact congrArg (fun a => k7_pay2 a _ _) (scr_eq7 c n (Nat.lt_of_succ_lt hn))
      · have e := outsAt7_B V c ⟨n + 1, hn⟩ h0 h1
        rw [show outsAt7 V c (n + 1) hn = _ from e]
        rw [acc7_succ, if_neg h0]
        dsimp only
        rw [soutB_eq7]
        exact congrArg (fun a => k7_pay2 a _ _) (scr_eq7 c n (Nat.lt_of_succ_lt hn))

/-- At a point that stores (k = 7) the f32 result block holds the combination of the accumulator and the block of
    the earlier vector, -/
theorem out3_eq7 (c : Dev nD) (t : Fin cfg7.N) (h1 : t.val % 8 = 7) :
    (outsAt7 V c t.val t.isLt).1 = k7_pay3 (acc7 V c t.val t.isLt) (iblk7 V c 2 t) := by
  have h0 : ¬t.val % 8 = 0 := by omega
  have hz : t.val ≠ 0 := fun h => by rw [h] at h1; exact absurd h1 (by decide)
  rw [outsAt7_C V c t h0 h1]
  dsimp only
  rw [outC3_eq7]
  obtain ⟨n, hn⟩ := t
  cases n with
  | zero => exact absurd rfl hz
  | succ n =>
    rw [acc7_succ, if_neg h0]
    exact congrArg (fun a => k7_pay3 (k7_pay2 a _ _) _) (scr_eq7 V c n (Nat.lt_of_succ_lt hn))

/-- and the bf16 result block the same in the narrower format. -/
theorem out4_eq7 (c : Dev nD) (t : Fin cfg7.N) (h1 : t.val % 8 = 7) :
    (outsAt7 V c t.val t.isLt).2.1 = k7_pay4 (acc7 V c t.val t.isLt) (iblk7 V c 2 t) := by
  have h0 : ¬t.val % 8 = 0 := by omega
  have hz : t.val ≠ 0 := fun h => by rw [h] at h1; exact absurd h1 (by decide)
  rw [outsAt7_C V c t h0 h1]
  dsimp only
  rw [outC4_eq7]
  obtain ⟨n, hn⟩ := t
  cases n with
  | zero => exact absurd rfl hz
  | succ n =>
    rw [acc7_succ, if_neg h0]
    exact congrArg (fun a => k7_pay4 (k7_pay2 a _ _) _) (scr_eq7 V c n (Nat.lt_of_succ_lt hn))

end Cert.KernelIdeal.Hand

end
-- ==== Proof.RegI7Value.lean ====
/-
  Region 7 at the extended reals: its two result arrays end holding 2 · (Ls · v) − v′  of the arrays the
  region finds in its three input windows (Ls the matrix, v the vector, v′ the earlier vector).
  A point t = 8·r + k reads block (r, k) of the matrix, block k of the vector and block r of the earlier vector. After
  it the accumulator's entry (p, q) is the block products of row 2048·r + p for column blocks 0 … k added in order from
  zero; the point k = 7 stores 2 · a − 1 · b  of the accumulator a and the earlier vector's block b into both result
  blocks, which are then written back; the eight block products are the whole product's entry (`psum_blocks`), and the
  storing points' blocks cover the array.
-/
import proofs.«108570_j29480655520371_2_alg».proof.Proof.RegI7Acc
import proofs.«108570_j29480655520371_2_alg».proof.Proof.ChebBlock

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)

variable (V : (c : Dev nD) → (b : Ref sig .tc) → Buf (Elt Ideal) ((c : Thread nD τ).loc b))

/-- The matrix, the vector and the earlier vector as the region finds them in its input windows' arrays. -/
abbrev L7 (c : Dev nD) : S16384x16384.Idx → EReal := V c (Pipeline.arrRef spec7 0)
abbrev v7 (c : Dev nD) : S16384x16.Idx → EReal := V c (Pipeline.arrRef spec7 1)
abbrev p7 (c : Dev nD) : S16384x16.Idx → EReal := V c (Pipeline.arrRef spec7 2)

/-- The matrix block at point t = 8·r + k is rows 2048·r …, columns 2048·k … of the matrix. -/
theorem blk0_apply7 (c : Dev nD) (t : Fin cfg7.N) (p j : Fin 2048) :
    (iblk7 V c 0 t : Vec Ideal S2048x2048 .bf16) (ix2 p j) = at2 (L7 V c) (2048 * (t.val / 8) + p.val) (2048 * (t.val % 8) + j.val) := by
  have hi := (by decide +kernel : ∀ t : Fin grid7.N, win7_0.index t (0 : Fin 2) = t.val / 8 ∧ win7_0.index t (1 : Fin 2) = t.val % 8) t
  have hN : t.val < 64 := lt_of_lt_of_eq t.isLt N_7
  have hb : 2048 * (t.val / 8) + p.val < 16384 ∧ 2048 * (t.val % 8) + j.val < 16384 := ⟨by omega, by omega⟩
  unfold at2; rw [dif_pos hb]
  unfold iblk7
  rw [View.read_apply]
  show V c (Pipeline.arrRef spec7 0) _ = V c (Pipeline.arrRef spec7 0) _
  refine congrArg _ (funext fun a => Fin.ext ?_)
  match a with
  | ⟨0, _⟩ => show win7_0.index t (0 : Fin 2) * 2048 + 1 * p.val = 2048 * (t.val / 8) + p.val; rw [hi.1]; omega
  | ⟨1, _⟩ => show win7_0.index t (1 : Fin 2) * 2048 + 1 * j.val = 2048 * (t.val % 8) + j.val; rw [hi.2]; omega

/-- The vector block at point t = 8·r + k is rows 2048·k … of the vector. -/
theorem blk1_apply7 (c : Dev nD) (t : Fin cfg7.N) (j : Fin 2048) (q : Fin 16) :
    (iblk7 V c 1 t : Vec Ideal S2048x16 .bf16) (ix2 j q) = at2 (v7 V c) (2048 * (t.val % 8) + j.val) q.val := by
  have hi := (by decide +kernel : ∀ t : Fin grid7.N, win7_1.index t (0 : Fin 2) = t.val % 8 ∧ win7_1.index t (1 : Fin 2) = 0) t
  have hN : t.val < 64 := lt_of_lt_of_eq t.isLt N_7
  have hb : 2048 * (t.val % 8) + j.val < 16384 ∧ q.val < 16 := ⟨by omega, q.isLt⟩
  unfold at2; rw [dif_pos hb]
  unfold iblk7
  rw [View.read_apply]
  show V c (Pipeline.arrRef spec7 1) _ = V c (Pipeline.arrRef spec7 1) _
  refine congrArg _ (funext fun a => Fin.ext ?_)
  match a with
  | ⟨0, _⟩ => show win7_1.index t (0 : Fin 2) * 2048 + 1 * j.val = 2048 * (t.val % 8) + j.val; rw [hi.1]; omega
  | ⟨1, _⟩ => show win7_1.index t (1 : Fin 2) * 16 + 1 * q.val = q.val; rw [hi.2]; omega

/-- The earlier vector's block at point t = 8·r + k is its rows 2048·r …. -/
theorem blk2_apply7 (c : Dev nD) (t : Fin cfg7.N) (p : Fin 2048) (q : Fin 16) :
    (iblk7 V c 2 t : Vec Ideal S2048x16 .f32) (ix2 p q) = at2 (p7 V c) (2048 * (t.val / 8) + p.val) q.val := by
  have hi := (by decide +kernel : ∀ t : Fin grid7.N, win7_2.index t (0 : Fin 2) = t.val / 8 ∧ win7_2.index t (1 : Fin 2) = 0) t
  have hN : t.val < 64 := lt_of_lt_of_eq t.isLt N_7
  have hb : 2048 * (t.val / 8) + p.val < 16384 ∧ q.val < 16 := ⟨by omega, q.isLt⟩
  unfold at2; rw [dif_pos hb]
  unfold iblk7
  rw [View.read_apply]
  show V c (Pipeline.arrRef spec7 2) _ = V c (Pipeline.arrRef spec7 2) _
  refine congrArg _ (funext fun a => Fin.ext ?_)
  match a with
  | ⟨0, _⟩ => show win7_2.index t (0 : Fin 2) * 2048 + 1 * p.val = 2048 * (t.val / 8) + p.val; rw [hi.1]; omega
  | ⟨1, _⟩ => show win7_2.index t (1 : Fin 2) * 16 + 1 * q.val = q.val; rw [hi.2]; omega

/-- The block product of row `a` and column `q` over column block `k`. -/
abbrev g7 (c : Dev nD) (a q : ℕ) : ℕ → EReal :=
  fun k => ∑ j : Fin 2048, at2 (L7 V c) a (2048 * k + j.val) * at2 (v7 V c) (2048 * k + j.val) q

/-- One point's accumulation, at an entry. -/
theorem step_apply7 (c : Dev nD) (xs : Vec Ideal S2048x16 .f32) (t : Fin cfg7.N) (p : Fin 2048) (q : Fin 16) :
    k7_pay2 xs (iblk7 V c 0 t) (iblk7 V c 1 t) (ix2 p q)
      = xs (ix2 p q) + g7 V c (2048 * (t.val / 8) + p.val) q.val (t.val % 8) := by
  refine (pay2_apply xs (iblk7 V c 0 t) (iblk7 V c 1 t) p q).trans ?_
  refine congrArg (xs (ix2 p q) + ·) (Finset.sum_congr rfl fun j _ => ?_)
  rw [blk0_apply7 V c t p j, blk1_apply7 V c t j q]

/-- The accumulator after position `n` = 8·r + k, at an entry: the block products of its row for column blocks
    0 … k, added in order from zero. -/
theorem acc_apply7 (c : Dev nD) : ∀ (n : ℕ) (hn : n < cfg7.N) (p : Fin 2048) (q : Fin 16),
    acc7 V c n hn (ix2 p q) = psum (g7 V c (2048 * (n / 8) + p.val) q.val) (n % 8)
  | 0, hn, p, q => by
    rw [acc7_zero]
    refine (step_apply7 V c _ ⟨0, hn⟩ p q).trans ?_
    rw [show (k7_pay1 (F := Ideal)) (ix2 p q) = 0 from pay1_apply _]
    rfl
  | n + 1, hn, p, q => by
    rw [acc7_succ]
    by_cases h0 : (n + 1) % 8 = 0
    · rw [if_pos h0]
      refine (step_apply7 V c _ ⟨n + 1, hn⟩ p q).trans ?_
      rw [show (k7_pay1 (F := Ideal)) (ix2 p q) = 0 from pay1_apply _]
      show 0 + g7 V c (2048 * ((n + 1) / 8) + p.val) q.val ((n + 1) % 8) = psum _ ((n + 1) % 8)
      rw [h0]; rfl
    · rw [if_neg h0]
      refine (step_apply7 V c _ ⟨n + 1, hn⟩ p q).trans ?_
      rw [acc_apply7 c n (Nat.lt_of_succ_lt hn) p q]
      have e1 : (n + 1) % 8 = n % 8 + 1 := by omega
      have e2 : (n + 1) / 8 = n / 8 := by omega
      show psum _ (n % 8) + g7 V c (2048 * ((n + 1) / 8) + p.val) q.val ((n + 1) % 8) = psum _ ((n + 1) % 8)
      rw [e1, e2]; rfl

/-- The new vector: twice the product of the matrix and the vector, less the earlier vector. -/
def new7 (c : Dev nD) : S16384x16.Idx → EReal := fun i => Ideal.ofBits .f32 0x40000000#32 * prodAt (L7 V c) (v7 V c) (i 0).val (i 1).val - p7 V c i

/-- What a storing point (k = 7) puts at entry (p, q) of the result blocks is the new vector at row 2048·r + p. -/
theorem out_apply7 (c : Dev nD) (t : Fin cfg7.N) (h1 : t.val % 8 = 7) (p : Fin 2048) (q : Fin 16) (a : Fin 16384)
    (ha : a.val = 2048 * (t.val / 8) + p.val) :
    k7_pay3 (acc7 V c t.val t.isLt) (iblk7 V c 2 t) (ix2 p q) = new7 V c (ix2 a q) := by
  have hp3 : k7_pay3 (acc7 V c t.val t.isLt) (iblk7 V c 2 t) (ix2 p q)
      = Ideal.ofBits .f32 0x40000000#32 * acc7 V c t.val t.isLt (ix2 p q) - (iblk7 V c 2 t : Vec Ideal S2048x16 .f32) (ix2 p q) := by
    unfold k7_pay3
    try simp only [shapeCast_self]
    show Ideal.ofBits .f32 0x40000000#32 * _ - Ideal.ofBits .f32 0x3F800000#32 * _ = _
    rw [ofBits_one, one_mul]
  refine hp3.trans ?_
  rw [acc_apply7 V c t.val t.isLt p q, h1, psum_blocks, blk2_apply7 V c t p q]
  show _ = Ideal.ofBits .f32 0x40000000#32 * prodAt _ _ a.val q.val - p7 V c (ix2 a q)
  rw [ha, ← at2_ix2 (p7 V c) a q, ha]

/-- What a storing point (k = 7) writes back through result window 3 is its block of the new vector. -/
theorem flushed7_3 (c : Dev nD) (t : Fin cfg7.N) (hf : (cfg7.win 3).flush t = true) :
    (dat7 V c).flushed 3 t = ((cfg7.win 3).blk t).view.read (Elt Ideal) (new7 V c) := by
  have h1 : t.val % 8 = 7 := (flush7_3 t).mp hf
  have hN : t.val < 64 := lt_of_lt_of_eq t.isLt N_7
  have hi := (by decide +kernel : ∀ t : Fin grid7.N, win7_3.index t (0 : Fin 2) = t.val / 8 ∧ win7_3.index t (1 : Fin 2) = 0) t
  show (cfg7.win 3).cut (grid7.coords t) ((dat7 V c).after 3 t) = _
  rw [after7_3, out3_eq7 V c t h1]
  funext y
  have hy0 : (y 0).val < 2048 := (y 0).isLt
  have hy1 : (y 1).val < 16 := (y 1).isLt
  show k7_pay3 (acc7 V c t.val t.isLt) (iblk7 V c 2 t) ((cfg7.win 3).xinj (grid7.coords t) y) = ((cfg7.win 3).blk t).view.read (Elt Ideal) (new7 V c) y
  rw [View.read_apply, cast_eq]
  obtain ⟨r, hr⟩ : ∃ r : Fin 16384, r.val = 2048 * (t.val / 8) + (y 0).val := ⟨⟨2048 * (t.val / 8) + (y 0).val, by omega⟩, rfl⟩
  have hemb : ((cfg7.win 3).blk t).view.emb y = ix2 r (⟨(y 1).val, hy1⟩ : Fin 16) :=
    funext fun a => Fin.ext (by
      match a with
      | ⟨0, _⟩ => show win7_3.index t (0 : Fin 2) * 2048 + 1 * (y 0).val = r.val; rw [hr, hi.1]; omega
      | ⟨1, _⟩ => show win7_3.index t (1 : Fin 2) * 16 + 1 * (y 1).val = (y 1).val; rw [hi.2]; omega)
  have hy : (cfg7.win 3).xinj (grid7.coords t) y = ix2 (⟨(y 0).val, hy0⟩ : Fin 2048) (⟨(y 1).val, hy1⟩ : Fin 16) :=
    funext fun a => by match a with | ⟨0, _⟩ => rfl | ⟨1, _⟩ => rfl
  rw [hemb, hy]
  exact out_apply7 V c t h1 ⟨(y 0).val, hy0⟩ ⟨(y 1).val, hy1⟩ r hr

/-- An index of the array is in point `t`'s block of result window 3 iff each coordinate is in the block's range. -/
theorem mem_blk7_3 (t : Fin cfg7.N) (i : S16384x16.Idx) :
    i ∈ ((cfg7.win 3).blk t).view.set ↔ ∀ a : Fin 2, win7_3.index t a * S2048x16.size a ≤ (i a).val ∧ (i a).val < win7_3.index t a * S2048x16.size a + S2048x16.size a := by
  show i ∈ ((View.whole main_v67_0).slice (win7_3.rect t)).set ↔ _
  rw [View.set_slice_whole, Rect.mem_set_unit]
  exact Iff.rfl

/-- So result array 0 ends holding the new vector: row i is covered by the storing point of its row block. -/
theorem final7_3 (c : Dev nD) : (dat7 V c).arrAt 3 cfg7.N = new7 V c :=
  (dat7 V c).arrAt_eq_of_cover 3 (new7 V c) (fun t hf => flushed7_3 V c t hf) fun i => by
    have hi0 : (i 0).val < 16384 := (i 0).isLt
    have hi1 : (i 1).val < 16 := (i 1).isLt
    have ht : 8 * ((i 0).val / 2048) + 7 < cfg7.N := by rw [show cfg7.N = 64 from N_7]; omega
    have hx := (by decide +kernel : ∀ t : Fin grid7.N, win7_3.index t (0 : Fin 2) = t.val / 8 ∧ win7_3.index t (1 : Fin 2) = 0) ⟨8 * ((i 0).val / 2048) + 7, ht⟩
    refine ⟨⟨8 * ((i 0).val / 2048) + 7, ht⟩, (flush7_3 _).mpr (by show (8 * ((i 0).val / 2048) + 7) % 8 = 7; omega), ?_⟩
    rw [mem_blk7_3]
    intro a
    match a with
    | ⟨0, _⟩ =>
      show win7_3.index _ (0 : Fin 2) * 2048 ≤ (i 0).val ∧ (i 0).val < win7_3.index _ (0 : Fin 2) * 2048 + 2048
      rw [hx.1]; show (8 * ((i 0).val / 2048) + 7) / 8 * 2048 ≤ (i 0).val ∧ (i 0).val < (8 * ((i 0).val / 2048) + 7) / 8 * 2048 + 2048; omega
    | ⟨1, _⟩ =>
      show win7_3.index _ (1 : Fin 2) * 16 ≤ (i 1).val ∧ (i 1).val < win7_3.index _ (1 : Fin 2) * 16 + 16
      rw [hx.2]; omega

/-- What a storing point (k = 7) writes back through result window 4 is its block of the new vector. -/
theorem flushed7_4 (c : Dev nD) (t : Fin cfg7.N) (hf : (cfg7.win 4).flush t = true) :
    (dat7 V c).flushed 4 t = ((cfg7.win 4).blk t).view.read (Elt Ideal) (new7 V c) := by
  have h1 : t.val % 8 = 7 := (flush7_4 t).mp hf
  have hN : t.val < 64 := lt_of_lt_of_eq t.isLt N_7
  have hi := (by decide +kernel : ∀ t : Fin grid7.N, win7_4.index t (0 : Fin 2) = t.val / 8 ∧ win7_4.index t (1 : Fin 2) = 0) t
  show (cfg7.win 4).cut (grid7.coords t) ((dat7 V c).after 4 t) = _
  rw [after7_4, out4_eq7 V c t h1]
  funext y
  have hy0 : (y 0).val < 2048 := (y 0).isLt
  have hy1 : (y 1).val < 16 := (y 1).isLt
  show k7_pay3 (acc7 V c t.val t.isLt) (iblk7 V c 2 t) ((cfg7.win 4).xinj (grid7.coords t) y) = ((cfg7.win 4).blk t).view.read (Elt Ideal) (new7 V c) y
  rw [View.read_apply, cast_eq]
  obtain ⟨r, hr⟩ : ∃ r : Fin 16384, r.val = 2048 * (t.val / 8) + (y 0).val := ⟨⟨2048 * (t.val / 8) + (y 0).val, by omega⟩, rfl⟩
  have hemb : ((cfg7.win 4).blk t).view.emb y = ix2 r (⟨(y 1).val, hy1⟩ : Fin 16) :=
    funext fun a => Fin.ext (by
      match a with
      | ⟨0, _⟩ => show win7_4.index t (0 : Fin 2) * 2048 + 1 * (y 0).val = r.val; rw [hr, hi.1]; omega
      | ⟨1, _⟩ => show win7_4.index t (1 : Fin 2) * 16 + 1 * (y 1).val = (y 1).val; rw [hi.2]; omega)
  have hy : (cfg7.win 4).xinj (grid7.coords t) y = ix2 (⟨(y 0).val, hy0⟩ : Fin 2048) (⟨(y 1).val, hy1⟩ : Fin 16) :=
    funext fun a => by match a with | ⟨0, _⟩ => rfl | ⟨1, _⟩ => rfl
  rw [hemb, hy]
  exact out_apply7 V c t h1 ⟨(y 0).val, hy0⟩ ⟨(y 1).val, hy1⟩ r hr

/-- An index of the array is in point `t`'s block of result window 4 iff each coordinate is in the block's range. -/
theorem mem_blk7_4 (t : Fin cfg7.N) (i : S16384x16.Idx) :
    i ∈ ((cfg7.win 4).blk t).view.set ↔ ∀ a : Fin 2, win7_4.index t a * S2048x16.size a ≤ (i a).val ∧ (i a).val < win7_4.index t a * S2048x16.size a + S2048x16.size a := by
  show i ∈ ((View.whole main_v67_1).slice (win7_4.rect t)).set ↔ _
  rw [View.set_slice_whole, Rect.mem_set_unit]
  exact Iff.rfl

/-- So result array 1 ends holding the new vector: row i is covered by the storing point of its row block. -/
theorem final7_4 (c : Dev nD) : (dat7 V c).arrAt 4 cfg7.N = new7 V c :=
  (dat7 V c).arrAt_eq_of_cover 4 (new7 V c) (fun t hf => flushed7_4 V c t hf) fun i => by
    have hi0 : (i 0).val < 16384 := (i 0).isLt
    have hi1 : (i 1).val < 16 := (i 1).isLt
    have ht : 8 * ((i 0).val / 2048) + 7 < cfg7.N := by rw [show cfg7.N = 64 from N_7]; omega
    have hx := (by decide +kernel : ∀ t : Fin grid7.N, win7_4.index t (0 : Fin 2) = t.val / 8 ∧ win7_4.index t (1 : Fin 2) = 0) ⟨8 * ((i 0).val / 2048) + 7, ht⟩
    refine ⟨⟨8 * ((i 0).val / 2048) + 7, ht⟩, (flush7_4 _).mpr (by show (8 * ((i 0).val / 2048) + 7) % 8 = 7; omega), ?_⟩
    rw [mem_blk7_4]
    intro a
    match a with
    | ⟨0, _⟩ =>
      show win7_4.index _ (0 : Fin 2) * 2048 ≤ (i 0).val ∧ (i 0).val < win7_4.index _ (0 : Fin 2) * 2048 + 2048
      rw [hx.1]; show (8 * ((i 0).val / 2048) + 7) / 8 * 2048 ≤ (i 0).val ∧ (i 0).val < (8 * ((i 0).val / 2048) + 7) / 8 * 2048 + 2048; omega
    | ⟨1, _⟩ =>
      show win7_4.index _ (1 : Fin 2) * 16 ≤ (i 1).val ∧ (i 1).val < win7_4.index _ (1 : Fin 2) * 16 + 16
      rw [hx.2]; omega

end Cert.KernelIdeal.Hand

end
-- ==== Proof.RegI8Acc.lean ====
/-
  Region 8, its values for any float instance: what each case's stores read back as, in terms of the body's
  arithmetic; and the accumulator after every grid point as a recursion over the points (started afresh, from the
  zero vector, at the first column block of each row block, continued otherwise).
-/
import proofs.«108570_j29480655520371_2_alg».proof.Proof.RegI8Frame
import Idealize.ShloMosaic.Lib.Pipeline.Value
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

theorem hz2_8 : (![0, 0] : Fin 2 → Nat) = fun _ => 0 := funext fun a => by fin_cases a <;> rfl

/-- Case A leaves in the accumulator the first block product added to the zero vector. -/
theorem soutA_eq8 (c : Dev nD) (i : grid8.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond8_0 i) (hc1 : ¬cond8_1 i) (x0 : Vec F S2048x2048 .bf16) (x1 : Vec F S2048x16 .bf16) (x2 : Vec F S2048x16 .f32) :
    sout8_A_0 (F := F) c i arg2 harg2 arg3 harg3 arg4 harg4 arg5 harg5 arg6 harg6 arg7 harg7 hc0 hc1 x0 x1 x2 = k8_pay2 (k8_pay1) x0 x1 := by
  have hz2 := hz2_8
  unfold sout8_A_0
  rw [View.read_writes_eq_canon _ _ _ (scover8_A_0 c i arg2 harg2 arg3 harg3 arg4 harg4 arg5 harg5 arg6 harg6 arg7 harg7 hc0 hc1 x0 x1 x2)]
  unfold kernelRun8_A
  dsimp only
  try sl_unfold_words
  rw [View.canon_cons_unit_zero hz2, View.readCov_unit_zero (S := S2048x16) _ hz2]
  simp only [View.readAt_eq_ld, harg2.read_unread, harg3.read_unread, harg4.read_unread, harg7.read_unread, View.ld_unit_zero (S := S2048x2048) hz2, View.ld_unit_zero (S := S2048x16) hz2]

/-- Case B leaves in the accumulator what it held plus this point's block product. -/
theorem soutB_eq8 (c : Dev nD) (i : grid8.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond8_0 i) (hc1 : ¬cond8_1 i) (x0 : Vec F S2048x2048 .bf16) (x1 : Vec F S2048x16 .bf16) (x2 : Vec F S2048x16 .f32) (xs0 : Vec F S2048x16 .f32) :
    sout8_B_0 (F := F) c i arg2 harg2 arg3 harg3 arg4 harg4 arg5 harg5 arg6 harg6 arg7 harg7 hc0 hc1 x0 x1 x2 xs0 = k8_pay2 xs0 x0 x1 := by
  have hz2 := hz2_8
  unfold sout8_B_0
  rw [View.read_writes_eq_canon _ _ _ (scover8_B_0 c i arg2 harg2 arg3 harg3 arg4 harg4 arg5 harg5 arg6 harg6 arg7 harg7 hc0 hc1 x0 x1 x2 xs0)]
  unfold kernelRun8_B
  dsimp only
  try sl_unfold_words
  rw [View.canon_unit_zero hz2]
  simp only [View.readAt_eq_ld, harg2.read_unread, harg3.read_unread, harg4.read_unread, harg7.read_unread, View.ld_unit_zero (S := S2048x2048) hz2, View.ld_unit_zero (S := S2048x16) hz2]

/-- Case C leaves in the accumulator what it held plus the last block product, -/
theorem soutC_eq8 (c : Dev nD) (i : grid8.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond8_0 i) (hc1 : cond8_1 i) (x0 : Vec F S2048x2048 .bf16) (x1 : Vec F S2048x16 .bf16) (x2 : Vec F S2048x16 .f32) (xs0 : Vec F S2048x16 .f32) :
    sout8_C_0 (F := F) c i arg2 harg2 arg3 harg3 arg4 harg4 arg5 harg5 arg6 harg6 arg7 harg7 hc0 hc1 x0 x1 x2 xs0 = k8_pay2 xs0 x0 x1 := by
  have hz2 := hz2_8
  unfold sout8_C_0
  rw [View.read_writes_eq_canon _ _ _ (scover8_C_0 c i arg2 harg2 arg3 harg3 arg4 harg4 arg5 harg5 arg6 harg6 arg7 harg7 hc0 hc1 x0 x1 x2 xs0)]
  unfold kernelRun8_C
  dsimp only
  try sl_unfold_words
  rw [View.canon_unit_zero hz2]
  simp only [View.readAt_eq_ld, harg2.read_unread, harg3.read_unread, harg4.read_unread, harg7.read_unread, View.ld_unit_zero (S := S2048x2048) hz2, View.ld_unit_zero (S := S2048x16) hz2]

/-- in the f32 result block the combination of that accumulator and the block of the earlier vector, -/
theorem outC3_eq8 (c : Dev nD) (i : grid8.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond8_0 i) (hc1 : cond8_1 i) (x0 : Vec F S2048x2048 .bf16) (x1 : Vec F S2048x16 .bf16) (x2 : Vec F S2048x16 .f32) (xs0 : Vec F S2048x16 .f32) :
    out8_C_3 (F := F) c i arg2 harg2 arg3 harg3 arg4 harg4 arg5 harg5 arg6 harg6 arg7 harg7 hc0 hc1 x0 x1 x2 xs0 = k8_pay3 (k8_pay2 xs0 x0 x1) x2 := by
  have hz2 := hz2_8
  unfold out8_C_3
  rw [View.read_writes_eq_canon _ _ _ (cover8_C_3 c i arg2 harg2 arg3 harg3 arg4 harg4 arg5 harg5 arg6 harg6 arg7 harg7 hc0 hc1 x0 x1 x2 xs0)]
  unfold kernelRun8_C
  dsimp only
  try sl_unfold_words
  rw [View.canon_unit_zero hz2, View.readCov_unit_zero (S := S2048x16) _ hz2]
  simp only [View.readAt_eq_ld, harg2.read_unread, harg3.read_unread, harg4.read_unread, harg7.read_unread, View.ld_unit_zero (S := S2048x2048) hz2, View.ld_unit_zero (S := S2048x16) hz2]

/-- and in the bf16 result block the same combination in the narrower format. -/
theorem outC4_eq8 (c : Dev nD) (i : grid8.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond8_0 i) (hc1 : cond8_1 i) (x0 : Vec F S2048x2048 .bf16) (x1 : Vec F S2048x16 .bf16) (x2 : Vec F S2048x16 .f32) (xs0 : Vec F S2048x16 .f32) :
    out8_C_4 (F := F) c i arg2 harg2 arg3 harg3 arg4 harg4 arg5 harg5 arg6 harg6 arg7 harg7 hc0 hc1 x0 x1 x2 xs0 = k8_pay4 (k8_pay2 xs0 x0 x1) x2 := by
  have hz2 := hz2_8
  unfold out8_C_4
  rw [View.read_writes_eq_canon _ _ _ (cover8_C_4 c i arg2 harg2 arg3 harg3 arg4 harg4 arg5 harg5 arg6 harg6 arg7 harg7 hc0 hc1 x0 x1 x2 xs0)]
  unfold kernelRun8_C
  dsimp only
  try sl_unfold_words
  rw [View.canon_unit_zero hz2, View.readCov_unit_zero (S := S2048x16) _ hz2]
  simp only [View.readAt_eq_ld, harg2.read_unread, harg3.read_unread, harg4.read_unread, harg7.read_unread, View.ld_unit_zero (S := S2048x2048) hz2, View.ld_unit_zero (S := S2048x16) hz2]

/-- The accumulator after the body at position `n`: started from the zero vector at the first column block of a
    row block, continued from the position before otherwise. -/
def acc8 (c : Dev nD) : (n : ℕ) → n < cfg8.N → Vec F S2048x16 .f32
  | 0, hn => k8_pay2 (k8_pay1) (iblk8 V c 0 ⟨0, hn⟩) (iblk8 V c 1 ⟨0, hn⟩)
  | n + 1, hn =>
    if (n + 1) % 8 = 0 then k8_pay2 (k8_pay1) (iblk8 V c 0 ⟨n + 1, hn⟩) (iblk8 V c 1 ⟨n + 1, hn⟩)
    else k8_pay2 (acc8 c n (Nat.lt_of_succ_lt hn)) (iblk8 V c 0 ⟨n + 1, hn⟩) (iblk8 V c 1 ⟨n + 1, hn⟩)

theorem acc8_zero (c : Dev nD) (hn : 0 < cfg8.N) :
    acc8 V c 0 hn = k8_pay2 (k8_pay1) (iblk8 V c 0 ⟨0, hn⟩) (iblk8 V c 1 ⟨0, hn⟩) := rfl
theorem acc8_succ (c : Dev nD) (n : ℕ) (hn : n + 1 < cfg8.N) :
    acc8 V c (n + 1) hn = if (n + 1) % 8 = 0 then k8_pay2 (k8_pay1) (iblk8 V c 0 ⟨n + 1, hn⟩) (iblk8 V c 1 ⟨n + 1, hn⟩)
      else k8_pay2 (acc8 V c n (Nat.lt_of_succ_lt hn)) (iblk8 V c 0 ⟨n + 1, hn⟩) (iblk8 V c 1 ⟨n + 1, hn⟩) := rfl

/-- The frame's point-by-point accumulator is that recursion. -/
theorem scr_eq8 (c : Dev nD) : ∀ (n : ℕ) (hn : n < cfg8.N), (outsAt8 V c n hn).2.2 = acc8 V c n hn
  | 0, hn => by
    have e := outsAt8_A V c ⟨0, hn⟩ (Nat.zero_mod _) (fun h => absurd (show (0 : ℕ) % 8 = 7 from h) (show ¬((0 : ℕ) % 8 = 7) by decide))
    rw [show outsAt8 V c 0 hn = _ from e, acc8_zero]
    dsimp only
    exact soutA_eq8 ..
  | n + 1, hn => by
    by_cases h0 : (n + 1) % 8 = 0
    · have h1 : ¬(n + 1) % 8 = 7 := by omega
      have e := outsAt8_A V c ⟨n + 1, hn⟩ h0 h1
      rw [show outsAt8 V c (n + 1) hn = _ from e]
      rw [acc8_succ, if_pos h0]
      dsimp only
      exact soutA_eq8 ..
    · by_cases h1 : (n + 1) % 8 = 7
      · have e := outsAt8_C V c ⟨n + 1, hn⟩ h0 h1
        rw [show outsAt8 V c (n + 1) hn = _ from e]
        rw [acc8_succ, if_neg h0]
        dsimp only
        rw [soutC_eq8]
        exact congrArg (fun a => k8_pay2 a _ _) (scr_eq8 c n (Nat.lt_of_succ_lt hn))
      · have e := outsAt8_B V c ⟨n + 1, hn⟩ h0 h1
        rw [show outsAt8 V c (n + 1) hn = _ from e]
        rw [acc8_succ, if_neg h0]
        dsimp only
        rw [soutB_eq8]
        exact congrArg (fun a => k8_pay2 a _ _) (scr_eq8 c n (Nat.lt_of_succ_lt hn))

/-- At a point that stores (k = 7) the f32 result block holds the combination of the accumulator and the block of
    the earlier vector, -/
theorem out3_eq8 (c : Dev nD) (t : Fin cfg8.N) (h1 : t.val % 8 = 7) :
    (outsAt8 V c t.val t.isLt).1 = k8_pay3 (acc8 V c t.val t.isLt) (iblk8 V c 2 t) := by
  have h0 : ¬t.val % 8 = 0 := by omega
  have hz : t.val ≠ 0 := fun h => by rw [h] at h1; exact absurd h1 (by decide)
  rw [outsAt8_C V c t h0 h1]
  dsimp only
  rw [outC3_eq8]
  obtain ⟨n, hn⟩ := t
  cases n with
  | zero => exact absurd rfl hz
  | succ n =>
    rw [acc8_succ, if_neg h0]
    exact congrArg (fun a => k8_pay3 (k8_pay2 a _ _) _) (scr_eq8 V c n (Nat.lt_of_succ_lt hn))

/-- and the bf16 result block the same in the narrower format. -/
theorem out4_eq8 (c : Dev nD) (t : Fin cfg8.N) (h1 : t.val % 8 = 7) :
    (outsAt8 V c t.val t.isLt).2.1 = k8_pay4 (acc8 V c t.val t.isLt) (iblk8 V c 2 t) := by
  have h0 : ¬t.val % 8 = 0 := by omega
  have hz : t.val ≠ 0 := fun h => by rw [h] at h1; exact absurd h1 (by decide)
  rw [outsAt8_C V c t h0 h1]
  dsimp only
  rw [outC4_eq8]
  obtain ⟨n, hn⟩ := t
  cases n with
  | zero => exact absurd rfl hz
  | succ n =>
    rw [acc8_succ, if_neg h0]
    exact congrArg (fun a => k8_pay4 (k8_pay2 a _ _) _) (scr_eq8 V c n (Nat.lt_of_succ_lt hn))

end Cert.KernelIdeal.Hand

end
-- ==== Proof.RegI8Value.lean ====
/-
  Region 8 at the extended reals: its two result arrays end holding 2 · (Ls · v) − v′  of the arrays the
  region finds in its three input windows (Ls the matrix, v the vector, v′ the earlier vector).
  A point t = 8·r + k reads block (r, k) of the matrix, block k of the vector and block r of the earlier vector. After
  it the accumulator's entry (p, q) is the block products of row 2048·r + p for column blocks 0 … k added in order from
  zero; the point k = 7 stores 2 · a − 1 · b  of the accumulator a and the earlier vector's block b into both result
  blocks, which are then written back; the eight block products are the whole product's entry (`psum_blocks`), and the
  storing points' blocks cover the array.
-/
import proofs.«108570_j29480655520371_2_alg».proof.Proof.RegI8Acc
import proofs.«108570_j29480655520371_2_alg».proof.Proof.ChebBlock

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)

variable (V : (c : Dev nD) → (b : Ref sig .tc) → Buf (Elt Ideal) ((c : Thread nD τ).loc b))

/-- The matrix, the vector and the earlier vector as the region finds them in its input windows' arrays. -/
abbrev L8 (c : Dev nD) : S16384x16384.Idx → EReal := V c (Pipeline.arrRef spec8 0)
abbrev v8 (c : Dev nD) : S16384x16.Idx → EReal := V c (Pipeline.arrRef spec8 1)
abbrev p8 (c : Dev nD) : S16384x16.Idx → EReal := V c (Pipeline.arrRef spec8 2)

/-- The matrix block at point t = 8·r + k is rows 2048·r …, columns 2048·k … of the matrix. -/
theorem blk0_apply8 (c : Dev nD) (t : Fin cfg8.N) (p j : Fin 2048) :
    (iblk8 V c 0 t : Vec Ideal S2048x2048 .bf16) (ix2 p j) = at2 (L8 V c) (2048 * (t.val / 8) + p.val) (2048 * (t.val % 8) + j.val) := by
  have hi := (by decide +kernel : ∀ t : Fin grid8.N, win8_0.index t (0 : Fin 2) = t.val / 8 ∧ win8_0.index t (1 : Fin 2) = t.val % 8) t
  have hN : t.val < 64 := lt_of_lt_of_eq t.isLt N_8
  have hb : 2048 * (t.val / 8) + p.val < 16384 ∧ 2048 * (t.val % 8) + j.val < 16384 := ⟨by omega, by omega⟩
  unfold at2; rw [dif_pos hb]
  unfold iblk8
  rw [View.read_apply]
  show V c (Pipeline.arrRef spec8 0) _ = V c (Pipeline.arrRef spec8 0) _
  refine congrArg _ (funext fun a => Fin.ext ?_)
  match a with
  | ⟨0, _⟩ => show win8_0.index t (0 : Fin 2) * 2048 + 1 * p.val = 2048 * (t.val / 8) + p.val; rw [hi.1]; omega
  | ⟨1, _⟩ => show win8_0.index t (1 : Fin 2) * 2048 + 1 * j.val = 2048 * (t.val % 8) + j.val; rw [hi.2]; omega

/-- The vector block at point t = 8·r + k is rows 2048·k … of the vector. -/
theorem blk1_apply8 (c : Dev nD) (t : Fin cfg8.N) (j : Fin 2048) (q : Fin 16) :
    (iblk8 V c 1 t : Vec Ideal S2048x16 .bf16) (ix2 j q) = at2 (v8 V c) (2048 * (t.val % 8) + j.val) q.val := by
  have hi := (by decide +kernel : ∀ t : Fin grid8.N, win8_1.index t (0 : Fin 2) = t.val % 8 ∧ win8_1.index t (1 : Fin 2) = 0) t
  have hN : t.val < 64 := lt_of_lt_of_eq t.isLt N_8
  have hb : 2048 * (t.val % 8) + j.val < 16384 ∧ q.val < 16 := ⟨by omega, q.isLt⟩
  unfold at2; rw [dif_pos hb]
  unfold iblk8
  rw [View.read_apply]
  show V c (Pipeline.arrRef spec8 1) _ = V c (Pipeline.arrRef spec8 1) _
  refine congrArg _ (funext fun a => Fin.ext ?_)
  match a with
  | ⟨0, _⟩ => show win8_1.index t (0 : Fin 2) * 2048 + 1 * j.val = 2048 * (t.val % 8) + j.val; rw [hi.1]; omega
  | ⟨1, _⟩ => show win8_1.index t (1 : Fin 2) * 16 + 1 * q.val = q.val; rw [hi.2]; omega

/-- The earlier vector's block at point t = 8·r + k is its rows 2048·r …. -/
theorem blk2_apply8 (c : Dev nD) (t : Fin cfg8.N) (p : Fin 2048) (q : Fin 16) :
    (iblk8 V c 2 t : Vec Ideal S2048x16 .f32) (ix2 p q) = at2 (p8 V c) (2048 * (t.val / 8) + p.val) q.val := by
  have hi := (by decide +kernel : ∀ t : Fin grid8.N, win8_2.index t (0 : Fin 2) = t.val / 8 ∧ win8_2.index t (1 : Fin 2) = 0) t
  have hN : t.val < 64 := lt_of_lt_of_eq t.isLt N_8
  have hb : 2048 * (t.val / 8) + p.val < 16384 ∧ q.val < 16 := ⟨by omega, q.isLt⟩
  unfold at2; rw [dif_pos hb]
  unfold iblk8
  rw [View.read_apply]
  show V c (Pipeline.arrRef spec8 2) _ = V c (Pipeline.arrRef spec8 2) _
  refine congrArg _ (funext fun a => Fin.ext ?_)
  match a with
  | ⟨0, _⟩ => show win8_2.index t (0 : Fin 2) * 2048 + 1 * p.val = 2048 * (t.val / 8) + p.val; rw [hi.1]; omega
  | ⟨1, _⟩ => show win8_2.index t (1 : Fin 2) * 16 + 1 * q.val = q.val; rw [hi.2]; omega

/-- The block product of row `a` and column `q` over column block `k`. -/
abbrev g8 (c : Dev nD) (a q : ℕ) : ℕ → EReal :=
  fun k => ∑ j : Fin 2048, at2 (L8 V c) a (2048 * k + j.val) * at2 (v8 V c) (2048 * k + j.val) q

/-- One point's accumulation, at an entry. -/
theorem step_apply8 (c : Dev nD) (xs : Vec Ideal S2048x16 .f32) (t : Fin cfg8.N) (p : Fin 2048) (q : Fin 16) :
    k8_pay2 xs (iblk8 V c 0 t) (iblk8 V c 1 t) (ix2 p q)
      = xs (ix2 p q) + g8 V c (2048 * (t.val / 8) + p.val) q.val (t.val % 8) := by
  refine (pay2_apply xs (iblk8 V c 0 t) (iblk8 V c 1 t) p q).trans ?_
  refine congrArg (xs (ix2 p q) + ·) (Finset.sum_congr rfl fun j _ => ?_)
  rw [blk0_apply8 V c t p j, blk1_apply8 V c t j q]

/-- The accumulator after position `n` = 8·r + k, at an entry: the block products of its row for column blocks
    0 … k, added in order from zero. -/
theorem acc_apply8 (c : Dev nD) : ∀ (n : ℕ) (hn : n < cfg8.N) (p : Fin 2048) (q : Fin 16),
    acc8 V c n hn (ix2 p q) = psum (g8 V c (2048 * (n / 8) + p.val) q.val) (n % 8)
  | 0, hn, p, q => by
    rw [acc8_zero]
    refine (step_apply8 V c _ ⟨0, hn⟩ p q).trans ?_
    rw [show (k8_pay1 (F := Ideal)) (ix2 p q) = 0 from pay1_apply _]
    rfl
  | n + 1, hn, p, q => by
    rw [acc8_succ]
    by_cases h0 : (n + 1) % 8 = 0
    · rw [if_pos h0]
      refine (step_apply8 V c _ ⟨n + 1, hn⟩ p q).trans ?_
      rw [show (k8_pay1 (F := Ideal)) (ix2 p q) = 0 from pay1_apply _]
      show 0 + g8 V c (2048 * ((n + 1) / 8) + p.val) q.val ((n + 1) % 8) = psum _ ((n + 1) % 8)
      rw [h0]; rfl
    · rw [if_neg h0]
      refine (step_apply8 V c _ ⟨n + 1, hn⟩ p q).trans ?_
      rw [acc_apply8 c n (Nat.lt_of_succ_lt hn) p q]
      have e1 : (n + 1) % 8 = n % 8 + 1 := by omega
      have e2 : (n + 1) / 8 = n / 8 := by omega
      show psum _ (n % 8) + g8 V c (2048 * ((n + 1) / 8) + p.val) q.val ((n + 1) % 8) = psum _ ((n + 1) % 8)
      rw [e1, e2]; rfl

/-- The new vector: twice the product of the matrix and the vector, less the earlier vector. -/
def new8 (c : Dev nD) : S16384x16.Idx → EReal := fun i => Ideal.ofBits .f32 0x40000000#32 * prodAt (L8 V c) (v8 V c) (i 0).val (i 1).val - p8 V c i

/-- What a storing point (k = 7) puts at entry (p, q) of the result blocks is the new vector at row 2048·r + p. -/
theorem out_apply8 (c : Dev nD) (t : Fin cfg8.N) (h1 : t.val % 8 = 7) (p : Fin 2048) (q : Fin 16) (a : Fin 16384)
    (ha : a.val = 2048 * (t.val / 8) + p.val) :
    k8_pay3 (acc8 V c t.val t.isLt) (iblk8 V c 2 t) (ix2 p q) = new8 V c (ix2 a q) := by
  have hp3 : k8_pay3 (acc8 V c t.val t.isLt) (iblk8 V c 2 t) (ix2 p q)
      = Ideal.ofBits .f32 0x40000000#32 * acc8 V c t.val t.isLt (ix2 p q) - (iblk8 V c 2 t : Vec Ideal S2048x16 .f32) (ix2 p q) := by
    unfold k8_pay3
    try simp only [shapeCast_self]
    show Ideal.ofBits .f32 0x40000000#32 * _ - Ideal.ofBits .f32 0x3F800000#32 * _ = _
    rw [ofBits_one, one_mul]
  refine hp3.trans ?_
  rw [acc_apply8 V c t.val t.isLt p q, h1, psum_blocks, blk2_apply8 V c t p q]
  show _ = Ideal.ofBits .f32 0x40000000#32 * prodAt _ _ a.val q.val - p8 V c (ix2 a q)
  rw [ha, ← at2_ix2 (p8 V c) a q, ha]

/-- What a storing point (k = 7) writes back through result window 3 is its block of the new vector. -/
theorem flushed8_3 (c : Dev nD) (t : Fin cfg8.N) (hf : (cfg8.win 3).flush t = true) :
    (dat8 V c).flushed 3 t = ((cfg8.win 3).blk t).view.read (Elt Ideal) (new8 V c) := by
  have h1 : t.val % 8 = 7 := (flush8_3 t).mp hf
  have hN : t.val < 64 := lt_of_lt_of_eq t.isLt N_8
  have hi := (by decide +kernel : ∀ t : Fin grid8.N, win8_3.index t (0 : Fin 2) = t.val / 8 ∧ win8_3.index t (1 : Fin 2) = 0) t
  show (cfg8.win 3).cut (grid8.coords t) ((dat8 V c).after 3 t) = _
  rw [after8_3, out3_eq8 V c t h1]
  funext y
  have hy0 : (y 0).val < 2048 := (y 0).isLt
  have hy1 : (y 1).val < 16 := (y 1).isLt
  show k8_pay3 (acc8 V c t.val t.isLt) (iblk8 V c 2 t) ((cfg8.win 3).xinj (grid8.coords t) y) = ((cfg8.win 3).blk t).view.read (Elt Ideal) (new8 V c) y
  rw [View.read_apply, cast_eq]
  obtain ⟨r, hr⟩ : ∃ r : Fin 16384, r.val = 2048 * (t.val / 8) + (y 0).val := ⟨⟨2048 * (t.val / 8) + (y 0).val, by omega⟩, rfl⟩
  have hemb : ((cfg8.win 3).blk t).view.emb y = ix2 r (⟨(y 1).val, hy1⟩ : Fin 16) :=
    funext fun a => Fin.ext (by
      match a with
      | ⟨0, _⟩ => show win8_3.index t (0 : Fin 2) * 2048 + 1 * (y 0).val = r.val; rw [hr, hi.1]; omega
      | ⟨1, _⟩ => show win8_3.index t (1 : Fin 2) * 16 + 1 * (y 1).val = (y 1).val; rw [hi.2]; omega)
  have hy : (cfg8.win 3).xinj (grid8.coords t) y = ix2 (⟨(y 0).val, hy0⟩ : Fin 2048) (⟨(y 1).val, hy1⟩ : Fin 16) :=
    funext fun a => by match a with | ⟨0, _⟩ => rfl | ⟨1, _⟩ => rfl
  rw [hemb, hy]
  exact out_apply8 V c t h1 ⟨(y 0).val, hy0⟩ ⟨(y 1).val, hy1⟩ r hr

/-- An index of the array is in point `t`'s block of result window 3 iff each coordinate is in the block's range. -/
theorem mem_blk8_3 (t : Fin cfg8.N) (i : S16384x16.Idx) :
    i ∈ ((cfg8.win 3).blk t).view.set ↔ ∀ a : Fin 2, win8_3.index t a * S2048x16.size a ≤ (i a).val ∧ (i a).val < win8_3.index t a * S2048x16.size a + S2048x16.size a := by
  show i ∈ ((View.whole main_v75_0).slice (win8_3.rect t)).set ↔ _
  rw [View.set_slice_whole, Rect.mem_set_unit]
  exact Iff.rfl

/-- So result array 0 ends holding the new vector: row i is covered by the storing point of its row block. -/
theorem final8_3 (c : Dev nD) : (dat8 V c).arrAt 3 cfg8.N = new8 V c :=
  (dat8 V c).arrAt_eq_of_cover 3 (new8 V c) (fun t hf => flushed8_3 V c t hf) fun i => by
    have hi0 : (i 0).val < 16384 := (i 0).isLt
    have hi1 : (i 1).val < 16 := (i 1).isLt
    have ht : 8 * ((i 0).val / 2048) + 7 < cfg8.N := by rw [show cfg8.N = 64 from N_8]; omega
    have hx := (by decide +kernel : ∀ t : Fin grid8.N, win8_3.index t (0 : Fin 2) = t.val / 8 ∧ win8_3.index t (1 : Fin 2) = 0) ⟨8 * ((i 0).val / 2048) + 7, ht⟩
    refine ⟨⟨8 * ((i 0).val / 2048) + 7, ht⟩, (flush8_3 _).mpr (by show (8 * ((i 0).val / 2048) + 7) % 8 = 7; omega), ?_⟩
    rw [mem_blk8_3]
    intro a
    match a with
    | ⟨0, _⟩ =>
      show win8_3.index _ (0 : Fin 2) * 2048 ≤ (i 0).val ∧ (i 0).val < win8_3.index _ (0 : Fin 2) * 2048 + 2048
      rw [hx.1]; show (8 * ((i 0).val / 2048) + 7) / 8 * 2048 ≤ (i 0).val ∧ (i 0).val < (8 * ((i 0).val / 2048) + 7) / 8 * 2048 + 2048; omega
    | ⟨1, _⟩ =>
      show win8_3.index _ (1 : Fin 2) * 16 ≤ (i 1).val ∧ (i 1).val < win8_3.index _ (1 : Fin 2) * 16 + 16
      rw [hx.2]; omega

/-- What a storing point (k = 7) writes back through result window 4 is its block of the new vector. -/
theorem flushed8_4 (c : Dev nD) (t : Fin cfg8.N) (hf : (cfg8.win 4).flush t = true) :
    (dat8 V c).flushed 4 t = ((cfg8.win 4).blk t).view.read (Elt Ideal) (new8 V c) := by
  have h1 : t.val % 8 = 7 := (flush8_4 t).mp hf
  have hN : t.val < 64 := lt_of_lt_of_eq t.isLt N_8
  have hi := (by decide +kernel : ∀ t : Fin grid8.N, win8_4.index t (0 : Fin 2) = t.val / 8 ∧ win8_4.index t (1 : Fin 2) = 0) t
  show (cfg8.win 4).cut (grid8.coords t) ((dat8 V c).after 4 t) = _
  rw [after8_4, out4_eq8 V c t h1]
  funext y
  have hy0 : (y 0).val < 2048 := (y 0).isLt
  have hy1 : (y 1).val < 16 := (y 1).isLt
  show k8_pay3 (acc8 V c t.val t.isLt) (iblk8 V c 2 t) ((cfg8.win 4).xinj (grid8.coords t) y) = ((cfg8.win 4).blk t).view.read (Elt Ideal) (new8 V c) y
  rw [View.read_apply, cast_eq]
  obtain ⟨r, hr⟩ : ∃ r : Fin 16384, r.val = 2048 * (t.val / 8) + (y 0).val := ⟨⟨2048 * (t.val / 8) + (y 0).val, by omega⟩, rfl⟩
  have hemb : ((cfg8.win 4).blk t).view.emb y = ix2 r (⟨(y 1).val, hy1⟩ : Fin 16) :=
    funext fun a => Fin.ext (by
      match a with
      | ⟨0, _⟩ => show win8_4.index t (0 : Fin 2) * 2048 + 1 * (y 0).val = r.val; rw [hr, hi.1]; omega
      | ⟨1, _⟩ => show win8_4.index t (1 : Fin 2) * 16 + 1 * (y 1).val = (y 1).val; rw [hi.2]; omega)
  have hy : (cfg8.win 4).xinj (grid8.coords t) y = ix2 (⟨(y 0).val, hy0⟩ : Fin 2048) (⟨(y 1).val, hy1⟩ : Fin 16) :=
    funext fun a => by match a with | ⟨0, _⟩ => rfl | ⟨1, _⟩ => rfl
  rw [hemb, hy]
  exact out_apply8 V c t h1 ⟨(y 0).val, hy0⟩ ⟨(y 1).val, hy1⟩ r hr

/-- An index of the array is in point `t`'s block of result window 4 iff each coordinate is in the block's range. -/
theorem mem_blk8_4 (t : Fin cfg8.N) (i : S16384x16.Idx) :
    i ∈ ((cfg8.win 4).blk t).view.set ↔ ∀ a : Fin 2, win8_4.index t a * S2048x16.size a ≤ (i a).val ∧ (i a).val < win8_4.index t a * S2048x16.size a + S2048x16.size a := by
  show i ∈ ((View.whole main_v75_1).slice (win8_4.rect t)).set ↔ _
  rw [View.set_slice_whole, Rect.mem_set_unit]
  exact Iff.rfl

/-- So result array 1 ends holding the new vector: row i is covered by the storing point of its row block. -/
theorem final8_4 (c : Dev nD) : (dat8 V c).arrAt 4 cfg8.N = new8 V c :=
  (dat8 V c).arrAt_eq_of_cover 4 (new8 V c) (fun t hf => flushed8_4 V c t hf) fun i => by
    have hi0 : (i 0).val < 16384 := (i 0).isLt
    have hi1 : (i 1).val < 16 := (i 1).isLt
    have ht : 8 * ((i 0).val / 2048) + 7 < cfg8.N := by rw [show cfg8.N = 64 from N_8]; omega
    have hx := (by decide +kernel : ∀ t : Fin grid8.N, win8_4.index t (0 : Fin 2) = t.val / 8 ∧ win8_4.index t (1 : Fin 2) = 0) ⟨8 * ((i 0).val / 2048) + 7, ht⟩
    refine ⟨⟨8 * ((i 0).val / 2048) + 7, ht⟩, (flush8_4 _).mpr (by show (8 * ((i 0).val / 2048) + 7) % 8 = 7; omega), ?_⟩
    rw [mem_blk8_4]
    intro a
    match a with
    | ⟨0, _⟩ =>
      show win8_4.index _ (0 : Fin 2) * 2048 ≤ (i 0).val ∧ (i 0).val < win8_4.index _ (0 : Fin 2) * 2048 + 2048
      rw [hx.1]; show (8 * ((i 0).val / 2048) + 7) / 8 * 2048 ≤ (i 0).val ∧ (i 0).val < (8 * ((i 0).val / 2048) + 7) / 8 * 2048 + 2048; omega
    | ⟨1, _⟩ =>
      show win8_4.index _ (1 : Fin 2) * 16 ≤ (i 1).val ∧ (i 1).val < win8_4.index _ (1 : Fin 2) * 16 + 16
      rw [hx.2]; omega

end Cert.KernelIdeal.Hand

end
-- ==== Proof.RegI9Acc.lean ====
/-
  Region 9, its values for any float instance: what each case's stores read back as, in terms of the body's
  arithmetic; and the accumulator after every grid point as a recursion over the points (started afresh, from the
  zero vector, at the first column block of each row block, continued otherwise).
-/
import proofs.«108570_j29480655520371_2_alg».proof.Proof.RegI9Frame
import Idealize.ShloMosaic.Lib.Pipeline.Value
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

theorem hz2_9 : (![0, 0] : Fin 2 → Nat) = fun _ => 0 := funext fun a => by fin_cases a <;> rfl

/-- Case A leaves in the accumulator the first block product added to the zero vector. -/
theorem soutA_eq9 (c : Dev nD) (i : grid9.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond9_0 i) (hc1 : ¬cond9_1 i) (x0 : Vec F S2048x2048 .bf16) (x1 : Vec F S2048x16 .bf16) (x2 : Vec F S2048x16 .f32) :
    sout9_A_0 (F := F) c i arg2 harg2 arg3 harg3 arg4 harg4 arg5 harg5 arg6 harg6 arg7 harg7 hc0 hc1 x0 x1 x2 = k9_pay2 (k9_pay1) x0 x1 := by
  have hz2 := hz2_9
  unfold sout9_A_0
  rw [View.read_writes_eq_canon _ _ _ (scover9_A_0 c i arg2 harg2 arg3 harg3 arg4 harg4 arg5 harg5 arg6 harg6 arg7 harg7 hc0 hc1 x0 x1 x2)]
  unfold kernelRun9_A
  dsimp only
  try sl_unfold_words
  rw [View.canon_cons_unit_zero hz2, View.readCov_unit_zero (S := S2048x16) _ hz2]
  simp only [View.readAt_eq_ld, harg2.read_unread, harg3.read_unread, harg4.read_unread, harg7.read_unread, View.ld_unit_zero (S := S2048x2048) hz2, View.ld_unit_zero (S := S2048x16) hz2]

/-- Case B leaves in the accumulator what it held plus this point's block product. -/
theorem soutB_eq9 (c : Dev nD) (i : grid9.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond9_0 i) (hc1 : ¬cond9_1 i) (x0 : Vec F S2048x2048 .bf16) (x1 : Vec F S2048x16 .bf16) (x2 : Vec F S2048x16 .f32) (xs0 : Vec F S2048x16 .f32) :
    sout9_B_0 (F := F) c i arg2 harg2 arg3 harg3 arg4 harg4 arg5 harg5 arg6 harg6 arg7 harg7 hc0 hc1 x0 x1 x2 xs0 = k9_pay2 xs0 x0 x1 := by
  have hz2 := hz2_9
  unfold sout9_B_0
  rw [View.read_writes_eq_canon _ _ _ (scover9_B_0 c i arg2 harg2 arg3 harg3 arg4 harg4 arg5 harg5 arg6 harg6 arg7 harg7 hc0 hc1 x0 x1 x2 xs0)]
  unfold kernelRun9_B
  dsimp only
  try sl_unfold_words
  rw [View.canon_unit_zero hz2]
  simp only [View.readAt_eq_ld, harg2.read_unread, harg3.read_unread, harg4.read_unread, harg7.read_unread, View.ld_unit_zero (S := S2048x2048) hz2, View.ld_unit_zero (S := S2048x16) hz2]

/-- Case C leaves in the accumulator what it held plus the last block product, -/
theorem soutC_eq9 (c : Dev nD) (i : grid9.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond9_0 i) (hc1 : cond9_1 i) (x0 : Vec F S2048x2048 .bf16) (x1 : Vec F S2048x16 .bf16) (x2 : Vec F S2048x16 .f32) (xs0 : Vec F S2048x16 .f32) :
    sout9_C_0 (F := F) c i arg2 harg2 arg3 harg3 arg4 harg4 arg5 harg5 arg6 harg6 arg7 harg7 hc0 hc1 x0 x1 x2 xs0 = k9_pay2 xs0 x0 x1 := by
  have hz2 := hz2_9
  unfold sout9_C_0
  rw [View.read_writes_eq_canon _ _ _ (scover9_C_0 c i arg2 harg2 arg3 harg3 arg4 harg4 arg5 harg5 arg6 harg6 arg7 harg7 hc0 hc1 x0 x1 x2 xs0)]
  unfold kernelRun9_C
  dsimp only
  try sl_unfold_words
  rw [View.canon_unit_zero hz2]
  simp only [View.readAt_eq_ld, harg2.read_unread, harg3.read_unread, harg4.read_unread, harg7.read_unread, View.ld_unit_zero (S := S2048x2048) hz2, View.ld_unit_zero (S := S2048x16) hz2]

/-- in the f32 result block the combination of that accumulator and the block of the earlier vector, -/
theorem outC3_eq9 (c : Dev nD) (i : grid9.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond9_0 i) (hc1 : cond9_1 i) (x0 : Vec F S2048x2048 .bf16) (x1 : Vec F S2048x16 .bf16) (x2 : Vec F S2048x16 .f32) (xs0 : Vec F S2048x16 .f32) :
    out9_C_3 (F := F) c i arg2 harg2 arg3 harg3 arg4 harg4 arg5 harg5 arg6 harg6 arg7 harg7 hc0 hc1 x0 x1 x2 xs0 = k9_pay3 (k9_pay2 xs0 x0 x1) x2 := by
  have hz2 := hz2_9
  unfold out9_C_3
  rw [View.read_writes_eq_canon _ _ _ (cover9_C_3 c i arg2 harg2 arg3 harg3 arg4 harg4 arg5 harg5 arg6 harg6 arg7 harg7 hc0 hc1 x0 x1 x2 xs0)]
  unfold kernelRun9_C
  dsimp only
  try sl_unfold_words
  rw [View.canon_unit_zero hz2, View.readCov_unit_zero (S := S2048x16) _ hz2]
  simp only [View.readAt_eq_ld, harg2.read_unread, harg3.read_unread, harg4.read_unread, harg7.read_unread, View.ld_unit_zero (S := S2048x2048) hz2, View.ld_unit_zero (S := S2048x16) hz2]

/-- and in the bf16 result block the same combination in the narrower format. -/
theorem outC4_eq9 (c : Dev nD) (i : grid9.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond9_0 i) (hc1 : cond9_1 i) (x0 : Vec F S2048x2048 .bf16) (x1 : Vec F S2048x16 .bf16) (x2 : Vec F S2048x16 .f32) (xs0 : Vec F S2048x16 .f32) :
    out9_C_4 (F := F) c i arg2 harg2 arg3 harg3 arg4 harg4 arg5 harg5 arg6 harg6 arg7 harg7 hc0 hc1 x0 x1 x2 xs0 = k9_pay4 (k9_pay2 xs0 x0 x1) x2 := by
  have hz2 := hz2_9
  unfold out9_C_4
  rw [View.read_writes_eq_canon _ _ _ (cover9_C_4 c i arg2 harg2 arg3 harg3 arg4 harg4 arg5 harg5 arg6 harg6 arg7 harg7 hc0 hc1 x0 x1 x2 xs0)]
  unfold kernelRun9_C
  dsimp only
  try sl_unfold_words
  rw [View.canon_unit_zero hz2, View.readCov_unit_zero (S := S2048x16) _ hz2]
  simp only [View.readAt_eq_ld, harg2.read_unread, harg3.read_unread, harg4.read_unread, harg7.read_unread, View.ld_unit_zero (S := S2048x2048) hz2, View.ld_unit_zero (S := S2048x16) hz2]

/-- The accumulator after the body at position `n`: started from the zero vector at the first column block of a
    row block, continued from the position before otherwise. -/
def acc9 (c : Dev nD) : (n : ℕ) → n < cfg9.N → Vec F S2048x16 .f32
  | 0, hn => k9_pay2 (k9_pay1) (iblk9 V c 0 ⟨0, hn⟩) (iblk9 V c 1 ⟨0, hn⟩)
  | n + 1, hn =>
    if (n + 1) % 8 = 0 then k9_pay2 (k9_pay1) (iblk9 V c 0 ⟨n + 1, hn⟩) (iblk9 V c 1 ⟨n + 1, hn⟩)
    else k9_pay2 (acc9 c n (Nat.lt_of_succ_lt hn)) (iblk9 V c 0 ⟨n + 1, hn⟩) (iblk9 V c 1 ⟨n + 1, hn⟩)

theorem acc9_zero (c : Dev nD) (hn : 0 < cfg9.N) :
    acc9 V c 0 hn = k9_pay2 (k9_pay1) (iblk9 V c 0 ⟨0, hn⟩) (iblk9 V c 1 ⟨0, hn⟩) := rfl
theorem acc9_succ (c : Dev nD) (n : ℕ) (hn : n + 1 < cfg9.N) :
    acc9 V c (n + 1) hn = if (n + 1) % 8 = 0 then k9_pay2 (k9_pay1) (iblk9 V c 0 ⟨n + 1, hn⟩) (iblk9 V c 1 ⟨n + 1, hn⟩)
      else k9_pay2 (acc9 V c n (Nat.lt_of_succ_lt hn)) (iblk9 V c 0 ⟨n + 1, hn⟩) (iblk9 V c 1 ⟨n + 1, hn⟩) := rfl

/-- The frame's point-by-point accumulator is that recursion. -/
theorem scr_eq9 (c : Dev nD) : ∀ (n : ℕ) (hn : n < cfg9.N), (outsAt9 V c n hn).2.2 = acc9 V c n hn
  | 0, hn => by
    have e := outsAt9_A V c ⟨0, hn⟩ (Nat.zero_mod _) (fun h => absurd (show (0 : ℕ) % 8 = 7 from h) (show ¬((0 : ℕ) % 8 = 7) by decide))
    rw [show outsAt9 V c 0 hn = _ from e, acc9_zero]
    dsimp only
    exact soutA_eq9 ..
  | n + 1, hn => by
    by_cases h0 : (n + 1) % 8 = 0
    · have h1 : ¬(n + 1) % 8 = 7 := by omega
      have e := outsAt9_A V c ⟨n + 1, hn⟩ h0 h1
      rw [show outsAt9 V c (n + 1) hn = _ from e]
      rw [acc9_succ, if_pos h0]
      dsimp only
      exact soutA_eq9 ..
    · by_cases h1 : (n + 1) % 8 = 7
      · have e := outsAt9_C V c ⟨n + 1, hn⟩ h0 h1
        rw [show outsAt9 V c (n + 1) hn = _ from e]
        rw [acc9_succ, if_neg h0]
        dsimp only
        rw [soutC_eq9]
        exact congrArg (fun a => k9_pay2 a _ _) (scr_eq9 c n (Nat.lt_of_succ_lt hn))
      · have e := outsAt9_B V c ⟨n + 1, hn⟩ h0 h1
        rw [show outsAt9 V c (n + 1) hn = _ from e]
        rw [acc9_succ, if_neg h0]
        dsimp only
        rw [soutB_eq9]
        exact congrArg (fun a => k9_pay2 a _ _) (scr_eq9 c n (Nat.lt_of_succ_lt hn))

/-- At a point that stores (k = 7) the f32 result block holds the combination of the accumulator and the block of
    the earlier vector, -/
theorem out3_eq9 (c : Dev nD) (t : Fin cfg9.N) (h1 : t.val % 8 = 7) :
    (outsAt9 V c t.val t.isLt).1 = k9_pay3 (acc9 V c t.val t.isLt) (iblk9 V c 2 t) := by
  have h0 : ¬t.val % 8 = 0 := by omega
  have hz : t.val ≠ 0 := fun h => by rw [h] at h1; exact absurd h1 (by decide)
  rw [outsAt9_C V c t h0 h1]
  dsimp only
  rw [outC3_eq9]
  obtain ⟨n, hn⟩ := t
  cases n with
  | zero => exact absurd rfl hz
  | succ n =>
    rw [acc9_succ, if_neg h0]
    exact congrArg (fun a => k9_pay3 (k9_pay2 a _ _) _) (scr_eq9 V c n (Nat.lt_of_succ_lt hn))

/-- and the bf16 result block the same in the narrower format. -/
theorem out4_eq9 (c : Dev nD) (t : Fin cfg9.N) (h1 : t.val % 8 = 7) :
    (outsAt9 V c t.val t.isLt).2.1 = k9_pay4 (acc9 V c t.val t.isLt) (iblk9 V c 2 t) := by
  have h0 : ¬t.val % 8 = 0 := by omega
  have hz : t.val ≠ 0 := fun h => by rw [h] at h1; exact absurd h1 (by decide)
  rw [outsAt9_C V c t h0 h1]
  dsimp only
  rw [outC4_eq9]
  obtain ⟨n, hn⟩ := t
  cases n with
  | zero => exact absurd rfl hz
  | succ n =>
    rw [acc9_succ, if_neg h0]
    exact congrArg (fun a => k9_pay4 (k9_pay2 a _ _) _) (scr_eq9 V c n (Nat.lt_of_succ_lt hn))

end Cert.KernelIdeal.Hand

end
-- ==== Proof.RegI9Value.lean ====
/-
  Region 9 at the extended reals: its two result arrays end holding 2 · (Ls · v) − v′  of the arrays the
  region finds in its three input windows (Ls the matrix, v the vector, v′ the earlier vector).
  A point t = 8·r + k reads block (r, k) of the matrix, block k of the vector and block r of the earlier vector. After
  it the accumulator's entry (p, q) is the block products of row 2048·r + p for column blocks 0 … k added in order from
  zero; the point k = 7 stores 2 · a − 1 · b  of the accumulator a and the earlier vector's block b into both result
  blocks, which are then written back; the eight block products are the whole product's entry (`psum_blocks`), and the
  storing points' blocks cover the array.
-/
import proofs.«108570_j29480655520371_2_alg».proof.Proof.RegI9Acc
import proofs.«108570_j29480655520371_2_alg».proof.Proof.ChebBlock

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)

variable (V : (c : Dev nD) → (b : Ref sig .tc) → Buf (Elt Ideal) ((c : Thread nD τ).loc b))

/-- The matrix, the vector and the earlier vector as the region finds them in its input windows' arrays. -/
abbrev L9 (c : Dev nD) : S16384x16384.Idx → EReal := V c (Pipeline.arrRef spec9 0)
abbrev v9 (c : Dev nD) : S16384x16.Idx → EReal := V c (Pipeline.arrRef spec9 1)
abbrev p9 (c : Dev nD) : S16384x16.Idx → EReal := V c (Pipeline.arrRef spec9 2)

/-- The matrix block at point t = 8·r + k is rows 2048·r …, columns 2048·k … of the matrix. -/
theorem blk0_apply9 (c : Dev nD) (t : Fin cfg9.N) (p j : Fin 2048) :
    (iblk9 V c 0 t : Vec Ideal S2048x2048 .bf16) (ix2 p j) = at2 (L9 V c) (2048 * (t.val / 8) + p.val) (2048 * (t.val % 8) + j.val) := by
  have hi := (by decide +kernel : ∀ t : Fin grid9.N, win9_0.index t (0 : Fin 2) = t.val / 8 ∧ win9_0.index t (1 : Fin 2) = t.val % 8) t
  have hN : t.val < 64 := lt_of_lt_of_eq t.isLt N_9
  have hb : 2048 * (t.val / 8) + p.val < 16384 ∧ 2048 * (t.val % 8) + j.val < 16384 := ⟨by omega, by omega⟩
  unfold at2; rw [dif_pos hb]
  unfold iblk9
  rw [View.read_apply]
  show V c (Pipeline.arrRef spec9 0) _ = V c (Pipeline.arrRef spec9 0) _
  refine congrArg _ (funext fun a => Fin.ext ?_)
  match a with
  | ⟨0, _⟩ => show win9_0.index t (0 : Fin 2) * 2048 + 1 * p.val = 2048 * (t.val / 8) + p.val; rw [hi.1]; omega
  | ⟨1, _⟩ => show win9_0.index t (1 : Fin 2) * 2048 + 1 * j.val = 2048 * (t.val % 8) + j.val; rw [hi.2]; omega

/-- The vector block at point t = 8·r + k is rows 2048·k … of the vector. -/
theorem blk1_apply9 (c : Dev nD) (t : Fin cfg9.N) (j : Fin 2048) (q : Fin 16) :
    (iblk9 V c 1 t : Vec Ideal S2048x16 .bf16) (ix2 j q) = at2 (v9 V c) (2048 * (t.val % 8) + j.val) q.val := by
  have hi := (by decide +kernel : ∀ t : Fin grid9.N, win9_1.index t (0 : Fin 2) = t.val % 8 ∧ win9_1.index t (1 : Fin 2) = 0) t
  have hN : t.val < 64 := lt_of_lt_of_eq t.isLt N_9
  have hb : 2048 * (t.val % 8) + j.val < 16384 ∧ q.val < 16 := ⟨by omega, q.isLt⟩
  unfold at2; rw [dif_pos hb]
  unfold iblk9
  rw [View.read_apply]
  show V c (Pipeline.arrRef spec9 1) _ = V c (Pipeline.arrRef spec9 1) _
  refine congrArg _ (funext fun a => Fin.ext ?_)
  match a with
  | ⟨0, _⟩ => show win9_1.index t (0 : Fin 2) * 2048 + 1 * j.val = 2048 * (t.val % 8) + j.val; rw [hi.1]; omega
  | ⟨1, _⟩ => show win9_1.index t (1 : Fin 2) * 16 + 1 * q.val = q.val; rw [hi.2]; omega

/-- The earlier vector's block at point t = 8·r + k is its rows 2048·r …. -/
theorem blk2_apply9 (c : Dev nD) (t : Fin cfg9.N) (p : Fin 2048) (q : Fin 16) :
    (iblk9 V c 2 t : Vec Ideal S2048x16 .f32) (ix2 p q) = at2 (p9 V c) (2048 * (t.val / 8) + p.val) q.val := by
  have hi := (by decide +kernel : ∀ t : Fin grid9.N, win9_2.index t (0 : Fin 2) = t.val / 8 ∧ win9_2.index t (1 : Fin 2) = 0) t
  have hN : t.val < 64 := lt_of_lt_of_eq t.isLt N_9
  have hb : 2048 * (t.val / 8) + p.val < 16384 ∧ q.val < 16 := ⟨by omega, q.isLt⟩
  unfold at2; rw [dif_pos hb]
  unfold iblk9
  rw [View.read_apply]
  show V c (Pipeline.arrRef spec9 2) _ = V c (Pipeline.arrRef spec9 2) _
  refine congrArg _ (funext fun a => Fin.ext ?_)
  match a with
  | ⟨0, _⟩ => show win9_2.index t (0 : Fin 2) * 2048 + 1 * p.val = 2048 * (t.val / 8) + p.val; rw [hi.1]; omega
  | ⟨1, _⟩ => show win9_2.index t (1 : Fin 2) * 16 + 1 * q.val = q.val; rw [hi.2]; omega

/-- The block product of row `a` and column `q` over column block `k`. -/
abbrev g9 (c : Dev nD) (a q : ℕ) : ℕ → EReal :=
  fun k => ∑ j : Fin 2048, at2 (L9 V c) a (2048 * k + j.val) * at2 (v9 V c) (2048 * k + j.val) q

/-- One point's accumulation, at an entry. -/
theorem step_apply9 (c : Dev nD) (xs : Vec Ideal S2048x16 .f32) (t : Fin cfg9.N) (p : Fin 2048) (q : Fin 16) :
    k9_pay2 xs (iblk9 V c 0 t) (iblk9 V c 1 t) (ix2 p q)
      = xs (ix2 p q) + g9 V c (2048 * (t.val / 8) + p.val) q.val (t.val % 8) := by
  refine (pay2_apply xs (iblk9 V c 0 t) (iblk9 V c 1 t) p q).trans ?_
  refine congrArg (xs (ix2 p q) + ·) (Finset.sum_congr rfl fun j _ => ?_)
  rw [blk0_apply9 V c t p j, blk1_apply9 V c t j q]

/-- The accumulator after position `n` = 8·r + k, at an entry: the block products of its row for column blocks
    0 … k, added in order from zero. -/
theorem acc_apply9 (c : Dev nD) : ∀ (n : ℕ) (hn : n < cfg9.N) (p : Fin 2048) (q : Fin 16),
    acc9 V c n hn (ix2 p q) = psum (g9 V c (2048 * (n / 8) + p.val) q.val) (n % 8)
  | 0, hn, p, q => by
    rw [acc9_zero]
    refine (step_apply9 V c _ ⟨0, hn⟩ p q).trans ?_
    rw [show (k9_pay1 (F := Ideal)) (ix2 p q) = 0 from pay1_apply _]
    rfl
  | n + 1, hn, p, q => by
    rw [acc9_succ]
    by_cases h0 : (n + 1) % 8 = 0
    · rw [if_pos h0]
      refine (step_apply9 V c _ ⟨n + 1, hn⟩ p q).trans ?_
      rw [show (k9_pay1 (F := Ideal)) (ix2 p q) = 0 from pay1_apply _]
      show 0 + g9 V c (2048 * ((n + 1) / 8) + p.val) q.val ((n + 1) % 8) = psum _ ((n + 1) % 8)
      rw [h0]; rfl
    · rw [if_neg h0]
      refine (step_apply9 V c _ ⟨n + 1, hn⟩ p q).trans ?_
      rw [acc_apply9 c n (Nat.lt_of_succ_lt hn) p q]
      have e1 : (n + 1) % 8 = n % 8 + 1 := by omega
      have e2 : (n + 1) / 8 = n / 8 := by omega
      show psum _ (n % 8) + g9 V c (2048 * ((n + 1) / 8) + p.val) q.val ((n + 1) % 8) = psum _ ((n + 1) % 8)
      rw [e1, e2]; rfl

/-- The new vector: twice the product of the matrix and the vector, less the earlier vector. -/
def new9 (c : Dev nD) : S16384x16.Idx → EReal := fun i => Ideal.ofBits .f32 0x40000000#32 * prodAt (L9 V c) (v9 V c) (i 0).val (i 1).val - p9 V c i

/-- What a storing point (k = 7) puts at entry (p, q) of the result blocks is the new vector at row 2048·r + p. -/
theorem out_apply9 (c : Dev nD) (t : Fin cfg9.N) (h1 : t.val % 8 = 7) (p : Fin 2048) (q : Fin 16) (a : Fin 16384)
    (ha : a.val = 2048 * (t.val / 8) + p.val) :
    k9_pay3 (acc9 V c t.val t.isLt) (iblk9 V c 2 t) (ix2 p q) = new9 V c (ix2 a q) := by
  have hp3 : k9_pay3 (acc9 V c t.val t.isLt) (iblk9 V c 2 t) (ix2 p q)
      = Ideal.ofBits .f32 0x40000000#32 * acc9 V c t.val t.isLt (ix2 p q) - (iblk9 V c 2 t : Vec Ideal S2048x16 .f32) (ix2 p q) := by
    unfold k9_pay3
    try simp only [shapeCast_self]
    show Ideal.ofBits .f32 0x40000000#32 * _ - Ideal.ofBits .f32 0x3F800000#32 * _ = _
    rw [ofBits_one, one_mul]
  refine hp3.trans ?_
  rw [acc_apply9 V c t.val t.isLt p q, h1, psum_blocks, blk2_apply9 V c t p q]
  show _ = Ideal.ofBits .f32 0x40000000#32 * prodAt _ _ a.val q.val - p9 V c (ix2 a q)
  rw [ha, ← at2_ix2 (p9 V c) a q, ha]

/-- What a storing point (k = 7) writes back through result window 3 is its block of the new vector. -/
theorem flushed9_3 (c : Dev nD) (t : Fin cfg9.N) (hf : (cfg9.win 3).flush t = true) :
    (dat9 V c).flushed 3 t = ((cfg9.win 3).blk t).view.read (Elt Ideal) (new9 V c) := by
  have h1 : t.val % 8 = 7 := (flush9_3 t).mp hf
  have hN : t.val < 64 := lt_of_lt_of_eq t.isLt N_9
  have hi := (by decide +kernel : ∀ t : Fin grid9.N, win9_3.index t (0 : Fin 2) = t.val / 8 ∧ win9_3.index t (1 : Fin 2) = 0) t
  show (cfg9.win 3).cut (grid9.coords t) ((dat9 V c).after 3 t) = _
  rw [after9_3, out3_eq9 V c t h1]
  funext y
  have hy0 : (y 0).val < 2048 := (y 0).isLt
  have hy1 : (y 1).val < 16 := (y 1).isLt
  show k9_pay3 (acc9 V c t.val t.isLt) (iblk9 V c 2 t) ((cfg9.win 3).xinj (grid9.coords t) y) = ((cfg9.win 3).blk t).view.read (Elt Ideal) (new9 V c) y
  rw [View.read_apply, cast_eq]
  obtain ⟨r, hr⟩ : ∃ r : Fin 16384, r.val = 2048 * (t.val / 8) + (y 0).val := ⟨⟨2048 * (t.val / 8) + (y 0).val, by omega⟩, rfl⟩
  have hemb : ((cfg9.win 3).blk t).view.emb y = ix2 r (⟨(y 1).val, hy1⟩ : Fin 16) :=
    funext fun a => Fin.ext (by
      match a with
      | ⟨0, _⟩ => show win9_3.index t (0 : Fin 2) * 2048 + 1 * (y 0).val = r.val; rw [hr, hi.1]; omega
      | ⟨1, _⟩ => show win9_3.index t (1 : Fin 2) * 16 + 1 * (y 1).val = (y 1).val; rw [hi.2]; omega)
  have hy : (cfg9.win 3).xinj (grid9.coords t) y = ix2 (⟨(y 0).val, hy0⟩ : Fin 2048) (⟨(y 1).val, hy1⟩ : Fin 16) :=
    funext fun a => by match a with | ⟨0, _⟩ => rfl | ⟨1, _⟩ => rfl
  rw [hemb, hy]
  exact out_apply9 V c t h1 ⟨(y 0).val, hy0⟩ ⟨(y 1).val, hy1⟩ r hr

/-- An index of the array is in point `t`'s block of result window 3 iff each coordinate is in the block's range. -/
theorem mem_blk9_3 (t : Fin cfg9.N) (i : S16384x16.Idx) :
    i ∈ ((cfg9.win 3).blk t).view.set ↔ ∀ a : Fin 2, win9_3.index t a * S2048x16.size a ≤ (i a).val ∧ (i a).val < win9_3.index t a * S2048x16.size a + S2048x16.size a := by
  show i ∈ ((View.whole main_v83_0).slice (win9_3.rect t)).set ↔ _
  rw [View.set_slice_whole, Rect.mem_set_unit]
  exact Iff.rfl

/-- So result array 0 ends holding the new vector: row i is covered by the storing point of its row block. -/
theorem final9_3 (c : Dev nD) : (dat9 V c).arrAt 3 cfg9.N = new9 V c :=
  (dat9 V c).arrAt_eq_of_cover 3 (new9 V c) (fun t hf => flushed9_3 V c t hf) fun i => by
    have hi0 : (i 0).val < 16384 := (i 0).isLt
    have hi1 : (i 1).val < 16 := (i 1).isLt
    have ht : 8 * ((i 0).val / 2048) + 7 < cfg9.N := by rw [show cfg9.N = 64 from N_9]; omega
    have hx := (by decide +kernel : ∀ t : Fin grid9.N, win9_3.index t (0 : Fin 2) = t.val / 8 ∧ win9_3.index t (1 : Fin 2) = 0) ⟨8 * ((i 0).val / 2048) + 7, ht⟩
    refine ⟨⟨8 * ((i 0).val / 2048) + 7, ht⟩, (flush9_3 _).mpr (by show (8 * ((i 0).val / 2048) + 7) % 8 = 7; omega), ?_⟩
    rw [mem_blk9_3]
    intro a
    match a with
    | ⟨0, _⟩ =>
      show win9_3.index _ (0 : Fin 2) * 2048 ≤ (i 0).val ∧ (i 0).val < win9_3.index _ (0 : Fin 2) * 2048 + 2048
      rw [hx.1]; show (8 * ((i 0).val / 2048) + 7) / 8 * 2048 ≤ (i 0).val ∧ (i 0).val < (8 * ((i 0).val / 2048) + 7) / 8 * 2048 + 2048; omega
    | ⟨1, _⟩ =>
      show win9_3.index _ (1 : Fin 2) * 16 ≤ (i 1).val ∧ (i 1).val < win9_3.index _ (1 : Fin 2) * 16 + 16
      rw [hx.2]; omega

/-- What a storing point (k = 7) writes back through result window 4 is its block of the new vector. -/
theorem flushed9_4 (c : Dev nD) (t : Fin cfg9.N) (hf : (cfg9.win 4).flush t = true) :
    (dat9 V c).flushed 4 t = ((cfg9.win 4).blk t).view.read (Elt Ideal) (new9 V c) := by
  have h1 : t.val % 8 = 7 := (flush9_4 t).mp hf
  have hN : t.val < 64 := lt_of_lt_of_eq t.isLt N_9
  have hi := (by decide +kernel : ∀ t : Fin grid9.N, win9_4.index t (0 : Fin 2) = t.val / 8 ∧ win9_4.index t (1 : Fin 2) = 0) t
  show (cfg9.win 4).cut (grid9.coords t) ((dat9 V c).after 4 t) = _
  rw [after9_4, out4_eq9 V c t h1]
  funext y
  have hy0 : (y 0).val < 2048 := (y 0).isLt
  have hy1 : (y 1).val < 16 := (y 1).isLt
  show k9_pay3 (acc9 V c t.val t.isLt) (iblk9 V c 2 t) ((cfg9.win 4).xinj (grid9.coords t) y) = ((cfg9.win 4).blk t).view.read (Elt Ideal) (new9 V c) y
  rw [View.read_apply, cast_eq]
  obtain ⟨r, hr⟩ : ∃ r : Fin 16384, r.val = 2048 * (t.val / 8) + (y 0).val := ⟨⟨2048 * (t.val / 8) + (y 0).val, by omega⟩, rfl⟩
  have hemb : ((cfg9.win 4).blk t).view.emb y = ix2 r (⟨(y 1).val, hy1⟩ : Fin 16) :=
    funext fun a => Fin.ext (by
      match a with
      | ⟨0, _⟩ => show win9_4.index t (0 : Fin 2) * 2048 + 1 * (y 0).val = r.val; rw [hr, hi.1]; omega
      | ⟨1, _⟩ => show win9_4.index t (1 : Fin 2) * 16 + 1 * (y 1).val = (y 1).val; rw [hi.2]; omega)
  have hy : (cfg9.win 4).xinj (grid9.coords t) y = ix2 (⟨(y 0).val, hy0⟩ : Fin 2048) (⟨(y 1).val, hy1⟩ : Fin 16) :=
    funext fun a => by match a with | ⟨0, _⟩ => rfl | ⟨1, _⟩ => rfl
  rw [hemb, hy]
  exact out_apply9 V c t h1 ⟨(y 0).val, hy0⟩ ⟨(y 1).val, hy1⟩ r hr

/-- An index of the array is in point `t`'s block of result window 4 iff each coordinate is in the block's range. -/
theorem mem_blk9_4 (t : Fin cfg9.N) (i : S16384x16.Idx) :
    i ∈ ((cfg9.win 4).blk t).view.set ↔ ∀ a : Fin 2, win9_4.index t a * S2048x16.size a ≤ (i a).val ∧ (i a).val < win9_4.index t a * S2048x16.size a + S2048x16.size a := by
  show i ∈ ((View.whole main_v83_1).slice (win9_4.rect t)).set ↔ _
  rw [View.set_slice_whole, Rect.mem_set_unit]
  exact Iff.rfl

/-- So result array 1 ends holding the new vector: row i is covered by the storing point of its row block. -/
theorem final9_4 (c : Dev nD) : (dat9 V c).arrAt 4 cfg9.N = new9 V c :=
  (dat9 V c).arrAt_eq_of_cover 4 (new9 V c) (fun t hf => flushed9_4 V c t hf) fun i => by
    have hi0 : (i 0).val < 16384 := (i 0).isLt
    have hi1 : (i 1).val < 16 := (i 1).isLt
    have ht : 8 * ((i 0).val / 2048) + 7 < cfg9.N := by rw [show cfg9.N = 64 from N_9]; omega
    have hx := (by decide +kernel : ∀ t : Fin grid9.N, win9_4.index t (0 : Fin 2) = t.val / 8 ∧ win9_4.index t (1 : Fin 2) = 0) ⟨8 * ((i 0).val / 2048) + 7, ht⟩
    refine ⟨⟨8 * ((i 0).val / 2048) + 7, ht⟩, (flush9_4 _).mpr (by show (8 * ((i 0).val / 2048) + 7) % 8 = 7; omega), ?_⟩
    rw [mem_blk9_4]
    intro a
    match a with
    | ⟨0, _⟩ =>
      show win9_4.index _ (0 : Fin 2) * 2048 ≤ (i 0).val ∧ (i 0).val < win9_4.index _ (0 : Fin 2) * 2048 + 2048
      rw [hx.1]; show (8 * ((i 0).val / 2048) + 7) / 8 * 2048 ≤ (i 0).val ∧ (i 0).val < (8 * ((i 0).val / 2048) + 7) / 8 * 2048 + 2048; omega
    | ⟨1, _⟩ =>
      show win9_4.index _ (1 : Fin 2) * 16 ≤ (i 1).val ∧ (i 1).val < win9_4.index _ (1 : Fin 2) * 16 + 16
      rw [hx.2]; omega

end Cert.KernelIdeal.Hand

end
-- ==== Proof.RegI10Acc.lean ====
/-
  Region 10, its values for any float instance: what each case's stores read back as, in terms of the body's
  arithmetic; and the accumulator after every grid point as a recursion over the points (started afresh, from the
  zero vector, at the first column block of each row block, continued otherwise).
-/
import proofs.«108570_j29480655520371_2_alg».proof.Proof.RegI10Frame
import Idealize.ShloMosaic.Lib.Pipeline.Value
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

theorem hz2_10 : (![0, 0] : Fin 2 → Nat) = fun _ => 0 := funext fun a => by fin_cases a <;> rfl

/-- Case A leaves in the accumulator the first block product added to the zero vector. -/
theorem soutA_eq10 (c : Dev nD) (i : grid10.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond10_0 i) (hc1 : ¬cond10_1 i) (x0 : Vec F S2048x2048 .bf16) (x1 : Vec F S2048x16 .bf16) (x2 : Vec F S2048x16 .f32) :
    sout10_A_0 (F := F) c i arg2 harg2 arg3 harg3 arg4 harg4 arg5 harg5 arg6 harg6 arg7 harg7 hc0 hc1 x0 x1 x2 = k10_pay2 (k10_pay1) x0 x1 := by
  have hz2 := hz2_10
  unfold sout10_A_0
  rw [View.read_writes_eq_canon _ _ _ (scover10_A_0 c i arg2 harg2 arg3 harg3 arg4 harg4 arg5 harg5 arg6 harg6 arg7 harg7 hc0 hc1 x0 x1 x2)]
  unfold kernelRun10_A
  dsimp only
  try sl_unfold_words
  rw [View.canon_cons_unit_zero hz2, View.readCov_unit_zero (S := S2048x16) _ hz2]
  simp only [View.readAt_eq_ld, harg2.read_unread, harg3.read_unread, harg4.read_unread, harg7.read_unread, View.ld_unit_zero (S := S2048x2048) hz2, View.ld_unit_zero (S := S2048x16) hz2]

/-- Case B leaves in the accumulator what it held plus this point's block product. -/
theorem soutB_eq10 (c : Dev nD) (i : grid10.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond10_0 i) (hc1 : ¬cond10_1 i) (x0 : Vec F S2048x2048 .bf16) (x1 : Vec F S2048x16 .bf16) (x2 : Vec F S2048x16 .f32) (xs0 : Vec F S2048x16 .f32) :
    sout10_B_0 (F := F) c i arg2 harg2 arg3 harg3 arg4 harg4 arg5 harg5 arg6 harg6 arg7 harg7 hc0 hc1 x0 x1 x2 xs0 = k10_pay2 xs0 x0 x1 := by
  have hz2 := hz2_10
  unfold sout10_B_0
  rw [View.read_writes_eq_canon _ _ _ (scover10_B_0 c i arg2 harg2 arg3 harg3 arg4 harg4 arg5 harg5 arg6 harg6 arg7 harg7 hc0 hc1 x0 x1 x2 xs0)]
  unfold kernelRun10_B
  dsimp only
  try sl_unfold_words
  rw [View.canon_unit_zero hz2]
  simp only [View.readAt_eq_ld, harg2.read_unread, harg3.read_unread, harg4.read_unread, harg7.read_unread, View.ld_unit_zero (S := S2048x2048) hz2, View.ld_unit_zero (S := S2048x16) hz2]

/-- Case C leaves in the accumulator what it held plus the last block product, -/
theorem soutC_eq10 (c : Dev nD) (i : grid10.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond10_0 i) (hc1 : cond10_1 i) (x0 : Vec F S2048x2048 .bf16) (x1 : Vec F S2048x16 .bf16) (x2 : Vec F S2048x16 .f32) (xs0 : Vec F S2048x16 .f32) :
    sout10_C_0 (F := F) c i arg2 harg2 arg3 harg3 arg4 harg4 arg5 harg5 arg6 harg6 arg7 harg7 hc0 hc1 x0 x1 x2 xs0 = k10_pay2 xs0 x0 x1 := by
  have hz2 := hz2_10
  unfold sout10_C_0
  rw [View.read_writes_eq_canon _ _ _ (scover10_C_0 c i arg2 harg2 arg3 harg3 arg4 harg4 arg5 harg5 arg6 harg6 arg7 harg7 hc0 hc1 x0 x1 x2 xs0)]
  unfold kernelRun10_C
  dsimp only
  try sl_unfold_words
  rw [View.canon_unit_zero hz2]
  simp only [View.readAt_eq_ld, harg2.read_unread, harg3.read_unread, harg4.read_unread, harg7.read_unread, View.ld_unit_zero (S := S2048x2048) hz2, View.ld_unit_zero (S := S2048x16) hz2]

/-- in the f32 result block the combination of that accumulator and the block of the earlier vector, -/
theorem outC3_eq10 (c : Dev nD) (i : grid10.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond10_0 i) (hc1 : cond10_1 i) (x0 : Vec F S2048x2048 .bf16) (x1 : Vec F S2048x16 .bf16) (x2 : Vec F S2048x16 .f32) (xs0 : Vec F S2048x16 .f32) :
    out10_C_3 (F := F) c i arg2 harg2 arg3 harg3 arg4 harg4 arg5 harg5 arg6 harg6 arg7 harg7 hc0 hc1 x0 x1 x2 xs0 = k10_pay3 (k10_pay2 xs0 x0 x1) x2 := by
  have hz2 := hz2_10
  unfold out10_C_3
  rw [View.read_writes_eq_canon _ _ _ (cover10_C_3 c i arg2 harg2 arg3 harg3 arg4 harg4 arg5 harg5 arg6 harg6 arg7 harg7 hc0 hc1 x0 x1 x2 xs0)]
  unfold kernelRun10_C
  dsimp only
  try sl_unfold_words
  rw [View.canon_unit_zero hz2, View.readCov_unit_zero (S := S2048x16) _ hz2]
  simp only [View.readAt_eq_ld, harg2.read_unread, harg3.read_unread, harg4.read_unread, harg7.read_unread, View.ld_unit_zero (S := S2048x2048) hz2, View.ld_unit_zero (S := S2048x16) hz2]

/-- and in the bf16 result block the same combination in the narrower format. -/
theorem outC4_eq10 (c : Dev nD) (i : grid10.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond10_0 i) (hc1 : cond10_1 i) (x0 : Vec F S2048x2048 .bf16) (x1 : Vec F S2048x16 .bf16) (x2 : Vec F S2048x16 .f32) (xs0 : Vec F S2048x16 .f32) :
    out10_C_4 (F := F) c i arg2 harg2 arg3 harg3 arg4 harg4 arg5 harg5 arg6 harg6 arg7 harg7 hc0 hc1 x0 x1 x2 xs0 = k10_pay4 (k10_pay2 xs0 x0 x1) x2 := by
  have hz2 := hz2_10
  unfold out10_C_4
  rw [View.read_writes_eq_canon _ _ _ (cover10_C_4 c i arg2 harg2 arg3 harg3 arg4 harg4 arg5 harg5 arg6 harg6 arg7 harg7 hc0 hc1 x0 x1 x2 xs0)]
  unfold kernelRun10_C
  dsimp only
  try sl_unfold_words
  rw [View.canon_unit_zero hz2, View.readCov_unit_zero (S := S2048x16) _ hz2]
  simp only [View.readAt_eq_ld, harg2.read_unread, harg3.read_unread, harg4.read_unread, harg7.read_unread, View.ld_unit_zero (S := S2048x2048) hz2, View.ld_unit_zero (S := S2048x16) hz2]

/-- The accumulator after the body at position `n`: started from the zero vector at the first column block of a
    row block, continued from the position before otherwise. -/
def acc10 (c : Dev nD) : (n : ℕ) → n < cfg10.N → Vec F S2048x16 .f32
  | 0, hn => k10_pay2 (k10_pay1) (iblk10 V c 0 ⟨0, hn⟩) (iblk10 V c 1 ⟨0, hn⟩)
  | n + 1, hn =>
    if (n + 1) % 8 = 0 then k10_pay2 (k10_pay1) (iblk10 V c 0 ⟨n + 1, hn⟩) (iblk10 V c 1 ⟨n + 1, hn⟩)
    else k10_pay2 (acc10 c n (Nat.lt_of_succ_lt hn)) (iblk10 V c 0 ⟨n + 1, hn⟩) (iblk10 V c 1 ⟨n + 1, hn⟩)

theorem acc10_zero (c : Dev nD) (hn : 0 < cfg10.N) :
    acc10 V c 0 hn = k10_pay2 (k10_pay1) (iblk10 V c 0 ⟨0, hn⟩) (iblk10 V c 1 ⟨0, hn⟩) := rfl
theorem acc10_succ (c : Dev nD) (n : ℕ) (hn : n + 1 < cfg10.N) :
    acc10 V c (n + 1) hn = if (n + 1) % 8 = 0 then k10_pay2 (k10_pay1) (iblk10 V c 0 ⟨n + 1, hn⟩) (iblk10 V c 1 ⟨n + 1, hn⟩)
      else k10_pay2 (acc10 V c n (Nat.lt_of_succ_lt hn)) (iblk10 V c 0 ⟨n + 1, hn⟩) (iblk10 V c 1 ⟨n + 1, hn⟩) := rfl

/-- The frame's point-by-point accumulator is that recursion. -/
theorem scr_eq10 (c : Dev nD) : ∀ (n : ℕ) (hn : n < cfg10.N), (outsAt10 V c n hn).2.2 = acc10 V c n hn
  | 0, hn => by
    have e := outsAt10_A V c ⟨0, hn⟩ (Nat.zero_mod _) (fun h => absurd (show (0 : ℕ) % 8 = 7 from h) (show ¬((0 : ℕ) % 8 = 7) by decide))
    rw [show outsAt10 V c 0 hn = _ from e, acc10_zero]
    dsimp only
    exact soutA_eq10 ..
  | n + 1, hn => by
    by_cases h0 : (n + 1) % 8 = 0
    · have h1 : ¬(n + 1) % 8 = 7 := by omega
      have e := outsAt10_A V c ⟨n + 1, hn⟩ h0 h1
      rw [show outsAt10 V c (n + 1) hn = _ from e]
      rw [acc10_succ, if_pos h0]
      dsimp only
      exact soutA_eq10 ..
    · by_cases h1 : (n + 1) % 8 = 7
      · have e := outsAt10_C V c ⟨n + 1, hn⟩ h0 h1
        rw [show outsAt10 V c (n + 1) hn = _ from e]
        rw [acc10_succ, if_neg h0]
        dsimp only
        rw [soutC_eq10]
        exact congrArg (fun a => k10_pay2 a _ _) (scr_eq10 c n (Nat.lt_of_succ_lt hn))
      · have e := outsAt10_B V c ⟨n + 1, hn⟩ h0 h1
        rw [show outsAt10 V c (n + 1) hn = _ from e]
        rw [acc10_succ, if_neg h0]
        dsimp only
        rw [soutB_eq10]
        exact congrArg (fun a => k10_pay2 a _ _) (scr_eq10 c n (Nat.lt_of_succ_lt hn))

/-- At a point that stores (k = 7) the f32 result block holds the combination of the accumulator and the block of
    the earlier vector, -/
theorem out3_eq10 (c : Dev nD) (t : Fin cfg10.N) (h1 : t.val % 8 = 7) :
    (outsAt10 V c t.val t.isLt).1 = k10_pay3 (acc10 V c t.val t.isLt) (iblk10 V c 2 t) := by
  have h0 : ¬t.val % 8 = 0 := by omega
  have hz : t.val ≠ 0 := fun h => by rw [h] at h1; exact absurd h1 (by decide)
  rw [outsAt10_C V c t h0 h1]
  dsimp only
  rw [outC3_eq10]
  obtain ⟨n, hn⟩ := t
  cases n with
  | zero => exact absurd rfl hz
  | succ n =>
    rw [acc10_succ, if_neg h0]
    exact congrArg (fun a => k10_pay3 (k10_pay2 a _ _) _) (scr_eq10 V c n (Nat.lt_of_succ_lt hn))

/-- and the bf16 result block the same in the narrower format. -/
theorem out4_eq10 (c : Dev nD) (t : Fin cfg10.N) (h1 : t.val % 8 = 7) :
    (outsAt10 V c t.val t.isLt).2.1 = k10_pay4 (acc10 V c t.val t.isLt) (iblk10 V c 2 t) := by
  have h0 : ¬t.val % 8 = 0 := by omega
  have hz : t.val ≠ 0 := fun h => by rw [h] at h1; exact absurd h1 (by decide)
  rw [outsAt10_C V c t h0 h1]
  dsimp only
  rw [outC4_eq10]
  obtain ⟨n, hn⟩ := t
  cases n with
  | zero => exact absurd rfl hz
  | succ n =>
    rw [acc10_succ, if_neg h0]
    exact congrArg (fun a => k10_pay4 (k10_pay2 a _ _) _) (scr_eq10 V c n (Nat.lt_of_succ_lt hn))

end Cert.KernelIdeal.Hand

end
-- ==== Proof.RegI10Value.lean ====
/-
  Region 10 at the extended reals: its two result arrays end holding 2 · (Ls · v) − v′  of the arrays the
  region finds in its three input windows (Ls the matrix, v the vector, v′ the earlier vector).
  A point t = 8·r + k reads block (r, k) of the matrix, block k of the vector and block r of the earlier vector. After
  it the accumulator's entry (p, q) is the block products of row 2048·r + p for column blocks 0 … k added in order from
  zero; the point k = 7 stores 2 · a − 1 · b  of the accumulator a and the earlier vector's block b into both result
  blocks, which are then written back; the eight block products are the whole product's entry (`psum_blocks`), and the
  storing points' blocks cover the array.
-/
import proofs.«108570_j29480655520371_2_alg».proof.Proof.RegI10Acc
import proofs.«108570_j29480655520371_2_alg».proof.Proof.ChebBlock

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)

variable (V : (c : Dev nD) → (b : Ref sig .tc) → Buf (Elt Ideal) ((c : Thread nD τ).loc b))

/-- The matrix, the vector and the earlier vector as the region finds them in its input windows' arrays. -/
abbrev L10 (c : Dev nD) : S16384x16384.Idx → EReal := V c (Pipeline.arrRef spec10 0)
abbrev v10 (c : Dev nD) : S16384x16.Idx → EReal := V c (Pipeline.arrRef spec10 1)
abbrev p10 (c : Dev nD) : S16384x16.Idx → EReal := V c (Pipeline.arrRef spec10 2)

/-- The matrix block at point t = 8·r + k is rows 2048·r …, columns 2048·k … of the matrix. -/
theorem blk0_apply10 (c : Dev nD) (t : Fin cfg10.N) (p j : Fin 2048) :
    (iblk10 V c 0 t : Vec Ideal S2048x2048 .bf16) (ix2 p j) = at2 (L10 V c) (2048 * (t.val / 8) + p.val) (2048 * (t.val % 8) + j.val) := by
  have hi := (by decide +kernel : ∀ t : Fin grid10.N, win10_0.index t (0 : Fin 2) = t.val / 8 ∧ win10_0.index t (1 : Fin 2) = t.val % 8) t
  have hN : t.val < 64 := lt_of_lt_of_eq t.isLt N_10
  have hb : 2048 * (t.val / 8) + p.val < 16384 ∧ 2048 * (t.val % 8) + j.val < 16384 := ⟨by omega, by omega⟩
  unfold at2; rw [dif_pos hb]
  unfold iblk10
  rw [View.read_apply]
  show V c (Pipeline.arrRef spec10 0) _ = V c (Pipeline.arrRef spec10 0) _
  refine congrArg _ (funext fun a => Fin.ext ?_)
  match a with
  | ⟨0, _⟩ => show win10_0.index t (0 : Fin 2) * 2048 + 1 * p.val = 2048 * (t.val / 8) + p.val; rw [hi.1]; omega
  | ⟨1, _⟩ => show win10_0.index t (1 : Fin 2) * 2048 + 1 * j.val = 2048 * (t.val % 8) + j.val; rw [hi.2]; omega

/-- The vector block at point t = 8·r + k is rows 2048·k … of the vector. -/
theorem blk1_apply10 (c : Dev nD) (t : Fin cfg10.N) (j : Fin 2048) (q : Fin 16) :
    (iblk10 V c 1 t : Vec Ideal S2048x16 .bf16) (ix2 j q) = at2 (v10 V c) (2048 * (t.val % 8) + j.val) q.val := by
  have hi := (by decide +kernel : ∀ t : Fin grid10.N, win10_1.index t (0 : Fin 2) = t.val % 8 ∧ win10_1.index t (1 : Fin 2) = 0) t
  have hN : t.val < 64 := lt_of_lt_of_eq t.isLt N_10
  have hb : 2048 * (t.val % 8) + j.val < 16384 ∧ q.val < 16 := ⟨by omega, q.isLt⟩
  unfold at2; rw [dif_pos hb]
  unfold iblk10
  rw [View.read_apply]
  show V c (Pipeline.arrRef spec10 1) _ = V c (Pipeline.arrRef spec10 1) _
  refine congrArg _ (funext fun a => Fin.ext ?_)
  match a with
  | ⟨0, _⟩ => show win10_1.index t (0 : Fin 2) * 2048 + 1 * j.val = 2048 * (t.val % 8) + j.val; rw [hi.1]; omega
  | ⟨1, _⟩ => show win10_1.index t (1 : Fin 2) * 16 + 1 * q.val = q.val; rw [hi.2]; omega

/-- The earlier vector's block at point t = 8·r + k is its rows 2048·r …. -/
theorem blk2_apply10 (c : Dev nD) (t : Fin cfg10.N) (p : Fin 2048) (q : Fin 16) :
    (iblk10 V c 2 t : Vec Ideal S2048x16 .f32) (ix2 p q) = at2 (p10 V c) (2048 * (t.val / 8) + p.val) q.val := by
  have hi := (by decide +kernel : ∀ t : Fin grid10.N, win10_2.index t (0 : Fin 2) = t.val / 8 ∧ win10_2.index t (1 : Fin 2) = 0) t
  have hN : t.val < 64 := lt_of_lt_of_eq t.isLt N_10
  have hb : 2048 * (t.val / 8) + p.val < 16384 ∧ q.val < 16 := ⟨by omega, q.isLt⟩
  unfold at2; rw [dif_pos hb]
  unfold iblk10
  rw [View.read_apply]
  show V c (Pipeline.arrRef spec10 2) _ = V c (Pipeline.arrRef spec10 2) _
  refine congrArg _ (funext fun a => Fin.ext ?_)
  match a with
  | ⟨0, _⟩ => show win10_2.index t (0 : Fin 2) * 2048 + 1 * p.val = 2048 * (t.val / 8) + p.val; rw [hi.1]; omega
  | ⟨1, _⟩ => show win10_2.index t (1 : Fin 2) * 16 + 1 * q.val = q.val; rw [hi.2]; omega

/-- The block product of row `a` and column `q` over column block `k`. -/
abbrev g10 (c : Dev nD) (a q : ℕ) : ℕ → EReal :=
  fun k => ∑ j : Fin 2048, at2 (L10 V c) a (2048 * k + j.val) * at2 (v10 V c) (2048 * k + j.val) q

/-- One point's accumulation, at an entry. -/
theorem step_apply10 (c : Dev nD) (xs : Vec Ideal S2048x16 .f32) (t : Fin cfg10.N) (p : Fin 2048) (q : Fin 16) :
    k10_pay2 xs (iblk10 V c 0 t) (iblk10 V c 1 t) (ix2 p q)
      = xs (ix2 p q) + g10 V c (2048 * (t.val / 8) + p.val) q.val (t.val % 8) := by
  refine (pay2_apply xs (iblk10 V c 0 t) (iblk10 V c 1 t) p q).trans ?_
  refine congrArg (xs (ix2 p q) + ·) (Finset.sum_congr rfl fun j _ => ?_)
  rw [blk0_apply10 V c t p j, blk1_apply10 V c t j q]

/-- The accumulator after position `n` = 8·r + k, at an entry: the block products of its row for column blocks
    0 … k, added in order from zero. -/
theorem acc_apply10 (c : Dev nD) : ∀ (n : ℕ) (hn : n < cfg10.N) (p : Fin 2048) (q : Fin 16),
    acc10 V c n hn (ix2 p q) = psum (g10 V c (2048 * (n / 8) + p.val) q.val) (n % 8)
  | 0, hn, p, q => by
    rw [acc10_zero]
    refine (step_apply10 V c _ ⟨0, hn⟩ p q).trans ?_
    rw [show (k10_pay1 (F := Ideal)) (ix2 p q) = 0 from pay1_apply _]
    rfl
  | n + 1, hn, p, q => by
    rw [acc10_succ]
    by_cases h0 : (n + 1) % 8 = 0
    · rw [if_pos h0]
      refine (step_apply10 V c _ ⟨n + 1, hn⟩ p q).trans ?_
      rw [show (k10_pay1 (F := Ideal)) (ix2 p q) = 0 from pay1_apply _]
      show 0 + g10 V c (2048 * ((n + 1) / 8) + p.val) q.val ((n + 1) % 8) = psum _ ((n + 1) % 8)
      rw [h0]; rfl
    · rw [if_neg h0]
      refine (step_apply10 V c _ ⟨n + 1, hn⟩ p q).trans ?_
      rw [acc_apply10 c n (Nat.lt_of_succ_lt hn) p q]
      have e1 : (n + 1) % 8 = n % 8 + 1 := by omega
      have e2 : (n + 1) / 8 = n / 8 := by omega
      show psum _ (n % 8) + g10 V c (2048 * ((n + 1) / 8) + p.val) q.val ((n + 1) % 8) = psum _ ((n + 1) % 8)
      rw [e1, e2]; rfl

/-- The new vector: twice the product of the matrix and the vector, less the earlier vector. -/
def new10 (c : Dev nD) : S16384x16.Idx → EReal := fun i => Ideal.ofBits .f32 0x40000000#32 * prodAt (L10 V c) (v10 V c) (i 0).val (i 1).val - p10 V c i

/-- What a storing point (k = 7) puts at entry (p, q) of the result blocks is the new vector at row 2048·r + p. -/
theorem out_apply10 (c : Dev nD) (t : Fin cfg10.N) (h1 : t.val % 8 = 7) (p : Fin 2048) (q : Fin 16) (a : Fin 16384)
    (ha : a.val = 2048 * (t.val / 8) + p.val) :
    k10_pay3 (acc10 V c t.val t.isLt) (iblk10 V c 2 t) (ix2 p q) = new10 V c (ix2 a q) := by
  have hp3 : k10_pay3 (acc10 V c t.val t.isLt) (iblk10 V c 2 t) (ix2 p q)
      = Ideal.ofBits .f32 0x40000000#32 * acc10 V c t.val t.isLt (ix2 p q) - (iblk10 V c 2 t : Vec Ideal S2048x16 .f32) (ix2 p q) := by
    unfold k10_pay3
    try simp only [shapeCast_self]
    show Ideal.ofBits .f32 0x40000000#32 * _ - Ideal.ofBits .f32 0x3F800000#32 * _ = _
    rw [ofBits_one, one_mul]
  refine hp3.trans ?_
  rw [acc_apply10 V c t.val t.isLt p q, h1, psum_blocks, blk2_apply10 V c t p q]
  show _ = Ideal.ofBits .f32 0x40000000#32 * prodAt _ _ a.val q.val - p10 V c (ix2 a q)
  rw [ha, ← at2_ix2 (p10 V c) a q, ha]

/-- What a storing point (k = 7) writes back through result window 3 is its block of the new vector. -/
theorem flushed10_3 (c : Dev nD) (t : Fin cfg10.N) (hf : (cfg10.win 3).flush t = true) :
    (dat10 V c).flushed 3 t = ((cfg10.win 3).blk t).view.read (Elt Ideal) (new10 V c) := by
  have h1 : t.val % 8 = 7 := (flush10_3 t).mp hf
  have hN : t.val < 64 := lt_of_lt_of_eq t.isLt N_10
  have hi := (by decide +kernel : ∀ t : Fin grid10.N, win10_3.index t (0 : Fin 2) = t.val / 8 ∧ win10_3.index t (1 : Fin 2) = 0) t
  show (cfg10.win 3).cut (grid10.coords t) ((dat10 V c).after 3 t) = _
  rw [after10_3, out3_eq10 V c t h1]
  funext y
  have hy0 : (y 0).val < 2048 := (y 0).isLt
  have hy1 : (y 1).val < 16 := (y 1).isLt
  show k10_pay3 (acc10 V c t.val t.isLt) (iblk10 V c 2 t) ((cfg10.win 3).xinj (grid10.coords t) y) = ((cfg10.win 3).blk t).view.read (Elt Ideal) (new10 V c) y
  rw [View.read_apply, cast_eq]
  obtain ⟨r, hr⟩ : ∃ r : Fin 16384, r.val = 2048 * (t.val / 8) + (y 0).val := ⟨⟨2048 * (t.val / 8) + (y 0).val, by omega⟩, rfl⟩
  have hemb : ((cfg10.win 3).blk t).view.emb y = ix2 r (⟨(y 1).val, hy1⟩ : Fin 16) :=
    funext fun a => Fin.ext (by
      match a with
      | ⟨0, _⟩ => show win10_3.index t (0 : Fin 2) * 2048 + 1 * (y 0).val = r.val; rw [hr, hi.1]; omega
      | ⟨1, _⟩ => show win10_3.index t (1 : Fin 2) * 16 + 1 * (y 1).val = (y 1).val; rw [hi.2]; omega)
  have hy : (cfg10.win 3).xinj (grid10.coords t) y = ix2 (⟨(y 0).val, hy0⟩ : Fin 2048) (⟨(y 1).val, hy1⟩ : Fin 16) :=
    funext fun a => by match a with | ⟨0, _⟩ => rfl | ⟨1, _⟩ => rfl
  rw [hemb, hy]
  exact out_apply10 V c t h1 ⟨(y 0).val, hy0⟩ ⟨(y 1).val, hy1⟩ r hr

/-- An index of the array is in point `t`'s block of result window 3 iff each coordinate is in the block's range. -/
theorem mem_blk10_3 (t : Fin cfg10.N) (i : S16384x16.Idx) :
    i ∈ ((cfg10.win 3).blk t).view.set ↔ ∀ a : Fin 2, win10_3.index t a * S2048x16.size a ≤ (i a).val ∧ (i a).val < win10_3.index t a * S2048x16.size a + S2048x16.size a := by
  show i ∈ ((View.whole main_v91_0).slice (win10_3.rect t)).set ↔ _
  rw [View.set_slice_whole, Rect.mem_set_unit]
  exact Iff.rfl

/-- So result array 0 ends holding the new vector: row i is covered by the storing point of its row block. -/
theorem final10_3 (c : Dev nD) : (dat10 V c).arrAt 3 cfg10.N = new10 V c :=
  (dat10 V c).arrAt_eq_of_cover 3 (new10 V c) (fun t hf => flushed10_3 V c t hf) fun i => by
    have hi0 : (i 0).val < 16384 := (i 0).isLt
    have hi1 : (i 1).val < 16 := (i 1).isLt
    have ht : 8 * ((i 0).val / 2048) + 7 < cfg10.N := by rw [show cfg10.N = 64 from N_10]; omega
    have hx := (by decide +kernel : ∀ t : Fin grid10.N, win10_3.index t (0 : Fin 2) = t.val / 8 ∧ win10_3.index t (1 : Fin 2) = 0) ⟨8 * ((i 0).val / 2048) + 7, ht⟩
    refine ⟨⟨8 * ((i 0).val / 2048) + 7, ht⟩, (flush10_3 _).mpr (by show (8 * ((i 0).val / 2048) + 7) % 8 = 7; omega), ?_⟩
    rw [mem_blk10_3]
    intro a
    match a with
    | ⟨0, _⟩ =>
      show win10_3.index _ (0 : Fin 2) * 2048 ≤ (i 0).val ∧ (i 0).val < win10_3.index _ (0 : Fin 2) * 2048 + 2048
      rw [hx.1]; show (8 * ((i 0).val / 2048) + 7) / 8 * 2048 ≤ (i 0).val ∧ (i 0).val < (8 * ((i 0).val / 2048) + 7) / 8 * 2048 + 2048; omega
    | ⟨1, _⟩ =>
      show win10_3.index _ (1 : Fin 2) * 16 ≤ (i 1).val ∧ (i 1).val < win10_3.index _ (1 : Fin 2) * 16 + 16
      rw [hx.2]; omega

/-- What a storing point (k = 7) writes back through result window 4 is its block of the new vector. -/
theorem flushed10_4 (c : Dev nD) (t : Fin cfg10.N) (hf : (cfg10.win 4).flush t = true) :
    (dat10 V c).flushed 4 t = ((cfg10.win 4).blk t).view.read (Elt Ideal) (new10 V c) := by
  have h1 : t.val % 8 = 7 := (flush10_4 t).mp hf
  have hN : t.val < 64 := lt_of_lt_of_eq t.isLt N_10
  have hi := (by decide +kernel : ∀ t : Fin grid10.N, win10_4.index t (0 : Fin 2) = t.val / 8 ∧ win10_4.index t (1 : Fin 2) = 0) t
  show (cfg10.win 4).cut (grid10.coords t) ((dat10 V c).after 4 t) = _
  rw [after10_4, out4_eq10 V c t h1]
  funext y
  have hy0 : (y 0).val < 2048 := (y 0).isLt
  have hy1 : (y 1).val < 16 := (y 1).isLt
  show k10_pay3 (acc10 V c t.val t.isLt) (iblk10 V c 2 t) ((cfg10.win 4).xinj (grid10.coords t) y) = ((cfg10.win 4).blk t).view.read (Elt Ideal) (new10 V c) y
  rw [View.read_apply, cast_eq]
  obtain ⟨r, hr⟩ : ∃ r : Fin 16384, r.val = 2048 * (t.val / 8) + (y 0).val := ⟨⟨2048 * (t.val / 8) + (y 0).val, by omega⟩, rfl⟩
  have hemb : ((cfg10.win 4).blk t).view.emb y = ix2 r (⟨(y 1).val, hy1⟩ : Fin 16) :=
    funext fun a => Fin.ext (by
      match a with
      | ⟨0, _⟩ => show win10_4.index t (0 : Fin 2) * 2048 + 1 * (y 0).val = r.val; rw [hr, hi.1]; omega
      | ⟨1, _⟩ => show win10_4.index t (1 : Fin 2) * 16 + 1 * (y 1).val = (y 1).val; rw [hi.2]; omega)
  have hy : (cfg10.win 4).xinj (grid10.coords t) y = ix2 (⟨(y 0).val, hy0⟩ : Fin 2048) (⟨(y 1).val, hy1⟩ : Fin 16) :=
    funext fun a => by match a with | ⟨0, _⟩ => rfl | ⟨1, _⟩ => rfl
  rw [hemb, hy]
  exact out_apply10 V c t h1 ⟨(y 0).val, hy0⟩ ⟨(y 1).val, hy1⟩ r hr

/-- An index of the array is in point `t`'s block of result window 4 iff each coordinate is in the block's range. -/
theorem mem_blk10_4 (t : Fin cfg10.N) (i : S16384x16.Idx) :
    i ∈ ((cfg10.win 4).blk t).view.set ↔ ∀ a : Fin 2, win10_4.index t a * S2048x16.size a ≤ (i a).val ∧ (i a).val < win10_4.index t a * S2048x16.size a + S2048x16.size a := by
  show i ∈ ((View.whole main_v91_1).slice (win10_4.rect t)).set ↔ _
  rw [View.set_slice_whole, Rect.mem_set_unit]
  exact Iff.rfl

/-- So result array 1 ends holding the new vector: row i is covered by the storing point of its row block. -/
theorem final10_4 (c : Dev nD) : (dat10 V c).arrAt 4 cfg10.N = new10 V c :=
  (dat10 V c).arrAt_eq_of_cover 4 (new10 V c) (fun t hf => flushed10_4 V c t hf) fun i => by
    have hi0 : (i 0).val < 16384 := (i 0).isLt
    have hi1 : (i 1).val < 16 := (i 1).isLt
    have ht : 8 * ((i 0).val / 2048) + 7 < cfg10.N := by rw [show cfg10.N = 64 from N_10]; omega
    have hx := (by decide +kernel : ∀ t : Fin grid10.N, win10_4.index t (0 : Fin 2) = t.val / 8 ∧ win10_4.index t (1 : Fin 2) = 0) ⟨8 * ((i 0).val / 2048) + 7, ht⟩
    refine ⟨⟨8 * ((i 0).val / 2048) + 7, ht⟩, (flush10_4 _).mpr (by show (8 * ((i 0).val / 2048) + 7) % 8 = 7; omega), ?_⟩
    rw [mem_blk10_4]
    intro a
    match a with
    | ⟨0, _⟩ =>
      show win10_4.index _ (0 : Fin 2) * 2048 ≤ (i 0).val ∧ (i 0).val < win10_4.index _ (0 : Fin 2) * 2048 + 2048
      rw [hx.1]; show (8 * ((i 0).val / 2048) + 7) / 8 * 2048 ≤ (i 0).val ∧ (i 0).val < (8 * ((i 0).val / 2048) + 7) / 8 * 2048 + 2048; omega
    | ⟨1, _⟩ =>
      show win10_4.index _ (1 : Fin 2) * 16 ≤ (i 1).val ∧ (i 1).val < win10_4.index _ (1 : Fin 2) * 16 + 16
      rw [hx.2]; omega

end Cert.KernelIdeal.Hand

end
-- ==== Proof.RegI11Acc.lean ====
/-
  Region 11, its values for any float instance: what each case's stores read back as, in terms of the body's
  arithmetic; and the accumulator after every grid point as a recursion over the points (started afresh, from the
  zero vector, at the first column block of each row block, continued otherwise).
-/
import proofs.«108570_j29480655520371_2_alg».proof.Proof.RegI11Frame
import Idealize.ShloMosaic.Lib.Pipeline.Value
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

theorem hz2_11 : (![0, 0] : Fin 2 → Nat) = fun _ => 0 := funext fun a => by fin_cases a <;> rfl

/-- Case A leaves in the accumulator the first block product added to the zero vector. -/
theorem soutA_eq11 (c : Dev nD) (i : grid11.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond11_0 i) (hc1 : ¬cond11_1 i) (x0 : Vec F S2048x2048 .bf16) (x1 : Vec F S2048x16 .bf16) (x2 : Vec F S2048x16 .f32) :
    sout11_A_0 (F := F) c i arg2 harg2 arg3 harg3 arg4 harg4 arg5 harg5 arg6 harg6 arg7 harg7 hc0 hc1 x0 x1 x2 = k11_pay2 (k11_pay1) x0 x1 := by
  have hz2 := hz2_11
  unfold sout11_A_0
  rw [View.read_writes_eq_canon _ _ _ (scover11_A_0 c i arg2 harg2 arg3 harg3 arg4 harg4 arg5 harg5 arg6 harg6 arg7 harg7 hc0 hc1 x0 x1 x2)]
  unfold kernelRun11_A
  dsimp only
  try sl_unfold_words
  rw [View.canon_cons_unit_zero hz2, View.readCov_unit_zero (S := S2048x16) _ hz2]
  simp only [View.readAt_eq_ld, harg2.read_unread, harg3.read_unread, harg4.read_unread, harg7.read_unread, View.ld_unit_zero (S := S2048x2048) hz2, View.ld_unit_zero (S := S2048x16) hz2]

/-- Case B leaves in the accumulator what it held plus this point's block product. -/
theorem soutB_eq11 (c : Dev nD) (i : grid11.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond11_0 i) (hc1 : ¬cond11_1 i) (x0 : Vec F S2048x2048 .bf16) (x1 : Vec F S2048x16 .bf16) (x2 : Vec F S2048x16 .f32) (xs0 : Vec F S2048x16 .f32) :
    sout11_B_0 (F := F) c i arg2 harg2 arg3 harg3 arg4 harg4 arg5 harg5 arg6 harg6 arg7 harg7 hc0 hc1 x0 x1 x2 xs0 = k11_pay2 xs0 x0 x1 := by
  have hz2 := hz2_11
  unfold sout11_B_0
  rw [View.read_writes_eq_canon _ _ _ (scover11_B_0 c i arg2 harg2 arg3 harg3 arg4 harg4 arg5 harg5 arg6 harg6 arg7 harg7 hc0 hc1 x0 x1 x2 xs0)]
  unfold kernelRun11_B
  dsimp only
  try sl_unfold_words
  rw [View.canon_unit_zero hz2]
  simp only [View.readAt_eq_ld, harg2.read_unread, harg3.read_unread, harg4.read_unread, harg7.read_unread, View.ld_unit_zero (S := S2048x2048) hz2, View.ld_unit_zero (S := S2048x16) hz2]

/-- Case C leaves in the accumulator what it held plus the last block product, -/
theorem soutC_eq11 (c : Dev nD) (i : grid11.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond11_0 i) (hc1 : cond11_1 i) (x0 : Vec F S2048x2048 .bf16) (x1 : Vec F S2048x16 .bf16) (x2 : Vec F S2048x16 .f32) (xs0 : Vec F S2048x16 .f32) :
    sout11_C_0 (F := F) c i arg2 harg2 arg3 harg3 arg4 harg4 arg5 harg5 arg6 harg6 arg7 harg7 hc0 hc1 x0 x1 x2 xs0 = k11_pay2 xs0 x0 x1 := by
  have hz2 := hz2_11
  unfold sout11_C_0
  rw [View.read_writes_eq_canon _ _ _ (scover11_C_0 c i arg2 harg2 arg3 harg3 arg4 harg4 arg5 harg5 arg6 harg6 arg7 harg7 hc0 hc1 x0 x1 x2 xs0)]
  unfold kernelRun11_C
  dsimp only
  try sl_unfold_words
  rw [View.canon_unit_zero hz2]
  simp only [View.readAt_eq_ld, harg2.read_unread, harg3.read_unread, harg4.read_unread, harg7.read_unread, View.ld_unit_zero (S := S2048x2048) hz2, View.ld_unit_zero (S := S2048x16) hz2]

/-- in the f32 result block the combination of that accumulator and the block of the earlier vector, -/
theorem outC3_eq11 (c : Dev nD) (i : grid11.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond11_0 i) (hc1 : cond11_1 i) (x0 : Vec F S2048x2048 .bf16) (x1 : Vec F S2048x16 .bf16) (x2 : Vec F S2048x16 .f32) (xs0 : Vec F S2048x16 .f32) :
    out11_C_3 (F := F) c i arg2 harg2 arg3 harg3 arg4 harg4 arg5 harg5 arg6 harg6 arg7 harg7 hc0 hc1 x0 x1 x2 xs0 = k11_pay3 (k11_pay2 xs0 x0 x1) x2 := by
  have hz2 := hz2_11
  unfold out11_C_3
  rw [View.read_writes_eq_canon _ _ _ (cover11_C_3 c i arg2 harg2 arg3 harg3 arg4 harg4 arg5 harg5 arg6 harg6 arg7 harg7 hc0 hc1 x0 x1 x2 xs0)]
  unfold kernelRun11_C
  dsimp only
  try sl_unfold_words
  rw [View.canon_unit_zero hz2, View.readCov_unit_zero (S := S2048x16) _ hz2]
  simp only [View.readAt_eq_ld, harg2.read_unread, harg3.read_unread, harg4.read_unread, harg7.read_unread, View.ld_unit_zero (S := S2048x2048) hz2, View.ld_unit_zero (S := S2048x16) hz2]

/-- and in the bf16 result block the same combination in the narrower format. -/
theorem outC4_eq11 (c : Dev nD) (i : grid11.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond11_0 i) (hc1 : cond11_1 i) (x0 : Vec F S2048x2048 .bf16) (x1 : Vec F S2048x16 .bf16) (x2 : Vec F S2048x16 .f32) (xs0 : Vec F S2048x16 .f32) :
    out11_C_4 (F := F) c i arg2 harg2 arg3 harg3 arg4 harg4 arg5 harg5 arg6 harg6 arg7 harg7 hc0 hc1 x0 x1 x2 xs0 = k11_pay4 (k11_pay2 xs0 x0 x1) x2 := by
  have hz2 := hz2_11
  unfold out11_C_4
  rw [View.read_writes_eq_canon _ _ _ (cover11_C_4 c i arg2 harg2 arg3 harg3 arg4 harg4 arg5 harg5 arg6 harg6 arg7 harg7 hc0 hc1 x0 x1 x2 xs0)]
  unfold kernelRun11_C
  dsimp only
  try sl_unfold_words
  rw [View.canon_unit_zero hz2, View.readCov_unit_zero (S := S2048x16) _ hz2]
  simp only [View.readAt_eq_ld, harg2.read_unread, harg3.read_unread, harg4.read_unread, harg7.read_unread, View.ld_unit_zero (S := S2048x2048) hz2, View.ld_unit_zero (S := S2048x16) hz2]

/-- The accumulator after the body at position `n`: started from the zero vector at the first column block of a
    row block, continued from the position before otherwise. -/
def acc11 (c : Dev nD) : (n : ℕ) → n < cfg11.N → Vec F S2048x16 .f32
  | 0, hn => k11_pay2 (k11_pay1) (iblk11 V c 0 ⟨0, hn⟩) (iblk11 V c 1 ⟨0, hn⟩)
  | n + 1, hn =>
    if (n + 1) % 8 = 0 then k11_pay2 (k11_pay1) (iblk11 V c 0 ⟨n + 1, hn⟩) (iblk11 V c 1 ⟨n + 1, hn⟩)
    else k11_pay2 (acc11 c n (Nat.lt_of_succ_lt hn)) (iblk11 V c 0 ⟨n + 1, hn⟩) (iblk11 V c 1 ⟨n + 1, hn⟩)

theorem acc11_zero (c : Dev nD) (hn : 0 < cfg11.N) :
    acc11 V c 0 hn = k11_pay2 (k11_pay1) (iblk11 V c 0 ⟨0, hn⟩) (iblk11 V c 1 ⟨0, hn⟩) := rfl
theorem acc11_succ (c : Dev nD) (n : ℕ) (hn : n + 1 < cfg11.N) :
    acc11 V c (n + 1) hn = if (n + 1) % 8 = 0 then k11_pay2 (k11_pay1) (iblk11 V c 0 ⟨n + 1, hn⟩) (iblk11 V c 1 ⟨n + 1, hn⟩)
      else k11_pay2 (acc11 V c n (Nat.lt_of_succ_lt hn)) (iblk11 V c 0 ⟨n + 1, hn⟩) (iblk11 V c 1 ⟨n + 1, hn⟩) := rfl

/-- The frame's point-by-point accumulator is that recursion. -/
theorem scr_eq11 (c : Dev nD) : ∀ (n : ℕ) (hn : n < cfg11.N), (outsAt11 V c n hn).2.2 = acc11 V c n hn
  | 0, hn => by
    have e := outsAt11_A V c ⟨0, hn⟩ (Nat.zero_mod _) (fun h => absurd (show (0 : ℕ) % 8 = 7 from h) (show ¬((0 : ℕ) % 8 = 7) by decide))
    rw [show outsAt11 V c 0 hn = _ from e, acc11_zero]
    dsimp only
    exact soutA_eq11 ..
  | n + 1, hn => by
    by_cases h0 : (n + 1) % 8 = 0
    · have h1 : ¬(n + 1) % 8 = 7 := by omega
      have e := outsAt11_A V c ⟨n + 1, hn⟩ h0 h1
      rw [show outsAt11 V c (n + 1) hn = _ from e]
      rw [acc11_succ, if_pos h0]
      dsimp only
      exact soutA_eq11 ..
    · by_cases h1 : (n + 1) % 8 = 7
      · have e := outsAt11_C V c ⟨n + 1, hn⟩ h0 h1
        rw [show outsAt11 V c (n + 1) hn = _ from e]
        rw [acc11_succ, if_neg h0]
        dsimp only
        rw [soutC_eq11]
        exact congrArg (fun a => k11_pay2 a _ _) (scr_eq11 c n (Nat.lt_of_succ_lt hn))
      · have e := outsAt11_B V c ⟨n + 1, hn⟩ h0 h1
        rw [show outsAt11 V c (n + 1) hn = _ from e]
        rw [acc11_succ, if_neg h0]
        dsimp only
        rw [soutB_eq11]
        exact congrArg (fun a => k11_pay2 a _ _) (scr_eq11 c n (Nat.lt_of_succ_lt hn))

/-- At a point that stores (k = 7) the f32 result block holds the combination of the accumulator and the block of
    the earlier vector, -/
theorem out3_eq11 (c : Dev nD) (t : Fin cfg11.N) (h1 : t.val % 8 = 7) :
    (outsAt11 V c t.val t.isLt).1 = k11_pay3 (acc11 V c t.val t.isLt) (iblk11 V c 2 t) := by
  have h0 : ¬t.val % 8 = 0 := by omega
  have hz : t.val ≠ 0 := fun h => by rw [h] at h1; exact absurd h1 (by decide)
  rw [outsAt11_C V c t h0 h1]
  dsimp only
  rw [outC3_eq11]
  obtain ⟨n, hn⟩ := t
  cases n with
  | zero => exact absurd rfl hz
  | succ n =>
    rw [acc11_succ, if_neg h0]
    exact congrArg (fun a => k11_pay3 (k11_pay2 a _ _) _) (scr_eq11 V c n (Nat.lt_of_succ_lt hn))

/-- and the bf16 result block the same in the narrower format. -/
theorem out4_eq11 (c : Dev nD) (t : Fin cfg11.N) (h1 : t.val % 8 = 7) :
    (outsAt11 V c t.val t.isLt).2.1 = k11_pay4 (acc11 V c t.val t.isLt) (iblk11 V c 2 t) := by
  have h0 : ¬t.val % 8 = 0 := by omega
  have hz : t.val ≠ 0 := fun h => by rw [h] at h1; exact absurd h1 (by decide)
  rw [outsAt11_C V c t h0 h1]
  dsimp only
  rw [outC4_eq11]
  obtain ⟨n, hn⟩ := t
  cases n with
  | zero => exact absurd rfl hz
  | succ n =>
    rw [acc11_succ, if_neg h0]
    exact congrArg (fun a => k11_pay4 (k11_pay2 a _ _) _) (scr_eq11 V c n (Nat.lt_of_succ_lt hn))

end Cert.KernelIdeal.Hand

end
-- ==== Proof.RegI11Value.lean ====
/-
  Region 11 at the extended reals: its two result arrays end holding 2 · (Ls · v) − v′  of the arrays the
  region finds in its three input windows (Ls the matrix, v the vector, v′ the earlier vector).
  A point t = 8·r + k reads block (r, k) of the matrix, block k of the vector and block r of the earlier vector. After
  it the accumulator's entry (p, q) is the block products of row 2048·r + p for column blocks 0 … k added in order from
  zero; the point k = 7 stores 2 · a − 1 · b  of the accumulator a and the earlier vector's block b into both result
  blocks, which are then written back; the eight block products are the whole product's entry (`psum_blocks`), and the
  storing points' blocks cover the array.
-/
import proofs.«108570_j29480655520371_2_alg».proof.Proof.RegI11Acc
import proofs.«108570_j29480655520371_2_alg».proof.Proof.ChebBlock

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)

variable (V : (c : Dev nD) → (b : Ref sig .tc) → Buf (Elt Ideal) ((c : Thread nD τ).loc b))

/-- The matrix, the vector and the earlier vector as the region finds them in its input windows' arrays. -/
abbrev L11 (c : Dev nD) : S16384x16384.Idx → EReal := V c (Pipeline.arrRef spec11 0)
abbrev v11 (c : Dev nD) : S16384x16.Idx → EReal := V c (Pipeline.arrRef spec11 1)
abbrev p11 (c : Dev nD) : S16384x16.Idx → EReal := V c (Pipeline.arrRef spec11 2)

/-- The matrix block at point t = 8·r + k is rows 2048·r …, columns 2048·k … of the matrix. -/
theorem blk0_apply11 (c : Dev nD) (t : Fin cfg11.N) (p j : Fin 2048) :
    (iblk11 V c 0 t : Vec Ideal S2048x2048 .bf16) (ix2 p j) = at2 (L11 V c) (2048 * (t.val / 8) + p.val) (2048 * (t.val % 8) + j.val) := by
  have hi := (by decide +kernel : ∀ t : Fin grid11.N, win11_0.index t (0 : Fin 2) = t.val / 8 ∧ win11_0.index t (1 : Fin 2) = t.val % 8) t
  have hN : t.val < 64 := lt_of_lt_of_eq t.isLt N_11
  have hb : 2048 * (t.val / 8) + p.val < 16384 ∧ 2048 * (t.val % 8) + j.val < 16384 := ⟨by omega, by omega⟩
  unfold at2; rw [dif_pos hb]
  unfold iblk11
  rw [View.read_apply]
  show V c (Pipeline.arrRef spec11 0) _ = V c (Pipeline.arrRef spec11 0) _
  refine congrArg _ (funext fun a => Fin.ext ?_)
  match a with
  | ⟨0, _⟩ => show win11_0.index t (0 : Fin 2) * 2048 + 1 * p.val = 2048 * (t.val / 8) + p.val; rw [hi.1]; omega
  | ⟨1, _⟩ => show win11_0.index t (1 : Fin 2) * 2048 + 1 * j.val = 2048 * (t.val % 8) + j.val; rw [hi.2]; omega

/-- The vector block at point t = 8·r + k is rows 2048·k … of the vector. -/
theorem blk1_apply11 (c : Dev nD) (t : Fin cfg11.N) (j : Fin 2048) (q : Fin 16) :
    (iblk11 V c 1 t : Vec Ideal S2048x16 .bf16) (ix2 j q) = at2 (v11 V c) (2048 * (t.val % 8) + j.val) q.val := by
  have hi := (by decide +kernel : ∀ t : Fin grid11.N, win11_1.index t (0 : Fin 2) = t.val % 8 ∧ win11_1.index t (1 : Fin 2) = 0) t
  have hN : t.val < 64 := lt_of_lt_of_eq t.isLt N_11
  have hb : 2048 * (t.val % 8) + j.val < 16384 ∧ q.val < 16 := ⟨by omega, q.isLt⟩
  unfold at2; rw [dif_pos hb]
  unfold iblk11
  rw [View.read_apply]
  show V c (Pipeline.arrRef spec11 1) _ = V c (Pipeline.arrRef spec11 1) _
  refine congrArg _ (funext fun a => Fin.ext ?_)
  match a with
  | ⟨0, _⟩ => show win11_1.index t (0 : Fin 2) * 2048 + 1 * j.val = 2048 * (t.val % 8) + j.val; rw [hi.1]; omega
  | ⟨1, _⟩ => show win11_1.index t (1 : Fin 2) * 16 + 1 * q.val = q.val; rw [hi.2]; omega

/-- The earlier vector's block at point t = 8·r + k is its rows 2048·r …. -/
theorem blk2_apply11 (c : Dev nD) (t : Fin cfg11.N) (p : Fin 2048) (q : Fin 16) :
    (iblk11 V c 2 t : Vec Ideal S2048x16 .f32) (ix2 p q) = at2 (p11 V c) (2048 * (t.val / 8) + p.val) q.val := by
  have hi := (by decide +kernel : ∀ t : Fin grid11.N, win11_2.index t (0 : Fin 2) = t.val / 8 ∧ win11_2.index t (1 : Fin 2) = 0) t
  have hN : t.val < 64 := lt_of_lt_of_eq t.isLt N_11
  have hb : 2048 * (t.val / 8) + p.val < 16384 ∧ q.val < 16 := ⟨by omega, q.isLt⟩
  unfold at2; rw [dif_pos hb]
  unfold iblk11
  rw [View.read_apply]
  show V c (Pipeline.arrRef spec11 2) _ = V c (Pipeline.arrRef spec11 2) _
  refine congrArg _ (funext fun a => Fin.ext ?_)
  match a with
  | ⟨0, _⟩ => show win11_2.index t (0 : Fin 2) * 2048 + 1 * p.val = 2048 * (t.val / 8) + p.val; rw [hi.1]; omega
  | ⟨1, _⟩ => show win11_2.index t (1 : Fin 2) * 16 + 1 * q.val = q.val; rw [hi.2]; omega

/-- The block product of row `a` and column `q` over column block `k`. -/
abbrev g11 (c : Dev nD) (a q : ℕ) : ℕ → EReal :=
  fun k => ∑ j : Fin 2048, at2 (L11 V c) a (2048 * k + j.val) * at2 (v11 V c) (2048 * k + j.val) q

/-- One point's accumulation, at an entry. -/
theorem step_apply11 (c : Dev nD) (xs : Vec Ideal S2048x16 .f32) (t : Fin cfg11.N) (p : Fin 2048) (q : Fin 16) :
    k11_pay2 xs (iblk11 V c 0 t) (iblk11 V c 1 t) (ix2 p q)
      = xs (ix2 p q) + g11 V c (2048 * (t.val / 8) + p.val) q.val (t.val % 8) := by
  refine (pay2_apply xs (iblk11 V c 0 t) (iblk11 V c 1 t) p q).trans ?_
  refine congrArg (xs (ix2 p q) + ·) (Finset.sum_congr rfl fun j _ => ?_)
  rw [blk0_apply11 V c t p j, blk1_apply11 V c t j q]

/-- The accumulator after position `n` = 8·r + k, at an entry: the block products of its row for column blocks
    0 … k, added in order from zero. -/
theorem acc_apply11 (c : Dev nD) : ∀ (n : ℕ) (hn : n < cfg11.N) (p : Fin 2048) (q : Fin 16),
    acc11 V c n hn (ix2 p q) = psum (g11 V c (2048 * (n / 8) + p.val) q.val) (n % 8)
  | 0, hn, p, q => by
    rw [acc11_zero]
    refine (step_apply11 V c _ ⟨0, hn⟩ p q).trans ?_
    rw [show (k11_pay1 (F := Ideal)) (ix2 p q) = 0 from pay1_apply _]
    rfl
  | n + 1, hn, p, q => by
    rw [acc11_succ]
    by_cases h0 : (n + 1) % 8 = 0
    · rw [if_pos h0]
      refine (step_apply11 V c _ ⟨n + 1, hn⟩ p q).trans ?_
      rw [show (k11_pay1 (F := Ideal)) (ix2 p q) = 0 from pay1_apply _]
      show 0 + g11 V c (2048 * ((n + 1) / 8) + p.val) q.val ((n + 1) % 8) = psum _ ((n + 1) % 8)
      rw [h0]; rfl
    · rw [if_neg h0]
      refine (step_apply11 V c _ ⟨n + 1, hn⟩ p q).trans ?_
      rw [acc_apply11 c n (Nat.lt_of_succ_lt hn) p q]
      have e1 : (n + 1) % 8 = n % 8 + 1 := by omega
      have e2 : (n + 1) / 8 = n / 8 := by omega
      show psum _ (n % 8) + g11 V c (2048 * ((n + 1) / 8) + p.val) q.val ((n + 1) % 8) = psum _ ((n + 1) % 8)
      rw [e1, e2]; rfl

/-- The new vector: twice the product of the matrix and the vector, less the earlier vector. -/
def new11 (c : Dev nD) : S16384x16.Idx → EReal := fun i => Ideal.ofBits .f32 0x40000000#32 * prodAt (L11 V c) (v11 V c) (i 0).val (i 1).val - p11 V c i

/-- What a storing point (k = 7) puts at entry (p, q) of the result blocks is the new vector at row 2048·r + p. -/
theorem out_apply11 (c : Dev nD) (t : Fin cfg11.N) (h1 : t.val % 8 = 7) (p : Fin 2048) (q : Fin 16) (a : Fin 16384)
    (ha : a.val = 2048 * (t.val / 8) + p.val) :
    k11_pay3 (acc11 V c t.val t.isLt) (iblk11 V c 2 t) (ix2 p q) = new11 V c (ix2 a q) := by
  have hp3 : k11_pay3 (acc11 V c t.val t.isLt) (iblk11 V c 2 t) (ix2 p q)
      = Ideal.ofBits .f32 0x40000000#32 * acc11 V c t.val t.isLt (ix2 p q) - (iblk11 V c 2 t : Vec Ideal S2048x16 .f32) (ix2 p q) := by
    unfold k11_pay3
    try simp only [shapeCast_self]
    show Ideal.ofBits .f32 0x40000000#32 * _ - Ideal.ofBits .f32 0x3F800000#32 * _ = _
    rw [ofBits_one, one_mul]
  refine hp3.trans ?_
  rw [acc_apply11 V c t.val t.isLt p q, h1, psum_blocks, blk2_apply11 V c t p q]
  show _ = Ideal.ofBits .f32 0x40000000#32 * prodAt _ _ a.val q.val - p11 V c (ix2 a q)
  rw [ha, ← at2_ix2 (p11 V c) a q, ha]

/-- What a storing point (k = 7) writes back through result window 3 is its block of the new vector. -/
theorem flushed11_3 (c : Dev nD) (t : Fin cfg11.N) (hf : (cfg11.win 3).flush t = true) :
    (dat11 V c).flushed 3 t = ((cfg11.win 3).blk t).view.read (Elt Ideal) (new11 V c) := by
  have h1 : t.val % 8 = 7 := (flush11_3 t).mp hf
  have hN : t.val < 64 := lt_of_lt_of_eq t.isLt N_11
  have hi := (by decide +kernel : ∀ t : Fin grid11.N, win11_3.index t (0 : Fin 2) = t.val / 8 ∧ win11_3.index t (1 : Fin 2) = 0) t
  show (cfg11.win 3).cut (grid11.coords t) ((dat11 V c).after 3 t) = _
  rw [after11_3, out3_eq11 V c t h1]
  funext y
  have hy0 : (y 0).val < 2048 := (y 0).isLt
  have hy1 : (y 1).val < 16 := (y 1).isLt
  show k11_pay3 (acc11 V c t.val t.isLt) (iblk11 V c 2 t) ((cfg11.win 3).xinj (grid11.coords t) y) = ((cfg11.win 3).blk t).view.read (Elt Ideal) (new11 V c) y
  rw [View.read_apply, cast_eq]
  obtain ⟨r, hr⟩ : ∃ r : Fin 16384, r.val = 2048 * (t.val / 8) + (y 0).val := ⟨⟨2048 * (t.val / 8) + (y 0).val, by omega⟩, rfl⟩
  have hemb : ((cfg11.win 3).blk t).view.emb y = ix2 r (⟨(y 1).val, hy1⟩ : Fin 16) :=
    funext fun a => Fin.ext (by
      match a with
      | ⟨0, _⟩ => show win11_3.index t (0 : Fin 2) * 2048 + 1 * (y 0).val = r.val; rw [hr, hi.1]; omega
      | ⟨1, _⟩ => show win11_3.index t (1 : Fin 2) * 16 + 1 * (y 1).val = (y 1).val; rw [hi.2]; omega)
  have hy : (cfg11.win 3).xinj (grid11.coords t) y = ix2 (⟨(y 0).val, hy0⟩ : Fin 2048) (⟨(y 1).val, hy1⟩ : Fin 16) :=
    funext fun a => by match a with | ⟨0, _⟩ => rfl | ⟨1, _⟩ => rfl
  rw [hemb, hy]
  exact out_apply11 V c t h1 ⟨(y 0).val, hy0⟩ ⟨(y 1).val, hy1⟩ r hr

/-- An index of the array is in point `t`'s block of result window 3 iff each coordinate is in the block's range. -/
theorem mem_blk11_3 (t : Fin cfg11.N) (i : S16384x16.Idx) :
    i ∈ ((cfg11.win 3).blk t).view.set ↔ ∀ a : Fin 2, win11_3.index t a * S2048x16.size a ≤ (i a).val ∧ (i a).val < win11_3.index t a * S2048x16.size a + S2048x16.size a := by
  show i ∈ ((View.whole main_v99_0).slice (win11_3.rect t)).set ↔ _
  rw [View.set_slice_whole, Rect.mem_set_unit]
  exact Iff.rfl

/-- So result array 0 ends holding the new vector: row i is covered by the storing point of its row block. -/
theorem final11_3 (c : Dev nD) : (dat11 V c).arrAt 3 cfg11.N = new11 V c :=
  (dat11 V c).arrAt_eq_of_cover 3 (new11 V c) (fun t hf => flushed11_3 V c t hf) fun i => by
    have hi0 : (i 0).val < 16384 := (i 0).isLt
    have hi1 : (i 1).val < 16 := (i 1).isLt
    have ht : 8 * ((i 0).val / 2048) + 7 < cfg11.N := by rw [show cfg11.N = 64 from N_11]; omega
    have hx := (by decide +kernel : ∀ t : Fin grid11.N, win11_3.index t (0 : Fin 2) = t.val / 8 ∧ win11_3.index t (1 : Fin 2) = 0) ⟨8 * ((i 0).val / 2048) + 7, ht⟩
    refine ⟨⟨8 * ((i 0).val / 2048) + 7, ht⟩, (flush11_3 _).mpr (by show (8 * ((i 0).val / 2048) + 7) % 8 = 7; omega), ?_⟩
    rw [mem_blk11_3]
    intro a
    match a with
    | ⟨0, _⟩ =>
      show win11_3.index _ (0 : Fin 2) * 2048 ≤ (i 0).val ∧ (i 0).val < win11_3.index _ (0 : Fin 2) * 2048 + 2048
      rw [hx.1]; show (8 * ((i 0).val / 2048) + 7) / 8 * 2048 ≤ (i 0).val ∧ (i 0).val < (8 * ((i 0).val / 2048) + 7) / 8 * 2048 + 2048; omega
    | ⟨1, _⟩ =>
      show win11_3.index _ (1 : Fin 2) * 16 ≤ (i 1).val ∧ (i 1).val < win11_3.index _ (1 : Fin 2) * 16 + 16
      rw [hx.2]; omega

/-- What a storing point (k = 7) writes back through result window 4 is its block of the new vector. -/
theorem flushed11_4 (c : Dev nD) (t : Fin cfg11.N) (hf : (cfg11.win 4).flush t = true) :
    (dat11 V c).flushed 4 t = ((cfg11.win 4).blk t).view.read (Elt Ideal) (new11 V c) := by
  have h1 : t.val % 8 = 7 := (flush11_4 t).mp hf
  have hN : t.val < 64 := lt_of_lt_of_eq t.isLt N_11
  have hi := (by decide +kernel : ∀ t : Fin grid11.N, win11_4.index t (0 : Fin 2) = t.val / 8 ∧ win11_4.index t (1 : Fin 2) = 0) t
  show (cfg11.win 4).cut (grid11.coords t) ((dat11 V c).after 4 t) = _
  rw [after11_4, out4_eq11 V c t h1]
  funext y
  have hy0 : (y 0).val < 2048 := (y 0).isLt
  have hy1 : (y 1).val < 16 := (y 1).isLt
  show k11_pay3 (acc11 V c t.val t.isLt) (iblk11 V c 2 t) ((cfg11.win 4).xinj (grid11.coords t) y) = ((cfg11.win 4).blk t).view.read (Elt Ideal) (new11 V c) y
  rw [View.read_apply, cast_eq]
  obtain ⟨r, hr⟩ : ∃ r : Fin 16384, r.val = 2048 * (t.val / 8) + (y 0).val := ⟨⟨2048 * (t.val / 8) + (y 0).val, by omega⟩, rfl⟩
  have hemb : ((cfg11.win 4).blk t).view.emb y = ix2 r (⟨(y 1).val, hy1⟩ : Fin 16) :=
    funext fun a => Fin.ext (by
      match a with
      | ⟨0, _⟩ => show win11_4.index t (0 : Fin 2) * 2048 + 1 * (y 0).val = r.val; rw [hr, hi.1]; omega
      | ⟨1, _⟩ => show win11_4.index t (1 : Fin 2) * 16 + 1 * (y 1).val = (y 1).val; rw [hi.2]; omega)
  have hy : (cfg11.win 4).xinj (grid11.coords t) y = ix2 (⟨(y 0).val, hy0⟩ : Fin 2048) (⟨(y 1).val, hy1⟩ : Fin 16) :=
    funext fun a => by match a with | ⟨0, _⟩ => rfl | ⟨1, _⟩ => rfl
  rw [hemb, hy]
  exact out_apply11 V c t h1 ⟨(y 0).val, hy0⟩ ⟨(y 1).val, hy1⟩ r hr

/-- An index of the array is in point `t`'s block of result window 4 iff each coordinate is in the block's range. -/
theorem mem_blk11_4 (t : Fin cfg11.N) (i : S16384x16.Idx) :
    i ∈ ((cfg11.win 4).blk t).view.set ↔ ∀ a : Fin 2, win11_4.index t a * S2048x16.size a ≤ (i a).val ∧ (i a).val < win11_4.index t a * S2048x16.size a + S2048x16.size a := by
  show i ∈ ((View.whole main_v99_1).slice (win11_4.rect t)).set ↔ _
  rw [View.set_slice_whole, Rect.mem_set_unit]
  exact Iff.rfl

/-- So result array 1 ends holding the new vector: row i is covered by the storing point of its row block. -/
theorem final11_4 (c : Dev nD) : (dat11 V c).arrAt 4 cfg11.N = new11 V c :=
  (dat11 V c).arrAt_eq_of_cover 4 (new11 V c) (fun t hf => flushed11_4 V c t hf) fun i => by
    have hi0 : (i 0).val < 16384 := (i 0).isLt
    have hi1 : (i 1).val < 16 := (i 1).isLt
    have ht : 8 * ((i 0).val / 2048) + 7 < cfg11.N := by rw [show cfg11.N = 64 from N_11]; omega
    have hx := (by decide +kernel : ∀ t : Fin grid11.N, win11_4.index t (0 : Fin 2) = t.val / 8 ∧ win11_4.index t (1 : Fin 2) = 0) ⟨8 * ((i 0).val / 2048) + 7, ht⟩
    refine ⟨⟨8 * ((i 0).val / 2048) + 7, ht⟩, (flush11_4 _).mpr (by show (8 * ((i 0).val / 2048) + 7) % 8 = 7; omega), ?_⟩
    rw [mem_blk11_4]
    intro a
    match a with
    | ⟨0, _⟩ =>
      show win11_4.index _ (0 : Fin 2) * 2048 ≤ (i 0).val ∧ (i 0).val < win11_4.index _ (0 : Fin 2) * 2048 + 2048
      rw [hx.1]; show (8 * ((i 0).val / 2048) + 7) / 8 * 2048 ≤ (i 0).val ∧ (i 0).val < (8 * ((i 0).val / 2048) + 7) / 8 * 2048 + 2048; omega
    | ⟨1, _⟩ =>
      show win11_4.index _ (1 : Fin 2) * 16 ≤ (i 1).val ∧ (i 1).val < win11_4.index _ (1 : Fin 2) * 16 + 16
      rw [hx.2]; omega

end Cert.KernelIdeal.Hand

end
-- ==== Proof.RegI12Acc.lean ====
/-
  Region 12, its values for any float instance: what each case's stores read back as, in terms of the body's
  arithmetic; and the accumulator after every grid point as a recursion over the points (started afresh, from the
  zero vector, at the first column block of each row block, continued otherwise).
-/
import proofs.«108570_j29480655520371_2_alg».proof.Proof.RegI12Frame
import Idealize.ShloMosaic.Lib.Pipeline.Value
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

theorem hz2_12 : (![0, 0] : Fin 2 → Nat) = fun _ => 0 := funext fun a => by fin_cases a <;> rfl

/-- Case A leaves in the accumulator the first block product added to the zero vector. -/
theorem soutA_eq12 (c : Dev nD) (i : grid12.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond12_0 i) (hc1 : ¬cond12_1 i) (x0 : Vec F S2048x2048 .bf16) (x1 : Vec F S2048x16 .bf16) (x2 : Vec F S2048x16 .f32) :
    sout12_A_0 (F := F) c i arg2 harg2 arg3 harg3 arg4 harg4 arg5 harg5 arg6 harg6 arg7 harg7 hc0 hc1 x0 x1 x2 = k12_pay2 (k12_pay1) x0 x1 := by
  have hz2 := hz2_12
  unfold sout12_A_0
  rw [View.read_writes_eq_canon _ _ _ (scover12_A_0 c i arg2 harg2 arg3 harg3 arg4 harg4 arg5 harg5 arg6 harg6 arg7 harg7 hc0 hc1 x0 x1 x2)]
  unfold kernelRun12_A
  dsimp only
  try sl_unfold_words
  rw [View.canon_cons_unit_zero hz2, View.readCov_unit_zero (S := S2048x16) _ hz2]
  simp only [View.readAt_eq_ld, harg2.read_unread, harg3.read_unread, harg4.read_unread, harg7.read_unread, View.ld_unit_zero (S := S2048x2048) hz2, View.ld_unit_zero (S := S2048x16) hz2]

/-- Case B leaves in the accumulator what it held plus this point's block product. -/
theorem soutB_eq12 (c : Dev nD) (i : grid12.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond12_0 i) (hc1 : ¬cond12_1 i) (x0 : Vec F S2048x2048 .bf16) (x1 : Vec F S2048x16 .bf16) (x2 : Vec F S2048x16 .f32) (xs0 : Vec F S2048x16 .f32) :
    sout12_B_0 (F := F) c i arg2 harg2 arg3 harg3 arg4 harg4 arg5 harg5 arg6 harg6 arg7 harg7 hc0 hc1 x0 x1 x2 xs0 = k12_pay2 xs0 x0 x1 := by
  have hz2 := hz2_12
  unfold sout12_B_0
  rw [View.read_writes_eq_canon _ _ _ (scover12_B_0 c i arg2 harg2 arg3 harg3 arg4 harg4 arg5 harg5 arg6 harg6 arg7 harg7 hc0 hc1 x0 x1 x2 xs0)]
  unfold kernelRun12_B
  dsimp only
  try sl_unfold_words
  rw [View.canon_unit_zero hz2]
  simp only [View.readAt_eq_ld, harg2.read_unread, harg3.read_unread, harg4.read_unread, harg7.read_unread, View.ld_unit_zero (S := S2048x2048) hz2, View.ld_unit_zero (S := S2048x16) hz2]

/-- Case C leaves in the accumulator what it held plus the last block product, -/
theorem soutC_eq12 (c : Dev nD) (i : grid12.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond12_0 i) (hc1 : cond12_1 i) (x0 : Vec F S2048x2048 .bf16) (x1 : Vec F S2048x16 .bf16) (x2 : Vec F S2048x16 .f32) (xs0 : Vec F S2048x16 .f32) :
    sout12_C_0 (F := F) c i arg2 harg2 arg3 harg3 arg4 harg4 arg5 harg5 arg6 harg6 arg7 harg7 hc0 hc1 x0 x1 x2 xs0 = k12_pay2 xs0 x0 x1 := by
  have hz2 := hz2_12
  unfold sout12_C_0
  rw [View.read_writes_eq_canon _ _ _ (scover12_C_0 c i arg2 harg2 arg3 harg3 arg4 harg4 arg5 harg5 arg6 harg6 arg7 harg7 hc0 hc1 x0 x1 x2 xs0)]
  unfold kernelRun12_C
  dsimp only
  try sl_unfold_words
  rw [View.canon_unit_zero hz2]
  simp only [View.readAt_eq_ld, harg2.read_unread, harg3.read_unread, harg4.read_unread, harg7.read_unread, View.ld_unit_zero (S := S2048x2048) hz2, View.ld_unit_zero (S := S2048x16) hz2]

/-- in the f32 result block the combination of that accumulator and the block of the earlier vector, -/
theorem outC3_eq12 (c : Dev nD) (i : grid12.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond12_0 i) (hc1 : cond12_1 i) (x0 : Vec F S2048x2048 .bf16) (x1 : Vec F S2048x16 .bf16) (x2 : Vec F S2048x16 .f32) (xs0 : Vec F S2048x16 .f32) :
    out12_C_3 (F := F) c i arg2 harg2 arg3 harg3 arg4 harg4 arg5 harg5 arg6 harg6 arg7 harg7 hc0 hc1 x0 x1 x2 xs0 = k12_pay3 (k12_pay2 xs0 x0 x1) x2 := by
  have hz2 := hz2_12
  unfold out12_C_3
  rw [View.read_writes_eq_canon _ _ _ (cover12_C_3 c i arg2 harg2 arg3 harg3 arg4 harg4 arg5 harg5 arg6 harg6 arg7 harg7 hc0 hc1 x0 x1 x2 xs0)]
  unfold kernelRun12_C
  dsimp only
  try sl_unfold_words
  rw [View.canon_unit_zero hz2, View.readCov_unit_zero (S := S2048x16) _ hz2]
  simp only [View.readAt_eq_ld, harg2.read_unread, harg3.read_unread, harg4.read_unread, harg7.read_unread, View.ld_unit_zero (S := S2048x2048) hz2, View.ld_unit_zero (S := S2048x16) hz2]

/-- and in the bf16 result block the same combination in the narrower format. -/
theorem outC4_eq12 (c : Dev nD) (i : grid12.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond12_0 i) (hc1 : cond12_1 i) (x0 : Vec F S2048x2048 .bf16) (x1 : Vec F S2048x16 .bf16) (x2 : Vec F S2048x16 .f32) (xs0 : Vec F S2048x16 .f32) :
    out12_C_4 (F := F) c i arg2 harg2 arg3 harg3 arg4 harg4 arg5 harg5 arg6 harg6 arg7 harg7 hc0 hc1 x0 x1 x2 xs0 = k12_pay4 (k12_pay2 xs0 x0 x1) x2 := by
  have hz2 := hz2_12
  unfold out12_C_4
  rw [View.read_writes_eq_canon _ _ _ (cover12_C_4 c i arg2 harg2 arg3 harg3 arg4 harg4 arg5 harg5 arg6 harg6 arg7 harg7 hc0 hc1 x0 x1 x2 xs0)]
  unfold kernelRun12_C
  dsimp only
  try sl_unfold_words
  rw [View.canon_unit_zero hz2, View.readCov_unit_zero (S := S2048x16) _ hz2]
  simp only [View.readAt_eq_ld, harg2.read_unread, harg3.read_unread, harg4.read_unread, harg7.read_unread, View.ld_unit_zero (S := S2048x2048) hz2, View.ld_unit_zero (S := S2048x16) hz2]

/-- The accumulator after the body at position `n`: started from the zero vector at the first column block of a
    row block, continued from the position before otherwise. -/
def acc12 (c : Dev nD) : (n : ℕ) → n < cfg12.N → Vec F S2048x16 .f32
  | 0, hn => k12_pay2 (k12_pay1) (iblk12 V c 0 ⟨0, hn⟩) (iblk12 V c 1 ⟨0, hn⟩)
  | n + 1, hn =>
    if (n + 1) % 8 = 0 then k12_pay2 (k12_pay1) (iblk12 V c 0 ⟨n + 1, hn⟩) (iblk12 V c 1 ⟨n + 1, hn⟩)
    else k12_pay2 (acc12 c n (Nat.lt_of_succ_lt hn)) (iblk12 V c 0 ⟨n + 1, hn⟩) (iblk12 V c 1 ⟨n + 1, hn⟩)

theorem acc12_zero (c : Dev nD) (hn : 0 < cfg12.N) :
    acc12 V c 0 hn = k12_pay2 (k12_pay1) (iblk12 V c 0 ⟨0, hn⟩) (iblk12 V c 1 ⟨0, hn⟩) := rfl
theorem acc12_succ (c : Dev nD) (n : ℕ) (hn : n + 1 < cfg12.N) :
    acc12 V c (n + 1) hn = if (n + 1) % 8 = 0 then k12_pay2 (k12_pay1) (iblk12 V c 0 ⟨n + 1, hn⟩) (iblk12 V c 1 ⟨n + 1, hn⟩)
      else k12_pay2 (acc12 V c n (Nat.lt_of_succ_lt hn)) (iblk12 V c 0 ⟨n + 1, hn⟩) (iblk12 V c 1 ⟨n + 1, hn⟩) := rfl

/-- The frame's point-by-point accumulator is that recursion. -/
theorem scr_eq12 (c : Dev nD) : ∀ (n : ℕ) (hn : n < cfg12.N), (outsAt12 V c n hn).2.2 = acc12 V c n hn
  | 0, hn => by
    have e := outsAt12_A V c ⟨0, hn⟩ (Nat.zero_mod _) (fun h => absurd (show (0 : ℕ) % 8 = 7 from h) (show ¬((0 : ℕ) % 8 = 7) by decide))
    rw [show outsAt12 V c 0 hn = _ from e, acc12_zero]
    dsimp only
    exact soutA_eq12 ..
  | n + 1, hn => by
    by_cases h0 : (n + 1) % 8 = 0
    · have h1 : ¬(n + 1) % 8 = 7 := by omega
      have e := outsAt12_A V c ⟨n + 1, hn⟩ h0 h1
      rw [show outsAt12 V c (n + 1) hn = _ from e]
      rw [acc12_succ, if_pos h0]
      dsimp only
      exact soutA_eq12 ..
    · by_cases h1 : (n + 1) % 8 = 7
      · have e := outsAt12_C V c ⟨n + 1, hn⟩ h0 h1
        rw [show outsAt12 V c (n + 1) hn = _ from e]
        rw [acc12_succ, if_neg h0]
        dsimp only
        rw [soutC_eq12]
        exact congrArg (fun a => k12_pay2 a _ _) (scr_eq12 c n (Nat.lt_of_succ_lt hn))
      · have e := outsAt12_B V c ⟨n + 1, hn⟩ h0 h1
        rw [show outsAt12 V c (n + 1) hn = _ from e]
        rw [acc12_succ, if_neg h0]
        dsimp only
        rw [soutB_eq12]
        exact congrArg (fun a => k12_pay2 a _ _) (scr_eq12 c n (Nat.lt_of_succ_lt hn))

/-- At a point that stores (k = 7) the f32 result block holds the combination of the accumulator and the block of
    the earlier vector, -/
theorem out3_eq12 (c : Dev nD) (t : Fin cfg12.N) (h1 : t.val % 8 = 7) :
    (outsAt12 V c t.val t.isLt).1 = k12_pay3 (acc12 V c t.val t.isLt) (iblk12 V c 2 t) := by
  have h0 : ¬t.val % 8 = 0 := by omega
  have hz : t.val ≠ 0 := fun h => by rw [h] at h1; exact absurd h1 (by decide)
  rw [outsAt12_C V c t h0 h1]
  dsimp only
  rw [outC3_eq12]
  obtain ⟨n, hn⟩ := t
  cases n with
  | zero => exact absurd rfl hz
  | succ n =>
    rw [acc12_succ, if_neg h0]
    exact congrArg (fun a => k12_pay3 (k12_pay2 a _ _) _) (scr_eq12 V c n (Nat.lt_of_succ_lt hn))

/-- and the bf16 result block the same in the narrower format. -/
theorem out4_eq12 (c : Dev nD) (t : Fin cfg12.N) (h1 : t.val % 8 = 7) :
    (outsAt12 V c t.val t.isLt).2.1 = k12_pay4 (acc12 V c t.val t.isLt) (iblk12 V c 2 t) := by
  have h0 : ¬t.val % 8 = 0 := by omega
  have hz : t.val ≠ 0 := fun h => by rw [h] at h1; exact absurd h1 (by decide)
  rw [outsAt12_C V c t h0 h1]
  dsimp only
  rw [outC4_eq12]
  obtain ⟨n, hn⟩ := t
  cases n with
  | zero => exact absurd rfl hz
  | succ n =>
    rw [acc12_succ, if_neg h0]
    exact congrArg (fun a => k12_pay4 (k12_pay2 a _ _) _) (scr_eq12 V c n (Nat.lt_of_succ_lt hn))

end Cert.KernelIdeal.Hand

end
-- ==== Proof.RegI12Value.lean ====
/-
  Region 12 at the extended reals: its two result arrays end holding 2 · (Ls · v) − v′  of the arrays the
  region finds in its three input windows (Ls the matrix, v the vector, v′ the earlier vector).
  A point t = 8·r + k reads block (r, k) of the matrix, block k of the vector and block r of the earlier vector. After
  it the accumulator's entry (p, q) is the block products of row 2048·r + p for column blocks 0 … k added in order from
  zero; the point k = 7 stores 2 · a − 1 · b  of the accumulator a and the earlier vector's block b into both result
  blocks, which are then written back; the eight block products are the whole product's entry (`psum_blocks`), and the
  storing points' blocks cover the array.
-/
import proofs.«108570_j29480655520371_2_alg».proof.Proof.RegI12Acc
import proofs.«108570_j29480655520371_2_alg».proof.Proof.ChebBlock

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)

variable (V : (c : Dev nD) → (b : Ref sig .tc) → Buf (Elt Ideal) ((c : Thread nD τ).loc b))

/-- The matrix, the vector and the earlier vector as the region finds them in its input windows' arrays. -/
abbrev L12 (c : Dev nD) : S16384x16384.Idx → EReal := V c (Pipeline.arrRef spec12 0)
abbrev v12 (c : Dev nD) : S16384x16.Idx → EReal := V c (Pipeline.arrRef spec12 1)
abbrev p12 (c : Dev nD) : S16384x16.Idx → EReal := V c (Pipeline.arrRef spec12 2)

/-- The matrix block at point t = 8·r + k is rows 2048·r …, columns 2048·k … of the matrix. -/
theorem blk0_apply12 (c : Dev nD) (t : Fin cfg12.N) (p j : Fin 2048) :
    (iblk12 V c 0 t : Vec Ideal S2048x2048 .bf16) (ix2 p j) = at2 (L12 V c) (2048 * (t.val / 8) + p.val) (2048 * (t.val % 8) + j.val) := by
  have hi := (by decide +kernel : ∀ t : Fin grid12.N, win12_0.index t (0 : Fin 2) = t.val / 8 ∧ win12_0.index t (1 : Fin 2) = t.val % 8) t
  have hN : t.val < 64 := lt_of_lt_of_eq t.isLt N_12
  have hb : 2048 * (t.val / 8) + p.val < 16384 ∧ 2048 * (t.val % 8) + j.val < 16384 := ⟨by omega, by omega⟩
  unfold at2; rw [dif_pos hb]
  unfold iblk12
  rw [View.read_apply]
  show V c (Pipeline.arrRef spec12 0) _ = V c (Pipeline.arrRef spec12 0) _
  refine congrArg _ (funext fun a => Fin.ext ?_)
  match a with
  | ⟨0, _⟩ => show win12_0.index t (0 : Fin 2) * 2048 + 1 * p.val = 2048 * (t.val / 8) + p.val; rw [hi.1]; omega
  | ⟨1, _⟩ => show win12_0.index t (1 : Fin 2) * 2048 + 1 * j.val = 2048 * (t.val % 8) + j.val; rw [hi.2]; omega

/-- The vector block at point t = 8·r + k is rows 2048·k … of the vector. -/
theorem blk1_apply12 (c : Dev nD) (t : Fin cfg12.N) (j : Fin 2048) (q : Fin 16) :
    (iblk12 V c 1 t : Vec Ideal S2048x16 .bf16) (ix2 j q) = at2 (v12 V c) (2048 * (t.val % 8) + j.val) q.val := by
  have hi := (by decide +kernel : ∀ t : Fin grid12.N, win12_1.index t (0 : Fin 2) = t.val % 8 ∧ win12_1.index t (1 : Fin 2) = 0) t
  have hN : t.val < 64 := lt_of_lt_of_eq t.isLt N_12
  have hb : 2048 * (t.val % 8) + j.val < 16384 ∧ q.val < 16 := ⟨by omega, q.isLt⟩
  unfold at2; rw [dif_pos hb]
  unfold iblk12
  rw [View.read_apply]
  show V c (Pipeline.arrRef spec12 1) _ = V c (Pipeline.arrRef spec12 1) _
  refine congrArg _ (funext fun a => Fin.ext ?_)
  match a with
  | ⟨0, _⟩ => show win12_1.index t (0 : Fin 2) * 2048 + 1 * j.val = 2048 * (t.val % 8) + j.val; rw [hi.1]; omega
  | ⟨1, _⟩ => show win12_1.index t (1 : Fin 2) * 16 + 1 * q.val = q.val; rw [hi.2]; omega

/-- The earlier vector's block at point t = 8·r + k is its rows 2048·r …. -/
theorem blk2_apply12 (c : Dev nD) (t : Fin cfg12.N) (p : Fin 2048) (q : Fin 16) :
    (iblk12 V c 2 t : Vec Ideal S2048x16 .f32) (ix2 p q) = at2 (p12 V c) (2048 * (t.val / 8) + p.val) q.val := by
  have hi := (by decide +kernel : ∀ t : Fin grid12.N, win12_2.index t (0 : Fin 2) = t.val / 8 ∧ win12_2.index t (1 : Fin 2) = 0) t
  have hN : t.val < 64 := lt_of_lt_of_eq t.isLt N_12
  have hb : 2048 * (t.val / 8) + p.val < 16384 ∧ q.val < 16 := ⟨by omega, q.isLt⟩
  unfold at2; rw [dif_pos hb]
  unfold iblk12
  rw [View.read_apply]
  show V c (Pipeline.arrRef spec12 2) _ = V c (Pipeline.arrRef spec12 2) _
  refine congrArg _ (funext fun a => Fin.ext ?_)
  match a with
  | ⟨0, _⟩ => show win12_2.index t (0 : Fin 2) * 2048 + 1 * p.val = 2048 * (t.val / 8) + p.val; rw [hi.1]; omega
  | ⟨1, _⟩ => show win12_2.index t (1 : Fin 2) * 16 + 1 * q.val = q.val; rw [hi.2]; omega

/-- The block product of row `a` and column `q` over column block `k`. -/
abbrev g12 (c : Dev nD) (a q : ℕ) : ℕ → EReal :=
  fun k => ∑ j : Fin 2048, at2 (L12 V c) a (2048 * k + j.val) * at2 (v12 V c) (2048 * k + j.val) q

/-- One point's accumulation, at an entry. -/
theorem step_apply12 (c : Dev nD) (xs : Vec Ideal S2048x16 .f32) (t : Fin cfg12.N) (p : Fin 2048) (q : Fin 16) :
    k12_pay2 xs (iblk12 V c 0 t) (iblk12 V c 1 t) (ix2 p q)
      = xs (ix2 p q) + g12 V c (2048 * (t.val / 8) + p.val) q.val (t.val % 8) := by
  refine (pay2_apply xs (iblk12 V c 0 t) (iblk12 V c 1 t) p q).trans ?_
  refine congrArg (xs (ix2 p q) + ·) (Finset.sum_congr rfl fun j _ => ?_)
  rw [blk0_apply12 V c t p j, blk1_apply12 V c t j q]

/-- The accumulator after position `n` = 8·r + k, at an entry: the block products of its row for column blocks
    0 … k, added in order from zero. -/
theorem acc_apply12 (c : Dev nD) : ∀ (n : ℕ) (hn : n < cfg12.N) (p : Fin 2048) (q : Fin 16),
    acc12 V c n hn (ix2 p q) = psum (g12 V c (2048 * (n / 8) + p.val) q.val) (n % 8)
  | 0, hn, p, q => by
    rw [acc12_zero]
    refine (step_apply12 V c _ ⟨0, hn⟩ p q).trans ?_
    rw [show (k12_pay1 (F := Ideal)) (ix2 p q) = 0 from pay1_apply _]
    rfl
  | n + 1, hn, p, q => by
    rw [acc12_succ]
    by_cases h0 : (n + 1) % 8 = 0
    · rw [if_pos h0]
      refine (step_apply12 V c _ ⟨n + 1, hn⟩ p q).trans ?_
      rw [show (k12_pay1 (F := Ideal)) (ix2 p q) = 0 from pay1_apply _]
      show 0 + g12 V c (2048 * ((n + 1) / 8) + p.val) q.val ((n + 1) % 8) = psum _ ((n + 1) % 8)
      rw [h0]; rfl
    · rw [if_neg h0]
      refine (step_apply12 V c _ ⟨n + 1, hn⟩ p q).trans ?_
      rw [acc_apply12 c n (Nat.lt_of_succ_lt hn) p q]
      have e1 : (n + 1) % 8 = n % 8 + 1 := by omega
      have e2 : (n + 1) / 8 = n / 8 := by omega
      show psum _ (n % 8) + g12 V c (2048 * ((n + 1) / 8) + p.val) q.val ((n + 1) % 8) = psum _ ((n + 1) % 8)
      rw [e1, e2]; rfl

/-- The new vector: twice the product of the matrix and the vector, less the earlier vector. -/
def new12 (c : Dev nD) : S16384x16.Idx → EReal := fun i => Ideal.ofBits .f32 0x40000000#32 * prodAt (L12 V c) (v12 V c) (i 0).val (i 1).val - p12 V c i

/-- What a storing point (k = 7) puts at entry (p, q) of the result blocks is the new vector at row 2048·r + p. -/
theorem out_apply12 (c : Dev nD) (t : Fin cfg12.N) (h1 : t.val % 8 = 7) (p : Fin 2048) (q : Fin 16) (a : Fin 16384)
    (ha : a.val = 2048 * (t.val / 8) + p.val) :
    k12_pay3 (acc12 V c t.val t.isLt) (iblk12 V c 2 t) (ix2 p q) = new12 V c (ix2 a q) := by
  have hp3 : k12_pay3 (acc12 V c t.val t.isLt) (iblk12 V c 2 t) (ix2 p q)
      = Ideal.ofBits .f32 0x40000000#32 * acc12 V c t.val t.isLt (ix2 p q) - (iblk12 V c 2 t : Vec Ideal S2048x16 .f32) (ix2 p q) := by
    unfold k12_pay3
    try simp only [shapeCast_self]
    show Ideal.ofBits .f32 0x40000000#32 * _ - Ideal.ofBits .f32 0x3F800000#32 * _ = _
    rw [ofBits_one, one_mul]
  refine hp3.trans ?_
  rw [acc_apply12 V c t.val t.isLt p q, h1, psum_blocks, blk2_apply12 V c t p q]
  show _ = Ideal.ofBits .f32 0x40000000#32 * prodAt _ _ a.val q.val - p12 V c (ix2 a q)
  rw [ha, ← at2_ix2 (p12 V c) a q, ha]

/-- What a storing point (k = 7) writes back through result window 3 is its block of the new vector. -/
theorem flushed12_3 (c : Dev nD) (t : Fin cfg12.N) (hf : (cfg12.win 3).flush t = true) :
    (dat12 V c).flushed 3 t = ((cfg12.win 3).blk t).view.read (Elt Ideal) (new12 V c) := by
  have h1 : t.val % 8 = 7 := (flush12_3 t).mp hf
  have hN : t.val < 64 := lt_of_lt_of_eq t.isLt N_12
  have hi := (by decide +kernel : ∀ t : Fin grid12.N, win12_3.index t (0 : Fin 2) = t.val / 8 ∧ win12_3.index t (1 : Fin 2) = 0) t
  show (cfg12.win 3).cut (grid12.coords t) ((dat12 V c).after 3 t) = _
  rw [after12_3, out3_eq12 V c t h1]
  funext y
  have hy0 : (y 0).val < 2048 := (y 0).isLt
  have hy1 : (y 1).val < 16 := (y 1).isLt
  show k12_pay3 (acc12 V c t.val t.isLt) (iblk12 V c 2 t) ((cfg12.win 3).xinj (grid12.coords t) y) = ((cfg12.win 3).blk t).view.read (Elt Ideal) (new12 V c) y
  rw [View.read_apply, cast_eq]
  obtain ⟨r, hr⟩ : ∃ r : Fin 16384, r.val = 2048 * (t.val / 8) + (y 0).val := ⟨⟨2048 * (t.val / 8) + (y 0).val, by omega⟩, rfl⟩
  have hemb : ((cfg12.win 3).blk t).view.emb y = ix2 r (⟨(y 1).val, hy1⟩ : Fin 16) :=
    funext fun a => Fin.ext (by
      match a with
      | ⟨0, _⟩ => show win12_3.index t (0 : Fin 2) * 2048 + 1 * (y 0).val = r.val; rw [hr, hi.1]; omega
      | ⟨1, _⟩ => show win12_3.index t (1 : Fin 2) * 16 + 1 * (y 1).val = (y 1).val; rw [hi.2]; omega)
  have hy : (cfg12.win 3).xinj (grid12.coords t) y = ix2 (⟨(y 0).val, hy0⟩ : Fin 2048) (⟨(y 1).val, hy1⟩ : Fin 16) :=
    funext fun a => by match a with | ⟨0, _⟩ => rfl | ⟨1, _⟩ => rfl
  rw [hemb, hy]
  exact out_apply12 V c t h1 ⟨(y 0).val, hy0⟩ ⟨(y 1).val, hy1⟩ r hr

/-- An index of the array is in point `t`'s block of result window 3 iff each coordinate is in the block's range. -/
theorem mem_blk12_3 (t : Fin cfg12.N) (i : S16384x16.Idx) :
    i ∈ ((cfg12.win 3).blk t).view.set ↔ ∀ a : Fin 2, win12_3.index t a * S2048x16.size a ≤ (i a).val ∧ (i a).val < win12_3.index t a * S2048x16.size a + S2048x16.size a := by
  show i ∈ ((View.whole main_v107_0).slice (win12_3.rect t)).set ↔ _
  rw [View.set_slice_whole, Rect.mem_set_unit]
  exact Iff.rfl

/-- So result array 0 ends holding the new vector: row i is covered by the storing point of its row block. -/
theorem final12_3 (c : Dev nD) : (dat12 V c).arrAt 3 cfg12.N = new12 V c :=
  (dat12 V c).arrAt_eq_of_cover 3 (new12 V c) (fun t hf => flushed12_3 V c t hf) fun i => by
    have hi0 : (i 0).val < 16384 := (i 0).isLt
    have hi1 : (i 1).val < 16 := (i 1).isLt
    have ht : 8 * ((i 0).val / 2048) + 7 < cfg12.N := by rw [show cfg12.N = 64 from N_12]; omega
    have hx := (by decide +kernel : ∀ t : Fin grid12.N, win12_3.index t (0 : Fin 2) = t.val / 8 ∧ win12_3.index t (1 : Fin 2) = 0) ⟨8 * ((i 0).val / 2048) + 7, ht⟩
    refine ⟨⟨8 * ((i 0).val / 2048) + 7, ht⟩, (flush12_3 _).mpr (by show (8 * ((i 0).val / 2048) + 7) % 8 = 7; omega), ?_⟩
    rw [mem_blk12_3]
    intro a
    match a with
    | ⟨0, _⟩ =>
      show win12_3.index _ (0 : Fin 2) * 2048 ≤ (i 0).val ∧ (i 0).val < win12_3.index _ (0 : Fin 2) * 2048 + 2048
      rw [hx.1]; show (8 * ((i 0).val / 2048) + 7) / 8 * 2048 ≤ (i 0).val ∧ (i 0).val < (8 * ((i 0).val / 2048) + 7) / 8 * 2048 + 2048; omega
    | ⟨1, _⟩ =>
      show win12_3.index _ (1 : Fin 2) * 16 ≤ (i 1).val ∧ (i 1).val < win12_3.index _ (1 : Fin 2) * 16 + 16
      rw [hx.2]; omega

/-- What a storing point (k = 7) writes back through result window 4 is its block of the new vector. -/
theorem flushed12_4 (c : Dev nD) (t : Fin cfg12.N) (hf : (cfg12.win 4).flush t = true) :
    (dat12 V c).flushed 4 t = ((cfg12.win 4).blk t).view.read (Elt Ideal) (new12 V c) := by
  have h1 : t.val % 8 = 7 := (flush12_4 t).mp hf
  have hN : t.val < 64 := lt_of_lt_of_eq t.isLt N_12
  have hi := (by decide +kernel : ∀ t : Fin grid12.N, win12_4.index t (0 : Fin 2) = t.val / 8 ∧ win12_4.index t (1 : Fin 2) = 0) t
  show (cfg12.win 4).cut (grid12.coords t) ((dat12 V c).after 4 t) = _
  rw [after12_4, out4_eq12 V c t h1]
  funext y
  have hy0 : (y 0).val < 2048 := (y 0).isLt
  have hy1 : (y 1).val < 16 := (y 1).isLt
  show k12_pay3 (acc12 V c t.val t.isLt) (iblk12 V c 2 t) ((cfg12.win 4).xinj (grid12.coords t) y) = ((cfg12.win 4).blk t).view.read (Elt Ideal) (new12 V c) y
  rw [View.read_apply, cast_eq]
  obtain ⟨r, hr⟩ : ∃ r : Fin 16384, r.val = 2048 * (t.val / 8) + (y 0).val := ⟨⟨2048 * (t.val / 8) + (y 0).val, by omega⟩, rfl⟩
  have hemb : ((cfg12.win 4).blk t).view.emb y = ix2 r (⟨(y 1).val, hy1⟩ : Fin 16) :=
    funext fun a => Fin.ext (by
      match a with
      | ⟨0, _⟩ => show win12_4.index t (0 : Fin 2) * 2048 + 1 * (y 0).val = r.val; rw [hr, hi.1]; omega
      | ⟨1, _⟩ => show win12_4.index t (1 : Fin 2) * 16 + 1 * (y 1).val = (y 1).val; rw [hi.2]; omega)
  have hy : (cfg12.win 4).xinj (grid12.coords t) y = ix2 (⟨(y 0).val, hy0⟩ : Fin 2048) (⟨(y 1).val, hy1⟩ : Fin 16) :=
    funext fun a => by match a with | ⟨0, _⟩ => rfl | ⟨1, _⟩ => rfl
  rw [hemb, hy]
  exact out_apply12 V c t h1 ⟨(y 0).val, hy0⟩ ⟨(y 1).val, hy1⟩ r hr

/-- An index of the array is in point `t`'s block of result window 4 iff each coordinate is in the block's range. -/
theorem mem_blk12_4 (t : Fin cfg12.N) (i : S16384x16.Idx) :
    i ∈ ((cfg12.win 4).blk t).view.set ↔ ∀ a : Fin 2, win12_4.index t a * S2048x16.size a ≤ (i a).val ∧ (i a).val < win12_4.index t a * S2048x16.size a + S2048x16.size a := by
  show i ∈ ((View.whole main_v107_1).slice (win12_4.rect t)).set ↔ _
  rw [View.set_slice_whole, Rect.mem_set_unit]
  exact Iff.rfl

/-- So result array 1 ends holding the new vector: row i is covered by the storing point of its row block. -/
theorem final12_4 (c : Dev nD) : (dat12 V c).arrAt 4 cfg12.N = new12 V c :=
  (dat12 V c).arrAt_eq_of_cover 4 (new12 V c) (fun t hf => flushed12_4 V c t hf) fun i => by
    have hi0 : (i 0).val < 16384 := (i 0).isLt
    have hi1 : (i 1).val < 16 := (i 1).isLt
    have ht : 8 * ((i 0).val / 2048) + 7 < cfg12.N := by rw [show cfg12.N = 64 from N_12]; omega
    have hx := (by decide +kernel : ∀ t : Fin grid12.N, win12_4.index t (0 : Fin 2) = t.val / 8 ∧ win12_4.index t (1 : Fin 2) = 0) ⟨8 * ((i 0).val / 2048) + 7, ht⟩
    refine ⟨⟨8 * ((i 0).val / 2048) + 7, ht⟩, (flush12_4 _).mpr (by show (8 * ((i 0).val / 2048) + 7) % 8 = 7; omega), ?_⟩
    rw [mem_blk12_4]
    intro a
    match a with
    | ⟨0, _⟩ =>
      show win12_4.index _ (0 : Fin 2) * 2048 ≤ (i 0).val ∧ (i 0).val < win12_4.index _ (0 : Fin 2) * 2048 + 2048
      rw [hx.1]; show (8 * ((i 0).val / 2048) + 7) / 8 * 2048 ≤ (i 0).val ∧ (i 0).val < (8 * ((i 0).val / 2048) + 7) / 8 * 2048 + 2048; omega
    | ⟨1, _⟩ =>
      show win12_4.index _ (1 : Fin 2) * 16 ≤ (i 1).val ∧ (i 1).val < win12_4.index _ (1 : Fin 2) * 16 + 16
      rw [hx.2]; omega

end Cert.KernelIdeal.Hand

end
-- ==== Proof.RegI13Acc.lean ====
/-
  Region 13, its values for any float instance: what each case's stores read back as, in terms of the body's
  arithmetic; and the accumulator after every grid point as a recursion over the points (started afresh, from the
  zero vector, at the first column block of each row block, continued otherwise).
-/
import proofs.«108570_j29480655520371_2_alg».proof.Proof.RegI13Frame
import Idealize.ShloMosaic.Lib.Pipeline.Value
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

theorem hz2_13 : (![0, 0] : Fin 2 → Nat) = fun _ => 0 := funext fun a => by fin_cases a <;> rfl

/-- Case A leaves in the accumulator the first block product added to the zero vector. -/
theorem soutA_eq13 (c : Dev nD) (i : grid13.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : cond13_0 i) (hc1 : ¬cond13_1 i) (x0 : Vec F S2048x2048 .bf16) (x1 : Vec F S2048x16 .bf16) (x2 : Vec F S2048x16 .f32) :
    sout13_A_0 (F := F) c i arg2 harg2 arg3 harg3 arg4 harg4 arg5 harg5 arg6 harg6 arg7 harg7 hc0 hc1 x0 x1 x2 = k13_pay2 (k13_pay1) x0 x1 := by
  have hz2 := hz2_13
  unfold sout13_A_0
  rw [View.read_writes_eq_canon _ _ _ (scover13_A_0 c i arg2 harg2 arg3 harg3 arg4 harg4 arg5 harg5 arg6 harg6 arg7 harg7 hc0 hc1 x0 x1 x2)]
  unfold kernelRun13_A
  dsimp only
  try sl_unfold_words
  rw [View.canon_cons_unit_zero hz2, View.readCov_unit_zero (S := S2048x16) _ hz2]
  simp only [View.readAt_eq_ld, harg2.read_unread, harg3.read_unread, harg4.read_unread, harg7.read_unread, View.ld_unit_zero (S := S2048x2048) hz2, View.ld_unit_zero (S := S2048x16) hz2]

/-- Case B leaves in the accumulator what it held plus this point's block product. -/
theorem soutB_eq13 (c : Dev nD) (i : grid13.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond13_0 i) (hc1 : ¬cond13_1 i) (x0 : Vec F S2048x2048 .bf16) (x1 : Vec F S2048x16 .bf16) (x2 : Vec F S2048x16 .f32) (xs0 : Vec F S2048x16 .f32) :
    sout13_B_0 (F := F) c i arg2 harg2 arg3 harg3 arg4 harg4 arg5 harg5 arg6 harg6 arg7 harg7 hc0 hc1 x0 x1 x2 xs0 = k13_pay2 xs0 x0 x1 := by
  have hz2 := hz2_13
  unfold sout13_B_0
  rw [View.read_writes_eq_canon _ _ _ (scover13_B_0 c i arg2 harg2 arg3 harg3 arg4 harg4 arg5 harg5 arg6 harg6 arg7 harg7 hc0 hc1 x0 x1 x2 xs0)]
  unfold kernelRun13_B
  dsimp only
  try sl_unfold_words
  rw [View.canon_unit_zero hz2]
  simp only [View.readAt_eq_ld, harg2.read_unread, harg3.read_unread, harg4.read_unread, harg7.read_unread, View.ld_unit_zero (S := S2048x2048) hz2, View.ld_unit_zero (S := S2048x16) hz2]

/-- Case C leaves in the accumulator what it held plus the last block product, -/
theorem soutC_eq13 (c : Dev nD) (i : grid13.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond13_0 i) (hc1 : cond13_1 i) (x0 : Vec F S2048x2048 .bf16) (x1 : Vec F S2048x16 .bf16) (x2 : Vec F S2048x16 .f32) (xs0 : Vec F S2048x16 .f32) :
    sout13_C_0 (F := F) c i arg2 harg2 arg3 harg3 arg4 harg4 arg5 harg5 arg6 harg6 arg7 harg7 hc0 hc1 x0 x1 x2 xs0 = k13_pay2 xs0 x0 x1 := by
  have hz2 := hz2_13
  unfold sout13_C_0
  rw [View.read_writes_eq_canon _ _ _ (scover13_C_0 c i arg2 harg2 arg3 harg3 arg4 harg4 arg5 harg5 arg6 harg6 arg7 harg7 hc0 hc1 x0 x1 x2 xs0)]
  unfold kernelRun13_C
  dsimp only
  try sl_unfold_words
  rw [View.canon_unit_zero hz2]
  simp only [View.readAt_eq_ld, harg2.read_unread, harg3.read_unread, harg4.read_unread, harg7.read_unread, View.ld_unit_zero (S := S2048x2048) hz2, View.ld_unit_zero (S := S2048x16) hz2]

/-- in the f32 result block the combination of that accumulator and the block of the earlier vector, -/
theorem outC3_eq13 (c : Dev nD) (i : grid13.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond13_0 i) (hc1 : cond13_1 i) (x0 : Vec F S2048x2048 .bf16) (x1 : Vec F S2048x16 .bf16) (x2 : Vec F S2048x16 .f32) (xs0 : Vec F S2048x16 .f32) :
    out13_C_3 (F := F) c i arg2 harg2 arg3 harg3 arg4 harg4 arg5 harg5 arg6 harg6 arg7 harg7 hc0 hc1 x0 x1 x2 xs0 = k13_pay3 (k13_pay2 xs0 x0 x1) x2 := by
  have hz2 := hz2_13
  unfold out13_C_3
  rw [View.read_writes_eq_canon _ _ _ (cover13_C_3 c i arg2 harg2 arg3 harg3 arg4 harg4 arg5 harg5 arg6 harg6 arg7 harg7 hc0 hc1 x0 x1 x2 xs0)]
  unfold kernelRun13_C
  dsimp only
  try sl_unfold_words
  rw [View.canon_unit_zero hz2, View.readCov_unit_zero (S := S2048x16) _ hz2]
  simp only [View.readAt_eq_ld, harg2.read_unread, harg3.read_unread, harg4.read_unread, harg7.read_unread, View.ld_unit_zero (S := S2048x2048) hz2, View.ld_unit_zero (S := S2048x16) hz2]

/-- and in the bf16 result block the same combination in the narrower format. -/
theorem outC4_eq13 (c : Dev nD) (i : grid13.Coords) (arg2 : Memref sig .tc .vmem S2048x2048 .bf16) (harg2 : arg2.IsWhole) (arg3 : Memref sig .tc .vmem S2048x16 .bf16) (harg3 : arg3.IsWhole) (arg4 : Memref sig .tc .vmem S2048x16 .f32) (harg4 : arg4.IsWhole) (arg5 : Memref sig .tc .vmem S2048x16 .f32) (harg5 : arg5.IsWhole) (arg6 : Memref sig .tc .vmem S2048x16 .bf16) (harg6 : arg6.IsWhole) (arg7 : Memref sig .tc .vmem S2048x16 .f32) (harg7 : arg7.IsWhole) (hc0 : ¬cond13_0 i) (hc1 : cond13_1 i) (x0 : Vec F S2048x2048 .bf16) (x1 : Vec F S2048x16 .bf16) (x2 : Vec F S2048x16 .f32) (xs0 : Vec F S2048x16 .f32) :
    out13_C_4 (F := F) c i arg2 harg2 arg3 harg3 arg4 harg4 arg5 harg5 arg6 harg6 arg7 harg7 hc0 hc1 x0 x1 x2 xs0 = k13_pay4 (k13_pay2 xs0 x0 x1) x2 := by
  have hz2 := hz2_13
  unfold out13_C_4
  rw [View.read_writes_eq_canon _ _ _ (cover13_C_4 c i arg2 harg2 arg3 harg3 arg4 harg4 arg5 harg5 arg6 harg6 arg7 harg7 hc0 hc1 x0 x1 x2 xs0)]
  unfold kernelRun13_C
  dsimp only
  try sl_unfold_words
  rw [View.canon_unit_zero hz2, View.readCov_unit_zero (S := S2048x16) _ hz2]
  simp only [View.readAt_eq_ld, harg2.read_unread, harg3.read_unread, harg4.read_unread, harg7.read_unread, View.ld_unit_zero (S := S2048x2048) hz2, View.ld_unit_zero (S := S2048x16) hz2]

/-- The accumulator after the body at position `n`: started from the zero vector at the first column block of a
    row block, continued from the position before otherwise. -/
def acc13 (c : Dev nD) : (n : ℕ) → n < cfg13.N → Vec F S2048x16 .f32
  | 0, hn => k13_pay2 (k13_pay1) (iblk13 V c 0 ⟨0, hn⟩) (iblk13 V c 1 ⟨0, hn⟩)
  | n + 1, hn =>
    if (n + 1) % 8 = 0 then k13_pay2 (k13_pay1) (iblk13 V c 0 ⟨n + 1, hn⟩) (iblk13 V c 1 ⟨n + 1, hn⟩)
    else k13_pay2 (acc13 c n (Nat.lt_of_succ_lt hn)) (iblk13 V c 0 ⟨n + 1, hn⟩) (iblk13 V c 1 ⟨n + 1, hn⟩)

theorem acc13_zero (c : Dev nD) (hn : 0 < cfg13.N) :
    acc13 V c 0 hn = k13_pay2 (k13_pay1) (iblk13 V c 0 ⟨0, hn⟩) (iblk13 V c 1 ⟨0, hn⟩) := rfl
theorem acc13_succ (c : Dev nD) (n : ℕ) (hn : n + 1 < cfg13.N) :
    acc13 V c (n + 1) hn = if (n + 1) % 8 = 0 then k13_pay2 (k13_pay1) (iblk13 V c 0 ⟨n + 1, hn⟩) (iblk13 V c 1 ⟨n + 1, hn⟩)
      else k13_pay2 (acc13 V c n (Nat.lt_of_succ_lt hn)) (iblk13 V c 0 ⟨n + 1, hn⟩) (iblk13 V c 1 ⟨n + 1, hn⟩) := rfl

/-- The frame's point-by-point accumulator is that recursion. -/
theorem scr_eq13 (c : Dev nD) : ∀ (n : ℕ) (hn : n < cfg13.N), (outsAt13 V c n hn).2.2 = acc13 V c n hn
  | 0, hn => by
    have e := outsAt13_A V c ⟨0, hn⟩ (Nat.zero_mod _) (fun h => absurd (show (0 : ℕ) % 8 = 7 from h) (show ¬((0 : ℕ) % 8 = 7) by decide))
    rw [show outsAt13 V c 0 hn = _ from e, acc13_zero]
    dsimp only
    exact soutA_eq13 ..
  | n + 1, hn => by
    by_cases h0 : (n + 1) % 8 = 0
    · have h1 : ¬(n + 1) % 8 = 7 := by omega
      have e := outsAt13_A V c ⟨n + 1, hn⟩ h0 h1
      rw [show outsAt13 V c (n + 1) hn = _ from e]
      rw [acc13_succ, if_pos h0]
      dsimp only
      exact soutA_eq13 ..
    · by_cases h1 : (n + 1) % 8 = 7
      · have e := outsAt13_C V c ⟨n + 1, hn⟩ h0 h1
        rw [show outsAt13 V c (n + 1) hn = _ from e]
        rw [acc13_succ, if_neg h0]
        dsimp only
        rw [soutC_eq13]
        exact congrArg (fun a => k13_pay2 a _ _) (scr_eq13 c n (Nat.lt_of_succ_lt hn))
      · have e := outsAt13_B V c ⟨n + 1, hn⟩ h0 h1
        rw [show outsAt13 V c (n + 1) hn = _ from e]
        rw [acc13_succ, if_neg h0]
        dsimp only
        rw [soutB_eq13]
        exact congrArg (fun a => k13_pay2 a _ _) (scr_eq13 c n (Nat.lt_of_succ_lt hn))

/-- At a point that stores (k = 7) the f32 result block holds the combination of the accumulator and the block of
    the earlier vector, -/
theorem out3_eq13 (c : Dev nD) (t : Fin cfg13.N) (h1 : t.val % 8 = 7) :
    (outsAt13 V c t.val t.isLt).1 = k13_pay3 (acc13 V c t.val t.isLt) (iblk13 V c 2 t) := by
  have h0 : ¬t.val % 8 = 0 := by omega
  have hz : t.val ≠ 0 := fun h => by rw [h] at h1; exact absurd h1 (by decide)
  rw [outsAt13_C V c t h0 h1]
  dsimp only
  rw [outC3_eq13]
  obtain ⟨n, hn⟩ := t
  cases n with
  | zero => exact absurd rfl hz
  | succ n =>
    rw [acc13_succ, if_neg h0]
    exact congrArg (fun a => k13_pay3 (k13_pay2 a _ _) _) (scr_eq13 V c n (Nat.lt_of_succ_lt hn))

/-- and the bf16 result block the same in the narrower format. -/
theorem out4_eq13 (c : Dev nD) (t : Fin cfg13.N) (h1 : t.val % 8 = 7) :
    (outsAt13 V c t.val t.isLt).2.1 = k13_pay4 (acc13 V c t.val t.isLt) (iblk13 V c 2 t) := by
  have h0 : ¬t.val % 8 = 0 := by omega
  have hz : t.val ≠ 0 := fun h => by rw [h] at h1; exact absurd h1 (by decide)
  rw [outsAt13_C V c t h0 h1]
  dsimp only
  rw [outC4_eq13]
  obtain ⟨n, hn⟩ := t
  cases n with
  | zero => exact absurd rfl hz
  | succ n =>
    rw [acc13_succ, if_neg h0]
    exact congrArg (fun a => k13_pay4 (k13_pay2 a _ _) _) (scr_eq13 V c n (Nat.lt_of_succ_lt hn))

end Cert.KernelIdeal.Hand

end
-- ==== Proof.RegI13Value.lean ====
/-
  Region 13 at the extended reals: its two result arrays end holding 2 · (Ls · v) − v′  of the arrays the
  region finds in its three input windows (Ls the matrix, v the vector, v′ the earlier vector).
  A point t = 8·r + k reads block (r, k) of the matrix, block k of the vector and block r of the earlier vector. After
  it the accumulator's entry (p, q) is the block products of row 2048·r + p for column blocks 0 … k added in order from
  zero; the point k = 7 stores 2 · a − 1 · b  of the accumulator a and the earlier vector's block b into both result
  blocks, which are then written back; the eight block products are the whole product's entry (`psum_blocks`), and the
  storing points' blocks cover the array.
-/
import proofs.«108570_j29480655520371_2_alg».proof.Proof.RegI13Acc
import proofs.«108570_j29480655520371_2_alg».proof.Proof.ChebBlock

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)

variable (V : (c : Dev nD) → (b : Ref sig .tc) → Buf (Elt Ideal) ((c : Thread nD τ).loc b))

/-- The matrix, the vector and the earlier vector as the region finds them in its input windows' arrays. -/
abbrev L13 (c : Dev nD) : S16384x16384.Idx → EReal := V c (Pipeline.arrRef spec13 0)
abbrev v13 (c : Dev nD) : S16384x16.Idx → EReal := V c (Pipeline.arrRef spec13 1)
abbrev p13 (c : Dev nD) : S16384x16.Idx → EReal := V c (Pipeline.arrRef spec13 2)

/-- The matrix block at point t = 8·r + k is rows 2048·r …, columns 2048·k … of the matrix. -/
theorem blk0_apply13 (c : Dev nD) (t : Fin cfg13.N) (p j : Fin 2048) :
    (iblk13 V c 0 t : Vec Ideal S2048x2048 .bf16) (ix2 p j) = at2 (L13 V c) (2048 * (t.val / 8) + p.val) (2048 * (t.val % 8) + j.val) := by
  have hi := (by decide +kernel : ∀ t : Fin grid13.N, win13_0.index t (0 : Fin 2) = t.val / 8 ∧ win13_0.index t (1 : Fin 2) = t.val % 8) t
  have hN : t.val < 64 := lt_of_lt_of_eq t.isLt N_13
  have hb : 2048 * (t.val / 8) + p.val < 16384 ∧ 2048 * (t.val % 8) + j.val < 16384 := ⟨by omega, by omega⟩
  unfold at2; rw [dif_pos hb]
  unfold iblk13
  rw [View.read_apply]
  show V c (Pipeline.arrRef spec13 0) _ = V c (Pipeline.arrRef spec13 0) _
  refine congrArg _ (funext fun a => Fin.ext ?_)
  match a with
  | ⟨0, _⟩ => show win13_0.index t (0 : Fin 2) * 2048 + 1 * p.val = 2048 * (t.val / 8) + p.val; rw [hi.1]; omega
  | ⟨1, _⟩ => show win13_0.index t (1 : Fin 2) * 2048 + 1 * j.val = 2048 * (t.val % 8) + j.val; rw [hi.2]; omega

/-- The vector block at point t = 8·r + k is rows 2048·k … of the vector. -/
theorem blk1_apply13 (c : Dev nD) (t : Fin cfg13.N) (j : Fin 2048) (q : Fin 16) :
    (iblk13 V c 1 t : Vec Ideal S2048x16 .bf16) (ix2 j q) = at2 (v13 V c) (2048 * (t.val % 8) + j.val) q.val := by
  have hi := (by decide +kernel : ∀ t : Fin grid13.N, win13_1.index t (0 : Fin 2) = t.val % 8 ∧ win13_1.index t (1 : Fin 2) = 0) t
  have hN : t.val < 64 := lt_of_lt_of_eq t.isLt N_13
  have hb : 2048 * (t.val % 8) + j.val < 16384 ∧ q.val < 16 := ⟨by omega, q.isLt⟩
  unfold at2; rw [dif_pos hb]
  unfold iblk13
  rw [View.read_apply]
  show V c (Pipeline.arrRef spec13 1) _ = V c (Pipeline.arrRef spec13 1) _
  refine congrArg _ (funext fun a => Fin.ext ?_)
  match a with
  | ⟨0, _⟩ => show win13_1.index t (0 : Fin 2) * 2048 + 1 * j.val = 2048 * (t.val % 8) + j.val; rw [hi.1]; omega
  | ⟨1, _⟩ => show win13_1.index t (1 : Fin 2) * 16 + 1 * q.val = q.val; rw [hi.2]; omega

/-- The earlier vector's block at point t = 8·r + k is its rows 2048·r …. -/
theorem blk2_apply13 (c : Dev nD) (t : Fin cfg13.N) (p : Fin 2048) (q : Fin 16) :
    (iblk13 V c 2 t : Vec Ideal S2048x16 .f32) (ix2 p q) = at2 (p13 V c) (2048 * (t.val / 8) + p.val) q.val := by
  have hi := (by decide +kernel : ∀ t : Fin grid13.N, win13_2.index t (0 : Fin 2) = t.val / 8 ∧ win13_2.index t (1 : Fin 2) = 0) t
  have hN : t.val < 64 := lt_of_lt_of_eq t.isLt N_13
  have hb : 2048 * (t.val / 8) + p.val < 16384 ∧ q.val < 16 := ⟨by omega, q.isLt⟩
  unfold at2; rw [dif_pos hb]
  unfold iblk13
  rw [View.read_apply]
  show V c (Pipeline.arrRef spec13 2) _ = V c (Pipeline.arrRef spec13 2) _
  refine congrArg _ (funext fun a => Fin.ext ?_)
  match a with
  | ⟨0, _⟩ => show win13_2.index t (0 : Fin 2) * 2048 + 1 * p.val = 2048 * (t.val / 8) + p.val; rw [hi.1]; omega
  | ⟨1, _⟩ => show win13_2.index t (1 : Fin 2) * 16 + 1 * q.val = q.val; rw [hi.2]; omega

/-- The block product of row `a` and column `q` over column block `k`. -/
abbrev g13 (c : Dev nD) (a q : ℕ) : ℕ → EReal :=
  fun k => ∑ j : Fin 2048, at2 (L13 V c) a (2048 * k + j.val) * at2 (v13 V c) (2048 * k + j.val) q

/-- One point's accumulation, at an entry. -/
theorem step_apply13 (c : Dev nD) (xs : Vec Ideal S2048x16 .f32) (t : Fin cfg13.N) (p : Fin 2048) (q : Fin 16) :
    k13_pay2 xs (iblk13 V c 0 t) (iblk13 V c 1 t) (ix2 p q)
      = xs (ix2 p q) + g13 V c (2048 * (t.val / 8) + p.val) q.val (t.val % 8) := by
  refine (pay2_apply xs (iblk13 V c 0 t) (iblk13 V c 1 t) p q).trans ?_
  refine congrArg (xs (ix2 p q) + ·) (Finset.sum_congr rfl fun j _ => ?_)
  rw [blk0_apply13 V c t p j, blk1_apply13 V c t j q]

/-- The accumulator after position `n` = 8·r + k, at an entry: the block products of its row for column blocks
    0 … k, added in order from zero. -/
theorem acc_apply13 (c : Dev nD) : ∀ (n : ℕ) (hn : n < cfg13.N) (p : Fin 2048) (q : Fin 16),
    acc13 V c n hn (ix2 p q) = psum (g13 V c (2048 * (n / 8) + p.val) q.val) (n % 8)
  | 0, hn, p, q => by
    rw [acc13_zero]
    refine (step_apply13 V c _ ⟨0, hn⟩ p q).trans ?_
    rw [show (k13_pay1 (F := Ideal)) (ix2 p q) = 0 from pay1_apply _]
    rfl
  | n + 1, hn, p, q => by
    rw [acc13_succ]
    by_cases h0 : (n + 1) % 8 = 0
    · rw [if_pos h0]
      refine (step_apply13 V c _ ⟨n + 1, hn⟩ p q).trans ?_
      rw [show (k13_pay1 (F := Ideal)) (ix2 p q) = 0 from pay1_apply _]
      show 0 + g13 V c (2048 * ((n + 1) / 8) + p.val) q.val ((n + 1) % 8) = psum _ ((n + 1) % 8)
      rw [h0]; rfl
    · rw [if_neg h0]
      refine (step_apply13 V c _ ⟨n + 1, hn⟩ p q).trans ?_
      rw [acc_apply13 c n (Nat.lt_of_succ_lt hn) p q]
      have e1 : (n + 1) % 8 = n % 8 + 1 := by omega
      have e2 : (n + 1) / 8 = n / 8 := by omega
      show psum _ (n % 8) + g13 V c (2048 * ((n + 1) / 8) + p.val) q.val ((n + 1) % 8) = psum _ ((n + 1) % 8)
      rw [e1, e2]; rfl

/-- The new vector: twice the product of the matrix and the vector, less the earlier vector. -/
def new13 (c : Dev nD) : S16384x16.Idx → EReal := fun i => Ideal.ofBits .f32 0x40000000#32 * prodAt (L13 V c) (v13 V c) (i 0).val (i 1).val - p13 V c i

/-- What a storing point (k = 7) puts at entry (p, q) of the result blocks is the new vector at row 2048·r + p. -/
theorem out_apply13 (c : Dev nD) (t : Fin cfg13.N) (h1 : t.val % 8 = 7) (p : Fin 2048) (q : Fin 16) (a : Fin 16384)
    (ha : a.val = 2048 * (t.val / 8) + p.val) :
    k13_pay3 (acc13 V c t.val t.isLt) (iblk13 V c 2 t) (ix2 p q) = new13 V c (ix2 a q) := by
  have hp3 : k13_pay3 (acc13 V c t.val t.isLt) (iblk13 V c 2 t) (ix2 p q)
      = Ideal.ofBits .f32 0x40000000#32 * acc13 V c t.val t.isLt (ix2 p q) - (iblk13 V c 2 t : Vec Ideal S2048x16 .f32) (ix2 p q) := by
    unfold k13_pay3
    try simp only [shapeCast_self]
    show Ideal.ofBits .f32 0x40000000#32 * _ - Ideal.ofBits .f32 0x3F800000#32 * _ = _
    rw [ofBits_one, one_mul]
  refine hp3.trans ?_
  rw [acc_apply13 V c t.val t.isLt p q, h1, psum_blocks, blk2_apply13 V c t p q]
  show _ = Ideal.ofBits .f32 0x40000000#32 * prodAt _ _ a.val q.val - p13 V c (ix2 a q)
  rw [ha, ← at2_ix2 (p13 V c) a q, ha]

/-- What a storing point (k = 7) writes back through result window 3 is its block of the new vector. -/
theorem flushed13_3 (c : Dev nD) (t : Fin cfg13.N) (hf : (cfg13.win 3).flush t = true) :
    (dat13 V c).flushed 3 t = ((cfg13.win 3).blk t).view.read (Elt Ideal) (new13 V c) := by
  have h1 : t.val % 8 = 7 := (flush13_3 t).mp hf
  have hN : t.val < 64 := lt_of_lt_of_eq t.isLt N_13
  have hi := (by decide +kernel : ∀ t : Fin grid13.N, win13_3.index t (0 : Fin 2) = t.val / 8 ∧ win13_3.index t (1 : Fin 2) = 0) t
  show (cfg13.win 3).cut (grid13.coords t) ((dat13 V c).after 3 t) = _
  rw [after13_3, out3_eq13 V c t h1]
  funext y
  have hy0 : (y 0).val < 2048 := (y 0).isLt
  have hy1 : (y 1).val < 16 := (y 1).isLt
  show k13_pay3 (acc13 V c t.val t.isLt) (iblk13 V c 2 t) ((cfg13.win 3).xinj (grid13.coords t) y) = ((cfg13.win 3).blk t).view.read (Elt Ideal) (new13 V c) y
  rw [View.read_apply, cast_eq]
  obtain ⟨r, hr⟩ : ∃ r : Fin 16384, r.val = 2048 * (t.val / 8) + (y 0).val := ⟨⟨2048 * (t.val / 8) + (y 0).val, by omega⟩, rfl⟩
  have hemb : ((cfg13.win 3).blk t).view.emb y = ix2 r (⟨(y 1).val, hy1⟩ : Fin 16) :=
    funext fun a => Fin.ext (by
      match a with
      | ⟨0, _⟩ => show win13_3.index t (0 : Fin 2) * 2048 + 1 * (y 0).val = r.val; rw [hr, hi.1]; omega
      | ⟨1, _⟩ => show win13_3.index t (1 : Fin 2) * 16 + 1 * (y 1).val = (y 1).val; rw [hi.2]; omega)
  have hy : (cfg13.win 3).xinj (grid13.coords t) y = ix2 (⟨(y 0).val, hy0⟩ : Fin 2048) (⟨(y 1).val, hy1⟩ : Fin 16) :=
    funext fun a => by match a with | ⟨0, _⟩ => rfl | ⟨1, _⟩ => rfl
  rw [hemb, hy]
  exact out_apply13 V c t h1 ⟨(y 0).val, hy0⟩ ⟨(y 1).val, hy1⟩ r hr

/-- An index of the array is in point `t`'s block of result window 3 iff each coordinate is in the block's range. -/
theorem mem_blk13_3 (t : Fin cfg13.N) (i : S16384x16.Idx) :
    i ∈ ((cfg13.win 3).blk t).view.set ↔ ∀ a : Fin 2, win13_3.index t a * S2048x16.size a ≤ (i a).val ∧ (i a).val < win13_3.index t a * S2048x16.size a + S2048x16.size a := by
  show i ∈ ((View.whole main_v115_0).slice (win13_3.rect t)).set ↔ _
  rw [View.set_slice_whole, Rect.mem_set_unit]
  exact Iff.rfl

/-- So result array 0 ends holding the new vector: row i is covered by the storing point of its row block. -/
theorem final13_3 (c : Dev nD) : (dat13 V c).arrAt 3 cfg13.N = new13 V c :=
  (dat13 V c).arrAt_eq_of_cover 3 (new13 V c) (fun t hf => flushed13_3 V c t hf) fun i => by
    have hi0 : (i 0).val < 16384 := (i 0).isLt
    have hi1 : (i 1).val < 16 := (i 1).isLt
    have ht : 8 * ((i 0).val / 2048) + 7 < cfg13.N := by rw [show cfg13.N = 64 from N_13]; omega
    have hx := (by decide +kernel : ∀ t : Fin grid13.N, win13_3.index t (0 : Fin 2) = t.val / 8 ∧ win13_3.index t (1 : Fin 2) = 0) ⟨8 * ((i 0).val / 2048) + 7, ht⟩
    refine ⟨⟨8 * ((i 0).val / 2048) + 7, ht⟩, (flush13_3 _).mpr (by show (8 * ((i 0).val / 2048) + 7) % 8 = 7; omega), ?_⟩
    rw [mem_blk13_3]
    intro a
    match a with
    | ⟨0, _⟩ =>
      show win13_3.index _ (0 : Fin 2) * 2048 ≤ (i 0).val ∧ (i 0).val < win13_3.index _ (0 : Fin 2) * 2048 + 2048
      rw [hx.1]; show (8 * ((i 0).val / 2048) + 7) / 8 * 2048 ≤ (i 0).val ∧ (i 0).val < (8 * ((i 0).val / 2048) + 7) / 8 * 2048 + 2048; omega
    | ⟨1, _⟩ =>
      show win13_3.index _ (1 : Fin 2) * 16 ≤ (i 1).val ∧ (i 1).val < win13_3.index _ (1 : Fin 2) * 16 + 16
      rw [hx.2]; omega

/-- What a storing point (k = 7) writes back through result window 4 is its block of the new vector. -/
theorem flushed13_4 (c : Dev nD) (t : Fin cfg13.N) (hf : (cfg13.win 4).flush t = true) :
    (dat13 V c).flushed 4 t = ((cfg13.win 4).blk t).view.read (Elt Ideal) (new13 V c) := by
  have h1 : t.val % 8 = 7 := (flush13_4 t).mp hf
  have hN : t.val < 64 := lt_of_lt_of_eq t.isLt N_13
  have hi := (by decide +kernel : ∀ t : Fin grid13.N, win13_4.index t (0 : Fin 2) = t.val / 8 ∧ win13_4.index t (1 : Fin 2) = 0) t
  show (cfg13.win 4).cut (grid13.coords t) ((dat13 V c).after 4 t) = _
  rw [after13_4, out4_eq13 V c t h1]
  funext y
  have hy0 : (y 0).val < 2048 := (y 0).isLt
  have hy1 : (y 1).val < 16 := (y 1).isLt
  show k13_pay3 (acc13 V c t.val t.isLt) (iblk13 V c 2 t) ((cfg13.win 4).xinj (grid13.coords t) y) = ((cfg13.win 4).blk t).view.read (Elt Ideal) (new13 V c) y
  rw [View.read_apply, cast_eq]
  obtain ⟨r, hr⟩ : ∃ r : Fin 16384, r.val = 2048 * (t.val / 8) + (y 0).val := ⟨⟨2048 * (t.val / 8) + (y 0).val, by omega⟩, rfl⟩
  have hemb : ((cfg13.win 4).blk t).view.emb y = ix2 r (⟨(y 1).val, hy1⟩ : Fin 16) :=
    funext fun a => Fin.ext (by
      match a with
      | ⟨0, _⟩ => show win13_4.index t (0 : Fin 2) * 2048 + 1 * (y 0).val = r.val; rw [hr, hi.1]; omega
      | ⟨1, _⟩ => show win13_4.index t (1 : Fin 2) * 16 + 1 * (y 1).val = (y 1).val; rw [hi.2]; omega)
  have hy : (cfg13.win 4).xinj (grid13.coords t) y = ix2 (⟨(y 0).val, hy0⟩ : Fin 2048) (⟨(y 1).val, hy1⟩ : Fin 16) :=
    funext fun a => by match a with | ⟨0, _⟩ => rfl | ⟨1, _⟩ => rfl
  rw [hemb, hy]
  exact out_apply13 V c t h1 ⟨(y 0).val, hy0⟩ ⟨(y 1).val, hy1⟩ r hr

/-- An index of the array is in point `t`'s block of result window 4 iff each coordinate is in the block's range. -/
theorem mem_blk13_4 (t : Fin cfg13.N) (i : S16384x16.Idx) :
    i ∈ ((cfg13.win 4).blk t).view.set ↔ ∀ a : Fin 2, win13_4.index t a * S2048x16.size a ≤ (i a).val ∧ (i a).val < win13_4.index t a * S2048x16.size a + S2048x16.size a := by
  show i ∈ ((View.whole main_v115_1).slice (win13_4.rect t)).set ↔ _
  rw [View.set_slice_whole, Rect.mem_set_unit]
  exact Iff.rfl

/-- So result array 1 ends holding the new vector: row i is covered by the storing point of its row block. -/
theorem final13_4 (c : Dev nD) : (dat13 V c).arrAt 4 cfg13.N = new13 V c :=
  (dat13 V c).arrAt_eq_of_cover 4 (new13 V c) (fun t hf => flushed13_4 V c t hf) fun i => by
    have hi0 : (i 0).val < 16384 := (i 0).isLt
    have hi1 : (i 1).val < 16 := (i 1).isLt
    have ht : 8 * ((i 0).val / 2048) + 7 < cfg13.N := by rw [show cfg13.N = 64 from N_13]; omega
    have hx := (by decide +kernel : ∀ t : Fin grid13.N, win13_4.index t (0 : Fin 2) = t.val / 8 ∧ win13_4.index t (1 : Fin 2) = 0) ⟨8 * ((i 0).val / 2048) + 7, ht⟩
    refine ⟨⟨8 * ((i 0).val / 2048) + 7, ht⟩, (flush13_4 _).mpr (by show (8 * ((i 0).val / 2048) + 7) % 8 = 7; omega), ?_⟩
    rw [mem_blk13_4]
    intro a
    match a with
    | ⟨0, _⟩ =>
      show win13_4.index _ (0 : Fin 2) * 2048 ≤ (i 0).val ∧ (i 0).val < win13_4.index _ (0 : Fin 2) * 2048 + 2048
      rw [hx.1]; show (8 * ((i 0).val / 2048) + 7) / 8 * 2048 ≤ (i 0).val ∧ (i 0).val < (8 * ((i 0).val / 2048) + 7) / 8 * 2048 + 2048; omega
    | ⟨1, _⟩ =>
      show win13_4.index _ (1 : Fin 2) * 16 ≤ (i 1).val ∧ (i 1).val < win13_4.index _ (1 : Fin 2) * 16 + 16
      rw [hx.2]; omega

end Cert.KernelIdeal.Hand

end
-- ==== Proof.HostKernel.lean ====
import proofs.«108570_j29480655520371_2_alg».proof.Proof.Gen.KernelIdeal.Regions

set_option maxRecDepth 4096

noncomputable section

namespace Cert.KernelIdeal.HostValue

open Cert.KernelIdeal Cert.KernelIdeal.Gen
open Idealize.ShloMosaic Idealize.ShloMosaic.TcCoe Idealize.SL.Sem

variable {F : FTy → Type} [FloatOps F]

/-- The input tiled eight times along the rows: reshape, broadcast along a new leading axis, reshape. -/
def tx0 (x : (⟨S2048x16, .f32⟩ : BufTy).Contents (Elt F)) : (⟨S16384x16, .f32⟩ : BufTy).Contents (Elt F) :=
  shapeCast _ (broadcastInDim S8x2048x1x16 ![0, 1, 2, 3] bcast_S1x2048x1x16_S8x2048x1x16_0_1_2_3 (shapeCast _ x shapeCasts_S2048x16_S1x2048x1x16)) shapeCasts_S8x2048x1x16_S16384x16

/-- One weight matrix of the stack: the slice at offset `s`, with its unit axis dropped. -/
def wsl (W : (⟨S15x128x32, .f32⟩ : BufTy).Contents (Elt F)) (s : Fin 3 → ℕ) (h : S15x128x32.Slices s S1x128x32) :
    (⟨S128x32, .f32⟩ : BufTy).Contents (Elt F) :=
  shapeCast _ (extractStridedSlice S1x128x32 s W h) shapeCasts_S1x128x32_S128x32

/-- The projection of one vector: regroup the eight row blocks side by side, then multiply by a weight matrix. -/
def proj (T : (⟨S16384x16, .f32⟩ : BufTy).Contents (Elt F)) (Wk : (⟨S128x32, .f32⟩ : BufTy).Contents (Elt F)) :
    (⟨S2048x32, .f32⟩ : BufTy).Contents (Elt F) :=
  Host.dotGeneral dot_S2048x128_S128x32_S2048x32_1_0_0_1_n_n none (shapeCast _ (transpose S2048x8x16 [1, 0, 2] (shapeCast _ T shapeCasts_S16384x16_S8x2048x16) transposes_S8x2048x16_S2048x8x16_1_0_2) shapeCasts_S2048x8x16_S2048x128) Wk

/-- The bias row repeated down the rows. -/
def bias (b : (⟨S32, .f32⟩ : BufTy).Contents (Elt F)) : (⟨S2048x32, .f32⟩ : BufTy).Contents (Elt F) :=
  broadcastInDim S2048x32 ![0, 1] bcast_S1x32_S2048x32_0_1 (broadcastInDim S1x32 ![1] bcast_S32_S1x32_1 b)

/-- The running sum of projections: the zeroth term. -/
def acc0 (x : (⟨S2048x16, .f32⟩ : BufTy).Contents (Elt F)) (W : (⟨S15x128x32, .f32⟩ : BufTy).Contents (Elt F)) : (⟨S2048x32, .f32⟩ : BufTy).Contents (Elt F) :=
  proj (tx0 x) (wsl W ![0, 0, 0] slices_S15x128x32_S1x128x32_0_0_0)
/-- The running sum of projections through term 1. -/
def acc1 (x : (⟨S2048x16, .f32⟩ : BufTy).Contents (Elt F)) (W : (⟨S15x128x32, .f32⟩ : BufTy).Contents (Elt F))
    (T1 : (⟨S16384x16, .f32⟩ : BufTy).Contents (Elt F)) : (⟨S2048x32, .f32⟩ : BufTy).Contents (Elt F) :=
  addf (acc0 x W) (proj T1 (wsl W ![1, 0, 0] slices_S15x128x32_S1x128x32_1_0_0))
/-- The running sum of projections through term 2. -/
def acc2 (x : (⟨S2048x16, .f32⟩ : BufTy).Contents (Elt F)) (W : (⟨S15x128x32, .f32⟩ : BufTy).Contents (Elt F))
    (T1 T2 : (⟨S16384x16, .f32⟩ : BufTy).Contents (Elt F)) : (⟨S2048x32, .f32⟩ : BufTy).Contents (Elt F) :=
  addf (acc1 x W T1) (proj T2 (wsl W ![2, 0, 0] slices_S15x128x32_S1x128x32_2_0_0))
/-- The running sum of projections through term 3. -/
def acc3 (x : (⟨S2048x16, .f32⟩ : BufTy).Contents (Elt F)) (W : (⟨S15x128x32, .f32⟩ : BufTy).Contents (Elt F))
    (T1 T2 T3 : (⟨S16384x16, .f32⟩ : BufTy).Contents (Elt F)) : (⟨S2048x32, .f32⟩ : BufTy).Contents (Elt F) :=
  addf (acc2 x W T1 T2) (proj T3 (wsl W ![3, 0, 0] slices_S15x128x32_S1x128x32_3_0_0))
/-- The running sum of projections through term 4. -/
def acc4 (x : (⟨S2048x16, .f32⟩ : BufTy).Contents (Elt F)) (W : (⟨S15x128x32, .f32⟩ : BufTy).Contents (Elt F))
    (T1 T2 T3 T4 : (⟨S16384x16, .f32⟩ : BufTy).Contents (Elt F)) : (⟨S2048x32, .f32⟩ : BufTy).Contents (Elt F) :=
  addf (acc3 x W T1 T2 T3) (proj T4 (wsl W ![4, 0, 0] slices_S15x128x32_S1x128x32_4_0_0))
/-- The running sum of projections through term 5. -/
def acc5 (x : (⟨S2048x16, .f32⟩ : BufTy).Contents (Elt F)) (W : (⟨S15x128x32, .f32⟩ : BufTy).Contents (Elt F))
    (T1 T2 T3 T4 T5 : (⟨S16384x16, .f32⟩ : BufTy).Contents (Elt F)) : (⟨S2048x32, .f32⟩ : BufTy).Contents (Elt F) :=
  addf (acc4 x W T1 T2 T3 T4) (proj T5 (wsl W ![5, 0, 0] slices_S15x128x32_S1x128x32_5_0_0))
/-- The running sum of projections through term 6. -/
def acc6 (x : (⟨S2048x16, .f32⟩ : BufTy).Contents (Elt F)) (W : (⟨S15x128x32, .f32⟩ : BufTy).Contents (Elt F))
    (T1 T2 T3 T4 T5 T6 : (⟨S16384x16, .f32⟩ : BufTy).Contents (Elt F)) : (⟨S2048x32, .f32⟩ : BufTy).Contents (Elt F) :=
  addf (acc5 x W T1 T2 T3 T4 T5) (proj T6 (wsl W ![6, 0, 0] slices_S15x128x32_S1x128x32_6_0_0))
/-- The running sum of projections through term 7. -/
def acc7 (x : (⟨S2048x16, .f32⟩ : BufTy).Contents (Elt F)) (W : (⟨S15x128x32, .f32⟩ : BufTy).Contents (Elt F))
    (T1 T2 T3 T4 T5 T6 T7 : (⟨S16384x16, .f32⟩ : BufTy).Contents (Elt F)) : (⟨S2048x32, .f32⟩ : BufTy).Contents (Elt F) :=
  addf (acc6 x W T1 T2 T3 T4 T5 T6) (proj T7 (wsl W ![7, 0, 0] slices_S15x128x32_S1x128x32_7_0_0))
/-- The running sum of projections through term 8. -/
def acc8 (x : (⟨S2048x16, .f32⟩ : BufTy).Contents (Elt F)) (W : (⟨S15x128x32, .f32⟩ : BufTy).Contents (Elt F))
    (T1 T2 T3 T4 T5 T6 T7 T8 : (⟨S16384x16, .f32⟩ : BufTy).Contents (Elt F)) : (⟨S2048x32, .f32⟩ : BufTy).Contents (Elt F) :=
  addf (acc7 x W T1 T2 T3 T4 T5 T6 T7) (proj T8 (wsl W ![8, 0, 0] slices_S15x128x32_S1x128x32_8_0_0))
/-- The running sum of projections through term 9. -/
def acc9 (x : (⟨S2048x16, .f32⟩ : BufTy).Contents (Elt F)) (W : (⟨S15x128x32, .f32⟩ : BufTy).Contents (Elt F))
    (T1 T2 T3 T4 T5 T6 T7 T8 T9 : (⟨S16384x16, .f32⟩ : BufTy).Contents (Elt F)) : (⟨S2048x32, .f32⟩ : BufTy).Contents (Elt F) :=
  addf (acc8 x W T1 T2 T3 T4 T5 T6 T7 T8) (proj T9 (wsl W ![9, 0, 0] slices_S15x128x32_S1x128x32_9_0_0))
/-- The running sum of projections through term 10. -/
def acc10 (x : (⟨S2048x16, .f32⟩ : BufTy).Contents (Elt F)) (W : (⟨S15x128x32, .f32⟩ : BufTy).Contents (Elt F))
    (T1 T2 T3 T4 T5 T6 T7 T8 T9 T10 : (⟨S16384x16, .f32⟩ : BufTy).Contents (Elt F)) : (⟨S2048x32, .f32⟩ : BufTy).Contents (Elt F) :=
  addf (acc9 x W T1 T2 T3 T4 T5 T6 T7 T8 T9) (proj T10 (wsl W ![10, 0, 0] slices_S15x128x32_S1x128x32_10_0_0))
/-- The running sum of projections through term 11. -/
def acc11 (x : (⟨S2048x16, .f32⟩ : BufTy).Contents (Elt F)) (W : (⟨S15x128x32, .f32⟩ : BufTy).Contents (Elt F))
    (T1 T2 T3 T4 T5 T6 T7 T8 T9 T10 T11 : (⟨S16384x16, .f32⟩ : BufTy).Contents (Elt F)) : (⟨S2048x32, .f32⟩ : BufTy).Contents (Elt F) :=
  addf (acc10 x W T1 T2 T3 T4 T5 T6 T7 T8 T9 T10) (proj T11 (wsl W ![11, 0, 0] slices_S15x128x32_S1x128x32_11_0_0))
/-- The running sum of projections through term 12. -/
def acc12 (x : (⟨S2048x16, .f32⟩ : BufTy).Contents (Elt F)) (W : (⟨S15x128x32, .f32⟩ : BufTy).Contents (Elt F))
    (T1 T2 T3 T4 T5 T6 T7 T8 T9 T10 T11 T12 : (⟨S16384x16, .f32⟩ : BufTy).Contents (Elt F)) : (⟨S2048x32, .f32⟩ : BufTy).Contents (Elt F) :=
  addf (acc11 x W T1 T2 T3 T4 T5 T6 T7 T8 T9 T10 T11) (proj T12 (wsl W ![12, 0, 0] slices_S15x128x32_S1x128x32_12_0_0))
/-- The running sum of projections through term 13. -/
def acc13 (x : (⟨S2048x16, .f32⟩ : BufTy).Contents (Elt F)) (W : (⟨S15x128x32, .f32⟩ : BufTy).Contents (Elt F))
    (T1 T2 T3 T4 T5 T6 T7 T8 T9 T10 T11 T12 T13 : (⟨S16384x16, .f32⟩ : BufTy).Contents (Elt F)) : (⟨S2048x32, .f32⟩ : BufTy).Contents (Elt F) :=
  addf (acc12 x W T1 T2 T3 T4 T5 T6 T7 T8 T9 T10 T11 T12) (proj T13 (wsl W ![13, 0, 0] slices_S15x128x32_S1x128x32_13_0_0))
/-- The running sum of projections through term 14. -/
def acc14 (x : (⟨S2048x16, .f32⟩ : BufTy).Contents (Elt F)) (W : (⟨S15x128x32, .f32⟩ : BufTy).Contents (Elt F))
    (T1 T2 T3 T4 T5 T6 T7 T8 T9 T10 T11 T12 T13 T14 : (⟨S16384x16, .f32⟩ : BufTy).Contents (Elt F)) : (⟨S2048x32, .f32⟩ : BufTy).Contents (Elt F) :=
  addf (acc13 x W T1 T2 T3 T4 T5 T6 T7 T8 T9 T10 T11 T12 T13) (proj T14 (wsl W ![14, 0, 0] slices_S15x128x32_S1x128x32_14_0_0))

/-- The whole result: the fifteen projections summed in order, plus the bias. -/
def result (x : (⟨S2048x16, .f32⟩ : BufTy).Contents (Elt F)) (W : (⟨S15x128x32, .f32⟩ : BufTy).Contents (Elt F))
    (b : (⟨S32, .f32⟩ : BufTy).Contents (Elt F)) (T1 T2 T3 T4 T5 T6 T7 T8 T9 T10 T11 T12 T13 T14 : (⟨S16384x16, .f32⟩ : BufTy).Contents (Elt F)) : (⟨S2048x32, .f32⟩ : BufTy).Contents (Elt F) :=
  addf (acc14 x W T1 T2 T3 T4 T5 T6 T7 T8 T9 T10 T11 T12 T13 T14) (bias b)

/-! ## What one stretch of host operations computes, from any contents -/

theorem ops0_v0 (V : Valuation τ sig (Elt F)) :
    StableHlo.after hostOps0 V (Proc.devRef .tc main_v0)
      = ((truncf .bf16 · bitsLt_bf16_f32) : (⟨S16384x16384, .f32⟩ : BufTy).Contents (Elt F) → (⟨S16384x16384, .bf16⟩ : BufTy).Contents (Elt F)) (V (Proc.devRef .tc main_arg1)) := by
  after_results <;> rfl

theorem ops0_v3 (V : Valuation τ sig (Elt F)) :
    StableHlo.after hostOps0 V (Proc.devRef .tc main_v3) = tx0 (V (Proc.devRef .tc main_arg0)) := by
  after_results <;> rfl

theorem ops0_v10 (V : Valuation τ sig (Elt F)) :
    StableHlo.after hostOps0 V (Proc.devRef .tc main_v10)
      = ((truncf .bf16 · bitsLt_bf16_f32) : (⟨S16384x16, .f32⟩ : BufTy).Contents (Elt F) → (⟨S16384x16, .bf16⟩ : BufTy).Contents (Elt F)) (tx0 (V (Proc.devRef .tc main_arg0))) := by
  after_results <;> rfl

theorem ops0_v9 (V : Valuation τ sig (Elt F)) :
    StableHlo.after hostOps0 V (Proc.devRef .tc main_v9) = acc0 (V (Proc.devRef .tc main_arg0)) (V (Proc.devRef .tc main_arg2)) := by
  after_results <;> rfl

theorem ops1_sum (V : Valuation τ sig (Elt F)) :
    StableHlo.after hostOps1 V (Proc.devRef .tc main_v18)
      = addf (V (Proc.devRef .tc main_v9)) (proj (V (Proc.devRef .tc main_v11_0)) (wsl (V (Proc.devRef .tc main_arg2)) ![1, 0, 0] slices_S15x128x32_S1x128x32_1_0_0)) := by
  after_results <;> rfl

theorem ops2_sum (V : Valuation τ sig (Elt F)) :
    StableHlo.after hostOps2 V (Proc.devRef .tc main_v26)
      = addf (V (Proc.devRef .tc main_v18)) (proj (V (Proc.devRef .tc main_v19_0)) (wsl (V (Proc.devRef .tc main_arg2)) ![2, 0, 0] slices_S15x128x32_S1x128x32_2_0_0)) := by
  after_results <;> rfl

theorem ops3_sum (V : Valuation τ sig (Elt F)) :
    StableHlo.after hostOps3 V (Proc.devRef .tc main_v34)
      = addf (V (Proc.devRef .tc main_v26)) (proj (V (Proc.devRef .tc main_v27_0)) (wsl (V (Proc.devRef .tc main_arg2)) ![3, 0, 0] slices_S15x128x32_S1x128x32_3_0_0)) := by
  after_results <;> rfl

theorem ops4_sum (V : Valuation τ sig (Elt F)) :
    StableHlo.after hostOps4 V (Proc.devRef .tc main_v42)
      = addf (V (Proc.devRef .tc main_v34)) (proj (V (Proc.devRef .tc main_v35_0)) (wsl (V (Proc.devRef .tc main_arg2)) ![4, 0, 0] slices_S15x128x32_S1x128x32_4_0_0)) := by
  after_results <;> rfl

theorem ops5_sum (V : Valuation τ sig (Elt F)) :
    StableHlo.after hostOps5 V (Proc.devRef .tc main_v50)
      = addf (V (Proc.devRef .tc main_v42)) (proj (V (Proc.devRef .tc main_v43_0)) (wsl (V (Proc.devRef .tc main_arg2)) ![5, 0, 0] slices_S15x128x32_S1x128x32_5_0_0)) := by
  after_results <;> rfl

theorem ops6_sum (V : Valuation τ sig (Elt F)) :
    StableHlo.after hostOps6 V (Proc.devRef .tc main_v58)
      = addf (V (Proc.devRef .tc main_v50)) (proj (V (Proc.devRef .tc main_v51_0)) (wsl (V (Proc.devRef .tc main_arg2)) ![6, 0, 0] slices_S15x128x32_S1x128x32_6_0_0)) := by
  after_results <;> rfl

theorem ops7_sum (V : Valuation τ sig (Elt F)) :
    StableHlo.after hostOps7 V (Proc.devRef .tc main_v66)
      = addf (V (Proc.devRef .tc main_v58)) (proj (V (Proc.devRef .tc main_v59_0)) (wsl (V (Proc.devRef .tc main_arg2)) ![7, 0, 0] slices_S15x128x32_S1x128x32_7_0_0)) := by
  after_results <;> rfl

theorem ops8_sum (V : Valuation τ sig (Elt F)) :
    StableHlo.after hostOps8 V (Proc.devRef .tc main_v74)
      = addf (V (Proc.devRef .tc main_v66)) (proj (V (Proc.devRef .tc main_v67_0)) (wsl (V (Proc.devRef .tc main_arg2)) ![8, 0, 0] slices_S15x128x32_S1x128x32_8_0_0)) := by
  after_results <;> rfl

theorem ops9_sum (V : Valuation τ sig (Elt F)) :
    StableHlo.after hostOps9 V (Proc.devRef .tc main_v82)
      = addf (V (Proc.devRef .tc main_v74)) (proj (V (Proc.devRef .tc main_v75_0)) (wsl (V (Proc.devRef .tc main_arg2)) ![9, 0, 0] slices_S15x128x32_S1x128x32_9_0_0)) := by
  after_results <;> rfl

theorem ops10_sum (V : Valuation τ sig (Elt F)) :
    StableHlo.after hostOps10 V (Proc.devRef .tc main_v90)
      = addf (V (Proc.devRef .tc main_v82)) (proj (V (Proc.devRef .tc main_v83_0)) (wsl (V (Proc.devRef .tc main_arg2)) ![10, 0, 0] slices_S15x128x32_S1x128x32_10_0_0)) := by
  after_results <;> rfl

theorem ops11_sum (V : Valuation τ sig (Elt F)) :
    StableHlo.after hostOps11 V (Proc.devRef .tc main_v98)
      = addf (V (Proc.devRef .tc main_v90)) (proj (V (Proc.devRef .tc main_v91_0)) (wsl (V (Proc.devRef .tc main_arg2)) ![11, 0, 0] slices_S15x128x32_S1x128x32_11_0_0)) := by
  after_results <;> rfl

theorem ops12_sum (V : Valuation τ sig (Elt F)) :
    StableHlo.after hostOps12 V (Proc.devRef .tc main_v106)
      = addf (V (Proc.devRef .tc main_v98)) (proj (V (Proc.devRef .tc main_v99_0)) (wsl (V (Proc.devRef .tc main_arg2)) ![12, 0, 0] slices_S15x128x32_S1x128x32_12_0_0)) := by
  after_results <;> rfl

theorem ops13_sum (V : Valuation τ sig (Elt F)) :
    StableHlo.after hostOps13 V (Proc.devRef .tc main_v114)
      = addf (V (Proc.devRef .tc main_v106)) (proj (V (Proc.devRef .tc main_v107_0)) (wsl (V (Proc.devRef .tc main_arg2)) ![13, 0, 0] slices_S15x128x32_S1x128x32_13_0_0)) := by
  after_results <;> rfl

theorem ops14_sum (V : Valuation τ sig (Elt F)) :
    StableHlo.after hostOps14 V (Proc.devRef .tc main_v125)
      = addf (addf (V (Proc.devRef .tc main_v114)) (proj (V (Proc.devRef .tc main_v115_0)) (wsl (V (Proc.devRef .tc main_arg2)) ![14, 0, 0] slices_S15x128x32_S1x128x32_14_0_0))) (bias (V (Proc.devRef .tc main_arg3))) := by
  after_results <;> rfl

/-! ## The arguments are read unchanged at every point -/

variable (m : (ℓ : Loc nD τ sig) → Buf (Elt F) ℓ) (outs : Gen.Outs (F := F)) (c : Dev nD)
theorem main_arg2_at1 : Gen.V1 m c (Proc.devRef .tc main_arg2) = Gen.V0 m c (Proc.devRef .tc main_arg2) :=
  (Gen.V1_of m c main_arg2 (by decide))
theorem main_arg2_at2 : Gen.V2 m outs c (Proc.devRef .tc main_arg2) = Gen.V0 m c (Proc.devRef .tc main_arg2) :=
  (Gen.V2_of m outs c main_arg2 (by decide)).trans (main_arg2_at1 m c)
theorem main_arg2_at3 : Gen.V3 m outs c (Proc.devRef .tc main_arg2) = Gen.V0 m c (Proc.devRef .tc main_arg2) :=
  (Gen.V3_of m outs c main_arg2 (by decide)).trans (main_arg2_at2 m outs c)
theorem main_arg2_at4 : Gen.V4 m outs c (Proc.devRef .tc main_arg2) = Gen.V0 m c (Proc.devRef .tc main_arg2) :=
  (Gen.V4_of m outs c main_arg2 (by decide)).trans (main_arg2_at3 m outs c)
theorem main_arg2_at5 : Gen.V5 m outs c (Proc.devRef .tc main_arg2) = Gen.V0 m c (Proc.devRef .tc main_arg2) :=
  (Gen.V5_of m outs c main_arg2 (by decide)).trans (main_arg2_at4 m outs c)
theorem main_arg2_at6 : Gen.V6 m outs c (Proc.devRef .tc main_arg2) = Gen.V0 m c (Proc.devRef .tc main_arg2) :=
  (Gen.V6_of m outs c main_arg2 (by decide)).trans (main_arg2_at5 m outs c)
theorem main_arg2_at7 : Gen.V7 m outs c (Proc.devRef .tc main_arg2) = Gen.V0 m c (Proc.devRef .tc main_arg2) :=
  (Gen.V7_of m outs c main_arg2 (by decide)).trans (main_arg2_at6 m outs c)
theorem main_arg2_at8 : Gen.V8 m outs c (Proc.devRef .tc main_arg2) = Gen.V0 m c (Proc.devRef .tc main_arg2) :=
  (Gen.V8_of m outs c main_arg2 (by decide)).trans (main_arg2_at7 m outs c)
theorem main_arg2_at9 : Gen.V9 m outs c (Proc.devRef .tc main_arg2) = Gen.V0 m c (Proc.devRef .tc main_arg2) :=
  (Gen.V9_of m outs c main_arg2 (by decide)).trans (main_arg2_at8 m outs c)
theorem main_arg2_at10 : Gen.V10 m outs c (Proc.devRef .tc main_arg2) = Gen.V0 m c (Proc.devRef .tc main_arg2) :=
  (Gen.V10_of m outs c main_arg2 (by decide)).trans (main_arg2_at9 m outs c)
theorem main_arg2_at11 : Gen.V11 m outs c (Proc.devRef .tc main_arg2) = Gen.V0 m c (Proc.devRef .tc main_arg2) :=
  (Gen.V11_of m outs c main_arg2 (by decide)).trans (main_arg2_at10 m outs c)
theorem main_arg2_at12 : Gen.V12 m outs c (Proc.devRef .tc main_arg2) = Gen.V0 m c (Proc.devRef .tc main_arg2) :=
  (Gen.V12_of m outs c main_arg2 (by decide)).trans (main_arg2_at11 m outs c)
theorem main_arg2_at13 : Gen.V13 m outs c (Proc.devRef .tc main_arg2) = Gen.V0 m c (Proc.devRef .tc main_arg2) :=
  (Gen.V13_of m outs c main_arg2 (by decide)).trans (main_arg2_at12 m outs c)
theorem main_arg2_at14 : Gen.V14 m outs c (Proc.devRef .tc main_arg2) = Gen.V0 m c (Proc.devRef .tc main_arg2) :=
  (Gen.V14_of m outs c main_arg2 (by decide)).trans (main_arg2_at13 m outs c)
theorem main_arg2_at15 : Gen.V15 m outs c (Proc.devRef .tc main_arg2) = Gen.V0 m c (Proc.devRef .tc main_arg2) :=
  (Gen.V15_of m outs c main_arg2 (by decide)).trans (main_arg2_at14 m outs c)
theorem main_arg2_at16 : Gen.V16 m outs c (Proc.devRef .tc main_arg2) = Gen.V0 m c (Proc.devRef .tc main_arg2) :=
  (Gen.V16_of m outs c main_arg2 (by decide)).trans (main_arg2_at15 m outs c)
theorem main_arg2_at17 : Gen.V17 m outs c (Proc.devRef .tc main_arg2) = Gen.V0 m c (Proc.devRef .tc main_arg2) :=
  (Gen.V17_of m outs c main_arg2 (by decide)).trans (main_arg2_at16 m outs c)
theorem main_arg2_at18 : Gen.V18 m outs c (Proc.devRef .tc main_arg2) = Gen.V0 m c (Proc.devRef .tc main_arg2) :=
  (Gen.V18_of m outs c main_arg2 (by decide)).trans (main_arg2_at17 m outs c)
theorem main_arg2_at19 : Gen.V19 m outs c (Proc.devRef .tc main_arg2) = Gen.V0 m c (Proc.devRef .tc main_arg2) :=
  (Gen.V19_of m outs c main_arg2 (by decide)).trans (main_arg2_at18 m outs c)
theorem main_arg2_at20 : Gen.V20 m outs c (Proc.devRef .tc main_arg2) = Gen.V0 m c (Proc.devRef .tc main_arg2) :=
  (Gen.V20_of m outs c main_arg2 (by decide)).trans (main_arg2_at19 m outs c)
theorem main_arg2_at21 : Gen.V21 m outs c (Proc.devRef .tc main_arg2) = Gen.V0 m c (Proc.devRef .tc main_arg2) :=
  (Gen.V21_of m outs c main_arg2 (by decide)).trans (main_arg2_at20 m outs c)
theorem main_arg2_at22 : Gen.V22 m outs c (Proc.devRef .tc main_arg2) = Gen.V0 m c (Proc.devRef .tc main_arg2) :=
  (Gen.V22_of m outs c main_arg2 (by decide)).trans (main_arg2_at21 m outs c)
theorem main_arg2_at23 : Gen.V23 m outs c (Proc.devRef .tc main_arg2) = Gen.V0 m c (Proc.devRef .tc main_arg2) :=
  (Gen.V23_of m outs c main_arg2 (by decide)).trans (main_arg2_at22 m outs c)
theorem main_arg2_at24 : Gen.V24 m outs c (Proc.devRef .tc main_arg2) = Gen.V0 m c (Proc.devRef .tc main_arg2) :=
  (Gen.V24_of m outs c main_arg2 (by decide)).trans (main_arg2_at23 m outs c)
theorem main_arg2_at25 : Gen.V25 m outs c (Proc.devRef .tc main_arg2) = Gen.V0 m c (Proc.devRef .tc main_arg2) :=
  (Gen.V25_of m outs c main_arg2 (by decide)).trans (main_arg2_at24 m outs c)
theorem main_arg2_at26 : Gen.V26 m outs c (Proc.devRef .tc main_arg2) = Gen.V0 m c (Proc.devRef .tc main_arg2) :=
  (Gen.V26_of m outs c main_arg2 (by decide)).trans (main_arg2_at25 m outs c)
theorem main_arg2_at27 : Gen.V27 m outs c (Proc.devRef .tc main_arg2) = Gen.V0 m c (Proc.devRef .tc main_arg2) :=
  (Gen.V27_of m outs c main_arg2 (by decide)).trans (main_arg2_at26 m outs c)
theorem main_arg2_at28 : Gen.V28 m outs c (Proc.devRef .tc main_arg2) = Gen.V0 m c (Proc.devRef .tc main_arg2) :=
  (Gen.V28_of m outs c main_arg2 (by decide)).trans (main_arg2_at27 m outs c)
theorem main_arg3_at1 : Gen.V1 m c (Proc.devRef .tc main_arg3) = Gen.V0 m c (Proc.devRef .tc main_arg3) :=
  (Gen.V1_of m c main_arg3 (by decide))
theorem main_arg3_at2 : Gen.V2 m outs c (Proc.devRef .tc main_arg3) = Gen.V0 m c (Proc.devRef .tc main_arg3) :=
  (Gen.V2_of m outs c main_arg3 (by decide)).trans (main_arg3_at1 m c)
theorem main_arg3_at3 : Gen.V3 m outs c (Proc.devRef .tc main_arg3) = Gen.V0 m c (Proc.devRef .tc main_arg3) :=
  (Gen.V3_of m outs c main_arg3 (by decide)).trans (main_arg3_at2 m outs c)
theorem main_arg3_at4 : Gen.V4 m outs c (Proc.devRef .tc main_arg3) = Gen.V0 m c (Proc.devRef .tc main_arg3) :=
  (Gen.V4_of m outs c main_arg3 (by decide)).trans (main_arg3_at3 m outs c)
theorem main_arg3_at5 : Gen.V5 m outs c (Proc.devRef .tc main_arg3) = Gen.V0 m c (Proc.devRef .tc main_arg3) :=
  (Gen.V5_of m outs c main_arg3 (by decide)).trans (main_arg3_at4 m outs c)
theorem main_arg3_at6 : Gen.V6 m outs c (Proc.devRef .tc main_arg3) = Gen.V0 m c (Proc.devRef .tc main_arg3) :=
  (Gen.V6_of m outs c main_arg3 (by decide)).trans (main_arg3_at5 m outs c)
theorem main_arg3_at7 : Gen.V7 m outs c (Proc.devRef .tc main_arg3) = Gen.V0 m c (Proc.devRef .tc main_arg3) :=
  (Gen.V7_of m outs c main_arg3 (by decide)).trans (main_arg3_at6 m outs c)
theorem main_arg3_at8 : Gen.V8 m outs c (Proc.devRef .tc main_arg3) = Gen.V0 m c (Proc.devRef .tc main_arg3) :=
  (Gen.V8_of m outs c main_arg3 (by decide)).trans (main_arg3_at7 m outs c)
theorem main_arg3_at9 : Gen.V9 m outs c (Proc.devRef .tc main_arg3) = Gen.V0 m c (Proc.devRef .tc main_arg3) :=
  (Gen.V9_of m outs c main_arg3 (by decide)).trans (main_arg3_at8 m outs c)
theorem main_arg3_at10 : Gen.V10 m outs c (Proc.devRef .tc main_arg3) = Gen.V0 m c (Proc.devRef .tc main_arg3) :=
  (Gen.V10_of m outs c main_arg3 (by decide)).trans (main_arg3_at9 m outs c)
theorem main_arg3_at11 : Gen.V11 m outs c (Proc.devRef .tc main_arg3) = Gen.V0 m c (Proc.devRef .tc main_arg3) :=
  (Gen.V11_of m outs c main_arg3 (by decide)).trans (main_arg3_at10 m outs c)
theorem main_arg3_at12 : Gen.V12 m outs c (Proc.devRef .tc main_arg3) = Gen.V0 m c (Proc.devRef .tc main_arg3) :=
  (Gen.V12_of m outs c main_arg3 (by decide)).trans (main_arg3_at11 m outs c)
theorem main_arg3_at13 : Gen.V13 m outs c (Proc.devRef .tc main_arg3) = Gen.V0 m c (Proc.devRef .tc main_arg3) :=
  (Gen.V13_of m outs c main_arg3 (by decide)).trans (main_arg3_at12 m outs c)
theorem main_arg3_at14 : Gen.V14 m outs c (Proc.devRef .tc main_arg3) = Gen.V0 m c (Proc.devRef .tc main_arg3) :=
  (Gen.V14_of m outs c main_arg3 (by decide)).trans (main_arg3_at13 m outs c)
theorem main_arg3_at15 : Gen.V15 m outs c (Proc.devRef .tc main_arg3) = Gen.V0 m c (Proc.devRef .tc main_arg3) :=
  (Gen.V15_of m outs c main_arg3 (by decide)).trans (main_arg3_at14 m outs c)
theorem main_arg3_at16 : Gen.V16 m outs c (Proc.devRef .tc main_arg3) = Gen.V0 m c (Proc.devRef .tc main_arg3) :=
  (Gen.V16_of m outs c main_arg3 (by decide)).trans (main_arg3_at15 m outs c)
theorem main_arg3_at17 : Gen.V17 m outs c (Proc.devRef .tc main_arg3) = Gen.V0 m c (Proc.devRef .tc main_arg3) :=
  (Gen.V17_of m outs c main_arg3 (by decide)).trans (main_arg3_at16 m outs c)
theorem main_arg3_at18 : Gen.V18 m outs c (Proc.devRef .tc main_arg3) = Gen.V0 m c (Proc.devRef .tc main_arg3) :=
  (Gen.V18_of m outs c main_arg3 (by decide)).trans (main_arg3_at17 m outs c)
theorem main_arg3_at19 : Gen.V19 m outs c (Proc.devRef .tc main_arg3) = Gen.V0 m c (Proc.devRef .tc main_arg3) :=
  (Gen.V19_of m outs c main_arg3 (by decide)).trans (main_arg3_at18 m outs c)
theorem main_arg3_at20 : Gen.V20 m outs c (Proc.devRef .tc main_arg3) = Gen.V0 m c (Proc.devRef .tc main_arg3) :=
  (Gen.V20_of m outs c main_arg3 (by decide)).trans (main_arg3_at19 m outs c)
theorem main_arg3_at21 : Gen.V21 m outs c (Proc.devRef .tc main_arg3) = Gen.V0 m c (Proc.devRef .tc main_arg3) :=
  (Gen.V21_of m outs c main_arg3 (by decide)).trans (main_arg3_at20 m outs c)
theorem main_arg3_at22 : Gen.V22 m outs c (Proc.devRef .tc main_arg3) = Gen.V0 m c (Proc.devRef .tc main_arg3) :=
  (Gen.V22_of m outs c main_arg3 (by decide)).trans (main_arg3_at21 m outs c)
theorem main_arg3_at23 : Gen.V23 m outs c (Proc.devRef .tc main_arg3) = Gen.V0 m c (Proc.devRef .tc main_arg3) :=
  (Gen.V23_of m outs c main_arg3 (by decide)).trans (main_arg3_at22 m outs c)
theorem main_arg3_at24 : Gen.V24 m outs c (Proc.devRef .tc main_arg3) = Gen.V0 m c (Proc.devRef .tc main_arg3) :=
  (Gen.V24_of m outs c main_arg3 (by decide)).trans (main_arg3_at23 m outs c)
theorem main_arg3_at25 : Gen.V25 m outs c (Proc.devRef .tc main_arg3) = Gen.V0 m c (Proc.devRef .tc main_arg3) :=
  (Gen.V25_of m outs c main_arg3 (by decide)).trans (main_arg3_at24 m outs c)
theorem main_arg3_at26 : Gen.V26 m outs c (Proc.devRef .tc main_arg3) = Gen.V0 m c (Proc.devRef .tc main_arg3) :=
  (Gen.V26_of m outs c main_arg3 (by decide)).trans (main_arg3_at25 m outs c)
theorem main_arg3_at27 : Gen.V27 m outs c (Proc.devRef .tc main_arg3) = Gen.V0 m c (Proc.devRef .tc main_arg3) :=
  (Gen.V27_of m outs c main_arg3 (by decide)).trans (main_arg3_at26 m outs c)
theorem main_arg3_at28 : Gen.V28 m outs c (Proc.devRef .tc main_arg3) = Gen.V0 m c (Proc.devRef .tc main_arg3) :=
  (Gen.V28_of m outs c main_arg3 (by decide)).trans (main_arg3_at27 m outs c)
theorem main_arg0_at1 : Gen.V1 m c (Proc.devRef .tc main_arg0) = Gen.V0 m c (Proc.devRef .tc main_arg0) := (Gen.V1_of m c main_arg0 (by decide))

/-! ## What each region leaves is what later items read -/
theorem out0_at2 : Gen.V2 m outs c (Proc.devRef .tc main_v11_0) = outs 2 main_v11_0 c :=
  (Function.update_of_ne (StableHlo.devRef_ne_of_ne (by decide)) _ _).trans (Function.update_self _ _ _)
theorem out1_at2 : Gen.V2 m outs c (Proc.devRef .tc main_v11_1) = outs 2 main_v11_1 c :=
  Function.update_self _ _ _
theorem out0_at4 : Gen.V4 m outs c (Proc.devRef .tc main_v19_0) = outs 4 main_v19_0 c :=
  (Function.update_of_ne (StableHlo.devRef_ne_of_ne (by decide)) _ _).trans (Function.update_self _ _ _)
theorem out1_at4 : Gen.V4 m outs c (Proc.devRef .tc main_v19_1) = outs 4 main_v19_1 c :=
  Function.update_self _ _ _
theorem out0_at6 : Gen.V6 m outs c (Proc.devRef .tc main_v27_0) = outs 6 main_v27_0 c :=
  (Function.update_of_ne (StableHlo.devRef_ne_of_ne (by decide)) _ _).trans (Function.update_self _ _ _)
theorem out1_at6 : Gen.V6 m outs c (Proc.devRef .tc main_v27_1) = outs 6 main_v27_1 c :=
  Function.update_self _ _ _
theorem out0_at8 : Gen.V8 m outs c (Proc.devRef .tc main_v35_0) = outs 8 main_v35_0 c :=
  (Function.update_of_ne (StableHlo.devRef_ne_of_ne (by decide)) _ _).trans (Function.update_self _ _ _)
theorem out1_at8 : Gen.V8 m outs c (Proc.devRef .tc main_v35_1) = outs 8 main_v35_1 c :=
  Function.update_self _ _ _
theorem out0_at10 : Gen.V10 m outs c (Proc.devRef .tc main_v43_0) = outs 10 main_v43_0 c :=
  (Function.update_of_ne (StableHlo.devRef_ne_of_ne (by decide)) _ _).trans (Function.update_self _ _ _)
theorem out1_at10 : Gen.V10 m outs c (Proc.devRef .tc main_v43_1) = outs 10 main_v43_1 c :=
  Function.update_self _ _ _
theorem out0_at12 : Gen.V12 m outs c (Proc.devRef .tc main_v51_0) = outs 12 main_v51_0 c :=
  (Function.update_of_ne (StableHlo.devRef_ne_of_ne (by decide)) _ _).trans (Function.update_self _ _ _)
theorem out1_at12 : Gen.V12 m outs c (Proc.devRef .tc main_v51_1) = outs 12 main_v51_1 c :=
  Function.update_self _ _ _
theorem out0_at14 : Gen.V14 m outs c (Proc.devRef .tc main_v59_0) = outs 14 main_v59_0 c :=
  (Function.update_of_ne (StableHlo.devRef_ne_of_ne (by decide)) _ _).trans (Function.update_self _ _ _)
theorem out1_at14 : Gen.V14 m outs c (Proc.devRef .tc main_v59_1) = outs 14 main_v59_1 c :=
  Function.update_self _ _ _
theorem out0_at16 : Gen.V16 m outs c (Proc.devRef .tc main_v67_0) = outs 16 main_v67_0 c :=
  (Function.update_of_ne (StableHlo.devRef_ne_of_ne (by decide)) _ _).trans (Function.update_self _ _ _)
theorem out1_at16 : Gen.V16 m outs c (Proc.devRef .tc main_v67_1) = outs 16 main_v67_1 c :=
  Function.update_self _ _ _
theorem out0_at18 : Gen.V18 m outs c (Proc.devRef .tc main_v75_0) = outs 18 main_v75_0 c :=
  (Function.update_of_ne (StableHlo.devRef_ne_of_ne (by decide)) _ _).trans (Function.update_self _ _ _)
theorem out1_at18 : Gen.V18 m outs c (Proc.devRef .tc main_v75_1) = outs 18 main_v75_1 c :=
  Function.update_self _ _ _
theorem out0_at20 : Gen.V20 m outs c (Proc.devRef .tc main_v83_0) = outs 20 main_v83_0 c :=
  (Function.update_of_ne (StableHlo.devRef_ne_of_ne (by decide)) _ _).trans (Function.update_self _ _ _)
theorem out1_at20 : Gen.V20 m outs c (Proc.devRef .tc main_v83_1) = outs 20 main_v83_1 c :=
  Function.update_self _ _ _
theorem out0_at22 : Gen.V22 m outs c (Proc.devRef .tc main_v91_0) = outs 22 main_v91_0 c :=
  (Function.update_of_ne (StableHlo.devRef_ne_of_ne (by decide)) _ _).trans (Function.update_self _ _ _)
theorem out1_at22 : Gen.V22 m outs c (Proc.devRef .tc main_v91_1) = outs 22 main_v91_1 c :=
  Function.update_self _ _ _
theorem out0_at24 : Gen.V24 m outs c (Proc.devRef .tc main_v99_0) = outs 24 main_v99_0 c :=
  (Function.update_of_ne (StableHlo.devRef_ne_of_ne (by decide)) _ _).trans (Function.update_self _ _ _)
theorem out1_at24 : Gen.V24 m outs c (Proc.devRef .tc main_v99_1) = outs 24 main_v99_1 c :=
  Function.update_self _ _ _
theorem out0_at26 : Gen.V26 m outs c (Proc.devRef .tc main_v107_0) = outs 26 main_v107_0 c :=
  (Function.update_of_ne (StableHlo.devRef_ne_of_ne (by decide)) _ _).trans (Function.update_self _ _ _)
theorem out1_at26 : Gen.V26 m outs c (Proc.devRef .tc main_v107_1) = outs 26 main_v107_1 c :=
  Function.update_self _ _ _
theorem out0_at28 : Gen.V28 m outs c (Proc.devRef .tc main_v115_0) = outs 28 main_v115_0 c :=
  (Function.update_of_ne (StableHlo.devRef_ne_of_ne (by decide)) _ _).trans (Function.update_self _ _ _)
theorem out1_at28 : Gen.V28 m outs c (Proc.devRef .tc main_v115_1) = outs 28 main_v115_1 c :=
  Function.update_self _ _ _

/-! ## The running sum after each stretch -/

theorem sum0 : Gen.V1 m c (Proc.devRef .tc main_v9) = acc0 (Gen.V0 m c (Proc.devRef .tc main_arg0)) (Gen.V0 m c (Proc.devRef .tc main_arg2)) :=
  ops0_v9 (Gen.V0 m c)

theorem sum1 : Gen.V3 m outs c (Proc.devRef .tc main_v18) = acc1 (Gen.V0 m c (Proc.devRef .tc main_arg0)) (Gen.V0 m c (Proc.devRef .tc main_arg2)) (outs 2 main_v11_0 c) := by
  have h := ops1_sum (Gen.V2 m outs c)
  rw [out0_at2 m outs c, Gen.V2_of m outs c main_v9 (by decide), sum0 m c, main_arg2_at2 m outs c] at h
  exact h

theorem sum2 : Gen.V5 m outs c (Proc.devRef .tc main_v26) = acc2 (Gen.V0 m c (Proc.devRef .tc main_arg0)) (Gen.V0 m c (Proc.devRef .tc main_arg2)) (outs 2 main_v11_0 c) (outs 4 main_v19_0 c) := by
  have h := ops2_sum (Gen.V4 m outs c)
  rw [out0_at4 m outs c, Gen.V4_of m outs c main_v18 (by decide), sum1 m outs c, main_arg2_at4 m outs c] at h
  exact h

theorem sum3 : Gen.V7 m outs c (Proc.devRef .tc main_v34) = acc3 (Gen.V0 m c (Proc.devRef .tc main_arg0)) (Gen.V0 m c (Proc.devRef .tc main_arg2)) (outs 2 main_v11_0 c) (outs 4 main_v19_0 c) (outs 6 main_v27_0 c) := by
  have h := ops3_sum (Gen.V6 m outs c)
  rw [out0_at6 m outs c, Gen.V6_of m outs c main_v26 (by decide), sum2 m outs c, main_arg2_at6 m outs c] at h
  exact h

theorem sum4 : Gen.V9 m outs c (Proc.devRef .tc main_v42) = acc4 (Gen.V0 m c (Proc.devRef .tc main_arg0)) (Gen.V0 m c (Proc.devRef .tc main_arg2)) (outs 2 main_v11_0 c) (outs 4 main_v19_0 c) (outs 6 main_v27_0 c) (outs 8 main_v35_0 c) := by
  have h := ops4_sum (Gen.V8 m outs c)
  rw [out0_at8 m outs c, Gen.V8_of m outs c main_v34 (by decide), sum3 m outs c, main_arg2_at8 m outs c] at h
  exact h

theorem sum5 : Gen.V11 m outs c (Proc.devRef .tc main_v50) = acc5 (Gen.V0 m c (Proc.devRef .tc main_arg0)) (Gen.V0 m c (Proc.devRef .tc main_arg2)) (outs 2 main_v11_0 c) (outs 4 main_v19_0 c) (outs 6 main_v27_0 c) (outs 8 main_v35_0 c) (outs 10 main_v43_0 c) := by
  have h := ops5_sum (Gen.V10 m outs c)
  rw [out0_at10 m outs c, Gen.V10_of m outs c main_v42 (by decide), sum4 m outs c, main_arg2_at10 m outs c] at h
  exact h

theorem sum6 : Gen.V13 m outs c (Proc.devRef .tc main_v58) = acc6 (Gen.V0 m c (Proc.devRef .tc main_arg0)) (Gen.V0 m c (Proc.devRef .tc main_arg2)) (outs 2 main_v11_0 c) (outs 4 main_v19_0 c) (outs 6 main_v27_0 c) (outs 8 main_v35_0 c) (outs 10 main_v43_0 c) (outs 12 main_v51_0 c) := by
  have h := ops6_sum (Gen.V12 m outs c)
  rw [out0_at12 m outs c, Gen.V12_of m outs c main_v50 (by decide), sum5 m outs c, main_arg2_at12 m outs c] at h
  exact h

theorem sum7 : Gen.V15 m outs c (Proc.devRef .tc main_v66) = acc7 (Gen.V0 m c (Proc.devRef .tc main_arg0)) (Gen.V0 m c (Proc.devRef .tc main_arg2)) (outs 2 main_v11_0 c) (outs 4 main_v19_0 c) (outs 6 main_v27_0 c) (outs 8 main_v35_0 c) (outs 10 main_v43_0 c) (outs 12 main_v51_0 c) (outs 14 main_v59_0 c) := by
  have h := ops7_sum (Gen.V14 m outs c)
  rw [out0_at14 m outs c, Gen.V14_of m outs c main_v58 (by decide), sum6 m outs c, main_arg2_at14 m outs c] at h
  exact h

theorem sum8 : Gen.V17 m outs c (Proc.devRef .tc main_v74) = acc8 (Gen.V0 m c (Proc.devRef .tc main_arg0)) (Gen.V0 m c (Proc.devRef .tc main_arg2)) (outs 2 main_v11_0 c) (outs 4 main_v19_0 c) (outs 6 main_v27_0 c) (outs 8 main_v35_0 c) (outs 10 main_v43_0 c) (outs 12 main_v51_0 c) (outs 14 main_v59_0 c) (outs 16 main_v67_0 c) := by
  have h := ops8_sum (Gen.V16 m outs c)
  rw [out0_at16 m outs c, Gen.V16_of m outs c main_v66 (by decide), sum7 m outs c, main_arg2_at16 m outs c] at h
  exact h

theorem sum9 : Gen.V19 m outs c (Proc.devRef .tc main_v82) = acc9 (Gen.V0 m c (Proc.devRef .tc main_arg0)) (Gen.V0 m c (Proc.devRef .tc main_arg2)) (outs 2 main_v11_0 c) (outs 4 main_v19_0 c) (outs 6 main_v27_0 c) (outs 8 main_v35_0 c) (outs 10 main_v43_0 c) (outs 12 main_v51_0 c) (outs 14 main_v59_0 c) (outs 16 main_v67_0 c) (outs 18 main_v75_0 c) := by
  have h := ops9_sum (Gen.V18 m outs c)
  rw [out0_at18 m outs c, Gen.V18_of m outs c main_v74 (by decide), sum8 m outs c, main_arg2_at18 m outs c] at h
  exact h

theorem sum10 : Gen.V21 m outs c (Proc.devRef .tc main_v90) = acc10 (Gen.V0 m c (Proc.devRef .tc main_arg0)) (Gen.V0 m c (Proc.devRef .tc main_arg2)) (outs 2 main_v11_0 c) (outs 4 main_v19_0 c) (outs 6 main_v27_0 c) (outs 8 main_v35_0 c) (outs 10 main_v43_0 c) (outs 12 main_v51_0 c) (outs 14 main_v59_0 c) (outs 16 main_v67_0 c) (outs 18 main_v75_0 c) (outs 20 main_v83_0 c) := by
  have h := ops10_sum (Gen.V20 m outs c)
  rw [out0_at20 m outs c, Gen.V20_of m outs c main_v82 (by decide), sum9 m outs c, main_arg2_at20 m outs c] at h
  exact h

theorem sum11 : Gen.V23 m outs c (Proc.devRef .tc main_v98) = acc11 (Gen.V0 m c (Proc.devRef .tc main_arg0)) (Gen.V0 m c (Proc.devRef .tc main_arg2)) (outs 2 main_v11_0 c) (outs 4 main_v19_0 c) (outs 6 main_v27_0 c) (outs 8 main_v35_0 c) (outs 10 main_v43_0 c) (outs 12 main_v51_0 c) (outs 14 main_v59_0 c) (outs 16 main_v67_0 c) (outs 18 main_v75_0 c) (outs 20 main_v83_0 c) (outs 22 main_v91_0 c) := by
  have h := ops11_sum (Gen.V22 m outs c)
  rw [out0_at22 m outs c, Gen.V22_of m outs c main_v90 (by decide), sum10 m outs c, main_arg2_at22 m outs c] at h
  exact h

theorem sum12 : Gen.V25 m outs c (Proc.devRef .tc main_v106) = acc12 (Gen.V0 m c (Proc.devRef .tc main_arg0)) (Gen.V0 m c (Proc.devRef .tc main_arg2)) (outs 2 main_v11_0 c) (outs 4 main_v19_0 c) (outs 6 main_v27_0 c) (outs 8 main_v35_0 c) (outs 10 main_v43_0 c) (outs 12 main_v51_0 c) (outs 14 main_v59_0 c) (outs 16 main_v67_0 c) (outs 18 main_v75_0 c) (outs 20 main_v83_0 c) (outs 22 main_v91_0 c) (outs 24 main_v99_0 c) := by
  have h := ops12_sum (Gen.V24 m outs c)
  rw [out0_at24 m outs c, Gen.V24_of m outs c main_v98 (by decide), sum11 m outs c, main_arg2_at24 m outs c] at h
  exact h

theorem sum13 : Gen.V27 m outs c (Proc.devRef .tc main_v114) = acc13 (Gen.V0 m c (Proc.devRef .tc main_arg0)) (Gen.V0 m c (Proc.devRef .tc main_arg2)) (outs 2 main_v11_0 c) (outs 4 main_v19_0 c) (outs 6 main_v27_0 c) (outs 8 main_v35_0 c) (outs 10 main_v43_0 c) (outs 12 main_v51_0 c) (outs 14 main_v59_0 c) (outs 16 main_v67_0 c) (outs 18 main_v75_0 c) (outs 20 main_v83_0 c) (outs 22 main_v91_0 c) (outs 24 main_v99_0 c) (outs 26 main_v107_0 c) := by
  have h := ops13_sum (Gen.V26 m outs c)
  rw [out0_at26 m outs c, Gen.V26_of m outs c main_v106 (by decide), sum12 m outs c, main_arg2_at26 m outs c] at h
  exact h

/-- The result buffer after the last item is the result function of the arguments' launch contents and the
    fourteen vectors the regions leave. -/
theorem V29_result : Gen.V29 m outs c (Proc.devRef .tc main_v125) = result (Gen.V0 m c (Proc.devRef .tc main_arg0)) (Gen.V0 m c (Proc.devRef .tc main_arg2)) (Gen.V0 m c (Proc.devRef .tc main_arg3)) (outs 2 main_v11_0 c) (outs 4 main_v19_0 c) (outs 6 main_v27_0 c) (outs 8 main_v35_0 c) (outs 10 main_v43_0 c) (outs 12 main_v51_0 c) (outs 14 main_v59_0 c) (outs 16 main_v67_0 c) (outs 18 main_v75_0 c) (outs 20 main_v83_0 c) (outs 22 main_v91_0 c) (outs 24 main_v99_0 c) (outs 26 main_v107_0 c) (outs 28 main_v115_0 c) := by
  have h := ops14_sum (Gen.V28 m outs c)
  rw [out0_at28 m outs c, Gen.V28_of m outs c main_v114 (by decide), sum13 m outs c, main_arg2_at28 m outs c, main_arg3_at28 m outs c] at h
  exact h

/-! ## What each region reads on entry -/

theorem tx0_at1 : Gen.V1 m c (Proc.devRef .tc main_v3) = tx0 (Gen.V0 m c (Proc.devRef .tc main_arg0)) :=
  ops0_v3 (Gen.V0 m c)
theorem ls_at1 : Gen.V1 m c (Proc.devRef .tc main_v0)
    = ((truncf .bf16 · bitsLt_bf16_f32) : (⟨S16384x16384, .f32⟩ : BufTy).Contents (Elt F) → (⟨S16384x16384, .bf16⟩ : BufTy).Contents (Elt F)) (Gen.V0 m c (Proc.devRef .tc main_arg1)) :=
  ops0_v0 (Gen.V0 m c)
theorem tx0bf_at1 : Gen.V1 m c (Proc.devRef .tc main_v10)
    = ((truncf .bf16 · bitsLt_bf16_f32) : (⟨S16384x16, .f32⟩ : BufTy).Contents (Elt F) → (⟨S16384x16, .bf16⟩ : BufTy).Contents (Elt F)) (tx0 (Gen.V0 m c (Proc.devRef .tc main_arg0))) :=
  ops0_v10 (Gen.V0 m c)
theorem ls_keep2 : Gen.V2 m outs c (Proc.devRef .tc main_v0) = Gen.V1 m c (Proc.devRef .tc main_v0) :=
  (Gen.V2_of m outs c main_v0 (by decide))
theorem ls_keep3 : Gen.V3 m outs c (Proc.devRef .tc main_v0) = Gen.V1 m c (Proc.devRef .tc main_v0) :=
  (Gen.V3_of m outs c main_v0 (by decide)).trans (ls_keep2 m outs c)
theorem ls_keep4 : Gen.V4 m outs c (Proc.devRef .tc main_v0) = Gen.V1 m c (Proc.devRef .tc main_v0) :=
  (Gen.V4_of m outs c main_v0 (by decide)).trans (ls_keep3 m outs c)
theorem ls_keep5 : Gen.V5 m outs c (Proc.devRef .tc main_v0) = Gen.V1 m c (Proc.devRef .tc main_v0) :=
  (Gen.V5_of m outs c main_v0 (by decide)).trans (ls_keep4 m outs c)
theorem ls_keep6 : Gen.V6 m outs c (Proc.devRef .tc main_v0) = Gen.V1 m c (Proc.devRef .tc main_v0) :=
  (Gen.V6_of m outs c main_v0 (by decide)).trans (ls_keep5 m outs c)
theorem ls_keep7 : Gen.V7 m outs c (Proc.devRef .tc main_v0) = Gen.V1 m c (Proc.devRef .tc main_v0) :=
  (Gen.V7_of m outs c main_v0 (by decide)).trans (ls_keep6 m outs c)
theorem ls_keep8 : Gen.V8 m outs c (Proc.devRef .tc main_v0) = Gen.V1 m c (Proc.devRef .tc main_v0) :=
  (Gen.V8_of m outs c main_v0 (by decide)).trans (ls_keep7 m outs c)
theorem ls_keep9 : Gen.V9 m outs c (Proc.devRef .tc main_v0) = Gen.V1 m c (Proc.devRef .tc main_v0) :=
  (Gen.V9_of m outs c main_v0 (by decide)).trans (ls_keep8 m outs c)
theorem ls_keep10 : Gen.V10 m outs c (Proc.devRef .tc main_v0) = Gen.V1 m c (Proc.devRef .tc main_v0) :=
  (Gen.V10_of m outs c main_v0 (by decide)).trans (ls_keep9 m outs c)
theorem ls_keep11 : Gen.V11 m outs c (Proc.devRef .tc main_v0) = Gen.V1 m c (Proc.devRef .tc main_v0) :=
  (Gen.V11_of m outs c main_v0 (by decide)).trans (ls_keep10 m outs c)
theorem ls_keep12 : Gen.V12 m outs c (Proc.devRef .tc main_v0) = Gen.V1 m c (Proc.devRef .tc main_v0) :=
  (Gen.V12_of m outs c main_v0 (by decide)).trans (ls_keep11 m outs c)
theorem ls_keep13 : Gen.V13 m outs c (Proc.devRef .tc main_v0) = Gen.V1 m c (Proc.devRef .tc main_v0) :=
  (Gen.V13_of m outs c main_v0 (by decide)).trans (ls_keep12 m outs c)
theorem ls_keep14 : Gen.V14 m outs c (Proc.devRef .tc main_v0) = Gen.V1 m c (Proc.devRef .tc main_v0) :=
  (Gen.V14_of m outs c main_v0 (by decide)).trans (ls_keep13 m outs c)
theorem ls_keep15 : Gen.V15 m outs c (Proc.devRef .tc main_v0) = Gen.V1 m c (Proc.devRef .tc main_v0) :=
  (Gen.V15_of m outs c main_v0 (by decide)).trans (ls_keep14 m outs c)
theorem ls_keep16 : Gen.V16 m outs c (Proc.devRef .tc main_v0) = Gen.V1 m c (Proc.devRef .tc main_v0) :=
  (Gen.V16_of m outs c main_v0 (by decide)).trans (ls_keep15 m outs c)
theorem ls_keep17 : Gen.V17 m outs c (Proc.devRef .tc main_v0) = Gen.V1 m c (Proc.devRef .tc main_v0) :=
  (Gen.V17_of m outs c main_v0 (by decide)).trans (ls_keep16 m outs c)
theorem ls_keep18 : Gen.V18 m outs c (Proc.devRef .tc main_v0) = Gen.V1 m c (Proc.devRef .tc main_v0) :=
  (Gen.V18_of m outs c main_v0 (by decide)).trans (ls_keep17 m outs c)
theorem ls_keep19 : Gen.V19 m outs c (Proc.devRef .tc main_v0) = Gen.V1 m c (Proc.devRef .tc main_v0) :=
  (Gen.V19_of m outs c main_v0 (by decide)).trans (ls_keep18 m outs c)
theorem ls_keep20 : Gen.V20 m outs c (Proc.devRef .tc main_v0) = Gen.V1 m c (Proc.devRef .tc main_v0) :=
  (Gen.V20_of m outs c main_v0 (by decide)).trans (ls_keep19 m outs c)
theorem ls_keep21 : Gen.V21 m outs c (Proc.devRef .tc main_v0) = Gen.V1 m c (Proc.devRef .tc main_v0) :=
  (Gen.V21_of m outs c main_v0 (by decide)).trans (ls_keep20 m outs c)
theorem ls_keep22 : Gen.V22 m outs c (Proc.devRef .tc main_v0) = Gen.V1 m c (Proc.devRef .tc main_v0) :=
  (Gen.V22_of m outs c main_v0 (by decide)).trans (ls_keep21 m outs c)
theorem ls_keep23 : Gen.V23 m outs c (Proc.devRef .tc main_v0) = Gen.V1 m c (Proc.devRef .tc main_v0) :=
  (Gen.V23_of m outs c main_v0 (by decide)).trans (ls_keep22 m outs c)
theorem ls_keep24 : Gen.V24 m outs c (Proc.devRef .tc main_v0) = Gen.V1 m c (Proc.devRef .tc main_v0) :=
  (Gen.V24_of m outs c main_v0 (by decide)).trans (ls_keep23 m outs c)
theorem ls_keep25 : Gen.V25 m outs c (Proc.devRef .tc main_v0) = Gen.V1 m c (Proc.devRef .tc main_v0) :=
  (Gen.V25_of m outs c main_v0 (by decide)).trans (ls_keep24 m outs c)
theorem ls_keep26 : Gen.V26 m outs c (Proc.devRef .tc main_v0) = Gen.V1 m c (Proc.devRef .tc main_v0) :=
  (Gen.V26_of m outs c main_v0 (by decide)).trans (ls_keep25 m outs c)
theorem ls_keep27 : Gen.V27 m outs c (Proc.devRef .tc main_v0) = Gen.V1 m c (Proc.devRef .tc main_v0) :=
  (Gen.V27_of m outs c main_v0 (by decide)).trans (ls_keep26 m outs c)
theorem tx0_at3 : Gen.V3 m outs c (Proc.devRef .tc main_v3) = tx0 (Gen.V0 m c (Proc.devRef .tc main_arg0)) :=
  (Gen.V3_of m outs c main_v3 (by decide)).trans ((Gen.V2_of m outs c main_v3 (by decide)).trans (tx0_at1 m c))
/-- Region 1 reads the matrix copy the first stretch made. -/
theorem region1_op1 : Gen.V3 m outs c (Proc.devRef .tc main_v0) = Gen.V1 m c (Proc.devRef .tc main_v0) := ls_keep3 m outs c
/-- Region 1's second operand is the rounded copy the previous region left. -/
theorem region1_op2 : Gen.V3 m outs c (Proc.devRef .tc main_v11_1) = outs 2 main_v11_1 c :=
  (Gen.V3_of m outs c main_v11_1 (by decide)).trans (out1_at2 m outs c)
/-- Region 1's third operand is still the tiled input. -/
theorem region1_op3 : Gen.V3 m outs c (Proc.devRef .tc main_v3) = tx0 (Gen.V0 m c (Proc.devRef .tc main_arg0)) := tx0_at3 m outs c
/-- Region 2 reads the matrix copy the first stretch made. -/
theorem region2_op1 : Gen.V5 m outs c (Proc.devRef .tc main_v0) = Gen.V1 m c (Proc.devRef .tc main_v0) := ls_keep5 m outs c
/-- Region 2's second operand is the rounded copy the previous region left. -/
theorem region2_op2 : Gen.V5 m outs c (Proc.devRef .tc main_v19_1) = outs 4 main_v19_1 c :=
  (Gen.V5_of m outs c main_v19_1 (by decide)).trans (out1_at4 m outs c)
/-- Region 2's third operand is the vector the region before the previous one left. -/
theorem region2_op3 : Gen.V5 m outs c (Proc.devRef .tc main_v11_0) = outs 2 main_v11_0 c :=
  (Gen.V5_of m outs c main_v11_0 (by decide)).trans ((Gen.V4_of m outs c main_v11_0 (by decide)).trans ((Gen.V3_of m outs c main_v11_0 (by decide)).trans (out0_at2 m outs c)))
/-- Region 3 reads the matrix copy the first stretch made. -/
theorem region3_op1 : Gen.V7 m outs c (Proc.devRef .tc main_v0) = Gen.V1 m c (Proc.devRef .tc main_v0) := ls_keep7 m outs c
/-- Region 3's second operand is the rounded copy the previous region left. -/
theorem region3_op2 : Gen.V7 m outs c (Proc.devRef .tc main_v27_1) = outs 6 main_v27_1 c :=
  (Gen.V7_of m outs c main_v27_1 (by decide)).trans (out1_at6 m outs c)
/-- Region 3's third operand is the vector the region before the previous one left. -/
theorem region3_op3 : Gen.V7 m outs c (Proc.devRef .tc main_v19_0) = outs 4 main_v19_0 c :=
  (Gen.V7_of m outs c main_v19_0 (by decide)).trans ((Gen.V6_of m outs c main_v19_0 (by decide)).trans ((Gen.V5_of m outs c main_v19_0 (by decide)).trans (out0_at4 m outs c)))
/-- Region 4 reads the matrix copy the first stretch made. -/
theorem region4_op1 : Gen.V9 m outs c (Proc.devRef .tc main_v0) = Gen.V1 m c (Proc.devRef .tc main_v0) := ls_keep9 m outs c
/-- Region 4's second operand is the rounded copy the previous region left. -/
theorem region4_op2 : Gen.V9 m outs c (Proc.devRef .tc main_v35_1) = outs 8 main_v35_1 c :=
  (Gen.V9_of m outs c main_v35_1 (by decide)).trans (out1_at8 m outs c)
/-- Region 4's third operand is the vector the region before the previous one left. -/
theorem region4_op3 : Gen.V9 m outs c (Proc.devRef .tc main_v27_0) = outs 6 main_v27_0 c :=
  (Gen.V9_of m outs c main_v27_0 (by decide)).trans ((Gen.V8_of m outs c main_v27_0 (by decide)).trans ((Gen.V7_of m outs c main_v27_0 (by decide)).trans (out0_at6 m outs c)))
/-- Region 5 reads the matrix copy the first stretch made. -/
theorem region5_op1 : Gen.V11 m outs c (Proc.devRef .tc main_v0) = Gen.V1 m c (Proc.devRef .tc main_v0) := ls_keep11 m outs c
/-- Region 5's second operand is the rounded copy the previous region left. -/
theorem region5_op2 : Gen.V11 m outs c (Proc.devRef .tc main_v43_1) = outs 10 main_v43_1 c :=
  (Gen.V11_of m outs c main_v43_1 (by decide)).trans (out1_at10 m outs c)
/-- Region 5's third operand is the vector the region before the previous one left. -/
theorem region5_op3 : Gen.V11 m outs c (Proc.devRef .tc main_v35_0) = outs 8 main_v35_0 c :=
  (Gen.V11_of m outs c main_v35_0 (by decide)).trans ((Gen.V10_of m outs c main_v35_0 (by decide)).trans ((Gen.V9_of m outs c main_v35_0 (by decide)).trans (out0_at8 m outs c)))
/-- Region 6 reads the matrix copy the first stretch made. -/
theorem region6_op1 : Gen.V13 m outs c (Proc.devRef .tc main_v0) = Gen.V1 m c (Proc.devRef .tc main_v0) := ls_keep13 m outs c
/-- Region 6's second operand is the rounded copy the previous region left. -/
theorem region6_op2 : Gen.V13 m outs c (Proc.devRef .tc main_v51_1) = outs 12 main_v51_1 c :=
  (Gen.V13_of m outs c main_v51_1 (by decide)).trans (out1_at12 m outs c)
/-- Region 6's third operand is the vector the region before the previous one left. -/
theorem region6_op3 : Gen.V13 m outs c (Proc.devRef .tc main_v43_0) = outs 10 main_v43_0 c :=
  (Gen.V13_of m outs c main_v43_0 (by decide)).trans ((Gen.V12_of m outs c main_v43_0 (by decide)).trans ((Gen.V11_of m outs c main_v43_0 (by decide)).trans (out0_at10 m outs c)))
/-- Region 7 reads the matrix copy the first stretch made. -/
theorem region7_op1 : Gen.V15 m outs c (Proc.devRef .tc main_v0) = Gen.V1 m c (Proc.devRef .tc main_v0) := ls_keep15 m outs c
/-- Region 7's second operand is the rounded copy the previous region left. -/
theorem region7_op2 : Gen.V15 m outs c (Proc.devRef .tc main_v59_1) = outs 14 main_v59_1 c :=
  (Gen.V15_of m outs c main_v59_1 (by decide)).trans (out1_at14 m outs c)
/-- Region 7's third operand is the vector the region before the previous one left. -/
theorem region7_op3 : Gen.V15 m outs c (Proc.devRef .tc main_v51_0) = outs 12 main_v51_0 c :=
  (Gen.V15_of m outs c main_v51_0 (by decide)).trans ((Gen.V14_of m outs c main_v51_0 (by decide)).trans ((Gen.V13_of m outs c main_v51_0 (by decide)).trans (out0_at12 m outs c)))
/-- Region 8 reads the matrix copy the first stretch made. -/
theorem region8_op1 : Gen.V17 m outs c (Proc.devRef .tc main_v0) = Gen.V1 m c (Proc.devRef .tc main_v0) := ls_keep17 m outs c
/-- Region 8's second operand is the rounded copy the previous region left. -/
theorem region8_op2 : Gen.V17 m outs c (Proc.devRef .tc main_v67_1) = outs 16 main_v67_1 c :=
  (Gen.V17_of m outs c main_v67_1 (by decide)).trans (out1_at16 m outs c)
/-- Region 8's third operand is the vector the region before the previous one left. -/
theorem region8_op3 : Gen.V17 m outs c (Proc.devRef .tc main_v59_0) = outs 14 main_v59_0 c :=
  (Gen.V17_of m outs c main_v59_0 (by decide)).trans ((Gen.V16_of m outs c main_v59_0 (by decide)).trans ((Gen.V15_of m outs c main_v59_0 (by decide)).trans (out0_at14 m outs c)))
/-- Region 9 reads the matrix copy the first stretch made. -/
theorem region9_op1 : Gen.V19 m outs c (Proc.devRef .tc main_v0) = Gen.V1 m c (Proc.devRef .tc main_v0) := ls_keep19 m outs c
/-- Region 9's second operand is the rounded copy the previous region left. -/
theorem region9_op2 : Gen.V19 m outs c (Proc.devRef .tc main_v75_1) = outs 18 main_v75_1 c :=
  (Gen.V19_of m outs c main_v75_1 (by decide)).trans (out1_at18 m outs c)
/-- Region 9's third operand is the vector the region before the previous one left. -/
theorem region9_op3 : Gen.V19 m outs c (Proc.devRef .tc main_v67_0) = outs 16 main_v67_0 c :=
  (Gen.V19_of m outs c main_v67_0 (by decide)).trans ((Gen.V18_of m outs c main_v67_0 (by decide)).trans ((Gen.V17_of m outs c main_v67_0 (by decide)).trans (out0_at16 m outs c)))
/-- Region 10 reads the matrix copy the first stretch made. -/
theorem region10_op1 : Gen.V21 m outs c (Proc.devRef .tc main_v0) = Gen.V1 m c (Proc.devRef .tc main_v0) := ls_keep21 m outs c
/-- Region 10's second operand is the rounded copy the previous region left. -/
theorem region10_op2 : Gen.V21 m outs c (Proc.devRef .tc main_v83_1) = outs 20 main_v83_1 c :=
  (Gen.V21_of m outs c main_v83_1 (by decide)).trans (out1_at20 m outs c)
/-- Region 10's third operand is the vector the region before the previous one left. -/
theorem region10_op3 : Gen.V21 m outs c (Proc.devRef .tc main_v75_0) = outs 18 main_v75_0 c :=
  (Gen.V21_of m outs c main_v75_0 (by decide)).trans ((Gen.V20_of m outs c main_v75_0 (by decide)).trans ((Gen.V19_of m outs c main_v75_0 (by decide)).trans (out0_at18 m outs c)))
/-- Region 11 reads the matrix copy the first stretch made. -/
theorem region11_op1 : Gen.V23 m outs c (Proc.devRef .tc main_v0) = Gen.V1 m c (Proc.devRef .tc main_v0) := ls_keep23 m outs c
/-- Region 11's second operand is the rounded copy the previous region left. -/
theorem region11_op2 : Gen.V23 m outs c (Proc.devRef .tc main_v91_1) = outs 22 main_v91_1 c :=
  (Gen.V23_of m outs c main_v91_1 (by decide)).trans (out1_at22 m outs c)
/-- Region 11's third operand is the vector the region before the previous one left. -/
theorem region11_op3 : Gen.V23 m outs c (Proc.devRef .tc main_v83_0) = outs 20 main_v83_0 c :=
  (Gen.V23_of m outs c main_v83_0 (by decide)).trans ((Gen.V22_of m outs c main_v83_0 (by decide)).trans ((Gen.V21_of m outs c main_v83_0 (by decide)).trans (out0_at20 m outs c)))
/-- Region 12 reads the matrix copy the first stretch made. -/
theorem region12_op1 : Gen.V25 m outs c (Proc.devRef .tc main_v0) = Gen.V1 m c (Proc.devRef .tc main_v0) := ls_keep25 m outs c
/-- Region 12's second operand is the rounded copy the previous region left. -/
theorem region12_op2 : Gen.V25 m outs c (Proc.devRef .tc main_v99_1) = outs 24 main_v99_1 c :=
  (Gen.V25_of m outs c main_v99_1 (by decide)).trans (out1_at24 m outs c)
/-- Region 12's third operand is the vector the region before the previous one left. -/
theorem region12_op3 : Gen.V25 m outs c (Proc.devRef .tc main_v91_0) = outs 22 main_v91_0 c :=
  (Gen.V25_of m outs c main_v91_0 (by decide)).trans ((Gen.V24_of m outs c main_v91_0 (by decide)).trans ((Gen.V23_of m outs c main_v91_0 (by decide)).trans (out0_at22 m outs c)))
/-- Region 13 reads the matrix copy the first stretch made. -/
theorem region13_op1 : Gen.V27 m outs c (Proc.devRef .tc main_v0) = Gen.V1 m c (Proc.devRef .tc main_v0) := ls_keep27 m outs c
/-- Region 13's second operand is the rounded copy the previous region left. -/
theorem region13_op2 : Gen.V27 m outs c (Proc.devRef .tc main_v107_1) = outs 26 main_v107_1 c :=
  (Gen.V27_of m outs c main_v107_1 (by decide)).trans (out1_at26 m outs c)
/-- Region 13's third operand is the vector the region before the previous one left. -/
theorem region13_op3 : Gen.V27 m outs c (Proc.devRef .tc main_v99_0) = outs 24 main_v99_0 c :=
  (Gen.V27_of m outs c main_v99_0 (by decide)).trans ((Gen.V26_of m outs c main_v99_0 (by decide)).trans ((Gen.V25_of m outs c main_v99_0 (by decide)).trans (out0_at24 m outs c)))

end Cert.KernelIdeal.HostValue
end
-- ==== Proof.HostRef.lean ====
import proofs.«108570_j29480655520371_2_alg».proof.Proof.Gen.ReferenceIdeal.Run

set_option maxRecDepth 8192

noncomputable section

namespace Cert.ReferenceIdeal.HostValue

open Cert.ReferenceIdeal Cert.ReferenceIdeal.Gen Cert.ReferenceIdeal.Value
open Idealize.ShloMosaic Idealize.ShloMosaic.TcCoe Idealize.SL.Sem Idealize.ShloMosaic.StableHlo

variable {F : FTy → Type} [FloatOps F]

/-- The input tiled eight times along the rows: reshape, broadcast along a new leading axis, reshape. -/
def tx0 (x : (⟨S2048x16, .f32⟩ : BufTy).Contents (Elt F)) : (⟨S16384x16, .f32⟩ : BufTy).Contents (Elt F) :=
  shapeCast _ (broadcastInDim S8x2048x1x16 ![0, 1, 2, 3] bcast_S1x2048x1x16_S8x2048x1x16_0_1_2_3 (shapeCast _ x shapeCasts_S2048x16_S1x2048x1x16)) shapeCasts_S8x2048x1x16_S16384x16

/-- One weight matrix of the stack: the slice at offset `s`, with its unit axis dropped. -/
def wsl (W : (⟨S15x128x32, .f32⟩ : BufTy).Contents (Elt F)) (s : Fin 3 → ℕ) (h : S15x128x32.Slices s S1x128x32) :
    (⟨S128x32, .f32⟩ : BufTy).Contents (Elt F) :=
  shapeCast _ (extractStridedSlice S1x128x32 s W h) shapeCasts_S1x128x32_S128x32

/-- The projection of one vector: regroup the eight row blocks side by side, then multiply by a weight matrix. -/
def proj (T : (⟨S16384x16, .f32⟩ : BufTy).Contents (Elt F)) (Wk : (⟨S128x32, .f32⟩ : BufTy).Contents (Elt F)) :
    (⟨S2048x32, .f32⟩ : BufTy).Contents (Elt F) :=
  Host.dotGeneral dot_S2048x128_S128x32_S2048x32_1_0_0_1_n_n none (shapeCast _ (transpose S2048x8x16 [1, 0, 2] (shapeCast _ T shapeCasts_S16384x16_S8x2048x16) transposes_S8x2048x16_S2048x8x16_1_0_2) shapeCasts_S2048x8x16_S2048x128) Wk

/-- The bias row repeated down the rows. -/
def bias (b : (⟨S32, .f32⟩ : BufTy).Contents (Elt F)) : (⟨S2048x32, .f32⟩ : BufTy).Contents (Elt F) :=
  broadcastInDim S2048x32 ![0, 1] bcast_S1x32_S2048x32_0_1 (broadcastInDim S1x32 ![1] bcast_S32_S1x32_1 b)

/-- The running sum of projections: the zeroth term. -/
def acc0 (x : (⟨S2048x16, .f32⟩ : BufTy).Contents (Elt F)) (W : (⟨S15x128x32, .f32⟩ : BufTy).Contents (Elt F)) : (⟨S2048x32, .f32⟩ : BufTy).Contents (Elt F) :=
  proj (tx0 x) (wsl W ![0, 0, 0] slices_S15x128x32_S1x128x32_0_0_0)
/-- The running sum of projections through term 1. -/
def acc1 (x : (⟨S2048x16, .f32⟩ : BufTy).Contents (Elt F)) (W : (⟨S15x128x32, .f32⟩ : BufTy).Contents (Elt F))
    (T1 : (⟨S16384x16, .f32⟩ : BufTy).Contents (Elt F)) : (⟨S2048x32, .f32⟩ : BufTy).Contents (Elt F) :=
  addf (acc0 x W) (proj T1 (wsl W ![1, 0, 0] slices_S15x128x32_S1x128x32_1_0_0))
/-- The running sum of projections through term 2. -/
def acc2 (x : (⟨S2048x16, .f32⟩ : BufTy).Contents (Elt F)) (W : (⟨S15x128x32, .f32⟩ : BufTy).Contents (Elt F))
    (T1 T2 : (⟨S16384x16, .f32⟩ : BufTy).Contents (Elt F)) : (⟨S2048x32, .f32⟩ : BufTy).Contents (Elt F) :=
  addf (acc1 x W T1) (proj T2 (wsl W ![2, 0, 0] slices_S15x128x32_S1x128x32_2_0_0))
/-- The running sum of projections through term 3. -/
def acc3 (x : (⟨S2048x16, .f32⟩ : BufTy).Contents (Elt F)) (W : (⟨S15x128x32, .f32⟩ : BufTy).Contents (Elt F))
    (T1 T2 T3 : (⟨S16384x16, .f32⟩ : BufTy).Contents (Elt F)) : (⟨S2048x32, .f32⟩ : BufTy).Contents (Elt F) :=
  addf (acc2 x W T1 T2) (proj T3 (wsl W ![3, 0, 0] slices_S15x128x32_S1x128x32_3_0_0))
/-- The running sum of projections through term 4. -/
def acc4 (x : (⟨S2048x16, .f32⟩ : BufTy).Contents (Elt F)) (W : (⟨S15x128x32, .f32⟩ : BufTy).Contents (Elt F))
    (T1 T2 T3 T4 : (⟨S16384x16, .f32⟩ : BufTy).Contents (Elt F)) : (⟨S2048x32, .f32⟩ : BufTy).Contents (Elt F) :=
  addf (acc3 x W T1 T2 T3) (proj T4 (wsl W ![4, 0, 0] slices_S15x128x32_S1x128x32_4_0_0))
/-- The running sum of projections through term 5. -/
def acc5 (x : (⟨S2048x16, .f32⟩ : BufTy).Contents (Elt F)) (W : (⟨S15x128x32, .f32⟩ : BufTy).Contents (Elt F))
    (T1 T2 T3 T4 T5 : (⟨S16384x16, .f32⟩ : BufTy).Contents (Elt F)) : (⟨S2048x32, .f32⟩ : BufTy).Contents (Elt F) :=
  addf (acc4 x W T1 T2 T3 T4) (proj T5 (wsl W ![5, 0, 0] slices_S15x128x32_S1x128x32_5_0_0))
/-- The running sum of projections through term 6. -/
def acc6 (x : (⟨S2048x16, .f32⟩ : BufTy).Contents (Elt F)) (W : (⟨S15x128x32, .f32⟩ : BufTy).Contents (Elt F))
    (T1 T2 T3 T4 T5 T6 : (⟨S16384x16, .f32⟩ : BufTy).Contents (Elt F)) : (⟨S2048x32, .f32⟩ : BufTy).Contents (Elt F) :=
  addf (acc5 x W T1 T2 T3 T4 T5) (proj T6 (wsl W ![6, 0, 0] slices_S15x128x32_S1x128x32_6_0_0))
/-- The running sum of projections through term 7. -/
def acc7 (x : (⟨S2048x16, .f32⟩ : BufTy).Contents (Elt F)) (W : (⟨S15x128x32, .f32⟩ : BufTy).Contents (Elt F))
    (T1 T2 T3 T4 T5 T6 T7 : (⟨S16384x16, .f32⟩ : BufTy).Contents (Elt F)) : (⟨S2048x32, .f32⟩ : BufTy).Contents (Elt F) :=
  addf (acc6 x W T1 T2 T3 T4 T5 T6) (proj T7 (wsl W ![7, 0, 0] slices_S15x128x32_S1x128x32_7_0_0))
/-- The running sum of projections through term 8. -/
def acc8 (x : (⟨S2048x16, .f32⟩ : BufTy).Contents (Elt F)) (W : (⟨S15x128x32, .f32⟩ : BufTy).Contents (Elt F))
    (T1 T2 T3 T4 T5 T6 T7 T8 : (⟨S16384x16, .f32⟩ : BufTy).Contents (Elt F)) : (⟨S2048x32, .f32⟩ : BufTy).Contents (Elt F) :=
  addf (acc7 x W T1 T2 T3 T4 T5 T6 T7) (proj T8 (wsl W ![8, 0, 0] slices_S15x128x32_S1x128x32_8_0_0))
/-- The running sum of projections through term 9. -/
def acc9 (x : (⟨S2048x16, .f32⟩ : BufTy).Contents (Elt F)) (W : (⟨S15x128x32, .f32⟩ : BufTy).Contents (Elt F))
    (T1 T2 T3 T4 T5 T6 T7 T8 T9 : (⟨S16384x16, .f32⟩ : BufTy).Contents (Elt F)) : (⟨S2048x32, .f32⟩ : BufTy).Contents (Elt F) :=
  addf (acc8 x W T1 T2 T3 T4 T5 T6 T7 T8) (proj T9 (wsl W ![9, 0, 0] slices_S15x128x32_S1x128x32_9_0_0))
/-- The running sum of projections through term 10. -/
def acc10 (x : (⟨S2048x16, .f32⟩ : BufTy).Contents (Elt F)) (W : (⟨S15x128x32, .f32⟩ : BufTy).Contents (Elt F))
    (T1 T2 T3 T4 T5 T6 T7 T8 T9 T10 : (⟨S16384x16, .f32⟩ : BufTy).Contents (Elt F)) : (⟨S2048x32, .f32⟩ : BufTy).Contents (Elt F) :=
  addf (acc9 x W T1 T2 T3 T4 T5 T6 T7 T8 T9) (proj T10 (wsl W ![10, 0, 0] slices_S15x128x32_S1x128x32_10_0_0))
/-- The running sum of projections through term 11. -/
def acc11 (x : (⟨S2048x16, .f32⟩ : BufTy).Contents (Elt F)) (W : (⟨S15x128x32, .f32⟩ : BufTy).Contents (Elt F))
    (T1 T2 T3 T4 T5 T6 T7 T8 T9 T10 T11 : (⟨S16384x16, .f32⟩ : BufTy).Contents (Elt F)) : (⟨S2048x32, .f32⟩ : BufTy).Contents (Elt F) :=
  addf (acc10 x W T1 T2 T3 T4 T5 T6 T7 T8 T9 T10) (proj T11 (wsl W ![11, 0, 0] slices_S15x128x32_S1x128x32_11_0_0))
/-- The running sum of projections through term 12. -/
def acc12 (x : (⟨S2048x16, .f32⟩ : BufTy).Contents (Elt F)) (W : (⟨S15x128x32, .f32⟩ : BufTy).Contents (Elt F))
    (T1 T2 T3 T4 T5 T6 T7 T8 T9 T10 T11 T12 : (⟨S16384x16, .f32⟩ : BufTy).Contents (Elt F)) : (⟨S2048x32, .f32⟩ : BufTy).Contents (Elt F) :=
  addf (acc11 x W T1 T2 T3 T4 T5 T6 T7 T8 T9 T10 T11) (proj T12 (wsl W ![12, 0, 0] slices_S15x128x32_S1x128x32_12_0_0))
/-- The running sum of projections through term 13. -/
def acc13 (x : (⟨S2048x16, .f32⟩ : BufTy).Contents (Elt F)) (W : (⟨S15x128x32, .f32⟩ : BufTy).Contents (Elt F))
    (T1 T2 T3 T4 T5 T6 T7 T8 T9 T10 T11 T12 T13 : (⟨S16384x16, .f32⟩ : BufTy).Contents (Elt F)) : (⟨S2048x32, .f32⟩ : BufTy).Contents (Elt F) :=
  addf (acc12 x W T1 T2 T3 T4 T5 T6 T7 T8 T9 T10 T11 T12) (proj T13 (wsl W ![13, 0, 0] slices_S15x128x32_S1x128x32_13_0_0))
/-- The running sum of projections through term 14. -/
def acc14 (x : (⟨S2048x16, .f32⟩ : BufTy).Contents (Elt F)) (W : (⟨S15x128x32, .f32⟩ : BufTy).Contents (Elt F))
    (T1 T2 T3 T4 T5 T6 T7 T8 T9 T10 T11 T12 T13 T14 : (⟨S16384x16, .f32⟩ : BufTy).Contents (Elt F)) : (⟨S2048x32, .f32⟩ : BufTy).Contents (Elt F) :=
  addf (acc13 x W T1 T2 T3 T4 T5 T6 T7 T8 T9 T10 T11 T12 T13) (proj T14 (wsl W ![14, 0, 0] slices_S15x128x32_S1x128x32_14_0_0))

/-- The whole result: the fifteen projections summed in order, plus the bias. -/
def result (x : (⟨S2048x16, .f32⟩ : BufTy).Contents (Elt F)) (W : (⟨S15x128x32, .f32⟩ : BufTy).Contents (Elt F))
    (b : (⟨S32, .f32⟩ : BufTy).Contents (Elt F)) (T1 T2 T3 T4 T5 T6 T7 T8 T9 T10 T11 T12 T13 T14 : (⟨S16384x16, .f32⟩ : BufTy).Contents (Elt F)) : (⟨S2048x32, .f32⟩ : BufTy).Contents (Elt F) :=
  addf (acc14 x W T1 T2 T3 T4 T5 T6 T7 T8 T9 T10 T11 T12 T13 T14) (bias b)

/-- One step of the recurrence: twice the matrix applied to the current vector, minus the vector before it. -/
def step (Ls : (⟨S16384x16384, .f32⟩ : BufTy).Contents (Elt F)) (T Tprev : (⟨S16384x16, .f32⟩ : BufTy).Contents (Elt F)) : (⟨S16384x16, .f32⟩ : BufTy).Contents (Elt F) :=
  subf (mulf (broadcastInDim S16384x16 ![] bcast_S_S16384x16 (constant S_ .f32 0x40000000#32)) (Host.dotGeneral dot_S16384x16384_S16384x16_S16384x16_1_0_0_1_n_n none Ls T)) Tprev

/-! ## The run's named vectors are the tiled input, the matrix applied to it, and steps of the recurrence -/

theorem res_tx0 (V0 : Valuation τ sig (Elt F)) : res_main_v2 V0 = tx0 (V0 (Proc.devRef .tc main_arg0)) := rfl
theorem res_tx1 (V0 : Valuation τ sig (Elt F)) :
    res_main_v9 V0 = Host.dotGeneral dot_S16384x16384_S16384x16_S16384x16_1_0_0_1_n_n none (V0 (Proc.devRef .tc main_arg1)) (res_main_v2 V0) := rfl
theorem res_tx2 (V0 : Valuation τ sig (Elt F)) : res_main_v20 V0 = step (V0 (Proc.devRef .tc main_arg1)) (res_main_v9 V0) (res_main_v2 V0) := rfl
theorem res_tx3 (V0 : Valuation τ sig (Elt F)) : res_main_v31 V0 = step (V0 (Proc.devRef .tc main_arg1)) (res_main_v20 V0) (res_main_v9 V0) := rfl
theorem res_tx4 (V0 : Valuation τ sig (Elt F)) : res_main_v42 V0 = step (V0 (Proc.devRef .tc main_arg1)) (res_main_v31 V0) (res_main_v20 V0) := rfl
theorem res_tx5 (V0 : Valuation τ sig (Elt F)) : res_main_v53 V0 = step (V0 (Proc.devRef .tc main_arg1)) (res_main_v42 V0) (res_main_v31 V0) := rfl
theorem res_tx6 (V0 : Valuation τ sig (Elt F)) : res_main_v64 V0 = step (V0 (Proc.devRef .tc main_arg1)) (res_main_v53 V0) (res_main_v42 V0) := rfl
theorem res_tx7 (V0 : Valuation τ sig (Elt F)) : res_main_v75 V0 = step (V0 (Proc.devRef .tc main_arg1)) (res_main_v64 V0) (res_main_v53 V0) := rfl
theorem res_tx8 (V0 : Valuation τ sig (Elt F)) : res_main_v86 V0 = step (V0 (Proc.devRef .tc main_arg1)) (res_main_v75 V0) (res_main_v64 V0) := rfl
theorem res_tx9 (V0 : Valuation τ sig (Elt F)) : res_main_v97 V0 = step (V0 (Proc.devRef .tc main_arg1)) (res_main_v86 V0) (res_main_v75 V0) := rfl
theorem res_tx10 (V0 : Valuation τ sig (Elt F)) : res_main_v108 V0 = step (V0 (Proc.devRef .tc main_arg1)) (res_main_v97 V0) (res_main_v86 V0) := rfl
theorem res_tx11 (V0 : Valuation τ sig (Elt F)) : res_main_v119 V0 = step (V0 (Proc.devRef .tc main_arg1)) (res_main_v108 V0) (res_main_v97 V0) := rfl
theorem res_tx12 (V0 : Valuation τ sig (Elt F)) : res_main_v130 V0 = step (V0 (Proc.devRef .tc main_arg1)) (res_main_v119 V0) (res_main_v108 V0) := rfl
theorem res_tx13 (V0 : Valuation τ sig (Elt F)) : res_main_v141 V0 = step (V0 (Proc.devRef .tc main_arg1)) (res_main_v130 V0) (res_main_v119 V0) := rfl

/-! ## The run's result is the result function of the launch contents and the recurrence's vectors -/

variable (m : (ℓ : Loc nD τ sig) → Buf (Elt F) ℓ) (c : Dev nD)

/-- The first ten projections' sum, as the run names it. -/
theorem res_acc9 (V0 : Valuation τ sig (Elt F)) :
    res_main_v104 V0 = acc9 (V0 (Proc.devRef .tc main_arg0)) (V0 (Proc.devRef .tc main_arg2)) (res_main_v9 V0) (res_main_v20 V0) (res_main_v31 V0) (res_main_v42 V0) (res_main_v53 V0) (res_main_v64 V0) (res_main_v75 V0) (res_main_v86 V0) (res_main_v97 V0) := rfl

theorem run_result :
    addf (addf (addf (addf (addf (addf (res_main_v104 (launchContents m c)) (Host.dotGeneral dot_S2048x128_S128x32_S2048x32_1_0_0_1_n_n none (shapeCast _ (transpose S2048x8x16 [1, 0, 2] (shapeCast _ (res_main_v108 (launchContents m c)) shapeCasts_S16384x16_S8x2048x16) transposes_S8x2048x16_S2048x8x16_1_0_2) shapeCasts_S2048x8x16_S2048x128) (shapeCast _ (extractStridedSlice S1x128x32 ![10, 0, 0] ((launchContents m c) (Proc.devRef .tc main_arg2)) slices_S15x128x32_S1x128x32_10_0_0) shapeCasts_S1x128x32_S128x32))) (Host.dotGeneral dot_S2048x128_S128x32_S2048x32_1_0_0_1_n_n none (shapeCast _ (transpose S2048x8x16 [1, 0, 2] (shapeCast _ (res_main_v119 (launchContents m c)) shapeCasts_S16384x16_S8x2048x16) transposes_S8x2048x16_S2048x8x16_1_0_2) shapeCasts_S2048x8x16_S2048x128) (shapeCast _ (extractStridedSlice S1x128x32 ![11, 0, 0] ((launchContents m c) (Proc.devRef .tc main_arg2)) slices_S15x128x32_S1x128x32_11_0_0) shapeCasts_S1x128x32_S128x32))) (Host.dotGeneral dot_S2048x128_S128x32_S2048x32_1_0_0_1_n_n none (shapeCast _ (transpose S2048x8x16 [1, 0, 2] (shapeCast _ (res_main_v130 (launchContents m c)) shapeCasts_S16384x16_S8x2048x16) transposes_S8x2048x16_S2048x8x16_1_0_2) shapeCasts_S2048x8x16_S2048x128) (shapeCast _ (extractStridedSlice S1x128x32 ![12, 0, 0] ((launchContents m c) (Proc.devRef .tc main_arg2)) slices_S15x128x32_S1x128x32_12_0_0) shapeCasts_S1x128x32_S128x32))) (Host.dotGeneral dot_S2048x128_S128x32_S2048x32_1_0_0_1_n_n none (shapeCast _ (transpose S2048x8x16 [1, 0, 2] (shapeCast _ (res_main_v141 (launchContents m c)) shapeCasts_S16384x16_S8x2048x16) transposes_S8x2048x16_S2048x8x16_1_0_2) shapeCasts_S2048x8x16_S2048x128) (shapeCast _ (extractStridedSlice S1x128x32 ![13, 0, 0] ((launchContents m c) (Proc.devRef .tc main_arg2)) slices_S15x128x32_S1x128x32_13_0_0) shapeCasts_S1x128x32_S128x32))) (Host.dotGeneral dot_S2048x128_S128x32_S2048x32_1_0_0_1_n_n none (shapeCast _ (transpose S2048x8x16 [1, 0, 2] (shapeCast _ (subf (mulf (broadcastInDim S16384x16 ![] bcast_S_S16384x16 (constant S_ .f32 0x40000000#32)) (Host.dotGeneral dot_S16384x16384_S16384x16_S16384x16_1_0_0_1_n_n none ((launchContents m c) (Proc.devRef .tc main_arg1)) (res_main_v141 (launchContents m c)))) (res_main_v130 (launchContents m c))) shapeCasts_S16384x16_S8x2048x16) transposes_S8x2048x16_S2048x8x16_1_0_2) shapeCasts_S2048x8x16_S2048x128) (shapeCast _ (extractStridedSlice S1x128x32 ![14, 0, 0] ((launchContents m c) (Proc.devRef .tc main_arg2)) slices_S15x128x32_S1x128x32_14_0_0) shapeCasts_S1x128x32_S128x32))) (broadcastInDim S2048x32 ![0, 1] bcast_S1x32_S2048x32_0_1 (broadcastInDim S1x32 ![1] bcast_S32_S1x32_1 ((launchContents m c) (Proc.devRef .tc main_arg3))))
      = result ((launchContents m c) (Proc.devRef .tc main_arg0)) ((launchContents m c) (Proc.devRef .tc main_arg2)) ((launchContents m c) (Proc.devRef .tc main_arg3))
          (res_main_v9 (launchContents m c)) (res_main_v20 (launchContents m c)) (res_main_v31 (launchContents m c)) (res_main_v42 (launchContents m c)) (res_main_v53 (launchContents m c)) (res_main_v64 (launchContents m c)) (res_main_v75 (launchContents m c)) (res_main_v86 (launchContents m c)) (res_main_v97 (launchContents m c)) (res_main_v108 (launchContents m c)) (res_main_v119 (launchContents m c)) (res_main_v130 (launchContents m c)) (res_main_v141 (launchContents m c))
          (step ((launchContents m c) (Proc.devRef .tc main_arg1)) (res_main_v141 (launchContents m c)) (res_main_v130 (launchContents m c))) := by
  rw [res_acc9]; rfl

end Cert.ReferenceIdeal.HostValue
end
-- ==== Proof.HostEq.lean ====
import proofs.«108570_j29480655520371_2_alg».proof.Proof.HostKernel
import proofs.«108570_j29480655520371_2_alg».proof.Proof.HostRef

set_option maxRecDepth 8192

noncomputable section

namespace Cert.HostEq

open Idealize.ShloMosaic

variable {F : FTy → Type} [FloatOps F]

/-! The two programs' host-side functions are the same functions: their shape constants have equal values and their
    dimension records have equal fields, so each equation holds by unfolding the names, without opening the products. -/

theorem tx0_eq (x : (⟨Cert.KernelIdeal.S2048x16, .f32⟩ : BufTy).Contents (Elt F)) :
    Cert.KernelIdeal.HostValue.tx0 x = Cert.ReferenceIdeal.HostValue.tx0 x := rfl

theorem wsl_eq (W : (⟨Cert.KernelIdeal.S15x128x32, .f32⟩ : BufTy).Contents (Elt F)) (s : Fin 3 → ℕ) (h : Cert.KernelIdeal.S15x128x32.Slices s Cert.KernelIdeal.S1x128x32) :
    Cert.KernelIdeal.HostValue.wsl W s h = Cert.ReferenceIdeal.HostValue.wsl W s h := rfl

theorem proj_eq (T : (⟨Cert.KernelIdeal.S16384x16, .f32⟩ : BufTy).Contents (Elt F)) (Wk : (⟨Cert.KernelIdeal.S128x32, .f32⟩ : BufTy).Contents (Elt F)) :
    Cert.KernelIdeal.HostValue.proj T Wk = Cert.ReferenceIdeal.HostValue.proj T Wk := rfl

theorem bias_eq (b : (⟨Cert.KernelIdeal.S32, .f32⟩ : BufTy).Contents (Elt F)) :
    Cert.KernelIdeal.HostValue.bias b = Cert.ReferenceIdeal.HostValue.bias b := rfl

theorem acc0_eq (x : (⟨Cert.KernelIdeal.S2048x16, .f32⟩ : BufTy).Contents (Elt F)) (W : (⟨Cert.KernelIdeal.S15x128x32, .f32⟩ : BufTy).Contents (Elt F)) :
    Cert.KernelIdeal.HostValue.acc0 x W = Cert.ReferenceIdeal.HostValue.acc0 x W := rfl
theorem acc1_eq (x : (⟨Cert.KernelIdeal.S2048x16, .f32⟩ : BufTy).Contents (Elt F)) (W : (⟨Cert.KernelIdeal.S15x128x32, .f32⟩ : BufTy).Contents (Elt F)) (T1 : (⟨Cert.KernelIdeal.S16384x16, .f32⟩ : BufTy).Contents (Elt F)) :
    Cert.KernelIdeal.HostValue.acc1 x W T1 = Cert.ReferenceIdeal.HostValue.acc1 x W T1 := rfl
theorem acc2_eq (x : (⟨Cert.KernelIdeal.S2048x16, .f32⟩ : BufTy).Contents (Elt F)) (W : (⟨Cert.KernelIdeal.S15x128x32, .f32⟩ : BufTy).Contents (Elt F)) (T1 T2 : (⟨Cert.KernelIdeal.S16384x16, .f32⟩ : BufTy).Contents (Elt F)) :
    Cert.KernelIdeal.HostValue.acc2 x W T1 T2 = Cert.ReferenceIdeal.HostValue.acc2 x W T1 T2 := rfl
theorem acc3_eq (x : (⟨Cert.KernelIdeal.S2048x16, .f32⟩ : BufTy).Contents (Elt F)) (W : (⟨Cert.KernelIdeal.S15x128x32, .f32⟩ : BufTy).Contents (Elt F)) (T1 T2 T3 : (⟨Cert.KernelIdeal.S16384x16, .f32⟩ : BufTy).Contents (Elt F)) :
    Cert.KernelIdeal.HostValue.acc3 x W T1 T2 T3 = Cert.ReferenceIdeal.HostValue.acc3 x W T1 T2 T3 := rfl
theorem acc4_eq (x : (⟨Cert.KernelIdeal.S2048x16, .f32⟩ : BufTy).Contents (Elt F)) (W : (⟨Cert.KernelIdeal.S15x128x32, .f32⟩ : BufTy).Contents (Elt F)) (T1 T2 T3 T4 : (⟨Cert.KernelIdeal.S16384x16, .f32⟩ : BufTy).Contents (Elt F)) :
    Cert.KernelIdeal.HostValue.acc4 x W T1 T2 T3 T4 = Cert.ReferenceIdeal.HostValue.acc4 x W T1 T2 T3 T4 := rfl
theorem acc5_eq (x : (⟨Cert.KernelIdeal.S2048x16, .f32⟩ : BufTy).Contents (Elt F)) (W : (⟨Cert.KernelIdeal.S15x128x32, .f32⟩ : BufTy).Contents (Elt F)) (T1 T2 T3 T4 T5 : (⟨Cert.KernelIdeal.S16384x16, .f32⟩ : BufTy).Contents (Elt F)) :
    Cert.KernelIdeal.HostValue.acc5 x W T1 T2 T3 T4 T5 = Cert.ReferenceIdeal.HostValue.acc5 x W T1 T2 T3 T4 T5 := rfl
theorem acc6_eq (x : (⟨Cert.KernelIdeal.S2048x16, .f32⟩ : BufTy).Contents (Elt F)) (W : (⟨Cert.KernelIdeal.S15x128x32, .f32⟩ : BufTy).Contents (Elt F)) (T1 T2 T3 T4 T5 T6 : (⟨Cert.KernelIdeal.S16384x16, .f32⟩ : BufTy).Contents (Elt F)) :
    Cert.KernelIdeal.HostValue.acc6 x W T1 T2 T3 T4 T5 T6 = Cert.ReferenceIdeal.HostValue.acc6 x W T1 T2 T3 T4 T5 T6 := rfl
theorem acc7_eq (x : (⟨Cert.KernelIdeal.S2048x16, .f32⟩ : BufTy).Contents (Elt F)) (W : (⟨Cert.KernelIdeal.S15x128x32, .f32⟩ : BufTy).Contents (Elt F)) (T1 T2 T3 T4 T5 T6 T7 : (⟨Cert.KernelIdeal.S16384x16, .f32⟩ : BufTy).Contents (Elt F)) :
    Cert.KernelIdeal.HostValue.acc7 x W T1 T2 T3 T4 T5 T6 T7 = Cert.ReferenceIdeal.HostValue.acc7 x W T1 T2 T3 T4 T5 T6 T7 := rfl
theorem acc8_eq (x : (⟨Cert.KernelIdeal.S2048x16, .f32⟩ : BufTy).Contents (Elt F)) (W : (⟨Cert.KernelIdeal.S15x128x32, .f32⟩ : BufTy).Contents (Elt F)) (T1 T2 T3 T4 T5 T6 T7 T8 : (⟨Cert.KernelIdeal.S16384x16, .f32⟩ : BufTy).Contents (Elt F)) :
    Cert.KernelIdeal.HostValue.acc8 x W T1 T2 T3 T4 T5 T6 T7 T8 = Cert.ReferenceIdeal.HostValue.acc8 x W T1 T2 T3 T4 T5 T6 T7 T8 := rfl
theorem acc9_eq (x : (⟨Cert.KernelIdeal.S2048x16, .f32⟩ : BufTy).Contents (Elt F)) (W : (⟨Cert.KernelIdeal.S15x128x32, .f32⟩ : BufTy).Contents (Elt F)) (T1 T2 T3 T4 T5 T6 T7 T8 T9 : (⟨Cert.KernelIdeal.S16384x16, .f32⟩ : BufTy).Contents (Elt F)) :
    Cert.KernelIdeal.HostValue.acc9 x W T1 T2 T3 T4 T5 T6 T7 T8 T9 = Cert.ReferenceIdeal.HostValue.acc9 x W T1 T2 T3 T4 T5 T6 T7 T8 T9 := rfl
theorem acc10_eq (x : (⟨Cert.KernelIdeal.S2048x16, .f32⟩ : BufTy).Contents (Elt F)) (W : (⟨Cert.KernelIdeal.S15x128x32, .f32⟩ : BufTy).Contents (Elt F)) (T1 T2 T3 T4 T5 T6 T7 T8 T9 T10 : (⟨Cert.KernelIdeal.S16384x16, .f32⟩ : BufTy).Contents (Elt F)) :
    Cert.KernelIdeal.HostValue.acc10 x W T1 T2 T3 T4 T5 T6 T7 T8 T9 T10 = Cert.ReferenceIdeal.HostValue.acc10 x W T1 T2 T3 T4 T5 T6 T7 T8 T9 T10 := rfl
theorem acc11_eq (x : (⟨Cert.KernelIdeal.S2048x16, .f32⟩ : BufTy).Contents (Elt F)) (W : (⟨Cert.KernelIdeal.S15x128x32, .f32⟩ : BufTy).Contents (Elt F)) (T1 T2 T3 T4 T5 T6 T7 T8 T9 T10 T11 : (⟨Cert.KernelIdeal.S16384x16, .f32⟩ : BufTy).Contents (Elt F)) :
    Cert.KernelIdeal.HostValue.acc11 x W T1 T2 T3 T4 T5 T6 T7 T8 T9 T10 T11 = Cert.ReferenceIdeal.HostValue.acc11 x W T1 T2 T3 T4 T5 T6 T7 T8 T9 T10 T11 := rfl
theorem acc12_eq (x : (⟨Cert.KernelIdeal.S2048x16, .f32⟩ : BufTy).Contents (Elt F)) (W : (⟨Cert.KernelIdeal.S15x128x32, .f32⟩ : BufTy).Contents (Elt F)) (T1 T2 T3 T4 T5 T6 T7 T8 T9 T10 T11 T12 : (⟨Cert.KernelIdeal.S16384x16, .f32⟩ : BufTy).Contents (Elt F)) :
    Cert.KernelIdeal.HostValue.acc12 x W T1 T2 T3 T4 T5 T6 T7 T8 T9 T10 T11 T12 = Cert.ReferenceIdeal.HostValue.acc12 x W T1 T2 T3 T4 T5 T6 T7 T8 T9 T10 T11 T12 := rfl
theorem acc13_eq (x : (⟨Cert.KernelIdeal.S2048x16, .f32⟩ : BufTy).Contents (Elt F)) (W : (⟨Cert.KernelIdeal.S15x128x32, .f32⟩ : BufTy).Contents (Elt F)) (T1 T2 T3 T4 T5 T6 T7 T8 T9 T10 T11 T12 T13 : (⟨Cert.KernelIdeal.S16384x16, .f32⟩ : BufTy).Contents (Elt F)) :
    Cert.KernelIdeal.HostValue.acc13 x W T1 T2 T3 T4 T5 T6 T7 T8 T9 T10 T11 T12 T13 = Cert.ReferenceIdeal.HostValue.acc13 x W T1 T2 T3 T4 T5 T6 T7 T8 T9 T10 T11 T12 T13 := rfl
theorem acc14_eq (x : (⟨Cert.KernelIdeal.S2048x16, .f32⟩ : BufTy).Contents (Elt F)) (W : (⟨Cert.KernelIdeal.S15x128x32, .f32⟩ : BufTy).Contents (Elt F)) (T1 T2 T3 T4 T5 T6 T7 T8 T9 T10 T11 T12 T13 T14 : (⟨Cert.KernelIdeal.S16384x16, .f32⟩ : BufTy).Contents (Elt F)) :
    Cert.KernelIdeal.HostValue.acc14 x W T1 T2 T3 T4 T5 T6 T7 T8 T9 T10 T11 T12 T13 T14 = Cert.ReferenceIdeal.HostValue.acc14 x W T1 T2 T3 T4 T5 T6 T7 T8 T9 T10 T11 T12 T13 T14 := rfl

/-- The kernel program's result function and the reference's agree on equal arguments. -/
theorem result_eq (x : (⟨Cert.KernelIdeal.S2048x16, .f32⟩ : BufTy).Contents (Elt F)) (W : (⟨Cert.KernelIdeal.S15x128x32, .f32⟩ : BufTy).Contents (Elt F)) (b : (⟨Cert.KernelIdeal.S32, .f32⟩ : BufTy).Contents (Elt F))
    (T1 T2 T3 T4 T5 T6 T7 T8 T9 T10 T11 T12 T13 T14 : (⟨Cert.KernelIdeal.S16384x16, .f32⟩ : BufTy).Contents (Elt F)) :
    Cert.KernelIdeal.HostValue.result x W b T1 T2 T3 T4 T5 T6 T7 T8 T9 T10 T11 T12 T13 T14 = Cert.ReferenceIdeal.HostValue.result x W b T1 T2 T3 T4 T5 T6 T7 T8 T9 T10 T11 T12 T13 T14 := rfl

end Cert.HostEq
end
-- ==== Proof.HostRefStep.lean ====
import proofs.«108570_j29480655520371_2_alg».proof.Proof.HostRef
import Idealize.ShloMosaic.PureOps.Ideal.Laws
import Idealize.ShloMosaic.Lib.ValueIdx
import Idealize.ShloMosaic.Lib.IdealHost

set_option maxRecDepth 8192

noncomputable section

namespace Cert.ReferenceIdeal.HostValue

open Cert.ReferenceIdeal Cert.ReferenceIdeal.Gen
open Idealize.ShloMosaic Idealize.ShloMosaic.ValueIdx
open scoped BigOperators

/-- The dimension record of the matrix applied to a vector: the matrix's columns contract against the vector's rows. -/
abbrev D := dot_S16384x16384_S16384x16_S16384x16_1_0_0_1_n_n

/-! ## The operand indices of the product, coordinate by coordinate -/

theorem lhs0 (i : S16384x16.Idx) (k : D.contr.Idx) : (D.lhsIdx i k 0).val = (i 0).val := by
  unfold DotDims.lhsIdx
  rw [dif_neg (show ¬(0 : Fin S16384x16384.rank) ∈ D.lhsBatch by decide),
    dif_pos (show (0 : Fin S16384x16384.rank) ∈ D.lhsNonContracting by decide)]
  rfl

theorem lhs1 (i : S16384x16.Idx) (k : D.contr.Idx) : (D.lhsIdx i k 1).val = (k ⟨0, by decide⟩).val :=
  D.lhsIdx_val_of_single rfl i k

theorem rhs0 (i : S16384x16.Idx) (k : D.contr.Idx) : (D.rhsIdx i k 0).val = (k ⟨0, by decide⟩).val :=
  D.rhsIdx_val_of_single rfl i k

theorem rhs1 (i : S16384x16.Idx) (k : D.contr.Idx) : (D.rhsIdx i k 1).val = (i 1).val := by
  unfold DotDims.rhsIdx
  rw [dif_neg (show ¬(1 : Fin S16384x16.rank) ∈ D.rhsBatch by decide),
    dif_pos (show (1 : Fin S16384x16.rank) ∈ D.rhsNonContracting by decide)]
  rfl

/-- The matrix applied to a vector, read at an entry: the row of the matrix against the column of the vector. -/
theorem dot_apply (L : FVec Ideal S16384x16384 .f32) (T : FVec Ideal S16384x16 .f32) (p : Fin 16384) (q : Fin 16) :
    Host.dotGeneral (F := Ideal) dot_S16384x16384_S16384x16_S16384x16_1_0_0_1_n_n none L T (ix2 p q)
      = ∑ j : Fin 16384, L (ix2 p j) * T (ix2 j q) := by
  simp only [Host.dotGeneral]
  rw [Ideal.dotGeneral_apply, ← Equiv.sum_comp (contrEquiv1 D 16384 rfl rfl).symm]
  refine Finset.sum_congr rfl fun k _ => ?_
  have hk := contrEquiv1_symm_val D 16384 rfl rfl k
  have el : D.lhsIdx (ix2 p q) ((contrEquiv1 D 16384 rfl rfl).symm k) = ix2 p k := funext fun a => Fin.ext (by
    match a with
    | ⟨0, _⟩ => exact lhs0 _ _
    | ⟨1, _⟩ => exact (lhs1 _ _).trans hk)
  have er : D.rhsIdx (ix2 p q) ((contrEquiv1 D 16384 rfl rfl).symm k) = ix2 k q := funext fun a => Fin.ext (by
    match a with
    | ⟨0, _⟩ => exact (rhs0 _ _).trans hk
    | ⟨1, _⟩ => exact rhs1 _ _)
  rw [el, er]

/-- One step of the recurrence read at an entry: twice the row-against-column sum, minus the entry of the vector before. -/
theorem step_apply (L : FVec Ideal S16384x16384 .f32) (T Tp : FVec Ideal S16384x16 .f32) (p : Fin 16384) (q : Fin 16) :
    step (F := Ideal) L T Tp (ix2 p q)
      = Ideal.ofBits .f32 0x40000000#32 * (∑ j : Fin 16384, L (ix2 p j) * T (ix2 j q)) - Tp (ix2 p q) := by
  unfold step
  rw [subf_apply, mulf_apply, broadcastInDim_scalar_apply, constant_apply, dot_apply]

end Cert.ReferenceIdeal.HostValue
end
-- ==== Proof.AlgI.lean ====
/-
  The value claim's mathematics. At the extended reals the program computes the Chebyshev vectors
      T₀ = the input tiled eight times,   T₁ = Ls · T₀,   T_{k+2} = 2 · (Ls · T_{k+1}) − T_k      (k = 0 … 12)
  one per kernel region (a change of float format is the identity there, so the rounded copies of Ls and of each
  vector are the arrays themselves), and the result is the sum of the fifteen projections of T₀ … T₁₄ plus the bias.
  Region K's two result arrays are T_{K+1}: its three input arrays are what earlier items left (the matrix copy,
  the previous region's rounded result, the result of the region before that), and its value is the region's own
  theorem. The reference names the same vectors: its whole matrix product read at an entry is the same sum over the
  16384 columns, and its recurrence step is the same combination. No finiteness of the inputs is used: every law
  applied (regrouping a finite sum, 1 · a = a, 0 · b = 0, a − 0 = a) holds for all extended reals.
-/
import proofs.«108570_j29480655520371_2_alg».proof.Proof.FrameI
import proofs.«108570_j29480655520371_2_alg».proof.Proof.RunCondI
import proofs.«108570_j29480655520371_2_alg».proof.Proof.RegI0Value
import proofs.«108570_j29480655520371_2_alg».proof.Proof.RegI1Value
import proofs.«108570_j29480655520371_2_alg».proof.Proof.RegI2Value
import proofs.«108570_j29480655520371_2_alg».proof.Proof.RegI3Value
import proofs.«108570_j29480655520371_2_alg».proof.Proof.RegI4Value
import proofs.«108570_j29480655520371_2_alg».proof.Proof.RegI5Value
import proofs.«108570_j29480655520371_2_alg».proof.Proof.RegI6Value
import proofs.«108570_j29480655520371_2_alg».proof.Proof.RegI7Value
import proofs.«108570_j29480655520371_2_alg».proof.Proof.RegI8Value
import proofs.«108570_j29480655520371_2_alg».proof.Proof.RegI9Value
import proofs.«108570_j29480655520371_2_alg».proof.Proof.RegI10Value
import proofs.«108570_j29480655520371_2_alg».proof.Proof.RegI11Value
import proofs.«108570_j29480655520371_2_alg».proof.Proof.RegI12Value
import proofs.«108570_j29480655520371_2_alg».proof.Proof.RegI13Value
import proofs.«108570_j29480655520371_2_alg».proof.Proof.HostKernel
import proofs.«108570_j29480655520371_2_alg».proof.Proof.HostRef
import proofs.«108570_j29480655520371_2_alg».proof.Proof.HostEq
import proofs.«108570_j29480655520371_2_alg».proof.Proof.HostRefStep

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open Idealize.ShloMosaic.ValueIdx

variable (m : (ℓ : Loc nD τ sig) → Buf (Elt Ideal) ℓ)

/-- The matrix as launched. -/
abbrev LsA (c : Dev nD) : S16384x16384.Idx → EReal := m ((c : Thread nD τ).loc main_arg1)

/-- The Chebyshev vectors. -/
def cheb (c : Dev nD) : ℕ → (S16384x16.Idx → EReal)
  | 0 => HostValue.tx0 (Gen.V0 m c (Proc.devRef .tc main_arg0))
  | 1 => fun i => prodAt (LsA m c) (cheb c 0) (i 0).val (i 1).val
  | k + 2 => fun i => Ideal.ofBits .f32 0x40000000#32 * prodAt (LsA m c) (cheb c (k + 1)) (i 0).val (i 1).val - cheb c k i

theorem cheb_zero (c : Dev nD) : cheb m c 0 = HostValue.tx0 (Gen.V0 m c (Proc.devRef .tc main_arg0)) := rfl
theorem cheb_one (c : Dev nD) : cheb m c 1 = fun i => prodAt (LsA m c) (cheb m c 0) (i 0).val (i 1).val := rfl
theorem cheb_step (c : Dev nD) (k : ℕ) : cheb m c (k + 2)
    = fun i => Ideal.ofBits .f32 0x40000000#32 * prodAt (LsA m c) (cheb m c (k + 1)) (i 0).val (i 1).val - cheb m c k i := rfl

/-! ## Each region's results are the next Chebyshev vector -/

/-- Region 0 finds the matrix in its first window, -/
theorem hL0 (c : Dev nD) : L0 (fun c b => We0 m c b) c = LsA m c := by
  show We0 m c main_v0 = _
  rw [← V1_eq m c]
  exact HostValue.ls_at1 m c
/-- the vector T0 in its second, -/
theorem hv0 (c : Dev nD) : v0 (fun c b => We0 m c b) c = cheb m c 0 := by
  show We0 m c main_v10 = _
  rw [← V1_eq m c]
  exact HostValue.tx0bf_at1 m c
/-- So both of its result arrays end holding T1. -/
theorem vals0 (c : Dev nD) : (outs m 2 main_v11_0 c : S16384x16.Idx → EReal) = cheb m c 1
    ∧ (outs m 2 main_v11_1 c : S16384x16.Idx → EReal) = cheb m c 1 := by
  have e : new0 (fun c b => We0 m c b) c = cheb m c 1 := by
    funext i
    show prodAt (L0 (fun c b => We0 m c b) c) (v0 (fun c b => We0 m c b) c) (i 0).val (i 1).val = _
    rw [hL0 m c, hv0 m c]
    rfl
  have o3 : outs m 2 main_v11_0 c = Wl0 m c main_v11_0 :=
    (HostValue.out0_at2 m (outs m) c).symm.trans (congrFun (V2_eq m c) _)
  have o4 : outs m 2 main_v11_1 c = Wl0 m c main_v11_1 :=
    (HostValue.out1_at2 m (outs m) c).symm.trans (congrFun (V2_eq m c) _)
  have a3 : Wl0 m c main_v11_0 = new0 (fun c b => We0 m c b) c := (hF0 m c 3).symm.trans (final0_3 _ c)
  have a4 : Wl0 m c main_v11_1 = new0 (fun c b => We0 m c b) c := (hF0 m c 4).symm.trans (final0_4 _ c)
  exact ⟨(o3.trans a3).trans e, (o4.trans a4).trans e⟩

/-- Region 1 finds the matrix in its first window, -/
theorem hL1 (c : Dev nD) : L1 (fun c b => We1 m c b) c = LsA m c := by
  show We1 m c main_v0 = _
  rw [← V3_eq m c]
  rw [HostValue.region1_op1 m (outs m) c]
  exact HostValue.ls_at1 m c
/-- the vector T1 in its second, -/
theorem hv1 (c : Dev nD) : v1 (fun c b => We1 m c b) c = cheb m c 1 := by
  show We1 m c main_v11_1 = _
  rw [← V3_eq m c]
  rw [HostValue.region1_op2 m (outs m) c]
  exact (vals0 m c).2
/-- and the vector T0 in its third. -/
theorem hp1 (c : Dev nD) : p1 (fun c b => We1 m c b) c = cheb m c 0 := by
  show We1 m c main_v3 = _
  rw [← V3_eq m c]
  exact HostValue.region1_op3 m (outs m) c
/-- So both of its result arrays end holding T2. -/
theorem vals1 (c : Dev nD) : (outs m 4 main_v19_0 c : S16384x16.Idx → EReal) = cheb m c 2
    ∧ (outs m 4 main_v19_1 c : S16384x16.Idx → EReal) = cheb m c 2 := by
  have e : new1 (fun c b => We1 m c b) c = cheb m c 2 := by
    funext i
    show Ideal.ofBits .f32 0x40000000#32 * prodAt (L1 (fun c b => We1 m c b) c) (v1 (fun c b => We1 m c b) c) (i 0).val (i 1).val - p1 (fun c b => We1 m c b) c i = _
    rw [hL1 m c, hv1 m c, hp1 m c]
    rfl
  have o3 : outs m 4 main_v19_0 c = Wl1 m c main_v19_0 :=
    (HostValue.out0_at4 m (outs m) c).symm.trans (congrFun (V4_eq m c) _)
  have o4 : outs m 4 main_v19_1 c = Wl1 m c main_v19_1 :=
    (HostValue.out1_at4 m (outs m) c).symm.trans (congrFun (V4_eq m c) _)
  have a3 : Wl1 m c main_v19_0 = new1 (fun c b => We1 m c b) c := (hF1 m c 3).symm.trans (final1_3 _ c)
  have a4 : Wl1 m c main_v19_1 = new1 (fun c b => We1 m c b) c := (hF1 m c 4).symm.trans (final1_4 _ c)
  exact ⟨(o3.trans a3).trans e, (o4.trans a4).trans e⟩

/-- Region 2 finds the matrix in its first window, -/
theorem hL2 (c : Dev nD) : L2 (fun c b => We2 m c b) c = LsA m c := by
  show We2 m c main_v0 = _
  rw [← V5_eq m c]
  rw [HostValue.region2_op1 m (outs m) c]
  exact HostValue.ls_at1 m c
/-- the vector T2 in its second, -/
theorem hv2 (c : Dev nD) : v2 (fun c b => We2 m c b) c = cheb m c 2 := by
  show We2 m c main_v19_1 = _
  rw [← V5_eq m c]
  rw [HostValue.region2_op2 m (outs m) c]
  exact (vals1 m c).2
/-- and the vector T1 in its third. -/
theorem hp2 (c : Dev nD) : p2 (fun c b => We2 m c b) c = cheb m c 1 := by
  show We2 m c main_v11_0 = _
  rw [← V5_eq m c]
  rw [HostValue.region2_op3 m (outs m) c]
  exact (vals0 m c).1
/-- So both of its result arrays end holding T3. -/
theorem vals2 (c : Dev nD) : (outs m 6 main_v27_0 c : S16384x16.Idx → EReal) = cheb m c 3
    ∧ (outs m 6 main_v27_1 c : S16384x16.Idx → EReal) = cheb m c 3 := by
  have e : new2 (fun c b => We2 m c b) c = cheb m c 3 := by
    funext i
    show Ideal.ofBits .f32 0x40000000#32 * prodAt (L2 (fun c b => We2 m c b) c) (v2 (fun c b => We2 m c b) c) (i 0).val (i 1).val - p2 (fun c b => We2 m c b) c i = _
    rw [hL2 m c, hv2 m c, hp2 m c]
    rfl
  have o3 : outs m 6 main_v27_0 c = Wl2 m c main_v27_0 :=
    (HostValue.out0_at6 m (outs m) c).symm.trans (congrFun (V6_eq m c) _)
  have o4 : outs m 6 main_v27_1 c = Wl2 m c main_v27_1 :=
    (HostValue.out1_at6 m (outs m) c).symm.trans (congrFun (V6_eq m c) _)
  have a3 : Wl2 m c main_v27_0 = new2 (fun c b => We2 m c b) c := (hF2 m c 3).symm.trans (final2_3 _ c)
  have a4 : Wl2 m c main_v27_1 = new2 (fun c b => We2 m c b) c := (hF2 m c 4).symm.trans (final2_4 _ c)
  exact ⟨(o3.trans a3).trans e, (o4.trans a4).trans e⟩

/-- Region 3 finds the matrix in its first window, -/
theorem hL3 (c : Dev nD) : L3 (fun c b => We3 m c b) c = LsA m c := by
  show We3 m c main_v0 = _
  rw [← V7_eq m c]
  rw [HostValue.region3_op1 m (outs m) c]
  exact HostValue.ls_at1 m c
/-- the vector T3 in its second, -/
theorem hv3 (c : Dev nD) : v3 (fun c b => We3 m c b) c = cheb m c 3 := by
  show We3 m c main_v27_1 = _
  rw [← V7_eq m c]
  rw [HostValue.region3_op2 m (outs m) c]
  exact (vals2 m c).2
/-- and the vector T2 in its third. -/
theorem hp3 (c : Dev nD) : p3 (fun c b => We3 m c b) c = cheb m c 2 := by
  show We3 m c main_v19_0 = _
  rw [← V7_eq m c]
  rw [HostValue.region3_op3 m (outs m) c]
  exact (vals1 m c).1
/-- So both of its result arrays end holding T4. -/
theorem vals3 (c : Dev nD) : (outs m 8 main_v35_0 c : S16384x16.Idx → EReal) = cheb m c 4
    ∧ (outs m 8 main_v35_1 c : S16384x16.Idx → EReal) = cheb m c 4 := by
  have e : new3 (fun c b => We3 m c b) c = cheb m c 4 := by
    funext i
    show Ideal.ofBits .f32 0x40000000#32 * prodAt (L3 (fun c b => We3 m c b) c) (v3 (fun c b => We3 m c b) c) (i 0).val (i 1).val - p3 (fun c b => We3 m c b) c i = _
    rw [hL3 m c, hv3 m c, hp3 m c]
    rfl
  have o3 : outs m 8 main_v35_0 c = Wl3 m c main_v35_0 :=
    (HostValue.out0_at8 m (outs m) c).symm.trans (congrFun (V8_eq m c) _)
  have o4 : outs m 8 main_v35_1 c = Wl3 m c main_v35_1 :=
    (HostValue.out1_at8 m (outs m) c).symm.trans (congrFun (V8_eq m c) _)
  have a3 : Wl3 m c main_v35_0 = new3 (fun c b => We3 m c b) c := (hF3 m c 3).symm.trans (final3_3 _ c)
  have a4 : Wl3 m c main_v35_1 = new3 (fun c b => We3 m c b) c := (hF3 m c 4).symm.trans (final3_4 _ c)
  exact ⟨(o3.trans a3).trans e, (o4.trans a4).trans e⟩

/-- Region 4 finds the matrix in its first window, -/
theorem hL4 (c : Dev nD) : L4 (fun c b => We4 m c b) c = LsA m c := by
  show We4 m c main_v0 = _
  rw [← V9_eq m c]
  rw [HostValue.region4_op1 m (outs m) c]
  exact HostValue.ls_at1 m c
/-- the vector T4 in its second, -/
theorem hv4 (c : Dev nD) : v4 (fun c b => We4 m c b) c = cheb m c 4 := by
  show We4 m c main_v35_1 = _
  rw [← V9_eq m c]
  rw [HostValue.region4_op2 m (outs m) c]
  exact (vals3 m c).2
/-- and the vector T3 in its third. -/
theorem hp4 (c : Dev nD) : p4 (fun c b => We4 m c b) c = cheb m c 3 := by
  show We4 m c main_v27_0 = _
  rw [← V9_eq m c]
  rw [HostValue.region4_op3 m (outs m) c]
  exact (vals2 m c).1
/-- So both of its result arrays end holding T5. -/
theorem vals4 (c : Dev nD) : (outs m 10 main_v43_0 c : S16384x16.Idx → EReal) = cheb m c 5
    ∧ (outs m 10 main_v43_1 c : S16384x16.Idx → EReal) = cheb m c 5 := by
  have e : new4 (fun c b => We4 m c b) c = cheb m c 5 := by
    funext i
    show Ideal.ofBits .f32 0x40000000#32 * prodAt (L4 (fun c b => We4 m c b) c) (v4 (fun c b => We4 m c b) c) (i 0).val (i 1).val - p4 (fun c b => We4 m c b) c i = _
    rw [hL4 m c, hv4 m c, hp4 m c]
    rfl
  have o3 : outs m 10 main_v43_0 c = Wl4 m c main_v43_0 :=
    (HostValue.out0_at10 m (outs m) c).symm.trans (congrFun (V10_eq m c) _)
  have o4 : outs m 10 main_v43_1 c = Wl4 m c main_v43_1 :=
    (HostValue.out1_at10 m (outs m) c).symm.trans (congrFun (V10_eq m c) _)
  have a3 : Wl4 m c main_v43_0 = new4 (fun c b => We4 m c b) c := (hF4 m c 3).symm.trans (final4_3 _ c)
  have a4 : Wl4 m c main_v43_1 = new4 (fun c b => We4 m c b) c := (hF4 m c 4).symm.trans (final4_4 _ c)
  exact ⟨(o3.trans a3).trans e, (o4.trans a4).trans e⟩

/-- Region 5 finds the matrix in its first window, -/
theorem hL5 (c : Dev nD) : L5 (fun c b => We5 m c b) c = LsA m c := by
  show We5 m c main_v0 = _
  rw [← V11_eq m c]
  rw [HostValue.region5_op1 m (outs m) c]
  exact HostValue.ls_at1 m c
/-- the vector T5 in its second, -/
theorem hv5 (c : Dev nD) : v5 (fun c b => We5 m c b) c = cheb m c 5 := by
  show We5 m c main_v43_1 = _
  rw [← V11_eq m c]
  rw [HostValue.region5_op2 m (outs m) c]
  exact (vals4 m c).2
/-- and the vector T4 in its third. -/
theorem hp5 (c : Dev nD) : p5 (fun c b => We5 m c b) c = cheb m c 4 := by
  show We5 m c main_v35_0 = _
  rw [← V11_eq m c]
  rw [HostValue.region5_op3 m (outs m) c]
  exact (vals3 m c).1
/-- So both of its result arrays end holding T6. -/
theorem vals5 (c : Dev nD) : (outs m 12 main_v51_0 c : S16384x16.Idx → EReal) = cheb m c 6
    ∧ (outs m 12 main_v51_1 c : S16384x16.Idx → EReal) = cheb m c 6 := by
  have e : new5 (fun c b => We5 m c b) c = cheb m c 6 := by
    funext i
    show Ideal.ofBits .f32 0x40000000#32 * prodAt (L5 (fun c b => We5 m c b) c) (v5 (fun c b => We5 m c b) c) (i 0).val (i 1).val - p5 (fun c b => We5 m c b) c i = _
    rw [hL5 m c, hv5 m c, hp5 m c]
    rfl
  have o3 : outs m 12 main_v51_0 c = Wl5 m c main_v51_0 :=
    (HostValue.out0_at12 m (outs m) c).symm.trans (congrFun (V12_eq m c) _)
  have o4 : outs m 12 main_v51_1 c = Wl5 m c main_v51_1 :=
    (HostValue.out1_at12 m (outs m) c).symm.trans (congrFun (V12_eq m c) _)
  have a3 : Wl5 m c main_v51_0 = new5 (fun c b => We5 m c b) c := (hF5 m c 3).symm.trans (final5_3 _ c)
  have a4 : Wl5 m c main_v51_1 = new5 (fun c b => We5 m c b) c := (hF5 m c 4).symm.trans (final5_4 _ c)
  exact ⟨(o3.trans a3).trans e, (o4.trans a4).trans e⟩

/-- Region 6 finds the matrix in its first window, -/
theorem hL6 (c : Dev nD) : L6 (fun c b => We6 m c b) c = LsA m c := by
  show We6 m c main_v0 = _
  rw [← V13_eq m c]
  rw [HostValue.region6_op1 m (outs m) c]
  exact HostValue.ls_at1 m c
/-- the vector T6 in its second, -/
theorem hv6 (c : Dev nD) : v6 (fun c b => We6 m c b) c = cheb m c 6 := by
  show We6 m c main_v51_1 = _
  rw [← V13_eq m c]
  rw [HostValue.region6_op2 m (outs m) c]
  exact (vals5 m c).2
/-- and the vector T5 in its third. -/
theorem hp6 (c : Dev nD) : p6 (fun c b => We6 m c b) c = cheb m c 5 := by
  show We6 m c main_v43_0 = _
  rw [← V13_eq m c]
  rw [HostValue.region6_op3 m (outs m) c]
  exact (vals4 m c).1
/-- So both of its result arrays end holding T7. -/
theorem vals6 (c : Dev nD) : (outs m 14 main_v59_0 c : S16384x16.Idx → EReal) = cheb m c 7
    ∧ (outs m 14 main_v59_1 c : S16384x16.Idx → EReal) = cheb m c 7 := by
  have e : new6 (fun c b => We6 m c b) c = cheb m c 7 := by
    funext i
    show Ideal.ofBits .f32 0x40000000#32 * prodAt (L6 (fun c b => We6 m c b) c) (v6 (fun c b => We6 m c b) c) (i 0).val (i 1).val - p6 (fun c b => We6 m c b) c i = _
    rw [hL6 m c, hv6 m c, hp6 m c]
    rfl
  have o3 : outs m 14 main_v59_0 c = Wl6 m c main_v59_0 :=
    (HostValue.out0_at14 m (outs m) c).symm.trans (congrFun (V14_eq m c) _)
  have o4 : outs m 14 main_v59_1 c = Wl6 m c main_v59_1 :=
    (HostValue.out1_at14 m (outs m) c).symm.trans (congrFun (V14_eq m c) _)
  have a3 : Wl6 m c main_v59_0 = new6 (fun c b => We6 m c b) c := (hF6 m c 3).symm.trans (final6_3 _ c)
  have a4 : Wl6 m c main_v59_1 = new6 (fun c b => We6 m c b) c := (hF6 m c 4).symm.trans (final6_4 _ c)
  exact ⟨(o3.trans a3).trans e, (o4.trans a4).trans e⟩

/-- Region 7 finds the matrix in its first window, -/
theorem hL7 (c : Dev nD) : L7 (fun c b => We7 m c b) c = LsA m c := by
  show We7 m c main_v0 = _
  rw [← V15_eq m c]
  rw [HostValue.region7_op1 m (outs m) c]
  exact HostValue.ls_at1 m c
/-- the vector T7 in its second, -/
theorem hv7 (c : Dev nD) : v7 (fun c b => We7 m c b) c = cheb m c 7 := by
  show We7 m c main_v59_1 = _
  rw [← V15_eq m c]
  rw [HostValue.region7_op2 m (outs m) c]
  exact (vals6 m c).2
/-- and the vector T6 in its third. -/
theorem hp7 (c : Dev nD) : p7 (fun c b => We7 m c b) c = cheb m c 6 := by
  show We7 m c main_v51_0 = _
  rw [← V15_eq m c]
  rw [HostValue.region7_op3 m (outs m) c]
  exact (vals5 m c).1
/-- So both of its result arrays end holding T8. -/
theorem vals7 (c : Dev nD) : (outs m 16 main_v67_0 c : S16384x16.Idx → EReal) = cheb m c 8
    ∧ (outs m 16 main_v67_1 c : S16384x16.Idx → EReal) = cheb m c 8 := by
  have e : new7 (fun c b => We7 m c b) c = cheb m c 8 := by
    funext i
    show Ideal.ofBits .f32 0x40000000#32 * prodAt (L7 (fun c b => We7 m c b) c) (v7 (fun c b => We7 m c b) c) (i 0).val (i 1).val - p7 (fun c b => We7 m c b) c i = _
    rw [hL7 m c, hv7 m c, hp7 m c]
    rfl
  have o3 : outs m 16 main_v67_0 c = Wl7 m c main_v67_0 :=
    (HostValue.out0_at16 m (outs m) c).symm.trans (congrFun (V16_eq m c) _)
  have o4 : outs m 16 main_v67_1 c = Wl7 m c main_v67_1 :=
    (HostValue.out1_at16 m (outs m) c).symm.trans (congrFun (V16_eq m c) _)
  have a3 : Wl7 m c main_v67_0 = new7 (fun c b => We7 m c b) c := (hF7 m c 3).symm.trans (final7_3 _ c)
  have a4 : Wl7 m c main_v67_1 = new7 (fun c b => We7 m c b) c := (hF7 m c 4).symm.trans (final7_4 _ c)
  exact ⟨(o3.trans a3).trans e, (o4.trans a4).trans e⟩

/-- Region 8 finds the matrix in its first window, -/
theorem hL8 (c : Dev nD) : L8 (fun c b => We8 m c b) c = LsA m c := by
  show We8 m c main_v0 = _
  rw [← V17_eq m c]
  rw [HostValue.region8_op1 m (outs m) c]
  exact HostValue.ls_at1 m c
/-- the vector T8 in its second, -/
theorem hv8 (c : Dev nD) : v8 (fun c b => We8 m c b) c = cheb m c 8 := by
  show We8 m c main_v67_1 = _
  rw [← V17_eq m c]
  rw [HostValue.region8_op2 m (outs m) c]
  exact (vals7 m c).2
/-- and the vector T7 in its third. -/
theorem hp8 (c : Dev nD) : p8 (fun c b => We8 m c b) c = cheb m c 7 := by
  show We8 m c main_v59_0 = _
  rw [← V17_eq m c]
  rw [HostValue.region8_op3 m (outs m) c]
  exact (vals6 m c).1
/-- So both of its result arrays end holding T9. -/
theorem vals8 (c : Dev nD) : (outs m 18 main_v75_0 c : S16384x16.Idx → EReal) = cheb m c 9
    ∧ (outs m 18 main_v75_1 c : S16384x16.Idx → EReal) = cheb m c 9 := by
  have e : new8 (fun c b => We8 m c b) c = cheb m c 9 := by
    funext i
    show Ideal.ofBits .f32 0x40000000#32 * prodAt (L8 (fun c b => We8 m c b) c) (v8 (fun c b => We8 m c b) c) (i 0).val (i 1).val - p8 (fun c b => We8 m c b) c i = _
    rw [hL8 m c, hv8 m c, hp8 m c]
    rfl
  have o3 : outs m 18 main_v75_0 c = Wl8 m c main_v75_0 :=
    (HostValue.out0_at18 m (outs m) c).symm.trans (congrFun (V18_eq m c) _)
  have o4 : outs m 18 main_v75_1 c = Wl8 m c main_v75_1 :=
    (HostValue.out1_at18 m (outs m) c).symm.trans (congrFun (V18_eq m c) _)
  have a3 : Wl8 m c main_v75_0 = new8 (fun c b => We8 m c b) c := (hF8 m c 3).symm.trans (final8_3 _ c)
  have a4 : Wl8 m c main_v75_1 = new8 (fun c b => We8 m c b) c := (hF8 m c 4).symm.trans (final8_4 _ c)
  exact ⟨(o3.trans a3).trans e, (o4.trans a4).trans e⟩

/-- Region 9 finds the matrix in its first window, -/
theorem hL9 (c : Dev nD) : L9 (fun c b => We9 m c b) c = LsA m c := by
  show We9 m c main_v0 = _
  rw [← V19_eq m c]
  rw [HostValue.region9_op1 m (outs m) c]
  exact HostValue.ls_at1 m c
/-- the vector T9 in its second, -/
theorem hv9 (c : Dev nD) : v9 (fun c b => We9 m c b) c = cheb m c 9 := by
  show We9 m c main_v75_1 = _
  rw [← V19_eq m c]
  rw [HostValue.region9_op2 m (outs m) c]
  exact (vals8 m c).2
/-- and the vector T8 in its third. -/
theorem hp9 (c : Dev nD) : p9 (fun c b => We9 m c b) c = cheb m c 8 := by
  show We9 m c main_v67_0 = _
  rw [← V19_eq m c]
  rw [HostValue.region9_op3 m (outs m) c]
  exact (vals7 m c).1
/-- So both of its result arrays end holding T10. -/
theorem vals9 (c : Dev nD) : (outs m 20 main_v83_0 c : S16384x16.Idx → EReal) = cheb m c 10
    ∧ (outs m 20 main_v83_1 c : S16384x16.Idx → EReal) = cheb m c 10 := by
  have e : new9 (fun c b => We9 m c b) c = cheb m c 10 := by
    funext i
    show Ideal.ofBits .f32 0x40000000#32 * prodAt (L9 (fun c b => We9 m c b) c) (v9 (fun c b => We9 m c b) c) (i 0).val (i 1).val - p9 (fun c b => We9 m c b) c i = _
    rw [hL9 m c, hv9 m c, hp9 m c]
    rfl
  have o3 : outs m 20 main_v83_0 c = Wl9 m c main_v83_0 :=
    (HostValue.out0_at20 m (outs m) c).symm.trans (congrFun (V20_eq m c) _)
  have o4 : outs m 20 main_v83_1 c = Wl9 m c main_v83_1 :=
    (HostValue.out1_at20 m (outs m) c).symm.trans (congrFun (V20_eq m c) _)
  have a3 : Wl9 m c main_v83_0 = new9 (fun c b => We9 m c b) c := (hF9 m c 3).symm.trans (final9_3 _ c)
  have a4 : Wl9 m c main_v83_1 = new9 (fun c b => We9 m c b) c := (hF9 m c 4).symm.trans (final9_4 _ c)
  exact ⟨(o3.trans a3).trans e, (o4.trans a4).trans e⟩

/-- Region 10 finds the matrix in its first window, -/
theorem hL10 (c : Dev nD) : L10 (fun c b => We10 m c b) c = LsA m c := by
  show We10 m c main_v0 = _
  rw [← V21_eq m c]
  rw [HostValue.region10_op1 m (outs m) c]
  exact HostValue.ls_at1 m c
/-- the vector T10 in its second, -/
theorem hv10 (c : Dev nD) : v10 (fun c b => We10 m c b) c = cheb m c 10 := by
  show We10 m c main_v83_1 = _
  rw [← V21_eq m c]
  rw [HostValue.region10_op2 m (outs m) c]
  exact (vals9 m c).2
/-- and the vector T9 in its third. -/
theorem hp10 (c : Dev nD) : p10 (fun c b => We10 m c b) c = cheb m c 9 := by
  show We10 m c main_v75_0 = _
  rw [← V21_eq m c]
  rw [HostValue.region10_op3 m (outs m) c]
  exact (vals8 m c).1
/-- So both of its result arrays end holding T11. -/
theorem vals10 (c : Dev nD) : (outs m 22 main_v91_0 c : S16384x16.Idx → EReal) = cheb m c 11
    ∧ (outs m 22 main_v91_1 c : S16384x16.Idx → EReal) = cheb m c 11 := by
  have e : new10 (fun c b => We10 m c b) c = cheb m c 11 := by
    funext i
    show Ideal.ofBits .f32 0x40000000#32 * prodAt (L10 (fun c b => We10 m c b) c) (v10 (fun c b => We10 m c b) c) (i 0).val (i 1).val - p10 (fun c b => We10 m c b) c i = _
    rw [hL10 m c, hv10 m c, hp10 m c]
    rfl
  have o3 : outs m 22 main_v91_0 c = Wl10 m c main_v91_0 :=
    (HostValue.out0_at22 m (outs m) c).symm.trans (congrFun (V22_eq m c) _)
  have o4 : outs m 22 main_v91_1 c = Wl10 m c main_v91_1 :=
    (HostValue.out1_at22 m (outs m) c).symm.trans (congrFun (V22_eq m c) _)
  have a3 : Wl10 m c main_v91_0 = new10 (fun c b => We10 m c b) c := (hF10 m c 3).symm.trans (final10_3 _ c)
  have a4 : Wl10 m c main_v91_1 = new10 (fun c b => We10 m c b) c := (hF10 m c 4).symm.trans (final10_4 _ c)
  exact ⟨(o3.trans a3).trans e, (o4.trans a4).trans e⟩

/-- Region 11 finds the matrix in its first window, -/
theorem hL11 (c : Dev nD) : L11 (fun c b => We11 m c b) c = LsA m c := by
  show We11 m c main_v0 = _
  rw [← V23_eq m c]
  rw [HostValue.region11_op1 m (outs m) c]
  exact HostValue.ls_at1 m c
/-- the vector T11 in its second, -/
theorem hv11 (c : Dev nD) : v11 (fun c b => We11 m c b) c = cheb m c 11 := by
  show We11 m c main_v91_1 = _
  rw [← V23_eq m c]
  rw [HostValue.region11_op2 m (outs m) c]
  exact (vals10 m c).2
/-- and the vector T10 in its third. -/
theorem hp11 (c : Dev nD) : p11 (fun c b => We11 m c b) c = cheb m c 10 := by
  show We11 m c main_v83_0 = _
  rw [← V23_eq m c]
  rw [HostValue.region11_op3 m (outs m) c]
  exact (vals9 m c).1
/-- So both of its result arrays end holding T12. -/
theorem vals11 (c : Dev nD) : (outs m 24 main_v99_0 c : S16384x16.Idx → EReal) = cheb m c 12
    ∧ (outs m 24 main_v99_1 c : S16384x16.Idx → EReal) = cheb m c 12 := by
  have e : new11 (fun c b => We11 m c b) c = cheb m c 12 := by
    funext i
    show Ideal.ofBits .f32 0x40000000#32 * prodAt (L11 (fun c b => We11 m c b) c) (v11 (fun c b => We11 m c b) c) (i 0).val (i 1).val - p11 (fun c b => We11 m c b) c i = _
    rw [hL11 m c, hv11 m c, hp11 m c]
    rfl
  have o3 : outs m 24 main_v99_0 c = Wl11 m c main_v99_0 :=
    (HostValue.out0_at24 m (outs m) c).symm.trans (congrFun (V24_eq m c) _)
  have o4 : outs m 24 main_v99_1 c = Wl11 m c main_v99_1 :=
    (HostValue.out1_at24 m (outs m) c).symm.trans (congrFun (V24_eq m c) _)
  have a3 : Wl11 m c main_v99_0 = new11 (fun c b => We11 m c b) c := (hF11 m c 3).symm.trans (final11_3 _ c)
  have a4 : Wl11 m c main_v99_1 = new11 (fun c b => We11 m c b) c := (hF11 m c 4).symm.trans (final11_4 _ c)
  exact ⟨(o3.trans a3).trans e, (o4.trans a4).trans e⟩

/-- Region 12 finds the matrix in its first window, -/
theorem hL12 (c : Dev nD) : L12 (fun c b => We12 m c b) c = LsA m c := by
  show We12 m c main_v0 = _
  rw [← V25_eq m c]
  rw [HostValue.region12_op1 m (outs m) c]
  exact HostValue.ls_at1 m c
/-- the vector T12 in its second, -/
theorem hv12 (c : Dev nD) : v12 (fun c b => We12 m c b) c = cheb m c 12 := by
  show We12 m c main_v99_1 = _
  rw [← V25_eq m c]
  rw [HostValue.region12_op2 m (outs m) c]
  exact (vals11 m c).2
/-- and the vector T11 in its third. -/
theorem hp12 (c : Dev nD) : p12 (fun c b => We12 m c b) c = cheb m c 11 := by
  show We12 m c main_v91_0 = _
  rw [← V25_eq m c]
  rw [HostValue.region12_op3 m (outs m) c]
  exact (vals10 m c).1
/-- So both of its result arrays end holding T13. -/
theorem vals12 (c : Dev nD) : (outs m 26 main_v107_0 c : S16384x16.Idx → EReal) = cheb m c 13
    ∧ (outs m 26 main_v107_1 c : S16384x16.Idx → EReal) = cheb m c 13 := by
  have e : new12 (fun c b => We12 m c b) c = cheb m c 13 := by
    funext i
    show Ideal.ofBits .f32 0x40000000#32 * prodAt (L12 (fun c b => We12 m c b) c) (v12 (fun c b => We12 m c b) c) (i 0).val (i 1).val - p12 (fun c b => We12 m c b) c i = _
    rw [hL12 m c, hv12 m c, hp12 m c]
    rfl
  have o3 : outs m 26 main_v107_0 c = Wl12 m c main_v107_0 :=
    (HostValue.out0_at26 m (outs m) c).symm.trans (congrFun (V26_eq m c) _)
  have o4 : outs m 26 main_v107_1 c = Wl12 m c main_v107_1 :=
    (HostValue.out1_at26 m (outs m) c).symm.trans (congrFun (V26_eq m c) _)
  have a3 : Wl12 m c main_v107_0 = new12 (fun c b => We12 m c b) c := (hF12 m c 3).symm.trans (final12_3 _ c)
  have a4 : Wl12 m c main_v107_1 = new12 (fun c b => We12 m c b) c := (hF12 m c 4).symm.trans (final12_4 _ c)
  exact ⟨(o3.trans a3).trans e, (o4.trans a4).trans e⟩

/-- Region 13 finds the matrix in its first window, -/
theorem hL13 (c : Dev nD) : L13 (fun c b => We13 m c b) c = LsA m c := by
  show We13 m c main_v0 = _
  rw [← V27_eq m c]
  rw [HostValue.region13_op1 m (outs m) c]
  exact HostValue.ls_at1 m c
/-- the vector T13 in its second, -/
theorem hv13 (c : Dev nD) : v13 (fun c b => We13 m c b) c = cheb m c 13 := by
  show We13 m c main_v107_1 = _
  rw [← V27_eq m c]
  rw [HostValue.region13_op2 m (outs m) c]
  exact (vals12 m c).2
/-- and the vector T12 in its third. -/
theorem hp13 (c : Dev nD) : p13 (fun c b => We13 m c b) c = cheb m c 12 := by
  show We13 m c main_v99_0 = _
  rw [← V27_eq m c]
  rw [HostValue.region13_op3 m (outs m) c]
  exact (vals11 m c).1
/-- So both of its result arrays end holding T14. -/
theorem vals13 (c : Dev nD) : (outs m 28 main_v115_0 c : S16384x16.Idx → EReal) = cheb m c 14
    ∧ (outs m 28 main_v115_1 c : S16384x16.Idx → EReal) = cheb m c 14 := by
  have e : new13 (fun c b => We13 m c b) c = cheb m c 14 := by
    funext i
    show Ideal.ofBits .f32 0x40000000#32 * prodAt (L13 (fun c b => We13 m c b) c) (v13 (fun c b => We13 m c b) c) (i 0).val (i 1).val - p13 (fun c b => We13 m c b) c i = _
    rw [hL13 m c, hv13 m c, hp13 m c]
    rfl
  have o3 : outs m 28 main_v115_0 c = Wl13 m c main_v115_0 :=
    (HostValue.out0_at28 m (outs m) c).symm.trans (congrFun (V28_eq m c) _)
  have o4 : outs m 28 main_v115_1 c = Wl13 m c main_v115_1 :=
    (HostValue.out1_at28 m (outs m) c).symm.trans (congrFun (V28_eq m c) _)
  have a3 : Wl13 m c main_v115_0 = new13 (fun c b => We13 m c b) c := (hF13 m c 3).symm.trans (final13_3 _ c)
  have a4 : Wl13 m c main_v115_1 = new13 (fun c b => We13 m c b) c := (hF13 m c 4).symm.trans (final13_4 _ c)
  exact ⟨(o3.trans a3).trans e, (o4.trans a4).trans e⟩

/-! ## The program's run, with its result -/

variable (ρ : Dev nD → PrngReg)

/-- The result: the fifteen projections of the Chebyshev vectors added in order, plus the bias. -/
abbrev resultA (c : Dev nD) :=
  HostValue.result (Gen.V0 m c (Proc.devRef .tc main_arg0)) (Gen.V0 m c (Proc.devRef .tc main_arg2)) (Gen.V0 m c (Proc.devRef .tc main_arg3)) (cheb m c 1) (cheb m c 2) (cheb m c 3) (cheb m c 4) (cheb m c 5) (cheb m c 6) (cheb m c 7) (cheb m c 8) (cheb m c 9) (cheb m c 10) (cheb m c 11) (cheb m c 12) (cheb m c 13) (cheb m c 14)

set_option backward.isDefEq.respectTransparency.types false in
/-- Every weakly fair execution of the program terminates with the result buffer at `resultA` and the arguments as launched. -/
theorem runA : θ_run defs (onTc (τ := τ) (main (F := Ideal))) ⟨m, fun _ => 0, ρ⟩ (fun r => ∀ c : Dev nD,
      r.2.mem ((c.tc : Thread nD τ).loc main_v125) = resultA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ⟨(h c).1.trans ?_, (h c).2⟩)
    (Cert.KernelIdeal.GenP.run_cond (F := Ideal) m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      have hpt : ∀ c : Dev nD, (iprop(unscopedSems0 c ∗ owes (c : Thread nD τ) ((0 : Dev nD → CellTallies nD τ sig Unit) c) ∅
            ∗ Pipeline.launchCred (0 : Dev nD → CellTallies nD τ sig Unit) c ∗ prngReg c (ρ c) ∗ (BI.emp : sProp 𝕄)) : sProp 𝕄) ⊢ R c := fun c => by
        iintro ⟨-, HO, -, Hp, -⟩
        isplitl [Hp]; · iexists _; iexact Hp
        iexists ∅; iexact HO
      have hm : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ (BI.emp : sProp 𝕄)))
          ⊢ (bigSep Finset.univ (fun c : Dev nD => R c) : sProp 𝕄) := bigSep_mono fun c _ => hpt c
      iintro ⟨H, -⟩
      imodintro
      iapply hm
      iexact H)
    (fun c => by
      iintro ⟨-, HO⟩
      iexact HO)
    (reg0 m) (fun c => by rw [V1_eq]; exact .rfl) (fun c => by rw [V2_eq]; exact .rfl)
    (reg1 m) (fun c => by rw [V3_eq]; exact .rfl) (fun c => by rw [V4_eq]; exact .rfl)
    (reg2 m) (fun c => by rw [V5_eq]; exact .rfl) (fun c => by rw [V6_eq]; exact .rfl)
    (reg3 m) (fun c => by rw [V7_eq]; exact .rfl) (fun c => by rw [V8_eq]; exact .rfl)
    (reg4 m) (fun c => by rw [V9_eq]; exact .rfl) (fun c => by rw [V10_eq]; exact .rfl)
    (reg5 m) (fun c => by rw [V11_eq]; exact .rfl) (fun c => by rw [V12_eq]; exact .rfl)
    (reg6 m) (fun c => by rw [V13_eq]; exact .rfl) (fun c => by rw [V14_eq]; exact .rfl)
    (reg7 m) (fun c => by rw [V15_eq]; exact .rfl) (fun c => by rw [V16_eq]; exact .rfl)
    (reg8 m) (fun c => by rw [V17_eq]; exact .rfl) (fun c => by rw [V18_eq]; exact .rfl)
    (reg9 m) (fun c => by rw [V19_eq]; exact .rfl) (fun c => by rw [V20_eq]; exact .rfl)
    (reg10 m) (fun c => by rw [V21_eq]; exact .rfl) (fun c => by rw [V22_eq]; exact .rfl)
    (reg11 m) (fun c => by rw [V23_eq]; exact .rfl) (fun c => by rw [V24_eq]; exact .rfl)
    (reg12 m) (fun c => by rw [V25_eq]; exact .rfl) (fun c => by rw [V26_eq]; exact .rfl)
    (reg13 m) (fun c => by rw [V27_eq]; exact .rfl) (fun c => by rw [V28_eq]; exact .rfl))
  rw [HostValue.V29_result m (outs m) c]
  unfold resultA
  rw [show outs m 2 main_v11_0 c = cheb m c 1 from (vals0 m c).1,
    show outs m 4 main_v19_0 c = cheb m c 2 from (vals1 m c).1,
    show outs m 6 main_v27_0 c = cheb m c 3 from (vals2 m c).1,
    show outs m 8 main_v35_0 c = cheb m c 4 from (vals3 m c).1,
    show outs m 10 main_v43_0 c = cheb m c 5 from (vals4 m c).1,
    show outs m 12 main_v51_0 c = cheb m c 6 from (vals5 m c).1,
    show outs m 14 main_v59_0 c = cheb m c 7 from (vals6 m c).1,
    show outs m 16 main_v67_0 c = cheb m c 8 from (vals7 m c).1,
    show outs m 18 main_v75_0 c = cheb m c 9 from (vals8 m c).1,
    show outs m 20 main_v83_0 c = cheb m c 10 from (vals9 m c).1,
    show outs m 22 main_v91_0 c = cheb m c 11 from (vals10 m c).1,
    show outs m 24 main_v99_0 c = cheb m c 12 from (vals11 m c).1,
    show outs m 26 main_v107_0 c = cheb m c 13 from (vals12 m c).1,
    show outs m 28 main_v115_0 c = cheb m c 14 from (vals13 m c).1]

end Cert.KernelIdeal.Hand

/-! ## The reference's vectors are the same -/

namespace Cert.RefCheb

open Idealize.ShloMosaic Idealize.ShloMosaic.TcCoe Idealize.ShloMosaic.ValueIdx Idealize.SL.Sem
open Cert.KernelIdeal.Hand (prodAt at2 at2_ix2 cheb)

/-- The reference's whole matrix product is, entry by entry, the sum over the 16384 columns. -/
theorem ref_dot (L : FVec Ideal Cert.ReferenceIdeal.S16384x16384 .f32) (T : FVec Ideal Cert.ReferenceIdeal.S16384x16 .f32) :
    Host.dotGeneral (F := Ideal) Cert.ReferenceIdeal.dot_S16384x16384_S16384x16_S16384x16_1_0_0_1_n_n none L T
      = fun i => prodAt L T (i 0).val (i 1).val := by
  funext i
  have hi : i = ix2 (i 0) (i 1) := eq_ix2 i
  refine (congrArg _ hi).trans ((Cert.ReferenceIdeal.HostValue.dot_apply L T (i 0) (i 1)).trans ?_)
  unfold prodAt
  exact Finset.sum_congr rfl fun j _ => by rw [at2_ix2 L (i 0) j, at2_ix2 T j (i 1)]

/-- The reference's recurrence step is, entry by entry, twice that sum less the earlier vector. -/
theorem ref_step (L : FVec Ideal Cert.ReferenceIdeal.S16384x16384 .f32) (T Tp : FVec Ideal Cert.ReferenceIdeal.S16384x16 .f32) :
    Cert.ReferenceIdeal.HostValue.step (F := Ideal) L T Tp
      = fun i => Ideal.ofBits .f32 0x40000000#32 * prodAt L T (i 0).val (i 1).val - Tp i := by
  funext i
  have hi : i = ix2 (i 0) (i 1) := eq_ix2 i
  refine (congrArg _ hi).trans ((Cert.ReferenceIdeal.HostValue.step_apply L T Tp (i 0) (i 1)).trans ?_)
  have hT : Tp (ix2 (i 0) (i 1)) = Tp i := congrArg Tp hi.symm
  have hS : (∑ j : Fin 16384, L (ix2 (i 0) j) * T (ix2 j (i 1))) = prodAt L T (i 0).val (i 1).val := by
    unfold prodAt
    exact Finset.sum_congr rfl fun j _ => by rw [at2_ix2 L (i 0) j, at2_ix2 T j (i 1)]
  exact congrArg₂ (fun s t => Ideal.ofBits .f32 0x40000000#32 * s - t) hS hT

end Cert.RefCheb

end
-- ==== Proof.AlgRef.lean ====
/-
  The reference's side of the value claim. From memories that agree on the four arguments, the vectors the
  reference's run names are the Chebyshev vectors of the kernel's side, one after the other: T₀ is the same tiling,
  T₁ the same whole product, and each later one the same step of the two before it. Its result term is then the
  kernel's: the same fifteen projections of the same vectors, added in the same order, plus the same bias.
-/
import proofs.«108570_j29480655520371_2_alg».proof.Proof.AlgI

set_option maxRecDepth 16384

noncomputable section

namespace Cert.RefCheb

open Cert.ReferenceIdeal Cert.ReferenceIdeal.Gen Cert.ReferenceIdeal.Value
open Idealize.ShloMosaic Idealize.ShloMosaic.TcCoe Idealize.SL.Sem Idealize.ShloMosaic.StableHlo
open Cert.KernelIdeal.Hand (cheb cheb_zero cheb_one cheb_step LsA resultA prodAt)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))

include h0 in
/-- T₀: the same tiling of the same input. -/
theorem refT0 : res_main_v2 (launchContents m' c) = cheb m c 0 := by
  rw [HostValue.res_tx0, cheb_zero]
  exact (congrArg HostValue.tx0 h0).trans (Cert.HostEq.tx0_eq _).symm

include h0 h1 in
/-- T₁: the whole product of the same matrix and T₀. -/
theorem refT1 : res_main_v9 (launchContents m' c) = cheb m c 1 := by
  rw [HostValue.res_tx1, refT0 m m' c h0, ref_dot, cheb_one]
  exact congrArg (fun (L : Cert.KernelIdeal.S16384x16384.Idx → EReal) => fun (i : Cert.KernelIdeal.S16384x16.Idx) => prodAt L (cheb m c 0) (i 0).val (i 1).val) h1

include h0 h1 in
theorem refT2 : res_main_v20 (launchContents m' c) = cheb m c 2 := by
  rw [HostValue.res_tx2, refT1 m m' c h0 h1, refT0 m m' c h0, ref_step, cheb_step]
  exact congrArg (fun (L : Cert.KernelIdeal.S16384x16384.Idx → EReal) => fun (i : Cert.KernelIdeal.S16384x16.Idx) => Ideal.ofBits .f32 0x40000000#32 * prodAt L (cheb m c 1) (i 0).val (i 1).val - cheb m c 0 i) h1

include h0 h1 in
theorem refT3 : res_main_v31 (launchContents m' c) = cheb m c 3 := by
  rw [HostValue.res_tx3, refT2 m m' c h0 h1, refT1 m m' c h0 h1, ref_step, cheb_step]
  exact congrArg (fun (L : Cert.KernelIdeal.S16384x16384.Idx → EReal) => fun (i : Cert.KernelIdeal.S16384x16.Idx) => Ideal.ofBits .f32 0x40000000#32 * prodAt L (cheb m c 2) (i 0).val (i 1).val - cheb m c 1 i) h1

include h0 h1 in
theorem refT4 : res_main_v42 (launchContents m' c) = cheb m c 4 := by
  rw [HostValue.res_tx4, refT3 m m' c h0 h1, refT2 m m' c h0 h1, ref_step, cheb_step]
  exact congrArg (fun (L : Cert.KernelIdeal.S16384x16384.Idx → EReal) => fun (i : Cert.KernelIdeal.S16384x16.Idx) => Ideal.ofBits .f32 0x40000000#32 * prodAt L (cheb m c 3) (i 0).val (i 1).val - cheb m c 2 i) h1

include h0 h1 in
theorem refT5 : res_main_v53 (launchContents m' c) = cheb m c 5 := by
  rw [HostValue.res_tx5, refT4 m m' c h0 h1, refT3 m m' c h0 h1, ref_step, cheb_step]
  exact congrArg (fun (L : Cert.KernelIdeal.S16384x16384.Idx → EReal) => fun (i : Cert.KernelIdeal.S16384x16.Idx) => Ideal.ofBits .f32 0x40000000#32 * prodAt L (cheb m c 4) (i 0).val (i 1).val - cheb m c 3 i) h1

include h0 h1 in
theorem refT6 : res_main_v64 (launchContents m' c) = cheb m c 6 := by
  rw [HostValue.res_tx6, refT5 m m' c h0 h1, refT4 m m' c h0 h1, ref_step, cheb_step]
  exact congrArg (fun (L : Cert.KernelIdeal.S16384x16384.Idx → EReal) => fun (i : Cert.KernelIdeal.S16384x16.Idx) => Ideal.ofBits .f32 0x40000000#32 * prodAt L (cheb m c 5) (i 0).val (i 1).val - cheb m c 4 i) h1

include h0 h1 in
theorem refT7 : res_main_v75 (launchContents m' c) = cheb m c 7 := by
  rw [HostValue.res_tx7, refT6 m m' c h0 h1, refT5 m m' c h0 h1, ref_step, cheb_step]
  exact congrArg (fun (L : Cert.KernelIdeal.S16384x16384.Idx → EReal) => fun (i : Cert.KernelIdeal.S16384x16.Idx) => Ideal.ofBits .f32 0x40000000#32 * prodAt L (cheb m c 6) (i 0).val (i 1).val - cheb m c 5 i) h1

include h0 h1 in
theorem refT8 : res_main_v86 (launchContents m' c) = cheb m c 8 := by
  rw [HostValue.res_tx8, refT7 m m' c h0 h1, refT6 m m' c h0 h1, ref_step, cheb_step]
  exact congrArg (fun (L : Cert.KernelIdeal.S16384x16384.Idx → EReal) => fun (i : Cert.KernelIdeal.S16384x16.Idx) => Ideal.ofBits .f32 0x40000000#32 * prodAt L (cheb m c 7) (i 0).val (i 1).val - cheb m c 6 i) h1

include h0 h1 in
theorem refT9 : res_main_v97 (launchContents m' c) = cheb m c 9 := by
  rw [HostValue.res_tx9, refT8 m m' c h0 h1, refT7 m m' c h0 h1, ref_step, cheb_step]
  exact congrArg (fun (L : Cert.KernelIdeal.S16384x16384.Idx → EReal) => fun (i : Cert.KernelIdeal.S16384x16.Idx) => Ideal.ofBits .f32 0x40000000#32 * prodAt L (cheb m c 8) (i 0).val (i 1).val - cheb m c 7 i) h1

include h0 h1 in
theorem refT10 : res_main_v108 (launchContents m' c) = cheb m c 10 := by
  rw [HostValue.res_tx10, refT9 m m' c h0 h1, refT8 m m' c h0 h1, ref_step, cheb_step]
  exact congrArg (fun (L : Cert.KernelIdeal.S16384x16384.Idx → EReal) => fun (i : Cert.KernelIdeal.S16384x16.Idx) => Ideal.ofBits .f32 0x40000000#32 * prodAt L (cheb m c 9) (i 0).val (i 1).val - cheb m c 8 i) h1

include h0 h1 in
theorem refT11 : res_main_v119 (launchContents m' c) = cheb m c 11 := by
  rw [HostValue.res_tx11, refT10 m m' c h0 h1, refT9 m m' c h0 h1, ref_step, cheb_step]
  exact congrArg (fun (L : Cert.KernelIdeal.S16384x16384.Idx → EReal) => fun (i : Cert.KernelIdeal.S16384x16.Idx) => Ideal.ofBits .f32 0x40000000#32 * prodAt L (cheb m c 10) (i 0).val (i 1).val - cheb m c 9 i) h1

include h0 h1 in
theorem refT12 : res_main_v130 (launchContents m' c) = cheb m c 12 := by
  rw [HostValue.res_tx12, refT11 m m' c h0 h1, refT10 m m' c h0 h1, ref_step, cheb_step]
  exact congrArg (fun (L : Cert.KernelIdeal.S16384x16384.Idx → EReal) => fun (i : Cert.KernelIdeal.S16384x16.Idx) => Ideal.ofBits .f32 0x40000000#32 * prodAt L (cheb m c 11) (i 0).val (i 1).val - cheb m c 10 i) h1

include h0 h1 in
theorem refT13 : res_main_v141 (launchContents m' c) = cheb m c 13 := by
  rw [HostValue.res_tx13, refT12 m m' c h0 h1, refT11 m m' c h0 h1, ref_step, cheb_step]
  exact congrArg (fun (L : Cert.KernelIdeal.S16384x16384.Idx → EReal) => fun (i : Cert.KernelIdeal.S16384x16.Idx) => Ideal.ofBits .f32 0x40000000#32 * prodAt L (cheb m c 12) (i 0).val (i 1).val - cheb m c 11 i) h1

include h0 h1 in
/-- T₁₄, which the reference's run leaves unnamed: one more step. -/
theorem refT14 : HostValue.step ((launchContents m' c) (Proc.devRef .tc main_arg1)) (res_main_v141 (launchContents m' c)) (res_main_v130 (launchContents m' c)) = cheb m c 14 := by
  rw [refT13 m m' c h0 h1, refT12 m m' c h0 h1, ref_step, cheb_step]
  exact congrArg (fun (L : Cert.KernelIdeal.S16384x16384.Idx → EReal) => fun (i : Cert.KernelIdeal.S16384x16.Idx) => Ideal.ofBits .f32 0x40000000#32 * prodAt L (cheb m c 13) (i 0).val (i 1).val - cheb m c 12 i) h1

include h0 h1 h2 h3 in
/-- The reference's result, as its run states it, is the kernel's result. -/
theorem ref_result :
    HostValue.result ((launchContents m' c) (Proc.devRef .tc main_arg0)) ((launchContents m' c) (Proc.devRef .tc main_arg2)) ((launchContents m' c) (Proc.devRef .tc main_arg3))
      (res_main_v9 (launchContents m' c)) (res_main_v20 (launchContents m' c)) (res_main_v31 (launchContents m' c)) (res_main_v42 (launchContents m' c)) (res_main_v53 (launchContents m' c)) (res_main_v64 (launchContents m' c)) (res_main_v75 (launchContents m' c)) (res_main_v86 (launchContents m' c)) (res_main_v97 (launchContents m' c)) (res_main_v108 (launchContents m' c)) (res_main_v119 (launchContents m' c)) (res_main_v130 (launchContents m' c)) (res_main_v141 (launchContents m' c))
      (HostValue.step ((launchContents m' c) (Proc.devRef .tc main_arg1)) (res_main_v141 (launchContents m' c)) (res_main_v130 (launchContents m' c)))
      = resultA m c := by
  rw [refT14 m m' c h0 h1, refT1 m m' c h0 h1, refT2 m m' c h0 h1, refT3 m m' c h0 h1, refT4 m m' c h0 h1, refT5 m m' c h0 h1, refT6 m m' c h0 h1, refT7 m m' c h0 h1, refT8 m m' c h0 h1, refT9 m m' c h0 h1, refT10 m m' c h0 h1, refT11 m m' c h0 h1, refT12 m m' c h0 h1, refT13 m m' c h0 h1]
  unfold resultA
  rw [Cert.HostEq.result_eq]
  have e0 : launchContents m' c (Proc.devRef .tc main_arg0) = Cert.KernelIdeal.Gen.V0 m c (Proc.devRef .tc Cert.KernelIdeal.main_arg0) := h0
  have e2 : launchContents m' c (Proc.devRef .tc main_arg2) = Cert.KernelIdeal.Gen.V0 m c (Proc.devRef .tc Cert.KernelIdeal.main_arg2) := h2
  have e3 : launchContents m' c (Proc.devRef .tc main_arg3) = Cert.KernelIdeal.Gen.V0 m c (Proc.devRef .tc Cert.KernelIdeal.main_arg3) := h3
  rw [e0, e2, e3]

end Cert.RefCheb

end
-- ==== Proof.lean ====
/-
  The certificate: a Chebyshev graph convolution computed by fourteen kernel regions against its plain reference.

  With  T₀ = the input tiled eight times,  T₁ = Ls · T₀,  T_{k+2} = 2 · (Ls · T_{k+1}) − T_k,  both programs return
  the sum over k = 0 … 14 of the projections  reshape(T_k) · W_k,  plus the bias. The kernel computes each product
  Ls · T in one region: an 8 × 8 grid over 2048 × 2048 blocks of the matrix, an accumulator carried across the eight
  column blocks of a row block, and at the last one the combination  α · acc − β · T′  stored to two result blocks
  ((α, β) = (1, 0) for T₁, (2, 1) afterwards). At the extended reals the eight block sums added in order are the
  whole sum over the 16384 columns, a change of float format is the identity, and 1 · a − 0 · b = a, so each region's
  results are the reference's vector; the host operations around the regions are the reference's own.

  The three frames: each kernel program is its fifteen host stretches and fourteen regions chained as segments (every
  region's body run once per control case, its accumulator threaded through the pipeline's invariant); the
  reference's frame is its run with the result dropped. The idealization rewrote nothing.
-/
import proofs.«108570_j29480655520371_2_alg».proof.Defs
import proofs.«108570_j29480655520371_2_alg».proof.Proof.Gen.Kernel
import proofs.«108570_j29480655520371_2_alg».proof.Proof.Gen.KernelIdeal
import proofs.«108570_j29480655520371_2_alg».proof.Proof.Gen.ReferenceIdeal
import proofs.«108570_j29480655520371_2_alg».proof.Proof.Gen.ReferenceIdeal.Run
import proofs.«108570_j29480655520371_2_alg».proof.Proof.Gen.Pre_finite_inputs
import proofs.«108570_j29480655520371_2_alg».proof.Proof.FrameB
import proofs.«108570_j29480655520371_2_alg».proof.Proof.FrameI
import proofs.«108570_j29480655520371_2_alg».proof.Proof.AlgI
import proofs.«108570_j29480655520371_2_alg».proof.Proof.AlgRef
import Idealize.ShloMosaic.Adequacy
import Idealize.ShloMosaic.Init

noncomputable section

namespace Cert.Proof

open Idealize.ShloMosaic Idealize.SL.Sem

/-- The word-level program runs to the end and leaves its arguments as launched. -/
theorem frame_kernel : Cert.frame_Kernel := fun m ρ _ => Cert.Kernel.Hand.frame (F := Bits) m ρ

/-- So does its idealization, -/
theorem frame_kernelIdeal : Cert.frame_KernelIdeal := fun m ρ _ => Cert.KernelIdeal.Hand.frame (F := Ideal) m ρ

/-- and the reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At the extended reals the two programs, run from memories agreeing on the arguments, end with the same result: the
    kernel's regions leave the Chebyshev vectors the reference computes, and the projections around them are the
    reference's own operations. -/
theorem algebraic : Cert.algebraic_KernelIdeal_ReferenceIdeal := by
  intro m ρ m' ρ' _ hagree
  refine ⟨fun c => Cert.KernelIdeal.Hand.resultA m c, Cert.KernelIdeal.Hand.runA m ρ, ?_⟩
  refine (θ_run Cert.ReferenceIdeal.defs _ _).mono (fun _ h c => ⟨(h c).1.trans ?_, (h c).2⟩) (Cert.ReferenceIdeal.Value.run (F := Ideal) m' ρ')
  exact (Cert.ReferenceIdeal.HostValue.run_result m' c).trans
    (Cert.RefCheb.ref_result m m' c (hagree c).1 (hagree c).2.1 (hagree c).2.2.1 (hagree c).2.2.2)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
